-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S8x192x224x224 : Shape := ⟨4, ![8, 192, 224, 224]⟩
abbrev S8x20x4 : Shape := ⟨3, ![8, 20, 4]⟩
abbrev S_ : Shape := ⟨0, ![]⟩
abbrev S8x20x1 : Shape := ⟨3, ![8, 20, 1]⟩
abbrev S8x20 : Shape := ⟨2, ![8, 20]⟩
abbrev S224 : Shape := ⟨1, ![224]⟩
abbrev S1x1x224 : Shape := ⟨3, ![1, 1, 224]⟩
abbrev S8x20x224 : Shape := ⟨3, ![8, 20, 224]⟩
abbrev S8x20x224x1 : Shape := ⟨4, ![8, 20, 224, 1]⟩
abbrev S8x20x1x224 : Shape := ⟨4, ![8, 20, 1, 224]⟩
abbrev S8x20x224x224 : Shape := ⟨4, ![8, 20, 224, 224]⟩
abbrev S8x224x224 : Shape := ⟨3, ![8, 224, 224]⟩
abbrev S8x224x224x192 : Shape := ⟨4, ![8, 224, 224, 192]⟩

class Facts : Prop where
  bcast_S_S8x192x224x224 : S_.BroadcastsInDim S8x192x224x224 (![] : Fin 0 → Fin S8x192x224x224.rank)
  reducesTo_S8x192x224x224_S_d0_1_2_3 : S8x192x224x224.ReducesTo [0, 1, 2, 3] S_
  h_S_ : 0 < S_.numel
  bcast_S_S8x20x4 : S_.BroadcastsInDim S8x20x4 (![] : Fin 0 → Fin S8x20x4.rank)
  reducesTo_S8x20x4_S_d0_1_2 : S8x20x4.ReducesTo [0, 1, 2] S_
  slices_S8x20x4_S8x20x1_0_0_0 : S8x20x4.Slices ![0, 0, 0] S8x20x1
  shapeCasts_S8x20x1_S8x20 : S8x20x1.ShapeCasts S8x20
  slices_S8x20x4_S8x20x1_0_0_1 : S8x20x4.Slices ![0, 0, 1] S8x20x1
  slices_S8x20x4_S8x20x1_0_0_2 : S8x20x4.Slices ![0, 0, 2] S8x20x1
  slices_S8x20x4_S8x20x1_0_0_3 : S8x20x4.Slices ![0, 0, 3] S8x20x1
  bcast_S224_S1x1x224_2 : S224.BroadcastsInDim S1x1x224 (![2] : Fin 1 → Fin S1x1x224.rank)
  bcast_S8x20_S8x20x1_0_1 : S8x20.BroadcastsInDim S8x20x1 (![0, 1] : Fin 2 → Fin S8x20x1.rank)
  bcast_S1x1x224_S8x20x224_0_1_2 : S1x1x224.BroadcastsInDim S8x20x224 (![0, 1, 2] : Fin 3 → Fin S8x20x224.rank)
  bcast_S8x20x1_S8x20x224_0_1_2 : S8x20x1.BroadcastsInDim S8x20x224 (![0, 1, 2] : Fin 3 → Fin S8x20x224.rank)
  bcast_S8x20x224_S8x20x224x1_0_1_2 : S8x20x224.BroadcastsInDim S8x20x224x1 (![0, 1, 2] : Fin 3 → Fin S8x20x224x1.rank)
  bcast_S8x20x224_S8x20x1x224_0_1_3 : S8x20x224.BroadcastsInDim S8x20x1x224 (![0, 1, 3] : Fin 3 → Fin S8x20x1x224.rank)
  bcast_S8x20x224x1_S8x20x224x224_0_1_2_3 : S8x20x224x1.BroadcastsInDim S8x20x224x224 (![0, 1, 2, 3] : Fin 4 → Fin S8x20x224x224.rank)
  bcast_S8x20x1x224_S8x20x224x224_0_1_2_3 : S8x20x1x224.BroadcastsInDim S8x20x224x224 (![0, 1, 2, 3] : Fin 4 → Fin S8x20x224x224.rank)
  reducesTo_S8x20x224x224_S8x224x224_d1 : S8x20x224x224.ReducesTo [1] S8x224x224
  transposes_S8x192x224x224_S8x224x224x192_0_2_3_1 : S8x192x224x224.Transposes [0, 2, 3, 1] S8x224x224x192
  bcast_S_S8x224x224x192 : S_.BroadcastsInDim S8x224x224x192 (![] : Fin 0 → Fin S8x224x224x192.rank)
  reducesTo_S8x224x224x192_S8x224x224_d3 : S8x224x224x192.ReducesTo [3] S8x224x224
  reducesTo_S8x224x224_S_d0_1_2 : S8x224x224.ReducesTo [0, 1, 2] S_

variable [Facts]

def fn_part3 {F : FTy → Type} [FloatOps F] (main_v15 : IVec S_ 1) (main_v60 : FVec F S8x224x224 .f32) (main_cst_8 : FVec F S_ .f32) : IVec S_ 1 :=
  let main_v61 : FVec F S_ .f32 := (fun x v => Host.reduceAdd x v reducesTo_S8x224x224_S_d0_1_2 h_S_) main_v60 main_cst_8
  let main_cst_9 : FVec F S_ .f32 := constant S_ .f32 0x00000000#32
  let main_v62 : IVec S_ 1 := cmpf .ogt main_v61 main_cst_9
  let main_v63 : IVec S_ 1 := andi main_v15 main_v62
  main_v63

def fn_part2 {F : FTy → Type} [FloatOps F] (main_arg1 : FVec F S8x192x224x224 .f32) (main_v15 : IVec S_ 1) (main_v17 : IVec S8x20 32) (main_v25 : IVec S224 32) (main_v36 : IVec S8x20x224 1) (main_v39 : IVec S8x20x224 32) (main_v40 : IVec S8x20x224 32) : IVec S_ 1 :=
  let main_v41 : IVec S8x20x224 1 := cmpi .sge main_v39 main_v40
  let main_v42 : IVec S1x1x224 32 := broadcastInDim S1x1x224 ![2] bcast_S224_S1x1x224_2 main_v25
  let main_v43 : IVec S8x20x1 32 := broadcastInDim S8x20x1 ![0, 1] bcast_S8x20_S8x20x1_0_1 main_v17
  let main_v44 : IVec S8x20x224 32 := broadcastInDim S8x20x224 ![0, 1, 2] bcast_S1x1x224_S8x20x224_0_1_2 main_v42
  let main_v45 : IVec S8x20x224 32 := broadcastInDim S8x20x224 ![0, 1, 2] bcast_S8x20x1_S8x20x224_0_1_2 main_v43
  let main_v46 : IVec S8x20x224 1 := cmpi .slt main_v44 main_v45
  let main_v47 : IVec S8x20x224 1 := andi main_v41 main_v46
  let main_v48 : IVec S8x20x224x1 1 := broadcastInDim S8x20x224x1 ![0, 1, 2] bcast_S8x20x224_S8x20x224x1_0_1_2 main_v36
  let main_v49 : IVec S8x20x1x224 1 := broadcastInDim S8x20x1x224 ![0, 1, 3] bcast_S8x20x224_S8x20x1x224_0_1_3 main_v47
  let main_v50 : IVec S8x20x224x224 1 := broadcastInDim S8x20x224x224 ![0, 1, 2, 3] bcast_S8x20x224x1_S8x20x224x224_0_1_2_3 main_v48
  let main_v51 : IVec S8x20x224x224 1 := broadcastInDim S8x20x224x224 ![0, 1, 2, 3] bcast_S8x20x1x224_S8x20x224x224_0_1_2_3 main_v49
  let main_v52 : IVec S8x20x224x224 1 := andi main_v50 main_v51
  let main_c_5 : IVec S_ 1 := constantI S_ 1 0#1
  let main_v53 : IVec S8x224x224 1 := (fun x v => Host.reduce IntOp.ori x v reducesTo_S8x20x224x224_S8x224x224_d1 h_S_) main_v52 main_c_5
  let main_v54 : FVec F S8x224x224 .f32 := uitofp .f32 main_v53
  let main_v55 : FVec F S8x224x224x192 .f32 := (transpose S8x224x224x192 [0, 2, 3, 1] · transposes_S8x192x224x224_S8x224x224x192_0_2_3_1) main_arg1
  let main_cst_6 : FVec F S_ .f32 := constant S_ .f32 0x00000000#32
  let main_v56 : FVec F S8x224x224x192 .f32 := broadcastInDim S8x224x224x192 ![] bcast_S_S8x224x224x192 main_cst_6
  let main_v57 : IVec S8x224x224x192 1 := cmpf .une main_v55 main_v56
  let main_c_7 : IVec S_ 1 := constantI S_ 1 0#1
  let main_v58 : IVec S8x224x224 1 := (fun x v => Host.reduce IntOp.ori x v reducesTo_S8x224x224x192_S8x224x224_d3 h_S_) main_v57 main_c_7
  let main_v59 : FVec F S8x224x224 .f32 := uitofp .f32 main_v58
  let main_v60 : FVec F S8x224x224 .f32 := mulf main_v59 main_v54
  let main_cst_8 : FVec F S_ .f32 := constant S_ .f32 0x00000000#32
  fn_part3 (F := F) main_v15 main_v60 main_cst_8

def fn_part1 {F : FTy → Type} [FloatOps F] (main_arg1 : FVec F S8x192x224x224 .f32) (main_arg2 : IVec S8x20x4 32) (main_v15 : IVec S_ 1) (main_v16 : IVec S8x20x1 32) : IVec S_ 1 :=
  let main_v17 : IVec S8x20 32 := shapeCast S8x20 main_v16 shapeCasts_S8x20x1_S8x20
  let main_v18 : IVec S8x20x1 32 := (extractStridedSlice S8x20x1 ![0, 0, 1] · slices_S8x20x4_S8x20x1_0_0_1) main_arg2
  let main_v19 : IVec S8x20 32 := shapeCast S8x20 main_v18 shapeCasts_S8x20x1_S8x20
  let main_v20 : IVec S8x20x1 32 := (extractStridedSlice S8x20x1 ![0, 0, 2] · slices_S8x20x4_S8x20x1_0_0_2) main_arg2
  let main_v21 : IVec S8x20 32 := shapeCast S8x20 main_v20 shapeCasts_S8x20x1_S8x20
  let main_v22 : IVec S8x20x1 32 := (extractStridedSlice S8x20x1 ![0, 0, 3] · slices_S8x20x4_S8x20x1_0_0_3) main_arg2
  let main_v23 : IVec S8x20 32 := shapeCast S8x20 main_v22 shapeCasts_S8x20x1_S8x20
  let main_v24 : IVec S224 32 := iotaInDim S224 32 0
  let main_v25 : IVec S224 32 := iotaInDim S224 32 0
  let main_v26 : IVec S1x1x224 32 := broadcastInDim S1x1x224 ![2] bcast_S224_S1x1x224_2 main_v24
  let main_v27 : IVec S8x20x1 32 := broadcastInDim S8x20x1 ![0, 1] bcast_S8x20_S8x20x1_0_1 main_v19
  let main_v28 : IVec S8x20x224 32 := broadcastInDim S8x20x224 ![0, 1, 2] bcast_S1x1x224_S8x20x224_0_1_2 main_v26
  let main_v29 : IVec S8x20x224 32 := broadcastInDim S8x20x224 ![0, 1, 2] bcast_S8x20x1_S8x20x224_0_1_2 main_v27
  let main_v30 : IVec S8x20x224 1 := cmpi .sge main_v28 main_v29
  let main_v31 : IVec S1x1x224 32 := broadcastInDim S1x1x224 ![2] bcast_S224_S1x1x224_2 main_v24
  let main_v32 : IVec S8x20x1 32 := broadcastInDim S8x20x1 ![0, 1] bcast_S8x20_S8x20x1_0_1 main_v23
  let main_v33 : IVec S8x20x224 32 := broadcastInDim S8x20x224 ![0, 1, 2] bcast_S1x1x224_S8x20x224_0_1_2 main_v31
  let main_v34 : IVec S8x20x224 32 := broadcastInDim S8x20x224 ![0, 1, 2] bcast_S8x20x1_S8x20x224_0_1_2 main_v32
  let main_v35 : IVec S8x20x224 1 := cmpi .slt main_v33 main_v34
  let main_v36 : IVec S8x20x224 1 := andi main_v30 main_v35
  let main_v37 : IVec S1x1x224 32 := broadcastInDim S1x1x224 ![2] bcast_S224_S1x1x224_2 main_v25
  let main_v38 : IVec S8x20x1 32 := broadcastInDim S8x20x1 ![0, 1] bcast_S8x20_S8x20x1_0_1 main_v21
  let main_v39 : IVec S8x20x224 32 := broadcastInDim S8x20x224 ![0, 1, 2] bcast_S1x1x224_S8x20x224_0_1_2 main_v37
  let main_v40 : IVec S8x20x224 32 := broadcastInDim S8x20x224 ![0, 1, 2] bcast_S8x20x1_S8x20x224_0_1_2 main_v38
  fn_part2 (F := F) main_arg1 main_v15 main_v17 main_v25 main_v36 main_v39 main_v40

def fn {F : FTy → Type} [FloatOps F] (main_arg0 : FVec F S8x192x224x224 .f32) (main_arg1 : FVec F S8x192x224x224 .f32) (main_arg2 : IVec S8x20x4 32) : IVec S_ 1 :=
  let main_v0 : FVec F S8x192x224x224 .f32 := Host.absf main_arg0
  let main_cst : FVec F S_ .f32 := constant S_ .f32 0x7F800000#32
  let main_v1 : FVec F S8x192x224x224 .f32 := broadcastInDim S8x192x224x224 ![] bcast_S_S8x192x224x224 main_cst
  let main_v2 : IVec S8x192x224x224 1 := cmpf .olt main_v0 main_v1
  let main_c : IVec S_ 1 := constantI S_ 1 1#1
  let main_v3 : IVec S_ 1 := (fun x v => Host.reduce IntOp.andi x v reducesTo_S8x192x224x224_S_d0_1_2_3 h_S_) main_v2 main_c
  let main_v4 : FVec F S8x192x224x224 .f32 := Host.absf main_arg1
  let main_cst_0 : FVec F S_ .f32 := constant S_ .f32 0x7F800000#32
  let main_v5 : FVec F S8x192x224x224 .f32 := broadcastInDim S8x192x224x224 ![] bcast_S_S8x192x224x224 main_cst_0
  let main_v6 : IVec S8x192x224x224 1 := cmpf .olt main_v4 main_v5
  let main_c_1 : IVec S_ 1 := constantI S_ 1 1#1
  let main_v7 : IVec S_ 1 := (fun x v => Host.reduce IntOp.andi x v reducesTo_S8x192x224x224_S_d0_1_2_3 h_S_) main_v6 main_c_1
  let main_v8 : IVec S_ 1 := andi main_v3 main_v7
  let main_c_2 : IVec S_ 32 := constantI S_ 32 0#32
  let main_v9 : IVec S8x20x4 32 := broadcastInDim S8x20x4 ![] bcast_S_S8x20x4 main_c_2
  let main_v10 : IVec S8x20x4 1 := cmpi .sge main_arg2 main_v9
  let main_c_3 : IVec S_ 32 := constantI S_ 32 223#32
  let main_v11 : IVec S8x20x4 32 := broadcastInDim S8x20x4 ![] bcast_S_S8x20x4 main_c_3
  let main_v12 : IVec S8x20x4 1 := cmpi .sle main_arg2 main_v11
  let main_v13 : IVec S8x20x4 1 := andi main_v10 main_v12
  let main_c_4 : IVec S_ 1 := constantI S_ 1 1#1
  let main_v14 : IVec S_ 1 := (fun x v => Host.reduce IntOp.andi x v reducesTo_S8x20x4_S_d0_1_2 h_S_) main_v13 main_c_4
  let main_v15 : IVec S_ 1 := andi main_v8 main_v14
  let main_v16 : IVec S8x20x1 32 := (extractStridedSlice S8x20x1 ![0, 0, 0] · slices_S8x20x4_S8x20x1_0_0_0) main_arg2
  fn_part1 (F := F) main_arg1 main_arg2 main_v15 main_v16
-- ==== Kernel.lean ====
abbrev S8x192x224x224 : Shape := ⟨4, ![8, 192, 224, 224]⟩
abbrev S8x20x4 : Shape := ⟨3, ![8, 20, 4]⟩
abbrev S8x224x256 : Shape := ⟨3, ![8, 224, 256]⟩
abbrev S1x32x256 : Shape := ⟨3, ![1, 32, 256]⟩
abbrev S32x224 : Shape := ⟨2, ![32, 224]⟩
abbrev S1x1x1 : Shape := ⟨3, ![1, 1, 1]⟩
abbrev S32x7x32 : Shape := ⟨3, ![32, 7, 32]⟩
abbrev S32x7 : Shape := ⟨2, ![32, 7]⟩
abbrev S32x9 : Shape := ⟨2, ![32, 9]⟩
abbrev S32x16 : Shape := ⟨2, ![32, 16]⟩
abbrev S32x256 : Shape := ⟨2, ![32, 256]⟩
abbrev S32x32 : Shape := ⟨2, ![32, 32]⟩
abbrev S48x224 : Shape := ⟨2, ![48, 224]⟩
abbrev S8x16x256 : Shape := ⟨3, ![8, 16, 256]⟩
abbrev S7x2x16 : Shape := ⟨3, ![7, 2, 16]⟩
abbrev S32 : Shape := ⟨1, ![32]⟩
abbrev S_ : Shape := ⟨0, ![]⟩
abbrev S16 : Shape := ⟨1, ![16]⟩
abbrev S1x48x1x224 : Shape := ⟨4, ![1, 48, 1, 224]⟩
abbrev S1x1x16 : Shape := ⟨3, ![1, 1, 16]⟩
abbrev S1 : Shape := ⟨1, ![1]⟩
abbrev S1x16 : Shape := ⟨2, ![1, 16]⟩
abbrev S1x32 : Shape := ⟨2, ![1, 32]⟩
abbrev S1x1 : Shape := ⟨2, ![1, 1]⟩
abbrev S1x192x32x224 : Shape := ⟨4, ![1, 192, 32, 224]⟩
abbrev S192x32x224 : Shape := ⟨3, ![192, 32, 224]⟩
abbrev S1x32x224 : Shape := ⟨3, ![1, 32, 224]⟩

abbrev nBuf : Table → Nat
  | .hbm => 22
  | .local .tc .vmem => 6
  | .local .tc .smem => 4
  | .local .scVector .vmem => 8
  | _ => 0

abbrev bufTy : (tb : Table) → Fin (nBuf tb) → BufTy
  | .hbm, ⟨0, _⟩ => ⟨S8x192x224x224, .f32⟩
  | .hbm, ⟨1, _⟩ => ⟨S8x192x224x224, .f32⟩
  | .hbm, ⟨2, _⟩ => ⟨S8x20x4, .i32⟩
  | .hbm, ⟨3, _⟩ => ⟨S8x224x256, .f32⟩
  | .hbm, ⟨4, _⟩ => ⟨S32x32, .f32⟩
  | .hbm, ⟨5, _⟩ => ⟨S1x1, .f32⟩
  | .hbm, ⟨6, _⟩ => ⟨S1x1, .f32⟩
  | .hbm, ⟨7, _⟩ => ⟨S32x16, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S32x16, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local .tc .vmem, ⟨0, _⟩ => ⟨S1x32x256, .f32⟩
  | .local .tc .vmem, ⟨1, _⟩ => ⟨S1x32x256, .f32⟩
  | .local .tc .vmem, ⟨2, _⟩ => ⟨S1x192x32x224, .f32⟩
  | .local .tc .vmem, ⟨3, _⟩ => ⟨S1x192x32x224, .f32⟩
  | .local .tc .vmem, ⟨4, _⟩ => ⟨S1x192x32x224, .f32⟩
  | .local .tc .vmem, ⟨5, _⟩ => ⟨S1x192x32x224, .f32⟩
  | .local .tc .smem, ⟨0, _⟩ => ⟨S8x20x4, .i32⟩
  | .local .tc .smem, ⟨1, _⟩ => ⟨S8x20x4, .i32⟩
  | .local .tc .smem, ⟨2, _⟩ => ⟨S1x1, .f32⟩
  | .local .tc .smem, ⟨3, _⟩ => ⟨S1x1, .f32⟩
  | .local .scVector .vmem, ⟨0, _⟩ => ⟨S48x224, .f32⟩
  | .local .scVector .vmem, ⟨1, _⟩ => ⟨S48x224, .f32⟩
  | .local .scVector .vmem, ⟨2, _⟩ => ⟨S48x224, .f32⟩
  | .local .scVector .vmem, ⟨3, _⟩ => ⟨S48x224, .f32⟩
  | .local .scVector .vmem, ⟨4, _⟩ => ⟨S8x16x256, .f32⟩
  | .local .scVector .vmem, ⟨5, _⟩ => ⟨S7x2x16, .f32⟩
  | .local .scVector .vmem, ⟨6, _⟩ => ⟨S7x2x16, .f32⟩
  | .local .scVector .vmem, ⟨7, _⟩ => ⟨S32, .f32⟩
  | _, _ => ⟨S8x192x224x224, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | .smem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => true
  | ⟨1, _⟩ => true
  | ⟨2, _⟩ => true
  | ⟨3, _⟩ => false
  | ⟨4, _⟩ => false
  | ⟨5, _⟩ => false
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_arg0_scv : Ref sig .scVector := ⟨.hbm, 0, rfl⟩
abbrev main_arg1_scv : Ref sig .scVector := ⟨.hbm, 1, rfl⟩
abbrev main_v0_scv : Ref sig .scVector := ⟨.hbm, 3, rfl⟩
abbrev main_v1_scv : Ref sig .scVector := ⟨.hbm, 4, rfl⟩
abbrev cc0_stg1_0 : Ref sig .tc := ⟨.vmem, 0, rfl⟩
abbrev cc0_stg1_1 : Ref sig .tc := ⟨.vmem, 1, rfl⟩
abbrev cc2_stg1_0 : Ref sig .tc := ⟨.vmem, 2, rfl⟩
abbrev cc2_stg1_1 : Ref sig .tc := ⟨.vmem, 3, rfl⟩
abbrev cc2_stg2_0 : Ref sig .tc := ⟨.vmem, 4, rfl⟩
abbrev cc2_stg2_1 : Ref sig .tc := ⟨.vmem, 5, rfl⟩
abbrev cc0_stg0_0 : Ref sig .tc := ⟨.smem, 0, rfl⟩
abbrev cc2_stg0_0 : Ref sig .tc := ⟨.smem, 1, rfl⟩
abbrev cc2_stg3_0 : Ref sig .tc := ⟨.smem, 2, rfl⟩
abbrev cc2_stg4_0 : Ref sig .tc := ⟨.smem, 3, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc0_sem0_0 : DmaSem sig := 0
abbrev cc0_sem1_0 : DmaSem sig := 1
abbrev cc0_sem1_1 : DmaSem sig := 2
abbrev cc2_sem0_0 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem4_0 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![8, 7], ![false, false]⟩

def k0_off1 (i : grid0.Coords) : Fin 3 → Nat :=
  let arg0 : BitVec 32 := BitVec.ofNat 32 (i 0).val
  let v6 : Index := Scalar.indexCast arg0
  let c0 : Index := 0#32
  let c0_0 : Index := 0#32
  ![v6.toNat, 0, 0]
def k0_off2 (i : grid0.Coords) : Fin 3 → Nat :=
  let arg0 : BitVec 32 := BitVec.ofNat 32 (i 0).val
  let v8 : Index := Scalar.indexCast arg0
  let c0_1 : Index := 0#32
  let c1 : Index := 1#32
  ![v8.toNat, 0, 1]
def k0_off3 (i : grid0.Coords) : Fin 3 → Nat :=
  let arg0 : BitVec 32 := BitVec.ofNat 32 (i 0).val
  let v10 : Index := Scalar.indexCast arg0
  let c0_2 : Index := 0#32
  let c2 : Index := 2#32
  ![v10.toNat, 0, 2]
def k0_off4 (i : grid0.Coords) : Fin 3 → Nat :=
  let arg0 : BitVec 32 := BitVec.ofNat 32 (i 0).val
  let v12 : Index := Scalar.indexCast arg0
  let c0_3 : Index := 0#32
  let c3 : Index := 3#32
  ![v12.toNat, 0, 3]
def k0_off5 (i : grid0.Coords) : Fin 3 → Nat :=
  let arg0 : BitVec 32 := BitVec.ofNat 32 (i 0).val
  let v26 : Index := Scalar.indexCast arg0
  let c1_4 : Index := 1#32
  let c0_5 : Index := 0#32
  ![v26.toNat, 1, 0]
def k0_off6 (i : grid0.Coords) : Fin 3 → Nat :=
  let arg0 : BitVec 32 := BitVec.ofNat 32 (i 0).val
  let v28 : Index := Scalar.indexCast arg0
  let c1_6 : Index := 1#32
  let c1_7 : Index := 1#32
  ![v28.toNat, 1, 1]
def k0_off7 (i : grid0.Coords) : Fin 3 → Nat :=
  let arg0 : BitVec 32 := BitVec.ofNat 32 (i 0).val
  let v30 : Index := Scalar.indexCast arg0
  let c1_8 : Index := 1#32
  let c2_9 : Index := 2#32
  ![v30.toNat, 1, 2]
def k0_off8 (i : grid0.Coords) : Fin 3 → Nat :=
  let arg0 : BitVec 32 := BitVec.ofNat 32 (i 0).val
  let v32 : Index := Scalar.indexCast arg0
  let c1_10 : Index := 1#32
  let c3_11 : Index := 3#32
  ![v32.toNat, 1, 3]
def k0_off9 (i : grid0.Coords) : Fin 3 → Nat :=
  let arg0 : BitVec 32 := BitVec.ofNat 32 (i 0).val
  let v46 : Index := Scalar.indexCast arg0
  let c2_12 : Index := 2#32
  let c0_13 : Index := 0#32
  ![v46.toNat, 2, 0]
def k0_off10 (i : grid0.Coords) : Fin 3 → Nat :=
  let arg0 : BitVec 32 := BitVec.ofNat 32 (i 0).val
  let v48 : Index := Scalar.indexCast arg0
  let c2_14 : Index := 2#32
  let c1_15 : Index := 1#32
  ![v48.toNat, 2, 1]
def k0_off11 (i : grid0.Coords) : Fin 3 → Nat :=
  let arg0 : BitVec 32 := BitVec.ofNat 32 (i 0).val
  let v50 : Index := Scalar.indexCast arg0
  let c2_16 : Index := 2#32
  let c2_17 : Index := 2#32
  ![v50.toNat, 2, 2]
def k0_off12 (i : grid0.Coords) : Fin 3 → Nat :=
  let arg0 : BitVec 32 := BitVec.ofNat 32 (i 0).val
  let v52 : Index := Scalar.indexCast arg0
  let c2_18 : Index := 2#32
  let c3_19 : Index := 3#32
  ![v52.toNat, 2, 3]
def k0_off13 (i : grid0.Coords) : Fin 3 → Nat :=
  let arg0 : BitVec 32 := BitVec.ofNat 32 (i 0).val
  let v66 : Index := Scalar.indexCast arg0
  let c3_20 : Index := 3#32
  let c0_21 : Index := 0#32
  ![v66.toNat, 3, 0]
def k0_off14 (i : grid0.Coords) : Fin 3 → Nat :=
  let arg0 : BitVec 32 := BitVec.ofNat 32 (i 0).val
  let v68 : Index := Scalar.indexCast arg0
  let c3_22 : Index := 3#32
  let c1_23 : Index := 1#32
  ![v68.toNat, 3, 1]
def k0_off15 (i : grid0.Coords) : Fin 3 → Nat :=
  let arg0 : BitVec 32 := BitVec.ofNat 32 (i 0).val
  let v70 : Index := Scalar.indexCast arg0
  let c3_24 : Index := 3#32
  let c2_25 : Index := 2#32
  ![v70.toNat, 3, 2]
def k0_off16 (i : grid0.Coords) : Fin 3 → Nat :=
  let arg0 : BitVec 32 := BitVec.ofNat 32 (i 0).val
  let v72 : Index := Scalar.indexCast arg0
  let c3_26 : Index := 3#32
  let c3_27 : Index := 3#32
  ![v72.toNat, 3, 3]
def k0_off17 (i : grid0.Coords) : Fin 3 → Nat :=
  let arg0 : BitVec 32 := BitVec.ofNat 32 (i 0).val
  let v86 : Index := Scalar.indexCast arg0
  let c4 : Index := 4#32
  let c0_28 : Index := 0#32
  ![v86.toNat, 4, 0]
def k0_off18 (i : grid0.Coords) : Fin 3 → Nat :=
  let arg0 : BitVec 32 := BitVec.ofNat 32 (i 0).val
  let v88 : Index := Scalar.indexCast arg0
  let c4_29 : Index := 4#32
  let c1_30 : Index := 1#32
  ![v88.toNat, 4, 1]
def k0_off19 (i : grid0.Coords) : Fin 3 → Nat :=
  let arg0 : BitVec 32 := BitVec.ofNat 32 (i 0).val
  let v90 : Index := Scalar.indexCast arg0
  let c4_31 : Index := 4#32
  let c2_32 : Index := 2#32
  ![v90.toNat, 4, 2]
def k0_off20 (i : grid0.Coords) : Fin 3 → Nat :=
  let arg0 : BitVec 32 := BitVec.ofNat 32 (i 0).val
  let v92 : Index := Scalar.indexCast arg0
  let c4_33 : Index := 4#32
  let c3_34 : Index := 3#32
  ![v92.toNat, 4, 3]
def k0_off21 (i : grid0.Coords) : Fin 3 → Nat :=
  let arg0 : BitVec 32 := BitVec.ofNat 32 (i 0).val
  let v106 : Index := Scalar.indexCast arg0
  let c5 : Index := 5#32
  let c0_35 : Index := 0#32
  ![v106.toNat, 5, 0]
def k0_off22 (i : grid0.Coords) : Fin 3 → Nat :=
  let arg0 : BitVec 32 := BitVec.ofNat 32 (i 0).val
  let v108 : Index := Scalar.indexCast arg0
  let c5_36 : Index := 5#32
  let c1_37 : Index := 1#32
  ![v108.toNat, 5, 1]
def k0_off23 (i : grid0.Coords) : Fin 3 → Nat :=
  let arg0 : BitVec 32 := BitVec.ofNat 32 (i 0).val
  let v110 : Index := Scalar.indexCast arg0
  let c5_38 : Index := 5#32
  let c2_39 : Index := 2#32
  ![v110.toNat, 5, 2]
def k0_off24 (i : grid0.Coords) : Fin 3 → Nat :=
  let arg0 : BitVec 32 := BitVec.ofNat 32 (i 0).val
  let v112 : Index := Scalar.indexCast arg0
  let c5_40 : Index := 5#32
  let c3_41 : Index := 3#32
  ![v112.toNat, 5, 3]
def k0_off25 (i : grid0.Coords) : Fin 3 → Nat :=
  let arg0 : BitVec 32 := BitVec.ofNat 32 (i 0).val
  let v126 : Index := Scalar.indexCast arg0
  let c6 : Index := 6#32
  let c0_42 : Index := 0#32
  ![v126.toNat, 6, 0]
def k0_off26 (i : grid0.Coords) : Fin 3 → Nat :=
  let arg0 : BitVec 32 := BitVec.ofNat 32 (i 0).val
  let v128 : Index := Scalar.indexCast arg0
  let c6_43 : Index := 6#32
  let c1_44 : Index := 1#32
  ![v128.toNat, 6, 1]
def k0_off27 (i : grid0.Coords) : Fin 3 → Nat :=
  let arg0 : BitVec 32 := BitVec.ofNat 32 (i 0).val
  let v130 : Index := Scalar.indexCast arg0
  let c6_45 : Index := 6#32
  let c2_46 : Index := 2#32
  ![v130.toNat, 6, 2]
def k0_off28 (i : grid0.Coords) : Fin 3 → Nat :=
  let arg0 : BitVec 32 := BitVec.ofNat 32 (i 0).val
  let v132 : Index := Scalar.indexCast arg0
  let c6_47 : Index := 6#32
  let c3_48 : Index := 3#32
  ![v132.toNat, 6, 3]
def k0_off29 (i : grid0.Coords) : Fin 3 → Nat :=
  let arg0 : BitVec 32 := BitVec.ofNat 32 (i 0).val
  let v146 : Index := Scalar.indexCast arg0
  let c7 : Index := 7#32
  let c0_49 : Index := 0#32
  ![v146.toNat, 7, 0]
def k0_off30 (i : grid0.Coords) : Fin 3 → Nat :=
  let arg0 : BitVec 32 := BitVec.ofNat 32 (i 0).val
  let v148 : Index := Scalar.indexCast arg0
  let c7_50 : Index := 7#32
  let c1_51 : Index := 1#32
  ![v148.toNat, 7, 1]
def k0_off31 (i : grid0.Coords) : Fin 3 → Nat :=
  let arg0 : BitVec 32 := BitVec.ofNat 32 (i 0).val
  let v150 : Index := Scalar.indexCast arg0
  let c7_52 : Index := 7#32
  let c2_53 : Index := 2#32
  ![v150.toNat, 7, 2]
def k0_off32 (i : grid0.Coords) : Fin 3 → Nat :=
  let arg0 : BitVec 32 := BitVec.ofNat 32 (i 0).val
  let v152 : Index := Scalar.indexCast arg0
  let c7_54 : Index := 7#32
  let c3_55 : Index := 3#32
  ![v152.toNat, 7, 3]
def k0_off33 (i : grid0.Coords) : Fin 3 → Nat :=
  let arg0 : BitVec 32 := BitVec.ofNat 32 (i 0).val
  let v166 : Index := Scalar.indexCast arg0
  let c8 : Index := 8#32
  let c0_56 : Index := 0#32
  ![v166.toNat, 8, 0]
def k0_off34 (i : grid0.Coords) : Fin 3 → Nat :=
  let arg0 : BitVec 32 := BitVec.ofNat 32 (i 0).val
  let v168 : Index := Scalar.indexCast arg0
  let c8_57 : Index := 8#32
  let c1_58 : Index := 1#32
  ![v168.toNat, 8, 1]
def k0_off35 (i : grid0.Coords) : Fin 3 → Nat :=
  let arg0 : BitVec 32 := BitVec.ofNat 32 (i 0).val
  let v170 : Index := Scalar.indexCast arg0
  let c8_59 : Index := 8#32
  let c2_60 : Index := 2#32
  ![v170.toNat, 8, 2]
def k0_off36 (i : grid0.Coords) : Fin 3 → Nat :=
  let arg0 : BitVec 32 := BitVec.ofNat 32 (i 0).val
  let v172 : Index := Scalar.indexCast arg0
  let c8_61 : Index := 8#32
  let c3_62 : Index := 3#32
  ![v172.toNat, 8, 3]
def k0_off37 (i : grid0.Coords) : Fin 3 → Nat :=
  let arg0 : BitVec 32 := BitVec.ofNat 32 (i 0).val
  let v186 : Index := Scalar.indexCast arg0
  let c9 : Index := 9#32
  let c0_63 : Index := 0#32
  ![v186.toNat, 9, 0]
def k0_off38 (i : grid0.Coords) : Fin 3 → Nat :=
  let arg0 : BitVec 32 := BitVec.ofNat 32 (i 0).val
  let v188 : Index := Scalar.indexCast arg0
  let c9_64 : Index := 9#32
  let c1_65 : Index := 1#32
  ![v188.toNat, 9, 1]
def k0_off39 (i : grid0.Coords) : Fin 3 → Nat :=
  let arg0 : BitVec 32 := BitVec.ofNat 32 (i 0).val
  let v190 : Index := Scalar.indexCast arg0
  let c9_66 : Index := 9#32
  let c2_67 : Index := 2#32
  ![v190.toNat, 9, 2]
def k0_off40 (i : grid0.Coords) : Fin 3 → Nat :=
  let arg0 : BitVec 32 := BitVec.ofNat 32 (i 0).val
  let v192 : Index := Scalar.indexCast arg0
  let c9_68 : Index := 9#32
  let c3_69 : Index := 3#32
  ![v192.toNat, 9, 3]
def k0_off41 (i : grid0.Coords) : Fin 3 → Nat :=
  let arg0 : BitVec 32 := BitVec.ofNat 32 (i 0).val
  let v206 : Index := Scalar.indexCast arg0
  let c10 : Index := 10#32
  let c0_70 : Index := 0#32
  ![v206.toNat, 10, 0]
def k0_off42 (i : grid0.Coords) : Fin 3 → Nat :=
  let arg0 : BitVec 32 := BitVec.ofNat 32 (i 0).val
  let v208 : Index := Scalar.indexCast arg0
  let c10_71 : Index := 10#32
  let c1_72 : Index := 1#32
  ![v208.toNat, 10, 1]
def k0_off43 (i : grid0.Coords) : Fin 3 → Nat :=
  let arg0 : BitVec 32 := BitVec.ofNat 32 (i 0).val
  let v210 : Index := Scalar.indexCast arg0
  let c10_73 : Index := 10#32
  let c2_74 : Index := 2#32
  ![v210.toNat, 10, 2]
def k0_off44 (i : grid0.Coords) : Fin 3 → Nat :=
  let arg0 : BitVec 32 := BitVec.ofNat 32 (i 0).val
  let v212 : Index := Scalar.indexCast arg0
  let c10_75 : Index := 10#32
  let c3_76 : Index := 3#32
  ![v212.toNat, 10, 3]
def k0_off45 (i : grid0.Coords) : Fin 3 → Nat :=
  let arg0 : BitVec 32 := BitVec.ofNat 32 (i 0).val
  let v226 : Index := Scalar.indexCast arg0
  let c11 : Index := 11#32
  let c0_77 : Index := 0#32
  ![v226.toNat, 11, 0]
def k0_off46 (i : grid0.Coords) : Fin 3 → Nat :=
  let arg0 : BitVec 32 := BitVec.ofNat 32 (i 0).val
  let v228 : Index := Scalar.indexCast arg0
  let c11_78 : Index := 11#32
  let c1_79 : Index := 1#32
  ![v228.toNat, 11, 1]
def k0_off47 (i : grid0.Coords) : Fin 3 → Nat :=
  let arg0 : BitVec 32 := BitVec.ofNat 32 (i 0).val
  let v230 : Index := Scalar.indexCast arg0
  let c11_80 : Index := 11#32
  let c2_81 : Index := 2#32
  ![v230.toNat, 11, 2]
def k0_off48 (i : grid0.Coords) : Fin 3 → Nat :=
  let arg0 : BitVec 32 := BitVec.ofNat 32 (i 0).val
  let v232 : Index := Scalar.indexCast arg0
  let c11_82 : Index := 11#32
  let c3_83 : Index := 3#32
  ![v232.toNat, 11, 3]
def k0_off49 (i : grid0.Coords) : Fin 3 → Nat :=
  let arg0 : BitVec 32 := BitVec.ofNat 32 (i 0).val
  let v246 : Index := Scalar.indexCast arg0
  let c12 : Index := 12#32
  let c0_84 : Index := 0#32
  ![v246.toNat, 12, 0]
def k0_off50 (i : grid0.Coords) : Fin 3 → Nat :=
  let arg0 : BitVec 32 := BitVec.ofNat 32 (i 0).val
  let v248 : Index := Scalar.indexCast arg0
  let c12_85 : Index := 12#32
  let c1_86 : Index := 1#32
  ![v248.toNat, 12, 1]
def k0_off51 (i : grid0.Coords) : Fin 3 → Nat :=
  let arg0 : BitVec 32 := BitVec.ofNat 32 (i 0).val
  let v250 : Index := Scalar.indexCast arg0
  let c12_87 : Index := 12#32
  let c2_88 : Index := 2#32
  ![v250.toNat, 12, 2]
def k0_off52 (i : grid0.Coords) : Fin 3 → Nat :=
  let arg0 : BitVec 32 := BitVec.ofNat 32 (i 0).val
  let v252 : Index := Scalar.indexCast arg0
  let c12_89 : Index := 12#32
  let c3_90 : Index := 3#32
  ![v252.toNat, 12, 3]
def k0_off53 (i : grid0.Coords) : Fin 3 → Nat :=
  let arg0 : BitVec 32 := BitVec.ofNat 32 (i 0).val
  let v266 : Index := Scalar.indexCast arg0
  let c13 : Index := 13#32
  let c0_91 : Index := 0#32
  ![v266.toNat, 13, 0]
def k0_off54 (i : grid0.Coords) : Fin 3 → Nat :=
  let arg0 : BitVec 32 := BitVec.ofNat 32 (i 0).val
  let v268 : Index := Scalar.indexCast arg0
  let c13_92 : Index := 13#32
  let c1_93 : Index := 1#32
  ![v268.toNat, 13, 1]
def k0_off55 (i : grid0.Coords) : Fin 3 → Nat :=
  let arg0 : BitVec 32 := BitVec.ofNat 32 (i 0).val
  let v270 : Index := Scalar.indexCast arg0
  let c13_94 : Index := 13#32
  let c2_95 : Index := 2#32
  ![v270.toNat, 13, 2]
def k0_off56 (i : grid0.Coords) : Fin 3 → Nat :=
  let arg0 : BitVec 32 := BitVec.ofNat 32 (i 0).val
  let v272 : Index := Scalar.indexCast arg0
  let c13_96 : Index := 13#32
  let c3_97 : Index := 3#32
  ![v272.toNat, 13, 3]
def k0_off57 (i : grid0.Coords) : Fin 3 → Nat :=
  let arg0 : BitVec 32 := BitVec.ofNat 32 (i 0).val
  let v286 : Index := Scalar.indexCast arg0
  let c14 : Index := 14#32
  let c0_98 : Index := 0#32
  ![v286.toNat, 14, 0]
def k0_off58 (i : grid0.Coords) : Fin 3 → Nat :=
  let arg0 : BitVec 32 := BitVec.ofNat 32 (i 0).val
  let v288 : Index := Scalar.indexCast arg0
  let c14_99 : Index := 14#32
  let c1_100 : Index := 1#32
  ![v288.toNat, 14, 1]
def k0_off59 (i : grid0.Coords) : Fin 3 → Nat :=
  let arg0 : BitVec 32 := BitVec.ofNat 32 (i 0).val
  let v290 : Index := Scalar.indexCast arg0
  let c14_101 : Index := 14#32
  let c2_102 : Index := 2#32
  ![v290.toNat, 14, 2]
def k0_off60 (i : grid0.Coords) : Fin 3 → Nat :=
  let arg0 : BitVec 32 := BitVec.ofNat 32 (i 0).val
  let v292 : Index := Scalar.indexCast arg0
  let c14_103 : Index := 14#32
  let c3_104 : Index := 3#32
  ![v292.toNat, 14, 3]
def k0_off61 (i : grid0.Coords) : Fin 3 → Nat :=
  let arg0 : BitVec 32 := BitVec.ofNat 32 (i 0).val
  let v306 : Index := Scalar.indexCast arg0
  let c15 : Index := 15#32
  let c0_105 : Index := 0#32
  ![v306.toNat, 15, 0]
def k0_off62 (i : grid0.Coords) : Fin 3 → Nat :=
  let arg0 : BitVec 32 := BitVec.ofNat 32 (i 0).val
  let v308 : Index := Scalar.indexCast arg0
  let c15_106 : Index := 15#32
  let c1_107 : Index := 1#32
  ![v308.toNat, 15, 1]
def k0_off63 (i : grid0.Coords) : Fin 3 → Nat :=
  let arg0 : BitVec 32 := BitVec.ofNat 32 (i 0).val
  let v310 : Index := Scalar.indexCast arg0
  let c15_108 : Index := 15#32
  let c2_109 : Index := 2#32
  ![v310.toNat, 15, 2]
def k0_off64 (i : grid0.Coords) : Fin 3 → Nat :=
  let arg0 : BitVec 32 := BitVec.ofNat 32 (i 0).val
  let v312 : Index := Scalar.indexCast arg0
  let c15_110 : Index := 15#32
  let c3_111 : Index := 3#32
  ![v312.toNat, 15, 3]
def k0_off65 (i : grid0.Coords) : Fin 3 → Nat :=
  let arg0 : BitVec 32 := BitVec.ofNat 32 (i 0).val
  let v326 : Index := Scalar.indexCast arg0
  let c16 : Index := 16#32
  let c0_112 : Index := 0#32
  ![v326.toNat, 16, 0]
def k0_off66 (i : grid0.Coords) : Fin 3 → Nat :=
  let arg0 : BitVec 32 := BitVec.ofNat 32 (i 0).val
  let v328 : Index := Scalar.indexCast arg0
  let c16_113 : Index := 16#32
  let c1_114 : Index := 1#32
  ![v328.toNat, 16, 1]
def k0_off67 (i : grid0.Coords) : Fin 3 → Nat :=
  let arg0 : BitVec 32 := BitVec.ofNat 32 (i 0).val
  let v330 : Index := Scalar.indexCast arg0
  let c16_115 : Index := 16#32
  let c2_116 : Index := 2#32
  ![v330.toNat, 16, 2]
def k0_off68 (i : grid0.Coords) : Fin 3 → Nat :=
  let arg0 : BitVec 32 := BitVec.ofNat 32 (i 0).val
  let v332 : Index := Scalar.indexCast arg0
  let c16_117 : Index := 16#32
  let c3_118 : Index := 3#32
  ![v332.toNat, 16, 3]
def k0_off69 (i : grid0.Coords) : Fin 3 → Nat :=
  let arg0 : BitVec 32 := BitVec.ofNat 32 (i 0).val
  let v346 : Index := Scalar.indexCast arg0
  let c17 : Index := 17#32
  let c0_119 : Index := 0#32
  ![v346.toNat, 17, 0]
def k0_off70 (i : grid0.Coords) : Fin 3 → Nat :=
  let arg0 : BitVec 32 := BitVec.ofNat 32 (i 0).val
  let v348 : Index := Scalar.indexCast arg0
  let c17_120 : Index := 17#32
  let c1_121 : Index := 1#32
  ![v348.toNat, 17, 1]
def k0_off71 (i : grid0.Coords) : Fin 3 → Nat :=
  let arg0 : BitVec 32 := BitVec.ofNat 32 (i 0).val
  let v350 : Index := Scalar.indexCast arg0
  let c17_122 : Index := 17#32
  let c2_123 : Index := 2#32
  ![v350.toNat, 17, 2]
def k0_off72 (i : grid0.Coords) : Fin 3 → Nat :=
  let arg0 : BitVec 32 := BitVec.ofNat 32 (i 0).val
  let v352 : Index := Scalar.indexCast arg0
  let c17_124 : Index := 17#32
  let c3_125 : Index := 3#32
  ![v352.toNat, 17, 3]
def k0_off73 (i : grid0.Coords) : Fin 3 → Nat :=
  let arg0 : BitVec 32 := BitVec.ofNat 32 (i 0).val
  let v366 : Index := Scalar.indexCast arg0
  let c18 : Index := 18#32
  let c0_126 : Index := 0#32
  ![v366.toNat, 18, 0]
def k0_off74 (i : grid0.Coords) : Fin 3 → Nat :=
  let arg0 : BitVec 32 := BitVec.ofNat 32 (i 0).val
  let v368 : Index := Scalar.indexCast arg0
  let c18_127 : Index := 18#32
  let c1_128 : Index := 1#32
  ![v368.toNat, 18, 1]
def k0_off75 (i : grid0.Coords) : Fin 3 → Nat :=
  let arg0 : BitVec 32 := BitVec.ofNat 32 (i 0).val
  let v370 : Index := Scalar.indexCast arg0
  let c18_129 : Index := 18#32
  let c2_130 : Index := 2#32
  ![v370.toNat, 18, 2]
def k0_off76 (i : grid0.Coords) : Fin 3 → Nat :=
  let arg0 : BitVec 32 := BitVec.ofNat 32 (i 0).val
  let v372 : Index := Scalar.indexCast arg0
  let c18_131 : Index := 18#32
  let c3_132 : Index := 3#32
  ![v372.toNat, 18, 3]
def k0_off77 (i : grid0.Coords) : Fin 3 → Nat :=
  let arg0 : BitVec 32 := BitVec.ofNat 32 (i 0).val
  let v386 : Index := Scalar.indexCast arg0
  let c19 : Index := 19#32
  let c0_133 : Index := 0#32
  ![v386.toNat, 19, 0]
def k0_off78 (i : grid0.Coords) : Fin 3 → Nat :=
  let arg0 : BitVec 32 := BitVec.ofNat 32 (i 0).val
  let v388 : Index := Scalar.indexCast arg0
  let c19_134 : Index := 19#32
  let c1_135 : Index := 1#32
  ![v388.toNat, 19, 1]
def k0_off79 (i : grid0.Coords) : Fin 3 → Nat :=
  let arg0 : BitVec 32 := BitVec.ofNat 32 (i 0).val
  let v390 : Index := Scalar.indexCast arg0
  let c19_136 : Index := 19#32
  let c2_137 : Index := 2#32
  ![v390.toNat, 19, 2]
def k0_off80 (i : grid0.Coords) : Fin 3 → Nat :=
  let arg0 : BitVec 32 := BitVec.ofNat 32 (i 0).val
  let v392 : Index := Scalar.indexCast arg0
  let c19_138 : Index := 19#32
  let c3_139 : Index := 3#32
  ![v392.toNat, 19, 3]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8x20x4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![2, 16], ![false, false]⟩

def k1_off1 (i : grid1.Coords) : Fin 3 → Nat :=
  let c0_i32_31_r0 : BitVec 32 := 0#32
  let c160_i32 : BitVec 32 := 160#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi c160_i32 v2
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c8_i32 : BitVec 32 := 8#32
  let c0_i32_2 : BitVec 32 := 0#32
  let v10 : BitVec 1 := Scalar.cmpi .sgt c8_i32 c0_i32_2
  let v11 : BitVec 32 := Scalar.extui v10
  let c0_i32_3 : BitVec 32 := 0#32
  let v12 : BitVec 1 := Scalar.cmpi .slt c8_i32 c0_i32_3
  let v13 : BitVec 32 := Scalar.extui v12
  let v14 : BitVec 32 := Scalar.subi v11 v13
  let v15 : BitVec 1 := Scalar.cmpi .ne v9 v14
  let v16 : BitVec 32 := Scalar.remsi v3 c8_i32
  let c0_i32_4 : BitVec 32 := 0#32
  let v17 : BitVec 1 := Scalar.cmpi .ne v16 c0_i32_4
  let v18 : BitVec 1 := Scalar.andi v15 v17
  let v4 : BitVec 32 := Scalar.divsi v3 c8_i32
  let c1_i32 : BitVec 32 := 1#32
  let v19 : BitVec 32 := Scalar.subi v4 c1_i32
  let v20 : BitVec 32 := Scalar.select v18 v19 v4
  let c8_i32_5 : BitVec 32 := 8#32
  let v21 : BitVec 32 := Scalar.muli v20 c8_i32_5
  let c208_i32 : BitVec 32 := 208#32
  let v22 : BitVec 32 := Scalar.minsi v21 c208_i32
  let c0_i32_32_r0 : BitVec 32 := 0#32
  ![0, v22.toNat, 0]
def k1_off2 (i : grid1.Coords) : Fin 4 → Nat :=
  let c0_i32_8 : BitVec 32 := 0#32
  let c0_i32_9 : BitVec 32 := 0#32
  let c160_i32 : BitVec 32 := 160#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi c160_i32 v2
  let c0_i32_7 : BitVec 32 := 0#32
  let v26 : BitVec 32 := Scalar.addi v3 c0_i32_7
  let c0_i32_10 : BitVec 32 := 0#32
  ![0, 0, v26.toNat, 0]
def k1_off3 (i : grid1.Coords) : Fin 4 → Nat :=
  let c0_i32_19 : BitVec 32 := 0#32
  let c48_i32 : BitVec 32 := 48#32
  let c160_i32 : BitVec 32 := 160#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi c160_i32 v2
  let c0_i32_18 : BitVec 32 := 0#32
  let v35 : BitVec 32 := Scalar.addi v3 c0_i32_18
  let c0_i32_20 : BitVec 32 := 0#32
  ![0, 48, v35.toNat, 0]
@[reducible] def k1_t1_loop : Scf.Loop 32 :=
  let c0_i32_28 : BitVec 32 := 0#32
  let c16_i32 : BitVec 32 := 16#32
  let v44 : BitVec 32 := Scalar.addi c0_i32_28 c16_i32
  let c1_i32_29 : BitVec 32 := 1#32
  ⟨c0_i32_28, v44, c1_i32_29⟩
def k1_off4 (i : grid1.Coords) (k1_t1 : Fin k1_t1_loop.trips) : Fin 3 → Nat :=
  let c0_i32_28 : BitVec 32 := 0#32
  let c1_i32_29 : BitVec 32 := 1#32
  let arg18 : BitVec 32 := Scf.iv c0_i32_28 c1_i32_29 k1_t1
  let c15_i32 : BitVec 32 := 15#32
  let v52 : BitVec 32 := Scalar.minsi arg18 c15_i32
  let c0_i32_32 : BitVec 32 := 0#32
  let v54 : BitVec 1 := Scalar.cmpi .sgt v52 c0_i32_32
  let v55 : BitVec 32 := Scalar.extui v54
  let c0_i32_33 : BitVec 32 := 0#32
  let v56 : BitVec 1 := Scalar.cmpi .slt v52 c0_i32_33
  let v57 : BitVec 32 := Scalar.extui v56
  let v58 : BitVec 32 := Scalar.subi v55 v57
  let c2_i32_31 : BitVec 32 := 2#32
  let c0_i32_34 : BitVec 32 := 0#32
  let v59 : BitVec 1 := Scalar.cmpi .sgt c2_i32_31 c0_i32_34
  let v60 : BitVec 32 := Scalar.extui v59
  let c0_i32_35 : BitVec 32 := 0#32
  let v61 : BitVec 1 := Scalar.cmpi .slt c2_i32_31 c0_i32_35
  let v62 : BitVec 32 := Scalar.extui v61
  let v63 : BitVec 32 := Scalar.subi v60 v62
  let v64 : BitVec 1 := Scalar.cmpi .ne v58 v63
  let v65 : BitVec 32 := Scalar.remsi v52 c2_i32_31
  let c0_i32_36 : BitVec 32 := 0#32
  let v66 : BitVec 1 := Scalar.cmpi .ne v65 c0_i32_36
  let v67 : BitVec 1 := Scalar.andi v64 v66
  let v53 : BitVec 32 := Scalar.divsi v52 c2_i32_31
  let c1_i32_37 : BitVec 32 := 1#32
  let v68 : BitVec 32 := Scalar.subi v53 c1_i32_37
  let v69 : BitVec 32 := Scalar.select v67 v68 v53
  let v81 : Index := Scalar.indexCast v69
  let c160_i32 : BitVec 32 := 160#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi c160_i32 v2
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c8_i32 : BitVec 32 := 8#32
  let c0_i32_2 : BitVec 32 := 0#32
  let v10 : BitVec 1 := Scalar.cmpi .sgt c8_i32 c0_i32_2
  let v11 : BitVec 32 := Scalar.extui v10
  let c0_i32_3 : BitVec 32 := 0#32
  let v12 : BitVec 1 := Scalar.cmpi .slt c8_i32 c0_i32_3
  let v13 : BitVec 32 := Scalar.extui v12
  let v14 : BitVec 32 := Scalar.subi v11 v13
  let v15 : BitVec 1 := Scalar.cmpi .ne v9 v14
  let v16 : BitVec 32 := Scalar.remsi v3 c8_i32
  let c0_i32_4 : BitVec 32 := 0#32
  let v17 : BitVec 1 := Scalar.cmpi .ne v16 c0_i32_4
  let v18 : BitVec 1 := Scalar.andi v15 v17
  let v4 : BitVec 32 := Scalar.divsi v3 c8_i32
  let c1_i32 : BitVec 32 := 1#32
  let v19 : BitVec 32 := Scalar.subi v4 c1_i32
  let v20 : BitVec 32 := Scalar.select v18 v19 v4
  let c8_i32_5 : BitVec 32 := 8#32
  let v21 : BitVec 32 := Scalar.muli v20 c8_i32_5
  let c208_i32 : BitVec 32 := 208#32
  let v22 : BitVec 32 := Scalar.minsi v21 c208_i32
  let v23 : BitVec 32 := Scalar.subi v3 v22
  let c2_i32_38 : BitVec 32 := 2#32
  let c0_i32_39 : BitVec 32 := 0#32
  let v70 : BitVec 1 := Scalar.cmpi .eq c2_i32_38 c0_i32_39
  let c1_i32_40 : BitVec 32 := 1#32
  let v71 : BitVec 32 := Scalar.select v70 c1_i32_40 c2_i32_38
  let v72 : BitVec 32 := Scalar.remsi v52 v71
  let c0_i32_42 : BitVec 32 := 0#32
  let v74 : BitVec 1 := Scalar.cmpi .slt v72 c0_i32_42
  let c0_i32_43 : BitVec 32 := 0#32
  let v75 : BitVec 1 := Scalar.cmpi .slt v71 c0_i32_43
  let v76 : BitVec 1 := Scalar.xori v74 v75
  let c0_i32_41 : BitVec 32 := 0#32
  let v73 : BitVec 1 := Scalar.cmpi .ne v72 c0_i32_41
  let v77 : BitVec 1 := Scalar.andi v76 v73
  let v78 : BitVec 32 := Scalar.addi v72 v71
  let v79 : BitVec 32 := Scalar.select v77 v78 v72
  let v80 : BitVec 32 := Scalar.addi v23 v79
  let v82 : Index := Scalar.indexCast v80
  let c224 : Index := 224#32
  ![v81.toNat, v82.toNat, 224]
@[reducible] def k1_t2_loop : Scf.Loop 32 :=
  let c0_i32_358 : BitVec 32 := 0#32
  let c12_i32 : BitVec 32 := 12#32
  let v715 : BitVec 32 := Scalar.addi c0_i32_358 c12_i32
  let c1_i32_359 : BitVec 32 := 1#32
  ⟨c0_i32_358, v715, c1_i32_359⟩
def k1_off5 (k1_t2 : Fin k1_t2_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t2
  let c4_i32_373 : BitVec 32 := 4#32
  let v737 : BitVec 32 := Scalar.muli arg21 c4_i32_373
  let v738 : BitVec 32 := Scalar.addi v737 c0_i32_374
  let v739 : Index := Scalar.indexCast v738
  let c0_375 : Index := 0#32
  ![v739.toNat, 0]
def k1_off6 (k1_t2 : Fin k1_t2_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t2
  let c4_i32_373 : BitVec 32 := 4#32
  let v737 : BitVec 32 := Scalar.muli arg21 c4_i32_373
  let v738 : BitVec 32 := Scalar.addi v737 c0_i32_374
  let v745 : Index := Scalar.indexCast v738
  let c16_377 : Index := 16#32
  ![v745.toNat, 16]
@[reducible] def k1_t3_loop : Scf.Loop 32 :=
  let c0_i32_358 : BitVec 32 := 0#32
  let c12_i32 : BitVec 32 := 12#32
  let v715 : BitVec 32 := Scalar.addi c0_i32_358 c12_i32
  let c1_i32_359 : BitVec 32 := 1#32
  ⟨c0_i32_358, v715, c1_i32_359⟩
def k1_off7 (k1_t3 : Fin k1_t3_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t3
  let c4_i32_373 : BitVec 32 := 4#32
  let v737 : BitVec 32 := Scalar.muli arg21 c4_i32_373
  let v738 : BitVec 32 := Scalar.addi v737 c0_i32_374
  let v739 : Index := Scalar.indexCast v738
  let c32_375 : Index := 32#32
  ![v739.toNat, 32]
def k1_off8 (k1_t3 : Fin k1_t3_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t3
  let c4_i32_373 : BitVec 32 := 4#32
  let v737 : BitVec 32 := Scalar.muli arg21 c4_i32_373
  let v738 : BitVec 32 := Scalar.addi v737 c0_i32_374
  let v745 : Index := Scalar.indexCast v738
  let c48_377 : Index := 48#32
  ![v745.toNat, 48]
@[reducible] def k1_t4_loop : Scf.Loop 32 :=
  let c0_i32_358 : BitVec 32 := 0#32
  let c12_i32 : BitVec 32 := 12#32
  let v715 : BitVec 32 := Scalar.addi c0_i32_358 c12_i32
  let c1_i32_359 : BitVec 32 := 1#32
  ⟨c0_i32_358, v715, c1_i32_359⟩
def k1_off9 (k1_t4 : Fin k1_t4_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t4
  let c4_i32_373 : BitVec 32 := 4#32
  let v737 : BitVec 32 := Scalar.muli arg21 c4_i32_373
  let v738 : BitVec 32 := Scalar.addi v737 c0_i32_374
  let v739 : Index := Scalar.indexCast v738
  let c64_375 : Index := 64#32
  ![v739.toNat, 64]
def k1_off10 (k1_t4 : Fin k1_t4_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t4
  let c4_i32_373 : BitVec 32 := 4#32
  let v737 : BitVec 32 := Scalar.muli arg21 c4_i32_373
  let v738 : BitVec 32 := Scalar.addi v737 c0_i32_374
  let v745 : Index := Scalar.indexCast v738
  let c80_377 : Index := 80#32
  ![v745.toNat, 80]
@[reducible] def k1_t5_loop : Scf.Loop 32 :=
  let c0_i32_358 : BitVec 32 := 0#32
  let c12_i32 : BitVec 32 := 12#32
  let v715 : BitVec 32 := Scalar.addi c0_i32_358 c12_i32
  let c1_i32_359 : BitVec 32 := 1#32
  ⟨c0_i32_358, v715, c1_i32_359⟩
def k1_off11 (k1_t5 : Fin k1_t5_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t5
  let c4_i32_373 : BitVec 32 := 4#32
  let v737 : BitVec 32 := Scalar.muli arg21 c4_i32_373
  let v738 : BitVec 32 := Scalar.addi v737 c0_i32_374
  let v739 : Index := Scalar.indexCast v738
  let c96_375 : Index := 96#32
  ![v739.toNat, 96]
def k1_off12 (k1_t5 : Fin k1_t5_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t5
  let c4_i32_373 : BitVec 32 := 4#32
  let v737 : BitVec 32 := Scalar.muli arg21 c4_i32_373
  let v738 : BitVec 32 := Scalar.addi v737 c0_i32_374
  let v745 : Index := Scalar.indexCast v738
  let c112_377 : Index := 112#32
  ![v745.toNat, 112]
@[reducible] def k1_t6_loop : Scf.Loop 32 :=
  let c0_i32_358 : BitVec 32 := 0#32
  let c12_i32 : BitVec 32 := 12#32
  let v715 : BitVec 32 := Scalar.addi c0_i32_358 c12_i32
  let c1_i32_359 : BitVec 32 := 1#32
  ⟨c0_i32_358, v715, c1_i32_359⟩
def k1_off13 (k1_t6 : Fin k1_t6_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t6
  let c4_i32_373 : BitVec 32 := 4#32
  let v737 : BitVec 32 := Scalar.muli arg21 c4_i32_373
  let v738 : BitVec 32 := Scalar.addi v737 c0_i32_374
  let v739 : Index := Scalar.indexCast v738
  let c128_375 : Index := 128#32
  ![v739.toNat, 128]
def k1_off14 (k1_t6 : Fin k1_t6_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t6
  let c4_i32_373 : BitVec 32 := 4#32
  let v737 : BitVec 32 := Scalar.muli arg21 c4_i32_373
  let v738 : BitVec 32 := Scalar.addi v737 c0_i32_374
  let v745 : Index := Scalar.indexCast v738
  let c144_377 : Index := 144#32
  ![v745.toNat, 144]
@[reducible] def k1_t7_loop : Scf.Loop 32 :=
  let c0_i32_358 : BitVec 32 := 0#32
  let c12_i32 : BitVec 32 := 12#32
  let v715 : BitVec 32 := Scalar.addi c0_i32_358 c12_i32
  let c1_i32_359 : BitVec 32 := 1#32
  ⟨c0_i32_358, v715, c1_i32_359⟩
def k1_off15 (k1_t7 : Fin k1_t7_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t7
  let c4_i32_373 : BitVec 32 := 4#32
  let v737 : BitVec 32 := Scalar.muli arg21 c4_i32_373
  let v738 : BitVec 32 := Scalar.addi v737 c0_i32_374
  let v739 : Index := Scalar.indexCast v738
  let c160_375 : Index := 160#32
  ![v739.toNat, 160]
def k1_off16 (k1_t7 : Fin k1_t7_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t7
  let c4_i32_373 : BitVec 32 := 4#32
  let v737 : BitVec 32 := Scalar.muli arg21 c4_i32_373
  let v738 : BitVec 32 := Scalar.addi v737 c0_i32_374
  let v745 : Index := Scalar.indexCast v738
  let c176_377 : Index := 176#32
  ![v745.toNat, 176]
@[reducible] def k1_t8_loop : Scf.Loop 32 :=
  let c0_i32_358 : BitVec 32 := 0#32
  let c12_i32 : BitVec 32 := 12#32
  let v715 : BitVec 32 := Scalar.addi c0_i32_358 c12_i32
  let c1_i32_359 : BitVec 32 := 1#32
  ⟨c0_i32_358, v715, c1_i32_359⟩
def k1_off17 (k1_t8 : Fin k1_t8_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t8
  let c4_i32_373 : BitVec 32 := 4#32
  let v737 : BitVec 32 := Scalar.muli arg21 c4_i32_373
  let v738 : BitVec 32 := Scalar.addi v737 c0_i32_374
  let v739 : Index := Scalar.indexCast v738
  let c192_375 : Index := 192#32
  ![v739.toNat, 192]
def k1_off18 (k1_t8 : Fin k1_t8_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t8
  let c4_i32_373 : BitVec 32 := 4#32
  let v737 : BitVec 32 := Scalar.muli arg21 c4_i32_373
  let v738 : BitVec 32 := Scalar.addi v737 c0_i32_374
  let v745 : Index := Scalar.indexCast v738
  let c208_377 : Index := 208#32
  ![v745.toNat, 208]
def k1_cond8 (k1_t1 : Fin k1_t1_loop.trips) : BitVec 1 :=
  let c0_i32_28 : BitVec 32 := 0#32
  let c1_i32_29 : BitVec 32 := 1#32
  let arg18 : BitVec 32 := Scf.iv c0_i32_28 c1_i32_29 k1_t1
  let c0_i32_163 : BitVec 32 := 0#32
  let v295 : BitVec 32 := Scalar.addi arg18 c0_i32_163
  let c16_i32_164 : BitVec 32 := 16#32
  let v296 : BitVec 1 := Scalar.cmpi .slt v295 c16_i32_164
  let v297 : BitVec 32 := Scalar.extui v296
  let c0_i32_165 : BitVec 32 := 0#32
  let v298 : BitVec 1 := Scalar.cmpi .ne v297 c0_i32_165
  v298

def k1_off19 (i : grid1.Coords) (k1_t1 : Fin k1_t1_loop.trips) : Fin 4 → Nat :=
  let c0_i32_28 : BitVec 32 := 0#32
  let c1_i32_29 : BitVec 32 := 1#32
  let arg18 : BitVec 32 := Scf.iv c0_i32_28 c1_i32_29 k1_t1
  let c0_i32_163 : BitVec 32 := 0#32
  let v295 : BitVec 32 := Scalar.addi arg18 c0_i32_163
  let c0_i32_347 : BitVec 32 := 0#32
  let v700 : BitVec 1 := Scalar.cmpi .sgt v295 c0_i32_347
  let v701 : BitVec 32 := Scalar.extui v700
  let c0_i32_348 : BitVec 32 := 0#32
  let v702 : BitVec 1 := Scalar.cmpi .slt v295 c0_i32_348
  let v703 : BitVec 32 := Scalar.extui v702
  let v704 : BitVec 32 := Scalar.subi v701 v703
  let c2_i32_346 : BitVec 32 := 2#32
  let c0_i32_349 : BitVec 32 := 0#32
  let v705 : BitVec 1 := Scalar.cmpi .sgt c2_i32_346 c0_i32_349
  let v706 : BitVec 32 := Scalar.extui v705
  let c0_i32_350 : BitVec 32 := 0#32
  let v707 : BitVec 1 := Scalar.cmpi .slt c2_i32_346 c0_i32_350
  let v708 : BitVec 32 := Scalar.extui v707
  let v709 : BitVec 32 := Scalar.subi v706 v708
  let v710 : BitVec 1 := Scalar.cmpi .ne v704 v709
  let v711 : BitVec 32 := Scalar.remsi v295 c2_i32_346
  let c0_i32_351 : BitVec 32 := 0#32
  let v712 : BitVec 1 := Scalar.cmpi .ne v711 c0_i32_351
  let v713 : BitVec 1 := Scalar.andi v710 v712
  let v699 : BitVec 32 := Scalar.divsi v295 c2_i32_346
  let c1_i32_352 : BitVec 32 := 1#32
  let v714 : BitVec 32 := Scalar.subi v699 c1_i32_352
  let v715 : BitVec 32 := Scalar.select v713 v714 v699
  let c96_i32 : BitVec 32 := 96#32
  let c160_i32 : BitVec 32 := 160#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi c160_i32 v2
  let c2_i32_353 : BitVec 32 := 2#32
  let c0_i32_354 : BitVec 32 := 0#32
  let v716 : BitVec 1 := Scalar.cmpi .eq c2_i32_353 c0_i32_354
  let c1_i32_355 : BitVec 32 := 1#32
  let v717 : BitVec 32 := Scalar.select v716 c1_i32_355 c2_i32_353
  let v718 : BitVec 32 := Scalar.remsi v295 v717
  let c0_i32_357 : BitVec 32 := 0#32
  let v720 : BitVec 1 := Scalar.cmpi .slt v718 c0_i32_357
  let c0_i32_358 : BitVec 32 := 0#32
  let v721 : BitVec 1 := Scalar.cmpi .slt v717 c0_i32_358
  let v722 : BitVec 1 := Scalar.xori v720 v721
  let c0_i32_356 : BitVec 32 := 0#32
  let v719 : BitVec 1 := Scalar.cmpi .ne v718 c0_i32_356
  let v723 : BitVec 1 := Scalar.andi v722 v719
  let v724 : BitVec 32 := Scalar.addi v718 v717
  let v725 : BitVec 32 := Scalar.select v723 v724 v718
  let v726 : BitVec 32 := Scalar.addi v3 v725
  let c0_i32_359 : BitVec 32 := 0#32
  ![v715.toNat, 96, v726.toNat, 0]
@[reducible] def k1_t9_loop : Scf.Loop 32 :=
  let c0_i32_358 : BitVec 32 := 0#32
  let c12_i32 : BitVec 32 := 12#32
  let v715 : BitVec 32 := Scalar.addi c0_i32_358 c12_i32
  let c1_i32_359 : BitVec 32 := 1#32
  ⟨c0_i32_358, v715, c1_i32_359⟩
def k1_off20 (k1_t9 : Fin k1_t9_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t9
  let c4_i32_373 : BitVec 32 := 4#32
  let v737 : BitVec 32 := Scalar.muli arg21 c4_i32_373
  let v738 : BitVec 32 := Scalar.addi v737 c0_i32_374
  let v739 : Index := Scalar.indexCast v738
  let c0_375 : Index := 0#32
  ![v739.toNat, 0]
def k1_off21 (k1_t9 : Fin k1_t9_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t9
  let c4_i32_373 : BitVec 32 := 4#32
  let v737 : BitVec 32 := Scalar.muli arg21 c4_i32_373
  let v738 : BitVec 32 := Scalar.addi v737 c0_i32_374
  let v745 : Index := Scalar.indexCast v738
  let c16_377 : Index := 16#32
  ![v745.toNat, 16]
@[reducible] def k1_t10_loop : Scf.Loop 32 :=
  let c0_i32_358 : BitVec 32 := 0#32
  let c12_i32 : BitVec 32 := 12#32
  let v715 : BitVec 32 := Scalar.addi c0_i32_358 c12_i32
  let c1_i32_359 : BitVec 32 := 1#32
  ⟨c0_i32_358, v715, c1_i32_359⟩
def k1_off22 (k1_t10 : Fin k1_t10_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t10
  let c4_i32_373 : BitVec 32 := 4#32
  let v737 : BitVec 32 := Scalar.muli arg21 c4_i32_373
  let v738 : BitVec 32 := Scalar.addi v737 c0_i32_374
  let v739 : Index := Scalar.indexCast v738
  let c32_375 : Index := 32#32
  ![v739.toNat, 32]
def k1_off23 (k1_t10 : Fin k1_t10_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t10
  let c4_i32_373 : BitVec 32 := 4#32
  let v737 : BitVec 32 := Scalar.muli arg21 c4_i32_373
  let v738 : BitVec 32 := Scalar.addi v737 c0_i32_374
  let v745 : Index := Scalar.indexCast v738
  let c48_377 : Index := 48#32
  ![v745.toNat, 48]
@[reducible] def k1_t11_loop : Scf.Loop 32 :=
  let c0_i32_358 : BitVec 32 := 0#32
  let c12_i32 : BitVec 32 := 12#32
  let v715 : BitVec 32 := Scalar.addi c0_i32_358 c12_i32
  let c1_i32_359 : BitVec 32 := 1#32
  ⟨c0_i32_358, v715, c1_i32_359⟩
def k1_off24 (k1_t11 : Fin k1_t11_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t11
  let c4_i32_373 : BitVec 32 := 4#32
  let v737 : BitVec 32 := Scalar.muli arg21 c4_i32_373
  let v738 : BitVec 32 := Scalar.addi v737 c0_i32_374
  let v739 : Index := Scalar.indexCast v738
  let c64_375 : Index := 64#32
  ![v739.toNat, 64]
def k1_off25 (k1_t11 : Fin k1_t11_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t11
  let c4_i32_373 : BitVec 32 := 4#32
  let v737 : BitVec 32 := Scalar.muli arg21 c4_i32_373
  let v738 : BitVec 32 := Scalar.addi v737 c0_i32_374
  let v745 : Index := Scalar.indexCast v738
  let c80_377 : Index := 80#32
  ![v745.toNat, 80]
@[reducible] def k1_t12_loop : Scf.Loop 32 :=
  let c0_i32_358 : BitVec 32 := 0#32
  let c12_i32 : BitVec 32 := 12#32
  let v715 : BitVec 32 := Scalar.addi c0_i32_358 c12_i32
  let c1_i32_359 : BitVec 32 := 1#32
  ⟨c0_i32_358, v715, c1_i32_359⟩
def k1_off26 (k1_t12 : Fin k1_t12_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t12
  let c4_i32_373 : BitVec 32 := 4#32
  let v737 : BitVec 32 := Scalar.muli arg21 c4_i32_373
  let v738 : BitVec 32 := Scalar.addi v737 c0_i32_374
  let v739 : Index := Scalar.indexCast v738
  let c96_375 : Index := 96#32
  ![v739.toNat, 96]
def k1_off27 (k1_t12 : Fin k1_t12_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t12
  let c4_i32_373 : BitVec 32 := 4#32
  let v737 : BitVec 32 := Scalar.muli arg21 c4_i32_373
  let v738 : BitVec 32 := Scalar.addi v737 c0_i32_374
  let v745 : Index := Scalar.indexCast v738
  let c112_377 : Index := 112#32
  ![v745.toNat, 112]
@[reducible] def k1_t13_loop : Scf.Loop 32 :=
  let c0_i32_358 : BitVec 32 := 0#32
  let c12_i32 : BitVec 32 := 12#32
  let v715 : BitVec 32 := Scalar.addi c0_i32_358 c12_i32
  let c1_i32_359 : BitVec 32 := 1#32
  ⟨c0_i32_358, v715, c1_i32_359⟩
def k1_off28 (k1_t13 : Fin k1_t13_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t13
  let c4_i32_373 : BitVec 32 := 4#32
  let v737 : BitVec 32 := Scalar.muli arg21 c4_i32_373
  let v738 : BitVec 32 := Scalar.addi v737 c0_i32_374
  let v739 : Index := Scalar.indexCast v738
  let c128_375 : Index := 128#32
  ![v739.toNat, 128]
def k1_off29 (k1_t13 : Fin k1_t13_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t13
  let c4_i32_373 : BitVec 32 := 4#32
  let v737 : BitVec 32 := Scalar.muli arg21 c4_i32_373
  let v738 : BitVec 32 := Scalar.addi v737 c0_i32_374
  let v745 : Index := Scalar.indexCast v738
  let c144_377 : Index := 144#32
  ![v745.toNat, 144]
@[reducible] def k1_t14_loop : Scf.Loop 32 :=
  let c0_i32_358 : BitVec 32 := 0#32
  let c12_i32 : BitVec 32 := 12#32
  let v715 : BitVec 32 := Scalar.addi c0_i32_358 c12_i32
  let c1_i32_359 : BitVec 32 := 1#32
  ⟨c0_i32_358, v715, c1_i32_359⟩
def k1_off30 (k1_t14 : Fin k1_t14_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t14
  let c4_i32_373 : BitVec 32 := 4#32
  let v737 : BitVec 32 := Scalar.muli arg21 c4_i32_373
  let v738 : BitVec 32 := Scalar.addi v737 c0_i32_374
  let v739 : Index := Scalar.indexCast v738
  let c160_375 : Index := 160#32
  ![v739.toNat, 160]
def k1_off31 (k1_t14 : Fin k1_t14_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t14
  let c4_i32_373 : BitVec 32 := 4#32
  let v737 : BitVec 32 := Scalar.muli arg21 c4_i32_373
  let v738 : BitVec 32 := Scalar.addi v737 c0_i32_374
  let v745 : Index := Scalar.indexCast v738
  let c176_377 : Index := 176#32
  ![v745.toNat, 176]
@[reducible] def k1_t15_loop : Scf.Loop 32 :=
  let c0_i32_358 : BitVec 32 := 0#32
  let c12_i32 : BitVec 32 := 12#32
  let v715 : BitVec 32 := Scalar.addi c0_i32_358 c12_i32
  let c1_i32_359 : BitVec 32 := 1#32
  ⟨c0_i32_358, v715, c1_i32_359⟩
def k1_off32 (k1_t15 : Fin k1_t15_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t15
  let c4_i32_373 : BitVec 32 := 4#32
  let v737 : BitVec 32 := Scalar.muli arg21 c4_i32_373
  let v738 : BitVec 32 := Scalar.addi v737 c0_i32_374
  let v739 : Index := Scalar.indexCast v738
  let c192_375 : Index := 192#32
  ![v739.toNat, 192]
def k1_off33 (k1_t15 : Fin k1_t15_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t15
  let c4_i32_373 : BitVec 32 := 4#32
  let v737 : BitVec 32 := Scalar.muli arg21 c4_i32_373
  let v738 : BitVec 32 := Scalar.addi v737 c0_i32_374
  let v745 : Index := Scalar.indexCast v738
  let c208_377 : Index := 208#32
  ![v745.toNat, 208]
def k1_cond16 (k1_t1 : Fin k1_t1_loop.trips) : BitVec 1 :=
  let c0_i32_28 : BitVec 32 := 0#32
  let c1_i32_29 : BitVec 32 := 1#32
  let arg18 : BitVec 32 := Scf.iv c0_i32_28 c1_i32_29 k1_t1
  let c0_i32_185 : BitVec 32 := 0#32
  let v321 : BitVec 32 := Scalar.addi arg18 c0_i32_185
  let c16_i32_186 : BitVec 32 := 16#32
  let v322 : BitVec 1 := Scalar.cmpi .slt v321 c16_i32_186
  let v323 : BitVec 32 := Scalar.extui v322
  let c0_i32_187 : BitVec 32 := 0#32
  let v324 : BitVec 1 := Scalar.cmpi .ne v323 c0_i32_187
  v324

def k1_off34 (i : grid1.Coords) (k1_t1 : Fin k1_t1_loop.trips) : Fin 4 → Nat :=
  let c0_i32_28 : BitVec 32 := 0#32
  let c1_i32_29 : BitVec 32 := 1#32
  let arg18 : BitVec 32 := Scf.iv c0_i32_28 c1_i32_29 k1_t1
  let c0_i32_185 : BitVec 32 := 0#32
  let v321 : BitVec 32 := Scalar.addi arg18 c0_i32_185
  let c0_i32_347 : BitVec 32 := 0#32
  let v700 : BitVec 1 := Scalar.cmpi .sgt v321 c0_i32_347
  let v701 : BitVec 32 := Scalar.extui v700
  let c0_i32_348 : BitVec 32 := 0#32
  let v702 : BitVec 1 := Scalar.cmpi .slt v321 c0_i32_348
  let v703 : BitVec 32 := Scalar.extui v702
  let v704 : BitVec 32 := Scalar.subi v701 v703
  let c2_i32_346 : BitVec 32 := 2#32
  let c0_i32_349 : BitVec 32 := 0#32
  let v705 : BitVec 1 := Scalar.cmpi .sgt c2_i32_346 c0_i32_349
  let v706 : BitVec 32 := Scalar.extui v705
  let c0_i32_350 : BitVec 32 := 0#32
  let v707 : BitVec 1 := Scalar.cmpi .slt c2_i32_346 c0_i32_350
  let v708 : BitVec 32 := Scalar.extui v707
  let v709 : BitVec 32 := Scalar.subi v706 v708
  let v710 : BitVec 1 := Scalar.cmpi .ne v704 v709
  let v711 : BitVec 32 := Scalar.remsi v321 c2_i32_346
  let c0_i32_351 : BitVec 32 := 0#32
  let v712 : BitVec 1 := Scalar.cmpi .ne v711 c0_i32_351
  let v713 : BitVec 1 := Scalar.andi v710 v712
  let v699 : BitVec 32 := Scalar.divsi v321 c2_i32_346
  let c1_i32_352 : BitVec 32 := 1#32
  let v714 : BitVec 32 := Scalar.subi v699 c1_i32_352
  let v715 : BitVec 32 := Scalar.select v713 v714 v699
  let c144_i32 : BitVec 32 := 144#32
  let c160_i32 : BitVec 32 := 160#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi c160_i32 v2
  let c2_i32_353 : BitVec 32 := 2#32
  let c0_i32_354 : BitVec 32 := 0#32
  let v716 : BitVec 1 := Scalar.cmpi .eq c2_i32_353 c0_i32_354
  let c1_i32_355 : BitVec 32 := 1#32
  let v717 : BitVec 32 := Scalar.select v716 c1_i32_355 c2_i32_353
  let v718 : BitVec 32 := Scalar.remsi v321 v717
  let c0_i32_357 : BitVec 32 := 0#32
  let v720 : BitVec 1 := Scalar.cmpi .slt v718 c0_i32_357
  let c0_i32_358 : BitVec 32 := 0#32
  let v721 : BitVec 1 := Scalar.cmpi .slt v717 c0_i32_358
  let v722 : BitVec 1 := Scalar.xori v720 v721
  let c0_i32_356 : BitVec 32 := 0#32
  let v719 : BitVec 1 := Scalar.cmpi .ne v718 c0_i32_356
  let v723 : BitVec 1 := Scalar.andi v722 v719
  let v724 : BitVec 32 := Scalar.addi v718 v717
  let v725 : BitVec 32 := Scalar.select v723 v724 v718
  let v726 : BitVec 32 := Scalar.addi v3 v725
  let c0_i32_359 : BitVec 32 := 0#32
  ![v715.toNat, 144, v726.toNat, 0]
@[reducible] def k1_t16_loop : Scf.Loop 32 :=
  let c0_i32_358 : BitVec 32 := 0#32
  let c12_i32 : BitVec 32 := 12#32
  let v715 : BitVec 32 := Scalar.addi c0_i32_358 c12_i32
  let c1_i32_359 : BitVec 32 := 1#32
  ⟨c0_i32_358, v715, c1_i32_359⟩
def k1_off35 (k1_t16 : Fin k1_t16_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t16
  let c4_i32_373 : BitVec 32 := 4#32
  let v737 : BitVec 32 := Scalar.muli arg21 c4_i32_373
  let v738 : BitVec 32 := Scalar.addi v737 c0_i32_374
  let v739 : Index := Scalar.indexCast v738
  let c0_375 : Index := 0#32
  ![v739.toNat, 0]
def k1_off36 (k1_t16 : Fin k1_t16_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t16
  let c4_i32_373 : BitVec 32 := 4#32
  let v737 : BitVec 32 := Scalar.muli arg21 c4_i32_373
  let v738 : BitVec 32 := Scalar.addi v737 c0_i32_374
  let v745 : Index := Scalar.indexCast v738
  let c16_377 : Index := 16#32
  ![v745.toNat, 16]
@[reducible] def k1_t17_loop : Scf.Loop 32 :=
  let c0_i32_358 : BitVec 32 := 0#32
  let c12_i32 : BitVec 32 := 12#32
  let v715 : BitVec 32 := Scalar.addi c0_i32_358 c12_i32
  let c1_i32_359 : BitVec 32 := 1#32
  ⟨c0_i32_358, v715, c1_i32_359⟩
def k1_off37 (k1_t17 : Fin k1_t17_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t17
  let c4_i32_373 : BitVec 32 := 4#32
  let v737 : BitVec 32 := Scalar.muli arg21 c4_i32_373
  let v738 : BitVec 32 := Scalar.addi v737 c0_i32_374
  let v739 : Index := Scalar.indexCast v738
  let c32_375 : Index := 32#32
  ![v739.toNat, 32]
def k1_off38 (k1_t17 : Fin k1_t17_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t17
  let c4_i32_373 : BitVec 32 := 4#32
  let v737 : BitVec 32 := Scalar.muli arg21 c4_i32_373
  let v738 : BitVec 32 := Scalar.addi v737 c0_i32_374
  let v745 : Index := Scalar.indexCast v738
  let c48_377 : Index := 48#32
  ![v745.toNat, 48]
@[reducible] def k1_t18_loop : Scf.Loop 32 :=
  let c0_i32_358 : BitVec 32 := 0#32
  let c12_i32 : BitVec 32 := 12#32
  let v715 : BitVec 32 := Scalar.addi c0_i32_358 c12_i32
  let c1_i32_359 : BitVec 32 := 1#32
  ⟨c0_i32_358, v715, c1_i32_359⟩
def k1_off39 (k1_t18 : Fin k1_t18_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t18
  let c4_i32_373 : BitVec 32 := 4#32
  let v737 : BitVec 32 := Scalar.muli arg21 c4_i32_373
  let v738 : BitVec 32 := Scalar.addi v737 c0_i32_374
  let v739 : Index := Scalar.indexCast v738
  let c64_375 : Index := 64#32
  ![v739.toNat, 64]
def k1_off40 (k1_t18 : Fin k1_t18_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t18
  let c4_i32_373 : BitVec 32 := 4#32
  let v737 : BitVec 32 := Scalar.muli arg21 c4_i32_373
  let v738 : BitVec 32 := Scalar.addi v737 c0_i32_374
  let v745 : Index := Scalar.indexCast v738
  let c80_377 : Index := 80#32
  ![v745.toNat, 80]
@[reducible] def k1_t19_loop : Scf.Loop 32 :=
  let c0_i32_358 : BitVec 32 := 0#32
  let c12_i32 : BitVec 32 := 12#32
  let v715 : BitVec 32 := Scalar.addi c0_i32_358 c12_i32
  let c1_i32_359 : BitVec 32 := 1#32
  ⟨c0_i32_358, v715, c1_i32_359⟩
def k1_off41 (k1_t19 : Fin k1_t19_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t19
  let c4_i32_373 : BitVec 32 := 4#32
  let v737 : BitVec 32 := Scalar.muli arg21 c4_i32_373
  let v738 : BitVec 32 := Scalar.addi v737 c0_i32_374
  let v739 : Index := Scalar.indexCast v738
  let c96_375 : Index := 96#32
  ![v739.toNat, 96]
def k1_off42 (k1_t19 : Fin k1_t19_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t19
  let c4_i32_373 : BitVec 32 := 4#32
  let v737 : BitVec 32 := Scalar.muli arg21 c4_i32_373
  let v738 : BitVec 32 := Scalar.addi v737 c0_i32_374
  let v745 : Index := Scalar.indexCast v738
  let c112_377 : Index := 112#32
  ![v745.toNat, 112]
@[reducible] def k1_t20_loop : Scf.Loop 32 :=
  let c0_i32_358 : BitVec 32 := 0#32
  let c12_i32 : BitVec 32 := 12#32
  let v715 : BitVec 32 := Scalar.addi c0_i32_358 c12_i32
  let c1_i32_359 : BitVec 32 := 1#32
  ⟨c0_i32_358, v715, c1_i32_359⟩
def k1_off43 (k1_t20 : Fin k1_t20_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t20
  let c4_i32_373 : BitVec 32 := 4#32
  let v737 : BitVec 32 := Scalar.muli arg21 c4_i32_373
  let v738 : BitVec 32 := Scalar.addi v737 c0_i32_374
  let v739 : Index := Scalar.indexCast v738
  let c128_375 : Index := 128#32
  ![v739.toNat, 128]
def k1_off44 (k1_t20 : Fin k1_t20_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t20
  let c4_i32_373 : BitVec 32 := 4#32
  let v737 : BitVec 32 := Scalar.muli arg21 c4_i32_373
  let v738 : BitVec 32 := Scalar.addi v737 c0_i32_374
  let v745 : Index := Scalar.indexCast v738
  let c144_377 : Index := 144#32
  ![v745.toNat, 144]
@[reducible] def k1_t21_loop : Scf.Loop 32 :=
  let c0_i32_358 : BitVec 32 := 0#32
  let c12_i32 : BitVec 32 := 12#32
  let v715 : BitVec 32 := Scalar.addi c0_i32_358 c12_i32
  let c1_i32_359 : BitVec 32 := 1#32
  ⟨c0_i32_358, v715, c1_i32_359⟩
def k1_off45 (k1_t21 : Fin k1_t21_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t21
  let c4_i32_373 : BitVec 32 := 4#32
  let v737 : BitVec 32 := Scalar.muli arg21 c4_i32_373
  let v738 : BitVec 32 := Scalar.addi v737 c0_i32_374
  let v739 : Index := Scalar.indexCast v738
  let c160_375 : Index := 160#32
  ![v739.toNat, 160]
def k1_off46 (k1_t21 : Fin k1_t21_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t21
  let c4_i32_373 : BitVec 32 := 4#32
  let v737 : BitVec 32 := Scalar.muli arg21 c4_i32_373
  let v738 : BitVec 32 := Scalar.addi v737 c0_i32_374
  let v745 : Index := Scalar.indexCast v738
  let c176_377 : Index := 176#32
  ![v745.toNat, 176]
@[reducible] def k1_t22_loop : Scf.Loop 32 :=
  let c0_i32_358 : BitVec 32 := 0#32
  let c12_i32 : BitVec 32 := 12#32
  let v715 : BitVec 32 := Scalar.addi c0_i32_358 c12_i32
  let c1_i32_359 : BitVec 32 := 1#32
  ⟨c0_i32_358, v715, c1_i32_359⟩
def k1_off47 (k1_t22 : Fin k1_t22_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t22
  let c4_i32_373 : BitVec 32 := 4#32
  let v737 : BitVec 32 := Scalar.muli arg21 c4_i32_373
  let v738 : BitVec 32 := Scalar.addi v737 c0_i32_374
  let v739 : Index := Scalar.indexCast v738
  let c192_375 : Index := 192#32
  ![v739.toNat, 192]
def k1_off48 (k1_t22 : Fin k1_t22_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t22
  let c4_i32_373 : BitVec 32 := 4#32
  let v737 : BitVec 32 := Scalar.muli arg21 c4_i32_373
  let v738 : BitVec 32 := Scalar.addi v737 c0_i32_374
  let v745 : Index := Scalar.indexCast v738
  let c208_377 : Index := 208#32
  ![v745.toNat, 208]
def k1_cond24 (k1_t1 : Fin k1_t1_loop.trips) : BitVec 1 :=
  let c0_i32_28 : BitVec 32 := 0#32
  let c1_i32_29 : BitVec 32 := 1#32
  let arg18 : BitVec 32 := Scf.iv c0_i32_28 c1_i32_29 k1_t1
  let c1_i32_207 : BitVec 32 := 1#32
  let v347 : BitVec 32 := Scalar.addi arg18 c1_i32_207
  let c16_i32_208 : BitVec 32 := 16#32
  let v348 : BitVec 1 := Scalar.cmpi .slt v347 c16_i32_208
  let v349 : BitVec 32 := Scalar.extui v348
  let c0_i32_209 : BitVec 32 := 0#32
  let v350 : BitVec 1 := Scalar.cmpi .ne v349 c0_i32_209
  v350

def k1_off49 (i : grid1.Coords) (k1_t1 : Fin k1_t1_loop.trips) : Fin 4 → Nat :=
  let c0_i32_28 : BitVec 32 := 0#32
  let c1_i32_29 : BitVec 32 := 1#32
  let arg18 : BitVec 32 := Scf.iv c0_i32_28 c1_i32_29 k1_t1
  let c1_i32_207 : BitVec 32 := 1#32
  let v347 : BitVec 32 := Scalar.addi arg18 c1_i32_207
  let c0_i32_347 : BitVec 32 := 0#32
  let v700 : BitVec 1 := Scalar.cmpi .sgt v347 c0_i32_347
  let v701 : BitVec 32 := Scalar.extui v700
  let c0_i32_348 : BitVec 32 := 0#32
  let v702 : BitVec 1 := Scalar.cmpi .slt v347 c0_i32_348
  let v703 : BitVec 32 := Scalar.extui v702
  let v704 : BitVec 32 := Scalar.subi v701 v703
  let c2_i32_346 : BitVec 32 := 2#32
  let c0_i32_349 : BitVec 32 := 0#32
  let v705 : BitVec 1 := Scalar.cmpi .sgt c2_i32_346 c0_i32_349
  let v706 : BitVec 32 := Scalar.extui v705
  let c0_i32_350 : BitVec 32 := 0#32
  let v707 : BitVec 1 := Scalar.cmpi .slt c2_i32_346 c0_i32_350
  let v708 : BitVec 32 := Scalar.extui v707
  let v709 : BitVec 32 := Scalar.subi v706 v708
  let v710 : BitVec 1 := Scalar.cmpi .ne v704 v709
  let v711 : BitVec 32 := Scalar.remsi v347 c2_i32_346
  let c0_i32_351 : BitVec 32 := 0#32
  let v712 : BitVec 1 := Scalar.cmpi .ne v711 c0_i32_351
  let v713 : BitVec 1 := Scalar.andi v710 v712
  let v699 : BitVec 32 := Scalar.divsi v347 c2_i32_346
  let c1_i32_352 : BitVec 32 := 1#32
  let v714 : BitVec 32 := Scalar.subi v699 c1_i32_352
  let v715 : BitVec 32 := Scalar.select v713 v714 v699
  let c0_i32_359 : BitVec 32 := 0#32
  let c160_i32 : BitVec 32 := 160#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi c160_i32 v2
  let c2_i32_353 : BitVec 32 := 2#32
  let c0_i32_354 : BitVec 32 := 0#32
  let v716 : BitVec 1 := Scalar.cmpi .eq c2_i32_353 c0_i32_354
  let c1_i32_355 : BitVec 32 := 1#32
  let v717 : BitVec 32 := Scalar.select v716 c1_i32_355 c2_i32_353
  let v718 : BitVec 32 := Scalar.remsi v347 v717
  let c0_i32_357 : BitVec 32 := 0#32
  let v720 : BitVec 1 := Scalar.cmpi .slt v718 c0_i32_357
  let c0_i32_358 : BitVec 32 := 0#32
  let v721 : BitVec 1 := Scalar.cmpi .slt v717 c0_i32_358
  let v722 : BitVec 1 := Scalar.xori v720 v721
  let c0_i32_356 : BitVec 32 := 0#32
  let v719 : BitVec 1 := Scalar.cmpi .ne v718 c0_i32_356
  let v723 : BitVec 1 := Scalar.andi v722 v719
  let v724 : BitVec 32 := Scalar.addi v718 v717
  let v725 : BitVec 32 := Scalar.select v723 v724 v718
  let v726 : BitVec 32 := Scalar.addi v3 v725
  let c0_i32_360 : BitVec 32 := 0#32
  ![v715.toNat, 0, v726.toNat, 0]
@[reducible] def k1_t23_loop : Scf.Loop 32 :=
  let c0_i32_358 : BitVec 32 := 0#32
  let c12_i32 : BitVec 32 := 12#32
  let v715 : BitVec 32 := Scalar.addi c0_i32_358 c12_i32
  let c1_i32_359 : BitVec 32 := 1#32
  ⟨c0_i32_358, v715, c1_i32_359⟩
def k1_off50 (k1_t23 : Fin k1_t23_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t23
  let c4_i32_373 : BitVec 32 := 4#32
  let v737 : BitVec 32 := Scalar.muli arg21 c4_i32_373
  let v738 : BitVec 32 := Scalar.addi v737 c0_i32_374
  let v739 : Index := Scalar.indexCast v738
  let c0_375 : Index := 0#32
  ![v739.toNat, 0]
def k1_off51 (k1_t23 : Fin k1_t23_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t23
  let c4_i32_373 : BitVec 32 := 4#32
  let v737 : BitVec 32 := Scalar.muli arg21 c4_i32_373
  let v738 : BitVec 32 := Scalar.addi v737 c0_i32_374
  let v745 : Index := Scalar.indexCast v738
  let c16_377 : Index := 16#32
  ![v745.toNat, 16]
@[reducible] def k1_t24_loop : Scf.Loop 32 :=
  let c0_i32_358 : BitVec 32 := 0#32
  let c12_i32 : BitVec 32 := 12#32
  let v715 : BitVec 32 := Scalar.addi c0_i32_358 c12_i32
  let c1_i32_359 : BitVec 32 := 1#32
  ⟨c0_i32_358, v715, c1_i32_359⟩
def k1_off52 (k1_t24 : Fin k1_t24_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t24
  let c4_i32_373 : BitVec 32 := 4#32
  let v737 : BitVec 32 := Scalar.muli arg21 c4_i32_373
  let v738 : BitVec 32 := Scalar.addi v737 c0_i32_374
  let v739 : Index := Scalar.indexCast v738
  let c32_375 : Index := 32#32
  ![v739.toNat, 32]
def k1_off53 (k1_t24 : Fin k1_t24_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t24
  let c4_i32_373 : BitVec 32 := 4#32
  let v737 : BitVec 32 := Scalar.muli arg21 c4_i32_373
  let v738 : BitVec 32 := Scalar.addi v737 c0_i32_374
  let v745 : Index := Scalar.indexCast v738
  let c48_377 : Index := 48#32
  ![v745.toNat, 48]
@[reducible] def k1_t25_loop : Scf.Loop 32 :=
  let c0_i32_358 : BitVec 32 := 0#32
  let c12_i32 : BitVec 32 := 12#32
  let v715 : BitVec 32 := Scalar.addi c0_i32_358 c12_i32
  let c1_i32_359 : BitVec 32 := 1#32
  ⟨c0_i32_358, v715, c1_i32_359⟩
def k1_off54 (k1_t25 : Fin k1_t25_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t25
  let c4_i32_373 : BitVec 32 := 4#32
  let v737 : BitVec 32 := Scalar.muli arg21 c4_i32_373
  let v738 : BitVec 32 := Scalar.addi v737 c0_i32_374
  let v739 : Index := Scalar.indexCast v738
  let c64_375 : Index := 64#32
  ![v739.toNat, 64]
def k1_off55 (k1_t25 : Fin k1_t25_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t25
  let c4_i32_373 : BitVec 32 := 4#32
  let v737 : BitVec 32 := Scalar.muli arg21 c4_i32_373
  let v738 : BitVec 32 := Scalar.addi v737 c0_i32_374
  let v745 : Index := Scalar.indexCast v738
  let c80_377 : Index := 80#32
  ![v745.toNat, 80]
@[reducible] def k1_t26_loop : Scf.Loop 32 :=
  let c0_i32_358 : BitVec 32 := 0#32
  let c12_i32 : BitVec 32 := 12#32
  let v715 : BitVec 32 := Scalar.addi c0_i32_358 c12_i32
  let c1_i32_359 : BitVec 32 := 1#32
  ⟨c0_i32_358, v715, c1_i32_359⟩
def k1_off56 (k1_t26 : Fin k1_t26_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t26
  let c4_i32_373 : BitVec 32 := 4#32
  let v737 : BitVec 32 := Scalar.muli arg21 c4_i32_373
  let v738 : BitVec 32 := Scalar.addi v737 c0_i32_374
  let v739 : Index := Scalar.indexCast v738
  let c96_375 : Index := 96#32
  ![v739.toNat, 96]
def k1_off57 (k1_t26 : Fin k1_t26_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t26
  let c4_i32_373 : BitVec 32 := 4#32
  let v737 : BitVec 32 := Scalar.muli arg21 c4_i32_373
  let v738 : BitVec 32 := Scalar.addi v737 c0_i32_374
  let v745 : Index := Scalar.indexCast v738
  let c112_377 : Index := 112#32
  ![v745.toNat, 112]
@[reducible] def k1_t27_loop : Scf.Loop 32 :=
  let c0_i32_358 : BitVec 32 := 0#32
  let c12_i32 : BitVec 32 := 12#32
  let v715 : BitVec 32 := Scalar.addi c0_i32_358 c12_i32
  let c1_i32_359 : BitVec 32 := 1#32
  ⟨c0_i32_358, v715, c1_i32_359⟩
def k1_off58 (k1_t27 : Fin k1_t27_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t27
  let c4_i32_373 : BitVec 32 := 4#32
  let v737 : BitVec 32 := Scalar.muli arg21 c4_i32_373
  let v738 : BitVec 32 := Scalar.addi v737 c0_i32_374
  let v739 : Index := Scalar.indexCast v738
  let c128_375 : Index := 128#32
  ![v739.toNat, 128]
def k1_off59 (k1_t27 : Fin k1_t27_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t27
  let c4_i32_373 : BitVec 32 := 4#32
  let v737 : BitVec 32 := Scalar.muli arg21 c4_i32_373
  let v738 : BitVec 32 := Scalar.addi v737 c0_i32_374
  let v745 : Index := Scalar.indexCast v738
  let c144_377 : Index := 144#32
  ![v745.toNat, 144]
@[reducible] def k1_t28_loop : Scf.Loop 32 :=
  let c0_i32_358 : BitVec 32 := 0#32
  let c12_i32 : BitVec 32 := 12#32
  let v715 : BitVec 32 := Scalar.addi c0_i32_358 c12_i32
  let c1_i32_359 : BitVec 32 := 1#32
  ⟨c0_i32_358, v715, c1_i32_359⟩
def k1_off60 (k1_t28 : Fin k1_t28_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t28
  let c4_i32_373 : BitVec 32 := 4#32
  let v737 : BitVec 32 := Scalar.muli arg21 c4_i32_373
  let v738 : BitVec 32 := Scalar.addi v737 c0_i32_374
  let v739 : Index := Scalar.indexCast v738
  let c160_375 : Index := 160#32
  ![v739.toNat, 160]
def k1_off61 (k1_t28 : Fin k1_t28_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t28
  let c4_i32_373 : BitVec 32 := 4#32
  let v737 : BitVec 32 := Scalar.muli arg21 c4_i32_373
  let v738 : BitVec 32 := Scalar.addi v737 c0_i32_374
  let v745 : Index := Scalar.indexCast v738
  let c176_377 : Index := 176#32
  ![v745.toNat, 176]
@[reducible] def k1_t29_loop : Scf.Loop 32 :=
  let c0_i32_358 : BitVec 32 := 0#32
  let c12_i32 : BitVec 32 := 12#32
  let v715 : BitVec 32 := Scalar.addi c0_i32_358 c12_i32
  let c1_i32_359 : BitVec 32 := 1#32
  ⟨c0_i32_358, v715, c1_i32_359⟩
def k1_off62 (k1_t29 : Fin k1_t29_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t29
  let c4_i32_373 : BitVec 32 := 4#32
  let v737 : BitVec 32 := Scalar.muli arg21 c4_i32_373
  let v738 : BitVec 32 := Scalar.addi v737 c0_i32_374
  let v739 : Index := Scalar.indexCast v738
  let c192_375 : Index := 192#32
  ![v739.toNat, 192]
def k1_off63 (k1_t29 : Fin k1_t29_loop.trips) (c0_i32_374 : BitVec 32) : Fin 2 → Nat :=
  let c0_i32_358 : BitVec 32 := 0#32
  let c1_i32_359 : BitVec 32 := 1#32
  let arg21 : BitVec 32 := Scf.iv c0_i32_358 c1_i32_359 k1_t29
  let c4_i32_373 : BitVec 32 := 4#32
  let v737 : BitVec 32 := Scalar.muli arg21 c4_i32_373
  let v738 : BitVec 32 := Scalar.addi v737 c0_i32_374
  let v745 : Index := Scalar.indexCast v738
  let c208_377 : Index := 208#32
  ![v745.toNat, 208]
def k1_cond32 (k1_t1 : Fin k1_t1_loop.trips) : BitVec 1 :=
  let c0_i32_28 : BitVec 32 := 0#32
  let c1_i32_29 : BitVec 32 := 1#32
  let arg18 : BitVec 32 := Scf.iv c0_i32_28 c1_i32_29 k1_t1
  let c1_i32_229 : BitVec 32 := 1#32
  let v373 : BitVec 32 := Scalar.addi arg18 c1_i32_229
  let c16_i32_230 : BitVec 32 := 16#32
  let v374 : BitVec 1 := Scalar.cmpi .slt v373 c16_i32_230
  let v375 : BitVec 32 := Scalar.extui v374
  let c0_i32_231 : BitVec 32 := 0#32
  let v376 : BitVec 1 := Scalar.cmpi .ne v375 c0_i32_231
  v376

def k1_off64 (i : grid1.Coords) (k1_t1 : Fin k1_t1_loop.trips) : Fin 4 → Nat :=
  let c0_i32_28 : BitVec 32 := 0#32
  let c1_i32_29 : BitVec 32 := 1#32
  let arg18 : BitVec 32 := Scf.iv c0_i32_28 c1_i32_29 k1_t1
  let c1_i32_229 : BitVec 32 := 1#32
  let v373 : BitVec 32 := Scalar.addi arg18 c1_i32_229
  let c0_i32_347 : BitVec 32 := 0#32
  let v700 : BitVec 1 := Scalar.cmpi .sgt v373 c0_i32_347
  let v701 : BitVec 32 := Scalar.extui v700
  let c0_i32_348 : BitVec 32 := 0#32
  let v702 : BitVec 1 := Scalar.cmpi .slt v373 c0_i32_348
  let v703 : BitVec 32 := Scalar.extui v702
  let v704 : BitVec 32 := Scalar.subi v701 v703
  let c2_i32_346 : BitVec 32 := 2#32
  let c0_i32_349 : BitVec 32 := 0#32
  let v705 : BitVec 1 := Scalar.cmpi .sgt c2_i32_346 c0_i32_349
  let v706 : BitVec 32 := Scalar.extui v705
  let c0_i32_350 : BitVec 32 := 0#32
  let v707 : BitVec 1 := Scalar.cmpi .slt c2_i32_346 c0_i32_350
  let v708 : BitVec 32 := Scalar.extui v707
  let v709 : BitVec 32 := Scalar.subi v706 v708
  let v710 : BitVec 1 := Scalar.cmpi .ne v704 v709
  let v711 : BitVec 32 := Scalar.remsi v373 c2_i32_346
  let c0_i32_351 : BitVec 32 := 0#32
  let v712 : BitVec 1 := Scalar.cmpi .ne v711 c0_i32_351
  let v713 : BitVec 1 := Scalar.andi v710 v712
  let v699 : BitVec 32 := Scalar.divsi v373 c2_i32_346
  let c1_i32_352 : BitVec 32 := 1#32
  let v714 : BitVec 32 := Scalar.subi v699 c1_i32_352
  let v715 : BitVec 32 := Scalar.select v713 v714 v699
  let c48_i32_359 : BitVec 32 := 48#32
  let c160_i32 : BitVec 32 := 160#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi c160_i32 v2
  let c2_i32_353 : BitVec 32 := 2#32
  let c0_i32_354 : BitVec 32 := 0#32
  let v716 : BitVec 1 := Scalar.cmpi .eq c2_i32_353 c0_i32_354
  let c1_i32_355 : BitVec 32 := 1#32
  let v717 : BitVec 32 := Scalar.select v716 c1_i32_355 c2_i32_353
  let v718 : BitVec 32 := Scalar.remsi v373 v717
  let c0_i32_357 : BitVec 32 := 0#32
  let v720 : BitVec 1 := Scalar.cmpi .slt v718 c0_i32_357
  let c0_i32_358 : BitVec 32 := 0#32
  let v721 : BitVec 1 := Scalar.cmpi .slt v717 c0_i32_358
  let v722 : BitVec 1 := Scalar.xori v720 v721
  let c0_i32_356 : BitVec 32 := 0#32
  let v719 : BitVec 1 := Scalar.cmpi .ne v718 c0_i32_356
  let v723 : BitVec 1 := Scalar.andi v722 v719
  let v724 : BitVec 32 := Scalar.addi v718 v717
  let v725 : BitVec 32 := Scalar.select v723 v724 v718
  let v726 : BitVec 32 := Scalar.addi v3 v725
  let c0_i32_360 : BitVec 32 := 0#32
  ![v715.toNat, 48, v726.toNat, 0]
def k1_off65 (i : grid1.Coords) (k1_t1 : Fin k1_t1_loop.trips) : Fin 3 → Nat :=
  let c0_i32_28 : BitVec 32 := 0#32
  let c1_i32_29 : BitVec 32 := 1#32
  let arg18 : BitVec 32 := Scf.iv c0_i32_28 c1_i32_29 k1_t1
  let c0_i32_52 : BitVec 32 := 0#32
  let v107 : BitVec 1 := Scalar.cmpi .sgt arg18 c0_i32_52
  let v108 : BitVec 32 := Scalar.extui v107
  let c0_i32_53 : BitVec 32 := 0#32
  let v109 : BitVec 1 := Scalar.cmpi .slt arg18 c0_i32_53
  let v110 : BitVec 32 := Scalar.extui v109
  let v111 : BitVec 32 := Scalar.subi v108 v110
  let c2_i32_51 : BitVec 32 := 2#32
  let c0_i32_54 : BitVec 32 := 0#32
  let v112 : BitVec 1 := Scalar.cmpi .sgt c2_i32_51 c0_i32_54
  let v113 : BitVec 32 := Scalar.extui v112
  let c0_i32_55 : BitVec 32 := 0#32
  let v114 : BitVec 1 := Scalar.cmpi .slt c2_i32_51 c0_i32_55
  let v115 : BitVec 32 := Scalar.extui v114
  let v116 : BitVec 32 := Scalar.subi v113 v115
  let v117 : BitVec 1 := Scalar.cmpi .ne v111 v116
  let v118 : BitVec 32 := Scalar.remsi arg18 c2_i32_51
  let c0_i32_56 : BitVec 32 := 0#32
  let v119 : BitVec 1 := Scalar.cmpi .ne v118 c0_i32_56
  let v120 : BitVec 1 := Scalar.andi v117 v119
  let v106 : BitVec 32 := Scalar.divsi arg18 c2_i32_51
  let c1_i32_57 : BitVec 32 := 1#32
  let v121 : BitVec 32 := Scalar.subi v106 c1_i32_57
  let v122 : BitVec 32 := Scalar.select v120 v121 v106
  let v378 : Index := Scalar.indexCast v122
  let c160_i32 : BitVec 32 := 160#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi c160_i32 v2
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c8_i32 : BitVec 32 := 8#32
  let c0_i32_2 : BitVec 32 := 0#32
  let v10 : BitVec 1 := Scalar.cmpi .sgt c8_i32 c0_i32_2
  let v11 : BitVec 32 := Scalar.extui v10
  let c0_i32_3 : BitVec 32 := 0#32
  let v12 : BitVec 1 := Scalar.cmpi .slt c8_i32 c0_i32_3
  let v13 : BitVec 32 := Scalar.extui v12
  let v14 : BitVec 32 := Scalar.subi v11 v13
  let v15 : BitVec 1 := Scalar.cmpi .ne v9 v14
  let v16 : BitVec 32 := Scalar.remsi v3 c8_i32
  let c0_i32_4 : BitVec 32 := 0#32
  let v17 : BitVec 1 := Scalar.cmpi .ne v16 c0_i32_4
  let v18 : BitVec 1 := Scalar.andi v15 v17
  let v4 : BitVec 32 := Scalar.divsi v3 c8_i32
  let c1_i32 : BitVec 32 := 1#32
  let v19 : BitVec 32 := Scalar.subi v4 c1_i32
  let v20 : BitVec 32 := Scalar.select v18 v19 v4
  let c8_i32_5 : BitVec 32 := 8#32
  let v21 : BitVec 32 := Scalar.muli v20 c8_i32_5
  let c208_i32 : BitVec 32 := 208#32
  let v22 : BitVec 32 := Scalar.minsi v21 c208_i32
  let v23 : BitVec 32 := Scalar.subi v3 v22
  let c2_i32_58 : BitVec 32 := 2#32
  let c0_i32_59 : BitVec 32 := 0#32
  let v123 : BitVec 1 := Scalar.cmpi .eq c2_i32_58 c0_i32_59
  let c1_i32_60 : BitVec 32 := 1#32
  let v124 : BitVec 32 := Scalar.select v123 c1_i32_60 c2_i32_58
  let v125 : BitVec 32 := Scalar.remsi arg18 v124
  let c0_i32_62 : BitVec 32 := 0#32
  let v127 : BitVec 1 := Scalar.cmpi .slt v125 c0_i32_62
  let c0_i32_63 : BitVec 32 := 0#32
  let v128 : BitVec 1 := Scalar.cmpi .slt v124 c0_i32_63
  let v129 : BitVec 1 := Scalar.xori v127 v128
  let c0_i32_61 : BitVec 32 := 0#32
  let v126 : BitVec 1 := Scalar.cmpi .ne v125 c0_i32_61
  let v130 : BitVec 1 := Scalar.andi v129 v126
  let v131 : BitVec 32 := Scalar.addi v125 v124
  let v132 : BitVec 32 := Scalar.select v130 v131 v125
  let v377 : BitVec 32 := Scalar.addi v23 v132
  let v379 : Index := Scalar.indexCast v377
  let c0_232 : Index := 0#32
  ![v378.toNat, v379.toNat, 0]
def k1_off66 (i : grid1.Coords) (k1_t1 : Fin k1_t1_loop.trips) : Fin 3 → Nat :=
  let c0_i32_28 : BitVec 32 := 0#32
  let c1_i32_29 : BitVec 32 := 1#32
  let arg18 : BitVec 32 := Scf.iv c0_i32_28 c1_i32_29 k1_t1
  let c0_i32_52 : BitVec 32 := 0#32
  let v107 : BitVec 1 := Scalar.cmpi .sgt arg18 c0_i32_52
  let v108 : BitVec 32 := Scalar.extui v107
  let c0_i32_53 : BitVec 32 := 0#32
  let v109 : BitVec 1 := Scalar.cmpi .slt arg18 c0_i32_53
  let v110 : BitVec 32 := Scalar.extui v109
  let v111 : BitVec 32 := Scalar.subi v108 v110
  let c2_i32_51 : BitVec 32 := 2#32
  let c0_i32_54 : BitVec 32 := 0#32
  let v112 : BitVec 1 := Scalar.cmpi .sgt c2_i32_51 c0_i32_54
  let v113 : BitVec 32 := Scalar.extui v112
  let c0_i32_55 : BitVec 32 := 0#32
  let v114 : BitVec 1 := Scalar.cmpi .slt c2_i32_51 c0_i32_55
  let v115 : BitVec 32 := Scalar.extui v114
  let v116 : BitVec 32 := Scalar.subi v113 v115
  let v117 : BitVec 1 := Scalar.cmpi .ne v111 v116
  let v118 : BitVec 32 := Scalar.remsi arg18 c2_i32_51
  let c0_i32_56 : BitVec 32 := 0#32
  let v119 : BitVec 1 := Scalar.cmpi .ne v118 c0_i32_56
  let v120 : BitVec 1 := Scalar.andi v117 v119
  let v106 : BitVec 32 := Scalar.divsi arg18 c2_i32_51
  let c1_i32_57 : BitVec 32 := 1#32
  let v121 : BitVec 32 := Scalar.subi v106 c1_i32_57
  let v122 : BitVec 32 := Scalar.select v120 v121 v106
  let v401 : Index := Scalar.indexCast v122
  let c160_i32 : BitVec 32 := 160#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi c160_i32 v2
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c8_i32 : BitVec 32 := 8#32
  let c0_i32_2 : BitVec 32 := 0#32
  let v10 : BitVec 1 := Scalar.cmpi .sgt c8_i32 c0_i32_2
  let v11 : BitVec 32 := Scalar.extui v10
  let c0_i32_3 : BitVec 32 := 0#32
  let v12 : BitVec 1 := Scalar.cmpi .slt c8_i32 c0_i32_3
  let v13 : BitVec 32 := Scalar.extui v12
  let v14 : BitVec 32 := Scalar.subi v11 v13
  let v15 : BitVec 1 := Scalar.cmpi .ne v9 v14
  let v16 : BitVec 32 := Scalar.remsi v3 c8_i32
  let c0_i32_4 : BitVec 32 := 0#32
  let v17 : BitVec 1 := Scalar.cmpi .ne v16 c0_i32_4
  let v18 : BitVec 1 := Scalar.andi v15 v17
  let v4 : BitVec 32 := Scalar.divsi v3 c8_i32
  let c1_i32 : BitVec 32 := 1#32
  let v19 : BitVec 32 := Scalar.subi v4 c1_i32
  let v20 : BitVec 32 := Scalar.select v18 v19 v4
  let c8_i32_5 : BitVec 32 := 8#32
  let v21 : BitVec 32 := Scalar.muli v20 c8_i32_5
  let c208_i32 : BitVec 32 := 208#32
  let v22 : BitVec 32 := Scalar.minsi v21 c208_i32
  let v23 : BitVec 32 := Scalar.subi v3 v22
  let c2_i32_58 : BitVec 32 := 2#32
  let c0_i32_59 : BitVec 32 := 0#32
  let v123 : BitVec 1 := Scalar.cmpi .eq c2_i32_58 c0_i32_59
  let c1_i32_60 : BitVec 32 := 1#32
  let v124 : BitVec 32 := Scalar.select v123 c1_i32_60 c2_i32_58
  let v125 : BitVec 32 := Scalar.remsi arg18 v124
  let c0_i32_62 : BitVec 32 := 0#32
  let v127 : BitVec 1 := Scalar.cmpi .slt v125 c0_i32_62
  let c0_i32_63 : BitVec 32 := 0#32
  let v128 : BitVec 1 := Scalar.cmpi .slt v124 c0_i32_63
  let v129 : BitVec 1 := Scalar.xori v127 v128
  let c0_i32_61 : BitVec 32 := 0#32
  let v126 : BitVec 1 := Scalar.cmpi .ne v125 c0_i32_61
  let v130 : BitVec 1 := Scalar.andi v129 v126
  let v131 : BitVec 32 := Scalar.addi v125 v124
  let v132 : BitVec 32 := Scalar.select v130 v131 v125
  let v400 : BitVec 32 := Scalar.addi v23 v132
  let v402 : Index := Scalar.indexCast v400
  let c16_241 : Index := 16#32
  ![v401.toNat, v402.toNat, 16]
def k1_off67 (i : grid1.Coords) (k1_t1 : Fin k1_t1_loop.trips) : Fin 3 → Nat :=
  let c0_i32_28 : BitVec 32 := 0#32
  let c1_i32_29 : BitVec 32 := 1#32
  let arg18 : BitVec 32 := Scf.iv c0_i32_28 c1_i32_29 k1_t1
  let c0_i32_52 : BitVec 32 := 0#32
  let v107 : BitVec 1 := Scalar.cmpi .sgt arg18 c0_i32_52
  let v108 : BitVec 32 := Scalar.extui v107
  let c0_i32_53 : BitVec 32 := 0#32
  let v109 : BitVec 1 := Scalar.cmpi .slt arg18 c0_i32_53
  let v110 : BitVec 32 := Scalar.extui v109
  let v111 : BitVec 32 := Scalar.subi v108 v110
  let c2_i32_51 : BitVec 32 := 2#32
  let c0_i32_54 : BitVec 32 := 0#32
  let v112 : BitVec 1 := Scalar.cmpi .sgt c2_i32_51 c0_i32_54
  let v113 : BitVec 32 := Scalar.extui v112
  let c0_i32_55 : BitVec 32 := 0#32
  let v114 : BitVec 1 := Scalar.cmpi .slt c2_i32_51 c0_i32_55
  let v115 : BitVec 32 := Scalar.extui v114
  let v116 : BitVec 32 := Scalar.subi v113 v115
  let v117 : BitVec 1 := Scalar.cmpi .ne v111 v116
  let v118 : BitVec 32 := Scalar.remsi arg18 c2_i32_51
  let c0_i32_56 : BitVec 32 := 0#32
  let v119 : BitVec 1 := Scalar.cmpi .ne v118 c0_i32_56
  let v120 : BitVec 1 := Scalar.andi v117 v119
  let v106 : BitVec 32 := Scalar.divsi arg18 c2_i32_51
  let c1_i32_57 : BitVec 32 := 1#32
  let v121 : BitVec 32 := Scalar.subi v106 c1_i32_57
  let v122 : BitVec 32 := Scalar.select v120 v121 v106
  let v424 : Index := Scalar.indexCast v122
  let c160_i32 : BitVec 32 := 160#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi c160_i32 v2
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c8_i32 : BitVec 32 := 8#32
  let c0_i32_2 : BitVec 32 := 0#32
  let v10 : BitVec 1 := Scalar.cmpi .sgt c8_i32 c0_i32_2
  let v11 : BitVec 32 := Scalar.extui v10
  let c0_i32_3 : BitVec 32 := 0#32
  let v12 : BitVec 1 := Scalar.cmpi .slt c8_i32 c0_i32_3
  let v13 : BitVec 32 := Scalar.extui v12
  let v14 : BitVec 32 := Scalar.subi v11 v13
  let v15 : BitVec 1 := Scalar.cmpi .ne v9 v14
  let v16 : BitVec 32 := Scalar.remsi v3 c8_i32
  let c0_i32_4 : BitVec 32 := 0#32
  let v17 : BitVec 1 := Scalar.cmpi .ne v16 c0_i32_4
  let v18 : BitVec 1 := Scalar.andi v15 v17
  let v4 : BitVec 32 := Scalar.divsi v3 c8_i32
  let c1_i32 : BitVec 32 := 1#32
  let v19 : BitVec 32 := Scalar.subi v4 c1_i32
  let v20 : BitVec 32 := Scalar.select v18 v19 v4
  let c8_i32_5 : BitVec 32 := 8#32
  let v21 : BitVec 32 := Scalar.muli v20 c8_i32_5
  let c208_i32 : BitVec 32 := 208#32
  let v22 : BitVec 32 := Scalar.minsi v21 c208_i32
  let v23 : BitVec 32 := Scalar.subi v3 v22
  let c2_i32_58 : BitVec 32 := 2#32
  let c0_i32_59 : BitVec 32 := 0#32
  let v123 : BitVec 1 := Scalar.cmpi .eq c2_i32_58 c0_i32_59
  let c1_i32_60 : BitVec 32 := 1#32
  let v124 : BitVec 32 := Scalar.select v123 c1_i32_60 c2_i32_58
  let v125 : BitVec 32 := Scalar.remsi arg18 v124
  let c0_i32_62 : BitVec 32 := 0#32
  let v127 : BitVec 1 := Scalar.cmpi .slt v125 c0_i32_62
  let c0_i32_63 : BitVec 32 := 0#32
  let v128 : BitVec 1 := Scalar.cmpi .slt v124 c0_i32_63
  let v129 : BitVec 1 := Scalar.xori v127 v128
  let c0_i32_61 : BitVec 32 := 0#32
  let v126 : BitVec 1 := Scalar.cmpi .ne v125 c0_i32_61
  let v130 : BitVec 1 := Scalar.andi v129 v126
  let v131 : BitVec 32 := Scalar.addi v125 v124
  let v132 : BitVec 32 := Scalar.select v130 v131 v125
  let v423 : BitVec 32 := Scalar.addi v23 v132
  let v425 : Index := Scalar.indexCast v423
  let c32 : Index := 32#32
  ![v424.toNat, v425.toNat, 32]
def k1_off68 (i : grid1.Coords) (k1_t1 : Fin k1_t1_loop.trips) : Fin 3 → Nat :=
  let c0_i32_28 : BitVec 32 := 0#32
  let c1_i32_29 : BitVec 32 := 1#32
  let arg18 : BitVec 32 := Scf.iv c0_i32_28 c1_i32_29 k1_t1
  let c0_i32_52 : BitVec 32 := 0#32
  let v107 : BitVec 1 := Scalar.cmpi .sgt arg18 c0_i32_52
  let v108 : BitVec 32 := Scalar.extui v107
  let c0_i32_53 : BitVec 32 := 0#32
  let v109 : BitVec 1 := Scalar.cmpi .slt arg18 c0_i32_53
  let v110 : BitVec 32 := Scalar.extui v109
  let v111 : BitVec 32 := Scalar.subi v108 v110
  let c2_i32_51 : BitVec 32 := 2#32
  let c0_i32_54 : BitVec 32 := 0#32
  let v112 : BitVec 1 := Scalar.cmpi .sgt c2_i32_51 c0_i32_54
  let v113 : BitVec 32 := Scalar.extui v112
  let c0_i32_55 : BitVec 32 := 0#32
  let v114 : BitVec 1 := Scalar.cmpi .slt c2_i32_51 c0_i32_55
  let v115 : BitVec 32 := Scalar.extui v114
  let v116 : BitVec 32 := Scalar.subi v113 v115
  let v117 : BitVec 1 := Scalar.cmpi .ne v111 v116
  let v118 : BitVec 32 := Scalar.remsi arg18 c2_i32_51
  let c0_i32_56 : BitVec 32 := 0#32
  let v119 : BitVec 1 := Scalar.cmpi .ne v118 c0_i32_56
  let v120 : BitVec 1 := Scalar.andi v117 v119
  let v106 : BitVec 32 := Scalar.divsi arg18 c2_i32_51
  let c1_i32_57 : BitVec 32 := 1#32
  let v121 : BitVec 32 := Scalar.subi v106 c1_i32_57
  let v122 : BitVec 32 := Scalar.select v120 v121 v106
  let v447 : Index := Scalar.indexCast v122
  let c160_i32 : BitVec 32 := 160#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi c160_i32 v2
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c8_i32 : BitVec 32 := 8#32
  let c0_i32_2 : BitVec 32 := 0#32
  let v10 : BitVec 1 := Scalar.cmpi .sgt c8_i32 c0_i32_2
  let v11 : BitVec 32 := Scalar.extui v10
  let c0_i32_3 : BitVec 32 := 0#32
  let v12 : BitVec 1 := Scalar.cmpi .slt c8_i32 c0_i32_3
  let v13 : BitVec 32 := Scalar.extui v12
  let v14 : BitVec 32 := Scalar.subi v11 v13
  let v15 : BitVec 1 := Scalar.cmpi .ne v9 v14
  let v16 : BitVec 32 := Scalar.remsi v3 c8_i32
  let c0_i32_4 : BitVec 32 := 0#32
  let v17 : BitVec 1 := Scalar.cmpi .ne v16 c0_i32_4
  let v18 : BitVec 1 := Scalar.andi v15 v17
  let v4 : BitVec 32 := Scalar.divsi v3 c8_i32
  let c1_i32 : BitVec 32 := 1#32
  let v19 : BitVec 32 := Scalar.subi v4 c1_i32
  let v20 : BitVec 32 := Scalar.select v18 v19 v4
  let c8_i32_5 : BitVec 32 := 8#32
  let v21 : BitVec 32 := Scalar.muli v20 c8_i32_5
  let c208_i32 : BitVec 32 := 208#32
  let v22 : BitVec 32 := Scalar.minsi v21 c208_i32
  let v23 : BitVec 32 := Scalar.subi v3 v22
  let c2_i32_58 : BitVec 32 := 2#32
  let c0_i32_59 : BitVec 32 := 0#32
  let v123 : BitVec 1 := Scalar.cmpi .eq c2_i32_58 c0_i32_59
  let c1_i32_60 : BitVec 32 := 1#32
  let v124 : BitVec 32 := Scalar.select v123 c1_i32_60 c2_i32_58
  let v125 : BitVec 32 := Scalar.remsi arg18 v124
  let c0_i32_62 : BitVec 32 := 0#32
  let v127 : BitVec 1 := Scalar.cmpi .slt v125 c0_i32_62
  let c0_i32_63 : BitVec 32 := 0#32
  let v128 : BitVec 1 := Scalar.cmpi .slt v124 c0_i32_63
  let v129 : BitVec 1 := Scalar.xori v127 v128
  let c0_i32_61 : BitVec 32 := 0#32
  let v126 : BitVec 1 := Scalar.cmpi .ne v125 c0_i32_61
  let v130 : BitVec 1 := Scalar.andi v129 v126
  let v131 : BitVec 32 := Scalar.addi v125 v124
  let v132 : BitVec 32 := Scalar.select v130 v131 v125
  let v446 : BitVec 32 := Scalar.addi v23 v132
  let v448 : Index := Scalar.indexCast v446
  let c48 : Index := 48#32
  ![v447.toNat, v448.toNat, 48]
def k1_off69 (i : grid1.Coords) (k1_t1 : Fin k1_t1_loop.trips) : Fin 3 → Nat :=
  let c0_i32_28 : BitVec 32 := 0#32
  let c1_i32_29 : BitVec 32 := 1#32
  let arg18 : BitVec 32 := Scf.iv c0_i32_28 c1_i32_29 k1_t1
  let c0_i32_52 : BitVec 32 := 0#32
  let v107 : BitVec 1 := Scalar.cmpi .sgt arg18 c0_i32_52
  let v108 : BitVec 32 := Scalar.extui v107
  let c0_i32_53 : BitVec 32 := 0#32
  let v109 : BitVec 1 := Scalar.cmpi .slt arg18 c0_i32_53
  let v110 : BitVec 32 := Scalar.extui v109
  let v111 : BitVec 32 := Scalar.subi v108 v110
  let c2_i32_51 : BitVec 32 := 2#32
  let c0_i32_54 : BitVec 32 := 0#32
  let v112 : BitVec 1 := Scalar.cmpi .sgt c2_i32_51 c0_i32_54
  let v113 : BitVec 32 := Scalar.extui v112
  let c0_i32_55 : BitVec 32 := 0#32
  let v114 : BitVec 1 := Scalar.cmpi .slt c2_i32_51 c0_i32_55
  let v115 : BitVec 32 := Scalar.extui v114
  let v116 : BitVec 32 := Scalar.subi v113 v115
  let v117 : BitVec 1 := Scalar.cmpi .ne v111 v116
  let v118 : BitVec 32 := Scalar.remsi arg18 c2_i32_51
  let c0_i32_56 : BitVec 32 := 0#32
  let v119 : BitVec 1 := Scalar.cmpi .ne v118 c0_i32_56
  let v120 : BitVec 1 := Scalar.andi v117 v119
  let v106 : BitVec 32 := Scalar.divsi arg18 c2_i32_51
  let c1_i32_57 : BitVec 32 := 1#32
  let v121 : BitVec 32 := Scalar.subi v106 c1_i32_57
  let v122 : BitVec 32 := Scalar.select v120 v121 v106
  let v470 : Index := Scalar.indexCast v122
  let c160_i32 : BitVec 32 := 160#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi c160_i32 v2
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c8_i32 : BitVec 32 := 8#32
  let c0_i32_2 : BitVec 32 := 0#32
  let v10 : BitVec 1 := Scalar.cmpi .sgt c8_i32 c0_i32_2
  let v11 : BitVec 32 := Scalar.extui v10
  let c0_i32_3 : BitVec 32 := 0#32
  let v12 : BitVec 1 := Scalar.cmpi .slt c8_i32 c0_i32_3
  let v13 : BitVec 32 := Scalar.extui v12
  let v14 : BitVec 32 := Scalar.subi v11 v13
  let v15 : BitVec 1 := Scalar.cmpi .ne v9 v14
  let v16 : BitVec 32 := Scalar.remsi v3 c8_i32
  let c0_i32_4 : BitVec 32 := 0#32
  let v17 : BitVec 1 := Scalar.cmpi .ne v16 c0_i32_4
  let v18 : BitVec 1 := Scalar.andi v15 v17
  let v4 : BitVec 32 := Scalar.divsi v3 c8_i32
  let c1_i32 : BitVec 32 := 1#32
  let v19 : BitVec 32 := Scalar.subi v4 c1_i32
  let v20 : BitVec 32 := Scalar.select v18 v19 v4
  let c8_i32_5 : BitVec 32 := 8#32
  let v21 : BitVec 32 := Scalar.muli v20 c8_i32_5
  let c208_i32 : BitVec 32 := 208#32
  let v22 : BitVec 32 := Scalar.minsi v21 c208_i32
  let v23 : BitVec 32 := Scalar.subi v3 v22
  let c2_i32_58 : BitVec 32 := 2#32
  let c0_i32_59 : BitVec 32 := 0#32
  let v123 : BitVec 1 := Scalar.cmpi .eq c2_i32_58 c0_i32_59
  let c1_i32_60 : BitVec 32 := 1#32
  let v124 : BitVec 32 := Scalar.select v123 c1_i32_60 c2_i32_58
  let v125 : BitVec 32 := Scalar.remsi arg18 v124
  let c0_i32_62 : BitVec 32 := 0#32
  let v127 : BitVec 1 := Scalar.cmpi .slt v125 c0_i32_62
  let c0_i32_63 : BitVec 32 := 0#32
  let v128 : BitVec 1 := Scalar.cmpi .slt v124 c0_i32_63
  let v129 : BitVec 1 := Scalar.xori v127 v128
  let c0_i32_61 : BitVec 32 := 0#32
  let v126 : BitVec 1 := Scalar.cmpi .ne v125 c0_i32_61
  let v130 : BitVec 1 := Scalar.andi v129 v126
  let v131 : BitVec 32 := Scalar.addi v125 v124
  let v132 : BitVec 32 := Scalar.select v130 v131 v125
  let v469 : BitVec 32 := Scalar.addi v23 v132
  let v471 : Index := Scalar.indexCast v469
  let c64 : Index := 64#32
  ![v470.toNat, v471.toNat, 64]
def k1_off70 (i : grid1.Coords) (k1_t1 : Fin k1_t1_loop.trips) : Fin 3 → Nat :=
  let c0_i32_28 : BitVec 32 := 0#32
  let c1_i32_29 : BitVec 32 := 1#32
  let arg18 : BitVec 32 := Scf.iv c0_i32_28 c1_i32_29 k1_t1
  let c0_i32_52 : BitVec 32 := 0#32
  let v107 : BitVec 1 := Scalar.cmpi .sgt arg18 c0_i32_52
  let v108 : BitVec 32 := Scalar.extui v107
  let c0_i32_53 : BitVec 32 := 0#32
  let v109 : BitVec 1 := Scalar.cmpi .slt arg18 c0_i32_53
  let v110 : BitVec 32 := Scalar.extui v109
  let v111 : BitVec 32 := Scalar.subi v108 v110
  let c2_i32_51 : BitVec 32 := 2#32
  let c0_i32_54 : BitVec 32 := 0#32
  let v112 : BitVec 1 := Scalar.cmpi .sgt c2_i32_51 c0_i32_54
  let v113 : BitVec 32 := Scalar.extui v112
  let c0_i32_55 : BitVec 32 := 0#32
  let v114 : BitVec 1 := Scalar.cmpi .slt c2_i32_51 c0_i32_55
  let v115 : BitVec 32 := Scalar.extui v114
  let v116 : BitVec 32 := Scalar.subi v113 v115
  let v117 : BitVec 1 := Scalar.cmpi .ne v111 v116
  let v118 : BitVec 32 := Scalar.remsi arg18 c2_i32_51
  let c0_i32_56 : BitVec 32 := 0#32
  let v119 : BitVec 1 := Scalar.cmpi .ne v118 c0_i32_56
  let v120 : BitVec 1 := Scalar.andi v117 v119
  let v106 : BitVec 32 := Scalar.divsi arg18 c2_i32_51
  let c1_i32_57 : BitVec 32 := 1#32
  let v121 : BitVec 32 := Scalar.subi v106 c1_i32_57
  let v122 : BitVec 32 := Scalar.select v120 v121 v106
  let v493 : Index := Scalar.indexCast v122
  let c160_i32 : BitVec 32 := 160#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi c160_i32 v2
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c8_i32 : BitVec 32 := 8#32
  let c0_i32_2 : BitVec 32 := 0#32
  let v10 : BitVec 1 := Scalar.cmpi .sgt c8_i32 c0_i32_2
  let v11 : BitVec 32 := Scalar.extui v10
  let c0_i32_3 : BitVec 32 := 0#32
  let v12 : BitVec 1 := Scalar.cmpi .slt c8_i32 c0_i32_3
  let v13 : BitVec 32 := Scalar.extui v12
  let v14 : BitVec 32 := Scalar.subi v11 v13
  let v15 : BitVec 1 := Scalar.cmpi .ne v9 v14
  let v16 : BitVec 32 := Scalar.remsi v3 c8_i32
  let c0_i32_4 : BitVec 32 := 0#32
  let v17 : BitVec 1 := Scalar.cmpi .ne v16 c0_i32_4
  let v18 : BitVec 1 := Scalar.andi v15 v17
  let v4 : BitVec 32 := Scalar.divsi v3 c8_i32
  let c1_i32 : BitVec 32 := 1#32
  let v19 : BitVec 32 := Scalar.subi v4 c1_i32
  let v20 : BitVec 32 := Scalar.select v18 v19 v4
  let c8_i32_5 : BitVec 32 := 8#32
  let v21 : BitVec 32 := Scalar.muli v20 c8_i32_5
  let c208_i32 : BitVec 32 := 208#32
  let v22 : BitVec 32 := Scalar.minsi v21 c208_i32
  let v23 : BitVec 32 := Scalar.subi v3 v22
  let c2_i32_58 : BitVec 32 := 2#32
  let c0_i32_59 : BitVec 32 := 0#32
  let v123 : BitVec 1 := Scalar.cmpi .eq c2_i32_58 c0_i32_59
  let c1_i32_60 : BitVec 32 := 1#32
  let v124 : BitVec 32 := Scalar.select v123 c1_i32_60 c2_i32_58
  let v125 : BitVec 32 := Scalar.remsi arg18 v124
  let c0_i32_62 : BitVec 32 := 0#32
  let v127 : BitVec 1 := Scalar.cmpi .slt v125 c0_i32_62
  let c0_i32_63 : BitVec 32 := 0#32
  let v128 : BitVec 1 := Scalar.cmpi .slt v124 c0_i32_63
  let v129 : BitVec 1 := Scalar.xori v127 v128
  let c0_i32_61 : BitVec 32 := 0#32
  let v126 : BitVec 1 := Scalar.cmpi .ne v125 c0_i32_61
  let v130 : BitVec 1 := Scalar.andi v129 v126
  let v131 : BitVec 32 := Scalar.addi v125 v124
  let v132 : BitVec 32 := Scalar.select v130 v131 v125
  let v492 : BitVec 32 := Scalar.addi v23 v132
  let v494 : Index := Scalar.indexCast v492
  let c80 : Index := 80#32
  ![v493.toNat, v494.toNat, 80]
def k1_off71 (i : grid1.Coords) (k1_t1 : Fin k1_t1_loop.trips) : Fin 3 → Nat :=
  let c0_i32_28 : BitVec 32 := 0#32
  let c1_i32_29 : BitVec 32 := 1#32
  let arg18 : BitVec 32 := Scf.iv c0_i32_28 c1_i32_29 k1_t1
  let c0_i32_52 : BitVec 32 := 0#32
  let v107 : BitVec 1 := Scalar.cmpi .sgt arg18 c0_i32_52
  let v108 : BitVec 32 := Scalar.extui v107
  let c0_i32_53 : BitVec 32 := 0#32
  let v109 : BitVec 1 := Scalar.cmpi .slt arg18 c0_i32_53
  let v110 : BitVec 32 := Scalar.extui v109
  let v111 : BitVec 32 := Scalar.subi v108 v110
  let c2_i32_51 : BitVec 32 := 2#32
  let c0_i32_54 : BitVec 32 := 0#32
  let v112 : BitVec 1 := Scalar.cmpi .sgt c2_i32_51 c0_i32_54
  let v113 : BitVec 32 := Scalar.extui v112
  let c0_i32_55 : BitVec 32 := 0#32
  let v114 : BitVec 1 := Scalar.cmpi .slt c2_i32_51 c0_i32_55
  let v115 : BitVec 32 := Scalar.extui v114
  let v116 : BitVec 32 := Scalar.subi v113 v115
  let v117 : BitVec 1 := Scalar.cmpi .ne v111 v116
  let v118 : BitVec 32 := Scalar.remsi arg18 c2_i32_51
  let c0_i32_56 : BitVec 32 := 0#32
  let v119 : BitVec 1 := Scalar.cmpi .ne v118 c0_i32_56
  let v120 : BitVec 1 := Scalar.andi v117 v119
  let v106 : BitVec 32 := Scalar.divsi arg18 c2_i32_51
  let c1_i32_57 : BitVec 32 := 1#32
  let v121 : BitVec 32 := Scalar.subi v106 c1_i32_57
  let v122 : BitVec 32 := Scalar.select v120 v121 v106
  let v516 : Index := Scalar.indexCast v122
  let c160_i32 : BitVec 32 := 160#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi c160_i32 v2
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c8_i32 : BitVec 32 := 8#32
  let c0_i32_2 : BitVec 32 := 0#32
  let v10 : BitVec 1 := Scalar.cmpi .sgt c8_i32 c0_i32_2
  let v11 : BitVec 32 := Scalar.extui v10
  let c0_i32_3 : BitVec 32 := 0#32
  let v12 : BitVec 1 := Scalar.cmpi .slt c8_i32 c0_i32_3
  let v13 : BitVec 32 := Scalar.extui v12
  let v14 : BitVec 32 := Scalar.subi v11 v13
  let v15 : BitVec 1 := Scalar.cmpi .ne v9 v14
  let v16 : BitVec 32 := Scalar.remsi v3 c8_i32
  let c0_i32_4 : BitVec 32 := 0#32
  let v17 : BitVec 1 := Scalar.cmpi .ne v16 c0_i32_4
  let v18 : BitVec 1 := Scalar.andi v15 v17
  let v4 : BitVec 32 := Scalar.divsi v3 c8_i32
  let c1_i32 : BitVec 32 := 1#32
  let v19 : BitVec 32 := Scalar.subi v4 c1_i32
  let v20 : BitVec 32 := Scalar.select v18 v19 v4
  let c8_i32_5 : BitVec 32 := 8#32
  let v21 : BitVec 32 := Scalar.muli v20 c8_i32_5
  let c208_i32 : BitVec 32 := 208#32
  let v22 : BitVec 32 := Scalar.minsi v21 c208_i32
  let v23 : BitVec 32 := Scalar.subi v3 v22
  let c2_i32_58 : BitVec 32 := 2#32
  let c0_i32_59 : BitVec 32 := 0#32
  let v123 : BitVec 1 := Scalar.cmpi .eq c2_i32_58 c0_i32_59
  let c1_i32_60 : BitVec 32 := 1#32
  let v124 : BitVec 32 := Scalar.select v123 c1_i32_60 c2_i32_58
  let v125 : BitVec 32 := Scalar.remsi arg18 v124
  let c0_i32_62 : BitVec 32 := 0#32
  let v127 : BitVec 1 := Scalar.cmpi .slt v125 c0_i32_62
  let c0_i32_63 : BitVec 32 := 0#32
  let v128 : BitVec 1 := Scalar.cmpi .slt v124 c0_i32_63
  let v129 : BitVec 1 := Scalar.xori v127 v128
  let c0_i32_61 : BitVec 32 := 0#32
  let v126 : BitVec 1 := Scalar.cmpi .ne v125 c0_i32_61
  let v130 : BitVec 1 := Scalar.andi v129 v126
  let v131 : BitVec 32 := Scalar.addi v125 v124
  let v132 : BitVec 32 := Scalar.select v130 v131 v125
  let v515 : BitVec 32 := Scalar.addi v23 v132
  let v517 : Index := Scalar.indexCast v515
  let c96 : Index := 96#32
  ![v516.toNat, v517.toNat, 96]
def k1_off72 (i : grid1.Coords) (k1_t1 : Fin k1_t1_loop.trips) : Fin 3 → Nat :=
  let c0_i32_28 : BitVec 32 := 0#32
  let c1_i32_29 : BitVec 32 := 1#32
  let arg18 : BitVec 32 := Scf.iv c0_i32_28 c1_i32_29 k1_t1
  let c0_i32_52 : BitVec 32 := 0#32
  let v107 : BitVec 1 := Scalar.cmpi .sgt arg18 c0_i32_52
  let v108 : BitVec 32 := Scalar.extui v107
  let c0_i32_53 : BitVec 32 := 0#32
  let v109 : BitVec 1 := Scalar.cmpi .slt arg18 c0_i32_53
  let v110 : BitVec 32 := Scalar.extui v109
  let v111 : BitVec 32 := Scalar.subi v108 v110
  let c2_i32_51 : BitVec 32 := 2#32
  let c0_i32_54 : BitVec 32 := 0#32
  let v112 : BitVec 1 := Scalar.cmpi .sgt c2_i32_51 c0_i32_54
  let v113 : BitVec 32 := Scalar.extui v112
  let c0_i32_55 : BitVec 32 := 0#32
  let v114 : BitVec 1 := Scalar.cmpi .slt c2_i32_51 c0_i32_55
  let v115 : BitVec 32 := Scalar.extui v114
  let v116 : BitVec 32 := Scalar.subi v113 v115
  let v117 : BitVec 1 := Scalar.cmpi .ne v111 v116
  let v118 : BitVec 32 := Scalar.remsi arg18 c2_i32_51
  let c0_i32_56 : BitVec 32 := 0#32
  let v119 : BitVec 1 := Scalar.cmpi .ne v118 c0_i32_56
  let v120 : BitVec 1 := Scalar.andi v117 v119
  let v106 : BitVec 32 := Scalar.divsi arg18 c2_i32_51
  let c1_i32_57 : BitVec 32 := 1#32
  let v121 : BitVec 32 := Scalar.subi v106 c1_i32_57
  let v122 : BitVec 32 := Scalar.select v120 v121 v106
  let v539 : Index := Scalar.indexCast v122
  let c160_i32 : BitVec 32 := 160#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi c160_i32 v2
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c8_i32 : BitVec 32 := 8#32
  let c0_i32_2 : BitVec 32 := 0#32
  let v10 : BitVec 1 := Scalar.cmpi .sgt c8_i32 c0_i32_2
  let v11 : BitVec 32 := Scalar.extui v10
  let c0_i32_3 : BitVec 32 := 0#32
  let v12 : BitVec 1 := Scalar.cmpi .slt c8_i32 c0_i32_3
  let v13 : BitVec 32 := Scalar.extui v12
  let v14 : BitVec 32 := Scalar.subi v11 v13
  let v15 : BitVec 1 := Scalar.cmpi .ne v9 v14
  let v16 : BitVec 32 := Scalar.remsi v3 c8_i32
  let c0_i32_4 : BitVec 32 := 0#32
  let v17 : BitVec 1 := Scalar.cmpi .ne v16 c0_i32_4
  let v18 : BitVec 1 := Scalar.andi v15 v17
  let v4 : BitVec 32 := Scalar.divsi v3 c8_i32
  let c1_i32 : BitVec 32 := 1#32
  let v19 : BitVec 32 := Scalar.subi v4 c1_i32
  let v20 : BitVec 32 := Scalar.select v18 v19 v4
  let c8_i32_5 : BitVec 32 := 8#32
  let v21 : BitVec 32 := Scalar.muli v20 c8_i32_5
  let c208_i32 : BitVec 32 := 208#32
  let v22 : BitVec 32 := Scalar.minsi v21 c208_i32
  let v23 : BitVec 32 := Scalar.subi v3 v22
  let c2_i32_58 : BitVec 32 := 2#32
  let c0_i32_59 : BitVec 32 := 0#32
  let v123 : BitVec 1 := Scalar.cmpi .eq c2_i32_58 c0_i32_59
  let c1_i32_60 : BitVec 32 := 1#32
  let v124 : BitVec 32 := Scalar.select v123 c1_i32_60 c2_i32_58
  let v125 : BitVec 32 := Scalar.remsi arg18 v124
  let c0_i32_62 : BitVec 32 := 0#32
  let v127 : BitVec 1 := Scalar.cmpi .slt v125 c0_i32_62
  let c0_i32_63 : BitVec 32 := 0#32
  let v128 : BitVec 1 := Scalar.cmpi .slt v124 c0_i32_63
  let v129 : BitVec 1 := Scalar.xori v127 v128
  let c0_i32_61 : BitVec 32 := 0#32
  let v126 : BitVec 1 := Scalar.cmpi .ne v125 c0_i32_61
  let v130 : BitVec 1 := Scalar.andi v129 v126
  let v131 : BitVec 32 := Scalar.addi v125 v124
  let v132 : BitVec 32 := Scalar.select v130 v131 v125
  let v538 : BitVec 32 := Scalar.addi v23 v132
  let v540 : Index := Scalar.indexCast v538
  let c112 : Index := 112#32
  ![v539.toNat, v540.toNat, 112]
def k1_off73 (i : grid1.Coords) (k1_t1 : Fin k1_t1_loop.trips) : Fin 3 → Nat :=
  let c0_i32_28 : BitVec 32 := 0#32
  let c1_i32_29 : BitVec 32 := 1#32
  let arg18 : BitVec 32 := Scf.iv c0_i32_28 c1_i32_29 k1_t1
  let c0_i32_52 : BitVec 32 := 0#32
  let v107 : BitVec 1 := Scalar.cmpi .sgt arg18 c0_i32_52
  let v108 : BitVec 32 := Scalar.extui v107
  let c0_i32_53 : BitVec 32 := 0#32
  let v109 : BitVec 1 := Scalar.cmpi .slt arg18 c0_i32_53
  let v110 : BitVec 32 := Scalar.extui v109
  let v111 : BitVec 32 := Scalar.subi v108 v110
  let c2_i32_51 : BitVec 32 := 2#32
  let c0_i32_54 : BitVec 32 := 0#32
  let v112 : BitVec 1 := Scalar.cmpi .sgt c2_i32_51 c0_i32_54
  let v113 : BitVec 32 := Scalar.extui v112
  let c0_i32_55 : BitVec 32 := 0#32
  let v114 : BitVec 1 := Scalar.cmpi .slt c2_i32_51 c0_i32_55
  let v115 : BitVec 32 := Scalar.extui v114
  let v116 : BitVec 32 := Scalar.subi v113 v115
  let v117 : BitVec 1 := Scalar.cmpi .ne v111 v116
  let v118 : BitVec 32 := Scalar.remsi arg18 c2_i32_51
  let c0_i32_56 : BitVec 32 := 0#32
  let v119 : BitVec 1 := Scalar.cmpi .ne v118 c0_i32_56
  let v120 : BitVec 1 := Scalar.andi v117 v119
  let v106 : BitVec 32 := Scalar.divsi arg18 c2_i32_51
  let c1_i32_57 : BitVec 32 := 1#32
  let v121 : BitVec 32 := Scalar.subi v106 c1_i32_57
  let v122 : BitVec 32 := Scalar.select v120 v121 v106
  let v562 : Index := Scalar.indexCast v122
  let c160_i32 : BitVec 32 := 160#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi c160_i32 v2
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c8_i32 : BitVec 32 := 8#32
  let c0_i32_2 : BitVec 32 := 0#32
  let v10 : BitVec 1 := Scalar.cmpi .sgt c8_i32 c0_i32_2
  let v11 : BitVec 32 := Scalar.extui v10
  let c0_i32_3 : BitVec 32 := 0#32
  let v12 : BitVec 1 := Scalar.cmpi .slt c8_i32 c0_i32_3
  let v13 : BitVec 32 := Scalar.extui v12
  let v14 : BitVec 32 := Scalar.subi v11 v13
  let v15 : BitVec 1 := Scalar.cmpi .ne v9 v14
  let v16 : BitVec 32 := Scalar.remsi v3 c8_i32
  let c0_i32_4 : BitVec 32 := 0#32
  let v17 : BitVec 1 := Scalar.cmpi .ne v16 c0_i32_4
  let v18 : BitVec 1 := Scalar.andi v15 v17
  let v4 : BitVec 32 := Scalar.divsi v3 c8_i32
  let c1_i32 : BitVec 32 := 1#32
  let v19 : BitVec 32 := Scalar.subi v4 c1_i32
  let v20 : BitVec 32 := Scalar.select v18 v19 v4
  let c8_i32_5 : BitVec 32 := 8#32
  let v21 : BitVec 32 := Scalar.muli v20 c8_i32_5
  let c208_i32 : BitVec 32 := 208#32
  let v22 : BitVec 32 := Scalar.minsi v21 c208_i32
  let v23 : BitVec 32 := Scalar.subi v3 v22
  let c2_i32_58 : BitVec 32 := 2#32
  let c0_i32_59 : BitVec 32 := 0#32
  let v123 : BitVec 1 := Scalar.cmpi .eq c2_i32_58 c0_i32_59
  let c1_i32_60 : BitVec 32 := 1#32
  let v124 : BitVec 32 := Scalar.select v123 c1_i32_60 c2_i32_58
  let v125 : BitVec 32 := Scalar.remsi arg18 v124
  let c0_i32_62 : BitVec 32 := 0#32
  let v127 : BitVec 1 := Scalar.cmpi .slt v125 c0_i32_62
  let c0_i32_63 : BitVec 32 := 0#32
  let v128 : BitVec 1 := Scalar.cmpi .slt v124 c0_i32_63
  let v129 : BitVec 1 := Scalar.xori v127 v128
  let c0_i32_61 : BitVec 32 := 0#32
  let v126 : BitVec 1 := Scalar.cmpi .ne v125 c0_i32_61
  let v130 : BitVec 1 := Scalar.andi v129 v126
  let v131 : BitVec 32 := Scalar.addi v125 v124
  let v132 : BitVec 32 := Scalar.select v130 v131 v125
  let v561 : BitVec 32 := Scalar.addi v23 v132
  let v563 : Index := Scalar.indexCast v561
  let c128 : Index := 128#32
  ![v562.toNat, v563.toNat, 128]
def k1_off74 (i : grid1.Coords) (k1_t1 : Fin k1_t1_loop.trips) : Fin 3 → Nat :=
  let c0_i32_28 : BitVec 32 := 0#32
  let c1_i32_29 : BitVec 32 := 1#32
  let arg18 : BitVec 32 := Scf.iv c0_i32_28 c1_i32_29 k1_t1
  let c0_i32_52 : BitVec 32 := 0#32
  let v107 : BitVec 1 := Scalar.cmpi .sgt arg18 c0_i32_52
  let v108 : BitVec 32 := Scalar.extui v107
  let c0_i32_53 : BitVec 32 := 0#32
  let v109 : BitVec 1 := Scalar.cmpi .slt arg18 c0_i32_53
  let v110 : BitVec 32 := Scalar.extui v109
  let v111 : BitVec 32 := Scalar.subi v108 v110
  let c2_i32_51 : BitVec 32 := 2#32
  let c0_i32_54 : BitVec 32 := 0#32
  let v112 : BitVec 1 := Scalar.cmpi .sgt c2_i32_51 c0_i32_54
  let v113 : BitVec 32 := Scalar.extui v112
  let c0_i32_55 : BitVec 32 := 0#32
  let v114 : BitVec 1 := Scalar.cmpi .slt c2_i32_51 c0_i32_55
  let v115 : BitVec 32 := Scalar.extui v114
  let v116 : BitVec 32 := Scalar.subi v113 v115
  let v117 : BitVec 1 := Scalar.cmpi .ne v111 v116
  let v118 : BitVec 32 := Scalar.remsi arg18 c2_i32_51
  let c0_i32_56 : BitVec 32 := 0#32
  let v119 : BitVec 1 := Scalar.cmpi .ne v118 c0_i32_56
  let v120 : BitVec 1 := Scalar.andi v117 v119
  let v106 : BitVec 32 := Scalar.divsi arg18 c2_i32_51
  let c1_i32_57 : BitVec 32 := 1#32
  let v121 : BitVec 32 := Scalar.subi v106 c1_i32_57
  let v122 : BitVec 32 := Scalar.select v120 v121 v106
  let v585 : Index := Scalar.indexCast v122
  let c160_i32 : BitVec 32 := 160#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi c160_i32 v2
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c8_i32 : BitVec 32 := 8#32
  let c0_i32_2 : BitVec 32 := 0#32
  let v10 : BitVec 1 := Scalar.cmpi .sgt c8_i32 c0_i32_2
  let v11 : BitVec 32 := Scalar.extui v10
  let c0_i32_3 : BitVec 32 := 0#32
  let v12 : BitVec 1 := Scalar.cmpi .slt c8_i32 c0_i32_3
  let v13 : BitVec 32 := Scalar.extui v12
  let v14 : BitVec 32 := Scalar.subi v11 v13
  let v15 : BitVec 1 := Scalar.cmpi .ne v9 v14
  let v16 : BitVec 32 := Scalar.remsi v3 c8_i32
  let c0_i32_4 : BitVec 32 := 0#32
  let v17 : BitVec 1 := Scalar.cmpi .ne v16 c0_i32_4
  let v18 : BitVec 1 := Scalar.andi v15 v17
  let v4 : BitVec 32 := Scalar.divsi v3 c8_i32
  let c1_i32 : BitVec 32 := 1#32
  let v19 : BitVec 32 := Scalar.subi v4 c1_i32
  let v20 : BitVec 32 := Scalar.select v18 v19 v4
  let c8_i32_5 : BitVec 32 := 8#32
  let v21 : BitVec 32 := Scalar.muli v20 c8_i32_5
  let c208_i32 : BitVec 32 := 208#32
  let v22 : BitVec 32 := Scalar.minsi v21 c208_i32
  let v23 : BitVec 32 := Scalar.subi v3 v22
  let c2_i32_58 : BitVec 32 := 2#32
  let c0_i32_59 : BitVec 32 := 0#32
  let v123 : BitVec 1 := Scalar.cmpi .eq c2_i32_58 c0_i32_59
  let c1_i32_60 : BitVec 32 := 1#32
  let v124 : BitVec 32 := Scalar.select v123 c1_i32_60 c2_i32_58
  let v125 : BitVec 32 := Scalar.remsi arg18 v124
  let c0_i32_62 : BitVec 32 := 0#32
  let v127 : BitVec 1 := Scalar.cmpi .slt v125 c0_i32_62
  let c0_i32_63 : BitVec 32 := 0#32
  let v128 : BitVec 1 := Scalar.cmpi .slt v124 c0_i32_63
  let v129 : BitVec 1 := Scalar.xori v127 v128
  let c0_i32_61 : BitVec 32 := 0#32
  let v126 : BitVec 1 := Scalar.cmpi .ne v125 c0_i32_61
  let v130 : BitVec 1 := Scalar.andi v129 v126
  let v131 : BitVec 32 := Scalar.addi v125 v124
  let v132 : BitVec 32 := Scalar.select v130 v131 v125
  let v584 : BitVec 32 := Scalar.addi v23 v132
  let v586 : Index := Scalar.indexCast v584
  let c144 : Index := 144#32
  ![v585.toNat, v586.toNat, 144]
def k1_off75 (i : grid1.Coords) (k1_t1 : Fin k1_t1_loop.trips) : Fin 3 → Nat :=
  let c0_i32_28 : BitVec 32 := 0#32
  let c1_i32_29 : BitVec 32 := 1#32
  let arg18 : BitVec 32 := Scf.iv c0_i32_28 c1_i32_29 k1_t1
  let c0_i32_52 : BitVec 32 := 0#32
  let v107 : BitVec 1 := Scalar.cmpi .sgt arg18 c0_i32_52
  let v108 : BitVec 32 := Scalar.extui v107
  let c0_i32_53 : BitVec 32 := 0#32
  let v109 : BitVec 1 := Scalar.cmpi .slt arg18 c0_i32_53
  let v110 : BitVec 32 := Scalar.extui v109
  let v111 : BitVec 32 := Scalar.subi v108 v110
  let c2_i32_51 : BitVec 32 := 2#32
  let c0_i32_54 : BitVec 32 := 0#32
  let v112 : BitVec 1 := Scalar.cmpi .sgt c2_i32_51 c0_i32_54
  let v113 : BitVec 32 := Scalar.extui v112
  let c0_i32_55 : BitVec 32 := 0#32
  let v114 : BitVec 1 := Scalar.cmpi .slt c2_i32_51 c0_i32_55
  let v115 : BitVec 32 := Scalar.extui v114
  let v116 : BitVec 32 := Scalar.subi v113 v115
  let v117 : BitVec 1 := Scalar.cmpi .ne v111 v116
  let v118 : BitVec 32 := Scalar.remsi arg18 c2_i32_51
  let c0_i32_56 : BitVec 32 := 0#32
  let v119 : BitVec 1 := Scalar.cmpi .ne v118 c0_i32_56
  let v120 : BitVec 1 := Scalar.andi v117 v119
  let v106 : BitVec 32 := Scalar.divsi arg18 c2_i32_51
  let c1_i32_57 : BitVec 32 := 1#32
  let v121 : BitVec 32 := Scalar.subi v106 c1_i32_57
  let v122 : BitVec 32 := Scalar.select v120 v121 v106
  let v608 : Index := Scalar.indexCast v122
  let c160_i32 : BitVec 32 := 160#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi c160_i32 v2
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c8_i32 : BitVec 32 := 8#32
  let c0_i32_2 : BitVec 32 := 0#32
  let v10 : BitVec 1 := Scalar.cmpi .sgt c8_i32 c0_i32_2
  let v11 : BitVec 32 := Scalar.extui v10
  let c0_i32_3 : BitVec 32 := 0#32
  let v12 : BitVec 1 := Scalar.cmpi .slt c8_i32 c0_i32_3
  let v13 : BitVec 32 := Scalar.extui v12
  let v14 : BitVec 32 := Scalar.subi v11 v13
  let v15 : BitVec 1 := Scalar.cmpi .ne v9 v14
  let v16 : BitVec 32 := Scalar.remsi v3 c8_i32
  let c0_i32_4 : BitVec 32 := 0#32
  let v17 : BitVec 1 := Scalar.cmpi .ne v16 c0_i32_4
  let v18 : BitVec 1 := Scalar.andi v15 v17
  let v4 : BitVec 32 := Scalar.divsi v3 c8_i32
  let c1_i32 : BitVec 32 := 1#32
  let v19 : BitVec 32 := Scalar.subi v4 c1_i32
  let v20 : BitVec 32 := Scalar.select v18 v19 v4
  let c8_i32_5 : BitVec 32 := 8#32
  let v21 : BitVec 32 := Scalar.muli v20 c8_i32_5
  let c208_i32 : BitVec 32 := 208#32
  let v22 : BitVec 32 := Scalar.minsi v21 c208_i32
  let v23 : BitVec 32 := Scalar.subi v3 v22
  let c2_i32_58 : BitVec 32 := 2#32
  let c0_i32_59 : BitVec 32 := 0#32
  let v123 : BitVec 1 := Scalar.cmpi .eq c2_i32_58 c0_i32_59
  let c1_i32_60 : BitVec 32 := 1#32
  let v124 : BitVec 32 := Scalar.select v123 c1_i32_60 c2_i32_58
  let v125 : BitVec 32 := Scalar.remsi arg18 v124
  let c0_i32_62 : BitVec 32 := 0#32
  let v127 : BitVec 1 := Scalar.cmpi .slt v125 c0_i32_62
  let c0_i32_63 : BitVec 32 := 0#32
  let v128 : BitVec 1 := Scalar.cmpi .slt v124 c0_i32_63
  let v129 : BitVec 1 := Scalar.xori v127 v128
  let c0_i32_61 : BitVec 32 := 0#32
  let v126 : BitVec 1 := Scalar.cmpi .ne v125 c0_i32_61
  let v130 : BitVec 1 := Scalar.andi v129 v126
  let v131 : BitVec 32 := Scalar.addi v125 v124
  let v132 : BitVec 32 := Scalar.select v130 v131 v125
  let v607 : BitVec 32 := Scalar.addi v23 v132
  let v609 : Index := Scalar.indexCast v607
  let c160 : Index := 160#32
  ![v608.toNat, v609.toNat, 160]
def k1_off76 (i : grid1.Coords) (k1_t1 : Fin k1_t1_loop.trips) : Fin 3 → Nat :=
  let c0_i32_28 : BitVec 32 := 0#32
  let c1_i32_29 : BitVec 32 := 1#32
  let arg18 : BitVec 32 := Scf.iv c0_i32_28 c1_i32_29 k1_t1
  let c0_i32_52 : BitVec 32 := 0#32
  let v107 : BitVec 1 := Scalar.cmpi .sgt arg18 c0_i32_52
  let v108 : BitVec 32 := Scalar.extui v107
  let c0_i32_53 : BitVec 32 := 0#32
  let v109 : BitVec 1 := Scalar.cmpi .slt arg18 c0_i32_53
  let v110 : BitVec 32 := Scalar.extui v109
  let v111 : BitVec 32 := Scalar.subi v108 v110
  let c2_i32_51 : BitVec 32 := 2#32
  let c0_i32_54 : BitVec 32 := 0#32
  let v112 : BitVec 1 := Scalar.cmpi .sgt c2_i32_51 c0_i32_54
  let v113 : BitVec 32 := Scalar.extui v112
  let c0_i32_55 : BitVec 32 := 0#32
  let v114 : BitVec 1 := Scalar.cmpi .slt c2_i32_51 c0_i32_55
  let v115 : BitVec 32 := Scalar.extui v114
  let v116 : BitVec 32 := Scalar.subi v113 v115
  let v117 : BitVec 1 := Scalar.cmpi .ne v111 v116
  let v118 : BitVec 32 := Scalar.remsi arg18 c2_i32_51
  let c0_i32_56 : BitVec 32 := 0#32
  let v119 : BitVec 1 := Scalar.cmpi .ne v118 c0_i32_56
  let v120 : BitVec 1 := Scalar.andi v117 v119
  let v106 : BitVec 32 := Scalar.divsi arg18 c2_i32_51
  let c1_i32_57 : BitVec 32 := 1#32
  let v121 : BitVec 32 := Scalar.subi v106 c1_i32_57
  let v122 : BitVec 32 := Scalar.select v120 v121 v106
  let v631 : Index := Scalar.indexCast v122
  let c160_i32 : BitVec 32 := 160#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi c160_i32 v2
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c8_i32 : BitVec 32 := 8#32
  let c0_i32_2 : BitVec 32 := 0#32
  let v10 : BitVec 1 := Scalar.cmpi .sgt c8_i32 c0_i32_2
  let v11 : BitVec 32 := Scalar.extui v10
  let c0_i32_3 : BitVec 32 := 0#32
  let v12 : BitVec 1 := Scalar.cmpi .slt c8_i32 c0_i32_3
  let v13 : BitVec 32 := Scalar.extui v12
  let v14 : BitVec 32 := Scalar.subi v11 v13
  let v15 : BitVec 1 := Scalar.cmpi .ne v9 v14
  let v16 : BitVec 32 := Scalar.remsi v3 c8_i32
  let c0_i32_4 : BitVec 32 := 0#32
  let v17 : BitVec 1 := Scalar.cmpi .ne v16 c0_i32_4
  let v18 : BitVec 1 := Scalar.andi v15 v17
  let v4 : BitVec 32 := Scalar.divsi v3 c8_i32
  let c1_i32 : BitVec 32 := 1#32
  let v19 : BitVec 32 := Scalar.subi v4 c1_i32
  let v20 : BitVec 32 := Scalar.select v18 v19 v4
  let c8_i32_5 : BitVec 32 := 8#32
  let v21 : BitVec 32 := Scalar.muli v20 c8_i32_5
  let c208_i32 : BitVec 32 := 208#32
  let v22 : BitVec 32 := Scalar.minsi v21 c208_i32
  let v23 : BitVec 32 := Scalar.subi v3 v22
  let c2_i32_58 : BitVec 32 := 2#32
  let c0_i32_59 : BitVec 32 := 0#32
  let v123 : BitVec 1 := Scalar.cmpi .eq c2_i32_58 c0_i32_59
  let c1_i32_60 : BitVec 32 := 1#32
  let v124 : BitVec 32 := Scalar.select v123 c1_i32_60 c2_i32_58
  let v125 : BitVec 32 := Scalar.remsi arg18 v124
  let c0_i32_62 : BitVec 32 := 0#32
  let v127 : BitVec 1 := Scalar.cmpi .slt v125 c0_i32_62
  let c0_i32_63 : BitVec 32 := 0#32
  let v128 : BitVec 1 := Scalar.cmpi .slt v124 c0_i32_63
  let v129 : BitVec 1 := Scalar.xori v127 v128
  let c0_i32_61 : BitVec 32 := 0#32
  let v126 : BitVec 1 := Scalar.cmpi .ne v125 c0_i32_61
  let v130 : BitVec 1 := Scalar.andi v129 v126
  let v131 : BitVec 32 := Scalar.addi v125 v124
  let v132 : BitVec 32 := Scalar.select v130 v131 v125
  let v630 : BitVec 32 := Scalar.addi v23 v132
  let v632 : Index := Scalar.indexCast v630
  let c176 : Index := 176#32
  ![v631.toNat, v632.toNat, 176]
def k1_off77 (i : grid1.Coords) (k1_t1 : Fin k1_t1_loop.trips) : Fin 3 → Nat :=
  let c0_i32_28 : BitVec 32 := 0#32
  let c1_i32_29 : BitVec 32 := 1#32
  let arg18 : BitVec 32 := Scf.iv c0_i32_28 c1_i32_29 k1_t1
  let c0_i32_52 : BitVec 32 := 0#32
  let v107 : BitVec 1 := Scalar.cmpi .sgt arg18 c0_i32_52
  let v108 : BitVec 32 := Scalar.extui v107
  let c0_i32_53 : BitVec 32 := 0#32
  let v109 : BitVec 1 := Scalar.cmpi .slt arg18 c0_i32_53
  let v110 : BitVec 32 := Scalar.extui v109
  let v111 : BitVec 32 := Scalar.subi v108 v110
  let c2_i32_51 : BitVec 32 := 2#32
  let c0_i32_54 : BitVec 32 := 0#32
  let v112 : BitVec 1 := Scalar.cmpi .sgt c2_i32_51 c0_i32_54
  let v113 : BitVec 32 := Scalar.extui v112
  let c0_i32_55 : BitVec 32 := 0#32
  let v114 : BitVec 1 := Scalar.cmpi .slt c2_i32_51 c0_i32_55
  let v115 : BitVec 32 := Scalar.extui v114
  let v116 : BitVec 32 := Scalar.subi v113 v115
  let v117 : BitVec 1 := Scalar.cmpi .ne v111 v116
  let v118 : BitVec 32 := Scalar.remsi arg18 c2_i32_51
  let c0_i32_56 : BitVec 32 := 0#32
  let v119 : BitVec 1 := Scalar.cmpi .ne v118 c0_i32_56
  let v120 : BitVec 1 := Scalar.andi v117 v119
  let v106 : BitVec 32 := Scalar.divsi arg18 c2_i32_51
  let c1_i32_57 : BitVec 32 := 1#32
  let v121 : BitVec 32 := Scalar.subi v106 c1_i32_57
  let v122 : BitVec 32 := Scalar.select v120 v121 v106
  let v654 : Index := Scalar.indexCast v122
  let c160_i32 : BitVec 32 := 160#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi c160_i32 v2
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c8_i32 : BitVec 32 := 8#32
  let c0_i32_2 : BitVec 32 := 0#32
  let v10 : BitVec 1 := Scalar.cmpi .sgt c8_i32 c0_i32_2
  let v11 : BitVec 32 := Scalar.extui v10
  let c0_i32_3 : BitVec 32 := 0#32
  let v12 : BitVec 1 := Scalar.cmpi .slt c8_i32 c0_i32_3
  let v13 : BitVec 32 := Scalar.extui v12
  let v14 : BitVec 32 := Scalar.subi v11 v13
  let v15 : BitVec 1 := Scalar.cmpi .ne v9 v14
  let v16 : BitVec 32 := Scalar.remsi v3 c8_i32
  let c0_i32_4 : BitVec 32 := 0#32
  let v17 : BitVec 1 := Scalar.cmpi .ne v16 c0_i32_4
  let v18 : BitVec 1 := Scalar.andi v15 v17
  let v4 : BitVec 32 := Scalar.divsi v3 c8_i32
  let c1_i32 : BitVec 32 := 1#32
  let v19 : BitVec 32 := Scalar.subi v4 c1_i32
  let v20 : BitVec 32 := Scalar.select v18 v19 v4
  let c8_i32_5 : BitVec 32 := 8#32
  let v21 : BitVec 32 := Scalar.muli v20 c8_i32_5
  let c208_i32 : BitVec 32 := 208#32
  let v22 : BitVec 32 := Scalar.minsi v21 c208_i32
  let v23 : BitVec 32 := Scalar.subi v3 v22
  let c2_i32_58 : BitVec 32 := 2#32
  let c0_i32_59 : BitVec 32 := 0#32
  let v123 : BitVec 1 := Scalar.cmpi .eq c2_i32_58 c0_i32_59
  let c1_i32_60 : BitVec 32 := 1#32
  let v124 : BitVec 32 := Scalar.select v123 c1_i32_60 c2_i32_58
  let v125 : BitVec 32 := Scalar.remsi arg18 v124
  let c0_i32_62 : BitVec 32 := 0#32
  let v127 : BitVec 1 := Scalar.cmpi .slt v125 c0_i32_62
  let c0_i32_63 : BitVec 32 := 0#32
  let v128 : BitVec 1 := Scalar.cmpi .slt v124 c0_i32_63
  let v129 : BitVec 1 := Scalar.xori v127 v128
  let c0_i32_61 : BitVec 32 := 0#32
  let v126 : BitVec 1 := Scalar.cmpi .ne v125 c0_i32_61
  let v130 : BitVec 1 := Scalar.andi v129 v126
  let v131 : BitVec 32 := Scalar.addi v125 v124
  let v132 : BitVec 32 := Scalar.select v130 v131 v125
  let v653 : BitVec 32 := Scalar.addi v23 v132
  let v655 : Index := Scalar.indexCast v653
  let c192 : Index := 192#32
  ![v654.toNat, v655.toNat, 192]
def k1_off78 (i : grid1.Coords) (k1_t1 : Fin k1_t1_loop.trips) : Fin 3 → Nat :=
  let c0_i32_28 : BitVec 32 := 0#32
  let c1_i32_29 : BitVec 32 := 1#32
  let arg18 : BitVec 32 := Scf.iv c0_i32_28 c1_i32_29 k1_t1
  let c0_i32_52 : BitVec 32 := 0#32
  let v107 : BitVec 1 := Scalar.cmpi .sgt arg18 c0_i32_52
  let v108 : BitVec 32 := Scalar.extui v107
  let c0_i32_53 : BitVec 32 := 0#32
  let v109 : BitVec 1 := Scalar.cmpi .slt arg18 c0_i32_53
  let v110 : BitVec 32 := Scalar.extui v109
  let v111 : BitVec 32 := Scalar.subi v108 v110
  let c2_i32_51 : BitVec 32 := 2#32
  let c0_i32_54 : BitVec 32 := 0#32
  let v112 : BitVec 1 := Scalar.cmpi .sgt c2_i32_51 c0_i32_54
  let v113 : BitVec 32 := Scalar.extui v112
  let c0_i32_55 : BitVec 32 := 0#32
  let v114 : BitVec 1 := Scalar.cmpi .slt c2_i32_51 c0_i32_55
  let v115 : BitVec 32 := Scalar.extui v114
  let v116 : BitVec 32 := Scalar.subi v113 v115
  let v117 : BitVec 1 := Scalar.cmpi .ne v111 v116
  let v118 : BitVec 32 := Scalar.remsi arg18 c2_i32_51
  let c0_i32_56 : BitVec 32 := 0#32
  let v119 : BitVec 1 := Scalar.cmpi .ne v118 c0_i32_56
  let v120 : BitVec 1 := Scalar.andi v117 v119
  let v106 : BitVec 32 := Scalar.divsi arg18 c2_i32_51
  let c1_i32_57 : BitVec 32 := 1#32
  let v121 : BitVec 32 := Scalar.subi v106 c1_i32_57
  let v122 : BitVec 32 := Scalar.select v120 v121 v106
  let v677 : Index := Scalar.indexCast v122
  let c160_i32 : BitVec 32 := 160#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi c160_i32 v2
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c8_i32 : BitVec 32 := 8#32
  let c0_i32_2 : BitVec 32 := 0#32
  let v10 : BitVec 1 := Scalar.cmpi .sgt c8_i32 c0_i32_2
  let v11 : BitVec 32 := Scalar.extui v10
  let c0_i32_3 : BitVec 32 := 0#32
  let v12 : BitVec 1 := Scalar.cmpi .slt c8_i32 c0_i32_3
  let v13 : BitVec 32 := Scalar.extui v12
  let v14 : BitVec 32 := Scalar.subi v11 v13
  let v15 : BitVec 1 := Scalar.cmpi .ne v9 v14
  let v16 : BitVec 32 := Scalar.remsi v3 c8_i32
  let c0_i32_4 : BitVec 32 := 0#32
  let v17 : BitVec 1 := Scalar.cmpi .ne v16 c0_i32_4
  let v18 : BitVec 1 := Scalar.andi v15 v17
  let v4 : BitVec 32 := Scalar.divsi v3 c8_i32
  let c1_i32 : BitVec 32 := 1#32
  let v19 : BitVec 32 := Scalar.subi v4 c1_i32
  let v20 : BitVec 32 := Scalar.select v18 v19 v4
  let c8_i32_5 : BitVec 32 := 8#32
  let v21 : BitVec 32 := Scalar.muli v20 c8_i32_5
  let c208_i32 : BitVec 32 := 208#32
  let v22 : BitVec 32 := Scalar.minsi v21 c208_i32
  let v23 : BitVec 32 := Scalar.subi v3 v22
  let c2_i32_58 : BitVec 32 := 2#32
  let c0_i32_59 : BitVec 32 := 0#32
  let v123 : BitVec 1 := Scalar.cmpi .eq c2_i32_58 c0_i32_59
  let c1_i32_60 : BitVec 32 := 1#32
  let v124 : BitVec 32 := Scalar.select v123 c1_i32_60 c2_i32_58
  let v125 : BitVec 32 := Scalar.remsi arg18 v124
  let c0_i32_62 : BitVec 32 := 0#32
  let v127 : BitVec 1 := Scalar.cmpi .slt v125 c0_i32_62
  let c0_i32_63 : BitVec 32 := 0#32
  let v128 : BitVec 1 := Scalar.cmpi .slt v124 c0_i32_63
  let v129 : BitVec 1 := Scalar.xori v127 v128
  let c0_i32_61 : BitVec 32 := 0#32
  let v126 : BitVec 1 := Scalar.cmpi .ne v125 c0_i32_61
  let v130 : BitVec 1 := Scalar.andi v129 v126
  let v131 : BitVec 32 := Scalar.addi v125 v124
  let v132 : BitVec 32 := Scalar.select v130 v131 v125
  let v676 : BitVec 32 := Scalar.addi v23 v132
  let v678 : Index := Scalar.indexCast v676
  let c208 : Index := 208#32
  ![v677.toNat, v678.toNat, 208]
def k1_off79 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_31_r1 : BitVec 32 := 0#32
  ![v1.toNat, 0]
abbrev grid2 : Pipeline.Grid := ⟨2, ![8, 5], ![false, false]⟩

def k2_off1 (i : grid2.Coords) : Fin 3 → Nat :=
  let arg0 : BitVec 32 := BitVec.ofNat 32 (i 0).val
  let v26 : Index := Scalar.indexCast arg0
  let c0_14 : Index := 0#32
  let c0_15 : Index := 0#32
  ![v26.toNat, 0, 0]
def k2_off2 (i : grid2.Coords) : Fin 3 → Nat :=
  let arg0 : BitVec 32 := BitVec.ofNat 32 (i 0).val
  let v28 : Index := Scalar.indexCast arg0
  let c0_16 : Index := 0#32
  let c1 : Index := 1#32
  ![v28.toNat, 0, 1]
def k2_off3 (i : grid2.Coords) : Fin 3 → Nat :=
  let arg0 : BitVec 32 := BitVec.ofNat 32 (i 0).val
  let v30 : Index := Scalar.indexCast arg0
  let c0_17 : Index := 0#32
  let c2 : Index := 2#32
  ![v30.toNat, 0, 2]
def k2_off4 (i : grid2.Coords) : Fin 3 → Nat :=
  let arg0 : BitVec 32 := BitVec.ofNat 32 (i 0).val
  let v32 : Index := Scalar.indexCast arg0
  let c0_18 : Index := 0#32
  let c3 : Index := 3#32
  ![v32.toNat, 0, 3]
def k2_off5 (i : grid2.Coords) : Fin 3 → Nat :=
  let arg0 : BitVec 32 := BitVec.ofNat 32 (i 0).val
  let v46 : Index := Scalar.indexCast arg0
  let c1_19 : Index := 1#32
  let c0_20 : Index := 0#32
  ![v46.toNat, 1, 0]
def k2_off6 (i : grid2.Coords) : Fin 3 → Nat :=
  let arg0 : BitVec 32 := BitVec.ofNat 32 (i 0).val
  let v48 : Index := Scalar.indexCast arg0
  let c1_21 : Index := 1#32
  let c1_22 : Index := 1#32
  ![v48.toNat, 1, 1]
def k2_off7 (i : grid2.Coords) : Fin 3 → Nat :=
  let arg0 : BitVec 32 := BitVec.ofNat 32 (i 0).val
  let v50 : Index := Scalar.indexCast arg0
  let c1_23 : Index := 1#32
  let c2_24 : Index := 2#32
  ![v50.toNat, 1, 2]
def k2_off8 (i : grid2.Coords) : Fin 3 → Nat :=
  let arg0 : BitVec 32 := BitVec.ofNat 32 (i 0).val
  let v52 : Index := Scalar.indexCast arg0
  let c1_25 : Index := 1#32
  let c3_26 : Index := 3#32
  ![v52.toNat, 1, 3]
def k2_off9 (i : grid2.Coords) : Fin 3 → Nat :=
  let arg0 : BitVec 32 := BitVec.ofNat 32 (i 0).val
  let v66 : Index := Scalar.indexCast arg0
  let c2_27 : Index := 2#32
  let c0_28 : Index := 0#32
  ![v66.toNat, 2, 0]
def k2_off10 (i : grid2.Coords) : Fin 3 → Nat :=
  let arg0 : BitVec 32 := BitVec.ofNat 32 (i 0).val
  let v68 : Index := Scalar.indexCast arg0
  let c2_29 : Index := 2#32
  let c1_30 : Index := 1#32
  ![v68.toNat, 2, 1]
def k2_off11 (i : grid2.Coords) : Fin 3 → Nat :=
  let arg0 : BitVec 32 := BitVec.ofNat 32 (i 0).val
  let v70 : Index := Scalar.indexCast arg0
  let c2_31 : Index := 2#32
  let c2_32 : Index := 2#32
  ![v70.toNat, 2, 2]
def k2_off12 (i : grid2.Coords) : Fin 3 → Nat :=
  let arg0 : BitVec 32 := BitVec.ofNat 32 (i 0).val
  let v72 : Index := Scalar.indexCast arg0
  let c2_33 : Index := 2#32
  let c3_34 : Index := 3#32
  ![v72.toNat, 2, 3]
def k2_off13 (i : grid2.Coords) : Fin 3 → Nat :=
  let arg0 : BitVec 32 := BitVec.ofNat 32 (i 0).val
  let v86 : Index := Scalar.indexCast arg0
  let c3_35 : Index := 3#32
  let c0_36 : Index := 0#32
  ![v86.toNat, 3, 0]
def k2_off14 (i : grid2.Coords) : Fin 3 → Nat :=
  let arg0 : BitVec 32 := BitVec.ofNat 32 (i 0).val
  let v88 : Index := Scalar.indexCast arg0
  let c3_37 : Index := 3#32
  let c1_38 : Index := 1#32
  ![v88.toNat, 3, 1]
def k2_off15 (i : grid2.Coords) : Fin 3 → Nat :=
  let arg0 : BitVec 32 := BitVec.ofNat 32 (i 0).val
  let v90 : Index := Scalar.indexCast arg0
  let c3_39 : Index := 3#32
  let c2_40 : Index := 2#32
  ![v90.toNat, 3, 2]
def k2_off16 (i : grid2.Coords) : Fin 3 → Nat :=
  let arg0 : BitVec 32 := BitVec.ofNat 32 (i 0).val
  let v92 : Index := Scalar.indexCast arg0
  let c3_41 : Index := 3#32
  let c3_42 : Index := 3#32
  ![v92.toNat, 3, 3]
def k2_off17 (i : grid2.Coords) : Fin 3 → Nat :=
  let arg0 : BitVec 32 := BitVec.ofNat 32 (i 0).val
  let v106 : Index := Scalar.indexCast arg0
  let c4 : Index := 4#32
  let c0_43 : Index := 0#32
  ![v106.toNat, 4, 0]
def k2_off18 (i : grid2.Coords) : Fin 3 → Nat :=
  let arg0 : BitVec 32 := BitVec.ofNat 32 (i 0).val
  let v108 : Index := Scalar.indexCast arg0
  let c4_44 : Index := 4#32
  let c1_45 : Index := 1#32
  ![v108.toNat, 4, 1]
def k2_off19 (i : grid2.Coords) : Fin 3 → Nat :=
  let arg0 : BitVec 32 := BitVec.ofNat 32 (i 0).val
  let v110 : Index := Scalar.indexCast arg0
  let c4_46 : Index := 4#32
  let c2_47 : Index := 2#32
  ![v110.toNat, 4, 2]
def k2_off20 (i : grid2.Coords) : Fin 3 → Nat :=
  let arg0 : BitVec 32 := BitVec.ofNat 32 (i 0).val
  let v112 : Index := Scalar.indexCast arg0
  let c4_48 : Index := 4#32
  let c3_49 : Index := 3#32
  ![v112.toNat, 4, 3]
def k2_off21 (i : grid2.Coords) : Fin 3 → Nat :=
  let arg0 : BitVec 32 := BitVec.ofNat 32 (i 0).val
  let v126 : Index := Scalar.indexCast arg0
  let c5 : Index := 5#32
  let c0_50 : Index := 0#32
  ![v126.toNat, 5, 0]
def k2_off22 (i : grid2.Coords) : Fin 3 → Nat :=
  let arg0 : BitVec 32 := BitVec.ofNat 32 (i 0).val
  let v128 : Index := Scalar.indexCast arg0
  let c5_51 : Index := 5#32
  let c1_52 : Index := 1#32
  ![v128.toNat, 5, 1]
def k2_off23 (i : grid2.Coords) : Fin 3 → Nat :=
  let arg0 : BitVec 32 := BitVec.ofNat 32 (i 0).val
  let v130 : Index := Scalar.indexCast arg0
  let c5_53 : Index := 5#32
  let c2_54 : Index := 2#32
  ![v130.toNat, 5, 2]
def k2_off24 (i : grid2.Coords) : Fin 3 → Nat :=
  let arg0 : BitVec 32 := BitVec.ofNat 32 (i 0).val
  let v132 : Index := Scalar.indexCast arg0
  let c5_55 : Index := 5#32
  let c3_56 : Index := 3#32
  ![v132.toNat, 5, 3]
def k2_off25 (i : grid2.Coords) : Fin 3 → Nat :=
  let arg0 : BitVec 32 := BitVec.ofNat 32 (i 0).val
  let v146 : Index := Scalar.indexCast arg0
  let c6 : Index := 6#32
  let c0_57 : Index := 0#32
  ![v146.toNat, 6, 0]
def k2_off26 (i : grid2.Coords) : Fin 3 → Nat :=
  let arg0 : BitVec 32 := BitVec.ofNat 32 (i 0).val
  let v148 : Index := Scalar.indexCast arg0
  let c6_58 : Index := 6#32
  let c1_59 : Index := 1#32
  ![v148.toNat, 6, 1]
def k2_off27 (i : grid2.Coords) : Fin 3 → Nat :=
  let arg0 : BitVec 32 := BitVec.ofNat 32 (i 0).val
  let v150 : Index := Scalar.indexCast arg0
  let c6_60 : Index := 6#32
  let c2_61 : Index := 2#32
  ![v150.toNat, 6, 2]
def k2_off28 (i : grid2.Coords) : Fin 3 → Nat :=
  let arg0 : BitVec 32 := BitVec.ofNat 32 (i 0).val
  let v152 : Index := Scalar.indexCast arg0
  let c6_62 : Index := 6#32
  let c3_63 : Index := 3#32
  ![v152.toNat, 6, 3]
def k2_off29 (i : grid2.Coords) : Fin 3 → Nat :=
  let arg0 : BitVec 32 := BitVec.ofNat 32 (i 0).val
  let v166 : Index := Scalar.indexCast arg0
  let c7 : Index := 7#32
  let c0_64 : Index := 0#32
  ![v166.toNat, 7, 0]
def k2_off30 (i : grid2.Coords) : Fin 3 → Nat :=
  let arg0 : BitVec 32 := BitVec.ofNat 32 (i 0).val
  let v168 : Index := Scalar.indexCast arg0
  let c7_65 : Index := 7#32
  let c1_66 : Index := 1#32
  ![v168.toNat, 7, 1]
def k2_off31 (i : grid2.Coords) : Fin 3 → Nat :=
  let arg0 : BitVec 32 := BitVec.ofNat 32 (i 0).val
  let v170 : Index := Scalar.indexCast arg0
  let c7_67 : Index := 7#32
  let c2_68 : Index := 2#32
  ![v170.toNat, 7, 2]
def k2_off32 (i : grid2.Coords) : Fin 3 → Nat :=
  let arg0 : BitVec 32 := BitVec.ofNat 32 (i 0).val
  let v172 : Index := Scalar.indexCast arg0
  let c7_69 : Index := 7#32
  let c3_70 : Index := 3#32
  ![v172.toNat, 7, 3]
def k2_off33 (i : grid2.Coords) : Fin 3 → Nat :=
  let arg0 : BitVec 32 := BitVec.ofNat 32 (i 0).val
  let v186 : Index := Scalar.indexCast arg0
  let c8 : Index := 8#32
  let c0_71 : Index := 0#32
  ![v186.toNat, 8, 0]
def k2_off34 (i : grid2.Coords) : Fin 3 → Nat :=
  let arg0 : BitVec 32 := BitVec.ofNat 32 (i 0).val
  let v188 : Index := Scalar.indexCast arg0
  let c8_72 : Index := 8#32
  let c1_73 : Index := 1#32
  ![v188.toNat, 8, 1]
def k2_off35 (i : grid2.Coords) : Fin 3 → Nat :=
  let arg0 : BitVec 32 := BitVec.ofNat 32 (i 0).val
  let v190 : Index := Scalar.indexCast arg0
  let c8_74 : Index := 8#32
  let c2_75 : Index := 2#32
  ![v190.toNat, 8, 2]
def k2_off36 (i : grid2.Coords) : Fin 3 → Nat :=
  let arg0 : BitVec 32 := BitVec.ofNat 32 (i 0).val
  let v192 : Index := Scalar.indexCast arg0
  let c8_76 : Index := 8#32
  let c3_77 : Index := 3#32
  ![v192.toNat, 8, 3]
def k2_off37 (i : grid2.Coords) : Fin 3 → Nat :=
  let arg0 : BitVec 32 := BitVec.ofNat 32 (i 0).val
  let v206 : Index := Scalar.indexCast arg0
  let c9 : Index := 9#32
  let c0_78 : Index := 0#32
  ![v206.toNat, 9, 0]
def k2_off38 (i : grid2.Coords) : Fin 3 → Nat :=
  let arg0 : BitVec 32 := BitVec.ofNat 32 (i 0).val
  let v208 : Index := Scalar.indexCast arg0
  let c9_79 : Index := 9#32
  let c1_80 : Index := 1#32
  ![v208.toNat, 9, 1]
def k2_off39 (i : grid2.Coords) : Fin 3 → Nat :=
  let arg0 : BitVec 32 := BitVec.ofNat 32 (i 0).val
  let v210 : Index := Scalar.indexCast arg0
  let c9_81 : Index := 9#32
  let c2_82 : Index := 2#32
  ![v210.toNat, 9, 2]
def k2_off40 (i : grid2.Coords) : Fin 3 → Nat :=
  let arg0 : BitVec 32 := BitVec.ofNat 32 (i 0).val
  let v212 : Index := Scalar.indexCast arg0
  let c9_83 : Index := 9#32
  let c3_84 : Index := 3#32
  ![v212.toNat, 9, 3]
def k2_off41 (i : grid2.Coords) : Fin 3 → Nat :=
  let arg0 : BitVec 32 := BitVec.ofNat 32 (i 0).val
  let v226 : Index := Scalar.indexCast arg0
  let c10 : Index := 10#32
  let c0_85 : Index := 0#32
  ![v226.toNat, 10, 0]
def k2_off42 (i : grid2.Coords) : Fin 3 → Nat :=
  let arg0 : BitVec 32 := BitVec.ofNat 32 (i 0).val
  let v228 : Index := Scalar.indexCast arg0
  let c10_86 : Index := 10#32
  let c1_87 : Index := 1#32
  ![v228.toNat, 10, 1]
def k2_off43 (i : grid2.Coords) : Fin 3 → Nat :=
  let arg0 : BitVec 32 := BitVec.ofNat 32 (i 0).val
  let v230 : Index := Scalar.indexCast arg0
  let c10_88 : Index := 10#32
  let c2_89 : Index := 2#32
  ![v230.toNat, 10, 2]
def k2_off44 (i : grid2.Coords) : Fin 3 → Nat :=
  let arg0 : BitVec 32 := BitVec.ofNat 32 (i 0).val
  let v232 : Index := Scalar.indexCast arg0
  let c10_90 : Index := 10#32
  let c3_91 : Index := 3#32
  ![v232.toNat, 10, 3]
def k2_off45 (i : grid2.Coords) : Fin 3 → Nat :=
  let arg0 : BitVec 32 := BitVec.ofNat 32 (i 0).val
  let v246 : Index := Scalar.indexCast arg0
  let c11 : Index := 11#32
  let c0_92 : Index := 0#32
  ![v246.toNat, 11, 0]
def k2_off46 (i : grid2.Coords) : Fin 3 → Nat :=
  let arg0 : BitVec 32 := BitVec.ofNat 32 (i 0).val
  let v248 : Index := Scalar.indexCast arg0
  let c11_93 : Index := 11#32
  let c1_94 : Index := 1#32
  ![v248.toNat, 11, 1]
def k2_off47 (i : grid2.Coords) : Fin 3 → Nat :=
  let arg0 : BitVec 32 := BitVec.ofNat 32 (i 0).val
  let v250 : Index := Scalar.indexCast arg0
  let c11_95 : Index := 11#32
  let c2_96 : Index := 2#32
  ![v250.toNat, 11, 2]
def k2_off48 (i : grid2.Coords) : Fin 3 → Nat :=
  let arg0 : BitVec 32 := BitVec.ofNat 32 (i 0).val
  let v252 : Index := Scalar.indexCast arg0
  let c11_97 : Index := 11#32
  let c3_98 : Index := 3#32
  ![v252.toNat, 11, 3]
def k2_off49 (i : grid2.Coords) : Fin 3 → Nat :=
  let arg0 : BitVec 32 := BitVec.ofNat 32 (i 0).val
  let v266 : Index := Scalar.indexCast arg0
  let c12 : Index := 12#32
  let c0_99 : Index := 0#32
  ![v266.toNat, 12, 0]
def k2_off50 (i : grid2.Coords) : Fin 3 → Nat :=
  let arg0 : BitVec 32 := BitVec.ofNat 32 (i 0).val
  let v268 : Index := Scalar.indexCast arg0
  let c12_100 : Index := 12#32
  let c1_101 : Index := 1#32
  ![v268.toNat, 12, 1]
def k2_off51 (i : grid2.Coords) : Fin 3 → Nat :=
  let arg0 : BitVec 32 := BitVec.ofNat 32 (i 0).val
  let v270 : Index := Scalar.indexCast arg0
  let c12_102 : Index := 12#32
  let c2_103 : Index := 2#32
  ![v270.toNat, 12, 2]
def k2_off52 (i : grid2.Coords) : Fin 3 → Nat :=
  let arg0 : BitVec 32 := BitVec.ofNat 32 (i 0).val
  let v272 : Index := Scalar.indexCast arg0
  let c12_104 : Index := 12#32
  let c3_105 : Index := 3#32
  ![v272.toNat, 12, 3]
def k2_off53 (i : grid2.Coords) : Fin 3 → Nat :=
  let arg0 : BitVec 32 := BitVec.ofNat 32 (i 0).val
  let v286 : Index := Scalar.indexCast arg0
  let c13 : Index := 13#32
  let c0_106 : Index := 0#32
  ![v286.toNat, 13, 0]
def k2_off54 (i : grid2.Coords) : Fin 3 → Nat :=
  let arg0 : BitVec 32 := BitVec.ofNat 32 (i 0).val
  let v288 : Index := Scalar.indexCast arg0
  let c13_107 : Index := 13#32
  let c1_108 : Index := 1#32
  ![v288.toNat, 13, 1]
def k2_off55 (i : grid2.Coords) : Fin 3 → Nat :=
  let arg0 : BitVec 32 := BitVec.ofNat 32 (i 0).val
  let v290 : Index := Scalar.indexCast arg0
  let c13_109 : Index := 13#32
  let c2_110 : Index := 2#32
  ![v290.toNat, 13, 2]
def k2_off56 (i : grid2.Coords) : Fin 3 → Nat :=
  let arg0 : BitVec 32 := BitVec.ofNat 32 (i 0).val
  let v292 : Index := Scalar.indexCast arg0
  let c13_111 : Index := 13#32
  let c3_112 : Index := 3#32
  ![v292.toNat, 13, 3]
def k2_off57 (i : grid2.Coords) : Fin 3 → Nat :=
  let arg0 : BitVec 32 := BitVec.ofNat 32 (i 0).val
  let v306 : Index := Scalar.indexCast arg0
  let c14 : Index := 14#32
  let c0_113 : Index := 0#32
  ![v306.toNat, 14, 0]
def k2_off58 (i : grid2.Coords) : Fin 3 → Nat :=
  let arg0 : BitVec 32 := BitVec.ofNat 32 (i 0).val
  let v308 : Index := Scalar.indexCast arg0
  let c14_114 : Index := 14#32
  let c1_115 : Index := 1#32
  ![v308.toNat, 14, 1]
def k2_off59 (i : grid2.Coords) : Fin 3 → Nat :=
  let arg0 : BitVec 32 := BitVec.ofNat 32 (i 0).val
  let v310 : Index := Scalar.indexCast arg0
  let c14_116 : Index := 14#32
  let c2_117 : Index := 2#32
  ![v310.toNat, 14, 2]
def k2_off60 (i : grid2.Coords) : Fin 3 → Nat :=
  let arg0 : BitVec 32 := BitVec.ofNat 32 (i 0).val
  let v312 : Index := Scalar.indexCast arg0
  let c14_118 : Index := 14#32
  let c3_119 : Index := 3#32
  ![v312.toNat, 14, 3]
def k2_off61 (i : grid2.Coords) : Fin 3 → Nat :=
  let arg0 : BitVec 32 := BitVec.ofNat 32 (i 0).val
  let v326 : Index := Scalar.indexCast arg0
  let c15 : Index := 15#32
  let c0_120 : Index := 0#32
  ![v326.toNat, 15, 0]
def k2_off62 (i : grid2.Coords) : Fin 3 → Nat :=
  let arg0 : BitVec 32 := BitVec.ofNat 32 (i 0).val
  let v328 : Index := Scalar.indexCast arg0
  let c15_121 : Index := 15#32
  let c1_122 : Index := 1#32
  ![v328.toNat, 15, 1]
def k2_off63 (i : grid2.Coords) : Fin 3 → Nat :=
  let arg0 : BitVec 32 := BitVec.ofNat 32 (i 0).val
  let v330 : Index := Scalar.indexCast arg0
  let c15_123 : Index := 15#32
  let c2_124 : Index := 2#32
  ![v330.toNat, 15, 2]
def k2_off64 (i : grid2.Coords) : Fin 3 → Nat :=
  let arg0 : BitVec 32 := BitVec.ofNat 32 (i 0).val
  let v332 : Index := Scalar.indexCast arg0
  let c15_125 : Index := 15#32
  let c3_126 : Index := 3#32
  ![v332.toNat, 15, 3]
def k2_off65 (i : grid2.Coords) : Fin 3 → Nat :=
  let arg0 : BitVec 32 := BitVec.ofNat 32 (i 0).val
  let v346 : Index := Scalar.indexCast arg0
  let c16 : Index := 16#32
  let c0_127 : Index := 0#32
  ![v346.toNat, 16, 0]
def k2_off66 (i : grid2.Coords) : Fin 3 → Nat :=
  let arg0 : BitVec 32 := BitVec.ofNat 32 (i 0).val
  let v348 : Index := Scalar.indexCast arg0
  let c16_128 : Index := 16#32
  let c1_129 : Index := 1#32
  ![v348.toNat, 16, 1]
def k2_off67 (i : grid2.Coords) : Fin 3 → Nat :=
  let arg0 : BitVec 32 := BitVec.ofNat 32 (i 0).val
  let v350 : Index := Scalar.indexCast arg0
  let c16_130 : Index := 16#32
  let c2_131 : Index := 2#32
  ![v350.toNat, 16, 2]
def k2_off68 (i : grid2.Coords) : Fin 3 → Nat :=
  let arg0 : BitVec 32 := BitVec.ofNat 32 (i 0).val
  let v352 : Index := Scalar.indexCast arg0
  let c16_132 : Index := 16#32
  let c3_133 : Index := 3#32
  ![v352.toNat, 16, 3]
def k2_off69 (i : grid2.Coords) : Fin 3 → Nat :=
  let arg0 : BitVec 32 := BitVec.ofNat 32 (i 0).val
  let v366 : Index := Scalar.indexCast arg0
  let c17 : Index := 17#32
  let c0_134 : Index := 0#32
  ![v366.toNat, 17, 0]
def k2_off70 (i : grid2.Coords) : Fin 3 → Nat :=
  let arg0 : BitVec 32 := BitVec.ofNat 32 (i 0).val
  let v368 : Index := Scalar.indexCast arg0
  let c17_135 : Index := 17#32
  let c1_136 : Index := 1#32
  ![v368.toNat, 17, 1]
def k2_off71 (i : grid2.Coords) : Fin 3 → Nat :=
  let arg0 : BitVec 32 := BitVec.ofNat 32 (i 0).val
  let v370 : Index := Scalar.indexCast arg0
  let c17_137 : Index := 17#32
  let c2_138 : Index := 2#32
  ![v370.toNat, 17, 2]
def k2_off72 (i : grid2.Coords) : Fin 3 → Nat :=
  let arg0 : BitVec 32 := BitVec.ofNat 32 (i 0).val
  let v372 : Index := Scalar.indexCast arg0
  let c17_139 : Index := 17#32
  let c3_140 : Index := 3#32
  ![v372.toNat, 17, 3]
def k2_off73 (i : grid2.Coords) : Fin 3 → Nat :=
  let arg0 : BitVec 32 := BitVec.ofNat 32 (i 0).val
  let v386 : Index := Scalar.indexCast arg0
  let c18 : Index := 18#32
  let c0_141 : Index := 0#32
  ![v386.toNat, 18, 0]
def k2_off74 (i : grid2.Coords) : Fin 3 → Nat :=
  let arg0 : BitVec 32 := BitVec.ofNat 32 (i 0).val
  let v388 : Index := Scalar.indexCast arg0
  let c18_142 : Index := 18#32
  let c1_143 : Index := 1#32
  ![v388.toNat, 18, 1]
def k2_off75 (i : grid2.Coords) : Fin 3 → Nat :=
  let arg0 : BitVec 32 := BitVec.ofNat 32 (i 0).val
  let v390 : Index := Scalar.indexCast arg0
  let c18_144 : Index := 18#32
  let c2_145 : Index := 2#32
  ![v390.toNat, 18, 2]
def k2_off76 (i : grid2.Coords) : Fin 3 → Nat :=
  let arg0 : BitVec 32 := BitVec.ofNat 32 (i 0).val
  let v392 : Index := Scalar.indexCast arg0
  let c18_146 : Index := 18#32
  let c3_147 : Index := 3#32
  ![v392.toNat, 18, 3]
def k2_off77 (i : grid2.Coords) : Fin 3 → Nat :=
  let arg0 : BitVec 32 := BitVec.ofNat 32 (i 0).val
  let v406 : Index := Scalar.indexCast arg0
  let c19 : Index := 19#32
  let c0_148 : Index := 0#32
  ![v406.toNat, 19, 0]
def k2_off78 (i : grid2.Coords) : Fin 3 → Nat :=
  let arg0 : BitVec 32 := BitVec.ofNat 32 (i 0).val
  let v408 : Index := Scalar.indexCast arg0
  let c19_149 : Index := 19#32
  let c1_150 : Index := 1#32
  ![v408.toNat, 19, 1]
def k2_off79 (i : grid2.Coords) : Fin 3 → Nat :=
  let arg0 : BitVec 32 := BitVec.ofNat 32 (i 0).val
  let v410 : Index := Scalar.indexCast arg0
  let c19_151 : Index := 19#32
  let c2_152 : Index := 2#32
  ![v410.toNat, 19, 2]
def k2_off80 (i : grid2.Coords) : Fin 3 → Nat :=
  let arg0 : BitVec 32 := BitVec.ofNat 32 (i 0).val
  let v412 : Index := Scalar.indexCast arg0
  let c19_153 : Index := 19#32
  let c3_154 : Index := 3#32
  ![v412.toNat, 19, 3]
def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .smem S8x20x4 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S1x192x32x224 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x192x32x224 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .smem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .smem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  iota_S32x224_d0_w32 : S32x224.Iotas .tc 32 [0]
  iota_S32x224_d1_w32 : S32x224.Iotas .tc 32 [1]
  numel1_S1x1x1 : S1x1x1.numel = 1
  natLt_1_32 : 1 < 32
  shapeCasts_S32x224_S32x7x32 : S32x224.ShapeCasts S32x7x32
  reduces_S32x7x32_S32x7 : S32x7x32.Reduces [2] S32x7
  concatenates_S32x7_S32x9_S32x16_d1 : Shape.Concatenates [S32x7, S32x9] S32x16 1
  concatenates_S32x224_S32x16_S32x16_S32x256_d1 : Shape.Concatenates [S32x224, S32x16, S32x16] S32x256 1
  inb_S1x32x256_S1x32x256_0_0_0 : ∀ a, (![0, 0, 0] : Fin 3 → Nat) a + S1x32x256.size a ≤ S1x32x256.size a
  h_S1x32x256 : 0 < S1x32x256.numel
  shapeCasts_S1x32x256_S32x256 : S1x32x256.ShapeCasts S32x256
  shapeCasts_S32x256_S1x32x256 : S32x256.ShapeCasts S1x32x256
  squeezes_S1x48x1x224_S48x224 : S1x48x1x224.Squeezes S48x224
  h_S1x1x16 : 0 < S1x1x16.numel
  shapeCasts_S1x1x16_S16 : S1x1x16.ShapeCasts S16
  slices_S16_o0_S1 : S16.Slices ![0] S1
  inpos_S1_p0 : ∀ a, (![0] : Fin 1 → Nat) a < S1.size a
  slices_S16_o1_S1 : S16.Slices ![1] S1
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  inb_S7x2x16_S1x1x16_0_0_0 : ∀ a, (![0, 0, 0] : Fin 3 → Nat) a + S1x1x16.size a ≤ S7x2x16.size a
  shapeCasts_S16_S1x1x16 : S16.ShapeCasts S1x1x16
  inb_S7x2x16_S1x1x16_0_1_0 : ∀ a, (![0, 1, 0] : Fin 3 → Nat) a + S1x1x16.size a ≤ S7x2x16.size a
  inb_S7x2x16_S1x1x16_1_0_0 : ∀ a, (![1, 0, 0] : Fin 3 → Nat) a + S1x1x16.size a ≤ S7x2x16.size a
  inb_S7x2x16_S1x1x16_1_1_0 : ∀ a, (![1, 1, 0] : Fin 3 → Nat) a + S1x1x16.size a ≤ S7x2x16.size a
  inb_S7x2x16_S1x1x16_2_0_0 : ∀ a, (![2, 0, 0] : Fin 3 → Nat) a + S1x1x16.size a ≤ S7x2x16.size a
  inb_S7x2x16_S1x1x16_2_1_0 : ∀ a, (![2, 1, 0] : Fin 3 → Nat) a + S1x1x16.size a ≤ S7x2x16.size a
  inb_S7x2x16_S1x1x16_3_0_0 : ∀ a, (![3, 0, 0] : Fin 3 → Nat) a + S1x1x16.size a ≤ S7x2x16.size a
  inb_S7x2x16_S1x1x16_3_1_0 : ∀ a, (![3, 1, 0] : Fin 3 → Nat) a + S1x1x16.size a ≤ S7x2x16.size a
  inb_S7x2x16_S1x1x16_4_0_0 : ∀ a, (![4, 0, 0] : Fin 3 → Nat) a + S1x1x16.size a ≤ S7x2x16.size a
  inb_S7x2x16_S1x1x16_4_1_0 : ∀ a, (![4, 1, 0] : Fin 3 → Nat) a + S1x1x16.size a ≤ S7x2x16.size a
  inb_S7x2x16_S1x1x16_5_0_0 : ∀ a, (![5, 0, 0] : Fin 3 → Nat) a + S1x1x16.size a ≤ S7x2x16.size a
  inb_S7x2x16_S1x1x16_5_1_0 : ∀ a, (![5, 1, 0] : Fin 3 → Nat) a + S1x1x16.size a ≤ S7x2x16.size a
  inb_S7x2x16_S1x1x16_6_0_0 : ∀ a, (![6, 0, 0] : Fin 3 → Nat) a + S1x1x16.size a ≤ S7x2x16.size a
  inb_S7x2x16_S1x1x16_6_1_0 : ∀ a, (![6, 1, 0] : Fin 3 → Nat) a + S1x1x16.size a ≤ S7x2x16.size a
  inb_S8x192x224x224_S1x48x1x224_0_0_0_0 : ∀ a, (![0, 0, 0, 0] : Fin 4 → Nat) a + S1x48x1x224.size a ≤ S8x192x224x224.size a
  h_S1x16 : 0 < S1x16.numel
  shapeCasts_S1x16_S16 : S1x16.ShapeCasts S16
  inb_S32_S16_0 : ∀ a, (![0] : Fin 1 → Nat) a + S16.size a ≤ S32.size a
  h_S16 : 0 < S16.numel
  shapeCasts_S16_S16 : S16.ShapeCasts S16
  inb_S32_S16_16 : ∀ a, (![16] : Fin 1 → Nat) a + S16.size a ≤ S32.size a
  squeezes_S1x32_S32 : S1x32.Squeezes S32
  inb_S1x1_S1x1_0_0 : ∀ a, (![0, 0] : Fin 2 → Nat) a + S1x1.size a ≤ S1x1.size a
  numel1_S1x1 : S1x1.numel = 1
  inb_S1x192x32x224_S1x192x32x224_0_0_0_0 : ∀ a, (![0, 0, 0, 0] : Fin 4 → Nat) a + S1x192x32x224.size a ≤ S1x192x32x224.size a
  h_S1x192x32x224 : 0 < S1x192x32x224.numel
  shapeCasts_S1x192x32x224_S192x32x224 : S1x192x32x224.ShapeCasts S192x32x224
  reduces_S192x32x224_S32x224 : S192x32x224.Reduces [0] S32x224
  shapeCasts_S32x224_S1x32x224 : S32x224.ShapeCasts S1x32x224
  reduces_S1x32x224_S1 : S1x32x224.Reduces [1, 2] S1
  shapeCasts_S1_S1x1x1 : S1.ShapeCasts S1x1x1
  inpos_S1x1x1_p0_0_0 : ∀ a, (![0, 0, 0] : Fin 3 → Nat) a < S1x1x1.size a
  slices_S32x32_S32x16_0_0 : S32x32.Slices ![0, 0] S32x16
  reducesTo_S32x16_S_d0_1 : S32x16.ReducesTo [0, 1] S_
  h_S_ : 0 < S_.numel
  shapeCasts_S1x1_S_ : S1x1.ShapeCasts S_
  slices_S32x32_S32x16_0_16 : S32x32.Slices ![0, 16] S32x16
  hcc1_scratch8 : 3 + S_.numel ≤ 16
  hcc1_scratch9 : 4 + S_.numel ≤ 16
  hcc1_scratch10 : 5 + S_.numel ≤ 16
  hcc1_scratch11 : 6 + S_.numel ≤ 16
  hcc1_scoped0 : 7 + S_.numel ≤ 16
  hcc1_scoped1 : 8 + S_.numel ≤ 16
  hscKind : ∀ q, scKind q ≠ .tc
  hscCore : ∀ q, scNCore q ≤ τ.nSC
  hscSub : ∀ q, scNSub q ≤ τ.nSub
  hrank0 : 0 < grid0.rank
  k0_off1_inb : ∀ i : grid0.Coords, ∀ a, (k0_off1 i) a + S1x1x1.size a ≤ S8x20x4.size a
  k0_off2_inb : ∀ i : grid0.Coords, ∀ a, (k0_off2 i) a + S1x1x1.size a ≤ S8x20x4.size a
  k0_off3_inb : ∀ i : grid0.Coords, ∀ a, (k0_off3 i) a + S1x1x1.size a ≤ S8x20x4.size a
  k0_off4_inb : ∀ i : grid0.Coords, ∀ a, (k0_off4 i) a + S1x1x1.size a ≤ S8x20x4.size a
  k0_off5_inb : ∀ i : grid0.Coords, ∀ a, (k0_off5 i) a + S1x1x1.size a ≤ S8x20x4.size a
  k0_off6_inb : ∀ i : grid0.Coords, ∀ a, (k0_off6 i) a + S1x1x1.size a ≤ S8x20x4.size a
  k0_off7_inb : ∀ i : grid0.Coords, ∀ a, (k0_off7 i) a + S1x1x1.size a ≤ S8x20x4.size a
  k0_off8_inb : ∀ i : grid0.Coords, ∀ a, (k0_off8 i) a + S1x1x1.size a ≤ S8x20x4.size a
  k0_off9_inb : ∀ i : grid0.Coords, ∀ a, (k0_off9 i) a + S1x1x1.size a ≤ S8x20x4.size a
  k0_off10_inb : ∀ i : grid0.Coords, ∀ a, (k0_off10 i) a + S1x1x1.size a ≤ S8x20x4.size a
  k0_off11_inb : ∀ i : grid0.Coords, ∀ a, (k0_off11 i) a + S1x1x1.size a ≤ S8x20x4.size a
  k0_off12_inb : ∀ i : grid0.Coords, ∀ a, (k0_off12 i) a + S1x1x1.size a ≤ S8x20x4.size a
  k0_off13_inb : ∀ i : grid0.Coords, ∀ a, (k0_off13 i) a + S1x1x1.size a ≤ S8x20x4.size a
  k0_off14_inb : ∀ i : grid0.Coords, ∀ a, (k0_off14 i) a + S1x1x1.size a ≤ S8x20x4.size a
  k0_off15_inb : ∀ i : grid0.Coords, ∀ a, (k0_off15 i) a + S1x1x1.size a ≤ S8x20x4.size a
  k0_off16_inb : ∀ i : grid0.Coords, ∀ a, (k0_off16 i) a + S1x1x1.size a ≤ S8x20x4.size a
  k0_off17_inb : ∀ i : grid0.Coords, ∀ a, (k0_off17 i) a + S1x1x1.size a ≤ S8x20x4.size a
  k0_off18_inb : ∀ i : grid0.Coords, ∀ a, (k0_off18 i) a + S1x1x1.size a ≤ S8x20x4.size a
  k0_off19_inb : ∀ i : grid0.Coords, ∀ a, (k0_off19 i) a + S1x1x1.size a ≤ S8x20x4.size a
  k0_off20_inb : ∀ i : grid0.Coords, ∀ a, (k0_off20 i) a + S1x1x1.size a ≤ S8x20x4.size a
  k0_off21_inb : ∀ i : grid0.Coords, ∀ a, (k0_off21 i) a + S1x1x1.size a ≤ S8x20x4.size a
  k0_off22_inb : ∀ i : grid0.Coords, ∀ a, (k0_off22 i) a + S1x1x1.size a ≤ S8x20x4.size a
  k0_off23_inb : ∀ i : grid0.Coords, ∀ a, (k0_off23 i) a + S1x1x1.size a ≤ S8x20x4.size a
  k0_off24_inb : ∀ i : grid0.Coords, ∀ a, (k0_off24 i) a + S1x1x1.size a ≤ S8x20x4.size a
  k0_off25_inb : ∀ i : grid0.Coords, ∀ a, (k0_off25 i) a + S1x1x1.size a ≤ S8x20x4.size a
  k0_off26_inb : ∀ i : grid0.Coords, ∀ a, (k0_off26 i) a + S1x1x1.size a ≤ S8x20x4.size a
  k0_off27_inb : ∀ i : grid0.Coords, ∀ a, (k0_off27 i) a + S1x1x1.size a ≤ S8x20x4.size a
  k0_off28_inb : ∀ i : grid0.Coords, ∀ a, (k0_off28 i) a + S1x1x1.size a ≤ S8x20x4.size a
  k0_off29_inb : ∀ i : grid0.Coords, ∀ a, (k0_off29 i) a + S1x1x1.size a ≤ S8x20x4.size a
  k0_off30_inb : ∀ i : grid0.Coords, ∀ a, (k0_off30 i) a + S1x1x1.size a ≤ S8x20x4.size a
  k0_off31_inb : ∀ i : grid0.Coords, ∀ a, (k0_off31 i) a + S1x1x1.size a ≤ S8x20x4.size a
  k0_off32_inb : ∀ i : grid0.Coords, ∀ a, (k0_off32 i) a + S1x1x1.size a ≤ S8x20x4.size a
  k0_off33_inb : ∀ i : grid0.Coords, ∀ a, (k0_off33 i) a + S1x1x1.size a ≤ S8x20x4.size a
  k0_off34_inb : ∀ i : grid0.Coords, ∀ a, (k0_off34 i) a + S1x1x1.size a ≤ S8x20x4.size a
  k0_off35_inb : ∀ i : grid0.Coords, ∀ a, (k0_off35 i) a + S1x1x1.size a ≤ S8x20x4.size a
  k0_off36_inb : ∀ i : grid0.Coords, ∀ a, (k0_off36 i) a + S1x1x1.size a ≤ S8x20x4.size a
  k0_off37_inb : ∀ i : grid0.Coords, ∀ a, (k0_off37 i) a + S1x1x1.size a ≤ S8x20x4.size a
  k0_off38_inb : ∀ i : grid0.Coords, ∀ a, (k0_off38 i) a + S1x1x1.size a ≤ S8x20x4.size a
  k0_off39_inb : ∀ i : grid0.Coords, ∀ a, (k0_off39 i) a + S1x1x1.size a ≤ S8x20x4.size a
  k0_off40_inb : ∀ i : grid0.Coords, ∀ a, (k0_off40 i) a + S1x1x1.size a ≤ S8x20x4.size a
  k0_off41_inb : ∀ i : grid0.Coords, ∀ a, (k0_off41 i) a + S1x1x1.size a ≤ S8x20x4.size a
  k0_off42_inb : ∀ i : grid0.Coords, ∀ a, (k0_off42 i) a + S1x1x1.size a ≤ S8x20x4.size a
  k0_off43_inb : ∀ i : grid0.Coords, ∀ a, (k0_off43 i) a + S1x1x1.size a ≤ S8x20x4.size a
  k0_off44_inb : ∀ i : grid0.Coords, ∀ a, (k0_off44 i) a + S1x1x1.size a ≤ S8x20x4.size a
  k0_off45_inb : ∀ i : grid0.Coords, ∀ a, (k0_off45 i) a + S1x1x1.size a ≤ S8x20x4.size a
  k0_off46_inb : ∀ i : grid0.Coords, ∀ a, (k0_off46 i) a + S1x1x1.size a ≤ S8x20x4.size a
  k0_off47_inb : ∀ i : grid0.Coords, ∀ a, (k0_off47 i) a + S1x1x1.size a ≤ S8x20x4.size a
  k0_off48_inb : ∀ i : grid0.Coords, ∀ a, (k0_off48 i) a + S1x1x1.size a ≤ S8x20x4.size a
  k0_off49_inb : ∀ i : grid0.Coords, ∀ a, (k0_off49 i) a + S1x1x1.size a ≤ S8x20x4.size a
  k0_off50_inb : ∀ i : grid0.Coords, ∀ a, (k0_off50 i) a + S1x1x1.size a ≤ S8x20x4.size a
  k0_off51_inb : ∀ i : grid0.Coords, ∀ a, (k0_off51 i) a + S1x1x1.size a ≤ S8x20x4.size a
  k0_off52_inb : ∀ i : grid0.Coords, ∀ a, (k0_off52 i) a + S1x1x1.size a ≤ S8x20x4.size a
  k0_off53_inb : ∀ i : grid0.Coords, ∀ a, (k0_off53 i) a + S1x1x1.size a ≤ S8x20x4.size a
  k0_off54_inb : ∀ i : grid0.Coords, ∀ a, (k0_off54 i) a + S1x1x1.size a ≤ S8x20x4.size a
  k0_off55_inb : ∀ i : grid0.Coords, ∀ a, (k0_off55 i) a + S1x1x1.size a ≤ S8x20x4.size a
  k0_off56_inb : ∀ i : grid0.Coords, ∀ a, (k0_off56 i) a + S1x1x1.size a ≤ S8x20x4.size a
  k0_off57_inb : ∀ i : grid0.Coords, ∀ a, (k0_off57 i) a + S1x1x1.size a ≤ S8x20x4.size a
  k0_off58_inb : ∀ i : grid0.Coords, ∀ a, (k0_off58 i) a + S1x1x1.size a ≤ S8x20x4.size a
  k0_off59_inb : ∀ i : grid0.Coords, ∀ a, (k0_off59 i) a + S1x1x1.size a ≤ S8x20x4.size a
  k0_off60_inb : ∀ i : grid0.Coords, ∀ a, (k0_off60 i) a + S1x1x1.size a ≤ S8x20x4.size a
  k0_off61_inb : ∀ i : grid0.Coords, ∀ a, (k0_off61 i) a + S1x1x1.size a ≤ S8x20x4.size a
  k0_off62_inb : ∀ i : grid0.Coords, ∀ a, (k0_off62 i) a + S1x1x1.size a ≤ S8x20x4.size a
  k0_off63_inb : ∀ i : grid0.Coords, ∀ a, (k0_off63 i) a + S1x1x1.size a ≤ S8x20x4.size a
  k0_off64_inb : ∀ i : grid0.Coords, ∀ a, (k0_off64 i) a + S1x1x1.size a ≤ S8x20x4.size a
  k0_off65_inb : ∀ i : grid0.Coords, ∀ a, (k0_off65 i) a + S1x1x1.size a ≤ S8x20x4.size a
  k0_off66_inb : ∀ i : grid0.Coords, ∀ a, (k0_off66 i) a + S1x1x1.size a ≤ S8x20x4.size a
  k0_off67_inb : ∀ i : grid0.Coords, ∀ a, (k0_off67 i) a + S1x1x1.size a ≤ S8x20x4.size a
  k0_off68_inb : ∀ i : grid0.Coords, ∀ a, (k0_off68 i) a + S1x1x1.size a ≤ S8x20x4.size a
  k0_off69_inb : ∀ i : grid0.Coords, ∀ a, (k0_off69 i) a + S1x1x1.size a ≤ S8x20x4.size a
  k0_off70_inb : ∀ i : grid0.Coords, ∀ a, (k0_off70 i) a + S1x1x1.size a ≤ S8x20x4.size a
  k0_off71_inb : ∀ i : grid0.Coords, ∀ a, (k0_off71 i) a + S1x1x1.size a ≤ S8x20x4.size a
  k0_off72_inb : ∀ i : grid0.Coords, ∀ a, (k0_off72 i) a + S1x1x1.size a ≤ S8x20x4.size a
  k0_off73_inb : ∀ i : grid0.Coords, ∀ a, (k0_off73 i) a + S1x1x1.size a ≤ S8x20x4.size a
  k0_off74_inb : ∀ i : grid0.Coords, ∀ a, (k0_off74 i) a + S1x1x1.size a ≤ S8x20x4.size a
  k0_off75_inb : ∀ i : grid0.Coords, ∀ a, (k0_off75 i) a + S1x1x1.size a ≤ S8x20x4.size a
  k0_off76_inb : ∀ i : grid0.Coords, ∀ a, (k0_off76 i) a + S1x1x1.size a ≤ S8x20x4.size a
  k0_off77_inb : ∀ i : grid0.Coords, ∀ a, (k0_off77 i) a + S1x1x1.size a ≤ S8x20x4.size a
  k0_off78_inb : ∀ i : grid0.Coords, ∀ a, (k0_off78 i) a + S1x1x1.size a ≤ S8x20x4.size a
  k0_off79_inb : ∀ i : grid0.Coords, ∀ a, (k0_off79 i) a + S1x1x1.size a ≤ S8x20x4.size a
  k0_off80_inb : ∀ i : grid0.Coords, ∀ a, (k0_off80 i) a + S1x1x1.size a ≤ S8x20x4.size a
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S8x20x4.size a ≤ S8x20x4.size a
  hwx0_0 : ∀ i : grid0.Coords, EltTy.bits .i32 = 32 ∨ (Rect.block (s := S8x20x4) S8x20x4.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x256.size a ≤ S8x224x256.size a
  hwx0_1 : ∀ i : grid0.Coords, EltTy.bits .f32 = 32 ∨ (Rect.block (s := S8x224x256) S1x32x256.size (cc0_transform_1 i) (hinb0_1 i)).WholeWords (EltTy.packing .f32)
  hcore1 : grid1.bound 0 ≤ τ.nSC
  hsub1 : grid1.bound 1 ≤ τ.nSub
  k1_off1_inb : ∀ i : grid1.Coords, ∀ a, (k1_off1 i) a + S8x16x256.size a ≤ S8x224x256.size a
  k1_off2_inb : ∀ i : grid1.Coords, ∀ a, (k1_off2 i) a + S1x48x1x224.size a ≤ S8x192x224x224.size a
  k1_off3_inb : ∀ i : grid1.Coords, ∀ a, (k1_off3 i) a + S1x48x1x224.size a ≤ S8x192x224x224.size a
  k1_t1_ok : k1_t1_loop.OK
  k1_off4_inb : ∀ (i : grid1.Coords) (k1_t1 : Fin k1_t1_loop.trips), ∀ a, (k1_off4 i k1_t1) a + S1x1x16.size a ≤ S8x16x256.size a
  k1_t2_ok : k1_t2_loop.OK
  k1_off5_inb : ∀ k1_t2 : Fin k1_t2_loop.trips, ∀ (r : Fin 4), ∀ a, (k1_off5 k1_t2 (BitVec.ofNat 32 r.val)) a + S1x16.size a ≤ S48x224.size a
  k1_off6_inb : ∀ k1_t2 : Fin k1_t2_loop.trips, ∀ (r : Fin 4), ∀ a, (k1_off6 k1_t2 (BitVec.ofNat 32 r.val)) a + S1x16.size a ≤ S48x224.size a
  k1_t3_ok : k1_t3_loop.OK
  k1_off7_inb : ∀ k1_t3 : Fin k1_t3_loop.trips, ∀ (r : Fin 4), ∀ a, (k1_off7 k1_t3 (BitVec.ofNat 32 r.val)) a + S1x16.size a ≤ S48x224.size a
  k1_off8_inb : ∀ k1_t3 : Fin k1_t3_loop.trips, ∀ (r : Fin 4), ∀ a, (k1_off8 k1_t3 (BitVec.ofNat 32 r.val)) a + S1x16.size a ≤ S48x224.size a
  k1_t4_ok : k1_t4_loop.OK
  k1_off9_inb : ∀ k1_t4 : Fin k1_t4_loop.trips, ∀ (r : Fin 4), ∀ a, (k1_off9 k1_t4 (BitVec.ofNat 32 r.val)) a + S1x16.size a ≤ S48x224.size a
  k1_off10_inb : ∀ k1_t4 : Fin k1_t4_loop.trips, ∀ (r : Fin 4), ∀ a, (k1_off10 k1_t4 (BitVec.ofNat 32 r.val)) a + S1x16.size a ≤ S48x224.size a
  k1_t5_ok : k1_t5_loop.OK
  k1_off11_inb : ∀ k1_t5 : Fin k1_t5_loop.trips, ∀ (r : Fin 4), ∀ a, (k1_off11 k1_t5 (BitVec.ofNat 32 r.val)) a + S1x16.size a ≤ S48x224.size a
  k1_off12_inb : ∀ k1_t5 : Fin k1_t5_loop.trips, ∀ (r : Fin 4), ∀ a, (k1_off12 k1_t5 (BitVec.ofNat 32 r.val)) a + S1x16.size a ≤ S48x224.size a
  k1_t6_ok : k1_t6_loop.OK
  k1_off13_inb : ∀ k1_t6 : Fin k1_t6_loop.trips, ∀ (r : Fin 4), ∀ a, (k1_off13 k1_t6 (BitVec.ofNat 32 r.val)) a + S1x16.size a ≤ S48x224.size a
  k1_off14_inb : ∀ k1_t6 : Fin k1_t6_loop.trips, ∀ (r : Fin 4), ∀ a, (k1_off14 k1_t6 (BitVec.ofNat 32 r.val)) a + S1x16.size a ≤ S48x224.size a
  k1_t7_ok : k1_t7_loop.OK
  k1_off15_inb : ∀ k1_t7 : Fin k1_t7_loop.trips, ∀ (r : Fin 4), ∀ a, (k1_off15 k1_t7 (BitVec.ofNat 32 r.val)) a + S1x16.size a ≤ S48x224.size a
  k1_off16_inb : ∀ k1_t7 : Fin k1_t7_loop.trips, ∀ (r : Fin 4), ∀ a, (k1_off16 k1_t7 (BitVec.ofNat 32 r.val)) a + S1x16.size a ≤ S48x224.size a
  k1_t8_ok : k1_t8_loop.OK
  k1_off17_inb : ∀ k1_t8 : Fin k1_t8_loop.trips, ∀ (r : Fin 4), ∀ a, (k1_off17 k1_t8 (BitVec.ofNat 32 r.val)) a + S1x16.size a ≤ S48x224.size a
  k1_off18_inb : ∀ k1_t8 : Fin k1_t8_loop.trips, ∀ (r : Fin 4), ∀ a, (k1_off18 k1_t8 (BitVec.ofNat 32 r.val)) a + S1x16.size a ≤ S48x224.size a
  k1_off19_inb : ∀ (i : grid1.Coords) (k1_t1 : Fin k1_t1_loop.trips), ∀ (k1_h8 : k1_cond8 k1_t1 = 1#1), ∀ a, (k1_off19 i k1_t1) a + S1x48x1x224.size a ≤ S8x192x224x224.size a
  k1_t9_ok : k1_t9_loop.OK
  k1_off20_inb : ∀ k1_t9 : Fin k1_t9_loop.trips, ∀ (r : Fin 4), ∀ a, (k1_off20 k1_t9 (BitVec.ofNat 32 r.val)) a + S1x16.size a ≤ S48x224.size a
  k1_off21_inb : ∀ k1_t9 : Fin k1_t9_loop.trips, ∀ (r : Fin 4), ∀ a, (k1_off21 k1_t9 (BitVec.ofNat 32 r.val)) a + S1x16.size a ≤ S48x224.size a
  k1_t10_ok : k1_t10_loop.OK
  k1_off22_inb : ∀ k1_t10 : Fin k1_t10_loop.trips, ∀ (r : Fin 4), ∀ a, (k1_off22 k1_t10 (BitVec.ofNat 32 r.val)) a + S1x16.size a ≤ S48x224.size a
  k1_off23_inb : ∀ k1_t10 : Fin k1_t10_loop.trips, ∀ (r : Fin 4), ∀ a, (k1_off23 k1_t10 (BitVec.ofNat 32 r.val)) a + S1x16.size a ≤ S48x224.size a
  k1_t11_ok : k1_t11_loop.OK
  k1_off24_inb : ∀ k1_t11 : Fin k1_t11_loop.trips, ∀ (r : Fin 4), ∀ a, (k1_off24 k1_t11 (BitVec.ofNat 32 r.val)) a + S1x16.size a ≤ S48x224.size a
  k1_off25_inb : ∀ k1_t11 : Fin k1_t11_loop.trips, ∀ (r : Fin 4), ∀ a, (k1_off25 k1_t11 (BitVec.ofNat 32 r.val)) a + S1x16.size a ≤ S48x224.size a
  k1_t12_ok : k1_t12_loop.OK
  k1_off26_inb : ∀ k1_t12 : Fin k1_t12_loop.trips, ∀ (r : Fin 4), ∀ a, (k1_off26 k1_t12 (BitVec.ofNat 32 r.val)) a + S1x16.size a ≤ S48x224.size a
  k1_off27_inb : ∀ k1_t12 : Fin k1_t12_loop.trips, ∀ (r : Fin 4), ∀ a, (k1_off27 k1_t12 (BitVec.ofNat 32 r.val)) a + S1x16.size a ≤ S48x224.size a
  k1_t13_ok : k1_t13_loop.OK
  k1_off28_inb : ∀ k1_t13 : Fin k1_t13_loop.trips, ∀ (r : Fin 4), ∀ a, (k1_off28 k1_t13 (BitVec.ofNat 32 r.val)) a + S1x16.size a ≤ S48x224.size a
  k1_off29_inb : ∀ k1_t13 : Fin k1_t13_loop.trips, ∀ (r : Fin 4), ∀ a, (k1_off29 k1_t13 (BitVec.ofNat 32 r.val)) a + S1x16.size a ≤ S48x224.size a
  k1_t14_ok : k1_t14_loop.OK
  k1_off30_inb : ∀ k1_t14 : Fin k1_t14_loop.trips, ∀ (r : Fin 4), ∀ a, (k1_off30 k1_t14 (BitVec.ofNat 32 r.val)) a + S1x16.size a ≤ S48x224.size a
  k1_off31_inb : ∀ k1_t14 : Fin k1_t14_loop.trips, ∀ (r : Fin 4), ∀ a, (k1_off31 k1_t14 (BitVec.ofNat 32 r.val)) a + S1x16.size a ≤ S48x224.size a
  k1_t15_ok : k1_t15_loop.OK
  k1_off32_inb : ∀ k1_t15 : Fin k1_t15_loop.trips, ∀ (r : Fin 4), ∀ a, (k1_off32 k1_t15 (BitVec.ofNat 32 r.val)) a + S1x16.size a ≤ S48x224.size a
  k1_off33_inb : ∀ k1_t15 : Fin k1_t15_loop.trips, ∀ (r : Fin 4), ∀ a, (k1_off33 k1_t15 (BitVec.ofNat 32 r.val)) a + S1x16.size a ≤ S48x224.size a
  k1_off34_inb : ∀ (i : grid1.Coords) (k1_t1 : Fin k1_t1_loop.trips), ∀ (k1_h16 : k1_cond16 k1_t1 = 1#1), ∀ a, (k1_off34 i k1_t1) a + S1x48x1x224.size a ≤ S8x192x224x224.size a
  k1_t16_ok : k1_t16_loop.OK
  k1_off35_inb : ∀ k1_t16 : Fin k1_t16_loop.trips, ∀ (r : Fin 4), ∀ a, (k1_off35 k1_t16 (BitVec.ofNat 32 r.val)) a + S1x16.size a ≤ S48x224.size a
  k1_off36_inb : ∀ k1_t16 : Fin k1_t16_loop.trips, ∀ (r : Fin 4), ∀ a, (k1_off36 k1_t16 (BitVec.ofNat 32 r.val)) a + S1x16.size a ≤ S48x224.size a
  k1_t17_ok : k1_t17_loop.OK
  k1_off37_inb : ∀ k1_t17 : Fin k1_t17_loop.trips, ∀ (r : Fin 4), ∀ a, (k1_off37 k1_t17 (BitVec.ofNat 32 r.val)) a + S1x16.size a ≤ S48x224.size a
  k1_off38_inb : ∀ k1_t17 : Fin k1_t17_loop.trips, ∀ (r : Fin 4), ∀ a, (k1_off38 k1_t17 (BitVec.ofNat 32 r.val)) a + S1x16.size a ≤ S48x224.size a
  k1_t18_ok : k1_t18_loop.OK
  k1_off39_inb : ∀ k1_t18 : Fin k1_t18_loop.trips, ∀ (r : Fin 4), ∀ a, (k1_off39 k1_t18 (BitVec.ofNat 32 r.val)) a + S1x16.size a ≤ S48x224.size a
  k1_off40_inb : ∀ k1_t18 : Fin k1_t18_loop.trips, ∀ (r : Fin 4), ∀ a, (k1_off40 k1_t18 (BitVec.ofNat 32 r.val)) a + S1x16.size a ≤ S48x224.size a
  k1_t19_ok : k1_t19_loop.OK
  k1_off41_inb : ∀ k1_t19 : Fin k1_t19_loop.trips, ∀ (r : Fin 4), ∀ a, (k1_off41 k1_t19 (BitVec.ofNat 32 r.val)) a + S1x16.size a ≤ S48x224.size a
  k1_off42_inb : ∀ k1_t19 : Fin k1_t19_loop.trips, ∀ (r : Fin 4), ∀ a, (k1_off42 k1_t19 (BitVec.ofNat 32 r.val)) a + S1x16.size a ≤ S48x224.size a
  k1_t20_ok : k1_t20_loop.OK
  k1_off43_inb : ∀ k1_t20 : Fin k1_t20_loop.trips, ∀ (r : Fin 4), ∀ a, (k1_off43 k1_t20 (BitVec.ofNat 32 r.val)) a + S1x16.size a ≤ S48x224.size a
  k1_off44_inb : ∀ k1_t20 : Fin k1_t20_loop.trips, ∀ (r : Fin 4), ∀ a, (k1_off44 k1_t20 (BitVec.ofNat 32 r.val)) a + S1x16.size a ≤ S48x224.size a
  k1_t21_ok : k1_t21_loop.OK
  k1_off45_inb : ∀ k1_t21 : Fin k1_t21_loop.trips, ∀ (r : Fin 4), ∀ a, (k1_off45 k1_t21 (BitVec.ofNat 32 r.val)) a + S1x16.size a ≤ S48x224.size a
  k1_off46_inb : ∀ k1_t21 : Fin k1_t21_loop.trips, ∀ (r : Fin 4), ∀ a, (k1_off46 k1_t21 (BitVec.ofNat 32 r.val)) a + S1x16.size a ≤ S48x224.size a
  k1_t22_ok : k1_t22_loop.OK
  k1_off47_inb : ∀ k1_t22 : Fin k1_t22_loop.trips, ∀ (r : Fin 4), ∀ a, (k1_off47 k1_t22 (BitVec.ofNat 32 r.val)) a + S1x16.size a ≤ S48x224.size a
  k1_off48_inb : ∀ k1_t22 : Fin k1_t22_loop.trips, ∀ (r : Fin 4), ∀ a, (k1_off48 k1_t22 (BitVec.ofNat 32 r.val)) a + S1x16.size a ≤ S48x224.size a
  k1_off49_inb : ∀ (i : grid1.Coords) (k1_t1 : Fin k1_t1_loop.trips), ∀ (k1_h24 : k1_cond24 k1_t1 = 1#1), ∀ a, (k1_off49 i k1_t1) a + S1x48x1x224.size a ≤ S8x192x224x224.size a
  k1_t23_ok : k1_t23_loop.OK
  k1_off50_inb : ∀ k1_t23 : Fin k1_t23_loop.trips, ∀ (r : Fin 4), ∀ a, (k1_off50 k1_t23 (BitVec.ofNat 32 r.val)) a + S1x16.size a ≤ S48x224.size a
  k1_off51_inb : ∀ k1_t23 : Fin k1_t23_loop.trips, ∀ (r : Fin 4), ∀ a, (k1_off51 k1_t23 (BitVec.ofNat 32 r.val)) a + S1x16.size a ≤ S48x224.size a
  k1_t24_ok : k1_t24_loop.OK
  k1_off52_inb : ∀ k1_t24 : Fin k1_t24_loop.trips, ∀ (r : Fin 4), ∀ a, (k1_off52 k1_t24 (BitVec.ofNat 32 r.val)) a + S1x16.size a ≤ S48x224.size a
  k1_off53_inb : ∀ k1_t24 : Fin k1_t24_loop.trips, ∀ (r : Fin 4), ∀ a, (k1_off53 k1_t24 (BitVec.ofNat 32 r.val)) a + S1x16.size a ≤ S48x224.size a
  k1_t25_ok : k1_t25_loop.OK
  k1_off54_inb : ∀ k1_t25 : Fin k1_t25_loop.trips, ∀ (r : Fin 4), ∀ a, (k1_off54 k1_t25 (BitVec.ofNat 32 r.val)) a + S1x16.size a ≤ S48x224.size a
  k1_off55_inb : ∀ k1_t25 : Fin k1_t25_loop.trips, ∀ (r : Fin 4), ∀ a, (k1_off55 k1_t25 (BitVec.ofNat 32 r.val)) a + S1x16.size a ≤ S48x224.size a
  k1_t26_ok : k1_t26_loop.OK
  k1_off56_inb : ∀ k1_t26 : Fin k1_t26_loop.trips, ∀ (r : Fin 4), ∀ a, (k1_off56 k1_t26 (BitVec.ofNat 32 r.val)) a + S1x16.size a ≤ S48x224.size a
  k1_off57_inb : ∀ k1_t26 : Fin k1_t26_loop.trips, ∀ (r : Fin 4), ∀ a, (k1_off57 k1_t26 (BitVec.ofNat 32 r.val)) a + S1x16.size a ≤ S48x224.size a
  k1_t27_ok : k1_t27_loop.OK
  k1_off58_inb : ∀ k1_t27 : Fin k1_t27_loop.trips, ∀ (r : Fin 4), ∀ a, (k1_off58 k1_t27 (BitVec.ofNat 32 r.val)) a + S1x16.size a ≤ S48x224.size a
  k1_off59_inb : ∀ k1_t27 : Fin k1_t27_loop.trips, ∀ (r : Fin 4), ∀ a, (k1_off59 k1_t27 (BitVec.ofNat 32 r.val)) a + S1x16.size a ≤ S48x224.size a
  k1_t28_ok : k1_t28_loop.OK
  k1_off60_inb : ∀ k1_t28 : Fin k1_t28_loop.trips, ∀ (r : Fin 4), ∀ a, (k1_off60 k1_t28 (BitVec.ofNat 32 r.val)) a + S1x16.size a ≤ S48x224.size a
  k1_off61_inb : ∀ k1_t28 : Fin k1_t28_loop.trips, ∀ (r : Fin 4), ∀ a, (k1_off61 k1_t28 (BitVec.ofNat 32 r.val)) a + S1x16.size a ≤ S48x224.size a
  k1_t29_ok : k1_t29_loop.OK
  k1_off62_inb : ∀ k1_t29 : Fin k1_t29_loop.trips, ∀ (r : Fin 4), ∀ a, (k1_off62 k1_t29 (BitVec.ofNat 32 r.val)) a + S1x16.size a ≤ S48x224.size a
  k1_off63_inb : ∀ k1_t29 : Fin k1_t29_loop.trips, ∀ (r : Fin 4), ∀ a, (k1_off63 k1_t29 (BitVec.ofNat 32 r.val)) a + S1x16.size a ≤ S48x224.size a
  k1_off64_inb : ∀ (i : grid1.Coords) (k1_t1 : Fin k1_t1_loop.trips), ∀ (k1_h32 : k1_cond32 k1_t1 = 1#1), ∀ a, (k1_off64 i k1_t1) a + S1x48x1x224.size a ≤ S8x192x224x224.size a
  k1_off65_inb : ∀ (i : grid1.Coords) (k1_t1 : Fin k1_t1_loop.trips), ∀ a, (k1_off65 i k1_t1) a + S1x1x16.size a ≤ S8x16x256.size a
  k1_off66_inb : ∀ (i : grid1.Coords) (k1_t1 : Fin k1_t1_loop.trips), ∀ a, (k1_off66 i k1_t1) a + S1x1x16.size a ≤ S8x16x256.size a
  k1_off67_inb : ∀ (i : grid1.Coords) (k1_t1 : Fin k1_t1_loop.trips), ∀ a, (k1_off67 i k1_t1) a + S1x1x16.size a ≤ S8x16x256.size a
  k1_off68_inb : ∀ (i : grid1.Coords) (k1_t1 : Fin k1_t1_loop.trips), ∀ a, (k1_off68 i k1_t1) a + S1x1x16.size a ≤ S8x16x256.size a
  k1_off69_inb : ∀ (i : grid1.Coords) (k1_t1 : Fin k1_t1_loop.trips), ∀ a, (k1_off69 i k1_t1) a + S1x1x16.size a ≤ S8x16x256.size a
  k1_off70_inb : ∀ (i : grid1.Coords) (k1_t1 : Fin k1_t1_loop.trips), ∀ a, (k1_off70 i k1_t1) a + S1x1x16.size a ≤ S8x16x256.size a
  k1_off71_inb : ∀ (i : grid1.Coords) (k1_t1 : Fin k1_t1_loop.trips), ∀ a, (k1_off71 i k1_t1) a + S1x1x16.size a ≤ S8x16x256.size a
  k1_off72_inb : ∀ (i : grid1.Coords) (k1_t1 : Fin k1_t1_loop.trips), ∀ a, (k1_off72 i k1_t1) a + S1x1x16.size a ≤ S8x16x256.size a
  k1_off73_inb : ∀ (i : grid1.Coords) (k1_t1 : Fin k1_t1_loop.trips), ∀ a, (k1_off73 i k1_t1) a + S1x1x16.size a ≤ S8x16x256.size a
  k1_off74_inb : ∀ (i : grid1.Coords) (k1_t1 : Fin k1_t1_loop.trips), ∀ a, (k1_off74 i k1_t1) a + S1x1x16.size a ≤ S8x16x256.size a
  k1_off75_inb : ∀ (i : grid1.Coords) (k1_t1 : Fin k1_t1_loop.trips), ∀ a, (k1_off75 i k1_t1) a + S1x1x16.size a ≤ S8x16x256.size a
  k1_off76_inb : ∀ (i : grid1.Coords) (k1_t1 : Fin k1_t1_loop.trips), ∀ a, (k1_off76 i k1_t1) a + S1x1x16.size a ≤ S8x16x256.size a
  k1_off77_inb : ∀ (i : grid1.Coords) (k1_t1 : Fin k1_t1_loop.trips), ∀ a, (k1_off77 i k1_t1) a + S1x1x16.size a ≤ S8x16x256.size a
  k1_off78_inb : ∀ (i : grid1.Coords) (k1_t1 : Fin k1_t1_loop.trips), ∀ a, (k1_off78 i k1_t1) a + S1x1x16.size a ≤ S8x16x256.size a
  k1_off79_inb : ∀ i : grid1.Coords, ∀ a, (k1_off79 i) a + S1x32.size a ≤ S32x32.size a
  hrank2 : 0 < grid2.rank
  k2_off1_inb : ∀ i : grid2.Coords, ∀ a, (k2_off1 i) a + S1x1x1.size a ≤ S8x20x4.size a
  k2_off2_inb : ∀ i : grid2.Coords, ∀ a, (k2_off2 i) a + S1x1x1.size a ≤ S8x20x4.size a
  k2_off3_inb : ∀ i : grid2.Coords, ∀ a, (k2_off3 i) a + S1x1x1.size a ≤ S8x20x4.size a
  k2_off4_inb : ∀ i : grid2.Coords, ∀ a, (k2_off4 i) a + S1x1x1.size a ≤ S8x20x4.size a
  k2_off5_inb : ∀ i : grid2.Coords, ∀ a, (k2_off5 i) a + S1x1x1.size a ≤ S8x20x4.size a
  k2_off6_inb : ∀ i : grid2.Coords, ∀ a, (k2_off6 i) a + S1x1x1.size a ≤ S8x20x4.size a
  k2_off7_inb : ∀ i : grid2.Coords, ∀ a, (k2_off7 i) a + S1x1x1.size a ≤ S8x20x4.size a
  k2_off8_inb : ∀ i : grid2.Coords, ∀ a, (k2_off8 i) a + S1x1x1.size a ≤ S8x20x4.size a
  k2_off9_inb : ∀ i : grid2.Coords, ∀ a, (k2_off9 i) a + S1x1x1.size a ≤ S8x20x4.size a
  k2_off10_inb : ∀ i : grid2.Coords, ∀ a, (k2_off10 i) a + S1x1x1.size a ≤ S8x20x4.size a
  k2_off11_inb : ∀ i : grid2.Coords, ∀ a, (k2_off11 i) a + S1x1x1.size a ≤ S8x20x4.size a
  k2_off12_inb : ∀ i : grid2.Coords, ∀ a, (k2_off12 i) a + S1x1x1.size a ≤ S8x20x4.size a
  k2_off13_inb : ∀ i : grid2.Coords, ∀ a, (k2_off13 i) a + S1x1x1.size a ≤ S8x20x4.size a
  k2_off14_inb : ∀ i : grid2.Coords, ∀ a, (k2_off14 i) a + S1x1x1.size a ≤ S8x20x4.size a
  k2_off15_inb : ∀ i : grid2.Coords, ∀ a, (k2_off15 i) a + S1x1x1.size a ≤ S8x20x4.size a
  k2_off16_inb : ∀ i : grid2.Coords, ∀ a, (k2_off16 i) a + S1x1x1.size a ≤ S8x20x4.size a
  k2_off17_inb : ∀ i : grid2.Coords, ∀ a, (k2_off17 i) a + S1x1x1.size a ≤ S8x20x4.size a
  k2_off18_inb : ∀ i : grid2.Coords, ∀ a, (k2_off18 i) a + S1x1x1.size a ≤ S8x20x4.size a
  k2_off19_inb : ∀ i : grid2.Coords, ∀ a, (k2_off19 i) a + S1x1x1.size a ≤ S8x20x4.size a
  k2_off20_inb : ∀ i : grid2.Coords, ∀ a, (k2_off20 i) a + S1x1x1.size a ≤ S8x20x4.size a
  k2_off21_inb : ∀ i : grid2.Coords, ∀ a, (k2_off21 i) a + S1x1x1.size a ≤ S8x20x4.size a
  k2_off22_inb : ∀ i : grid2.Coords, ∀ a, (k2_off22 i) a + S1x1x1.size a ≤ S8x20x4.size a
  k2_off23_inb : ∀ i : grid2.Coords, ∀ a, (k2_off23 i) a + S1x1x1.size a ≤ S8x20x4.size a
  k2_off24_inb : ∀ i : grid2.Coords, ∀ a, (k2_off24 i) a + S1x1x1.size a ≤ S8x20x4.size a
  k2_off25_inb : ∀ i : grid2.Coords, ∀ a, (k2_off25 i) a + S1x1x1.size a ≤ S8x20x4.size a
  k2_off26_inb : ∀ i : grid2.Coords, ∀ a, (k2_off26 i) a + S1x1x1.size a ≤ S8x20x4.size a
  k2_off27_inb : ∀ i : grid2.Coords, ∀ a, (k2_off27 i) a + S1x1x1.size a ≤ S8x20x4.size a
  k2_off28_inb : ∀ i : grid2.Coords, ∀ a, (k2_off28 i) a + S1x1x1.size a ≤ S8x20x4.size a
  k2_off29_inb : ∀ i : grid2.Coords, ∀ a, (k2_off29 i) a + S1x1x1.size a ≤ S8x20x4.size a
  k2_off30_inb : ∀ i : grid2.Coords, ∀ a, (k2_off30 i) a + S1x1x1.size a ≤ S8x20x4.size a
  k2_off31_inb : ∀ i : grid2.Coords, ∀ a, (k2_off31 i) a + S1x1x1.size a ≤ S8x20x4.size a
  k2_off32_inb : ∀ i : grid2.Coords, ∀ a, (k2_off32 i) a + S1x1x1.size a ≤ S8x20x4.size a
  k2_off33_inb : ∀ i : grid2.Coords, ∀ a, (k2_off33 i) a + S1x1x1.size a ≤ S8x20x4.size a
  k2_off34_inb : ∀ i : grid2.Coords, ∀ a, (k2_off34 i) a + S1x1x1.size a ≤ S8x20x4.size a
  k2_off35_inb : ∀ i : grid2.Coords, ∀ a, (k2_off35 i) a + S1x1x1.size a ≤ S8x20x4.size a
  k2_off36_inb : ∀ i : grid2.Coords, ∀ a, (k2_off36 i) a + S1x1x1.size a ≤ S8x20x4.size a
  k2_off37_inb : ∀ i : grid2.Coords, ∀ a, (k2_off37 i) a + S1x1x1.size a ≤ S8x20x4.size a
  k2_off38_inb : ∀ i : grid2.Coords, ∀ a, (k2_off38 i) a + S1x1x1.size a ≤ S8x20x4.size a
  k2_off39_inb : ∀ i : grid2.Coords, ∀ a, (k2_off39 i) a + S1x1x1.size a ≤ S8x20x4.size a
  k2_off40_inb : ∀ i : grid2.Coords, ∀ a, (k2_off40 i) a + S1x1x1.size a ≤ S8x20x4.size a
  k2_off41_inb : ∀ i : grid2.Coords, ∀ a, (k2_off41 i) a + S1x1x1.size a ≤ S8x20x4.size a
  k2_off42_inb : ∀ i : grid2.Coords, ∀ a, (k2_off42 i) a + S1x1x1.size a ≤ S8x20x4.size a
  k2_off43_inb : ∀ i : grid2.Coords, ∀ a, (k2_off43 i) a + S1x1x1.size a ≤ S8x20x4.size a
  k2_off44_inb : ∀ i : grid2.Coords, ∀ a, (k2_off44 i) a + S1x1x1.size a ≤ S8x20x4.size a
  k2_off45_inb : ∀ i : grid2.Coords, ∀ a, (k2_off45 i) a + S1x1x1.size a ≤ S8x20x4.size a
  k2_off46_inb : ∀ i : grid2.Coords, ∀ a, (k2_off46 i) a + S1x1x1.size a ≤ S8x20x4.size a
  k2_off47_inb : ∀ i : grid2.Coords, ∀ a, (k2_off47 i) a + S1x1x1.size a ≤ S8x20x4.size a
  k2_off48_inb : ∀ i : grid2.Coords, ∀ a, (k2_off48 i) a + S1x1x1.size a ≤ S8x20x4.size a
  k2_off49_inb : ∀ i : grid2.Coords, ∀ a, (k2_off49 i) a + S1x1x1.size a ≤ S8x20x4.size a
  k2_off50_inb : ∀ i : grid2.Coords, ∀ a, (k2_off50 i) a + S1x1x1.size a ≤ S8x20x4.size a
  k2_off51_inb : ∀ i : grid2.Coords, ∀ a, (k2_off51 i) a + S1x1x1.size a ≤ S8x20x4.size a
  k2_off52_inb : ∀ i : grid2.Coords, ∀ a, (k2_off52 i) a + S1x1x1.size a ≤ S8x20x4.size a
  k2_off53_inb : ∀ i : grid2.Coords, ∀ a, (k2_off53 i) a + S1x1x1.size a ≤ S8x20x4.size a
  k2_off54_inb : ∀ i : grid2.Coords, ∀ a, (k2_off54 i) a + S1x1x1.size a ≤ S8x20x4.size a
  k2_off55_inb : ∀ i : grid2.Coords, ∀ a, (k2_off55 i) a + S1x1x1.size a ≤ S8x20x4.size a
  k2_off56_inb : ∀ i : grid2.Coords, ∀ a, (k2_off56 i) a + S1x1x1.size a ≤ S8x20x4.size a
  k2_off57_inb : ∀ i : grid2.Coords, ∀ a, (k2_off57 i) a + S1x1x1.size a ≤ S8x20x4.size a
  k2_off58_inb : ∀ i : grid2.Coords, ∀ a, (k2_off58 i) a + S1x1x1.size a ≤ S8x20x4.size a
  k2_off59_inb : ∀ i : grid2.Coords, ∀ a, (k2_off59 i) a + S1x1x1.size a ≤ S8x20x4.size a
  k2_off60_inb : ∀ i : grid2.Coords, ∀ a, (k2_off60 i) a + S1x1x1.size a ≤ S8x20x4.size a
  k2_off61_inb : ∀ i : grid2.Coords, ∀ a, (k2_off61 i) a + S1x1x1.size a ≤ S8x20x4.size a
  k2_off62_inb : ∀ i : grid2.Coords, ∀ a, (k2_off62 i) a + S1x1x1.size a ≤ S8x20x4.size a
  k2_off63_inb : ∀ i : grid2.Coords, ∀ a, (k2_off63 i) a + S1x1x1.size a ≤ S8x20x4.size a
  k2_off64_inb : ∀ i : grid2.Coords, ∀ a, (k2_off64 i) a + S1x1x1.size a ≤ S8x20x4.size a
  k2_off65_inb : ∀ i : grid2.Coords, ∀ a, (k2_off65 i) a + S1x1x1.size a ≤ S8x20x4.size a
  k2_off66_inb : ∀ i : grid2.Coords, ∀ a, (k2_off66 i) a + S1x1x1.size a ≤ S8x20x4.size a
  k2_off67_inb : ∀ i : grid2.Coords, ∀ a, (k2_off67 i) a + S1x1x1.size a ≤ S8x20x4.size a
  k2_off68_inb : ∀ i : grid2.Coords, ∀ a, (k2_off68 i) a + S1x1x1.size a ≤ S8x20x4.size a
  k2_off69_inb : ∀ i : grid2.Coords, ∀ a, (k2_off69 i) a + S1x1x1.size a ≤ S8x20x4.size a
  k2_off70_inb : ∀ i : grid2.Coords, ∀ a, (k2_off70 i) a + S1x1x1.size a ≤ S8x20x4.size a
  k2_off71_inb : ∀ i : grid2.Coords, ∀ a, (k2_off71 i) a + S1x1x1.size a ≤ S8x20x4.size a
  k2_off72_inb : ∀ i : grid2.Coords, ∀ a, (k2_off72 i) a + S1x1x1.size a ≤ S8x20x4.size a
  k2_off73_inb : ∀ i : grid2.Coords, ∀ a, (k2_off73 i) a + S1x1x1.size a ≤ S8x20x4.size a
  k2_off74_inb : ∀ i : grid2.Coords, ∀ a, (k2_off74 i) a + S1x1x1.size a ≤ S8x20x4.size a
  k2_off75_inb : ∀ i : grid2.Coords, ∀ a, (k2_off75 i) a + S1x1x1.size a ≤ S8x20x4.size a
  k2_off76_inb : ∀ i : grid2.Coords, ∀ a, (k2_off76 i) a + S1x1x1.size a ≤ S8x20x4.size a
  k2_off77_inb : ∀ i : grid2.Coords, ∀ a, (k2_off77 i) a + S1x1x1.size a ≤ S8x20x4.size a
  k2_off78_inb : ∀ i : grid2.Coords, ∀ a, (k2_off78 i) a + S1x1x1.size a ≤ S8x20x4.size a
  k2_off79_inb : ∀ i : grid2.Coords, ∀ a, (k2_off79 i) a + S1x1x1.size a ≤ S8x20x4.size a
  k2_off80_inb : ∀ i : grid2.Coords, ∀ a, (k2_off80 i) a + S1x1x1.size a ≤ S8x20x4.size a
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S8x20x4.size a ≤ S8x20x4.size a
  hwx2_0 : ∀ i : grid2.Coords, EltTy.bits .i32 = 32 ∨ (Rect.block (s := S8x20x4) S8x20x4.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x192x32x224.size a ≤ S8x192x224x224.size a
  hwx2_1 : ∀ i : grid2.Coords, EltTy.bits .f32 = 32 ∨ (Rect.block (s := S8x192x224x224) S1x192x32x224.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x192x32x224.size a ≤ S8x192x224x224.size a
  hwx2_2 : ∀ i : grid2.Coords, EltTy.bits .f32 = 32 ∨ (Rect.block (s := S8x192x224x224) S1x192x32x224.size (cc2_transform_2 i) (hinb2_2 i)).WholeWords (EltTy.packing .f32)
  hstage2_3 : ∀ j, (stage2_3 j).IsWhole
  nbuf2_3 : grid2.bufCount reads2_3 false = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)

variable [Facts₀]

abbrev cc1_scratch8 : DmaSems sig S_ := SemArray.consecutive 3 S_ hcc1_scratch8
abbrev cc1_scratch9 : DmaSems sig S_ := SemArray.consecutive 4 S_ hcc1_scratch9
abbrev cc1_scratch10 : DmaSems sig S_ := SemArray.consecutive 5 S_ hcc1_scratch10
abbrev cc1_scratch11 : DmaSems sig S_ := SemArray.consecutive 6 S_ hcc1_scratch11
abbrev cc1_scoped0 : DmaSems sig S_ := SemArray.consecutive 7 S_ hcc1_scoped0
abbrev cc1_scoped1 : DmaSems sig S_ := SemArray.consecutive 8 S_ hcc1_scoped1

abbrev win0_0 : Pipeline.Window sig grid0 :=
  Pipeline.Window.ofSpec (Memref.whole main_arg2) S8x20x4.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x32x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win2_0 : Pipeline.Window sig grid2 :=
  Pipeline.Window.ofSpec (Memref.whole main_arg2) S8x20x4.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S1x192x32x224.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg1) S1x192x32x224.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2_0) S1x1.size cc2_transform_3 reads2_3 true false 1 stage2_3 sem2_3
    hrank2 hreads2_3 hinb2_3 nbuf2_3 (Memref.isWhole_whole _) hwx2_3 hstage2_3

abbrev win2_4 : Pipeline.Window sig grid2 :=
  Pipeline.Window.ofSpec (Memref.whole main_v2_1) S1x1.size cc2_transform_4 reads2_4 true false 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S8x192x224x224 : Shape := ⟨4, ![8, 192, 224, 224]⟩
abbrev S8x20x4 : Shape := ⟨3, ![8, 20, 4]⟩
abbrev S8x20x1 : Shape := ⟨3, ![8, 20, 1]⟩
abbrev S8x20 : Shape := ⟨2, ![8, 20]⟩
abbrev S224 : Shape := ⟨1, ![224]⟩
abbrev S1x1x224 : Shape := ⟨3, ![1, 1, 224]⟩
abbrev S8x20x224 : Shape := ⟨3, ![8, 20, 224]⟩
abbrev S8x20x224x1 : Shape := ⟨4, ![8, 20, 224, 1]⟩
abbrev S8x20x1x224 : Shape := ⟨4, ![8, 20, 1, 224]⟩
abbrev S8x20x224x224 : Shape := ⟨4, ![8, 20, 224, 224]⟩
abbrev S_ : Shape := ⟨0, ![]⟩
abbrev S8x224x224 : Shape := ⟨3, ![8, 224, 224]⟩
abbrev S8x224x224x192 : Shape := ⟨4, ![8, 224, 224, 192]⟩
abbrev S8x224x224x1 : Shape := ⟨4, ![8, 224, 224, 1]⟩

abbrev nBuf : Space → Nat
  | .hbm => 75
  | .vmem => 0
  | .smem => 0
  | _ => 0

abbrev bufTy : (tb : Table) → Fin (tcTables nBuf tb) → BufTy
  | .hbm, ⟨0, _⟩ => ⟨S8x192x224x224, .f32⟩
  | .hbm, ⟨1, _⟩ => ⟨S8x192x224x224, .f32⟩
  | .hbm, ⟨2, _⟩ => ⟨S8x20x4, .i32⟩
  | .hbm, ⟨3, _⟩ => ⟨S8x20x1, .i32⟩
  | .hbm, ⟨4, _⟩ => ⟨S8x20, .i32⟩
  | .hbm, ⟨5, _⟩ => ⟨S8x20x1, .i32⟩
  | .hbm, ⟨6, _⟩ => ⟨S8x20, .i32⟩
  | .hbm, ⟨7, _⟩ => ⟨S8x20x1, .i32⟩
  | .hbm, ⟨8, _⟩ => ⟨S8x20, .i32⟩
  | .hbm, ⟨9, _⟩ => ⟨S8x20x1, .i32⟩
  | .hbm, ⟨10, _⟩ => ⟨S8x20, .i32⟩
  | .hbm, ⟨11, _⟩ => ⟨S224, .i32⟩
  | .hbm, ⟨12, _⟩ => ⟨S224, .i32⟩
  | .hbm, ⟨13, _⟩ => ⟨S1x1x224, .i32⟩
  | .hbm, ⟨14, _⟩ => ⟨S8x20x1, .i32⟩
  | .hbm, ⟨15, _⟩ => ⟨S8x20x224, .i32⟩
  | .hbm, ⟨16, _⟩ => ⟨S8x20x224, .i32⟩
  | .hbm, ⟨17, _⟩ => ⟨S8x20x224, .i1⟩
  | .hbm, ⟨18, _⟩ => ⟨S1x1x224, .i32⟩
  | .hbm, ⟨19, _⟩ => ⟨S8x20x1, .i32⟩
  | .hbm, ⟨20, _⟩ => ⟨S8x20x224, .i32⟩
  | .hbm, ⟨21, _⟩ => ⟨S8x20x224, .i32⟩
  | .hbm, ⟨22, _⟩ => ⟨S8x20x224, .i1⟩
  | .hbm, ⟨23, _⟩ => ⟨S8x20x224, .i1⟩
  | .hbm, ⟨24, _⟩ => ⟨S1x1x224, .i32⟩
  | .hbm, ⟨25, _⟩ => ⟨S8x20x1, .i32⟩
  | .hbm, ⟨26, _⟩ => ⟨S8x20x224, .i32⟩
  | .hbm, ⟨27, _⟩ => ⟨S8x20x224, .i32⟩
  | .hbm, ⟨28, _⟩ => ⟨S8x20x224, .i1⟩
  | .hbm, ⟨29, _⟩ => ⟨S1x1x224, .i32⟩
  | .hbm, ⟨30, _⟩ => ⟨S8x20x1, .i32⟩
  | .hbm, ⟨31, _⟩ => ⟨S8x20x224, .i32⟩
  | .hbm, ⟨32, _⟩ => ⟨S8x20x224, .i32⟩
  | .hbm, ⟨33, _⟩ => ⟨S8x20x224, .i1⟩
  | .hbm, ⟨34, _⟩ => ⟨S8x20x224, .i1⟩
  | .hbm, ⟨35, _⟩ => ⟨S8x20x224x1, .i1⟩
  | .hbm, ⟨36, _⟩ => ⟨S8x20x1x224, .i1⟩
  | .hbm, ⟨37, _⟩ => ⟨S8x20x224x224, .i1⟩
  | .hbm, ⟨38, _⟩ => ⟨S8x20x224x224, .i1⟩
  | .hbm, ⟨39, _⟩ => ⟨S8x20x224x224, .i1⟩
  | .hbm, ⟨40, _⟩ => ⟨S_, .i1⟩
  | .hbm, ⟨41, _⟩ => ⟨S8x224x224, .i1⟩
  | .hbm, ⟨42, _⟩ => ⟨S8x224x224, .f32⟩
  | .hbm, ⟨43, _⟩ => ⟨S8x224x224x192, .f32⟩
  | .hbm, ⟨44, _⟩ => ⟨S8x224x224x192, .f32⟩
  | .hbm, ⟨45, _⟩ => ⟨S_, .f32⟩
  | .hbm, ⟨46, _⟩ => ⟨S8x224x224x192, .f32⟩
  | .hbm, ⟨47, _⟩ => ⟨S8x224x224x192, .i1⟩
  | .hbm, ⟨48, _⟩ => ⟨S_, .i1⟩
  | .hbm, ⟨49, _⟩ => ⟨S8x224x224, .i1⟩
  | .hbm, ⟨50, _⟩ => ⟨S8x224x224, .f32⟩
  | .hbm, ⟨51, _⟩ => ⟨S8x224x224, .f32⟩
  | .hbm, ⟨52, _⟩ => ⟨S_, .f32⟩
  | .hbm, ⟨53, _⟩ => ⟨S_, .f32⟩
  | .hbm, ⟨54, _⟩ => ⟨S8x224x224, .f32⟩
  | .hbm, ⟨55, _⟩ => ⟨S8x224x224, .f32⟩
  | .hbm, ⟨56, _⟩ => ⟨S8x224x224x192, .i1⟩
  | .hbm, ⟨57, _⟩ => ⟨S8x224x224x192, .f32⟩
  | .hbm, ⟨58, _⟩ => ⟨S8x224x224x192, .f32⟩
  | .hbm, ⟨59, _⟩ => ⟨S8x224x224x192, .f32⟩
  | .hbm, ⟨60, _⟩ => ⟨S_, .f32⟩
  | .hbm, ⟨61, _⟩ => ⟨S8x224x224x192, .f32⟩
  | .hbm, ⟨62, _⟩ => ⟨S8x224x224x192, .f32⟩
  | .hbm, ⟨63, _⟩ => ⟨S8x224x224x1, .f32⟩
  | .hbm, ⟨64, _⟩ => ⟨S8x224x224x192, .f32⟩
  | .hbm, ⟨65, _⟩ => ⟨S8x224x224x192, .f32⟩
  | .hbm, ⟨66, _⟩ => ⟨S_, .f32⟩
  | .hbm, ⟨67, _⟩ => ⟨S8x224x224, .f32⟩
  | .hbm, ⟨68, _⟩ => ⟨S_, .f32⟩
  | .hbm, ⟨69, _⟩ => ⟨S8x224x224, .f32⟩
  | .hbm, ⟨70, _⟩ => ⟨S8x224x224, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | _, _ => ⟨S8x192x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_c : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_cst : Ref sig .tc := ⟨.hbm, 45, rfl⟩
abbrev main_v41 : Ref sig .tc := ⟨.hbm, 46, rfl⟩
abbrev main_v42 : Ref sig .tc := ⟨.hbm, 47, rfl⟩
abbrev main_c_0 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_cst_1 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_cst_2 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_cst_3 : Ref sig .tc := ⟨.hbm, 66, rfl⟩
abbrev main_v58 : Ref sig .tc := ⟨.hbm, 67, rfl⟩
abbrev main_cst_4 : Ref sig .tc := ⟨.hbm, 68, rfl⟩
abbrev main_v59 : Ref sig .tc := ⟨.hbm, 69, rfl⟩
abbrev main_v60 : Ref sig .tc := ⟨.hbm, 70, rfl⟩
abbrev main_cst_5 : Ref sig .tc := ⟨.hbm, 71, rfl⟩
abbrev main_v61 : Ref sig .tc := ⟨.hbm, 72, rfl⟩
abbrev main_cst_6 : Ref sig .tc := ⟨.hbm, 73, rfl⟩
abbrev main_v62 : Ref sig .tc := ⟨.hbm, 74, rfl⟩

abbrev nD : Nat := 1
abbrev τ : Topo := Topo.v7x

variable {F : FTy → Type} [FloatOps F]

class Facts₀ : Prop where
  slices_S8x20x4_S8x20x1_0_0_0 : S8x20x4.Slices ![0, 0, 0] S8x20x1
  shapeCasts_S8x20x1_S8x20 : S8x20x1.ShapeCasts S8x20
  slices_S8x20x4_S8x20x1_0_0_1 : S8x20x4.Slices ![0, 0, 1] S8x20x1
  slices_S8x20x4_S8x20x1_0_0_2 : S8x20x4.Slices ![0, 0, 2] S8x20x1
  slices_S8x20x4_S8x20x1_0_0_3 : S8x20x4.Slices ![0, 0, 3] S8x20x1
  bcast_S224_S1x1x224_2 : S224.BroadcastsInDim S1x1x224 (![2] : Fin 1 → Fin S1x1x224.rank)
  bcast_S8x20_S8x20x1_0_1 : S8x20.BroadcastsInDim S8x20x1 (![0, 1] : Fin 2 → Fin S8x20x1.rank)
  bcast_S1x1x224_S8x20x224_0_1_2 : S1x1x224.BroadcastsInDim S8x20x224 (![0, 1, 2] : Fin 3 → Fin S8x20x224.rank)
  bcast_S8x20x1_S8x20x224_0_1_2 : S8x20x1.BroadcastsInDim S8x20x224 (![0, 1, 2] : Fin 3 → Fin S8x20x224.rank)
  bcast_S8x20x224_S8x20x224x1_0_1_2 : S8x20x224.BroadcastsInDim S8x20x224x1 (![0, 1, 2] : Fin 3 → Fin S8x20x224x1.rank)
  bcast_S8x20x224_S8x20x1x224_0_1_3 : S8x20x224.BroadcastsInDim S8x20x1x224 (![0, 1, 3] : Fin 3 → Fin S8x20x1x224.rank)
  bcast_S8x20x224x1_S8x20x224x224_0_1_2_3 : S8x20x224x1.BroadcastsInDim S8x20x224x224 (![0, 1, 2, 3] : Fin 4 → Fin S8x20x224x224.rank)
  bcast_S8x20x1x224_S8x20x224x224_0_1_2_3 : S8x20x1x224.BroadcastsInDim S8x20x224x224 (![0, 1, 2, 3] : Fin 4 → Fin S8x20x224x224.rank)
  reducesTo_S8x20x224x224_S8x224x224_d1 : S8x20x224x224.ReducesTo [1] S8x224x224
  h_S_ : 0 < S_.numel
  transposes_S8x192x224x224_S8x224x224x192_0_2_3_1 : S8x192x224x224.Transposes [0, 2, 3, 1] S8x224x224x192
  bcast_S_S8x224x224x192 : S_.BroadcastsInDim S8x224x224x192 (![] : Fin 0 → Fin S8x224x224x192.rank)
  reducesTo_S8x224x224x192_S8x224x224_d3 : S8x224x224x192.ReducesTo [3] S8x224x224
  reducesTo_S8x224x224_S_d0_1_2 : S8x224x224.ReducesTo [0, 1, 2] S_
  bcast_S_S8x224x224 : S_.BroadcastsInDim S8x224x224 (![] : Fin 0 → Fin S8x224x224.rank)
  bcast_S8x224x224_S8x224x224x1_0_1_2 : S8x224x224.BroadcastsInDim S8x224x224x1 (![0, 1, 2] : Fin 3 → Fin S8x224x224x1.rank)
  bcast_S8x224x224x1_S8x224x224x192_0_1_2_3 : S8x224x224x1.BroadcastsInDim S8x224x224x192 (![0, 1, 2, 3] : Fin 4 → Fin S8x224x224x192.rank)

variable [Facts₀]

class Facts : Prop extends Facts₀ where

variable [Facts]
-- ==== Proof.RefFrame.lean ====
/-
  The reference program is a straight line of host operations: it always runs to its end, faults nowhere and
  writes none of its argument arrays. Its run, with the result dropped, is its frame. The idealized kernel is the
  kernel's own text read over the extended reals (no rewrite was applied), so nothing is owed for `preserves`.
-/
import proofs.«210586_g14980845929080_cont_week2b_1062_66_alg».proof.Defs
import proofs.«210586_g14980845929080_cont_week2b_1062_66_alg».proof.Proof.Gen.ReferenceIdeal
import proofs.«210586_g14980845929080_cont_week2b_1062_66_alg».proof.Proof.Gen.Pre_input_domain
import proofs.«210586_g14980845929080_cont_week2b_1062_66_alg».proof.Proof.Gen.ReferenceIdeal.Run

noncomputable section

open Idealize.ShloMosaic Idealize.ShloMosaic.TcCoe Idealize.SL.Sem

namespace Cert.Proof.Parts

/-- Every weakly fair execution of the reference ends with its three argument arrays as they were. -/
theorem frame_reference :
    Cert.frame_ReferenceIdeal (hReferenceIdeal := Cert.ReferenceIdeal.Gen.facts) (hPre_input_domain := Cert.Pre_input_domain.Gen.facts) :=
  fun m ρ _ =>
    (θ_run Cert.ReferenceIdeal.defs _ _).mono (fun _ h c => (h c).2) (Cert.ReferenceIdeal.Value.run (F := Ideal) m ρ)

/-- No operation of the kernel was rewritten for the idealized reading. -/
theorem preserves : Cert.preserves_Kernel_KernelIdeal := trivial

end Cert.Proof.Parts

end
-- ==== Proof.LossSpec.lean ====
/-
  The specification of the masked imitation loss, over the three argument arrays and nothing else.

  input, target : f32[8, 192, 224, 224] (batch, channel, row, column), boxes : i32[8, 20, 4] (batch, box, column of the
  box record: x1, y1, x2, y2). A pixel (b, h, w) lies in a box n of image b when y1 ≤ h < y2 and x2 ≤ w < x1, the
  four words read as signed integers. A pixel is POSITIVE when some channel of the target is not zero there and it lies
  in some box; pos is the indicator of that, 1 or 0. sqd is the squared distance of input and target over the
  channels. With S = ∑ pos · sqd and N = ∑ pos over all pixels, the loss is ((1/2 · S) / N) / 1536, the two
  literals written as the f32 words the programs spell (1536 = 8 · 192: the mean over channels and over the batch).
-/
import Idealize.ShloMosaic.PureOps.Ideal
import Idealize.ShloMosaic.Lib.ValueIdx

noncomputable section

open scoped BigOperators

namespace Cert.LossSpec

open Idealize.ShloMosaic Idealize.ShloMosaic.ValueIdx

/-- The shape of input and target. -/
abbrev SImg : Shape := ⟨4, ![8, 192, 224, 224]⟩
/-- The shape of the boxes. -/
abbrev SBox : Shape := ⟨3, ![8, 20, 4]⟩

/-- Pixel (h, w) of image b lies in box n: y1 ≤ h < y2 and x2 ≤ w < x1 (columns 1, 3, 2, 0 of the box record), as
    signed integers. -/
def inBoxAt (x2 : IVec SBox 32) (b : Fin 8) (n : Fin 20) (h w : Fin 224) : Prop :=
  (x2 (ix3 b n (1 : Fin 4))).toInt ≤ (h.val : Int) ∧ (h.val : Int) < (x2 (ix3 b n (3 : Fin 4))).toInt
    ∧ (x2 (ix3 b n (2 : Fin 4))).toInt ≤ (w.val : Int) ∧ (w.val : Int) < (x2 (ix3 b n (0 : Fin 4))).toInt

instance (x2 : IVec SBox 32) (b : Fin 8) (n : Fin 20) (h w : Fin 224) : Decidable (inBoxAt x2 b n h w) := by
  unfold inBoxAt; infer_instance

/-- Pixel (h, w) of image b lies in some box of that image. -/
def inBox (x2 : IVec SBox 32) (b : Fin 8) (h w : Fin 224) : Prop := ∃ n : Fin 20, inBoxAt x2 b n h w

instance (x2 : IVec SBox 32) (b : Fin 8) (h w : Fin 224) : Decidable (inBox x2 b h w) := by
  unfold inBox; infer_instance

/-- Some channel of the target is not zero at pixel (b, h, w). -/
def tgtNonzero (x1 : FVec Ideal SImg .f32) (b : Fin 8) (h w : Fin 224) : Prop :=
  ∃ c : Fin 192, x1 (ix4 b c h w) ≠ 0

/-- The pixel is positive: the target is not zero in some channel, and the pixel lies in some box. -/
def isPos (x1 : FVec Ideal SImg .f32) (x2 : IVec SBox 32) (b : Fin 8) (h w : Fin 224) : Prop :=
  tgtNonzero x1 b h w ∧ inBox x2 b h w

open Classical in
/-- The indicator of a positive pixel, as a real number. -/
def posR (x1 : FVec Ideal SImg .f32) (x2 : IVec SBox 32) (b : Fin 8) (h w : Fin 224) : ℝ :=
  if isPos x1 x2 b h w then 1 else 0

/-- The indicator of a positive pixel, as an extended real: 1 or 0. -/
def pos (x1 : FVec Ideal SImg .f32) (x2 : IVec SBox 32) (b : Fin 8) (h w : Fin 224) : EReal :=
  ((posR x1 x2 b h w : ℝ) : EReal)

/-- The squared distance of input and target at a pixel, summed over the channels. -/
def sqd (x0 x1 : FVec Ideal SImg .f32) (b : Fin 8) (h w : Fin 224) : EReal :=
  ∑ c : Fin 192, (x0 (ix4 b c h w) - x1 (ix4 b c h w)) * (x0 (ix4 b c h w) - x1 (ix4 b c h w))

/-- S: the squared distances of the positive pixels, summed. -/
def Ssum (x0 x1 : FVec Ideal SImg .f32) (x2 : IVec SBox 32) : EReal :=
  ∑ b : Fin 8, ∑ h : Fin 224, ∑ w : Fin 224, pos x1 x2 b h w * sqd x0 x1 b h w

/-- N: the number of positive pixels. -/
def Nsum (x1 : FVec Ideal SImg .f32) (x2 : IVec SBox 32) : EReal :=
  ∑ b : Fin 8, ∑ h : Fin 224, ∑ w : Fin 224, pos x1 x2 b h w

/-- The loss: ((1/2 · S) / N) / 1536, the literals as the f32 words 0x3F000000 (0.5) and 0x44C00000 (1536.0). -/
def result (x0 x1 : FVec Ideal SImg .f32) (x2 : IVec SBox 32) : EReal :=
  Ideal.div (Ideal.div (Ideal.ofBits .f32 0x3F000000#32 * Ssum x0 x1 x2) (Nsum x1 x2)) (Ideal.ofBits .f32 0x44C00000#32)

/-! ## The literals as real numbers -/

/-- The word 0x3F000000 denotes 1/2. -/
theorem ofBits_half : Ideal.ofBits .f32 0x3F000000#32 = ((1 / 2 : ℝ) : EReal) := by
  simp [Ideal.ofBits, Ideal.ieee, -EReal.coe_mul]; norm_num

/-- The word 0x44C00000 denotes 1536. -/
theorem ofBits_1536 : Ideal.ofBits .f32 0x44C00000#32 = ((1536 : ℝ) : EReal) := by
  simp [Ideal.ofBits, Ideal.ieee, -EReal.coe_mul]; norm_num

/-- The word 0x43400000 denotes 192. -/
theorem ofBits_192 : Ideal.ofBits .f32 0x43400000#32 = ((192 : ℝ) : EReal) := by
  simp [Ideal.ofBits, Ideal.ieee, -EReal.coe_mul]; norm_num

/-- The word 0x41000000 denotes 8. -/
theorem ofBits_8 : Ideal.ofBits .f32 0x41000000#32 = ((8 : ℝ) : EReal) := by
  simp [Ideal.ofBits, Ideal.ieee, -EReal.coe_mul]; norm_num

/-- The zero word denotes 0. -/
theorem ofBits_zero : Ideal.ofBits .f32 0x00000000#32 = 0 := by
  simp [Ideal.ofBits, Ideal.ieee]

/-! ## The indicator's two values -/

theorem posR_of_isPos {x1 : FVec Ideal SImg .f32} {x2 : IVec SBox 32} {b : Fin 8} {h w : Fin 224}
    (hp : isPos x1 x2 b h w) : posR x1 x2 b h w = 1 := by
  unfold posR; exact if_pos hp

theorem posR_of_not_isPos {x1 : FVec Ideal SImg .f32} {x2 : IVec SBox 32} {b : Fin 8} {h w : Fin 224}
    (hp : ¬ isPos x1 x2 b h w) : posR x1 x2 b h w = 0 := by
  unfold posR; exact if_neg hp

theorem pos_of_isPos {x1 : FVec Ideal SImg .f32} {x2 : IVec SBox 32} {b : Fin 8} {h w : Fin 224}
    (hp : isPos x1 x2 b h w) : pos x1 x2 b h w = 1 := by
  unfold pos; rw [posR_of_isPos hp, EReal.coe_one]

theorem pos_of_not_isPos {x1 : FVec Ideal SImg .f32} {x2 : IVec SBox 32} {b : Fin 8} {h w : Fin 224}
    (hp : ¬ isPos x1 x2 b h w) : pos x1 x2 b h w = 0 := by
  unfold pos; rw [posR_of_not_isPos hp, EReal.coe_zero]

/-- The indicator is 0 or 1. -/
theorem posR_zero_or_one (x1 : FVec Ideal SImg .f32) (x2 : IVec SBox 32) (b : Fin 8) (h w : Fin 224) :
    posR x1 x2 b h w = 0 ∨ posR x1 x2 b h w = 1 := by
  by_cases hp : isPos x1 x2 b h w
  · exact Or.inr (posR_of_isPos hp)
  · exact Or.inl (posR_of_not_isPos hp)

/-- The indicator is the product of the two indicators it is made of. -/
theorem pos_eq_mul (x1 : FVec Ideal SImg .f32) (x2 : IVec SBox 32) (b : Fin 8) (h w : Fin 224) :
    pos x1 x2 b h w
      = (open Classical in if tgtNonzero x1 b h w then (1 : EReal) else 0) * (if inBox x2 b h w then (1 : EReal) else 0) := by
  by_cases ht : tgtNonzero x1 b h w <;> by_cases hb : inBox x2 b h w
  · rw [pos_of_isPos ⟨ht, hb⟩, if_pos ht, if_pos hb, one_mul]
  · rw [pos_of_not_isPos (fun hp => hb hp.2), if_pos ht, if_neg hb, mul_zero]
  · rw [pos_of_not_isPos (fun hp => ht hp.1), if_neg ht, if_pos hb, zero_mul]
  · rw [pos_of_not_isPos (fun hp => ht hp.1), if_neg ht, if_neg hb, zero_mul]

end Cert.LossSpec

end
-- ==== Proof.RefMask.lean ====
/-
  The reference's box mask, read at a pixel.

  The reference builds, for every image b, box n and row h, the bit "y1 ≤ h < y2", for every column w the bit
  "x2 ≤ w < x1" (the box record's columns 1, 3 and 2, 0, compared as signed integers with the row and column numbers),
  broadcasts both to (b, n, h, w), takes their conjunction, and reduces by "or" over the boxes. At pixel (b, h, w) the
  result is the bit 1 exactly when the pixel lies in some box of image b.
-/
import proofs.«210586_g14980845929080_cont_week2b_1062_66_alg».proof.Proof.Gen.ReferenceIdeal.Read
import proofs.«210586_g14980845929080_cont_week2b_1062_66_alg».proof.Proof.LossSpec
import Idealize.ShloMosaic.Lib.Affine

noncomputable section

open scoped BigOperators

namespace Cert.RefValue

open Idealize.ShloMosaic Idealize.ShloMosaic.ValueIdx Cert.ReferenceIdeal Cert.ReferenceIdeal.Gen Cert.ReferenceIdeal.Read
  Cert.LossSpec

variable {F : FTy → Type} [FloatOps F]

/-- A fold by "or" from the bit 0 is 1 exactly when some term is 1. -/
theorem fold_ori_eq_one {n : Nat} (f : Fin n → BitVec 1) :
    (Finset.univ : Finset (Fin n)).fold IntOp.ori 0#1 f = 1#1 ↔ ∃ k : Fin n, f k = 1#1 := by
  have h := Finset.fold_op_rel_iff_or (op := IntOp.ori) (s := (Finset.univ : Finset (Fin n))) (b := 0#1) (f := f)
    (r := fun _ y => y = 1#1) (fun {x y z} => IntOp.ori_eq_one) (c := 0#1)
  refine h.trans ⟨?_, ?_⟩
  · rintro (h0 | ⟨k, _, hk⟩)
    · exact absurd h0 (by decide)
    · exact ⟨k, hk⟩
  · rintro ⟨k, hk⟩
    exact Or.inr ⟨k, Finset.mem_univ _, hk⟩

/-- A row or column number below 224, as a 32-bit word read signed, is itself. -/
theorem toInt_ofNat_lt (k : Nat) (hk : k < 224) : (BitVec.ofNat 32 k).toInt = (k : Int) := by
  rw [BitVec.toInt_ofNat']
  have : ((k : Int)).bmod (2 ^ 32) = (k : Int) := by
    apply Int.bmod_eq_of_le <;> omega
  exact this

/-! ## The four columns of the box record, at (b, n) -/

theorem col0_apply (x2 : IVec S8x20x4 32) (b : Fin 8) (n : Fin 20) :
    val_main_v1 (F := F) x2 (ix2 b n) = x2 (ix3 b n (0 : Fin 4)) := by
  rw [val_main_v1_apply, val_main_v0_apply]
  refine congrArg x2 (funext fun a => Fin.ext ?_)
  have hb := b.isLt; have hn := n.isLt
  match a with
  | ⟨0, _⟩ => show (b.val * 20 + n.val) / 20 = b.val; omega
  | ⟨1, _⟩ => show (b.val * 20 + n.val) / 1 % 20 = n.val; omega
  | ⟨2, _⟩ => rfl

theorem col1_apply (x2 : IVec S8x20x4 32) (b : Fin 8) (n : Fin 20) :
    val_main_v3 (F := F) x2 (ix2 b n) = x2 (ix3 b n (1 : Fin 4)) := by
  rw [val_main_v3_apply, val_main_v2_apply]
  refine congrArg x2 (funext fun a => Fin.ext ?_)
  have hb := b.isLt; have hn := n.isLt
  match a with
  | ⟨0, _⟩ => show (b.val * 20 + n.val) / 20 = b.val; omega
  | ⟨1, _⟩ => show (b.val * 20 + n.val) / 1 % 20 = n.val; omega
  | ⟨2, _⟩ => rfl

theorem col2_apply (x2 : IVec S8x20x4 32) (b : Fin 8) (n : Fin 20) :
    val_main_v5 (F := F) x2 (ix2 b n) = x2 (ix3 b n (2 : Fin 4)) := by
  rw [val_main_v5_apply, val_main_v4_apply]
  refine congrArg x2 (funext fun a => Fin.ext ?_)
  have hb := b.isLt; have hn := n.isLt
  match a with
  | ⟨0, _⟩ => show (b.val * 20 + n.val) / 20 = b.val; omega
  | ⟨1, _⟩ => show (b.val * 20 + n.val) / 1 % 20 = n.val; omega
  | ⟨2, _⟩ => rfl

theorem col3_apply (x2 : IVec S8x20x4 32) (b : Fin 8) (n : Fin 20) :
    val_main_v7 (F := F) x2 (ix2 b n) = x2 (ix3 b n (3 : Fin 4)) := by
  rw [val_main_v7_apply, val_main_v6_apply]
  refine congrArg x2 (funext fun a => Fin.ext ?_)
  have hb := b.isLt; have hn := n.isLt
  match a with
  | ⟨0, _⟩ => show (b.val * 20 + n.val) / 20 = b.val; omega
  | ⟨1, _⟩ => show (b.val * 20 + n.val) / 1 % 20 = n.val; omega
  | ⟨2, _⟩ => rfl

/-! ## The row condition and the column condition, at (b, n, h) and (b, n, w) -/

/-- Bit (b, n, h) of the row condition is 1 exactly when y1 ≤ h < y2. -/
theorem inY_apply (x2 : IVec S8x20x4 32) (b : Fin 8) (n : Fin 20) (h : Fin 224) :
    val_main_v20 (F := F) x2 (ix3 b n h) = 1#1
      ↔ (x2 (ix3 b n (1 : Fin 4))).toInt ≤ (h.val : Int) ∧ (h.val : Int) < (x2 (ix3 b n (3 : Fin 4))).toInt := by
  have e13 : val_main_v13 (F := F) x2 (ix3 b n h) = x2 (ix3 b n (1 : Fin 4)) := by
    rw [val_main_v13_apply, val_main_v11_apply]
    exact (congrArg (val_main_v3 (F := F) x2) (funext fun a => Fin.ext (by match a with | ⟨0, _⟩ => rfl | ⟨1, _⟩ => rfl))).trans
      (col1_apply x2 b n)
  have e18 : val_main_v18 (F := F) x2 (ix3 b n h) = x2 (ix3 b n (3 : Fin 4)) := by
    rw [val_main_v18_apply, val_main_v16_apply]
    exact (congrArg (val_main_v7 (F := F) x2) (funext fun a => Fin.ext (by match a with | ⟨0, _⟩ => rfl | ⟨1, _⟩ => rfl))).trans
      (col3_apply x2 b n)
  have e12 : val_main_v12 (F := F) (ix3 b n h) = BitVec.ofNat 32 h.val := by
    rw [val_main_v12_apply, val_main_v10_apply, val_main_v8_apply]
  have e17 : val_main_v17 (F := F) (ix3 b n h) = BitVec.ofNat 32 h.val := by
    rw [val_main_v17_apply, val_main_v15_apply, val_main_v8_apply]
  rw [val_main_v20_apply, val_main_v14_apply, val_main_v19_apply, e12, e13, e17, e18, IntOp.andi_eq_one, IntOp.cmpi_sge,
    IntOp.cmpi_slt, toInt_ofNat_lt h.val h.isLt]

/-- Bit (b, n, w) of the column condition is 1 exactly when x2 ≤ w < x1. -/
theorem inX_apply (x2 : IVec S8x20x4 32) (b : Fin 8) (n : Fin 20) (w : Fin 224) :
    val_main_v31 (F := F) x2 (ix3 b n w) = 1#1
      ↔ (x2 (ix3 b n (2 : Fin 4))).toInt ≤ (w.val : Int) ∧ (w.val : Int) < (x2 (ix3 b n (0 : Fin 4))).toInt := by
  have e24 : val_main_v24 (F := F) x2 (ix3 b n w) = x2 (ix3 b n (2 : Fin 4)) := by
    rw [val_main_v24_apply, val_main_v22_apply]
    exact (congrArg (val_main_v5 (F := F) x2) (funext fun a => Fin.ext (by match a with | ⟨0, _⟩ => rfl | ⟨1, _⟩ => rfl))).trans
      (col2_apply x2 b n)
  have e29 : val_main_v29 (F := F) x2 (ix3 b n w) = x2 (ix3 b n (0 : Fin 4)) := by
    rw [val_main_v29_apply, val_main_v27_apply]
    exact (congrArg (val_main_v1 (F := F) x2) (funext fun a => Fin.ext (by match a with | ⟨0, _⟩ => rfl | ⟨1, _⟩ => rfl))).trans
      (col0_apply x2 b n)
  have e23 : val_main_v23 (F := F) (ix3 b n w) = BitVec.ofNat 32 w.val := by
    rw [val_main_v23_apply, val_main_v21_apply, val_main_v9_apply]
  have e28 : val_main_v28 (F := F) (ix3 b n w) = BitVec.ofNat 32 w.val := by
    rw [val_main_v28_apply, val_main_v26_apply, val_main_v9_apply]
  rw [val_main_v31_apply, val_main_v25_apply, val_main_v30_apply, e23, e24, e28, e29, IntOp.andi_eq_one, IntOp.cmpi_sge,
    IntOp.cmpi_slt, toInt_ofNat_lt w.val w.isLt]

/-! ## The conjunction at (b, n, h, w), and its "or" over the boxes -/

/-- Bit (b, n, h, w) is 1 exactly when pixel (h, w) lies in box n of image b. -/
theorem inBoxAt_apply (x2 : IVec S8x20x4 32) (b : Fin 8) (n : Fin 20) (h w : Fin 224) :
    val_main_v36 (F := F) x2 (ix4 b n h w) = 1#1 ↔ inBoxAt x2 b n h w := by
  have e34 : val_main_v34 (F := F) x2 (ix4 b n h w) = val_main_v20 (F := F) x2 (ix3 b n h) := by
    rw [val_main_v34_apply, val_main_v32_apply]
    exact congrArg (val_main_v20 (F := F) x2) (funext fun a => Fin.ext (by match a with | ⟨0, _⟩ => rfl | ⟨1, _⟩ => rfl | ⟨2, _⟩ => rfl))
  have e35 : val_main_v35 (F := F) x2 (ix4 b n h w) = val_main_v31 (F := F) x2 (ix3 b n w) := by
    rw [val_main_v35_apply, val_main_v33_apply]
    exact congrArg (val_main_v31 (F := F) x2) (funext fun a => Fin.ext (by match a with | ⟨0, _⟩ => rfl | ⟨1, _⟩ => rfl | ⟨2, _⟩ => rfl))
  rw [val_main_v36_apply, e34, e35, IntOp.andi_eq_one, inY_apply, inX_apply]
  unfold inBoxAt
  exact ⟨fun ⟨⟨a, b'⟩, c, d⟩ => ⟨a, b', c, d⟩, fun ⟨a, b', c, d⟩ => ⟨⟨a, b'⟩, c, d⟩⟩

/-- The boxes are axis 1 of the four-axis bit array; dropping it leaves (b, h, w). -/
theorem reduces_boxes : S8x20x224x224.Reduces [1] S8x224x224 := by decide

/-- The mask bit at pixel (b, h, w) is 1 exactly when the pixel lies in some box of image b. -/
theorem mask_apply (x2 : IVec S8x20x4 32) (b : Fin 8) (h w : Fin 224) :
    val_main_v37 (F := F) x2 (ix3 b h w) = 1#1 ↔ inBox x2 b h w := by
  unfold val_main_v37
  rw [Host.reduce_eq_fold_single IntOp.ori _ _ reducesTo_S8x20x224x224_S8x224x224_d1 reduces_boxes h_S_ (ix3 b h w)]
  refine (fold_ori_eq_one _).trans ?_
  unfold inBox
  have hl : ∀ n : Fin 20, reduces_boxes.lift (ix3 b h w) n = ix4 b n h w := fun n =>
    funext fun a => Fin.ext (by match a with | ⟨0, _⟩ => rfl | ⟨1, _⟩ => rfl | ⟨2, _⟩ => rfl | ⟨3, _⟩ => rfl)
  constructor
  · rintro ⟨n, hn⟩
    refine ⟨n, (inBoxAt_apply (F := F) x2 b n h w).1 ?_⟩
    rw [← hl n]; exact hn
  · rintro ⟨n, hn⟩
    refine ⟨n, ?_⟩
    show val_main_v36 (F := F) x2 (reduces_boxes.lift (ix3 b h w) n) = 1#1
    rw [hl n]; exact (inBoxAt_apply (F := F) x2 b n h w).2 hn

end Cert.RefValue

end
-- ==== Proof.RefTerms.lean ====
/-
  The reference's "target is not zero" bit, and its squared-difference term, read at an index.

  Input and target are transposed to (batch, row, column, channel). The bit at pixel (b, h, w) is the "or" over the
  channels c of "target (b, c, h, w) ≠ 0" (on the extended reals the comparison is the plain one: nothing is
  unordered). The difference term at (b, h, w, c) is 1/2 · (input − t')², where t' is the target with its
  not-a-number entries replaced by the input; on the extended reals no entry differs from itself, so t' is the target.
-/
import proofs.«210586_g14980845929080_cont_week2b_1062_66_alg».proof.Proof.Gen.ReferenceIdeal.Read
import proofs.«210586_g14980845929080_cont_week2b_1062_66_alg».proof.Proof.LossSpec
import proofs.«210586_g14980845929080_cont_week2b_1062_66_alg».proof.Proof.RefMask

noncomputable section

open scoped BigOperators

namespace Cert.RefValue

open Idealize.ShloMosaic Idealize.ShloMosaic.ValueIdx Cert.ReferenceIdeal Cert.ReferenceIdeal.Gen Cert.ReferenceIdeal.Read
  Cert.LossSpec

/-- The transposed input at (b, h, w, c) is the input at (b, c, h, w). -/
theorem inpT_apply (x0 : FVec Ideal S8x192x224x224 .f32) (b : Fin 8) (h w : Fin 224) (c : Fin 192) :
    val_main_v39 (F := Ideal) x0 (ix4 b h w c) = x0 (ix4 b c h w) := by
  rw [val_main_v39_apply]
  exact congrArg x0 (funext fun a => Fin.ext (by match a with | ⟨0, _⟩ => rfl | ⟨1, _⟩ => rfl | ⟨2, _⟩ => rfl | ⟨3, _⟩ => rfl))

/-- The transposed target at (b, h, w, c) is the target at (b, c, h, w). -/
theorem tgtT_apply (x1 : FVec Ideal S8x192x224x224 .f32) (b : Fin 8) (h w : Fin 224) (c : Fin 192) :
    val_main_v40 (F := Ideal) x1 (ix4 b h w c) = x1 (ix4 b c h w) := by
  rw [val_main_v40_apply]
  exact congrArg x1 (funext fun a => Fin.ext (by match a with | ⟨0, _⟩ => rfl | ⟨1, _⟩ => rfl | ⟨2, _⟩ => rfl | ⟨3, _⟩ => rfl))

/-- The comparison bit "x ≠ y" on the extended reals. -/
theorem cmp_une_eq_one (x y : EReal) : Ideal.cmp .une x y = 1#1 ↔ x ≠ y := by
  unfold Ideal.cmp
  by_cases hxy : x = y
  · simp [hxy]
  · simp [hxy]

/-- Bit (b, h, w, c) of the comparison is 1 exactly when the target at (b, c, h, w) is not zero. -/
theorem tgtNe_apply (x1 : FVec Ideal S8x192x224x224 .f32) (b : Fin 8) (h w : Fin 224) (c : Fin 192) :
    val_main_v42 (F := Ideal) x1 (ix4 b h w c) = 1#1 ↔ x1 (ix4 b c h w) ≠ 0 := by
  rw [val_main_v42_apply, tgtT_apply, val_main_v41_apply, val_main_cst_apply, Ideal.ofBits_def, ofBits_zero]
  exact cmp_une_eq_one _ _

/-- The channels are axis 3 of the transposed arrays; dropping it leaves (b, h, w). -/
theorem reduces_channels : S8x224x224x192.Reduces [3] S8x224x224 := by decide

/-- The bit at pixel (b, h, w) is 1 exactly when some channel of the target is not zero there. -/
theorem tgtNonzero_apply (x1 : FVec Ideal S8x192x224x224 .f32) (b : Fin 8) (h w : Fin 224) :
    val_main_v43 (F := Ideal) x1 (ix3 b h w) = 1#1 ↔ tgtNonzero x1 b h w := by
  unfold val_main_v43
  rw [Host.reduce_eq_fold_single IntOp.ori _ _ reducesTo_S8x224x224x192_S8x224x224_d3 reduces_channels h_S_ (ix3 b h w)]
  refine (fold_ori_eq_one _).trans ?_
  unfold tgtNonzero
  have hl : ∀ c : Fin 192, reduces_channels.lift (ix3 b h w) c = ix4 b h w c := fun c =>
    funext fun a => Fin.ext (by match a with | ⟨0, _⟩ => rfl | ⟨1, _⟩ => rfl | ⟨2, _⟩ => rfl | ⟨3, _⟩ => rfl)
  constructor
  · rintro ⟨c, hc⟩
    refine ⟨c, (tgtNe_apply x1 b h w c).1 ?_⟩
    rw [← hl c]; exact hc
  · rintro ⟨c, hc⟩
    refine ⟨c, ?_⟩
    show val_main_v42 (F := Ideal) x1 (reduces_channels.lift (ix3 b h w) c) = 1#1
    rw [hl c]; exact (tgtNe_apply x1 b h w c).2 hc

/-- A one-bit word as a real number. -/
theorem uitofp_one : FloatOps.uitofp (F := Ideal) .f32 (1#1 : BitVec 1) = (1 : EReal) := by
  show (((1#1 : BitVec 1).toNat : ℝ) : EReal) = 1
  simp
theorem uitofp_zero : FloatOps.uitofp (F := Ideal) .f32 (0#1 : BitVec 1) = (0 : EReal) := by
  show (((0#1 : BitVec 1).toNat : ℝ) : EReal) = 0
  simp

/-- The reference's positives at pixel (b, h, w): the specification's indicator. -/
theorem pos_apply (x1 : FVec Ideal S8x192x224x224 .f32) (x2 : IVec S8x20x4 32) (b : Fin 8) (h w : Fin 224) :
    val_main_v45 (F := Ideal) x1 x2 (ix3 b h w) = pos x1 x2 b h w := by
  rw [val_main_v45_apply, val_main_v44_apply, val_main_v38_apply, Ideal.mulf_def]
  by_cases ht : tgtNonzero x1 b h w <;> by_cases hb : inBox x2 b h w
  · rw [(tgtNonzero_apply x1 b h w).2 ht, (mask_apply (F := Ideal) x2 b h w).2 hb, uitofp_one, pos_of_isPos ⟨ht, hb⟩, one_mul]
  · rw [(tgtNonzero_apply x1 b h w).2 ht, eq_zero_of_ne_one (fun e => hb ((mask_apply (F := Ideal) x2 b h w).1 e)), uitofp_one,
      uitofp_zero, pos_of_not_isPos (fun hp => hb hp.2), mul_zero]
  · rw [eq_zero_of_ne_one (fun e => ht ((tgtNonzero_apply x1 b h w).1 e)), uitofp_zero, pos_of_not_isPos (fun hp => ht hp.1),
      zero_mul]
  · rw [eq_zero_of_ne_one (fun e => ht ((tgtNonzero_apply x1 b h w).1 e)), uitofp_zero, pos_of_not_isPos (fun hp => ht hp.1),
      zero_mul]

/-- The reference's difference term at (b, h, w, c): 1/2 · (input − target)², at (b, c, h, w). -/
theorem halfSq_apply (x0 x1 : FVec Ideal S8x192x224x224 .f32) (b : Fin 8) (h w : Fin 224) (c : Fin 192) :
    val_main_v54 (F := Ideal) x0 x1 (ix4 b h w c)
      = Ideal.ofBits .f32 0x3F000000#32 * ((x0 (ix4 b c h w) - x1 (ix4 b c h w)) * (x0 (ix4 b c h w) - x1 (ix4 b c h w))) := by
  have e49 : val_main_v49 (F := Ideal) x1 (ix4 b h w c) = 0#1 := by
    rw [val_main_v49_apply]
    exact eq_zero_of_ne_one (fun e => (cmp_une_eq_one _ _).1 e rfl)
  have e51 : val_main_v51 (F := Ideal) x0 x1 (ix4 b h w c) = x0 (ix4 b c h w) - x1 (ix4 b c h w) := by
    rw [val_main_v51_apply, val_main_v50_apply, e49, select_zero, inpT_apply, tgtT_apply, Ideal.subf_def]
  rw [val_main_v54_apply, val_main_v53_apply, val_main_cst_2_apply, val_main_v52_apply, e51, Ideal.mulf_def, Ideal.mulf_def,
    Ideal.ofBits_def]

end Cert.RefValue

end
-- ==== Proof.LossAlgebra.lean ====
/-
  The algebra between the two arrangements of the loss, over abstract finite index sets.

  The reference weights every pixel's half squared distances by p / N before averaging: it computes
  (∑ over pixels of (∑ over channels of (1/2 · d²) · (p / N)) / 192) / 8. The specification computes
  ((1/2 · ∑ over pixels of p · ∑ over channels of d²) / N) / 1536. For real d, p and N ≠ 0 these are equal real
  numbers (distributivity, and 192 · 8 = 1536); the law is proved on the reals and carried to the extended reals,
  where every term is the image of a real number.
-/
import Idealize.ShloMosaic.PureOps.Ideal
import Idealize.ShloMosaic.Lib.ValueIdx

noncomputable section

open scoped BigOperators

namespace Cert.LossAlgebra

open Idealize.ShloMosaic Idealize.ShloMosaic.ValueIdx

/-- The image of a finite sum of reals is the sum of the images. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The quotient of two reals, the divisor not zero, is the image of the real quotient. -/
theorem div_coe_coe (a b : ℝ) (hb : b ≠ 0) : Ideal.div (a : EReal) (b : EReal) = ((a / b : ℝ) : EReal) := by
  rw [Ideal.div_coe hb, ← EReal.coe_mul, mul_one_div]

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The law on the reals, over one index set. -/
theorem loss_real {ι : Type*} [Fintype ι] (p q : ι → ℝ) (N : ℝ) (hN : N ≠ 0) :
    (∑ j, ((1 / 2 * q j) * (p j / N)) / 192) / 8 = ((1 / 2 * ∑ j, p j * q j) / N) / 1536 := by
  rw [Finset.mul_sum, Finset.sum_div, Finset.sum_div, Finset.sum_div]
  refine Finset.sum_congr rfl fun j _ => ?_
  field_simp
  ring

/-- The law on the reals, the pixels indexed by three coordinates. -/
theorem loss_real3 {α β γ : Type*} [Fintype α] [Fintype β] [Fintype γ] (P Q : α → β → γ → ℝ) (N : ℝ) (hN : N ≠ 0) :
    (∑ a, ∑ b, ∑ c, ((1 / 2 * Q a b c) * (P a b c / N)) / 192) / 8
      = ((1 / 2 * ∑ a, ∑ b, ∑ c, P a b c * Q a b c) / N) / 1536 := by
  have h := loss_real (ι := α × β × γ) (fun t => P t.1 t.2.1 t.2.2) (fun t => Q t.1 t.2.1 t.2.2) N hN
  simpa only [Fintype.sum_prod_type] using h

/-- The law on the extended reals, every term the image of a real: the reference's arrangement (each sum started from
    0, as a host reduction is) equals the specification's. -/
theorem loss_ereal {α β γ κ : Type*} [Fintype α] [Fintype β] [Fintype γ] [Fintype κ]
    (P : α → β → γ → ℝ) (D : α → β → γ → κ → ℝ) (hN : (∑ a, ∑ b, ∑ c, P a b c) ≠ 0) :
    Ideal.div ((0 : EReal) + ∑ a, ∑ b, ∑ c,
        Ideal.div ((0 : EReal) + ∑ k, (((1 / 2 : ℝ) : EReal) * ((D a b c k : EReal) * (D a b c k : EReal)))
            * Ideal.div (P a b c : EReal) ((0 : EReal) + ∑ a', ∑ b', ∑ c', (P a' b' c' : EReal)))
          ((192 : ℝ) : EReal))
      ((8 : ℝ) : EReal)
    = Ideal.div (Ideal.div (((1 / 2 : ℝ) : EReal) * ∑ a, ∑ b, ∑ c, (P a b c : EReal) * ∑ k, (D a b c k : EReal) * (D a b c k : EReal))
        (∑ a, ∑ b, ∑ c, (P a b c : EReal))) ((1536 : ℝ) : EReal) := by
  have h192 : (192 : ℝ) ≠ 0 := by norm_num
  have h8 : (8 : ℝ) ≠ 0 := by norm_num
  have h1536 : (1536 : ℝ) ≠ 0 := by norm_num
  simp only [zero_add, ← EReal.coe_mul, ← coe_sum, div_coe_coe _ _ hN, div_coe_coe _ _ h192, div_coe_coe _ _ h8,
    div_coe_coe _ _ h1536]
  refine congrArg _ ?_
  have hin : ∀ a b c, ∑ k, 1 / 2 * (D a b c k * D a b c k) * (P a b c / ∑ a', ∑ b', ∑ c', P a' b' c')
      = (1 / 2 * ∑ k, D a b c k * D a b c k) * (P a b c / ∑ a', ∑ b', ∑ c', P a' b' c') := fun a b c => by
    rw [← Finset.sum_mul, ← Finset.mul_sum]
  simp only [hin]
  exact loss_real3 P (fun a b c => ∑ k, D a b c k * D a b c k) _ hN

end Cert.LossAlgebra

end
-- ==== Proof.RefResult.lean ====
/-
  The reference computes the specification's loss.

  Read at its one index, the reference's result is
    (∑ over pixels (b, h, w) of (∑ over channels c of (1/2 · (input − target)²) · (pos / N)) / 192) / 8,
  every sum started from 0, with pos the indicator of a positive pixel and N the sum of the indicators over all pixels.
  When input and target are real numbers everywhere and N is not zero, this is the specification's
  ((1/2 · S) / N) / 1536 (the law of the algebra module).
-/
import proofs.«210586_g14980845929080_cont_week2b_1062_66_alg».proof.Proof.RefTerms
import proofs.«210586_g14980845929080_cont_week2b_1062_66_alg».proof.Proof.LossAlgebra

noncomputable section

open scoped BigOperators

namespace Cert.RefValue

open Idealize.ShloMosaic Idealize.ShloMosaic.ValueIdx Cert.ReferenceIdeal Cert.ReferenceIdeal.Gen Cert.ReferenceIdeal.Read
  Cert.LossSpec Cert.LossAlgebra

/-- The reference's normalizer, the sum of its positives over all pixels from 0, is 0 + N. -/
theorem norm_apply (x1 : FVec Ideal S8x192x224x224 .f32) (x2 : IVec S8x20x4 32) (i : S_.Idx) :
    val_main_v46 (F := Ideal) x1 x2 i = 0 + Nsum x1 x2 := by
  rw [val_main_v46_apply, val_main_cst_1_apply, Ideal.ofBits_def, ofBits_zero, sum_idx3]
  unfold Nsum
  refine congrArg (0 + ·) ?_
  exact Finset.sum_congr rfl fun b _ => Finset.sum_congr rfl fun h _ => Finset.sum_congr rfl fun w _ => pos_apply x1 x2 b h w

/-- The reference's weight at pixel (b, h, w): pos / (0 + N). -/
theorem weight_apply (x1 : FVec Ideal S8x192x224x224 .f32) (x2 : IVec S8x20x4 32) (b : Fin 8) (h w : Fin 224) :
    val_main_v48 (F := Ideal) x1 x2 (ix3 b h w) = Ideal.div (pos x1 x2 b h w) (0 + Nsum x1 x2) := by
  rw [val_main_v48_apply, pos_apply, val_main_v47_apply, norm_apply, Ideal.hostDivf_def]

/-- The reference's weighted term at (b, h, w, c). -/
theorem term_apply (x0 x1 : FVec Ideal S8x192x224x224 .f32) (x2 : IVec S8x20x4 32) (b : Fin 8) (h w : Fin 224) (c : Fin 192) :
    val_main_v57 (F := Ideal) x0 x1 x2 (ix4 b h w c)
      = (Ideal.ofBits .f32 0x3F000000#32 * ((x0 (ix4 b c h w) - x1 (ix4 b c h w)) * (x0 (ix4 b c h w) - x1 (ix4 b c h w))))
        * Ideal.div (pos x1 x2 b h w) (0 + Nsum x1 x2) := by
  have e56 : val_main_v56 (F := Ideal) x1 x2 (ix4 b h w c) = val_main_v48 (F := Ideal) x1 x2 (ix3 b h w) := by
    rw [val_main_v56_apply, val_main_v55_apply]
    exact congrArg (val_main_v48 (F := Ideal) x1 x2)
      (funext fun a => Fin.ext (by match a with | ⟨0, _⟩ => rfl | ⟨1, _⟩ => rfl | ⟨2, _⟩ => rfl))
  rw [val_main_v57_apply, halfSq_apply, e56, weight_apply, Ideal.mulf_def]

/-- The reference's per-pixel mean over the channels, at pixel (b, h, w). -/
theorem pixel_apply (x0 x1 : FVec Ideal S8x192x224x224 .f32) (x2 : IVec S8x20x4 32) (b : Fin 8) (h w : Fin 224) :
    val_main_v60 (F := Ideal) x0 x1 x2 (ix3 b h w)
      = Ideal.div (0 + ∑ c : Fin 192,
          (Ideal.ofBits .f32 0x3F000000#32 * ((x0 (ix4 b c h w) - x1 (ix4 b c h w)) * (x0 (ix4 b c h w) - x1 (ix4 b c h w))))
            * Ideal.div (pos x1 x2 b h w) (0 + Nsum x1 x2))
        (Ideal.ofBits .f32 0x43400000#32) := by
  rw [val_main_v60_apply, val_main_v58_apply, val_main_v59_apply, val_main_cst_3_apply, val_main_cst_4_apply, Ideal.hostDivf_def,
    Ideal.ofBits_def, Ideal.ofBits_def, ofBits_zero]
  refine congrArg (fun s => Ideal.div (0 + s) _) ?_
  refine Finset.sum_congr rfl fun c _ => ?_
  have ei : idx_main_v58 (ix3 b h w) c = ix4 b h w c :=
    funext fun a => Fin.ext (by match a with | ⟨0, _⟩ => rfl | ⟨1, _⟩ => rfl | ⟨2, _⟩ => rfl | ⟨3, _⟩ => rfl)
  rw [ei, term_apply]

/-- The reference's result in closed form, at its one index. -/
theorem ref_closed (x0 x1 : FVec Ideal S8x192x224x224 .f32) (x2 : IVec S8x20x4 32) (i : S_.Idx) :
    val_main_v62 (F := Ideal) x0 x1 x2 i
      = Ideal.div (0 + ∑ b : Fin 8, ∑ h : Fin 224, ∑ w : Fin 224,
          Ideal.div (0 + ∑ c : Fin 192,
              (Ideal.ofBits .f32 0x3F000000#32 * ((x0 (ix4 b c h w) - x1 (ix4 b c h w)) * (x0 (ix4 b c h w) - x1 (ix4 b c h w))))
                * Ideal.div (pos x1 x2 b h w) (0 + Nsum x1 x2))
            (Ideal.ofBits .f32 0x43400000#32))
        (Ideal.ofBits .f32 0x41000000#32) := by
  rw [val_main_v62_apply, val_main_v61_apply, val_main_cst_5_apply, val_main_cst_6_apply, Ideal.hostDivf_def, Ideal.ofBits_def,
    Ideal.ofBits_def, ofBits_zero, sum_idx3]
  refine congrArg (fun s => Ideal.div (0 + s) _) ?_
  exact Finset.sum_congr rfl fun b _ => Finset.sum_congr rfl fun h _ => Finset.sum_congr rfl fun w _ => pixel_apply x0 x1 x2 b h w

/-- THE REFERENCE IS THE SPECIFICATION: for input and target real everywhere and a normalizer that is not zero. -/
theorem ref_eq_result (x0 x1 : FVec Ideal S8x192x224x224 .f32) (x2 : IVec S8x20x4 32)
    (hf0 : ∀ i, x0 i ≠ ⊤ ∧ x0 i ≠ ⊥) (hf1 : ∀ i, x1 i ≠ ⊤ ∧ x1 i ≠ ⊥) (hN : Nsum x1 x2 ≠ 0) :
    val_main_v62 (F := Ideal) x0 x1 x2 = fun _ => result x0 x1 x2 := by
  funext i
  rw [ref_closed]
  obtain ⟨r0, rfl⟩ : ∃ r0 : S8x192x224x224.Idx → ℝ, x0 = fun i => ((r0 i : ℝ) : EReal) :=
    ⟨fun i => (x0 i).toReal, funext fun i => (EReal.coe_toReal (hf0 i).1 (hf0 i).2).symm⟩
  obtain ⟨r1, rfl⟩ : ∃ r1 : S8x192x224x224.Idx → ℝ, x1 = fun i => ((r1 i : ℝ) : EReal) :=
    ⟨fun i => (x1 i).toReal, funext fun i => (EReal.coe_toReal (hf1 i).1 (hf1 i).2).symm⟩
  have hNr : (∑ b : Fin 8, ∑ h : Fin 224, ∑ w : Fin 224, posR (fun i => ((r1 i : ℝ) : EReal)) x2 b h w) ≠ 0 := by
    intro h0
    apply hN
    unfold Nsum pos
    simp only [← coe_sum]
    rw [h0, EReal.coe_zero]
  have key := loss_ereal (fun b h w => posR (fun i => ((r1 i : ℝ) : EReal)) x2 b h w)
    (fun (b : Fin 8) (h w : Fin 224) (c : Fin 192) => r0 (ix4 b c h w) - r1 (ix4 b c h w)) hNr
  unfold result Ssum Nsum sqd pos
  rw [ofBits_half, ofBits_192, ofBits_8, ofBits_1536]
  simp only [← EReal.coe_sub]
  simp only [EReal.coe_sub] at key
  exact key

end Cert.RefValue

end
-- ==== Proof.PreDecode.lean ====
/-
  The precondition, decoded.

  The printed precondition is the conjunction of four bits: every input entry has absolute value below +∞, every
  target entry likewise, every box word lies in [0, 223], and the sum of the positives — the same operations, one for
  one, as the reference's — is above 0. From the conjunction being 1: input and target are real numbers everywhere,
  and the specification's count of positive pixels N is above 0.
-/
import proofs.«210586_g14980845929080_cont_week2b_1062_66_alg».proof.Pre_input_domain
import proofs.«210586_g14980845929080_cont_week2b_1062_66_alg».proof.Proof.RefResult
import Idealize.ShloMosaic.Lib.ReduceAll

noncomputable section

open scoped BigOperators

namespace Cert.PreDecode

open Idealize.ShloMosaic Idealize.ShloMosaic.ValueIdx Cert.LossSpec

variable [hP : Cert.Pre_input_domain.Facts]

/-- The bit "every entry of x has absolute value below +∞", as the precondition prints it. -/
def finBit (x : FVec Ideal Cert.Pre_input_domain.S8x192x224x224 .f32) : IVec Cert.Pre_input_domain.S_ 1 :=
  Host.reduce IntOp.andi
    (cmpf .olt (Host.absf x)
      (broadcastInDim Cert.Pre_input_domain.S8x192x224x224 ![] hP.bcast_S_S8x192x224x224
        (constant (F := Ideal) Cert.Pre_input_domain.S_ .f32 0x7F800000#32)))
    (constantI Cert.Pre_input_domain.S_ 1 1#1) hP.reducesTo_S8x192x224x224_S_d0_1_2_3 hP.h_S_

/-- The bit "every box word lies in [0, 223]", as the precondition prints it. -/
def rangeBit (x2 : IVec Cert.Pre_input_domain.S8x20x4 32) : IVec Cert.Pre_input_domain.S_ 1 :=
  Host.reduce IntOp.andi
    (andi
      (cmpi .sge x2 (broadcastInDim Cert.Pre_input_domain.S8x20x4 ![] hP.bcast_S_S8x20x4 (constantI Cert.Pre_input_domain.S_ 32 0#32)))
      (cmpi .sle x2 (broadcastInDim Cert.Pre_input_domain.S8x20x4 ![] hP.bcast_S_S8x20x4 (constantI Cert.Pre_input_domain.S_ 32 223#32))))
    (constantI Cert.Pre_input_domain.S_ 1 1#1) hP.reducesTo_S8x20x4_S_d0_1_2 hP.h_S_

set_option maxHeartbeats 400000 in
/-- The precondition is the conjunction of the four bits; its sum of positives is the reference's normalizer. -/
theorem fn_split (x0 x1 : FVec Ideal Cert.Pre_input_domain.S8x192x224x224 .f32) (x2 : IVec Cert.Pre_input_domain.S8x20x4 32) :
    Cert.Pre_input_domain.fn (F := Ideal) x0 x1 x2
      = andi (andi (andi (finBit x0) (finBit x1)) (rangeBit x2))
          (cmpf .ogt (Cert.ReferenceIdeal.Read.val_main_v46 (F := Ideal) x1 x2)
            (constant (F := Ideal) Cert.Pre_input_domain.S_ .f32 0x00000000#32)) := rfl

/-! ## The pieces -/

instance : Subsingleton Cert.Pre_input_domain.S_.Idx := ⟨fun a b => funext fun d => d.elim0⟩

/-- The word 0x7F800000 denotes +∞. -/
theorem ofBits_inf : Ideal.ofBits .f32 0x7F800000#32 = ⊤ := by
  simp [Ideal.ofBits, Ideal.ieee]

/-- The comparison bit "x < y" on the extended reals. -/
theorem cmp_olt_eq_one (x y : EReal) : Ideal.cmp .olt x y = 1#1 ↔ x < y := by
  unfold Ideal.cmp
  by_cases hxy : x < y
  · simp [hxy]
  · simp [hxy]

/-- The comparison bit "x > y" on the extended reals. -/
theorem cmp_ogt_eq_one (x y : EReal) : Ideal.cmp .ogt x y = 1#1 ↔ y < x := by
  unfold Ideal.cmp
  by_cases hxy : y < x
  · simp [hxy]
  · simp [hxy]

/-- An extended real whose absolute value, max x (−x), is below +∞ is a real number. -/
theorem real_of_abs_lt_top (x : EReal) (h : max x (-x) < ⊤) : x ≠ ⊤ ∧ x ≠ ⊥ := by
  constructor
  · rintro rfl; simp at h
  · rintro rfl; simp at h

/-- From the finiteness bit: every entry is a real number. -/
theorem real_of_finBit (x : FVec Ideal Cert.Pre_input_domain.S8x192x224x224 .f32) (e : finBit x ix0 = 1#1)
    (i : Cert.Pre_input_domain.S8x192x224x224.Idx) : x i ≠ ⊤ ∧ x i ≠ ⊥ := by
  unfold finBit at e
  have hi := Host.reduce_andi_all _ _ _ _ ix0 e i
  have hb : broadcastInDim Cert.Pre_input_domain.S8x192x224x224 ![] hP.bcast_S_S8x192x224x224
      (constant (F := Ideal) Cert.Pre_input_domain.S_ .f32 0x7F800000#32) i = ⊤ := by
    rw [broadcastInDim_apply _ _ _ i ix0 (fun a => a.elim0), constant_apply, ofBits_inf]
  rw [cmpf_apply, hb] at hi
  exact real_of_abs_lt_top (x i) ((cmp_olt_eq_one _ _).1 hi)

/-- From the range bit: every box word, read signed, lies in [0, 223]. -/
theorem range_of_rangeBit (x2 : IVec Cert.Pre_input_domain.S8x20x4 32) (e : rangeBit x2 ix0 = 1#1)
    (i : Cert.Pre_input_domain.S8x20x4.Idx) : 0 ≤ (x2 i).toInt ∧ (x2 i).toInt ≤ 223 := by
  unfold rangeBit at e
  have hi := Host.reduce_andi_all _ _ _ _ ix0 e i
  have hlo : broadcastInDim Cert.Pre_input_domain.S8x20x4 ![] hP.bcast_S_S8x20x4 (constantI Cert.Pre_input_domain.S_ 32 0#32) i = 0#32 :=
    broadcastInDim_apply _ _ _ i ix0 (fun a => a.elim0)
  have hhi : broadcastInDim Cert.Pre_input_domain.S8x20x4 ![] hP.bcast_S_S8x20x4 (constantI Cert.Pre_input_domain.S_ 32 223#32) i = 223#32 :=
    broadcastInDim_apply _ _ _ i ix0 (fun a => a.elim0)
  obtain ⟨h1, h2⟩ := IntOp.andi_eq_one.1 hi
  have h1' : IntOp.cmpi .sge (x2 i) (0#32) = 1#1 := hlo ▸ h1
  have h2' : IntOp.cmpi .sle (x2 i) (223#32) = 1#1 := hhi ▸ h2
  exact ⟨IntOp.cmpi_sge.1 h1', IntOp.cmpi_sle.1 h2'⟩

/-! ## The precondition decoded -/

/-- THE PRECONDITION DECODED: input and target are real numbers everywhere, every box word lies in [0, 223], and the
    number of positive pixels is above 0. -/
theorem decode (x0 x1 : FVec Ideal Cert.Pre_input_domain.S8x192x224x224 .f32) (x2 : IVec Cert.Pre_input_domain.S8x20x4 32)
    (hpre : Cert.Pre_input_domain.fn (F := Ideal) x0 x1 x2 = fun _ => 1#1) :
    (∀ i, x0 i ≠ ⊤ ∧ x0 i ≠ ⊥) ∧ (∀ i, x1 i ≠ ⊤ ∧ x1 i ≠ ⊥) ∧ (∀ i, 0 ≤ (x2 i).toInt ∧ (x2 i).toInt ≤ 223)
      ∧ 0 < Nsum x1 x2 := by
  have h := congrFun hpre ix0
  rw [fn_split] at h
  obtain ⟨h123, h4⟩ := IntOp.andi_eq_one.1 h
  obtain ⟨h12, h3⟩ := IntOp.andi_eq_one.1 h123
  obtain ⟨h1, h2⟩ := IntOp.andi_eq_one.1 h12
  refine ⟨real_of_finBit x0 h1, real_of_finBit x1 h2, range_of_rangeBit x2 h3, ?_⟩
  rw [cmpf_apply, constant_apply, ofBits_zero, Cert.RefValue.norm_apply, zero_add] at h4
  exact (cmp_ogt_eq_one _ _).1 h4

/-- In particular the normalizer is not zero. -/
theorem nsum_ne_zero (x0 x1 : FVec Ideal Cert.Pre_input_domain.S8x192x224x224 .f32) (x2 : IVec Cert.Pre_input_domain.S8x20x4 32)
    (hpre : Cert.Pre_input_domain.fn (F := Ideal) x0 x1 x2 = fun _ => 1#1) : Nsum x1 x2 ≠ 0 :=
  ne_of_gt (decode x0 x1 x2 hpre).2.2.2

/-- Under the precondition the reference's result is the specification's loss. -/
theorem ref_eq_result_of_pre (x0 x1 : FVec Ideal Cert.Pre_input_domain.S8x192x224x224 .f32) (x2 : IVec Cert.Pre_input_domain.S8x20x4 32)
    (hpre : Cert.Pre_input_domain.fn (F := Ideal) x0 x1 x2 = fun _ => 1#1) :
    Cert.ReferenceIdeal.Read.val_main_v62 (F := Ideal) x0 x1 x2 = fun _ => result x0 x1 x2 :=
  Cert.RefValue.ref_eq_result x0 x1 x2 (decode x0 x1 x2 hpre).1 (decode x0 x1 x2 hpre).2.1 (nsum_ne_zero x0 x1 x2 hpre)

end Cert.PreDecode

end
-- ==== Proof.RefRun.lean ====
/-
  The reference's run, stated against the specification.

  The reference is a straight line of host operations; every weakly fair execution ends with its result array holding
  the operations' composed term of the argument arrays, and the arguments unchanged. Under the precondition on those
  arguments that term is the specification's loss, at the result's one index.
-/
import proofs.«210586_g14980845929080_cont_week2b_1062_66_alg».proof.Proof.PreDecode
import proofs.«210586_g14980845929080_cont_week2b_1062_66_alg».proof.Proof.Gen.ReferenceIdeal
import proofs.«210586_g14980845929080_cont_week2b_1062_66_alg».proof.Proof.Gen.ReferenceIdeal.Run

noncomputable section

open Idealize.ShloMosaic Idealize.ShloMosaic.TcCoe Idealize.SL.Sem

namespace Cert.RefValue

open Cert.ReferenceIdeal Cert.ReferenceIdeal.Gen

variable [hP : Cert.Pre_input_domain.Facts]

/-- The loss of a memory's three argument arrays on device c, as the reference's result buffer holds it. -/
def lossOf (m : (ℓ : Loc nD τ sig) → Buf (Elt Ideal) ℓ) (c : Dev nD) : Buf (Elt Ideal) ((c.tc : Thread nD τ).loc main_v62) :=
  fun _ => Cert.LossSpec.result (m ((c.tc : Thread nD τ).loc main_arg0)) (m ((c.tc : Thread nD τ).loc main_arg1))
    (m ((c.tc : Thread nD τ).loc main_arg2))

/-- Under the precondition on its arguments, the composed term of the reference's run is the loss. -/
theorem res_eq_loss (m : (ℓ : Loc nD τ sig) → Buf (Elt Ideal) ℓ) (c : Dev nD)
    (hpre : Cert.Pre_input_domain.fn (F := Ideal) (m ((c.tc : Thread nD τ).loc main_arg0)) (m ((c.tc : Thread nD τ).loc main_arg1))
      (m ((c.tc : Thread nD τ).loc main_arg2)) = fun _ => 1#1) :
    Cert.ReferenceIdeal.Value.res_main_v62 m c = lossOf m c :=
  (Cert.ReferenceIdeal.Read.val_main_v62_eq m c).trans (Cert.PreDecode.ref_eq_result_of_pre _ _ _ hpre)

/-- The reference's run from a memory whose arguments meet the precondition on every device: it ends with the loss in
    its result array and its arguments unchanged. -/
theorem run_loss (m : (ℓ : Loc nD τ sig) → Buf (Elt Ideal) ℓ) (ρ : Dev nD → PrngReg)
    (hpre : ∀ c : Dev nD, Cert.Pre_input_domain.fn (F := Ideal) (m ((c.tc : Thread nD τ).loc main_arg0))
      (m ((c.tc : Thread nD τ).loc main_arg1)) (m ((c.tc : Thread nD τ).loc main_arg2)) = fun _ => 1#1) :
    θ_run defs (onTc (τ := τ) (main (F := Ideal))) ⟨m, fun _ => 0, ρ⟩ fun r => ∀ c : Dev nD,
      r.2.mem ((c.tc : Thread nD τ).loc main_v62) = lossOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (res_eq_loss m c (hpre c)), (h c).2⟩)
    (Cert.ReferenceIdeal.Value.run (F := Ideal) m ρ)

end Cert.RefValue

end
-- ==== Proof.ScCommonI.lean ====
/-
  The program as the launch theorem for SparseCore programs sees it: one SparseCore call (a vector-subcore
  kernel on 2 cores of 16 subcores each) between two TensorCore kernel regions, the TensorCore kernels' bodies
  and the SparseCore kernel's in one table. Shared by the modules about each kernel and by the launch.
-/
import proofs.«210586_g14980845929080_cont_week2b_1062_66_alg».proof.KernelIdeal
import proofs.«210586_g14980845929080_cont_week2b_1062_66_alg».proof.Proof.Gen.KernelIdeal
import Idealize.ShloMosaic.Lib.SparseCore.Launch
import Idealize.ShloMosaic.Lib.Pipeline.Kit

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The label signature of the two TensorCore kernel regions over the kernels' own labels. -/
abbrev ΛP : Labels := Pipeline.Sig Λ₀ (Fin 2) fun p => (pcfgs (F := F) p).Adm
/-- The SparseCore calls of @main: one. -/
abbrev K : SparseCore.Cfg τ sig (ΛP (F := F)) 1 := sc (F := F)
/-- The body table under the SparseCore dispatch: the kernels' bodies and the two regions' pipelines. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

/-- The launch semaphores are distinct and unscoped where the launch needs them, and no buffer of a SparseCore is
    reassigned per task. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the launch handshakes' rounds, the TensorCore regions' staging cells' rounds, and the
    counters of the kernels' own local copies. -/
abbrev UH : Type := URounds (GSem nD τ sig) ℕ
abbrev UP : Type := URounds (GSem nD τ sig) Unit
abbrev UU : Type := UH × (UP × Counters)

end Cert.KernelIdeal.Sc

end
-- ==== Proof.LaunchElemI.lean ====
/-
  The launch element of the ghost state. The ghost state has three parts: the rounds of the four launch
  handshakes, the rounds of the two TensorCore regions' staging cells, and the counters of the kernels' own local
  copies. At launch the first part is handed to the launch theorem as it is, the second funds each region's staging
  cells and the duty tokens of the transfers its pipeline will issue (to be spent when the region is entered), and
  the third is not needed by anyone before a kernel runs.
-/
import proofs.«210586_g14980845929080_cont_week2b_1062_66_alg».proof.Proof.ScCommonI
import proofs.«210586_g14980845929080_cont_week2b_1062_66_alg».proof.Proof.Gen.KernelIdeal.Launch
import Idealize.ShloMosaic.Lib.Pipeline.Regions

noncomputable section

namespace Cert.KernelIdeal.Launch

open Cert.KernelIdeal Cert.KernelIdeal.Gen Cert.KernelIdeal.Sc
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The handshakes' rounds: the left part. -/
abbrev EH : Emb UH (MT nD τ sig (HIx 1) (Elt F) ℕ UU ℕ) := embL
/-- The staging cells' rounds: the left of the right part. -/
abbrev EP : Emb UP (MT nD τ sig (HIx 1) (Elt F) ℕ UU ℕ) := (Emb.inl : Emb UP (UP × Counters)).trans embR

instance EP_landsIn : (EP : Emb UP 𝕄).LandsIn (upEmb : UEmb _ 𝕄) := by
  first
  | infer_instance
  | (show ((Emb.inl : Emb UP (UP × Counters)).trans ((Emb.inr : Emb (UP × Counters) UU).trans (uEmb (nD := nD) (τ := τ) (sig := sig) (Ix := HIx 1) (Val := Elt F) (Name := ℕ) (U := UU) (Lvl := ℕ)).toEmb)).LandsIn _; infer_instance)

/-- No region's index maps read a table. -/
abbrev adm [FloatOps F] : (p : Fin 2) → (pcfgs (F := F) p).Adm := fun p => (cfgs p).toPCfg_adm

/-- The launch element: every handshake cell and staging cell at round 0 with the duty tokens of everything that
    will ever be signalled on it, the counters at nothing. -/
def u₀ : UU :=
  (initOf (K (F := F)).hsCells (K (F := F)).hsToks, (initOf (Pipeline.cells cfgs cellOf_inj) (Pipeline.launchToks cfgs cellOf_inj), 1))

/-- What the launch hands each TensorCore besides its arrays: both regions' staging cells' ghost state and tokens. -/
def G [FloatOps F] (d : Dev nD) : sProp 𝕄 := Pipeline.ghostOn (pcfgs (F := F)) adm EP Finset.univ d

theorem bigSep_emp' {I : Type} (s : Finset I) : (bigSep s fun _ => iprop(emp)) = (iprop(emp) : sProp 𝕄) := bigSep_emp_const s

/-- The launch element splits as the launch theorem asks, for a SparseCore call whose kernel keeps no ghost state of
    its own across the launch. -/
theorem hu₀ [FloatOps F] (P : (K (F := F)).Pay (nD := nD) (Val := Elt F) (Name := ℕ) (U := UU)) (hx : P.x = fun _ _ => iprop(emp)) :
    (ownU (u₀ (F := F)) : sProp 𝕄)
      ⊢ |={Set.univ}=> iprop(BI.own (EH (initOf (K (F := F)).hsCells (K (F := F)).hsToks)) ∗ (bigSep Finset.univ fun d : Dev nD => G (F := F) d)
          ∗ bigSep Finset.univ fun thr : Thread nD τ => bigSep Finset.univ fun q : Fin 1 => P.x q thr) := by
  unfold u₀
  iintro Hu
  ihave H := (ownU_pair _ _) $$ Hu
  icases H with ⟨HH, HR⟩
  ihave HR' := (own_pair_emb (embR : Emb (UP × Counters) 𝕄) _ _) $$ HR
  icases HR' with ⟨HP, -⟩
  imod (Pipeline.fund_ghost cfgs EP cellOf_inj) $$ HP with ⟨Hg, Ht⟩
  imodintro
  isplitl [HH]; · iexact HH
  isplitl [Hg Ht]
  · have hghost : iprop((bigSep Finset.univ fun c : Dev nD => bigSep Finset.univ fun p => Pipeline.cellsGhost cfgs EP p c)
          ∗ (bigSep Finset.univ fun c : Dev nD => bigSep Finset.univ fun p => (Pipeline.toksInit cfgs EP p c : sProp 𝕄)))
        ⊢ bigSep Finset.univ fun c : Dev nD => G (F := F) c := by
      rw [← bigSep_sep']
      exact bigSep_mono fun c _ => show iprop((bigSep Finset.univ fun p => Pipeline.cellsGhost cfgs EP p c)
            ∗ bigSep Finset.univ fun p => (Pipeline.toksInit cfgs EP p c : sProp 𝕄)) ⊢ G (F := F) c
        from Entails.of_eq (by unfold G Pipeline.ghostOn Pipeline.PerCore.ghostOn; rw [bigSep_sep'])
    iapply hghost
    isplitl [Hg] <;> iassumption
  rw [hx]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.KernelIdeal.Launch

end
-- ==== Proof.LaunchRegionI.lean ====
/-
  Entering a TensorCore kernel region from @main of a program that also runs a SparseCore call. The region's rule
  is stated for programs over the regions' own label signature; @main's line is the same call seen through the
  SparseCore dispatch, whose body table runs the inner call's body unchanged. So a region's record (its proof data,
  body obligation and the four entailments around the thread state) gives the line's triple here too.
-/
import proofs.«210586_g14980845929080_cont_week2b_1062_66_alg».proof.Proof.LaunchElemI

noncomputable section

namespace Cert.KernelIdeal.Launch

open Cert.KernelIdeal Cert.KernelIdeal.Gen Cert.KernelIdeal.Sc
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

variable (pdats : (p : Fin 2) → (c : Dev nD) → Pipeline.Dat τ (Elt F) (HIx 1) ℕ UU ℕ (Pipeline.pin (pcfgs (F := F)) adm p) c)
  (lv : GSem nD τ sig → HIx 1 → ℕ)

set_option maxHeartbeats 400000 in
set_option backward.isDefEq.respectTransparency.types false in
/-- A region's line of @main: from the region boundary, the region's entry state, the level facts and
    the region's staging cells' ghost state, to the rest of @main run from the boundary and the region's exit state. -/
theorem wp_region {p : Fin 2}
    (R : Pipeline.RegionSeg (pcfgs (F := F)) adm pdats (none : HIx 1) defs₀ 𝒱₀ (K (F := F)).L lv p) (d : Dev nD)
    (Q : PUnit → sProp 𝕄) :
    iprop((iprop(boundary (d.tc : Thread nD τ) ∗ R.post d) -∗ Q ⟨⟩)
        ∗ boundary (d.tc : Thread nD τ) ∗ R.pre d ∗ levAts (K (F := F)).L lv
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (d.tc : Thread nD τ) none) Set.univ
          (Prog.lift (.customCall (SparseCore.inner (Pipeline.entry p)) ()) : Prog (TpuEff nD τ sig (Elt F) (SparseCore.Sig (ΛP (F := F)) 1) .tc) PUnit) Q := by
  have hprog : (Prog.lift (.customCall (SparseCore.inner (Pipeline.entry p)) ()) : Prog (TpuEff nD τ sig (Elt F) (SparseCore.Sig (ΛP (F := F)) 1) .tc) PUnit)
      = SparseCore.liftProg (.op (.customCall (Pipeline.entry p) ()) fun _ => .ret ⟨⟩) := rfl
  rw [hprog]
  have h1 := Pipeline.RegionSeg.wp (pcfgs (F := F)) adm pdats (none : HIx 1) cellOf_inj EP defs₀ 𝒱₀ (K (F := F)).L lv R d none
    (by intro u h; cases h) (fun _ => .ret ⟨⟩) Q
  have h2 := (K (F := F)).wp_liftProg (D (F := F)) 𝒱 (d.tc : Thread nD τ) Set.univ none
    (.op (.customCall (Pipeline.entry p) ()) fun _ => .ret ⟨⟩) Q
  have hSL : iprop((iprop(boundary (d.tc : Thread nD τ) ∗ R.post d) -∗ Q ⟨⟩)
        ∗ boundary (d.tc : Thread nD τ) ∗ R.pre d ∗ levAts (K (F := F)).L lv
        ∗ Pipeline.cellsGhost (Pipeline.pin (pcfgs (F := F)) adm) EP p d ∗ Pipeline.toksInit (Pipeline.pin (pcfgs (F := F)) adm) EP p d)
      ⊢ iprop((iprop(boundary (d.tc : Thread nD τ) ∗ R.post d) -∗ wp frame (wpE (D (F := F)) 𝒱 (d.tc : Thread nD τ) none) Set.univ (.ret ⟨⟩) Q)
        ∗ boundary (d.tc : Thread nD τ) ∗ R.pre d ∗ levAts (K (F := F)).L lv
        ∗ Pipeline.cellsGhost (Pipeline.pin (pcfgs (F := F)) adm) EP p d ∗ Pipeline.toksInit (Pipeline.pin (pcfgs (F := F)) adm) EP p d) := by
    iintro ⟨Hk, Hb, Hpre, Hlev, Hg, Ht⟩
    isplitl [Hk]
    · iintro H
      rw [wp_ret]; imodintro
      iapply Hk; iexact H
    isplitl [Hb]; · iexact Hb
    isplitl [Hpre]; · iexact Hpre
    isplitl [Hlev]; · iexact Hlev
    isplitl [Hg] <;> iassumption
  exact hSL.trans (h1.trans h2)

end Cert.KernelIdeal.Launch

end
-- ==== Proof.MaskRegionI.lean ====
import proofs.«210586_g14980845929080_cont_week2b_1062_66_alg».proof.Proof.Gen.KernelIdeal.Launch
import proofs.«210586_g14980845929080_cont_week2b_1062_66_alg».proof.Proof.Gen.KernelIdeal.Skeleton
import proofs.«210586_g14980845929080_cont_week2b_1062_66_alg».proof.Proof.Gen.KernelIdeal.Points
import Idealize.ShloMosaic.Lib.Pipeline.FrameBody
import Idealize.ShloMosaic.Lib.WholeRead
import Idealize.ShloMosaic.Lib.Ring
import Idealize.ShloMosaic.Lib.Tactic

set_option maxRecDepth 16384

noncomputable section

namespace Cert.KernelIdeal.MaskRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! # The box-mask kernel: what a grid point leaves in its output block, the body's triple, the proof data -/

/-- The word of the box table at the cell of offsets `off` (batch, box, column). -/
def wd (x0 : Vec F S8x20x4 .i32) (off : Fin 3 → ℕ) (h : ∀ a, off a + S1x1x1.size a ≤ S8x20x4.size a) : Elt F .i32 :=
  x0 ((Rect.unit (s := S8x20x4) off S1x1x1.size h).toLoadRect.idx (Shape.Idx.first (numel1_S1x1x1.symm ▸ Nat.one_pos)))

/-- A scalar load through a whole memref held at the contents that read `x0` reads the table's word. -/
theorem readAt_wd (arg2 : Memref sig .tc .smem S8x20x4 .i32) (harg2 : arg2.IsWhole) (x0 : Vec F S8x20x4 .i32)
    (off : Fin 3 → ℕ) (h : ∀ a, off a + S1x1x1.size a ≤ S8x20x4.size a) :
    arg2.view.readAt (Elt F) (Rect.unit (s := S8x20x4) off S1x1x1.size h).toLoadRect (harg2.unread x0)
        (Shape.Idx.first (numel1_S1x1x1.symm ▸ Nat.one_pos)) = wd x0 off h :=
  harg2.readAt_unread x0 _ _

/-! ## The running mask, stage by stage: each stage is the disjunction so far with the next boxes' four comparisons -/

def s25 (x0 : Vec F S8x20x4 .i32) (i : grid0.Coords) : IVec S32x224 1 :=
  k0_pay3 i (wd x0 (k0_off1 i) (k0_off1_inb i)) (wd x0 (k0_off2 i) (k0_off2_inb i)) (wd x0 (k0_off3 i) (k0_off3_inb i)) (wd x0 (k0_off4 i) (k0_off4_inb i))

def s38 (x0 : Vec F S8x20x4 .i32) (i : grid0.Coords) : IVec S32x224 1 :=
  k0_pay4 i (wd x0 (k0_off6 i) (k0_off6_inb i)) (wd x0 (k0_off8 i) (k0_off8_inb i))

def s39 (x0 : Vec F S8x20x4 .i32) (i : grid0.Coords) : IVec S32x224 32 :=
  k0_pay5 (wd x0 (k0_off7 i) (k0_off7_inb i))

def s65 (x0 : Vec F S8x20x4 .i32) (i : grid0.Coords) : IVec S32x224 1 :=
  k0_pay6 (k0_pay2 i) (iota .tc S32x224 32 [1] iota_S32x224_d1_w32) (s25 x0 i) (wd x0 (k0_off5 i) (k0_off5_inb i)) (s38 x0 i) (s39 x0 i) (wd x0 (k0_off9 i) (k0_off9_inb i)) (wd x0 (k0_off10 i) (k0_off10_inb i)) (wd x0 (k0_off11 i) (k0_off11_inb i)) (wd x0 (k0_off12 i) (k0_off12_inb i))

def s81 (x0 : Vec F S8x20x4 .i32) (i : grid0.Coords) : IVec S32x224 1 :=
  k0_pay7 (k0_pay2 i) (iota .tc S32x224 32 [1] iota_S32x224_d1_w32) (wd x0 (k0_off14 i) (k0_off14_inb i)) (wd x0 (k0_off15 i) (k0_off15_inb i)) (wd x0 (k0_off16 i) (k0_off16_inb i))

def s83 (x0 : Vec F S8x20x4 .i32) (i : grid0.Coords) : IVec S32x224 1 :=
  k0_pay8 (iota .tc S32x224 32 [1] iota_S32x224_d1_w32) (wd x0 (k0_off13 i) (k0_off13_inb i))

def s125 (x0 : Vec F S8x20x4 .i32) (i : grid0.Coords) : IVec S32x224 1 :=
  k0_pay9 (k0_pay2 i) (iota .tc S32x224 32 [1] iota_S32x224_d1_w32) (s65 x0 i) (s81 x0 i) (s83 x0 i) (wd x0 (k0_off17 i) (k0_off17_inb i)) (wd x0 (k0_off18 i) (k0_off18_inb i)) (wd x0 (k0_off19 i) (k0_off19_inb i)) (wd x0 (k0_off20 i) (k0_off20_inb i)) (wd x0 (k0_off21 i) (k0_off21_inb i)) (wd x0 (k0_off22 i) (k0_off22_inb i)) (wd x0 (k0_off23 i) (k0_off23_inb i)) (wd x0 (k0_off24 i) (k0_off24_inb i))

def s165 (x0 : Vec F S8x20x4 .i32) (i : grid0.Coords) : IVec S32x224 1 :=
  k0_pay10 (k0_pay2 i) (iota .tc S32x224 32 [1] iota_S32x224_d1_w32) (s125 x0 i) (wd x0 (k0_off25 i) (k0_off25_inb i)) (wd x0 (k0_off26 i) (k0_off26_inb i)) (wd x0 (k0_off27 i) (k0_off27_inb i)) (wd x0 (k0_off28 i) (k0_off28_inb i)) (wd x0 (k0_off29 i) (k0_off29_inb i)) (wd x0 (k0_off30 i) (k0_off30_inb i)) (wd x0 (k0_off31 i) (k0_off31_inb i)) (wd x0 (k0_off32 i) (k0_off32_inb i))

def s205 (x0 : Vec F S8x20x4 .i32) (i : grid0.Coords) : IVec S32x224 1 :=
  k0_pay11 (k0_pay2 i) (iota .tc S32x224 32 [1] iota_S32x224_d1_w32) (s165 x0 i) (wd x0 (k0_off33 i) (k0_off33_inb i)) (wd x0 (k0_off34 i) (k0_off34_inb i)) (wd x0 (k0_off35 i) (k0_off35_inb i)) (wd x0 (k0_off36 i) (k0_off36_inb i)) (wd x0 (k0_off37 i) (k0_off37_inb i)) (wd x0 (k0_off38 i) (k0_off38_inb i)) (wd x0 (k0_off39 i) (k0_off39_inb i)) (wd x0 (k0_off40 i) (k0_off40_inb i))

def s245 (x0 : Vec F S8x20x4 .i32) (i : grid0.Coords) : IVec S32x224 1 :=
  k0_pay12 (k0_pay2 i) (iota .tc S32x224 32 [1] iota_S32x224_d1_w32) (s205 x0 i) (wd x0 (k0_off41 i) (k0_off41_inb i)) (wd x0 (k0_off42 i) (k0_off42_inb i)) (wd x0 (k0_off43 i) (k0_off43_inb i)) (wd x0 (k0_off44 i) (k0_off44_inb i)) (wd x0 (k0_off45 i) (k0_off45_inb i)) (wd x0 (k0_off46 i) (k0_off46_inb i)) (wd x0 (k0_off47 i) (k0_off47_inb i)) (wd x0 (k0_off48 i) (k0_off48_inb i))

def s285 (x0 : Vec F S8x20x4 .i32) (i : grid0.Coords) : IVec S32x224 1 :=
  k0_pay13 (k0_pay2 i) (iota .tc S32x224 32 [1] iota_S32x224_d1_w32) (s245 x0 i) (wd x0 (k0_off49 i) (k0_off49_inb i)) (wd x0 (k0_off50 i) (k0_off50_inb i)) (wd x0 (k0_off51 i) (k0_off51_inb i)) (wd x0 (k0_off52 i) (k0_off52_inb i)) (wd x0 (k0_off53 i) (k0_off53_inb i)) (wd x0 (k0_off54 i) (k0_off54_inb i)) (wd x0 (k0_off55 i) (k0_off55_inb i)) (wd x0 (k0_off56 i) (k0_off56_inb i))

def s295 (x0 : Vec F S8x20x4 .i32) (i : grid0.Coords) : IVec S32x224 1 :=
  k0_pay14 (k0_pay2 i) (wd x0 (k0_off58 i) (k0_off58_inb i))

def s325 (x0 : Vec F S8x20x4 .i32) (i : grid0.Coords) : IVec S32x224 1 :=
  k0_pay15 (k0_pay2 i) (iota .tc S32x224 32 [1] iota_S32x224_d1_w32) (s285 x0 i) (wd x0 (k0_off57 i) (k0_off57_inb i)) (wd x0 (k0_off59 i) (k0_off59_inb i)) (wd x0 (k0_off60 i) (k0_off60_inb i)) (s295 x0 i) (wd x0 (k0_off61 i) (k0_off61_inb i)) (wd x0 (k0_off62 i) (k0_off62_inb i)) (wd x0 (k0_off63 i) (k0_off63_inb i)) (wd x0 (k0_off64 i) (k0_off64_inb i))

def s338 (x0 : Vec F S8x20x4 .i32) (i : grid0.Coords) : IVec S32x224 1 :=
  k0_pay16 (k0_pay2 i) (wd x0 (k0_off66 i) (k0_off66_inb i)) (wd x0 (k0_off68 i) (k0_off68_inb i))

def s339 (x0 : Vec F S8x20x4 .i32) (i : grid0.Coords) : IVec S32x224 32 :=
  k0_pay17 (wd x0 (k0_off67 i) (k0_off67_inb i))

def s365 (x0 : Vec F S8x20x4 .i32) (i : grid0.Coords) : IVec S32x224 1 :=
  k0_pay18 (k0_pay2 i) (iota .tc S32x224 32 [1] iota_S32x224_d1_w32) (s325 x0 i) (wd x0 (k0_off65 i) (k0_off65_inb i)) (s338 x0 i) (s339 x0 i) (wd x0 (k0_off69 i) (k0_off69_inb i)) (wd x0 (k0_off70 i) (k0_off70_inb i)) (wd x0 (k0_off71 i) (k0_off71_inb i)) (wd x0 (k0_off72 i) (k0_off72_inb i))

def s381 (x0 : Vec F S8x20x4 .i32) (i : grid0.Coords) : IVec S32x224 1 :=
  k0_pay19 (k0_pay2 i) (iota .tc S32x224 32 [1] iota_S32x224_d1_w32) (wd x0 (k0_off74 i) (k0_off74_inb i)) (wd x0 (k0_off75 i) (k0_off75_inb i)) (wd x0 (k0_off76 i) (k0_off76_inb i))

def s383 (x0 : Vec F S8x20x4 .i32) (i : grid0.Coords) : IVec S32x224 1 :=
  k0_pay20 (iota .tc S32x224 32 [1] iota_S32x224_d1_w32) (wd x0 (k0_off73 i) (k0_off73_inb i))

abbrev r0_0 : Rect S1x32x256 := Rect.unit (s := S1x32x256) ![0, 0, 0] S1x32x256.size inb_S1x32x256_S1x32x256_0_0_0

/-- The output block's staging buffer after the body at point `i`, from the box table's contents: the one
    covering store's payload (the mask as floats, the per-group maxima, zeros). -/
def out0_1 (x0 : Vec F S8x20x4 .i32) (i : grid0.Coords) : Vec F S1x32x256 .f32 :=
  View.canon [⟨r0_0, k0_pay1 (k0_pay2 i) (iota .tc S32x224 32 [1] iota_S32x224_d1_w32) (s365 x0 i) (s381 x0 i) (s383 x0 i) (wd x0 (k0_off77 i) (k0_off77_inb i)) (wd x0 (k0_off78 i) (k0_off78_inb i)) (wd x0 (k0_off79 i) (k0_off79_inb i)) (wd x0 (k0_off80 i) (k0_off80_inb i))⟩]

/-- The one store covers the block. -/
theorem cover0_1 (p0 : Vec F S1x32x256 .f32) (y : S1x32x256.Idx) :
    ∃ pc ∈ ([⟨r0_0, p0⟩] : List (View.Piece (Elt F) S1x32x256 .f32)), y ∈ pc.1.set :=
  View.cover_of_tiled [⟨r0_0, p0⟩] S1x32x256.size (by rfl) y

set_option maxHeartbeats 1000000 in
/-- The kernel body on whole staging memrefs, the box table's at read contents `x0` and the output block's at anything,
    runs to the continuation holding the table's as it was and the output block's at `out0_1 x0 i`: the body's 80 scalar
    loads read the table's words, and its one store covers the block. For any variants, bound and mask. -/
theorem sound_kernel (𝒱₀ : Variants) (bd : Option 𝒱₀.V) (c : Dev nD) (E : Set Name) (i : grid0.Coords)
    (arg2 : Memref sig .tc .smem S8x20x4 .i32) (harg2 : arg2.IsWhole) (arg3 : Memref sig .tc .vmem S1x32x256 .f32) (harg3 : arg3.IsWhole)
    (x0 : Vec F S8x20x4 .i32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0 i)) -∗ K ⟨⟩))
      ⊢ wp frame (wpE (defs₀ (F := F)) 𝒱₀ c bd) E (cc0__mask_body i arg2 harg2 arg3 harg3) K := by
  simp only [cc0__mask_body_eq_skeleton]; unfold cc0__mask_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The proof data -/

/-- The region's invariant on core `c`: the core's scoped buffers that are no staging buffer of the region, at some
    contents each, and its generator register at some state — what the body never touches. -/
def ΦG (c : Dev nD) : sProp 𝕄 :=
  iprop(Pipeline.scopedRest (Ix := Ix) (Name := Name) (U := U) (Lvl := Lvl) (Val := Elt F) spec0 c ∗ ∃ r, prngReg c r)

section Data
variable (c : Dev nD) (V : (b : Ref sig .tc) → Buf (Elt F) ((c : Thread nD τ).loc b))

/-- Window `w`'s block at point `t`, read off its array as the region finds it (`V`). -/
def iblk (w : Fin cfg0.W) (t : Fin cfg0.N) : ((cfg0.win w).xblock (cfg0.grid.coords t)).Idx → Elt F (cfg0.win w).elt :=
  ((cfg0.win w).blk t).view.read (Elt F) (V (Pipeline.arrRef spec0 w))

/-- The box table's staging buffer holds the table at every point, fetched there or not, for any proof data whose
    array is `V`'s and whose body leaves the block in place. -/
theorem before0_0_of (dat : Dat τ (Elt F) Ix Name U Lvl cfg0 c) (hA : dat.A 0 = V (Pipeline.arrRef spec0 0))
    (hafter : ∀ t, dat.after 0 t = iblk c V 0 t) (t : Fin cfg0.N) (d) : dat.before 0 t d = iblk c V 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The proof data of the mask region on core `c`: the arrays as the region finds them (`V`); after the body at point
    `t` the table's buffer at the table and the output block's at `out0_1` of the table and the point; the invariant
    `ΦG`; the core owing the constant tallies `O`, its recorded pairs within `B`; full shares. -/
def dats (O : CellTallies nD τ sig Ix) (B : Set (SemLoc sig × Ix)) : Dat τ (Elt F) Ix Name U Lvl cfg0 c where
  A w := V (Pipeline.arrRef spec0 w)
  after w t := match w with
    | ⟨0, _⟩ => iblk c V 0 t
    | ⟨1, _⟩ => out0_1 (iblk c V 0 t) (grid0.coords t)
  Φ _ := ΦG c
  q _ := fullShare
  owed _ := O
  recorded _ := B

variable (O : CellTallies nD τ sig Ix) (B : Set (SemLoc sig × Ix))

local notation "𝔻" => dats (F := F) (Ix := Ix) (Name := Name) (U := U) (Lvl := Lvl) c V O B

theorem A_eq (w : Fin cfg0.W) : (𝔻).A w = V (Pipeline.arrRef spec0 w) := by
  dsimp only [dats]

theorem after0_0 (t : Fin cfg0.N) : (𝔻).after 0 t = iblk c V 0 t := by dsimp only [dats]
theorem after0_1 (t : Fin cfg0.N) :
    (𝔻).after 1 t = out0_1 (iblk c V 0 t) (grid0.coords t) := by dsimp only [dats]

theorem before0_0 (t : Fin cfg0.N) (d) : (𝔻).before 0 t d = iblk c V 0 t :=
  before0_0_of c V (𝔻) (A_eq (Name := Name) (U := U) (Lvl := Lvl) c V O B 0) (after0_0 (Name := Name) (U := U) (Lvl := Lvl) c V O B) t d

/-! ## The body obligation, at a generic point -/

/-- What the body is called with at point `t`, the windows one by one, -/
def bodyPre (ι : Ix) (t : Fin cfg0.N) : sProp 𝕄 :=
  iprop((𝔻).Φ t.castSucc ∗ (𝔻).owesAt ι t.castSucc
    ∗ (∃ d, owns (c : Thread nD τ) (st0_0 t) fullShare ((𝔻).before 0 t d))
    ∗ (∃ d, owns (c : Thread nD τ) (st0_1 t) fullShare ((𝔻).before 1 t d)))

/-- and what it returns. -/
def bodyPost (ι : Ix) (t : Fin cfg0.N) : sProp 𝕄 :=
  iprop((𝔻).Φ t.succ ∗ (𝔻).owesAt ι t.succ
    ∗ owns (c : Thread nD τ) (st0_0 t) fullShare ((𝔻).after 0 t)
    ∗ owns (c : Thread nD τ) (st0_1 t) fullShare ((𝔻).after 1 t))

/-- The body at any point: the table's memref holds the table, so `sound_kernel` applies; the invariant and the core's
    `owes` pass through unread. -/
theorem sound_body (𝒱₀ : Variants) (ι : Ix) (t : Fin cfg0.N) :
    bodyPre (Name := Name) (U := U) (Lvl := Lvl) c V O B ι t ⊢ wp frame (wpE (defs₀ (F := F)) 𝒱₀ c none) Set.univ (bodyAt0 t) (fun _ => bodyPost (Name := Name) (U := U) (Lvl := Lvl) c V O B ι t) := by
  unfold bodyPre bodyPost bodyAt0
  simp only [before0_0]
  rw [show (𝔻).Φ t.succ = (𝔻).Φ t.castSucc from rfl,
    show (𝔻).owesAt ι t.succ = (𝔻).owesAt ι t.castSucc from rfl,
    after0_0, after0_1]
  iintro ⟨HΦ, Ho, ⟨%d0, H0⟩, ⟨%d1, H1⟩⟩
  iapply (sound_kernel 𝒱₀ none c Set.univ (grid0.coords t) _ _ _ _ (iblk c V 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (𝒱₀ : Variants) (ι : Ix) :
    BodyObligation (𝔻) (defs₀ (F := F)) 𝒱₀ ι Set.univ := fun t => by
  rw [bigSep_W0, bigSep_W0]
  exact sound_body (Name := Name) (U := U) (Lvl := Lvl) c V O B 𝒱₀ ι t

end Data

end Cert.KernelIdeal.MaskRegion

end
-- ==== Proof.RegMaskI.lean ====
/-
  The mask region as a segment of @main's proof. The region is entered with every unscoped buffer at its launch
  contents; it reads the box table and writes maskf, so at its exit maskf holds what the pipeline's write-backs
  leave (block (b, hb) is what point (b, hb) wrote) and every other buffer is as it was. Beside the buffers ride
  the generator register and what the TensorCore still owes the SparseCores (a start signal per core of the later
  call), with the bound on the wait pairs it has recorded: the region's own waits are recorded at the lowest level,
  below everything it owes, so the bound is kept.
-/
import proofs.«210586_g14980845929080_cont_week2b_1062_66_alg».proof.Proof.LaunchRegionI
import proofs.«210586_g14980845929080_cont_week2b_1062_66_alg».proof.Proof.MaskRegionI
import Idealize.ShloMosaic.Lib.Pipeline.RegionsLoop
import Idealize.ShloMosaic.Lib.Pipeline.FrameSuffix

noncomputable section

namespace Cert.KernelIdeal.Launch

open Cert.KernelIdeal Cert.KernelIdeal.Gen Cert.KernelIdeal.Sc
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

/-- Everything the TensorCore owes is a start signal of some call: nothing at the index of a kernel's own waits. -/
theorem Otc_none (d : Dev nD) (n : ℕ) (g : GSem nD τ sig) : (K (F := F)).Otc d n g none = 0 := by
  by_contra h
  have := (K (F := F)).lev_of_Otc_pos (Nat.pos_of_ne_zero h)
  rw [SparseCore.Cfg.lev_none] at this; omega

/-- The wait pairs at or below the level of everything that precedes call `n`. -/
def Bd (c : Dev nD) (n : ℕ) : Set (SemLoc sig × HIx 1) := {p | (K (F := F)).lev ((c.tc : Thread nD τ), p.1) p.2 ≤ 8 * n}

/-- What rides beside the buffers before call `n`: the generator register at some state, and the TensorCore's debts with
    the bound on its recorded pairs. -/
def Rst (c : Dev nD) (n : ℕ) : sProp 𝕄 :=
  iprop((∃ r, prngReg c r) ∗ ∃ W : Waits sig (HIx 1), ⌜(↑W : Set (SemLoc sig × HIx 1)) ⊆ Bd (F := F) c n⌝ ∗ owes (c.tc : Thread nD τ) ((K (F := F)).Otc c n) W)

variable (m : (ℓ : Loc nD τ sig) → Buf (Elt F) ℓ)

/-- Core `c`'s buffers at launch, -/
abbrev W0 (c : Dev nD) : Valuation τ sig (Elt F) := fun b => m (c, b)
/-- read at the TensorCore's references. -/
abbrev V0 : (c : Dev nD) → (b : Ref sig .tc) → Buf (Elt F) ((c : Thread nD τ).loc b) := fun c b => W0 m c b

/-- The mask region's proof data at the launch contents, the TensorCore owing call 0's start signals throughout. -/
abbrev dat0 (c : Dev nD) : Pipeline.Dat τ (Elt F) (HIx 1) ℕ UU ℕ cfg0 c :=
  MaskRegion.dats (F := F) (Ix := HIx 1) (Name := ℕ) (U := UU) (Lvl := ℕ) c (V0 m c) ((K (F := F)).Otc c 0) (Bd (F := F) c 0)

/-- At the mask region's exit: its arrays at what the pipeline leaves, every other buffer as entered. -/
def W2 (c : Dev nD) : Valuation τ sig (Elt F) :=
  Pipeline.withArrays spec0 c (W0 m c) fun w => (dat0 m c).arrAt w cfg0.N
theorem W2_arr (c : Dev nD) (w : Fin cfg0.W) :
    W2 m c (Proc.devRef .tc (Pipeline.arrRef spec0 w)) = (dat0 m c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 m c).arrAt w cfg0.N = V2 m c (Pipeline.arrRef spec0 w) :=
  (W2_arr m c w).symm
theorem hrest0 (c : Dev nD) : ∀ b, b ∉ Finset.univ.image (Pipeline.arrRef spec0) → V2 m c b = V0 m c b :=
  fun b hb => W2_of_ne m c b fun w e => hb (Finset.mem_image.mpr ⟨w, Finset.mem_univ _, e⟩)

/-- A stand-in for the loss region's proof data in the family the mask region's record is stated over (the record of
    one region never looks at another region's data). -/
def datIdle2 (c : Dev nD) : Pipeline.Dat τ (Elt F) (HIx 1) ℕ UU ℕ cfg2 c where
  A w := V0 m c (Pipeline.arrRef spec2 w)
  after _ _ := fun _ => Classical.arbitrary _
  Φ _ := iprop(emp)
  q _ := fullShare
  owed _ := 0

/-- The proof data family for the mask region's record. -/
def pdatsA : (p : Fin 2) → (c : Dev nD) → Pipeline.Dat τ (Elt F) (HIx 1) ℕ UU ℕ (Pipeline.pin (pcfgs (F := F)) adm p) c
  | ⟨0, _⟩ => fun c => dat0 m c
  | ⟨1, _⟩ => fun c => datIdle2 m c

variable (lv : GSem nD τ sig → HIx 1 → ℕ) (hlv : (K (F := F)).Refines lv)

set_option backward.isDefEq.respectTransparency.types false in
/-- THE MASK REGION over the thread state: entered from every unscoped buffer at the launch contents, left with maskf
    at the pipeline's result; the generator register into the body's invariant and out; the debts and their bound
    through the pipeline unchanged; no semaphore of the kernel's own. -/
def reg0 : Pipeline.RegionSeg (pcfgs (F := F)) adm (pdatsA m) (none : HIx 1) defs₀ 𝒱₀ (K (F := F)).L lv 0 where
  win := launch0.win.to₀
  block_pos := launch0.block_pos
  stage_whole := launch0.stage_whole
  K := PEmpty
  osem k := k.elim
  ho := Pipeline.OwnSemFacts.none _
  hbody c := (MaskRegion.body_obligation (F := F) (Ix := HIx 1) (Name := ℕ) (U := UU) (Lvl := ℕ) c (V0 m c) ((K (F := F)).Otc c 0) (Bd (F := F) c 0) 𝒱₀ none).loose
  hwaits c := Pipeline.cellsWaits_intro (Pipeline.pin (pcfgs (F := F)) adm) (pdatsA m) (none : HIx 1) 0 c (R := levAts (K (F := F)).L lv)
    fun w s t => (K (F := F)).mayWait_none _ (fun g => Otc_none c 0 g) lv hlv
  pre c := iprop(StableHlo.held (c : Thread nD τ) (Pipeline.ucRefs τ sig) (W0 m c) ∗ Rst (F := F) c 0)
  post c := iprop(StableHlo.held (c : Thread nD τ) (Pipeline.ucRefs τ sig) (W2 m c) ∗ Rst (F := F) c 0)
  X c := iprop(∃ r, prngReg c r)
  Y c := iprop(∃ r, prngReg c r)
  Z c := Pipeline.unscopedRest (Ix := HIx 1) (Name := ℕ) (U := UU) (Lvl := ℕ) spec0 c (V0 m c)
  hentry c := by
    rw [Pipeline.ownSems0_none]
    have hsplit := Pipeline.arrays_of_unscopedBufs (p := 0) (pcfgs (F := F)) adm (pdatsA m) launch0.win launch0.arr_whole c
      ((pdatsA m 0 c).share_full fun _ => rfl) (V0 m c) fun _ => rfl
    rw [Pipeline.unscopedBufs_held] at hsplit
    unfold Rst
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun _ h => Or.inl (hW h)
      iexact HO
    isplitl [Hp]; · iexact Hp
    iexact Hrest
  hin c := by
    rw [show (pdatsA m 0 c).Φ 0 = MaskRegion.ΦG (F := F) (Ix := HIx 1) (Name := ℕ) (U := UU) (Lvl := ℕ) c from rfl]; unfold MaskRegion.ΦG
    iintro ⟨Hp, -, Hr⟩
    isplitl [Hr]; · iexact Hr
    iexact Hp
  hout c := by
    rw [Pipeline.ownSems0_none, show (pdatsA m 0 c).Φ (Fin.last _) = MaskRegion.ΦG (F := F) (Ix := HIx 1) (Name := ℕ) (U := UU) (Lvl := ℕ) c from rfl]; unfold MaskRegion.ΦG
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdatsA m) ((pdatsA m 0 c).share_full fun _ => rfl)
      (V0 m c) (V2 m c) ((pdatsA m 0 c).arrAt · cfg0.N) (hF0 m c) (hrest0 m c)
    rw [Pipeline.unscopedBufs_held] at hjoin
    unfold Rst
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro
      intro p hp
      rcases hW hp with h | ⟨w, s, rfl⟩
      · exact h
      · show (K (F := F)).lev _ none ≤ 8 * 0
        rw [SparseCore.Cfg.lev_none]
    iexact HO

end Cert.KernelIdeal.Launch

end
-- ==== Proof.LossRegionI.lean ====
import proofs.«210586_g14980845929080_cont_week2b_1062_66_alg».proof.Proof.Gen.KernelIdeal.Launch
import proofs.«210586_g14980845929080_cont_week2b_1062_66_alg».proof.Proof.Gen.KernelIdeal.Skeleton
import proofs.«210586_g14980845929080_cont_week2b_1062_66_alg».proof.Proof.Gen.KernelIdeal.Points
import Idealize.ShloMosaic.Lib.Pipeline.FrameBody
import Idealize.ShloMosaic.Lib.WholeRead
import Idealize.ShloMosaic.Lib.Ring
import Idealize.ShloMosaic.Lib.Tactic

set_option maxRecDepth 16384

noncomputable section

namespace Cert.KernelIdeal.LossRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! # The loss kernel on the TensorCore: what a grid point leaves in its two result cells, the body's triple, the proof data

  A grid point (b, hb) reads the box table, the block of 32 rows hb·32 … hb·32 + 31 of image b of input and target, and
  the two one-word result cells. It forms, over the block's 32 × 224 pixels, the squared distance over the channels,
  the bit "some channel of the target is not zero", and the bit "the pixel lies in some box" (a disjunction over the
  twenty boxes of four signed comparisons each, the boxes' words read one by one from the table); it adds the sum of
  indicator · distance to the first cell and the sum of the indicators to the second. At the first point the cells
  are first set to zero. -/

/-- The word of the box table at the cell of offsets `off` (batch, box, column). -/
def wd (x : Vec F S8x20x4 .i32) (off : Fin 3 → ℕ) (h : ∀ a, off a + S1x1x1.size a ≤ S8x20x4.size a) : Elt F .i32 :=
  x ((Rect.unit (s := S8x20x4) off S1x1x1.size h).toLoadRect.idx (Shape.Idx.first (numel1_S1x1x1.symm ▸ Nat.one_pos)))

/-- The whole block of input or target. -/
abbrev rB : Rect S1x192x32x224 := Rect.unit (s := S1x192x32x224) ![0, 0, 0, 0] S1x192x32x224.size inb_S1x192x32x224_S1x192x32x224_0_0_0_0
/-- A result cell's one word. -/
abbrev rC : Rect S1x1 := Rect.unit (s := S1x1) ![0, 0] S1x1.size inb_S1x1_S1x1_0_0

/-- The one word a result cell holds. -/
def cellWord (y : Vec F S1x1 .f32) : Elt F .f32 :=
  y (rC.toLoadRect.idx (Shape.Idx.first (numel1_S1x1.symm ▸ Nat.one_pos)))

/-! ## The running box mask, stage by stage: each stage is the disjunction so far with the next boxes' comparisons -/

section Stages
variable (x : Vec F S8x20x4 .i32) (i : grid2.Coords)

/-- The row numbers of the block: hb · 32 + the row within the block. -/
abbrev rows : IVec S32x224 32 := k2_pay7 i
/-- The column numbers. -/
abbrev cols : IVec S32x224 32 := iota .tc S32x224 32 [1] iota_S32x224_d1_w32

def m65 : IVec S32x224 1 :=
  k2_pay9 (rows i) cols k2_pay8 (wd x (k2_off1 i) (k2_off1_inb i)) (wd x (k2_off2 i) (k2_off2_inb i)) (wd x (k2_off3 i) (k2_off3_inb i))
    (wd x (k2_off4 i) (k2_off4_inb i)) (wd x (k2_off5 i) (k2_off5_inb i)) (wd x (k2_off6 i) (k2_off6_inb i)) (wd x (k2_off7 i) (k2_off7_inb i))
    (wd x (k2_off8 i) (k2_off8_inb i))

def m105 : IVec S32x224 1 :=
  k2_pay10 (rows i) cols (m65 x i) (wd x (k2_off9 i) (k2_off9_inb i)) (wd x (k2_off10 i) (k2_off10_inb i)) (wd x (k2_off11 i) (k2_off11_inb i))
    (wd x (k2_off12 i) (k2_off12_inb i)) (wd x (k2_off13 i) (k2_off13_inb i)) (wd x (k2_off14 i) (k2_off14_inb i)) (wd x (k2_off15 i) (k2_off15_inb i))
    (wd x (k2_off16 i) (k2_off16_inb i))

def m115 : IVec S32x224 1 := k2_pay11 (rows i) (wd x (k2_off18 i) (k2_off18_inb i))
def m117 : IVec S32x224 1 := k2_pay12 (rows i) (wd x (k2_off20 i) (k2_off20_inb i))

def m145 : IVec S32x224 1 :=
  k2_pay13 (rows i) cols (m105 x i) (wd x (k2_off17 i) (k2_off17_inb i)) (wd x (k2_off19 i) (k2_off19_inb i)) (m115 x i) (m117 x i)
    (wd x (k2_off21 i) (k2_off21_inb i)) (wd x (k2_off22 i) (k2_off22_inb i)) (wd x (k2_off23 i) (k2_off23_inb i)) (wd x (k2_off24 i) (k2_off24_inb i))

def m161 : IVec S32x224 1 :=
  k2_pay14 (rows i) cols (wd x (k2_off26 i) (k2_off26_inb i)) (wd x (k2_off27 i) (k2_off27_inb i)) (wd x (k2_off28 i) (k2_off28_inb i))

def m205 : IVec S32x224 1 :=
  k2_pay15 (rows i) cols (m145 x i) (wd x (k2_off25 i) (k2_off25_inb i)) (m161 x i) (wd x (k2_off29 i) (k2_off29_inb i))
    (wd x (k2_off30 i) (k2_off30_inb i)) (wd x (k2_off31 i) (k2_off31_inb i)) (wd x (k2_off32 i) (k2_off32_inb i)) (wd x (k2_off33 i) (k2_off33_inb i))
    (wd x (k2_off34 i) (k2_off34_inb i)) (wd x (k2_off35 i) (k2_off35_inb i)) (wd x (k2_off36 i) (k2_off36_inb i))

def m245 : IVec S32x224 1 :=
  k2_pay16 (rows i) cols (m205 x i) (wd x (k2_off37 i) (k2_off37_inb i)) (wd x (k2_off38 i) (k2_off38_inb i)) (wd x (k2_off39 i) (k2_off39_inb i))
    (wd x (k2_off40 i) (k2_off40_inb i)) (wd x (k2_off41 i) (k2_off41_inb i)) (wd x (k2_off42 i) (k2_off42_inb i)) (wd x (k2_off43 i) (k2_off43_inb i))
    (wd x (k2_off44 i) (k2_off44_inb i))

def m285 : IVec S32x224 1 :=
  k2_pay17 (rows i) cols (m245 x i) (wd x (k2_off45 i) (k2_off45_inb i)) (wd x (k2_off46 i) (k2_off46_inb i)) (wd x (k2_off47 i) (k2_off47_inb i))
    (wd x (k2_off48 i) (k2_off48_inb i)) (wd x (k2_off49 i) (k2_off49_inb i)) (wd x (k2_off50 i) (k2_off50_inb i)) (wd x (k2_off51 i) (k2_off51_inb i))
    (wd x (k2_off52 i) (k2_off52_inb i))

def m325 : IVec S32x224 1 :=
  k2_pay18 (rows i) cols (m285 x i) (wd x (k2_off53 i) (k2_off53_inb i)) (wd x (k2_off54 i) (k2_off54_inb i)) (wd x (k2_off55 i) (k2_off55_inb i))
    (wd x (k2_off56 i) (k2_off56_inb i)) (wd x (k2_off57 i) (k2_off57_inb i)) (wd x (k2_off58 i) (k2_off58_inb i)) (wd x (k2_off59 i) (k2_off59_inb i))
    (wd x (k2_off60 i) (k2_off60_inb i))

def m365 : IVec S32x224 1 :=
  k2_pay19 (rows i) cols (m325 x i) (wd x (k2_off61 i) (k2_off61_inb i)) (wd x (k2_off62 i) (k2_off62_inb i)) (wd x (k2_off63 i) (k2_off63_inb i))
    (wd x (k2_off64 i) (k2_off64_inb i)) (wd x (k2_off65 i) (k2_off65_inb i)) (wd x (k2_off66 i) (k2_off66_inb i)) (wd x (k2_off67 i) (k2_off67_inb i))
    (wd x (k2_off68 i) (k2_off68_inb i))

def m405 : IVec S32x224 1 :=
  k2_pay20 (rows i) cols (m365 x i) (wd x (k2_off69 i) (k2_off69_inb i)) (wd x (k2_off70 i) (k2_off70_inb i)) (wd x (k2_off71 i) (k2_off71_inb i))
    (wd x (k2_off72 i) (k2_off72_inb i)) (wd x (k2_off73 i) (k2_off73_inb i)) (wd x (k2_off74 i) (k2_off74_inb i)) (wd x (k2_off75 i) (k2_off75_inb i))
    (wd x (k2_off76 i) (k2_off76_inb i))

def m415 : IVec S32x224 1 := k2_pay21 (rows i) (wd x (k2_off78 i) (k2_off78_inb i))
def m417 : IVec S32x224 1 := k2_pay22 (rows i) (wd x (k2_off80 i) (k2_off80_inb i))

end Stages

/-- The first cell's new word: its old word plus the block's sum of indicator · squared distance. -/
def acc3 (x : Vec F S8x20x4 .i32) (a g : Vec F S1x192x32x224 .f32) (i : grid2.Coords) (old : Elt F .f32) : Elt F .f32 :=
  k2_pay2 (k2_pay5 (View.ld a rB) (View.ld g rB)) (k2_pay6 (View.ld g rB)) cols (m405 x i) (wd x (k2_off77 i) (k2_off77_inb i))
    (wd x (k2_off79 i) (k2_off79_inb i)) (m415 x i) (m417 x i) old

/-- The second cell's new word: its old word plus the block's sum of the indicators. -/
def acc4 (x : Vec F S8x20x4 .i32) (g : Vec F S1x192x32x224 .f32) (i : grid2.Coords) (old : Elt F .f32) : Elt F .f32 :=
  k2_pay3 (k2_pay6 (View.ld g rB)) cols (m405 x i) (wd x (k2_off77 i) (k2_off77_inb i))
    (wd x (k2_off79 i) (k2_off79_inb i)) (m415 x i) (m417 x i) old

/-! ## What the body leaves in the two result cells -/

/-- The condition of the body's one conditional, from the grid coordinates: the point is the first, (0, 0). -/
abbrev cond2 (i : grid2.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first point only — decided over the grid. -/
theorem hcond2 : ∀ t : Fin cfg2.N, cond2 (grid2.coords t) ↔ t.val % 40 = 0 :=
  (by decide +kernel : ∀ t : Fin grid2.N, cond2 (grid2.coords t) ↔ t.val % 40 = 0)

/-- The word the accumulation starts from at point `i`: zero at the first point, else the cell's previous word. -/
def start (i : grid2.Coords) (y : Vec F S1x1 .f32) : Elt F .f32 :=
  if cond2 i then Scalar.ofBits .f32 0x00000000#32 else cellWord y

/-- The first result cell after the body at point `i`, from the box table, the two blocks, the point and the cell's
    previous contents (not read at the first point, where the cell is reset): its previous word, or zero, plus the block's
    sum of indicator · squared distance. -/
def out2_3 (x : Vec F S8x20x4 .i32) (a g : Vec F S1x192x32x224 .f32) (i : grid2.Coords) (y : Vec F S1x1 .f32) : Vec F S1x1 .f32 :=
  fun _ => acc3 x a g i (start i y)

/-- The second result cell after the body at point `i`: its previous word, or zero at the first point, plus the block's
    sum of the indicators. -/
def out2_4 (x : Vec F S8x20x4 .i32) (g : Vec F S1x192x32x224 .f32) (i : grid2.Coords) (y : Vec F S1x1 .f32) : Vec F S1x1 .f32 :=
  fun _ => acc4 x g i (start i y)

theorem start_pos {i : grid2.Coords} (hc : cond2 i) (y : Vec F S1x1 .f32) : start i y = Scalar.ofBits .f32 0x00000000#32 := by
  unfold start; rw [if_pos hc]
theorem start_neg {i : grid2.Coords} (hc : ¬ cond2 i) (y : Vec F S1x1 .f32) : start i y = cellWord y := by
  unfold start; rw [if_neg hc]

/-- At the first point the previous contents do not matter. -/
theorem start_of_cond {i : grid2.Coords} (hc : cond2 i) (y y' : Vec F S1x1 .f32) : start i y = start i y' := by
  unfold start; rw [if_pos hc, if_pos hc]

/-- The cell's offsets are zero. -/
theorem hz : (![0, 0] : Fin 2 → ℕ) = fun _ => 0 := by
  funext a; match a with | ⟨0, _⟩ => rfl | ⟨1, _⟩ => rfl

/-- The stores to the cell cover it (the last alone does); -/
theorem cover_cell (w : rC.shape.Idx → Elt F .f32) (L : List (View.Piece (Elt F) S1x1 .f32)) (y : S1x1.Idx) :
    ∃ p ∈ ((⟨rC, w⟩ : View.Piece (Elt F) S1x1 .f32) :: L), y ∈ p.1.set :=
  ⟨_, List.mem_cons_self, View.mem_set_unit_zero hz inb_S1x1_S1x1_0_0 y⟩

/-- and the last store leaves its word whatever was stored before. -/
theorem canon_cell (w : rC.shape.Idx → Elt F .f32) (L : List (View.Piece (Elt F) S1x1 .f32)) :
    View.canon ((⟨rC, w⟩ : View.Piece (Elt F) S1x1 .f32) :: L) = w :=
  View.canon_cons_unit_zero hz _ w L

/-! ## The body's triple, in its two cases -/

set_option maxHeartbeats 4000000 in
/-- At a point other than the first: the body on whole staging memrefs — the table's, the two blocks' and the two cells'
    at given contents — runs to the continuation holding the inputs' as they were and each cell at its accumulated word. -/
theorem sound_kernel_B (𝒱₀ : Variants) (bd : Option 𝒱₀.V) (c : Dev nD) (E : Set Name) (i : grid2.Coords) (hc : ¬ cond2 i)
    (arg2 : Memref sig .tc .smem S8x20x4 .i32) (harg2 : arg2.IsWhole) (arg3 : Memref sig .tc .vmem S1x192x32x224 .f32) (harg3 : arg3.IsWhole)
    (arg4 : Memref sig .tc .vmem S1x192x32x224 .f32) (harg4 : arg4.IsWhole) (arg5 : Memref sig .tc .smem S1x1 .f32) (harg5 : arg5.IsWhole)
    (arg6 : Memref sig .tc .smem S1x1 .f32) (harg6 : arg6.IsWhole)
    (x : Vec F S8x20x4 .i32) (a g : Vec F S1x192x32x224 .f32) (y3 y4 : Vec F S1x1 .f32) (K : PUnit → sProp 𝕄) :
    iprop(owns (c : Thread nD τ) arg2 fullShare x ∗ owns (c : Thread nD τ) arg3 fullShare a ∗ owns (c : Thread nD τ) arg4 fullShare g
        ∗ owns (c : Thread nD τ) arg5 fullShare y3 ∗ owns (c : Thread nD τ) arg6 fullShare y4
        ∗ (iprop(owns (c : Thread nD τ) arg2 fullShare x ∗ owns (c : Thread nD τ) arg3 fullShare a ∗ owns (c : Thread nD τ) arg4 fullShare g
            ∗ owns (c : Thread nD τ) arg5 fullShare (out2_3 x a g i y3) ∗ owns (c : Thread nD τ) arg6 fullShare (out2_4 x g i y4)) -∗ K ⟨⟩))
      ⊢ wp frame (wpE (defs₀ (F := F)) 𝒱₀ c bd) E (cc2__tc_loss_body i arg2 harg2 arg3 harg3 arg4 harg4 arg5 harg5 arg6 harg6) K := by
  simp only [cc2__tc_loss_body_eq_skeleton]; unfold cc2__tc_loss_body_skel
  unfold owns out2_3 out2_4
  rw [start_neg (F := F) hc y3, start_neg (F := F) hc y4]
  iintro ⟨⟨%f0, %hf0, H0⟩, ⟨%f1, %hf1, H1⟩, ⟨%f2, %hf2, H2⟩, ⟨%f3, %hf3, H3⟩, ⟨%f4, %hf4, H4⟩, Hk⟩
  subst hf0 hf1 hf2 hf3 hf4
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact (View.read_writes_eq_canon _ _ _ (cover_cell (F := F) _ _)).trans (canon_cell (F := F) _ _)
  iexists _; isplitr
  swap; · iexact H4
  ipureintro
  exact (View.read_writes_eq_canon _ _ _ (cover_cell (F := F) _ _)).trans (canon_cell (F := F) _ _)

set_option maxHeartbeats 4000000 in
/-- At the first point: the cells may hold anything; the body resets them, then accumulates from zero. -/
theorem sound_kernel_A (𝒱₀ : Variants) (bd : Option 𝒱₀.V) (c : Dev nD) (E : Set Name) (i : grid2.Coords) (hc : cond2 i)
    (arg2 : Memref sig .tc .smem S8x20x4 .i32) (harg2 : arg2.IsWhole) (arg3 : Memref sig .tc .vmem S1x192x32x224 .f32) (harg3 : arg3.IsWhole)
    (arg4 : Memref sig .tc .vmem S1x192x32x224 .f32) (harg4 : arg4.IsWhole) (arg5 : Memref sig .tc .smem S1x1 .f32) (harg5 : arg5.IsWhole)
    (arg6 : Memref sig .tc .smem S1x1 .f32) (harg6 : arg6.IsWhole)
    (x : Vec F S8x20x4 .i32) (a g : Vec F S1x192x32x224 .f32) (y3 y4 : Vec F S1x1 .f32) (K : PUnit → sProp 𝕄) :
    iprop(owns (c : Thread nD τ) arg2 fullShare x ∗ owns (c : Thread nD τ) arg3 fullShare a ∗ owns (c : Thread nD τ) arg4 fullShare g
        ∗ (∃ d, owns (c : Thread nD τ) arg5 fullShare d) ∗ (∃ d, owns (c : Thread nD τ) arg6 fullShare d)
        ∗ (iprop(owns (c : Thread nD τ) arg2 fullShare x ∗ owns (c : Thread nD τ) arg3 fullShare a ∗ owns (c : Thread nD τ) arg4 fullShare g
            ∗ owns (c : Thread nD τ) arg5 fullShare (out2_3 x a g i y3) ∗ owns (c : Thread nD τ) arg6 fullShare (out2_4 x g i y4)) -∗ K ⟨⟩))
      ⊢ wp frame (wpE (defs₀ (F := F)) 𝒱₀ c bd) E (cc2__tc_loss_body i arg2 harg2 arg3 harg3 arg4 harg4 arg5 harg5 arg6 harg6) K := by
  simp only [cc2__tc_loss_body_eq_skeleton]; unfold cc2__tc_loss_body_skel
  unfold owns out2_3 out2_4
  rw [start_pos (F := F) hc y3, start_pos (F := F) hc y4]
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact (View.read_writes_eq_canon _ _ _ (cover_cell (F := F) _ _)).trans (canon_cell (F := F) _ _)
  iexists _; isplitr
  swap; · iexact H4
  ipureintro
  exact (View.read_writes_eq_canon _ _ _ (cover_cell (F := F) _ _)).trans (canon_cell (F := F) _ _)

/-- THE BODY'S TRIPLE at any point, the cells held at given contents: the two cases joined. -/
theorem sound_kernel (𝒱₀ : Variants) (bd : Option 𝒱₀.V) (c : Dev nD) (E : Set Name) (i : grid2.Coords)
    (arg2 : Memref sig .tc .smem S8x20x4 .i32) (harg2 : arg2.IsWhole) (arg3 : Memref sig .tc .vmem S1x192x32x224 .f32) (harg3 : arg3.IsWhole)
    (arg4 : Memref sig .tc .vmem S1x192x32x224 .f32) (harg4 : arg4.IsWhole) (arg5 : Memref sig .tc .smem S1x1 .f32) (harg5 : arg5.IsWhole)
    (arg6 : Memref sig .tc .smem S1x1 .f32) (harg6 : arg6.IsWhole)
    (x : Vec F S8x20x4 .i32) (a g : Vec F S1x192x32x224 .f32) (y3 y4 : Vec F S1x1 .f32) (K : PUnit → sProp 𝕄) :
    iprop(owns (c : Thread nD τ) arg2 fullShare x ∗ owns (c : Thread nD τ) arg3 fullShare a ∗ owns (c : Thread nD τ) arg4 fullShare g
        ∗ owns (c : Thread nD τ) arg5 fullShare y3 ∗ owns (c : Thread nD τ) arg6 fullShare y4
        ∗ (iprop(owns (c : Thread nD τ) arg2 fullShare x ∗ owns (c : Thread nD τ) arg3 fullShare a ∗ owns (c : Thread nD τ) arg4 fullShare g
            ∗ owns (c : Thread nD τ) arg5 fullShare (out2_3 x a g i y3) ∗ owns (c : Thread nD τ) arg6 fullShare (out2_4 x g i y4)) -∗ K ⟨⟩))
      ⊢ wp frame (wpE (defs₀ (F := F)) 𝒱₀ c bd) E (cc2__tc_loss_body i arg2 harg2 arg3 harg3 arg4 harg4 arg5 harg5 arg6 harg6) K := by
  by_cases hc : cond2 i
  · iintro ⟨H0, H1, H2, H3, H4, Hk⟩
    iapply (sound_kernel_A 𝒱₀ bd c E i hc arg2 harg2 arg3 harg3 arg4 harg4 arg5 harg5 arg6 harg6 x a g y3 y4 K)
    isplitl [H0]; · iexact H0
    isplitl [H1]; · iexact H1
    isplitl [H2]; · iexact H2
    isplitl [H3]; · iexists _; iexact H3
    isplitl [H4]; · iexists _; iexact H4
    iexact Hk
  · exact sound_kernel_B 𝒱₀ bd c E i hc arg2 harg2 arg3 harg3 arg4 harg4 arg5 harg5 arg6 harg6 x a g y3 y4 K

end Cert.KernelIdeal.LossRegion

end
-- ==== Proof.LossRegionDataI.lean ====
import proofs.«210586_g14980845929080_cont_week2b_1062_66_alg».proof.Proof.LossRegionI

set_option maxRecDepth 16384

noncomputable section

namespace Cert.KernelIdeal.LossRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! # The loss kernel's region: what the two result cells hold point by point, the proof data, the body obligation

  The forty grid points run in order. The table's buffer holds the table at every point and each block's buffer its block
  of input or target; the two result cells are carried from each point to the next (they are written back after the
  last point only): after point n they hold the sums over the blocks of points 0 … n. -/

/-- The region's invariant on core `c`: the core's scoped buffers that are no staging buffer of the region, at some
    contents each, and its generator register at some state — what the body never touches. -/
def ΦG (c : Dev nD) : sProp 𝕄 :=
  iprop(Pipeline.scopedRest (Ix := Ix) (Name := Name) (U := U) (Lvl := Lvl) (Val := Elt F) spec2 c ∗ ∃ r, prngReg c r)

/-- A cell holding zero (what the first point's accumulation is stated from; the body resets the cells there). -/
def zeroCell : Vec F S1x1 .f32 := fun _ => Scalar.ofBits .f32 0x00000000#32

section Data
variable (c : Dev nD) (V : (b : Ref sig .tc) → Buf (Elt F) ((c : Thread nD τ).loc b))

/-- Window `w`'s block at point `t`, read off its array as the region finds it (`V`). -/
def iblk (w : Fin cfg2.W) (t : Fin cfg2.N) : ((cfg2.win w).xblock (cfg2.grid.coords t)).Idx → Elt F (cfg2.win w).elt :=
  ((cfg2.win w).blk t).view.read (Elt F) (V (Pipeline.arrRef spec2 w))

/-- An input window's current staging buffer holds its block at every point, fetched there or not, for any proof data
    whose array is `V`'s and whose body leaves the block in place: the box table, -/
theorem before2_0_of (dat : Dat τ (Elt F) Ix Name U Lvl cfg2 c) (hA : dat.A 0 = V (Pipeline.arrRef spec2 0))
    (hafter : ∀ t, dat.after 0 t = iblk c V 0 t) (t : Fin cfg2.N) (d) : dat.before 0 t d = iblk c V 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- the input's block, -/
theorem before2_1_of (dat : Dat τ (Elt F) Ix Name U Lvl cfg2 c) (hA : dat.A 1 = V (Pipeline.arrRef spec2 1))
    (hafter : ∀ t, dat.after 1 t = iblk c V 1 t) (t : Fin cfg2.N) (d) : dat.before 1 t d = iblk c V 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- the target's block. -/
theorem before2_2_of (dat : Dat τ (Elt F) Ix Name U Lvl cfg2 c) (hA : dat.A 2 = V (Pipeline.arrRef spec2 2))
    (hafter : ∀ t, dat.after 2 t = iblk c V 2 t) (t : Fin cfg2.N) (d) : dat.before 2 t d = iblk c V 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- THE ACCUMULATION. What the two result cells hold after the body at position `n`: the body's result at that point's
    table and blocks, over what the position before left (over zero at the first, where the body resets the cells). -/
def cellsAt : (n : ℕ) → n < cfg2.N → Vec F S1x1 .f32 × Vec F S1x1 .f32
  | 0, hn =>
    (out2_3 (iblk c V 0 ⟨0, hn⟩) (iblk c V 1 ⟨0, hn⟩) (iblk c V 2 ⟨0, hn⟩) (grid2.coords ⟨0, hn⟩) zeroCell,
     out2_4 (iblk c V 0 ⟨0, hn⟩) (iblk c V 2 ⟨0, hn⟩) (grid2.coords ⟨0, hn⟩) zeroCell)
  | n + 1, hn =>
    (out2_3 (iblk c V 0 ⟨n + 1, hn⟩) (iblk c V 1 ⟨n + 1, hn⟩) (iblk c V 2 ⟨n + 1, hn⟩) (grid2.coords ⟨n + 1, hn⟩) (cellsAt n (Nat.lt_of_succ_lt hn)).1,
     out2_4 (iblk c V 0 ⟨n + 1, hn⟩) (iblk c V 2 ⟨n + 1, hn⟩) (grid2.coords ⟨n + 1, hn⟩) (cellsAt n (Nat.lt_of_succ_lt hn)).2)

/-- The first cell at the first point: accumulated from zero. -/
theorem cell3_zero (t : Fin cfg2.N) (h0 : t.val = 0) :
    (cellsAt c V t.val t.isLt).1 = out2_3 (iblk c V 0 t) (iblk c V 1 t) (iblk c V 2 t) (grid2.coords t) zeroCell := by
  obtain ⟨n, hn⟩ := t
  cases n with
  | zero => rfl
  | succ n => exact absurd h0 (Nat.succ_ne_zero n)
/-- The second cell at the first point. -/
theorem cell4_zero (t : Fin cfg2.N) (h0 : t.val = 0) :
    (cellsAt c V t.val t.isLt).2 = out2_4 (iblk c V 0 t) (iblk c V 2 t) (grid2.coords t) zeroCell := by
  obtain ⟨n, hn⟩ := t
  cases n with
  | zero => rfl
  | succ n => exact absurd h0 (Nat.succ_ne_zero n)
/-- The first cell at a later point: accumulated over what the point before left. -/
theorem cell3_pos (t : Fin cfg2.N) (h0 : t.val ≠ 0) :
    (cellsAt c V t.val t.isLt).1 = out2_3 (iblk c V 0 t) (iblk c V 1 t) (iblk c V 2 t) (grid2.coords t)
      (cellsAt c V (t.val - 1) (Nat.lt_of_le_of_lt (Nat.sub_le _ _) t.isLt)).1 := by
  obtain ⟨n, hn⟩ := t
  cases n with
  | zero => exact absurd rfl h0
  | succ n => rfl
/-- The second cell at a later point. -/
theorem cell4_pos (t : Fin cfg2.N) (h0 : t.val ≠ 0) :
    (cellsAt c V t.val t.isLt).2 = out2_4 (iblk c V 0 t) (iblk c V 2 t) (grid2.coords t)
      (cellsAt c V (t.val - 1) (Nat.lt_of_le_of_lt (Nat.sub_le _ _) t.isLt)).2 := by
  obtain ⟨n, hn⟩ := t
  cases n with
  | zero => exact absurd rfl h0
  | succ n => rfl

/-- The proof data of the loss region on core `c`: the arrays as the region finds them (`V`); after the body at point
    `t` the table's and the blocks' buffers at the table and the blocks, the two cells at `cellsAt`; the invariant `ΦG`;
    the core owing the constant tallies `O`, its recorded pairs within `B`; full shares. -/
def dats (O : CellTallies nD τ sig Ix) (B : Set (SemLoc sig × Ix)) : Dat τ (Elt F) Ix Name U Lvl cfg2 c where
  A w := V (Pipeline.arrRef spec2 w)
  after w t := match w with
    | ⟨0, _⟩ => iblk c V 0 t
    | ⟨1, _⟩ => iblk c V 1 t
    | ⟨2, _⟩ => iblk c V 2 t
    | ⟨3, _⟩ => (cellsAt c V t.val t.isLt).1
    | ⟨4, _⟩ => (cellsAt c V t.val t.isLt).2
  Φ _ := ΦG c
  q _ := fullShare
  owed _ := O
  recorded _ := B

variable (O : CellTallies nD τ sig Ix) (B : Set (SemLoc sig × Ix))

local notation "𝔻" => dats (F := F) (Ix := Ix) (Name := Name) (U := U) (Lvl := Lvl) c V O B

theorem A_eq (w : Fin cfg2.W) : (𝔻).A w = V (Pipeline.arrRef spec2 w) := by
  dsimp only [dats]

theorem after2_0 (t : Fin cfg2.N) : (𝔻).after 0 t = iblk c V 0 t := by dsimp only [dats]
theorem after2_1 (t : Fin cfg2.N) : (𝔻).after 1 t = iblk c V 1 t := by dsimp only [dats]
theorem after2_2 (t : Fin cfg2.N) : (𝔻).after 2 t = iblk c V 2 t := by dsimp only [dats]
theorem after2_3 (t : Fin cfg2.N) : (𝔻).after 3 t = (cellsAt c V t.val t.isLt).1 := by dsimp only [dats]
theorem after2_4 (t : Fin cfg2.N) : (𝔻).after 4 t = (cellsAt c V t.val t.isLt).2 := by dsimp only [dats]

theorem before2_0 (t : Fin cfg2.N) (d) : (𝔻).before 0 t d = iblk c V 0 t :=
  before2_0_of c V (𝔻) (A_eq (Name := Name) (U := U) (Lvl := Lvl) c V O B 0) (after2_0 (Name := Name) (U := U) (Lvl := Lvl) c V O B) t d
theorem before2_1 (t : Fin cfg2.N) (d) : (𝔻).before 1 t d = iblk c V 1 t :=
  before2_1_of c V (𝔻) (A_eq (Name := Name) (U := U) (Lvl := Lvl) c V O B 1) (after2_1 (Name := Name) (U := U) (Lvl := Lvl) c V O B) t d
theorem before2_2 (t : Fin cfg2.N) (d) : (𝔻).before 2 t d = iblk c V 2 t :=
  before2_2_of c V (𝔻) (A_eq (Name := Name) (U := U) (Lvl := Lvl) c V O B 2) (after2_2 (Name := Name) (U := U) (Lvl := Lvl) c V O B) t d

/-- At the first point a result cell's buffer is fresh: it holds anything. -/
theorem before2_3_zero (t : Fin cfg2.N) (h0 : t.val = 0) (d) : (𝔻).before 3 t d = d :=
  Dat.before_out_reset _ 3 rfl t (.inl h0) d
theorem before2_4_zero (t : Fin cfg2.N) (h0 : t.val = 0) (d) : (𝔻).before 4 t d = d :=
  Dat.before_out_reset _ 4 rfl t (.inl h0) d

/-- At a later point a result cell's buffer holds what the body left at the point before: the buffer was not written back
    between (it is after the last point only), the window is live and uncut. -/
theorem before2_3_pos (t : Fin cfg2.N) (h0 : t.val ≠ 0) (d) :
    (𝔻).before 3 t d = (cellsAt c V (t.val - 1) (Nat.lt_of_le_of_lt (Nat.sub_le _ _) t.isLt)).1 := by
  have hN : t.val < 40 := lt_of_lt_of_eq t.isLt (show cfg2.N = 40 from N_2)
  rw [Dat.before_out_kept _ 3 rfl t h0 (Bool.eq_false_iff.mpr fun h => by have := (flush2_3 _).mp h; dsimp only at this; omega)
    (fun _ => rfl) (fun _ _ => rfl)]
  dsimp only [dats]
theorem before2_4_pos (t : Fin cfg2.N) (h0 : t.val ≠ 0) (d) :
    (𝔻).before 4 t d = (cellsAt c V (t.val - 1) (Nat.lt_of_le_of_lt (Nat.sub_le _ _) t.isLt)).2 := by
  have hN : t.val < 40 := lt_of_lt_of_eq t.isLt (show cfg2.N = 40 from N_2)
  rw [Dat.before_out_kept _ 4 rfl t h0 (Bool.eq_false_iff.mpr fun h => by have := (flush2_4 _).mp h; dsimp only at this; omega)
    (fun _ => rfl) (fun _ _ => rfl)]
  dsimp only [dats]

/-! ## The body obligation, at a generic point -/

/-- What the body is called with at point `t`, the windows one by one, -/
def bodyPre (ι : Ix) (t : Fin cfg2.N) : sProp 𝕄 :=
  iprop((𝔻).Φ t.castSucc ∗ (𝔻).owesAt ι t.castSucc
    ∗ (∃ d, owns (c : Thread nD τ) (st2_0 t) fullShare ((𝔻).before 0 t d))
    ∗ (∃ d, owns (c : Thread nD τ) (st2_1 t) fullShare ((𝔻).before 1 t d))
    ∗ (∃ d, owns (c : Thread nD τ) (st2_2 t) fullShare ((𝔻).before 2 t d))
    ∗ (∃ d, owns (c : Thread nD τ) (st2_3 t) fullShare ((𝔻).before 3 t d))
    ∗ (∃ d, owns (c : Thread nD τ) (st2_4 t) fullShare ((𝔻).before 4 t d)))

/-- and what it returns. -/
def bodyPost (ι : Ix) (t : Fin cfg2.N) : sProp 𝕄 :=
  iprop((𝔻).Φ t.succ ∗ (𝔻).owesAt ι t.succ
    ∗ owns (c : Thread nD τ) (st2_0 t) fullShare ((𝔻).after 0 t)
    ∗ owns (c : Thread nD τ) (st2_1 t) fullShare ((𝔻).after 1 t)
    ∗ owns (c : Thread nD τ) (st2_2 t) fullShare ((𝔻).after 2 t)
    ∗ owns (c : Thread nD τ) (st2_3 t) fullShare ((𝔻).after 3 t)
    ∗ owns (c : Thread nD τ) (st2_4 t) fullShare ((𝔻).after 4 t))

set_option maxHeartbeats 1600000 in
/-- The body at any point: the table's and the blocks' memrefs hold the table and the blocks; at the first point the
    cells hold anything and the body resets them, at a later point they hold what the point before left; so the body's
    triple applies; the invariant and the core's `owes` pass through unread. -/
theorem sound_body (𝒱₀ : Variants) (ι : Ix) (t : Fin cfg2.N) :
    bodyPre (Name := Name) (U := U) (Lvl := Lvl) c V O B ι t ⊢ wp frame (wpE (defs₀ (F := F)) 𝒱₀ c none) Set.univ (bodyAt2 t) (fun _ => bodyPost (Name := Name) (U := U) (Lvl := Lvl) c V O B ι t) := by
  unfold bodyPre bodyPost bodyAt2
  simp only [before2_0, before2_1, before2_2]
  rw [show (𝔻).Φ t.succ = (𝔻).Φ t.castSucc from rfl,
    show (𝔻).owesAt ι t.succ = (𝔻).owesAt ι t.castSucc from rfl,
    after2_0, after2_1, after2_2, after2_3, after2_4]
  have hN : t.val < 40 := lt_of_lt_of_eq t.isLt (show cfg2.N = 40 from N_2)
  by_cases h0 : t.val = 0
  · rw [cell3_zero c V t h0, cell4_zero c V t h0]
    simp only [before2_3_zero (Name := Name) (U := U) (Lvl := Lvl) c V O B t h0, before2_4_zero (Name := Name) (U := U) (Lvl := Lvl) c V O B t h0]
    iintro ⟨HΦ, Ho, ⟨%d0, H0⟩, ⟨%d1, H1⟩, ⟨%d2, H2⟩, ⟨%d3, H3⟩, ⟨%d4, H4⟩⟩
    iapply (sound_kernel_A 𝒱₀ none c Set.univ (grid2.coords t) ((hcond2 t).mpr (by rw [h0])) _ _ _ _ _ _ _ _ _ _
      (iblk c V 0 t) (iblk c V 1 t) (iblk c V 2 t) zeroCell zeroCell _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [cell3_pos c V t h0, cell4_pos c V t h0]
    simp only [before2_3_pos (Name := Name) (U := U) (Lvl := Lvl) c V O B t h0, before2_4_pos (Name := Name) (U := U) (Lvl := Lvl) c V O B t h0]
    iintro ⟨HΦ, Ho, ⟨%d0, H0⟩, ⟨%d1, H1⟩, ⟨%d2, H2⟩, ⟨%d3, H3⟩, ⟨%d4, H4⟩⟩
    iapply (sound_kernel_B 𝒱₀ none c Set.univ (grid2.coords t) (fun h => h0 (by have := (hcond2 t).mp h; omega)) _ _ _ _ _ _ _ _ _ _
      (iblk c V 0 t) (iblk c V 1 t) (iblk c V 2 t) _ _ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation (𝒱₀ : Variants) (ι : Ix) :
    BodyObligation (𝔻) (defs₀ (F := F)) 𝒱₀ ι Set.univ := fun t => by
  rw [bigSep_W2, bigSep_W2]
  exact sound_body (Name := Name) (U := U) (Lvl := Lvl) c V O B 𝒱₀ ι t

end Data

end Cert.KernelIdeal.LossRegion

end
-- ==== Proof.RegLossI.lean ====
/-
  The loss region as a segment of @main's proof. It is entered, after the SparseCore call, with every unscoped buffer
  at given contents; it reads the box table and the first 160 rows of input and target and accumulates its two sums
  in two one-word results, written back at the last grid point. At its exit those two hold what the pipeline's
  write-backs leave and every other buffer is as it was. Beside the buffers ride the generator register and the
  TensorCore's debts — none any more, the one call being over — with the bound on its recorded wait pairs.
-/
import proofs.«210586_g14980845929080_cont_week2b_1062_66_alg».proof.Proof.LaunchRegionI
import proofs.«210586_g14980845929080_cont_week2b_1062_66_alg».proof.Proof.RegMaskI
import proofs.«210586_g14980845929080_cont_week2b_1062_66_alg».proof.Proof.LossRegionDataI
import Idealize.ShloMosaic.Lib.Pipeline.RegionsLoop
import Idealize.ShloMosaic.Lib.Pipeline.FrameSuffix

noncomputable section

namespace Cert.KernelIdeal.Launch

open Cert.KernelIdeal Cert.KernelIdeal.Gen Cert.KernelIdeal.Sc
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

variable (We : Dev nD → Valuation τ sig (Elt F))

/-- The entry contents read at the TensorCore's references. -/
abbrev Ve : (c : Dev nD) → (b : Ref sig .tc) → Buf (Elt F) ((c : Thread nD τ).loc b) := fun c b => We c b

/-- The loss region's proof data at the entry contents, the TensorCore owing what it owes after the call (nothing). -/
abbrev dat2 (c : Dev nD) : Pipeline.Dat τ (Elt F) (HIx 1) ℕ UU ℕ cfg2 c :=
  LossRegion.dats (F := F) (Ix := HIx 1) (Name := ℕ) (U := UU) (Lvl := ℕ) c (Ve We c) ((K (F := F)).Otc c 1) (Bd (F := F) c 1)

/-- At the loss region's exit: its arrays at what the pipeline leaves, every other buffer as entered. -/
def W4 (c : Dev nD) : Valuation τ sig (Elt F) :=
  Pipeline.withArrays spec2 c (We c) fun w => (dat2 We c).arrAt w cfg2.N
theorem W4_arr (c : Dev nD) (w : Fin cfg2.W) :
    W4 We c (Proc.devRef .tc (Pipeline.arrRef spec2 w)) = (dat2 We c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 We c (Proc.devRef .tc b) = We c (Proc.devRef .tc b) := by
  unfold W4; exact Pipeline.withArrays_of_ne spec2 c _ _ b hb
abbrev V4 : (c : Dev nD) → (b : Ref sig .tc) → Buf (Elt F) ((c : Thread nD τ).loc b) := fun c b => W4 We c b
theorem hF2 (c : Dev nD) (w : Fin cfg2.W) : (dat2 We c).arrAt w cfg2.N = V4 We c (Pipeline.arrRef spec2 w) :=
  (W4_arr We c w).symm
theorem hrest2 (c : Dev nD) : ∀ b, b ∉ Finset.univ.image (Pipeline.arrRef spec2) → V4 We c b = Ve We c b :=
  fun b hb => W4_of_ne We c b fun w e => hb (Finset.mem_image.mpr ⟨w, Finset.mem_univ _, e⟩)

/-- A stand-in for the mask region's proof data in the family the loss region's record is stated over. -/
def datIdle0 (c : Dev nD) : Pipeline.Dat τ (Elt F) (HIx 1) ℕ UU ℕ cfg0 c where
  A w := Ve We c (Pipeline.arrRef spec0 w)
  after _ _ := fun _ => Classical.arbitrary _
  Φ _ := iprop(emp)
  q _ := fullShare
  owed _ := 0

/-- The proof data family for the loss region's record. -/
def pdatsB : (p : Fin 2) → (c : Dev nD) → Pipeline.Dat τ (Elt F) (HIx 1) ℕ UU ℕ (Pipeline.pin (pcfgs (F := F)) adm p) c
  | ⟨0, _⟩ => fun c => datIdle0 We c
  | ⟨1, _⟩ => fun c => dat2 We c

variable (lv : GSem nD τ sig → HIx 1 → ℕ) (hlv : (K (F := F)).Refines lv)

set_option backward.isDefEq.respectTransparency.types false in
/-- THE LOSS REGION over the thread state: entered from every unscoped buffer at the given contents, left with the two
    sums at the pipeline's results; the generator register into the body's invariant and out; the debts and their
    bound through the pipeline unchanged; no semaphore of the kernel's own. -/
def reg2 : Pipeline.RegionSeg (pcfgs (F := F)) adm (pdatsB We) (none : HIx 1) defs₀ 𝒱₀ (K (F := F)).L lv 1 where
  win := launch2.win.to₀
  block_pos := launch2.block_pos
  stage_whole := launch2.stage_whole
  K := PEmpty
  osem k := k.elim
  ho := Pipeline.OwnSemFacts.none _
  hbody c := (LossRegion.body_obligation (F := F) (Ix := HIx 1) (Name := ℕ) (U := UU) (Lvl := ℕ) c (Ve We c) ((K (F := F)).Otc c 1) (Bd (F := F) c 1) 𝒱₀ none).loose
  hwaits c := Pipeline.cellsWaits_intro (Pipeline.pin (pcfgs (F := F)) adm) (pdatsB We) (none : HIx 1) 1 c (R := levAts (K (F := F)).L lv)
    fun w s t => (K (F := F)).mayWait_none _ (fun g => Otc_none c 1 g) lv hlv
  pre c := iprop(StableHlo.held (c : Thread nD τ) (Pipeline.ucRefs τ sig) (We c) ∗ Rst (F := F) c 1)
  post c := iprop(StableHlo.held (c : Thread nD τ) (Pipeline.ucRefs τ sig) (W4 We c) ∗ Rst (F := F) c 1)
  X c := iprop(∃ r, prngReg c r)
  Y c := iprop(∃ r, prngReg c r)
  Z c := Pipeline.unscopedRest (Ix := HIx 1) (Name := ℕ) (U := UU) (Lvl := ℕ) spec2 c (Ve We c)
  hentry c := by
    rw [Pipeline.ownSems0_none]
    have hsplit := Pipeline.arrays_of_unscopedBufs (p := 1) (pcfgs (F := F)) adm (pdatsB We) launch2.win launch2.arr_whole c
      ((pdatsB We 1 c).share_full fun _ => rfl) (Ve We c) fun _ => rfl
    rw [Pipeline.unscopedBufs_held] at hsplit
    unfold Rst
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun _ h => Or.inl (hW h)
      iexact HO
    isplitl [Hp]; · iexact Hp
    iexact Hrest
  hin c := by
    rw [show (pdatsB We 1 c).Φ 0 = LossRegion.ΦG (F := F) (Ix := HIx 1) (Name := ℕ) (U := UU) (Lvl := ℕ) c from rfl]; unfold LossRegion.ΦG
    iintro ⟨Hp, -, Hr⟩
    isplitl [Hr]; · iexact Hr
    iexact Hp
  hout c := by
    rw [Pipeline.ownSems0_none, show (pdatsB We 1 c).Φ (Fin.last _) = LossRegion.ΦG (F := F) (Ix := HIx 1) (Name := ℕ) (U := UU) (Lvl := ℕ) c from rfl]; unfold LossRegion.ΦG
    iintro ⟨Hr, Hp⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdatsB We) ((pdatsB We 1 c).share_full fun _ => rfl)
      (Ve We c) (V4 We c) ((pdatsB We 1 c).arrAt · cfg2.N) (hF2 We c) (hrest2 We c)
    rw [Pipeline.unscopedBufs_held] at hjoin
    unfold Rst
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro
      intro p hp
      rcases hW hp with h | ⟨w, s, rfl⟩
      · exact h
      · show (K (F := F)).lev _ none ≤ 8 * 1
        rw [SparseCore.Cfg.lev_none]; exact Nat.zero_le _
    iexact HO

end Cert.KernelIdeal.Launch

end
-- ==== Proof.MainShapeI.lean ====
/-
  The shape of @main: the mask region, the SparseCore call, the loss region, then a straight line of fifteen host
  operations that slices the SparseCore's partial sums, adds them up, adds the TensorCore's two sums, and forms
  (1/2 · s / n) / 1536.
-/
import proofs.«210586_g14980845929080_cont_week2b_1062_66_alg».proof.Proof.ScCommonI
import Idealize.ShloMosaic.Lib.StableHlo.Run

noncomputable section

namespace Cert.KernelIdeal.Launch

open Cert.KernelIdeal Cert.KernelIdeal.Sc
open Idealize.ShloMosaic
open Idealize.SL.Sem
open Cert.KernelIdeal.Facts₀ Cert.KernelIdeal.Facts

variable {F : FTy → Type} [FloatOps F]

/-- The host operations after the last region, in order. -/
abbrev tailOps : List (HloOp τ sig (Elt F)) :=
  [ StableHlo.unary main_v1 main_v3 ((extractStridedSlice S32x16 ![0, 0] · slices_S32x32_S32x16_0_0) : (⟨S32x32, .f32⟩ : BufTy).Contents (Elt F) → (⟨S32x16, .f32⟩ : BufTy).Contents (Elt F)),
    StableHlo.nullary main_cst (constant S_ .f32 0x00000000#32),
    StableHlo.binary main_v3 main_cst main_v4 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
    StableHlo.reshape main_v2_0 main_v5 rfl shapeCasts_S1x1_S_,
    StableHlo.binary main_v4 main_v5 main_v6 (addf : (⟨S_, .f32⟩ : BufTy).Contents (Elt F) → (⟨S_, .f32⟩ : BufTy).Contents (Elt F) → (⟨S_, .f32⟩ : BufTy).Contents (Elt F)),
    StableHlo.unary main_v1 main_v7 ((extractStridedSlice S32x16 ![0, 16] · slices_S32x32_S32x16_0_16) : (⟨S32x32, .f32⟩ : BufTy).Contents (Elt F) → (⟨S32x16, .f32⟩ : BufTy).Contents (Elt F)),
    StableHlo.nullary main_cst_0 (constant S_ .f32 0x00000000#32),
    StableHlo.binary main_v7 main_cst_0 main_v8 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
    StableHlo.reshape main_v2_1 main_v9 rfl shapeCasts_S1x1_S_,
    StableHlo.binary main_v8 main_v9 main_v10 (addf : (⟨S_, .f32⟩ : BufTy).Contents (Elt F) → (⟨S_, .f32⟩ : BufTy).Contents (Elt F) → (⟨S_, .f32⟩ : BufTy).Contents (Elt F)),
    StableHlo.nullary main_cst_1 (constant S_ .f32 0x3F000000#32),
    StableHlo.binary main_cst_1 main_v6 main_v11 (mulf : (⟨S_, .f32⟩ : BufTy).Contents (Elt F) → (⟨S_, .f32⟩ : BufTy).Contents (Elt F) → (⟨S_, .f32⟩ : BufTy).Contents (Elt F)),
    StableHlo.binary main_v11 main_v10 main_v12 (Host.divf : (⟨S_, .f32⟩ : BufTy).Contents (Elt F) → (⟨S_, .f32⟩ : BufTy).Contents (Elt F) → (⟨S_, .f32⟩ : BufTy).Contents (Elt F)),
    StableHlo.nullary main_cst_2 (constant S_ .f32 0x44C00000#32),
    StableHlo.binary main_v12 main_cst_2 main_v13 (Host.divf : (⟨S_, .f32⟩ : BufTy).Contents (Elt F) → (⟨S_, .f32⟩ : BufTy).Contents (Elt F) → (⟨S_, .f32⟩ : BufTy).Contents (Elt F)) ]

/-- @main is its two regions around the SparseCore call, then the straight line. -/
theorem main_eq (d : Dev nD) :
    main (F := F) d
      = (do
          Prog.lift (.customCall (SparseCore.inner (Pipeline.entry 0)) ())
          sc.run d 0
          Prog.lift (.customCall (SparseCore.inner (Pipeline.entry 1)) ())
          StableHlo.seq (tailOps (F := F))) := rfl

end Cert.KernelIdeal.Launch

end
-- ==== Proof.ScTilePI.lean ====
/-
  The SparseCore call's payloads: what the call takes from the TensorCore for each SparseCore, what each vector
  subcore's task is handed, and what comes back. The two inputs and the mask array are read by all 32 tasks, so they
  travel as read shares: the full share halved between the two SparseCores, each half dealt in sixteen tokens to the
  subcores, the undealt remainder kept aside while the tasks run. The result array is written one row per task: task
  (core c, subcore s) owns row 2 s + c.
-/
import proofs.«210586_g14980845929080_cont_week2b_1062_66_alg».proof.Proof.ScCommonI
import Idealize.ShloMosaic.Lib.Transfers

noncomputable section

namespace Cert.KernelIdeal.ScTile

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareTokN shareDrop pointsTo_toks_split pointsTo_toks_join)

variable {F : FTy → Type}

local notation "𝕄" => MT nD τ sig (HIx 1) (Elt F) ℕ Sc.UU ℕ

/-- The two inputs, the mask array and the result array, as locations of device `d`. -/
abbrev a0Loc (d : Dev nD) : Loc nD τ sig := (SparseCore.T d).loc main_arg0
abbrev a1Loc (d : Dev nD) : Loc nD τ sig := (SparseCore.T d).loc main_arg1
abbrev mkLoc (d : Dev nD) : Loc nD τ sig := (SparseCore.T d).loc main_v0
abbrev ptLoc (d : Dev nD) : Loc nD τ sig := (SparseCore.T d).loc main_v1

/-- The share of a read-only array SparseCore `c` is handed: a half of the whole. -/
def coreSh (c : ℕ) : PosShare TreeShare := if c = 0 then (fullShare : PosShare TreeShare).left else (fullShare : PosShare TreeShare).right
/-- The share subcore `i` of SparseCore `c` is handed: the `i`-th of sixteen tokens of the core's half. -/
def tileSh (c i : ℕ) : PosShare TreeShare := shareTokN (coreSh c) i

theorem hdiv : 32 ∣ S32x32.size 0 := ⟨1, rfl⟩
/-- Row `w` of the result array. -/
abbrev row (w : Fin 32) : Rect S32x32 := Rect.part (s := S32x32) (a₀ := 0) hdiv w
def rowSet (w : Fin 32) : Finset S32x32.Idx := ((Memref.whole main_v1_scv : Memref sig .scVector .hbm S32x32 .f32).view.slice (row w)).set
/-- The row of the task on subcore `s` of SparseCore `c`. -/
def wid (c s : ℕ) : Fin 32 := ⟨(2 * s + c) % 32, Nat.mod_lt _ (by decide)⟩
/-- The rows of SparseCore `c`'s sixteen tasks. -/
def coreRows (c : ℕ) : Finset S32x32.Idx := (Finset.univ : Finset (Fin 16)).biUnion fun s => rowSet (wid c s.val)

theorem rowSet_eq (w : Fin 32) : rowSet w = (row w).set := by
  unfold rowSet
  show ((View.whole (main_v1_scv : Ref sig .scVector)).slice (row w)).set = _
  rw [View.set_slice]; exact Finset.map_refl
theorem rows_disjoint {w w' : Fin 32} (h : w ≠ w') : Disjoint (rowSet w) (rowSet w') := by
  rw [rowSet_eq, rowSet_eq]; exact Rect.part_disjoint hdiv h
theorem rows_cover : (Finset.univ : Finset (Fin 32)).biUnion rowSet = Finset.univ :=
  (Finset.biUnion_congr rfl fun i _ => rowSet_eq i).trans (Rect.biUnion_part hdiv)

theorem wid_inj {c c' : ℕ} (hc : c < 2) (hc' : c' < 2) {s s' : ℕ} (h1 : s < 16) (h2 : s' < 16) (h : wid c s = wid c' s') : c = c' ∧ s = s' := by
  have := congrArg Fin.val h
  simp only [wid] at this
  constructor <;> omega

theorem coreRows_disjoint : Disjoint (coreRows 0) (coreRows 1) := by
  unfold coreRows
  rw [Finset.disjoint_biUnion_left]; intro s _
  rw [Finset.disjoint_biUnion_right]; intro s' _
  exact rows_disjoint fun h => absurd (wid_inj (by decide) (by decide) s.isLt s'.isLt h).1 (by decide)
theorem coreRows_cover : coreRows 0 ∪ coreRows 1 = Finset.univ := by
  apply Finset.eq_univ_of_forall; intro x
  have hx : x ∈ (Finset.univ : Finset (Fin 32)).biUnion rowSet := by rw [rows_cover]; exact Finset.mem_univ x
  obtain ⟨w, -, hw⟩ := Finset.mem_biUnion.mp hx
  have hw32 := w.isLt
  rcases Nat.mod_two_eq_zero_or_one w.val with h0 | h1
  · refine Finset.mem_union_left _ (Finset.mem_biUnion.mpr ⟨⟨w.val / 2, by omega⟩, Finset.mem_univ _, ?_⟩)
    have : wid 0 (w.val / 2) = w := by apply Fin.ext; simp only [wid]; omega
    rw [this]; exact hw
  · refine Finset.mem_union_right _ (Finset.mem_biUnion.mpr ⟨⟨w.val / 2, by omega⟩, Finset.mem_univ _, ?_⟩)
    have : wid 1 (w.val / 2) = w := by apply Fin.ext; simp only [wid]; omega
    rw [this]; exact hw
theorem tileRows_disjoint (c : ℕ) (hc : c < 2) :
    ∀ s ∈ (Finset.univ : Finset (Fin 16)), ∀ s' ∈ (Finset.univ : Finset (Fin 16)), s ≠ s' → Disjoint (rowSet (wid c s.val)) (rowSet (wid c s'.val)) :=
  fun s _ s' _ h => rows_disjoint fun e => h (Fin.ext (wid_inj hc hc s.isLt s'.isLt e).2)

/-! ## The payloads -/

section Pay

variable (X0 : (d : Dev nD) → Buf (Elt F) (a0Loc d)) (X1 : (d : Dev nD) → Buf (Elt F) (a1Loc d))
  (M : (d : Dev nD) → Buf (Elt F) (mkLoc d)) (R0 : (d : Dev nD) → Buf (Elt F) (ptLoc d))

/-- The three read-only arrays at share `q`. -/
abbrev rdPts (d : Dev nD) (q : PosShare TreeShare) : sProp 𝕄 :=
  iprop((a0Loc d ↦{q} X0 d) ∗ (a1Loc d ↦{q} X1 d) ∗ (mkLoc d ↦{q} M d))

/-- What SparseCore `c` is handed: its half of the read-only arrays and its sixteen rows of the result array. -/
def stC (d : Dev nD) (c : ℕ) : sProp 𝕄 := iprop(rdPts X0 X1 M d (coreSh c) ∗ ptLoc d ↦[coreRows c]{fullShare} R0 d)
/-- What it hands back: the same, its rows at whatever its tasks left. -/
def dnC (d : Dev nD) (c : ℕ) : sProp 𝕄 := iprop(rdPts X0 X1 M d (coreSh c) ∗ ∃ f, ptLoc d ↦[coreRows c]{fullShare} f)
/-- What the task on subcore `i` of SparseCore `c` is handed: its token of the read-only arrays and its row. -/
def goC (d : Dev nD) (c i : ℕ) : sProp 𝕄 := iprop(rdPts X0 X1 M d (tileSh c i) ∗ ptLoc d ↦[rowSet (wid c i)]{fullShare} R0 d)
/-- What it hands back: the same, its row at whatever it wrote. -/
def tdC (d : Dev nD) (c i : ℕ) : sProp 𝕄 := iprop(rdPts X0 X1 M d (tileSh c i) ∗ ∃ f, ptLoc d ↦[rowSet (wid c i)]{fullShare} f)

/-- The one call's payloads; nothing of the kernel's own protocol is owed or kept beside them (its transfers are
    local, their counters the task's own). -/
def P : (Sc.K (F := F)).Pay (nD := nD) (Val := Elt F) (Name := ℕ) (U := Sc.UU) where
  st := fun _ d c => stC X0 X1 M R0 d c.val
  dn := fun _ d c => dnC X0 X1 M d c.val
  go := fun _ d c i => goC X0 X1 M R0 d c.val i.val
  td := fun _ d c i => tdC X0 X1 M d c.val i.val
  x := fun _ _ => iprop(emp)

instance P_storable : (P (F := F) X0 X1 M R0).IsStorable where
  st _ d c := by unfold P stC; infer_instance
  dn _ d c := by unfold P dnC; infer_instance
  go _ d c i := by unfold P goC; infer_instance
  td _ d c i := by unfold P tdC; infer_instance

theorem P_st (q : Fin 1) (d : Dev nD) (c : Fin ((Sc.K (F := F)).nCore q)) : (P X0 X1 M R0).st q d c = stC X0 X1 M R0 d c.val := rfl
theorem P_dn (q : Fin 1) (d : Dev nD) (c : Fin ((Sc.K (F := F)).nCore q)) : (P X0 X1 M R0).dn q d c = dnC X0 X1 M d c.val := rfl
theorem P_go (q : Fin 1) (d : Dev nD) (c : Fin ((Sc.K (F := F)).nCore q)) (i : Fin ((Sc.K (F := F)).nSub q)) :
    (P X0 X1 M R0).go q d c i = goC X0 X1 M R0 d c.val i.val := rfl
theorem P_td (q : Fin 1) (d : Dev nD) (c : Fin ((Sc.K (F := F)).nCore q)) (i : Fin ((Sc.K (F := F)).nSub q)) :
    (P X0 X1 M R0).td q d c i = tdC X0 X1 M d c.val i.val := rfl
theorem P_x (q : Fin 1) (thr : Thread nD τ) : (P X0 X1 M R0).x q thr = iprop(emp) := rfl

/-! ## Between the TensorCore and the two SparseCores -/

theorem halves {ℓ : Loc nD τ sig} (f : Buf (Elt F) ℓ) :
    (ℓ ↦{fullShare} f : sProp 𝕄) ⊣⊢ iprop((ℓ ↦{coreSh 0} f) ∗ ℓ ↦{coreSh 1} f) := by
  unfold coreSh; simp only [if_true, if_neg Nat.one_ne_zero, ↓reduceIte]
  exact pointsTo_share (PosShare.mem_left_op_right _)

theorem cores_eq (Φ : ℕ → sProp 𝕄) : (bigSep Finset.univ fun c : Fin ((Sc.K (F := F)).nCore 0) => Φ c.val) = iprop(Φ 0 ∗ Φ 1) :=
  bigSep_univ_two (fun c : Fin 2 => Φ c.val)

theorem pt_cores (d : Dev nD) (f : Buf (Elt F) (ptLoc d)) :
    (ptLoc d ↦{fullShare} f : sProp 𝕄) ⊣⊢ iprop((ptLoc d ↦[coreRows 0]{fullShare} f) ∗ ptLoc d ↦[coreRows 1]{fullShare} f) := by
  have h : (ptLoc d ↦[coreRows 0 ∪ coreRows 1]{fullShare} f : sProp 𝕄) ⊣⊢ _ := pointsTo_union coreRows_disjoint
  rw [coreRows_cover] at h; exact h

/-- What the call takes from the TensorCore: the four arrays whole. -/
theorem st0_intro (d : Dev nD) :
    iprop((a0Loc d ↦{fullShare} X0 d) ∗ (a1Loc d ↦{fullShare} X1 d) ∗ (mkLoc d ↦{fullShare} M d) ∗ ptLoc d ↦{fullShare} R0 d)
      ⊢ (bigSep Finset.univ fun c : Fin ((Sc.K (F := F)).nCore 0) => (P X0 X1 M R0).st 0 d c : sProp 𝕄) := by
  simp only [P_st]; rw [cores_eq (F := F) (stC X0 X1 M R0 d)]; unfold stC rdPts
  iintro ⟨H0, H1, Hm, Hp⟩
  ihave H0' := (halves (F := F) _).1 $$ H0; icases H0' with ⟨H0a, H0b⟩
  ihave H1' := (halves (F := F) _).1 $$ H1; icases H1' with ⟨H1a, H1b⟩
  ihave Hm' := (halves (F := F) _).1 $$ Hm; icases Hm' with ⟨Hma, Hmb⟩
  ihave Hp' := (pt_cores (F := F) d _).1 $$ Hp; icases Hp' with ⟨Hpa, Hpb⟩
  isplitl [H0a H1a Hma Hpa]
  · isplitl [H0a H1a Hma]
    · isplitl [H0a]; · iexact H0a
      isplitl [H1a]; · iexact H1a
      iexact Hma
    · iexact Hpa
  · isplitl [H0b H1b Hmb]
    · isplitl [H0b]; · iexact H0b
      isplitl [H1b]; · iexact H1b
      iexact Hmb
    · iexact Hpb

theorem pt_cores_join (d : Dev nD) (f g : Buf (Elt F) (ptLoc d)) :
    iprop((ptLoc d ↦[coreRows 0]{fullShare} f) ∗ ptLoc d ↦[coreRows 1]{fullShare} g) ⊢ (iprop(∃ h, ptLoc d ↦{fullShare} h) : sProp 𝕄) := by
  have hj : iprop((ptLoc d ↦[coreRows 0]{fullShare} f) ∗ ptLoc d ↦[coreRows 1]{fullShare} g)
      ⊢ (ptLoc d ↦[coreRows 0 ∪ coreRows 1]{fullShare} ((coreRows 1).piecewise g f) : sProp 𝕄) := pointsTo_join coreRows_disjoint
  rw [coreRows_cover] at hj
  refine hj.trans ?_
  iintro H; iexists _; iexact H

/-- What the call hands back to the TensorCore: the three read-only arrays whole and unchanged, the result array whole. -/
theorem dn0_elim (d : Dev nD) :
    (bigSep Finset.univ fun c : Fin ((Sc.K (F := F)).nCore 0) => (P X0 X1 M R0).dn 0 d c : sProp 𝕄)
      ⊢ iprop((a0Loc d ↦{fullShare} X0 d) ∗ (a1Loc d ↦{fullShare} X1 d) ∗ (mkLoc d ↦{fullShare} M d) ∗ ∃ f, ptLoc d ↦{fullShare} f) := by
  simp only [P_dn]; rw [cores_eq (F := F) (dnC X0 X1 M d)]; unfold dnC rdPts
  iintro ⟨⟨⟨H0a, H1a, Hma⟩, %fa, Hpa⟩, ⟨⟨H0b, H1b, Hmb⟩, %fb, Hpb⟩⟩
  isplitl [H0a H0b]
  · iapply (halves (F := F) _).2; isplitl [H0a] <;> iassumption
  isplitl [H1a H1b]
  · iapply (halves (F := F) _).2; isplitl [H1a] <;> iassumption
  isplitl [Hma Hmb]
  · iapply (halves (F := F) _).2; isplitl [Hma] <;> iassumption
  iapply (pt_cores_join (F := F) d fa fb); isplitl [Hpa] <;> iassumption

end Pay

/-! ## Between a SparseCore and its sixteen tasks -/

section Split

variable (X0 : (d : Dev nD) → Buf (Elt F) (a0Loc d)) (X1 : (d : Dev nD) → Buf (Elt F) (a1Loc d))
  (M : (d : Dev nD) → Buf (Elt F) (mkLoc d)) (R0 : (d : Dev nD) → Buf (Elt F) (ptLoc d))

theorem toks16 {ℓ : Loc nD τ sig} (f : Buf (Elt F) ℓ) (c : ℕ) :
    (ℓ ↦{coreSh c} f : sProp 𝕄) ⊣⊢ iprop((ℓ ↦{shareDrop (coreSh c) 16} f) ∗ bigSep Finset.univ fun i : Fin 16 => ℓ ↦{tileSh c i.val} f) :=
  Transfers.pointsTo_toks (coreSh c) 16

theorem pt_tiles (d : Dev nD) (c : ℕ) (hc : c < 2) (f : Buf (Elt F) (ptLoc d)) :
    (ptLoc d ↦[coreRows c]{fullShare} f : sProp 𝕄) = bigSep Finset.univ fun i : Fin 16 => ptLoc d ↦[rowSet (wid c i.val)]{fullShare} f :=
  by unfold coreRows; exact pointsTo_biUnion Finset.univ (ℓ := ptLoc d) (fun i : Fin 16 => rowSet (wid c i.val)) (tileRows_disjoint c hc)

theorem pt_tiles_join [FloatOps F] (d : Dev nD) (c : ℕ) (hc : c < 2) :
    (bigSep Finset.univ fun i : Fin 16 => iprop(∃ f, ptLoc d ↦[rowSet (wid c i.val)]{fullShare} f)) ⊢ (iprop(∃ f, ptLoc d ↦[coreRows c]{fullShare} f) : sProp 𝕄) := by
  refine (bigSep_exists_pi Finset.univ (fun (i : Fin 16) (f : Buf (Elt F) (ptLoc d)) => (ptLoc d ↦[rowSet (wid c i.val)]{fullShare} f : sProp 𝕄))).trans ?_
  iintro ⟨%fs, H⟩
  ihave H' := (pointsTo_biUnion_join Finset.univ (fun i : Fin 16 => rowSet (wid c i.val)) fs (fs 0) (tileRows_disjoint c hc)) $$ H
  icases H' with ⟨%g, -, Hg⟩
  iexists g; iexact Hg

/-- A SparseCore's operands dealt to its sixteen tasks (the undealt remainder of each read share kept aside), and
    their results gathered. -/
theorem vecSplit [FloatOps F] : (Sc.K (F := F)).VecSplit' (P X0 X1 M R0) 0 := by
  intro d c
  have hc : c.val < 2 := c.isLt
  simp only [P_st, P_dn, P_go, P_td]
  show stC X0 X1 M R0 d c.val ⊢ |={Set.univ}=> iprop((bigSep Finset.univ fun i : Fin 16 => goC X0 X1 M R0 d c.val i.val)
      ∗ ((bigSep Finset.univ fun i : Fin 16 => tdC X0 X1 M d c.val i.val) -∗ dnC X0 X1 M d c.val))
  unfold stC dnC goC tdC rdPts
  rw [bigSep_sep', bigSep_sep', bigSep_sep', bigSep_sep', bigSep_sep', bigSep_sep', pt_tiles (F := F) d c.val hc]
  iintro ⟨⟨H0, H1, Hm⟩, Hp⟩
  ihave H0' := (toks16 (F := F) _ c.val).1 $$ H0; icases H0' with ⟨H0r, H0t⟩
  ihave H1' := (toks16 (F := F) _ c.val).1 $$ H1; icases H1' with ⟨H1r, H1t⟩
  ihave Hm' := (toks16 (F := F) _ c.val).1 $$ Hm; icases Hm' with ⟨Hmr, Hmt⟩
  imodintro
  isplitl [H0t H1t Hmt Hp]
  · isplitl [H0t H1t Hmt]
    · isplitl [H0t]; · iexact H0t
      isplitl [H1t]; · iexact H1t
      iexact Hmt
    · iexact Hp
  iintro ⟨⟨H0t, H1t, Hmt⟩, Hp⟩
  isplitl [H0r H0t H1r H1t Hmr Hmt]
  · isplitl [H0r H0t]
    · iapply (toks16 (F := F) _ c.val).2; isplitl [H0r] <;> iassumption
    isplitl [H1r H1t]
    · iapply (toks16 (F := F) _ c.val).2; isplitl [H1r] <;> iassumption
    · iapply (toks16 (F := F) _ c.val).2; isplitl [Hmr] <;> iassumption
  · iapply (pt_tiles_join (F := F) d c.val hc); iexact Hp

end Split

end Cert.KernelIdeal.ScTile

end
-- ==== Proof.LaunchMainI.lean ====
/-
  @main on the TensorCore, inside the launch of the whole thread family: the mask region, the SparseCore call, the
  loss region, the straight line. Each step hands the next the boundary and every unscoped buffer at named contents;
  beside them ride the generator register and the TensorCore's handshake state (what it owes the SparseCores and
  where it stands on the launch handshakes).
-/
import proofs.«210586_g14980845929080_cont_week2b_1062_66_alg».proof.Proof.RegLossI
import proofs.«210586_g14980845929080_cont_week2b_1062_66_alg».proof.Proof.MainShapeI
import proofs.«210586_g14980845929080_cont_week2b_1062_66_alg».proof.Proof.ScTilePI

noncomputable section

namespace Cert.KernelIdeal.Launch

open Cert.KernelIdeal Cert.KernelIdeal.Gen Cert.KernelIdeal.Sc
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)

/-! ## What the SparseCore call is handed -/

/-- The call's operands: input and target at their launch contents, maskf at what the mask region left, the partial
    sums' array at its launch contents. -/
abbrev X0 (d : Dev nD) : Buf (Elt F) (ScTile.a0Loc d) := m (ScTile.a0Loc d)
abbrev X1 (d : Dev nD) : Buf (Elt F) (ScTile.a1Loc d) := m (ScTile.a1Loc d)
abbrev Mk (d : Dev nD) : Buf (Elt F) (ScTile.mkLoc d) := W2 m d (Proc.devRef .tc main_v0)
abbrev R0 (d : Dev nD) : Buf (Elt F) (ScTile.ptLoc d) := m (ScTile.ptLoc d)
/-- What the launch handshakes carry. -/
abbrev PP : (K (F := F)).Pay (nD := nD) (Val := Elt F) (Name := ℕ) (U := UU) := ScTile.P (F := F) (X0 m) (X1 m) (Mk m) (R0 m)

/-! ## @main's tails -/

abbrev rest2 : Prog (TpuEff nD τ sig (Elt F) (SparseCore.Sig (ΛP (F := F)) 1) .tc) PUnit := StableHlo.seq (tailOps (F := F))
abbrev rest1 : Prog (TpuEff nD τ sig (Elt F) (SparseCore.Sig (ΛP (F := F)) 1) .tc) PUnit :=
  (Prog.lift (.customCall (SparseCore.inner (Pipeline.entry 1)) ()) : Prog (TpuEff nD τ sig (Elt F) (SparseCore.Sig (ΛP (F := F)) 1) .tc) PUnit) >>= fun _ => rest2
abbrev rest0 (d : Dev nD) : Prog (TpuEff nD τ sig (Elt F) (SparseCore.Sig (ΛP (F := F)) 1) .tc) PUnit :=
  sc.run d 0 >>= fun _ => rest1
theorem main_eq' (d : Dev nD) :
    main (F := F) d = ((Prog.lift (.customCall (SparseCore.inner (Pipeline.entry 0)) ()) : Prog (TpuEff nD τ sig (Elt F) (SparseCore.Sig (ΛP (F := F)) 1) .tc) PUnit) >>= fun _ => rest0 d) := rfl

/-! ## What @main leaves -/

/-- At the end: every unscoped buffer at contents that agree with the launch contents on the three arguments. -/
def FIN (d : Dev nD) : sProp 𝕄 :=
  iprop(∃ Wf : Valuation τ sig (Elt F), ⌜Wf (Proc.devRef .tc main_arg0) = W0 m d (Proc.devRef .tc main_arg0) ∧ Wf (Proc.devRef .tc main_arg1) = W0 m d (Proc.devRef .tc main_arg1)
      ∧ Wf (Proc.devRef .tc main_arg2) = W0 m d (Proc.devRef .tc main_arg2)⌝ ∗ held (d.tc : Thread nD τ) (Pipeline.ucRefs τ sig) Wf)

/-- The two regions' ghost state on a core, one after the other. -/
theorem G_split (d : Dev nD) :
    (G (F := F) d : sProp 𝕄)
      = iprop((Pipeline.cellsGhost (Pipeline.pin (pcfgs (F := F)) adm) EP 0 d ∗ Pipeline.toksInit (Pipeline.pin (pcfgs (F := F)) adm) EP 0 d)
          ∗ (Pipeline.cellsGhost (Pipeline.pin (pcfgs (F := F)) adm) EP 1 d ∗ Pipeline.toksInit (Pipeline.pin (pcfgs (F := F)) adm) EP 1 d)) := by
  unfold G Pipeline.ghostOn Pipeline.PerCore.ghostOn
  rw [show (Finset.univ : Finset (Fin 2)) = {0, 1} by decide, SparseCore.bigSep_insert' (by decide), bigSep_singleton]

/-! ## The straight line -/

set_option maxRecDepth 8192 in
theorem tailOps_tc : (tailOps (F := F)).Forall fun op => op.bufs ⊆ StableHlo.tcRefs τ sig :=
  ⟨StableHlo.unary_bufs_sub .., StableHlo.nullary_bufs_sub .., StableHlo.binary_bufs_sub .., StableHlo.reshape_bufs_sub .., StableHlo.binary_bufs_sub ..,
   StableHlo.unary_bufs_sub .., StableHlo.nullary_bufs_sub .., StableHlo.binary_bufs_sub .., StableHlo.reshape_bufs_sub .., StableHlo.binary_bufs_sub ..,
   StableHlo.nullary_bufs_sub .., StableHlo.binary_bufs_sub .., StableHlo.binary_bufs_sub .., StableHlo.nullary_bufs_sub .., StableHlo.binary_bufs_sub ..⟩

theorem tailOps_sub : ∀ op ∈ (tailOps (F := F)), op.bufs ⊆ Pipeline.ucRefs τ sig :=
  fun op h => Pipeline.sub_ucRefs op ((List.forall_iff_forall_mem.mp tailOps_tc) op h)

theorem tailOps_fresh' : (tailOps (F := F)).Forall fun op => op.fresh = ∅ := by
  simp only [List.Forall]; repeat' constructor

theorem tailOps_fresh : ∀ op ∈ (tailOps (F := F)), op.fresh = ∅ :=
  fun op h => (List.forall_iff_forall_mem.mp tailOps_fresh') op h

/-- The straight line writes none of the three arguments. -/
theorem tail_args (Wv : Valuation τ sig (Elt F)) :
    StableHlo.after (tailOps (F := F)) Wv (Proc.devRef .tc main_arg0) = Wv (Proc.devRef .tc main_arg0)
    ∧ StableHlo.after (tailOps (F := F)) Wv (Proc.devRef .tc main_arg1) = Wv (Proc.devRef .tc main_arg1)
    ∧ StableHlo.after (tailOps (F := F)) Wv (Proc.devRef .tc main_arg2) = Wv (Proc.devRef .tc main_arg2) := by
  refine ⟨?_, ?_, ?_⟩ <;> (after_results_simp <;> rfl)

set_option backward.isDefEq.respectTransparency.types false in
/-- The straight line, from the boundary and every unscoped buffer at contents that agree with the launch's on the
    arguments: it runs to its end, the arguments still there. -/
theorem stage3 (κ : GSem nD τ sig → ℕ) (d : Dev nD) (Wv : Valuation τ sig (Elt F))
    (hW : Wv (Proc.devRef .tc main_arg0) = W0 m d (Proc.devRef .tc main_arg0) ∧ Wv (Proc.devRef .tc main_arg1) = W0 m d (Proc.devRef .tc main_arg1)
      ∧ Wv (Proc.devRef .tc main_arg2) = W0 m d (Proc.devRef .tc main_arg2)) :
    iprop((K (F := F)).tcSt EH d 1 ∗ boundary (d.tc : Thread nD τ) ∗ held (d.tc : Thread nD τ) (Pipeline.ucRefs τ sig) Wv)
      ⊢ wp frame (wpE ((K (F := F)).defs (D (F := F))) 𝒱 (d.tc : Thread nD τ) none) Set.univ (rest2 (F := F))
          fun _ => iprop((K (F := F)).tcSt EH d 1 ∗ FIN m d) := by
  have hseq := StableHlo.wp_seq (defs := (K (F := F)).defs (D (F := F))) 𝒱 none Set.univ d (Pipeline.ucRefs τ sig)
    (fun _ => (.ret ⟨⟩ : Prog (TpuEff nD τ sig (Elt F) (SparseCore.Sig (ΛP (F := F)) 1) .tc) PUnit))
    (K := fun _ => iprop((K (F := F)).tcSt EH d 1 ∗ FIN m d)) (tailOps (F := F)) tailOps_sub tailOps_fresh Wv
  rw [show (rest2 (F := F)) = (StableHlo.seq (tailOps (F := F)) >>= fun _ => .ret ⟨⟩) from (bind_pure _).symm]
  iintro ⟨Hst, Hb, Hh⟩
  ihave Hw := hseq $$ [Hb Hh]
  · isplitl [Hb] <;> iassumption
  iapply Hw
  iintro ⟨Hb, Hh⟩
  rw [wp_ret]; imodintro
  isplitl [Hst]; · iexact Hst
  unfold FIN
  iexists _
  isplitr
  · ipureintro
    obtain ⟨h0, h1, h2⟩ := tail_args (F := F) Wv
    exact ⟨h0.trans hW.1, h1.trans hW.2.1, h2.trans hW.2.2⟩
  iexact Hh

/-! ## The loss region, then the straight line -/

/-- The loss region writes none of the three arguments: it reads them through input windows. -/
theorem W4_args (We : Dev nD → Valuation τ sig (Elt F)) (c : Dev nD) :
    W4 We c (Proc.devRef .tc main_arg0) = We c (Proc.devRef .tc main_arg0)
    ∧ W4 We c (Proc.devRef .tc main_arg1) = We c (Proc.devRef .tc main_arg1)
    ∧ W4 We c (Proc.devRef .tc main_arg2) = We c (Proc.devRef .tc main_arg2) :=
  ⟨(W4_arr We c 1).trans (((dat2 We c).arrAt_in 1 rfl _).trans (LossRegion.A_eq (F := F) (Ix := HIx 1) (Name := ℕ) (U := UU) (Lvl := ℕ) c (Ve We c) _ _ 1)),
   (W4_arr We c 2).trans (((dat2 We c).arrAt_in 2 rfl _).trans (LossRegion.A_eq (F := F) (Ix := HIx 1) (Name := ℕ) (U := UU) (Lvl := ℕ) c (Ve We c) _ _ 2)),
   (W4_arr We c 0).trans (((dat2 We c).arrAt_in 0 rfl _).trans (LossRegion.A_eq (F := F) (Ix := HIx 1) (Name := ℕ) (U := UU) (Lvl := ℕ) c (Ve We c) _ _ 0))⟩

/-- The recorded pairs' bound in the two spellings. -/
theorem wbelow_iff (d : Dev nD) (n : ℕ) (W : Waits sig (HIx 1)) :
    (K (F := F)).WBelow (SparseCore.T d) W (8 * n) ↔ (↑W : Set (SemLoc sig × HIx 1)) ⊆ Bd (F := F) d n :=
  ⟨fun h p hp => h p (Finset.mem_coe.mp hp), fun h p hp => h (Finset.mem_coe.mpr hp)⟩

set_option backward.isDefEq.respectTransparency.types false in
/-- The loss region and the straight line, from the boundary and every unscoped buffer at contents that agree with the
    launch's on the arguments, the call being over. -/
theorem stage2 (κ : GSem nD τ sig → ℕ) (d : Dev nD) (We : Dev nD → Valuation τ sig (Elt F))
    (hWe : We d (Proc.devRef .tc main_arg0) = W0 m d (Proc.devRef .tc main_arg0) ∧ We d (Proc.devRef .tc main_arg1) = W0 m d (Proc.devRef .tc main_arg1)
      ∧ We d (Proc.devRef .tc main_arg2) = W0 m d (Proc.devRef .tc main_arg2)) :
    iprop((K (F := F)).ctx EH (PP m) κ ∗ (K (F := F)).tcSt EH d 1 ∗ boundary (d.tc : Thread nD τ)
        ∗ held (d.tc : Thread nD τ) (Pipeline.ucRefs τ sig) (We d) ∗ (∃ r, prngReg d r)
        ∗ Pipeline.cellsGhost (Pipeline.pin (pcfgs (F := F)) adm) EP 1 d ∗ Pipeline.toksInit (Pipeline.pin (pcfgs (F := F)) adm) EP 1 d)
      ⊢ wp frame (wpE ((K (F := F)).defs (D (F := F))) 𝒱 (d.tc : Thread nD τ) none) Set.univ (rest1 (F := F))
          fun _ => iprop((K (F := F)).tcSt EH d 1 ∗ FIN m d) := by
  have hreg := wp_region (pdatsB We) (K (F := F)).lev (reg2 We (K (F := F)).lev (by sl_refines_lev)) d
    (fun _ => wp frame (wpE ((K (F := F)).defs (D (F := F))) 𝒱 (d.tc : Thread nD τ) none) Set.univ (rest2 (F := F))
      fun _ => iprop((K (F := F)).tcSt EH d 1 ∗ FIN m d))
  rw [show (rest1 (F := F)) = ((Prog.lift (.customCall (SparseCore.inner (Pipeline.entry 1)) ()) : Prog (TpuEff nD τ sig (Elt F) (SparseCore.Sig (ΛP (F := F)) 1) .tc) PUnit) >>= fun _ => rest2) from rfl, wp_bind]
  refine BI.Entails.trans ?_ hreg
  show iprop(_ ∗ _ ∗ _ ∗ _ ∗ _ ∗ _ ∗ _) ⊢ iprop((iprop(_ ∗ iprop(held (d.tc : Thread nD τ) (Pipeline.ucRefs τ sig) (W4 We d) ∗ Rst (F := F) d 1)) -∗ _)
    ∗ _ ∗ iprop(held (d.tc : Thread nD τ) (Pipeline.ucRefs τ sig) (We d) ∗ Rst (F := F) d 1) ∗ _ ∗ _ ∗ _)
  unfold SparseCore.Cfg.tcSt Rst
  iintro ⟨#Hctx, ⟨⟨%W, %hW, HO⟩, HstR⟩, Hb, Hh, Hp, Hg, Ht⟩
  ihave #Hlev := ((K (F := F)).ctx_levAts (EH := EH) (P := PP m) κ) $$ Hctx
  isplitl [HstR]
  · iintro ⟨Hb, Hh, Hp, %W', %hW', HO⟩
    iapply (stage3 m κ d (W4 We d) ⟨(W4_args We d).1.trans hWe.1, (W4_args We d).2.1.trans hWe.2.1, (W4_args We d).2.2.trans hWe.2.2⟩)
    unfold SparseCore.Cfg.tcSt
    isplitl [HO HstR]
    · isplitl [HO]
      · iexists W'; isplitr; · ipureintro; exact (wbelow_iff d 1 W').mpr hW'
        iexact HO
      iexact HstR
    isplitl [Hb] <;> iassumption
  isplitl [Hb]; · iexact Hb
  isplitl [Hh Hp HO]
  · isplitl [Hh]; · iexact Hh
    isplitl [Hp]; · iexact Hp
    iexists W; isplitr; · ipureintro; exact (wbelow_iff d 1 W).mp hW
    iexact HO
  isplitr; · iexact Hlev
  isplitl [Hg] <;> iassumption

/-! ## The SparseCore call, then the rest -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev mk' : DevRef τ sig := Proc.devRef .tc (main_v0 : Ref sig .tc)
abbrev pt' : DevRef τ sig := Proc.devRef .tc (main_v1 : Ref sig .tc)
/-- The call's four arrays. -/
abbrev T4 : Finset (DevRef τ sig) := {a0', a1', mk', pt'}
theorem hT4 : T4 ⊆ Pipeline.ucRefs τ sig := by decide

theorem held_T4 (d : Dev nD) (Wv : Valuation τ sig (Elt F)) :
    (held (d.tc : Thread nD τ) T4 Wv : sProp 𝕄)
      = iprop((ScTile.a0Loc d ↦{fullShare} Wv a0') ∗ (ScTile.a1Loc d ↦{fullShare} Wv a1') ∗ (ScTile.mkLoc d ↦{fullShare} Wv mk') ∗ ScTile.ptLoc d ↦{fullShare} Wv pt') := by
  unfold held T4
  rw [SparseCore.bigSep_insert' (by decide), SparseCore.bigSep_insert' (by decide), SparseCore.bigSep_insert' (by decide), bigSep_singleton]

/-- The mask region writes none of the arguments nor the partial sums' array. -/
theorem W2_a0 (c : Dev nD) : W2 m c a0' = W0 m c a0' := W2_of_ne m c main_arg0 (by decide)
theorem W2_a1 (c : Dev nD) : W2 m c a1' = W0 m c a1' := W2_of_ne m c main_arg1 (by decide)
theorem W2_pt (c : Dev nD) : W2 m c pt' = W0 m c pt' := W2_of_ne m c main_v1 (by decide)
theorem W2_a2 (c : Dev nD) : W2 m c a2' = W0 m c a2' :=
  (W2_arr m c 0).trans (((dat0 m c).arrAt_in 0 rfl _).trans (MaskRegion.A_eq (F := F) (Ix := HIx 1) (Name := ℕ) (U := UU) (Lvl := ℕ) c (V0 m c) _ _ 0))

/-- After the call: the partial sums' array at what the tiles left, everything else as the mask region left it. -/
abbrev W3 (f : (pt' : DevRef τ sig).ty.Contents (Elt F)) : Dev nD → Valuation τ sig (Elt F) := fun c => Function.update (W2 m c) pt' f

/-- The buffers outside the call's four are untouched by the update of the partial sums' array. -/
theorem held_rest (d : Dev nD) (f : (pt' : DevRef τ sig).ty.Contents (Elt F)) :
    (held (d.tc : Thread nD τ) (Pipeline.ucRefs τ sig \ T4) (W3 m f d) : sProp 𝕄) = held (d.tc : Thread nD τ) (Pipeline.ucRefs τ sig \ T4) (W2 m d) :=
  StableHlo.held_congr (d.tc : Thread nD τ) fun b hb =>
    Function.update_of_ne (fun e => (Finset.mem_sdiff.mp hb).2 (by rw [e]; decide)) _ _

set_option backward.isDefEq.respectTransparency.types false in
/-- The SparseCore call and everything after it, from the boundary and every unscoped buffer as the mask region left
    it: the four arrays of the call go to the SparseCores and come back, the partial sums' at some contents. -/
theorem stage1 (κ : GSem nD τ sig → ℕ) (d : Dev nD) :
    iprop((K (F := F)).ctx EH (PP m) κ ∗ (K (F := F)).tcSt EH d 0 ∗ boundary (d.tc : Thread nD τ)
        ∗ held (d.tc : Thread nD τ) (Pipeline.ucRefs τ sig) (W2 m d) ∗ (∃ r, prngReg d r)
        ∗ Pipeline.cellsGhost (Pipeline.pin (pcfgs (F := F)) adm) EP 1 d ∗ Pipeline.toksInit (Pipeline.pin (pcfgs (F := F)) adm) EP 1 d)
      ⊢ wp frame (wpE ((K (F := F)).defs (D (F := F))) 𝒱 (d.tc : Thread nD τ) none) Set.univ (rest0 (F := F) d)
          fun _ => iprop((K (F := F)).tcSt EH d 1 ∗ FIN m d) := by
  have hrun := (K (F := F)).wp_run (D (F := F)) 𝒱 (EH := EH) (P := PP m) κ d 0
    (Φ := fun _ => wp frame (wpE ((K (F := F)).defs (D (F := F))) 𝒱 (d.tc : Thread nD τ) none) Set.univ (rest1 (F := F))
      fun _ => iprop((K (F := F)).tcSt EH d 1 ∗ FIN m d))
  rw [show (rest0 (F := F) d) = ((K (F := F)).run d 0 >>= fun _ => rest1) from rfl, wp_bind]
  refine BI.Entails.trans ?_ hrun
  rw [StableHlo.held_sub_split (d.tc : Thread nD τ) hT4 (W2 m d), held_T4, W2_a0, W2_a1, W2_pt]
  show iprop(_ ∗ _ ∗ _ ∗ (iprop(_ ∗ _ ∗ _ ∗ _) ∗ _) ∗ _ ∗ _ ∗ _) ⊢ iprop(_ ∗ (K (F := F)).tcSt EH d 0 ∗ _ ∗ (iprop((K (F := F)).tcSt EH d 1 ∗ _) -∗ _))
  iintro ⟨#Hctx, Hst, Hb, ⟨⟨H0, H1, Hm, Hp⟩, Hrest⟩, Hprng, Hg, Ht⟩
  isplitr; · iexact Hctx
  isplitl [Hst]; · iexact Hst
  isplitl [H0 H1 Hm Hp]
  · iapply (ScTile.st0_intro (F := F) (X0 m) (X1 m) (Mk m) (R0 m) d)
    isplitl [H0]; · iexact H0
    isplitl [H1]; · iexact H1
    isplitl [Hm]; · iexact Hm
    iexact Hp
  iintro ⟨Hst, Hdn⟩
  ihave Hdn' := (ScTile.dn0_elim (F := F) (X0 m) (X1 m) (Mk m) (R0 m) d) $$ Hdn
  icases Hdn' with ⟨H0, H1, Hm, %f, Hp⟩
  iapply (stage2 m κ d (W3 m f) ⟨(Function.update_of_ne (by decide) _ _).trans (W2_a0 m d), (Function.update_of_ne (by decide) _ _).trans (W2_a1 m d),
    (Function.update_of_ne (by decide) _ _).trans (W2_a2 m d)⟩)
  isplitr; · iexact Hctx
  isplitl [Hst]; · iexact Hst
  isplitl [Hb]; · iexact Hb
  isplitl [H0 H1 Hm Hp Hrest]
  · rw [StableHlo.held_sub_split (d.tc : Thread nD τ) hT4 (W3 m f d), held_T4,
      held_rest m d f,
      show W3 m f d a0' = W0 m d a0' from (Function.update_of_ne (by decide) _ _).trans (W2_a0 m d),
      show W3 m f d a1' = W0 m d a1' from (Function.update_of_ne (by decide) _ _).trans (W2_a1 m d),
      show W3 m f d mk' = W2 m d mk' from Function.update_of_ne (by decide) _ _,
      show W3 m f d pt' = f from Function.update_self _ _ _]
    isplitl [H0 H1 Hm Hp]
    · isplitl [H0]; · iexact H0
      isplitl [H1]; · iexact H1
      isplitl [Hm]; · iexact Hm
      iexact Hp
    iexact Hrest
  isplitl [Hprng]; · iexact Hprng
  isplitl [Hg] <;> iassumption

/-! ## @main -/

set_option backward.isDefEq.respectTransparency.types false in
/-- @main on device `d`'s TensorCore, from what the launch deals it: the mask region from the launch contents, then the
    call, the loss region and the straight line; at the end the TensorCore stands after the one call and every
    unscoped buffer is held at contents that agree with the launch's on the three arguments. -/
theorem hmain (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (SparseCore.T d) none) Set.univ (main (F := F) d)
          fun _ => iprop((K (F := F)).tcSt EH d 1 ∗ FIN m d) := by
  have hreg := wp_region (pdatsA m) (K (F := F)).lev (reg0 m (K (F := F)).lev (by sl_refines_lev)) d
    (fun _ => wp frame (wpE ((K (F := F)).defs (D (F := F))) 𝒱 (d.tc : Thread nD τ) none) Set.univ (rest0 (F := F) d)
      fun _ => iprop((K (F := F)).tcSt EH d 1 ∗ FIN m d))
  rw [main_eq', wp_bind]
  refine BI.Entails.trans ?_ hreg
  unfold SparseCore.Cfg.tcRes
  rw [show unscopedBufs d (fun b => m ((SparseCore.T d).loc b)) = held (d.tc : Thread nD τ) (Pipeline.ucRefs τ sig) (W0 m d)
    from Pipeline.unscopedBufs_held d (W0 m d), G_split]
  show iprop(_ ∗ _ ∗ _ ∗ _) ⊢ iprop((iprop(_ ∗ iprop(held (d.tc : Thread nD τ) (Pipeline.ucRefs τ sig) (W2 m d) ∗ Rst (F := F) d 0)) -∗ _)
    ∗ _ ∗ iprop(held (d.tc : Thread nD τ) (Pipeline.ucRefs τ sig) (W0 m d) ∗ Rst (F := F) d 0) ∗ _ ∗ _ ∗ _)
  unfold SparseCore.Cfg.tcSt Rst
  iintro ⟨#Hctx, ⟨⟨%W, %hW, HO⟩, HstR⟩, ⟨Hb, Hh, -, Hprng⟩, ⟨⟨Hg0, Ht0⟩, ⟨Hg1, Ht1⟩⟩⟩
  ihave #Hlev := ((K (F := F)).ctx_levAts (EH := EH) (P := PP m) κ) $$ Hctx
  isplitl [HstR Hg1 Ht1]
  · iintro ⟨Hb, Hh, Hp, %W', %hW', HO⟩
    iapply (stage1 m κ d)
    isplitr; · iexact Hctx
    unfold SparseCore.Cfg.tcSt
    isplitl [HO HstR]
    · isplitl [HO]
      · iexists W'; isplitr; · ipureintro; exact (wbelow_iff d 0 W').mpr hW'
        iexact HO
      iexact HstR
    isplitl [Hb]; · iexact Hb
    isplitl [Hh]; · iexact Hh
    isplitl [Hp]; · iexact Hp
    isplitl [Hg1] <;> iassumption
  isplitl [Hb]; · iexact Hb
  isplitl [Hh Hprng HO]
  · isplitl [Hh]; · iexact Hh
    isplitl [Hprng]; · iexists _; iexact Hprng
    iexists W; isplitr; · ipureintro; exact (wbelow_iff d 0 W).mp hW
    iexact HO
  isplitr; · iexact Hlev
  isplitl [Hg0] <;> iassumption

end Cert.KernelIdeal.Launch

end
-- ==== Proof.LaunchRunI.lean ====
/-
  The run of the whole thread family, from the tile's obligation: the launch theorem for SparseCore programs applied
  to the launch element, @main's proof, the tiles' task and how a SparseCore's operands split among its tiles. What is
  read off the final state: the three argument arrays are as they were launched.
-/
import proofs.«210586_g14980845929080_cont_week2b_1062_66_alg».proof.Proof.LaunchMainI

noncomputable section

namespace Cert.KernelIdeal.Launch

open Cert.KernelIdeal Cert.KernelIdeal.Gen Cert.KernelIdeal.Sc
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)

/-- What is read off a final state on device `d`: the three arguments as launched. -/
def fq (d : Dev nD) (s' : Phys nD τ sig (Elt F)) : Prop :=
  s'.mem.mem ((d.tc : Thread nD τ).1, a0') = W0 m d a0' ∧ s'.mem.mem ((d.tc : Thread nD τ).1, a1') = W0 m d a1' ∧ s'.mem.mem ((d.tc : Thread nD τ).1, a2') = W0 m d a2'

theorem hfin (d : Dev nD) (s' : Phys nD τ sig (Elt F)) : iprop(FIN m d ∗ SI s') ⊢ (⌜fq m d s'⌝ : sProp 𝕄) := by
  unfold FIN held
  iintro ⟨⟨%Wf, %hWf, Hh⟩, HSI⟩
  ihave H := (pointsTo_read_all (Pipeline.ucRefs τ sig) (fun b => ((d.tc : Thread nD τ).1, b)) Wf s') $$ [Hh HSI]
  · isplitl [Hh] <;> iassumption
  icases H with ⟨%hall, -⟩
  ipureintro
  exact ⟨(hall a0' (by decide)).trans hWf.1, (hall a1' (by decide)).trans hWf.2.1, (hall a2' (by decide)).trans hWf.2.2⟩

/-- The frame claim's post: on every device the three argument arrays end as launched. -/
def QC : PUnit × MemSt nD τ sig (Elt F) → Prop := fun r => ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)

/-- Every weakly fair execution of the whole thread family — @main on the TensorCore, the sequencers, the 32 tiles —
    from a memory with all counters at zero terminates, nothing faulting, with the arguments as launched: given that
    one tile's task, at any tile, runs to its end from its share of the operands. -/
theorem run_main (htile : (K (F := F)).TileObl (D (F := F)) 𝒱 (PP m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => htile)
    (fun q _ => match q with | 0 => SparseCore.Cfg.VecSplit.of_plain (ScTile.vecSplit (F := F) (X0 m) (X1 m) (Mk m) (R0 m)))
    m ρ main (fun d => G (F := F) d) (FIN m) (u₀ (F := F)) (sep_elim_left.trans (hu₀ (PP m) rfl)) (hmain m ρ) (fq m) (hfin m) (QC m)
    (fun s' h c => h c)

end Cert.KernelIdeal.Launch

end
-- ==== Proof.ScCommonB.lean ====
/-
  The program as the launch theorem for SparseCore programs sees it: one SparseCore call (a vector-subcore
  kernel on 2 cores of 16 subcores each) between two TensorCore kernel regions, the TensorCore kernels' bodies
  and the SparseCore kernel's in one table. Shared by the modules about each kernel and by the launch.
-/
import proofs.«210586_g14980845929080_cont_week2b_1062_66_alg».proof.Kernel
import proofs.«210586_g14980845929080_cont_week2b_1062_66_alg».proof.Proof.Gen.Kernel
import Idealize.ShloMosaic.Lib.SparseCore.Launch
import Idealize.ShloMosaic.Lib.Pipeline.Kit

noncomputable section

namespace Cert.Kernel.Sc

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The label signature of the two TensorCore kernel regions over the kernels' own labels. -/
abbrev ΛP : Labels := Pipeline.Sig Λ₀ (Fin 2) fun p => (pcfgs (F := F) p).Adm
/-- The SparseCore calls of @main: one. -/
abbrev K : SparseCore.Cfg τ sig (ΛP (F := F)) 1 := sc (F := F)
/-- The body table under the SparseCore dispatch: the kernels' bodies and the two regions' pipelines. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

/-- The launch semaphores are distinct and unscoped where the launch needs them, and no buffer of a SparseCore is
    reassigned per task. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the launch handshakes' rounds, the TensorCore regions' staging cells' rounds, and the
    counters of the kernels' own local copies. -/
abbrev UH : Type := URounds (GSem nD τ sig) ℕ
abbrev UP : Type := URounds (GSem nD τ sig) Unit
abbrev UU : Type := UH × (UP × Counters)

end Cert.Kernel.Sc

end
-- ==== Proof.LaunchElemB.lean ====
/-
  The launch element of the ghost state. The ghost state has three parts: the rounds of the four launch
  handshakes, the rounds of the two TensorCore regions' staging cells, and the counters of the kernels' own local
  copies. At launch the first part is handed to the launch theorem as it is, the second funds each region's staging
  cells and the duty tokens of the transfers its pipeline will issue (to be spent when the region is entered), and
  the third is not needed by anyone before a kernel runs.
-/
import proofs.«210586_g14980845929080_cont_week2b_1062_66_alg».proof.Proof.ScCommonB
import proofs.«210586_g14980845929080_cont_week2b_1062_66_alg».proof.Proof.Gen.Kernel.Launch
import Idealize.ShloMosaic.Lib.Pipeline.Regions

noncomputable section

namespace Cert.Kernel.Launch

open Cert.Kernel Cert.Kernel.Gen Cert.Kernel.Sc
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The handshakes' rounds: the left part. -/
abbrev EH : Emb UH (MT nD τ sig (HIx 1) (Elt F) ℕ UU ℕ) := embL
/-- The staging cells' rounds: the left of the right part. -/
abbrev EP : Emb UP (MT nD τ sig (HIx 1) (Elt F) ℕ UU ℕ) := (Emb.inl : Emb UP (UP × Counters)).trans embR

instance EP_landsIn : (EP : Emb UP 𝕄).LandsIn (upEmb : UEmb _ 𝕄) := by
  first
  | infer_instance
  | (show ((Emb.inl : Emb UP (UP × Counters)).trans ((Emb.inr : Emb (UP × Counters) UU).trans (uEmb (nD := nD) (τ := τ) (sig := sig) (Ix := HIx 1) (Val := Elt F) (Name := ℕ) (U := UU) (Lvl := ℕ)).toEmb)).LandsIn _; infer_instance)

/-- No region's index maps read a table. -/
abbrev adm [FloatOps F] : (p : Fin 2) → (pcfgs (F := F) p).Adm := fun p => (cfgs p).toPCfg_adm

/-- The launch element: every handshake cell and staging cell at round 0 with the duty tokens of everything that
    will ever be signalled on it, the counters at nothing. -/
def u₀ : UU :=
  (initOf (K (F := F)).hsCells (K (F := F)).hsToks, (initOf (Pipeline.cells cfgs cellOf_inj) (Pipeline.launchToks cfgs cellOf_inj), 1))

/-- What the launch hands each TensorCore besides its arrays: both regions' staging cells' ghost state and tokens. -/
def G [FloatOps F] (d : Dev nD) : sProp 𝕄 := Pipeline.ghostOn (pcfgs (F := F)) adm EP Finset.univ d

theorem bigSep_emp' {I : Type} (s : Finset I) : (bigSep s fun _ => iprop(emp)) = (iprop(emp) : sProp 𝕄) := bigSep_emp_const s

/-- The launch element splits as the launch theorem asks, for a SparseCore call whose kernel keeps no ghost state of
    its own across the launch. -/
theorem hu₀ [FloatOps F] (P : (K (F := F)).Pay (nD := nD) (Val := Elt F) (Name := ℕ) (U := UU)) (hx : P.x = fun _ _ => iprop(emp)) :
    (ownU (u₀ (F := F)) : sProp 𝕄)
      ⊢ |={Set.univ}=> iprop(BI.own (EH (initOf (K (F := F)).hsCells (K (F := F)).hsToks)) ∗ (bigSep Finset.univ fun d : Dev nD => G (F := F) d)
          ∗ bigSep Finset.univ fun thr : Thread nD τ => bigSep Finset.univ fun q : Fin 1 => P.x q thr) := by
  unfold u₀
  iintro Hu
  ihave H := (ownU_pair _ _) $$ Hu
  icases H with ⟨HH, HR⟩
  ihave HR' := (own_pair_emb (embR : Emb (UP × Counters) 𝕄) _ _) $$ HR
  icases HR' with ⟨HP, -⟩
  imod (Pipeline.fund_ghost cfgs EP cellOf_inj) $$ HP with ⟨Hg, Ht⟩
  imodintro
  isplitl [HH]; · iexact HH
  isplitl [Hg Ht]
  · have hghost : iprop((bigSep Finset.univ fun c : Dev nD => bigSep Finset.univ fun p => Pipeline.cellsGhost cfgs EP p c)
          ∗ (bigSep Finset.univ fun c : Dev nD => bigSep Finset.univ fun p => (Pipeline.toksInit cfgs EP p c : sProp 𝕄)))
        ⊢ bigSep Finset.univ fun c : Dev nD => G (F := F) c := by
      rw [← bigSep_sep']
      exact bigSep_mono fun c _ => show iprop((bigSep Finset.univ fun p => Pipeline.cellsGhost cfgs EP p c)
            ∗ bigSep Finset.univ fun p => (Pipeline.toksInit cfgs EP p c : sProp 𝕄)) ⊢ G (F := F) c
        from Entails.of_eq (by unfold G Pipeline.ghostOn Pipeline.PerCore.ghostOn; rw [bigSep_sep'])
    iapply hghost
    isplitl [Hg] <;> iassumption
  rw [hx]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Kernel.Launch

end
-- ==== Proof.LaunchRegionB.lean ====
/-
  Entering a TensorCore kernel region from @main of a program that also runs a SparseCore call. The region's rule
  is stated for programs over the regions' own label signature; @main's line is the same call seen through the
  SparseCore dispatch, whose body table runs the inner call's body unchanged. So a region's record (its proof data,
  body obligation and the four entailments around the thread state) gives the line's triple here too.
-/
import proofs.«210586_g14980845929080_cont_week2b_1062_66_alg».proof.Proof.LaunchElemB

noncomputable section

namespace Cert.Kernel.Launch

open Cert.Kernel Cert.Kernel.Gen Cert.Kernel.Sc
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

variable (pdats : (p : Fin 2) → (c : Dev nD) → Pipeline.Dat τ (Elt F) (HIx 1) ℕ UU ℕ (Pipeline.pin (pcfgs (F := F)) adm p) c)
  (lv : GSem nD τ sig → HIx 1 → ℕ)

set_option maxHeartbeats 400000 in
set_option backward.isDefEq.respectTransparency.types false in
/-- A region's line of @main: from the region boundary, the region's entry state, the level facts and
    the region's staging cells' ghost state, to the rest of @main run from the boundary and the region's exit state. -/
theorem wp_region {p : Fin 2}
    (R : Pipeline.RegionSeg (pcfgs (F := F)) adm pdats (none : HIx 1) defs₀ 𝒱₀ (K (F := F)).L lv p) (d : Dev nD)
    (Q : PUnit → sProp 𝕄) :
    iprop((iprop(boundary (d.tc : Thread nD τ) ∗ R.post d) -∗ Q ⟨⟩)
        ∗ boundary (d.tc : Thread nD τ) ∗ R.pre d ∗ levAts (K (F := F)).L lv
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (d.tc : Thread nD τ) none) Set.univ
          (Prog.lift (.customCall (SparseCore.inner (Pipeline.entry p)) ()) : Prog (TpuEff nD τ sig (Elt F) (SparseCore.Sig (ΛP (F := F)) 1) .tc) PUnit) Q := by
  have hprog : (Prog.lift (.customCall (SparseCore.inner (Pipeline.entry p)) ()) : Prog (TpuEff nD τ sig (Elt F) (SparseCore.Sig (ΛP (F := F)) 1) .tc) PUnit)
      = SparseCore.liftProg (.op (.customCall (Pipeline.entry p) ()) fun _ => .ret ⟨⟩) := rfl
  rw [hprog]
  have h1 := Pipeline.RegionSeg.wp (pcfgs (F := F)) adm pdats (none : HIx 1) cellOf_inj EP defs₀ 𝒱₀ (K (F := F)).L lv R d none
    (by intro u h; cases h) (fun _ => .ret ⟨⟩) Q
  have h2 := (K (F := F)).wp_liftProg (D (F := F)) 𝒱 (d.tc : Thread nD τ) Set.univ none
    (.op (.customCall (Pipeline.entry p) ()) fun _ => .ret ⟨⟩) Q
  have hSL : iprop((iprop(boundary (d.tc : Thread nD τ) ∗ R.post d) -∗ Q ⟨⟩)
        ∗ boundary (d.tc : Thread nD τ) ∗ R.pre d ∗ levAts (K (F := F)).L lv
        ∗ Pipeline.cellsGhost (Pipeline.pin (pcfgs (F := F)) adm) EP p d ∗ Pipeline.toksInit (Pipeline.pin (pcfgs (F := F)) adm) EP p d)
      ⊢ iprop((iprop(boundary (d.tc : Thread nD τ) ∗ R.post d) -∗ wp frame (wpE (D (F := F)) 𝒱 (d.tc : Thread nD τ) none) Set.univ (.ret ⟨⟩) Q)
        ∗ boundary (d.tc : Thread nD τ) ∗ R.pre d ∗ levAts (K (F := F)).L lv
        ∗ Pipeline.cellsGhost (Pipeline.pin (pcfgs (F := F)) adm) EP p d ∗ Pipeline.toksInit (Pipeline.pin (pcfgs (F := F)) adm) EP p d) := by
    iintro ⟨Hk, Hb, Hpre, Hlev, Hg, Ht⟩
    isplitl [Hk]
    · iintro H
      rw [wp_ret]; imodintro
      iapply Hk; iexact H
    isplitl [Hb]; · iexact Hb
    isplitl [Hpre]; · iexact Hpre
    isplitl [Hlev]; · iexact Hlev
    isplitl [Hg] <;> iassumption
  exact hSL.trans (h1.trans h2)

end Cert.Kernel.Launch

end
-- ==== Proof.MaskRegionB.lean ====
import proofs.«210586_g14980845929080_cont_week2b_1062_66_alg».proof.Proof.Gen.Kernel.Launch
import proofs.«210586_g14980845929080_cont_week2b_1062_66_alg».proof.Proof.Gen.Kernel.Skeleton
import proofs.«210586_g14980845929080_cont_week2b_1062_66_alg».proof.Proof.Gen.Kernel.Points
import Idealize.ShloMosaic.Lib.Pipeline.FrameBody
import Idealize.ShloMosaic.Lib.WholeRead
import Idealize.ShloMosaic.Lib.Ring
import Idealize.ShloMosaic.Lib.Tactic

set_option maxRecDepth 16384

noncomputable section

namespace Cert.Kernel.MaskRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! # The box-mask kernel: what a grid point leaves in its output block, the body's triple, the proof data -/

/-- The word of the box table at the cell of offsets `off` (batch, box, column). -/
def wd (x0 : Vec F S8x20x4 .i32) (off : Fin 3 → ℕ) (h : ∀ a, off a + S1x1x1.size a ≤ S8x20x4.size a) : Elt F .i32 :=
  x0 ((Rect.unit (s := S8x20x4) off S1x1x1.size h).toLoadRect.idx (Shape.Idx.first (numel1_S1x1x1.symm ▸ Nat.one_pos)))

/-- A scalar load through a whole memref held at the contents that read `x0` reads the table's word. -/
theorem readAt_wd (arg2 : Memref sig .tc .smem S8x20x4 .i32) (harg2 : arg2.IsWhole) (x0 : Vec F S8x20x4 .i32)
    (off : Fin 3 → ℕ) (h : ∀ a, off a + S1x1x1.size a ≤ S8x20x4.size a) :
    arg2.view.readAt (Elt F) (Rect.unit (s := S8x20x4) off S1x1x1.size h).toLoadRect (harg2.unread x0)
        (Shape.Idx.first (numel1_S1x1x1.symm ▸ Nat.one_pos)) = wd x0 off h :=
  harg2.readAt_unread x0 _ _

/-! ## The running mask, stage by stage: each stage is the disjunction so far with the next boxes' four comparisons -/

def s25 (x0 : Vec F S8x20x4 .i32) (i : grid0.Coords) : IVec S32x224 1 :=
  k0_pay3 i (wd x0 (k0_off1 i) (k0_off1_inb i)) (wd x0 (k0_off2 i) (k0_off2_inb i)) (wd x0 (k0_off3 i) (k0_off3_inb i)) (wd x0 (k0_off4 i) (k0_off4_inb i))

def s38 (x0 : Vec F S8x20x4 .i32) (i : grid0.Coords) : IVec S32x224 1 :=
  k0_pay4 i (wd x0 (k0_off6 i) (k0_off6_inb i)) (wd x0 (k0_off8 i) (k0_off8_inb i))

def s39 (x0 : Vec F S8x20x4 .i32) (i : grid0.Coords) : IVec S32x224 32 :=
  k0_pay5 (wd x0 (k0_off7 i) (k0_off7_inb i))

def s65 (x0 : Vec F S8x20x4 .i32) (i : grid0.Coords) : IVec S32x224 1 :=
  k0_pay6 (k0_pay2 i) (iota .tc S32x224 32 [1] iota_S32x224_d1_w32) (s25 x0 i) (wd x0 (k0_off5 i) (k0_off5_inb i)) (s38 x0 i) (s39 x0 i) (wd x0 (k0_off9 i) (k0_off9_inb i)) (wd x0 (k0_off10 i) (k0_off10_inb i)) (wd x0 (k0_off11 i) (k0_off11_inb i)) (wd x0 (k0_off12 i) (k0_off12_inb i))

def s81 (x0 : Vec F S8x20x4 .i32) (i : grid0.Coords) : IVec S32x224 1 :=
  k0_pay7 (k0_pay2 i) (iota .tc S32x224 32 [1] iota_S32x224_d1_w32) (wd x0 (k0_off14 i) (k0_off14_inb i)) (wd x0 (k0_off15 i) (k0_off15_inb i)) (wd x0 (k0_off16 i) (k0_off16_inb i))

def s83 (x0 : Vec F S8x20x4 .i32) (i : grid0.Coords) : IVec S32x224 1 :=
  k0_pay8 (iota .tc S32x224 32 [1] iota_S32x224_d1_w32) (wd x0 (k0_off13 i) (k0_off13_inb i))

def s125 (x0 : Vec F S8x20x4 .i32) (i : grid0.Coords) : IVec S32x224 1 :=
  k0_pay9 (k0_pay2 i) (iota .tc S32x224 32 [1] iota_S32x224_d1_w32) (s65 x0 i) (s81 x0 i) (s83 x0 i) (wd x0 (k0_off17 i) (k0_off17_inb i)) (wd x0 (k0_off18 i) (k0_off18_inb i)) (wd x0 (k0_off19 i) (k0_off19_inb i)) (wd x0 (k0_off20 i) (k0_off20_inb i)) (wd x0 (k0_off21 i) (k0_off21_inb i)) (wd x0 (k0_off22 i) (k0_off22_inb i)) (wd x0 (k0_off23 i) (k0_off23_inb i)) (wd x0 (k0_off24 i) (k0_off24_inb i))

def s165 (x0 : Vec F S8x20x4 .i32) (i : grid0.Coords) : IVec S32x224 1 :=
  k0_pay10 (k0_pay2 i) (iota .tc S32x224 32 [1] iota_S32x224_d1_w32) (s125 x0 i) (wd x0 (k0_off25 i) (k0_off25_inb i)) (wd x0 (k0_off26 i) (k0_off26_inb i)) (wd x0 (k0_off27 i) (k0_off27_inb i)) (wd x0 (k0_off28 i) (k0_off28_inb i)) (wd x0 (k0_off29 i) (k0_off29_inb i)) (wd x0 (k0_off30 i) (k0_off30_inb i)) (wd x0 (k0_off31 i) (k0_off31_inb i)) (wd x0 (k0_off32 i) (k0_off32_inb i))

def s205 (x0 : Vec F S8x20x4 .i32) (i : grid0.Coords) : IVec S32x224 1 :=
  k0_pay11 (k0_pay2 i) (iota .tc S32x224 32 [1] iota_S32x224_d1_w32) (s165 x0 i) (wd x0 (k0_off33 i) (k0_off33_inb i)) (wd x0 (k0_off34 i) (k0_off34_inb i)) (wd x0 (k0_off35 i) (k0_off35_inb i)) (wd x0 (k0_off36 i) (k0_off36_inb i)) (wd x0 (k0_off37 i) (k0_off37_inb i)) (wd x0 (k0_off38 i) (k0_off38_inb i)) (wd x0 (k0_off39 i) (k0_off39_inb i)) (wd x0 (k0_off40 i) (k0_off40_inb i))

def s245 (x0 : Vec F S8x20x4 .i32) (i : grid0.Coords) : IVec S32x224 1 :=
  k0_pay12 (k0_pay2 i) (iota .tc S32x224 32 [1] iota_S32x224_d1_w32) (s205 x0 i) (wd x0 (k0_off41 i) (k0_off41_inb i)) (wd x0 (k0_off42 i) (k0_off42_inb i)) (wd x0 (k0_off43 i) (k0_off43_inb i)) (wd x0 (k0_off44 i) (k0_off44_inb i)) (wd x0 (k0_off45 i) (k0_off45_inb i)) (wd x0 (k0_off46 i) (k0_off46_inb i)) (wd x0 (k0_off47 i) (k0_off47_inb i)) (wd x0 (k0_off48 i) (k0_off48_inb i))

def s285 (x0 : Vec F S8x20x4 .i32) (i : grid0.Coords) : IVec S32x224 1 :=
  k0_pay13 (k0_pay2 i) (iota .tc S32x224 32 [1] iota_S32x224_d1_w32) (s245 x0 i) (wd x0 (k0_off49 i) (k0_off49_inb i)) (wd x0 (k0_off50 i) (k0_off50_inb i)) (wd x0 (k0_off51 i) (k0_off51_inb i)) (wd x0 (k0_off52 i) (k0_off52_inb i)) (wd x0 (k0_off53 i) (k0_off53_inb i)) (wd x0 (k0_off54 i) (k0_off54_inb i)) (wd x0 (k0_off55 i) (k0_off55_inb i)) (wd x0 (k0_off56 i) (k0_off56_inb i))

def s295 (x0 : Vec F S8x20x4 .i32) (i : grid0.Coords) : IVec S32x224 1 :=
  k0_pay14 (k0_pay2 i) (wd x0 (k0_off58 i) (k0_off58_inb i))

def s325 (x0 : Vec F S8x20x4 .i32) (i : grid0.Coords) : IVec S32x224 1 :=
  k0_pay15 (k0_pay2 i) (iota .tc S32x224 32 [1] iota_S32x224_d1_w32) (s285 x0 i) (wd x0 (k0_off57 i) (k0_off57_inb i)) (wd x0 (k0_off59 i) (k0_off59_inb i)) (wd x0 (k0_off60 i) (k0_off60_inb i)) (s295 x0 i) (wd x0 (k0_off61 i) (k0_off61_inb i)) (wd x0 (k0_off62 i) (k0_off62_inb i)) (wd x0 (k0_off63 i) (k0_off63_inb i)) (wd x0 (k0_off64 i) (k0_off64_inb i))

def s338 (x0 : Vec F S8x20x4 .i32) (i : grid0.Coords) : IVec S32x224 1 :=
  k0_pay16 (k0_pay2 i) (wd x0 (k0_off66 i) (k0_off66_inb i)) (wd x0 (k0_off68 i) (k0_off68_inb i))

def s339 (x0 : Vec F S8x20x4 .i32) (i : grid0.Coords) : IVec S32x224 32 :=
  k0_pay17 (wd x0 (k0_off67 i) (k0_off67_inb i))

def s365 (x0 : Vec F S8x20x4 .i32) (i : grid0.Coords) : IVec S32x224 1 :=
  k0_pay18 (k0_pay2 i) (iota .tc S32x224 32 [1] iota_S32x224_d1_w32) (s325 x0 i) (wd x0 (k0_off65 i) (k0_off65_inb i)) (s338 x0 i) (s339 x0 i) (wd x0 (k0_off69 i) (k0_off69_inb i)) (wd x0 (k0_off70 i) (k0_off70_inb i)) (wd x0 (k0_off71 i) (k0_off71_inb i)) (wd x0 (k0_off72 i) (k0_off72_inb i))

def s381 (x0 : Vec F S8x20x4 .i32) (i : grid0.Coords) : IVec S32x224 1 :=
  k0_pay19 (k0_pay2 i) (iota .tc S32x224 32 [1] iota_S32x224_d1_w32) (wd x0 (k0_off74 i) (k0_off74_inb i)) (wd x0 (k0_off75 i) (k0_off75_inb i)) (wd x0 (k0_off76 i) (k0_off76_inb i))

def s383 (x0 : Vec F S8x20x4 .i32) (i : grid0.Coords) : IVec S32x224 1 :=
  k0_pay20 (iota .tc S32x224 32 [1] iota_S32x224_d1_w32) (wd x0 (k0_off73 i) (k0_off73_inb i))

abbrev r0_0 : Rect S1x32x256 := Rect.unit (s := S1x32x256) ![0, 0, 0] S1x32x256.size inb_S1x32x256_S1x32x256_0_0_0

/-- The output block's staging buffer after the body at point `i`, from the box table's contents: the one
    covering store's payload (the mask as floats, the per-group maxima, zeros). -/
def out0_1 (x0 : Vec F S8x20x4 .i32) (i : grid0.Coords) : Vec F S1x32x256 .f32 :=
  View.canon [⟨r0_0, k0_pay1 (k0_pay2 i) (iota .tc S32x224 32 [1] iota_S32x224_d1_w32) (s365 x0 i) (s381 x0 i) (s383 x0 i) (wd x0 (k0_off77 i) (k0_off77_inb i)) (wd x0 (k0_off78 i) (k0_off78_inb i)) (wd x0 (k0_off79 i) (k0_off79_inb i)) (wd x0 (k0_off80 i) (k0_off80_inb i))⟩]

/-- The one store covers the block. -/
theorem cover0_1 (p0 : Vec F S1x32x256 .f32) (y : S1x32x256.Idx) :
    ∃ pc ∈ ([⟨r0_0, p0⟩] : List (View.Piece (Elt F) S1x32x256 .f32)), y ∈ pc.1.set :=
  View.cover_of_tiled [⟨r0_0, p0⟩] S1x32x256.size (by rfl) y

set_option maxHeartbeats 1000000 in
/-- The kernel body on whole staging memrefs, the box table's at read contents `x0` and the output block's at anything,
    runs to the continuation holding the table's as it was and the output block's at `out0_1 x0 i`: the body's 80 scalar
    loads read the table's words, and its one store covers the block. For any variants, bound and mask. -/
theorem sound_kernel (𝒱₀ : Variants) (bd : Option 𝒱₀.V) (c : Dev nD) (E : Set Name) (i : grid0.Coords)
    (arg2 : Memref sig .tc .smem S8x20x4 .i32) (harg2 : arg2.IsWhole) (arg3 : Memref sig .tc .vmem S1x32x256 .f32) (harg3 : arg3.IsWhole)
    (x0 : Vec F S8x20x4 .i32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0 i)) -∗ K ⟨⟩))
      ⊢ wp frame (wpE (defs₀ (F := F)) 𝒱₀ c bd) E (cc0__mask_body i arg2 harg2 arg3 harg3) K := by
  simp only [cc0__mask_body_eq_skeleton]; unfold cc0__mask_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The proof data -/

/-- The region's invariant on core `c`: the core's scoped buffers that are no staging buffer of the region, at some
    contents each, and its generator register at some state — what the body never touches. -/
def ΦG (c : Dev nD) : sProp 𝕄 :=
  iprop(Pipeline.scopedRest (Ix := Ix) (Name := Name) (U := U) (Lvl := Lvl) (Val := Elt F) spec0 c ∗ ∃ r, prngReg c r)

section Data
variable (c : Dev nD) (V : (b : Ref sig .tc) → Buf (Elt F) ((c : Thread nD τ).loc b))

/-- Window `w`'s block at point `t`, read off its array as the region finds it (`V`). -/
def iblk (w : Fin cfg0.W) (t : Fin cfg0.N) : ((cfg0.win w).xblock (cfg0.grid.coords t)).Idx → Elt F (cfg0.win w).elt :=
  ((cfg0.win w).blk t).view.read (Elt F) (V (Pipeline.arrRef spec0 w))

/-- The box table's staging buffer holds the table at every point, fetched there or not, for any proof data whose
    array is `V`'s and whose body leaves the block in place. -/
theorem before0_0_of (dat : Dat τ (Elt F) Ix Name U Lvl cfg0 c) (hA : dat.A 0 = V (Pipeline.arrRef spec0 0))
    (hafter : ∀ t, dat.after 0 t = iblk c V 0 t) (t : Fin cfg0.N) (d) : dat.before 0 t d = iblk c V 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The proof data of the mask region on core `c`: the arrays as the region finds them (`V`); after the body at point
    `t` the table's buffer at the table and the output block's at `out0_1` of the table and the point; the invariant
    `ΦG`; the core owing the constant tallies `O`, its recorded pairs within `B`; full shares. -/
def dats (O : CellTallies nD τ sig Ix) (B : Set (SemLoc sig × Ix)) : Dat τ (Elt F) Ix Name U Lvl cfg0 c where
  A w := V (Pipeline.arrRef spec0 w)
  after w t := match w with
    | ⟨0, _⟩ => iblk c V 0 t
    | ⟨1, _⟩ => out0_1 (iblk c V 0 t) (grid0.coords t)
  Φ _ := ΦG c
  q _ := fullShare
  owed _ := O
  recorded _ := B

variable (O : CellTallies nD τ sig Ix) (B : Set (SemLoc sig × Ix))

local notation "𝔻" => dats (F := F) (Ix := Ix) (Name := Name) (U := U) (Lvl := Lvl) c V O B

theorem A_eq (w : Fin cfg0.W) : (𝔻).A w = V (Pipeline.arrRef spec0 w) := by
  dsimp only [dats]

theorem after0_0 (t : Fin cfg0.N) : (𝔻).after 0 t = iblk c V 0 t := by dsimp only [dats]
theorem after0_1 (t : Fin cfg0.N) :
    (𝔻).after 1 t = out0_1 (iblk c V 0 t) (grid0.coords t) := by dsimp only [dats]

theorem before0_0 (t : Fin cfg0.N) (d) : (𝔻).before 0 t d = iblk c V 0 t :=
  before0_0_of c V (𝔻) (A_eq (Name := Name) (U := U) (Lvl := Lvl) c V O B 0) (after0_0 (Name := Name) (U := U) (Lvl := Lvl) c V O B) t d

/-! ## The body obligation, at a generic point -/

/-- What the body is called with at point `t`, the windows one by one, -/
def bodyPre (ι : Ix) (t : Fin cfg0.N) : sProp 𝕄 :=
  iprop((𝔻).Φ t.castSucc ∗ (𝔻).owesAt ι t.castSucc
    ∗ (∃ d, owns (c : Thread nD τ) (st0_0 t) fullShare ((𝔻).before 0 t d))
    ∗ (∃ d, owns (c : Thread nD τ) (st0_1 t) fullShare ((𝔻).before 1 t d)))

/-- and what it returns. -/
def bodyPost (ι : Ix) (t : Fin cfg0.N) : sProp 𝕄 :=
  iprop((𝔻).Φ t.succ ∗ (𝔻).owesAt ι t.succ
    ∗ owns (c : Thread nD τ) (st0_0 t) fullShare ((𝔻).after 0 t)
    ∗ owns (c : Thread nD τ) (st0_1 t) fullShare ((𝔻).after 1 t))

/-- The body at any point: the table's memref holds the table, so `sound_kernel` applies; the invariant and the core's
    `owes` pass through unread. -/
theorem sound_body (𝒱₀ : Variants) (ι : Ix) (t : Fin cfg0.N) :
    bodyPre (Name := Name) (U := U) (Lvl := Lvl) c V O B ι t ⊢ wp frame (wpE (defs₀ (F := F)) 𝒱₀ c none) Set.univ (bodyAt0 t) (fun _ => bodyPost (Name := Name) (U := U) (Lvl := Lvl) c V O B ι t) := by
  unfold bodyPre bodyPost bodyAt0
  simp only [before0_0]
  rw [show (𝔻).Φ t.succ = (𝔻).Φ t.castSucc from rfl,
    show (𝔻).owesAt ι t.succ = (𝔻).owesAt ι t.castSucc from rfl,
    after0_0, after0_1]
  iintro ⟨HΦ, Ho, ⟨%d0, H0⟩, ⟨%d1, H1⟩⟩
  iapply (sound_kernel 𝒱₀ none c Set.univ (grid0.coords t) _ _ _ _ (iblk c V 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (𝒱₀ : Variants) (ι : Ix) :
    BodyObligation (𝔻) (defs₀ (F := F)) 𝒱₀ ι Set.univ := fun t => by
  rw [bigSep_W0, bigSep_W0]
  exact sound_body (Name := Name) (U := U) (Lvl := Lvl) c V O B 𝒱₀ ι t

end Data

end Cert.Kernel.MaskRegion

end
-- ==== Proof.RegMaskB.lean ====
/-
  The mask region as a segment of @main's proof. The region is entered with every unscoped buffer at its launch
  contents; it reads the box table and writes maskf, so at its exit maskf holds what the pipeline's write-backs
  leave (block (b, hb) is what point (b, hb) wrote) and every other buffer is as it was. Beside the buffers ride
  the generator register and what the TensorCore still owes the SparseCores (a start signal per core of the later
  call), with the bound on the wait pairs it has recorded: the region's own waits are recorded at the lowest level,
  below everything it owes, so the bound is kept.
-/
import proofs.«210586_g14980845929080_cont_week2b_1062_66_alg».proof.Proof.LaunchRegionB
import proofs.«210586_g14980845929080_cont_week2b_1062_66_alg».proof.Proof.MaskRegionB
import Idealize.ShloMosaic.Lib.Pipeline.RegionsLoop
import Idealize.ShloMosaic.Lib.Pipeline.FrameSuffix

noncomputable section

namespace Cert.Kernel.Launch

open Cert.Kernel Cert.Kernel.Gen Cert.Kernel.Sc
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

/-- Everything the TensorCore owes is a start signal of some call: nothing at the index of a kernel's own waits. -/
theorem Otc_none (d : Dev nD) (n : ℕ) (g : GSem nD τ sig) : (K (F := F)).Otc d n g none = 0 := by
  by_contra h
  have := (K (F := F)).lev_of_Otc_pos (Nat.pos_of_ne_zero h)
  rw [SparseCore.Cfg.lev_none] at this; omega

/-- The wait pairs at or below the level of everything that precedes call `n`. -/
def Bd (c : Dev nD) (n : ℕ) : Set (SemLoc sig × HIx 1) := {p | (K (F := F)).lev ((c.tc : Thread nD τ), p.1) p.2 ≤ 8 * n}

/-- What rides beside the buffers before call `n`: the generator register at some state, and the TensorCore's debts with
    the bound on its recorded pairs. -/
def Rst (c : Dev nD) (n : ℕ) : sProp 𝕄 :=
  iprop((∃ r, prngReg c r) ∗ ∃ W : Waits sig (HIx 1), ⌜(↑W : Set (SemLoc sig × HIx 1)) ⊆ Bd (F := F) c n⌝ ∗ owes (c.tc : Thread nD τ) ((K (F := F)).Otc c n) W)

variable (m : (ℓ : Loc nD τ sig) → Buf (Elt F) ℓ)

/-- Core `c`'s buffers at launch, -/
abbrev W0 (c : Dev nD) : Valuation τ sig (Elt F) := fun b => m (c, b)
/-- read at the TensorCore's references. -/
abbrev V0 : (c : Dev nD) → (b : Ref sig .tc) → Buf (Elt F) ((c : Thread nD τ).loc b) := fun c b => W0 m c b

/-- The mask region's proof data at the launch contents, the TensorCore owing call 0's start signals throughout. -/
abbrev dat0 (c : Dev nD) : Pipeline.Dat τ (Elt F) (HIx 1) ℕ UU ℕ cfg0 c :=
  MaskRegion.dats (F := F) (Ix := HIx 1) (Name := ℕ) (U := UU) (Lvl := ℕ) c (V0 m c) ((K (F := F)).Otc c 0) (Bd (F := F) c 0)

/-- At the mask region's exit: its arrays at what the pipeline leaves, every other buffer as entered. -/
def W2 (c : Dev nD) : Valuation τ sig (Elt F) :=
  Pipeline.withArrays spec0 c (W0 m c) fun w => (dat0 m c).arrAt w cfg0.N
theorem W2_arr (c : Dev nD) (w : Fin cfg0.W) :
    W2 m c (Proc.devRef .tc (Pipeline.arrRef spec0 w)) = (dat0 m c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 m c).arrAt w cfg0.N = V2 m c (Pipeline.arrRef spec0 w) :=
  (W2_arr m c w).symm
theorem hrest0 (c : Dev nD) : ∀ b, b ∉ Finset.univ.image (Pipeline.arrRef spec0) → V2 m c b = V0 m c b :=
  fun b hb => W2_of_ne m c b fun w e => hb (Finset.mem_image.mpr ⟨w, Finset.mem_univ _, e⟩)

/-- A stand-in for the loss region's proof data in the family the mask region's record is stated over (the record of
    one region never looks at another region's data). -/
def datIdle2 (c : Dev nD) : Pipeline.Dat τ (Elt F) (HIx 1) ℕ UU ℕ cfg2 c where
  A w := V0 m c (Pipeline.arrRef spec2 w)
  after _ _ := fun _ => Classical.arbitrary _
  Φ _ := iprop(emp)
  q _ := fullShare
  owed _ := 0

/-- The proof data family for the mask region's record. -/
def pdatsA : (p : Fin 2) → (c : Dev nD) → Pipeline.Dat τ (Elt F) (HIx 1) ℕ UU ℕ (Pipeline.pin (pcfgs (F := F)) adm p) c
  | ⟨0, _⟩ => fun c => dat0 m c
  | ⟨1, _⟩ => fun c => datIdle2 m c

variable (lv : GSem nD τ sig → HIx 1 → ℕ) (hlv : (K (F := F)).Refines lv)

set_option backward.isDefEq.respectTransparency.types false in
/-- THE MASK REGION over the thread state: entered from every unscoped buffer at the launch contents, left with maskf
    at the pipeline's result; the generator register into the body's invariant and out; the debts and their bound
    through the pipeline unchanged; no semaphore of the kernel's own. -/
def reg0 : Pipeline.RegionSeg (pcfgs (F := F)) adm (pdatsA m) (none : HIx 1) defs₀ 𝒱₀ (K (F := F)).L lv 0 where
  win := launch0.win.to₀
  block_pos := launch0.block_pos
  stage_whole := launch0.stage_whole
  K := PEmpty
  osem k := k.elim
  ho := Pipeline.OwnSemFacts.none _
  hbody c := (MaskRegion.body_obligation (F := F) (Ix := HIx 1) (Name := ℕ) (U := UU) (Lvl := ℕ) c (V0 m c) ((K (F := F)).Otc c 0) (Bd (F := F) c 0) 𝒱₀ none).loose
  hwaits c := Pipeline.cellsWaits_intro (Pipeline.pin (pcfgs (F := F)) adm) (pdatsA m) (none : HIx 1) 0 c (R := levAts (K (F := F)).L lv)
    fun w s t => (K (F := F)).mayWait_none _ (fun g => Otc_none c 0 g) lv hlv
  pre c := iprop(StableHlo.held (c : Thread nD τ) (Pipeline.ucRefs τ sig) (W0 m c) ∗ Rst (F := F) c 0)
  post c := iprop(StableHlo.held (c : Thread nD τ) (Pipeline.ucRefs τ sig) (W2 m c) ∗ Rst (F := F) c 0)
  X c := iprop(∃ r, prngReg c r)
  Y c := iprop(∃ r, prngReg c r)
  Z c := Pipeline.unscopedRest (Ix := HIx 1) (Name := ℕ) (U := UU) (Lvl := ℕ) spec0 c (V0 m c)
  hentry c := by
    rw [Pipeline.ownSems0_none]
    have hsplit := Pipeline.arrays_of_unscopedBufs (p := 0) (pcfgs (F := F)) adm (pdatsA m) launch0.win launch0.arr_whole c
      ((pdatsA m 0 c).share_full fun _ => rfl) (V0 m c) fun _ => rfl
    rw [Pipeline.unscopedBufs_held] at hsplit
    unfold Rst
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun _ h => Or.inl (hW h)
      iexact HO
    isplitl [Hp]; · iexact Hp
    iexact Hrest
  hin c := by
    rw [show (pdatsA m 0 c).Φ 0 = MaskRegion.ΦG (F := F) (Ix := HIx 1) (Name := ℕ) (U := UU) (Lvl := ℕ) c from rfl]; unfold MaskRegion.ΦG
    iintro ⟨Hp, -, Hr⟩
    isplitl [Hr]; · iexact Hr
    iexact Hp
  hout c := by
    rw [Pipeline.ownSems0_none, show (pdatsA m 0 c).Φ (Fin.last _) = MaskRegion.ΦG (F := F) (Ix := HIx 1) (Name := ℕ) (U := UU) (Lvl := ℕ) c from rfl]; unfold MaskRegion.ΦG
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdatsA m) ((pdatsA m 0 c).share_full fun _ => rfl)
      (V0 m c) (V2 m c) ((pdatsA m 0 c).arrAt · cfg0.N) (hF0 m c) (hrest0 m c)
    rw [Pipeline.unscopedBufs_held] at hjoin
    unfold Rst
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro
      intro p hp
      rcases hW hp with h | ⟨w, s, rfl⟩
      · exact h
      · show (K (F := F)).lev _ none ≤ 8 * 0
        rw [SparseCore.Cfg.lev_none]
    iexact HO

end Cert.Kernel.Launch

end
-- ==== Proof.LossRegionB.lean ====
import proofs.«210586_g14980845929080_cont_week2b_1062_66_alg».proof.Proof.Gen.Kernel.Launch
import proofs.«210586_g14980845929080_cont_week2b_1062_66_alg».proof.Proof.Gen.Kernel.Skeleton
import proofs.«210586_g14980845929080_cont_week2b_1062_66_alg».proof.Proof.Gen.Kernel.Points
import Idealize.ShloMosaic.Lib.Pipeline.FrameBody
import Idealize.ShloMosaic.Lib.WholeRead
import Idealize.ShloMosaic.Lib.Ring
import Idealize.ShloMosaic.Lib.Tactic

set_option maxRecDepth 16384

noncomputable section

namespace Cert.Kernel.LossRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! # The loss kernel on the TensorCore: what a grid point leaves in its two result cells, the body's triple, the proof data

  A grid point (b, hb) reads the box table, the block of 32 rows hb·32 … hb·32 + 31 of image b of input and target, and
  the two one-word result cells. It forms, over the block's 32 × 224 pixels, the squared distance over the channels,
  the bit "some channel of the target is not zero", and the bit "the pixel lies in some box" (a disjunction over the
  twenty boxes of four signed comparisons each, the boxes' words read one by one from the table); it adds the sum of
  indicator · distance to the first cell and the sum of the indicators to the second. At the first point the cells
  are first set to zero. -/

/-- The word of the box table at the cell of offsets `off` (batch, box, column). -/
def wd (x : Vec F S8x20x4 .i32) (off : Fin 3 → ℕ) (h : ∀ a, off a + S1x1x1.size a ≤ S8x20x4.size a) : Elt F .i32 :=
  x ((Rect.unit (s := S8x20x4) off S1x1x1.size h).toLoadRect.idx (Shape.Idx.first (numel1_S1x1x1.symm ▸ Nat.one_pos)))

/-- The whole block of input or target. -/
abbrev rB : Rect S1x192x32x224 := Rect.unit (s := S1x192x32x224) ![0, 0, 0, 0] S1x192x32x224.size inb_S1x192x32x224_S1x192x32x224_0_0_0_0
/-- A result cell's one word. -/
abbrev rC : Rect S1x1 := Rect.unit (s := S1x1) ![0, 0] S1x1.size inb_S1x1_S1x1_0_0

/-- The one word a result cell holds. -/
def cellWord (y : Vec F S1x1 .f32) : Elt F .f32 :=
  y (rC.toLoadRect.idx (Shape.Idx.first (numel1_S1x1.symm ▸ Nat.one_pos)))

/-! ## The running box mask, stage by stage: each stage is the disjunction so far with the next boxes' comparisons -/

section Stages
variable (x : Vec F S8x20x4 .i32) (i : grid2.Coords)

/-- The row numbers of the block: hb · 32 + the row within the block. -/
abbrev rows : IVec S32x224 32 := k2_pay7 i
/-- The column numbers. -/
abbrev cols : IVec S32x224 32 := iota .tc S32x224 32 [1] iota_S32x224_d1_w32

def m65 : IVec S32x224 1 :=
  k2_pay9 (rows i) cols k2_pay8 (wd x (k2_off1 i) (k2_off1_inb i)) (wd x (k2_off2 i) (k2_off2_inb i)) (wd x (k2_off3 i) (k2_off3_inb i))
    (wd x (k2_off4 i) (k2_off4_inb i)) (wd x (k2_off5 i) (k2_off5_inb i)) (wd x (k2_off6 i) (k2_off6_inb i)) (wd x (k2_off7 i) (k2_off7_inb i))
    (wd x (k2_off8 i) (k2_off8_inb i))

def m105 : IVec S32x224 1 :=
  k2_pay10 (rows i) cols (m65 x i) (wd x (k2_off9 i) (k2_off9_inb i)) (wd x (k2_off10 i) (k2_off10_inb i)) (wd x (k2_off11 i) (k2_off11_inb i))
    (wd x (k2_off12 i) (k2_off12_inb i)) (wd x (k2_off13 i) (k2_off13_inb i)) (wd x (k2_off14 i) (k2_off14_inb i)) (wd x (k2_off15 i) (k2_off15_inb i))
    (wd x (k2_off16 i) (k2_off16_inb i))

def m115 : IVec S32x224 1 := k2_pay11 (rows i) (wd x (k2_off18 i) (k2_off18_inb i))
def m117 : IVec S32x224 1 := k2_pay12 (rows i) (wd x (k2_off20 i) (k2_off20_inb i))

def m145 : IVec S32x224 1 :=
  k2_pay13 (rows i) cols (m105 x i) (wd x (k2_off17 i) (k2_off17_inb i)) (wd x (k2_off19 i) (k2_off19_inb i)) (m115 x i) (m117 x i)
    (wd x (k2_off21 i) (k2_off21_inb i)) (wd x (k2_off22 i) (k2_off22_inb i)) (wd x (k2_off23 i) (k2_off23_inb i)) (wd x (k2_off24 i) (k2_off24_inb i))

def m161 : IVec S32x224 1 :=
  k2_pay14 (rows i) cols (wd x (k2_off26 i) (k2_off26_inb i)) (wd x (k2_off27 i) (k2_off27_inb i)) (wd x (k2_off28 i) (k2_off28_inb i))

def m205 : IVec S32x224 1 :=
  k2_pay15 (rows i) cols (m145 x i) (wd x (k2_off25 i) (k2_off25_inb i)) (m161 x i) (wd x (k2_off29 i) (k2_off29_inb i))
    (wd x (k2_off30 i) (k2_off30_inb i)) (wd x (k2_off31 i) (k2_off31_inb i)) (wd x (k2_off32 i) (k2_off32_inb i)) (wd x (k2_off33 i) (k2_off33_inb i))
    (wd x (k2_off34 i) (k2_off34_inb i)) (wd x (k2_off35 i) (k2_off35_inb i)) (wd x (k2_off36 i) (k2_off36_inb i))

def m245 : IVec S32x224 1 :=
  k2_pay16 (rows i) cols (m205 x i) (wd x (k2_off37 i) (k2_off37_inb i)) (wd x (k2_off38 i) (k2_off38_inb i)) (wd x (k2_off39 i) (k2_off39_inb i))
    (wd x (k2_off40 i) (k2_off40_inb i)) (wd x (k2_off41 i) (k2_off41_inb i)) (wd x (k2_off42 i) (k2_off42_inb i)) (wd x (k2_off43 i) (k2_off43_inb i))
    (wd x (k2_off44 i) (k2_off44_inb i))

def m285 : IVec S32x224 1 :=
  k2_pay17 (rows i) cols (m245 x i) (wd x (k2_off45 i) (k2_off45_inb i)) (wd x (k2_off46 i) (k2_off46_inb i)) (wd x (k2_off47 i) (k2_off47_inb i))
    (wd x (k2_off48 i) (k2_off48_inb i)) (wd x (k2_off49 i) (k2_off49_inb i)) (wd x (k2_off50 i) (k2_off50_inb i)) (wd x (k2_off51 i) (k2_off51_inb i))
    (wd x (k2_off52 i) (k2_off52_inb i))

def m325 : IVec S32x224 1 :=
  k2_pay18 (rows i) cols (m285 x i) (wd x (k2_off53 i) (k2_off53_inb i)) (wd x (k2_off54 i) (k2_off54_inb i)) (wd x (k2_off55 i) (k2_off55_inb i))
    (wd x (k2_off56 i) (k2_off56_inb i)) (wd x (k2_off57 i) (k2_off57_inb i)) (wd x (k2_off58 i) (k2_off58_inb i)) (wd x (k2_off59 i) (k2_off59_inb i))
    (wd x (k2_off60 i) (k2_off60_inb i))

def m365 : IVec S32x224 1 :=
  k2_pay19 (rows i) cols (m325 x i) (wd x (k2_off61 i) (k2_off61_inb i)) (wd x (k2_off62 i) (k2_off62_inb i)) (wd x (k2_off63 i) (k2_off63_inb i))
    (wd x (k2_off64 i) (k2_off64_inb i)) (wd x (k2_off65 i) (k2_off65_inb i)) (wd x (k2_off66 i) (k2_off66_inb i)) (wd x (k2_off67 i) (k2_off67_inb i))
    (wd x (k2_off68 i) (k2_off68_inb i))

def m405 : IVec S32x224 1 :=
  k2_pay20 (rows i) cols (m365 x i) (wd x (k2_off69 i) (k2_off69_inb i)) (wd x (k2_off70 i) (k2_off70_inb i)) (wd x (k2_off71 i) (k2_off71_inb i))
    (wd x (k2_off72 i) (k2_off72_inb i)) (wd x (k2_off73 i) (k2_off73_inb i)) (wd x (k2_off74 i) (k2_off74_inb i)) (wd x (k2_off75 i) (k2_off75_inb i))
    (wd x (k2_off76 i) (k2_off76_inb i))

def m415 : IVec S32x224 1 := k2_pay21 (rows i) (wd x (k2_off78 i) (k2_off78_inb i))
def m417 : IVec S32x224 1 := k2_pay22 (rows i) (wd x (k2_off80 i) (k2_off80_inb i))

end Stages

/-- The first cell's new word: its old word plus the block's sum of indicator · squared distance. -/
def acc3 (x : Vec F S8x20x4 .i32) (a g : Vec F S1x192x32x224 .f32) (i : grid2.Coords) (old : Elt F .f32) : Elt F .f32 :=
  k2_pay2 (k2_pay5 (View.ld a rB) (View.ld g rB)) (k2_pay6 (View.ld g rB)) cols (m405 x i) (wd x (k2_off77 i) (k2_off77_inb i))
    (wd x (k2_off79 i) (k2_off79_inb i)) (m415 x i) (m417 x i) old

/-- The second cell's new word: its old word plus the block's sum of the indicators. -/
def acc4 (x : Vec F S8x20x4 .i32) (g : Vec F S1x192x32x224 .f32) (i : grid2.Coords) (old : Elt F .f32) : Elt F .f32 :=
  k2_pay3 (k2_pay6 (View.ld g rB)) cols (m405 x i) (wd x (k2_off77 i) (k2_off77_inb i))
    (wd x (k2_off79 i) (k2_off79_inb i)) (m415 x i) (m417 x i) old

/-! ## What the body leaves in the two result cells -/

/-- The condition of the body's one conditional, from the grid coordinates: the point is the first, (0, 0). -/
abbrev cond2 (i : grid2.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first point only — decided over the grid. -/
theorem hcond2 : ∀ t : Fin cfg2.N, cond2 (grid2.coords t) ↔ t.val % 40 = 0 :=
  (by decide +kernel : ∀ t : Fin grid2.N, cond2 (grid2.coords t) ↔ t.val % 40 = 0)

/-- The word the accumulation starts from at point `i`: zero at the first point, else the cell's previous word. -/
def start (i : grid2.Coords) (y : Vec F S1x1 .f32) : Elt F .f32 :=
  if cond2 i then Scalar.ofBits .f32 0x00000000#32 else cellWord y

/-- The first result cell after the body at point `i`, from the box table, the two blocks, the point and the cell's
    previous contents (not read at the first point, where the cell is reset): its previous word, or zero, plus the block's
    sum of indicator · squared distance. -/
def out2_3 (x : Vec F S8x20x4 .i32) (a g : Vec F S1x192x32x224 .f32) (i : grid2.Coords) (y : Vec F S1x1 .f32) : Vec F S1x1 .f32 :=
  fun _ => acc3 x a g i (start i y)

/-- The second result cell after the body at point `i`: its previous word, or zero at the first point, plus the block's
    sum of the indicators. -/
def out2_4 (x : Vec F S8x20x4 .i32) (g : Vec F S1x192x32x224 .f32) (i : grid2.Coords) (y : Vec F S1x1 .f32) : Vec F S1x1 .f32 :=
  fun _ => acc4 x g i (start i y)

theorem start_pos {i : grid2.Coords} (hc : cond2 i) (y : Vec F S1x1 .f32) : start i y = Scalar.ofBits .f32 0x00000000#32 := by
  unfold start; rw [if_pos hc]
theorem start_neg {i : grid2.Coords} (hc : ¬ cond2 i) (y : Vec F S1x1 .f32) : start i y = cellWord y := by
  unfold start; rw [if_neg hc]

/-- At the first point the previous contents do not matter. -/
theorem start_of_cond {i : grid2.Coords} (hc : cond2 i) (y y' : Vec F S1x1 .f32) : start i y = start i y' := by
  unfold start; rw [if_pos hc, if_pos hc]

/-- The cell's offsets are zero. -/
theorem hz : (![0, 0] : Fin 2 → ℕ) = fun _ => 0 := by
  funext a; match a with | ⟨0, _⟩ => rfl | ⟨1, _⟩ => rfl

/-- The stores to the cell cover it (the last alone does); -/
theorem cover_cell (w : rC.shape.Idx → Elt F .f32) (L : List (View.Piece (Elt F) S1x1 .f32)) (y : S1x1.Idx) :
    ∃ p ∈ ((⟨rC, w⟩ : View.Piece (Elt F) S1x1 .f32) :: L), y ∈ p.1.set :=
  ⟨_, List.mem_cons_self, View.mem_set_unit_zero hz inb_S1x1_S1x1_0_0 y⟩

/-- and the last store leaves its word whatever was stored before. -/
theorem canon_cell (w : rC.shape.Idx → Elt F .f32) (L : List (View.Piece (Elt F) S1x1 .f32)) :
    View.canon ((⟨rC, w⟩ : View.Piece (Elt F) S1x1 .f32) :: L) = w :=
  View.canon_cons_unit_zero hz _ w L

/-! ## The body's triple, in its two cases -/

set_option maxHeartbeats 4000000 in
/-- At a point other than the first: the body on whole staging memrefs — the table's, the two blocks' and the two cells'
    at given contents — runs to the continuation holding the inputs' as they were and each cell at its accumulated word. -/
theorem sound_kernel_B (𝒱₀ : Variants) (bd : Option 𝒱₀.V) (c : Dev nD) (E : Set Name) (i : grid2.Coords) (hc : ¬ cond2 i)
    (arg2 : Memref sig .tc .smem S8x20x4 .i32) (harg2 : arg2.IsWhole) (arg3 : Memref sig .tc .vmem S1x192x32x224 .f32) (harg3 : arg3.IsWhole)
    (arg4 : Memref sig .tc .vmem S1x192x32x224 .f32) (harg4 : arg4.IsWhole) (arg5 : Memref sig .tc .smem S1x1 .f32) (harg5 : arg5.IsWhole)
    (arg6 : Memref sig .tc .smem S1x1 .f32) (harg6 : arg6.IsWhole)
    (x : Vec F S8x20x4 .i32) (a g : Vec F S1x192x32x224 .f32) (y3 y4 : Vec F S1x1 .f32) (K : PUnit → sProp 𝕄) :
    iprop(owns (c : Thread nD τ) arg2 fullShare x ∗ owns (c : Thread nD τ) arg3 fullShare a ∗ owns (c : Thread nD τ) arg4 fullShare g
        ∗ owns (c : Thread nD τ) arg5 fullShare y3 ∗ owns (c : Thread nD τ) arg6 fullShare y4
        ∗ (iprop(owns (c : Thread nD τ) arg2 fullShare x ∗ owns (c : Thread nD τ) arg3 fullShare a ∗ owns (c : Thread nD τ) arg4 fullShare g
            ∗ owns (c : Thread nD τ) arg5 fullShare (out2_3 x a g i y3) ∗ owns (c : Thread nD τ) arg6 fullShare (out2_4 x g i y4)) -∗ K ⟨⟩))
      ⊢ wp frame (wpE (defs₀ (F := F)) 𝒱₀ c bd) E (cc2__tc_loss_body i arg2 harg2 arg3 harg3 arg4 harg4 arg5 harg5 arg6 harg6) K := by
  simp only [cc2__tc_loss_body_eq_skeleton]; unfold cc2__tc_loss_body_skel
  unfold owns out2_3 out2_4
  rw [start_neg (F := F) hc y3, start_neg (F := F) hc y4]
  iintro ⟨⟨%f0, %hf0, H0⟩, ⟨%f1, %hf1, H1⟩, ⟨%f2, %hf2, H2⟩, ⟨%f3, %hf3, H3⟩, ⟨%f4, %hf4, H4⟩, Hk⟩
  subst hf0 hf1 hf2 hf3 hf4
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact (View.read_writes_eq_canon _ _ _ (cover_cell (F := F) _ _)).trans (canon_cell (F := F) _ _)
  iexists _; isplitr
  swap; · iexact H4
  ipureintro
  exact (View.read_writes_eq_canon _ _ _ (cover_cell (F := F) _ _)).trans (canon_cell (F := F) _ _)

set_option maxHeartbeats 4000000 in
/-- At the first point: the cells may hold anything; the body resets them, then accumulates from zero. -/
theorem sound_kernel_A (𝒱₀ : Variants) (bd : Option 𝒱₀.V) (c : Dev nD) (E : Set Name) (i : grid2.Coords) (hc : cond2 i)
    (arg2 : Memref sig .tc .smem S8x20x4 .i32) (harg2 : arg2.IsWhole) (arg3 : Memref sig .tc .vmem S1x192x32x224 .f32) (harg3 : arg3.IsWhole)
    (arg4 : Memref sig .tc .vmem S1x192x32x224 .f32) (harg4 : arg4.IsWhole) (arg5 : Memref sig .tc .smem S1x1 .f32) (harg5 : arg5.IsWhole)
    (arg6 : Memref sig .tc .smem S1x1 .f32) (harg6 : arg6.IsWhole)
    (x : Vec F S8x20x4 .i32) (a g : Vec F S1x192x32x224 .f32) (y3 y4 : Vec F S1x1 .f32) (K : PUnit → sProp 𝕄) :
    iprop(owns (c : Thread nD τ) arg2 fullShare x ∗ owns (c : Thread nD τ) arg3 fullShare a ∗ owns (c : Thread nD τ) arg4 fullShare g
        ∗ (∃ d, owns (c : Thread nD τ) arg5 fullShare d) ∗ (∃ d, owns (c : Thread nD τ) arg6 fullShare d)
        ∗ (iprop(owns (c : Thread nD τ) arg2 fullShare x ∗ owns (c : Thread nD τ) arg3 fullShare a ∗ owns (c : Thread nD τ) arg4 fullShare g
            ∗ owns (c : Thread nD τ) arg5 fullShare (out2_3 x a g i y3) ∗ owns (c : Thread nD τ) arg6 fullShare (out2_4 x g i y4)) -∗ K ⟨⟩))
      ⊢ wp frame (wpE (defs₀ (F := F)) 𝒱₀ c bd) E (cc2__tc_loss_body i arg2 harg2 arg3 harg3 arg4 harg4 arg5 harg5 arg6 harg6) K := by
  simp only [cc2__tc_loss_body_eq_skeleton]; unfold cc2__tc_loss_body_skel
  unfold owns out2_3 out2_4
  rw [start_pos (F := F) hc y3, start_pos (F := F) hc y4]
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact (View.read_writes_eq_canon _ _ _ (cover_cell (F := F) _ _)).trans (canon_cell (F := F) _ _)
  iexists _; isplitr
  swap; · iexact H4
  ipureintro
  exact (View.read_writes_eq_canon _ _ _ (cover_cell (F := F) _ _)).trans (canon_cell (F := F) _ _)

/-- THE BODY'S TRIPLE at any point, the cells held at given contents: the two cases joined. -/
theorem sound_kernel (𝒱₀ : Variants) (bd : Option 𝒱₀.V) (c : Dev nD) (E : Set Name) (i : grid2.Coords)
    (arg2 : Memref sig .tc .smem S8x20x4 .i32) (harg2 : arg2.IsWhole) (arg3 : Memref sig .tc .vmem S1x192x32x224 .f32) (harg3 : arg3.IsWhole)
    (arg4 : Memref sig .tc .vmem S1x192x32x224 .f32) (harg4 : arg4.IsWhole) (arg5 : Memref sig .tc .smem S1x1 .f32) (harg5 : arg5.IsWhole)
    (arg6 : Memref sig .tc .smem S1x1 .f32) (harg6 : arg6.IsWhole)
    (x : Vec F S8x20x4 .i32) (a g : Vec F S1x192x32x224 .f32) (y3 y4 : Vec F S1x1 .f32) (K : PUnit → sProp 𝕄) :
    iprop(owns (c : Thread nD τ) arg2 fullShare x ∗ owns (c : Thread nD τ) arg3 fullShare a ∗ owns (c : Thread nD τ) arg4 fullShare g
        ∗ owns (c : Thread nD τ) arg5 fullShare y3 ∗ owns (c : Thread nD τ) arg6 fullShare y4
        ∗ (iprop(owns (c : Thread nD τ) arg2 fullShare x ∗ owns (c : Thread nD τ) arg3 fullShare a ∗ owns (c : Thread nD τ) arg4 fullShare g
            ∗ owns (c : Thread nD τ) arg5 fullShare (out2_3 x a g i y3) ∗ owns (c : Thread nD τ) arg6 fullShare (out2_4 x g i y4)) -∗ K ⟨⟩))
      ⊢ wp frame (wpE (defs₀ (F := F)) 𝒱₀ c bd) E (cc2__tc_loss_body i arg2 harg2 arg3 harg3 arg4 harg4 arg5 harg5 arg6 harg6) K := by
  by_cases hc : cond2 i
  · iintro ⟨H0, H1, H2, H3, H4, Hk⟩
    iapply (sound_kernel_A 𝒱₀ bd c E i hc arg2 harg2 arg3 harg3 arg4 harg4 arg5 harg5 arg6 harg6 x a g y3 y4 K)
    isplitl [H0]; · iexact H0
    isplitl [H1]; · iexact H1
    isplitl [H2]; · iexact H2
    isplitl [H3]; · iexists _; iexact H3
    isplitl [H4]; · iexists _; iexact H4
    iexact Hk
  · exact sound_kernel_B 𝒱₀ bd c E i hc arg2 harg2 arg3 harg3 arg4 harg4 arg5 harg5 arg6 harg6 x a g y3 y4 K

end Cert.Kernel.LossRegion

end
-- ==== Proof.LossRegionDataB.lean ====
import proofs.«210586_g14980845929080_cont_week2b_1062_66_alg».proof.Proof.LossRegionB

set_option maxRecDepth 16384

noncomputable section

namespace Cert.Kernel.LossRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! # The loss kernel's region: what the two result cells hold point by point, the proof data, the body obligation

  The forty grid points run in order. The table's buffer holds the table at every point and each block's buffer its block
  of input or target; the two result cells are carried from each point to the next (they are written back after the
  last point only): after point n they hold the sums over the blocks of points 0 … n. -/

/-- The region's invariant on core `c`: the core's scoped buffers that are no staging buffer of the region, at some
    contents each, and its generator register at some state — what the body never touches. -/
def ΦG (c : Dev nD) : sProp 𝕄 :=
  iprop(Pipeline.scopedRest (Ix := Ix) (Name := Name) (U := U) (Lvl := Lvl) (Val := Elt F) spec2 c ∗ ∃ r, prngReg c r)

/-- A cell holding zero (what the first point's accumulation is stated from; the body resets the cells there). -/
def zeroCell : Vec F S1x1 .f32 := fun _ => Scalar.ofBits .f32 0x00000000#32

section Data
variable (c : Dev nD) (V : (b : Ref sig .tc) → Buf (Elt F) ((c : Thread nD τ).loc b))

/-- Window `w`'s block at point `t`, read off its array as the region finds it (`V`). -/
def iblk (w : Fin cfg2.W) (t : Fin cfg2.N) : ((cfg2.win w).xblock (cfg2.grid.coords t)).Idx → Elt F (cfg2.win w).elt :=
  ((cfg2.win w).blk t).view.read (Elt F) (V (Pipeline.arrRef spec2 w))

/-- An input window's current staging buffer holds its block at every point, fetched there or not, for any proof data
    whose array is `V`'s and whose body leaves the block in place: the box table, -/
theorem before2_0_of (dat : Dat τ (Elt F) Ix Name U Lvl cfg2 c) (hA : dat.A 0 = V (Pipeline.arrRef spec2 0))
    (hafter : ∀ t, dat.after 0 t = iblk c V 0 t) (t : Fin cfg2.N) (d) : dat.before 0 t d = iblk c V 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- the input's block, -/
theorem before2_1_of (dat : Dat τ (Elt F) Ix Name U Lvl cfg2 c) (hA : dat.A 1 = V (Pipeline.arrRef spec2 1))
    (hafter : ∀ t, dat.after 1 t = iblk c V 1 t) (t : Fin cfg2.N) (d) : dat.before 1 t d = iblk c V 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- the target's block. -/
theorem before2_2_of (dat : Dat τ (Elt F) Ix Name U Lvl cfg2 c) (hA : dat.A 2 = V (Pipeline.arrRef spec2 2))
    (hafter : ∀ t, dat.after 2 t = iblk c V 2 t) (t : Fin cfg2.N) (d) : dat.before 2 t d = iblk c V 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- THE ACCUMULATION. What the two result cells hold after the body at position `n`: the body's result at that point's
    table and blocks, over what the position before left (over zero at the first, where the body resets the cells). -/
def cellsAt : (n : ℕ) → n < cfg2.N → Vec F S1x1 .f32 × Vec F S1x1 .f32
  | 0, hn =>
    (out2_3 (iblk c V 0 ⟨0, hn⟩) (iblk c V 1 ⟨0, hn⟩) (iblk c V 2 ⟨0, hn⟩) (grid2.coords ⟨0, hn⟩) zeroCell,
     out2_4 (iblk c V 0 ⟨0, hn⟩) (iblk c V 2 ⟨0, hn⟩) (grid2.coords ⟨0, hn⟩) zeroCell)
  | n + 1, hn =>
    (out2_3 (iblk c V 0 ⟨n + 1, hn⟩) (iblk c V 1 ⟨n + 1, hn⟩) (iblk c V 2 ⟨n + 1, hn⟩) (grid2.coords ⟨n + 1, hn⟩) (cellsAt n (Nat.lt_of_succ_lt hn)).1,
     out2_4 (iblk c V 0 ⟨n + 1, hn⟩) (iblk c V 2 ⟨n + 1, hn⟩) (grid2.coords ⟨n + 1, hn⟩) (cellsAt n (Nat.lt_of_succ_lt hn)).2)

/-- The first cell at the first point: accumulated from zero. -/
theorem cell3_zero (t : Fin cfg2.N) (h0 : t.val = 0) :
    (cellsAt c V t.val t.isLt).1 = out2_3 (iblk c V 0 t) (iblk c V 1 t) (iblk c V 2 t) (grid2.coords t) zeroCell := by
  obtain ⟨n, hn⟩ := t
  cases n with
  | zero => rfl
  | succ n => exact absurd h0 (Nat.succ_ne_zero n)
/-- The second cell at the first point. -/
theorem cell4_zero (t : Fin cfg2.N) (h0 : t.val = 0) :
    (cellsAt c V t.val t.isLt).2 = out2_4 (iblk c V 0 t) (iblk c V 2 t) (grid2.coords t) zeroCell := by
  obtain ⟨n, hn⟩ := t
  cases n with
  | zero => rfl
  | succ n => exact absurd h0 (Nat.succ_ne_zero n)
/-- The first cell at a later point: accumulated over what the point before left. -/
theorem cell3_pos (t : Fin cfg2.N) (h0 : t.val ≠ 0) :
    (cellsAt c V t.val t.isLt).1 = out2_3 (iblk c V 0 t) (iblk c V 1 t) (iblk c V 2 t) (grid2.coords t)
      (cellsAt c V (t.val - 1) (Nat.lt_of_le_of_lt (Nat.sub_le _ _) t.isLt)).1 := by
  obtain ⟨n, hn⟩ := t
  cases n with
  | zero => exact absurd rfl h0
  | succ n => rfl
/-- The second cell at a later point. -/
theorem cell4_pos (t : Fin cfg2.N) (h0 : t.val ≠ 0) :
    (cellsAt c V t.val t.isLt).2 = out2_4 (iblk c V 0 t) (iblk c V 2 t) (grid2.coords t)
      (cellsAt c V (t.val - 1) (Nat.lt_of_le_of_lt (Nat.sub_le _ _) t.isLt)).2 := by
  obtain ⟨n, hn⟩ := t
  cases n with
  | zero => exact absurd rfl h0
  | succ n => rfl

/-- The proof data of the loss region on core `c`: the arrays as the region finds them (`V`); after the body at point
    `t` the table's and the blocks' buffers at the table and the blocks, the two cells at `cellsAt`; the invariant `ΦG`;
    the core owing the constant tallies `O`, its recorded pairs within `B`; full shares. -/
def dats (O : CellTallies nD τ sig Ix) (B : Set (SemLoc sig × Ix)) : Dat τ (Elt F) Ix Name U Lvl cfg2 c where
  A w := V (Pipeline.arrRef spec2 w)
  after w t := match w with
    | ⟨0, _⟩ => iblk c V 0 t
    | ⟨1, _⟩ => iblk c V 1 t
    | ⟨2, _⟩ => iblk c V 2 t
    | ⟨3, _⟩ => (cellsAt c V t.val t.isLt).1
    | ⟨4, _⟩ => (cellsAt c V t.val t.isLt).2
  Φ _ := ΦG c
  q _ := fullShare
  owed _ := O
  recorded _ := B

variable (O : CellTallies nD τ sig Ix) (B : Set (SemLoc sig × Ix))

local notation "𝔻" => dats (F := F) (Ix := Ix) (Name := Name) (U := U) (Lvl := Lvl) c V O B

theorem A_eq (w : Fin cfg2.W) : (𝔻).A w = V (Pipeline.arrRef spec2 w) := by
  dsimp only [dats]

theorem after2_0 (t : Fin cfg2.N) : (𝔻).after 0 t = iblk c V 0 t := by dsimp only [dats]
theorem after2_1 (t : Fin cfg2.N) : (𝔻).after 1 t = iblk c V 1 t := by dsimp only [dats]
theorem after2_2 (t : Fin cfg2.N) : (𝔻).after 2 t = iblk c V 2 t := by dsimp only [dats]
theorem after2_3 (t : Fin cfg2.N) : (𝔻).after 3 t = (cellsAt c V t.val t.isLt).1 := by dsimp only [dats]
theorem after2_4 (t : Fin cfg2.N) : (𝔻).after 4 t = (cellsAt c V t.val t.isLt).2 := by dsimp only [dats]

theorem before2_0 (t : Fin cfg2.N) (d) : (𝔻).before 0 t d = iblk c V 0 t :=
  before2_0_of c V (𝔻) (A_eq (Name := Name) (U := U) (Lvl := Lvl) c V O B 0) (after2_0 (Name := Name) (U := U) (Lvl := Lvl) c V O B) t d
theorem before2_1 (t : Fin cfg2.N) (d) : (𝔻).before 1 t d = iblk c V 1 t :=
  before2_1_of c V (𝔻) (A_eq (Name := Name) (U := U) (Lvl := Lvl) c V O B 1) (after2_1 (Name := Name) (U := U) (Lvl := Lvl) c V O B) t d
theorem before2_2 (t : Fin cfg2.N) (d) : (𝔻).before 2 t d = iblk c V 2 t :=
  before2_2_of c V (𝔻) (A_eq (Name := Name) (U := U) (Lvl := Lvl) c V O B 2) (after2_2 (Name := Name) (U := U) (Lvl := Lvl) c V O B) t d

/-- At the first point a result cell's buffer is fresh: it holds anything. -/
theorem before2_3_zero (t : Fin cfg2.N) (h0 : t.val = 0) (d) : (𝔻).before 3 t d = d :=
  Dat.before_out_reset _ 3 rfl t (.inl h0) d
theorem before2_4_zero (t : Fin cfg2.N) (h0 : t.val = 0) (d) : (𝔻).before 4 t d = d :=
  Dat.before_out_reset _ 4 rfl t (.inl h0) d

/-- At a later point a result cell's buffer holds what the body left at the point before: the buffer was not written back
    between (it is after the last point only), the window is live and uncut. -/
theorem before2_3_pos (t : Fin cfg2.N) (h0 : t.val ≠ 0) (d) :
    (𝔻).before 3 t d = (cellsAt c V (t.val - 1) (Nat.lt_of_le_of_lt (Nat.sub_le _ _) t.isLt)).1 := by
  have hN : t.val < 40 := lt_of_lt_of_eq t.isLt (show cfg2.N = 40 from N_2)
  rw [Dat.before_out_kept _ 3 rfl t h0 (Bool.eq_false_iff.mpr fun h => by have := (flush2_3 _).mp h; dsimp only at this; omega)
    (fun _ => rfl) (fun _ _ => rfl)]
  dsimp only [dats]
theorem before2_4_pos (t : Fin cfg2.N) (h0 : t.val ≠ 0) (d) :
    (𝔻).before 4 t d = (cellsAt c V (t.val - 1) (Nat.lt_of_le_of_lt (Nat.sub_le _ _) t.isLt)).2 := by
  have hN : t.val < 40 := lt_of_lt_of_eq t.isLt (show cfg2.N = 40 from N_2)
  rw [Dat.before_out_kept _ 4 rfl t h0 (Bool.eq_false_iff.mpr fun h => by have := (flush2_4 _).mp h; dsimp only at this; omega)
    (fun _ => rfl) (fun _ _ => rfl)]
  dsimp only [dats]

/-! ## The body obligation, at a generic point -/

/-- What the body is called with at point `t`, the windows one by one, -/
def bodyPre (ι : Ix) (t : Fin cfg2.N) : sProp 𝕄 :=
  iprop((𝔻).Φ t.castSucc ∗ (𝔻).owesAt ι t.castSucc
    ∗ (∃ d, owns (c : Thread nD τ) (st2_0 t) fullShare ((𝔻).before 0 t d))
    ∗ (∃ d, owns (c : Thread nD τ) (st2_1 t) fullShare ((𝔻).before 1 t d))
    ∗ (∃ d, owns (c : Thread nD τ) (st2_2 t) fullShare ((𝔻).before 2 t d))
    ∗ (∃ d, owns (c : Thread nD τ) (st2_3 t) fullShare ((𝔻).before 3 t d))
    ∗ (∃ d, owns (c : Thread nD τ) (st2_4 t) fullShare ((𝔻).before 4 t d)))

/-- and what it returns. -/
def bodyPost (ι : Ix) (t : Fin cfg2.N) : sProp 𝕄 :=
  iprop((𝔻).Φ t.succ ∗ (𝔻).owesAt ι t.succ
    ∗ owns (c : Thread nD τ) (st2_0 t) fullShare ((𝔻).after 0 t)
    ∗ owns (c : Thread nD τ) (st2_1 t) fullShare ((𝔻).after 1 t)
    ∗ owns (c : Thread nD τ) (st2_2 t) fullShare ((𝔻).after 2 t)
    ∗ owns (c : Thread nD τ) (st2_3 t) fullShare ((𝔻).after 3 t)
    ∗ owns (c : Thread nD τ) (st2_4 t) fullShare ((𝔻).after 4 t))

set_option maxHeartbeats 1600000 in
/-- The body at any point: the table's and the blocks' memrefs hold the table and the blocks; at the first point the
    cells hold anything and the body resets them, at a later point they hold what the point before left; so the body's
    triple applies; the invariant and the core's `owes` pass through unread. -/
theorem sound_body (𝒱₀ : Variants) (ι : Ix) (t : Fin cfg2.N) :
    bodyPre (Name := Name) (U := U) (Lvl := Lvl) c V O B ι t ⊢ wp frame (wpE (defs₀ (F := F)) 𝒱₀ c none) Set.univ (bodyAt2 t) (fun _ => bodyPost (Name := Name) (U := U) (Lvl := Lvl) c V O B ι t) := by
  unfold bodyPre bodyPost bodyAt2
  simp only [before2_0, before2_1, before2_2]
  rw [show (𝔻).Φ t.succ = (𝔻).Φ t.castSucc from rfl,
    show (𝔻).owesAt ι t.succ = (𝔻).owesAt ι t.castSucc from rfl,
    after2_0, after2_1, after2_2, after2_3, after2_4]
  have hN : t.val < 40 := lt_of_lt_of_eq t.isLt (show cfg2.N = 40 from N_2)
  by_cases h0 : t.val = 0
  · rw [cell3_zero c V t h0, cell4_zero c V t h0]
    simp only [before2_3_zero (Name := Name) (U := U) (Lvl := Lvl) c V O B t h0, before2_4_zero (Name := Name) (U := U) (Lvl := Lvl) c V O B t h0]
    iintro ⟨HΦ, Ho, ⟨%d0, H0⟩, ⟨%d1, H1⟩, ⟨%d2, H2⟩, ⟨%d3, H3⟩, ⟨%d4, H4⟩⟩
    iapply (sound_kernel_A 𝒱₀ none c Set.univ (grid2.coords t) ((hcond2 t).mpr (by rw [h0])) _ _ _ _ _ _ _ _ _ _
      (iblk c V 0 t) (iblk c V 1 t) (iblk c V 2 t) zeroCell zeroCell _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [cell3_pos c V t h0, cell4_pos c V t h0]
    simp only [before2_3_pos (Name := Name) (U := U) (Lvl := Lvl) c V O B t h0, before2_4_pos (Name := Name) (U := U) (Lvl := Lvl) c V O B t h0]
    iintro ⟨HΦ, Ho, ⟨%d0, H0⟩, ⟨%d1, H1⟩, ⟨%d2, H2⟩, ⟨%d3, H3⟩, ⟨%d4, H4⟩⟩
    iapply (sound_kernel_B 𝒱₀ none c Set.univ (grid2.coords t) (fun h => h0 (by have := (hcond2 t).mp h; omega)) _ _ _ _ _ _ _ _ _ _
      (iblk c V 0 t) (iblk c V 1 t) (iblk c V 2 t) _ _ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation (𝒱₀ : Variants) (ι : Ix) :
    BodyObligation (𝔻) (defs₀ (F := F)) 𝒱₀ ι Set.univ := fun t => by
  rw [bigSep_W2, bigSep_W2]
  exact sound_body (Name := Name) (U := U) (Lvl := Lvl) c V O B 𝒱₀ ι t

end Data

end Cert.Kernel.LossRegion

end
-- ==== Proof.RegLossB.lean ====
/-
  The loss region as a segment of @main's proof. It is entered, after the SparseCore call, with every unscoped buffer
  at given contents; it reads the box table and the first 160 rows of input and target and accumulates its two sums
  in two one-word results, written back at the last grid point. At its exit those two hold what the pipeline's
  write-backs leave and every other buffer is as it was. Beside the buffers ride the generator register and the
  TensorCore's debts — none any more, the one call being over — with the bound on its recorded wait pairs.
-/
import proofs.«210586_g14980845929080_cont_week2b_1062_66_alg».proof.Proof.LaunchRegionB
import proofs.«210586_g14980845929080_cont_week2b_1062_66_alg».proof.Proof.RegMaskB
import proofs.«210586_g14980845929080_cont_week2b_1062_66_alg».proof.Proof.LossRegionDataB
import Idealize.ShloMosaic.Lib.Pipeline.RegionsLoop
import Idealize.ShloMosaic.Lib.Pipeline.FrameSuffix

noncomputable section

namespace Cert.Kernel.Launch

open Cert.Kernel Cert.Kernel.Gen Cert.Kernel.Sc
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

variable (We : Dev nD → Valuation τ sig (Elt F))

/-- The entry contents read at the TensorCore's references. -/
abbrev Ve : (c : Dev nD) → (b : Ref sig .tc) → Buf (Elt F) ((c : Thread nD τ).loc b) := fun c b => We c b

/-- The loss region's proof data at the entry contents, the TensorCore owing what it owes after the call (nothing). -/
abbrev dat2 (c : Dev nD) : Pipeline.Dat τ (Elt F) (HIx 1) ℕ UU ℕ cfg2 c :=
  LossRegion.dats (F := F) (Ix := HIx 1) (Name := ℕ) (U := UU) (Lvl := ℕ) c (Ve We c) ((K (F := F)).Otc c 1) (Bd (F := F) c 1)

/-- At the loss region's exit: its arrays at what the pipeline leaves, every other buffer as entered. -/
def W4 (c : Dev nD) : Valuation τ sig (Elt F) :=
  Pipeline.withArrays spec2 c (We c) fun w => (dat2 We c).arrAt w cfg2.N
theorem W4_arr (c : Dev nD) (w : Fin cfg2.W) :
    W4 We c (Proc.devRef .tc (Pipeline.arrRef spec2 w)) = (dat2 We c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 We c (Proc.devRef .tc b) = We c (Proc.devRef .tc b) := by
  unfold W4; exact Pipeline.withArrays_of_ne spec2 c _ _ b hb
abbrev V4 : (c : Dev nD) → (b : Ref sig .tc) → Buf (Elt F) ((c : Thread nD τ).loc b) := fun c b => W4 We c b
theorem hF2 (c : Dev nD) (w : Fin cfg2.W) : (dat2 We c).arrAt w cfg2.N = V4 We c (Pipeline.arrRef spec2 w) :=
  (W4_arr We c w).symm
theorem hrest2 (c : Dev nD) : ∀ b, b ∉ Finset.univ.image (Pipeline.arrRef spec2) → V4 We c b = Ve We c b :=
  fun b hb => W4_of_ne We c b fun w e => hb (Finset.mem_image.mpr ⟨w, Finset.mem_univ _, e⟩)

/-- A stand-in for the mask region's proof data in the family the loss region's record is stated over. -/
def datIdle0 (c : Dev nD) : Pipeline.Dat τ (Elt F) (HIx 1) ℕ UU ℕ cfg0 c where
  A w := Ve We c (Pipeline.arrRef spec0 w)
  after _ _ := fun _ => Classical.arbitrary _
  Φ _ := iprop(emp)
  q _ := fullShare
  owed _ := 0

/-- The proof data family for the loss region's record. -/
def pdatsB : (p : Fin 2) → (c : Dev nD) → Pipeline.Dat τ (Elt F) (HIx 1) ℕ UU ℕ (Pipeline.pin (pcfgs (F := F)) adm p) c
  | ⟨0, _⟩ => fun c => datIdle0 We c
  | ⟨1, _⟩ => fun c => dat2 We c

variable (lv : GSem nD τ sig → HIx 1 → ℕ) (hlv : (K (F := F)).Refines lv)

set_option backward.isDefEq.respectTransparency.types false in
/-- THE LOSS REGION over the thread state: entered from every unscoped buffer at the given contents, left with the two
    sums at the pipeline's results; the generator register into the body's invariant and out; the debts and their
    bound through the pipeline unchanged; no semaphore of the kernel's own. -/
def reg2 : Pipeline.RegionSeg (pcfgs (F := F)) adm (pdatsB We) (none : HIx 1) defs₀ 𝒱₀ (K (F := F)).L lv 1 where
  win := launch2.win.to₀
  block_pos := launch2.block_pos
  stage_whole := launch2.stage_whole
  K := PEmpty
  osem k := k.elim
  ho := Pipeline.OwnSemFacts.none _
  hbody c := (LossRegion.body_obligation (F := F) (Ix := HIx 1) (Name := ℕ) (U := UU) (Lvl := ℕ) c (Ve We c) ((K (F := F)).Otc c 1) (Bd (F := F) c 1) 𝒱₀ none).loose
  hwaits c := Pipeline.cellsWaits_intro (Pipeline.pin (pcfgs (F := F)) adm) (pdatsB We) (none : HIx 1) 1 c (R := levAts (K (F := F)).L lv)
    fun w s t => (K (F := F)).mayWait_none _ (fun g => Otc_none c 1 g) lv hlv
  pre c := iprop(StableHlo.held (c : Thread nD τ) (Pipeline.ucRefs τ sig) (We c) ∗ Rst (F := F) c 1)
  post c := iprop(StableHlo.held (c : Thread nD τ) (Pipeline.ucRefs τ sig) (W4 We c) ∗ Rst (F := F) c 1)
  X c := iprop(∃ r, prngReg c r)
  Y c := iprop(∃ r, prngReg c r)
  Z c := Pipeline.unscopedRest (Ix := HIx 1) (Name := ℕ) (U := UU) (Lvl := ℕ) spec2 c (Ve We c)
  hentry c := by
    rw [Pipeline.ownSems0_none]
    have hsplit := Pipeline.arrays_of_unscopedBufs (p := 1) (pcfgs (F := F)) adm (pdatsB We) launch2.win launch2.arr_whole c
      ((pdatsB We 1 c).share_full fun _ => rfl) (Ve We c) fun _ => rfl
    rw [Pipeline.unscopedBufs_held] at hsplit
    unfold Rst
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun _ h => Or.inl (hW h)
      iexact HO
    isplitl [Hp]; · iexact Hp
    iexact Hrest
  hin c := by
    rw [show (pdatsB We 1 c).Φ 0 = LossRegion.ΦG (F := F) (Ix := HIx 1) (Name := ℕ) (U := UU) (Lvl := ℕ) c from rfl]; unfold LossRegion.ΦG
    iintro ⟨Hp, -, Hr⟩
    isplitl [Hr]; · iexact Hr
    iexact Hp
  hout c := by
    rw [Pipeline.ownSems0_none, show (pdatsB We 1 c).Φ (Fin.last _) = LossRegion.ΦG (F := F) (Ix := HIx 1) (Name := ℕ) (U := UU) (Lvl := ℕ) c from rfl]; unfold LossRegion.ΦG
    iintro ⟨Hr, Hp⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdatsB We) ((pdatsB We 1 c).share_full fun _ => rfl)
      (Ve We c) (V4 We c) ((pdatsB We 1 c).arrAt · cfg2.N) (hF2 We c) (hrest2 We c)
    rw [Pipeline.unscopedBufs_held] at hjoin
    unfold Rst
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro
      intro p hp
      rcases hW hp with h | ⟨w, s, rfl⟩
      · exact h
      · show (K (F := F)).lev _ none ≤ 8 * 1
        rw [SparseCore.Cfg.lev_none]; exact Nat.zero_le _
    iexact HO

end Cert.Kernel.Launch

end
-- ==== Proof.MainShapeB.lean ====
/-
  The shape of @main: the mask region, the SparseCore call, the loss region, then a straight line of fifteen host
  operations that slices the SparseCore's partial sums, adds them up, adds the TensorCore's two sums, and forms
  (1/2 · s / n) / 1536.
-/
import proofs.«210586_g14980845929080_cont_week2b_1062_66_alg».proof.Proof.ScCommonB
import Idealize.ShloMosaic.Lib.StableHlo.Run

noncomputable section

namespace Cert.Kernel.Launch

open Cert.Kernel Cert.Kernel.Sc
open Idealize.ShloMosaic
open Idealize.SL.Sem
open Cert.Kernel.Facts₀ Cert.Kernel.Facts

variable {F : FTy → Type} [FloatOps F]

/-- The host operations after the last region, in order. -/
abbrev tailOps : List (HloOp τ sig (Elt F)) :=
  [ StableHlo.unary main_v1 main_v3 ((extractStridedSlice S32x16 ![0, 0] · slices_S32x32_S32x16_0_0) : (⟨S32x32, .f32⟩ : BufTy).Contents (Elt F) → (⟨S32x16, .f32⟩ : BufTy).Contents (Elt F)),
    StableHlo.nullary main_cst (constant S_ .f32 0x00000000#32),
    StableHlo.binary main_v3 main_cst main_v4 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
    StableHlo.reshape main_v2_0 main_v5 rfl shapeCasts_S1x1_S_,
    StableHlo.binary main_v4 main_v5 main_v6 (addf : (⟨S_, .f32⟩ : BufTy).Contents (Elt F) → (⟨S_, .f32⟩ : BufTy).Contents (Elt F) → (⟨S_, .f32⟩ : BufTy).Contents (Elt F)),
    StableHlo.unary main_v1 main_v7 ((extractStridedSlice S32x16 ![0, 16] · slices_S32x32_S32x16_0_16) : (⟨S32x32, .f32⟩ : BufTy).Contents (Elt F) → (⟨S32x16, .f32⟩ : BufTy).Contents (Elt F)),
    StableHlo.nullary main_cst_0 (constant S_ .f32 0x00000000#32),
    StableHlo.binary main_v7 main_cst_0 main_v8 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
    StableHlo.reshape main_v2_1 main_v9 rfl shapeCasts_S1x1_S_,
    StableHlo.binary main_v8 main_v9 main_v10 (addf : (⟨S_, .f32⟩ : BufTy).Contents (Elt F) → (⟨S_, .f32⟩ : BufTy).Contents (Elt F) → (⟨S_, .f32⟩ : BufTy).Contents (Elt F)),
    StableHlo.nullary main_cst_1 (constant S_ .f32 0x3F000000#32),
    StableHlo.binary main_cst_1 main_v6 main_v11 (mulf : (⟨S_, .f32⟩ : BufTy).Contents (Elt F) → (⟨S_, .f32⟩ : BufTy).Contents (Elt F) → (⟨S_, .f32⟩ : BufTy).Contents (Elt F)),
    StableHlo.binary main_v11 main_v10 main_v12 (Host.divf : (⟨S_, .f32⟩ : BufTy).Contents (Elt F) → (⟨S_, .f32⟩ : BufTy).Contents (Elt F) → (⟨S_, .f32⟩ : BufTy).Contents (Elt F)),
    StableHlo.nullary main_cst_2 (constant S_ .f32 0x44C00000#32),
    StableHlo.binary main_v12 main_cst_2 main_v13 (Host.divf : (⟨S_, .f32⟩ : BufTy).Contents (Elt F) → (⟨S_, .f32⟩ : BufTy).Contents (Elt F) → (⟨S_, .f32⟩ : BufTy).Contents (Elt F)) ]

/-- @main is its two regions around the SparseCore call, then the straight line. -/
theorem main_eq (d : Dev nD) :
    main (F := F) d
      = (do
          Prog.lift (.customCall (SparseCore.inner (Pipeline.entry 0)) ())
          sc.run d 0
          Prog.lift (.customCall (SparseCore.inner (Pipeline.entry 1)) ())
          StableHlo.seq (tailOps (F := F))) := rfl

end Cert.Kernel.Launch

end
-- ==== Proof.ScTilePB.lean ====
/-
  The SparseCore call's payloads: what the call takes from the TensorCore for each SparseCore, what each vector
  subcore's task is handed, and what comes back. The two inputs and the mask array are read by all 32 tasks, so they
  travel as read shares: the full share halved between the two SparseCores, each half dealt in sixteen tokens to the
  subcores, the undealt remainder kept aside while the tasks run. The result array is written one row per task: task
  (core c, subcore s) owns row 2 s + c.
-/
import proofs.«210586_g14980845929080_cont_week2b_1062_66_alg».proof.Proof.ScCommonB
import Idealize.ShloMosaic.Lib.Transfers

noncomputable section

namespace Cert.Kernel.ScTile

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareTokN shareDrop pointsTo_toks_split pointsTo_toks_join)

variable {F : FTy → Type}

local notation "𝕄" => MT nD τ sig (HIx 1) (Elt F) ℕ Sc.UU ℕ

/-- The two inputs, the mask array and the result array, as locations of device `d`. -/
abbrev a0Loc (d : Dev nD) : Loc nD τ sig := (SparseCore.T d).loc main_arg0
abbrev a1Loc (d : Dev nD) : Loc nD τ sig := (SparseCore.T d).loc main_arg1
abbrev mkLoc (d : Dev nD) : Loc nD τ sig := (SparseCore.T d).loc main_v0
abbrev ptLoc (d : Dev nD) : Loc nD τ sig := (SparseCore.T d).loc main_v1

/-- The share of a read-only array SparseCore `c` is handed: a half of the whole. -/
def coreSh (c : ℕ) : PosShare TreeShare := if c = 0 then (fullShare : PosShare TreeShare).left else (fullShare : PosShare TreeShare).right
/-- The share subcore `i` of SparseCore `c` is handed: the `i`-th of sixteen tokens of the core's half. -/
def tileSh (c i : ℕ) : PosShare TreeShare := shareTokN (coreSh c) i

theorem hdiv : 32 ∣ S32x32.size 0 := ⟨1, rfl⟩
/-- Row `w` of the result array. -/
abbrev row (w : Fin 32) : Rect S32x32 := Rect.part (s := S32x32) (a₀ := 0) hdiv w
def rowSet (w : Fin 32) : Finset S32x32.Idx := ((Memref.whole main_v1_scv : Memref sig .scVector .hbm S32x32 .f32).view.slice (row w)).set
/-- The row of the task on subcore `s` of SparseCore `c`. -/
def wid (c s : ℕ) : Fin 32 := ⟨(2 * s + c) % 32, Nat.mod_lt _ (by decide)⟩
/-- The rows of SparseCore `c`'s sixteen tasks. -/
def coreRows (c : ℕ) : Finset S32x32.Idx := (Finset.univ : Finset (Fin 16)).biUnion fun s => rowSet (wid c s.val)

theorem rowSet_eq (w : Fin 32) : rowSet w = (row w).set := by
  unfold rowSet
  show ((View.whole (main_v1_scv : Ref sig .scVector)).slice (row w)).set = _
  rw [View.set_slice]; exact Finset.map_refl
theorem rows_disjoint {w w' : Fin 32} (h : w ≠ w') : Disjoint (rowSet w) (rowSet w') := by
  rw [rowSet_eq, rowSet_eq]; exact Rect.part_disjoint hdiv h
theorem rows_cover : (Finset.univ : Finset (Fin 32)).biUnion rowSet = Finset.univ :=
  (Finset.biUnion_congr rfl fun i _ => rowSet_eq i).trans (Rect.biUnion_part hdiv)

theorem wid_inj {c c' : ℕ} (hc : c < 2) (hc' : c' < 2) {s s' : ℕ} (h1 : s < 16) (h2 : s' < 16) (h : wid c s = wid c' s') : c = c' ∧ s = s' := by
  have := congrArg Fin.val h
  simp only [wid] at this
  constructor <;> omega

theorem coreRows_disjoint : Disjoint (coreRows 0) (coreRows 1) := by
  unfold coreRows
  rw [Finset.disjoint_biUnion_left]; intro s _
  rw [Finset.disjoint_biUnion_right]; intro s' _
  exact rows_disjoint fun h => absurd (wid_inj (by decide) (by decide) s.isLt s'.isLt h).1 (by decide)
theorem coreRows_cover : coreRows 0 ∪ coreRows 1 = Finset.univ := by
  apply Finset.eq_univ_of_forall; intro x
  have hx : x ∈ (Finset.univ : Finset (Fin 32)).biUnion rowSet := by rw [rows_cover]; exact Finset.mem_univ x
  obtain ⟨w, -, hw⟩ := Finset.mem_biUnion.mp hx
  have hw32 := w.isLt
  rcases Nat.mod_two_eq_zero_or_one w.val with h0 | h1
  · refine Finset.mem_union_left _ (Finset.mem_biUnion.mpr ⟨⟨w.val / 2, by omega⟩, Finset.mem_univ _, ?_⟩)
    have : wid 0 (w.val / 2) = w := by apply Fin.ext; simp only [wid]; omega
    rw [this]; exact hw
  · refine Finset.mem_union_right _ (Finset.mem_biUnion.mpr ⟨⟨w.val / 2, by omega⟩, Finset.mem_univ _, ?_⟩)
    have : wid 1 (w.val / 2) = w := by apply Fin.ext; simp only [wid]; omega
    rw [this]; exact hw
theorem tileRows_disjoint (c : ℕ) (hc : c < 2) :
    ∀ s ∈ (Finset.univ : Finset (Fin 16)), ∀ s' ∈ (Finset.univ : Finset (Fin 16)), s ≠ s' → Disjoint (rowSet (wid c s.val)) (rowSet (wid c s'.val)) :=
  fun s _ s' _ h => rows_disjoint fun e => h (Fin.ext (wid_inj hc hc s.isLt s'.isLt e).2)

/-! ## The payloads -/

section Pay

variable (X0 : (d : Dev nD) → Buf (Elt F) (a0Loc d)) (X1 : (d : Dev nD) → Buf (Elt F) (a1Loc d))
  (M : (d : Dev nD) → Buf (Elt F) (mkLoc d)) (R0 : (d : Dev nD) → Buf (Elt F) (ptLoc d))

/-- The three read-only arrays at share `q`. -/
abbrev rdPts (d : Dev nD) (q : PosShare TreeShare) : sProp 𝕄 :=
  iprop((a0Loc d ↦{q} X0 d) ∗ (a1Loc d ↦{q} X1 d) ∗ (mkLoc d ↦{q} M d))

/-- What SparseCore `c` is handed: its half of the read-only arrays and its sixteen rows of the result array. -/
def stC (d : Dev nD) (c : ℕ) : sProp 𝕄 := iprop(rdPts X0 X1 M d (coreSh c) ∗ ptLoc d ↦[coreRows c]{fullShare} R0 d)
/-- What it hands back: the same, its rows at whatever its tasks left. -/
def dnC (d : Dev nD) (c : ℕ) : sProp 𝕄 := iprop(rdPts X0 X1 M d (coreSh c) ∗ ∃ f, ptLoc d ↦[coreRows c]{fullShare} f)
/-- What the task on subcore `i` of SparseCore `c` is handed: its token of the read-only arrays and its row. -/
def goC (d : Dev nD) (c i : ℕ) : sProp 𝕄 := iprop(rdPts X0 X1 M d (tileSh c i) ∗ ptLoc d ↦[rowSet (wid c i)]{fullShare} R0 d)
/-- What it hands back: the same, its row at whatever it wrote. -/
def tdC (d : Dev nD) (c i : ℕ) : sProp 𝕄 := iprop(rdPts X0 X1 M d (tileSh c i) ∗ ∃ f, ptLoc d ↦[rowSet (wid c i)]{fullShare} f)

/-- The one call's payloads; nothing of the kernel's own protocol is owed or kept beside them (its transfers are
    local, their counters the task's own). -/
def P : (Sc.K (F := F)).Pay (nD := nD) (Val := Elt F) (Name := ℕ) (U := Sc.UU) where
  st := fun _ d c => stC X0 X1 M R0 d c.val
  dn := fun _ d c => dnC X0 X1 M d c.val
  go := fun _ d c i => goC X0 X1 M R0 d c.val i.val
  td := fun _ d c i => tdC X0 X1 M d c.val i.val
  x := fun _ _ => iprop(emp)

instance P_storable : (P (F := F) X0 X1 M R0).IsStorable where
  st _ d c := by unfold P stC; infer_instance
  dn _ d c := by unfold P dnC; infer_instance
  go _ d c i := by unfold P goC; infer_instance
  td _ d c i := by unfold P tdC; infer_instance

theorem P_st (q : Fin 1) (d : Dev nD) (c : Fin ((Sc.K (F := F)).nCore q)) : (P X0 X1 M R0).st q d c = stC X0 X1 M R0 d c.val := rfl
theorem P_dn (q : Fin 1) (d : Dev nD) (c : Fin ((Sc.K (F := F)).nCore q)) : (P X0 X1 M R0).dn q d c = dnC X0 X1 M d c.val := rfl
theorem P_go (q : Fin 1) (d : Dev nD) (c : Fin ((Sc.K (F := F)).nCore q)) (i : Fin ((Sc.K (F := F)).nSub q)) :
    (P X0 X1 M R0).go q d c i = goC X0 X1 M R0 d c.val i.val := rfl
theorem P_td (q : Fin 1) (d : Dev nD) (c : Fin ((Sc.K (F := F)).nCore q)) (i : Fin ((Sc.K (F := F)).nSub q)) :
    (P X0 X1 M R0).td q d c i = tdC X0 X1 M d c.val i.val := rfl
theorem P_x (q : Fin 1) (thr : Thread nD τ) : (P X0 X1 M R0).x q thr = iprop(emp) := rfl

/-! ## Between the TensorCore and the two SparseCores -/

theorem halves {ℓ : Loc nD τ sig} (f : Buf (Elt F) ℓ) :
    (ℓ ↦{fullShare} f : sProp 𝕄) ⊣⊢ iprop((ℓ ↦{coreSh 0} f) ∗ ℓ ↦{coreSh 1} f) := by
  unfold coreSh; simp only [if_true, if_neg Nat.one_ne_zero, ↓reduceIte]
  exact pointsTo_share (PosShare.mem_left_op_right _)

theorem cores_eq (Φ : ℕ → sProp 𝕄) : (bigSep Finset.univ fun c : Fin ((Sc.K (F := F)).nCore 0) => Φ c.val) = iprop(Φ 0 ∗ Φ 1) :=
  bigSep_univ_two (fun c : Fin 2 => Φ c.val)

theorem pt_cores (d : Dev nD) (f : Buf (Elt F) (ptLoc d)) :
    (ptLoc d ↦{fullShare} f : sProp 𝕄) ⊣⊢ iprop((ptLoc d ↦[coreRows 0]{fullShare} f) ∗ ptLoc d ↦[coreRows 1]{fullShare} f) := by
  have h : (ptLoc d ↦[coreRows 0 ∪ coreRows 1]{fullShare} f : sProp 𝕄) ⊣⊢ _ := pointsTo_union coreRows_disjoint
  rw [coreRows_cover] at h; exact h

/-- What the call takes from the TensorCore: the four arrays whole. -/
theorem st0_intro (d : Dev nD) :
    iprop((a0Loc d ↦{fullShare} X0 d) ∗ (a1Loc d ↦{fullShare} X1 d) ∗ (mkLoc d ↦{fullShare} M d) ∗ ptLoc d ↦{fullShare} R0 d)
      ⊢ (bigSep Finset.univ fun c : Fin ((Sc.K (F := F)).nCore 0) => (P X0 X1 M R0).st 0 d c : sProp 𝕄) := by
  simp only [P_st]; rw [cores_eq (F := F) (stC X0 X1 M R0 d)]; unfold stC rdPts
  iintro ⟨H0, H1, Hm, Hp⟩
  ihave H0' := (halves (F := F) _).1 $$ H0; icases H0' with ⟨H0a, H0b⟩
  ihave H1' := (halves (F := F) _).1 $$ H1; icases H1' with ⟨H1a, H1b⟩
  ihave Hm' := (halves (F := F) _).1 $$ Hm; icases Hm' with ⟨Hma, Hmb⟩
  ihave Hp' := (pt_cores (F := F) d _).1 $$ Hp; icases Hp' with ⟨Hpa, Hpb⟩
  isplitl [H0a H1a Hma Hpa]
  · isplitl [H0a H1a Hma]
    · isplitl [H0a]; · iexact H0a
      isplitl [H1a]; · iexact H1a
      iexact Hma
    · iexact Hpa
  · isplitl [H0b H1b Hmb]
    · isplitl [H0b]; · iexact H0b
      isplitl [H1b]; · iexact H1b
      iexact Hmb
    · iexact Hpb

theorem pt_cores_join (d : Dev nD) (f g : Buf (Elt F) (ptLoc d)) :
    iprop((ptLoc d ↦[coreRows 0]{fullShare} f) ∗ ptLoc d ↦[coreRows 1]{fullShare} g) ⊢ (iprop(∃ h, ptLoc d ↦{fullShare} h) : sProp 𝕄) := by
  have hj : iprop((ptLoc d ↦[coreRows 0]{fullShare} f) ∗ ptLoc d ↦[coreRows 1]{fullShare} g)
      ⊢ (ptLoc d ↦[coreRows 0 ∪ coreRows 1]{fullShare} ((coreRows 1).piecewise g f) : sProp 𝕄) := pointsTo_join coreRows_disjoint
  rw [coreRows_cover] at hj
  refine hj.trans ?_
  iintro H; iexists _; iexact H

/-- What the call hands back to the TensorCore: the three read-only arrays whole and unchanged, the result array whole. -/
theorem dn0_elim (d : Dev nD) :
    (bigSep Finset.univ fun c : Fin ((Sc.K (F := F)).nCore 0) => (P X0 X1 M R0).dn 0 d c : sProp 𝕄)
      ⊢ iprop((a0Loc d ↦{fullShare} X0 d) ∗ (a1Loc d ↦{fullShare} X1 d) ∗ (mkLoc d ↦{fullShare} M d) ∗ ∃ f, ptLoc d ↦{fullShare} f) := by
  simp only [P_dn]; rw [cores_eq (F := F) (dnC X0 X1 M d)]; unfold dnC rdPts
  iintro ⟨⟨⟨H0a, H1a, Hma⟩, %fa, Hpa⟩, ⟨⟨H0b, H1b, Hmb⟩, %fb, Hpb⟩⟩
  isplitl [H0a H0b]
  · iapply (halves (F := F) _).2; isplitl [H0a] <;> iassumption
  isplitl [H1a H1b]
  · iapply (halves (F := F) _).2; isplitl [H1a] <;> iassumption
  isplitl [Hma Hmb]
  · iapply (halves (F := F) _).2; isplitl [Hma] <;> iassumption
  iapply (pt_cores_join (F := F) d fa fb); isplitl [Hpa] <;> iassumption

end Pay

/-! ## Between a SparseCore and its sixteen tasks -/

section Split

variable (X0 : (d : Dev nD) → Buf (Elt F) (a0Loc d)) (X1 : (d : Dev nD) → Buf (Elt F) (a1Loc d))
  (M : (d : Dev nD) → Buf (Elt F) (mkLoc d)) (R0 : (d : Dev nD) → Buf (Elt F) (ptLoc d))

theorem toks16 {ℓ : Loc nD τ sig} (f : Buf (Elt F) ℓ) (c : ℕ) :
    (ℓ ↦{coreSh c} f : sProp 𝕄) ⊣⊢ iprop((ℓ ↦{shareDrop (coreSh c) 16} f) ∗ bigSep Finset.univ fun i : Fin 16 => ℓ ↦{tileSh c i.val} f) :=
  Transfers.pointsTo_toks (coreSh c) 16

theorem pt_tiles (d : Dev nD) (c : ℕ) (hc : c < 2) (f : Buf (Elt F) (ptLoc d)) :
    (ptLoc d ↦[coreRows c]{fullShare} f : sProp 𝕄) = bigSep Finset.univ fun i : Fin 16 => ptLoc d ↦[rowSet (wid c i.val)]{fullShare} f :=
  by unfold coreRows; exact pointsTo_biUnion Finset.univ (ℓ := ptLoc d) (fun i : Fin 16 => rowSet (wid c i.val)) (tileRows_disjoint c hc)

theorem pt_tiles_join [FloatOps F] (d : Dev nD) (c : ℕ) (hc : c < 2) :
    (bigSep Finset.univ fun i : Fin 16 => iprop(∃ f, ptLoc d ↦[rowSet (wid c i.val)]{fullShare} f)) ⊢ (iprop(∃ f, ptLoc d ↦[coreRows c]{fullShare} f) : sProp 𝕄) := by
  refine (bigSep_exists_pi Finset.univ (fun (i : Fin 16) (f : Buf (Elt F) (ptLoc d)) => (ptLoc d ↦[rowSet (wid c i.val)]{fullShare} f : sProp 𝕄))).trans ?_
  iintro ⟨%fs, H⟩
  ihave H' := (pointsTo_biUnion_join Finset.univ (fun i : Fin 16 => rowSet (wid c i.val)) fs (fs 0) (tileRows_disjoint c hc)) $$ H
  icases H' with ⟨%g, -, Hg⟩
  iexists g; iexact Hg

/-- A SparseCore's operands dealt to its sixteen tasks (the undealt remainder of each read share kept aside), and
    their results gathered. -/
theorem vecSplit [FloatOps F] : (Sc.K (F := F)).VecSplit' (P X0 X1 M R0) 0 := by
  intro d c
  have hc : c.val < 2 := c.isLt
  simp only [P_st, P_dn, P_go, P_td]
  show stC X0 X1 M R0 d c.val ⊢ |={Set.univ}=> iprop((bigSep Finset.univ fun i : Fin 16 => goC X0 X1 M R0 d c.val i.val)
      ∗ ((bigSep Finset.univ fun i : Fin 16 => tdC X0 X1 M d c.val i.val) -∗ dnC X0 X1 M d c.val))
  unfold stC dnC goC tdC rdPts
  rw [bigSep_sep', bigSep_sep', bigSep_sep', bigSep_sep', bigSep_sep', bigSep_sep', pt_tiles (F := F) d c.val hc]
  iintro ⟨⟨H0, H1, Hm⟩, Hp⟩
  ihave H0' := (toks16 (F := F) _ c.val).1 $$ H0; icases H0' with ⟨H0r, H0t⟩
  ihave H1' := (toks16 (F := F) _ c.val).1 $$ H1; icases H1' with ⟨H1r, H1t⟩
  ihave Hm' := (toks16 (F := F) _ c.val).1 $$ Hm; icases Hm' with ⟨Hmr, Hmt⟩
  imodintro
  isplitl [H0t H1t Hmt Hp]
  · isplitl [H0t H1t Hmt]
    · isplitl [H0t]; · iexact H0t
      isplitl [H1t]; · iexact H1t
      iexact Hmt
    · iexact Hp
  iintro ⟨⟨H0t, H1t, Hmt⟩, Hp⟩
  isplitl [H0r H0t H1r H1t Hmr Hmt]
  · isplitl [H0r H0t]
    · iapply (toks16 (F := F) _ c.val).2; isplitl [H0r] <;> iassumption
    isplitl [H1r H1t]
    · iapply (toks16 (F := F) _ c.val).2; isplitl [H1r] <;> iassumption
    · iapply (toks16 (F := F) _ c.val).2; isplitl [Hmr] <;> iassumption
  · iapply (pt_tiles_join (F := F) d c.val hc); iexact Hp

end Split

end Cert.Kernel.ScTile

end
-- ==== Proof.LaunchMainB.lean ====
/-
  @main on the TensorCore, inside the launch of the whole thread family: the mask region, the SparseCore call, the
  loss region, the straight line. Each step hands the next the boundary and every unscoped buffer at named contents;
  beside them ride the generator register and the TensorCore's handshake state (what it owes the SparseCores and
  where it stands on the launch handshakes).
-/
import proofs.«210586_g14980845929080_cont_week2b_1062_66_alg».proof.Proof.RegLossB
import proofs.«210586_g14980845929080_cont_week2b_1062_66_alg».proof.Proof.MainShapeB
import proofs.«210586_g14980845929080_cont_week2b_1062_66_alg».proof.Proof.ScTilePB

noncomputable section

namespace Cert.Kernel.Launch

open Cert.Kernel Cert.Kernel.Gen Cert.Kernel.Sc
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)

/-! ## What the SparseCore call is handed -/

/-- The call's operands: input and target at their launch contents, maskf at what the mask region left, the partial
    sums' array at its launch contents. -/
abbrev X0 (d : Dev nD) : Buf (Elt F) (ScTile.a0Loc d) := m (ScTile.a0Loc d)
abbrev X1 (d : Dev nD) : Buf (Elt F) (ScTile.a1Loc d) := m (ScTile.a1Loc d)
abbrev Mk (d : Dev nD) : Buf (Elt F) (ScTile.mkLoc d) := W2 m d (Proc.devRef .tc main_v0)
abbrev R0 (d : Dev nD) : Buf (Elt F) (ScTile.ptLoc d) := m (ScTile.ptLoc d)
/-- What the launch handshakes carry. -/
abbrev PP : (K (F := F)).Pay (nD := nD) (Val := Elt F) (Name := ℕ) (U := UU) := ScTile.P (F := F) (X0 m) (X1 m) (Mk m) (R0 m)

/-! ## @main's tails -/

abbrev rest2 : Prog (TpuEff nD τ sig (Elt F) (SparseCore.Sig (ΛP (F := F)) 1) .tc) PUnit := StableHlo.seq (tailOps (F := F))
abbrev rest1 : Prog (TpuEff nD τ sig (Elt F) (SparseCore.Sig (ΛP (F := F)) 1) .tc) PUnit :=
  (Prog.lift (.customCall (SparseCore.inner (Pipeline.entry 1)) ()) : Prog (TpuEff nD τ sig (Elt F) (SparseCore.Sig (ΛP (F := F)) 1) .tc) PUnit) >>= fun _ => rest2
abbrev rest0 (d : Dev nD) : Prog (TpuEff nD τ sig (Elt F) (SparseCore.Sig (ΛP (F := F)) 1) .tc) PUnit :=
  sc.run d 0 >>= fun _ => rest1
theorem main_eq' (d : Dev nD) :
    main (F := F) d = ((Prog.lift (.customCall (SparseCore.inner (Pipeline.entry 0)) ()) : Prog (TpuEff nD τ sig (Elt F) (SparseCore.Sig (ΛP (F := F)) 1) .tc) PUnit) >>= fun _ => rest0 d) := rfl

/-! ## What @main leaves -/

/-- At the end: every unscoped buffer at contents that agree with the launch contents on the three arguments. -/
def FIN (d : Dev nD) : sProp 𝕄 :=
  iprop(∃ Wf : Valuation τ sig (Elt F), ⌜Wf (Proc.devRef .tc main_arg0) = W0 m d (Proc.devRef .tc main_arg0) ∧ Wf (Proc.devRef .tc main_arg1) = W0 m d (Proc.devRef .tc main_arg1)
      ∧ Wf (Proc.devRef .tc main_arg2) = W0 m d (Proc.devRef .tc main_arg2)⌝ ∗ held (d.tc : Thread nD τ) (Pipeline.ucRefs τ sig) Wf)

/-- The two regions' ghost state on a core, one after the other. -/
theorem G_split (d : Dev nD) :
    (G (F := F) d : sProp 𝕄)
      = iprop((Pipeline.cellsGhost (Pipeline.pin (pcfgs (F := F)) adm) EP 0 d ∗ Pipeline.toksInit (Pipeline.pin (pcfgs (F := F)) adm) EP 0 d)
          ∗ (Pipeline.cellsGhost (Pipeline.pin (pcfgs (F := F)) adm) EP 1 d ∗ Pipeline.toksInit (Pipeline.pin (pcfgs (F := F)) adm) EP 1 d)) := by
  unfold G Pipeline.ghostOn Pipeline.PerCore.ghostOn
  rw [show (Finset.univ : Finset (Fin 2)) = {0, 1} by decide, SparseCore.bigSep_insert' (by decide), bigSep_singleton]

/-! ## The straight line -/

set_option maxRecDepth 8192 in
theorem tailOps_tc : (tailOps (F := F)).Forall fun op => op.bufs ⊆ StableHlo.tcRefs τ sig :=
  ⟨StableHlo.unary_bufs_sub .., StableHlo.nullary_bufs_sub .., StableHlo.binary_bufs_sub .., StableHlo.reshape_bufs_sub .., StableHlo.binary_bufs_sub ..,
   StableHlo.unary_bufs_sub .., StableHlo.nullary_bufs_sub .., StableHlo.binary_bufs_sub .., StableHlo.reshape_bufs_sub .., StableHlo.binary_bufs_sub ..,
   StableHlo.nullary_bufs_sub .., StableHlo.binary_bufs_sub .., StableHlo.binary_bufs_sub .., StableHlo.nullary_bufs_sub .., StableHlo.binary_bufs_sub ..⟩

theorem tailOps_sub : ∀ op ∈ (tailOps (F := F)), op.bufs ⊆ Pipeline.ucRefs τ sig :=
  fun op h => Pipeline.sub_ucRefs op ((List.forall_iff_forall_mem.mp tailOps_tc) op h)

theorem tailOps_fresh' : (tailOps (F := F)).Forall fun op => op.fresh = ∅ := by
  simp only [List.Forall]; repeat' constructor

theorem tailOps_fresh : ∀ op ∈ (tailOps (F := F)), op.fresh = ∅ :=
  fun op h => (List.forall_iff_forall_mem.mp tailOps_fresh') op h

/-- The straight line writes none of the three arguments. -/
theorem tail_args (Wv : Valuation τ sig (Elt F)) :
    StableHlo.after (tailOps (F := F)) Wv (Proc.devRef .tc main_arg0) = Wv (Proc.devRef .tc main_arg0)
    ∧ StableHlo.after (tailOps (F := F)) Wv (Proc.devRef .tc main_arg1) = Wv (Proc.devRef .tc main_arg1)
    ∧ StableHlo.after (tailOps (F := F)) Wv (Proc.devRef .tc main_arg2) = Wv (Proc.devRef .tc main_arg2) := by
  refine ⟨?_, ?_, ?_⟩ <;> (after_results_simp <;> rfl)

set_option backward.isDefEq.respectTransparency.types false in
/-- The straight line, from the boundary and every unscoped buffer at contents that agree with the launch's on the
    arguments: it runs to its end, the arguments still there. -/
theorem stage3 (κ : GSem nD τ sig → ℕ) (d : Dev nD) (Wv : Valuation τ sig (Elt F))
    (hW : Wv (Proc.devRef .tc main_arg0) = W0 m d (Proc.devRef .tc main_arg0) ∧ Wv (Proc.devRef .tc main_arg1) = W0 m d (Proc.devRef .tc main_arg1)
      ∧ Wv (Proc.devRef .tc main_arg2) = W0 m d (Proc.devRef .tc main_arg2)) :
    iprop((K (F := F)).tcSt EH d 1 ∗ boundary (d.tc : Thread nD τ) ∗ held (d.tc : Thread nD τ) (Pipeline.ucRefs τ sig) Wv)
      ⊢ wp frame (wpE ((K (F := F)).defs (D (F := F))) 𝒱 (d.tc : Thread nD τ) none) Set.univ (rest2 (F := F))
          fun _ => iprop((K (F := F)).tcSt EH d 1 ∗ FIN m d) := by
  have hseq := StableHlo.wp_seq (defs := (K (F := F)).defs (D (F := F))) 𝒱 none Set.univ d (Pipeline.ucRefs τ sig)
    (fun _ => (.ret ⟨⟩ : Prog (TpuEff nD τ sig (Elt F) (SparseCore.Sig (ΛP (F := F)) 1) .tc) PUnit))
    (K := fun _ => iprop((K (F := F)).tcSt EH d 1 ∗ FIN m d)) (tailOps (F := F)) tailOps_sub tailOps_fresh Wv
  rw [show (rest2 (F := F)) = (StableHlo.seq (tailOps (F := F)) >>= fun _ => .ret ⟨⟩) from (bind_pure _).symm]
  iintro ⟨Hst, Hb, Hh⟩
  ihave Hw := hseq $$ [Hb Hh]
  · isplitl [Hb] <;> iassumption
  iapply Hw
  iintro ⟨Hb, Hh⟩
  rw [wp_ret]; imodintro
  isplitl [Hst]; · iexact Hst
  unfold FIN
  iexists _
  isplitr
  · ipureintro
    obtain ⟨h0, h1, h2⟩ := tail_args (F := F) Wv
    exact ⟨h0.trans hW.1, h1.trans hW.2.1, h2.trans hW.2.2⟩
  iexact Hh

/-! ## The loss region, then the straight line -/

/-- The loss region writes none of the three arguments: it reads them through input windows. -/
theorem W4_args (We : Dev nD → Valuation τ sig (Elt F)) (c : Dev nD) :
    W4 We c (Proc.devRef .tc main_arg0) = We c (Proc.devRef .tc main_arg0)
    ∧ W4 We c (Proc.devRef .tc main_arg1) = We c (Proc.devRef .tc main_arg1)
    ∧ W4 We c (Proc.devRef .tc main_arg2) = We c (Proc.devRef .tc main_arg2) :=
  ⟨(W4_arr We c 1).trans (((dat2 We c).arrAt_in 1 rfl _).trans (LossRegion.A_eq (F := F) (Ix := HIx 1) (Name := ℕ) (U := UU) (Lvl := ℕ) c (Ve We c) _ _ 1)),
   (W4_arr We c 2).trans (((dat2 We c).arrAt_in 2 rfl _).trans (LossRegion.A_eq (F := F) (Ix := HIx 1) (Name := ℕ) (U := UU) (Lvl := ℕ) c (Ve We c) _ _ 2)),
   (W4_arr We c 0).trans (((dat2 We c).arrAt_in 0 rfl _).trans (LossRegion.A_eq (F := F) (Ix := HIx 1) (Name := ℕ) (U := UU) (Lvl := ℕ) c (Ve We c) _ _ 0))⟩

/-- The recorded pairs' bound in the two spellings. -/
theorem wbelow_iff (d : Dev nD) (n : ℕ) (W : Waits sig (HIx 1)) :
    (K (F := F)).WBelow (SparseCore.T d) W (8 * n) ↔ (↑W : Set (SemLoc sig × HIx 1)) ⊆ Bd (F := F) d n :=
  ⟨fun h p hp => h p (Finset.mem_coe.mp hp), fun h p hp => h (Finset.mem_coe.mpr hp)⟩

set_option backward.isDefEq.respectTransparency.types false in
/-- The loss region and the straight line, from the boundary and every unscoped buffer at contents that agree with the
    launch's on the arguments, the call being over. -/
theorem stage2 (κ : GSem nD τ sig → ℕ) (d : Dev nD) (We : Dev nD → Valuation τ sig (Elt F))
    (hWe : We d (Proc.devRef .tc main_arg0) = W0 m d (Proc.devRef .tc main_arg0) ∧ We d (Proc.devRef .tc main_arg1) = W0 m d (Proc.devRef .tc main_arg1)
      ∧ We d (Proc.devRef .tc main_arg2) = W0 m d (Proc.devRef .tc main_arg2)) :
    iprop((K (F := F)).ctx EH (PP m) κ ∗ (K (F := F)).tcSt EH d 1 ∗ boundary (d.tc : Thread nD τ)
        ∗ held (d.tc : Thread nD τ) (Pipeline.ucRefs τ sig) (We d) ∗ (∃ r, prngReg d r)
        ∗ Pipeline.cellsGhost (Pipeline.pin (pcfgs (F := F)) adm) EP 1 d ∗ Pipeline.toksInit (Pipeline.pin (pcfgs (F := F)) adm) EP 1 d)
      ⊢ wp frame (wpE ((K (F := F)).defs (D (F := F))) 𝒱 (d.tc : Thread nD τ) none) Set.univ (rest1 (F := F))
          fun _ => iprop((K (F := F)).tcSt EH d 1 ∗ FIN m d) := by
  have hreg := wp_region (pdatsB We) (K (F := F)).lev (reg2 We (K (F := F)).lev (by sl_refines_lev)) d
    (fun _ => wp frame (wpE ((K (F := F)).defs (D (F := F))) 𝒱 (d.tc : Thread nD τ) none) Set.univ (rest2 (F := F))
      fun _ => iprop((K (F := F)).tcSt EH d 1 ∗ FIN m d))
  rw [show (rest1 (F := F)) = ((Prog.lift (.customCall (SparseCore.inner (Pipeline.entry 1)) ()) : Prog (TpuEff nD τ sig (Elt F) (SparseCore.Sig (ΛP (F := F)) 1) .tc) PUnit) >>= fun _ => rest2) from rfl, wp_bind]
  refine BI.Entails.trans ?_ hreg
  show iprop(_ ∗ _ ∗ _ ∗ _ ∗ _ ∗ _ ∗ _) ⊢ iprop((iprop(_ ∗ iprop(held (d.tc : Thread nD τ) (Pipeline.ucRefs τ sig) (W4 We d) ∗ Rst (F := F) d 1)) -∗ _)
    ∗ _ ∗ iprop(held (d.tc : Thread nD τ) (Pipeline.ucRefs τ sig) (We d) ∗ Rst (F := F) d 1) ∗ _ ∗ _ ∗ _)
  unfold SparseCore.Cfg.tcSt Rst
  iintro ⟨#Hctx, ⟨⟨%W, %hW, HO⟩, HstR⟩, Hb, Hh, Hp, Hg, Ht⟩
  ihave #Hlev := ((K (F := F)).ctx_levAts (EH := EH) (P := PP m) κ) $$ Hctx
  isplitl [HstR]
  · iintro ⟨Hb, Hh, Hp, %W', %hW', HO⟩
    iapply (stage3 m κ d (W4 We d) ⟨(W4_args We d).1.trans hWe.1, (W4_args We d).2.1.trans hWe.2.1, (W4_args We d).2.2.trans hWe.2.2⟩)
    unfold SparseCore.Cfg.tcSt
    isplitl [HO HstR]
    · isplitl [HO]
      · iexists W'; isplitr; · ipureintro; exact (wbelow_iff d 1 W').mpr hW'
        iexact HO
      iexact HstR
    isplitl [Hb] <;> iassumption
  isplitl [Hb]; · iexact Hb
  isplitl [Hh Hp HO]
  · isplitl [Hh]; · iexact Hh
    isplitl [Hp]; · iexact Hp
    iexists W; isplitr; · ipureintro; exact (wbelow_iff d 1 W).mp hW
    iexact HO
  isplitr; · iexact Hlev
  isplitl [Hg] <;> iassumption

/-! ## The SparseCore call, then the rest -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev mk' : DevRef τ sig := Proc.devRef .tc (main_v0 : Ref sig .tc)
abbrev pt' : DevRef τ sig := Proc.devRef .tc (main_v1 : Ref sig .tc)
/-- The call's four arrays. -/
abbrev T4 : Finset (DevRef τ sig) := {a0', a1', mk', pt'}
theorem hT4 : T4 ⊆ Pipeline.ucRefs τ sig := by decide

theorem held_T4 (d : Dev nD) (Wv : Valuation τ sig (Elt F)) :
    (held (d.tc : Thread nD τ) T4 Wv : sProp 𝕄)
      = iprop((ScTile.a0Loc d ↦{fullShare} Wv a0') ∗ (ScTile.a1Loc d ↦{fullShare} Wv a1') ∗ (ScTile.mkLoc d ↦{fullShare} Wv mk') ∗ ScTile.ptLoc d ↦{fullShare} Wv pt') := by
  unfold held T4
  rw [SparseCore.bigSep_insert' (by decide), SparseCore.bigSep_insert' (by decide), SparseCore.bigSep_insert' (by decide), bigSep_singleton]

/-- The mask region writes none of the arguments nor the partial sums' array. -/
theorem W2_a0 (c : Dev nD) : W2 m c a0' = W0 m c a0' := W2_of_ne m c main_arg0 (by decide)
theorem W2_a1 (c : Dev nD) : W2 m c a1' = W0 m c a1' := W2_of_ne m c main_arg1 (by decide)
theorem W2_pt (c : Dev nD) : W2 m c pt' = W0 m c pt' := W2_of_ne m c main_v1 (by decide)
theorem W2_a2 (c : Dev nD) : W2 m c a2' = W0 m c a2' :=
  (W2_arr m c 0).trans (((dat0 m c).arrAt_in 0 rfl _).trans (MaskRegion.A_eq (F := F) (Ix := HIx 1) (Name := ℕ) (U := UU) (Lvl := ℕ) c (V0 m c) _ _ 0))

/-- After the call: the partial sums' array at what the tiles left, everything else as the mask region left it. -/
abbrev W3 (f : (pt' : DevRef τ sig).ty.Contents (Elt F)) : Dev nD → Valuation τ sig (Elt F) := fun c => Function.update (W2 m c) pt' f

/-- The buffers outside the call's four are untouched by the update of the partial sums' array. -/
theorem held_rest (d : Dev nD) (f : (pt' : DevRef τ sig).ty.Contents (Elt F)) :
    (held (d.tc : Thread nD τ) (Pipeline.ucRefs τ sig \ T4) (W3 m f d) : sProp 𝕄) = held (d.tc : Thread nD τ) (Pipeline.ucRefs τ sig \ T4) (W2 m d) :=
  StableHlo.held_congr (d.tc : Thread nD τ) fun b hb =>
    Function.update_of_ne (fun e => (Finset.mem_sdiff.mp hb).2 (by rw [e]; decide)) _ _

set_option backward.isDefEq.respectTransparency.types false in
/-- The SparseCore call and everything after it, from the boundary and every unscoped buffer as the mask region left
    it: the four arrays of the call go to the SparseCores and come back, the partial sums' at some contents. -/
theorem stage1 (κ : GSem nD τ sig → ℕ) (d : Dev nD) :
    iprop((K (F := F)).ctx EH (PP m) κ ∗ (K (F := F)).tcSt EH d 0 ∗ boundary (d.tc : Thread nD τ)
        ∗ held (d.tc : Thread nD τ) (Pipeline.ucRefs τ sig) (W2 m d) ∗ (∃ r, prngReg d r)
        ∗ Pipeline.cellsGhost (Pipeline.pin (pcfgs (F := F)) adm) EP 1 d ∗ Pipeline.toksInit (Pipeline.pin (pcfgs (F := F)) adm) EP 1 d)
      ⊢ wp frame (wpE ((K (F := F)).defs (D (F := F))) 𝒱 (d.tc : Thread nD τ) none) Set.univ (rest0 (F := F) d)
          fun _ => iprop((K (F := F)).tcSt EH d 1 ∗ FIN m d) := by
  have hrun := (K (F := F)).wp_run (D (F := F)) 𝒱 (EH := EH) (P := PP m) κ d 0
    (Φ := fun _ => wp frame (wpE ((K (F := F)).defs (D (F := F))) 𝒱 (d.tc : Thread nD τ) none) Set.univ (rest1 (F := F))
      fun _ => iprop((K (F := F)).tcSt EH d 1 ∗ FIN m d))
  rw [show (rest0 (F := F) d) = ((K (F := F)).run d 0 >>= fun _ => rest1) from rfl, wp_bind]
  refine BI.Entails.trans ?_ hrun
  rw [StableHlo.held_sub_split (d.tc : Thread nD τ) hT4 (W2 m d), held_T4, W2_a0, W2_a1, W2_pt]
  show iprop(_ ∗ _ ∗ _ ∗ (iprop(_ ∗ _ ∗ _ ∗ _) ∗ _) ∗ _ ∗ _ ∗ _) ⊢ iprop(_ ∗ (K (F := F)).tcSt EH d 0 ∗ _ ∗ (iprop((K (F := F)).tcSt EH d 1 ∗ _) -∗ _))
  iintro ⟨#Hctx, Hst, Hb, ⟨⟨H0, H1, Hm, Hp⟩, Hrest⟩, Hprng, Hg, Ht⟩
  isplitr; · iexact Hctx
  isplitl [Hst]; · iexact Hst
  isplitl [H0 H1 Hm Hp]
  · iapply (ScTile.st0_intro (F := F) (X0 m) (X1 m) (Mk m) (R0 m) d)
    isplitl [H0]; · iexact H0
    isplitl [H1]; · iexact H1
    isplitl [Hm]; · iexact Hm
    iexact Hp
  iintro ⟨Hst, Hdn⟩
  ihave Hdn' := (ScTile.dn0_elim (F := F) (X0 m) (X1 m) (Mk m) (R0 m) d) $$ Hdn
  icases Hdn' with ⟨H0, H1, Hm, %f, Hp⟩
  iapply (stage2 m κ d (W3 m f) ⟨(Function.update_of_ne (by decide) _ _).trans (W2_a0 m d), (Function.update_of_ne (by decide) _ _).trans (W2_a1 m d),
    (Function.update_of_ne (by decide) _ _).trans (W2_a2 m d)⟩)
  isplitr; · iexact Hctx
  isplitl [Hst]; · iexact Hst
  isplitl [Hb]; · iexact Hb
  isplitl [H0 H1 Hm Hp Hrest]
  · rw [StableHlo.held_sub_split (d.tc : Thread nD τ) hT4 (W3 m f d), held_T4,
      held_rest m d f,
      show W3 m f d a0' = W0 m d a0' from (Function.update_of_ne (by decide) _ _).trans (W2_a0 m d),
      show W3 m f d a1' = W0 m d a1' from (Function.update_of_ne (by decide) _ _).trans (W2_a1 m d),
      show W3 m f d mk' = W2 m d mk' from Function.update_of_ne (by decide) _ _,
      show W3 m f d pt' = f from Function.update_self _ _ _]
    isplitl [H0 H1 Hm Hp]
    · isplitl [H0]; · iexact H0
      isplitl [H1]; · iexact H1
      isplitl [Hm]; · iexact Hm
      iexact Hp
    iexact Hrest
  isplitl [Hprng]; · iexact Hprng
  isplitl [Hg] <;> iassumption

/-! ## @main -/

set_option backward.isDefEq.respectTransparency.types false in
/-- @main on device `d`'s TensorCore, from what the launch deals it: the mask region from the launch contents, then the
    call, the loss region and the straight line; at the end the TensorCore stands after the one call and every
    unscoped buffer is held at contents that agree with the launch's on the three arguments. -/
theorem hmain (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (SparseCore.T d) none) Set.univ (main (F := F) d)
          fun _ => iprop((K (F := F)).tcSt EH d 1 ∗ FIN m d) := by
  have hreg := wp_region (pdatsA m) (K (F := F)).lev (reg0 m (K (F := F)).lev (by sl_refines_lev)) d
    (fun _ => wp frame (wpE ((K (F := F)).defs (D (F := F))) 𝒱 (d.tc : Thread nD τ) none) Set.univ (rest0 (F := F) d)
      fun _ => iprop((K (F := F)).tcSt EH d 1 ∗ FIN m d))
  rw [main_eq', wp_bind]
  refine BI.Entails.trans ?_ hreg
  unfold SparseCore.Cfg.tcRes
  rw [show unscopedBufs d (fun b => m ((SparseCore.T d).loc b)) = held (d.tc : Thread nD τ) (Pipeline.ucRefs τ sig) (W0 m d)
    from Pipeline.unscopedBufs_held d (W0 m d), G_split]
  show iprop(_ ∗ _ ∗ _ ∗ _) ⊢ iprop((iprop(_ ∗ iprop(held (d.tc : Thread nD τ) (Pipeline.ucRefs τ sig) (W2 m d) ∗ Rst (F := F) d 0)) -∗ _)
    ∗ _ ∗ iprop(held (d.tc : Thread nD τ) (Pipeline.ucRefs τ sig) (W0 m d) ∗ Rst (F := F) d 0) ∗ _ ∗ _ ∗ _)
  unfold SparseCore.Cfg.tcSt Rst
  iintro ⟨#Hctx, ⟨⟨%W, %hW, HO⟩, HstR⟩, ⟨Hb, Hh, -, Hprng⟩, ⟨⟨Hg0, Ht0⟩, ⟨Hg1, Ht1⟩⟩⟩
  ihave #Hlev := ((K (F := F)).ctx_levAts (EH := EH) (P := PP m) κ) $$ Hctx
  isplitl [HstR Hg1 Ht1]
  · iintro ⟨Hb, Hh, Hp, %W', %hW', HO⟩
    iapply (stage1 m κ d)
    isplitr; · iexact Hctx
    unfold SparseCore.Cfg.tcSt
    isplitl [HO HstR]
    · isplitl [HO]
      · iexists W'; isplitr; · ipureintro; exact (wbelow_iff d 0 W').mpr hW'
        iexact HO
      iexact HstR
    isplitl [Hb]; · iexact Hb
    isplitl [Hh]; · iexact Hh
    isplitl [Hp]; · iexact Hp
    isplitl [Hg1] <;> iassumption
  isplitl [Hb]; · iexact Hb
  isplitl [Hh Hprng HO]
  · isplitl [Hh]; · iexact Hh
    isplitl [Hprng]; · iexists _; iexact Hprng
    iexists W; isplitr; · ipureintro; exact (wbelow_iff d 0 W).mp hW
    iexact HO
  isplitr; · iexact Hlev
  isplitl [Hg0] <;> iassumption

end Cert.Kernel.Launch

end
-- ==== Proof.LaunchRunB.lean ====
/-
  The run of the whole thread family, from the tile's obligation: the launch theorem for SparseCore programs applied
  to the launch element, @main's proof, the tiles' task and how a SparseCore's operands split among its tiles. What is
  read off the final state: the three argument arrays are as they were launched.
-/
import proofs.«210586_g14980845929080_cont_week2b_1062_66_alg».proof.Proof.LaunchMainB

noncomputable section

namespace Cert.Kernel.Launch

open Cert.Kernel Cert.Kernel.Gen Cert.Kernel.Sc
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)

/-- What is read off a final state on device `d`: the three arguments as launched. -/
def fq (d : Dev nD) (s' : Phys nD τ sig (Elt F)) : Prop :=
  s'.mem.mem ((d.tc : Thread nD τ).1, a0') = W0 m d a0' ∧ s'.mem.mem ((d.tc : Thread nD τ).1, a1') = W0 m d a1' ∧ s'.mem.mem ((d.tc : Thread nD τ).1, a2') = W0 m d a2'

theorem hfin (d : Dev nD) (s' : Phys nD τ sig (Elt F)) : iprop(FIN m d ∗ SI s') ⊢ (⌜fq m d s'⌝ : sProp 𝕄) := by
  unfold FIN held
  iintro ⟨⟨%Wf, %hWf, Hh⟩, HSI⟩
  ihave H := (pointsTo_read_all (Pipeline.ucRefs τ sig) (fun b => ((d.tc : Thread nD τ).1, b)) Wf s') $$ [Hh HSI]
  · isplitl [Hh] <;> iassumption
  icases H with ⟨%hall, -⟩
  ipureintro
  exact ⟨(hall a0' (by decide)).trans hWf.1, (hall a1' (by decide)).trans hWf.2.1, (hall a2' (by decide)).trans hWf.2.2⟩

/-- The frame claim's post: on every device the three argument arrays end as launched. -/
def QC : PUnit × MemSt nD τ sig (Elt F) → Prop := fun r => ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)

/-- Every weakly fair execution of the whole thread family — @main on the TensorCore, the sequencers, the 32 tiles —
    from a memory with all counters at zero terminates, nothing faulting, with the arguments as launched: given that
    one tile's task, at any tile, runs to its end from its share of the operands. -/
theorem run_main (htile : (K (F := F)).TileObl (D (F := F)) 𝒱 (PP m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => htile)
    (fun q _ => match q with | 0 => SparseCore.Cfg.VecSplit.of_plain (ScTile.vecSplit (F := F) (X0 m) (X1 m) (Mk m) (R0 m)))
    m ρ main (fun d => G (F := F) d) (FIN m) (u₀ (F := F)) (sep_elim_left.trans (hu₀ (PP m) rfl)) (hmain m ρ) (fq m) (hfin m) (QC m)
    (fun s' h c => h c)

end Cert.Kernel.Launch

end
-- ==== Proof.ScTileDefsI.lean ====
/-
  The SparseCore kernel's task on one vector subcore, at a symbolic subcore: the frame. From its tokens of the two
  inputs and of the mask array and its row of the result array, the task runs to its end, every transfer it starts
  awaited, and hands the tokens back unchanged and its row at whatever it wrote.
-/
import proofs.«210586_g14980845929080_cont_week2b_1062_66_alg».proof.Proof.ScTilePI
import proofs.«210586_g14980845929080_cont_week2b_1062_66_alg».proof.Proof.Gen.KernelIdeal.Skeleton
import Idealize.ShloMosaic.Lib.Tactic

set_option warn.classDefReducibility false

noncomputable section

namespace Cert.KernelIdeal.ScTile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ Sc.UU ℕ

local notation "a0V" => (Memref.whole Cert.KernelIdeal.main_arg0_scv : Memref Cert.KernelIdeal.sig Kind.scVector Space.hbm Cert.KernelIdeal.S8x192x224x224 EltTy.f32)
local notation "a1V" => (Memref.whole Cert.KernelIdeal.main_arg1_scv : Memref Cert.KernelIdeal.sig Kind.scVector Space.hbm Cert.KernelIdeal.S8x192x224x224 EltTy.f32)
local notation "mkV" => (Memref.whole Cert.KernelIdeal.main_v0_scv : Memref Cert.KernelIdeal.sig Kind.scVector Space.hbm Cert.KernelIdeal.S8x224x256 EltTy.f32)
local notation "ptV" => (Memref.whole Cert.KernelIdeal.main_v1_scv : Memref Cert.KernelIdeal.sig Kind.scVector Space.hbm Cert.KernelIdeal.S32x32 EltTy.f32)
local notation "b0V" => (Memref.whole Cert.KernelIdeal.cc1_scratch0 : Memref Cert.KernelIdeal.sig Kind.scVector Space.vmem Cert.KernelIdeal.S48x224 EltTy.f32)
local notation "b1V" => (Memref.whole Cert.KernelIdeal.cc1_scratch1 : Memref Cert.KernelIdeal.sig Kind.scVector Space.vmem Cert.KernelIdeal.S48x224 EltTy.f32)
local notation "b2V" => (Memref.whole Cert.KernelIdeal.cc1_scratch2 : Memref Cert.KernelIdeal.sig Kind.scVector Space.vmem Cert.KernelIdeal.S48x224 EltTy.f32)
local notation "b3V" => (Memref.whole Cert.KernelIdeal.cc1_scratch3 : Memref Cert.KernelIdeal.sig Kind.scVector Space.vmem Cert.KernelIdeal.S48x224 EltTy.f32)
local notation "b4V" => (Memref.whole Cert.KernelIdeal.cc1_scratch4 : Memref Cert.KernelIdeal.sig Kind.scVector Space.vmem Cert.KernelIdeal.S8x16x256 EltTy.f32)
local notation "b5V" => (Memref.whole Cert.KernelIdeal.cc1_scratch5 : Memref Cert.KernelIdeal.sig Kind.scVector Space.vmem Cert.KernelIdeal.S7x2x16 EltTy.f32)
local notation "b6V" => (Memref.whole Cert.KernelIdeal.cc1_scratch6 : Memref Cert.KernelIdeal.sig Kind.scVector Space.vmem Cert.KernelIdeal.S7x2x16 EltTy.f32)
local notation "b7V" => (Memref.whole Cert.KernelIdeal.cc1_scratch7 : Memref Cert.KernelIdeal.sig Kind.scVector Space.vmem Cert.KernelIdeal.S32 EltTy.f32)

/-! ## The subcore's own buffers and cells -/

theorem ownBufs_V (d : Dev nD) (c : Fin τ.nSC) (i : Fin τ.nSub) :
    (ownBufs (V d c i) : sProp 𝕄)
      = iprop((∃ f, (V d c i).loc cc1_scratch0 ↦{fullShare} f)
          ∗ (∃ f, (V d c i).loc cc1_scratch1 ↦{fullShare} f)
          ∗ (∃ f, (V d c i).loc cc1_scratch2 ↦{fullShare} f)
          ∗ (∃ f, (V d c i).loc cc1_scratch3 ↦{fullShare} f)
          ∗ (∃ f, (V d c i).loc cc1_scratch4 ↦{fullShare} f)
          ∗ (∃ f, (V d c i).loc cc1_scratch5 ↦{fullShare} f)
          ∗ (∃ f, (V d c i).loc cc1_scratch6 ↦{fullShare} f)
          ∗ (∃ f, (V d c i).loc cc1_scratch7 ↦{fullShare} f)
          ∗ bigSep (((((((((ownRefs (τ := τ) (.scVector c i)).erase ((Proc.scVector c i).devRef cc1_scratch0)).erase ((Proc.scVector c i).devRef cc1_scratch1)).erase ((Proc.scVector c i).devRef cc1_scratch2)).erase ((Proc.scVector c i).devRef cc1_scratch3)).erase ((Proc.scVector c i).devRef cc1_scratch4)).erase ((Proc.scVector c i).devRef cc1_scratch5)).erase ((Proc.scVector c i).devRef cc1_scratch6)).erase ((Proc.scVector c i).devRef cc1_scratch7))
              fun b => iprop(∃ f, ((d, b) : Loc nD τ sig) ↦{fullShare} f)) := by
  unfold SparseCore.Cfg.ownBufs
  rw [SparseCore.bigSep_erase' (SparseCore.Cfg.mem_ownRefs_of_owner (p := Proc.scVector c i) (b := (Proc.scVector c i).devRef cc1_scratch0) rfl),
    SparseCore.bigSep_erase' (Finset.mem_erase.mpr ⟨fun e => absurd (Proc.devRef_injective _ e) (show (cc1_scratch1 : Ref sig .scVector) ≠ cc1_scratch0 by decide), SparseCore.Cfg.mem_ownRefs_of_owner (p := Proc.scVector c i) (b := (Proc.scVector c i).devRef cc1_scratch1) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := Proc.scVector c i) (b := (Proc.scVector c i).devRef cc1_scratch2) rfl⟩⟩),
    SparseCore.bigSep_erase' (Finset.mem_erase.mpr ⟨fun e => absurd (Proc.devRef_injective _ e) (show (cc1_scratch3 : Ref sig .scVector) ≠ cc1_scratch2 by decide), Finset.mem_erase.mpr ⟨fun e => absurd (Proc.devRef_injective _ e) (show (cc1_scratch3 : Ref sig .scVector) ≠ cc1_scratch1 by decide), Finset.mem_erase.mpr ⟨fun e => absurd (Proc.devRef_injective _ e) (show (cc1_scratch3 : Ref sig .scVector) ≠ cc1_scratch0 by decide), SparseCore.Cfg.mem_ownRefs_of_owner (p := Proc.scVector c i) (b := (Proc.scVector c i).devRef cc1_scratch3) rfl⟩⟩⟩),
    SparseCore.bigSep_erase' (Finset.mem_erase.mpr ⟨fun e => absurd (Proc.devRef_injective _ e) (show (cc1_scratch4 : Ref sig .scVector) ≠ cc1_scratch3 by decide), Finset.mem_erase.mpr ⟨fun e => absurd (Proc.devRef_injective _ e) (show (cc1_scratch4 : Ref sig .scVector) ≠ cc1_scratch2 by decide), Finset.mem_erase.mpr ⟨fun e => absurd (Proc.devRef_injective _ e) (show (cc1_scratch4 : Ref sig .scVector) ≠ cc1_scratch1 by decide), Finset.mem_erase.mpr ⟨fun e => absurd (Proc.devRef_injective _ e) (show (cc1_scratch4 : Ref sig .scVector) ≠ cc1_scratch0 by decide), SparseCore.Cfg.mem_ownRefs_of_owner (p := Proc.scVector c i) (b := (Proc.scVector c i).devRef cc1_scratch4) rfl⟩⟩⟩⟩),
    SparseCore.bigSep_erase' (Finset.mem_erase.mpr ⟨fun e => absurd (Proc.devRef_injective _ e) (show (cc1_scratch5 : Ref sig .scVector) ≠ cc1_scratch4 by decide), Finset.mem_erase.mpr ⟨fun e => absurd (Proc.devRef_injective _ e) (show (cc1_scratch5 : Ref sig .scVector) ≠ cc1_scratch3 by decide), Finset.mem_erase.mpr ⟨fun e => absurd (Proc.devRef_injective _ e) (show (cc1_scratch5 : Ref sig .scVector) ≠ cc1_scratch2 by decide), Finset.mem_erase.mpr ⟨fun e => absurd (Proc.devRef_injective _ e) (show (cc1_scratch5 : Ref sig .scVector) ≠ cc1_scratch1 by decide), Finset.mem_erase.mpr ⟨fun e => absurd (Proc.devRef_injective _ e) (show (cc1_scratch5 : Ref sig .scVector) ≠ cc1_scratch0 by decide), SparseCore.Cfg.mem_ownRefs_of_owner (p := Proc.scVector c i) (b := (Proc.scVector c i).devRef cc1_scratch5) rfl⟩⟩⟩⟩⟩),
    SparseCore.bigSep_erase' (Finset.mem_erase.mpr ⟨fun e => absurd (Proc.devRef_injective _ e) (show (cc1_scratch6 : Ref sig .scVector) ≠ cc1_scratch5 by decide), Finset.mem_erase.mpr ⟨fun e => absurd (Proc.devRef_injective _ e) (show (cc1_scratch6 : Ref sig .scVector) ≠ cc1_scratch4 by decide), Finset.mem_erase.mpr ⟨fun e => absurd (Proc.devRef_injective _ e) (show (cc1_scratch6 : Ref sig .scVector) ≠ cc1_scratch3 by decide), Finset.mem_erase.mpr ⟨fun e => absurd (Proc.devRef_injective _ e) (show (cc1_scratch6 : Ref sig .scVector) ≠ cc1_scratch2 by decide), Finset.mem_erase.mpr ⟨fun e => absurd (Proc.devRef_injective _ e) (show (cc1_scratch6 : Ref sig .scVector) ≠ cc1_scratch1 by decide), Finset.mem_erase.mpr ⟨fun e => absurd (Proc.devRef_injective _ e) (show (cc1_scratch6 : Ref sig .scVector) ≠ cc1_scratch0 by decide), SparseCore.Cfg.mem_ownRefs_of_owner (p := Proc.scVector c i) (b := (Proc.scVector c i).devRef cc1_scratch6) rfl⟩⟩⟩⟩⟩⟩),
    SparseCore.bigSep_erase' (Finset.mem_erase.mpr ⟨fun e => absurd (Proc.devRef_injective _ e) (show (cc1_scratch7 : Ref sig .scVector) ≠ cc1_scratch6 by decide), Finset.mem_erase.mpr ⟨fun e => absurd (Proc.devRef_injective _ e) (show (cc1_scratch7 : Ref sig .scVector) ≠ cc1_scratch5 by decide), Finset.mem_erase.mpr ⟨fun e => absurd (Proc.devRef_injective _ e) (show (cc1_scratch7 : Ref sig .scVector) ≠ cc1_scratch4 by decide), Finset.mem_erase.mpr ⟨fun e => absurd (Proc.devRef_injective _ e) (show (cc1_scratch7 : Ref sig .scVector) ≠ cc1_scratch3 by decide), Finset.mem_erase.mpr ⟨fun e => absurd (Proc.devRef_injective _ e) (show (cc1_scratch7 : Ref sig .scVector) ≠ cc1_scratch2 by decide), Finset.mem_erase.mpr ⟨fun e => absurd (Proc.devRef_injective _ e) (show (cc1_scratch7 : Ref sig .scVector) ≠ cc1_scratch1 by decide), Finset.mem_erase.mpr ⟨fun e => absurd (Proc.devRef_injective _ e) (show (cc1_scratch7 : Ref sig .scVector) ≠ cc1_scratch0 by decide), SparseCore.Cfg.mem_ownRefs_of_owner (p := Proc.scVector c i) (b := (Proc.scVector c i).devRef cc1_scratch7) rfl⟩⟩⟩⟩⟩⟩⟩)]

theorem ownSems0_V (d : Dev nD) (c : Fin τ.nSC) (i : Fin τ.nSub) :
    (ownSems0 (V d c i) : sProp 𝕄)
      = iprop(semVal ((V d c i, SemLoc.dma cc1_scratch8.sem) : GSem nD τ sig) 0
          ∗ semVal ((V d c i, SemLoc.dma cc1_scratch9.sem) : GSem nD τ sig) 0
          ∗ semVal ((V d c i, SemLoc.dma cc1_scratch10.sem) : GSem nD τ sig) 0
          ∗ semVal ((V d c i, SemLoc.dma cc1_scratch11.sem) : GSem nD τ sig) 0
          ∗ semVal ((V d c i, SemLoc.dma cc1_scoped0.sem) : GSem nD τ sig) 0
          ∗ semVal ((V d c i, SemLoc.dma cc1_scoped1.sem) : GSem nD τ sig) 0
          ∗ bigSep (((((((ownCells (V d c i)).erase ((V d c i, SemLoc.dma cc1_scratch8.sem) : GSem nD τ sig)).erase ((V d c i, SemLoc.dma cc1_scratch9.sem) : GSem nD τ sig)).erase ((V d c i, SemLoc.dma cc1_scratch10.sem) : GSem nD τ sig)).erase ((V d c i, SemLoc.dma cc1_scratch11.sem) : GSem nD τ sig)).erase ((V d c i, SemLoc.dma cc1_scoped0.sem) : GSem nD τ sig)).erase ((V d c i, SemLoc.dma cc1_scoped1.sem) : GSem nD τ sig)) fun g => semVal g 0) := by
  unfold SparseCore.Cfg.ownSems0
  rw [SparseCore.bigSep_erase' ((mem_ownCells (g := ((V d c i, SemLoc.dma cc1_scratch8.sem) : GSem nD τ sig))).mpr ⟨rfl, by show (SemLoc.dma cc1_scratch8.sem : SemLoc sig).isScoped .scVector = true; decide⟩),
    SparseCore.bigSep_erase' (Finset.mem_erase.mpr ⟨fun e => absurd (congrArg Prod.snd e) (show (SemLoc.dma cc1_scratch9.sem : SemLoc sig) ≠ SemLoc.dma cc1_scratch8.sem by decide), (mem_ownCells (g := ((V d c i, SemLoc.dma cc1_scratch9.sem) : GSem nD τ sig))).mpr ⟨rfl, by show (SemLoc.dma cc1_scratch9.sem : SemLoc sig).isScoped .scVector = true; decide⟩⟩),
    SparseCore.bigSep_erase' (Finset.mem_erase.mpr ⟨fun e => absurd (congrArg Prod.snd e) (show (SemLoc.dma cc1_scratch10.sem : SemLoc sig) ≠ SemLoc.dma cc1_scratch9.sem by decide), Finset.mem_erase.mpr ⟨fun e => absurd (congrArg Prod.snd e) (show (SemLoc.dma cc1_scratch10.sem : SemLoc sig) ≠ SemLoc.dma cc1_scratch8.sem by decide), (mem_ownCells (g := ((V d c i, SemLoc.dma cc1_scratch10.sem) : GSem nD τ sig))).mpr ⟨rfl, by show (SemLoc.dma cc1_scratch10.sem : SemLoc sig).isScoped .scVector = true; decide⟩⟩⟩),
    SparseCore.bigSep_erase' (Finset.mem_erase.mpr ⟨fun e => absurd (congrArg Prod.snd e) (show (SemLoc.dma cc1_scratch11.sem : SemLoc sig) ≠ SemLoc.dma cc1_scratch10.sem by decide), Finset.mem_erase.mpr ⟨fun e => absurd (congrArg Prod.snd e) (show (SemLoc.dma cc1_scratch11.sem : SemLoc sig) ≠ SemLoc.dma cc1_scratch9.sem by decide), Finset.mem_erase.mpr ⟨fun e => absurd (congrArg Prod.snd e) (show (SemLoc.dma cc1_scratch11.sem : SemLoc sig) ≠ SemLoc.dma cc1_scratch8.sem by decide), (mem_ownCells (g := ((V d c i, SemLoc.dma cc1_scratch11.sem) : GSem nD τ sig))).mpr ⟨rfl, by show (SemLoc.dma cc1_scratch11.sem : SemLoc sig).isScoped .scVector = true; decide⟩⟩⟩⟩),
    SparseCore.bigSep_erase' (Finset.mem_erase.mpr ⟨fun e => absurd (congrArg Prod.snd e) (show (SemLoc.dma cc1_scoped0.sem : SemLoc sig) ≠ SemLoc.dma cc1_scratch11.sem by decide), Finset.mem_erase.mpr ⟨fun e => absurd (congrArg Prod.snd e) (show (SemLoc.dma cc1_scoped0.sem : SemLoc sig) ≠ SemLoc.dma cc1_scratch10.sem by decide), Finset.mem_erase.mpr ⟨fun e => absurd (congrArg Prod.snd e) (show (SemLoc.dma cc1_scoped0.sem : SemLoc sig) ≠ SemLoc.dma cc1_scratch9.sem by decide), Finset.mem_erase.mpr ⟨fun e => absurd (congrArg Prod.snd e) (show (SemLoc.dma cc1_scoped0.sem : SemLoc sig) ≠ SemLoc.dma cc1_scratch8.sem by decide), (mem_ownCells (g := ((V d c i, SemLoc.dma cc1_scoped0.sem) : GSem nD τ sig))).mpr ⟨rfl, by show (SemLoc.dma cc1_scoped0.sem : SemLoc sig).isScoped .scVector = true; decide⟩⟩⟩⟩⟩),
    SparseCore.bigSep_erase' (Finset.mem_erase.mpr ⟨fun e => absurd (congrArg Prod.snd e) (show (SemLoc.dma cc1_scoped1.sem : SemLoc sig) ≠ SemLoc.dma cc1_scoped0.sem by decide), Finset.mem_erase.mpr ⟨fun e => absurd (congrArg Prod.snd e) (show (SemLoc.dma cc1_scoped1.sem : SemLoc sig) ≠ SemLoc.dma cc1_scratch11.sem by decide), Finset.mem_erase.mpr ⟨fun e => absurd (congrArg Prod.snd e) (show (SemLoc.dma cc1_scoped1.sem : SemLoc sig) ≠ SemLoc.dma cc1_scratch10.sem by decide), Finset.mem_erase.mpr ⟨fun e => absurd (congrArg Prod.snd e) (show (SemLoc.dma cc1_scoped1.sem : SemLoc sig) ≠ SemLoc.dma cc1_scratch9.sem by decide), Finset.mem_erase.mpr ⟨fun e => absurd (congrArg Prod.snd e) (show (SemLoc.dma cc1_scoped1.sem : SemLoc sig) ≠ SemLoc.dma cc1_scratch8.sem by decide), (mem_ownCells (g := ((V d c i, SemLoc.dma cc1_scoped1.sem) : GSem nD τ sig))).mpr ⟨rfl, by show (SemLoc.dma cc1_scoped1.sem : SemLoc sig).isScoped .scVector = true; decide⟩⟩⟩⟩⟩⟩)]

/-! ## The arrays as the task's memrefs address them -/

theorem pts_a0 (d : Dev nD) (c : Fin τ.nSC) (i : Fin τ.nSub) (q : PosShare TreeShare) (f : Buf (Elt F) (a0Loc d)) :
    ((a0V).view.loc (V d c i) ↦{q} f : sProp 𝕄) = a0Loc d ↦{q} f := by
  simp only [Memref.view_whole, View.set_whole]
theorem pts_a1 (d : Dev nD) (c : Fin τ.nSC) (i : Fin τ.nSub) (q : PosShare TreeShare) (f : Buf (Elt F) (a1Loc d)) :
    ((a1V).view.loc (V d c i) ↦{q} f : sProp 𝕄) = a1Loc d ↦{q} f := by
  simp only [Memref.view_whole, View.set_whole]
theorem pts_mk (d : Dev nD) (c : Fin τ.nSC) (i : Fin τ.nSub) (q : PosShare TreeShare) (f : Buf (Elt F) (mkLoc d)) :
    ((mkV).view.loc (V d c i) ↦{q} f : sProp 𝕄) = mkLoc d ↦{q} f := by
  simp only [Memref.view_whole, View.set_whole]
theorem pts_b0 (d : Dev nD) (c : Fin τ.nSC) (i : Fin τ.nSub) (f : Buf (Elt F) ((V d c i).loc cc1_scratch0)) :
    ((b0V).view.loc (V d c i) ↦{fullShare} f : sProp 𝕄) = (V d c i).loc cc1_scratch0 ↦{fullShare} f := rfl
theorem pts_b1 (d : Dev nD) (c : Fin τ.nSC) (i : Fin τ.nSub) (f : Buf (Elt F) ((V d c i).loc cc1_scratch1)) :
    ((b1V).view.loc (V d c i) ↦{fullShare} f : sProp 𝕄) = (V d c i).loc cc1_scratch1 ↦{fullShare} f := rfl
theorem pts_b2 (d : Dev nD) (c : Fin τ.nSC) (i : Fin τ.nSub) (f : Buf (Elt F) ((V d c i).loc cc1_scratch2)) :
    ((b2V).view.loc (V d c i) ↦{fullShare} f : sProp 𝕄) = (V d c i).loc cc1_scratch2 ↦{fullShare} f := rfl
theorem pts_b3 (d : Dev nD) (c : Fin τ.nSC) (i : Fin τ.nSub) (f : Buf (Elt F) ((V d c i).loc cc1_scratch3)) :
    ((b3V).view.loc (V d c i) ↦{fullShare} f : sProp 𝕄) = (V d c i).loc cc1_scratch3 ↦{fullShare} f := rfl
theorem pts_b4 (d : Dev nD) (c : Fin τ.nSC) (i : Fin τ.nSub) (f : Buf (Elt F) ((V d c i).loc cc1_scratch4)) :
    ((b4V).view.loc (V d c i) ↦{fullShare} f : sProp 𝕄) = (V d c i).loc cc1_scratch4 ↦{fullShare} f := rfl
theorem pts_b5 (d : Dev nD) (c : Fin τ.nSC) (i : Fin τ.nSub) (f : Buf (Elt F) ((V d c i).loc cc1_scratch5)) :
    ((b5V).view.loc (V d c i) ↦{fullShare} f : sProp 𝕄) = (V d c i).loc cc1_scratch5 ↦{fullShare} f := rfl
theorem pts_b6 (d : Dev nD) (c : Fin τ.nSC) (i : Fin τ.nSub) (f : Buf (Elt F) ((V d c i).loc cc1_scratch6)) :
    ((b6V).view.loc (V d c i) ↦{fullShare} f : sProp 𝕄) = (V d c i).loc cc1_scratch6 ↦{fullShare} f := rfl
theorem pts_b7 (d : Dev nD) (c : Fin τ.nSC) (i : Fin τ.nSub) (f : Buf (Elt F) ((V d c i).loc cc1_scratch7)) :
    ((b7V).view.loc (V d c i) ↦{fullShare} f : sProp 𝕄) = (V d c i).loc cc1_scratch7 ↦{fullShare} f := rfl

variable [FloatOps F]

section Tile

variable (X0 : (d : Dev nD) → Buf (Elt F) (a0Loc d)) (X1 : (d : Dev nD) → Buf (Elt F) (a1Loc d))
  (M : (d : Dev nD) → Buf (Elt F) (mkLoc d)) (R0 : (d : Dev nD) → Buf (Elt F) (ptLoc d))
variable (d : Dev nD) (L : grid1.Coords)

abbrev cV (L : grid1.Coords) : Fin τ.nSC := (L 0).castLE hcore1
abbrev jV (L : grid1.Coords) : Fin τ.nSub := (L 1).castLE hsub1

/-! ## The accumulation loops: a trip loads from the slot's two buffers and carries its sums in registers -/

/-- A slot's two buffers, untouched. -/
def slotHeld0 (d : Dev nD) (L : grid1.Coords) (gi : Buf (Elt F) ((V d (cV L) (jV L)).loc cc1_scratch0)) (gt : Buf (Elt F) ((V d (cV L) (jV L)).loc cc1_scratch1))
    (_ : ℕ) (_ : FVec F S16 .f32 × FVec F S16 .f32 × FVec F S16 .f32 × FVec F S16 .f32) : sProp 𝕄 :=
  iprop(((b0V).view.loc (V d (cV L) (jV L)) ↦{fullShare} gi) ∗ (b1V).view.loc (V d (cV L) (jV L)) ↦{fullShare} gt)
def slotHeld1 (d : Dev nD) (L : grid1.Coords) (gi : Buf (Elt F) ((V d (cV L) (jV L)).loc cc1_scratch2)) (gt : Buf (Elt F) ((V d (cV L) (jV L)).loc cc1_scratch3))
    (_ : ℕ) (_ : FVec F S16 .f32 × FVec F S16 .f32 × FVec F S16 .f32 × FVec F S16 .f32) : sProp 𝕄 :=
  iprop(((b2V).view.loc (V d (cV L) (jV L)) ↦{fullShare} gi) ∗ (b3V).view.loc (V d (cV L) (jV L)) ↦{fullShare} gt)

@[sl_loop] def loopInv_t2 (d : Dev nD) (L : grid1.Coords) (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) :
    LoopInv (M := 𝕄) frame (wpE (defs₀ (F := F)) Sc.𝒱₀ (V d (cV L) (jV L)) none) Set.univ k1_t2_loop.lb k1_t2_loop.ub k1_t2_loop.st k1_t2_ok init
      (k1_t2_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld0 d L gi gt
  step k acc := by
    rcases acc with ⟨a22, a23, a24, a25⟩
    unfold slotHeld0 k1_t2_body
    iintro ⟨Hi, Ht⟩
    sl_exec
    sl_step
    isplitl [Hi] <;> iassumption

@[sl_loop] def loopInv_t3 (d : Dev nD) (L : grid1.Coords) (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) :
    LoopInv (M := 𝕄) frame (wpE (defs₀ (F := F)) Sc.𝒱₀ (V d (cV L) (jV L)) none) Set.univ k1_t3_loop.lb k1_t3_loop.ub k1_t3_loop.st k1_t3_ok init
      (k1_t3_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld0 d L gi gt
  step k acc := by
    rcases acc with ⟨a22, a23, a24, a25⟩
    unfold slotHeld0 k1_t3_body
    iintro ⟨Hi, Ht⟩
    sl_exec
    sl_step
    isplitl [Hi] <;> iassumption

@[sl_loop] def loopInv_t4 (d : Dev nD) (L : grid1.Coords) (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) :
    LoopInv (M := 𝕄) frame (wpE (defs₀ (F := F)) Sc.𝒱₀ (V d (cV L) (jV L)) none) Set.univ k1_t4_loop.lb k1_t4_loop.ub k1_t4_loop.st k1_t4_ok init
      (k1_t4_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld0 d L gi gt
  step k acc := by
    rcases acc with ⟨a22, a23, a24, a25⟩
    unfold slotHeld0 k1_t4_body
    iintro ⟨Hi, Ht⟩
    sl_exec
    sl_step
    isplitl [Hi] <;> iassumption

@[sl_loop] def loopInv_t5 (d : Dev nD) (L : grid1.Coords) (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) :
    LoopInv (M := 𝕄) frame (wpE (defs₀ (F := F)) Sc.𝒱₀ (V d (cV L) (jV L)) none) Set.univ k1_t5_loop.lb k1_t5_loop.ub k1_t5_loop.st k1_t5_ok init
      (k1_t5_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld0 d L gi gt
  step k acc := by
    rcases acc with ⟨a22, a23, a24, a25⟩
    unfold slotHeld0 k1_t5_body
    iintro ⟨Hi, Ht⟩
    sl_exec
    sl_step
    isplitl [Hi] <;> iassumption

@[sl_loop] def loopInv_t6 (d : Dev nD) (L : grid1.Coords) (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) :
    LoopInv (M := 𝕄) frame (wpE (defs₀ (F := F)) Sc.𝒱₀ (V d (cV L) (jV L)) none) Set.univ k1_t6_loop.lb k1_t6_loop.ub k1_t6_loop.st k1_t6_ok init
      (k1_t6_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld0 d L gi gt
  step k acc := by
    rcases acc with ⟨a22, a23, a24, a25⟩
    unfold slotHeld0 k1_t6_body
    iintro ⟨Hi, Ht⟩
    sl_exec
    sl_step
    isplitl [Hi] <;> iassumption

@[sl_loop] def loopInv_t7 (d : Dev nD) (L : grid1.Coords) (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) :
    LoopInv (M := 𝕄) frame (wpE (defs₀ (F := F)) Sc.𝒱₀ (V d (cV L) (jV L)) none) Set.univ k1_t7_loop.lb k1_t7_loop.ub k1_t7_loop.st k1_t7_ok init
      (k1_t7_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld0 d L gi gt
  step k acc := by
    rcases acc with ⟨a22, a23, a24, a25⟩
    unfold slotHeld0 k1_t7_body
    iintro ⟨Hi, Ht⟩
    sl_exec
    sl_step
    isplitl [Hi] <;> iassumption

@[sl_loop] def loopInv_t8 (d : Dev nD) (L : grid1.Coords) (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) :
    LoopInv (M := 𝕄) frame (wpE (defs₀ (F := F)) Sc.𝒱₀ (V d (cV L) (jV L)) none) Set.univ k1_t8_loop.lb k1_t8_loop.ub k1_t8_loop.st k1_t8_ok init
      (k1_t8_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld0 d L gi gt
  step k acc := by
    rcases acc with ⟨a22, a23, a24, a25⟩
    unfold slotHeld0 k1_t8_body
    iintro ⟨Hi, Ht⟩
    sl_exec
    sl_step
    isplitl [Hi] <;> iassumption

@[sl_loop] def loopInv_t9 (d : Dev nD) (L : grid1.Coords) (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) :
    LoopInv (M := 𝕄) frame (wpE (defs₀ (F := F)) Sc.𝒱₀ (V d (cV L) (jV L)) none) Set.univ k1_t9_loop.lb k1_t9_loop.ub k1_t9_loop.st k1_t9_ok init
      (k1_t9_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld1 d L gi gt
  step k acc := by
    rcases acc with ⟨a22, a23, a24, a25⟩
    unfold slotHeld1 k1_t9_body
    iintro ⟨Hi, Ht⟩
    sl_exec
    sl_step
    isplitl [Hi] <;> iassumption

@[sl_loop] def loopInv_t10 (d : Dev nD) (L : grid1.Coords) (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) :
    LoopInv (M := 𝕄) frame (wpE (defs₀ (F := F)) Sc.𝒱₀ (V d (cV L) (jV L)) none) Set.univ k1_t10_loop.lb k1_t10_loop.ub k1_t10_loop.st k1_t10_ok init
      (k1_t10_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld1 d L gi gt
  step k acc := by
    rcases acc with ⟨a22, a23, a24, a25⟩
    unfold slotHeld1 k1_t10_body
    iintro ⟨Hi, Ht⟩
    sl_exec
    sl_step
    isplitl [Hi] <;> iassumption

@[sl_loop] def loopInv_t11 (d : Dev nD) (L : grid1.Coords) (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) :
    LoopInv (M := 𝕄) frame (wpE (defs₀ (F := F)) Sc.𝒱₀ (V d (cV L) (jV L)) none) Set.univ k1_t11_loop.lb k1_t11_loop.ub k1_t11_loop.st k1_t11_ok init
      (k1_t11_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld1 d L gi gt
  step k acc := by
    rcases acc with ⟨a22, a23, a24, a25⟩
    unfold slotHeld1 k1_t11_body
    iintro ⟨Hi, Ht⟩
    sl_exec
    sl_step
    isplitl [Hi] <;> iassumption

@[sl_loop] def loopInv_t12 (d : Dev nD) (L : grid1.Coords) (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) :
    LoopInv (M := 𝕄) frame (wpE (defs₀ (F := F)) Sc.𝒱₀ (V d (cV L) (jV L)) none) Set.univ k1_t12_loop.lb k1_t12_loop.ub k1_t12_loop.st k1_t12_ok init
      (k1_t12_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld1 d L gi gt
  step k acc := by
    rcases acc with ⟨a22, a23, a24, a25⟩
    unfold slotHeld1 k1_t12_body
    iintro ⟨Hi, Ht⟩
    sl_exec
    sl_step
    isplitl [Hi] <;> iassumption

@[sl_loop] def loopInv_t13 (d : Dev nD) (L : grid1.Coords) (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) :
    LoopInv (M := 𝕄) frame (wpE (defs₀ (F := F)) Sc.𝒱₀ (V d (cV L) (jV L)) none) Set.univ k1_t13_loop.lb k1_t13_loop.ub k1_t13_loop.st k1_t13_ok init
      (k1_t13_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld1 d L gi gt
  step k acc := by
    rcases acc with ⟨a22, a23, a24, a25⟩
    unfold slotHeld1 k1_t13_body
    iintro ⟨Hi, Ht⟩
    sl_exec
    sl_step
    isplitl [Hi] <;> iassumption

@[sl_loop] def loopInv_t14 (d : Dev nD) (L : grid1.Coords) (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) :
    LoopInv (M := 𝕄) frame (wpE (defs₀ (F := F)) Sc.𝒱₀ (V d (cV L) (jV L)) none) Set.univ k1_t14_loop.lb k1_t14_loop.ub k1_t14_loop.st k1_t14_ok init
      (k1_t14_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld1 d L gi gt
  step k acc := by
    rcases acc with ⟨a22, a23, a24, a25⟩
    unfold slotHeld1 k1_t14_body
    iintro ⟨Hi, Ht⟩
    sl_exec
    sl_step
    isplitl [Hi] <;> iassumption

@[sl_loop] def loopInv_t15 (d : Dev nD) (L : grid1.Coords) (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) :
    LoopInv (M := 𝕄) frame (wpE (defs₀ (F := F)) Sc.𝒱₀ (V d (cV L) (jV L)) none) Set.univ k1_t15_loop.lb k1_t15_loop.ub k1_t15_loop.st k1_t15_ok init
      (k1_t15_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld1 d L gi gt
  step k acc := by
    rcases acc with ⟨a22, a23, a24, a25⟩
    unfold slotHeld1 k1_t15_body
    iintro ⟨Hi, Ht⟩
    sl_exec
    sl_step
    isplitl [Hi] <;> iassumption

@[sl_loop] def loopInv_t16 (d : Dev nD) (L : grid1.Coords) (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) :
    LoopInv (M := 𝕄) frame (wpE (defs₀ (F := F)) Sc.𝒱₀ (V d (cV L) (jV L)) none) Set.univ k1_t16_loop.lb k1_t16_loop.ub k1_t16_loop.st k1_t16_ok init
      (k1_t16_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld0 d L gi gt
  step k acc := by
    rcases acc with ⟨a22, a23, a24, a25⟩
    unfold slotHeld0 k1_t16_body
    iintro ⟨Hi, Ht⟩
    sl_exec
    sl_step
    isplitl [Hi] <;> iassumption

@[sl_loop] def loopInv_t17 (d : Dev nD) (L : grid1.Coords) (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) :
    LoopInv (M := 𝕄) frame (wpE (defs₀ (F := F)) Sc.𝒱₀ (V d (cV L) (jV L)) none) Set.univ k1_t17_loop.lb k1_t17_loop.ub k1_t17_loop.st k1_t17_ok init
      (k1_t17_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld0 d L gi gt
  step k acc := by
    rcases acc with ⟨a22, a23, a24, a25⟩
    unfold slotHeld0 k1_t17_body
    iintro ⟨Hi, Ht⟩
    sl_exec
    sl_step
    isplitl [Hi] <;> iassumption

@[sl_loop] def loopInv_t18 (d : Dev nD) (L : grid1.Coords) (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) :
    LoopInv (M := 𝕄) frame (wpE (defs₀ (F := F)) Sc.𝒱₀ (V d (cV L) (jV L)) none) Set.univ k1_t18_loop.lb k1_t18_loop.ub k1_t18_loop.st k1_t18_ok init
      (k1_t18_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld0 d L gi gt
  step k acc := by
    rcases acc with ⟨a22, a23, a24, a25⟩
    unfold slotHeld0 k1_t18_body
    iintro ⟨Hi, Ht⟩
    sl_exec
    sl_step
    isplitl [Hi] <;> iassumption

@[sl_loop] def loopInv_t19 (d : Dev nD) (L : grid1.Coords) (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) :
    LoopInv (M := 𝕄) frame (wpE (defs₀ (F := F)) Sc.𝒱₀ (V d (cV L) (jV L)) none) Set.univ k1_t19_loop.lb k1_t19_loop.ub k1_t19_loop.st k1_t19_ok init
      (k1_t19_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld0 d L gi gt
  step k acc := by
    rcases acc with ⟨a22, a23, a24, a25⟩
    unfold slotHeld0 k1_t19_body
    iintro ⟨Hi, Ht⟩
    sl_exec
    sl_step
    isplitl [Hi] <;> iassumption

@[sl_loop] def loopInv_t20 (d : Dev nD) (L : grid1.Coords) (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) :
    LoopInv (M := 𝕄) frame (wpE (defs₀ (F := F)) Sc.𝒱₀ (V d (cV L) (jV L)) none) Set.univ k1_t20_loop.lb k1_t20_loop.ub k1_t20_loop.st k1_t20_ok init
      (k1_t20_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld0 d L gi gt
  step k acc := by
    rcases acc with ⟨a22, a23, a24, a25⟩
    unfold slotHeld0 k1_t20_body
    iintro ⟨Hi, Ht⟩
    sl_exec
    sl_step
    isplitl [Hi] <;> iassumption

@[sl_loop] def loopInv_t21 (d : Dev nD) (L : grid1.Coords) (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) :
    LoopInv (M := 𝕄) frame (wpE (defs₀ (F := F)) Sc.𝒱₀ (V d (cV L) (jV L)) none) Set.univ k1_t21_loop.lb k1_t21_loop.ub k1_t21_loop.st k1_t21_ok init
      (k1_t21_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld0 d L gi gt
  step k acc := by
    rcases acc with ⟨a22, a23, a24, a25⟩
    unfold slotHeld0 k1_t21_body
    iintro ⟨Hi, Ht⟩
    sl_exec
    sl_step
    isplitl [Hi] <;> iassumption

@[sl_loop] def loopInv_t22 (d : Dev nD) (L : grid1.Coords) (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) :
    LoopInv (M := 𝕄) frame (wpE (defs₀ (F := F)) Sc.𝒱₀ (V d (cV L) (jV L)) none) Set.univ k1_t22_loop.lb k1_t22_loop.ub k1_t22_loop.st k1_t22_ok init
      (k1_t22_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld0 d L gi gt
  step k acc := by
    rcases acc with ⟨a22, a23, a24, a25⟩
    unfold slotHeld0 k1_t22_body
    iintro ⟨Hi, Ht⟩
    sl_exec
    sl_step
    isplitl [Hi] <;> iassumption

@[sl_loop] def loopInv_t23 (d : Dev nD) (L : grid1.Coords) (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) :
    LoopInv (M := 𝕄) frame (wpE (defs₀ (F := F)) Sc.𝒱₀ (V d (cV L) (jV L)) none) Set.univ k1_t23_loop.lb k1_t23_loop.ub k1_t23_loop.st k1_t23_ok init
      (k1_t23_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld1 d L gi gt
  step k acc := by
    rcases acc with ⟨a22, a23, a24, a25⟩
    unfold slotHeld1 k1_t23_body
    iintro ⟨Hi, Ht⟩
    sl_exec
    sl_step
    isplitl [Hi] <;> iassumption

@[sl_loop] def loopInv_t24 (d : Dev nD) (L : grid1.Coords) (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) :
    LoopInv (M := 𝕄) frame (wpE (defs₀ (F := F)) Sc.𝒱₀ (V d (cV L) (jV L)) none) Set.univ k1_t24_loop.lb k1_t24_loop.ub k1_t24_loop.st k1_t24_ok init
      (k1_t24_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld1 d L gi gt
  step k acc := by
    rcases acc with ⟨a22, a23, a24, a25⟩
    unfold slotHeld1 k1_t24_body
    iintro ⟨Hi, Ht⟩
    sl_exec
    sl_step
    isplitl [Hi] <;> iassumption

@[sl_loop] def loopInv_t25 (d : Dev nD) (L : grid1.Coords) (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) :
    LoopInv (M := 𝕄) frame (wpE (defs₀ (F := F)) Sc.𝒱₀ (V d (cV L) (jV L)) none) Set.univ k1_t25_loop.lb k1_t25_loop.ub k1_t25_loop.st k1_t25_ok init
      (k1_t25_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld1 d L gi gt
  step k acc := by
    rcases acc with ⟨a22, a23, a24, a25⟩
    unfold slotHeld1 k1_t25_body
    iintro ⟨Hi, Ht⟩
    sl_exec
    sl_step
    isplitl [Hi] <;> iassumption

@[sl_loop] def loopInv_t26 (d : Dev nD) (L : grid1.Coords) (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) :
    LoopInv (M := 𝕄) frame (wpE (defs₀ (F := F)) Sc.𝒱₀ (V d (cV L) (jV L)) none) Set.univ k1_t26_loop.lb k1_t26_loop.ub k1_t26_loop.st k1_t26_ok init
      (k1_t26_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld1 d L gi gt
  step k acc := by
    rcases acc with ⟨a22, a23, a24, a25⟩
    unfold slotHeld1 k1_t26_body
    iintro ⟨Hi, Ht⟩
    sl_exec
    sl_step
    isplitl [Hi] <;> iassumption

@[sl_loop] def loopInv_t27 (d : Dev nD) (L : grid1.Coords) (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) :
    LoopInv (M := 𝕄) frame (wpE (defs₀ (F := F)) Sc.𝒱₀ (V d (cV L) (jV L)) none) Set.univ k1_t27_loop.lb k1_t27_loop.ub k1_t27_loop.st k1_t27_ok init
      (k1_t27_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld1 d L gi gt
  step k acc := by
    rcases acc with ⟨a22, a23, a24, a25⟩
    unfold slotHeld1 k1_t27_body
    iintro ⟨Hi, Ht⟩
    sl_exec
    sl_step
    isplitl [Hi] <;> iassumption

@[sl_loop] def loopInv_t28 (d : Dev nD) (L : grid1.Coords) (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) :
    LoopInv (M := 𝕄) frame (wpE (defs₀ (F := F)) Sc.𝒱₀ (V d (cV L) (jV L)) none) Set.univ k1_t28_loop.lb k1_t28_loop.ub k1_t28_loop.st k1_t28_ok init
      (k1_t28_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld1 d L gi gt
  step k acc := by
    rcases acc with ⟨a22, a23, a24, a25⟩
    unfold slotHeld1 k1_t28_body
    iintro ⟨Hi, Ht⟩
    sl_exec
    sl_step
    isplitl [Hi] <;> iassumption

@[sl_loop] def loopInv_t29 (d : Dev nD) (L : grid1.Coords) (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) :
    LoopInv (M := 𝕄) frame (wpE (defs₀ (F := F)) Sc.𝒱₀ (V d (cV L) (jV L)) none) Set.univ k1_t29_loop.lb k1_t29_loop.ub k1_t29_loop.st k1_t29_ok init
      (k1_t29_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld1 d L gi gt
  step k acc := by
    rcases acc with ⟨a22, a23, a24, a25⟩
    unfold slotHeld1 k1_t29_body
    iintro ⟨Hi, Ht⟩
    sl_exec
    sl_step
    isplitl [Hi] <;> iassumption

/-! ## The row loop: two slots, each either in flight or at rest -/

/-- Both slots in flight: each of the four transfers' `Flight` (delivering its buffer at some contents and the window
    of the input it reads) beside the rest of that input's share. -/
def rowFly (qa qb : PosShare TreeShare) (d : Dev nD) (L : grid1.Coords) : sProp 𝕄 :=
  iprop(∃ (oA oB : Fin 4 → ℕ) (hA : (∀ a, oA a + S1x48x1x224.size a ≤ S8x192x224x224.size a)) (hB : (∀ a, oB a + S1x48x1x224.size a ≤ S8x192x224x224.size a))
      (g0 : Buf (Elt F) ((V d (cV L) (jV L)).loc cc1_scratch0)) (g1 : Buf (Elt F) ((V d (cV L) (jV L)).loc cc1_scratch1))
      (g2 : Buf (Elt F) ((V d (cV L) (jV L)).loc cc1_scratch2)) (g3 : Buf (Elt F) ((V d (cV L) (jV L)).loc cc1_scratch3)),
    (Transfers.Flight countersEmb (V d (cV L) (jV L)) (SemLoc.dma (⟨3, by decide⟩ : DmaSem sig)) (default : HIx 1) 344064
      iprop(((b0V).view.loc (V d (cV L) (jV L)) ↦{fullShare} g0) ∗ (a0V).view.loc (V d (cV L) (jV L)) ↦[((((a0V).slice (Rect.unit (s := S8x192x224x224) oA S1x48x1x224.size hA) (fun _ => rfl)).squeeze S48x224 squeezes_S1x48x1x224_S48x224).view.set)]{qa} X0 d))
    ∗ ((a0V).view.loc (V d (cV L) (jV L)) ↦[Finset.univ \ ((((a0V).slice (Rect.unit (s := S8x192x224x224) oA S1x48x1x224.size hA) (fun _ => rfl)).squeeze S48x224 squeezes_S1x48x1x224_S48x224).view.set)]{qa} X0 d)
    ∗ (Transfers.Flight countersEmb (V d (cV L) (jV L)) (SemLoc.dma (⟨4, by decide⟩ : DmaSem sig)) (default : HIx 1) 344064
      iprop(((b1V).view.loc (V d (cV L) (jV L)) ↦{fullShare} g1) ∗ (a1V).view.loc (V d (cV L) (jV L)) ↦[((((a1V).slice (Rect.unit (s := S8x192x224x224) oA S1x48x1x224.size hA) (fun _ => rfl)).squeeze S48x224 squeezes_S1x48x1x224_S48x224).view.set)]{qa} X1 d))
    ∗ ((a1V).view.loc (V d (cV L) (jV L)) ↦[Finset.univ \ ((((a1V).slice (Rect.unit (s := S8x192x224x224) oA S1x48x1x224.size hA) (fun _ => rfl)).squeeze S48x224 squeezes_S1x48x1x224_S48x224).view.set)]{qa} X1 d)
    ∗ (Transfers.Flight countersEmb (V d (cV L) (jV L)) (SemLoc.dma (⟨5, by decide⟩ : DmaSem sig)) (default : HIx 1) 344064
      iprop(((b2V).view.loc (V d (cV L) (jV L)) ↦{fullShare} g2) ∗ (a0V).view.loc (V d (cV L) (jV L)) ↦[((((a0V).slice (Rect.unit (s := S8x192x224x224) oB S1x48x1x224.size hB) (fun _ => rfl)).squeeze S48x224 squeezes_S1x48x1x224_S48x224).view.set)]{qb} X0 d))
    ∗ ((a0V).view.loc (V d (cV L) (jV L)) ↦[Finset.univ \ ((((a0V).slice (Rect.unit (s := S8x192x224x224) oB S1x48x1x224.size hB) (fun _ => rfl)).squeeze S48x224 squeezes_S1x48x1x224_S48x224).view.set)]{qb} X0 d)
    ∗ (Transfers.Flight countersEmb (V d (cV L) (jV L)) (SemLoc.dma (⟨6, by decide⟩ : DmaSem sig)) (default : HIx 1) 344064
      iprop(((b3V).view.loc (V d (cV L) (jV L)) ↦{fullShare} g3) ∗ (a1V).view.loc (V d (cV L) (jV L)) ↦[((((a1V).slice (Rect.unit (s := S8x192x224x224) oB S1x48x1x224.size hB) (fun _ => rfl)).squeeze S48x224 squeezes_S1x48x1x224_S48x224).view.set)]{qb} X1 d))
    ∗ ((a1V).view.loc (V d (cV L) (jV L)) ↦[Finset.univ \ ((((a1V).slice (Rect.unit (s := S8x192x224x224) oB S1x48x1x224.size hB) (fun _ => rfl)).squeeze S48x224 squeezes_S1x48x1x224_S48x224).view.set)]{qb} X1 d))

/-- Both slots at rest: the four buffers at some contents, the four cells at zero, the inputs' shares whole. -/
def rowIdle (qa qb : PosShare TreeShare) (d : Dev nD) (L : grid1.Coords) : sProp 𝕄 :=
  iprop((∃ g, ((b0V).view.loc (V d (cV L) (jV L)) ↦{fullShare} g)) ∗ (∃ g, ((b1V).view.loc (V d (cV L) (jV L)) ↦{fullShare} g)) ∗ (∃ g, ((b2V).view.loc (V d (cV L) (jV L)) ↦{fullShare} g)) ∗ (∃ g, ((b3V).view.loc (V d (cV L) (jV L)) ↦{fullShare} g))
    ∗ semVal ((V d (cV L) (jV L)), (SemLoc.dma (⟨3, by decide⟩ : DmaSem sig))) 0 ∗ semVal ((V d (cV L) (jV L)), (SemLoc.dma (⟨4, by decide⟩ : DmaSem sig))) 0 ∗ semVal ((V d (cV L) (jV L)), (SemLoc.dma (⟨5, by decide⟩ : DmaSem sig))) 0 ∗ semVal ((V d (cV L) (jV L)), (SemLoc.dma (⟨6, by decide⟩ : DmaSem sig))) 0
    ∗ ((a0V).view.loc (V d (cV L) (jV L)) ↦{qa} X0 d) ∗ ((a1V).view.loc (V d (cV L) (jV L)) ↦{qa} X1 d)
    ∗ ((a0V).view.loc (V d (cV L) (jV L)) ↦{qb} X0 d) ∗ ((a1V).view.loc (V d (cV L) (jV L)) ↦{qb} X1 d))

/-- Before row `k`: the mask slab as fetched, the two accumulators at some contents, the slots in flight while a
    row remains and at rest after the last, and what the task owes with only its own waits recorded beyond `W`. -/
def rowInv (qa qb : PosShare TreeShare) (d : Dev nD) (L : grid1.Coords) (O : CellTallies nD τ sig (HIx 1)) (W : Waits sig (HIx 1))
    (g4 : Buf (Elt F) ((V d (cV L) (jV L)).loc cc1_scratch4)) (k : ℕ) (_ : FVec F S16 .f32 × FVec F S16 .f32) : sProp 𝕄 :=
  iprop(Transfers.MayWaits (V d (cV L) (jV L)) (none : HIx 1) O
    ∗ ((b4V).view.loc (V d (cV L) (jV L)) ↦{fullShare} g4) ∗ (∃ g, ((b5V).view.loc (V d (cV L) (jV L)) ↦{fullShare} g)) ∗ (∃ g, ((b6V).view.loc (V d (cV L) (jV L)) ↦{fullShare} g))
    ∗ (if k < 16 then rowFly X0 X1 qa qb d L else rowIdle X0 X1 qa qb d L)
    ∗ ∃ W', ⌜∀ p ∈ W', p ∈ W ∨ p.2 = none⌝ ∗ owes (V d (cV L) (jV L)) O W')

/-! ## Between the accumulation's guarded regions: the task's state with the two accumulators at some contents -/

/-- Slot 0 at rest: its buffers, the cells at zero, the inputs' share whole. -/
def landed0 (qa : PosShare TreeShare) (d : Dev nD) (L : grid1.Coords)
    (g0 : Buf (Elt F) ((V d (cV L) (jV L)).loc cc1_scratch0)) (g1 : Buf (Elt F) ((V d (cV L) (jV L)).loc cc1_scratch1)) : sProp 𝕄 :=
  iprop(((b0V).view.loc (V d (cV L) (jV L)) ↦{fullShare} g0) ∗ ((b1V).view.loc (V d (cV L) (jV L)) ↦{fullShare} g1) ∗ ((a0V).view.loc (V d (cV L) (jV L)) ↦{qa} X0 d) ∗ ((a1V).view.loc (V d (cV L) (jV L)) ↦{qa} X1 d)
    ∗ semVal ((V d (cV L) (jV L)), (SemLoc.dma (⟨3, by decide⟩ : DmaSem sig))) 0 ∗ semVal ((V d (cV L) (jV L)), (SemLoc.dma (⟨4, by decide⟩ : DmaSem sig))) 0)
def landed1 (qb : PosShare TreeShare) (d : Dev nD) (L : grid1.Coords)
    (g2 : Buf (Elt F) ((V d (cV L) (jV L)).loc cc1_scratch2)) (g3 : Buf (Elt F) ((V d (cV L) (jV L)).loc cc1_scratch3)) : sProp 𝕄 :=
  iprop(((b2V).view.loc (V d (cV L) (jV L)) ↦{fullShare} g2) ∗ ((b3V).view.loc (V d (cV L) (jV L)) ↦{fullShare} g3) ∗ ((a0V).view.loc (V d (cV L) (jV L)) ↦{qb} X0 d) ∗ ((a1V).view.loc (V d (cV L) (jV L)) ↦{qb} X1 d)
    ∗ semVal ((V d (cV L) (jV L)), (SemLoc.dma (⟨5, by decide⟩ : DmaSem sig))) 0 ∗ semVal ((V d (cV L) (jV L)), (SemLoc.dma (⟨6, by decide⟩ : DmaSem sig))) 0)
/-- Slot 0 in flight from the window at offsets `o`. -/
def flying0 (qa : PosShare TreeShare) (d : Dev nD) (L : grid1.Coords) (o : Fin 4 → ℕ) (h : (∀ a, o a + S1x48x1x224.size a ≤ S8x192x224x224.size a))
    (g0 : Buf (Elt F) ((V d (cV L) (jV L)).loc cc1_scratch0)) (g1 : Buf (Elt F) ((V d (cV L) (jV L)).loc cc1_scratch1)) : sProp 𝕄 :=
  iprop((Transfers.Flight countersEmb (V d (cV L) (jV L)) (SemLoc.dma (⟨3, by decide⟩ : DmaSem sig)) (default : HIx 1) 344064
      iprop(((b0V).view.loc (V d (cV L) (jV L)) ↦{fullShare} g0) ∗ (a0V).view.loc (V d (cV L) (jV L)) ↦[((((a0V).slice (Rect.unit (s := S8x192x224x224) o S1x48x1x224.size h) (fun _ => rfl)).squeeze S48x224 squeezes_S1x48x1x224_S48x224).view.set)]{qa} X0 d))
    ∗ ((a0V).view.loc (V d (cV L) (jV L)) ↦[Finset.univ \ ((((a0V).slice (Rect.unit (s := S8x192x224x224) o S1x48x1x224.size h) (fun _ => rfl)).squeeze S48x224 squeezes_S1x48x1x224_S48x224).view.set)]{qa} X0 d)
    ∗ (Transfers.Flight countersEmb (V d (cV L) (jV L)) (SemLoc.dma (⟨4, by decide⟩ : DmaSem sig)) (default : HIx 1) 344064
      iprop(((b1V).view.loc (V d (cV L) (jV L)) ↦{fullShare} g1) ∗ (a1V).view.loc (V d (cV L) (jV L)) ↦[((((a1V).slice (Rect.unit (s := S8x192x224x224) o S1x48x1x224.size h) (fun _ => rfl)).squeeze S48x224 squeezes_S1x48x1x224_S48x224).view.set)]{qa} X1 d))
    ∗ ((a1V).view.loc (V d (cV L) (jV L)) ↦[Finset.univ \ ((((a1V).slice (Rect.unit (s := S8x192x224x224) o S1x48x1x224.size h) (fun _ => rfl)).squeeze S48x224 squeezes_S1x48x1x224_S48x224).view.set)]{qa} X1 d))
def flying1 (qb : PosShare TreeShare) (d : Dev nD) (L : grid1.Coords) (o : Fin 4 → ℕ) (h : (∀ a, o a + S1x48x1x224.size a ≤ S8x192x224x224.size a))
    (g2 : Buf (Elt F) ((V d (cV L) (jV L)).loc cc1_scratch2)) (g3 : Buf (Elt F) ((V d (cV L) (jV L)).loc cc1_scratch3)) : sProp 𝕄 :=
  iprop((Transfers.Flight countersEmb (V d (cV L) (jV L)) (SemLoc.dma (⟨5, by decide⟩ : DmaSem sig)) (default : HIx 1) 344064
      iprop(((b2V).view.loc (V d (cV L) (jV L)) ↦{fullShare} g2) ∗ (a0V).view.loc (V d (cV L) (jV L)) ↦[((((a0V).slice (Rect.unit (s := S8x192x224x224) o S1x48x1x224.size h) (fun _ => rfl)).squeeze S48x224 squeezes_S1x48x1x224_S48x224).view.set)]{qb} X0 d))
    ∗ ((a0V).view.loc (V d (cV L) (jV L)) ↦[Finset.univ \ ((((a0V).slice (Rect.unit (s := S8x192x224x224) o S1x48x1x224.size h) (fun _ => rfl)).squeeze S48x224 squeezes_S1x48x1x224_S48x224).view.set)]{qb} X0 d)
    ∗ (Transfers.Flight countersEmb (V d (cV L) (jV L)) (SemLoc.dma (⟨6, by decide⟩ : DmaSem sig)) (default : HIx 1) 344064
      iprop(((b3V).view.loc (V d (cV L) (jV L)) ↦{fullShare} g3) ∗ (a1V).view.loc (V d (cV L) (jV L)) ↦[((((a1V).slice (Rect.unit (s := S8x192x224x224) o S1x48x1x224.size h) (fun _ => rfl)).squeeze S48x224 squeezes_S1x48x1x224_S48x224).view.set)]{qb} X1 d))
    ∗ ((a1V).view.loc (V d (cV L) (jV L)) ↦[Finset.univ \ ((((a1V).slice (Rect.unit (s := S8x192x224x224) o S1x48x1x224.size h) (fun _ => rfl)).squeeze S48x224 squeezes_S1x48x1x224_S48x224).view.set)]{qb} X1 d))

/-- The slots with their buffers' contents left open. -/
def landed0E (qa : PosShare TreeShare) (d : Dev nD) (L : grid1.Coords) : sProp 𝕄 := iprop(∃ g0 g1, landed0 X0 X1 qa d L g0 g1)
def landed1E (qb : PosShare TreeShare) (d : Dev nD) (L : grid1.Coords) : sProp 𝕄 := iprop(∃ g2 g3, landed1 X0 X1 qb d L g2 g3)
def flying0E (qa : PosShare TreeShare) (d : Dev nD) (L : grid1.Coords) (o : Fin 4 → ℕ) (h : (∀ a, o a + S1x48x1x224.size a ≤ S8x192x224x224.size a)) : sProp 𝕄 :=
  iprop(∃ g0 g1, flying0 X0 X1 qa d L o h g0 g1)
def flying1E (qb : PosShare TreeShare) (d : Dev nD) (L : grid1.Coords) (o : Fin 4 → ℕ) (h : (∀ a, o a + S1x48x1x224.size a ≤ S8x192x224x224.size a)) : sProp 𝕄 :=
  iprop(∃ g2 g3, flying1 X0 X1 qb d L o h g2 g3)

/-- The task's state at a cut: the slots as given, the accumulators at some contents. -/
def cutSt (S0 S1 : sProp 𝕄) (d : Dev nD) (L : grid1.Coords) (O : CellTallies nD τ sig (HIx 1)) (Wx : Waits sig (HIx 1))
    (g4 : Buf (Elt F) ((V d (cV L) (jV L)).loc cc1_scratch4)) : sProp 𝕄 :=
  iprop(Transfers.MayWaits (V d (cV L) (jV L)) (none : HIx 1) O ∗ ((b4V).view.loc (V d (cV L) (jV L)) ↦{fullShare} g4) ∗ (∃ g, ((b5V).view.loc (V d (cV L) (jV L)) ↦{fullShare} g)) ∗ (∃ g, ((b6V).view.loc (V d (cV L) (jV L)) ↦{fullShare} g))
    ∗ S0 ∗ S1 ∗ owes (V d (cV L) (jV L)) O Wx)

/-- A conditional whose else-region is the rest of the block: both regions reach the rest from one state `R`. -/
theorem ite_cut {β : Type} {c : Prop} [Decidable c] (d : Dev nD) (L : grid1.Coords)
    {T J : Prog (TpuEff nD τ sig (Elt F) Λ₀ (.scVector (cV L) (jV L))) β} {Q : β → sProp 𝕄} {P : sProp 𝕄} (R : sProp 𝕄)
    (h1 : c → ∀ j : Prog (TpuEff nD τ sig (Elt F) Λ₀ (.scVector (cV L) (jV L))) β, j = J →
      (R ⊢ wp frame (wpE (defs₀ (F := F)) Sc.𝒱₀ (V d (cV L) (jV L)) none) Set.univ j Q) →
      Entails' P (wp frame (wpE (defs₀ (F := F)) Sc.𝒱₀ (V d (cV L) (jV L)) none) Set.univ T Q))
    (h2 : ¬c → Entails' P R)
    (h3 : R ⊢ wp frame (wpE (defs₀ (F := F)) Sc.𝒱₀ (V d (cV L) (jV L)) none) Set.univ J Q) :
    Entails' P (wp frame (wpE (defs₀ (F := F)) Sc.𝒱₀ (V d (cV L) (jV L)) none) Set.univ (if c then T else J) Q) := by
  by_cases hc : c
  · rw [if_pos hc]; exact h1 hc J rfl h3
  · rw [if_neg hc]; exact (show P ⊢ R from h2 hc).trans h3

theorem trips16 : k1_t1_loop.trips = 16 := by decide
theorem cond8_all : ∀ k : Fin k1_t1_loop.trips, k1_cond8 k = 1#1 := by decide +kernel
theorem cond16_all : ∀ k : Fin k1_t1_loop.trips, k1_cond16 k = 1#1 := by decide +kernel
theorem cond24_iff : ∀ k : Fin k1_t1_loop.trips, k1_cond24 k = 1#1 ↔ k.val + 1 < 16 := by decide +kernel
theorem cond32_iff : ∀ k : Fin k1_t1_loop.trips, k1_cond32 k = 1#1 ↔ k.val + 1 < 16 := by decide +kernel

end Tile

end Cert.KernelIdeal.ScTile

end
-- ==== Proof.ScTileMidI.lean ====
/-
  One row of the task's row loop when a row follows it: from the loop's invariant before the row to the invariant after it, the two slots refilled for the next row.
-/
import proofs.«210586_g14980845929080_cont_week2b_1062_66_alg».proof.Proof.ScTileDefsI
import proofs.«210586_g14980845929080_cont_week2b_1062_66_alg».proof.Proof.Gen.KernelIdeal.Skeleton
import Idealize.ShloMosaic.Lib.Tactic

set_option warn.classDefReducibility false

noncomputable section

namespace Cert.KernelIdeal.ScTile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ Sc.UU ℕ

local notation "a0V" => (Memref.whole Cert.KernelIdeal.main_arg0_scv : Memref Cert.KernelIdeal.sig Kind.scVector Space.hbm Cert.KernelIdeal.S8x192x224x224 EltTy.f32)
local notation "a1V" => (Memref.whole Cert.KernelIdeal.main_arg1_scv : Memref Cert.KernelIdeal.sig Kind.scVector Space.hbm Cert.KernelIdeal.S8x192x224x224 EltTy.f32)
local notation "mkV" => (Memref.whole Cert.KernelIdeal.main_v0_scv : Memref Cert.KernelIdeal.sig Kind.scVector Space.hbm Cert.KernelIdeal.S8x224x256 EltTy.f32)
local notation "ptV" => (Memref.whole Cert.KernelIdeal.main_v1_scv : Memref Cert.KernelIdeal.sig Kind.scVector Space.hbm Cert.KernelIdeal.S32x32 EltTy.f32)
local notation "b0V" => (Memref.whole Cert.KernelIdeal.cc1_scratch0 : Memref Cert.KernelIdeal.sig Kind.scVector Space.vmem Cert.KernelIdeal.S48x224 EltTy.f32)
local notation "b1V" => (Memref.whole Cert.KernelIdeal.cc1_scratch1 : Memref Cert.KernelIdeal.sig Kind.scVector Space.vmem Cert.KernelIdeal.S48x224 EltTy.f32)
local notation "b2V" => (Memref.whole Cert.KernelIdeal.cc1_scratch2 : Memref Cert.KernelIdeal.sig Kind.scVector Space.vmem Cert.KernelIdeal.S48x224 EltTy.f32)
local notation "b3V" => (Memref.whole Cert.KernelIdeal.cc1_scratch3 : Memref Cert.KernelIdeal.sig Kind.scVector Space.vmem Cert.KernelIdeal.S48x224 EltTy.f32)
local notation "b4V" => (Memref.whole Cert.KernelIdeal.cc1_scratch4 : Memref Cert.KernelIdeal.sig Kind.scVector Space.vmem Cert.KernelIdeal.S8x16x256 EltTy.f32)
local notation "b5V" => (Memref.whole Cert.KernelIdeal.cc1_scratch5 : Memref Cert.KernelIdeal.sig Kind.scVector Space.vmem Cert.KernelIdeal.S7x2x16 EltTy.f32)
local notation "b6V" => (Memref.whole Cert.KernelIdeal.cc1_scratch6 : Memref Cert.KernelIdeal.sig Kind.scVector Space.vmem Cert.KernelIdeal.S7x2x16 EltTy.f32)
local notation "b7V" => (Memref.whole Cert.KernelIdeal.cc1_scratch7 : Memref Cert.KernelIdeal.sig Kind.scVector Space.vmem Cert.KernelIdeal.S32 EltTy.f32)

variable [FloatOps F]

section Tile

variable (X0 : (d : Dev nD) → Buf (Elt F) (a0Loc d)) (X1 : (d : Dev nD) → Buf (Elt F) (a1Loc d))
  (M : (d : Dev nD) → Buf (Elt F) (mkLoc d)) (R0 : (d : Dev nD) → Buf (Elt F) (ptLoc d))
variable (d : Dev nD) (L : grid1.Coords)

set_option maxHeartbeats 4000000 in
/-- One row with a row after it: both slots are refilled. -/
theorem row_trip_mid (qa qb : PosShare TreeShare) (O : CellTallies nD τ sig (HIx 1)) (W : Waits sig (HIx 1))
    (g4 : Buf (Elt F) ((V d (cV L) (jV L)).loc cc1_scratch4)) (v3 v23 : BitVec 32) (v24 v25 : FVec F S16 .f32)
    (k : Fin k1_t1_loop.trips) (hl : k.val + 1 < 16) (acc : FVec F S16 .f32 × FVec F S16 .f32) :
    rowInv X0 X1 qa qb d L O W g4 k.val acc
      ⊢ wp frame (wpE (defs₀ (F := F)) Sc.𝒱₀ (V d (cV L) (jV L)) none) Set.univ (k1_t1_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 v3 v23 v24 v25 k acc)
          (rowInv X0 X1 qa qb d L O W g4 (k.val + 1)) := by
  rcases acc with ⟨a19, a20⟩
  have hk : k.val < 16 := trips16 ▸ k.isLt
  unfold rowInv k1_t1_body
  rw [if_pos hk]; unfold rowFly
  iintro ⟨#Hmw, Hb4, ⟨%g5, Hb5⟩, ⟨%g6, Hb6⟩, ⟨%oA, %oB, %hA, %hB, %g0, %g1, %g2, %g3, HF3, H0a, HF4, H1a, HF5, H0b, HF6, H1b⟩, %W', %hW', HO⟩
  sl_exec
  refine ite_cut d L (cutSt (landed0E X0 X1 qa d L) (flying1E X0 X1 qb d L oB hB) d L O (insert (SemLoc.dma (⟨4, by decide⟩ : DmaSem sig), (default : HIx 1)) (insert (SemLoc.dma (⟨3, by decide⟩ : DmaSem sig), (default : HIx 1)) W')) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  sl_exec
  refine ite_cut d L (cutSt (landed0E X0 X1 qa d L) (flying1E X0 X1 qb d L oB hB) d L O (insert (SemLoc.dma (⟨4, by decide⟩ : DmaSem sig), (default : HIx 1)) (insert (SemLoc.dma (⟨3, by decide⟩ : DmaSem sig), (default : HIx 1)) W')) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  sl_exec
  refine ite_cut d L (cutSt (landed0E X0 X1 qa d L) (flying1E X0 X1 qb d L oB hB) d L O (insert (SemLoc.dma (⟨4, by decide⟩ : DmaSem sig), (default : HIx 1)) (insert (SemLoc.dma (⟨3, by decide⟩ : DmaSem sig), (default : HIx 1)) W')) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  sl_exec
  refine ite_cut d L (cutSt (landed0E X0 X1 qa d L) (flying1E X0 X1 qb d L oB hB) d L O (insert (SemLoc.dma (⟨4, by decide⟩ : DmaSem sig), (default : HIx 1)) (insert (SemLoc.dma (⟨3, by decide⟩ : DmaSem sig), (default : HIx 1)) W')) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  sl_exec
  refine ite_cut d L (cutSt (landed0E X0 X1 qa d L) (flying1E X0 X1 qb d L oB hB) d L O (insert (SemLoc.dma (⟨4, by decide⟩ : DmaSem sig), (default : HIx 1)) (insert (SemLoc.dma (⟨3, by decide⟩ : DmaSem sig), (default : HIx 1)) W')) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  sl_exec
  refine ite_cut d L (cutSt (landed0E X0 X1 qa d L) (flying1E X0 X1 qb d L oB hB) d L O (insert (SemLoc.dma (⟨4, by decide⟩ : DmaSem sig), (default : HIx 1)) (insert (SemLoc.dma (⟨3, by decide⟩ : DmaSem sig), (default : HIx 1)) W')) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  sl_exec
  refine ite_cut d L (cutSt (landed0E X0 X1 qa d L) (flying1E X0 X1 qb d L oB hB) d L O (insert (SemLoc.dma (⟨4, by decide⟩ : DmaSem sig), (default : HIx 1)) (insert (SemLoc.dma (⟨3, by decide⟩ : DmaSem sig), (default : HIx 1)) W')) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  have h8 := cond8_all k
  sl_exec
  refine ite_cut d L (cutSt (flying0E X0 X1 qa d L (k1_off19 L k) (k1_off19_inb L k (cond8_all k))) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3, H0a, HF4, H1a⟩, ⟨%g2, %g3, HF5_dst, HF6_dst, H0b, H1b, HF5, HF6⟩, HO⟩
  clear h8
  sl_exec
  refine ite_cut d L (cutSt (flying0E X0 X1 qa d L (k1_off19 L k) (k1_off19_inb L k (cond8_all k))) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3, H0a, HF4, H1a⟩, ⟨%g2, %g3, HF5_dst, HF6_dst, H0b, H1b, HF5, HF6⟩, HO⟩
  sl_exec
  refine ite_cut d L (cutSt (flying0E X0 X1 qa d L (k1_off19 L k) (k1_off19_inb L k (cond8_all k))) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3, H0a, HF4, H1a⟩, ⟨%g2, %g3, HF5_dst, HF6_dst, H0b, H1b, HF5, HF6⟩, HO⟩
  sl_exec
  refine ite_cut d L (cutSt (flying0E X0 X1 qa d L (k1_off19 L k) (k1_off19_inb L k (cond8_all k))) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3, H0a, HF4, H1a⟩, ⟨%g2, %g3, HF5_dst, HF6_dst, H0b, H1b, HF5, HF6⟩, HO⟩
  sl_exec
  refine ite_cut d L (cutSt (flying0E X0 X1 qa d L (k1_off19 L k) (k1_off19_inb L k (cond8_all k))) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3, H0a, HF4, H1a⟩, ⟨%g2, %g3, HF5_dst, HF6_dst, H0b, H1b, HF5, HF6⟩, HO⟩
  sl_exec
  refine ite_cut d L (cutSt (flying0E X0 X1 qa d L (k1_off19 L k) (k1_off19_inb L k (cond8_all k))) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3, H0a, HF4, H1a⟩, ⟨%g2, %g3, HF5_dst, HF6_dst, H0b, H1b, HF5, HF6⟩, HO⟩
  sl_exec
  refine ite_cut d L (cutSt (flying0E X0 X1 qa d L (k1_off19 L k) (k1_off19_inb L k (cond8_all k))) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3, H0a, HF4, H1a⟩, ⟨%g2, %g3, HF5_dst, HF6_dst, H0b, H1b, HF5, HF6⟩, HO⟩
  have h16 := cond16_all k
  sl_exec
  refine ite_cut d L (cutSt (landed0E X0 X1 qa d L) (flying1E X0 X1 qb d L (k1_off34 L k) (k1_off34_inb L k (cond16_all k))) d L O (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  clear h16
  sl_exec
  refine ite_cut d L (cutSt (landed0E X0 X1 qa d L) (flying1E X0 X1 qb d L (k1_off34 L k) (k1_off34_inb L k (cond16_all k))) d L O (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  sl_exec
  refine ite_cut d L (cutSt (landed0E X0 X1 qa d L) (flying1E X0 X1 qb d L (k1_off34 L k) (k1_off34_inb L k (cond16_all k))) d L O (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  sl_exec
  refine ite_cut d L (cutSt (landed0E X0 X1 qa d L) (flying1E X0 X1 qb d L (k1_off34 L k) (k1_off34_inb L k (cond16_all k))) d L O (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  sl_exec
  refine ite_cut d L (cutSt (landed0E X0 X1 qa d L) (flying1E X0 X1 qb d L (k1_off34 L k) (k1_off34_inb L k (cond16_all k))) d L O (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  sl_exec
  refine ite_cut d L (cutSt (landed0E X0 X1 qa d L) (flying1E X0 X1 qb d L (k1_off34 L k) (k1_off34_inb L k (cond16_all k))) d L O (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  sl_exec
  refine ite_cut d L (cutSt (landed0E X0 X1 qa d L) (flying1E X0 X1 qb d L (k1_off34 L k) (k1_off34_inb L k (cond16_all k))) d L O (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  have h24 : k1_cond24 k = 1#1 := (cond24_iff k).2 hl
  sl_exec
  refine ite_cut d L (cutSt (flying0E X0 X1 qa d L (k1_off49 L k) (k1_off49_inb L k ((cond24_iff k).2 hl))) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3, H0a, HF4, H1a⟩, ⟨%g2, %g3, HF5_dst, HF6_dst, H0b, H1b, HF5, HF6⟩, HO⟩
  clear h24
  sl_exec
  refine ite_cut d L (cutSt (flying0E X0 X1 qa d L (k1_off49 L k) (k1_off49_inb L k ((cond24_iff k).2 hl))) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3, H0a, HF4, H1a⟩, ⟨%g2, %g3, HF5_dst, HF6_dst, H0b, H1b, HF5, HF6⟩, HO⟩
  sl_exec
  refine ite_cut d L (cutSt (flying0E X0 X1 qa d L (k1_off49 L k) (k1_off49_inb L k ((cond24_iff k).2 hl))) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3, H0a, HF4, H1a⟩, ⟨%g2, %g3, HF5_dst, HF6_dst, H0b, H1b, HF5, HF6⟩, HO⟩
  sl_exec
  refine ite_cut d L (cutSt (flying0E X0 X1 qa d L (k1_off49 L k) (k1_off49_inb L k ((cond24_iff k).2 hl))) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3, H0a, HF4, H1a⟩, ⟨%g2, %g3, HF5_dst, HF6_dst, H0b, H1b, HF5, HF6⟩, HO⟩
  sl_exec
  refine ite_cut d L (cutSt (flying0E X0 X1 qa d L (k1_off49 L k) (k1_off49_inb L k ((cond24_iff k).2 hl))) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3, H0a, HF4, H1a⟩, ⟨%g2, %g3, HF5_dst, HF6_dst, H0b, H1b, HF5, HF6⟩, HO⟩
  sl_exec
  refine ite_cut d L (cutSt (flying0E X0 X1 qa d L (k1_off49 L k) (k1_off49_inb L k ((cond24_iff k).2 hl))) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3, H0a, HF4, H1a⟩, ⟨%g2, %g3, HF5_dst, HF6_dst, H0b, H1b, HF5, HF6⟩, HO⟩
  sl_exec
  refine ite_cut d L (cutSt (flying0E X0 X1 qa d L (k1_off49 L k) (k1_off49_inb L k ((cond24_iff k).2 hl))) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3, H0a, HF4, H1a⟩, ⟨%g2, %g3, HF5_dst, HF6_dst, H0b, H1b, HF5, HF6⟩, HO⟩
  have h32 : k1_cond32 k = 1#1 := (cond32_iff k).2 hl
  sl_exec
  sl_step
  rw [if_pos hl]
  have hWf : ∀ p ∈ (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))))), p ∈ W ∨ p.2 = none := by
    intro p hp
    repeat (rcases Finset.mem_insert.mp hp with rfl | hp; · exact .inr rfl)
    exact hW' p hp
  sl_close

end Tile

end Cert.KernelIdeal.ScTile

end
-- ==== Proof.ScTileLastI.lean ====
/-
  The last row of the task's row loop: from the loop's invariant before it to the invariant after the loop, both slots at rest.
-/
import proofs.«210586_g14980845929080_cont_week2b_1062_66_alg».proof.Proof.ScTileDefsI
import proofs.«210586_g14980845929080_cont_week2b_1062_66_alg».proof.Proof.Gen.KernelIdeal.Skeleton
import Idealize.ShloMosaic.Lib.Tactic

set_option warn.classDefReducibility false

noncomputable section

namespace Cert.KernelIdeal.ScTile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ Sc.UU ℕ

local notation "a0V" => (Memref.whole Cert.KernelIdeal.main_arg0_scv : Memref Cert.KernelIdeal.sig Kind.scVector Space.hbm Cert.KernelIdeal.S8x192x224x224 EltTy.f32)
local notation "a1V" => (Memref.whole Cert.KernelIdeal.main_arg1_scv : Memref Cert.KernelIdeal.sig Kind.scVector Space.hbm Cert.KernelIdeal.S8x192x224x224 EltTy.f32)
local notation "mkV" => (Memref.whole Cert.KernelIdeal.main_v0_scv : Memref Cert.KernelIdeal.sig Kind.scVector Space.hbm Cert.KernelIdeal.S8x224x256 EltTy.f32)
local notation "ptV" => (Memref.whole Cert.KernelIdeal.main_v1_scv : Memref Cert.KernelIdeal.sig Kind.scVector Space.hbm Cert.KernelIdeal.S32x32 EltTy.f32)
local notation "b0V" => (Memref.whole Cert.KernelIdeal.cc1_scratch0 : Memref Cert.KernelIdeal.sig Kind.scVector Space.vmem Cert.KernelIdeal.S48x224 EltTy.f32)
local notation "b1V" => (Memref.whole Cert.KernelIdeal.cc1_scratch1 : Memref Cert.KernelIdeal.sig Kind.scVector Space.vmem Cert.KernelIdeal.S48x224 EltTy.f32)
local notation "b2V" => (Memref.whole Cert.KernelIdeal.cc1_scratch2 : Memref Cert.KernelIdeal.sig Kind.scVector Space.vmem Cert.KernelIdeal.S48x224 EltTy.f32)
local notation "b3V" => (Memref.whole Cert.KernelIdeal.cc1_scratch3 : Memref Cert.KernelIdeal.sig Kind.scVector Space.vmem Cert.KernelIdeal.S48x224 EltTy.f32)
local notation "b4V" => (Memref.whole Cert.KernelIdeal.cc1_scratch4 : Memref Cert.KernelIdeal.sig Kind.scVector Space.vmem Cert.KernelIdeal.S8x16x256 EltTy.f32)
local notation "b5V" => (Memref.whole Cert.KernelIdeal.cc1_scratch5 : Memref Cert.KernelIdeal.sig Kind.scVector Space.vmem Cert.KernelIdeal.S7x2x16 EltTy.f32)
local notation "b6V" => (Memref.whole Cert.KernelIdeal.cc1_scratch6 : Memref Cert.KernelIdeal.sig Kind.scVector Space.vmem Cert.KernelIdeal.S7x2x16 EltTy.f32)
local notation "b7V" => (Memref.whole Cert.KernelIdeal.cc1_scratch7 : Memref Cert.KernelIdeal.sig Kind.scVector Space.vmem Cert.KernelIdeal.S32 EltTy.f32)

variable [FloatOps F]

section Tile

variable (X0 : (d : Dev nD) → Buf (Elt F) (a0Loc d)) (X1 : (d : Dev nD) → Buf (Elt F) (a1Loc d))
  (M : (d : Dev nD) → Buf (Elt F) (mkLoc d)) (R0 : (d : Dev nD) → Buf (Elt F) (ptLoc d))
variable (d : Dev nD) (L : grid1.Coords)

set_option maxHeartbeats 4000000 in
/-- One row, the last: no slot is refilled. -/
theorem row_trip_last (qa qb : PosShare TreeShare) (O : CellTallies nD τ sig (HIx 1)) (W : Waits sig (HIx 1))
    (g4 : Buf (Elt F) ((V d (cV L) (jV L)).loc cc1_scratch4)) (v3 v23 : BitVec 32) (v24 v25 : FVec F S16 .f32)
    (k : Fin k1_t1_loop.trips) (hl : ¬ k.val + 1 < 16) (acc : FVec F S16 .f32 × FVec F S16 .f32) :
    rowInv X0 X1 qa qb d L O W g4 k.val acc
      ⊢ wp frame (wpE (defs₀ (F := F)) Sc.𝒱₀ (V d (cV L) (jV L)) none) Set.univ (k1_t1_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 v3 v23 v24 v25 k acc)
          (rowInv X0 X1 qa qb d L O W g4 (k.val + 1)) := by
  rcases acc with ⟨a19, a20⟩
  have hk : k.val < 16 := trips16 ▸ k.isLt
  unfold rowInv k1_t1_body
  rw [if_pos hk]; unfold rowFly
  iintro ⟨#Hmw, Hb4, ⟨%g5, Hb5⟩, ⟨%g6, Hb6⟩, ⟨%oA, %oB, %hA, %hB, %g0, %g1, %g2, %g3, HF3, H0a, HF4, H1a, HF5, H0b, HF6, H1b⟩, %W', %hW', HO⟩
  sl_exec
  refine ite_cut d L (cutSt (landed0E X0 X1 qa d L) (flying1E X0 X1 qb d L oB hB) d L O (insert (SemLoc.dma (⟨4, by decide⟩ : DmaSem sig), (default : HIx 1)) (insert (SemLoc.dma (⟨3, by decide⟩ : DmaSem sig), (default : HIx 1)) W')) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  sl_exec
  refine ite_cut d L (cutSt (landed0E X0 X1 qa d L) (flying1E X0 X1 qb d L oB hB) d L O (insert (SemLoc.dma (⟨4, by decide⟩ : DmaSem sig), (default : HIx 1)) (insert (SemLoc.dma (⟨3, by decide⟩ : DmaSem sig), (default : HIx 1)) W')) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  sl_exec
  refine ite_cut d L (cutSt (landed0E X0 X1 qa d L) (flying1E X0 X1 qb d L oB hB) d L O (insert (SemLoc.dma (⟨4, by decide⟩ : DmaSem sig), (default : HIx 1)) (insert (SemLoc.dma (⟨3, by decide⟩ : DmaSem sig), (default : HIx 1)) W')) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  sl_exec
  refine ite_cut d L (cutSt (landed0E X0 X1 qa d L) (flying1E X0 X1 qb d L oB hB) d L O (insert (SemLoc.dma (⟨4, by decide⟩ : DmaSem sig), (default : HIx 1)) (insert (SemLoc.dma (⟨3, by decide⟩ : DmaSem sig), (default : HIx 1)) W')) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  sl_exec
  refine ite_cut d L (cutSt (landed0E X0 X1 qa d L) (flying1E X0 X1 qb d L oB hB) d L O (insert (SemLoc.dma (⟨4, by decide⟩ : DmaSem sig), (default : HIx 1)) (insert (SemLoc.dma (⟨3, by decide⟩ : DmaSem sig), (default : HIx 1)) W')) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  sl_exec
  refine ite_cut d L (cutSt (landed0E X0 X1 qa d L) (flying1E X0 X1 qb d L oB hB) d L O (insert (SemLoc.dma (⟨4, by decide⟩ : DmaSem sig), (default : HIx 1)) (insert (SemLoc.dma (⟨3, by decide⟩ : DmaSem sig), (default : HIx 1)) W')) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  sl_exec
  refine ite_cut d L (cutSt (landed0E X0 X1 qa d L) (flying1E X0 X1 qb d L oB hB) d L O (insert (SemLoc.dma (⟨4, by decide⟩ : DmaSem sig), (default : HIx 1)) (insert (SemLoc.dma (⟨3, by decide⟩ : DmaSem sig), (default : HIx 1)) W')) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  have h8 := cond8_all k
  sl_exec
  refine ite_cut d L (cutSt (flying0E X0 X1 qa d L (k1_off19 L k) (k1_off19_inb L k (cond8_all k))) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3, H0a, HF4, H1a⟩, ⟨%g2, %g3, HF5_dst, HF6_dst, H0b, H1b, HF5, HF6⟩, HO⟩
  clear h8
  sl_exec
  refine ite_cut d L (cutSt (flying0E X0 X1 qa d L (k1_off19 L k) (k1_off19_inb L k (cond8_all k))) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3, H0a, HF4, H1a⟩, ⟨%g2, %g3, HF5_dst, HF6_dst, H0b, H1b, HF5, HF6⟩, HO⟩
  sl_exec
  refine ite_cut d L (cutSt (flying0E X0 X1 qa d L (k1_off19 L k) (k1_off19_inb L k (cond8_all k))) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3, H0a, HF4, H1a⟩, ⟨%g2, %g3, HF5_dst, HF6_dst, H0b, H1b, HF5, HF6⟩, HO⟩
  sl_exec
  refine ite_cut d L (cutSt (flying0E X0 X1 qa d L (k1_off19 L k) (k1_off19_inb L k (cond8_all k))) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3, H0a, HF4, H1a⟩, ⟨%g2, %g3, HF5_dst, HF6_dst, H0b, H1b, HF5, HF6⟩, HO⟩
  sl_exec
  refine ite_cut d L (cutSt (flying0E X0 X1 qa d L (k1_off19 L k) (k1_off19_inb L k (cond8_all k))) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3, H0a, HF4, H1a⟩, ⟨%g2, %g3, HF5_dst, HF6_dst, H0b, H1b, HF5, HF6⟩, HO⟩
  sl_exec
  refine ite_cut d L (cutSt (flying0E X0 X1 qa d L (k1_off19 L k) (k1_off19_inb L k (cond8_all k))) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3, H0a, HF4, H1a⟩, ⟨%g2, %g3, HF5_dst, HF6_dst, H0b, H1b, HF5, HF6⟩, HO⟩
  sl_exec
  refine ite_cut d L (cutSt (flying0E X0 X1 qa d L (k1_off19 L k) (k1_off19_inb L k (cond8_all k))) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3, H0a, HF4, H1a⟩, ⟨%g2, %g3, HF5_dst, HF6_dst, H0b, H1b, HF5, HF6⟩, HO⟩
  have h16 := cond16_all k
  sl_exec
  refine ite_cut d L (cutSt (landed0E X0 X1 qa d L) (flying1E X0 X1 qb d L (k1_off34 L k) (k1_off34_inb L k (cond16_all k))) d L O (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  clear h16
  sl_exec
  refine ite_cut d L (cutSt (landed0E X0 X1 qa d L) (flying1E X0 X1 qb d L (k1_off34 L k) (k1_off34_inb L k (cond16_all k))) d L O (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  sl_exec
  refine ite_cut d L (cutSt (landed0E X0 X1 qa d L) (flying1E X0 X1 qb d L (k1_off34 L k) (k1_off34_inb L k (cond16_all k))) d L O (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  sl_exec
  refine ite_cut d L (cutSt (landed0E X0 X1 qa d L) (flying1E X0 X1 qb d L (k1_off34 L k) (k1_off34_inb L k (cond16_all k))) d L O (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  sl_exec
  refine ite_cut d L (cutSt (landed0E X0 X1 qa d L) (flying1E X0 X1 qb d L (k1_off34 L k) (k1_off34_inb L k (cond16_all k))) d L O (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  sl_exec
  refine ite_cut d L (cutSt (landed0E X0 X1 qa d L) (flying1E X0 X1 qb d L (k1_off34 L k) (k1_off34_inb L k (cond16_all k))) d L O (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  sl_exec
  refine ite_cut d L (cutSt (landed0E X0 X1 qa d L) (flying1E X0 X1 qb d L (k1_off34 L k) (k1_off34_inb L k (cond16_all k))) d L O (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  have hn24 : ¬ k1_cond24 k = 1#1 := fun h => hl ((cond24_iff k).1 h)
  sl_exec
  refine ite_cut d L (cutSt (landed0E X0 X1 qa d L) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5_dst, HF6_dst, H0b, H1b, HF5, HF6⟩, HO⟩
  clear hn24
  sl_exec
  refine ite_cut d L (cutSt (landed0E X0 X1 qa d L) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5_dst, HF6_dst, H0b, H1b, HF5, HF6⟩, HO⟩
  sl_exec
  refine ite_cut d L (cutSt (landed0E X0 X1 qa d L) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5_dst, HF6_dst, H0b, H1b, HF5, HF6⟩, HO⟩
  sl_exec
  refine ite_cut d L (cutSt (landed0E X0 X1 qa d L) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5_dst, HF6_dst, H0b, H1b, HF5, HF6⟩, HO⟩
  sl_exec
  refine ite_cut d L (cutSt (landed0E X0 X1 qa d L) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5_dst, HF6_dst, H0b, H1b, HF5, HF6⟩, HO⟩
  sl_exec
  refine ite_cut d L (cutSt (landed0E X0 X1 qa d L) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5_dst, HF6_dst, H0b, H1b, HF5, HF6⟩, HO⟩
  sl_exec
  refine ite_cut d L (cutSt (landed0E X0 X1 qa d L) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5_dst, HF6_dst, H0b, H1b, HF5, HF6⟩, HO⟩
  have hn32 : ¬ k1_cond32 k = 1#1 := fun h => hl ((cond32_iff k).1 h)
  sl_exec
  sl_step
  rw [if_neg hl]
  unfold rowIdle
  have hWx : ∀ p ∈ (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))))), p ∈ W ∨ p.2 = none := by
    intro p hp
    simp only [Finset.mem_insert] at hp
    rcases hp with rfl | rfl | rfl | rfl | rfl | rfl | rfl | rfl | h
    all_goals first | exact Or.inr rfl | exact hW' p h
  sl_close

end Tile

end Cert.KernelIdeal.ScTile

end
-- ==== Proof.ScTileI.lean ====
/-
  One row of the task's row loop, whichever row it is.
-/
import proofs.«210586_g14980845929080_cont_week2b_1062_66_alg».proof.Proof.ScTileMidI
import proofs.«210586_g14980845929080_cont_week2b_1062_66_alg».proof.Proof.ScTileLastI
import proofs.«210586_g14980845929080_cont_week2b_1062_66_alg».proof.Proof.Gen.KernelIdeal.Skeleton
import Idealize.ShloMosaic.Lib.Tactic

set_option warn.classDefReducibility false

noncomputable section

namespace Cert.KernelIdeal.ScTile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ Sc.UU ℕ

local notation "a0V" => (Memref.whole Cert.KernelIdeal.main_arg0_scv : Memref Cert.KernelIdeal.sig Kind.scVector Space.hbm Cert.KernelIdeal.S8x192x224x224 EltTy.f32)
local notation "a1V" => (Memref.whole Cert.KernelIdeal.main_arg1_scv : Memref Cert.KernelIdeal.sig Kind.scVector Space.hbm Cert.KernelIdeal.S8x192x224x224 EltTy.f32)
local notation "mkV" => (Memref.whole Cert.KernelIdeal.main_v0_scv : Memref Cert.KernelIdeal.sig Kind.scVector Space.hbm Cert.KernelIdeal.S8x224x256 EltTy.f32)
local notation "ptV" => (Memref.whole Cert.KernelIdeal.main_v1_scv : Memref Cert.KernelIdeal.sig Kind.scVector Space.hbm Cert.KernelIdeal.S32x32 EltTy.f32)
local notation "b0V" => (Memref.whole Cert.KernelIdeal.cc1_scratch0 : Memref Cert.KernelIdeal.sig Kind.scVector Space.vmem Cert.KernelIdeal.S48x224 EltTy.f32)
local notation "b1V" => (Memref.whole Cert.KernelIdeal.cc1_scratch1 : Memref Cert.KernelIdeal.sig Kind.scVector Space.vmem Cert.KernelIdeal.S48x224 EltTy.f32)
local notation "b2V" => (Memref.whole Cert.KernelIdeal.cc1_scratch2 : Memref Cert.KernelIdeal.sig Kind.scVector Space.vmem Cert.KernelIdeal.S48x224 EltTy.f32)
local notation "b3V" => (Memref.whole Cert.KernelIdeal.cc1_scratch3 : Memref Cert.KernelIdeal.sig Kind.scVector Space.vmem Cert.KernelIdeal.S48x224 EltTy.f32)
local notation "b4V" => (Memref.whole Cert.KernelIdeal.cc1_scratch4 : Memref Cert.KernelIdeal.sig Kind.scVector Space.vmem Cert.KernelIdeal.S8x16x256 EltTy.f32)
local notation "b5V" => (Memref.whole Cert.KernelIdeal.cc1_scratch5 : Memref Cert.KernelIdeal.sig Kind.scVector Space.vmem Cert.KernelIdeal.S7x2x16 EltTy.f32)
local notation "b6V" => (Memref.whole Cert.KernelIdeal.cc1_scratch6 : Memref Cert.KernelIdeal.sig Kind.scVector Space.vmem Cert.KernelIdeal.S7x2x16 EltTy.f32)
local notation "b7V" => (Memref.whole Cert.KernelIdeal.cc1_scratch7 : Memref Cert.KernelIdeal.sig Kind.scVector Space.vmem Cert.KernelIdeal.S32 EltTy.f32)

variable [FloatOps F]

section Tile

variable (X0 : (d : Dev nD) → Buf (Elt F) (a0Loc d)) (X1 : (d : Dev nD) → Buf (Elt F) (a1Loc d))
  (M : (d : Dev nD) → Buf (Elt F) (mkLoc d)) (R0 : (d : Dev nD) → Buf (Elt F) (ptLoc d))
variable (d : Dev nD) (L : grid1.Coords)

/-- One row. -/
theorem row_trip (qa qb : PosShare TreeShare) (O : CellTallies nD τ sig (HIx 1)) (W : Waits sig (HIx 1))
    (g4 : Buf (Elt F) ((V d (cV L) (jV L)).loc cc1_scratch4)) (v3 v23 : BitVec 32) (v24 v25 : FVec F S16 .f32)
    (k : Fin k1_t1_loop.trips) (acc : FVec F S16 .f32 × FVec F S16 .f32) :
    rowInv X0 X1 qa qb d L O W g4 k.val acc
      ⊢ wp frame (wpE (defs₀ (F := F)) Sc.𝒱₀ (V d (cV L) (jV L)) none) Set.univ (k1_t1_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 v3 v23 v24 v25 k acc)
          (rowInv X0 X1 qa qb d L O W g4 (k.val + 1)) := by
  by_cases hl : k.val + 1 < 16
  · exact row_trip_mid X0 X1 d L qa qb O W g4 v3 v23 v24 v25 k hl acc
  · exact row_trip_last X0 X1 d L qa qb O W g4 v3 v23 v24 v25 k hl acc

end Tile

end Cert.KernelIdeal.ScTile

end
-- ==== Proof.ScTileBodyI.lean ====
/-
  The SparseCore kernel's task on one vector subcore: the prologue (the mask slab's fetch, the first two slots'
  transfers), the row loop by its invariant, the epilogue (the sums stored and copied out to the task's row), and the
  launch theorem's obligation over it.
-/
import proofs.«210586_g14980845929080_cont_week2b_1062_66_alg».proof.Proof.ScTileI
import proofs.«210586_g14980845929080_cont_week2b_1062_66_alg».proof.Proof.Gen.KernelIdeal.Skeleton
import Idealize.ShloMosaic.Lib.Tactic

set_option warn.classDefReducibility false

noncomputable section

namespace Cert.KernelIdeal.ScTile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ Sc.UU ℕ

local notation "a0V" => (Memref.whole Cert.KernelIdeal.main_arg0_scv : Memref Cert.KernelIdeal.sig Kind.scVector Space.hbm Cert.KernelIdeal.S8x192x224x224 EltTy.f32)
local notation "a1V" => (Memref.whole Cert.KernelIdeal.main_arg1_scv : Memref Cert.KernelIdeal.sig Kind.scVector Space.hbm Cert.KernelIdeal.S8x192x224x224 EltTy.f32)
local notation "mkV" => (Memref.whole Cert.KernelIdeal.main_v0_scv : Memref Cert.KernelIdeal.sig Kind.scVector Space.hbm Cert.KernelIdeal.S8x224x256 EltTy.f32)
local notation "ptV" => (Memref.whole Cert.KernelIdeal.main_v1_scv : Memref Cert.KernelIdeal.sig Kind.scVector Space.hbm Cert.KernelIdeal.S32x32 EltTy.f32)
local notation "b0V" => (Memref.whole Cert.KernelIdeal.cc1_scratch0 : Memref Cert.KernelIdeal.sig Kind.scVector Space.vmem Cert.KernelIdeal.S48x224 EltTy.f32)
local notation "b1V" => (Memref.whole Cert.KernelIdeal.cc1_scratch1 : Memref Cert.KernelIdeal.sig Kind.scVector Space.vmem Cert.KernelIdeal.S48x224 EltTy.f32)
local notation "b2V" => (Memref.whole Cert.KernelIdeal.cc1_scratch2 : Memref Cert.KernelIdeal.sig Kind.scVector Space.vmem Cert.KernelIdeal.S48x224 EltTy.f32)
local notation "b3V" => (Memref.whole Cert.KernelIdeal.cc1_scratch3 : Memref Cert.KernelIdeal.sig Kind.scVector Space.vmem Cert.KernelIdeal.S48x224 EltTy.f32)
local notation "b4V" => (Memref.whole Cert.KernelIdeal.cc1_scratch4 : Memref Cert.KernelIdeal.sig Kind.scVector Space.vmem Cert.KernelIdeal.S8x16x256 EltTy.f32)
local notation "b5V" => (Memref.whole Cert.KernelIdeal.cc1_scratch5 : Memref Cert.KernelIdeal.sig Kind.scVector Space.vmem Cert.KernelIdeal.S7x2x16 EltTy.f32)
local notation "b6V" => (Memref.whole Cert.KernelIdeal.cc1_scratch6 : Memref Cert.KernelIdeal.sig Kind.scVector Space.vmem Cert.KernelIdeal.S7x2x16 EltTy.f32)
local notation "b7V" => (Memref.whole Cert.KernelIdeal.cc1_scratch7 : Memref Cert.KernelIdeal.sig Kind.scVector Space.vmem Cert.KernelIdeal.S32 EltTy.f32)

variable [FloatOps F]

section Tile

variable (X0 : (d : Dev nD) → Buf (Elt F) (a0Loc d)) (X1 : (d : Dev nD) → Buf (Elt F) (a1Loc d))
  (M : (d : Dev nD) → Buf (Elt F) (mkLoc d)) (R0 : (d : Dev nD) → Buf (Elt F) (ptLoc d))
variable (d : Dev nD) (L : grid1.Coords)

omit [FloatOps F] in
/-- A buffer held at given contents is held at some contents. -/
theorem pts_some {ℓ : Loc nD τ sig} (q : PosShare TreeShare) (f : Buf (Elt F) ℓ) :
    (ℓ ↦{q} f : sProp 𝕄) ⊢ iprop(∃ g, ℓ ↦{q} g) := by
  iintro H; iexists f; iexact H

omit [FloatOps F] in
/-- A buffer held at given contents is held at some contents. -/
theorem pts_some' {ℓ : Loc nD τ sig} (q : PosShare TreeShare) (f : Buf (Elt F) ℓ) :
    (ℓ ↦{q} f : sProp 𝕄) ⊢ iprop(∃ g, ℓ ↦{q} g) := by
  iintro H; iexists f; iexact H

/-- The row of the result array the task writes, as the program slices it. -/
abbrev rowK (L : grid1.Coords) : Rect S32x32 := Rect.unit (s := S32x32) (k1_off79 L) S1x32.size (k1_off79_inb L)
abbrev outRow (L : grid1.Coords) : Memref sig .scVector .hbm S32 .f32 := ((ptV).slice (rowK L) (fun _ => rfl)).squeeze S32 squeezes_S1x32_S32

omit [FloatOps F] in
/-- It is row `2 · subcore + core`. -/
theorem rowK_eq : rowK L = row (wid (L 0).val (L 1).val) := by
  unfold rowK row Rect.part Rect.block
  congr 1 <;> funext a
  · rw [k1_off79_eq]
    match a with
    | 0 =>
      have h0 : (L 0).val < 2 := (L 0).isLt
      have h1 : (L 1).val < 16 := (L 1).isLt
      simp [Shape.partIx, Shape.partSize, wid]; omega
    | 1 => simp [Shape.partIx, Shape.partSize]
  · match a with
    | 0 => simp [Shape.partSize]
    | 1 => simp [Shape.partSize]

omit [FloatOps F] in
theorem set_outRow : (outRow L).view.set = rowSet (wid (L 0).val (L 1).val) := by
  show (((ptV).view.slice (rowK L)).reshape S32 squeezes_S1x32_S32.numel_eq).set = ((ptV).view.slice (row (wid (L 0).val (L 1).val))).set
  rw [View.set_reshape]
  exact rowK_eq L ▸ rfl

omit [FloatOps F] in
theorem pts_outRow (f : Buf (Elt F) (ptLoc d)) :
    ((outRow L).view.loc (V d (cV L) (jV L)) ↦[(outRow L).view.set]{fullShare} f : sProp 𝕄) = ptLoc d ↦[rowSet (wid (L 0).val (L 1).val)]{fullShare} f := by
  rw [set_outRow]

/-- The task on vector subcore `(L 0, L 1)` of device `d`. -/
theorem tile_body (hF : (Sc.K (F := F)).Facts) (O : CellTallies nD τ sig (HIx 1)) (W : Waits sig (HIx 1)) (hO : ∀ g, O g none = 0) :
    iprop(levAts (Sc.K (F := F)).L (Sc.K (F := F)).lev ∗ emp ∗ goC X0 X1 M R0 d (L 0).val (L 1).val
        ∗ scopedBufs (V d (cV L) (jV L)) ∗ scopedSems0 (V d (cV L) (jV L)) ∗ owes (V d (cV L) (jV L)) O W)
      ⊢ wp frame (wpE (defs₀ (F := F)) Sc.𝒱₀ (V d (cV L) (jV L)) none) Set.univ
          (cc1__sc_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1)
          fun _ => iprop(tdC X0 X1 M d (L 0).val (L 1).val ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_body_eq_skeleton]; unfold cc1__sc_body_skel
  rw [(Sc.K (F := F)).scopedBufs_V hF d (cV L) (jV L), SparseCore.Cfg.scopedSems0_V (Val := Elt F) d (cV L) (jV L), ownSems0_V, ownBufs_V]
  unfold goC tdC rdPts
  iintro ⟨#Hlv, -, ⟨⟨H0, H1, Hm⟩, Hp⟩, ⟨⟨%f0, Hb0⟩, ⟨%f1, Hb1⟩, ⟨%f2, Hb2⟩, ⟨%f3, Hb3⟩, ⟨%f4, Hb4⟩, ⟨%f5, Hb5⟩, ⟨%f6, Hb6⟩, ⟨%f7, Hb7⟩, Hbufs⟩,
    ⟨Hs8, Hs9, Hs10, Hs11, Hc0, Hc1, Hsems⟩, HO⟩
  ihave Hmw := ((Sc.K (F := F)).mayWaits_none (thr := V d (cV L) (jV L)) hO) $$ Hlv
  ihave H0 := (Entails.of_eq (pts_a0 (F := F) d (cV L) (jV L) _ _).symm) $$ H0
  ihave H1 := (Entails.of_eq (pts_a1 (F := F) d (cV L) (jV L) _ _).symm) $$ H1
  ihave Hm := (Entails.of_eq (pts_mk (F := F) d (cV L) (jV L) _ _).symm) $$ Hm
  ihave Hb0 := (Entails.of_eq (pts_b0 (F := F) d (cV L) (jV L) _).symm) $$ Hb0
  ihave Hb1 := (Entails.of_eq (pts_b1 (F := F) d (cV L) (jV L) _).symm) $$ Hb1
  ihave Hb2 := (Entails.of_eq (pts_b2 (F := F) d (cV L) (jV L) _).symm) $$ Hb2
  ihave Hb3 := (Entails.of_eq (pts_b3 (F := F) d (cV L) (jV L) _).symm) $$ Hb3
  ihave Hb4 := (Entails.of_eq (pts_b4 (F := F) d (cV L) (jV L) _).symm) $$ Hb4
  ihave Hb5 := (Entails.of_eq (pts_b5 (F := F) d (cV L) (jV L) _).symm) $$ Hb5
  ihave Hb6 := (Entails.of_eq (pts_b6 (F := F) d (cV L) (jV L) _).symm) $$ Hb6
  ihave Hb7 := (Entails.of_eq (pts_b7 (F := F) d (cV L) (jV L) _).symm) $$ Hb7
  ihave H0' := (pointsTo_share (PosShare.mem_left_op_right _)).1 $$ H0
  icases H0' with ⟨H0a, H0b⟩
  ihave H1' := (pointsTo_share (PosShare.mem_left_op_right _)).1 $$ H1
  icases H1' with ⟨H1a, H1b⟩
  sl_exec
  ihave Hb4 := (pts_some (F := F) _ _) $$ Hb4
  icases Hb4 with ⟨%g4, Hb4⟩
  sl_for (rowInv X0 X1 (tileSh (L 0).val (L 1).val).left (tileSh (L 0).val (L 1).val).right d L O W g4) $$ [Hmw Hb4 Hb5 Hb6 Hs8 H0a Hs9 H1a Hs10 H0b Hs11 H1b HO]
  case region => intro k acc; exact row_trip X0 X1 d L _ _ O W g4 _ _ _ _ k acc
  · unfold rowInv rowFly
    rw [if_pos (by decide)]
    have hW7 : ∀ p ∈ insert ((SemLoc.dma (⟨7, by decide⟩ : DmaSem sig), (default : HIx 1))) W, p ∈ W ∨ p.2 = none := by
      intro p hp
      rcases Finset.mem_insert.mp hp with rfl | h
      · exact Or.inr rfl
      · exact Or.inl h
    sl_close
  iintro %acc HI
  unfold rowInv
  rw [if_neg (by rw [show Scf.trips k1_t1_loop.lb k1_t1_loop.ub k1_t1_loop.st = 16 from trips16]; decide)]
  unfold rowIdle
  icases HI with ⟨-, Hb4, ⟨%g5, Hb5⟩, ⟨%g6, Hb6⟩, ⟨⟨%g0, Hb0⟩, ⟨%g1, Hb1⟩, ⟨%g2, Hb2⟩, ⟨%g3, Hb3⟩, Hs8, Hs9, Hs10, Hs11, H0a, H1a, H0b, H1b⟩, %W', %hW', HO⟩
  ihave Hp := (Entails.of_eq (pts_outRow (F := F) d L _).symm) $$ Hp
  sl_exec
  sl_step
  isplitl [H0a H0b H1a H1b Hm Hp]
  · isplitl [H0a H0b H1a H1b Hm]
    · isplitl [H0a H0b]
      · iapply (Entails.of_eq (pts_a0 (F := F) d (cV L) (jV L) _ _))
        iapply (pointsTo_share (PosShare.mem_left_op_right _)).2
        isplitl [H0a]
        · iexact H0a
        · iexact H0b
      isplitl [H1a H1b]
      · iapply (Entails.of_eq (pts_a1 (F := F) d (cV L) (jV L) _ _))
        iapply (pointsTo_share (PosShare.mem_left_op_right _)).2
        isplitl [H1a]
        · iexact H1a
        · iexact H1b
      · iapply (Entails.of_eq (pts_mk (F := F) d (cV L) (jV L) _ _))
        iexact Hm
    · iexists _
      iapply (Entails.of_eq (pts_outRow (F := F) d L _))
      iexact Hp
  isplitl [Hb0 Hb1 Hb2 Hb3 Hb4 Hb5 Hb6 Hb7 Hbufs]
  · isplitl [Hb0]; · iexists _; iexact Hb0
    isplitl [Hb1]; · iexists _; iexact Hb1
    isplitl [Hb2]; · iexists _; iexact Hb2
    isplitl [Hb3]; · iexists _; iexact Hb3
    isplitl [Hb4]; · iexists _; iexact Hb4
    isplitl [Hb5]; · iexists _; iexact Hb5
    isplitl [Hb6]; · iexists _; iexact Hb6
    isplitl [Hb7]; · iexists _; iexact Hb7
    iexact Hbufs
  isplitl [Hs8 Hs9 Hs10 Hs11 Hc0 Hc1 Hsems]
  · isplitl [Hs8]; · iexact Hs8
    isplitl [Hs9]; · iexact Hs9
    isplitl [Hs10]; · iexact Hs10
    isplitl [Hs11]; · iexact Hs11
    isplitl [Hc0]; · iexact Hc0
    isplitl [Hc1]; · iexact Hc1
    iexact Hsems
  iexists _
  isplitr
  swap
  · iexact HO
  ipureintro
  intro p hp
  rcases Finset.mem_insert.mp hp with rfl | h
  · exact Or.inr rfl
  · exact hW' p h

end Tile

/-! ## The launch theorem's obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_body (coordsV c s) a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The body once, at a symbolic subcore. -/
theorem tileObl (X0 : (d : Dev nD) → Buf (Elt F) (a0Loc d)) (X1 : (d : Dev nD) → Buf (Elt F) (a1Loc d))
    (M : (d : Dev nD) → Buf (Elt F) (mkLoc d)) (R0 : (d : Dev nD) → Buf (Elt F) (ptLoc d)) :
    (Sc.K (F := F)).TileObl (Sc.D (F := F)) Sc.𝒱 (P X0 X1 M R0) Sc.v₀ 0 := by
  intro d c i O W hO _ _
  simp only [show (P X0 X1 M R0).ox = fun _ _ => 0 from rfl, add_zero]
  change _ ⊢ wp _ _ _ (Pipeline.liftProg (defs₀ (F := F) (.scVector ((Sc.K (F := F)).core 0 c) ((Sc.K (F := F)).sub 0 i)) 1 ())) _
  refine BI.Entails.trans ?_ (Pipeline.wp_liftProg (Sc.D (F := F)) (Pipeline.defs_kernel pcfgs defs₀) Sc.𝒱₀ _ Set.univ none _ _)
  have hc : ((Sc.K (F := F)).core 0 c).val < grid1.bound 0 ∧ ((Sc.K (F := F)).sub 0 i).val < grid1.bound 1 := ⟨c.isLt, i.isLt⟩
  rw [defs₀_vector]; simp only [SparseCore.onTile, hc, and_self, ↓reduceDIte]
  exact (tile_body X0 X1 M R0 d (coordsV ⟨_, hc.1⟩ ⟨_, hc.2⟩) Sc.facts O W hO).trans (wp_mono frame _ _ fun _ => obl_post)

end Cert.KernelIdeal.ScTile

end
-- ==== Proof.ScTileDefsB.lean ====
/-
  The SparseCore kernel's task on one vector subcore, at a symbolic subcore: the frame. From its tokens of the two
  inputs and of the mask array and its row of the result array, the task runs to its end, every transfer it starts
  awaited, and hands the tokens back unchanged and its row at whatever it wrote.
-/
import proofs.«210586_g14980845929080_cont_week2b_1062_66_alg».proof.Proof.ScTilePB
import proofs.«210586_g14980845929080_cont_week2b_1062_66_alg».proof.Proof.Gen.Kernel.Skeleton
import Idealize.ShloMosaic.Lib.Tactic

set_option warn.classDefReducibility false

noncomputable section

namespace Cert.Kernel.ScTile

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ Sc.UU ℕ

local notation "a0V" => (Memref.whole Cert.Kernel.main_arg0_scv : Memref Cert.Kernel.sig Kind.scVector Space.hbm Cert.Kernel.S8x192x224x224 EltTy.f32)
local notation "a1V" => (Memref.whole Cert.Kernel.main_arg1_scv : Memref Cert.Kernel.sig Kind.scVector Space.hbm Cert.Kernel.S8x192x224x224 EltTy.f32)
local notation "mkV" => (Memref.whole Cert.Kernel.main_v0_scv : Memref Cert.Kernel.sig Kind.scVector Space.hbm Cert.Kernel.S8x224x256 EltTy.f32)
local notation "ptV" => (Memref.whole Cert.Kernel.main_v1_scv : Memref Cert.Kernel.sig Kind.scVector Space.hbm Cert.Kernel.S32x32 EltTy.f32)
local notation "b0V" => (Memref.whole Cert.Kernel.cc1_scratch0 : Memref Cert.Kernel.sig Kind.scVector Space.vmem Cert.Kernel.S48x224 EltTy.f32)
local notation "b1V" => (Memref.whole Cert.Kernel.cc1_scratch1 : Memref Cert.Kernel.sig Kind.scVector Space.vmem Cert.Kernel.S48x224 EltTy.f32)
local notation "b2V" => (Memref.whole Cert.Kernel.cc1_scratch2 : Memref Cert.Kernel.sig Kind.scVector Space.vmem Cert.Kernel.S48x224 EltTy.f32)
local notation "b3V" => (Memref.whole Cert.Kernel.cc1_scratch3 : Memref Cert.Kernel.sig Kind.scVector Space.vmem Cert.Kernel.S48x224 EltTy.f32)
local notation "b4V" => (Memref.whole Cert.Kernel.cc1_scratch4 : Memref Cert.Kernel.sig Kind.scVector Space.vmem Cert.Kernel.S8x16x256 EltTy.f32)
local notation "b5V" => (Memref.whole Cert.Kernel.cc1_scratch5 : Memref Cert.Kernel.sig Kind.scVector Space.vmem Cert.Kernel.S7x2x16 EltTy.f32)
local notation "b6V" => (Memref.whole Cert.Kernel.cc1_scratch6 : Memref Cert.Kernel.sig Kind.scVector Space.vmem Cert.Kernel.S7x2x16 EltTy.f32)
local notation "b7V" => (Memref.whole Cert.Kernel.cc1_scratch7 : Memref Cert.Kernel.sig Kind.scVector Space.vmem Cert.Kernel.S32 EltTy.f32)

/-! ## The subcore's own buffers and cells -/

theorem ownBufs_V (d : Dev nD) (c : Fin τ.nSC) (i : Fin τ.nSub) :
    (ownBufs (V d c i) : sProp 𝕄)
      = iprop((∃ f, (V d c i).loc cc1_scratch0 ↦{fullShare} f)
          ∗ (∃ f, (V d c i).loc cc1_scratch1 ↦{fullShare} f)
          ∗ (∃ f, (V d c i).loc cc1_scratch2 ↦{fullShare} f)
          ∗ (∃ f, (V d c i).loc cc1_scratch3 ↦{fullShare} f)
          ∗ (∃ f, (V d c i).loc cc1_scratch4 ↦{fullShare} f)
          ∗ (∃ f, (V d c i).loc cc1_scratch5 ↦{fullShare} f)
          ∗ (∃ f, (V d c i).loc cc1_scratch6 ↦{fullShare} f)
          ∗ (∃ f, (V d c i).loc cc1_scratch7 ↦{fullShare} f)
          ∗ bigSep (((((((((ownRefs (τ := τ) (.scVector c i)).erase ((Proc.scVector c i).devRef cc1_scratch0)).erase ((Proc.scVector c i).devRef cc1_scratch1)).erase ((Proc.scVector c i).devRef cc1_scratch2)).erase ((Proc.scVector c i).devRef cc1_scratch3)).erase ((Proc.scVector c i).devRef cc1_scratch4)).erase ((Proc.scVector c i).devRef cc1_scratch5)).erase ((Proc.scVector c i).devRef cc1_scratch6)).erase ((Proc.scVector c i).devRef cc1_scratch7))
              fun b => iprop(∃ f, ((d, b) : Loc nD τ sig) ↦{fullShare} f)) := by
  unfold SparseCore.Cfg.ownBufs
  rw [SparseCore.bigSep_erase' (SparseCore.Cfg.mem_ownRefs_of_owner (p := Proc.scVector c i) (b := (Proc.scVector c i).devRef cc1_scratch0) rfl),
    SparseCore.bigSep_erase' (Finset.mem_erase.mpr ⟨fun e => absurd (Proc.devRef_injective _ e) (show (cc1_scratch1 : Ref sig .scVector) ≠ cc1_scratch0 by decide), SparseCore.Cfg.mem_ownRefs_of_owner (p := Proc.scVector c i) (b := (Proc.scVector c i).devRef cc1_scratch1) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := Proc.scVector c i) (b := (Proc.scVector c i).devRef cc1_scratch2) rfl⟩⟩),
    SparseCore.bigSep_erase' (Finset.mem_erase.mpr ⟨fun e => absurd (Proc.devRef_injective _ e) (show (cc1_scratch3 : Ref sig .scVector) ≠ cc1_scratch2 by decide), Finset.mem_erase.mpr ⟨fun e => absurd (Proc.devRef_injective _ e) (show (cc1_scratch3 : Ref sig .scVector) ≠ cc1_scratch1 by decide), Finset.mem_erase.mpr ⟨fun e => absurd (Proc.devRef_injective _ e) (show (cc1_scratch3 : Ref sig .scVector) ≠ cc1_scratch0 by decide), SparseCore.Cfg.mem_ownRefs_of_owner (p := Proc.scVector c i) (b := (Proc.scVector c i).devRef cc1_scratch3) rfl⟩⟩⟩),
    SparseCore.bigSep_erase' (Finset.mem_erase.mpr ⟨fun e => absurd (Proc.devRef_injective _ e) (show (cc1_scratch4 : Ref sig .scVector) ≠ cc1_scratch3 by decide), Finset.mem_erase.mpr ⟨fun e => absurd (Proc.devRef_injective _ e) (show (cc1_scratch4 : Ref sig .scVector) ≠ cc1_scratch2 by decide), Finset.mem_erase.mpr ⟨fun e => absurd (Proc.devRef_injective _ e) (show (cc1_scratch4 : Ref sig .scVector) ≠ cc1_scratch1 by decide), Finset.mem_erase.mpr ⟨fun e => absurd (Proc.devRef_injective _ e) (show (cc1_scratch4 : Ref sig .scVector) ≠ cc1_scratch0 by decide), SparseCore.Cfg.mem_ownRefs_of_owner (p := Proc.scVector c i) (b := (Proc.scVector c i).devRef cc1_scratch4) rfl⟩⟩⟩⟩),
    SparseCore.bigSep_erase' (Finset.mem_erase.mpr ⟨fun e => absurd (Proc.devRef_injective _ e) (show (cc1_scratch5 : Ref sig .scVector) ≠ cc1_scratch4 by decide), Finset.mem_erase.mpr ⟨fun e => absurd (Proc.devRef_injective _ e) (show (cc1_scratch5 : Ref sig .scVector) ≠ cc1_scratch3 by decide), Finset.mem_erase.mpr ⟨fun e => absurd (Proc.devRef_injective _ e) (show (cc1_scratch5 : Ref sig .scVector) ≠ cc1_scratch2 by decide), Finset.mem_erase.mpr ⟨fun e => absurd (Proc.devRef_injective _ e) (show (cc1_scratch5 : Ref sig .scVector) ≠ cc1_scratch1 by decide), Finset.mem_erase.mpr ⟨fun e => absurd (Proc.devRef_injective _ e) (show (cc1_scratch5 : Ref sig .scVector) ≠ cc1_scratch0 by decide), SparseCore.Cfg.mem_ownRefs_of_owner (p := Proc.scVector c i) (b := (Proc.scVector c i).devRef cc1_scratch5) rfl⟩⟩⟩⟩⟩),
    SparseCore.bigSep_erase' (Finset.mem_erase.mpr ⟨fun e => absurd (Proc.devRef_injective _ e) (show (cc1_scratch6 : Ref sig .scVector) ≠ cc1_scratch5 by decide), Finset.mem_erase.mpr ⟨fun e => absurd (Proc.devRef_injective _ e) (show (cc1_scratch6 : Ref sig .scVector) ≠ cc1_scratch4 by decide), Finset.mem_erase.mpr ⟨fun e => absurd (Proc.devRef_injective _ e) (show (cc1_scratch6 : Ref sig .scVector) ≠ cc1_scratch3 by decide), Finset.mem_erase.mpr ⟨fun e => absurd (Proc.devRef_injective _ e) (show (cc1_scratch6 : Ref sig .scVector) ≠ cc1_scratch2 by decide), Finset.mem_erase.mpr ⟨fun e => absurd (Proc.devRef_injective _ e) (show (cc1_scratch6 : Ref sig .scVector) ≠ cc1_scratch1 by decide), Finset.mem_erase.mpr ⟨fun e => absurd (Proc.devRef_injective _ e) (show (cc1_scratch6 : Ref sig .scVector) ≠ cc1_scratch0 by decide), SparseCore.Cfg.mem_ownRefs_of_owner (p := Proc.scVector c i) (b := (Proc.scVector c i).devRef cc1_scratch6) rfl⟩⟩⟩⟩⟩⟩),
    SparseCore.bigSep_erase' (Finset.mem_erase.mpr ⟨fun e => absurd (Proc.devRef_injective _ e) (show (cc1_scratch7 : Ref sig .scVector) ≠ cc1_scratch6 by decide), Finset.mem_erase.mpr ⟨fun e => absurd (Proc.devRef_injective _ e) (show (cc1_scratch7 : Ref sig .scVector) ≠ cc1_scratch5 by decide), Finset.mem_erase.mpr ⟨fun e => absurd (Proc.devRef_injective _ e) (show (cc1_scratch7 : Ref sig .scVector) ≠ cc1_scratch4 by decide), Finset.mem_erase.mpr ⟨fun e => absurd (Proc.devRef_injective _ e) (show (cc1_scratch7 : Ref sig .scVector) ≠ cc1_scratch3 by decide), Finset.mem_erase.mpr ⟨fun e => absurd (Proc.devRef_injective _ e) (show (cc1_scratch7 : Ref sig .scVector) ≠ cc1_scratch2 by decide), Finset.mem_erase.mpr ⟨fun e => absurd (Proc.devRef_injective _ e) (show (cc1_scratch7 : Ref sig .scVector) ≠ cc1_scratch1 by decide), Finset.mem_erase.mpr ⟨fun e => absurd (Proc.devRef_injective _ e) (show (cc1_scratch7 : Ref sig .scVector) ≠ cc1_scratch0 by decide), SparseCore.Cfg.mem_ownRefs_of_owner (p := Proc.scVector c i) (b := (Proc.scVector c i).devRef cc1_scratch7) rfl⟩⟩⟩⟩⟩⟩⟩)]

theorem ownSems0_V (d : Dev nD) (c : Fin τ.nSC) (i : Fin τ.nSub) :
    (ownSems0 (V d c i) : sProp 𝕄)
      = iprop(semVal ((V d c i, SemLoc.dma cc1_scratch8.sem) : GSem nD τ sig) 0
          ∗ semVal ((V d c i, SemLoc.dma cc1_scratch9.sem) : GSem nD τ sig) 0
          ∗ semVal ((V d c i, SemLoc.dma cc1_scratch10.sem) : GSem nD τ sig) 0
          ∗ semVal ((V d c i, SemLoc.dma cc1_scratch11.sem) : GSem nD τ sig) 0
          ∗ semVal ((V d c i, SemLoc.dma cc1_scoped0.sem) : GSem nD τ sig) 0
          ∗ semVal ((V d c i, SemLoc.dma cc1_scoped1.sem) : GSem nD τ sig) 0
          ∗ bigSep (((((((ownCells (V d c i)).erase ((V d c i, SemLoc.dma cc1_scratch8.sem) : GSem nD τ sig)).erase ((V d c i, SemLoc.dma cc1_scratch9.sem) : GSem nD τ sig)).erase ((V d c i, SemLoc.dma cc1_scratch10.sem) : GSem nD τ sig)).erase ((V d c i, SemLoc.dma cc1_scratch11.sem) : GSem nD τ sig)).erase ((V d c i, SemLoc.dma cc1_scoped0.sem) : GSem nD τ sig)).erase ((V d c i, SemLoc.dma cc1_scoped1.sem) : GSem nD τ sig)) fun g => semVal g 0) := by
  unfold SparseCore.Cfg.ownSems0
  rw [SparseCore.bigSep_erase' ((mem_ownCells (g := ((V d c i, SemLoc.dma cc1_scratch8.sem) : GSem nD τ sig))).mpr ⟨rfl, by show (SemLoc.dma cc1_scratch8.sem : SemLoc sig).isScoped .scVector = true; decide⟩),
    SparseCore.bigSep_erase' (Finset.mem_erase.mpr ⟨fun e => absurd (congrArg Prod.snd e) (show (SemLoc.dma cc1_scratch9.sem : SemLoc sig) ≠ SemLoc.dma cc1_scratch8.sem by decide), (mem_ownCells (g := ((V d c i, SemLoc.dma cc1_scratch9.sem) : GSem nD τ sig))).mpr ⟨rfl, by show (SemLoc.dma cc1_scratch9.sem : SemLoc sig).isScoped .scVector = true; decide⟩⟩),
    SparseCore.bigSep_erase' (Finset.mem_erase.mpr ⟨fun e => absurd (congrArg Prod.snd e) (show (SemLoc.dma cc1_scratch10.sem : SemLoc sig) ≠ SemLoc.dma cc1_scratch9.sem by decide), Finset.mem_erase.mpr ⟨fun e => absurd (congrArg Prod.snd e) (show (SemLoc.dma cc1_scratch10.sem : SemLoc sig) ≠ SemLoc.dma cc1_scratch8.sem by decide), (mem_ownCells (g := ((V d c i, SemLoc.dma cc1_scratch10.sem) : GSem nD τ sig))).mpr ⟨rfl, by show (SemLoc.dma cc1_scratch10.sem : SemLoc sig).isScoped .scVector = true; decide⟩⟩⟩),
    SparseCore.bigSep_erase' (Finset.mem_erase.mpr ⟨fun e => absurd (congrArg Prod.snd e) (show (SemLoc.dma cc1_scratch11.sem : SemLoc sig) ≠ SemLoc.dma cc1_scratch10.sem by decide), Finset.mem_erase.mpr ⟨fun e => absurd (congrArg Prod.snd e) (show (SemLoc.dma cc1_scratch11.sem : SemLoc sig) ≠ SemLoc.dma cc1_scratch9.sem by decide), Finset.mem_erase.mpr ⟨fun e => absurd (congrArg Prod.snd e) (show (SemLoc.dma cc1_scratch11.sem : SemLoc sig) ≠ SemLoc.dma cc1_scratch8.sem by decide), (mem_ownCells (g := ((V d c i, SemLoc.dma cc1_scratch11.sem) : GSem nD τ sig))).mpr ⟨rfl, by show (SemLoc.dma cc1_scratch11.sem : SemLoc sig).isScoped .scVector = true; decide⟩⟩⟩⟩),
    SparseCore.bigSep_erase' (Finset.mem_erase.mpr ⟨fun e => absurd (congrArg Prod.snd e) (show (SemLoc.dma cc1_scoped0.sem : SemLoc sig) ≠ SemLoc.dma cc1_scratch11.sem by decide), Finset.mem_erase.mpr ⟨fun e => absurd (congrArg Prod.snd e) (show (SemLoc.dma cc1_scoped0.sem : SemLoc sig) ≠ SemLoc.dma cc1_scratch10.sem by decide), Finset.mem_erase.mpr ⟨fun e => absurd (congrArg Prod.snd e) (show (SemLoc.dma cc1_scoped0.sem : SemLoc sig) ≠ SemLoc.dma cc1_scratch9.sem by decide), Finset.mem_erase.mpr ⟨fun e => absurd (congrArg Prod.snd e) (show (SemLoc.dma cc1_scoped0.sem : SemLoc sig) ≠ SemLoc.dma cc1_scratch8.sem by decide), (mem_ownCells (g := ((V d c i, SemLoc.dma cc1_scoped0.sem) : GSem nD τ sig))).mpr ⟨rfl, by show (SemLoc.dma cc1_scoped0.sem : SemLoc sig).isScoped .scVector = true; decide⟩⟩⟩⟩⟩),
    SparseCore.bigSep_erase' (Finset.mem_erase.mpr ⟨fun e => absurd (congrArg Prod.snd e) (show (SemLoc.dma cc1_scoped1.sem : SemLoc sig) ≠ SemLoc.dma cc1_scoped0.sem by decide), Finset.mem_erase.mpr ⟨fun e => absurd (congrArg Prod.snd e) (show (SemLoc.dma cc1_scoped1.sem : SemLoc sig) ≠ SemLoc.dma cc1_scratch11.sem by decide), Finset.mem_erase.mpr ⟨fun e => absurd (congrArg Prod.snd e) (show (SemLoc.dma cc1_scoped1.sem : SemLoc sig) ≠ SemLoc.dma cc1_scratch10.sem by decide), Finset.mem_erase.mpr ⟨fun e => absurd (congrArg Prod.snd e) (show (SemLoc.dma cc1_scoped1.sem : SemLoc sig) ≠ SemLoc.dma cc1_scratch9.sem by decide), Finset.mem_erase.mpr ⟨fun e => absurd (congrArg Prod.snd e) (show (SemLoc.dma cc1_scoped1.sem : SemLoc sig) ≠ SemLoc.dma cc1_scratch8.sem by decide), (mem_ownCells (g := ((V d c i, SemLoc.dma cc1_scoped1.sem) : GSem nD τ sig))).mpr ⟨rfl, by show (SemLoc.dma cc1_scoped1.sem : SemLoc sig).isScoped .scVector = true; decide⟩⟩⟩⟩⟩⟩)]

/-! ## The arrays as the task's memrefs address them -/

theorem pts_a0 (d : Dev nD) (c : Fin τ.nSC) (i : Fin τ.nSub) (q : PosShare TreeShare) (f : Buf (Elt F) (a0Loc d)) :
    ((a0V).view.loc (V d c i) ↦{q} f : sProp 𝕄) = a0Loc d ↦{q} f := by
  simp only [Memref.view_whole, View.set_whole]
theorem pts_a1 (d : Dev nD) (c : Fin τ.nSC) (i : Fin τ.nSub) (q : PosShare TreeShare) (f : Buf (Elt F) (a1Loc d)) :
    ((a1V).view.loc (V d c i) ↦{q} f : sProp 𝕄) = a1Loc d ↦{q} f := by
  simp only [Memref.view_whole, View.set_whole]
theorem pts_mk (d : Dev nD) (c : Fin τ.nSC) (i : Fin τ.nSub) (q : PosShare TreeShare) (f : Buf (Elt F) (mkLoc d)) :
    ((mkV).view.loc (V d c i) ↦{q} f : sProp 𝕄) = mkLoc d ↦{q} f := by
  simp only [Memref.view_whole, View.set_whole]
theorem pts_b0 (d : Dev nD) (c : Fin τ.nSC) (i : Fin τ.nSub) (f : Buf (Elt F) ((V d c i).loc cc1_scratch0)) :
    ((b0V).view.loc (V d c i) ↦{fullShare} f : sProp 𝕄) = (V d c i).loc cc1_scratch0 ↦{fullShare} f := rfl
theorem pts_b1 (d : Dev nD) (c : Fin τ.nSC) (i : Fin τ.nSub) (f : Buf (Elt F) ((V d c i).loc cc1_scratch1)) :
    ((b1V).view.loc (V d c i) ↦{fullShare} f : sProp 𝕄) = (V d c i).loc cc1_scratch1 ↦{fullShare} f := rfl
theorem pts_b2 (d : Dev nD) (c : Fin τ.nSC) (i : Fin τ.nSub) (f : Buf (Elt F) ((V d c i).loc cc1_scratch2)) :
    ((b2V).view.loc (V d c i) ↦{fullShare} f : sProp 𝕄) = (V d c i).loc cc1_scratch2 ↦{fullShare} f := rfl
theorem pts_b3 (d : Dev nD) (c : Fin τ.nSC) (i : Fin τ.nSub) (f : Buf (Elt F) ((V d c i).loc cc1_scratch3)) :
    ((b3V).view.loc (V d c i) ↦{fullShare} f : sProp 𝕄) = (V d c i).loc cc1_scratch3 ↦{fullShare} f := rfl
theorem pts_b4 (d : Dev nD) (c : Fin τ.nSC) (i : Fin τ.nSub) (f : Buf (Elt F) ((V d c i).loc cc1_scratch4)) :
    ((b4V).view.loc (V d c i) ↦{fullShare} f : sProp 𝕄) = (V d c i).loc cc1_scratch4 ↦{fullShare} f := rfl
theorem pts_b5 (d : Dev nD) (c : Fin τ.nSC) (i : Fin τ.nSub) (f : Buf (Elt F) ((V d c i).loc cc1_scratch5)) :
    ((b5V).view.loc (V d c i) ↦{fullShare} f : sProp 𝕄) = (V d c i).loc cc1_scratch5 ↦{fullShare} f := rfl
theorem pts_b6 (d : Dev nD) (c : Fin τ.nSC) (i : Fin τ.nSub) (f : Buf (Elt F) ((V d c i).loc cc1_scratch6)) :
    ((b6V).view.loc (V d c i) ↦{fullShare} f : sProp 𝕄) = (V d c i).loc cc1_scratch6 ↦{fullShare} f := rfl
theorem pts_b7 (d : Dev nD) (c : Fin τ.nSC) (i : Fin τ.nSub) (f : Buf (Elt F) ((V d c i).loc cc1_scratch7)) :
    ((b7V).view.loc (V d c i) ↦{fullShare} f : sProp 𝕄) = (V d c i).loc cc1_scratch7 ↦{fullShare} f := rfl

variable [FloatOps F]

section Tile

variable (X0 : (d : Dev nD) → Buf (Elt F) (a0Loc d)) (X1 : (d : Dev nD) → Buf (Elt F) (a1Loc d))
  (M : (d : Dev nD) → Buf (Elt F) (mkLoc d)) (R0 : (d : Dev nD) → Buf (Elt F) (ptLoc d))
variable (d : Dev nD) (L : grid1.Coords)

abbrev cV (L : grid1.Coords) : Fin τ.nSC := (L 0).castLE hcore1
abbrev jV (L : grid1.Coords) : Fin τ.nSub := (L 1).castLE hsub1

/-! ## The accumulation loops: a trip loads from the slot's two buffers and carries its sums in registers -/

/-- A slot's two buffers, untouched. -/
def slotHeld0 (d : Dev nD) (L : grid1.Coords) (gi : Buf (Elt F) ((V d (cV L) (jV L)).loc cc1_scratch0)) (gt : Buf (Elt F) ((V d (cV L) (jV L)).loc cc1_scratch1))
    (_ : ℕ) (_ : FVec F S16 .f32 × FVec F S16 .f32 × FVec F S16 .f32 × FVec F S16 .f32) : sProp 𝕄 :=
  iprop(((b0V).view.loc (V d (cV L) (jV L)) ↦{fullShare} gi) ∗ (b1V).view.loc (V d (cV L) (jV L)) ↦{fullShare} gt)
def slotHeld1 (d : Dev nD) (L : grid1.Coords) (gi : Buf (Elt F) ((V d (cV L) (jV L)).loc cc1_scratch2)) (gt : Buf (Elt F) ((V d (cV L) (jV L)).loc cc1_scratch3))
    (_ : ℕ) (_ : FVec F S16 .f32 × FVec F S16 .f32 × FVec F S16 .f32 × FVec F S16 .f32) : sProp 𝕄 :=
  iprop(((b2V).view.loc (V d (cV L) (jV L)) ↦{fullShare} gi) ∗ (b3V).view.loc (V d (cV L) (jV L)) ↦{fullShare} gt)

@[sl_loop] def loopInv_t2 (d : Dev nD) (L : grid1.Coords) (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) :
    LoopInv (M := 𝕄) frame (wpE (defs₀ (F := F)) Sc.𝒱₀ (V d (cV L) (jV L)) none) Set.univ k1_t2_loop.lb k1_t2_loop.ub k1_t2_loop.st k1_t2_ok init
      (k1_t2_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld0 d L gi gt
  step k acc := by
    rcases acc with ⟨a22, a23, a24, a25⟩
    unfold slotHeld0 k1_t2_body
    iintro ⟨Hi, Ht⟩
    sl_exec
    sl_step
    isplitl [Hi] <;> iassumption

@[sl_loop] def loopInv_t3 (d : Dev nD) (L : grid1.Coords) (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) :
    LoopInv (M := 𝕄) frame (wpE (defs₀ (F := F)) Sc.𝒱₀ (V d (cV L) (jV L)) none) Set.univ k1_t3_loop.lb k1_t3_loop.ub k1_t3_loop.st k1_t3_ok init
      (k1_t3_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld0 d L gi gt
  step k acc := by
    rcases acc with ⟨a22, a23, a24, a25⟩
    unfold slotHeld0 k1_t3_body
    iintro ⟨Hi, Ht⟩
    sl_exec
    sl_step
    isplitl [Hi] <;> iassumption

@[sl_loop] def loopInv_t4 (d : Dev nD) (L : grid1.Coords) (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) :
    LoopInv (M := 𝕄) frame (wpE (defs₀ (F := F)) Sc.𝒱₀ (V d (cV L) (jV L)) none) Set.univ k1_t4_loop.lb k1_t4_loop.ub k1_t4_loop.st k1_t4_ok init
      (k1_t4_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld0 d L gi gt
  step k acc := by
    rcases acc with ⟨a22, a23, a24, a25⟩
    unfold slotHeld0 k1_t4_body
    iintro ⟨Hi, Ht⟩
    sl_exec
    sl_step
    isplitl [Hi] <;> iassumption

@[sl_loop] def loopInv_t5 (d : Dev nD) (L : grid1.Coords) (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) :
    LoopInv (M := 𝕄) frame (wpE (defs₀ (F := F)) Sc.𝒱₀ (V d (cV L) (jV L)) none) Set.univ k1_t5_loop.lb k1_t5_loop.ub k1_t5_loop.st k1_t5_ok init
      (k1_t5_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld0 d L gi gt
  step k acc := by
    rcases acc with ⟨a22, a23, a24, a25⟩
    unfold slotHeld0 k1_t5_body
    iintro ⟨Hi, Ht⟩
    sl_exec
    sl_step
    isplitl [Hi] <;> iassumption

@[sl_loop] def loopInv_t6 (d : Dev nD) (L : grid1.Coords) (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) :
    LoopInv (M := 𝕄) frame (wpE (defs₀ (F := F)) Sc.𝒱₀ (V d (cV L) (jV L)) none) Set.univ k1_t6_loop.lb k1_t6_loop.ub k1_t6_loop.st k1_t6_ok init
      (k1_t6_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld0 d L gi gt
  step k acc := by
    rcases acc with ⟨a22, a23, a24, a25⟩
    unfold slotHeld0 k1_t6_body
    iintro ⟨Hi, Ht⟩
    sl_exec
    sl_step
    isplitl [Hi] <;> iassumption

@[sl_loop] def loopInv_t7 (d : Dev nD) (L : grid1.Coords) (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) :
    LoopInv (M := 𝕄) frame (wpE (defs₀ (F := F)) Sc.𝒱₀ (V d (cV L) (jV L)) none) Set.univ k1_t7_loop.lb k1_t7_loop.ub k1_t7_loop.st k1_t7_ok init
      (k1_t7_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld0 d L gi gt
  step k acc := by
    rcases acc with ⟨a22, a23, a24, a25⟩
    unfold slotHeld0 k1_t7_body
    iintro ⟨Hi, Ht⟩
    sl_exec
    sl_step
    isplitl [Hi] <;> iassumption

@[sl_loop] def loopInv_t8 (d : Dev nD) (L : grid1.Coords) (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) :
    LoopInv (M := 𝕄) frame (wpE (defs₀ (F := F)) Sc.𝒱₀ (V d (cV L) (jV L)) none) Set.univ k1_t8_loop.lb k1_t8_loop.ub k1_t8_loop.st k1_t8_ok init
      (k1_t8_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld0 d L gi gt
  step k acc := by
    rcases acc with ⟨a22, a23, a24, a25⟩
    unfold slotHeld0 k1_t8_body
    iintro ⟨Hi, Ht⟩
    sl_exec
    sl_step
    isplitl [Hi] <;> iassumption

@[sl_loop] def loopInv_t9 (d : Dev nD) (L : grid1.Coords) (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) :
    LoopInv (M := 𝕄) frame (wpE (defs₀ (F := F)) Sc.𝒱₀ (V d (cV L) (jV L)) none) Set.univ k1_t9_loop.lb k1_t9_loop.ub k1_t9_loop.st k1_t9_ok init
      (k1_t9_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld1 d L gi gt
  step k acc := by
    rcases acc with ⟨a22, a23, a24, a25⟩
    unfold slotHeld1 k1_t9_body
    iintro ⟨Hi, Ht⟩
    sl_exec
    sl_step
    isplitl [Hi] <;> iassumption

@[sl_loop] def loopInv_t10 (d : Dev nD) (L : grid1.Coords) (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) :
    LoopInv (M := 𝕄) frame (wpE (defs₀ (F := F)) Sc.𝒱₀ (V d (cV L) (jV L)) none) Set.univ k1_t10_loop.lb k1_t10_loop.ub k1_t10_loop.st k1_t10_ok init
      (k1_t10_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld1 d L gi gt
  step k acc := by
    rcases acc with ⟨a22, a23, a24, a25⟩
    unfold slotHeld1 k1_t10_body
    iintro ⟨Hi, Ht⟩
    sl_exec
    sl_step
    isplitl [Hi] <;> iassumption

@[sl_loop] def loopInv_t11 (d : Dev nD) (L : grid1.Coords) (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) :
    LoopInv (M := 𝕄) frame (wpE (defs₀ (F := F)) Sc.𝒱₀ (V d (cV L) (jV L)) none) Set.univ k1_t11_loop.lb k1_t11_loop.ub k1_t11_loop.st k1_t11_ok init
      (k1_t11_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld1 d L gi gt
  step k acc := by
    rcases acc with ⟨a22, a23, a24, a25⟩
    unfold slotHeld1 k1_t11_body
    iintro ⟨Hi, Ht⟩
    sl_exec
    sl_step
    isplitl [Hi] <;> iassumption

@[sl_loop] def loopInv_t12 (d : Dev nD) (L : grid1.Coords) (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) :
    LoopInv (M := 𝕄) frame (wpE (defs₀ (F := F)) Sc.𝒱₀ (V d (cV L) (jV L)) none) Set.univ k1_t12_loop.lb k1_t12_loop.ub k1_t12_loop.st k1_t12_ok init
      (k1_t12_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld1 d L gi gt
  step k acc := by
    rcases acc with ⟨a22, a23, a24, a25⟩
    unfold slotHeld1 k1_t12_body
    iintro ⟨Hi, Ht⟩
    sl_exec
    sl_step
    isplitl [Hi] <;> iassumption

@[sl_loop] def loopInv_t13 (d : Dev nD) (L : grid1.Coords) (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) :
    LoopInv (M := 𝕄) frame (wpE (defs₀ (F := F)) Sc.𝒱₀ (V d (cV L) (jV L)) none) Set.univ k1_t13_loop.lb k1_t13_loop.ub k1_t13_loop.st k1_t13_ok init
      (k1_t13_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld1 d L gi gt
  step k acc := by
    rcases acc with ⟨a22, a23, a24, a25⟩
    unfold slotHeld1 k1_t13_body
    iintro ⟨Hi, Ht⟩
    sl_exec
    sl_step
    isplitl [Hi] <;> iassumption

@[sl_loop] def loopInv_t14 (d : Dev nD) (L : grid1.Coords) (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) :
    LoopInv (M := 𝕄) frame (wpE (defs₀ (F := F)) Sc.𝒱₀ (V d (cV L) (jV L)) none) Set.univ k1_t14_loop.lb k1_t14_loop.ub k1_t14_loop.st k1_t14_ok init
      (k1_t14_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld1 d L gi gt
  step k acc := by
    rcases acc with ⟨a22, a23, a24, a25⟩
    unfold slotHeld1 k1_t14_body
    iintro ⟨Hi, Ht⟩
    sl_exec
    sl_step
    isplitl [Hi] <;> iassumption

@[sl_loop] def loopInv_t15 (d : Dev nD) (L : grid1.Coords) (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) :
    LoopInv (M := 𝕄) frame (wpE (defs₀ (F := F)) Sc.𝒱₀ (V d (cV L) (jV L)) none) Set.univ k1_t15_loop.lb k1_t15_loop.ub k1_t15_loop.st k1_t15_ok init
      (k1_t15_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld1 d L gi gt
  step k acc := by
    rcases acc with ⟨a22, a23, a24, a25⟩
    unfold slotHeld1 k1_t15_body
    iintro ⟨Hi, Ht⟩
    sl_exec
    sl_step
    isplitl [Hi] <;> iassumption

@[sl_loop] def loopInv_t16 (d : Dev nD) (L : grid1.Coords) (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) :
    LoopInv (M := 𝕄) frame (wpE (defs₀ (F := F)) Sc.𝒱₀ (V d (cV L) (jV L)) none) Set.univ k1_t16_loop.lb k1_t16_loop.ub k1_t16_loop.st k1_t16_ok init
      (k1_t16_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld0 d L gi gt
  step k acc := by
    rcases acc with ⟨a22, a23, a24, a25⟩
    unfold slotHeld0 k1_t16_body
    iintro ⟨Hi, Ht⟩
    sl_exec
    sl_step
    isplitl [Hi] <;> iassumption

@[sl_loop] def loopInv_t17 (d : Dev nD) (L : grid1.Coords) (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) :
    LoopInv (M := 𝕄) frame (wpE (defs₀ (F := F)) Sc.𝒱₀ (V d (cV L) (jV L)) none) Set.univ k1_t17_loop.lb k1_t17_loop.ub k1_t17_loop.st k1_t17_ok init
      (k1_t17_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld0 d L gi gt
  step k acc := by
    rcases acc with ⟨a22, a23, a24, a25⟩
    unfold slotHeld0 k1_t17_body
    iintro ⟨Hi, Ht⟩
    sl_exec
    sl_step
    isplitl [Hi] <;> iassumption

@[sl_loop] def loopInv_t18 (d : Dev nD) (L : grid1.Coords) (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) :
    LoopInv (M := 𝕄) frame (wpE (defs₀ (F := F)) Sc.𝒱₀ (V d (cV L) (jV L)) none) Set.univ k1_t18_loop.lb k1_t18_loop.ub k1_t18_loop.st k1_t18_ok init
      (k1_t18_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld0 d L gi gt
  step k acc := by
    rcases acc with ⟨a22, a23, a24, a25⟩
    unfold slotHeld0 k1_t18_body
    iintro ⟨Hi, Ht⟩
    sl_exec
    sl_step
    isplitl [Hi] <;> iassumption

@[sl_loop] def loopInv_t19 (d : Dev nD) (L : grid1.Coords) (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) :
    LoopInv (M := 𝕄) frame (wpE (defs₀ (F := F)) Sc.𝒱₀ (V d (cV L) (jV L)) none) Set.univ k1_t19_loop.lb k1_t19_loop.ub k1_t19_loop.st k1_t19_ok init
      (k1_t19_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld0 d L gi gt
  step k acc := by
    rcases acc with ⟨a22, a23, a24, a25⟩
    unfold slotHeld0 k1_t19_body
    iintro ⟨Hi, Ht⟩
    sl_exec
    sl_step
    isplitl [Hi] <;> iassumption

@[sl_loop] def loopInv_t20 (d : Dev nD) (L : grid1.Coords) (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) :
    LoopInv (M := 𝕄) frame (wpE (defs₀ (F := F)) Sc.𝒱₀ (V d (cV L) (jV L)) none) Set.univ k1_t20_loop.lb k1_t20_loop.ub k1_t20_loop.st k1_t20_ok init
      (k1_t20_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld0 d L gi gt
  step k acc := by
    rcases acc with ⟨a22, a23, a24, a25⟩
    unfold slotHeld0 k1_t20_body
    iintro ⟨Hi, Ht⟩
    sl_exec
    sl_step
    isplitl [Hi] <;> iassumption

@[sl_loop] def loopInv_t21 (d : Dev nD) (L : grid1.Coords) (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) :
    LoopInv (M := 𝕄) frame (wpE (defs₀ (F := F)) Sc.𝒱₀ (V d (cV L) (jV L)) none) Set.univ k1_t21_loop.lb k1_t21_loop.ub k1_t21_loop.st k1_t21_ok init
      (k1_t21_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld0 d L gi gt
  step k acc := by
    rcases acc with ⟨a22, a23, a24, a25⟩
    unfold slotHeld0 k1_t21_body
    iintro ⟨Hi, Ht⟩
    sl_exec
    sl_step
    isplitl [Hi] <;> iassumption

@[sl_loop] def loopInv_t22 (d : Dev nD) (L : grid1.Coords) (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) :
    LoopInv (M := 𝕄) frame (wpE (defs₀ (F := F)) Sc.𝒱₀ (V d (cV L) (jV L)) none) Set.univ k1_t22_loop.lb k1_t22_loop.ub k1_t22_loop.st k1_t22_ok init
      (k1_t22_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld0 d L gi gt
  step k acc := by
    rcases acc with ⟨a22, a23, a24, a25⟩
    unfold slotHeld0 k1_t22_body
    iintro ⟨Hi, Ht⟩
    sl_exec
    sl_step
    isplitl [Hi] <;> iassumption

@[sl_loop] def loopInv_t23 (d : Dev nD) (L : grid1.Coords) (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) :
    LoopInv (M := 𝕄) frame (wpE (defs₀ (F := F)) Sc.𝒱₀ (V d (cV L) (jV L)) none) Set.univ k1_t23_loop.lb k1_t23_loop.ub k1_t23_loop.st k1_t23_ok init
      (k1_t23_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld1 d L gi gt
  step k acc := by
    rcases acc with ⟨a22, a23, a24, a25⟩
    unfold slotHeld1 k1_t23_body
    iintro ⟨Hi, Ht⟩
    sl_exec
    sl_step
    isplitl [Hi] <;> iassumption

@[sl_loop] def loopInv_t24 (d : Dev nD) (L : grid1.Coords) (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) :
    LoopInv (M := 𝕄) frame (wpE (defs₀ (F := F)) Sc.𝒱₀ (V d (cV L) (jV L)) none) Set.univ k1_t24_loop.lb k1_t24_loop.ub k1_t24_loop.st k1_t24_ok init
      (k1_t24_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld1 d L gi gt
  step k acc := by
    rcases acc with ⟨a22, a23, a24, a25⟩
    unfold slotHeld1 k1_t24_body
    iintro ⟨Hi, Ht⟩
    sl_exec
    sl_step
    isplitl [Hi] <;> iassumption

@[sl_loop] def loopInv_t25 (d : Dev nD) (L : grid1.Coords) (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) :
    LoopInv (M := 𝕄) frame (wpE (defs₀ (F := F)) Sc.𝒱₀ (V d (cV L) (jV L)) none) Set.univ k1_t25_loop.lb k1_t25_loop.ub k1_t25_loop.st k1_t25_ok init
      (k1_t25_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld1 d L gi gt
  step k acc := by
    rcases acc with ⟨a22, a23, a24, a25⟩
    unfold slotHeld1 k1_t25_body
    iintro ⟨Hi, Ht⟩
    sl_exec
    sl_step
    isplitl [Hi] <;> iassumption

@[sl_loop] def loopInv_t26 (d : Dev nD) (L : grid1.Coords) (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) :
    LoopInv (M := 𝕄) frame (wpE (defs₀ (F := F)) Sc.𝒱₀ (V d (cV L) (jV L)) none) Set.univ k1_t26_loop.lb k1_t26_loop.ub k1_t26_loop.st k1_t26_ok init
      (k1_t26_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld1 d L gi gt
  step k acc := by
    rcases acc with ⟨a22, a23, a24, a25⟩
    unfold slotHeld1 k1_t26_body
    iintro ⟨Hi, Ht⟩
    sl_exec
    sl_step
    isplitl [Hi] <;> iassumption

@[sl_loop] def loopInv_t27 (d : Dev nD) (L : grid1.Coords) (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) :
    LoopInv (M := 𝕄) frame (wpE (defs₀ (F := F)) Sc.𝒱₀ (V d (cV L) (jV L)) none) Set.univ k1_t27_loop.lb k1_t27_loop.ub k1_t27_loop.st k1_t27_ok init
      (k1_t27_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld1 d L gi gt
  step k acc := by
    rcases acc with ⟨a22, a23, a24, a25⟩
    unfold slotHeld1 k1_t27_body
    iintro ⟨Hi, Ht⟩
    sl_exec
    sl_step
    isplitl [Hi] <;> iassumption

@[sl_loop] def loopInv_t28 (d : Dev nD) (L : grid1.Coords) (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) :
    LoopInv (M := 𝕄) frame (wpE (defs₀ (F := F)) Sc.𝒱₀ (V d (cV L) (jV L)) none) Set.univ k1_t28_loop.lb k1_t28_loop.ub k1_t28_loop.st k1_t28_ok init
      (k1_t28_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld1 d L gi gt
  step k acc := by
    rcases acc with ⟨a22, a23, a24, a25⟩
    unfold slotHeld1 k1_t28_body
    iintro ⟨Hi, Ht⟩
    sl_exec
    sl_step
    isplitl [Hi] <;> iassumption

@[sl_loop] def loopInv_t29 (d : Dev nD) (L : grid1.Coords) (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) :
    LoopInv (M := 𝕄) frame (wpE (defs₀ (F := F)) Sc.𝒱₀ (V d (cV L) (jV L)) none) Set.univ k1_t29_loop.lb k1_t29_loop.ub k1_t29_loop.st k1_t29_ok init
      (k1_t29_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv := slotHeld1 d L gi gt
  step k acc := by
    rcases acc with ⟨a22, a23, a24, a25⟩
    unfold slotHeld1 k1_t29_body
    iintro ⟨Hi, Ht⟩
    sl_exec
    sl_step
    isplitl [Hi] <;> iassumption

/-! ## The row loop: two slots, each either in flight or at rest -/

/-- Both slots in flight: each of the four transfers' `Flight` (delivering its buffer at some contents and the window
    of the input it reads) beside the rest of that input's share. -/
def rowFly (qa qb : PosShare TreeShare) (d : Dev nD) (L : grid1.Coords) : sProp 𝕄 :=
  iprop(∃ (oA oB : Fin 4 → ℕ) (hA : (∀ a, oA a + S1x48x1x224.size a ≤ S8x192x224x224.size a)) (hB : (∀ a, oB a + S1x48x1x224.size a ≤ S8x192x224x224.size a))
      (g0 : Buf (Elt F) ((V d (cV L) (jV L)).loc cc1_scratch0)) (g1 : Buf (Elt F) ((V d (cV L) (jV L)).loc cc1_scratch1))
      (g2 : Buf (Elt F) ((V d (cV L) (jV L)).loc cc1_scratch2)) (g3 : Buf (Elt F) ((V d (cV L) (jV L)).loc cc1_scratch3)),
    (Transfers.Flight countersEmb (V d (cV L) (jV L)) (SemLoc.dma (⟨3, by decide⟩ : DmaSem sig)) (default : HIx 1) 344064
      iprop(((b0V).view.loc (V d (cV L) (jV L)) ↦{fullShare} g0) ∗ (a0V).view.loc (V d (cV L) (jV L)) ↦[((((a0V).slice (Rect.unit (s := S8x192x224x224) oA S1x48x1x224.size hA) (fun _ => rfl)).squeeze S48x224 squeezes_S1x48x1x224_S48x224).view.set)]{qa} X0 d))
    ∗ ((a0V).view.loc (V d (cV L) (jV L)) ↦[Finset.univ \ ((((a0V).slice (Rect.unit (s := S8x192x224x224) oA S1x48x1x224.size hA) (fun _ => rfl)).squeeze S48x224 squeezes_S1x48x1x224_S48x224).view.set)]{qa} X0 d)
    ∗ (Transfers.Flight countersEmb (V d (cV L) (jV L)) (SemLoc.dma (⟨4, by decide⟩ : DmaSem sig)) (default : HIx 1) 344064
      iprop(((b1V).view.loc (V d (cV L) (jV L)) ↦{fullShare} g1) ∗ (a1V).view.loc (V d (cV L) (jV L)) ↦[((((a1V).slice (Rect.unit (s := S8x192x224x224) oA S1x48x1x224.size hA) (fun _ => rfl)).squeeze S48x224 squeezes_S1x48x1x224_S48x224).view.set)]{qa} X1 d))
    ∗ ((a1V).view.loc (V d (cV L) (jV L)) ↦[Finset.univ \ ((((a1V).slice (Rect.unit (s := S8x192x224x224) oA S1x48x1x224.size hA) (fun _ => rfl)).squeeze S48x224 squeezes_S1x48x1x224_S48x224).view.set)]{qa} X1 d)
    ∗ (Transfers.Flight countersEmb (V d (cV L) (jV L)) (SemLoc.dma (⟨5, by decide⟩ : DmaSem sig)) (default : HIx 1) 344064
      iprop(((b2V).view.loc (V d (cV L) (jV L)) ↦{fullShare} g2) ∗ (a0V).view.loc (V d (cV L) (jV L)) ↦[((((a0V).slice (Rect.unit (s := S8x192x224x224) oB S1x48x1x224.size hB) (fun _ => rfl)).squeeze S48x224 squeezes_S1x48x1x224_S48x224).view.set)]{qb} X0 d))
    ∗ ((a0V).view.loc (V d (cV L) (jV L)) ↦[Finset.univ \ ((((a0V).slice (Rect.unit (s := S8x192x224x224) oB S1x48x1x224.size hB) (fun _ => rfl)).squeeze S48x224 squeezes_S1x48x1x224_S48x224).view.set)]{qb} X0 d)
    ∗ (Transfers.Flight countersEmb (V d (cV L) (jV L)) (SemLoc.dma (⟨6, by decide⟩ : DmaSem sig)) (default : HIx 1) 344064
      iprop(((b3V).view.loc (V d (cV L) (jV L)) ↦{fullShare} g3) ∗ (a1V).view.loc (V d (cV L) (jV L)) ↦[((((a1V).slice (Rect.unit (s := S8x192x224x224) oB S1x48x1x224.size hB) (fun _ => rfl)).squeeze S48x224 squeezes_S1x48x1x224_S48x224).view.set)]{qb} X1 d))
    ∗ ((a1V).view.loc (V d (cV L) (jV L)) ↦[Finset.univ \ ((((a1V).slice (Rect.unit (s := S8x192x224x224) oB S1x48x1x224.size hB) (fun _ => rfl)).squeeze S48x224 squeezes_S1x48x1x224_S48x224).view.set)]{qb} X1 d))

/-- Both slots at rest: the four buffers at some contents, the four cells at zero, the inputs' shares whole. -/
def rowIdle (qa qb : PosShare TreeShare) (d : Dev nD) (L : grid1.Coords) : sProp 𝕄 :=
  iprop((∃ g, ((b0V).view.loc (V d (cV L) (jV L)) ↦{fullShare} g)) ∗ (∃ g, ((b1V).view.loc (V d (cV L) (jV L)) ↦{fullShare} g)) ∗ (∃ g, ((b2V).view.loc (V d (cV L) (jV L)) ↦{fullShare} g)) ∗ (∃ g, ((b3V).view.loc (V d (cV L) (jV L)) ↦{fullShare} g))
    ∗ semVal ((V d (cV L) (jV L)), (SemLoc.dma (⟨3, by decide⟩ : DmaSem sig))) 0 ∗ semVal ((V d (cV L) (jV L)), (SemLoc.dma (⟨4, by decide⟩ : DmaSem sig))) 0 ∗ semVal ((V d (cV L) (jV L)), (SemLoc.dma (⟨5, by decide⟩ : DmaSem sig))) 0 ∗ semVal ((V d (cV L) (jV L)), (SemLoc.dma (⟨6, by decide⟩ : DmaSem sig))) 0
    ∗ ((a0V).view.loc (V d (cV L) (jV L)) ↦{qa} X0 d) ∗ ((a1V).view.loc (V d (cV L) (jV L)) ↦{qa} X1 d)
    ∗ ((a0V).view.loc (V d (cV L) (jV L)) ↦{qb} X0 d) ∗ ((a1V).view.loc (V d (cV L) (jV L)) ↦{qb} X1 d))

/-- Before row `k`: the mask slab as fetched, the two accumulators at some contents, the slots in flight while a
    row remains and at rest after the last, and what the task owes with only its own waits recorded beyond `W`. -/
def rowInv (qa qb : PosShare TreeShare) (d : Dev nD) (L : grid1.Coords) (O : CellTallies nD τ sig (HIx 1)) (W : Waits sig (HIx 1))
    (g4 : Buf (Elt F) ((V d (cV L) (jV L)).loc cc1_scratch4)) (k : ℕ) (_ : FVec F S16 .f32 × FVec F S16 .f32) : sProp 𝕄 :=
  iprop(Transfers.MayWaits (V d (cV L) (jV L)) (none : HIx 1) O
    ∗ ((b4V).view.loc (V d (cV L) (jV L)) ↦{fullShare} g4) ∗ (∃ g, ((b5V).view.loc (V d (cV L) (jV L)) ↦{fullShare} g)) ∗ (∃ g, ((b6V).view.loc (V d (cV L) (jV L)) ↦{fullShare} g))
    ∗ (if k < 16 then rowFly X0 X1 qa qb d L else rowIdle X0 X1 qa qb d L)
    ∗ ∃ W', ⌜∀ p ∈ W', p ∈ W ∨ p.2 = none⌝ ∗ owes (V d (cV L) (jV L)) O W')

/-! ## Between the accumulation's guarded regions: the task's state with the two accumulators at some contents -/

/-- Slot 0 at rest: its buffers, the cells at zero, the inputs' share whole. -/
def landed0 (qa : PosShare TreeShare) (d : Dev nD) (L : grid1.Coords)
    (g0 : Buf (Elt F) ((V d (cV L) (jV L)).loc cc1_scratch0)) (g1 : Buf (Elt F) ((V d (cV L) (jV L)).loc cc1_scratch1)) : sProp 𝕄 :=
  iprop(((b0V).view.loc (V d (cV L) (jV L)) ↦{fullShare} g0) ∗ ((b1V).view.loc (V d (cV L) (jV L)) ↦{fullShare} g1) ∗ ((a0V).view.loc (V d (cV L) (jV L)) ↦{qa} X0 d) ∗ ((a1V).view.loc (V d (cV L) (jV L)) ↦{qa} X1 d)
    ∗ semVal ((V d (cV L) (jV L)), (SemLoc.dma (⟨3, by decide⟩ : DmaSem sig))) 0 ∗ semVal ((V d (cV L) (jV L)), (SemLoc.dma (⟨4, by decide⟩ : DmaSem sig))) 0)
def landed1 (qb : PosShare TreeShare) (d : Dev nD) (L : grid1.Coords)
    (g2 : Buf (Elt F) ((V d (cV L) (jV L)).loc cc1_scratch2)) (g3 : Buf (Elt F) ((V d (cV L) (jV L)).loc cc1_scratch3)) : sProp 𝕄 :=
  iprop(((b2V).view.loc (V d (cV L) (jV L)) ↦{fullShare} g2) ∗ ((b3V).view.loc (V d (cV L) (jV L)) ↦{fullShare} g3) ∗ ((a0V).view.loc (V d (cV L) (jV L)) ↦{qb} X0 d) ∗ ((a1V).view.loc (V d (cV L) (jV L)) ↦{qb} X1 d)
    ∗ semVal ((V d (cV L) (jV L)), (SemLoc.dma (⟨5, by decide⟩ : DmaSem sig))) 0 ∗ semVal ((V d (cV L) (jV L)), (SemLoc.dma (⟨6, by decide⟩ : DmaSem sig))) 0)
/-- Slot 0 in flight from the window at offsets `o`. -/
def flying0 (qa : PosShare TreeShare) (d : Dev nD) (L : grid1.Coords) (o : Fin 4 → ℕ) (h : (∀ a, o a + S1x48x1x224.size a ≤ S8x192x224x224.size a))
    (g0 : Buf (Elt F) ((V d (cV L) (jV L)).loc cc1_scratch0)) (g1 : Buf (Elt F) ((V d (cV L) (jV L)).loc cc1_scratch1)) : sProp 𝕄 :=
  iprop((Transfers.Flight countersEmb (V d (cV L) (jV L)) (SemLoc.dma (⟨3, by decide⟩ : DmaSem sig)) (default : HIx 1) 344064
      iprop(((b0V).view.loc (V d (cV L) (jV L)) ↦{fullShare} g0) ∗ (a0V).view.loc (V d (cV L) (jV L)) ↦[((((a0V).slice (Rect.unit (s := S8x192x224x224) o S1x48x1x224.size h) (fun _ => rfl)).squeeze S48x224 squeezes_S1x48x1x224_S48x224).view.set)]{qa} X0 d))
    ∗ ((a0V).view.loc (V d (cV L) (jV L)) ↦[Finset.univ \ ((((a0V).slice (Rect.unit (s := S8x192x224x224) o S1x48x1x224.size h) (fun _ => rfl)).squeeze S48x224 squeezes_S1x48x1x224_S48x224).view.set)]{qa} X0 d)
    ∗ (Transfers.Flight countersEmb (V d (cV L) (jV L)) (SemLoc.dma (⟨4, by decide⟩ : DmaSem sig)) (default : HIx 1) 344064
      iprop(((b1V).view.loc (V d (cV L) (jV L)) ↦{fullShare} g1) ∗ (a1V).view.loc (V d (cV L) (jV L)) ↦[((((a1V).slice (Rect.unit (s := S8x192x224x224) o S1x48x1x224.size h) (fun _ => rfl)).squeeze S48x224 squeezes_S1x48x1x224_S48x224).view.set)]{qa} X1 d))
    ∗ ((a1V).view.loc (V d (cV L) (jV L)) ↦[Finset.univ \ ((((a1V).slice (Rect.unit (s := S8x192x224x224) o S1x48x1x224.size h) (fun _ => rfl)).squeeze S48x224 squeezes_S1x48x1x224_S48x224).view.set)]{qa} X1 d))
def flying1 (qb : PosShare TreeShare) (d : Dev nD) (L : grid1.Coords) (o : Fin 4 → ℕ) (h : (∀ a, o a + S1x48x1x224.size a ≤ S8x192x224x224.size a))
    (g2 : Buf (Elt F) ((V d (cV L) (jV L)).loc cc1_scratch2)) (g3 : Buf (Elt F) ((V d (cV L) (jV L)).loc cc1_scratch3)) : sProp 𝕄 :=
  iprop((Transfers.Flight countersEmb (V d (cV L) (jV L)) (SemLoc.dma (⟨5, by decide⟩ : DmaSem sig)) (default : HIx 1) 344064
      iprop(((b2V).view.loc (V d (cV L) (jV L)) ↦{fullShare} g2) ∗ (a0V).view.loc (V d (cV L) (jV L)) ↦[((((a0V).slice (Rect.unit (s := S8x192x224x224) o S1x48x1x224.size h) (fun _ => rfl)).squeeze S48x224 squeezes_S1x48x1x224_S48x224).view.set)]{qb} X0 d))
    ∗ ((a0V).view.loc (V d (cV L) (jV L)) ↦[Finset.univ \ ((((a0V).slice (Rect.unit (s := S8x192x224x224) o S1x48x1x224.size h) (fun _ => rfl)).squeeze S48x224 squeezes_S1x48x1x224_S48x224).view.set)]{qb} X0 d)
    ∗ (Transfers.Flight countersEmb (V d (cV L) (jV L)) (SemLoc.dma (⟨6, by decide⟩ : DmaSem sig)) (default : HIx 1) 344064
      iprop(((b3V).view.loc (V d (cV L) (jV L)) ↦{fullShare} g3) ∗ (a1V).view.loc (V d (cV L) (jV L)) ↦[((((a1V).slice (Rect.unit (s := S8x192x224x224) o S1x48x1x224.size h) (fun _ => rfl)).squeeze S48x224 squeezes_S1x48x1x224_S48x224).view.set)]{qb} X1 d))
    ∗ ((a1V).view.loc (V d (cV L) (jV L)) ↦[Finset.univ \ ((((a1V).slice (Rect.unit (s := S8x192x224x224) o S1x48x1x224.size h) (fun _ => rfl)).squeeze S48x224 squeezes_S1x48x1x224_S48x224).view.set)]{qb} X1 d))

/-- The slots with their buffers' contents left open. -/
def landed0E (qa : PosShare TreeShare) (d : Dev nD) (L : grid1.Coords) : sProp 𝕄 := iprop(∃ g0 g1, landed0 X0 X1 qa d L g0 g1)
def landed1E (qb : PosShare TreeShare) (d : Dev nD) (L : grid1.Coords) : sProp 𝕄 := iprop(∃ g2 g3, landed1 X0 X1 qb d L g2 g3)
def flying0E (qa : PosShare TreeShare) (d : Dev nD) (L : grid1.Coords) (o : Fin 4 → ℕ) (h : (∀ a, o a + S1x48x1x224.size a ≤ S8x192x224x224.size a)) : sProp 𝕄 :=
  iprop(∃ g0 g1, flying0 X0 X1 qa d L o h g0 g1)
def flying1E (qb : PosShare TreeShare) (d : Dev nD) (L : grid1.Coords) (o : Fin 4 → ℕ) (h : (∀ a, o a + S1x48x1x224.size a ≤ S8x192x224x224.size a)) : sProp 𝕄 :=
  iprop(∃ g2 g3, flying1 X0 X1 qb d L o h g2 g3)

/-- The task's state at a cut: the slots as given, the accumulators at some contents. -/
def cutSt (S0 S1 : sProp 𝕄) (d : Dev nD) (L : grid1.Coords) (O : CellTallies nD τ sig (HIx 1)) (Wx : Waits sig (HIx 1))
    (g4 : Buf (Elt F) ((V d (cV L) (jV L)).loc cc1_scratch4)) : sProp 𝕄 :=
  iprop(Transfers.MayWaits (V d (cV L) (jV L)) (none : HIx 1) O ∗ ((b4V).view.loc (V d (cV L) (jV L)) ↦{fullShare} g4) ∗ (∃ g, ((b5V).view.loc (V d (cV L) (jV L)) ↦{fullShare} g)) ∗ (∃ g, ((b6V).view.loc (V d (cV L) (jV L)) ↦{fullShare} g))
    ∗ S0 ∗ S1 ∗ owes (V d (cV L) (jV L)) O Wx)

/-- A conditional whose else-region is the rest of the block: both regions reach the rest from one state `R`. -/
theorem ite_cut {β : Type} {c : Prop} [Decidable c] (d : Dev nD) (L : grid1.Coords)
    {T J : Prog (TpuEff nD τ sig (Elt F) Λ₀ (.scVector (cV L) (jV L))) β} {Q : β → sProp 𝕄} {P : sProp 𝕄} (R : sProp 𝕄)
    (h1 : c → ∀ j : Prog (TpuEff nD τ sig (Elt F) Λ₀ (.scVector (cV L) (jV L))) β, j = J →
      (R ⊢ wp frame (wpE (defs₀ (F := F)) Sc.𝒱₀ (V d (cV L) (jV L)) none) Set.univ j Q) →
      Entails' P (wp frame (wpE (defs₀ (F := F)) Sc.𝒱₀ (V d (cV L) (jV L)) none) Set.univ T Q))
    (h2 : ¬c → Entails' P R)
    (h3 : R ⊢ wp frame (wpE (defs₀ (F := F)) Sc.𝒱₀ (V d (cV L) (jV L)) none) Set.univ J Q) :
    Entails' P (wp frame (wpE (defs₀ (F := F)) Sc.𝒱₀ (V d (cV L) (jV L)) none) Set.univ (if c then T else J) Q) := by
  by_cases hc : c
  · rw [if_pos hc]; exact h1 hc J rfl h3
  · rw [if_neg hc]; exact (show P ⊢ R from h2 hc).trans h3

theorem trips16 : k1_t1_loop.trips = 16 := by decide
theorem cond8_all : ∀ k : Fin k1_t1_loop.trips, k1_cond8 k = 1#1 := by decide +kernel
theorem cond16_all : ∀ k : Fin k1_t1_loop.trips, k1_cond16 k = 1#1 := by decide +kernel
theorem cond24_iff : ∀ k : Fin k1_t1_loop.trips, k1_cond24 k = 1#1 ↔ k.val + 1 < 16 := by decide +kernel
theorem cond32_iff : ∀ k : Fin k1_t1_loop.trips, k1_cond32 k = 1#1 ↔ k.val + 1 < 16 := by decide +kernel

end Tile

end Cert.Kernel.ScTile

end
-- ==== Proof.ScTileMidB.lean ====
/-
  One row of the task's row loop when a row follows it: from the loop's invariant before the row to the invariant after it, the two slots refilled for the next row.
-/
import proofs.«210586_g14980845929080_cont_week2b_1062_66_alg».proof.Proof.ScTileDefsB
import proofs.«210586_g14980845929080_cont_week2b_1062_66_alg».proof.Proof.Gen.Kernel.Skeleton
import Idealize.ShloMosaic.Lib.Tactic

set_option warn.classDefReducibility false

noncomputable section

namespace Cert.Kernel.ScTile

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ Sc.UU ℕ

local notation "a0V" => (Memref.whole Cert.Kernel.main_arg0_scv : Memref Cert.Kernel.sig Kind.scVector Space.hbm Cert.Kernel.S8x192x224x224 EltTy.f32)
local notation "a1V" => (Memref.whole Cert.Kernel.main_arg1_scv : Memref Cert.Kernel.sig Kind.scVector Space.hbm Cert.Kernel.S8x192x224x224 EltTy.f32)
local notation "mkV" => (Memref.whole Cert.Kernel.main_v0_scv : Memref Cert.Kernel.sig Kind.scVector Space.hbm Cert.Kernel.S8x224x256 EltTy.f32)
local notation "ptV" => (Memref.whole Cert.Kernel.main_v1_scv : Memref Cert.Kernel.sig Kind.scVector Space.hbm Cert.Kernel.S32x32 EltTy.f32)
local notation "b0V" => (Memref.whole Cert.Kernel.cc1_scratch0 : Memref Cert.Kernel.sig Kind.scVector Space.vmem Cert.Kernel.S48x224 EltTy.f32)
local notation "b1V" => (Memref.whole Cert.Kernel.cc1_scratch1 : Memref Cert.Kernel.sig Kind.scVector Space.vmem Cert.Kernel.S48x224 EltTy.f32)
local notation "b2V" => (Memref.whole Cert.Kernel.cc1_scratch2 : Memref Cert.Kernel.sig Kind.scVector Space.vmem Cert.Kernel.S48x224 EltTy.f32)
local notation "b3V" => (Memref.whole Cert.Kernel.cc1_scratch3 : Memref Cert.Kernel.sig Kind.scVector Space.vmem Cert.Kernel.S48x224 EltTy.f32)
local notation "b4V" => (Memref.whole Cert.Kernel.cc1_scratch4 : Memref Cert.Kernel.sig Kind.scVector Space.vmem Cert.Kernel.S8x16x256 EltTy.f32)
local notation "b5V" => (Memref.whole Cert.Kernel.cc1_scratch5 : Memref Cert.Kernel.sig Kind.scVector Space.vmem Cert.Kernel.S7x2x16 EltTy.f32)
local notation "b6V" => (Memref.whole Cert.Kernel.cc1_scratch6 : Memref Cert.Kernel.sig Kind.scVector Space.vmem Cert.Kernel.S7x2x16 EltTy.f32)
local notation "b7V" => (Memref.whole Cert.Kernel.cc1_scratch7 : Memref Cert.Kernel.sig Kind.scVector Space.vmem Cert.Kernel.S32 EltTy.f32)

variable [FloatOps F]

section Tile

variable (X0 : (d : Dev nD) → Buf (Elt F) (a0Loc d)) (X1 : (d : Dev nD) → Buf (Elt F) (a1Loc d))
  (M : (d : Dev nD) → Buf (Elt F) (mkLoc d)) (R0 : (d : Dev nD) → Buf (Elt F) (ptLoc d))
variable (d : Dev nD) (L : grid1.Coords)

set_option maxHeartbeats 4000000 in
/-- One row with a row after it: both slots are refilled. -/
theorem row_trip_mid (qa qb : PosShare TreeShare) (O : CellTallies nD τ sig (HIx 1)) (W : Waits sig (HIx 1))
    (g4 : Buf (Elt F) ((V d (cV L) (jV L)).loc cc1_scratch4)) (v3 v23 : BitVec 32) (v24 v25 : FVec F S16 .f32)
    (k : Fin k1_t1_loop.trips) (hl : k.val + 1 < 16) (acc : FVec F S16 .f32 × FVec F S16 .f32) :
    rowInv X0 X1 qa qb d L O W g4 k.val acc
      ⊢ wp frame (wpE (defs₀ (F := F)) Sc.𝒱₀ (V d (cV L) (jV L)) none) Set.univ (k1_t1_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 v3 v23 v24 v25 k acc)
          (rowInv X0 X1 qa qb d L O W g4 (k.val + 1)) := by
  rcases acc with ⟨a19, a20⟩
  have hk : k.val < 16 := trips16 ▸ k.isLt
  unfold rowInv k1_t1_body
  rw [if_pos hk]; unfold rowFly
  iintro ⟨#Hmw, Hb4, ⟨%g5, Hb5⟩, ⟨%g6, Hb6⟩, ⟨%oA, %oB, %hA, %hB, %g0, %g1, %g2, %g3, HF3, H0a, HF4, H1a, HF5, H0b, HF6, H1b⟩, %W', %hW', HO⟩
  sl_exec
  refine ite_cut d L (cutSt (landed0E X0 X1 qa d L) (flying1E X0 X1 qb d L oB hB) d L O (insert (SemLoc.dma (⟨4, by decide⟩ : DmaSem sig), (default : HIx 1)) (insert (SemLoc.dma (⟨3, by decide⟩ : DmaSem sig), (default : HIx 1)) W')) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  sl_exec
  refine ite_cut d L (cutSt (landed0E X0 X1 qa d L) (flying1E X0 X1 qb d L oB hB) d L O (insert (SemLoc.dma (⟨4, by decide⟩ : DmaSem sig), (default : HIx 1)) (insert (SemLoc.dma (⟨3, by decide⟩ : DmaSem sig), (default : HIx 1)) W')) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  sl_exec
  refine ite_cut d L (cutSt (landed0E X0 X1 qa d L) (flying1E X0 X1 qb d L oB hB) d L O (insert (SemLoc.dma (⟨4, by decide⟩ : DmaSem sig), (default : HIx 1)) (insert (SemLoc.dma (⟨3, by decide⟩ : DmaSem sig), (default : HIx 1)) W')) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  sl_exec
  refine ite_cut d L (cutSt (landed0E X0 X1 qa d L) (flying1E X0 X1 qb d L oB hB) d L O (insert (SemLoc.dma (⟨4, by decide⟩ : DmaSem sig), (default : HIx 1)) (insert (SemLoc.dma (⟨3, by decide⟩ : DmaSem sig), (default : HIx 1)) W')) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  sl_exec
  refine ite_cut d L (cutSt (landed0E X0 X1 qa d L) (flying1E X0 X1 qb d L oB hB) d L O (insert (SemLoc.dma (⟨4, by decide⟩ : DmaSem sig), (default : HIx 1)) (insert (SemLoc.dma (⟨3, by decide⟩ : DmaSem sig), (default : HIx 1)) W')) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  sl_exec
  refine ite_cut d L (cutSt (landed0E X0 X1 qa d L) (flying1E X0 X1 qb d L oB hB) d L O (insert (SemLoc.dma (⟨4, by decide⟩ : DmaSem sig), (default : HIx 1)) (insert (SemLoc.dma (⟨3, by decide⟩ : DmaSem sig), (default : HIx 1)) W')) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  sl_exec
  refine ite_cut d L (cutSt (landed0E X0 X1 qa d L) (flying1E X0 X1 qb d L oB hB) d L O (insert (SemLoc.dma (⟨4, by decide⟩ : DmaSem sig), (default : HIx 1)) (insert (SemLoc.dma (⟨3, by decide⟩ : DmaSem sig), (default : HIx 1)) W')) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  have h8 := cond8_all k
  sl_exec
  refine ite_cut d L (cutSt (flying0E X0 X1 qa d L (k1_off19 L k) (k1_off19_inb L k (cond8_all k))) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3, H0a, HF4, H1a⟩, ⟨%g2, %g3, HF5_dst, HF6_dst, H0b, H1b, HF5, HF6⟩, HO⟩
  clear h8
  sl_exec
  refine ite_cut d L (cutSt (flying0E X0 X1 qa d L (k1_off19 L k) (k1_off19_inb L k (cond8_all k))) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3, H0a, HF4, H1a⟩, ⟨%g2, %g3, HF5_dst, HF6_dst, H0b, H1b, HF5, HF6⟩, HO⟩
  sl_exec
  refine ite_cut d L (cutSt (flying0E X0 X1 qa d L (k1_off19 L k) (k1_off19_inb L k (cond8_all k))) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3, H0a, HF4, H1a⟩, ⟨%g2, %g3, HF5_dst, HF6_dst, H0b, H1b, HF5, HF6⟩, HO⟩
  sl_exec
  refine ite_cut d L (cutSt (flying0E X0 X1 qa d L (k1_off19 L k) (k1_off19_inb L k (cond8_all k))) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3, H0a, HF4, H1a⟩, ⟨%g2, %g3, HF5_dst, HF6_dst, H0b, H1b, HF5, HF6⟩, HO⟩
  sl_exec
  refine ite_cut d L (cutSt (flying0E X0 X1 qa d L (k1_off19 L k) (k1_off19_inb L k (cond8_all k))) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3, H0a, HF4, H1a⟩, ⟨%g2, %g3, HF5_dst, HF6_dst, H0b, H1b, HF5, HF6⟩, HO⟩
  sl_exec
  refine ite_cut d L (cutSt (flying0E X0 X1 qa d L (k1_off19 L k) (k1_off19_inb L k (cond8_all k))) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3, H0a, HF4, H1a⟩, ⟨%g2, %g3, HF5_dst, HF6_dst, H0b, H1b, HF5, HF6⟩, HO⟩
  sl_exec
  refine ite_cut d L (cutSt (flying0E X0 X1 qa d L (k1_off19 L k) (k1_off19_inb L k (cond8_all k))) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3, H0a, HF4, H1a⟩, ⟨%g2, %g3, HF5_dst, HF6_dst, H0b, H1b, HF5, HF6⟩, HO⟩
  have h16 := cond16_all k
  sl_exec
  refine ite_cut d L (cutSt (landed0E X0 X1 qa d L) (flying1E X0 X1 qb d L (k1_off34 L k) (k1_off34_inb L k (cond16_all k))) d L O (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  clear h16
  sl_exec
  refine ite_cut d L (cutSt (landed0E X0 X1 qa d L) (flying1E X0 X1 qb d L (k1_off34 L k) (k1_off34_inb L k (cond16_all k))) d L O (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  sl_exec
  refine ite_cut d L (cutSt (landed0E X0 X1 qa d L) (flying1E X0 X1 qb d L (k1_off34 L k) (k1_off34_inb L k (cond16_all k))) d L O (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  sl_exec
  refine ite_cut d L (cutSt (landed0E X0 X1 qa d L) (flying1E X0 X1 qb d L (k1_off34 L k) (k1_off34_inb L k (cond16_all k))) d L O (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  sl_exec
  refine ite_cut d L (cutSt (landed0E X0 X1 qa d L) (flying1E X0 X1 qb d L (k1_off34 L k) (k1_off34_inb L k (cond16_all k))) d L O (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  sl_exec
  refine ite_cut d L (cutSt (landed0E X0 X1 qa d L) (flying1E X0 X1 qb d L (k1_off34 L k) (k1_off34_inb L k (cond16_all k))) d L O (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  sl_exec
  refine ite_cut d L (cutSt (landed0E X0 X1 qa d L) (flying1E X0 X1 qb d L (k1_off34 L k) (k1_off34_inb L k (cond16_all k))) d L O (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  have h24 : k1_cond24 k = 1#1 := (cond24_iff k).2 hl
  sl_exec
  refine ite_cut d L (cutSt (flying0E X0 X1 qa d L (k1_off49 L k) (k1_off49_inb L k ((cond24_iff k).2 hl))) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3, H0a, HF4, H1a⟩, ⟨%g2, %g3, HF5_dst, HF6_dst, H0b, H1b, HF5, HF6⟩, HO⟩
  clear h24
  sl_exec
  refine ite_cut d L (cutSt (flying0E X0 X1 qa d L (k1_off49 L k) (k1_off49_inb L k ((cond24_iff k).2 hl))) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3, H0a, HF4, H1a⟩, ⟨%g2, %g3, HF5_dst, HF6_dst, H0b, H1b, HF5, HF6⟩, HO⟩
  sl_exec
  refine ite_cut d L (cutSt (flying0E X0 X1 qa d L (k1_off49 L k) (k1_off49_inb L k ((cond24_iff k).2 hl))) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3, H0a, HF4, H1a⟩, ⟨%g2, %g3, HF5_dst, HF6_dst, H0b, H1b, HF5, HF6⟩, HO⟩
  sl_exec
  refine ite_cut d L (cutSt (flying0E X0 X1 qa d L (k1_off49 L k) (k1_off49_inb L k ((cond24_iff k).2 hl))) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3, H0a, HF4, H1a⟩, ⟨%g2, %g3, HF5_dst, HF6_dst, H0b, H1b, HF5, HF6⟩, HO⟩
  sl_exec
  refine ite_cut d L (cutSt (flying0E X0 X1 qa d L (k1_off49 L k) (k1_off49_inb L k ((cond24_iff k).2 hl))) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3, H0a, HF4, H1a⟩, ⟨%g2, %g3, HF5_dst, HF6_dst, H0b, H1b, HF5, HF6⟩, HO⟩
  sl_exec
  refine ite_cut d L (cutSt (flying0E X0 X1 qa d L (k1_off49 L k) (k1_off49_inb L k ((cond24_iff k).2 hl))) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3, H0a, HF4, H1a⟩, ⟨%g2, %g3, HF5_dst, HF6_dst, H0b, H1b, HF5, HF6⟩, HO⟩
  sl_exec
  refine ite_cut d L (cutSt (flying0E X0 X1 qa d L (k1_off49 L k) (k1_off49_inb L k ((cond24_iff k).2 hl))) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3, H0a, HF4, H1a⟩, ⟨%g2, %g3, HF5_dst, HF6_dst, H0b, H1b, HF5, HF6⟩, HO⟩
  have h32 : k1_cond32 k = 1#1 := (cond32_iff k).2 hl
  sl_exec
  sl_step
  rw [if_pos hl]
  have hWf : ∀ p ∈ (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))))), p ∈ W ∨ p.2 = none := by
    intro p hp
    repeat (rcases Finset.mem_insert.mp hp with rfl | hp; · exact .inr rfl)
    exact hW' p hp
  sl_close

end Tile

end Cert.Kernel.ScTile

end
-- ==== Proof.ScTileLastB.lean ====
/-
  The last row of the task's row loop: from the loop's invariant before it to the invariant after the loop, both slots at rest.
-/
import proofs.«210586_g14980845929080_cont_week2b_1062_66_alg».proof.Proof.ScTileDefsB
import proofs.«210586_g14980845929080_cont_week2b_1062_66_alg».proof.Proof.Gen.Kernel.Skeleton
import Idealize.ShloMosaic.Lib.Tactic

set_option warn.classDefReducibility false

noncomputable section

namespace Cert.Kernel.ScTile

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ Sc.UU ℕ

local notation "a0V" => (Memref.whole Cert.Kernel.main_arg0_scv : Memref Cert.Kernel.sig Kind.scVector Space.hbm Cert.Kernel.S8x192x224x224 EltTy.f32)
local notation "a1V" => (Memref.whole Cert.Kernel.main_arg1_scv : Memref Cert.Kernel.sig Kind.scVector Space.hbm Cert.Kernel.S8x192x224x224 EltTy.f32)
local notation "mkV" => (Memref.whole Cert.Kernel.main_v0_scv : Memref Cert.Kernel.sig Kind.scVector Space.hbm Cert.Kernel.S8x224x256 EltTy.f32)
local notation "ptV" => (Memref.whole Cert.Kernel.main_v1_scv : Memref Cert.Kernel.sig Kind.scVector Space.hbm Cert.Kernel.S32x32 EltTy.f32)
local notation "b0V" => (Memref.whole Cert.Kernel.cc1_scratch0 : Memref Cert.Kernel.sig Kind.scVector Space.vmem Cert.Kernel.S48x224 EltTy.f32)
local notation "b1V" => (Memref.whole Cert.Kernel.cc1_scratch1 : Memref Cert.Kernel.sig Kind.scVector Space.vmem Cert.Kernel.S48x224 EltTy.f32)
local notation "b2V" => (Memref.whole Cert.Kernel.cc1_scratch2 : Memref Cert.Kernel.sig Kind.scVector Space.vmem Cert.Kernel.S48x224 EltTy.f32)
local notation "b3V" => (Memref.whole Cert.Kernel.cc1_scratch3 : Memref Cert.Kernel.sig Kind.scVector Space.vmem Cert.Kernel.S48x224 EltTy.f32)
local notation "b4V" => (Memref.whole Cert.Kernel.cc1_scratch4 : Memref Cert.Kernel.sig Kind.scVector Space.vmem Cert.Kernel.S8x16x256 EltTy.f32)
local notation "b5V" => (Memref.whole Cert.Kernel.cc1_scratch5 : Memref Cert.Kernel.sig Kind.scVector Space.vmem Cert.Kernel.S7x2x16 EltTy.f32)
local notation "b6V" => (Memref.whole Cert.Kernel.cc1_scratch6 : Memref Cert.Kernel.sig Kind.scVector Space.vmem Cert.Kernel.S7x2x16 EltTy.f32)
local notation "b7V" => (Memref.whole Cert.Kernel.cc1_scratch7 : Memref Cert.Kernel.sig Kind.scVector Space.vmem Cert.Kernel.S32 EltTy.f32)

variable [FloatOps F]

section Tile

variable (X0 : (d : Dev nD) → Buf (Elt F) (a0Loc d)) (X1 : (d : Dev nD) → Buf (Elt F) (a1Loc d))
  (M : (d : Dev nD) → Buf (Elt F) (mkLoc d)) (R0 : (d : Dev nD) → Buf (Elt F) (ptLoc d))
variable (d : Dev nD) (L : grid1.Coords)

set_option maxHeartbeats 4000000 in
/-- One row, the last: no slot is refilled. -/
theorem row_trip_last (qa qb : PosShare TreeShare) (O : CellTallies nD τ sig (HIx 1)) (W : Waits sig (HIx 1))
    (g4 : Buf (Elt F) ((V d (cV L) (jV L)).loc cc1_scratch4)) (v3 v23 : BitVec 32) (v24 v25 : FVec F S16 .f32)
    (k : Fin k1_t1_loop.trips) (hl : ¬ k.val + 1 < 16) (acc : FVec F S16 .f32 × FVec F S16 .f32) :
    rowInv X0 X1 qa qb d L O W g4 k.val acc
      ⊢ wp frame (wpE (defs₀ (F := F)) Sc.𝒱₀ (V d (cV L) (jV L)) none) Set.univ (k1_t1_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 v3 v23 v24 v25 k acc)
          (rowInv X0 X1 qa qb d L O W g4 (k.val + 1)) := by
  rcases acc with ⟨a19, a20⟩
  have hk : k.val < 16 := trips16 ▸ k.isLt
  unfold rowInv k1_t1_body
  rw [if_pos hk]; unfold rowFly
  iintro ⟨#Hmw, Hb4, ⟨%g5, Hb5⟩, ⟨%g6, Hb6⟩, ⟨%oA, %oB, %hA, %hB, %g0, %g1, %g2, %g3, HF3, H0a, HF4, H1a, HF5, H0b, HF6, H1b⟩, %W', %hW', HO⟩
  sl_exec
  refine ite_cut d L (cutSt (landed0E X0 X1 qa d L) (flying1E X0 X1 qb d L oB hB) d L O (insert (SemLoc.dma (⟨4, by decide⟩ : DmaSem sig), (default : HIx 1)) (insert (SemLoc.dma (⟨3, by decide⟩ : DmaSem sig), (default : HIx 1)) W')) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  sl_exec
  refine ite_cut d L (cutSt (landed0E X0 X1 qa d L) (flying1E X0 X1 qb d L oB hB) d L O (insert (SemLoc.dma (⟨4, by decide⟩ : DmaSem sig), (default : HIx 1)) (insert (SemLoc.dma (⟨3, by decide⟩ : DmaSem sig), (default : HIx 1)) W')) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  sl_exec
  refine ite_cut d L (cutSt (landed0E X0 X1 qa d L) (flying1E X0 X1 qb d L oB hB) d L O (insert (SemLoc.dma (⟨4, by decide⟩ : DmaSem sig), (default : HIx 1)) (insert (SemLoc.dma (⟨3, by decide⟩ : DmaSem sig), (default : HIx 1)) W')) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  sl_exec
  refine ite_cut d L (cutSt (landed0E X0 X1 qa d L) (flying1E X0 X1 qb d L oB hB) d L O (insert (SemLoc.dma (⟨4, by decide⟩ : DmaSem sig), (default : HIx 1)) (insert (SemLoc.dma (⟨3, by decide⟩ : DmaSem sig), (default : HIx 1)) W')) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  sl_exec
  refine ite_cut d L (cutSt (landed0E X0 X1 qa d L) (flying1E X0 X1 qb d L oB hB) d L O (insert (SemLoc.dma (⟨4, by decide⟩ : DmaSem sig), (default : HIx 1)) (insert (SemLoc.dma (⟨3, by decide⟩ : DmaSem sig), (default : HIx 1)) W')) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  sl_exec
  refine ite_cut d L (cutSt (landed0E X0 X1 qa d L) (flying1E X0 X1 qb d L oB hB) d L O (insert (SemLoc.dma (⟨4, by decide⟩ : DmaSem sig), (default : HIx 1)) (insert (SemLoc.dma (⟨3, by decide⟩ : DmaSem sig), (default : HIx 1)) W')) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  sl_exec
  refine ite_cut d L (cutSt (landed0E X0 X1 qa d L) (flying1E X0 X1 qb d L oB hB) d L O (insert (SemLoc.dma (⟨4, by decide⟩ : DmaSem sig), (default : HIx 1)) (insert (SemLoc.dma (⟨3, by decide⟩ : DmaSem sig), (default : HIx 1)) W')) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  have h8 := cond8_all k
  sl_exec
  refine ite_cut d L (cutSt (flying0E X0 X1 qa d L (k1_off19 L k) (k1_off19_inb L k (cond8_all k))) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3, H0a, HF4, H1a⟩, ⟨%g2, %g3, HF5_dst, HF6_dst, H0b, H1b, HF5, HF6⟩, HO⟩
  clear h8
  sl_exec
  refine ite_cut d L (cutSt (flying0E X0 X1 qa d L (k1_off19 L k) (k1_off19_inb L k (cond8_all k))) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3, H0a, HF4, H1a⟩, ⟨%g2, %g3, HF5_dst, HF6_dst, H0b, H1b, HF5, HF6⟩, HO⟩
  sl_exec
  refine ite_cut d L (cutSt (flying0E X0 X1 qa d L (k1_off19 L k) (k1_off19_inb L k (cond8_all k))) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3, H0a, HF4, H1a⟩, ⟨%g2, %g3, HF5_dst, HF6_dst, H0b, H1b, HF5, HF6⟩, HO⟩
  sl_exec
  refine ite_cut d L (cutSt (flying0E X0 X1 qa d L (k1_off19 L k) (k1_off19_inb L k (cond8_all k))) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3, H0a, HF4, H1a⟩, ⟨%g2, %g3, HF5_dst, HF6_dst, H0b, H1b, HF5, HF6⟩, HO⟩
  sl_exec
  refine ite_cut d L (cutSt (flying0E X0 X1 qa d L (k1_off19 L k) (k1_off19_inb L k (cond8_all k))) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3, H0a, HF4, H1a⟩, ⟨%g2, %g3, HF5_dst, HF6_dst, H0b, H1b, HF5, HF6⟩, HO⟩
  sl_exec
  refine ite_cut d L (cutSt (flying0E X0 X1 qa d L (k1_off19 L k) (k1_off19_inb L k (cond8_all k))) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3, H0a, HF4, H1a⟩, ⟨%g2, %g3, HF5_dst, HF6_dst, H0b, H1b, HF5, HF6⟩, HO⟩
  sl_exec
  refine ite_cut d L (cutSt (flying0E X0 X1 qa d L (k1_off19 L k) (k1_off19_inb L k (cond8_all k))) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3, H0a, HF4, H1a⟩, ⟨%g2, %g3, HF5_dst, HF6_dst, H0b, H1b, HF5, HF6⟩, HO⟩
  have h16 := cond16_all k
  sl_exec
  refine ite_cut d L (cutSt (landed0E X0 X1 qa d L) (flying1E X0 X1 qb d L (k1_off34 L k) (k1_off34_inb L k (cond16_all k))) d L O (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  clear h16
  sl_exec
  refine ite_cut d L (cutSt (landed0E X0 X1 qa d L) (flying1E X0 X1 qb d L (k1_off34 L k) (k1_off34_inb L k (cond16_all k))) d L O (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  sl_exec
  refine ite_cut d L (cutSt (landed0E X0 X1 qa d L) (flying1E X0 X1 qb d L (k1_off34 L k) (k1_off34_inb L k (cond16_all k))) d L O (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  sl_exec
  refine ite_cut d L (cutSt (landed0E X0 X1 qa d L) (flying1E X0 X1 qb d L (k1_off34 L k) (k1_off34_inb L k (cond16_all k))) d L O (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  sl_exec
  refine ite_cut d L (cutSt (landed0E X0 X1 qa d L) (flying1E X0 X1 qb d L (k1_off34 L k) (k1_off34_inb L k (cond16_all k))) d L O (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  sl_exec
  refine ite_cut d L (cutSt (landed0E X0 X1 qa d L) (flying1E X0 X1 qb d L (k1_off34 L k) (k1_off34_inb L k (cond16_all k))) d L O (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  sl_exec
  refine ite_cut d L (cutSt (landed0E X0 X1 qa d L) (flying1E X0 X1 qb d L (k1_off34 L k) (k1_off34_inb L k (cond16_all k))) d L O (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5, H0b, HF6, H1b⟩, HO⟩
  have hn24 : ¬ k1_cond24 k = 1#1 := fun h => hl ((cond24_iff k).1 h)
  sl_exec
  refine ite_cut d L (cutSt (landed0E X0 X1 qa d L) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5_dst, HF6_dst, H0b, H1b, HF5, HF6⟩, HO⟩
  clear hn24
  sl_exec
  refine ite_cut d L (cutSt (landed0E X0 X1 qa d L) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5_dst, HF6_dst, H0b, H1b, HF5, HF6⟩, HO⟩
  sl_exec
  refine ite_cut d L (cutSt (landed0E X0 X1 qa d L) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5_dst, HF6_dst, H0b, H1b, HF5, HF6⟩, HO⟩
  sl_exec
  refine ite_cut d L (cutSt (landed0E X0 X1 qa d L) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5_dst, HF6_dst, H0b, H1b, HF5, HF6⟩, HO⟩
  sl_exec
  refine ite_cut d L (cutSt (landed0E X0 X1 qa d L) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5_dst, HF6_dst, H0b, H1b, HF5, HF6⟩, HO⟩
  sl_exec
  refine ite_cut d L (cutSt (landed0E X0 X1 qa d L) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5_dst, HF6_dst, H0b, H1b, HF5, HF6⟩, HO⟩
  sl_exec
  refine ite_cut d L (cutSt (landed0E X0 X1 qa d L) (landed1E X0 X1 qb d L) d L O (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))))) g4) ?_ ?_ ?_
  · intro hc j hj hJ
    rw [← hj]
    sl_exec
    iapply hJ
    unfold cutSt; (try unfold landed0E); (try unfold landed1E); (try unfold flying0E); (try unfold flying1E); (try unfold landed0); (try unfold landed1); (try unfold flying0); (try unfold flying1)
    sl_close
  · intro hc
    unfold cutSt; (try unfold landed0E); (try unfold landed1E); (try unfold flying0E); (try unfold flying1E); (try unfold landed0); (try unfold landed1); (try unfold flying0); (try unfold flying1)
    sl_close
  unfold cutSt; (try unfold landed0E); (try unfold landed1E); (try unfold flying0E); (try unfold flying1E); (try unfold landed0); (try unfold landed1); (try unfold flying0); (try unfold flying1)
  iintro ⟨#Hmw, Hb4, ⟨%g5, Hb5⟩, ⟨%g6, Hb6⟩, ⟨%g0, %g1, HF3_dst, HF4_dst, H0a, H1a, HF3, HF4⟩, ⟨%g2, %g3, HF5_dst, HF6_dst, H0b, H1b, HF5, HF6⟩, HO⟩
  have hn32 : ¬ k1_cond32 k = 1#1 := fun h => hl ((cond32_iff k).1 h)
  sl_exec
  sl_step
  rw [if_neg hl]
  unfold rowIdle
  have hWx : ∀ p ∈ (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))))), p ∈ W ∨ p.2 = none := by
    intro p hp
    simp only [Finset.mem_insert] at hp
    rcases hp with rfl | rfl | rfl | rfl | rfl | rfl | rfl | rfl | h
    all_goals first | exact Or.inr rfl | exact hW' p h
  sl_close

end Tile

end Cert.Kernel.ScTile

end
-- ==== Proof.ScTileB.lean ====
/-
  One row of the task's row loop, whichever row it is.
-/
import proofs.«210586_g14980845929080_cont_week2b_1062_66_alg».proof.Proof.ScTileMidB
import proofs.«210586_g14980845929080_cont_week2b_1062_66_alg».proof.Proof.ScTileLastB
import proofs.«210586_g14980845929080_cont_week2b_1062_66_alg».proof.Proof.Gen.Kernel.Skeleton
import Idealize.ShloMosaic.Lib.Tactic

set_option warn.classDefReducibility false

noncomputable section

namespace Cert.Kernel.ScTile

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ Sc.UU ℕ

local notation "a0V" => (Memref.whole Cert.Kernel.main_arg0_scv : Memref Cert.Kernel.sig Kind.scVector Space.hbm Cert.Kernel.S8x192x224x224 EltTy.f32)
local notation "a1V" => (Memref.whole Cert.Kernel.main_arg1_scv : Memref Cert.Kernel.sig Kind.scVector Space.hbm Cert.Kernel.S8x192x224x224 EltTy.f32)
local notation "mkV" => (Memref.whole Cert.Kernel.main_v0_scv : Memref Cert.Kernel.sig Kind.scVector Space.hbm Cert.Kernel.S8x224x256 EltTy.f32)
local notation "ptV" => (Memref.whole Cert.Kernel.main_v1_scv : Memref Cert.Kernel.sig Kind.scVector Space.hbm Cert.Kernel.S32x32 EltTy.f32)
local notation "b0V" => (Memref.whole Cert.Kernel.cc1_scratch0 : Memref Cert.Kernel.sig Kind.scVector Space.vmem Cert.Kernel.S48x224 EltTy.f32)
local notation "b1V" => (Memref.whole Cert.Kernel.cc1_scratch1 : Memref Cert.Kernel.sig Kind.scVector Space.vmem Cert.Kernel.S48x224 EltTy.f32)
local notation "b2V" => (Memref.whole Cert.Kernel.cc1_scratch2 : Memref Cert.Kernel.sig Kind.scVector Space.vmem Cert.Kernel.S48x224 EltTy.f32)
local notation "b3V" => (Memref.whole Cert.Kernel.cc1_scratch3 : Memref Cert.Kernel.sig Kind.scVector Space.vmem Cert.Kernel.S48x224 EltTy.f32)
local notation "b4V" => (Memref.whole Cert.Kernel.cc1_scratch4 : Memref Cert.Kernel.sig Kind.scVector Space.vmem Cert.Kernel.S8x16x256 EltTy.f32)
local notation "b5V" => (Memref.whole Cert.Kernel.cc1_scratch5 : Memref Cert.Kernel.sig Kind.scVector Space.vmem Cert.Kernel.S7x2x16 EltTy.f32)
local notation "b6V" => (Memref.whole Cert.Kernel.cc1_scratch6 : Memref Cert.Kernel.sig Kind.scVector Space.vmem Cert.Kernel.S7x2x16 EltTy.f32)
local notation "b7V" => (Memref.whole Cert.Kernel.cc1_scratch7 : Memref Cert.Kernel.sig Kind.scVector Space.vmem Cert.Kernel.S32 EltTy.f32)

variable [FloatOps F]

section Tile

variable (X0 : (d : Dev nD) → Buf (Elt F) (a0Loc d)) (X1 : (d : Dev nD) → Buf (Elt F) (a1Loc d))
  (M : (d : Dev nD) → Buf (Elt F) (mkLoc d)) (R0 : (d : Dev nD) → Buf (Elt F) (ptLoc d))
variable (d : Dev nD) (L : grid1.Coords)

/-- One row. -/
theorem row_trip (qa qb : PosShare TreeShare) (O : CellTallies nD τ sig (HIx 1)) (W : Waits sig (HIx 1))
    (g4 : Buf (Elt F) ((V d (cV L) (jV L)).loc cc1_scratch4)) (v3 v23 : BitVec 32) (v24 v25 : FVec F S16 .f32)
    (k : Fin k1_t1_loop.trips) (acc : FVec F S16 .f32 × FVec F S16 .f32) :
    rowInv X0 X1 qa qb d L O W g4 k.val acc
      ⊢ wp frame (wpE (defs₀ (F := F)) Sc.𝒱₀ (V d (cV L) (jV L)) none) Set.univ (k1_t1_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 v3 v23 v24 v25 k acc)
          (rowInv X0 X1 qa qb d L O W g4 (k.val + 1)) := by
  by_cases hl : k.val + 1 < 16
  · exact row_trip_mid X0 X1 d L qa qb O W g4 v3 v23 v24 v25 k hl acc
  · exact row_trip_last X0 X1 d L qa qb O W g4 v3 v23 v24 v25 k hl acc

end Tile

end Cert.Kernel.ScTile

end
-- ==== Proof.ScTileBodyB.lean ====
/-
  The SparseCore kernel's task on one vector subcore: the prologue (the mask slab's fetch, the first two slots'
  transfers), the row loop by its invariant, the epilogue (the sums stored and copied out to the task's row), and the
  launch theorem's obligation over it.
-/
import proofs.«210586_g14980845929080_cont_week2b_1062_66_alg».proof.Proof.ScTileB
import proofs.«210586_g14980845929080_cont_week2b_1062_66_alg».proof.Proof.Gen.Kernel.Skeleton
import Idealize.ShloMosaic.Lib.Tactic

set_option warn.classDefReducibility false

noncomputable section

namespace Cert.Kernel.ScTile

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ Sc.UU ℕ

local notation "a0V" => (Memref.whole Cert.Kernel.main_arg0_scv : Memref Cert.Kernel.sig Kind.scVector Space.hbm Cert.Kernel.S8x192x224x224 EltTy.f32)
local notation "a1V" => (Memref.whole Cert.Kernel.main_arg1_scv : Memref Cert.Kernel.sig Kind.scVector Space.hbm Cert.Kernel.S8x192x224x224 EltTy.f32)
local notation "mkV" => (Memref.whole Cert.Kernel.main_v0_scv : Memref Cert.Kernel.sig Kind.scVector Space.hbm Cert.Kernel.S8x224x256 EltTy.f32)
local notation "ptV" => (Memref.whole Cert.Kernel.main_v1_scv : Memref Cert.Kernel.sig Kind.scVector Space.hbm Cert.Kernel.S32x32 EltTy.f32)
local notation "b0V" => (Memref.whole Cert.Kernel.cc1_scratch0 : Memref Cert.Kernel.sig Kind.scVector Space.vmem Cert.Kernel.S48x224 EltTy.f32)
local notation "b1V" => (Memref.whole Cert.Kernel.cc1_scratch1 : Memref Cert.Kernel.sig Kind.scVector Space.vmem Cert.Kernel.S48x224 EltTy.f32)
local notation "b2V" => (Memref.whole Cert.Kernel.cc1_scratch2 : Memref Cert.Kernel.sig Kind.scVector Space.vmem Cert.Kernel.S48x224 EltTy.f32)
local notation "b3V" => (Memref.whole Cert.Kernel.cc1_scratch3 : Memref Cert.Kernel.sig Kind.scVector Space.vmem Cert.Kernel.S48x224 EltTy.f32)
local notation "b4V" => (Memref.whole Cert.Kernel.cc1_scratch4 : Memref Cert.Kernel.sig Kind.scVector Space.vmem Cert.Kernel.S8x16x256 EltTy.f32)
local notation "b5V" => (Memref.whole Cert.Kernel.cc1_scratch5 : Memref Cert.Kernel.sig Kind.scVector Space.vmem Cert.Kernel.S7x2x16 EltTy.f32)
local notation "b6V" => (Memref.whole Cert.Kernel.cc1_scratch6 : Memref Cert.Kernel.sig Kind.scVector Space.vmem Cert.Kernel.S7x2x16 EltTy.f32)
local notation "b7V" => (Memref.whole Cert.Kernel.cc1_scratch7 : Memref Cert.Kernel.sig Kind.scVector Space.vmem Cert.Kernel.S32 EltTy.f32)

variable [FloatOps F]

section Tile

variable (X0 : (d : Dev nD) → Buf (Elt F) (a0Loc d)) (X1 : (d : Dev nD) → Buf (Elt F) (a1Loc d))
  (M : (d : Dev nD) → Buf (Elt F) (mkLoc d)) (R0 : (d : Dev nD) → Buf (Elt F) (ptLoc d))
variable (d : Dev nD) (L : grid1.Coords)

omit [FloatOps F] in
/-- A buffer held at given contents is held at some contents. -/
theorem pts_some {ℓ : Loc nD τ sig} (q : PosShare TreeShare) (f : Buf (Elt F) ℓ) :
    (ℓ ↦{q} f : sProp 𝕄) ⊢ iprop(∃ g, ℓ ↦{q} g) := by
  iintro H; iexists f; iexact H

omit [FloatOps F] in
/-- A buffer held at given contents is held at some contents. -/
theorem pts_some' {ℓ : Loc nD τ sig} (q : PosShare TreeShare) (f : Buf (Elt F) ℓ) :
    (ℓ ↦{q} f : sProp 𝕄) ⊢ iprop(∃ g, ℓ ↦{q} g) := by
  iintro H; iexists f; iexact H

/-- The row of the result array the task writes, as the program slices it. -/
abbrev rowK (L : grid1.Coords) : Rect S32x32 := Rect.unit (s := S32x32) (k1_off79 L) S1x32.size (k1_off79_inb L)
abbrev outRow (L : grid1.Coords) : Memref sig .scVector .hbm S32 .f32 := ((ptV).slice (rowK L) (fun _ => rfl)).squeeze S32 squeezes_S1x32_S32

omit [FloatOps F] in
/-- It is row `2 · subcore + core`. -/
theorem rowK_eq : rowK L = row (wid (L 0).val (L 1).val) := by
  unfold rowK row Rect.part Rect.block
  congr 1 <;> funext a
  · rw [k1_off79_eq]
    match a with
    | 0 =>
      have h0 : (L 0).val < 2 := (L 0).isLt
      have h1 : (L 1).val < 16 := (L 1).isLt
      simp [Shape.partIx, Shape.partSize, wid]; omega
    | 1 => simp [Shape.partIx, Shape.partSize]
  · match a with
    | 0 => simp [Shape.partSize]
    | 1 => simp [Shape.partSize]

omit [FloatOps F] in
theorem set_outRow : (outRow L).view.set = rowSet (wid (L 0).val (L 1).val) := by
  show (((ptV).view.slice (rowK L)).reshape S32 squeezes_S1x32_S32.numel_eq).set = ((ptV).view.slice (row (wid (L 0).val (L 1).val))).set
  rw [View.set_reshape]
  exact rowK_eq L ▸ rfl

omit [FloatOps F] in
theorem pts_outRow (f : Buf (Elt F) (ptLoc d)) :
    ((outRow L).view.loc (V d (cV L) (jV L)) ↦[(outRow L).view.set]{fullShare} f : sProp 𝕄) = ptLoc d ↦[rowSet (wid (L 0).val (L 1).val)]{fullShare} f := by
  rw [set_outRow]

/-- The task on vector subcore `(L 0, L 1)` of device `d`. -/
theorem tile_body (hF : (Sc.K (F := F)).Facts) (O : CellTallies nD τ sig (HIx 1)) (W : Waits sig (HIx 1)) (hO : ∀ g, O g none = 0) :
    iprop(levAts (Sc.K (F := F)).L (Sc.K (F := F)).lev ∗ emp ∗ goC X0 X1 M R0 d (L 0).val (L 1).val
        ∗ scopedBufs (V d (cV L) (jV L)) ∗ scopedSems0 (V d (cV L) (jV L)) ∗ owes (V d (cV L) (jV L)) O W)
      ⊢ wp frame (wpE (defs₀ (F := F)) Sc.𝒱₀ (V d (cV L) (jV L)) none) Set.univ
          (cc1__sc_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1)
          fun _ => iprop(tdC X0 X1 M d (L 0).val (L 1).val ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_body_eq_skeleton]; unfold cc1__sc_body_skel
  rw [(Sc.K (F := F)).scopedBufs_V hF d (cV L) (jV L), SparseCore.Cfg.scopedSems0_V (Val := Elt F) d (cV L) (jV L), ownSems0_V, ownBufs_V]
  unfold goC tdC rdPts
  iintro ⟨#Hlv, -, ⟨⟨H0, H1, Hm⟩, Hp⟩, ⟨⟨%f0, Hb0⟩, ⟨%f1, Hb1⟩, ⟨%f2, Hb2⟩, ⟨%f3, Hb3⟩, ⟨%f4, Hb4⟩, ⟨%f5, Hb5⟩, ⟨%f6, Hb6⟩, ⟨%f7, Hb7⟩, Hbufs⟩,
    ⟨Hs8, Hs9, Hs10, Hs11, Hc0, Hc1, Hsems⟩, HO⟩
  ihave Hmw := ((Sc.K (F := F)).mayWaits_none (thr := V d (cV L) (jV L)) hO) $$ Hlv
  ihave H0 := (Entails.of_eq (pts_a0 (F := F) d (cV L) (jV L) _ _).symm) $$ H0
  ihave H1 := (Entails.of_eq (pts_a1 (F := F) d (cV L) (jV L) _ _).symm) $$ H1
  ihave Hm := (Entails.of_eq (pts_mk (F := F) d (cV L) (jV L) _ _).symm) $$ Hm
  ihave Hb0 := (Entails.of_eq (pts_b0 (F := F) d (cV L) (jV L) _).symm) $$ Hb0
  ihave Hb1 := (Entails.of_eq (pts_b1 (F := F) d (cV L) (jV L) _).symm) $$ Hb1
  ihave Hb2 := (Entails.of_eq (pts_b2 (F := F) d (cV L) (jV L) _).symm) $$ Hb2
  ihave Hb3 := (Entails.of_eq (pts_b3 (F := F) d (cV L) (jV L) _).symm) $$ Hb3
  ihave Hb4 := (Entails.of_eq (pts_b4 (F := F) d (cV L) (jV L) _).symm) $$ Hb4
  ihave Hb5 := (Entails.of_eq (pts_b5 (F := F) d (cV L) (jV L) _).symm) $$ Hb5
  ihave Hb6 := (Entails.of_eq (pts_b6 (F := F) d (cV L) (jV L) _).symm) $$ Hb6
  ihave Hb7 := (Entails.of_eq (pts_b7 (F := F) d (cV L) (jV L) _).symm) $$ Hb7
  ihave H0' := (pointsTo_share (PosShare.mem_left_op_right _)).1 $$ H0
  icases H0' with ⟨H0a, H0b⟩
  ihave H1' := (pointsTo_share (PosShare.mem_left_op_right _)).1 $$ H1
  icases H1' with ⟨H1a, H1b⟩
  sl_exec
  ihave Hb4 := (pts_some (F := F) _ _) $$ Hb4
  icases Hb4 with ⟨%g4, Hb4⟩
  sl_for (rowInv X0 X1 (tileSh (L 0).val (L 1).val).left (tileSh (L 0).val (L 1).val).right d L O W g4) $$ [Hmw Hb4 Hb5 Hb6 Hs8 H0a Hs9 H1a Hs10 H0b Hs11 H1b HO]
  case region => intro k acc; exact row_trip X0 X1 d L _ _ O W g4 _ _ _ _ k acc
  · unfold rowInv rowFly
    rw [if_pos (by decide)]
    have hW7 : ∀ p ∈ insert ((SemLoc.dma (⟨7, by decide⟩ : DmaSem sig), (default : HIx 1))) W, p ∈ W ∨ p.2 = none := by
      intro p hp
      rcases Finset.mem_insert.mp hp with rfl | h
      · exact Or.inr rfl
      · exact Or.inl h
    sl_close
  iintro %acc HI
  unfold rowInv
  rw [if_neg (by rw [show Scf.trips k1_t1_loop.lb k1_t1_loop.ub k1_t1_loop.st = 16 from trips16]; decide)]
  unfold rowIdle
  icases HI with ⟨-, Hb4, ⟨%g5, Hb5⟩, ⟨%g6, Hb6⟩, ⟨⟨%g0, Hb0⟩, ⟨%g1, Hb1⟩, ⟨%g2, Hb2⟩, ⟨%g3, Hb3⟩, Hs8, Hs9, Hs10, Hs11, H0a, H1a, H0b, H1b⟩, %W', %hW', HO⟩
  ihave Hp := (Entails.of_eq (pts_outRow (F := F) d L _).symm) $$ Hp
  sl_exec
  sl_step
  isplitl [H0a H0b H1a H1b Hm Hp]
  · isplitl [H0a H0b H1a H1b Hm]
    · isplitl [H0a H0b]
      · iapply (Entails.of_eq (pts_a0 (F := F) d (cV L) (jV L) _ _))
        iapply (pointsTo_share (PosShare.mem_left_op_right _)).2
        isplitl [H0a]
        · iexact H0a
        · iexact H0b
      isplitl [H1a H1b]
      · iapply (Entails.of_eq (pts_a1 (F := F) d (cV L) (jV L) _ _))
        iapply (pointsTo_share (PosShare.mem_left_op_right _)).2
        isplitl [H1a]
        · iexact H1a
        · iexact H1b
      · iapply (Entails.of_eq (pts_mk (F := F) d (cV L) (jV L) _ _))
        iexact Hm
    · iexists _
      iapply (Entails.of_eq (pts_outRow (F := F) d L _))
      iexact Hp
  isplitl [Hb0 Hb1 Hb2 Hb3 Hb4 Hb5 Hb6 Hb7 Hbufs]
  · isplitl [Hb0]; · iexists _; iexact Hb0
    isplitl [Hb1]; · iexists _; iexact Hb1
    isplitl [Hb2]; · iexists _; iexact Hb2
    isplitl [Hb3]; · iexists _; iexact Hb3
    isplitl [Hb4]; · iexists _; iexact Hb4
    isplitl [Hb5]; · iexists _; iexact Hb5
    isplitl [Hb6]; · iexists _; iexact Hb6
    isplitl [Hb7]; · iexists _; iexact Hb7
    iexact Hbufs
  isplitl [Hs8 Hs9 Hs10 Hs11 Hc0 Hc1 Hsems]
  · isplitl [Hs8]; · iexact Hs8
    isplitl [Hs9]; · iexact Hs9
    isplitl [Hs10]; · iexact Hs10
    isplitl [Hs11]; · iexact Hs11
    isplitl [Hc0]; · iexact Hc0
    isplitl [Hc1]; · iexact Hc1
    iexact Hsems
  iexists _
  isplitr
  swap
  · iexact HO
  ipureintro
  intro p hp
  rcases Finset.mem_insert.mp hp with rfl | h
  · exact Or.inr rfl
  · exact hW' p h

end Tile

/-! ## The launch theorem's obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_body (coordsV c s) a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The body once, at a symbolic subcore. -/
theorem tileObl (X0 : (d : Dev nD) → Buf (Elt F) (a0Loc d)) (X1 : (d : Dev nD) → Buf (Elt F) (a1Loc d))
    (M : (d : Dev nD) → Buf (Elt F) (mkLoc d)) (R0 : (d : Dev nD) → Buf (Elt F) (ptLoc d)) :
    (Sc.K (F := F)).TileObl (Sc.D (F := F)) Sc.𝒱 (P X0 X1 M R0) Sc.v₀ 0 := by
  intro d c i O W hO _ _
  simp only [show (P X0 X1 M R0).ox = fun _ _ => 0 from rfl, add_zero]
  change _ ⊢ wp _ _ _ (Pipeline.liftProg (defs₀ (F := F) (.scVector ((Sc.K (F := F)).core 0 c) ((Sc.K (F := F)).sub 0 i)) 1 ())) _
  refine BI.Entails.trans ?_ (Pipeline.wp_liftProg (Sc.D (F := F)) (Pipeline.defs_kernel pcfgs defs₀) Sc.𝒱₀ _ Set.univ none _ _)
  have hc : ((Sc.K (F := F)).core 0 c).val < grid1.bound 0 ∧ ((Sc.K (F := F)).sub 0 i).val < grid1.bound 1 := ⟨c.isLt, i.isLt⟩
  rw [defs₀_vector]; simp only [SparseCore.onTile, hc, and_self, ↓reduceDIte]
  exact (tile_body X0 X1 M R0 d (coordsV ⟨_, hc.1⟩ ⟨_, hc.2⟩) Sc.facts O W hO).trans (wp_mono frame _ _ fun _ => obl_post)

end Cert.Kernel.ScTile

end
-- ==== Proof.LaunchMainVI.lean ====
/-
  @main's proof once more, carrying values: the same four steps, but the SparseCore call is taken to leave the partial
  sums' array at NAMED contents, and the final assertion names every unscoped buffer's final contents — the launch
  contents pushed through the mask region's write-backs, the call, the loss region's write-backs and the straight line.
  Stated over any handshake payloads that take the call's four arrays whole and bring them back with the partial sums
  at those contents.
-/
import proofs.«210586_g14980845929080_cont_week2b_1062_66_alg».proof.Proof.LaunchRunI

noncomputable section

namespace Cert.KernelIdeal.LaunchV

open Cert.KernelIdeal Cert.KernelIdeal.Gen Cert.KernelIdeal.Sc Cert.KernelIdeal.Launch
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)
variable (Pv : (K (F := F)).Pay (nD := nD) (Val := Elt F) (Name := ℕ) (U := UU))
  (pout : (d : Dev nD) → Buf (Elt F) (ScTile.ptLoc d))
  (hst : ∀ d : Dev nD, iprop((ScTile.a0Loc d ↦{fullShare} X0 m d) ∗ (ScTile.a1Loc d ↦{fullShare} X1 m d) ∗ (ScTile.mkLoc d ↦{fullShare} Mk m d) ∗ ScTile.ptLoc d ↦{fullShare} R0 m d)
      ⊢ (bigSep Finset.univ fun c : Fin ((K (F := F)).nCore 0) => Pv.st 0 d c : sProp (MT nD τ sig (HIx 1) (Elt F) ℕ UU ℕ)))
  (hdn : ∀ d : Dev nD, (bigSep Finset.univ fun c : Fin ((K (F := F)).nCore 0) => Pv.dn 0 d c : sProp (MT nD τ sig (HIx 1) (Elt F) ℕ UU ℕ))
      ⊢ iprop((ScTile.a0Loc d ↦{fullShare} X0 m d) ∗ (ScTile.a1Loc d ↦{fullShare} X1 m d) ∗ (ScTile.mkLoc d ↦{fullShare} Mk m d) ∗ ScTile.ptLoc d ↦{fullShare} pout d))

/-- Every unscoped buffer's final contents on device `d`. -/
def Wfin (d : Dev nD) : Valuation τ sig (Elt F) := StableHlo.after (tailOps (F := F)) (W4 (W3 m (pout d)) d)

/-- What @main leaves: every unscoped buffer at its final contents. -/
def FINv (d : Dev nD) : sProp 𝕄 := held (d.tc : Thread nD τ) (Pipeline.ucRefs τ sig) (Wfin m pout d)

set_option backward.isDefEq.respectTransparency.types false in
theorem stage3v (d : Dev nD) (Wv : Valuation τ sig (Elt F)) :
    iprop((K (F := F)).tcSt EH d 1 ∗ boundary (d.tc : Thread nD τ) ∗ held (d.tc : Thread nD τ) (Pipeline.ucRefs τ sig) Wv)
      ⊢ wp frame (wpE ((K (F := F)).defs (D (F := F))) 𝒱 (d.tc : Thread nD τ) none) Set.univ (rest2 (F := F))
          fun _ => iprop((K (F := F)).tcSt EH d 1 ∗ held (d.tc : Thread nD τ) (Pipeline.ucRefs τ sig) (StableHlo.after (tailOps (F := F)) Wv)) := by
  have hseq := StableHlo.wp_seq (defs := (K (F := F)).defs (D (F := F))) 𝒱 none Set.univ d (Pipeline.ucRefs τ sig)
    (fun _ => (.ret ⟨⟩ : Prog (TpuEff nD τ sig (Elt F) (SparseCore.Sig (ΛP (F := F)) 1) .tc) PUnit))
    (K := fun _ => iprop((K (F := F)).tcSt EH d 1 ∗ held (d.tc : Thread nD τ) (Pipeline.ucRefs τ sig) (StableHlo.after (tailOps (F := F)) Wv)))
    (tailOps (F := F)) tailOps_sub tailOps_fresh Wv
  rw [show (rest2 (F := F)) = (StableHlo.seq (tailOps (F := F)) >>= fun _ => .ret ⟨⟩) from (bind_pure _).symm]
  iintro ⟨Hst, Hb, Hh⟩
  ihave Hw := hseq $$ [Hb Hh]
  · isplitl [Hb] <;> iassumption
  iapply Hw
  iintro ⟨Hb, Hh⟩
  rw [wp_ret]; imodintro
  isplitl [Hst]; · iexact Hst
  iexact Hh

set_option backward.isDefEq.respectTransparency.types false in
theorem stage2v (κ : GSem nD τ sig → ℕ) (d : Dev nD) (We : Dev nD → Valuation τ sig (Elt F)) :
    iprop((K (F := F)).ctx EH Pv κ ∗ (K (F := F)).tcSt EH d 1 ∗ boundary (d.tc : Thread nD τ)
        ∗ held (d.tc : Thread nD τ) (Pipeline.ucRefs τ sig) (We d) ∗ (∃ r, prngReg d r)
        ∗ Pipeline.cellsGhost (Pipeline.pin (pcfgs (F := F)) adm) EP 1 d ∗ Pipeline.toksInit (Pipeline.pin (pcfgs (F := F)) adm) EP 1 d)
      ⊢ wp frame (wpE ((K (F := F)).defs (D (F := F))) 𝒱 (d.tc : Thread nD τ) none) Set.univ (rest1 (F := F))
          fun _ => iprop((K (F := F)).tcSt EH d 1 ∗ held (d.tc : Thread nD τ) (Pipeline.ucRefs τ sig) (StableHlo.after (tailOps (F := F)) (W4 We d))) := by
  have hreg := wp_region (pdatsB We) (K (F := F)).lev (reg2 We (K (F := F)).lev (by sl_refines_lev)) d
    (fun _ => wp frame (wpE ((K (F := F)).defs (D (F := F))) 𝒱 (d.tc : Thread nD τ) none) Set.univ (rest2 (F := F))
      fun _ => iprop((K (F := F)).tcSt EH d 1 ∗ held (d.tc : Thread nD τ) (Pipeline.ucRefs τ sig) (StableHlo.after (tailOps (F := F)) (W4 We d))))
  rw [show (rest1 (F := F)) = ((Prog.lift (.customCall (SparseCore.inner (Pipeline.entry 1)) ()) : Prog (TpuEff nD τ sig (Elt F) (SparseCore.Sig (ΛP (F := F)) 1) .tc) PUnit) >>= fun _ => rest2) from rfl, wp_bind]
  refine BI.Entails.trans ?_ hreg
  show iprop(_ ∗ _ ∗ _ ∗ _ ∗ _ ∗ _ ∗ _) ⊢ iprop((iprop(_ ∗ iprop(held (d.tc : Thread nD τ) (Pipeline.ucRefs τ sig) (W4 We d) ∗ Rst (F := F) d 1)) -∗ _)
    ∗ _ ∗ iprop(held (d.tc : Thread nD τ) (Pipeline.ucRefs τ sig) (We d) ∗ Rst (F := F) d 1) ∗ _ ∗ _ ∗ _)
  unfold SparseCore.Cfg.tcSt Rst
  iintro ⟨#Hctx, ⟨⟨%W, %hW, HO⟩, HstR⟩, Hb, Hh, Hp, Hg, Ht⟩
  ihave #Hlev := ((K (F := F)).ctx_levAts (EH := EH) (P := Pv) κ) $$ Hctx
  isplitl [HstR]
  · iintro ⟨Hb, Hh, Hp, %W', %hW', HO⟩
    iapply (stage3v d (W4 We d))
    unfold SparseCore.Cfg.tcSt
    isplitl [HO HstR]
    · isplitl [HO]
      · iexists W'; isplitr; · ipureintro; exact (wbelow_iff d 1 W').mpr hW'
        iexact HO
      iexact HstR
    isplitl [Hb] <;> iassumption
  isplitl [Hb]; · iexact Hb
  isplitl [Hh Hp HO]
  · isplitl [Hh]; · iexact Hh
    isplitl [Hp]; · iexact Hp
    iexists W; isplitr; · ipureintro; exact (wbelow_iff d 1 W).mp hW
    iexact HO
  isplitr; · iexact Hlev
  isplitl [Hg] <;> iassumption

set_option backward.isDefEq.respectTransparency.types false in
include hst hdn in
theorem stage1v (κ : GSem nD τ sig → ℕ) (d : Dev nD) :
    iprop((K (F := F)).ctx EH Pv κ ∗ (K (F := F)).tcSt EH d 0 ∗ boundary (d.tc : Thread nD τ)
        ∗ held (d.tc : Thread nD τ) (Pipeline.ucRefs τ sig) (W2 m d) ∗ (∃ r, prngReg d r)
        ∗ Pipeline.cellsGhost (Pipeline.pin (pcfgs (F := F)) adm) EP 1 d ∗ Pipeline.toksInit (Pipeline.pin (pcfgs (F := F)) adm) EP 1 d)
      ⊢ wp frame (wpE ((K (F := F)).defs (D (F := F))) 𝒱 (d.tc : Thread nD τ) none) Set.univ (rest0 (F := F) d)
          fun _ => iprop((K (F := F)).tcSt EH d 1 ∗ FINv m pout d) := by
  have hrun := (K (F := F)).wp_run (D (F := F)) 𝒱 (EH := EH) (P := Pv) κ d 0
    (Φ := fun _ => wp frame (wpE ((K (F := F)).defs (D (F := F))) 𝒱 (d.tc : Thread nD τ) none) Set.univ (rest1 (F := F))
      fun _ => iprop((K (F := F)).tcSt EH d 1 ∗ FINv m pout d))
  rw [show (rest0 (F := F) d) = ((K (F := F)).run d 0 >>= fun _ => rest1) from rfl, wp_bind]
  refine BI.Entails.trans ?_ hrun
  rw [StableHlo.held_sub_split (d.tc : Thread nD τ) hT4 (W2 m d), held_T4, W2_a0, W2_a1, W2_pt]
  show iprop(_ ∗ _ ∗ _ ∗ (iprop(_ ∗ _ ∗ _ ∗ _) ∗ _) ∗ _ ∗ _ ∗ _) ⊢ iprop(_ ∗ (K (F := F)).tcSt EH d 0 ∗ _ ∗ (iprop((K (F := F)).tcSt EH d 1 ∗ _) -∗ _))
  iintro ⟨#Hctx, Hst, Hb, ⟨⟨H0, H1, Hm, Hp⟩, Hrest⟩, Hprng, Hg, Ht⟩
  isplitr; · iexact Hctx
  isplitl [Hst]; · iexact Hst
  isplitl [H0 H1 Hm Hp]
  · iapply (hst d)
    isplitl [H0]; · iexact H0
    isplitl [H1]; · iexact H1
    isplitl [Hm]; · iexact Hm
    iexact Hp
  iintro ⟨Hst, Hdn⟩
  ihave Hdn' := (hdn d) $$ Hdn
  icases Hdn' with ⟨H0, H1, Hm, Hp⟩
  unfold FINv Wfin
  iapply (stage2v Pv κ d (W3 m (pout d)))
  isplitr; · iexact Hctx
  isplitl [Hst]; · iexact Hst
  isplitl [Hb]; · iexact Hb
  isplitl [H0 H1 Hm Hp Hrest]
  · rw [StableHlo.held_sub_split (d.tc : Thread nD τ) hT4 (W3 m (pout d) d), held_T4,
      held_rest m d (pout d),
      show W3 m (pout d) d a0' = W0 m d a0' from (Function.update_of_ne (by decide) _ _).trans (W2_a0 m d),
      show W3 m (pout d) d a1' = W0 m d a1' from (Function.update_of_ne (by decide) _ _).trans (W2_a1 m d),
      show W3 m (pout d) d mk' = W2 m d mk' from Function.update_of_ne (by decide) _ _,
      show W3 m (pout d) d pt' = pout d from Function.update_self _ _ _]
    isplitl [H0 H1 Hm Hp]
    · isplitl [H0]; · iexact H0
      isplitl [H1]; · iexact H1
      isplitl [Hm]; · iexact Hm
      iexact Hp
    iexact Hrest
  isplitl [Hprng]; · iexact Hprng
  isplitl [Hg] <;> iassumption

set_option backward.isDefEq.respectTransparency.types false in
include hst hdn in
/-- @main, carrying values. -/
theorem hmainv (κ : GSem nD τ sig → ℕ) (d : Dev nD) :
    iprop((K (F := F)).ctx EH Pv κ ∗ (K (F := F)).tcSt EH d 0 ∗ (K (F := F)).tcRes m ρ d ∗ G (F := F) d)
      ⊢ wp frame (wpE ((K (F := F)).defs (D (F := F))) 𝒱 (SparseCore.T d) none) Set.univ (main (F := F) d)
          fun _ => iprop((K (F := F)).tcSt EH d 1 ∗ FINv m pout d) := by
  have hreg := wp_region (pdatsA m) (K (F := F)).lev (reg0 m (K (F := F)).lev (by sl_refines_lev)) d
    (fun _ => wp frame (wpE ((K (F := F)).defs (D (F := F))) 𝒱 (d.tc : Thread nD τ) none) Set.univ (rest0 (F := F) d)
      fun _ => iprop((K (F := F)).tcSt EH d 1 ∗ FINv m pout d))
  rw [main_eq', wp_bind]
  refine BI.Entails.trans ?_ hreg
  unfold SparseCore.Cfg.tcRes
  rw [show unscopedBufs d (fun b => m ((SparseCore.T d).loc b)) = held (d.tc : Thread nD τ) (Pipeline.ucRefs τ sig) (W0 m d)
    from Pipeline.unscopedBufs_held d (W0 m d), G_split]
  show iprop(_ ∗ _ ∗ _ ∗ _) ⊢ iprop((iprop(_ ∗ iprop(held (d.tc : Thread nD τ) (Pipeline.ucRefs τ sig) (W2 m d) ∗ Rst (F := F) d 0)) -∗ _)
    ∗ _ ∗ iprop(held (d.tc : Thread nD τ) (Pipeline.ucRefs τ sig) (W0 m d) ∗ Rst (F := F) d 0) ∗ _ ∗ _ ∗ _)
  unfold SparseCore.Cfg.tcSt Rst
  iintro ⟨#Hctx, ⟨⟨%W, %hW, HO⟩, HstR⟩, ⟨Hb, Hh, -, Hprng⟩, ⟨⟨Hg0, Ht0⟩, ⟨Hg1, Ht1⟩⟩⟩
  ihave #Hlev := ((K (F := F)).ctx_levAts (EH := EH) (P := Pv) κ) $$ Hctx
  isplitl [HstR Hg1 Ht1]
  · iintro ⟨Hb, Hh, Hp, %W', %hW', HO⟩
    iapply (stage1v m Pv pout hst hdn κ d)
    isplitr; · iexact Hctx
    unfold SparseCore.Cfg.tcSt
    isplitl [HO HstR]
    · isplitl [HO]
      · iexists W'; isplitr; · ipureintro; exact (wbelow_iff d 0 W').mpr hW'
        iexact HO
      iexact HstR
    isplitl [Hb]; · iexact Hb
    isplitl [Hh]; · iexact Hh
    isplitl [Hp]; · iexact Hp
    isplitl [Hg1] <;> iassumption
  isplitl [Hb]; · iexact Hb
  isplitl [Hh Hprng HO]
  · isplitl [Hh]; · iexact Hh
    isplitl [Hprng]; · iexists _; iexact Hprng
    iexists W; isplitr; · ipureintro; exact (wbelow_iff d 0 W).mp hW
    iexact HO
  isplitr; · iexact Hlev
  isplitl [Hg0] <;> iassumption

/-- What is read off a final state: every unscoped buffer at its final contents. -/
def fqv (d : Dev nD) (s' : Phys nD τ sig (Elt F)) : Prop :=
  ∀ b ∈ Pipeline.ucRefs τ sig, s'.mem.mem ((d.tc : Thread nD τ).1, b) = Wfin m pout d b

theorem hfinv (d : Dev nD) (s' : Phys nD τ sig (Elt F)) : iprop(FINv m pout d ∗ SI s') ⊢ (⌜fqv m pout d s'⌝ : sProp 𝕄) := by
  unfold FINv held
  iintro ⟨Hh, HSI⟩
  ihave H := (pointsTo_read_all (Pipeline.ucRefs τ sig) (fun b => ((d.tc : Thread nD τ).1, b)) (Wfin m pout d) s') $$ [Hh HSI]
  · isplitl [Hh] <;> iassumption
  icases H with ⟨%hall, -⟩
  ipureintro
  exact hall

include hst hdn in
/-- The run of the whole thread family with every unscoped buffer's final contents named. -/
theorem run_main_v [Pv.IsStorable] (hx : Pv.x = fun _ _ => iprop(emp)) (hheld : Pv.held = ∅)
    (htile : (K (F := F)).TileObl (D (F := F)) 𝒱 Pv v₀ 0) (hvec : (K (F := F)).VecSplit Pv 0) :
    θ_run (Cert.KernelIdeal.defs (F := F)) (Cert.KernelIdeal.threads (F := F)) ⟨m, fun _ => 0, ρ⟩
      (fun r => ∀ c : Dev nD, ∀ b ∈ Pipeline.ucRefs τ sig, r.2.mem ((c.tc : Thread nD τ).1, b) = Wfin m pout c b) :=
  SparseCore.Cfg.θ_run_sc (K := (K (F := F))) (D := D (F := F)) (𝒱 := 𝒱) (EH := EH) (P := Pv) facts v₀
    (fun q hq => match q with | 0 => nomatch hq)
    (fun q _ => match q with | 0 => htile)
    (fun q _ => match q with | 0 => hvec)
    m ρ main (fun d => G (F := F) d) (FINv m pout) (u₀ (F := F)) (sep_elim_left.trans (hu₀ Pv hx)) (hmainv m ρ Pv pout hst hdn) (fqv m pout) (hfinv m pout)
    _ (fun s' h c => h c) hheld

end Cert.KernelIdeal.LaunchV

end
-- ==== Proof.TailValueI.lean ====
/-
  The host tail at the ideal values, and the split of the specification at row 160.

  After the two regions and the second-processor call, @main slices the 32 × 32 array of partial sums into its first
  and last sixteen columns, adds each half up, adds the two one-word sums of the loss region, and forms
  ((1/2 · s) / n) / 1536. The specification's S and N split at row 160 into the rows the loss region sums (by image,
  row block and row within the block) and the rows 160 … 223; when the partial sums' halves are the latter and the
  region's words the former, the tail's result is the specification's loss.
-/
import proofs.«210586_g14980845929080_cont_week2b_1062_66_alg».proof.Proof.MainShapeI
import proofs.«210586_g14980845929080_cont_week2b_1062_66_alg».proof.Proof.LossSpec
import proofs.«210586_g14980845929080_cont_week2b_1062_66_alg».proof.Proof.LossAlgebra
import Idealize.ShloMosaic.Lib.Pipeline.Value
import Idealize.ShloMosaic.PureOps.Ideal.Laws

noncomputable section

open scoped BigOperators

namespace Cert.KernelIdeal.TailValue

open Cert.KernelIdeal Cert.KernelIdeal.Launch
open Idealize.ShloMosaic Idealize.ShloMosaic.ValueIdx Idealize.ShloMosaic.StableHlo
open Cert.KernelIdeal.Facts₀ Cert.KernelIdeal.Facts
open Cert.LossSpec

/-! ## The split of a sum over the 224 rows at row 160 -/

/-- Row hb·32 + r: row r of row block hb (the rows below 160). -/
def rowLo (hb : Fin 5) (r : Fin 32) : Fin 224 := ⟨hb.val * 32 + r.val, by have := hb.isLt; have := r.isLt; omega⟩
/-- Row 160 + h' (the rows from 160 on). -/
def rowHi (h' : Fin 64) : Fin 224 := ⟨160 + h'.val, by have := h'.isLt; omega⟩

/-- A sum over the rows is the sum over the five row blocks of 32 rows plus the sum over the last 64 rows. -/
theorem sum_rows_split {M : Type*} [AddCommMonoid M] (g : Fin 224 → M) :
    ∑ h : Fin 224, g h = (∑ hb : Fin 5, ∑ r : Fin 32, g (rowLo hb r)) + ∑ h' : Fin 64, g (rowHi h') := by
  have e1 : ∑ h : Fin 224, g h = ∑ h : Fin (160 + 64), g ⟨h.val, h.isLt⟩ := rfl
  rw [e1, Fin.sum_univ_add]
  congr 1
  have e2 : ∑ i : Fin 160, g ⟨(Fin.castAdd 64 i).val, (Fin.castAdd 64 i).isLt⟩
      = ∑ i : Fin (5 * 32), g ⟨i.val, lt_of_lt_of_le i.isLt (by decide)⟩ := rfl
  rw [e2, ← Equiv.sum_comp (finProdFinEquiv (m := 5) (n := 32)), Fintype.sum_prod_type]
  refine Finset.sum_congr rfl fun hb _ => Finset.sum_congr rfl fun r _ => ?_
  refine congrArg g (Fin.ext ?_)
  show r.val + 32 * hb.val = hb.val * 32 + r.val
  omega

/-- S splits at row 160. -/
theorem Ssum_split (x0 x1 : FVec Ideal SImg .f32) (x2 : IVec SBox 32) :
    Ssum x0 x1 x2
      = (∑ b : Fin 8, ∑ hb : Fin 5, ∑ r : Fin 32, ∑ w : Fin 224, pos x1 x2 b (rowLo hb r) w * sqd x0 x1 b (rowLo hb r) w)
        + ∑ b : Fin 8, ∑ h' : Fin 64, ∑ w : Fin 224, pos x1 x2 b (rowHi h') w * sqd x0 x1 b (rowHi h') w := by
  unfold Ssum
  rw [← Finset.sum_add_distrib]
  exact Finset.sum_congr rfl fun b _ => sum_rows_split fun h => ∑ w : Fin 224, pos x1 x2 b h w * sqd x0 x1 b h w

/-- N splits at row 160. -/
theorem Nsum_split (x1 : FVec Ideal SImg .f32) (x2 : IVec SBox 32) :
    Nsum x1 x2
      = (∑ b : Fin 8, ∑ hb : Fin 5, ∑ r : Fin 32, ∑ w : Fin 224, pos x1 x2 b (rowLo hb r) w)
        + ∑ b : Fin 8, ∑ h' : Fin 64, ∑ w : Fin 224, pos x1 x2 b (rowHi h') w := by
  unfold Nsum
  rw [← Finset.sum_add_distrib]
  exact Finset.sum_congr rfl fun b _ => sum_rows_split fun h => ∑ w : Fin 224, pos x1 x2 b h w

/-! ## The tail's term -/

/-- The first sixteen and the last sixteen columns of the partial sums. -/
def colLo (j : Fin 16) : Fin 32 := ⟨j.val, by have := j.isLt; omega⟩
def colHi (j : Fin 16) : Fin 32 := ⟨16 + j.val, by have := j.isLt; omega⟩

/-- The tail's fifteen operations composed: from the partial sums and the loss region's two cells to the result. -/
def tailTerm (Pm : FVec Ideal S32x32 .f32) (s n : FVec Ideal S1x1 .f32) : FVec Ideal S_ .f32 :=
  Host.divf
    (Host.divf
      (mulf (constant (F := Ideal) S_ .f32 0x3F000000#32)
        (addf (Host.reduceAdd (extractStridedSlice S32x16 ![0, 0] Pm slices_S32x32_S32x16_0_0) (constant (F := Ideal) S_ .f32 0x00000000#32) reducesTo_S32x16_S_d0_1 h_S_)
          (shapeCast S_ s shapeCasts_S1x1_S_)))
      (addf (Host.reduceAdd (extractStridedSlice S32x16 ![0, 16] Pm slices_S32x32_S32x16_0_16) (constant (F := Ideal) S_ .f32 0x00000000#32) reducesTo_S32x16_S_d0_1 h_S_)
        (shapeCast S_ n shapeCasts_S1x1_S_)))
    (constant (F := Ideal) S_ .f32 0x44C00000#32)

/-- (T1a) What the result buffer holds after the tail, from any contents before it: the composed term of the partial
    sums' buffer and the two cells' buffers. -/
theorem after_tail (Wv : Valuation τ sig (Elt Ideal)) :
    StableHlo.after (tailOps (F := Ideal)) Wv (Proc.devRef .tc main_v13)
      = tailTerm (Wv (Proc.devRef .tc main_v1)) (Wv (Proc.devRef .tc main_v2_0)) (Wv (Proc.devRef .tc main_v2_1)) := by
  unfold tailTerm
  after_results_simp <;> rfl

/-- A host sum of a 32 × 16 array from zero, at the result's one index: the double sum. -/
theorem reduce_S32x16 (v : FVec Ideal S32x16 .f32) (i : S_.Idx) :
    Host.reduceAdd v (constant (F := Ideal) S_ .f32 0x00000000#32) reducesTo_S32x16_S_d0_1 h_S_ i
      = 0 + ∑ a : Fin 32, ∑ j : Fin 16, v (ix2 a j) := by
  simp only [Host.reduceAdd, Ideal.hostReduceAdd_def]
  rw [Ideal.hostReduceAdd_total reducesTo_S32x16_S_d0_1 (fun b => b.elim0) v _ i, sum_idx2]
  refine congrArg (· + _) ?_
  show Ideal.ofBits .f32 0x00000000#32 = 0
  exact Cert.LossSpec.ofBits_zero

/-- (T1b) The tail's term read at its one index. -/
theorem tailTerm_apply (Pm : FVec Ideal S32x32 .f32) (s n : FVec Ideal S1x1 .f32) (i : S_.Idx) :
    tailTerm Pm s n i
      = Ideal.div (Ideal.div (Ideal.ofBits .f32 0x3F000000#32
            * ((0 + ∑ a : Fin 32, ∑ j : Fin 16, Pm (ix2 a (colLo j))) + s (ix2 (0 : Fin 1) (0 : Fin 1))))
          ((0 + ∑ a : Fin 32, ∑ j : Fin 16, Pm (ix2 a (colHi j))) + n (ix2 (0 : Fin 1) (0 : Fin 1))))
        (Ideal.ofBits .f32 0x44C00000#32) := by
  have eS : ∀ y : FVec Ideal S1x1 .f32, shapeCast S_ y shapeCasts_S1x1_S_ i = y (ix2 (0 : Fin 1) (0 : Fin 1)) := fun y =>
    shapeCast_apply y shapeCasts_S1x1_S_ i (ix2 (0 : Fin 1) (0 : Fin 1)) (by rfl)
  have eLo : ∀ (a : Fin 32) (j : Fin 16), extractStridedSlice S32x16 ![0, 0] Pm slices_S32x32_S32x16_0_0 (ix2 a j) = Pm (ix2 a (colLo j)) := fun a j =>
    extractStridedSlice_apply ![0, 0] Pm slices_S32x32_S32x16_0_0 (ix2 a j) (ix2 a (colLo j)) (fun c => match c with
      | ⟨0, _⟩ => by show a.val = 0 + a.val; omega
      | ⟨1, _⟩ => by show j.val = 0 + j.val; omega)
  have eHi : ∀ (a : Fin 32) (j : Fin 16), extractStridedSlice S32x16 ![0, 16] Pm slices_S32x32_S32x16_0_16 (ix2 a j) = Pm (ix2 a (colHi j)) := fun a j =>
    extractStridedSlice_apply ![0, 16] Pm slices_S32x32_S32x16_0_16 (ix2 a j) (ix2 a (colHi j)) (fun c => match c with
      | ⟨0, _⟩ => by show a.val = 0 + a.val; omega
      | ⟨1, _⟩ => by show 16 + j.val = 16 + j.val; rfl)
  unfold tailTerm
  show Ideal.div (Ideal.div (Ideal.ofBits .f32 0x3F000000#32
        * (Host.reduceAdd (F := Ideal) (extractStridedSlice S32x16 ![0, 0] Pm slices_S32x32_S32x16_0_0) (constant (F := Ideal) S_ .f32 0x00000000#32) reducesTo_S32x16_S_d0_1 h_S_ i
          + shapeCast S_ s shapeCasts_S1x1_S_ i))
      (Host.reduceAdd (F := Ideal) (extractStridedSlice S32x16 ![0, 16] Pm slices_S32x32_S32x16_0_16) (constant (F := Ideal) S_ .f32 0x00000000#32) reducesTo_S32x16_S_d0_1 h_S_ i
        + shapeCast S_ n shapeCasts_S1x1_S_ i)) (Ideal.ofBits .f32 0x44C00000#32) = _
  rw [reduce_S32x16, reduce_S32x16, eS, eS]
  simp only [eLo, eHi]

/-! ## The tail computes the specification's loss -/

/-- (T3) When the first sixteen columns of the partial sums add up to the rows from 160 on of S and the last sixteen to
    those rows of N, and the loss region's two words are the rows below 160 of S and of N, the tail's result is the
    specification's loss. -/
theorem tail_eq_result (x0 x1 : FVec Ideal SImg .f32) (x2 : IVec SBox 32) (Pm : FVec Ideal S32x32 .f32) (s n : FVec Ideal S1x1 .f32)
    (hPS : ∑ a : Fin 32, ∑ j : Fin 16, Pm (ix2 a (colLo j))
      = ∑ b : Fin 8, ∑ h' : Fin 64, ∑ w : Fin 224, pos x1 x2 b (rowHi h') w * sqd x0 x1 b (rowHi h') w)
    (hPN : ∑ a : Fin 32, ∑ j : Fin 16, Pm (ix2 a (colHi j)) = ∑ b : Fin 8, ∑ h' : Fin 64, ∑ w : Fin 224, pos x1 x2 b (rowHi h') w)
    (hs : s (ix2 (0 : Fin 1) (0 : Fin 1))
      = ∑ b : Fin 8, ∑ hb : Fin 5, ∑ r : Fin 32, ∑ w : Fin 224, pos x1 x2 b (rowLo hb r) w * sqd x0 x1 b (rowLo hb r) w)
    (hn : n (ix2 (0 : Fin 1) (0 : Fin 1)) = ∑ b : Fin 8, ∑ hb : Fin 5, ∑ r : Fin 32, ∑ w : Fin 224, pos x1 x2 b (rowLo hb r) w) :
    tailTerm Pm s n = fun _ => result x0 x1 x2 := by
  funext i
  rw [tailTerm_apply, hPS, hPN, hs, hn, zero_add, zero_add]
  unfold result
  rw [Ssum_split, Nsum_split, add_comm (∑ b : Fin 8, ∑ h' : Fin 64, ∑ w : Fin 224, pos x1 x2 b (rowHi h') w * sqd x0 x1 b (rowHi h') w),
    add_comm (∑ b : Fin 8, ∑ h' : Fin 64, ∑ w : Fin 224, pos x1 x2 b (rowHi h') w)]

end Cert.KernelIdeal.TailValue

end
-- ==== Proof.LossRegionPayI.lean ====
import proofs.«210586_g14980845929080_cont_week2b_1062_66_alg».proof.Proof.LossRegionI
import proofs.«210586_g14980845929080_cont_week2b_1062_66_alg».proof.Proof.LossSpec
import proofs.«210586_g14980845929080_cont_week2b_1062_66_alg».proof.Proof.LossAlgebra
import Idealize.ShloMosaic.PureOps.Ideal.Laws
import Idealize.ShloMosaic.Lib.ValueLayout
import Idealize.ShloMosaic.Lib.Affine

noncomputable section

open scoped BigOperators

namespace Cert.KernelIdeal.LossRegion

open Cert.KernelIdeal Cert.KernelIdeal.Gen
open Idealize.ShloMosaic Idealize.ShloMosaic.ValueIdx

/-! # The loss kernel's payloads at the ideal values, read at a pixel of the block -/

/-- The sum over a whole 32 × 224 block, as the kernel takes it: the block with a unit axis in front, reduced over its
    two long axes to one word. -/
theorem blockSum_eq (v : FVec Ideal S32x224 .f32) :
    extractAt ![0, 0, 0] (shapeCast S1x1x1
        (multiReduction .add [1, 2] S1 (shapeCast S1x32x224 v shapeCasts_S32x224_S1x32x224) 0x00000000#32 reduces_S1x32x224_S1 (.inl rfl) rfl)
        shapeCasts_S1_S1x1x1) inpos_S1x1x1_p0_0_0
      = ∑ r : Fin 32, ∑ w : Fin 224, v (ix2 r w) := by
  have e1 : ∀ j : S1.Idx, multiReduction .add [1, 2] S1 (shapeCast S1x32x224 v shapeCasts_S32x224_S1x32x224) 0x00000000#32
      reduces_S1x32x224_S1 (.inl rfl) rfl j = ∑ r : Fin 32, ∑ w : Fin 224, v (ix2 r w) := fun j => by
    refine (Ideal.multiReduction_add_total _ _ reduces_S1x32x224_S1 (fun b => by match b with | ⟨0, _⟩ => rfl) (.inl rfl) rfl j).trans ?_
    rw [Cert.LossAlgebra.sum_idx3, Fin.sum_univ_one]
    exact Finset.sum_congr rfl fun r _ => Finset.sum_congr rfl fun w _ => shapeCast_ab_1ab_apply v _ 0 r w
  unfold extractAt
  rw [shapeCast_apply _ shapeCasts_S1_S1x1x1 _ (ix1 (0 : Fin 1)) (by rfl)]
  exact e1 _

/-- The squared distance over the channels at pixel (r, w) of the block. -/
theorem sqdBlock_apply (A G : Vec Ideal S1x192x32x224 .f32) (r : Fin 32) (w : Fin 224) :
    k2_pay5 (F := Ideal) A G (ix2 r w)
      = ∑ c : Fin 192, (A (ix4 (0 : Fin 1) c r w) - G (ix4 (0 : Fin 1) c r w)) * (A (ix4 (0 : Fin 1) c r w) - G (ix4 (0 : Fin 1) c r w)) := by
  unfold k2_pay5 k2_pay4
  refine (Ideal.multiReduction_add_single _ _ reduces_S192x32x224_S32x224 (.inl rfl) rfl (ix2 r w)).trans ?_
  refine Finset.sum_congr rfl fun (c : Fin 192) _ => ?_
  have hl : reduces_S192x32x224_S32x224.lift (ix2 r w) c = ix3 c r w :=
    funext fun a => Fin.ext (by match a with | ⟨0, _⟩ => rfl | ⟨1, _⟩ => rfl | ⟨2, _⟩ => rfl)
  rw [hl]
  dsimp only
  rw [mulf_apply, subf_apply, shapeCast_1abc_abc_apply, shapeCast_1abc_abc_apply]

/-- The word 0xFF800000 denotes −∞, 0x3F800000 denotes 1, the zero word 0. -/
theorem ofBits_ninf : Ideal.ofBits .f32 0xFF800000#32 = ⊥ := by simp [Ideal.ofBits, Ideal.ieee]
theorem ofBits_one : Ideal.ofBits .f32 0x3F800000#32 = 1 := by simp [Ideal.ofBits, Ideal.ieee, -EReal.coe_mul]; norm_num

/-- The comparison bits on the extended reals. -/
theorem cmp_one_eq_one (x y : EReal) : Ideal.cmp .one x y = 1#1 ↔ x ≠ y := by
  unfold Ideal.cmp
  by_cases hxy : x = y
  · simp [hxy]
  · simp [hxy]
theorem cmp_ogt_eq_one (x y : EReal) : Ideal.cmp .ogt x y = 1#1 ↔ y < x := by
  unfold Ideal.cmp
  by_cases hxy : y < x
  · simp [hxy]
  · simp [hxy]

/-- The bit "some channel of the target is not zero" at pixel (r, w) of the block: the kernel takes the maximum over the
    channels, from −∞, of 1 where the entry is not zero and 0 where it is, and compares it with 0. -/
theorem tnzBlock_apply (G : Vec Ideal S1x192x32x224 .f32) (r : Fin 32) (w : Fin 224) :
    k2_pay6 (F := Ideal) G (ix2 r w) = 1#1 ↔ ∃ c : Fin 192, G (ix4 (0 : Fin 1) c r w) ≠ 0 := by
  unfold k2_pay6 k2_pay4
  dsimp only
  rw [cmpf_apply, Ideal.cmpf_def, cmp_ogt_eq_one, broadcast_apply]
  refine Iff.trans (Eq.to_iff (congrArg (fun z : EReal => FloatOps.ofBits (F := Ideal) .f32 0x00000000#32 < z)
    (Ideal.multiReduction_maximumf_single _ _ reduces_S192x32x224_S32x224 (.inl rfl) rfl (ix2 r w)))) ?_
  rw [Finset.lt_fold_max]
  have hz0 : FloatOps.ofBits (F := Ideal) .f32 0x00000000#32 = (0 : EReal) := Cert.LossSpec.ofBits_zero
  have hninf : FloatOps.ofBits (F := Ideal) .f32 (FKind.maximumf.neutral .f32 (.inl rfl)) = (⊥ : EReal) := ofBits_ninf
  have hl : ∀ c : Fin 192, reduces_S192x32x224_S32x224.lift (ix2 r w) c = ix3 c r w := fun c =>
    funext fun a => Fin.ext (by match a with | ⟨0, _⟩ => rfl | ⟨1, _⟩ => rfl | ⟨2, _⟩ => rfl)
  have hterm : ∀ c : Fin 192, FloatOps.ofBits (F := Ideal) .f32 0x00000000#32 < (select (cmpf .one (shapeCast S192x32x224 G shapeCasts_S1x192x32x224_S192x32x224)
      (broadcast S192x32x224 (Scalar.ofBits (F := Ideal) .f32 0x00000000#32))) (broadcast S192x32x224 (Scalar.ofBits (F := Ideal) .f32 0x3F800000#32))
      (broadcast S192x32x224 (Scalar.ofBits (F := Ideal) .f32 0x00000000#32))) (ix3 c r w) ↔ G (ix4 (0 : Fin 1) c r w) ≠ 0 := fun c => by
    rw [select_apply, cmpf_apply, Ideal.cmpf_def, shapeCast_1abc_abc_apply]
    show Ideal.ofBits .f32 0x00000000#32 < Scalar.select (Ideal.cmp .one (G (ix4 (0 : Fin 1) c r w)) (Ideal.ofBits .f32 0x00000000#32)) (Ideal.ofBits .f32 0x3F800000#32) (Ideal.ofBits .f32 0x00000000#32) ↔ _
    rw [Cert.LossSpec.ofBits_zero, ofBits_one]
    by_cases hg : G (ix4 (0 : Fin 1) c r w) = 0
    · rw [eq_zero_of_ne_one (fun e => (cmp_one_eq_one _ _).1 e hg), select_zero]; simp [hg]
    · rw [(cmp_one_eq_one _ _).2 hg, select_one]; simp [hg]
  constructor
  · rintro (h | ⟨c, _, hc⟩)
    · exact absurd (lt_of_lt_of_eq h hninf) (not_lt_bot)
    · refine ⟨c, (hterm c).1 ?_⟩
      rw [← hl c]; exact hc
  · rintro ⟨c, hc⟩
    refine Or.inr ⟨c, Finset.mem_univ _, ?_⟩
    have h2 := (hterm c).2 hc
    rw [← hl c] at h2
    exact h2

end Cert.KernelIdeal.LossRegion

end
-- ==== Proof.LossRegionMaskI.lean ====
import proofs.«210586_g14980845929080_cont_week2b_1062_66_alg».proof.Proof.LossRegionI
import proofs.«210586_g14980845929080_cont_week2b_1062_66_alg».proof.Proof.LossSpec
import Idealize.ShloMosaic.Lib.Affine
import Idealize.ShloMosaic.Lib.ValueIdx

noncomputable section

namespace Cert.KernelIdeal.LossRegion

open Cert.KernelIdeal Cert.KernelIdeal.Gen
open Idealize.ShloMosaic Idealize.ShloMosaic.ValueIdx

variable {F : FTy → Type} [FloatOps F]

/-! # The loss kernel's box mask, read at a pixel of the block

  The kernel walks the twenty boxes of image b in order; for each it reads the box's four words from the table and
  takes the conjunction of four signed comparisons of the row number hb·32 + r and the column number w with them; the
  running disjunction is the mask. At pixel (r, w) of the block of point (b, hb) the final bit is 1 exactly when the
  pixel (hb·32 + r, w) lies in some box of image b. -/

/-- The grid point of image b and row block hb. -/
abbrev pt (b : Fin 8) (hb : Fin 5) : grid2.Coords := fun a => match a with | ⟨0, _⟩ => b | ⟨1, _⟩ => hb

theorem eq_pt (i : grid2.Coords) : i = pt (i 0) (i 1) := by
  funext a; match a with | ⟨0, _⟩ => rfl | ⟨1, _⟩ => rfl

/-- One box's bit from the row and column numbers and the box's four words (x1, y1, x2, y2): y1 ≤ row < y2 and
    x2 ≤ column < x1, the conjunction associated as the kernel takes it. -/
def boxBit (R C x1 y1 x2 y2 : BitVec 32) : BitVec 1 :=
  IntOp.andi (IntOp.andi (IntOp.andi (IntOp.cmpi .sge R y1) (IntOp.cmpi .slt R y2)) (IntOp.cmpi .sge C x2)) (IntOp.cmpi .slt C x1)

theorem boxBit_eq_one (R C x1 y1 x2 y2 : BitVec 32) :
    boxBit R C x1 y1 x2 y2 = 1#1 ↔ y1.toInt ≤ R.toInt ∧ R.toInt < y2.toInt ∧ x2.toInt ≤ C.toInt ∧ C.toInt < x1.toInt := by
  unfold boxBit
  rw [IntOp.andi_eq_one, IntOp.andi_eq_one, IntOp.andi_eq_one, IntOp.cmpi_sge, IntOp.cmpi_slt, IntOp.cmpi_sge, IntOp.cmpi_slt]
  exact ⟨fun ⟨⟨⟨a, b⟩, c⟩, d⟩ => ⟨a, b, c, d⟩, fun ⟨a, b, c, d⟩ => ⟨⟨⟨a, b⟩, c⟩, d⟩⟩

/-- A table word at offsets (b, n, k) is the table's entry there. -/
theorem wd_eq (x : Vec F S8x20x4 .i32) (off : Fin 3 → ℕ) (h : ∀ a, off a + S1x1x1.size a ≤ S8x20x4.size a)
    (b : Fin 8) (n : Fin 20) (k : Fin 4) (h0 : off 0 = b.val) (h1 : off 1 = n.val) (h2 : off 2 = k.val) :
    wd x off h = x (ix3 b n k) := by
  unfold wd
  refine congrArg x (funext fun a => Fin.ext ?_)
  match a with
  | ⟨0, _⟩ => show off 0 + 1 * 0 = b.val; omega
  | ⟨1, _⟩ => show off 1 + 1 * 0 = n.val; omega
  | ⟨2, _⟩ => show off 2 + 1 * 0 = k.val; omega

/-- An image number below 8, as a 32-bit word read back as a number, is itself. -/
theorem toNat_ofNat_lt8 (b : Fin 8) : (BitVec.ofNat 32 b.val).toNat = b.val := by
  rw [BitVec.toNat_ofNat]; have := b.isLt; omega

/-- Twenty cases, one per box: an existence over the boxes is the disjunction in the order the kernel accumulates it. -/
theorem exists_fin20 (Z : Prop) (hZ : ¬ Z) (P : Fin 20 → Prop) :
    ((((((((((((((((((((Z ∨ P 0) ∨ P 1) ∨ P 2) ∨ P 3) ∨ P 4) ∨ P 5) ∨ P 6) ∨ P 7) ∨ P 8) ∨ P 9) ∨ P 10) ∨ P 11) ∨ P 12) ∨ P 13)
      ∨ P 14) ∨ P 15) ∨ P 16) ∨ P 17) ∨ P 18) ∨ P 19) ↔ ∃ n, P n := by
  constructor
  · intro h
    rcases h with (((((((((((((((((((h | h) | h) | h) | h) | h) | h) | h) | h) | h) | h) | h) | h) | h) | h) | h) | h) | h) | h) | h) | h
    exacts [absurd h hZ, ⟨0, h⟩, ⟨1, h⟩, ⟨2, h⟩, ⟨3, h⟩, ⟨4, h⟩, ⟨5, h⟩, ⟨6, h⟩, ⟨7, h⟩, ⟨8, h⟩, ⟨9, h⟩, ⟨10, h⟩, ⟨11, h⟩, ⟨12, h⟩,
      ⟨13, h⟩, ⟨14, h⟩, ⟨15, h⟩, ⟨16, h⟩, ⟨17, h⟩, ⟨18, h⟩, ⟨19, h⟩]
  · rintro ⟨n, h⟩
    fin_cases n <;> (repeat (first | exact Or.inr h | apply Or.inl))

section Chain
variable (x : Vec F S8x20x4 .i32) (i : grid2.Coords) (j : S32x224.Idx)

/-- The bit of the box whose words sit at the given four table offsets. -/
abbrev bx (o1 o2 o3 o4 : Fin 3 → ℕ) (h1 : ∀ a, o1 a + S1x1x1.size a ≤ S8x20x4.size a) (h2 : ∀ a, o2 a + S1x1x1.size a ≤ S8x20x4.size a)
    (h3 : ∀ a, o3 a + S1x1x1.size a ≤ S8x20x4.size a) (h4 : ∀ a, o4 a + S1x1x1.size a ≤ S8x20x4.size a) : BitVec 1 :=
  boxBit (rows i j) (cols j) (wd x o1 h1) (wd x o2 h2) (wd x o3 h3) (wd x o4 h4)

theorem m65_apply : m65 x i j = IntOp.ori (IntOp.ori 0#1
    (bx x i j (k2_off1 i) (k2_off2 i) (k2_off3 i) (k2_off4 i) (k2_off1_inb i) (k2_off2_inb i) (k2_off3_inb i) (k2_off4_inb i)))
    (bx x i j (k2_off5 i) (k2_off6 i) (k2_off7 i) (k2_off8 i) (k2_off5_inb i) (k2_off6_inb i) (k2_off7_inb i) (k2_off8_inb i)) := rfl

theorem m105_apply : m105 x i j = IntOp.ori (IntOp.ori (m65 x i j)
    (bx x i j (k2_off9 i) (k2_off10 i) (k2_off11 i) (k2_off12 i) (k2_off9_inb i) (k2_off10_inb i) (k2_off11_inb i) (k2_off12_inb i)))
    (bx x i j (k2_off13 i) (k2_off14 i) (k2_off15 i) (k2_off16 i) (k2_off13_inb i) (k2_off14_inb i) (k2_off15_inb i) (k2_off16_inb i)) := rfl

theorem m145_apply : m145 x i j = IntOp.ori (IntOp.ori (m105 x i j)
    (bx x i j (k2_off17 i) (k2_off18 i) (k2_off19 i) (k2_off20 i) (k2_off17_inb i) (k2_off18_inb i) (k2_off19_inb i) (k2_off20_inb i)))
    (bx x i j (k2_off21 i) (k2_off22 i) (k2_off23 i) (k2_off24 i) (k2_off21_inb i) (k2_off22_inb i) (k2_off23_inb i) (k2_off24_inb i)) := rfl

theorem m205_apply : m205 x i j = IntOp.ori (IntOp.ori (IntOp.ori (m145 x i j)
    (bx x i j (k2_off25 i) (k2_off26 i) (k2_off27 i) (k2_off28 i) (k2_off25_inb i) (k2_off26_inb i) (k2_off27_inb i) (k2_off28_inb i)))
    (bx x i j (k2_off29 i) (k2_off30 i) (k2_off31 i) (k2_off32 i) (k2_off29_inb i) (k2_off30_inb i) (k2_off31_inb i) (k2_off32_inb i)))
    (bx x i j (k2_off33 i) (k2_off34 i) (k2_off35 i) (k2_off36 i) (k2_off33_inb i) (k2_off34_inb i) (k2_off35_inb i) (k2_off36_inb i)) := rfl

theorem m245_apply : m245 x i j = IntOp.ori (IntOp.ori (m205 x i j)
    (bx x i j (k2_off37 i) (k2_off38 i) (k2_off39 i) (k2_off40 i) (k2_off37_inb i) (k2_off38_inb i) (k2_off39_inb i) (k2_off40_inb i)))
    (bx x i j (k2_off41 i) (k2_off42 i) (k2_off43 i) (k2_off44 i) (k2_off41_inb i) (k2_off42_inb i) (k2_off43_inb i) (k2_off44_inb i)) := rfl

theorem m285_apply : m285 x i j = IntOp.ori (IntOp.ori (m245 x i j)
    (bx x i j (k2_off45 i) (k2_off46 i) (k2_off47 i) (k2_off48 i) (k2_off45_inb i) (k2_off46_inb i) (k2_off47_inb i) (k2_off48_inb i)))
    (bx x i j (k2_off49 i) (k2_off50 i) (k2_off51 i) (k2_off52 i) (k2_off49_inb i) (k2_off50_inb i) (k2_off51_inb i) (k2_off52_inb i)) := rfl

theorem m325_apply : m325 x i j = IntOp.ori (IntOp.ori (m285 x i j)
    (bx x i j (k2_off53 i) (k2_off54 i) (k2_off55 i) (k2_off56 i) (k2_off53_inb i) (k2_off54_inb i) (k2_off55_inb i) (k2_off56_inb i)))
    (bx x i j (k2_off57 i) (k2_off58 i) (k2_off59 i) (k2_off60 i) (k2_off57_inb i) (k2_off58_inb i) (k2_off59_inb i) (k2_off60_inb i)) := rfl

theorem m365_apply : m365 x i j = IntOp.ori (IntOp.ori (m325 x i j)
    (bx x i j (k2_off61 i) (k2_off62 i) (k2_off63 i) (k2_off64 i) (k2_off61_inb i) (k2_off62_inb i) (k2_off63_inb i) (k2_off64_inb i)))
    (bx x i j (k2_off65 i) (k2_off66 i) (k2_off67 i) (k2_off68 i) (k2_off65_inb i) (k2_off66_inb i) (k2_off67_inb i) (k2_off68_inb i)) := rfl

theorem m405_apply : m405 x i j = IntOp.ori (IntOp.ori (m365 x i j)
    (bx x i j (k2_off69 i) (k2_off70 i) (k2_off71 i) (k2_off72 i) (k2_off69_inb i) (k2_off70_inb i) (k2_off71_inb i) (k2_off72_inb i)))
    (bx x i j (k2_off73 i) (k2_off74 i) (k2_off75 i) (k2_off76 i) (k2_off73_inb i) (k2_off74_inb i) (k2_off75_inb i) (k2_off76_inb i)) := rfl

end Chain

/-! ## The words are the table's entries; the row and column numbers -/

section Words
variable (x : Vec F S8x20x4 .i32) (b : Fin 8) (hb : Fin 5) (j : S32x224.Idx)

/-- Box n's bit at the pixel, from the table's entries (x1, y1, x2, y2) = entries (b, n, 0 … 3). -/
def boxAt (n : Fin 20) : BitVec 1 :=
  boxBit (rows (pt b hb) j) (cols j) (x (ix3 b n (0 : Fin 4))) (x (ix3 b n (1 : Fin 4))) (x (ix3 b n (2 : Fin 4))) (x (ix3 b n (3 : Fin 4)))

theorem bx0 : bx x (pt b hb) j (k2_off1 (pt b hb)) (k2_off2 (pt b hb)) (k2_off3 (pt b hb)) (k2_off4 (pt b hb)) (k2_off1_inb _) (k2_off2_inb _) (k2_off3_inb _) (k2_off4_inb _) = boxAt x b hb j 0 := by
  unfold boxAt; show boxBit _ _ (wd x _ _) (wd x _ _) (wd x _ _) (wd x _ _) = _
  rw [wd_eq x _ _ b 0 0 (toNat_ofNat_lt8 b) rfl rfl, wd_eq x _ _ b 0 1 (toNat_ofNat_lt8 b) rfl rfl, wd_eq x _ _ b 0 2 (toNat_ofNat_lt8 b) rfl rfl, wd_eq x _ _ b 0 3 (toNat_ofNat_lt8 b) rfl rfl]
theorem bx1 : bx x (pt b hb) j (k2_off5 (pt b hb)) (k2_off6 (pt b hb)) (k2_off7 (pt b hb)) (k2_off8 (pt b hb)) (k2_off5_inb _) (k2_off6_inb _) (k2_off7_inb _) (k2_off8_inb _) = boxAt x b hb j 1 := by
  unfold boxAt; show boxBit _ _ (wd x _ _) (wd x _ _) (wd x _ _) (wd x _ _) = _
  rw [wd_eq x _ _ b 1 0 (toNat_ofNat_lt8 b) rfl rfl, wd_eq x _ _ b 1 1 (toNat_ofNat_lt8 b) rfl rfl, wd_eq x _ _ b 1 2 (toNat_ofNat_lt8 b) rfl rfl, wd_eq x _ _ b 1 3 (toNat_ofNat_lt8 b) rfl rfl]
theorem bx2 : bx x (pt b hb) j (k2_off9 (pt b hb)) (k2_off10 (pt b hb)) (k2_off11 (pt b hb)) (k2_off12 (pt b hb)) (k2_off9_inb _) (k2_off10_inb _) (k2_off11_inb _) (k2_off12_inb _) = boxAt x b hb j 2 := by
  unfold boxAt; show boxBit _ _ (wd x _ _) (wd x _ _) (wd x _ _) (wd x _ _) = _
  rw [wd_eq x _ _ b 2 0 (toNat_ofNat_lt8 b) rfl rfl, wd_eq x _ _ b 2 1 (toNat_ofNat_lt8 b) rfl rfl, wd_eq x _ _ b 2 2 (toNat_ofNat_lt8 b) rfl rfl, wd_eq x _ _ b 2 3 (toNat_ofNat_lt8 b) rfl rfl]
theorem bx3 : bx x (pt b hb) j (k2_off13 (pt b hb)) (k2_off14 (pt b hb)) (k2_off15 (pt b hb)) (k2_off16 (pt b hb)) (k2_off13_inb _) (k2_off14_inb _) (k2_off15_inb _) (k2_off16_inb _) = boxAt x b hb j 3 := by
  unfold boxAt; show boxBit _ _ (wd x _ _) (wd x _ _) (wd x _ _) (wd x _ _) = _
  rw [wd_eq x _ _ b 3 0 (toNat_ofNat_lt8 b) rfl rfl, wd_eq x _ _ b 3 1 (toNat_ofNat_lt8 b) rfl rfl, wd_eq x _ _ b 3 2 (toNat_ofNat_lt8 b) rfl rfl, wd_eq x _ _ b 3 3 (toNat_ofNat_lt8 b) rfl rfl]
theorem bx4 : bx x (pt b hb) j (k2_off17 (pt b hb)) (k2_off18 (pt b hb)) (k2_off19 (pt b hb)) (k2_off20 (pt b hb)) (k2_off17_inb _) (k2_off18_inb _) (k2_off19_inb _) (k2_off20_inb _) = boxAt x b hb j 4 := by
  unfold boxAt; show boxBit _ _ (wd x _ _) (wd x _ _) (wd x _ _) (wd x _ _) = _
  rw [wd_eq x _ _ b 4 0 (toNat_ofNat_lt8 b) rfl rfl, wd_eq x _ _ b 4 1 (toNat_ofNat_lt8 b) rfl rfl, wd_eq x _ _ b 4 2 (toNat_ofNat_lt8 b) rfl rfl, wd_eq x _ _ b 4 3 (toNat_ofNat_lt8 b) rfl rfl]
theorem bx5 : bx x (pt b hb) j (k2_off21 (pt b hb)) (k2_off22 (pt b hb)) (k2_off23 (pt b hb)) (k2_off24 (pt b hb)) (k2_off21_inb _) (k2_off22_inb _) (k2_off23_inb _) (k2_off24_inb _) = boxAt x b hb j 5 := by
  unfold boxAt; show boxBit _ _ (wd x _ _) (wd x _ _) (wd x _ _) (wd x _ _) = _
  rw [wd_eq x _ _ b 5 0 (toNat_ofNat_lt8 b) rfl rfl, wd_eq x _ _ b 5 1 (toNat_ofNat_lt8 b) rfl rfl, wd_eq x _ _ b 5 2 (toNat_ofNat_lt8 b) rfl rfl, wd_eq x _ _ b 5 3 (toNat_ofNat_lt8 b) rfl rfl]
theorem bx6 : bx x (pt b hb) j (k2_off25 (pt b hb)) (k2_off26 (pt b hb)) (k2_off27 (pt b hb)) (k2_off28 (pt b hb)) (k2_off25_inb _) (k2_off26_inb _) (k2_off27_inb _) (k2_off28_inb _) = boxAt x b hb j 6 := by
  unfold boxAt; show boxBit _ _ (wd x _ _) (wd x _ _) (wd x _ _) (wd x _ _) = _
  rw [wd_eq x _ _ b 6 0 (toNat_ofNat_lt8 b) rfl rfl, wd_eq x _ _ b 6 1 (toNat_ofNat_lt8 b) rfl rfl, wd_eq x _ _ b 6 2 (toNat_ofNat_lt8 b) rfl rfl, wd_eq x _ _ b 6 3 (toNat_ofNat_lt8 b) rfl rfl]
theorem bx7 : bx x (pt b hb) j (k2_off29 (pt b hb)) (k2_off30 (pt b hb)) (k2_off31 (pt b hb)) (k2_off32 (pt b hb)) (k2_off29_inb _) (k2_off30_inb _) (k2_off31_inb _) (k2_off32_inb _) = boxAt x b hb j 7 := by
  unfold boxAt; show boxBit _ _ (wd x _ _) (wd x _ _) (wd x _ _) (wd x _ _) = _
  rw [wd_eq x _ _ b 7 0 (toNat_ofNat_lt8 b) rfl rfl, wd_eq x _ _ b 7 1 (toNat_ofNat_lt8 b) rfl rfl, wd_eq x _ _ b 7 2 (toNat_ofNat_lt8 b) rfl rfl, wd_eq x _ _ b 7 3 (toNat_ofNat_lt8 b) rfl rfl]
theorem bx8 : bx x (pt b hb) j (k2_off33 (pt b hb)) (k2_off34 (pt b hb)) (k2_off35 (pt b hb)) (k2_off36 (pt b hb)) (k2_off33_inb _) (k2_off34_inb _) (k2_off35_inb _) (k2_off36_inb _) = boxAt x b hb j 8 := by
  unfold boxAt; show boxBit _ _ (wd x _ _) (wd x _ _) (wd x _ _) (wd x _ _) = _
  rw [wd_eq x _ _ b 8 0 (toNat_ofNat_lt8 b) rfl rfl, wd_eq x _ _ b 8 1 (toNat_ofNat_lt8 b) rfl rfl, wd_eq x _ _ b 8 2 (toNat_ofNat_lt8 b) rfl rfl, wd_eq x _ _ b 8 3 (toNat_ofNat_lt8 b) rfl rfl]
theorem bx9 : bx x (pt b hb) j (k2_off37 (pt b hb)) (k2_off38 (pt b hb)) (k2_off39 (pt b hb)) (k2_off40 (pt b hb)) (k2_off37_inb _) (k2_off38_inb _) (k2_off39_inb _) (k2_off40_inb _) = boxAt x b hb j 9 := by
  unfold boxAt; show boxBit _ _ (wd x _ _) (wd x _ _) (wd x _ _) (wd x _ _) = _
  rw [wd_eq x _ _ b 9 0 (toNat_ofNat_lt8 b) rfl rfl, wd_eq x _ _ b 9 1 (toNat_ofNat_lt8 b) rfl rfl, wd_eq x _ _ b 9 2 (toNat_ofNat_lt8 b) rfl rfl, wd_eq x _ _ b 9 3 (toNat_ofNat_lt8 b) rfl rfl]
theorem bx10 : bx x (pt b hb) j (k2_off41 (pt b hb)) (k2_off42 (pt b hb)) (k2_off43 (pt b hb)) (k2_off44 (pt b hb)) (k2_off41_inb _) (k2_off42_inb _) (k2_off43_inb _) (k2_off44_inb _) = boxAt x b hb j 10 := by
  unfold boxAt; show boxBit _ _ (wd x _ _) (wd x _ _) (wd x _ _) (wd x _ _) = _
  rw [wd_eq x _ _ b 10 0 (toNat_ofNat_lt8 b) rfl rfl, wd_eq x _ _ b 10 1 (toNat_ofNat_lt8 b) rfl rfl, wd_eq x _ _ b 10 2 (toNat_ofNat_lt8 b) rfl rfl, wd_eq x _ _ b 10 3 (toNat_ofNat_lt8 b) rfl rfl]
theorem bx11 : bx x (pt b hb) j (k2_off45 (pt b hb)) (k2_off46 (pt b hb)) (k2_off47 (pt b hb)) (k2_off48 (pt b hb)) (k2_off45_inb _) (k2_off46_inb _) (k2_off47_inb _) (k2_off48_inb _) = boxAt x b hb j 11 := by
  unfold boxAt; show boxBit _ _ (wd x _ _) (wd x _ _) (wd x _ _) (wd x _ _) = _
  rw [wd_eq x _ _ b 11 0 (toNat_ofNat_lt8 b) rfl rfl, wd_eq x _ _ b 11 1 (toNat_ofNat_lt8 b) rfl rfl, wd_eq x _ _ b 11 2 (toNat_ofNat_lt8 b) rfl rfl, wd_eq x _ _ b 11 3 (toNat_ofNat_lt8 b) rfl rfl]
theorem bx12 : bx x (pt b hb) j (k2_off49 (pt b hb)) (k2_off50 (pt b hb)) (k2_off51 (pt b hb)) (k2_off52 (pt b hb)) (k2_off49_inb _) (k2_off50_inb _) (k2_off51_inb _) (k2_off52_inb _) = boxAt x b hb j 12 := by
  unfold boxAt; show boxBit _ _ (wd x _ _) (wd x _ _) (wd x _ _) (wd x _ _) = _
  rw [wd_eq x _ _ b 12 0 (toNat_ofNat_lt8 b) rfl rfl, wd_eq x _ _ b 12 1 (toNat_ofNat_lt8 b) rfl rfl, wd_eq x _ _ b 12 2 (toNat_ofNat_lt8 b) rfl rfl, wd_eq x _ _ b 12 3 (toNat_ofNat_lt8 b) rfl rfl]
theorem bx13 : bx x (pt b hb) j (k2_off53 (pt b hb)) (k2_off54 (pt b hb)) (k2_off55 (pt b hb)) (k2_off56 (pt b hb)) (k2_off53_inb _) (k2_off54_inb _) (k2_off55_inb _) (k2_off56_inb _) = boxAt x b hb j 13 := by
  unfold boxAt; show boxBit _ _ (wd x _ _) (wd x _ _) (wd x _ _) (wd x _ _) = _
  rw [wd_eq x _ _ b 13 0 (toNat_ofNat_lt8 b) rfl rfl, wd_eq x _ _ b 13 1 (toNat_ofNat_lt8 b) rfl rfl, wd_eq x _ _ b 13 2 (toNat_ofNat_lt8 b) rfl rfl, wd_eq x _ _ b 13 3 (toNat_ofNat_lt8 b) rfl rfl]
theorem bx14 : bx x (pt b hb) j (k2_off57 (pt b hb)) (k2_off58 (pt b hb)) (k2_off59 (pt b hb)) (k2_off60 (pt b hb)) (k2_off57_inb _) (k2_off58_inb _) (k2_off59_inb _) (k2_off60_inb _) = boxAt x b hb j 14 := by
  unfold boxAt; show boxBit _ _ (wd x _ _) (wd x _ _) (wd x _ _) (wd x _ _) = _
  rw [wd_eq x _ _ b 14 0 (toNat_ofNat_lt8 b) rfl rfl, wd_eq x _ _ b 14 1 (toNat_ofNat_lt8 b) rfl rfl, wd_eq x _ _ b 14 2 (toNat_ofNat_lt8 b) rfl rfl, wd_eq x _ _ b 14 3 (toNat_ofNat_lt8 b) rfl rfl]
theorem bx15 : bx x (pt b hb) j (k2_off61 (pt b hb)) (k2_off62 (pt b hb)) (k2_off63 (pt b hb)) (k2_off64 (pt b hb)) (k2_off61_inb _) (k2_off62_inb _) (k2_off63_inb _) (k2_off64_inb _) = boxAt x b hb j 15 := by
  unfold boxAt; show boxBit _ _ (wd x _ _) (wd x _ _) (wd x _ _) (wd x _ _) = _
  rw [wd_eq x _ _ b 15 0 (toNat_ofNat_lt8 b) rfl rfl, wd_eq x _ _ b 15 1 (toNat_ofNat_lt8 b) rfl rfl, wd_eq x _ _ b 15 2 (toNat_ofNat_lt8 b) rfl rfl, wd_eq x _ _ b 15 3 (toNat_ofNat_lt8 b) rfl rfl]
theorem bx16 : bx x (pt b hb) j (k2_off65 (pt b hb)) (k2_off66 (pt b hb)) (k2_off67 (pt b hb)) (k2_off68 (pt b hb)) (k2_off65_inb _) (k2_off66_inb _) (k2_off67_inb _) (k2_off68_inb _) = boxAt x b hb j 16 := by
  unfold boxAt; show boxBit _ _ (wd x _ _) (wd x _ _) (wd x _ _) (wd x _ _) = _
  rw [wd_eq x _ _ b 16 0 (toNat_ofNat_lt8 b) rfl rfl, wd_eq x _ _ b 16 1 (toNat_ofNat_lt8 b) rfl rfl, wd_eq x _ _ b 16 2 (toNat_ofNat_lt8 b) rfl rfl, wd_eq x _ _ b 16 3 (toNat_ofNat_lt8 b) rfl rfl]
theorem bx17 : bx x (pt b hb) j (k2_off69 (pt b hb)) (k2_off70 (pt b hb)) (k2_off71 (pt b hb)) (k2_off72 (pt b hb)) (k2_off69_inb _) (k2_off70_inb _) (k2_off71_inb _) (k2_off72_inb _) = boxAt x b hb j 17 := by
  unfold boxAt; show boxBit _ _ (wd x _ _) (wd x _ _) (wd x _ _) (wd x _ _) = _
  rw [wd_eq x _ _ b 17 0 (toNat_ofNat_lt8 b) rfl rfl, wd_eq x _ _ b 17 1 (toNat_ofNat_lt8 b) rfl rfl, wd_eq x _ _ b 17 2 (toNat_ofNat_lt8 b) rfl rfl, wd_eq x _ _ b 17 3 (toNat_ofNat_lt8 b) rfl rfl]
theorem bx18 : bx x (pt b hb) j (k2_off73 (pt b hb)) (k2_off74 (pt b hb)) (k2_off75 (pt b hb)) (k2_off76 (pt b hb)) (k2_off73_inb _) (k2_off74_inb _) (k2_off75_inb _) (k2_off76_inb _) = boxAt x b hb j 18 := by
  unfold boxAt; show boxBit _ _ (wd x _ _) (wd x _ _) (wd x _ _) (wd x _ _) = _
  rw [wd_eq x _ _ b 18 0 (toNat_ofNat_lt8 b) rfl rfl, wd_eq x _ _ b 18 1 (toNat_ofNat_lt8 b) rfl rfl, wd_eq x _ _ b 18 2 (toNat_ofNat_lt8 b) rfl rfl, wd_eq x _ _ b 18 3 (toNat_ofNat_lt8 b) rfl rfl]
theorem bx19 : bx x (pt b hb) j (k2_off77 (pt b hb)) (k2_off78 (pt b hb)) (k2_off79 (pt b hb)) (k2_off80 (pt b hb)) (k2_off77_inb _) (k2_off78_inb _) (k2_off79_inb _) (k2_off80_inb _) = boxAt x b hb j 19 := by
  unfold boxAt; show boxBit _ _ (wd x _ _) (wd x _ _) (wd x _ _) (wd x _ _) = _
  rw [wd_eq x _ _ b 19 0 (toNat_ofNat_lt8 b) rfl rfl, wd_eq x _ _ b 19 1 (toNat_ofNat_lt8 b) rfl rfl, wd_eq x _ _ b 19 2 (toNat_ofNat_lt8 b) rfl rfl, wd_eq x _ _ b 19 3 (toNat_ofNat_lt8 b) rfl rfl]

/-- THE MASK: the kernel's final disjunction at the pixel is 1 exactly when some box's bit is. -/
theorem mask_iff :
    IntOp.ori (m405 x (pt b hb) j) (bx x (pt b hb) j (k2_off77 (pt b hb)) (k2_off78 (pt b hb)) (k2_off79 (pt b hb)) (k2_off80 (pt b hb))
        (k2_off77_inb _) (k2_off78_inb _) (k2_off79_inb _) (k2_off80_inb _)) = 1#1
      ↔ ∃ n : Fin 20, boxAt x b hb j n = 1#1 := by
  rw [m405_apply, m365_apply, m325_apply, m285_apply, m245_apply, m205_apply, m145_apply, m105_apply, m65_apply,
    bx0, bx1, bx2, bx3, bx4, bx5, bx6, bx7, bx8, bx9, bx10, bx11, bx12, bx13, bx14, bx15, bx16, bx17, bx18, bx19]
  simp only [IntOp.ori_eq_one]
  exact exists_fin20 _ (by decide) (fun n => boxAt x b hb j n = 1#1)

end Words

end Cert.KernelIdeal.LossRegion

end
-- ==== Proof.LossRegionBlockI.lean ====
import proofs.«210586_g14980845929080_cont_week2b_1062_66_alg».proof.Proof.LossRegionPayI
import proofs.«210586_g14980845929080_cont_week2b_1062_66_alg».proof.Proof.LossRegionMaskI

noncomputable section

open scoped BigOperators

namespace Cert.KernelIdeal.LossRegion

open Cert.KernelIdeal Cert.KernelIdeal.Gen
open Idealize.ShloMosaic Idealize.ShloMosaic.ValueIdx Cert.LossSpec

/-! # One grid point of the loss kernel at the ideal values

  At point (b, hb) the kernel adds to its first cell the sum over the block's pixels (r, w) of
  indicator · squared distance, and to its second the sum of the indicators, where the indicator is the
  specification's, at pixel (hb·32 + r, w) of image b. -/

/-- Row hb·32 + r of the image: row r of row block hb. -/
def rowOf (hb : Fin 5) (r : Fin 32) : Fin 224 := ⟨hb.val * 32 + r.val, by have := hb.isLt; have := r.isLt; omega⟩

/-- A number below 2³¹, as a 32-bit word read signed, is itself. -/
theorem toInt_ofNat_small (k : ℕ) (hk : k < 224) : (BitVec.ofNat 32 k).toInt = (k : Int) := by
  rw [BitVec.toInt_ofNat']
  apply Int.bmod_eq_of_le <;> omega

/-- The row number at pixel (r, w) of the block of point (b, hb), read signed. -/
theorem rows_toInt (b : Fin 8) (hb : Fin 5) (r : Fin 32) (w : Fin 224) :
    (rows (pt b hb) (ix2 r w)).toInt = ((rowOf hb r).val : Int) := by
  have e : rows (pt b hb) (ix2 r w) = BitVec.ofNat 32 (hb.val * 32 + r.val) := by
    show BitVec.ofNat 32 hb.val * 32#32 + BitVec.ofNat 32 (0 * 32 + r.val) = _
    have h1 := hb.isLt; have h2 := r.isLt
    bv_omega
  rw [e]
  exact toInt_ofNat_small _ (rowOf hb r).isLt

/-- The column number at pixel (r, w), read signed. -/
theorem cols_toInt (r : Fin 32) (w : Fin 224) : (cols (ix2 r w)).toInt = (w.val : Int) := by
  have e : cols (ix2 r w) = BitVec.ofNat 32 w.val := by
    show BitVec.ofNat 32 (0 * 224 + w.val) = _
    rw [Nat.zero_mul, Nat.zero_add]
  rw [e]
  exact toInt_ofNat_small _ w.isLt

/-- Box n's bit at pixel (r, w) of the block is 1 exactly when pixel (hb·32 + r, w) lies in box n of image b. -/
theorem boxAt_eq_one (x : Vec Ideal S8x20x4 .i32) (b : Fin 8) (hb : Fin 5) (r : Fin 32) (w : Fin 224) (n : Fin 20) :
    boxAt x b hb (ix2 r w) n = 1#1 ↔ inBoxAt x b n (rowOf hb r) w := by
  unfold boxAt inBoxAt
  rw [boxBit_eq_one, rows_toInt, cols_toInt]

/-- A one-bit word as an extended real: 1 or 0. -/
def bitR (c : BitVec 1) : EReal := if c = 1#1 then 1 else 0

/-- The kernel's indicator at a pixel: the conjunction of the target bit and the mask bit, widened and converted. -/
theorem ind_apply (v19 : IVec S32x224 1) (x : Vec Ideal S8x20x4 .i32) (i : grid2.Coords) (j : S32x224.Idx) :
    k2_pay1 (F := Ideal) v19 cols (m405 x i) (wd x (k2_off77 i) (k2_off77_inb i)) (wd x (k2_off79 i) (k2_off79_inb i)) (m415 x i) (m417 x i) j
      = bitR (IntOp.andi (v19 j) (IntOp.ori (m405 x i j)
          (bx x i j (k2_off77 i) (k2_off78 i) (k2_off79 i) (k2_off80 i) (k2_off77_inb i) (k2_off78_inb i) (k2_off79_inb i) (k2_off80_inb i)))) := by
  show FloatOps.sitofp (F := Ideal) .f32 ((IntOp.andi (v19 j) (IntOp.ori (m405 x i j)
      (bx x i j (k2_off77 i) (k2_off78 i) (k2_off79 i) (k2_off80 i) (k2_off77_inb i) (k2_off78_inb i) (k2_off79_inb i) (k2_off80_inb i)))).setWidth 32) = _
  generalize IntOp.andi (v19 j) (IntOp.ori (m405 x i j)
      (bx x i j (k2_off77 i) (k2_off78 i) (k2_off79 i) (k2_off80 i) (k2_off77_inb i) (k2_off78_inb i) (k2_off79_inb i) (k2_off80_inb i))) = c
  show ((((c.setWidth 32).toInt : ℝ)) : EReal) = _
  unfold bitR
  rcases BitVec.eq_zero_or_eq_one c with h | h
  · subst h
    rw [if_neg (by decide), show ((0#1 : BitVec 1).setWidth 32).toInt = 0 from by decide]; simp
  · subst h
    rw [if_pos rfl, show ((1#1 : BitVec 1).setWidth 32).toInt = 1 from by decide]; simp

/-- The blocks' offsets are zero. -/
theorem hz4 : (![0, 0, 0, 0] : Fin 4 → ℕ) = fun _ => 0 := by
  funext a; match a with | ⟨0, _⟩ => rfl | ⟨1, _⟩ => rfl | ⟨2, _⟩ => rfl | ⟨3, _⟩ => rfl

/-- A load of a whole block reads the block. -/
theorem ld_block (g : Vec Ideal S1x192x32x224 .f32) : View.ld g rB = g :=
  View.ld_unit_zero hz4 _ g

section Point
variable (x : Vec Ideal S8x20x4 .i32) (x0 x1 : FVec Ideal SImg .f32) (A G : Vec Ideal S1x192x32x224 .f32) (b : Fin 8) (hb : Fin 5)
  (hA : ∀ (c : Fin 192) (r : Fin 32) (w : Fin 224), A (ix4 (0 : Fin 1) c r w) = x0 (ix4 b c (rowOf hb r) w))
  (hG : ∀ (c : Fin 192) (r : Fin 32) (w : Fin 224), G (ix4 (0 : Fin 1) c r w) = x1 (ix4 b c (rowOf hb r) w))

include hG in
/-- The kernel's indicator at pixel (r, w) of the block is the specification's at pixel (hb·32 + r, w) of image b. -/
theorem ind_eq_pos (r : Fin 32) (w : Fin 224) :
    k2_pay1 (F := Ideal) (k2_pay6 G) cols (m405 x (pt b hb)) (wd x (k2_off77 (pt b hb)) (k2_off77_inb _)) (wd x (k2_off79 (pt b hb)) (k2_off79_inb _))
        (m415 x (pt b hb)) (m417 x (pt b hb)) (ix2 r w)
      = pos x1 x b (rowOf hb r) w := by
  rw [ind_apply]
  unfold bitR
  have ht : k2_pay6 (F := Ideal) G (ix2 r w) = 1#1 ↔ tgtNonzero x1 b (rowOf hb r) w := by
    rw [tnzBlock_apply]; unfold tgtNonzero
    exact ⟨fun ⟨c, hc⟩ => ⟨c, by rw [← hG]; exact hc⟩, fun ⟨c, hc⟩ => ⟨c, by rw [hG]; exact hc⟩⟩
  have hm : IntOp.ori (m405 x (pt b hb) (ix2 r w)) (bx x (pt b hb) (ix2 r w) (k2_off77 (pt b hb)) (k2_off78 (pt b hb)) (k2_off79 (pt b hb)) (k2_off80 (pt b hb))
      (k2_off77_inb _) (k2_off78_inb _) (k2_off79_inb _) (k2_off80_inb _)) = 1#1 ↔ inBox x b (rowOf hb r) w := by
    rw [mask_iff]; unfold inBox
    exact ⟨fun ⟨n, hn⟩ => ⟨n, (boxAt_eq_one x b hb r w n).1 hn⟩, fun ⟨n, hn⟩ => ⟨n, (boxAt_eq_one x b hb r w n).2 hn⟩⟩
  by_cases hp : isPos x1 x b (rowOf hb r) w
  · rw [pos_of_isPos hp, if_pos (IntOp.andi_eq_one.2 ⟨ht.2 hp.1, hm.2 hp.2⟩)]
  · rw [pos_of_not_isPos hp, if_neg (fun e => hp ⟨ht.1 (IntOp.andi_eq_one.1 e).1, hm.1 (IntOp.andi_eq_one.1 e).2⟩)]

include hG in
/-- The second cell's new word at point (b, hb): the old word plus the number of positive pixels of the block. -/
theorem acc4_eq (old : EReal) :
    acc4 (F := Ideal) x G (pt b hb) old = old + ∑ r : Fin 32, ∑ w : Fin 224, pos x1 x b (rowOf hb r) w := by
  unfold acc4 k2_pay3
  dsimp only
  rw [ld_block, Ideal.scalar_addf_def, blockSum_eq]
  refine congrArg (old + ·) ?_
  exact Finset.sum_congr rfl fun r _ => Finset.sum_congr rfl fun w _ => ind_eq_pos x x1 G b hb hG r w

include hA hG in
/-- The first cell's new word at point (b, hb): the old word plus the block's sum of indicator · squared distance. -/
theorem acc3_eq (old : EReal) :
    acc3 (F := Ideal) x A G (pt b hb) old
      = old + ∑ r : Fin 32, ∑ w : Fin 224, pos x1 x b (rowOf hb r) w * sqd x0 x1 b (rowOf hb r) w := by
  unfold acc3 k2_pay2
  dsimp only
  rw [ld_block, ld_block, Ideal.scalar_addf_def, blockSum_eq]
  refine congrArg (old + ·) ?_
  refine Finset.sum_congr rfl fun r _ => Finset.sum_congr rfl fun w _ => ?_
  rw [mulf_apply, ind_eq_pos x x1 G b hb hG r w, sqdBlock_apply]
  unfold sqd
  refine congrArg (pos x1 x b (rowOf hb r) w * ·) ?_
  exact Finset.sum_congr rfl fun c _ => by rw [hA, hG]

end Point

end Cert.KernelIdeal.LossRegion

end
-- ==== Proof.LossRegionSumI.lean ====
import proofs.«210586_g14980845929080_cont_week2b_1062_66_alg».proof.Proof.LossRegionBlockI
import proofs.«210586_g14980845929080_cont_week2b_1062_66_alg».proof.Proof.LossRegionDataI

set_option maxRecDepth 16384

noncomputable section

open scoped BigOperators

namespace Cert.KernelIdeal.LossRegion

open Cert.KernelIdeal Cert.KernelIdeal.Gen
open Idealize.ShloMosaic Idealize.ShloMosaic.TcCoe Idealize.ShloMosaic.ValueIdx Cert.LossSpec

/-! # The loss kernel's region at the ideal values: the two result cells after the last point

  Point t of the grid is (image b, row block hb) = (t / 5, t mod 5). Its blocks of input and target are rows
  hb·32 … hb·32 + 31 of image b of the arrays the region finds; its table is the box table. By induction over the points
  the cells hold, after point n, the sums over the blocks of points 0 … n of indicator · squared distance and of the
  indicators. -/

section Sum
variable (c : Dev nD) (V : (b : Ref sig .tc) → Buf (Elt Ideal) ((c : Thread nD τ).loc b))

/-- The image and the row block of point `t`. -/
def bOf (t : Fin cfg2.N) : Fin 8 := ⟨(grid2.coords t 0).val, (grid2.coords t 0).isLt⟩
def hbOf (t : Fin cfg2.N) : Fin 5 := ⟨(grid2.coords t 1).val, (grid2.coords t 1).isLt⟩

theorem coords_eq (t : Fin cfg2.N) : grid2.coords t = pt (bOf t) (hbOf t) := by
  funext a; match a with | ⟨0, _⟩ => rfl | ⟨1, _⟩ => rfl

/-- The three input windows' block indices at each point — decided over the grid: the table is one block; the blocks of
    input and target are (b, 0, hb, 0). -/
theorem idx_facts : ∀ t : Fin cfg2.N,
    (win2_0.index t (0 : Fin 3) = 0 ∧ win2_0.index t (1 : Fin 3) = 0 ∧ win2_0.index t (2 : Fin 3) = 0)
    ∧ (win2_1.index t (0 : Fin 4) = (grid2.coords t 0).val ∧ win2_1.index t (1 : Fin 4) = 0 ∧ win2_1.index t (2 : Fin 4) = (grid2.coords t 1).val ∧ win2_1.index t (3 : Fin 4) = 0)
    ∧ (win2_2.index t (0 : Fin 4) = (grid2.coords t 0).val ∧ win2_2.index t (1 : Fin 4) = 0 ∧ win2_2.index t (2 : Fin 4) = (grid2.coords t 1).val ∧ win2_2.index t (3 : Fin 4) = 0) :=
  (by decide +kernel : ∀ t : Fin grid2.N,
    (win2_0.index t (0 : Fin 3) = 0 ∧ win2_0.index t (1 : Fin 3) = 0 ∧ win2_0.index t (2 : Fin 3) = 0)
    ∧ (win2_1.index t (0 : Fin 4) = (grid2.coords t 0).val ∧ win2_1.index t (1 : Fin 4) = 0 ∧ win2_1.index t (2 : Fin 4) = (grid2.coords t 1).val ∧ win2_1.index t (3 : Fin 4) = 0)
    ∧ (win2_2.index t (0 : Fin 4) = (grid2.coords t 0).val ∧ win2_2.index t (1 : Fin 4) = 0 ∧ win2_2.index t (2 : Fin 4) = (grid2.coords t 1).val ∧ win2_2.index t (3 : Fin 4) = 0))

/-- The table's block at every point is the whole table the region finds. -/
theorem blk0_eq (t : Fin cfg2.N) : iblk c V 0 t = V main_arg2 := by
  funext j
  show V (Pipeline.arrRef spec2 0) (((cfg2.win 0).blk t).view.emb j) = V main_arg2 j
  obtain ⟨⟨e0, e1, e2⟩, _, _⟩ := idx_facts t
  refine congrArg (V main_arg2) (funext fun a => Fin.ext ?_)
  match a with
  | ⟨0, _⟩ => show win2_0.index t (0 : Fin 3) * 8 + 1 * (j 0).val = (j 0).val; rw [e0]; omega
  | ⟨1, _⟩ => show win2_0.index t (1 : Fin 3) * 20 + 1 * (j 1).val = (j 1).val; rw [e1]; omega
  | ⟨2, _⟩ => show win2_0.index t (2 : Fin 3) * 4 + 1 * (j 2).val = (j 2).val; rw [e2]; omega

/-- The input's block at point t, at (0, ch, r, w), is the input at (b, ch, hb·32 + r, w). -/
theorem blk1_apply (t : Fin cfg2.N) (ch : Fin 192) (r : Fin 32) (w : Fin 224) :
    iblk c V 1 t (ix4 (0 : Fin 1) ch r w) = V main_arg0 (ix4 (bOf t) ch (rowOf (hbOf t) r) w) := by
  show V (Pipeline.arrRef spec2 1) (((cfg2.win 1).blk t).view.emb (ix4 (0 : Fin 1) ch r w)) = _
  obtain ⟨_, ⟨e0, e1, e2, e3⟩, _⟩ := idx_facts t
  refine congrArg (V main_arg0) (funext fun a => Fin.ext ?_)
  match a with
  | ⟨0, _⟩ => show win2_1.index t (0 : Fin 4) * 1 + 1 * 0 = (grid2.coords t 0).val; rw [e0]; omega
  | ⟨1, _⟩ => show win2_1.index t (1 : Fin 4) * 192 + 1 * ch.val = ch.val; rw [e1]; omega
  | ⟨2, _⟩ => show win2_1.index t (2 : Fin 4) * 32 + 1 * r.val = (grid2.coords t 1).val * 32 + r.val; rw [e2]; omega
  | ⟨3, _⟩ => show win2_1.index t (3 : Fin 4) * 224 + 1 * w.val = w.val; rw [e3]; omega

/-- The target's block at point t, at (0, ch, r, w), is the target at (b, ch, hb·32 + r, w). -/
theorem blk2_apply (t : Fin cfg2.N) (ch : Fin 192) (r : Fin 32) (w : Fin 224) :
    iblk c V 2 t (ix4 (0 : Fin 1) ch r w) = V main_arg1 (ix4 (bOf t) ch (rowOf (hbOf t) r) w) := by
  show V (Pipeline.arrRef spec2 2) (((cfg2.win 2).blk t).view.emb (ix4 (0 : Fin 1) ch r w)) = _
  obtain ⟨_, _, ⟨e0, e1, e2, e3⟩⟩ := idx_facts t
  refine congrArg (V main_arg1) (funext fun a => Fin.ext ?_)
  match a with
  | ⟨0, _⟩ => show win2_2.index t (0 : Fin 4) * 1 + 1 * 0 = (grid2.coords t 0).val; rw [e0]; omega
  | ⟨1, _⟩ => show win2_2.index t (1 : Fin 4) * 192 + 1 * ch.val = ch.val; rw [e1]; omega
  | ⟨2, _⟩ => show win2_2.index t (2 : Fin 4) * 32 + 1 * r.val = (grid2.coords t 1).val * 32 + r.val; rw [e2]; omega
  | ⟨3, _⟩ => show win2_2.index t (3 : Fin 4) * 224 + 1 * w.val = w.val; rw [e3]; omega

/-! ## One point, then all of them -/

/-- The block's sum of indicator · squared distance at point t, over the arrays the region finds. -/
def blockS (t : Fin cfg2.N) : EReal :=
  ∑ r : Fin 32, ∑ w : Fin 224, pos (V main_arg1) (V main_arg2) (bOf t) (rowOf (hbOf t) r) w * sqd (V main_arg0) (V main_arg1) (bOf t) (rowOf (hbOf t) r) w
/-- The block's number of positive pixels at point t. -/
def blockN (t : Fin cfg2.N) : EReal :=
  ∑ r : Fin 32, ∑ w : Fin 224, pos (V main_arg1) (V main_arg2) (bOf t) (rowOf (hbOf t) r) w

/-- The same, numbered by position, zero past the grid. -/
def termS (k : ℕ) : EReal := if h : k < cfg2.N then blockS c V ⟨k, h⟩ else 0
def termN (k : ℕ) : EReal := if h : k < cfg2.N then blockN c V ⟨k, h⟩ else 0

/-- One point adds its block's sum to the first cell's word, -/
theorem step3 (t : Fin cfg2.N) (old : EReal) :
    acc3 (F := Ideal) (iblk c V 0 t) (iblk c V 1 t) (iblk c V 2 t) (grid2.coords t) old = old + blockS c V t := by
  rw [coords_eq t, blk0_eq]
  exact acc3_eq (V main_arg2) (V main_arg0) (V main_arg1) (iblk c V 1 t) (iblk c V 2 t) (bOf t) (hbOf t) (blk1_apply c V t) (blk2_apply c V t) old
/-- and its block's count to the second's. -/
theorem step4 (t : Fin cfg2.N) (old : EReal) :
    acc4 (F := Ideal) (iblk c V 0 t) (iblk c V 2 t) (grid2.coords t) old = old + blockN c V t := by
  rw [coords_eq t, blk0_eq]
  exact acc4_eq (V main_arg2) (V main_arg1) (iblk c V 2 t) (bOf t) (hbOf t) (blk2_apply c V t) old

/-- THE CELLS AFTER POSITION n: the sums over the blocks of positions 0 … n. -/
theorem cells_eq : ∀ (n : ℕ) (hn : n < cfg2.N),
    cellsAt c V n hn = (fun _ => ∑ k ∈ Finset.range (n + 1), termS c V k, fun _ => ∑ k ∈ Finset.range (n + 1), termN c V k)
  | 0, hn => by
    have hc : cond2 (grid2.coords ⟨0, hn⟩) := (hcond2 ⟨0, hn⟩).mpr rfl
    have hs : start (F := Ideal) (grid2.coords ⟨0, hn⟩) zeroCell = (0 : EReal) := (start_pos hc _).trans Cert.LossSpec.ofBits_zero
    show (out2_3 (iblk c V 0 ⟨0, hn⟩) (iblk c V 1 ⟨0, hn⟩) (iblk c V 2 ⟨0, hn⟩) (grid2.coords ⟨0, hn⟩) zeroCell,
      out2_4 (iblk c V 0 ⟨0, hn⟩) (iblk c V 2 ⟨0, hn⟩) (grid2.coords ⟨0, hn⟩) zeroCell) = _
    unfold out2_3 out2_4
    rw [hs, step3, step4, zero_add, zero_add, Finset.sum_range_one, Finset.sum_range_one]
    unfold termS termN
    rw [dif_pos hn, dif_pos hn]
  | n + 1, hn => by
    have hN : n + 1 < 40 := lt_of_lt_of_eq hn (show cfg2.N = 40 from N_2)
    have hc : ¬ cond2 (grid2.coords ⟨n + 1, hn⟩) := fun h => by
      have := (hcond2 ⟨n + 1, hn⟩).mp h
      dsimp only at this; omega
    have ih := cells_eq n (Nat.lt_of_succ_lt hn)
    show (out2_3 (iblk c V 0 ⟨n + 1, hn⟩) (iblk c V 1 ⟨n + 1, hn⟩) (iblk c V 2 ⟨n + 1, hn⟩) (grid2.coords ⟨n + 1, hn⟩) (cellsAt c V n (Nat.lt_of_succ_lt hn)).1,
      out2_4 (iblk c V 0 ⟨n + 1, hn⟩) (iblk c V 2 ⟨n + 1, hn⟩) (grid2.coords ⟨n + 1, hn⟩) (cellsAt c V n (Nat.lt_of_succ_lt hn)).2) = _
    rw [ih]
    unfold out2_3 out2_4
    rw [start_neg hc, start_neg hc]
    show ((fun _ => acc3 (F := Ideal) _ _ _ _ (∑ k ∈ Finset.range (n + 1), termS c V k)), (fun _ => acc4 (F := Ideal) _ _ _ (∑ k ∈ Finset.range (n + 1), termN c V k))) = _
    rw [step3, step4, Finset.sum_range_succ (termS c V) (n + 1), Finset.sum_range_succ (termN c V) (n + 1)]
    unfold termS termN
    rw [dif_pos hn, dif_pos hn]

/-- THE CELLS AFTER THE LAST POINT: the sums over all forty blocks. -/
theorem cells_last (hn : 39 < cfg2.N) :
    cellsAt c V 39 hn = (fun _ => ∑ t : Fin cfg2.N, blockS c V t, fun _ => ∑ t : Fin cfg2.N, blockN c V t) := by
  rw [cells_eq]
  have hr : Finset.range (39 + 1) = Finset.range cfg2.N := congrArg Finset.range (show 39 + 1 = cfg2.N from (N_2).symm)
  rw [hr, ← Fin.sum_univ_eq_sum_range (termS c V) cfg2.N, ← Fin.sum_univ_eq_sum_range (termN c V) cfg2.N]
  have e1 : ∀ t : Fin cfg2.N, termS c V t.val = blockS c V t := fun t => by unfold termS; rw [dif_pos t.isLt]
  have e2 : ∀ t : Fin cfg2.N, termN c V t.val = blockN c V t := fun t => by unfold termN; rw [dif_pos t.isLt]
  simp only [e1, e2]

/-! ## The points are the pairs (image, row block) -/

/-- Point t is image t / 5, row block t mod 5 — decided over the grid. -/
theorem coords_val : ∀ t : Fin cfg2.N, (grid2.coords t 0).val = t.val / 5 ∧ (grid2.coords t 1).val = t.val % 5 :=
  (by decide +kernel : ∀ t : Fin grid2.N, (grid2.coords t 0).val = t.val / 5 ∧ (grid2.coords t 1).val = t.val % 5)

/-- The points are the pairs (b, hb), in row-major order. -/
def ptEquiv : Fin cfg2.N ≃ Fin 8 × Fin 5 where
  toFun t := (bOf t, hbOf t)
  invFun p := ⟨p.1.val * 5 + p.2.val, by have h1 := p.1.isLt; have h2 := p.2.isLt; rw [show cfg2.N = 40 from N_2]; omega⟩
  left_inv t := by
    apply Fin.ext
    have h := coords_val t
    have hN : t.val < 40 := lt_of_lt_of_eq t.isLt (show cfg2.N = 40 from N_2)
    show (grid2.coords t 0).val * 5 + (grid2.coords t 1).val = t.val
    omega
  right_inv p := by
    obtain ⟨b, hb⟩ := p
    have h1 := b.isLt; have h2 := hb.isLt
    have h := coords_val ⟨b.val * 5 + hb.val, by rw [show cfg2.N = 40 from N_2]; omega⟩
    refine Prod.ext (Fin.ext ?_) (Fin.ext ?_)
    · show (grid2.coords _ 0).val = b.val
      rw [h.1]; show (b.val * 5 + hb.val) / 5 = b.val; omega
    · show (grid2.coords _ 1).val = hb.val
      rw [h.2]; show (b.val * 5 + hb.val) % 5 = hb.val; omega

/-- A sum over the points is the double sum over images and row blocks. -/
theorem sum_points (f : Fin 8 → Fin 5 → EReal) :
    ∑ t : Fin cfg2.N, f (bOf t) (hbOf t) = ∑ b : Fin 8, ∑ hb : Fin 5, f b hb := by
  rw [← Fintype.sum_prod_type' f]
  exact Equiv.sum_comp ptEquiv (fun p : Fin 8 × Fin 5 => f p.1 p.2)

/-- THE CELLS AFTER THE LAST POINT, by image, row block, row within the block and column: the rows below 160 of the
    specification's two sums, over the arrays the region finds. -/
theorem cells_final (hn : 39 < cfg2.N) :
    cellsAt c V 39 hn
      = (fun _ => ∑ b : Fin 8, ∑ hb : Fin 5, ∑ r : Fin 32, ∑ w : Fin 224,
            pos (V main_arg1) (V main_arg2) b (rowOf hb r) w * sqd (V main_arg0) (V main_arg1) b (rowOf hb r) w,
         fun _ => ∑ b : Fin 8, ∑ hb : Fin 5, ∑ r : Fin 32, ∑ w : Fin 224, pos (V main_arg1) (V main_arg2) b (rowOf hb r) w) := by
  rw [cells_last]
  unfold blockS blockN
  rw [sum_points (fun b hb => ∑ r : Fin 32, ∑ w : Fin 224,
      pos (V main_arg1) (V main_arg2) b (rowOf hb r) w * sqd (V main_arg0) (V main_arg1) b (rowOf hb r) w),
    sum_points (fun b hb => ∑ r : Fin 32, ∑ w : Fin 224, pos (V main_arg1) (V main_arg2) b (rowOf hb r) w)]

end Sum

end Cert.KernelIdeal.LossRegion

end
-- ==== Proof.KernelValueI.lean ====
/-
  The kernel's result is the specification's loss.

  After the loss region its two result arrays hold what the last grid point wrote back: the two result cells after
  point 39, the sums over the rows below 160. The straight line after it adds the partial sums the second processor
  left (the rows from 160 on) and forms ((1/2 · S) / N) / 1536. So, when the partial sums add up to those rows of S and
  of N, the kernel's result buffer ends at the specification's loss of the launch's arguments — and so does the
  reference's, under the precondition; the two programs' results agree.
-/
import proofs.«210586_g14980845929080_cont_week2b_1062_66_alg».proof.Proof.LaunchMainVI
import proofs.«210586_g14980845929080_cont_week2b_1062_66_alg».proof.Proof.TailValueI
import proofs.«210586_g14980845929080_cont_week2b_1062_66_alg».proof.Proof.LossRegionSumI
import proofs.«210586_g14980845929080_cont_week2b_1062_66_alg».proof.Proof.PreDecode
import proofs.«210586_g14980845929080_cont_week2b_1062_66_alg».proof.Proof.RefRun
import proofs.«210586_g14980845929080_cont_week2b_1062_66_alg».proof.Defs
import proofs.«210586_g14980845929080_cont_week2b_1062_66_alg».proof.Proof.Gen.Pre_input_domain
import Idealize.ShloMosaic.Lib.Pipeline.Value

set_option maxRecDepth 16384

noncomputable section

open scoped BigOperators

namespace Cert.KernelIdeal.LossRegion

open Cert.KernelIdeal Cert.KernelIdeal.Gen
open Idealize.ShloMosaic Idealize.ShloMosaic.TcCoe Idealize.ShloMosaic.ValueIdx
open Idealize.SL Idealize.SL.RA
open Idealize.ShloMosaic.Pipeline (Dat)

variable {F : FTy → Type} [FloatOps F]
variable {Ix : Type} [DecidableEq Ix] {Name : Type} [DecidableEq Name] {U : Type} [URA U] {Lvl : Type} [Preorder Lvl]

section Last
variable (c : Dev nD) (V : (b : Ref sig .tc) → Buf (Elt F) ((c : Thread nD τ).loc b))
variable (O : CellTallies nD τ sig Ix) (B : Set (SemLoc sig × Ix))

local notation "𝔻" => dats (F := F) (Ix := Ix) (Name := Name) (U := U) (Lvl := Lvl) c V O B

/-- The last grid point. -/
def tLast : Fin cfg2.N := ⟨39, by rw [show cfg2.N = 40 from N_2]; omega⟩

/-- Only the last point writes the first result back. -/
theorem flush3_only (t : Fin cfg2.N) (h : (cfg2.win 3).flush t = true) : t = tLast := by
  have hN : t.val < 40 := lt_of_lt_of_eq t.isLt (show cfg2.N = 40 from N_2)
  have := (flush2_3 t).mp h
  exact Fin.ext (by show t.val = 39; omega)
theorem flush4_only (t : Fin cfg2.N) (h : (cfg2.win 4).flush t = true) : t = tLast := by
  have hN : t.val < 40 := lt_of_lt_of_eq t.isLt (show cfg2.N = 40 from N_2)
  have := (flush2_4 t).mp h
  exact Fin.ext (by show t.val = 39; omega)

/-- After the region the first result array's one word is the first cell's after the last point. -/
theorem arrAt3_last :
    (𝔻).arrAt 3 cfg2.N (ix2 (0 : Fin 1) (0 : Fin 1)) = (cellsAt c V 39 tLast.isLt).1 (ix2 (0 : Fin 1) (0 : Fin 1)) := by
  have he : ((cfg2.win 3).blk tLast).view.emb (ix2 (0 : Fin 1) (0 : Fin 1)) = ix2 (0 : Fin 1) (0 : Fin 1) := by
    funext a; apply Fin.ext
    have h := (cfg2.win 3).rect_emb_val tLast (ix2 (0 : Fin 1) (0 : Fin 1)) a
    match a with
    | ⟨0, _⟩ => exact h.trans (by show win2_3.index tLast (0 : Fin 2) * 1 + 0 = 0; rfl)
    | ⟨1, _⟩ => exact h.trans (by show win2_3.index tLast (1 : Fin 2) * 1 + 0 = 0; rfl)
  have hf := (𝔻).arrAt_emb_eq_flushed 3
    (fun t t' h h' hne => absurd ((flush3_only t h).trans (flush3_only t' h').symm) hne) tLast ((flush2_3 tLast).mpr rfl)
    (ix2 (0 : Fin 1) (0 : Fin 1))
  rw [he, cast_eq] at hf
  rw [hf]
  show (𝔻).after 3 tLast _ = _
  rw [after2_3]
  exact congrArg (cellsAt c V 39 tLast.isLt).1 (funext fun a => by
    match a with
    | ⟨0, _⟩ => exact Subsingleton.elim (α := Fin 1) _ _
    | ⟨1, _⟩ => exact Subsingleton.elim (α := Fin 1) _ _)

/-- And the second's. -/
theorem arrAt4_last :
    (𝔻).arrAt 4 cfg2.N (ix2 (0 : Fin 1) (0 : Fin 1)) = (cellsAt c V 39 tLast.isLt).2 (ix2 (0 : Fin 1) (0 : Fin 1)) := by
  have he : ((cfg2.win 4).blk tLast).view.emb (ix2 (0 : Fin 1) (0 : Fin 1)) = ix2 (0 : Fin 1) (0 : Fin 1) := by
    funext a; apply Fin.ext
    have h := (cfg2.win 4).rect_emb_val tLast (ix2 (0 : Fin 1) (0 : Fin 1)) a
    match a with
    | ⟨0, _⟩ => exact h.trans (by show win2_4.index tLast (0 : Fin 2) * 1 + 0 = 0; rfl)
    | ⟨1, _⟩ => exact h.trans (by show win2_4.index tLast (1 : Fin 2) * 1 + 0 = 0; rfl)
  have hf := (𝔻).arrAt_emb_eq_flushed 4
    (fun t t' h h' hne => absurd ((flush4_only t h).trans (flush4_only t' h').symm) hne) tLast ((flush2_4 tLast).mpr rfl)
    (ix2 (0 : Fin 1) (0 : Fin 1))
  rw [he, cast_eq] at hf
  rw [hf]
  show (𝔻).after 4 tLast _ = _
  rw [after2_4]
  exact congrArg (cellsAt c V 39 tLast.isLt).2 (funext fun a => by
    match a with
    | ⟨0, _⟩ => exact Subsingleton.elim (α := Fin 1) _ _
    | ⟨1, _⟩ => exact Subsingleton.elim (α := Fin 1) _ _)

end Last

end Cert.KernelIdeal.LossRegion

namespace Cert.KernelIdeal.KernelValue

open Cert.KernelIdeal Cert.KernelIdeal.Gen Cert.KernelIdeal.Sc Cert.KernelIdeal.Launch Cert.KernelIdeal.LaunchV
open Cert.KernelIdeal.TailValue Cert.KernelIdeal.LossRegion
open Idealize.ShloMosaic Idealize.ShloMosaic.TcCoe Idealize.ShloMosaic.ValueIdx Idealize.SL.Sem
open Idealize.ShloMosaic.SparseCore.Cfg (HIx Pay)
open Cert.LossSpec

/-- The loss region's two result arrays after it, in the proof data the launch uses: the cells after the last point. -/
theorem dat2_word3 (We : Dev nD → Valuation τ sig (Elt Ideal)) (d : Dev nD) :
    (dat2 We d).arrAt 3 cfg2.N (ix2 (0 : Fin 1) (0 : Fin 1)) = (cellsAt d (Ve We d) 39 tLast.isLt).1 (ix2 (0 : Fin 1) (0 : Fin 1)) :=
  arrAt3_last d (Ve We d) _ _
theorem dat2_word4 (We : Dev nD → Valuation τ sig (Elt Ideal)) (d : Dev nD) :
    (dat2 We d).arrAt 4 cfg2.N (ix2 (0 : Fin 1) (0 : Fin 1)) = (cellsAt d (Ve We d) 39 tLast.isLt).2 (ix2 (0 : Fin 1) (0 : Fin 1)) :=
  arrAt4_last d (Ve We d) _ _

section Result
variable (m : (ℓ : Loc nD τ sig) → Buf (Elt Ideal) ℓ) (pout : (d : Dev nD) → Buf (Elt Ideal) (ScTile.ptLoc d)) (d : Dev nD)

/-- The loss region is entered, after the call, with the three arguments as launched. -/
theorem We_a0 : W3 m (pout d) d a0' = m ((d.tc : Thread nD τ).loc main_arg0) :=
  (Function.update_of_ne (by decide) _ _).trans (W2_a0 m d)
theorem We_a1 : W3 m (pout d) d a1' = m ((d.tc : Thread nD τ).loc main_arg1) :=
  (Function.update_of_ne (by decide) _ _).trans (W2_a1 m d)
theorem We_a2 : W3 m (pout d) d a2' = m ((d.tc : Thread nD τ).loc main_arg2) :=
  (Function.update_of_ne (by decide) _ _).trans (W2_a2 m d)

set_option maxHeartbeats 400000 in
/-- THE KERNEL'S RESULT: when the partial sums the call left add up, over their first sixteen columns, to the rows
    from 160 on of S and, over their last sixteen, to those rows of N, the result buffer ends at the specification's
    loss of the launch's arguments (named x0, x1, x2; Pm names the partial sums). -/
theorem wfin_result (x0 x1 : FVec Ideal SImg .f32) (x2 : IVec SBox 32)
    (hx0 : m ((d.tc : Thread nD τ).loc main_arg0) = x0) (hx1 : m ((d.tc : Thread nD τ).loc main_arg1) = x1)
    (hx2 : m ((d.tc : Thread nD τ).loc main_arg2) = x2)
    (Pm : FVec Ideal S32x32 .f32) (hPm : pout d = Pm)
    (hPS : ∑ a : Fin 32, ∑ j : Fin 16, Pm (ix2 a (colLo j))
      = ∑ b : Fin 8, ∑ h' : Fin 64, ∑ w : Fin 224, pos x1 x2 b (rowHi h') w * sqd x0 x1 b (rowHi h') w)
    (hPN : ∑ a : Fin 32, ∑ j : Fin 16, Pm (ix2 a (colHi j)) = ∑ b : Fin 8, ∑ h' : Fin 64, ∑ w : Fin 224, pos x1 x2 b (rowHi h') w) :
    Wfin m pout d (Proc.devRef .tc main_v13) = fun _ => result x0 x1 x2 := by
  subst hPm
  unfold Wfin
  rw [after_tail]
  have ept : W4 (W3 m (pout d)) d (Proc.devRef .tc main_v1) = pout d :=
    (W4_of_ne (W3 m (pout d)) d main_v1 (by decide)).trans (Function.update_self _ _ _)
  have e3 : W4 (W3 m (pout d)) d (Proc.devRef .tc main_v2_0) = (dat2 (W3 m (pout d)) d).arrAt 3 cfg2.N := W4_arr (W3 m (pout d)) d 3
  have e4 : W4 (W3 m (pout d)) d (Proc.devRef .tc main_v2_1) = (dat2 (W3 m (pout d)) d).arrAt 4 cfg2.N := W4_arr (W3 m (pout d)) d 4
  rw [ept, e3, e4]
  have hc := cells_final d (Ve (W3 m (pout d)) d) tLast.isLt
  have h0 : Ve (W3 m (pout d)) d main_arg0 = x0 := (We_a0 m pout d).trans hx0
  have h1 : Ve (W3 m (pout d)) d main_arg1 = x1 := (We_a1 m pout d).trans hx1
  have h2 : Ve (W3 m (pout d)) d main_arg2 = x2 := (We_a2 m pout d).trans hx2
  rw [h0, h1, h2] at hc
  have hs := dat2_word3 (W3 m (pout d)) d
  have hn := dat2_word4 (W3 m (pout d)) d
  rw [hc] at hs hn
  exact tail_eq_result x0 x1 x2 (pout d) ((dat2 (W3 m (pout d)) d).arrAt 3 cfg2.N) ((dat2 (W3 m (pout d)) d).arrAt 4 cfg2.N) hPS hPN hs hn

/-- The straight line and the loss region leave the three arguments as launched. -/
theorem wfin_a0 : Wfin m pout d a0' = m ((d.tc : Thread nD τ).loc main_arg0) := by
  unfold Wfin; exact ((tail_args _).1).trans (((W4_args _ d).1).trans (We_a0 m pout d))
theorem wfin_a1 : Wfin m pout d a1' = m ((d.tc : Thread nD τ).loc main_arg1) := by
  unfold Wfin; exact ((tail_args _).2.1).trans (((W4_args _ d).2.1).trans (We_a1 m pout d))
theorem wfin_a2 : Wfin m pout d a2' = m ((d.tc : Thread nD τ).loc main_arg2) := by
  unfold Wfin; exact ((tail_args _).2.2).trans (((W4_args _ d).2.2).trans (We_a2 m pout d))

end Result

/-! ## The two programs agree -/

/-- THE ALGEBRAIC CLAIM from a run of the kernel's thread family that names every unscoped buffer's final contents
    (as the value-carrying run of @main does) together with the two facts about the partial sums: the kernel's result
    is the specification's loss of its arguments (the theorem above), the reference's is the same loss of its own (its run, under the
    precondition carried over by the agreement of the arguments). -/
theorem algebraic_of_run
    (hrun : ∀ (m : (ℓ : Loc nD τ sig) → Buf (Elt Ideal) ℓ) (ρ : Dev nD → PrngReg),
      Cert.Pre_KernelIdeal (hPre_input_domain := Cert.Pre_input_domain.Gen.facts) m →
      ∃ (pout : (d : Dev nD) → Buf (Elt Ideal) (ScTile.ptLoc d)) (Pm : Dev nD → FVec Ideal S32x32 .f32),
        θ_run (Cert.KernelIdeal.defs (F := Ideal)) (Cert.KernelIdeal.threads (F := Ideal)) ⟨m, fun _ => 0, ρ⟩
          (fun r => ∀ c : Dev nD, ∀ b ∈ Pipeline.ucRefs τ sig, r.2.mem ((c.tc : Thread nD τ).1, b) = Wfin m pout c b)
        ∧ ∀ d : Dev nD, pout d = Pm d
          ∧ (∑ a : Fin 32, ∑ j : Fin 16, Pm d (ix2 a (colLo j))
              = ∑ b : Fin 8, ∑ h' : Fin 64, ∑ w : Fin 224,
                  pos (m ((d.tc : Thread nD τ).loc main_arg1)) (m ((d.tc : Thread nD τ).loc main_arg2)) b (rowHi h') w
                    * sqd (m ((d.tc : Thread nD τ).loc main_arg0)) (m ((d.tc : Thread nD τ).loc main_arg1)) b (rowHi h') w)
          ∧ (∑ a : Fin 32, ∑ j : Fin 16, Pm d (ix2 a (colHi j))
              = ∑ b : Fin 8, ∑ h' : Fin 64, ∑ w : Fin 224,
                  pos (m ((d.tc : Thread nD τ).loc main_arg1)) (m ((d.tc : Thread nD τ).loc main_arg2)) b (rowHi h') w)) :
    Cert.algebraic_KernelIdeal_ReferenceIdeal (hKernelIdeal := Cert.KernelIdeal.Gen.facts)
      (hReferenceIdeal := Cert.ReferenceIdeal.Gen.facts) (hPre_input_domain := Cert.Pre_input_domain.Gen.facts) := by
  intro m g m' g' hpre hagree
  obtain ⟨pout, Pm, hr, hP⟩ := hrun m g hpre
  refine ⟨fun c => fun _ => result (m ((c.tc : Thread nD τ).loc main_arg0)) (m ((c.tc : Thread nD τ).loc main_arg1))
    (m ((c.tc : Thread nD τ).loc main_arg2)), ?_, ?_⟩
  · refine (θ_run _ _ _).mono (fun r h c => ⟨?_, ?_, ?_, ?_⟩) hr
    · exact (h c (Proc.devRef .tc main_v13) (by decide)).trans (wfin_result m pout c _ _ _ rfl rfl rfl (Pm c) (hP c).1 (hP c).2.1 (hP c).2.2)
    · exact (h c a0' (by decide)).trans (wfin_a0 m pout c)
    · exact (h c a1' (by decide)).trans (wfin_a1 m pout c)
    · exact (h c a2' (by decide)).trans (wfin_a2 m pout c)
  · have hpre' : ∀ c : Dev Cert.ReferenceIdeal.nD,
        Cert.Pre_input_domain.fn (F := Ideal) (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2)) = fun _ => 1#1 := fun c => by
      rw [(hagree c).1, (hagree c).2.1, (hagree c).2.2]; exact hpre c
    refine (θ_run Cert.ReferenceIdeal.defs _ _).mono (fun r h c => ⟨(h c).1.trans ?_, (h c).2⟩) (Cert.RefValue.run_loss m' g' hpre')
    unfold Cert.RefValue.lossOf
    rw [(hagree c).1, (hagree c).2.1, (hagree c).2.2]
    rfl

open Idealize.SL Idealize.SL.RA Idealize.SL.BI in
open scoped Idealize.SL.BI in
open Idealize.SL.BI.BIBase in
open Idealize.ShloMosaic.Rounds in
/-- The same claim from the pieces the value-carrying run of @main takes: for every launch memory meeting the precondition,
    handshake payloads that take the call's four arrays whole and bring them back with the partial sums at named
    contents, the tiles' obligation and split, and the two facts about those contents. -/
theorem algebraic_of
    (H : ∀ (m : (ℓ : Loc nD τ sig) → Buf (Elt Ideal) ℓ) (ρ : Dev nD → PrngReg),
      Cert.Pre_KernelIdeal (hPre_input_domain := Cert.Pre_input_domain.Gen.facts) m →
      ∃ (Pv : (K (F := Ideal)).Pay (nD := nD) (Val := Elt Ideal) (Name := ℕ) (U := UU)) (_ : Pv.IsStorable)
        (pout : (d : Dev nD) → Buf (Elt Ideal) (ScTile.ptLoc d)) (Pm : Dev nD → FVec Ideal S32x32 .f32),
        (∀ d : Dev nD, iprop((ScTile.a0Loc d ↦{fullShare} X0 m d) ∗ (ScTile.a1Loc d ↦{fullShare} X1 m d) ∗ (ScTile.mkLoc d ↦{fullShare} Mk m d) ∗ ScTile.ptLoc d ↦{fullShare} R0 m d)
          ⊢ (bigSep Finset.univ fun c : Fin ((K (F := Ideal)).nCore 0) => Pv.st 0 d c : sProp (MT nD τ sig (HIx 1) (Elt Ideal) ℕ UU ℕ)))
        ∧ (∀ d : Dev nD, (bigSep Finset.univ fun c : Fin ((K (F := Ideal)).nCore 0) => Pv.dn 0 d c : sProp (MT nD τ sig (HIx 1) (Elt Ideal) ℕ UU ℕ))
          ⊢ iprop((ScTile.a0Loc d ↦{fullShare} X0 m d) ∗ (ScTile.a1Loc d ↦{fullShare} X1 m d) ∗ (ScTile.mkLoc d ↦{fullShare} Mk m d) ∗ ScTile.ptLoc d ↦{fullShare} pout d))
        ∧ Pv.x = (fun _ _ => iprop(emp)) ∧ Pv.held = ∅
        ∧ (K (F := Ideal)).TileObl (D (F := Ideal)) 𝒱 Pv v₀ 0 ∧ (K (F := Ideal)).VecSplit Pv 0
        ∧ ∀ d : Dev nD, pout d = Pm d
          ∧ (∑ a : Fin 32, ∑ j : Fin 16, Pm d (ix2 a (colLo j))
              = ∑ b : Fin 8, ∑ h' : Fin 64, ∑ w : Fin 224,
                  pos (m ((d.tc : Thread nD τ).loc main_arg1)) (m ((d.tc : Thread nD τ).loc main_arg2)) b (rowHi h') w
                    * sqd (m ((d.tc : Thread nD τ).loc main_arg0)) (m ((d.tc : Thread nD τ).loc main_arg1)) b (rowHi h') w)
          ∧ (∑ a : Fin 32, ∑ j : Fin 16, Pm d (ix2 a (colHi j))
              = ∑ b : Fin 8, ∑ h' : Fin 64, ∑ w : Fin 224,
                  pos (m ((d.tc : Thread nD τ).loc main_arg1)) (m ((d.tc : Thread nD τ).loc main_arg2)) b (rowHi h') w)) :
    Cert.algebraic_KernelIdeal_ReferenceIdeal (hKernelIdeal := Cert.KernelIdeal.Gen.facts)
      (hReferenceIdeal := Cert.ReferenceIdeal.Gen.facts) (hPre_input_domain := Cert.Pre_input_domain.Gen.facts) :=
  algebraic_of_run fun m ρ hpre => by
    obtain ⟨Pv, inst, pout, Pm, hst, hdn, hx, hheld, htile, hvec, hP⟩ := H m ρ hpre
    exact ⟨pout, Pm, run_main_v m ρ Pv pout hst hdn hx hheld htile hvec, hP⟩

end Cert.KernelIdeal.KernelValue

end
-- ==== Proof.ScTileVRowI.lean ====
/-
  The row loop's invariant with the carried sums named.
-/
import proofs.«210586_g14980845929080_cont_week2b_1062_66_alg».proof.Proof.ScTileDefsI
import proofs.«210586_g14980845929080_cont_week2b_1062_66_alg».proof.Proof.Gen.KernelIdeal.Skeleton
import Idealize.ShloMosaic.Lib.Tactic

set_option warn.classDefReducibility false

noncomputable section

namespace Cert.KernelIdeal.ScTile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ Sc.UU ℕ

local notation "a0V" => (Memref.whole Cert.KernelIdeal.main_arg0_scv : Memref Cert.KernelIdeal.sig Kind.scVector Space.hbm Cert.KernelIdeal.S8x192x224x224 EltTy.f32)
local notation "a1V" => (Memref.whole Cert.KernelIdeal.main_arg1_scv : Memref Cert.KernelIdeal.sig Kind.scVector Space.hbm Cert.KernelIdeal.S8x192x224x224 EltTy.f32)
local notation "mkV" => (Memref.whole Cert.KernelIdeal.main_v0_scv : Memref Cert.KernelIdeal.sig Kind.scVector Space.hbm Cert.KernelIdeal.S8x224x256 EltTy.f32)
local notation "ptV" => (Memref.whole Cert.KernelIdeal.main_v1_scv : Memref Cert.KernelIdeal.sig Kind.scVector Space.hbm Cert.KernelIdeal.S32x32 EltTy.f32)
local notation "b0V" => (Memref.whole Cert.KernelIdeal.cc1_scratch0 : Memref Cert.KernelIdeal.sig Kind.scVector Space.vmem Cert.KernelIdeal.S48x224 EltTy.f32)
local notation "b1V" => (Memref.whole Cert.KernelIdeal.cc1_scratch1 : Memref Cert.KernelIdeal.sig Kind.scVector Space.vmem Cert.KernelIdeal.S48x224 EltTy.f32)
local notation "b2V" => (Memref.whole Cert.KernelIdeal.cc1_scratch2 : Memref Cert.KernelIdeal.sig Kind.scVector Space.vmem Cert.KernelIdeal.S48x224 EltTy.f32)
local notation "b3V" => (Memref.whole Cert.KernelIdeal.cc1_scratch3 : Memref Cert.KernelIdeal.sig Kind.scVector Space.vmem Cert.KernelIdeal.S48x224 EltTy.f32)
local notation "b4V" => (Memref.whole Cert.KernelIdeal.cc1_scratch4 : Memref Cert.KernelIdeal.sig Kind.scVector Space.vmem Cert.KernelIdeal.S8x16x256 EltTy.f32)
local notation "b5V" => (Memref.whole Cert.KernelIdeal.cc1_scratch5 : Memref Cert.KernelIdeal.sig Kind.scVector Space.vmem Cert.KernelIdeal.S7x2x16 EltTy.f32)
local notation "b6V" => (Memref.whole Cert.KernelIdeal.cc1_scratch6 : Memref Cert.KernelIdeal.sig Kind.scVector Space.vmem Cert.KernelIdeal.S7x2x16 EltTy.f32)
local notation "b7V" => (Memref.whole Cert.KernelIdeal.cc1_scratch7 : Memref Cert.KernelIdeal.sig Kind.scVector Space.vmem Cert.KernelIdeal.S32 EltTy.f32)

variable [FloatOps F]

section Tile

variable (X0 : (d : Dev nD) → Buf (Elt F) (a0Loc d)) (X1 : (d : Dev nD) → Buf (Elt F) (a1Loc d))
  (M : (d : Dev nD) → Buf (Elt F) (mkLoc d)) (R0 : (d : Dev nD) → Buf (Elt F) (ptLoc d))
variable (d : Dev nD) (L : grid1.Coords)

/-- The row loop's invariant with the carried sums named: before row `k` they are `sums k`. -/
def rowInvV (sums : ℕ → FVec F S16 .f32 × FVec F S16 .f32) (qa qb : PosShare TreeShare) (d : Dev nD) (L : grid1.Coords) (O : CellTallies nD τ sig (HIx 1)) (W : Waits sig (HIx 1))
    (g4 : Buf (Elt F) ((V d (cV L) (jV L)).loc cc1_scratch4)) (k : ℕ) (acc : FVec F S16 .f32 × FVec F S16 .f32) : sProp 𝕄 :=
  iprop(⌜acc = sums k⌝ ∗ rowInv X0 X1 qa qb d L O W g4 k acc)

end Tile

end Cert.KernelIdeal.ScTile

end
-- ==== Proof.ScTilePVI.lean ====
/-
  The SparseCore call's payloads, carrying values: as the frame's payloads, but what comes back names the result
  array's final contents — one whole-array function, of which each task returns its row and each SparseCore its sixteen
  rows. Since every piece is a part of the same function, the pieces join by the equations that split them.
-/
import proofs.«210586_g14980845929080_cont_week2b_1062_66_alg».proof.Proof.ScTilePI

noncomputable section

namespace Cert.KernelIdeal.ScTile

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareTokN shareDrop pointsTo_toks_split pointsTo_toks_join)

variable {F : FTy → Type}

local notation "𝕄" => MT nD τ sig (HIx 1) (Elt F) ℕ Sc.UU ℕ

section PayV

variable (X0 : (d : Dev nD) → Buf (Elt F) (a0Loc d)) (X1 : (d : Dev nD) → Buf (Elt F) (a1Loc d))
  (M : (d : Dev nD) → Buf (Elt F) (mkLoc d)) (R0 : (d : Dev nD) → Buf (Elt F) (ptLoc d))
  (pout : (d : Dev nD) → Buf (Elt F) (ptLoc d))

/-- What SparseCore `c` hands back: its half of the read-only arrays and its sixteen rows of the result array at the
    final contents. -/
def dnV (d : Dev nD) (c : ℕ) : sProp 𝕄 := iprop(rdPts X0 X1 M d (coreSh c) ∗ ptLoc d ↦[coreRows c]{fullShare} pout d)
/-- What the task on subcore `i` of SparseCore `c` hands back: its token of the read-only arrays and its row at the
    final contents. -/
def tdV (d : Dev nD) (c i : ℕ) : sProp 𝕄 := iprop(rdPts X0 X1 M d (tileSh c i) ∗ ptLoc d ↦[rowSet (wid c i)]{fullShare} pout d)

/-- The one call's payloads, the result array's final contents named. -/
def PV : (Sc.K (F := F)).Pay (nD := nD) (Val := Elt F) (Name := ℕ) (U := Sc.UU) where
  st := fun _ d c => stC X0 X1 M R0 d c.val
  dn := fun _ d c => dnV X0 X1 M pout d c.val
  go := fun _ d c i => goC X0 X1 M R0 d c.val i.val
  td := fun _ d c i => tdV X0 X1 M pout d c.val i.val
  x := fun _ _ => iprop(emp)

instance PV_storable : (PV (F := F) X0 X1 M R0 pout).IsStorable where
  st _ d c := by unfold PV stC; infer_instance
  dn _ d c := by unfold PV dnV; infer_instance
  go _ d c i := by unfold PV goC; infer_instance
  td _ d c i := by unfold PV tdV; infer_instance

theorem PV_st (q : Fin 1) (d : Dev nD) (c : Fin ((Sc.K (F := F)).nCore q)) : (PV X0 X1 M R0 pout).st q d c = stC X0 X1 M R0 d c.val := rfl
theorem PV_dn (q : Fin 1) (d : Dev nD) (c : Fin ((Sc.K (F := F)).nCore q)) : (PV X0 X1 M R0 pout).dn q d c = dnV X0 X1 M pout d c.val := rfl
theorem PV_go (q : Fin 1) (d : Dev nD) (c : Fin ((Sc.K (F := F)).nCore q)) (i : Fin ((Sc.K (F := F)).nSub q)) :
    (PV X0 X1 M R0 pout).go q d c i = goC X0 X1 M R0 d c.val i.val := rfl
theorem PV_td (q : Fin 1) (d : Dev nD) (c : Fin ((Sc.K (F := F)).nCore q)) (i : Fin ((Sc.K (F := F)).nSub q)) :
    (PV X0 X1 M R0 pout).td q d c i = tdV X0 X1 M pout d c.val i.val := rfl
theorem PV_x : (PV X0 X1 M R0 pout).x = fun _ _ => iprop(emp) := rfl
theorem PV_held : (PV X0 X1 M R0 pout).held = ∅ := rfl

/-- What the call takes from the TensorCore: the four arrays whole. -/
theorem stV_intro (d : Dev nD) :
    iprop((a0Loc d ↦{fullShare} X0 d) ∗ (a1Loc d ↦{fullShare} X1 d) ∗ (mkLoc d ↦{fullShare} M d) ∗ ptLoc d ↦{fullShare} R0 d)
      ⊢ (bigSep Finset.univ fun c : Fin ((Sc.K (F := F)).nCore 0) => (PV X0 X1 M R0 pout).st 0 d c : sProp 𝕄) := by
  simp only [PV_st]; rw [cores_eq (F := F) (stC X0 X1 M R0 d)]; unfold stC rdPts
  iintro ⟨H0, H1, Hm, Hp⟩
  ihave H0' := (halves (F := F) _).1 $$ H0; icases H0' with ⟨H0a, H0b⟩
  ihave H1' := (halves (F := F) _).1 $$ H1; icases H1' with ⟨H1a, H1b⟩
  ihave Hm' := (halves (F := F) _).1 $$ Hm; icases Hm' with ⟨Hma, Hmb⟩
  ihave Hp' := (pt_cores (F := F) d _).1 $$ Hp; icases Hp' with ⟨Hpa, Hpb⟩
  isplitl [H0a H1a Hma Hpa]
  · isplitl [H0a H1a Hma]
    · isplitl [H0a]; · iexact H0a
      isplitl [H1a]; · iexact H1a
      iexact Hma
    · iexact Hpa
  · isplitl [H0b H1b Hmb]
    · isplitl [H0b]; · iexact H0b
      isplitl [H1b]; · iexact H1b
      iexact Hmb
    · iexact Hpb

/-- What the call hands back to the TensorCore: the three read-only arrays whole and unchanged, the result array whole at
    the final contents (the two SparseCores' rows are parts of the one function). -/
theorem dnV_elim (d : Dev nD) :
    (bigSep Finset.univ fun c : Fin ((Sc.K (F := F)).nCore 0) => (PV X0 X1 M R0 pout).dn 0 d c : sProp 𝕄)
      ⊢ iprop((a0Loc d ↦{fullShare} X0 d) ∗ (a1Loc d ↦{fullShare} X1 d) ∗ (mkLoc d ↦{fullShare} M d) ∗ ptLoc d ↦{fullShare} pout d) := by
  simp only [PV_dn]; rw [cores_eq (F := F) (dnV X0 X1 M pout d)]; unfold dnV rdPts
  iintro ⟨⟨⟨H0a, H1a, Hma⟩, Hpa⟩, ⟨⟨H0b, H1b, Hmb⟩, Hpb⟩⟩
  isplitl [H0a H0b]
  · iapply (halves (F := F) _).2; isplitl [H0a] <;> iassumption
  isplitl [H1a H1b]
  · iapply (halves (F := F) _).2; isplitl [H1a] <;> iassumption
  isplitl [Hma Hmb]
  · iapply (halves (F := F) _).2; isplitl [Hma] <;> iassumption
  iapply (pt_cores (F := F) d (pout d)).2; isplitl [Hpa] <;> iassumption

/-- A SparseCore's operands dealt to its sixteen tasks (the undealt remainder of each read share kept aside), and their
    results gathered: the sixteen rows at the final contents are the SparseCore's rows at them. -/
theorem vecSplitV [FloatOps F] : (Sc.K (F := F)).VecSplit' (PV X0 X1 M R0 pout) 0 := by
  intro d c
  have hc : c.val < 2 := c.isLt
  simp only [PV_st, PV_dn, PV_go, PV_td]
  show stC X0 X1 M R0 d c.val ⊢ |={Set.univ}=> iprop((bigSep Finset.univ fun i : Fin 16 => goC X0 X1 M R0 d c.val i.val)
      ∗ ((bigSep Finset.univ fun i : Fin 16 => tdV X0 X1 M pout d c.val i.val) -∗ dnV X0 X1 M pout d c.val))
  unfold stC dnV goC tdV rdPts
  rw [bigSep_sep', bigSep_sep', bigSep_sep', bigSep_sep', bigSep_sep', bigSep_sep', pt_tiles (F := F) d c.val hc (R0 d),
    pt_tiles (F := F) d c.val hc (pout d)]
  iintro ⟨⟨H0, H1, Hm⟩, Hp⟩
  ihave H0' := (toks16 (F := F) _ c.val).1 $$ H0; icases H0' with ⟨H0r, H0t⟩
  ihave H1' := (toks16 (F := F) _ c.val).1 $$ H1; icases H1' with ⟨H1r, H1t⟩
  ihave Hm' := (toks16 (F := F) _ c.val).1 $$ Hm; icases Hm' with ⟨Hmr, Hmt⟩
  imodintro
  isplitl [H0t H1t Hmt Hp]
  · isplitl [H0t H1t Hmt]
    · isplitl [H0t]; · iexact H0t
      isplitl [H1t]; · iexact H1t
      iexact Hmt
    · iexact Hp
  iintro ⟨⟨H0t, H1t, Hmt⟩, Hp⟩
  isplitl [H0r H0t H1r H1t Hmr Hmt]
  · isplitl [H0r H0t]
    · iapply (toks16 (F := F) _ c.val).2; isplitl [H0r] <;> iassumption
    isplitl [H1r H1t]
    · iapply (toks16 (F := F) _ c.val).2; isplitl [H1r] <;> iassumption
    · iapply (toks16 (F := F) _ c.val).2; isplitl [Hmr] <;> iassumption
  · iexact Hp

end PayV

end Cert.KernelIdeal.ScTile

end
-- ==== Proof.ScTileVBodyI.lean ====
/-
  The SparseCore kernel's task on one vector subcore, with its result named: as the frame's run of the task, but the
  row loop carries the two running sums by name, so that after the epilogue (the sums stored into the output buffer's two
  halves, the buffer copied out to the task's row) the row's contents are a function of the sums after the last row.
-/
import proofs.«210586_g14980845929080_cont_week2b_1062_66_alg».proof.Proof.ScTileVRowI
import proofs.«210586_g14980845929080_cont_week2b_1062_66_alg».proof.Proof.ScTilePVI
import proofs.«210586_g14980845929080_cont_week2b_1062_66_alg».proof.Proof.Gen.KernelIdeal.Skeleton
import Idealize.ShloMosaic.Lib.Tactic
import Idealize.ShloMosaic.Lib.Pipeline.FrameBody

set_option warn.classDefReducibility false

noncomputable section

namespace Cert.KernelIdeal.ScTile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ Sc.UU ℕ

local notation "a0V" => (Memref.whole Cert.KernelIdeal.main_arg0_scv : Memref Cert.KernelIdeal.sig Kind.scVector Space.hbm Cert.KernelIdeal.S8x192x224x224 EltTy.f32)
local notation "a1V" => (Memref.whole Cert.KernelIdeal.main_arg1_scv : Memref Cert.KernelIdeal.sig Kind.scVector Space.hbm Cert.KernelIdeal.S8x192x224x224 EltTy.f32)
local notation "mkV" => (Memref.whole Cert.KernelIdeal.main_v0_scv : Memref Cert.KernelIdeal.sig Kind.scVector Space.hbm Cert.KernelIdeal.S8x224x256 EltTy.f32)
local notation "ptV" => (Memref.whole Cert.KernelIdeal.main_v1_scv : Memref Cert.KernelIdeal.sig Kind.scVector Space.hbm Cert.KernelIdeal.S32x32 EltTy.f32)
local notation "b0V" => (Memref.whole Cert.KernelIdeal.cc1_scratch0 : Memref Cert.KernelIdeal.sig Kind.scVector Space.vmem Cert.KernelIdeal.S48x224 EltTy.f32)
local notation "b1V" => (Memref.whole Cert.KernelIdeal.cc1_scratch1 : Memref Cert.KernelIdeal.sig Kind.scVector Space.vmem Cert.KernelIdeal.S48x224 EltTy.f32)
local notation "b2V" => (Memref.whole Cert.KernelIdeal.cc1_scratch2 : Memref Cert.KernelIdeal.sig Kind.scVector Space.vmem Cert.KernelIdeal.S48x224 EltTy.f32)
local notation "b3V" => (Memref.whole Cert.KernelIdeal.cc1_scratch3 : Memref Cert.KernelIdeal.sig Kind.scVector Space.vmem Cert.KernelIdeal.S48x224 EltTy.f32)
local notation "b4V" => (Memref.whole Cert.KernelIdeal.cc1_scratch4 : Memref Cert.KernelIdeal.sig Kind.scVector Space.vmem Cert.KernelIdeal.S8x16x256 EltTy.f32)
local notation "b5V" => (Memref.whole Cert.KernelIdeal.cc1_scratch5 : Memref Cert.KernelIdeal.sig Kind.scVector Space.vmem Cert.KernelIdeal.S7x2x16 EltTy.f32)
local notation "b6V" => (Memref.whole Cert.KernelIdeal.cc1_scratch6 : Memref Cert.KernelIdeal.sig Kind.scVector Space.vmem Cert.KernelIdeal.S7x2x16 EltTy.f32)
local notation "b7V" => (Memref.whole Cert.KernelIdeal.cc1_scratch7 : Memref Cert.KernelIdeal.sig Kind.scVector Space.vmem Cert.KernelIdeal.S32 EltTy.f32)

variable [FloatOps F]

section Tile

variable (X0 : (d : Dev nD) → Buf (Elt F) (a0Loc d)) (X1 : (d : Dev nD) → Buf (Elt F) (a1Loc d))
  (M : (d : Dev nD) → Buf (Elt F) (mkLoc d)) (R0 : (d : Dev nD) → Buf (Elt F) (ptLoc d))
variable (d : Dev nD) (L : grid1.Coords)

omit [FloatOps F] in
/-- A buffer held at given contents is held at some contents. -/
theorem pts_someV {ℓ : Loc nD τ sig} (q : PosShare TreeShare) (f : Buf (Elt F) ℓ) :
    (ℓ ↦{q} f : sProp 𝕄) ⊢ iprop(∃ g, ℓ ↦{q} g) := by
  iintro H; iexists f; iexact H

/-- The row of the result array the task writes, as the program slices it. -/
abbrev rowKV (L : grid1.Coords) : Rect S32x32 := Rect.unit (s := S32x32) (k1_off79 L) S1x32.size (k1_off79_inb L)
abbrev outRowV (L : grid1.Coords) : Memref sig .scVector .hbm S32 .f32 := ((ptV).slice (rowKV L) (fun _ => rfl)).squeeze S32 squeezes_S1x32_S32

omit [FloatOps F] in
/-- It is row `2 · subcore + core`. -/
theorem rowKV_eq : rowKV L = row (wid (L 0).val (L 1).val) := by
  unfold rowKV row Rect.part Rect.block
  congr 1 <;> funext a
  · rw [k1_off79_eq]
    match a with
    | 0 =>
      have h0 : (L 0).val < 2 := (L 0).isLt
      have h1 : (L 1).val < 16 := (L 1).isLt
      simp [Shape.partIx, Shape.partSize, wid]; omega
    | 1 => simp [Shape.partIx, Shape.partSize]
  · match a with
    | 0 => simp [Shape.partSize]
    | 1 => simp [Shape.partSize]

omit [FloatOps F] in
theorem set_outRowV : (outRowV L).view.set = rowSet (wid (L 0).val (L 1).val) := by
  show (((ptV).view.slice (rowKV L)).reshape S32 squeezes_S1x32_S32.numel_eq).set = ((ptV).view.slice (row (wid (L 0).val (L 1).val))).set
  rw [View.set_reshape]
  exact rowKV_eq L ▸ rfl

omit [FloatOps F] in
theorem pts_outRowV (f : Buf (Elt F) (ptLoc d)) :
    ((outRowV L).view.loc (V d (cV L) (jV L)) ↦[(outRowV L).view.set]{fullShare} f : sProp 𝕄) = ptLoc d ↦[rowSet (wid (L 0).val (L 1).val)]{fullShare} f := by
  rw [set_outRowV]

/-! ## What the task leaves in its row -/

/-- The output buffer after the epilogue's two stores: the first sum's word in lanes 0 … 15, the second's in lanes
    16 … 31 (the stores, last first; together they cover the 32 lanes). -/
def outVec (sums : ℕ → FVec F S16 .f32 × FVec F S16 .f32) : FVec F S32 .f32 :=
  View.canon ([⟨Rect.unit (s := S32) ![16] S16.size inb_S32_S16_16, k1_pay834 (sums 16).2⟩,
    ⟨Rect.unit (s := S32) ![0] S16.size inb_S32_S16_0, k1_pay833 (sums 16).1⟩] : List (View.Piece (Elt F) S32 .f32))

/-- The task's row after it: the output buffer copied over the row, the rest of the array as the task found it. -/
def foutV (sums : ℕ → FVec F S16 .f32 × FVec F S16 .f32) : Buf (Elt F) (ptLoc d) :=
  (outRowV L).view.writes (Elt F) (R0 d) [⟨Rect.whole S32, outVec sums⟩]

/-- What the copy reads of the output buffer after the two stores, whatever the buffer held before. -/
theorem payload_eq (sums : ℕ → FVec F S16 .f32 × FVec F S16 .f32) (f7 : (b7V).view.ty.Contents (Elt F)) :
    ReadAs.same.apply ((b7V).view.read (Elt F) ((b7V).view.writes (Elt F) f7
      [⟨Rect.unit (s := S32) ![16] S16.size inb_S32_S16_16, k1_pay834 (sums (Scf.trips k1_t1_loop.lb k1_t1_loop.ub k1_t1_loop.st)).2⟩,
        ⟨Rect.unit (s := S32) ![0] S16.size inb_S32_S16_0, k1_pay833 (sums (Scf.trips k1_t1_loop.lb k1_t1_loop.ub k1_t1_loop.st)).1⟩]))
      = outVec sums := by
  rw [show Scf.trips k1_t1_loop.lb k1_t1_loop.ub k1_t1_loop.st = 16 from trips16]
  unfold outVec
  exact View.read_writes_eq_canon _ _ _ (View.cover_of_tiled _ S16.size (by rfl))

omit [FloatOps F] in
/-- The row written with equal payloads. -/
theorem row_congr (f : Buf (Elt F) (ptLoc d)) (v v' : FVec F S32 .f32) (h : v = v') :
    ((outRowV L).view.loc (V d (cV L) (jV L)) ↦[(outRowV L).view.set]{fullShare} (outRowV L).view.writes (Elt F) f [⟨Rect.whole S32, v⟩] : sProp 𝕄)
      ⊢ (outRowV L).view.loc (V d (cV L) (jV L)) ↦[(outRowV L).view.set]{fullShare} (outRowV L).view.writes (Elt F) f [⟨Rect.whole S32, v'⟩] := by
  subst h; iintro H; iexact H

/-! ## The task, its row named -/

set_option maxHeartbeats 4000000 in
/-- The task on vector subcore (L 0, L 1) of device d, the row loop carrying its sums by name: it hands back its tokens
    and its row at `foutV` of the sums after the last row. -/
theorem tile_bodyV (hF : (Sc.K (F := F)).Facts) (O : CellTallies nD τ sig (HIx 1)) (W : Waits sig (HIx 1)) (hO : ∀ g, O g none = 0)
    (sums : ℕ → FVec F S16 .f32 × FVec F S16 .f32) (h0 : sums 0 = (k1_pay828 (F := F), k1_pay828 (F := F)))
    (hrow : ∀ (qa qb : PosShare TreeShare) (g4 : Buf (Elt F) ((V d (cV L) (jV L)).loc cc1_scratch4)) (v3 v23 : BitVec 32) (v24 v25 : FVec F S16 .f32)
      (k : Fin k1_t1_loop.trips) (acc : FVec F S16 .f32 × FVec F S16 .f32),
      rowInvV X0 X1 sums qa qb d L O W g4 k.val acc
        ⊢ wp frame (wpE (defs₀ (F := F)) Sc.𝒱₀ (V d (cV L) (jV L)) none) Set.univ
            (k1_t1_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 v3 v23 v24 v25 k acc)
            (rowInvV X0 X1 sums qa qb d L O W g4 (k.val + 1))) :
    iprop(levAts (Sc.K (F := F)).L (Sc.K (F := F)).lev ∗ emp ∗ goC X0 X1 M R0 d (L 0).val (L 1).val
        ∗ scopedBufs (V d (cV L) (jV L)) ∗ scopedSems0 (V d (cV L) (jV L)) ∗ owes (V d (cV L) (jV L)) O W)
      ⊢ wp frame (wpE (defs₀ (F := F)) Sc.𝒱₀ (V d (cV L) (jV L)) none) Set.univ
          (cc1__sc_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1)
          fun _ => iprop((rdPts X0 X1 M d (tileSh (L 0).val (L 1).val) ∗ ptLoc d ↦[rowSet (wid (L 0).val (L 1).val)]{fullShare} foutV R0 d L sums)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_body_eq_skeleton]; unfold cc1__sc_body_skel
  rw [(Sc.K (F := F)).scopedBufs_V hF d (cV L) (jV L), SparseCore.Cfg.scopedSems0_V (Val := Elt F) d (cV L) (jV L), ownSems0_V, ownBufs_V]
  unfold goC rdPts
  iintro ⟨#Hlv, -, ⟨⟨H0, H1, Hm⟩, Hp⟩, ⟨⟨%f0, Hb0⟩, ⟨%f1, Hb1⟩, ⟨%f2, Hb2⟩, ⟨%f3, Hb3⟩, ⟨%f4, Hb4⟩, ⟨%f5, Hb5⟩, ⟨%f6, Hb6⟩, ⟨%f7, Hb7⟩, Hbufs⟩,
    ⟨Hs8, Hs9, Hs10, Hs11, Hc0, Hc1, Hsems⟩, HO⟩
  ihave Hmw := ((Sc.K (F := F)).mayWaits_none (thr := V d (cV L) (jV L)) hO) $$ Hlv
  ihave H0 := (Entails.of_eq (pts_a0 (F := F) d (cV L) (jV L) _ _).symm) $$ H0
  ihave H1 := (Entails.of_eq (pts_a1 (F := F) d (cV L) (jV L) _ _).symm) $$ H1
  ihave Hm := (Entails.of_eq (pts_mk (F := F) d (cV L) (jV L) _ _).symm) $$ Hm
  ihave Hb0 := (Entails.of_eq (pts_b0 (F := F) d (cV L) (jV L) _).symm) $$ Hb0
  ihave Hb1 := (Entails.of_eq (pts_b1 (F := F) d (cV L) (jV L) _).symm) $$ Hb1
  ihave Hb2 := (Entails.of_eq (pts_b2 (F := F) d (cV L) (jV L) _).symm) $$ Hb2
  ihave Hb3 := (Entails.of_eq (pts_b3 (F := F) d (cV L) (jV L) _).symm) $$ Hb3
  ihave Hb4 := (Entails.of_eq (pts_b4 (F := F) d (cV L) (jV L) _).symm) $$ Hb4
  ihave Hb5 := (Entails.of_eq (pts_b5 (F := F) d (cV L) (jV L) _).symm) $$ Hb5
  ihave Hb6 := (Entails.of_eq (pts_b6 (F := F) d (cV L) (jV L) _).symm) $$ Hb6
  ihave Hb7 := (Entails.of_eq (pts_b7 (F := F) d (cV L) (jV L) _).symm) $$ Hb7
  ihave H0' := (pointsTo_share (PosShare.mem_left_op_right _)).1 $$ H0
  icases H0' with ⟨H0a, H0b⟩
  ihave H1' := (pointsTo_share (PosShare.mem_left_op_right _)).1 $$ H1
  icases H1' with ⟨H1a, H1b⟩
  sl_exec
  ihave Hb4 := (pts_someV (F := F) _ _) $$ Hb4
  icases Hb4 with ⟨%g4, Hb4⟩
  sl_for (rowInvV X0 X1 sums (tileSh (L 0).val (L 1).val).left (tileSh (L 0).val (L 1).val).right d L O W g4) $$ [Hmw Hb4 Hb5 Hb6 Hs8 H0a Hs9 H1a Hs10 H0b Hs11 H1b HO]
  case region => intro k acc; exact hrow _ _ g4 _ _ _ _ k acc
  · unfold rowInvV rowInv rowFly
    rw [if_pos (by decide)]
    have hW7 : ∀ p ∈ insert ((SemLoc.dma (⟨7, by decide⟩ : DmaSem sig), (default : HIx 1))) W, p ∈ W ∨ p.2 = none := by
      intro p hp
      rcases Finset.mem_insert.mp hp with rfl | h
      · exact Or.inr rfl
      · exact Or.inl h
    isplitr
    · ipureintro; exact h0.symm
    sl_close
  iintro %acc HI
  unfold rowInvV rowInv
  rw [if_neg (by rw [show Scf.trips k1_t1_loop.lb k1_t1_loop.ub k1_t1_loop.st = 16 from trips16]; decide)]
  unfold rowIdle
  icases HI with ⟨%hacc, -, Hb4, ⟨%g5, Hb5⟩, ⟨%g6, Hb6⟩, ⟨⟨%g0, Hb0⟩, ⟨%g1, Hb1⟩, ⟨%g2, Hb2⟩, ⟨%g3, Hb3⟩, Hs8, Hs9, Hs10, Hs11, H0a, H1a, H0b, H1b⟩, %W', %hW', HO⟩
  subst hacc
  ihave Hp := (Entails.of_eq (pts_outRowV (F := F) d L _).symm) $$ Hp
  sl_exec
  sl_step
  isplitl [H0a H0b H1a H1b Hm Hp]
  · isplitl [H0a H0b H1a H1b Hm]
    · isplitl [H0a H0b]
      · iapply (Entails.of_eq (pts_a0 (F := F) d (cV L) (jV L) _ _))
        iapply (pointsTo_share (PosShare.mem_left_op_right _)).2
        isplitl [H0a]
        · iexact H0a
        · iexact H0b
      isplitl [H1a H1b]
      · iapply (Entails.of_eq (pts_a1 (F := F) d (cV L) (jV L) _ _))
        iapply (pointsTo_share (PosShare.mem_left_op_right _)).2
        isplitl [H1a]
        · iexact H1a
        · iexact H1b
      · iapply (Entails.of_eq (pts_mk (F := F) d (cV L) (jV L) _ _))
        iexact Hm
    · iapply (Entails.of_eq (pts_outRowV (F := F) d L _))
      unfold foutV
      iapply (row_congr (F := F) d L (R0 d) _ (outVec sums) (payload_eq sums f7))
      iexact Hp
  isplitl [Hb0 Hb1 Hb2 Hb3 Hb4 Hb5 Hb6 Hb7 Hbufs]
  · isplitl [Hb0]; · iexists _; iexact Hb0
    isplitl [Hb1]; · iexists _; iexact Hb1
    isplitl [Hb2]; · iexists _; iexact Hb2
    isplitl [Hb3]; · iexists _; iexact Hb3
    isplitl [Hb4]; · iexists _; iexact Hb4
    isplitl [Hb5]; · iexists _; iexact Hb5
    isplitl [Hb6]; · iexists _; iexact Hb6
    isplitl [Hb7]; · iexists _; iexact Hb7
    iexact Hbufs
  isplitl [Hs8 Hs9 Hs10 Hs11 Hc0 Hc1 Hsems]
  · isplitl [Hs8]; · iexact Hs8
    isplitl [Hs9]; · iexact Hs9
    isplitl [Hs10]; · iexact Hs10
    isplitl [Hs11]; · iexact Hs11
    isplitl [Hc0]; · iexact Hc0
    isplitl [Hc1]; · iexact Hc1
    iexact Hsems
  iexists _
  isplitr
  swap
  · iexact HO
  ipureintro
  intro p hp
  rcases Finset.mem_insert.mp hp with rfl | h
  · exact Or.inr rfl
  · exact hW' p h

/-- The task's run with its row's final contents, as one package. -/
def tile_runV (hF : (Sc.K (F := F)).Facts) (O : CellTallies nD τ sig (HIx 1)) (W : Waits sig (HIx 1)) (hO : ∀ g, O g none = 0)
    (sums : ℕ → FVec F S16 .f32 × FVec F S16 .f32) (h0 : sums 0 = (k1_pay828 (F := F), k1_pay828 (F := F)))
    (hrow : ∀ (qa qb : PosShare TreeShare) (g4 : Buf (Elt F) ((V d (cV L) (jV L)).loc cc1_scratch4)) (v3 v23 : BitVec 32) (v24 v25 : FVec F S16 .f32)
      (k : Fin k1_t1_loop.trips) (acc : FVec F S16 .f32 × FVec F S16 .f32),
      rowInvV X0 X1 sums qa qb d L O W g4 k.val acc
        ⊢ wp frame (wpE (defs₀ (F := F)) Sc.𝒱₀ (V d (cV L) (jV L)) none) Set.univ
            (k1_t1_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 v3 v23 v24 v25 k acc)
            (rowInvV X0 X1 sums qa qb d L O W g4 (k.val + 1))) :
    Σ' (fout : Buf (Elt F) (ptLoc d)), PLift (iprop(levAts (Sc.K (F := F)).L (Sc.K (F := F)).lev ∗ emp ∗ goC X0 X1 M R0 d (L 0).val (L 1).val
        ∗ scopedBufs (V d (cV L) (jV L)) ∗ scopedSems0 (V d (cV L) (jV L)) ∗ owes (V d (cV L) (jV L)) O W)
      ⊢ wp frame (wpE (defs₀ (F := F)) Sc.𝒱₀ (V d (cV L) (jV L)) none) Set.univ
          (cc1__sc_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1)
          fun _ => iprop((rdPts X0 X1 M d (tileSh (L 0).val (L 1).val) ∗ ptLoc d ↦[rowSet (wid (L 0).val (L 1).val)]{fullShare} fout)
            ∗ scopedBufs (V d (cV L) (jV L)) ∗ scopedSems0 (V d (cV L) (jV L))
            ∗ ∃ W', ⌜∀ p ∈ W', p ∈ W ∨ p.2 = none⌝ ∗ owes (V d (cV L) (jV L)) O W')) :=
  ⟨foutV R0 d L sums, ⟨tile_bodyV X0 X1 M R0 d L hF O W hO sums h0 hrow⟩⟩

end Tile

end Cert.KernelIdeal.ScTile

end
-- ==== Proof.ScTileVLaneI.lean ====
/-
  The task's row, lane by lane: lanes 0 … 15 of row 2 · subcore + core of the result array hold the first running sum's
  word after the last row, lanes 16 … 31 the second's.
-/
import proofs.«210586_g14980845929080_cont_week2b_1062_66_alg».proof.Proof.ScTileVBodyI
import Idealize.ShloMosaic.Lib.ValueIdx
import Idealize.ShloMosaic.Lib.ValueLayout
import Idealize.ShloMosaic.Lib.Tactic

set_option warn.classDefReducibility false

noncomputable section

namespace Cert.KernelIdeal.ScTile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ Sc.UU ℕ

local notation "a0V" => (Memref.whole Cert.KernelIdeal.main_arg0_scv : Memref Cert.KernelIdeal.sig Kind.scVector Space.hbm Cert.KernelIdeal.S8x192x224x224 EltTy.f32)
local notation "a1V" => (Memref.whole Cert.KernelIdeal.main_arg1_scv : Memref Cert.KernelIdeal.sig Kind.scVector Space.hbm Cert.KernelIdeal.S8x192x224x224 EltTy.f32)
local notation "mkV" => (Memref.whole Cert.KernelIdeal.main_v0_scv : Memref Cert.KernelIdeal.sig Kind.scVector Space.hbm Cert.KernelIdeal.S8x224x256 EltTy.f32)
local notation "ptV" => (Memref.whole Cert.KernelIdeal.main_v1_scv : Memref Cert.KernelIdeal.sig Kind.scVector Space.hbm Cert.KernelIdeal.S32x32 EltTy.f32)
local notation "b0V" => (Memref.whole Cert.KernelIdeal.cc1_scratch0 : Memref Cert.KernelIdeal.sig Kind.scVector Space.vmem Cert.KernelIdeal.S48x224 EltTy.f32)
local notation "b1V" => (Memref.whole Cert.KernelIdeal.cc1_scratch1 : Memref Cert.KernelIdeal.sig Kind.scVector Space.vmem Cert.KernelIdeal.S48x224 EltTy.f32)
local notation "b2V" => (Memref.whole Cert.KernelIdeal.cc1_scratch2 : Memref Cert.KernelIdeal.sig Kind.scVector Space.vmem Cert.KernelIdeal.S48x224 EltTy.f32)
local notation "b3V" => (Memref.whole Cert.KernelIdeal.cc1_scratch3 : Memref Cert.KernelIdeal.sig Kind.scVector Space.vmem Cert.KernelIdeal.S48x224 EltTy.f32)
local notation "b4V" => (Memref.whole Cert.KernelIdeal.cc1_scratch4 : Memref Cert.KernelIdeal.sig Kind.scVector Space.vmem Cert.KernelIdeal.S8x16x256 EltTy.f32)
local notation "b5V" => (Memref.whole Cert.KernelIdeal.cc1_scratch5 : Memref Cert.KernelIdeal.sig Kind.scVector Space.vmem Cert.KernelIdeal.S7x2x16 EltTy.f32)
local notation "b6V" => (Memref.whole Cert.KernelIdeal.cc1_scratch6 : Memref Cert.KernelIdeal.sig Kind.scVector Space.vmem Cert.KernelIdeal.S7x2x16 EltTy.f32)
local notation "b7V" => (Memref.whole Cert.KernelIdeal.cc1_scratch7 : Memref Cert.KernelIdeal.sig Kind.scVector Space.vmem Cert.KernelIdeal.S32 EltTy.f32)

variable [FloatOps F]

open Idealize.ShloMosaic.ValueIdx

section Lanes

variable (R0 : (d : Dev nD) → Buf (Elt F) (ptLoc d)) (d : Dev nD) (L : grid1.Coords)
  (sums : ℕ → FVec F S16 .f32 × FVec F S16 .f32)

/-- The row read back through its own view is the output buffer. -/
theorem read_foutV : (outRowV L).view.read (Elt F) (foutV R0 d L sums) = outVec sums := by
  unfold foutV
  refine (View.read_writes_eq_canon _ _ _ (fun y => ⟨_, List.mem_singleton_self _, by rw [Rect.set_whole]; exact Finset.mem_univ y⟩)).trans ?_
  funext y
  have e := View.canon_cons_emb (Val := Elt F) (e := .f32) (Rect.whole S32) (outVec sums) [] y
  rw [Rect.emb_whole_apply] at e
  exact e

omit [FloatOps F] in
/-- Lane j of the task's row sits at (2 · subcore + core, j) of the result array. -/
theorem emb_outRowV (j : Fin 32) :
    (outRowV L).view.emb (ix1 j) = (ix2 (wid (L 0).val (L 1).val) j : S32x32.Idx) := by
  have hre : Shape.reshapeEquiv squeezes_S1x32_S32.numel_eq (ix1 j) = (ix2 (0 : Fin 1) j : S1x32.Idx) :=
    Shape.reshapeEquiv_eq_of_rowMajor _ (by
      rw [Shape.rowMajor_val_two, Shape.rowMajor_val_one]
      show 0 * 32 + j.val = j.val
      omega)
  show (ptV).view.emb ((rowKV L).emb (Shape.reshapeEquiv squeezes_S1x32_S32.numel_eq (ix1 j))) = _
  rw [hre]
  have h0 : (L 0).val < 2 := (L 0).isLt
  have h1 : (L 1).val < 16 := (L 1).isLt
  funext a; apply Fin.ext
  match a with
  | ⟨0, _⟩ =>
    show k1_off79 L 0 + 1 * 0 = (2 * (L 1).val + (L 0).val) % 32
    rw [k1_off79_eq]
    show 2 * (L 1).val + (L 0).val + 1 * 0 = _
    omega
  | ⟨1, _⟩ =>
    show k1_off79 L 1 + 1 * j.val = j.val
    rw [k1_off79_eq]
    show 0 + 1 * j.val = j.val
    omega

/-- The row's lane j is the output buffer's lane j. -/
theorem foutV_apply (j : Fin 32) :
    foutV R0 d L sums (ix2 (wid (L 0).val (L 1).val) j) = outVec sums (ix1 j) := by
  have h := congrFun (read_foutV R0 d L sums) (ix1 j)
  rw [View.read_apply, cast_eq, emb_outRowV] at h
  exact h

/-- The output buffer's first sixteen lanes hold the first sum's word, -/
theorem outVec_lo (j : Fin 16) :
    outVec sums (ix1 (⟨j.val, by have := j.isLt; omega⟩ : Fin 32)) = k1_pay833 (sums 16).1 (ix1 j) := by
  have he : (Rect.unit (s := S32) ![0] S16.size inb_S32_S16_0).emb (ix1 j) = (ix1 (⟨j.val, by have := j.isLt; omega⟩ : Fin 32) : S32.Idx) := by
    funext a; apply Fin.ext
    match a with
    | ⟨0, _⟩ => show 0 + 1 * j.val = j.val; omega
  rw [← he]
  unfold outVec
  rw [View.canon_cons_of_not_mem _ _ (by
    rw [Rect.mem_set_unit]
    intro hm
    have := (hm (0 : Fin 1)).1
    change 16 ≤ 0 + 1 * j.val at this
    have hj := j.isLt
    omega)]
  exact View.canon_cons_emb (Val := Elt F) (e := .f32) (Rect.unit (s := S32) ![0] S16.size inb_S32_S16_0) (k1_pay833 (sums 16).1) [] (ix1 j)

/-- its last sixteen the second's. -/
theorem outVec_hi (j : Fin 16) :
    outVec sums (ix1 (⟨16 + j.val, by have := j.isLt; omega⟩ : Fin 32)) = k1_pay834 (sums 16).2 (ix1 j) := by
  have he : (Rect.unit (s := S32) ![16] S16.size inb_S32_S16_16).emb (ix1 j) = (ix1 (⟨16 + j.val, by have := j.isLt; omega⟩ : Fin 32) : S32.Idx) := by
    funext a; apply Fin.ext
    match a with
    | ⟨0, _⟩ => show 16 + 1 * j.val = 16 + j.val; omega
  rw [← he]
  unfold outVec
  exact View.canon_cons_emb (Val := Elt F) (e := .f32) (Rect.unit (s := S32) ![16] S16.size inb_S32_S16_16) (k1_pay834 (sums 16).2) _ (ix1 j)

/-- THE ROW, LANE BY LANE: lanes 0 … 15 of the task's row hold the first running sum's word after the last row, -/
theorem foutV_lo (j : Fin 16) :
    foutV R0 d L sums (ix2 (wid (L 0).val (L 1).val) (⟨j.val, by have := j.isLt; omega⟩ : Fin 32)) = k1_pay833 (sums 16).1 (ix1 j) :=
  (foutV_apply R0 d L sums _).trans (outVec_lo sums j)
/-- lanes 16 … 31 the second's. -/
theorem foutV_hi (j : Fin 16) :
    foutV R0 d L sums (ix2 (wid (L 0).val (L 1).val) (⟨16 + j.val, by have := j.isLt; omega⟩ : Fin 32)) = k1_pay834 (sums 16).2 (ix1 j) :=
  (foutV_apply R0 d L sums _).trans (outVec_hi sums j)

end Lanes

end Cert.KernelIdeal.ScTile

end
-- ==== Proof.ScTileVPoutI.lean ====
/-
  From the task's row to the result array's final contents: a whole-array function that, on the task's row, holds the
  task's output buffer can stand for what the task wrote, since the task owns only that row.
-/
import proofs.«210586_g14980845929080_cont_week2b_1062_66_alg».proof.Proof.ScTileVLaneI
import Idealize.ShloMosaic.Lib.Tactic

set_option warn.classDefReducibility false

noncomputable section

namespace Cert.KernelIdeal.ScTile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ Sc.UU ℕ

local notation "a0V" => (Memref.whole Cert.KernelIdeal.main_arg0_scv : Memref Cert.KernelIdeal.sig Kind.scVector Space.hbm Cert.KernelIdeal.S8x192x224x224 EltTy.f32)
local notation "a1V" => (Memref.whole Cert.KernelIdeal.main_arg1_scv : Memref Cert.KernelIdeal.sig Kind.scVector Space.hbm Cert.KernelIdeal.S8x192x224x224 EltTy.f32)
local notation "mkV" => (Memref.whole Cert.KernelIdeal.main_v0_scv : Memref Cert.KernelIdeal.sig Kind.scVector Space.hbm Cert.KernelIdeal.S8x224x256 EltTy.f32)
local notation "ptV" => (Memref.whole Cert.KernelIdeal.main_v1_scv : Memref Cert.KernelIdeal.sig Kind.scVector Space.hbm Cert.KernelIdeal.S32x32 EltTy.f32)
local notation "b0V" => (Memref.whole Cert.KernelIdeal.cc1_scratch0 : Memref Cert.KernelIdeal.sig Kind.scVector Space.vmem Cert.KernelIdeal.S48x224 EltTy.f32)
local notation "b1V" => (Memref.whole Cert.KernelIdeal.cc1_scratch1 : Memref Cert.KernelIdeal.sig Kind.scVector Space.vmem Cert.KernelIdeal.S48x224 EltTy.f32)
local notation "b2V" => (Memref.whole Cert.KernelIdeal.cc1_scratch2 : Memref Cert.KernelIdeal.sig Kind.scVector Space.vmem Cert.KernelIdeal.S48x224 EltTy.f32)
local notation "b3V" => (Memref.whole Cert.KernelIdeal.cc1_scratch3 : Memref Cert.KernelIdeal.sig Kind.scVector Space.vmem Cert.KernelIdeal.S48x224 EltTy.f32)
local notation "b4V" => (Memref.whole Cert.KernelIdeal.cc1_scratch4 : Memref Cert.KernelIdeal.sig Kind.scVector Space.vmem Cert.KernelIdeal.S8x16x256 EltTy.f32)
local notation "b5V" => (Memref.whole Cert.KernelIdeal.cc1_scratch5 : Memref Cert.KernelIdeal.sig Kind.scVector Space.vmem Cert.KernelIdeal.S7x2x16 EltTy.f32)
local notation "b6V" => (Memref.whole Cert.KernelIdeal.cc1_scratch6 : Memref Cert.KernelIdeal.sig Kind.scVector Space.vmem Cert.KernelIdeal.S7x2x16 EltTy.f32)
local notation "b7V" => (Memref.whole Cert.KernelIdeal.cc1_scratch7 : Memref Cert.KernelIdeal.sig Kind.scVector Space.vmem Cert.KernelIdeal.S32 EltTy.f32)

variable [FloatOps F]

open Idealize.ShloMosaic.ValueIdx

section Pout

variable (X0 : (d : Dev nD) → Buf (Elt F) (a0Loc d)) (X1 : (d : Dev nD) → Buf (Elt F) (a1Loc d))
  (M : (d : Dev nD) → Buf (Elt F) (mkLoc d)) (R0 : (d : Dev nD) → Buf (Elt F) (ptLoc d))
  (pout : (d : Dev nD) → Buf (Elt F) (ptLoc d))
variable (d : Dev nD) (L : grid1.Coords) (sums : ℕ → FVec F S16 .f32 × FVec F S16 .f32)

omit [FloatOps F] in
/-- An element of the task's row is a lane of it. -/
theorem exists_lane_of_mem {i : S32x32.Idx} (hi : i ∈ rowSet (wid (L 0).val (L 1).val)) :
    ∃ j : Fin 32, i = ix2 (wid (L 0).val (L 1).val) j := by
  rw [← set_outRowV L] at hi
  obtain ⟨y, -, hy⟩ := Finset.mem_map.mp hi
  have hy1 : y = (ix1 (⟨(y 0).val, (y 0).isLt⟩ : Fin 32) : S32.Idx) := funext fun a => by match a with | ⟨0, _⟩ => rfl
  exact ⟨⟨(y 0).val, (y 0).isLt⟩, hy.symm.trans ((congrArg (outRowV L).view.emb hy1).trans (emb_outRowV L _))⟩

/-- On the task's row, contents that hold the task's output buffer there are what the task wrote. -/
theorem row_eq_pout (hpout : ∀ j : Fin 32, (pout d : S32x32.Idx → Elt F .f32) (ix2 (wid (L 0).val (L 1).val) j) = outVec sums (ix1 j)) :
    (ptLoc d ↦[rowSet (wid (L 0).val (L 1).val)]{fullShare} foutV R0 d L sums : sProp 𝕄)
      = ptLoc d ↦[rowSet (wid (L 0).val (L 1).val)]{fullShare} pout d := by
  refine pointsTo_congr fun i hi => ?_
  obtain ⟨j, rfl⟩ := exists_lane_of_mem L hi
  exact (foutV_apply R0 d L sums j).trans (hpout j).symm

/-- THE TASK WITH THE VALUE-CARRYING PAYLOAD'S POST: for a whole-array function `pout d` that holds the task's output
    buffer on the task's row, the task hands back `tdV` — its tokens and its row at `pout d`. -/
theorem tile_bodyPV (hF : (Sc.K (F := F)).Facts) (O : CellTallies nD τ sig (HIx 1)) (W : Waits sig (HIx 1)) (hO : ∀ g, O g none = 0)
    (h0 : sums 0 = (k1_pay828 (F := F), k1_pay828 (F := F)))
    (hrow : ∀ (qa qb : PosShare TreeShare) (g4 : Buf (Elt F) ((V d (cV L) (jV L)).loc cc1_scratch4)) (v3 v23 : BitVec 32) (v24 v25 : FVec F S16 .f32)
      (k : Fin k1_t1_loop.trips) (acc : FVec F S16 .f32 × FVec F S16 .f32),
      rowInvV X0 X1 sums qa qb d L O W g4 k.val acc
        ⊢ wp frame (wpE (defs₀ (F := F)) Sc.𝒱₀ (V d (cV L) (jV L)) none) Set.univ
            (k1_t1_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 v3 v23 v24 v25 k acc)
            (rowInvV X0 X1 sums qa qb d L O W g4 (k.val + 1)))
    (hpout : ∀ j : Fin 32, (pout d : S32x32.Idx → Elt F .f32) (ix2 (wid (L 0).val (L 1).val) j) = outVec sums (ix1 j)) :
    iprop(levAts (Sc.K (F := F)).L (Sc.K (F := F)).lev ∗ emp ∗ goC X0 X1 M R0 d (L 0).val (L 1).val
        ∗ scopedBufs (V d (cV L) (jV L)) ∗ scopedSems0 (V d (cV L) (jV L)) ∗ owes (V d (cV L) (jV L)) O W)
      ⊢ wp frame (wpE (defs₀ (F := F)) Sc.𝒱₀ (V d (cV L) (jV L)) none) Set.univ
          (cc1__sc_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1)
          fun _ => iprop(tdV X0 X1 M pout d (L 0).val (L 1).val ∗ scopedBufs (V d (cV L) (jV L)) ∗ scopedSems0 (V d (cV L) (jV L))
            ∗ ∃ W', ⌜∀ p ∈ W', p ∈ W ∨ p.2 = none⌝ ∗ owes (V d (cV L) (jV L)) O W') := by
  have h := tile_bodyV X0 X1 M R0 d L hF O W hO sums h0 hrow
  rw [row_eq_pout R0 pout d L sums hpout] at h
  exact h

end Pout

end Cert.KernelIdeal.ScTile

end
-- ==== Proof.ScTileVInv2I.lean ====
/-
  The row loop's invariant with everything the row's sums depend on named (the same statement as over the value chain's resources, here over the frame chain's, for the task's body around the loop).
-/
import proofs.«210586_g14980845929080_cont_week2b_1062_66_alg».proof.Proof.ScTileDefsI
import proofs.«210586_g14980845929080_cont_week2b_1062_66_alg».proof.Proof.Gen.KernelIdeal.Skeleton
import Idealize.ShloMosaic.Lib.Tactic

set_option warn.classDefReducibility false

noncomputable section

namespace Cert.KernelIdeal.ScTile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ Sc.UU ℕ

local notation "a0V" => (Memref.whole Cert.KernelIdeal.main_arg0_scv : Memref Cert.KernelIdeal.sig Kind.scVector Space.hbm Cert.KernelIdeal.S8x192x224x224 EltTy.f32)
local notation "a1V" => (Memref.whole Cert.KernelIdeal.main_arg1_scv : Memref Cert.KernelIdeal.sig Kind.scVector Space.hbm Cert.KernelIdeal.S8x192x224x224 EltTy.f32)
local notation "mkV" => (Memref.whole Cert.KernelIdeal.main_v0_scv : Memref Cert.KernelIdeal.sig Kind.scVector Space.hbm Cert.KernelIdeal.S8x224x256 EltTy.f32)
local notation "ptV" => (Memref.whole Cert.KernelIdeal.main_v1_scv : Memref Cert.KernelIdeal.sig Kind.scVector Space.hbm Cert.KernelIdeal.S32x32 EltTy.f32)
local notation "b0V" => (Memref.whole Cert.KernelIdeal.cc1_scratch0 : Memref Cert.KernelIdeal.sig Kind.scVector Space.vmem Cert.KernelIdeal.S48x224 EltTy.f32)
local notation "b1V" => (Memref.whole Cert.KernelIdeal.cc1_scratch1 : Memref Cert.KernelIdeal.sig Kind.scVector Space.vmem Cert.KernelIdeal.S48x224 EltTy.f32)
local notation "b2V" => (Memref.whole Cert.KernelIdeal.cc1_scratch2 : Memref Cert.KernelIdeal.sig Kind.scVector Space.vmem Cert.KernelIdeal.S48x224 EltTy.f32)
local notation "b3V" => (Memref.whole Cert.KernelIdeal.cc1_scratch3 : Memref Cert.KernelIdeal.sig Kind.scVector Space.vmem Cert.KernelIdeal.S48x224 EltTy.f32)
local notation "b4V" => (Memref.whole Cert.KernelIdeal.cc1_scratch4 : Memref Cert.KernelIdeal.sig Kind.scVector Space.vmem Cert.KernelIdeal.S8x16x256 EltTy.f32)
local notation "b5V" => (Memref.whole Cert.KernelIdeal.cc1_scratch5 : Memref Cert.KernelIdeal.sig Kind.scVector Space.vmem Cert.KernelIdeal.S7x2x16 EltTy.f32)
local notation "b6V" => (Memref.whole Cert.KernelIdeal.cc1_scratch6 : Memref Cert.KernelIdeal.sig Kind.scVector Space.vmem Cert.KernelIdeal.S7x2x16 EltTy.f32)
local notation "b7V" => (Memref.whole Cert.KernelIdeal.cc1_scratch7 : Memref Cert.KernelIdeal.sig Kind.scVector Space.vmem Cert.KernelIdeal.S32 EltTy.f32)

variable [FloatOps F]

section Tile

variable (X0 : (d : Dev nD) → Buf (Elt F) (a0Loc d)) (X1 : (d : Dev nD) → Buf (Elt F) (a1Loc d))
  (M : (d : Dev nD) → Buf (Elt F) (mkLoc d)) (R0 : (d : Dev nD) → Buf (Elt F) (ptLoc d))
variable (d : Dev nD) (L : grid1.Coords)

/-- What a transfer from the window at offsets `o` of the first input lands in a slot's buffer. -/
def payA0 (d : Dev nD) (o : Fin 4 → ℕ) (h : (∀ a, o a + S1x48x1x224.size a ≤ S8x192x224x224.size a)) : S48x224.Idx → Elt F .f32 :=
  ReadAs.same.apply (View.read (Elt F) (((a0V).slice (Rect.unit (s := S8x192x224x224) o S1x48x1x224.size h) (fun _ => rfl)).squeeze S48x224 squeezes_S1x48x1x224_S48x224).view (X0 d))
/-- The same for the second input. -/
def payA1 (d : Dev nD) (o : Fin 4 → ℕ) (h : (∀ a, o a + S1x48x1x224.size a ≤ S8x192x224x224.size a)) : S48x224.Idx → Elt F .f32 :=
  ReadAs.same.apply (View.read (Elt F) (((a1V).slice (Rect.unit (s := S8x192x224x224) o S1x48x1x224.size h) (fun _ => rfl)).squeeze S48x224 squeezes_S1x48x1x224_S48x224).view (X1 d))

/-- What the mask slab's fetch lands: the sixteen rows of the mask array from the task's slab row on, of all eight images. -/
def payM (d : Dev nD) (L : grid1.Coords) : S8x16x256.Idx → Elt F .f32 :=
  ReadAs.same.apply (View.read (Elt F) ((mkV).slice (Rect.unit (s := S8x224x256) (k1_off1 L) S8x16x256.size (k1_off1_inb L)) (fun _ => rfl)).view (M d))

/-- The offsets of the window for row pair `r` and channel group `cg` of the task at `L`: image r / 2, channels from
    48 cg, row 160 + 2 (2 subcore + core) + r % 2. -/
def oAt (L : grid1.Coords) (r cg : ℕ) : Fin 4 → ℕ := ![r / 2, 48 * cg, 4 * (L 1).val + 2 * (L 0).val + 160 + r % 2, 0]

/-- Both slots in flight for row `k`: slot 0 from channel group 0's window, slot 1 from channel group 1's, each
    delivering the window's payload. -/
def rowFlyN (qa qb : PosShare TreeShare) (d : Dev nD) (L : grid1.Coords) (k : ℕ) : sProp 𝕄 :=
  iprop(∃ (oA oB : Fin 4 → ℕ) (hA : (∀ a, oA a + S1x48x1x224.size a ≤ S8x192x224x224.size a)) (hB : (∀ a, oB a + S1x48x1x224.size a ≤ S8x192x224x224.size a)),
    ⌜oA = oAt L k 0⌝ ∗ ⌜oB = oAt L k 1⌝
    ∗ flying0 X0 X1 qa d L oA hA (payA0 X0 d oA hA) (payA1 X1 d oA hA)
    ∗ flying1 X0 X1 qb d L oB hB (payA0 X0 d oB hB) (payA1 X1 d oB hB))

/-- Before row `k`, with values: the carried sums are `sums k`; the mask slab as fetched; the accumulators at some
    contents (a row begins by zeroing them); the slots in flight with the row's payloads while a row remains, at rest
    after the last; what the task owes. -/
def rowInvN (sums : ℕ → FVec F S16 .f32 × FVec F S16 .f32) (qa qb : PosShare TreeShare) (d : Dev nD) (L : grid1.Coords) (O : CellTallies nD τ sig (HIx 1)) (W : Waits sig (HIx 1))
    (g4 : Buf (Elt F) ((V d (cV L) (jV L)).loc cc1_scratch4)) (k : ℕ) (acc : FVec F S16 .f32 × FVec F S16 .f32) : sProp 𝕄 :=
  iprop(⌜acc = sums k⌝ ∗ Transfers.MayWaits (V d (cV L) (jV L)) (none : HIx 1) O
    ∗ ((b4V).view.loc (V d (cV L) (jV L)) ↦{fullShare} g4) ∗ (∃ g, ((b5V).view.loc (V d (cV L) (jV L)) ↦{fullShare} g)) ∗ (∃ g, ((b6V).view.loc (V d (cV L) (jV L)) ↦{fullShare} g))
    ∗ (if k < 16 then rowFlyN X0 X1 qa qb d L k else rowIdle X0 X1 qa qb d L)
    ∗ ∃ W', ⌜∀ p ∈ W', p ∈ W ∨ p.2 = none⌝ ∗ owes (V d (cV L) (jV L)) O W')

end Tile

end Cert.KernelIdeal.ScTile

end
-- ==== Proof.ScTileVSlotOffI.lean ====
/-
  The six places the SparseCore task starts a slot's transfer: the window's offsets in closed form, decided over the
  task's coordinates and the row number.
-/
import proofs.«210586_g14980845929080_cont_week2b_1062_66_alg».proof.Proof.Gen.KernelIdeal

namespace Cert.KernelIdeal.ScTile

open Cert.KernelIdeal

/-! ## The six places a slot's transfer starts: the offsets in closed form -/

/-- The first of the task's 64 rows: 160 + 2 · (2 · subcore + core), twice the task's row of the result array. -/
def hb0 (L : grid1.Coords) : ℕ := 4 * (L 1).val + 2 * (L 0).val + 160

theorem off2_eq (L : grid1.Coords) : k1_off2 L = ![0, 0, hb0 L, 0] := Gen.k1_off2_eq L
theorem off3_eq (L : grid1.Coords) : k1_off3 L = ![0, 48, hb0 L, 0] := Gen.k1_off3_eq L

theorem off19_eq : ∀ (L : grid1.Coords) (k : Fin k1_t1_loop.trips), k1_off19 L k = ![k.val / 2, 96, 4 * (L 1).val + 2 * (L 0).val + 160 + k.val % 2, 0] := by
  decide +kernel

theorem off34_eq : ∀ (L : grid1.Coords) (k : Fin k1_t1_loop.trips), k1_off34 L k = ![k.val / 2, 144, 4 * (L 1).val + 2 * (L 0).val + 160 + k.val % 2, 0] := by
  decide +kernel
theorem off49_eq : ∀ (L : grid1.Coords) (k : Fin k1_t1_loop.trips), k1_off49 L k = ![(k.val + 1) / 2, 0, 4 * (L 1).val + 2 * (L 0).val + 160 + (k.val + 1) % 2, 0] := by
  decide +kernel
theorem off64_eq : ∀ (L : grid1.Coords) (k : Fin k1_t1_loop.trips), k1_off64 L k = ![(k.val + 1) / 2, 48, 4 * (L 1).val + 2 * (L 0).val + 160 + (k.val + 1) % 2, 0] := by
  decide +kernel

end Cert.KernelIdeal.ScTile
-- ==== Proof.ScTileVBody2I.lean ====
/-
  The SparseCore kernel's task on one vector subcore, with its result named, around a row loop whose invariant names the
  slots' contents as the copies' payloads: the prologue's four transfers deliver the first row's two windows of each
  input; after the epilogue the task's row is a function of the sums after the last row.
-/
import proofs.«210586_g14980845929080_cont_week2b_1062_66_alg».proof.Proof.ScTileVBodyI
import proofs.«210586_g14980845929080_cont_week2b_1062_66_alg».proof.Proof.ScTileVInv2I
import proofs.«210586_g14980845929080_cont_week2b_1062_66_alg».proof.Proof.ScTileVSlotOffI
import proofs.«210586_g14980845929080_cont_week2b_1062_66_alg».proof.Proof.ScTilePVI
import proofs.«210586_g14980845929080_cont_week2b_1062_66_alg».proof.Proof.Gen.KernelIdeal.Skeleton
import Idealize.ShloMosaic.Lib.Tactic
import Idealize.ShloMosaic.Lib.Pipeline.FrameBody

set_option warn.classDefReducibility false

noncomputable section

namespace Cert.KernelIdeal.ScTile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ Sc.UU ℕ

local notation "a0V" => (Memref.whole Cert.KernelIdeal.main_arg0_scv : Memref Cert.KernelIdeal.sig Kind.scVector Space.hbm Cert.KernelIdeal.S8x192x224x224 EltTy.f32)
local notation "a1V" => (Memref.whole Cert.KernelIdeal.main_arg1_scv : Memref Cert.KernelIdeal.sig Kind.scVector Space.hbm Cert.KernelIdeal.S8x192x224x224 EltTy.f32)
local notation "mkV" => (Memref.whole Cert.KernelIdeal.main_v0_scv : Memref Cert.KernelIdeal.sig Kind.scVector Space.hbm Cert.KernelIdeal.S8x224x256 EltTy.f32)
local notation "ptV" => (Memref.whole Cert.KernelIdeal.main_v1_scv : Memref Cert.KernelIdeal.sig Kind.scVector Space.hbm Cert.KernelIdeal.S32x32 EltTy.f32)
local notation "b0V" => (Memref.whole Cert.KernelIdeal.cc1_scratch0 : Memref Cert.KernelIdeal.sig Kind.scVector Space.vmem Cert.KernelIdeal.S48x224 EltTy.f32)
local notation "b1V" => (Memref.whole Cert.KernelIdeal.cc1_scratch1 : Memref Cert.KernelIdeal.sig Kind.scVector Space.vmem Cert.KernelIdeal.S48x224 EltTy.f32)
local notation "b2V" => (Memref.whole Cert.KernelIdeal.cc1_scratch2 : Memref Cert.KernelIdeal.sig Kind.scVector Space.vmem Cert.KernelIdeal.S48x224 EltTy.f32)
local notation "b3V" => (Memref.whole Cert.KernelIdeal.cc1_scratch3 : Memref Cert.KernelIdeal.sig Kind.scVector Space.vmem Cert.KernelIdeal.S48x224 EltTy.f32)
local notation "b4V" => (Memref.whole Cert.KernelIdeal.cc1_scratch4 : Memref Cert.KernelIdeal.sig Kind.scVector Space.vmem Cert.KernelIdeal.S8x16x256 EltTy.f32)
local notation "b5V" => (Memref.whole Cert.KernelIdeal.cc1_scratch5 : Memref Cert.KernelIdeal.sig Kind.scVector Space.vmem Cert.KernelIdeal.S7x2x16 EltTy.f32)
local notation "b6V" => (Memref.whole Cert.KernelIdeal.cc1_scratch6 : Memref Cert.KernelIdeal.sig Kind.scVector Space.vmem Cert.KernelIdeal.S7x2x16 EltTy.f32)
local notation "b7V" => (Memref.whole Cert.KernelIdeal.cc1_scratch7 : Memref Cert.KernelIdeal.sig Kind.scVector Space.vmem Cert.KernelIdeal.S32 EltTy.f32)

variable [FloatOps F]

section Tile

variable (X0 : (d : Dev nD) → Buf (Elt F) (a0Loc d)) (X1 : (d : Dev nD) → Buf (Elt F) (a1Loc d))
  (M : (d : Dev nD) → Buf (Elt F) (mkLoc d)) (R0 : (d : Dev nD) → Buf (Elt F) (ptLoc d))
variable (d : Dev nD) (L : grid1.Coords)

omit [FloatOps F] in
theorem write_univ_b0 (f w : Buf (Elt F) ((V d (cV L) (jV L)).loc cc1_scratch0)) : (b0V).view.write (Elt F) f w Finset.univ = w := by
  simp only [Memref.view_whole, View.write_whole_univ]
omit [FloatOps F] in
theorem write_univ_b1 (f w : Buf (Elt F) ((V d (cV L) (jV L)).loc cc1_scratch1)) : (b1V).view.write (Elt F) f w Finset.univ = w := by
  simp only [Memref.view_whole, View.write_whole_univ]
omit [FloatOps F] in
theorem write_univ_b2 (f w : Buf (Elt F) ((V d (cV L) (jV L)).loc cc1_scratch2)) : (b2V).view.write (Elt F) f w Finset.univ = w := by
  simp only [Memref.view_whole, View.write_whole_univ]
omit [FloatOps F] in
theorem write_univ_b3 (f w : Buf (Elt F) ((V d (cV L) (jV L)).loc cc1_scratch3)) : (b3V).view.write (Elt F) f w Finset.univ = w := by
  simp only [Memref.view_whole, View.write_whole_univ]
omit [FloatOps F] in
theorem write_univ_b4 (f w : Buf (Elt F) ((V d (cV L) (jV L)).loc cc1_scratch4)) : (b4V).view.write (Elt F) f w Finset.univ = w := by
  simp only [Memref.view_whole, View.write_whole_univ]

/-- The task on vector subcore (L 0, L 1) of device d, the row loop carrying its sums by name: it hands back its tokens
    and its row at `foutV` of the sums after the last row. -/
theorem tile_bodyN (hF : (Sc.K (F := F)).Facts) (O : CellTallies nD τ sig (HIx 1)) (W : Waits sig (HIx 1)) (hO : ∀ g, O g none = 0)
    (sums : ℕ → FVec F S16 .f32 × FVec F S16 .f32) (h0 : sums 0 = (k1_pay828 (F := F), k1_pay828 (F := F)))
    (hrow : ∀ (qa qb : PosShare TreeShare) (v3 v23 : BitVec 32)
      (k : Fin k1_t1_loop.trips) (acc : FVec F S16 .f32 × FVec F S16 .f32),
      rowInvN X0 X1 sums qa qb d L O W (payM M d L) k.val acc
        ⊢ wp frame (wpE (defs₀ (F := F)) Sc.𝒱₀ (V d (cV L) (jV L)) none) Set.univ
            (k1_t1_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 v3 v23 (k1_pay828 (F := F)) (k1_pay829 (F := F)) k acc)
            (rowInvN X0 X1 sums qa qb d L O W (payM M d L) (k.val + 1))) :
    iprop(levAts (Sc.K (F := F)).L (Sc.K (F := F)).lev ∗ emp ∗ goC X0 X1 M R0 d (L 0).val (L 1).val
        ∗ scopedBufs (V d (cV L) (jV L)) ∗ scopedSems0 (V d (cV L) (jV L)) ∗ owes (V d (cV L) (jV L)) O W)
      ⊢ wp frame (wpE (defs₀ (F := F)) Sc.𝒱₀ (V d (cV L) (jV L)) none) Set.univ
          (cc1__sc_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1)
          fun _ => iprop((rdPts X0 X1 M d (tileSh (L 0).val (L 1).val) ∗ ptLoc d ↦[rowSet (wid (L 0).val (L 1).val)]{fullShare} foutV R0 d L sums)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_body_eq_skeleton]; unfold cc1__sc_body_skel
  rw [(Sc.K (F := F)).scopedBufs_V hF d (cV L) (jV L), SparseCore.Cfg.scopedSems0_V (Val := Elt F) d (cV L) (jV L), ownSems0_V, ownBufs_V]
  unfold goC rdPts
  iintro ⟨#Hlv, -, ⟨⟨H0, H1, Hm⟩, Hp⟩, ⟨⟨%f0, Hb0⟩, ⟨%f1, Hb1⟩, ⟨%f2, Hb2⟩, ⟨%f3, Hb3⟩, ⟨%f4, Hb4⟩, ⟨%f5, Hb5⟩, ⟨%f6, Hb6⟩, ⟨%f7, Hb7⟩, Hbufs⟩,
    ⟨Hs8, Hs9, Hs10, Hs11, Hc0, Hc1, Hsems⟩, HO⟩
  ihave Hmw := ((Sc.K (F := F)).mayWaits_none (thr := V d (cV L) (jV L)) hO) $$ Hlv
  ihave H0 := (Entails.of_eq (pts_a0 (F := F) d (cV L) (jV L) _ _).symm) $$ H0
  ihave H1 := (Entails.of_eq (pts_a1 (F := F) d (cV L) (jV L) _ _).symm) $$ H1
  ihave Hm := (Entails.of_eq (pts_mk (F := F) d (cV L) (jV L) _ _).symm) $$ Hm
  ihave Hb0 := (Entails.of_eq (pts_b0 (F := F) d (cV L) (jV L) _).symm) $$ Hb0
  ihave Hb1 := (Entails.of_eq (pts_b1 (F := F) d (cV L) (jV L) _).symm) $$ Hb1
  ihave Hb2 := (Entails.of_eq (pts_b2 (F := F) d (cV L) (jV L) _).symm) $$ Hb2
  ihave Hb3 := (Entails.of_eq (pts_b3 (F := F) d (cV L) (jV L) _).symm) $$ Hb3
  ihave Hb4 := (Entails.of_eq (pts_b4 (F := F) d (cV L) (jV L) _).symm) $$ Hb4
  ihave Hb5 := (Entails.of_eq (pts_b5 (F := F) d (cV L) (jV L) _).symm) $$ Hb5
  ihave Hb6 := (Entails.of_eq (pts_b6 (F := F) d (cV L) (jV L) _).symm) $$ Hb6
  ihave Hb7 := (Entails.of_eq (pts_b7 (F := F) d (cV L) (jV L) _).symm) $$ Hb7
  ihave H0' := (pointsTo_share (PosShare.mem_left_op_right _)).1 $$ H0
  icases H0' with ⟨H0a, H0b⟩
  ihave H1' := (pointsTo_share (PosShare.mem_left_op_right _)).1 $$ H1
  icases H1' with ⟨H1a, H1b⟩
  sl_exec
  rw [write_univ_b4]
  sl_for (rowInvN X0 X1 sums (tileSh (L 0).val (L 1).val).left (tileSh (L 0).val (L 1).val).right d L O W (payM M d L)) $$ [Hmw Hb4 Hb5 Hb6 Hs8 H0a Hs9 H1a Hs10 H0b Hs11 H1b HO]
  case region => intro k acc; exact hrow _ _ _ _ k acc
  · unfold rowInvN rowFlyN flying0 flying1
    rw [if_pos (by decide)]
    rw [write_univ_b0, write_univ_b1, write_univ_b2, write_univ_b3]
    have hW7 : ∀ p ∈ insert ((SemLoc.dma (⟨7, by decide⟩ : DmaSem sig), (default : HIx 1))) W, p ∈ W ∨ p.2 = none := by
      intro p hp
      rcases Finset.mem_insert.mp hp with rfl | h
      · exact Or.inr rfl
      · exact Or.inl h
    isplitr
    · ipureintro; exact h0.symm
    isplitr; · iexact Hmw
    isplitl [Hb4]; · iexact Hb4
    isplitl [Hb5]; · iexists _; iexact Hb5
    isplitl [Hb6]; · iexists _; iexact Hb6
    isplitl [Hs8 H0a Hs9 H1a Hs10 H0b Hs11 H1b]
    · iexists (k1_off2 L), (k1_off3 L), (k1_off2_inb L), (k1_off3_inb L)
      isplitr
      · ipureintro; rw [off2_eq]; unfold oAt hb0; simp
      isplitr
      · ipureintro; rw [off3_eq]; unfold oAt hb0; simp
      sl_close
    iexists _; isplitr
    · ipureintro; exact hW7
    · iexact HO
  iintro %acc HI
  unfold rowInvN
  rw [if_neg (by rw [show Scf.trips k1_t1_loop.lb k1_t1_loop.ub k1_t1_loop.st = 16 from trips16]; decide)]
  unfold rowIdle
  icases HI with ⟨%hacc, -, Hb4, ⟨%g5, Hb5⟩, ⟨%g6, Hb6⟩, ⟨⟨%g0, Hb0⟩, ⟨%g1, Hb1⟩, ⟨%g2, Hb2⟩, ⟨%g3, Hb3⟩, Hs8, Hs9, Hs10, Hs11, H0a, H1a, H0b, H1b⟩, %W', %hW', HO⟩
  subst hacc
  ihave Hp := (Entails.of_eq (pts_outRowV (F := F) d L _).symm) $$ Hp
  sl_exec
  sl_step
  isplitl [H0a H0b H1a H1b Hm Hp]
  · isplitl [H0a H0b H1a H1b Hm]
    · isplitl [H0a H0b]
      · iapply (Entails.of_eq (pts_a0 (F := F) d (cV L) (jV L) _ _))
        iapply (pointsTo_share (PosShare.mem_left_op_right _)).2
        isplitl [H0a]
        · iexact H0a
        · iexact H0b
      isplitl [H1a H1b]
      · iapply (Entails.of_eq (pts_a1 (F := F) d (cV L) (jV L) _ _))
        iapply (pointsTo_share (PosShare.mem_left_op_right _)).2
        isplitl [H1a]
        · iexact H1a
        · iexact H1b
      · iapply (Entails.of_eq (pts_mk (F := F) d (cV L) (jV L) _ _))
        iexact Hm
    · iapply (Entails.of_eq (pts_outRowV (F := F) d L _))
      unfold foutV
      iapply (row_congr (F := F) d L (R0 d) _ (outVec sums) (payload_eq sums f7))
      iexact Hp
  isplitl [Hb0 Hb1 Hb2 Hb3 Hb4 Hb5 Hb6 Hb7 Hbufs]
  · isplitl [Hb0]; · iexists _; iexact Hb0
    isplitl [Hb1]; · iexists _; iexact Hb1
    isplitl [Hb2]; · iexists _; iexact Hb2
    isplitl [Hb3]; · iexists _; iexact Hb3
    isplitl [Hb4]; · iexists _; iexact Hb4
    isplitl [Hb5]; · iexists _; iexact Hb5
    isplitl [Hb6]; · iexists _; iexact Hb6
    isplitl [Hb7]; · iexists _; iexact Hb7
    iexact Hbufs
  isplitl [Hs8 Hs9 Hs10 Hs11 Hc0 Hc1 Hsems]
  · isplitl [Hs8]; · iexact Hs8
    isplitl [Hs9]; · iexact Hs9
    isplitl [Hs10]; · iexact Hs10
    isplitl [Hs11]; · iexact Hs11
    isplitl [Hc0]; · iexact Hc0
    isplitl [Hc1]; · iexact Hc1
    iexact Hsems
  iexists _
  isplitr
  swap
  · iexact HO
  ipureintro
  intro p hp
  rcases Finset.mem_insert.mp hp with rfl | h
  · exact Or.inr rfl
  · exact hW' p h

end Tile

end Cert.KernelIdeal.ScTile

end
-- ==== Proof.ScTileVPout2I.lean ====
/-
  The task's body handing back its row at the whole partial-sums array's contents, around the row loop whose invariant names the slots' contents.
-/
import proofs.«210586_g14980845929080_cont_week2b_1062_66_alg».proof.Proof.ScTileVPoutI
import proofs.«210586_g14980845929080_cont_week2b_1062_66_alg».proof.Proof.ScTileVBody2I
import Idealize.ShloMosaic.Lib.Tactic

set_option warn.classDefReducibility false

noncomputable section

namespace Cert.KernelIdeal.ScTile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ Sc.UU ℕ

local notation "a0V" => (Memref.whole Cert.KernelIdeal.main_arg0_scv : Memref Cert.KernelIdeal.sig Kind.scVector Space.hbm Cert.KernelIdeal.S8x192x224x224 EltTy.f32)
local notation "a1V" => (Memref.whole Cert.KernelIdeal.main_arg1_scv : Memref Cert.KernelIdeal.sig Kind.scVector Space.hbm Cert.KernelIdeal.S8x192x224x224 EltTy.f32)
local notation "mkV" => (Memref.whole Cert.KernelIdeal.main_v0_scv : Memref Cert.KernelIdeal.sig Kind.scVector Space.hbm Cert.KernelIdeal.S8x224x256 EltTy.f32)
local notation "ptV" => (Memref.whole Cert.KernelIdeal.main_v1_scv : Memref Cert.KernelIdeal.sig Kind.scVector Space.hbm Cert.KernelIdeal.S32x32 EltTy.f32)
local notation "b0V" => (Memref.whole Cert.KernelIdeal.cc1_scratch0 : Memref Cert.KernelIdeal.sig Kind.scVector Space.vmem Cert.KernelIdeal.S48x224 EltTy.f32)
local notation "b1V" => (Memref.whole Cert.KernelIdeal.cc1_scratch1 : Memref Cert.KernelIdeal.sig Kind.scVector Space.vmem Cert.KernelIdeal.S48x224 EltTy.f32)
local notation "b2V" => (Memref.whole Cert.KernelIdeal.cc1_scratch2 : Memref Cert.KernelIdeal.sig Kind.scVector Space.vmem Cert.KernelIdeal.S48x224 EltTy.f32)
local notation "b3V" => (Memref.whole Cert.KernelIdeal.cc1_scratch3 : Memref Cert.KernelIdeal.sig Kind.scVector Space.vmem Cert.KernelIdeal.S48x224 EltTy.f32)
local notation "b4V" => (Memref.whole Cert.KernelIdeal.cc1_scratch4 : Memref Cert.KernelIdeal.sig Kind.scVector Space.vmem Cert.KernelIdeal.S8x16x256 EltTy.f32)
local notation "b5V" => (Memref.whole Cert.KernelIdeal.cc1_scratch5 : Memref Cert.KernelIdeal.sig Kind.scVector Space.vmem Cert.KernelIdeal.S7x2x16 EltTy.f32)
local notation "b6V" => (Memref.whole Cert.KernelIdeal.cc1_scratch6 : Memref Cert.KernelIdeal.sig Kind.scVector Space.vmem Cert.KernelIdeal.S7x2x16 EltTy.f32)
local notation "b7V" => (Memref.whole Cert.KernelIdeal.cc1_scratch7 : Memref Cert.KernelIdeal.sig Kind.scVector Space.vmem Cert.KernelIdeal.S32 EltTy.f32)

variable [FloatOps F]

open Idealize.ShloMosaic.ValueIdx

section Pout

variable (X0 : (d : Dev nD) → Buf (Elt F) (a0Loc d)) (X1 : (d : Dev nD) → Buf (Elt F) (a1Loc d))
  (M : (d : Dev nD) → Buf (Elt F) (mkLoc d)) (R0 : (d : Dev nD) → Buf (Elt F) (ptLoc d))
  (pout : (d : Dev nD) → Buf (Elt F) (ptLoc d))
variable (d : Dev nD) (L : grid1.Coords) (sums : ℕ → FVec F S16 .f32 × FVec F S16 .f32)

/-- THE TASK WITH THE VALUE-CARRYING PAYLOAD'S POST: for a whole-array function `pout d` that holds the task's output
    buffer on the task's row, the task hands back `tdV` — its tokens and its row at `pout d`. -/
theorem tile_bodyPN (hF : (Sc.K (F := F)).Facts) (O : CellTallies nD τ sig (HIx 1)) (W : Waits sig (HIx 1)) (hO : ∀ g, O g none = 0)
    (h0 : sums 0 = (k1_pay828 (F := F), k1_pay828 (F := F)))
    (hrow : ∀ (qa qb : PosShare TreeShare) (v3 v23 : BitVec 32)
      (k : Fin k1_t1_loop.trips) (acc : FVec F S16 .f32 × FVec F S16 .f32),
      rowInvN X0 X1 sums qa qb d L O W (payM M d L) k.val acc
        ⊢ wp frame (wpE (defs₀ (F := F)) Sc.𝒱₀ (V d (cV L) (jV L)) none) Set.univ
            (k1_t1_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 v3 v23 (k1_pay828 (F := F)) (k1_pay829 (F := F)) k acc)
            (rowInvN X0 X1 sums qa qb d L O W (payM M d L) (k.val + 1)))
    (hpout : ∀ j : Fin 32, (pout d : S32x32.Idx → Elt F .f32) (ix2 (wid (L 0).val (L 1).val) j) = outVec sums (ix1 j)) :
    iprop(levAts (Sc.K (F := F)).L (Sc.K (F := F)).lev ∗ emp ∗ goC X0 X1 M R0 d (L 0).val (L 1).val
        ∗ scopedBufs (V d (cV L) (jV L)) ∗ scopedSems0 (V d (cV L) (jV L)) ∗ owes (V d (cV L) (jV L)) O W)
      ⊢ wp frame (wpE (defs₀ (F := F)) Sc.𝒱₀ (V d (cV L) (jV L)) none) Set.univ
          (cc1__sc_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1)
          fun _ => iprop(tdV X0 X1 M pout d (L 0).val (L 1).val ∗ scopedBufs (V d (cV L) (jV L)) ∗ scopedSems0 (V d (cV L) (jV L))
            ∗ ∃ W', ⌜∀ p ∈ W', p ∈ W ∨ p.2 = none⌝ ∗ owes (V d (cV L) (jV L)) O W') := by
  have h := tile_bodyN X0 X1 M R0 d L hF O W hO sums h0 hrow
  rw [row_eq_pout R0 pout d L sums hpout] at h
  exact h

end Pout

end Cert.KernelIdeal.ScTile

end
-- ==== Proof.ScTileVObl2I.lean ====
/-
  The launch theorem's obligation for the value-carrying payloads: the task's body once, at a symbolic subcore, handing
  back its row at the named final contents — from the row trip's triple at the named sums.
-/
import proofs.«210586_g14980845929080_cont_week2b_1062_66_alg».proof.Proof.ScTileVPout2I
import proofs.«210586_g14980845929080_cont_week2b_1062_66_alg».proof.Proof.ScTileBodyI
import Idealize.ShloMosaic.Lib.Tactic

set_option warn.classDefReducibility false

noncomputable section

namespace Cert.KernelIdeal.ScTile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ Sc.UU ℕ

local notation "a0V" => (Memref.whole Cert.KernelIdeal.main_arg0_scv : Memref Cert.KernelIdeal.sig Kind.scVector Space.hbm Cert.KernelIdeal.S8x192x224x224 EltTy.f32)
local notation "a1V" => (Memref.whole Cert.KernelIdeal.main_arg1_scv : Memref Cert.KernelIdeal.sig Kind.scVector Space.hbm Cert.KernelIdeal.S8x192x224x224 EltTy.f32)
local notation "mkV" => (Memref.whole Cert.KernelIdeal.main_v0_scv : Memref Cert.KernelIdeal.sig Kind.scVector Space.hbm Cert.KernelIdeal.S8x224x256 EltTy.f32)
local notation "ptV" => (Memref.whole Cert.KernelIdeal.main_v1_scv : Memref Cert.KernelIdeal.sig Kind.scVector Space.hbm Cert.KernelIdeal.S32x32 EltTy.f32)
local notation "b0V" => (Memref.whole Cert.KernelIdeal.cc1_scratch0 : Memref Cert.KernelIdeal.sig Kind.scVector Space.vmem Cert.KernelIdeal.S48x224 EltTy.f32)
local notation "b1V" => (Memref.whole Cert.KernelIdeal.cc1_scratch1 : Memref Cert.KernelIdeal.sig Kind.scVector Space.vmem Cert.KernelIdeal.S48x224 EltTy.f32)
local notation "b2V" => (Memref.whole Cert.KernelIdeal.cc1_scratch2 : Memref Cert.KernelIdeal.sig Kind.scVector Space.vmem Cert.KernelIdeal.S48x224 EltTy.f32)
local notation "b3V" => (Memref.whole Cert.KernelIdeal.cc1_scratch3 : Memref Cert.KernelIdeal.sig Kind.scVector Space.vmem Cert.KernelIdeal.S48x224 EltTy.f32)
local notation "b4V" => (Memref.whole Cert.KernelIdeal.cc1_scratch4 : Memref Cert.KernelIdeal.sig Kind.scVector Space.vmem Cert.KernelIdeal.S8x16x256 EltTy.f32)
local notation "b5V" => (Memref.whole Cert.KernelIdeal.cc1_scratch5 : Memref Cert.KernelIdeal.sig Kind.scVector Space.vmem Cert.KernelIdeal.S7x2x16 EltTy.f32)
local notation "b6V" => (Memref.whole Cert.KernelIdeal.cc1_scratch6 : Memref Cert.KernelIdeal.sig Kind.scVector Space.vmem Cert.KernelIdeal.S7x2x16 EltTy.f32)
local notation "b7V" => (Memref.whole Cert.KernelIdeal.cc1_scratch7 : Memref Cert.KernelIdeal.sig Kind.scVector Space.vmem Cert.KernelIdeal.S32 EltTy.f32)

variable [FloatOps F]

open Idealize.ShloMosaic.ValueIdx

/-- The body once, at a symbolic subcore, for the value-carrying payloads. -/
theorem tileOblN (X0 : (d : Dev nD) → Buf (Elt F) (a0Loc d)) (X1 : (d : Dev nD) → Buf (Elt F) (a1Loc d))
    (M : (d : Dev nD) → Buf (Elt F) (mkLoc d)) (R0 : (d : Dev nD) → Buf (Elt F) (ptLoc d)) (pout : (d : Dev nD) → Buf (Elt F) (ptLoc d))
    (sumsOf : Dev nD → grid1.Coords → ℕ → FVec F S16 .f32 × FVec F S16 .f32)
    (h0 : ∀ d L, sumsOf d L 0 = (k1_pay828 (F := F), k1_pay828 (F := F)))
    (hrow : ∀ (d : Dev nD) (L : grid1.Coords) (O : CellTallies nD τ sig (HIx 1)) (W : Waits sig (HIx 1)) (hO : ∀ g, O g none = 0)
      (qa qb : PosShare TreeShare) (v3 v23 : BitVec 32)
      (k : Fin k1_t1_loop.trips) (acc : FVec F S16 .f32 × FVec F S16 .f32),
      rowInvN X0 X1 (sumsOf d L) qa qb d L O W (payM M d L) k.val acc
        ⊢ wp frame (wpE (defs₀ (F := F)) Sc.𝒱₀ (V d (cV L) (jV L)) none) Set.univ
            (k1_t1_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 v3 v23 (k1_pay828 (F := F)) (k1_pay829 (F := F)) k acc)
            (rowInvN X0 X1 (sumsOf d L) qa qb d L O W (payM M d L) (k.val + 1)))
    (hpout : ∀ (d : Dev nD) (L : grid1.Coords) (j : Fin 32),
      (pout d : S32x32.Idx → Elt F .f32) (ix2 (wid (L 0).val (L 1).val) j) = outVec (sumsOf d L) (ix1 j)) :
    (Sc.K (F := F)).TileObl (Sc.D (F := F)) Sc.𝒱 (PV X0 X1 M R0 pout) Sc.v₀ 0 := by
  intro d c i O W hO _ _
  simp only [show (PV X0 X1 M R0 pout).ox = fun _ _ => 0 from rfl, add_zero]
  change _ ⊢ wp _ _ _ (Pipeline.liftProg (defs₀ (F := F) (.scVector ((Sc.K (F := F)).core 0 c) ((Sc.K (F := F)).sub 0 i)) 1 ())) _
  refine BI.Entails.trans ?_ (Pipeline.wp_liftProg (Sc.D (F := F)) (Pipeline.defs_kernel pcfgs defs₀) Sc.𝒱₀ _ Set.univ none _ _)
  have hc : ((Sc.K (F := F)).core 0 c).val < grid1.bound 0 ∧ ((Sc.K (F := F)).sub 0 i).val < grid1.bound 1 := ⟨c.isLt, i.isLt⟩
  rw [defs₀_vector]; simp only [SparseCore.onTile, hc, and_self, ↓reduceDIte]
  exact (tile_bodyPN X0 X1 M R0 pout d (coordsV ⟨_, hc.1⟩ ⟨_, hc.2⟩) (sumsOf d _) Sc.facts O W hO (h0 d _)
    (fun qa qb v3 v23 k acc => hrow d _ O W hO qa qb v3 v23 k acc) (hpout d _)).trans (wp_mono frame _ _ fun _ => obl_post)

end Cert.KernelIdeal.ScTile

end
-- ==== Proof.ScTileVRun2I.lean ====
/-
  @main's value-carrying run at the value-carrying payloads, and the algebraic claim from the row trip at named sums.
-/
import proofs.«210586_g14980845929080_cont_week2b_1062_66_alg».proof.Proof.KernelValueI
import proofs.«210586_g14980845929080_cont_week2b_1062_66_alg».proof.Proof.ScTileVObl2I

noncomputable section

open scoped BigOperators

namespace Cert.KernelIdeal.KernelValue

open Cert.KernelIdeal Cert.KernelIdeal.Gen Cert.KernelIdeal.Sc Cert.KernelIdeal.Launch Cert.KernelIdeal.LaunchV
open Cert.KernelIdeal.TailValue Cert.KernelIdeal.ScTile
open Idealize.ShloMosaic Idealize.ShloMosaic.TcCoe Idealize.ShloMosaic.ValueIdx Idealize.SL.Sem
open Idealize.ShloMosaic.SparseCore (S V T)
open Idealize.ShloMosaic.SparseCore.Cfg (HIx Pay)
open Idealize.SL Idealize.SL.RA Idealize.SL.BI
open scoped Idealize.SL.BI
open Idealize.SL.BI.BIBase
open Idealize.ShloMosaic.Rounds
open Cert.LossSpec

section Run
variable {F : FTy → Type} [FloatOps F] [∀ e, Nonempty (Elt F e)]
variable (m : (ℓ : Loc nD τ sig) → Buf (Elt F) ℓ) (ρ : Dev nD → PrngReg)
  (pout : (d : Dev nD) → Buf (Elt F) (ScTile.ptLoc d))
  (sumsOf : Dev nD → grid1.Coords → ℕ → FVec F S16 .f32 × FVec F S16 .f32)

/-- @main's run with every unscoped buffer's final contents named, at the value-carrying payloads: from the row trip's
    triple at the named sums and a result array that holds each task's output buffer on its row. -/
theorem run_main_PN
    (h0 : ∀ d L, sumsOf d L 0 = (k1_pay828 (F := F), k1_pay828 (F := F)))
    (hrow : ∀ (d : Dev nD) (L : grid1.Coords) (O : CellTallies nD τ sig (HIx 1)) (W : Waits sig (HIx 1)) (hO : ∀ g, O g none = 0)
      (qa qb : PosShare TreeShare) (v3 v23 : BitVec 32)
      (k : Fin k1_t1_loop.trips) (acc : FVec F S16 .f32 × FVec F S16 .f32),
      rowInvN (X0 m) (X1 m) (sumsOf d L) qa qb d L O W (payM (Mk m) d L) k.val acc
        ⊢ wp frame (wpE (defs₀ (F := F)) Sc.𝒱₀ (V d (cV L) (jV L)) none) Set.univ
            (k1_t1_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) cc1_scratch8 cc1_scratch9 cc1_scratch10 cc1_scratch11 cc1_scoped0 cc1_scoped1 v3 v23 (k1_pay828 (F := F)) (k1_pay829 (F := F)) k acc)
            (rowInvN (X0 m) (X1 m) (sumsOf d L) qa qb d L O W (payM (Mk m) d L) (k.val + 1)))
    (hpout : ∀ (d : Dev nD) (L : grid1.Coords) (j : Fin 32),
      (pout d : S32x32.Idx → Elt F .f32) (ix2 (wid (L 0).val (L 1).val) j) = outVec (sumsOf d L) (ix1 j)) :
    θ_run (Cert.KernelIdeal.defs (F := F)) (Cert.KernelIdeal.threads (F := F)) ⟨m, fun _ => 0, ρ⟩
      (fun r => ∀ c : Dev nD, ∀ b ∈ Pipeline.ucRefs τ sig, r.2.mem ((c.tc : Thread nD τ).1, b) = Wfin m pout c b) :=
  run_main_v m ρ (PV (X0 m) (X1 m) (Mk m) (R0 m) pout) pout
    (fun d => stV_intro (X0 m) (X1 m) (Mk m) (R0 m) pout d) (fun d => dnV_elim (X0 m) (X1 m) (Mk m) (R0 m) pout d)
    (PV_x (X0 m) (X1 m) (Mk m) (R0 m) pout) (PV_held (X0 m) (X1 m) (Mk m) (R0 m) pout)
    (tileOblN (X0 m) (X1 m) (Mk m) (R0 m) pout sumsOf h0 hrow hpout)
    (SparseCore.Cfg.VecSplit.of_plain (vecSplitV (X0 m) (X1 m) (Mk m) (R0 m) pout))

end Run

/-- THE ALGEBRAIC CLAIM FROM THE ROW TRIP: if, for every launch memory meeting the precondition, there are a result array
    `pout` and per-task running sums such that the sums start at zero, the row trip carries them (its triple at the named
    sums), each task's row of `pout` is its output buffer, and `pout`'s two halves add up to the rows from 160 on of
    S and of N — then the two programs' results agree. -/
theorem algebraic_of_tripN
    (H : ∀ (m : (ℓ : Loc nD τ sig) → Buf (Elt Ideal) ℓ) (ρ : Dev nD → PrngReg),
      Cert.Pre_KernelIdeal (hPre_input_domain := Cert.Pre_input_domain.Gen.facts) m →
      ∃ (pout : (d : Dev nD) → Buf (Elt Ideal) (ScTile.ptLoc d)) (Pm : Dev nD → FVec Ideal S32x32 .f32)
        (sumsOf : Dev nD → grid1.Coords → ℕ → FVec Ideal S16 .f32 × FVec Ideal S16 .f32),
        (∀ d L, sumsOf d L 0 = (k1_pay828 (F := Ideal), k1_pay828 (F := Ideal)))
        ∧ (∀ (d : Dev nD) (L : grid1.Coords) (O : CellTallies nD τ sig (HIx 1)) (W : Waits sig (HIx 1)) (hO : ∀ g, O g none = 0)
      (qa qb : PosShare TreeShare) (v3 v23 : BitVec 32)
      (k : Fin k1_t1_loop.trips) (acc : FVec Ideal S16 .f32 × FVec Ideal S16 .f32),
      rowInvN (X0 m) (X1 m) (sumsOf d L) qa qb d L O W (payM (Mk m) d L) k.val acc
        ⊢ wp frame (wpE (defs₀ (F := Ideal)) Sc.𝒱₀ (V d (cV L) (jV L)) none) Set.univ
            (k1_t1_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) cc1_scratch8 cc1_scratch9 cc1_scratch10 cc1_scratch11 cc1_scoped0 cc1_scoped1 v3 v23 (k1_pay828 (F := Ideal)) (k1_pay829 (F := Ideal)) k acc)
            (rowInvN (X0 m) (X1 m) (sumsOf d L) qa qb d L O W (payM (Mk m) d L) (k.val + 1)))
        ∧ (∀ (d : Dev nD) (L : grid1.Coords) (j : Fin 32),
            (pout d : S32x32.Idx → Elt Ideal .f32) (ix2 (wid (L 0).val (L 1).val) j) = outVec (sumsOf d L) (ix1 j))
        ∧ ∀ d : Dev nD, pout d = Pm d
          ∧ (∑ a : Fin 32, ∑ j : Fin 16, Pm d (ix2 a (colLo j))
              = ∑ b : Fin 8, ∑ h' : Fin 64, ∑ w : Fin 224,
                  pos (m ((d.tc : Thread nD τ).loc main_arg1)) (m ((d.tc : Thread nD τ).loc main_arg2)) b (rowHi h') w
                    * sqd (m ((d.tc : Thread nD τ).loc main_arg0)) (m ((d.tc : Thread nD τ).loc main_arg1)) b (rowHi h') w)
          ∧ (∑ a : Fin 32, ∑ j : Fin 16, Pm d (ix2 a (colHi j))
              = ∑ b : Fin 8, ∑ h' : Fin 64, ∑ w : Fin 224,
                  pos (m ((d.tc : Thread nD τ).loc main_arg1)) (m ((d.tc : Thread nD τ).loc main_arg2)) b (rowHi h') w)) :
    Cert.algebraic_KernelIdeal_ReferenceIdeal (hKernelIdeal := Cert.KernelIdeal.Gen.facts)
      (hReferenceIdeal := Cert.ReferenceIdeal.Gen.facts) (hPre_input_domain := Cert.Pre_input_domain.Gen.facts) :=
  algebraic_of_run fun m ρ hpre => by
    obtain ⟨pout, Pm, sumsOf, h0, hrow, hpout, hP⟩ := H m ρ hpre
    exact ⟨pout, Pm, run_main_PN m ρ pout sumsOf h0 hrow hpout, hP⟩

end Cert.KernelIdeal.KernelValue

end
-- ==== Proof.ScTileValI.lean ====
/-
  What the SparseCore kernel's task leaves in its row of the partial-sums array, as a function of the two images and the
  mask array and nothing else (exact arithmetic). The task writing row w (w = 2 · subcore + core, 0 ≤ w < 32) handles the
  sixteen (image, row) pairs (t, h) = (r / 2, 160 + 2 w + r % 2), r < 16. For a pair, lane group k < 7 covers columns
  32 k … 32 k + 31 in two halves of sixteen lanes; the group is ACTIVE when the mask array's word (t, h, 224 + k) is
  positive. In an active group, per column, acc is the squared distance of the two images over the 192 channels and any
  the largest absolute value of the second image over the channels (from 0); in an inactive group both are 0. The
  column counts (posf = 1) when any is positive and the mask array's word (t, h, column) exceeds 1/2. Lane l of the
  first sixteen lanes of the row is the sum of posf · acc over the pairs, groups and halves, at column 32 k + 16 half + l;
  lane l of the last sixteen is the sum of posf.
-/
import proofs.«210586_g14980845929080_cont_week2b_1062_66_alg».proof.Proof.LossSpec

noncomputable section

open scoped BigOperators

namespace Cert.ScTileVal

open Idealize.ShloMosaic Idealize.ShloMosaic.ValueIdx
open Cert.LossSpec (SImg)

/-- The shape of the mask array. -/
abbrev SMask : Shape := ⟨3, ![8, 224, 256]⟩

/-- The image of pair `r`. -/
def tOf (r : Fin 16) : Fin 8 := ⟨r.val / 2, by omega⟩
/-- The row of pair `r` for the task writing row `w`. -/
def hOf (w : Fin 32) (r : Fin 16) : Fin 224 := ⟨160 + 2 * w.val + r.val % 2, by omega⟩
/-- The column of lane `l` of half `hf` of lane group `k`. -/
def colOf (k : Fin 7) (hf : Fin 2) (l : Fin 16) : Fin 224 := ⟨32 * k.val + 16 * hf.val + l.val, by omega⟩
/-- The mask array's column holding lane group `k`'s activity word. -/
def flagCol (k : Fin 7) : Fin 256 := ⟨224 + k.val, by omega⟩
/-- A column of the images as a column of the mask array. -/
def mcol (x : Fin 224) : Fin 256 := ⟨x.val, by omega⟩

/-- Lane group `k` is active at (t, h). -/
def active (mk : FVec Ideal SMask .f32) (t : Fin 8) (h : Fin 224) (k : Fin 7) : Prop := 0 < mk (ix3 t h (flagCol k))

instance (mk : FVec Ideal SMask .f32) (t : Fin 8) (h : Fin 224) (k : Fin 7) : Decidable (active mk t h k) := by
  unfold active; infer_instance

/-- The squared distance of the two images over the channels at a pixel. -/
def sqdAt (x0 x1 : FVec Ideal SImg .f32) (t : Fin 8) (h x : Fin 224) : EReal :=
  ∑ c : Fin 192, (x0 (ix4 t c h x) - x1 (ix4 t c h x)) * (x0 (ix4 t c h x) - x1 (ix4 t c h x))
/-- The largest absolute value of the second image over the channels at a pixel, from 0. -/
def absMaxAt (x1 : FVec Ideal SImg .f32) (t : Fin 8) (h x : Fin 224) : EReal :=
  (Finset.univ : Finset (Fin 192)).fold max 0 fun c => max (x1 (ix4 t c h x)) (-(x1 (ix4 t c h x)))

/-- acc: the squared distance where the group is active, else 0. -/
def accAt (x0 x1 : FVec Ideal SImg .f32) (mk : FVec Ideal SMask .f32) (t : Fin 8) (h : Fin 224) (k : Fin 7) (x : Fin 224) : EReal :=
  if active mk t h k then sqdAt x0 x1 t h x else 0
/-- any: the largest absolute value where the group is active, else 0. -/
def anyAt (x1 : FVec Ideal SImg .f32) (mk : FVec Ideal SMask .f32) (t : Fin 8) (h : Fin 224) (k : Fin 7) (x : Fin 224) : EReal :=
  if active mk t h k then absMaxAt x1 t h x else 0
/-- posf: 1 where any is positive and the mask word exceeds 1/2, else 0. -/
def posfAt (x1 : FVec Ideal SImg .f32) (mk : FVec Ideal SMask .f32) (t : Fin 8) (h : Fin 224) (k : Fin 7) (x : Fin 224) : EReal :=
  (if 0 < anyAt x1 mk t h k x then (1 : EReal) else 0) * (if ((1 / 2 : ℝ) : EReal) < mk (ix3 t h (mcol x)) then (1 : EReal) else 0)

/-- Lane `l` of the sums of posf · acc of the task writing row `w`. -/
def sLane (x0 x1 : FVec Ideal SImg .f32) (mk : FVec Ideal SMask .f32) (w : Fin 32) (l : Fin 16) : EReal :=
  ∑ r : Fin 16, ∑ k : Fin 7, ∑ hf : Fin 2,
    posfAt x1 mk (tOf r) (hOf w r) k (colOf k hf l) * accAt x0 x1 mk (tOf r) (hOf w r) k (colOf k hf l)
/-- Lane `l` of the sums of posf of the task writing row `w`. -/
def nLane (x1 : FVec Ideal SImg .f32) (mk : FVec Ideal SMask .f32) (w : Fin 32) (l : Fin 16) : EReal :=
  ∑ r : Fin 16, ∑ k : Fin 7, ∑ hf : Fin 2, posfAt x1 mk (tOf r) (hOf w r) k (colOf k hf l)

/-- Lane `j` of row `w` of the partial-sums array: the first sixteen lanes the sums of posf · acc, the last sixteen of posf. -/
def tileLane (x0 x1 : FVec Ideal SImg .f32) (mk : FVec Ideal SMask .f32) (w : Fin 32) (j : Fin 32) : EReal :=
  if h : j.val < 16 then sLane x0 x1 mk w ⟨j.val, h⟩ else nLane x1 mk w ⟨j.val - 16, by omega⟩

/-- The partial-sums array. -/
def partsSpec (x0 x1 : FVec Ideal SImg .f32) (mk : FVec Ideal SMask .f32) : FVec Ideal (⟨2, ![32, 32]⟩ : Shape) .f32 :=
  fun idx => tileLane x0 x1 mk (idx 0) (idx 1)

end Cert.ScTileVal

end
-- ==== Proof.ScTileRowI.lean ====
/-
  A row's fold: after the four channel groups of a row, the task adds, for each of the 7 lane groups and 2 halves, the
  indicator times the accumulated squared distance to its first carried vector and the indicator to its second. The
  fold as the program spells it (for any float instance), and at the ideal values its closed form and the sixteen rows'
  result: the lanes' sums of the specification.
-/
import proofs.«210586_g14980845929080_cont_week2b_1062_66_alg».proof.Proof.ScTileValI
import proofs.«210586_g14980845929080_cont_week2b_1062_66_alg».proof.Proof.Gen.KernelIdeal
import Idealize.ShloMosaic.Lib.ValueIdx
import Idealize.ShloMosaic.Lib.ValueLayout
import Mathlib.Algebra.BigOperators.Fin

noncomputable section

open scoped BigOperators

namespace Cert.KernelIdeal.ScTile

open Cert.KernelIdeal Cert.KernelIdeal.Gen Cert.LossSpec Cert.ScTileVal
open Idealize.ShloMosaic Idealize.ShloMosaic.ValueIdx

/-! ## The fold, as the program spells it -/

section Spelt
variable {F : FTy → Type} [FloatOps F]

/-- The indicator of a half's sixteen pixels: `one` where the largest absolute value `any` is positive, else `zf`, times
    `one` where the mask line `mv` exceeds 1/2, else `zf`. -/
def posfV (one zf : FVec F S16 .f32) (mv any : Vec F S1x1x16 .f32) : FVec F S16 .f32 :=
  mulf (select (cmpf .ogt (shapeCast S16 any shapeCasts_S1x1x16_S16) (broadcast S16 (Scalar.ofBits (F := F) .f32 0x00000000#32))) one zf)
    (select (cmpf .ogt (shapeCast S16 mv shapeCasts_S1x1x16_S16) (broadcast S16 (Scalar.ofBits (F := F) .f32 0x3F000000#32))) one zf)

/-- One half's step: the indicator times the accumulated squared distance added to the first carried vector, the
    indicator to the second. -/
def foldStep (one zf : FVec F S16 .f32) (p : FVec F S16 .f32 × FVec F S16 .f32) (mv any acc : Vec F S1x1x16 .f32) :
    FVec F S16 .f32 × FVec F S16 .f32 :=
  (addf p.1 (mulf (posfV one zf mv any) (shapeCast S16 acc shapeCasts_S1x1x16_S16)), addf p.2 (posfV one zf mv any))

/-- The row's fold: the fourteen steps, lane groups 0 to 6, halves 0 and 1, from the carried pair `p`; `slab` the mask
    line's sixteen lanes, `any` and `acc` the two accumulators' cells, per lane group and half. -/
def rowFold (one zf : FVec F S16 .f32) (slab any acc : Fin 7 → Fin 2 → Vec F S1x1x16 .f32)
    (p : FVec F S16 .f32 × FVec F S16 .f32) : FVec F S16 .f32 × FVec F S16 .f32 :=
  (foldStep one zf (foldStep one zf (foldStep one zf (foldStep one zf (foldStep one zf (foldStep one zf (foldStep one zf (foldStep one zf (foldStep one zf (foldStep one zf (foldStep one zf (foldStep one zf (foldStep one zf (foldStep one zf p (slab 0 0) (any 0 0) (acc 0 0)) (slab 0 1) (any 0 1) (acc 0 1)) (slab 1 0) (any 1 0) (acc 1 0)) (slab 1 1) (any 1 1) (acc 1 1)) (slab 2 0) (any 2 0) (acc 2 0)) (slab 2 1) (any 2 1) (acc 2 1)) (slab 3 0) (any 3 0) (acc 3 0)) (slab 3 1) (any 3 1) (acc 3 1)) (slab 4 0) (any 4 0) (acc 4 0)) (slab 4 1) (any 4 1) (acc 4 1)) (slab 5 0) (any 5 0) (acc 5 0)) (slab 5 1) (any 5 1) (acc 5 1)) (slab 6 0) (any 6 0) (acc 6 0)) (slab 6 1) (any 6 1) (acc 6 1))

end Spelt

/-! ## At the ideal values -/

/-- The carried pair. -/
abbrev σ2 : Type := FVec Ideal S16 .f32 × FVec Ideal S16 .f32

/-- Lane `l` of a cell or of a mask line. -/
def laneOf (v : Vec Ideal S1x1x16 .f32) (l : Fin 16) : EReal := v (ix3 (0 : Fin 1) (0 : Fin 1) l)

/-- The indicator at a lane, as numbers. -/
def posfE (mv any : EReal) : EReal := (if 0 < any then (1 : EReal) else 0) * (if ((1 / 2 : ℝ) : EReal) < mv then (1 : EReal) else 0)

theorem shapeCast_cell (v : Vec Ideal S1x1x16 .f32) (l : Fin 16) : shapeCast S16 v shapeCasts_S1x1x16_S16 (ix1 l) = laneOf v l :=
  shapeCast_apply _ _ _ _ (by
    rw [Shape.rowMajor_val_three, Shape.rowMajor_val_one]
    show (0 * 1 + 0) * 16 + l.val = l.val
    omega)

theorem cmp_ogt_eq_one (a b : EReal) : Ideal.cmp .ogt a b = (1 : BitVec 1) ↔ b < a := by
  unfold Ideal.cmp
  by_cases h : b < a
  · simp [h]
  · simp [h]

/-- The indicator as the program spells it, at a lane, with `one` the ones and `zf` the zeros. -/
theorem posfV_apply (mv any : Vec Ideal S1x1x16 .f32) (l : Fin 16) :
    posfV (F := Ideal) (fun _ => 1) (fun _ => 0) mv any (ix1 l) = posfE (laneOf mv l) (laneOf any l) := by
  unfold posfV posfE
  show (Scalar.select (Ideal.cmp .ogt (shapeCast S16 any shapeCasts_S1x1x16_S16 (ix1 l)) (Ideal.ofBits .f32 0x00000000#32)) (1 : EReal) 0)
      * (Scalar.select (Ideal.cmp .ogt (shapeCast S16 mv shapeCasts_S1x1x16_S16 (ix1 l)) (Ideal.ofBits .f32 0x3F000000#32)) (1 : EReal) 0) = _
  rw [shapeCast_cell, shapeCast_cell, ofBits_zero, ofBits_half]
  unfold Scalar.select
  congr 1
  · by_cases h : 0 < laneOf any l
    · rw [if_pos ((cmp_ogt_eq_one _ _).2 h), if_pos h]
    · rw [if_neg (fun e => h ((cmp_ogt_eq_one _ _).1 e)), if_neg h]
  · by_cases h : ((1 / 2 : ℝ) : EReal) < laneOf mv l
    · rw [if_pos ((cmp_ogt_eq_one _ _).2 h), if_pos h]
    · rw [if_neg (fun e => h ((cmp_ogt_eq_one _ _).1 e)), if_neg h]

/-- One step at a lane. -/
theorem foldStep_apply (p : σ2) (mv any acc : Vec Ideal S1x1x16 .f32) (l : Fin 16) :
    (foldStep (F := Ideal) (fun _ => 1) (fun _ => 0) p mv any acc).1 (ix1 l)
        = p.1 (ix1 l) + posfE (laneOf mv l) (laneOf any l) * laneOf acc l
      ∧ (foldStep (F := Ideal) (fun _ => 1) (fun _ => 0) p mv any acc).2 (ix1 l) = p.2 (ix1 l) + posfE (laneOf mv l) (laneOf any l) := by
  unfold foldStep
  refine ⟨?_, ?_⟩
  · show p.1 (ix1 l) + posfV (F := Ideal) (fun _ => 1) (fun _ => 0) mv any (ix1 l) * shapeCast S16 acc shapeCasts_S1x1x16_S16 (ix1 l) = _
    rw [posfV_apply, shapeCast_cell]
  · show p.2 (ix1 l) + posfV (F := Ideal) (fun _ => 1) (fun _ => 0) mv any (ix1 l) = _
    rw [posfV_apply]

theorem foldStep_fst (p : σ2) (mv any acc : Vec Ideal S1x1x16 .f32) (l : Fin 16) :
    (foldStep (F := Ideal) (fun _ => 1) (fun _ => 0) p mv any acc).1 (ix1 l)
      = p.1 (ix1 l) + posfE (laneOf mv l) (laneOf any l) * laneOf acc l := (foldStep_apply p mv any acc l).1
theorem foldStep_snd (p : σ2) (mv any acc : Vec Ideal S1x1x16 .f32) (l : Fin 16) :
    (foldStep (F := Ideal) (fun _ => 1) (fun _ => 0) p mv any acc).2 (ix1 l)
      = p.2 (ix1 l) + posfE (laneOf mv l) (laneOf any l) := (foldStep_apply p mv any acc l).2

/-- THE ROW'S FOLD at a lane: the carried pair plus, over the 7 lane groups and 2 halves, the indicator times the
    accumulated squared distance (first) and the indicator (second). -/
theorem rowFold_fst (slab any acc : Fin 7 → Fin 2 → Vec Ideal S1x1x16 .f32) (p : σ2) (l : Fin 16) :
    (rowFold (F := Ideal) (fun _ => 1) (fun _ => 0) slab any acc p).1 (ix1 l)
      = p.1 (ix1 l) + ∑ kk : Fin 7, ∑ hf : Fin 2, posfE (laneOf (slab kk hf) l) (laneOf (any kk hf) l) * laneOf (acc kk hf) l := by
  unfold rowFold
  simp only [foldStep_fst, Fin.sum_univ_seven, Fin.sum_univ_two, add_assoc]
theorem rowFold_snd (slab any acc : Fin 7 → Fin 2 → Vec Ideal S1x1x16 .f32) (p : σ2) (l : Fin 16) :
    (rowFold (F := Ideal) (fun _ => 1) (fun _ => 0) slab any acc p).2 (ix1 l)
      = p.2 (ix1 l) + ∑ kk : Fin 7, ∑ hf : Fin 2, posfE (laneOf (slab kk hf) l) (laneOf (any kk hf) l) := by
  unfold rowFold
  simp only [foldStep_snd, Fin.sum_univ_seven, Fin.sum_univ_two, add_assoc]

/-! ## The sixteen rows -/

section Rows
variable (x0 x1 : FVec Ideal SImg .f32) (mk : FVec Ideal SMask .f32) (w : Fin 32)
variable (sums : ℕ → σ2) (slab any acc : Fin 16 → Fin 7 → Fin 2 → Vec Ideal S1x1x16 .f32)

/-- The row's terms as the specification's, given what the row's cells and mask line hold. -/
theorem row_terms (r : Fin 16) (l : Fin 16)
    (hslab : ∀ kk hf, laneOf (slab r kk hf) l = mk (ix3 (tOf r) (hOf w r) (mcol (colOf kk hf l))))
    (hany : ∀ kk hf, laneOf (any r kk hf) l = anyAt x1 mk (tOf r) (hOf w r) kk (colOf kk hf l))
    (hacc : ∀ kk hf, laneOf (acc r kk hf) l = accAt x0 x1 mk (tOf r) (hOf w r) kk (colOf kk hf l)) :
    (∑ kk : Fin 7, ∑ hf : Fin 2, posfE (laneOf (slab r kk hf) l) (laneOf (any r kk hf) l) * laneOf (acc r kk hf) l
        = ∑ kk : Fin 7, ∑ hf : Fin 2, posfAt x1 mk (tOf r) (hOf w r) kk (colOf kk hf l) * accAt x0 x1 mk (tOf r) (hOf w r) kk (colOf kk hf l))
      ∧ (∑ kk : Fin 7, ∑ hf : Fin 2, posfE (laneOf (slab r kk hf) l) (laneOf (any r kk hf) l)
        = ∑ kk : Fin 7, ∑ hf : Fin 2, posfAt x1 mk (tOf r) (hOf w r) kk (colOf kk hf l)) := by
  refine ⟨Finset.sum_congr rfl fun kk _ => Finset.sum_congr rfl fun hf _ => ?_, Finset.sum_congr rfl fun kk _ => Finset.sum_congr rfl fun hf _ => ?_⟩
  · rw [hslab, hany, hacc]; rfl
  · rw [hslab, hany]; rfl

/-- M3: from zero, sixteen rows of the fold leave the lanes' sums of the specification. -/
theorem lanes_of_rows (h0 : sums 0 = (fun _ => 0, fun _ => 0))
    (hstep : ∀ r : Fin 16, sums (r.val + 1) = rowFold (F := Ideal) (fun _ => 1) (fun _ => 0) (slab r) (any r) (acc r) (sums r.val))
    (hslab : ∀ r kk hf l, laneOf (slab r kk hf) l = mk (ix3 (tOf r) (hOf w r) (mcol (colOf kk hf l))))
    (hany : ∀ r kk hf l, laneOf (any r kk hf) l = anyAt x1 mk (tOf r) (hOf w r) kk (colOf kk hf l))
    (hacc : ∀ r kk hf l, laneOf (acc r kk hf) l = accAt x0 x1 mk (tOf r) (hOf w r) kk (colOf kk hf l)) (l : Fin 16) :
    (sums 16).1 (ix1 l) = sLane x0 x1 mk w l ∧ (sums 16).2 (ix1 l) = nLane x1 mk w l := by
  have key : ∀ n (hn : n ≤ 16),
      (sums n).1 (ix1 l) = ∑ r : Fin 16, (if r.val < n then ∑ kk : Fin 7, ∑ hf : Fin 2,
          posfAt x1 mk (tOf r) (hOf w r) kk (colOf kk hf l) * accAt x0 x1 mk (tOf r) (hOf w r) kk (colOf kk hf l) else 0)
      ∧ (sums n).2 (ix1 l) = ∑ r : Fin 16, (if r.val < n then ∑ kk : Fin 7, ∑ hf : Fin 2,
          posfAt x1 mk (tOf r) (hOf w r) kk (colOf kk hf l) else 0) := by
    intro n
    induction n with
    | zero => intro _; rw [h0]; simp
    | succ n ih =>
      intro hn
      have hlt : n < 16 := hn
      obtain ⟨ih1, ih2⟩ := ih (Nat.le_of_lt hlt)
      have hs := hstep ⟨n, hlt⟩
      obtain ⟨t1, t2⟩ := row_terms x0 x1 mk w slab any acc ⟨n, hlt⟩ l (hslab ⟨n, hlt⟩ · · l) (hany ⟨n, hlt⟩ · · l) (hacc ⟨n, hlt⟩ · · l)
      have split : ∀ T : Fin 16 → EReal, (∑ r : Fin 16, if r.val < n + 1 then T r else 0)
          = (∑ r : Fin 16, if r.val < n then T r else 0) + T ⟨n, hlt⟩ := by
        intro T
        have e : T ⟨n, hlt⟩ = ∑ r : Fin 16, if r = ⟨n, hlt⟩ then T r else 0 := by
          rw [Finset.sum_ite_eq' Finset.univ (⟨n, hlt⟩ : Fin 16) T, if_pos (Finset.mem_univ _)]
        rw [e, ← Finset.sum_add_distrib]
        refine Finset.sum_congr rfl fun r _ => ?_
        by_cases h1 : r.val < n
        · have h2 : r ≠ ⟨n, hlt⟩ := fun e => by rw [e] at h1; exact lt_irrefl _ h1
          rw [if_pos h1, if_pos (Nat.lt_succ_of_lt h1), if_neg h2, add_zero]
        · by_cases h3 : r = ⟨n, hlt⟩
          · subst h3; rw [if_neg h1, if_pos (Nat.lt_succ_self _), if_pos rfl, zero_add]
          · have h4 : ¬ r.val < n + 1 := fun h => h3 (Fin.ext (by show r.val = n; have := Nat.lt_succ_iff.mp h; omega))
            rw [if_neg h1, if_neg h4, if_neg h3, add_zero]
      refine ⟨?_, ?_⟩
      · rw [hs, rowFold_fst, ih1, t1, split]
      · rw [hs, rowFold_snd, ih2, t2, split]
  obtain ⟨k1, k2⟩ := key 16 le_rfl
  refine ⟨k1.trans ?_, k2.trans ?_⟩
  · unfold sLane; exact Finset.sum_congr rfl fun r _ => if_pos r.isLt
  · unfold nLane; exact Finset.sum_congr rfl fun r _ => if_pos r.isLt

end Rows

end Cert.KernelIdeal.ScTile

end
-- ==== Proof.ScTileRowPayI.lean ====
/-
  The row fold's constants and the final stores' payloads, at the ideal values: the zeros, the ones, and the identity casts.
-/
import proofs.«210586_g14980845929080_cont_week2b_1062_66_alg».proof.Proof.ScTileRowI
import proofs.«210586_g14980845929080_cont_week2b_1062_66_alg».proof.Proof.Gen.KernelIdeal.Skeleton
import Idealize.ShloMosaic.Lib.Pipeline.Value

noncomputable section

namespace Cert.KernelIdeal.ScTile

open Cert.KernelIdeal Cert.KernelIdeal.Gen Cert.LossSpec
open Idealize.ShloMosaic Idealize.ShloMosaic.ValueIdx

/-- The zero vector the fold starts from and selects. -/
theorem pay828_eq : k1_pay828 (F := Ideal) = fun _ => (0 : EReal) := by
  funext i
  show Ideal.ofBits .f32 0x00000000#32 = 0
  exact ofBits_zero

theorem ofBits_one : Ideal.ofBits .f32 0x3F800000#32 = (1 : EReal) := by
  simp [Ideal.ofBits, Ideal.ieee, -EReal.coe_mul]; norm_num

/-- The ones vector the fold selects. -/
theorem pay829_eq : k1_pay829 (F := Ideal) = fun _ => (1 : EReal) := by
  funext i
  show Ideal.ofBits .f32 0x3F800000#32 = 1
  exact ofBits_one

/-- The payloads of the task's two final stores are the carried vectors themselves. -/
theorem pay833_eq (v : FVec Ideal S16 .f32) : k1_pay833 (F := Ideal) v = v := shapeCast_self v _
theorem pay834_eq (v : FVec Ideal S16 .f32) : k1_pay834 (F := Ideal) v = v := shapeCast_self v _

end Cert.KernelIdeal.ScTile

end
-- ==== Proof.ScTileSumI.lean ====
/-
  The SparseCore call's sums against the specification: the 32 tasks' 16 (image, row) pairs, 7 lane groups, 2 halves and
  16 lanes enumerate the pixels of rows 160 to 223 once each; at each pixel the task's indicator is the specification's
  and its term the specification's; so the partial-sums array's lanes add up to the specification's two sums over those rows.
-/
import proofs.«210586_g14980845929080_cont_week2b_1062_66_alg».proof.Proof.ScTileValI
import Mathlib.Algebra.BigOperators.Fin
import Mathlib.Logic.Equiv.Fin.Basic

noncomputable section

open scoped BigOperators

namespace Cert.KernelIdeal.ScTile

open Cert.LossSpec Cert.ScTileVal Idealize.ShloMosaic Idealize.ShloMosaic.ValueIdx

/-! ## The lanes enumerate the pixels -/

/-- The pixel a task's lane adds: task `w`, pair `r`, lane group `k`, half `hf`, lane `l` ↦ image `r / 2`, row
    `160 + (2 w + r % 2)`, column `32 k + 16 hf + l`. -/
def pix (p : Fin 32 × Fin 16 × Fin 7 × Fin 2 × Fin 16) : Fin 8 × Fin 64 × Fin 224 :=
  (⟨p.2.1.val / 2, by have := p.2.1.isLt; omega⟩,
   ⟨2 * p.1.val + p.2.1.val % 2, by have := p.1.isLt; omega⟩,
   ⟨32 * p.2.2.1.val + 16 * p.2.2.2.1.val + p.2.2.2.2.val, by
      have := p.2.2.1.isLt; have := p.2.2.2.1.isLt; have := p.2.2.2.2.isLt; omega⟩)

/-- The lane that adds a pixel. -/
def unpix (q : Fin 8 × Fin 64 × Fin 224) : Fin 32 × Fin 16 × Fin 7 × Fin 2 × Fin 16 :=
  (⟨q.2.1.val / 2, by have := q.2.1.isLt; omega⟩,
   ⟨2 * q.1.val + q.2.1.val % 2, by have := q.1.isLt; omega⟩,
   ⟨q.2.2.val / 32, by have := q.2.2.isLt; omega⟩,
   ⟨q.2.2.val % 32 / 16, by omega⟩,
   ⟨q.2.2.val % 16, by omega⟩)

theorem unpix_pix (p : Fin 32 × Fin 16 × Fin 7 × Fin 2 × Fin 16) : unpix (pix p) = p := by
  obtain ⟨w, r, k, hf, l⟩ := p
  have := w.isLt; have := r.isLt; have := k.isLt; have := hf.isLt; have := l.isLt
  simp only [pix, unpix, Prod.mk.injEq]
  refine ⟨Fin.ext ?_, Fin.ext ?_, Fin.ext ?_, Fin.ext ?_, Fin.ext ?_⟩ <;> simp only [] <;> omega

theorem pix_unpix (q : Fin 8 × Fin 64 × Fin 224) : pix (unpix q) = q := by
  obtain ⟨b, h, w⟩ := q
  have := b.isLt; have := h.isLt; have := w.isLt
  simp only [pix, unpix, Prod.mk.injEq]
  refine ⟨Fin.ext ?_, Fin.ext ?_, Fin.ext ?_⟩ <;> simp only [] <;> omega

/-- The lanes enumerate the pixels of rows 160 to 223 once each. -/
def pixEquiv : (Fin 32 × Fin 16 × Fin 7 × Fin 2 × Fin 16) ≃ (Fin 8 × Fin 64 × Fin 224) where
  toFun := pix
  invFun := unpix
  left_inv := unpix_pix
  right_inv := pix_unpix

/-- A sum over tasks, pairs, lane groups, halves and lanes of a function of the pixel is the sum over the pixels. -/
theorem sum_lanes_eq_sum_pixels {M : Type*} [AddCommMonoid M] (f : Fin 8 × Fin 64 × Fin 224 → M) :
    ∑ w : Fin 32, ∑ r : Fin 16, ∑ k : Fin 7, ∑ hf : Fin 2, ∑ l : Fin 16, f (pix (w, r, k, hf, l))
      = ∑ b : Fin 8, ∑ h : Fin 64, ∑ x : Fin 224, f (b, h, x) := by
  simp only [← Fintype.sum_prod_type']
  exact Equiv.sum_comp pixEquiv f

/-- Row `160 + h'` of the image. -/
def rowHi (h' : Fin 64) : Fin 224 := ⟨160 + h'.val, by have := h'.isLt; omega⟩

/-- Row `h` below 160. -/
def rowLo (h : Fin 160) : Fin 224 := ⟨h.val, by have := h.isLt; omega⟩

/-- The rows split into those below 160 (the TensorCore kernel's) and those from 160 up (the SparseCore kernel's). -/
theorem sum_rows_split {M : Type*} [AddCommMonoid M] (f : Fin 224 → M) :
    ∑ h : Fin 224, f h = ∑ h : Fin 160, f (rowLo h) + ∑ h' : Fin 64, f (rowHi h') := by
  have e := Fin.sum_univ_add (M := M) (a := 160) (b := 64) f
  rw [e]
  congr 1

theorem pix_eq (w : Fin 32) (r : Fin 16) (k : Fin 7) (hf : Fin 2) (l : Fin 16) :
    pix (w, r, k, hf, l) = (tOf r, (⟨2 * w.val + r.val % 2, by have := w.isLt; omega⟩ : Fin 64), colOf k hf l) := rfl
theorem rowHi_pair (w : Fin 32) (r : Fin 16) :
    rowHi (⟨2 * w.val + r.val % 2, by have := w.isLt; omega⟩ : Fin 64) = hOf w r := Fin.ext (by simp only [rowHi, hOf]; omega)

/-! ## One pixel: the task's indicator and term against the specification's -/

/-- The absolute value, as the maximum of a number and its negation, is positive exactly off zero. -/
theorem abs_pos_iff (x : EReal) : 0 < max x (-x) ↔ x ≠ 0 := by
  constructor
  · intro h hx; subst hx; simp at h
  · intro hx
    rcases lt_trichotomy x 0 with h | h | h
    · exact lt_max_of_lt_right (by rw [← neg_zero, EReal.neg_lt_neg_iff]; exact h)
    · exact absurd h hx
    · exact lt_max_of_lt_left h

/-- The largest absolute value over the channels is positive exactly when some channel of the target is not 0. -/
theorem absMaxAt_pos_iff (x1 : FVec Ideal SImg .f32) (t : Fin 8) (h x : Fin 224) : 0 < absMaxAt x1 t h x ↔ tgtNonzero x1 t h x := by
  unfold absMaxAt tgtNonzero
  rw [Finset.lt_fold_max]
  simp only [lt_self_iff_false, Finset.mem_univ, true_and, false_or, abs_pos_iff]

/-- What the box-mask kernel leaves in the mask array `mk` (image, row, column of 256): in columns 0–223 the indicator
    of "the pixel lies in some box", and column 224 + k positive exactly when some pixel of the row's lane group `k`
    (columns 32 k … 32 k + 31) lies in a box. -/
structure IsMask (x2 : IVec SBox 32) (mk : FVec Ideal SMask .f32) : Prop where
  box : ∀ (b : Fin 8) (h w : Fin 224), mk (ix3 b h (mcol w)) = if inBox x2 b h w then (1 : EReal) else 0
  act : ∀ (b : Fin 8) (h : Fin 224) (k : Fin 7), (0 : EReal) < mk (ix3 b h (flagCol k))
    ↔ ∃ l : Fin 32, inBox x2 b h ⟨32 * k.val + l.val, by have := k.isLt; have := l.isLt; omega⟩

section Pixel
variable (x0 x1 : FVec Ideal SImg .f32) {x2 : IVec SBox 32} {mk : FVec Ideal SMask .f32}
variable (b : Fin 8) (h : Fin 224) (k : Fin 7) (hf : Fin 2) (l : Fin 16)

/-- A pixel in a box makes its lane group active. -/
theorem active_of_inBox (hm : IsMask x2 mk) (hb : inBox x2 b h (colOf k hf l)) : active mk b h k := by
  unfold active
  rw [hm.act]
  refine ⟨⟨16 * hf.val + l.val, by have := hf.isLt; have := l.isLt; omega⟩, ?_⟩
  have e : (⟨32 * k.val + (16 * hf.val + l.val), by have := k.isLt; have := hf.isLt; have := l.isLt; omega⟩ : Fin 224) = colOf k hf l :=
    Fin.ext (by simp only [colOf]; omega)
  rw [e]; exact hb

/-- The mask's word at the pixel exceeds 1/2 exactly when the pixel lies in a box. -/
theorem half_lt_mask_iff (hm : IsMask x2 mk) (x : Fin 224) :
    ((1 / 2 : ℝ) : EReal) < mk (ix3 b h (mcol x)) ↔ inBox x2 b h x := by
  rw [hm.box]
  by_cases hb : inBox x2 b h x
  · rw [if_pos hb]
    refine iff_of_true ?_ hb
    rw [← EReal.coe_one, EReal.coe_lt_coe_iff]; norm_num
  · rw [if_neg hb]
    refine iff_of_false ?_ hb
    rw [← EReal.coe_zero, EReal.coe_lt_coe_iff]; norm_num

/-- THE INDICATOR: the task's is the specification's. -/
theorem posfAt_eq_pos (hm : IsMask x2 mk) : posfAt x1 mk b h k (colOf k hf l) = pos x1 x2 b h (colOf k hf l) := by
  unfold posfAt
  rw [pos_eq_mul]
  by_cases hb : inBox x2 b h (colOf k hf l)
  · have hfl := active_of_inBox b h k hf l hm hb
    rw [if_pos ((half_lt_mask_iff b h hm _).2 hb), if_pos hb, mul_one, mul_one]
    unfold anyAt; rw [if_pos hfl]
    have hiff := absMaxAt_pos_iff x1 b h (colOf k hf l)
    by_cases ht : tgtNonzero x1 b h (colOf k hf l)
    · rw [if_pos ht, if_pos (hiff.2 ht)]
    · rw [if_neg ht, if_neg (fun e => ht (hiff.1 e))]
  · rw [if_neg (fun e => hb ((half_lt_mask_iff b h hm _).1 e)), if_neg hb, mul_zero, mul_zero]

/-- THE TERM: the task's indicator times what it accumulated is the specification's indicator times the squared distance. -/
theorem posfAt_mul_accAt (hm : IsMask x2 mk) :
    posfAt x1 mk b h k (colOf k hf l) * accAt x0 x1 mk b h k (colOf k hf l) = pos x1 x2 b h (colOf k hf l) * sqd x0 x1 b h (colOf k hf l) := by
  rw [posfAt_eq_pos x1 b h k hf l hm]
  unfold accAt
  by_cases hb : inBox x2 b h (colOf k hf l)
  · rw [if_pos (active_of_inBox b h k hf l hm hb)]; rfl
  · have hp : pos x1 x2 b h (colOf k hf l) = 0 := pos_of_not_isPos fun hp => hb hp.2
    rw [hp, zero_mul, zero_mul]

end Pixel

/-! ## The lanes' sums -/

section Lanes
variable (x0 x1 : FVec Ideal SImg .f32) {x2 : IVec SBox 32} {mk : FVec Ideal SMask .f32}

/-- The lane to the innermost place. -/
theorem sum_lane_inner {M : Type*} [AddCommMonoid M] (g : Fin 16 → Fin 16 → Fin 7 → Fin 2 → M) :
    ∑ l : Fin 16, ∑ r : Fin 16, ∑ k : Fin 7, ∑ hf : Fin 2, g l r k hf = ∑ r : Fin 16, ∑ k : Fin 7, ∑ hf : Fin 2, ∑ l : Fin 16, g l r k hf := by
  rw [Finset.sum_comm]
  refine Finset.sum_congr rfl fun r _ => ?_
  rw [Finset.sum_comm]
  refine Finset.sum_congr rfl fun k _ => ?_
  rw [Finset.sum_comm]

/-- THE FIRST SUM: the 32 tasks' lanes 0–15 add up to the specification's sum of indicator times squared distance over
    the pixels of rows 160 to 223. -/
theorem sum_sLane (hm : IsMask x2 mk) :
    ∑ w : Fin 32, ∑ l : Fin 16, sLane x0 x1 mk w l
      = ∑ b : Fin 8, ∑ h' : Fin 64, ∑ x : Fin 224, pos x1 x2 b (rowHi h') x * sqd x0 x1 b (rowHi h') x := by
  rw [← sum_lanes_eq_sum_pixels (fun q => pos x1 x2 q.1 (rowHi q.2.1) q.2.2 * sqd x0 x1 q.1 (rowHi q.2.1) q.2.2)]
  refine Finset.sum_congr rfl fun w _ => ?_
  unfold sLane
  rw [sum_lane_inner]
  refine Finset.sum_congr rfl fun r _ => Finset.sum_congr rfl fun k _ => Finset.sum_congr rfl fun hf _ => Finset.sum_congr rfl fun l _ => ?_
  rw [posfAt_mul_accAt x0 x1 _ _ k hf l hm, pix_eq]
  show _ = pos x1 x2 (tOf r) (rowHi _) (colOf k hf l) * sqd x0 x1 (tOf r) (rowHi _) (colOf k hf l)
  rw [rowHi_pair]

/-- THE SECOND SUM: the 32 tasks' lanes 16–31 add up to the number of positive pixels of rows 160 to 223. -/
theorem sum_nLane (hm : IsMask x2 mk) :
    ∑ w : Fin 32, ∑ l : Fin 16, nLane x1 mk w l = ∑ b : Fin 8, ∑ h' : Fin 64, ∑ x : Fin 224, pos x1 x2 b (rowHi h') x := by
  rw [← sum_lanes_eq_sum_pixels (fun q => pos x1 x2 q.1 (rowHi q.2.1) q.2.2)]
  refine Finset.sum_congr rfl fun w _ => ?_
  unfold nLane
  rw [sum_lane_inner]
  refine Finset.sum_congr rfl fun r _ => Finset.sum_congr rfl fun k _ => Finset.sum_congr rfl fun hf _ => Finset.sum_congr rfl fun l _ => ?_
  rw [posfAt_eq_pos x1 _ _ k hf l hm, pix_eq]
  show _ = pos x1 x2 (tOf r) (rowHi _) (colOf k hf l)
  rw [rowHi_pair]

/-! ## The partial-sums array -/

/-- Its first sixteen lanes of row `w` are the task's sums of indicator times squared distance; -/
theorem partsSpec_lo (mk' : FVec Ideal SMask .f32) (w : Fin 32) (l : Fin 16) :
    partsSpec x0 x1 mk' (ix2 w (⟨l.val, by have := l.isLt; omega⟩ : Fin 32)) = sLane x0 x1 mk' w l := by
  unfold partsSpec tileLane
  exact dif_pos l.isLt
/-- its last sixteen the sums of the indicators. -/
theorem partsSpec_hi (mk' : FVec Ideal SMask .f32) (w : Fin 32) (l : Fin 16) :
    partsSpec x0 x1 mk' (ix2 w (⟨16 + l.val, by have := l.isLt; omega⟩ : Fin 32)) = nLane x1 mk' w l := by
  unfold partsSpec tileLane
  have hn : ¬ (16 + l.val < 16) := by omega
  refine (dif_neg hn).trans ?_
  congr 1
  exact Fin.ext (by show 16 + l.val - 16 = l.val; omega)

/-- The array's first sixteen columns add up to the specification's first sum over rows 160 to 223, -/
theorem sum_partsSpec_lo (hm : IsMask x2 mk) :
    ∑ w : Fin 32, ∑ l : Fin 16, partsSpec x0 x1 mk (ix2 w (⟨l.val, by have := l.isLt; omega⟩ : Fin 32))
      = ∑ b : Fin 8, ∑ h' : Fin 64, ∑ x : Fin 224, pos x1 x2 b (rowHi h') x * sqd x0 x1 b (rowHi h') x := by
  simp only [partsSpec_lo]; exact sum_sLane x0 x1 hm
/-- and its last sixteen to the second. -/
theorem sum_partsSpec_hi (hm : IsMask x2 mk) :
    ∑ w : Fin 32, ∑ l : Fin 16, partsSpec x0 x1 mk (ix2 w (⟨16 + l.val, by have := l.isLt; omega⟩ : Fin 32))
      = ∑ b : Fin 8, ∑ h' : Fin 64, ∑ x : Fin 224, pos x1 x2 b (rowHi h') x := by
  simp only [partsSpec_hi]; exact sum_nLane x1 hm

end Lanes

end Cert.KernelIdeal.ScTile

end
-- ==== Proof.ScTilePoutI.lean ====
/-
  The task's output row against the partial-sums array of the specification: if the sixteen rows' fold ends at the
  lanes' sums, the thirty-two lanes the task stores are the array's row.
-/
import proofs.«210586_g14980845929080_cont_week2b_1062_66_alg».proof.Proof.ScTileVLaneI
import proofs.«210586_g14980845929080_cont_week2b_1062_66_alg».proof.Proof.ScTileRowPayI
import proofs.«210586_g14980845929080_cont_week2b_1062_66_alg».proof.Proof.ScTileSumI

noncomputable section

namespace Cert.KernelIdeal.ScTile

open Cert.KernelIdeal Cert.KernelIdeal.Gen Cert.LossSpec Cert.ScTileVal
open Idealize.ShloMosaic Idealize.ShloMosaic.ValueIdx

/-- The row `w` of the partial-sums array is what the task stores: lanes 0–15 the first carried vector, 16–31 the second. -/
theorem parts_eq_outVec (x0 x1 : FVec Ideal SImg .f32) (mk : FVec Ideal SMask .f32) (w : Fin 32) (sums : ℕ → σ2)
    (hl : ∀ l : Fin 16, (sums 16).1 (ix1 l) = sLane x0 x1 mk w l ∧ (sums 16).2 (ix1 l) = nLane x1 mk w l) (j : Fin 32) :
    partsSpec x0 x1 mk (ix2 w j) = outVec (F := Ideal) sums (ix1 j) := by
  by_cases hj : j.val < 16
  · have e : j = (⟨(⟨j.val, hj⟩ : Fin 16).val, by omega⟩ : Fin 32) := Fin.ext rfl
    rw [e, outVec_lo, pay833_eq, (hl ⟨j.val, hj⟩).1, partsSpec_lo]
  · have hj2 : j.val - 16 < 16 := by have := j.isLt; omega
    have e : j = (⟨16 + (⟨j.val - 16, hj2⟩ : Fin 16).val, by show 16 + (j.val - 16) < 32; have := j.isLt; omega⟩ : Fin 32) :=
      Fin.ext (by show j.val = 16 + (j.val - 16); omega)
    rw [e, outVec_hi, pay834_eq, (hl ⟨j.val - 16, hj2⟩).2, partsSpec_hi]

end Cert.KernelIdeal.ScTile

end
-- ==== Proof.ScTileTailI.lean ====
/-
  The two hypotheses the kernel's result takes about the partial sums, at the specification's partial-sums array: its
  first sixteen columns add up to the rows from 160 on of S, its last sixteen to those rows of N.
-/
import proofs.«210586_g14980845929080_cont_week2b_1062_66_alg».proof.Proof.TailValueI
import proofs.«210586_g14980845929080_cont_week2b_1062_66_alg».proof.Proof.ScTileSumI

noncomputable section

open scoped BigOperators

namespace Cert.KernelIdeal.ScTile

open Cert.KernelIdeal Cert.LossSpec Cert.ScTileVal
open Idealize.ShloMosaic Idealize.ShloMosaic.ValueIdx

theorem hPS_partsSpec (x0 x1 : FVec Ideal SImg .f32) {x2 : IVec SBox 32} {mk : FVec Ideal SMask .f32} (hm : IsMask x2 mk) :
    ∑ a : Fin 32, ∑ j : Fin 16, partsSpec x0 x1 mk (ix2 a (TailValue.colLo j))
      = ∑ b : Fin 8, ∑ h' : Fin 64, ∑ w : Fin 224, pos x1 x2 b (TailValue.rowHi h') w * sqd x0 x1 b (TailValue.rowHi h') w :=
  sum_partsSpec_lo x0 x1 hm

theorem hPN_partsSpec (x0 x1 : FVec Ideal SImg .f32) {x2 : IVec SBox 32} {mk : FVec Ideal SMask .f32} (hm : IsMask x2 mk) :
    ∑ a : Fin 32, ∑ j : Fin 16, partsSpec x0 x1 mk (ix2 a (TailValue.colHi j))
      = ∑ b : Fin 8, ∑ h' : Fin 64, ∑ w : Fin 224, pos x1 x2 b (TailValue.rowHi h') w :=
  sum_partsSpec_hi x0 x1 hm

end Cert.KernelIdeal.ScTile

end
-- ==== Proof.MaskValueI.lean ====
import proofs.«210586_g14980845929080_cont_week2b_1062_66_alg».proof.Proof.Gen.KernelIdeal.Launch
import proofs.«210586_g14980845929080_cont_week2b_1062_66_alg».proof.Proof.Gen.KernelIdeal.Skeleton
import proofs.«210586_g14980845929080_cont_week2b_1062_66_alg».proof.Proof.Gen.KernelIdeal.Points
import proofs.«210586_g14980845929080_cont_week2b_1062_66_alg».proof.Proof.MaskRegionI
import proofs.«210586_g14980845929080_cont_week2b_1062_66_alg».proof.Proof.LossSpec
import Idealize.ShloMosaic.Lib.ValueLayout
import Idealize.ShloMosaic.Lib.Pipeline.Value
import Idealize.ShloMosaic.PureOps.Ideal.Laws
import Idealize.ShloMosaic.Lib.Pipeline.FrameBody
import Idealize.ShloMosaic.Lib.WholeRead
import Idealize.ShloMosaic.Lib.Ring
import Idealize.ShloMosaic.Lib.Tactic

set_option maxRecDepth 16384

noncomputable section

namespace Cert.KernelIdeal.MaskRegion

open Cert.KernelIdeal Cert.KernelIdeal.Gen Cert.LossSpec
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type}

local notation "𝕄" => MT nD τ sig Ix (Elt F) Name U Lvl

/-! # The box-mask kernel's values: what a grid point's output block holds, entry by entry -/

/-! ## One-bit words -/

theorem ofBool_eq_one (b : Bool) : BitVec.ofBool b = 1#1 ↔ b = true := by cases b <;> decide
theorem andi_eq_one (a b : BitVec 1) : IntOp.andi a b = 1#1 ↔ a = 1#1 ∧ b = 1#1 := by revert a b; decide
theorem ori_eq_one (a b : BitVec 1) : IntOp.ori a b = 1#1 ↔ a = 1#1 ∨ b = 1#1 := by revert a b; decide
theorem zero_eq_one_iff : ((0#1 : BitVec 1) = 1#1) ↔ False := by decide

/-- One box's bit at a pixel: the pixel's row word `y` and column word `x` against the box's four words,
    `y1 ≤ y < y2` and `x2 ≤ x < x1` as signed comparisons. -/
def boxBit (y x y1 y2 x2 x1 : BitVec 32) : BitVec 1 :=
  IntOp.andi (IntOp.andi (IntOp.andi (IntOp.cmpi .sge y y1) (IntOp.cmpi .slt y y2)) (IntOp.cmpi .sge x x2)) (IntOp.cmpi .slt x x1)

theorem boxBit_eq_one (y x y1 y2 x2 x1 : BitVec 32) :
    boxBit y x y1 y2 x2 x1 = 1#1 ↔ y1.toInt ≤ y.toInt ∧ y.toInt < y2.toInt ∧ x2.toInt ≤ x.toInt ∧ x.toInt < x1.toInt := by
  unfold boxBit
  simp only [andi_eq_one, IntOp.cmpi, ofBool_eq_one, BitVec.sle, BitVec.slt, decide_eq_true_eq, and_assoc]

/-- A box's bit is the specification's membership of the pixel in the box, the words being the table's. -/
theorem box_iff (x0 : IVec SBox 32) (b : Fin 8) (n : Fin 20) (h w : Fin 224) (y x y1 y2 x2 x1 : BitVec 32)
    (hy : y.toInt = (h.val : Int)) (hx : x.toInt = (w.val : Int))
    (e1 : y1 = x0 (ix3 b n (1 : Fin 4))) (e2 : y2 = x0 (ix3 b n (3 : Fin 4))) (e3 : x2 = x0 (ix3 b n (2 : Fin 4)))
    (e4 : x1 = x0 (ix3 b n (0 : Fin 4))) :
    boxBit y x y1 y2 x2 x1 = 1#1 ↔ inBoxAt x0 b n h w := by
  subst e1 e2 e3 e4; rw [boxBit_eq_one, hy, hx]; exact Iff.rfl

theorem exists_fin20 (P : Fin 20 → Prop) : (∃ n, P n) ↔ (P 0 ∨ P 1 ∨ P 2 ∨ P 3 ∨ P 4 ∨ P 5 ∨ P 6 ∨ P 7 ∨ P 8 ∨ P 9 ∨ P 10 ∨ P 11 ∨ P 12 ∨ P 13 ∨ P 14 ∨ P 15 ∨ P 16 ∨ P 17 ∨ P 18 ∨ P 19) := by
  constructor
  · rintro ⟨n, h⟩
    fin_cases n
    · exact Or.inl h
    · exact Or.inr (Or.inl h)
    · exact Or.inr (Or.inr (Or.inl h))
    · exact Or.inr (Or.inr (Or.inr (Or.inl h)))
    · exact Or.inr (Or.inr (Or.inr (Or.inr (Or.inl h))))
    · exact Or.inr (Or.inr (Or.inr (Or.inr (Or.inr (Or.inl h)))))
    · exact Or.inr (Or.inr (Or.inr (Or.inr (Or.inr (Or.inr (Or.inl h))))))
    · exact Or.inr (Or.inr (Or.inr (Or.inr (Or.inr (Or.inr (Or.inr (Or.inl h)))))))
    · exact Or.inr (Or.inr (Or.inr (Or.inr (Or.inr (Or.inr (Or.inr (Or.inr (Or.inl h))))))))
    · exact Or.inr (Or.inr (Or.inr (Or.inr (Or.inr (Or.inr (Or.inr (Or.inr (Or.inr (Or.inl h)))))))))
    · exact Or.inr (Or.inr (Or.inr (Or.inr (Or.inr (Or.inr (Or.inr (Or.inr (Or.inr (Or.inr (Or.inl h))))))))))
    · exact Or.inr (Or.inr (Or.inr (Or.inr (Or.inr (Or.inr (Or.inr (Or.inr (Or.inr (Or.inr (Or.inr (Or.inl h)))))))))))
    · exact Or.inr (Or.inr (Or.inr (Or.inr (Or.inr (Or.inr (Or.inr (Or.inr (Or.inr (Or.inr (Or.inr (Or.inr (Or.inl h))))))))))))
    · exact Or.inr (Or.inr (Or.inr (Or.inr (Or.inr (Or.inr (Or.inr (Or.inr (Or.inr (Or.inr (Or.inr (Or.inr (Or.inr (Or.inl h)))))))))))))
    · exact Or.inr (Or.inr (Or.inr (Or.inr (Or.inr (Or.inr (Or.inr (Or.inr (Or.inr (Or.inr (Or.inr (Or.inr (Or.inr (Or.inr (Or.inl h))))))))))))))
    · exact Or.inr (Or.inr (Or.inr (Or.inr (Or.inr (Or.inr (Or.inr (Or.inr (Or.inr (Or.inr (Or.inr (Or.inr (Or.inr (Or.inr (Or.inr (Or.inl h)))))))))))))))
    · exact Or.inr (Or.inr (Or.inr (Or.inr (Or.inr (Or.inr (Or.inr (Or.inr (Or.inr (Or.inr (Or.inr (Or.inr (Or.inr (Or.inr (Or.inr (Or.inr (Or.inl h))))))))))))))))
    · exact Or.inr (Or.inr (Or.inr (Or.inr (Or.inr (Or.inr (Or.inr (Or.inr (Or.inr (Or.inr (Or.inr (Or.inr (Or.inr (Or.inr (Or.inr (Or.inr (Or.inr (Or.inl h)))))))))))))))))
    · exact Or.inr (Or.inr (Or.inr (Or.inr (Or.inr (Or.inr (Or.inr (Or.inr (Or.inr (Or.inr (Or.inr (Or.inr (Or.inr (Or.inr (Or.inr (Or.inr (Or.inr (Or.inr (Or.inl h))))))))))))))))))
    · exact Or.inr (Or.inr (Or.inr (Or.inr (Or.inr (Or.inr (Or.inr (Or.inr (Or.inr (Or.inr (Or.inr (Or.inr (Or.inr (Or.inr (Or.inr (Or.inr (Or.inr (Or.inr (Or.inr (h)))))))))))))))))))
  · rintro (h | h | h | h | h | h | h | h | h | h | h | h | h | h | h | h | h | h | h | h) <;> exact ⟨_, h⟩

/-! ## The words the body reads -/

/-- The table's word at a cell given by coordinates. -/
theorem wd_eq (x0 : Vec F S8x20x4 .i32) (off : Fin 3 → ℕ) (h : ∀ a, off a + S1x1x1.size a ≤ S8x20x4.size a)
    (b : Fin 8) (n : Fin 20) (k : Fin 4) (e : off = ![b.val, n.val, k.val]) : wd x0 off h = x0 (ix3 b n k) := by
  subst e; unfold wd; congr 1; funext a
  match a with
  | ⟨0, _⟩ => exact Fin.ext rfl
  | ⟨1, _⟩ => exact Fin.ext rfl
  | ⟨2, _⟩ => exact Fin.ext rfl

theorem rowWord_toInt : ∀ (a : Fin 7) (r : Fin 32),
    (IntOp.addi (Scalar.muli (BitVec.ofNat 32 a.val) 32#32) (BitVec.ofNat 32 (0 * 32 + r.val))).toInt = ((32 * a.val + r.val : ℕ) : Int) := by
  decide +kernel
theorem colWord_toInt : ∀ c : Fin 224, (BitVec.ofNat 32 (0 * 224 + c.val)).toInt = (c.val : Int) := by decide +kernel

/-- The row word of pixel `idx` of the block at point `i`: the global row, 32 · (block row) + (local row). -/
theorem pay2_toInt (i : grid0.Coords) (idx : S32x224.Idx) :
    (k0_pay2 i idx).toInt = ((32 * (i 1).val + (idx 0).val : ℕ) : Int) := rowWord_toInt (i 1) (idx 0)
/-- The column word of pixel `idx`: the column. -/
theorem iota1_toInt (idx : S32x224.Idx) :
    (iota .tc S32x224 32 [1] iota_S32x224_d1_w32 idx).toInt = ((idx 1).val : Int) := colWord_toInt (idx 1)

/-! ## The mask -/

/-- The block's mask at point `i`, a bit per pixel: the disjunction over the image's 20 boxes. -/
def maskV (x0 : Vec F S8x20x4 .i32) (i : grid0.Coords) : IVec S32x224 1 :=
  ori (ori (s365 x0 i) (andi (s381 x0 i) (s383 x0 i)))
    (andi (andi (andi (cmpi .sge (k0_pay2 i) (broadcast S32x224 (wd x0 (k0_off78 i) (k0_off78_inb i)))) (cmpi .slt (k0_pay2 i) (broadcast S32x224 (wd x0 (k0_off80 i) (k0_off80_inb i)))))
      (cmpi .sge (iota .tc S32x224 32 [1] iota_S32x224_d1_w32) (broadcast S32x224 (wd x0 (k0_off79 i) (k0_off79_inb i)))))
      (cmpi .slt (iota .tc S32x224 32 [1] iota_S32x224_d1_w32) (broadcast S32x224 (wd x0 (k0_off77 i) (k0_off77_inb i)))))

set_option maxRecDepth 65536 in
/-- At a pixel it is the 20 boxes' bits or-ed, in the table's order. -/
theorem maskV_apply (x0 : Vec F S8x20x4 .i32) (i : grid0.Coords) (idx : S32x224.Idx) :
    maskV x0 i idx =
      IntOp.ori (IntOp.ori (IntOp.ori (IntOp.ori (IntOp.ori (IntOp.ori (IntOp.ori (IntOp.ori (IntOp.ori (IntOp.ori (IntOp.ori (IntOp.ori (IntOp.ori (IntOp.ori (IntOp.ori (IntOp.ori (IntOp.ori (IntOp.ori (IntOp.ori (IntOp.ori ((0#1 : BitVec 1))
      (boxBit (k0_pay2 i idx) (iota .tc S32x224 32 [1] iota_S32x224_d1_w32 idx) (wd x0 (k0_off2 i) (k0_off2_inb i)) (wd x0 (k0_off4 i) (k0_off4_inb i)) (wd x0 (k0_off3 i) (k0_off3_inb i)) (wd x0 (k0_off1 i) (k0_off1_inb i))))
      (boxBit (k0_pay2 i idx) (iota .tc S32x224 32 [1] iota_S32x224_d1_w32 idx) (wd x0 (k0_off6 i) (k0_off6_inb i)) (wd x0 (k0_off8 i) (k0_off8_inb i)) (wd x0 (k0_off7 i) (k0_off7_inb i)) (wd x0 (k0_off5 i) (k0_off5_inb i))))
      (boxBit (k0_pay2 i idx) (iota .tc S32x224 32 [1] iota_S32x224_d1_w32 idx) (wd x0 (k0_off10 i) (k0_off10_inb i)) (wd x0 (k0_off12 i) (k0_off12_inb i)) (wd x0 (k0_off11 i) (k0_off11_inb i)) (wd x0 (k0_off9 i) (k0_off9_inb i))))
      (boxBit (k0_pay2 i idx) (iota .tc S32x224 32 [1] iota_S32x224_d1_w32 idx) (wd x0 (k0_off14 i) (k0_off14_inb i)) (wd x0 (k0_off16 i) (k0_off16_inb i)) (wd x0 (k0_off15 i) (k0_off15_inb i)) (wd x0 (k0_off13 i) (k0_off13_inb i))))
      (boxBit (k0_pay2 i idx) (iota .tc S32x224 32 [1] iota_S32x224_d1_w32 idx) (wd x0 (k0_off18 i) (k0_off18_inb i)) (wd x0 (k0_off20 i) (k0_off20_inb i)) (wd x0 (k0_off19 i) (k0_off19_inb i)) (wd x0 (k0_off17 i) (k0_off17_inb i))))
      (boxBit (k0_pay2 i idx) (iota .tc S32x224 32 [1] iota_S32x224_d1_w32 idx) (wd x0 (k0_off22 i) (k0_off22_inb i)) (wd x0 (k0_off24 i) (k0_off24_inb i)) (wd x0 (k0_off23 i) (k0_off23_inb i)) (wd x0 (k0_off21 i) (k0_off21_inb i))))
      (boxBit (k0_pay2 i idx) (iota .tc S32x224 32 [1] iota_S32x224_d1_w32 idx) (wd x0 (k0_off26 i) (k0_off26_inb i)) (wd x0 (k0_off28 i) (k0_off28_inb i)) (wd x0 (k0_off27 i) (k0_off27_inb i)) (wd x0 (k0_off25 i) (k0_off25_inb i))))
      (boxBit (k0_pay2 i idx) (iota .tc S32x224 32 [1] iota_S32x224_d1_w32 idx) (wd x0 (k0_off30 i) (k0_off30_inb i)) (wd x0 (k0_off32 i) (k0_off32_inb i)) (wd x0 (k0_off31 i) (k0_off31_inb i)) (wd x0 (k0_off29 i) (k0_off29_inb i))))
      (boxBit (k0_pay2 i idx) (iota .tc S32x224 32 [1] iota_S32x224_d1_w32 idx) (wd x0 (k0_off34 i) (k0_off34_inb i)) (wd x0 (k0_off36 i) (k0_off36_inb i)) (wd x0 (k0_off35 i) (k0_off35_inb i)) (wd x0 (k0_off33 i) (k0_off33_inb i))))
      (boxBit (k0_pay2 i idx) (iota .tc S32x224 32 [1] iota_S32x224_d1_w32 idx) (wd x0 (k0_off38 i) (k0_off38_inb i)) (wd x0 (k0_off40 i) (k0_off40_inb i)) (wd x0 (k0_off39 i) (k0_off39_inb i)) (wd x0 (k0_off37 i) (k0_off37_inb i))))
      (boxBit (k0_pay2 i idx) (iota .tc S32x224 32 [1] iota_S32x224_d1_w32 idx) (wd x0 (k0_off42 i) (k0_off42_inb i)) (wd x0 (k0_off44 i) (k0_off44_inb i)) (wd x0 (k0_off43 i) (k0_off43_inb i)) (wd x0 (k0_off41 i) (k0_off41_inb i))))
      (boxBit (k0_pay2 i idx) (iota .tc S32x224 32 [1] iota_S32x224_d1_w32 idx) (wd x0 (k0_off46 i) (k0_off46_inb i)) (wd x0 (k0_off48 i) (k0_off48_inb i)) (wd x0 (k0_off47 i) (k0_off47_inb i)) (wd x0 (k0_off45 i) (k0_off45_inb i))))
      (boxBit (k0_pay2 i idx) (iota .tc S32x224 32 [1] iota_S32x224_d1_w32 idx) (wd x0 (k0_off50 i) (k0_off50_inb i)) (wd x0 (k0_off52 i) (k0_off52_inb i)) (wd x0 (k0_off51 i) (k0_off51_inb i)) (wd x0 (k0_off49 i) (k0_off49_inb i))))
      (boxBit (k0_pay2 i idx) (iota .tc S32x224 32 [1] iota_S32x224_d1_w32 idx) (wd x0 (k0_off54 i) (k0_off54_inb i)) (wd x0 (k0_off56 i) (k0_off56_inb i)) (wd x0 (k0_off55 i) (k0_off55_inb i)) (wd x0 (k0_off53 i) (k0_off53_inb i))))
      (boxBit (k0_pay2 i idx) (iota .tc S32x224 32 [1] iota_S32x224_d1_w32 idx) (wd x0 (k0_off58 i) (k0_off58_inb i)) (wd x0 (k0_off60 i) (k0_off60_inb i)) (wd x0 (k0_off59 i) (k0_off59_inb i)) (wd x0 (k0_off57 i) (k0_off57_inb i))))
      (boxBit (k0_pay2 i idx) (iota .tc S32x224 32 [1] iota_S32x224_d1_w32 idx) (wd x0 (k0_off62 i) (k0_off62_inb i)) (wd x0 (k0_off64 i) (k0_off64_inb i)) (wd x0 (k0_off63 i) (k0_off63_inb i)) (wd x0 (k0_off61 i) (k0_off61_inb i))))
      (boxBit (k0_pay2 i idx) (iota .tc S32x224 32 [1] iota_S32x224_d1_w32 idx) (wd x0 (k0_off66 i) (k0_off66_inb i)) (wd x0 (k0_off68 i) (k0_off68_inb i)) (wd x0 (k0_off67 i) (k0_off67_inb i)) (wd x0 (k0_off65 i) (k0_off65_inb i))))
      (boxBit (k0_pay2 i idx) (iota .tc S32x224 32 [1] iota_S32x224_d1_w32 idx) (wd x0 (k0_off70 i) (k0_off70_inb i)) (wd x0 (k0_off72 i) (k0_off72_inb i)) (wd x0 (k0_off71 i) (k0_off71_inb i)) (wd x0 (k0_off69 i) (k0_off69_inb i))))
      (boxBit (k0_pay2 i idx) (iota .tc S32x224 32 [1] iota_S32x224_d1_w32 idx) (wd x0 (k0_off74 i) (k0_off74_inb i)) (wd x0 (k0_off76 i) (k0_off76_inb i)) (wd x0 (k0_off75 i) (k0_off75_inb i)) (wd x0 (k0_off73 i) (k0_off73_inb i))))
      (boxBit (k0_pay2 i idx) (iota .tc S32x224 32 [1] iota_S32x224_d1_w32 idx) (wd x0 (k0_off78 i) (k0_off78_inb i)) (wd x0 (k0_off80 i) (k0_off80_inb i)) (wd x0 (k0_off79 i) (k0_off79_inb i)) (wd x0 (k0_off77 i) (k0_off77_inb i))) := rfl

/-- The image of point `i`. -/
def imgOf (i : grid0.Coords) : Fin 8 := i 0

/-- The global row of local row `r` of the block at point `i`. -/
def rowOf (i : grid0.Coords) (r : Fin 32) : Fin 224 := ⟨32 * (i 1).val + r.val, by have h1 : (i 1).val < 7 := (i 1).isLt; have h2 := r.isLt; omega⟩

set_option maxRecDepth 65536 in
/-- The mask's bit at a pixel is set exactly when the pixel lies in some box of the image (the specification's `inBox`). -/
theorem maskV_eq_one_iff (x0 : IVec SBox 32) (i : grid0.Coords) (idx : S32x224.Idx) :
    maskV (F := F) x0 i idx = 1#1 ↔ inBox x0 (imgOf i) (rowOf i (idx 0)) (idx 1) := by
  rw [maskV_apply]
  simp only [ori_eq_one, zero_eq_one_iff, false_or]
  unfold inBox
  rw [exists_fin20]
  simp only [or_assoc]
  refine or_congr ?_ ?_
  · exact box_iff x0 (imgOf i) (0 : Fin 20) _ (idx 1) _ _ _ _ _ _ (pay2_toInt i idx) (iota1_toInt idx)
      (wd_eq x0 _ _ (imgOf i) (0 : Fin 20) (1 : Fin 4) (k0_off2_eq i)) (wd_eq x0 _ _ (imgOf i) (0 : Fin 20) (3 : Fin 4) (k0_off4_eq i))
      (wd_eq x0 _ _ (imgOf i) (0 : Fin 20) (2 : Fin 4) (k0_off3_eq i)) (wd_eq x0 _ _ (imgOf i) (0 : Fin 20) (0 : Fin 4) (k0_off1_eq i))
  refine or_congr ?_ ?_
  · exact box_iff x0 (imgOf i) (1 : Fin 20) _ (idx 1) _ _ _ _ _ _ (pay2_toInt i idx) (iota1_toInt idx)
      (wd_eq x0 _ _ (imgOf i) (1 : Fin 20) (1 : Fin 4) (k0_off6_eq i)) (wd_eq x0 _ _ (imgOf i) (1 : Fin 20) (3 : Fin 4) (k0_off8_eq i))
      (wd_eq x0 _ _ (imgOf i) (1 : Fin 20) (2 : Fin 4) (k0_off7_eq i)) (wd_eq x0 _ _ (imgOf i) (1 : Fin 20) (0 : Fin 4) (k0_off5_eq i))
  refine or_congr ?_ ?_
  · exact box_iff x0 (imgOf i) (2 : Fin 20) _ (idx 1) _ _ _ _ _ _ (pay2_toInt i idx) (iota1_toInt idx)
      (wd_eq x0 _ _ (imgOf i) (2 : Fin 20) (1 : Fin 4) (k0_off10_eq i)) (wd_eq x0 _ _ (imgOf i) (2 : Fin 20) (3 : Fin 4) (k0_off12_eq i))
      (wd_eq x0 _ _ (imgOf i) (2 : Fin 20) (2 : Fin 4) (k0_off11_eq i)) (wd_eq x0 _ _ (imgOf i) (2 : Fin 20) (0 : Fin 4) (k0_off9_eq i))
  refine or_congr ?_ ?_
  · exact box_iff x0 (imgOf i) (3 : Fin 20) _ (idx 1) _ _ _ _ _ _ (pay2_toInt i idx) (iota1_toInt idx)
      (wd_eq x0 _ _ (imgOf i) (3 : Fin 20) (1 : Fin 4) (k0_off14_eq i)) (wd_eq x0 _ _ (imgOf i) (3 : Fin 20) (3 : Fin 4) (k0_off16_eq i))
      (wd_eq x0 _ _ (imgOf i) (3 : Fin 20) (2 : Fin 4) (k0_off15_eq i)) (wd_eq x0 _ _ (imgOf i) (3 : Fin 20) (0 : Fin 4) (k0_off13_eq i))
  refine or_congr ?_ ?_
  · exact box_iff x0 (imgOf i) (4 : Fin 20) _ (idx 1) _ _ _ _ _ _ (pay2_toInt i idx) (iota1_toInt idx)
      (wd_eq x0 _ _ (imgOf i) (4 : Fin 20) (1 : Fin 4) (k0_off18_eq i)) (wd_eq x0 _ _ (imgOf i) (4 : Fin 20) (3 : Fin 4) (k0_off20_eq i))
      (wd_eq x0 _ _ (imgOf i) (4 : Fin 20) (2 : Fin 4) (k0_off19_eq i)) (wd_eq x0 _ _ (imgOf i) (4 : Fin 20) (0 : Fin 4) (k0_off17_eq i))
  refine or_congr ?_ ?_
  · exact box_iff x0 (imgOf i) (5 : Fin 20) _ (idx 1) _ _ _ _ _ _ (pay2_toInt i idx) (iota1_toInt idx)
      (wd_eq x0 _ _ (imgOf i) (5 : Fin 20) (1 : Fin 4) (k0_off22_eq i)) (wd_eq x0 _ _ (imgOf i) (5 : Fin 20) (3 : Fin 4) (k0_off24_eq i))
      (wd_eq x0 _ _ (imgOf i) (5 : Fin 20) (2 : Fin 4) (k0_off23_eq i)) (wd_eq x0 _ _ (imgOf i) (5 : Fin 20) (0 : Fin 4) (k0_off21_eq i))
  refine or_congr ?_ ?_
  · exact box_iff x0 (imgOf i) (6 : Fin 20) _ (idx 1) _ _ _ _ _ _ (pay2_toInt i idx) (iota1_toInt idx)
      (wd_eq x0 _ _ (imgOf i) (6 : Fin 20) (1 : Fin 4) (k0_off26_eq i)) (wd_eq x0 _ _ (imgOf i) (6 : Fin 20) (3 : Fin 4) (k0_off28_eq i))
      (wd_eq x0 _ _ (imgOf i) (6 : Fin 20) (2 : Fin 4) (k0_off27_eq i)) (wd_eq x0 _ _ (imgOf i) (6 : Fin 20) (0 : Fin 4) (k0_off25_eq i))
  refine or_congr ?_ ?_
  · exact box_iff x0 (imgOf i) (7 : Fin 20) _ (idx 1) _ _ _ _ _ _ (pay2_toInt i idx) (iota1_toInt idx)
      (wd_eq x0 _ _ (imgOf i) (7 : Fin 20) (1 : Fin 4) (k0_off30_eq i)) (wd_eq x0 _ _ (imgOf i) (7 : Fin 20) (3 : Fin 4) (k0_off32_eq i))
      (wd_eq x0 _ _ (imgOf i) (7 : Fin 20) (2 : Fin 4) (k0_off31_eq i)) (wd_eq x0 _ _ (imgOf i) (7 : Fin 20) (0 : Fin 4) (k0_off29_eq i))
  refine or_congr ?_ ?_
  · exact box_iff x0 (imgOf i) (8 : Fin 20) _ (idx 1) _ _ _ _ _ _ (pay2_toInt i idx) (iota1_toInt idx)
      (wd_eq x0 _ _ (imgOf i) (8 : Fin 20) (1 : Fin 4) (k0_off34_eq i)) (wd_eq x0 _ _ (imgOf i) (8 : Fin 20) (3 : Fin 4) (k0_off36_eq i))
      (wd_eq x0 _ _ (imgOf i) (8 : Fin 20) (2 : Fin 4) (k0_off35_eq i)) (wd_eq x0 _ _ (imgOf i) (8 : Fin 20) (0 : Fin 4) (k0_off33_eq i))
  refine or_congr ?_ ?_
  · exact box_iff x0 (imgOf i) (9 : Fin 20) _ (idx 1) _ _ _ _ _ _ (pay2_toInt i idx) (iota1_toInt idx)
      (wd_eq x0 _ _ (imgOf i) (9 : Fin 20) (1 : Fin 4) (k0_off38_eq i)) (wd_eq x0 _ _ (imgOf i) (9 : Fin 20) (3 : Fin 4) (k0_off40_eq i))
      (wd_eq x0 _ _ (imgOf i) (9 : Fin 20) (2 : Fin 4) (k0_off39_eq i)) (wd_eq x0 _ _ (imgOf i) (9 : Fin 20) (0 : Fin 4) (k0_off37_eq i))
  refine or_congr ?_ ?_
  · exact box_iff x0 (imgOf i) (10 : Fin 20) _ (idx 1) _ _ _ _ _ _ (pay2_toInt i idx) (iota1_toInt idx)
      (wd_eq x0 _ _ (imgOf i) (10 : Fin 20) (1 : Fin 4) (k0_off42_eq i)) (wd_eq x0 _ _ (imgOf i) (10 : Fin 20) (3 : Fin 4) (k0_off44_eq i))
      (wd_eq x0 _ _ (imgOf i) (10 : Fin 20) (2 : Fin 4) (k0_off43_eq i)) (wd_eq x0 _ _ (imgOf i) (10 : Fin 20) (0 : Fin 4) (k0_off41_eq i))
  refine or_congr ?_ ?_
  · exact box_iff x0 (imgOf i) (11 : Fin 20) _ (idx 1) _ _ _ _ _ _ (pay2_toInt i idx) (iota1_toInt idx)
      (wd_eq x0 _ _ (imgOf i) (11 : Fin 20) (1 : Fin 4) (k0_off46_eq i)) (wd_eq x0 _ _ (imgOf i) (11 : Fin 20) (3 : Fin 4) (k0_off48_eq i))
      (wd_eq x0 _ _ (imgOf i) (11 : Fin 20) (2 : Fin 4) (k0_off47_eq i)) (wd_eq x0 _ _ (imgOf i) (11 : Fin 20) (0 : Fin 4) (k0_off45_eq i))
  refine or_congr ?_ ?_
  · exact box_iff x0 (imgOf i) (12 : Fin 20) _ (idx 1) _ _ _ _ _ _ (pay2_toInt i idx) (iota1_toInt idx)
      (wd_eq x0 _ _ (imgOf i) (12 : Fin 20) (1 : Fin 4) (k0_off50_eq i)) (wd_eq x0 _ _ (imgOf i) (12 : Fin 20) (3 : Fin 4) (k0_off52_eq i))
      (wd_eq x0 _ _ (imgOf i) (12 : Fin 20) (2 : Fin 4) (k0_off51_eq i)) (wd_eq x0 _ _ (imgOf i) (12 : Fin 20) (0 : Fin 4) (k0_off49_eq i))
  refine or_congr ?_ ?_
  · exact box_iff x0 (imgOf i) (13 : Fin 20) _ (idx 1) _ _ _ _ _ _ (pay2_toInt i idx) (iota1_toInt idx)
      (wd_eq x0 _ _ (imgOf i) (13 : Fin 20) (1 : Fin 4) (k0_off54_eq i)) (wd_eq x0 _ _ (imgOf i) (13 : Fin 20) (3 : Fin 4) (k0_off56_eq i))
      (wd_eq x0 _ _ (imgOf i) (13 : Fin 20) (2 : Fin 4) (k0_off55_eq i)) (wd_eq x0 _ _ (imgOf i) (13 : Fin 20) (0 : Fin 4) (k0_off53_eq i))
  refine or_congr ?_ ?_
  · exact box_iff x0 (imgOf i) (14 : Fin 20) _ (idx 1) _ _ _ _ _ _ (pay2_toInt i idx) (iota1_toInt idx)
      (wd_eq x0 _ _ (imgOf i) (14 : Fin 20) (1 : Fin 4) (k0_off58_eq i)) (wd_eq x0 _ _ (imgOf i) (14 : Fin 20) (3 : Fin 4) (k0_off60_eq i))
      (wd_eq x0 _ _ (imgOf i) (14 : Fin 20) (2 : Fin 4) (k0_off59_eq i)) (wd_eq x0 _ _ (imgOf i) (14 : Fin 20) (0 : Fin 4) (k0_off57_eq i))
  refine or_congr ?_ ?_
  · exact box_iff x0 (imgOf i) (15 : Fin 20) _ (idx 1) _ _ _ _ _ _ (pay2_toInt i idx) (iota1_toInt idx)
      (wd_eq x0 _ _ (imgOf i) (15 : Fin 20) (1 : Fin 4) (k0_off62_eq i)) (wd_eq x0 _ _ (imgOf i) (15 : Fin 20) (3 : Fin 4) (k0_off64_eq i))
      (wd_eq x0 _ _ (imgOf i) (15 : Fin 20) (2 : Fin 4) (k0_off63_eq i)) (wd_eq x0 _ _ (imgOf i) (15 : Fin 20) (0 : Fin 4) (k0_off61_eq i))
  refine or_congr ?_ ?_
  · exact box_iff x0 (imgOf i) (16 : Fin 20) _ (idx 1) _ _ _ _ _ _ (pay2_toInt i idx) (iota1_toInt idx)
      (wd_eq x0 _ _ (imgOf i) (16 : Fin 20) (1 : Fin 4) (k0_off66_eq i)) (wd_eq x0 _ _ (imgOf i) (16 : Fin 20) (3 : Fin 4) (k0_off68_eq i))
      (wd_eq x0 _ _ (imgOf i) (16 : Fin 20) (2 : Fin 4) (k0_off67_eq i)) (wd_eq x0 _ _ (imgOf i) (16 : Fin 20) (0 : Fin 4) (k0_off65_eq i))
  refine or_congr ?_ ?_
  · exact box_iff x0 (imgOf i) (17 : Fin 20) _ (idx 1) _ _ _ _ _ _ (pay2_toInt i idx) (iota1_toInt idx)
      (wd_eq x0 _ _ (imgOf i) (17 : Fin 20) (1 : Fin 4) (k0_off70_eq i)) (wd_eq x0 _ _ (imgOf i) (17 : Fin 20) (3 : Fin 4) (k0_off72_eq i))
      (wd_eq x0 _ _ (imgOf i) (17 : Fin 20) (2 : Fin 4) (k0_off71_eq i)) (wd_eq x0 _ _ (imgOf i) (17 : Fin 20) (0 : Fin 4) (k0_off69_eq i))
  refine or_congr ?_ ?_
  · exact box_iff x0 (imgOf i) (18 : Fin 20) _ (idx 1) _ _ _ _ _ _ (pay2_toInt i idx) (iota1_toInt idx)
      (wd_eq x0 _ _ (imgOf i) (18 : Fin 20) (1 : Fin 4) (k0_off74_eq i)) (wd_eq x0 _ _ (imgOf i) (18 : Fin 20) (3 : Fin 4) (k0_off76_eq i))
      (wd_eq x0 _ _ (imgOf i) (18 : Fin 20) (2 : Fin 4) (k0_off75_eq i)) (wd_eq x0 _ _ (imgOf i) (18 : Fin 20) (0 : Fin 4) (k0_off73_eq i))
  exact box_iff x0 (imgOf i) (19 : Fin 20) _ (idx 1) _ _ _ _ _ _ (pay2_toInt i idx) (iota1_toInt idx)
      (wd_eq x0 _ _ (imgOf i) (19 : Fin 20) (1 : Fin 4) (k0_off78_eq i)) (wd_eq x0 _ _ (imgOf i) (19 : Fin 20) (3 : Fin 4) (k0_off80_eq i))
      (wd_eq x0 _ _ (imgOf i) (19 : Fin 20) (2 : Fin 4) (k0_off79_eq i)) (wd_eq x0 _ _ (imgOf i) (19 : Fin 20) (0 : Fin 4) (k0_off77_eq i))

/-! ## The block, as floats -/

/-- The mask as floats: 1 where the bit is set, 0 elsewhere. -/
def maskF (x0 : Vec F S8x20x4 .i32) (i : grid0.Coords) : FVec F S32x224 .f32 :=
  sitofp .f32 (extui 32 (maskV x0 i) natLt_1_32)

/-- The per-row maxima of the mask over each group of 32 columns. -/
def actF (x0 : Vec F S8x20x4 .i32) (i : grid0.Coords) : FVec F S32x7 .f32 :=
  multiReduction .maximumf [2] S32x7 (shapeCast S32x7x32 (maskF x0 i) shapeCasts_S32x224_S32x7x32) 0xFF800000#32 reduces_S32x7x32_S32x7 (.inl rfl) rfl

set_option maxRecDepth 65536 in
/-- What the body leaves in the output block: the mask as floats in columns 0–223, the group maxima in columns 224–230,
    zeros in the rest. -/
theorem out0_1_eq (x0 : Vec F S8x20x4 .i32) (i : grid0.Coords) :
    out0_1 x0 i = shapeCast S1x32x256 (concatenate S32x256 1 [⟨S32x224, maskF x0 i⟩,
        ⟨S32x16, concatenate S32x16 1 [⟨S32x7, actF x0 i⟩, ⟨S32x9, broadcast S32x9 (Scalar.sitofp (F := F) .f32 0#32)⟩] concatenates_S32x7_S32x9_S32x16_d1⟩,
        ⟨S32x16, broadcast S32x16 (Scalar.ofBits (F := F) .f32 0x00000000#32)⟩] concatenates_S32x224_S32x16_S32x16_S32x256_d1) shapeCasts_S32x256_S1x32x256 := by
  unfold out0_1
  rw [View.canon_unit_zero (by funext a; match a with | ⟨0, _⟩ => rfl | ⟨1, _⟩ => rfl | ⟨2, _⟩ => rfl)]
  rfl

/-! ## At the ideal values -/

theorem bit_toInt (m : BitVec 1) : (m.setWidth 32).toInt = if m = 1#1 then 1 else 0 := by revert m; decide

/-- The mask as floats at a pixel in some box of the image: 1. -/
theorem maskF_of_inBox (x0 : IVec SBox 32) (i : grid0.Coords) (idx : S32x224.Idx)
    (h : inBox x0 (imgOf i) (rowOf i (idx 0)) (idx 1)) : maskF (F := Ideal) x0 i idx = (1 : EReal) := by
  show ((((maskV (F := Ideal) x0 i idx).setWidth 32).toInt : ℝ) : EReal) = _
  rw [bit_toInt, if_pos ((maskV_eq_one_iff x0 i idx).mpr h)]; simp

/-- The mask as floats at a pixel in no box of the image: 0. -/
theorem maskF_of_not_inBox (x0 : IVec SBox 32) (i : grid0.Coords) (idx : S32x224.Idx)
    (h : ¬ inBox x0 (imgOf i) (rowOf i (idx 0)) (idx 1)) : maskF (F := Ideal) x0 i idx = (0 : EReal) := by
  show ((((maskV (F := Ideal) x0 i idx).setWidth 32).toInt : ℝ) : EReal) = _
  rw [bit_toInt, if_neg (fun e => h ((maskV_eq_one_iff x0 i idx).mp e))]; simp

open Classical in
/-- The mask as floats at a pixel: the indicator of "the pixel lies in some box of the image". -/
theorem maskF_apply (x0 : IVec SBox 32) (i : grid0.Coords) (idx : S32x224.Idx) :
    maskF (F := Ideal) x0 i idx = if inBox x0 (imgOf i) (rowOf i (idx 0)) (idx 1) then (1 : EReal) else 0 := by
  by_cases h : inBox x0 (imgOf i) (rowOf i (idx 0)) (idx 1)
  · rw [if_pos h]; exact maskF_of_inBox x0 i idx h
  · rw [if_neg h]; exact maskF_of_not_inBox x0 i idx h

/-- A concatenation of matrices along their columns read at `(r, j)`: piece `k`, the pieces before it `pre` columns wide,
    at `(r, j - pre)`. -/
theorem concat_cols_apply {α : Type} {n m m₁ : ℕ} (xs : List ((s : Shape) × (s.Idx → α)))
    (h : Shape.Concatenates (xs.map (·.1)) ⟨2, ![n, m]⟩ (1 : Fin 2)) (r : Fin n) (j : Fin m) (k : ℕ) (hk : k < xs.length)
    (x₁ : (⟨2, ![n, m₁]⟩ : Shape).Idx → α) (hxk : xs[k] = ⟨⟨2, ![n, m₁]⟩, x₁⟩) (pre : ℕ)
    (hpre : (((xs.take k).map (·.1)).map fun s => if h : s.rank = (⟨2, ![n, m]⟩ : Shape).rank then s.size ((1 : Fin 2).cast h.symm) else 0).sum = pre)
    (j' : Fin m₁) (ha : pre + j'.val = j.val) :
    concatenate ⟨2, ![n, m]⟩ (1 : Fin 2) xs h (ix2 r j) = x₁ (ix2 r j') :=
  concatenate_apply_piece (t := ⟨2, ![n, m]⟩) (1 : Fin 2) xs h (ix2 r j) k hk ⟨2, ![n, m₁]⟩ x₁ hxk rfl pre hpre (ix2 r j')
    (fun b hb => by match b with | ⟨0, _⟩ => rfl | ⟨1, _⟩ => exact absurd rfl hb) ha

/-- Columns 0–223 of the output block: the mask. -/
theorem out0_1_mask (x0 : IVec SBox 32) (i : grid0.Coords) (u : Fin 1) (r : Fin 32) (j : Fin 256) (hj : j.val < 224) :
    out0_1 (F := Ideal) x0 i (ix3 u r j) = maskF (F := Ideal) x0 i (ix2 r ⟨j.val, hj⟩) := by
  rw [out0_1_eq, shapeCast_ab_1ab_apply]
  refine concat_cols_apply _ _ r j 0 ?_ _ rfl 0 rfl ⟨j.val, hj⟩ ?_
  · exact Nat.succ_pos _
  · show 0 + j.val = j.val; omega

/-- Columns 231–255 of the output block: zeros. -/
theorem out0_1_pad (x0 : IVec SBox 32) (i : grid0.Coords) (u : Fin 1) (r : Fin 32) (j : Fin 256) (hj : 231 ≤ j.val) :
    out0_1 (F := Ideal) x0 i (ix3 u r j) = (0 : EReal) := by
  rw [out0_1_eq, shapeCast_ab_1ab_apply]
  by_cases h2 : j.val < 240
  · refine (concat_cols_apply _ _ r j 1 ?_ _ rfl 224 rfl (⟨j.val - 224, by omega⟩ : Fin 16) ?_).trans ?_
    · exact Nat.succ_lt_succ (Nat.succ_pos _)
    · show 224 + (j.val - 224) = j.val; omega
    refine (concat_cols_apply _ _ r (⟨j.val - 224, by omega⟩ : Fin 16) 1 ?_ _ rfl 7 rfl (⟨j.val - 231, by omega⟩ : Fin 9) ?_).trans ?_
    · exact Nat.succ_lt_succ (Nat.succ_pos _)
    · show 7 + (j.val - 231) = j.val - 224; omega
    show (((0#32 : BitVec 32).toInt : ℝ) : EReal) = 0
    simp
  · refine (concat_cols_apply _ _ r j 2 ?_ _ rfl 240 rfl (⟨j.val - 240, by omega⟩ : Fin 16) ?_).trans ?_
    · exact Nat.succ_lt_succ (Nat.succ_lt_succ (Nat.succ_pos _))
    · show 240 + (j.val - 240) = j.val; omega
    exact Cert.LossSpec.ofBits_zero

/-- Columns 224–230 of the output block: the row's maximum over each group of 32 columns. -/
theorem out0_1_act (x0 : IVec SBox 32) (i : grid0.Coords) (u : Fin 1) (r : Fin 32) (j : Fin 256) (h1 : 224 ≤ j.val) (h2 : j.val < 231) :
    out0_1 (F := Ideal) x0 i (ix3 u r j) = actF (F := Ideal) x0 i (ix2 r ⟨j.val - 224, by omega⟩) := by
  rw [out0_1_eq, shapeCast_ab_1ab_apply]
  refine (concat_cols_apply _ _ r j 1 ?_ _ rfl 224 rfl (⟨j.val - 224, by omega⟩ : Fin 16) ?_).trans ?_
  · exact Nat.succ_lt_succ (Nat.succ_pos _)
  · show 224 + (j.val - 224) = j.val; omega
  refine concat_cols_apply _ _ r (⟨j.val - 224, by omega⟩ : Fin 16) 0 ?_ _ rfl 0 rfl (⟨j.val - 224, by omega⟩ : Fin 7) ?_
  · exact Nat.succ_pos _
  · show 0 + (j.val - 224) = j.val - 224; omega

theorem negInf_eq_bot : (FloatOps.ofBits (F := Ideal) .f32 0xFF800000#32 : EReal) = ⊥ := by
  show Ideal.ofBits .f32 0xFF800000#32 = ⊥
  simp [Ideal.ofBits, Ideal.ieee]

/-- The mask regrouped as 7 groups of 32 columns, at (row, group, lane): the mask at column 32 · group + lane. -/
theorem lane_apply (x0 : IVec SBox 32) (i : grid0.Coords) (r : Fin 32) (g : Fin 7) (l : Fin 32) :
    shapeCast S32x7x32 (maskF (F := Ideal) x0 i) shapeCasts_S32x224_S32x7x32 (reduces_S32x7x32_S32x7.lift (ix2 r g) l)
      = maskF (F := Ideal) x0 i (ix2 r ⟨32 * g.val + l.val, by have := g.isLt; have := l.isLt; omega⟩) :=
  shapeCast_apply _ _ _ _ (by
    rw [Shape.rowMajor_val_two, Shape.rowMajor_val_three]
    show r.val * 224 + (32 * g.val + l.val) = (r.val * 7 + g.val) * 32 + l.val
    omega)

/-- A group maximum: the maximum of the mask over the group's 32 columns (from −∞). -/
theorem actF_apply (x0 : IVec SBox 32) (i : grid0.Coords) (r : Fin 32) (g : Fin 7) :
    actF (F := Ideal) x0 i (ix2 r g)
      = (Finset.univ : Finset (Fin 32)).fold max (⊥ : EReal)
          (fun l => maskF (F := Ideal) x0 i (ix2 r ⟨32 * g.val + l.val, by have := g.isLt; have := l.isLt; omega⟩)) := by
  unfold actF
  refine (Ideal.multiReduction_maximumf_single _ _ reduces_S32x7x32_S32x7 _ _ (ix2 r g)).trans ?_
  rw [negInf_eq_bot]
  refine Finset.fold_congr fun l _ => ?_
  exact lane_apply x0 i r g l

/-- A group maximum is positive exactly when some pixel of the group lies in a box; it is then 1, and otherwise 0 or −∞
    is excluded: it is 0. -/
theorem actF_pos_iff (x0 : IVec SBox 32) (i : grid0.Coords) (r : Fin 32) (g : Fin 7) :
    (0 : EReal) < actF (F := Ideal) x0 i (ix2 r g)
      ↔ ∃ l : Fin 32, inBox x0 (imgOf i) (rowOf i r) ⟨32 * g.val + l.val, by have := g.isLt; have := l.isLt; omega⟩ := by
  rw [actF_apply, Finset.lt_fold_max]
  constructor
  · rintro (h | ⟨l, -, h⟩)
    · exact absurd h (by simp)
    · refine ⟨l, ?_⟩
      by_contra hn
      rw [maskF_of_not_inBox x0 i _ hn] at h
      exact lt_irrefl _ h
  · rintro ⟨l, h⟩
    refine Or.inr ⟨l, Finset.mem_univ _, ?_⟩
    rw [maskF_of_inBox x0 i _ h]
    exact zero_lt_one

end Cert.KernelIdeal.MaskRegion

end
-- ==== Proof.MaskFinalI.lean ====
import proofs.«210586_g14980845929080_cont_week2b_1062_66_alg».proof.Proof.Gen.KernelIdeal.Launch
import proofs.«210586_g14980845929080_cont_week2b_1062_66_alg».proof.Proof.Gen.KernelIdeal.Skeleton
import proofs.«210586_g14980845929080_cont_week2b_1062_66_alg».proof.Proof.Gen.KernelIdeal.Points
import proofs.«210586_g14980845929080_cont_week2b_1062_66_alg».proof.Proof.MaskRegionI
import Idealize.ShloMosaic.Lib.Pipeline.Value
import Idealize.ShloMosaic.Lib.ValueIdx
import Idealize.ShloMosaic.Lib.Pipeline.FrameBody
import Idealize.ShloMosaic.Lib.WholeRead
import Idealize.ShloMosaic.Lib.Ring
import Idealize.ShloMosaic.Lib.Tactic

set_option maxRecDepth 16384

noncomputable section

namespace Cert.KernelIdeal.MaskRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! # The box-mask region's final array: every block of the output array is what its grid point's body left -/

/-- Different points write different blocks. -/
theorem index_inj : ∀ t t' : Fin grid0.N, t ≠ t' → win0_1.index t ≠ win0_1.index t' := by decide +kernel

/-- The block index of point `t`: (image, row block, 0). -/
theorem index_eq : ∀ t : Fin grid0.N, win0_1.index t = ![(grid0.coords t 0).val, (grid0.coords t 1).val, 0] := by decide +kernel

/-- The box table's window is the whole table at every point: block index 0 on every axis. -/
theorem index0_eq : ∀ t : Fin grid0.N, ∀ a, win0_0.index t a = 0 := by decide +kernel

/-- The grid point of image `b` and row block `hb`. -/
def ptOf (b : Fin 8) (hb : Fin 7) : Fin grid0.N := ⟨7 * b.val + hb.val, by have := b.isLt; have := hb.isLt; rw [N_0]; omega⟩

/-- Its coordinates are `(b, hb)`. -/
theorem coords_ptOf : ∀ (b : Fin 8) (hb : Fin 7), (grid0.coords (ptOf b hb) 0).val = b.val ∧ (grid0.coords (ptOf b hb) 1).val = hb.val := by
  decide +kernel

section Final
variable (c : Dev nD) (V : (b : Ref sig .tc) → Buf (Elt F) ((c : Thread nD τ).loc b))
variable (O : CellTallies nD τ sig Ix) (B : Set (SemLoc sig × Ix))

local notation "𝔻" => dats (F := F) (Ix := Ix) (Name := Name) (U := U) (Lvl := Lvl) c V O B

/-- After the region, the element of the output array under block `t`'s index `y` is what point `t`'s body left at `y`:
    the blocks are pairwise disjoint and each is written back once. -/
theorem final_block (t : Fin cfg0.N) (y : ((cfg0.win 1).xblock (cfg0.grid.coords t)).Idx) :
    (𝔻).arrAt 1 cfg0.N (((cfg0.win 1).blk t).view.emb y) = out0_1 (iblk c V 0 t) (grid0.coords t) y := by
  rw [(𝔻).arrAt_emb_eq_flushed 1 (fun t t' _ _ hne => (cfg0.win 1).disjoint_blk (index_inj t t' hne)) t (flush0_1 t) y]
  rw [cast_eq]
  show (𝔻).after 1 t _ = _
  rw [after0_1]

/-- Where block `t`'s index `y` sits in the array: image `t`'s, row 32 · (row block) + (local row), the same column. -/
theorem blk_emb_val (t : Fin cfg0.N) (y : ((cfg0.win 1).xblock (cfg0.grid.coords t)).Idx) :
    ((((cfg0.win 1).blk t).view.emb y) 0 : ℕ) = (grid0.coords t 0).val
      ∧ ((((cfg0.win 1).blk t).view.emb y) 1 : ℕ) = (grid0.coords t 1).val * 32 + (y 1).val
      ∧ ((((cfg0.win 1).blk t).view.emb y) 2 : ℕ) = (y 2).val := by
  have h0 := (cfg0.win 1).rect_emb_val t y 0
  have h1 := (cfg0.win 1).rect_emb_val t y 1
  have h2 := (cfg0.win 1).rect_emb_val t y 2
  have hy0 : (y 0).val = 0 := by have := (y 0).isLt; change (y 0).val < 1 at this; omega
  rw [show (cfg0.win 1).index t = win0_1.index t from rfl, index_eq t] at h0 h1 h2
  refine ⟨h0.trans ?_, h1.trans ?_, h2.trans ?_⟩
  · show (grid0.coords t 0).val * 1 + (y 0).val = _; omega
  · rfl
  · show 0 * 256 + (y 2).val = _; omega

/-- The box table's block at any point is the whole table: the array read through its own view. -/
theorem iblk_table (t : Fin cfg0.N) :
    iblk c V 0 t = (Memref.whole main_arg2).view.read (Elt F) (V main_arg2) := by
  unfold iblk
  funext y
  rw [View.read_apply, View.read_apply]
  refine congrArg (V main_arg2) (funext fun a => Fin.ext ?_)
  have h := (cfg0.win 0).rect_emb_val t y a
  rw [show (cfg0.win 0).index t a = 0 from index0_eq t a] at h
  exact h.trans (by rw [Nat.zero_mul, Nat.zero_add]; rfl)

/-- THE FINAL ARRAY, entry by entry: entry (image `b`, row `h`, column `j`) of the output array after the region, where
    `h = 32 · hb + r`, is what the body of the point `(b, hb)` left at `(0, r, j)` of its block. -/
theorem final_entry (b : Fin 8) (hb : Fin 7) (r : Fin 32) (j : Fin 256) (h : Fin 224) (hh : h.val = hb.val * 32 + r.val) :
    (𝔻).arrAt 1 cfg0.N (ValueIdx.ix3 b h j)
      = out0_1 (iblk c V 0 (ptOf b hb)) (grid0.coords (ptOf b hb)) (ValueIdx.ix3 (0 : Fin 1) r j) := by
  have hf := final_block (Name := Name) (U := U) (Lvl := Lvl) c V O B (ptOf b hb) (ValueIdx.ix3 (0 : Fin 1) r j)
  obtain ⟨e0, e1, e2⟩ := blk_emb_val (ptOf b hb) (ValueIdx.ix3 (0 : Fin 1) r j)
  obtain ⟨c0, c1⟩ := coords_ptOf b hb
  rw [c0] at e0
  rw [c1] at e1
  have he : ((cfg0.win 1).blk (ptOf b hb)).view.emb (ValueIdx.ix3 (0 : Fin 1) r j) = ValueIdx.ix3 b h j := by
    funext a
    match a with
    | ⟨0, _⟩ => exact Fin.ext e0
    | ⟨1, _⟩ => exact Fin.ext (e1.trans hh.symm)
    | ⟨2, _⟩ => exact Fin.ext e2
  rw [he] at hf
  exact hf

end Final

end Cert.KernelIdeal.MaskRegion

end
-- ==== Proof.MaskIsMaskI.lean ====
/-
  The mask array the box-mask kernel leaves is a mask in the sense the SparseCore call's sums need: from the entry-by-entry
  form of the region's final array (each entry is what its grid point's body left) and the body's values.
-/
import proofs.«210586_g14980845929080_cont_week2b_1062_66_alg».proof.Proof.MaskValueI
import proofs.«210586_g14980845929080_cont_week2b_1062_66_alg».proof.Proof.MaskFinalI
import proofs.«210586_g14980845929080_cont_week2b_1062_66_alg».proof.Proof.ScTileSumI

noncomputable section

namespace Cert.KernelIdeal.MaskRegion

open Cert.KernelIdeal Cert.KernelIdeal.Gen Cert.LossSpec Cert.ScTileVal
open Idealize.ShloMosaic Idealize.ShloMosaic.ValueIdx
open Cert.KernelIdeal.ScTile (IsMask)

theorem imgOf_ptOf (b : Fin 8) (hb : Fin 7) : imgOf (grid0.coords (ptOf b hb)) = b :=
  Fin.ext (coords_ptOf b hb).1

theorem rowOf_ptOf (b : Fin 8) (hb : Fin 7) (r : Fin 32) (h : Fin 224) (hh : h.val = hb.val * 32 + r.val) :
    rowOf (grid0.coords (ptOf b hb)) r = h :=
  Fin.ext (by simp only [rowOf]; rw [(coords_ptOf b hb).2]; omega)

/-- An array whose entry (image `b`, row `h = 32 hb + r`, column `j`) is what the body of the point `(b, hb)` left at
    `(0, r, j)` of its block — the region's final array — is a mask of the table `x2`. -/
theorem isMask_of_entries (x2 : IVec SBox 32) (mk : FVec Ideal SMask .f32)
    (hmk : ∀ (b : Fin 8) (hb : Fin 7) (r : Fin 32) (j : Fin 256) (h : Fin 224), h.val = hb.val * 32 + r.val →
      mk (ix3 b h j) = out0_1 (F := Ideal) x2 (grid0.coords (ptOf b hb)) (ix3 (0 : Fin 1) r j)) : IsMask x2 mk where
  box b h w := by
    have hh : h.val = (⟨h.val / 32, by have := h.isLt; omega⟩ : Fin 7).val * 32 + (⟨h.val % 32, Nat.mod_lt _ (by decide)⟩ : Fin 32).val := by
      show h.val = h.val / 32 * 32 + h.val % 32; omega
    rw [hmk b _ _ (mcol w) h hh, out0_1_mask x2 _ (0 : Fin 1) _ (mcol w) (by show w.val < 224; exact w.isLt)]
    have e1 := imgOf_ptOf b ⟨h.val / 32, by have := h.isLt; omega⟩
    have e2 := rowOf_ptOf b ⟨h.val / 32, by have := h.isLt; omega⟩ ⟨h.val % 32, Nat.mod_lt _ (by decide)⟩ h hh
    by_cases hb : inBox x2 b h w
    · rw [if_pos hb]
      refine maskF_of_inBox x2 _ _ ?_
      show inBox x2 (imgOf _) (rowOf _ _) _
      rw [e1, e2]; exact hb
    · rw [if_neg hb]
      refine maskF_of_not_inBox x2 _ _ ?_
      show ¬ inBox x2 (imgOf _) (rowOf _ _) _
      rw [e1, e2]; exact hb
  act b h k := by
    have hh : h.val = (⟨h.val / 32, by have := h.isLt; omega⟩ : Fin 7).val * 32 + (⟨h.val % 32, Nat.mod_lt _ (by decide)⟩ : Fin 32).val := by
      show h.val = h.val / 32 * 32 + h.val % 32; omega
    have e1 := imgOf_ptOf b ⟨h.val / 32, by have := h.isLt; omega⟩
    have e2 := rowOf_ptOf b ⟨h.val / 32, by have := h.isLt; omega⟩ ⟨h.val % 32, Nat.mod_lt _ (by decide)⟩ h hh
    rw [hmk b _ _ (flagCol k) h hh,
      out0_1_act x2 _ (0 : Fin 1) _ (flagCol k) (by show 224 ≤ 224 + k.val; omega) (by show 224 + k.val < 231; have := k.isLt; omega)]
    have eg : (⟨(flagCol k).val - 224, by show 224 + k.val - 224 < 7; have := k.isLt; omega⟩ : Fin 7) = k :=
      Fin.ext (by show 224 + k.val - 224 = k.val; omega)
    rw [eg, actF_pos_iff, e1, e2]

end Cert.KernelIdeal.MaskRegion

end
-- ==== Proof.MaskMkI.lean ====
/-
  The mask array the call reads is a mask of the box table: the mask region's final array, entry by entry.
-/
import proofs.«210586_g14980845929080_cont_week2b_1062_66_alg».proof.Proof.LaunchMainVI
import proofs.«210586_g14980845929080_cont_week2b_1062_66_alg».proof.Proof.MaskIsMaskI

noncomputable section

namespace Cert.KernelIdeal.KernelValue

open Cert.KernelIdeal Cert.KernelIdeal.Gen Cert.KernelIdeal.Sc Cert.KernelIdeal.Launch
open Idealize.ShloMosaic Idealize.ShloMosaic.TcCoe Idealize.ShloMosaic.ValueIdx Idealize.SL.Sem
open Idealize.ShloMosaic.SparseCore.Cfg (HIx Pay)

/-- The mask array as the call finds it is a mask of the launch's box table. -/
theorem isMask_Mk (m : (ℓ : Loc nD τ sig) → Buf (Elt Ideal) ℓ) (d : Dev nD) :
    ScTile.IsMask (m ((d.tc : Thread nD τ).loc main_arg2)) (Mk m d) :=
  MaskRegion.isMask_of_entries _ _ (fun b hb r j h hh => by
    show W2 m d (Proc.devRef .tc main_v0) (ix3 b h j) = _
    have e := W2_arr m d 1
    refine (congrFun e (ix3 b h j)).trans ?_
    refine (MaskRegion.final_entry (F := Ideal) (Ix := HIx 1) (Name := ℕ) (U := UU) (Lvl := ℕ) d (V0 m d) _ _ b hb r j h hh).trans ?_
    rw [MaskRegion.iblk_table]
    rfl)

end Cert.KernelIdeal.KernelValue

end
-- ==== Proof.AlgebraicRowsI.lean ====
/-
  The algebraic claim from the rows: with the partial sums' array taken to be the specification's (each task's row the
  lane sums of its sixteen (image, row) pairs), what remains to be shown of the SparseCore call is that every task's
  running sums, carried by the row trip, end at those lane sums. The mask array the call reads is a mask of the box table,
  so the specification's array adds up to the rows from 160 on of S and of N.
-/
import proofs.«210586_g14980845929080_cont_week2b_1062_66_alg».proof.Proof.ScTileVRun2I
import proofs.«210586_g14980845929080_cont_week2b_1062_66_alg».proof.Proof.ScTilePoutI
import proofs.«210586_g14980845929080_cont_week2b_1062_66_alg».proof.Proof.ScTileTailI
import proofs.«210586_g14980845929080_cont_week2b_1062_66_alg».proof.Proof.MaskMkI

noncomputable section

open scoped BigOperators

namespace Cert.KernelIdeal.KernelValue

open Cert.KernelIdeal Cert.KernelIdeal.Gen Cert.KernelIdeal.Sc Cert.KernelIdeal.Launch Cert.KernelIdeal.LaunchV
open Cert.KernelIdeal.TailValue Cert.KernelIdeal.ScTile
open Idealize.ShloMosaic Idealize.ShloMosaic.TcCoe Idealize.ShloMosaic.ValueIdx Idealize.SL.Sem
open Idealize.ShloMosaic.SparseCore (S V T)
open Idealize.ShloMosaic.SparseCore.Cfg (HIx Pay)
open Idealize.SL Idealize.SL.RA Idealize.SL.BI
open scoped Idealize.SL.BI
open Idealize.SL.BI.BIBase
open Idealize.ShloMosaic.Rounds
open Cert.LossSpec

open Cert.ScTileVal

/-- THE ALGEBRAIC CLAIM FROM THE ROWS: if, for every launch memory meeting the precondition, there are per-task running
    sums that start at zero, are carried by the row trip (its triple at the named sums), and end — lane by lane — at the
    specification's lane sums of the task's sixteen (image, row) pairs, then the two programs' results agree. -/
theorem algebraic_of_rows
    (H : ∀ (m : (ℓ : Loc nD τ sig) → Buf (Elt Ideal) ℓ) (ρ : Dev nD → PrngReg),
      Cert.Pre_KernelIdeal (hPre_input_domain := Cert.Pre_input_domain.Gen.facts) m →
      ∃ (sumsOf : Dev nD → grid1.Coords → ℕ → FVec Ideal S16 .f32 × FVec Ideal S16 .f32),
        (∀ d L, sumsOf d L 0 = (k1_pay828 (F := Ideal), k1_pay828 (F := Ideal)))
        ∧ (∀ (d : Dev nD) (L : grid1.Coords) (O : CellTallies nD τ sig (HIx 1)) (W : Waits sig (HIx 1)) (hO : ∀ g, O g none = 0)
      (qa qb : PosShare TreeShare) (v3 v23 : BitVec 32)
      (k : Fin k1_t1_loop.trips) (acc : FVec Ideal S16 .f32 × FVec Ideal S16 .f32),
      rowInvN (X0 m) (X1 m) (sumsOf d L) qa qb d L O W (payM (Mk m) d L) k.val acc
        ⊢ wp frame (wpE (defs₀ (F := Ideal)) Sc.𝒱₀ (V d (cV L) (jV L)) none) Set.univ
            (k1_t1_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) cc1_scratch8 cc1_scratch9 cc1_scratch10 cc1_scratch11 cc1_scoped0 cc1_scoped1 v3 v23 (k1_pay828 (F := Ideal)) (k1_pay829 (F := Ideal)) k acc)
            (rowInvN (X0 m) (X1 m) (sumsOf d L) qa qb d L O W (payM (Mk m) d L) (k.val + 1)))
        ∧ (∀ (d : Dev nD) (L : grid1.Coords) (l : Fin 16),
            (sumsOf d L 16).1 (ix1 l) = sLane (X0 m d) (X1 m d) (Mk m d) (wid (L 0).val (L 1).val) l
            ∧ (sumsOf d L 16).2 (ix1 l) = nLane (X1 m d) (Mk m d) (wid (L 0).val (L 1).val) l)) :
    Cert.algebraic_KernelIdeal_ReferenceIdeal (hKernelIdeal := Cert.KernelIdeal.Gen.facts)
      (hReferenceIdeal := Cert.ReferenceIdeal.Gen.facts) (hPre_input_domain := Cert.Pre_input_domain.Gen.facts) :=
  algebraic_of_tripN fun m ρ hpre => by
    obtain ⟨sumsOf, h0, hrow, hl⟩ := H m ρ hpre
    refine ⟨fun d => partsSpec (X0 m d) (X1 m d) (Mk m d), fun d => partsSpec (X0 m d) (X1 m d) (Mk m d), sumsOf, h0, hrow, ?_, ?_⟩
    · intro d L j
      exact parts_eq_outVec (X0 m d) (X1 m d) (Mk m d) (wid (L 0).val (L 1).val) (sumsOf d L) (hl d L) j
    · intro d
      exact ⟨rfl, hPS_partsSpec (X0 m d) (X1 m d) (isMask_Mk m d), hPN_partsSpec (X0 m d) (X1 m d) (isMask_Mk m d)⟩

end Cert.KernelIdeal.KernelValue

end
-- ==== Proof.ScTileVBaseI.lean ====
/-
  The SparseCore kernel's task on one vector subcore, with values: the resources' statements (the subcore's own
  buffers and cells, the arrays as the task's memrefs address them, the row loop's slots in flight or at rest, the
  task's state between the accumulation's guarded regions). The accumulation loops' invariants with their carried
  sums named are stated over these.
-/
import proofs.«210586_g14980845929080_cont_week2b_1062_66_alg».proof.Proof.ScTilePI
import proofs.«210586_g14980845929080_cont_week2b_1062_66_alg».proof.Proof.Gen.KernelIdeal.Skeleton
import Idealize.ShloMosaic.Lib.Tactic

set_option warn.classDefReducibility false

noncomputable section

namespace Cert.KernelIdeal.ScTileV

open Cert.KernelIdeal.ScTile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ Sc.UU ℕ

local notation "a0V" => (Memref.whole Cert.KernelIdeal.main_arg0_scv : Memref Cert.KernelIdeal.sig Kind.scVector Space.hbm Cert.KernelIdeal.S8x192x224x224 EltTy.f32)
local notation "a1V" => (Memref.whole Cert.KernelIdeal.main_arg1_scv : Memref Cert.KernelIdeal.sig Kind.scVector Space.hbm Cert.KernelIdeal.S8x192x224x224 EltTy.f32)
local notation "mkV" => (Memref.whole Cert.KernelIdeal.main_v0_scv : Memref Cert.KernelIdeal.sig Kind.scVector Space.hbm Cert.KernelIdeal.S8x224x256 EltTy.f32)
local notation "ptV" => (Memref.whole Cert.KernelIdeal.main_v1_scv : Memref Cert.KernelIdeal.sig Kind.scVector Space.hbm Cert.KernelIdeal.S32x32 EltTy.f32)
local notation "b0V" => (Memref.whole Cert.KernelIdeal.cc1_scratch0 : Memref Cert.KernelIdeal.sig Kind.scVector Space.vmem Cert.KernelIdeal.S48x224 EltTy.f32)
local notation "b1V" => (Memref.whole Cert.KernelIdeal.cc1_scratch1 : Memref Cert.KernelIdeal.sig Kind.scVector Space.vmem Cert.KernelIdeal.S48x224 EltTy.f32)
local notation "b2V" => (Memref.whole Cert.KernelIdeal.cc1_scratch2 : Memref Cert.KernelIdeal.sig Kind.scVector Space.vmem Cert.KernelIdeal.S48x224 EltTy.f32)
local notation "b3V" => (Memref.whole Cert.KernelIdeal.cc1_scratch3 : Memref Cert.KernelIdeal.sig Kind.scVector Space.vmem Cert.KernelIdeal.S48x224 EltTy.f32)
local notation "b4V" => (Memref.whole Cert.KernelIdeal.cc1_scratch4 : Memref Cert.KernelIdeal.sig Kind.scVector Space.vmem Cert.KernelIdeal.S8x16x256 EltTy.f32)
local notation "b5V" => (Memref.whole Cert.KernelIdeal.cc1_scratch5 : Memref Cert.KernelIdeal.sig Kind.scVector Space.vmem Cert.KernelIdeal.S7x2x16 EltTy.f32)
local notation "b6V" => (Memref.whole Cert.KernelIdeal.cc1_scratch6 : Memref Cert.KernelIdeal.sig Kind.scVector Space.vmem Cert.KernelIdeal.S7x2x16 EltTy.f32)
local notation "b7V" => (Memref.whole Cert.KernelIdeal.cc1_scratch7 : Memref Cert.KernelIdeal.sig Kind.scVector Space.vmem Cert.KernelIdeal.S32 EltTy.f32)

/-! ## The subcore's own buffers and cells -/

theorem ownBufs_V (d : Dev nD) (c : Fin τ.nSC) (i : Fin τ.nSub) :
    (ownBufs (V d c i) : sProp 𝕄)
      = iprop((∃ f, (V d c i).loc cc1_scratch0 ↦{fullShare} f)
          ∗ (∃ f, (V d c i).loc cc1_scratch1 ↦{fullShare} f)
          ∗ (∃ f, (V d c i).loc cc1_scratch2 ↦{fullShare} f)
          ∗ (∃ f, (V d c i).loc cc1_scratch3 ↦{fullShare} f)
          ∗ (∃ f, (V d c i).loc cc1_scratch4 ↦{fullShare} f)
          ∗ (∃ f, (V d c i).loc cc1_scratch5 ↦{fullShare} f)
          ∗ (∃ f, (V d c i).loc cc1_scratch6 ↦{fullShare} f)
          ∗ (∃ f, (V d c i).loc cc1_scratch7 ↦{fullShare} f)
          ∗ bigSep (((((((((ownRefs (τ := τ) (.scVector c i)).erase ((Proc.scVector c i).devRef cc1_scratch0)).erase ((Proc.scVector c i).devRef cc1_scratch1)).erase ((Proc.scVector c i).devRef cc1_scratch2)).erase ((Proc.scVector c i).devRef cc1_scratch3)).erase ((Proc.scVector c i).devRef cc1_scratch4)).erase ((Proc.scVector c i).devRef cc1_scratch5)).erase ((Proc.scVector c i).devRef cc1_scratch6)).erase ((Proc.scVector c i).devRef cc1_scratch7))
              fun b => iprop(∃ f, ((d, b) : Loc nD τ sig) ↦{fullShare} f)) := by
  unfold SparseCore.Cfg.ownBufs
  rw [SparseCore.bigSep_erase' (SparseCore.Cfg.mem_ownRefs_of_owner (p := Proc.scVector c i) (b := (Proc.scVector c i).devRef cc1_scratch0) rfl),
    SparseCore.bigSep_erase' (Finset.mem_erase.mpr ⟨fun e => absurd (Proc.devRef_injective _ e) (show (cc1_scratch1 : Ref sig .scVector) ≠ cc1_scratch0 by decide), SparseCore.Cfg.mem_ownRefs_of_owner (p := Proc.scVector c i) (b := (Proc.scVector c i).devRef cc1_scratch1) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := Proc.scVector c i) (b := (Proc.scVector c i).devRef cc1_scratch2) rfl⟩⟩),
    SparseCore.bigSep_erase' (Finset.mem_erase.mpr ⟨fun e => absurd (Proc.devRef_injective _ e) (show (cc1_scratch3 : Ref sig .scVector) ≠ cc1_scratch2 by decide), Finset.mem_erase.mpr ⟨fun e => absurd (Proc.devRef_injective _ e) (show (cc1_scratch3 : Ref sig .scVector) ≠ cc1_scratch1 by decide), Finset.mem_erase.mpr ⟨fun e => absurd (Proc.devRef_injective _ e) (show (cc1_scratch3 : Ref sig .scVector) ≠ cc1_scratch0 by decide), SparseCore.Cfg.mem_ownRefs_of_owner (p := Proc.scVector c i) (b := (Proc.scVector c i).devRef cc1_scratch3) rfl⟩⟩⟩),
    SparseCore.bigSep_erase' (Finset.mem_erase.mpr ⟨fun e => absurd (Proc.devRef_injective _ e) (show (cc1_scratch4 : Ref sig .scVector) ≠ cc1_scratch3 by decide), Finset.mem_erase.mpr ⟨fun e => absurd (Proc.devRef_injective _ e) (show (cc1_scratch4 : Ref sig .scVector) ≠ cc1_scratch2 by decide), Finset.mem_erase.mpr ⟨fun e => absurd (Proc.devRef_injective _ e) (show (cc1_scratch4 : Ref sig .scVector) ≠ cc1_scratch1 by decide), Finset.mem_erase.mpr ⟨fun e => absurd (Proc.devRef_injective _ e) (show (cc1_scratch4 : Ref sig .scVector) ≠ cc1_scratch0 by decide), SparseCore.Cfg.mem_ownRefs_of_owner (p := Proc.scVector c i) (b := (Proc.scVector c i).devRef cc1_scratch4) rfl⟩⟩⟩⟩),
    SparseCore.bigSep_erase' (Finset.mem_erase.mpr ⟨fun e => absurd (Proc.devRef_injective _ e) (show (cc1_scratch5 : Ref sig .scVector) ≠ cc1_scratch4 by decide), Finset.mem_erase.mpr ⟨fun e => absurd (Proc.devRef_injective _ e) (show (cc1_scratch5 : Ref sig .scVector) ≠ cc1_scratch3 by decide), Finset.mem_erase.mpr ⟨fun e => absurd (Proc.devRef_injective _ e) (show (cc1_scratch5 : Ref sig .scVector) ≠ cc1_scratch2 by decide), Finset.mem_erase.mpr ⟨fun e => absurd (Proc.devRef_injective _ e) (show (cc1_scratch5 : Ref sig .scVector) ≠ cc1_scratch1 by decide), Finset.mem_erase.mpr ⟨fun e => absurd (Proc.devRef_injective _ e) (show (cc1_scratch5 : Ref sig .scVector) ≠ cc1_scratch0 by decide), SparseCore.Cfg.mem_ownRefs_of_owner (p := Proc.scVector c i) (b := (Proc.scVector c i).devRef cc1_scratch5) rfl⟩⟩⟩⟩⟩),
    SparseCore.bigSep_erase' (Finset.mem_erase.mpr ⟨fun e => absurd (Proc.devRef_injective _ e) (show (cc1_scratch6 : Ref sig .scVector) ≠ cc1_scratch5 by decide), Finset.mem_erase.mpr ⟨fun e => absurd (Proc.devRef_injective _ e) (show (cc1_scratch6 : Ref sig .scVector) ≠ cc1_scratch4 by decide), Finset.mem_erase.mpr ⟨fun e => absurd (Proc.devRef_injective _ e) (show (cc1_scratch6 : Ref sig .scVector) ≠ cc1_scratch3 by decide), Finset.mem_erase.mpr ⟨fun e => absurd (Proc.devRef_injective _ e) (show (cc1_scratch6 : Ref sig .scVector) ≠ cc1_scratch2 by decide), Finset.mem_erase.mpr ⟨fun e => absurd (Proc.devRef_injective _ e) (show (cc1_scratch6 : Ref sig .scVector) ≠ cc1_scratch1 by decide), Finset.mem_erase.mpr ⟨fun e => absurd (Proc.devRef_injective _ e) (show (cc1_scratch6 : Ref sig .scVector) ≠ cc1_scratch0 by decide), SparseCore.Cfg.mem_ownRefs_of_owner (p := Proc.scVector c i) (b := (Proc.scVector c i).devRef cc1_scratch6) rfl⟩⟩⟩⟩⟩⟩),
    SparseCore.bigSep_erase' (Finset.mem_erase.mpr ⟨fun e => absurd (Proc.devRef_injective _ e) (show (cc1_scratch7 : Ref sig .scVector) ≠ cc1_scratch6 by decide), Finset.mem_erase.mpr ⟨fun e => absurd (Proc.devRef_injective _ e) (show (cc1_scratch7 : Ref sig .scVector) ≠ cc1_scratch5 by decide), Finset.mem_erase.mpr ⟨fun e => absurd (Proc.devRef_injective _ e) (show (cc1_scratch7 : Ref sig .scVector) ≠ cc1_scratch4 by decide), Finset.mem_erase.mpr ⟨fun e => absurd (Proc.devRef_injective _ e) (show (cc1_scratch7 : Ref sig .scVector) ≠ cc1_scratch3 by decide), Finset.mem_erase.mpr ⟨fun e => absurd (Proc.devRef_injective _ e) (show (cc1_scratch7 : Ref sig .scVector) ≠ cc1_scratch2 by decide), Finset.mem_erase.mpr ⟨fun e => absurd (Proc.devRef_injective _ e) (show (cc1_scratch7 : Ref sig .scVector) ≠ cc1_scratch1 by decide), Finset.mem_erase.mpr ⟨fun e => absurd (Proc.devRef_injective _ e) (show (cc1_scratch7 : Ref sig .scVector) ≠ cc1_scratch0 by decide), SparseCore.Cfg.mem_ownRefs_of_owner (p := Proc.scVector c i) (b := (Proc.scVector c i).devRef cc1_scratch7) rfl⟩⟩⟩⟩⟩⟩⟩)]

theorem ownSems0_V (d : Dev nD) (c : Fin τ.nSC) (i : Fin τ.nSub) :
    (ownSems0 (V d c i) : sProp 𝕄)
      = iprop(semVal ((V d c i, SemLoc.dma cc1_scratch8.sem) : GSem nD τ sig) 0
          ∗ semVal ((V d c i, SemLoc.dma cc1_scratch9.sem) : GSem nD τ sig) 0
          ∗ semVal ((V d c i, SemLoc.dma cc1_scratch10.sem) : GSem nD τ sig) 0
          ∗ semVal ((V d c i, SemLoc.dma cc1_scratch11.sem) : GSem nD τ sig) 0
          ∗ semVal ((V d c i, SemLoc.dma cc1_scoped0.sem) : GSem nD τ sig) 0
          ∗ semVal ((V d c i, SemLoc.dma cc1_scoped1.sem) : GSem nD τ sig) 0
          ∗ bigSep (((((((ownCells (V d c i)).erase ((V d c i, SemLoc.dma cc1_scratch8.sem) : GSem nD τ sig)).erase ((V d c i, SemLoc.dma cc1_scratch9.sem) : GSem nD τ sig)).erase ((V d c i, SemLoc.dma cc1_scratch10.sem) : GSem nD τ sig)).erase ((V d c i, SemLoc.dma cc1_scratch11.sem) : GSem nD τ sig)).erase ((V d c i, SemLoc.dma cc1_scoped0.sem) : GSem nD τ sig)).erase ((V d c i, SemLoc.dma cc1_scoped1.sem) : GSem nD τ sig)) fun g => semVal g 0) := by
  unfold SparseCore.Cfg.ownSems0
  rw [SparseCore.bigSep_erase' ((mem_ownCells (g := ((V d c i, SemLoc.dma cc1_scratch8.sem) : GSem nD τ sig))).mpr ⟨rfl, by show (SemLoc.dma cc1_scratch8.sem : SemLoc sig).isScoped .scVector = true; decide⟩),
    SparseCore.bigSep_erase' (Finset.mem_erase.mpr ⟨fun e => absurd (congrArg Prod.snd e) (show (SemLoc.dma cc1_scratch9.sem : SemLoc sig) ≠ SemLoc.dma cc1_scratch8.sem by decide), (mem_ownCells (g := ((V d c i, SemLoc.dma cc1_scratch9.sem) : GSem nD τ sig))).mpr ⟨rfl, by show (SemLoc.dma cc1_scratch9.sem : SemLoc sig).isScoped .scVector = true; decide⟩⟩),
    SparseCore.bigSep_erase' (Finset.mem_erase.mpr ⟨fun e => absurd (congrArg Prod.snd e) (show (SemLoc.dma cc1_scratch10.sem : SemLoc sig) ≠ SemLoc.dma cc1_scratch9.sem by decide), Finset.mem_erase.mpr ⟨fun e => absurd (congrArg Prod.snd e) (show (SemLoc.dma cc1_scratch10.sem : SemLoc sig) ≠ SemLoc.dma cc1_scratch8.sem by decide), (mem_ownCells (g := ((V d c i, SemLoc.dma cc1_scratch10.sem) : GSem nD τ sig))).mpr ⟨rfl, by show (SemLoc.dma cc1_scratch10.sem : SemLoc sig).isScoped .scVector = true; decide⟩⟩⟩),
    SparseCore.bigSep_erase' (Finset.mem_erase.mpr ⟨fun e => absurd (congrArg Prod.snd e) (show (SemLoc.dma cc1_scratch11.sem : SemLoc sig) ≠ SemLoc.dma cc1_scratch10.sem by decide), Finset.mem_erase.mpr ⟨fun e => absurd (congrArg Prod.snd e) (show (SemLoc.dma cc1_scratch11.sem : SemLoc sig) ≠ SemLoc.dma cc1_scratch9.sem by decide), Finset.mem_erase.mpr ⟨fun e => absurd (congrArg Prod.snd e) (show (SemLoc.dma cc1_scratch11.sem : SemLoc sig) ≠ SemLoc.dma cc1_scratch8.sem by decide), (mem_ownCells (g := ((V d c i, SemLoc.dma cc1_scratch11.sem) : GSem nD τ sig))).mpr ⟨rfl, by show (SemLoc.dma cc1_scratch11.sem : SemLoc sig).isScoped .scVector = true; decide⟩⟩⟩⟩),
    SparseCore.bigSep_erase' (Finset.mem_erase.mpr ⟨fun e => absurd (congrArg Prod.snd e) (show (SemLoc.dma cc1_scoped0.sem : SemLoc sig) ≠ SemLoc.dma cc1_scratch11.sem by decide), Finset.mem_erase.mpr ⟨fun e => absurd (congrArg Prod.snd e) (show (SemLoc.dma cc1_scoped0.sem : SemLoc sig) ≠ SemLoc.dma cc1_scratch10.sem by decide), Finset.mem_erase.mpr ⟨fun e => absurd (congrArg Prod.snd e) (show (SemLoc.dma cc1_scoped0.sem : SemLoc sig) ≠ SemLoc.dma cc1_scratch9.sem by decide), Finset.mem_erase.mpr ⟨fun e => absurd (congrArg Prod.snd e) (show (SemLoc.dma cc1_scoped0.sem : SemLoc sig) ≠ SemLoc.dma cc1_scratch8.sem by decide), (mem_ownCells (g := ((V d c i, SemLoc.dma cc1_scoped0.sem) : GSem nD τ sig))).mpr ⟨rfl, by show (SemLoc.dma cc1_scoped0.sem : SemLoc sig).isScoped .scVector = true; decide⟩⟩⟩⟩⟩),
    SparseCore.bigSep_erase' (Finset.mem_erase.mpr ⟨fun e => absurd (congrArg Prod.snd e) (show (SemLoc.dma cc1_scoped1.sem : SemLoc sig) ≠ SemLoc.dma cc1_scoped0.sem by decide), Finset.mem_erase.mpr ⟨fun e => absurd (congrArg Prod.snd e) (show (SemLoc.dma cc1_scoped1.sem : SemLoc sig) ≠ SemLoc.dma cc1_scratch11.sem by decide), Finset.mem_erase.mpr ⟨fun e => absurd (congrArg Prod.snd e) (show (SemLoc.dma cc1_scoped1.sem : SemLoc sig) ≠ SemLoc.dma cc1_scratch10.sem by decide), Finset.mem_erase.mpr ⟨fun e => absurd (congrArg Prod.snd e) (show (SemLoc.dma cc1_scoped1.sem : SemLoc sig) ≠ SemLoc.dma cc1_scratch9.sem by decide), Finset.mem_erase.mpr ⟨fun e => absurd (congrArg Prod.snd e) (show (SemLoc.dma cc1_scoped1.sem : SemLoc sig) ≠ SemLoc.dma cc1_scratch8.sem by decide), (mem_ownCells (g := ((V d c i, SemLoc.dma cc1_scoped1.sem) : GSem nD τ sig))).mpr ⟨rfl, by show (SemLoc.dma cc1_scoped1.sem : SemLoc sig).isScoped .scVector = true; decide⟩⟩⟩⟩⟩⟩)]

/-! ## The arrays as the task's memrefs address them -/

theorem pts_a0 (d : Dev nD) (c : Fin τ.nSC) (i : Fin τ.nSub) (q : PosShare TreeShare) (f : Buf (Elt F) (a0Loc d)) :
    ((a0V).view.loc (V d c i) ↦{q} f : sProp 𝕄) = a0Loc d ↦{q} f := by
  simp only [Memref.view_whole, View.set_whole]
theorem pts_a1 (d : Dev nD) (c : Fin τ.nSC) (i : Fin τ.nSub) (q : PosShare TreeShare) (f : Buf (Elt F) (a1Loc d)) :
    ((a1V).view.loc (V d c i) ↦{q} f : sProp 𝕄) = a1Loc d ↦{q} f := by
  simp only [Memref.view_whole, View.set_whole]
theorem pts_mk (d : Dev nD) (c : Fin τ.nSC) (i : Fin τ.nSub) (q : PosShare TreeShare) (f : Buf (Elt F) (mkLoc d)) :
    ((mkV).view.loc (V d c i) ↦{q} f : sProp 𝕄) = mkLoc d ↦{q} f := by
  simp only [Memref.view_whole, View.set_whole]
theorem pts_b0 (d : Dev nD) (c : Fin τ.nSC) (i : Fin τ.nSub) (f : Buf (Elt F) ((V d c i).loc cc1_scratch0)) :
    ((b0V).view.loc (V d c i) ↦{fullShare} f : sProp 𝕄) = (V d c i).loc cc1_scratch0 ↦{fullShare} f := rfl
theorem pts_b1 (d : Dev nD) (c : Fin τ.nSC) (i : Fin τ.nSub) (f : Buf (Elt F) ((V d c i).loc cc1_scratch1)) :
    ((b1V).view.loc (V d c i) ↦{fullShare} f : sProp 𝕄) = (V d c i).loc cc1_scratch1 ↦{fullShare} f := rfl
theorem pts_b2 (d : Dev nD) (c : Fin τ.nSC) (i : Fin τ.nSub) (f : Buf (Elt F) ((V d c i).loc cc1_scratch2)) :
    ((b2V).view.loc (V d c i) ↦{fullShare} f : sProp 𝕄) = (V d c i).loc cc1_scratch2 ↦{fullShare} f := rfl
theorem pts_b3 (d : Dev nD) (c : Fin τ.nSC) (i : Fin τ.nSub) (f : Buf (Elt F) ((V d c i).loc cc1_scratch3)) :
    ((b3V).view.loc (V d c i) ↦{fullShare} f : sProp 𝕄) = (V d c i).loc cc1_scratch3 ↦{fullShare} f := rfl
theorem pts_b4 (d : Dev nD) (c : Fin τ.nSC) (i : Fin τ.nSub) (f : Buf (Elt F) ((V d c i).loc cc1_scratch4)) :
    ((b4V).view.loc (V d c i) ↦{fullShare} f : sProp 𝕄) = (V d c i).loc cc1_scratch4 ↦{fullShare} f := rfl
theorem pts_b5 (d : Dev nD) (c : Fin τ.nSC) (i : Fin τ.nSub) (f : Buf (Elt F) ((V d c i).loc cc1_scratch5)) :
    ((b5V).view.loc (V d c i) ↦{fullShare} f : sProp 𝕄) = (V d c i).loc cc1_scratch5 ↦{fullShare} f := rfl
theorem pts_b6 (d : Dev nD) (c : Fin τ.nSC) (i : Fin τ.nSub) (f : Buf (Elt F) ((V d c i).loc cc1_scratch6)) :
    ((b6V).view.loc (V d c i) ↦{fullShare} f : sProp 𝕄) = (V d c i).loc cc1_scratch6 ↦{fullShare} f := rfl
theorem pts_b7 (d : Dev nD) (c : Fin τ.nSC) (i : Fin τ.nSub) (f : Buf (Elt F) ((V d c i).loc cc1_scratch7)) :
    ((b7V).view.loc (V d c i) ↦{fullShare} f : sProp 𝕄) = (V d c i).loc cc1_scratch7 ↦{fullShare} f := rfl

variable [FloatOps F]

section Tile

variable (X0 : (d : Dev nD) → Buf (Elt F) (a0Loc d)) (X1 : (d : Dev nD) → Buf (Elt F) (a1Loc d))
  (M : (d : Dev nD) → Buf (Elt F) (mkLoc d)) (R0 : (d : Dev nD) → Buf (Elt F) (ptLoc d))
variable (d : Dev nD) (L : grid1.Coords)

abbrev cV (L : grid1.Coords) : Fin τ.nSC := (L 0).castLE hcore1
abbrev jV (L : grid1.Coords) : Fin τ.nSub := (L 1).castLE hsub1

/-! ## The accumulation loops: a trip loads from the slot's two buffers and carries its sums in registers -/

/-- A slot's two buffers, untouched. -/
def slotHeld0 (d : Dev nD) (L : grid1.Coords) (gi : Buf (Elt F) ((V d (cV L) (jV L)).loc cc1_scratch0)) (gt : Buf (Elt F) ((V d (cV L) (jV L)).loc cc1_scratch1))
    (_ : ℕ) (_ : FVec F S16 .f32 × FVec F S16 .f32 × FVec F S16 .f32 × FVec F S16 .f32) : sProp 𝕄 :=
  iprop(((b0V).view.loc (V d (cV L) (jV L)) ↦{fullShare} gi) ∗ (b1V).view.loc (V d (cV L) (jV L)) ↦{fullShare} gt)
def slotHeld1 (d : Dev nD) (L : grid1.Coords) (gi : Buf (Elt F) ((V d (cV L) (jV L)).loc cc1_scratch2)) (gt : Buf (Elt F) ((V d (cV L) (jV L)).loc cc1_scratch3))
    (_ : ℕ) (_ : FVec F S16 .f32 × FVec F S16 .f32 × FVec F S16 .f32 × FVec F S16 .f32) : sProp 𝕄 :=
  iprop(((b2V).view.loc (V d (cV L) (jV L)) ↦{fullShare} gi) ∗ (b3V).view.loc (V d (cV L) (jV L)) ↦{fullShare} gt)

/-! ## The row loop: two slots, each either in flight or at rest -/

/-- Both slots in flight: each of the four transfers' `Flight` (delivering its buffer at some contents and the window
    of the input it reads) beside the rest of that input's share. -/
def rowFly (qa qb : PosShare TreeShare) (d : Dev nD) (L : grid1.Coords) : sProp 𝕄 :=
  iprop(∃ (oA oB : Fin 4 → ℕ) (hA : (∀ a, oA a + S1x48x1x224.size a ≤ S8x192x224x224.size a)) (hB : (∀ a, oB a + S1x48x1x224.size a ≤ S8x192x224x224.size a))
      (g0 : Buf (Elt F) ((V d (cV L) (jV L)).loc cc1_scratch0)) (g1 : Buf (Elt F) ((V d (cV L) (jV L)).loc cc1_scratch1))
      (g2 : Buf (Elt F) ((V d (cV L) (jV L)).loc cc1_scratch2)) (g3 : Buf (Elt F) ((V d (cV L) (jV L)).loc cc1_scratch3)),
    (Transfers.Flight countersEmb (V d (cV L) (jV L)) (SemLoc.dma (⟨3, by decide⟩ : DmaSem sig)) (default : HIx 1) 344064
      iprop(((b0V).view.loc (V d (cV L) (jV L)) ↦{fullShare} g0) ∗ (a0V).view.loc (V d (cV L) (jV L)) ↦[((((a0V).slice (Rect.unit (s := S8x192x224x224) oA S1x48x1x224.size hA) (fun _ => rfl)).squeeze S48x224 squeezes_S1x48x1x224_S48x224).view.set)]{qa} X0 d))
    ∗ ((a0V).view.loc (V d (cV L) (jV L)) ↦[Finset.univ \ ((((a0V).slice (Rect.unit (s := S8x192x224x224) oA S1x48x1x224.size hA) (fun _ => rfl)).squeeze S48x224 squeezes_S1x48x1x224_S48x224).view.set)]{qa} X0 d)
    ∗ (Transfers.Flight countersEmb (V d (cV L) (jV L)) (SemLoc.dma (⟨4, by decide⟩ : DmaSem sig)) (default : HIx 1) 344064
      iprop(((b1V).view.loc (V d (cV L) (jV L)) ↦{fullShare} g1) ∗ (a1V).view.loc (V d (cV L) (jV L)) ↦[((((a1V).slice (Rect.unit (s := S8x192x224x224) oA S1x48x1x224.size hA) (fun _ => rfl)).squeeze S48x224 squeezes_S1x48x1x224_S48x224).view.set)]{qa} X1 d))
    ∗ ((a1V).view.loc (V d (cV L) (jV L)) ↦[Finset.univ \ ((((a1V).slice (Rect.unit (s := S8x192x224x224) oA S1x48x1x224.size hA) (fun _ => rfl)).squeeze S48x224 squeezes_S1x48x1x224_S48x224).view.set)]{qa} X1 d)
    ∗ (Transfers.Flight countersEmb (V d (cV L) (jV L)) (SemLoc.dma (⟨5, by decide⟩ : DmaSem sig)) (default : HIx 1) 344064
      iprop(((b2V).view.loc (V d (cV L) (jV L)) ↦{fullShare} g2) ∗ (a0V).view.loc (V d (cV L) (jV L)) ↦[((((a0V).slice (Rect.unit (s := S8x192x224x224) oB S1x48x1x224.size hB) (fun _ => rfl)).squeeze S48x224 squeezes_S1x48x1x224_S48x224).view.set)]{qb} X0 d))
    ∗ ((a0V).view.loc (V d (cV L) (jV L)) ↦[Finset.univ \ ((((a0V).slice (Rect.unit (s := S8x192x224x224) oB S1x48x1x224.size hB) (fun _ => rfl)).squeeze S48x224 squeezes_S1x48x1x224_S48x224).view.set)]{qb} X0 d)
    ∗ (Transfers.Flight countersEmb (V d (cV L) (jV L)) (SemLoc.dma (⟨6, by decide⟩ : DmaSem sig)) (default : HIx 1) 344064
      iprop(((b3V).view.loc (V d (cV L) (jV L)) ↦{fullShare} g3) ∗ (a1V).view.loc (V d (cV L) (jV L)) ↦[((((a1V).slice (Rect.unit (s := S8x192x224x224) oB S1x48x1x224.size hB) (fun _ => rfl)).squeeze S48x224 squeezes_S1x48x1x224_S48x224).view.set)]{qb} X1 d))
    ∗ ((a1V).view.loc (V d (cV L) (jV L)) ↦[Finset.univ \ ((((a1V).slice (Rect.unit (s := S8x192x224x224) oB S1x48x1x224.size hB) (fun _ => rfl)).squeeze S48x224 squeezes_S1x48x1x224_S48x224).view.set)]{qb} X1 d))

/-- Both slots at rest: the four buffers at some contents, the four cells at zero, the inputs' shares whole. -/
def rowIdle (qa qb : PosShare TreeShare) (d : Dev nD) (L : grid1.Coords) : sProp 𝕄 :=
  iprop((∃ g, ((b0V).view.loc (V d (cV L) (jV L)) ↦{fullShare} g)) ∗ (∃ g, ((b1V).view.loc (V d (cV L) (jV L)) ↦{fullShare} g)) ∗ (∃ g, ((b2V).view.loc (V d (cV L) (jV L)) ↦{fullShare} g)) ∗ (∃ g, ((b3V).view.loc (V d (cV L) (jV L)) ↦{fullShare} g))
    ∗ semVal ((V d (cV L) (jV L)), (SemLoc.dma (⟨3, by decide⟩ : DmaSem sig))) 0 ∗ semVal ((V d (cV L) (jV L)), (SemLoc.dma (⟨4, by decide⟩ : DmaSem sig))) 0 ∗ semVal ((V d (cV L) (jV L)), (SemLoc.dma (⟨5, by decide⟩ : DmaSem sig))) 0 ∗ semVal ((V d (cV L) (jV L)), (SemLoc.dma (⟨6, by decide⟩ : DmaSem sig))) 0
    ∗ ((a0V).view.loc (V d (cV L) (jV L)) ↦{qa} X0 d) ∗ ((a1V).view.loc (V d (cV L) (jV L)) ↦{qa} X1 d)
    ∗ ((a0V).view.loc (V d (cV L) (jV L)) ↦{qb} X0 d) ∗ ((a1V).view.loc (V d (cV L) (jV L)) ↦{qb} X1 d))

/-- Before row `k`: the mask slab as fetched, the two accumulators at some contents, the slots in flight while a
    row remains and at rest after the last, and what the task owes with only its own waits recorded beyond `W`. -/
def rowInv (qa qb : PosShare TreeShare) (d : Dev nD) (L : grid1.Coords) (O : CellTallies nD τ sig (HIx 1)) (W : Waits sig (HIx 1))
    (g4 : Buf (Elt F) ((V d (cV L) (jV L)).loc cc1_scratch4)) (k : ℕ) (_ : FVec F S16 .f32 × FVec F S16 .f32) : sProp 𝕄 :=
  iprop(Transfers.MayWaits (V d (cV L) (jV L)) (none : HIx 1) O
    ∗ ((b4V).view.loc (V d (cV L) (jV L)) ↦{fullShare} g4) ∗ (∃ g, ((b5V).view.loc (V d (cV L) (jV L)) ↦{fullShare} g)) ∗ (∃ g, ((b6V).view.loc (V d (cV L) (jV L)) ↦{fullShare} g))
    ∗ (if k < 16 then rowFly X0 X1 qa qb d L else rowIdle X0 X1 qa qb d L)
    ∗ ∃ W', ⌜∀ p ∈ W', p ∈ W ∨ p.2 = none⌝ ∗ owes (V d (cV L) (jV L)) O W')

/-! ## Between the accumulation's guarded regions: the task's state with the two accumulators at some contents -/

/-- Slot 0 at rest: its buffers, the cells at zero, the inputs' share whole. -/
def landed0 (qa : PosShare TreeShare) (d : Dev nD) (L : grid1.Coords)
    (g0 : Buf (Elt F) ((V d (cV L) (jV L)).loc cc1_scratch0)) (g1 : Buf (Elt F) ((V d (cV L) (jV L)).loc cc1_scratch1)) : sProp 𝕄 :=
  iprop(((b0V).view.loc (V d (cV L) (jV L)) ↦{fullShare} g0) ∗ ((b1V).view.loc (V d (cV L) (jV L)) ↦{fullShare} g1) ∗ ((a0V).view.loc (V d (cV L) (jV L)) ↦{qa} X0 d) ∗ ((a1V).view.loc (V d (cV L) (jV L)) ↦{qa} X1 d)
    ∗ semVal ((V d (cV L) (jV L)), (SemLoc.dma (⟨3, by decide⟩ : DmaSem sig))) 0 ∗ semVal ((V d (cV L) (jV L)), (SemLoc.dma (⟨4, by decide⟩ : DmaSem sig))) 0)
def landed1 (qb : PosShare TreeShare) (d : Dev nD) (L : grid1.Coords)
    (g2 : Buf (Elt F) ((V d (cV L) (jV L)).loc cc1_scratch2)) (g3 : Buf (Elt F) ((V d (cV L) (jV L)).loc cc1_scratch3)) : sProp 𝕄 :=
  iprop(((b2V).view.loc (V d (cV L) (jV L)) ↦{fullShare} g2) ∗ ((b3V).view.loc (V d (cV L) (jV L)) ↦{fullShare} g3) ∗ ((a0V).view.loc (V d (cV L) (jV L)) ↦{qb} X0 d) ∗ ((a1V).view.loc (V d (cV L) (jV L)) ↦{qb} X1 d)
    ∗ semVal ((V d (cV L) (jV L)), (SemLoc.dma (⟨5, by decide⟩ : DmaSem sig))) 0 ∗ semVal ((V d (cV L) (jV L)), (SemLoc.dma (⟨6, by decide⟩ : DmaSem sig))) 0)
/-- Slot 0 in flight from the window at offsets `o`. -/
def flying0 (qa : PosShare TreeShare) (d : Dev nD) (L : grid1.Coords) (o : Fin 4 → ℕ) (h : (∀ a, o a + S1x48x1x224.size a ≤ S8x192x224x224.size a))
    (g0 : Buf (Elt F) ((V d (cV L) (jV L)).loc cc1_scratch0)) (g1 : Buf (Elt F) ((V d (cV L) (jV L)).loc cc1_scratch1)) : sProp 𝕄 :=
  iprop((Transfers.Flight countersEmb (V d (cV L) (jV L)) (SemLoc.dma (⟨3, by decide⟩ : DmaSem sig)) (default : HIx 1) 344064
      iprop(((b0V).view.loc (V d (cV L) (jV L)) ↦{fullShare} g0) ∗ (a0V).view.loc (V d (cV L) (jV L)) ↦[((((a0V).slice (Rect.unit (s := S8x192x224x224) o S1x48x1x224.size h) (fun _ => rfl)).squeeze S48x224 squeezes_S1x48x1x224_S48x224).view.set)]{qa} X0 d))
    ∗ ((a0V).view.loc (V d (cV L) (jV L)) ↦[Finset.univ \ ((((a0V).slice (Rect.unit (s := S8x192x224x224) o S1x48x1x224.size h) (fun _ => rfl)).squeeze S48x224 squeezes_S1x48x1x224_S48x224).view.set)]{qa} X0 d)
    ∗ (Transfers.Flight countersEmb (V d (cV L) (jV L)) (SemLoc.dma (⟨4, by decide⟩ : DmaSem sig)) (default : HIx 1) 344064
      iprop(((b1V).view.loc (V d (cV L) (jV L)) ↦{fullShare} g1) ∗ (a1V).view.loc (V d (cV L) (jV L)) ↦[((((a1V).slice (Rect.unit (s := S8x192x224x224) o S1x48x1x224.size h) (fun _ => rfl)).squeeze S48x224 squeezes_S1x48x1x224_S48x224).view.set)]{qa} X1 d))
    ∗ ((a1V).view.loc (V d (cV L) (jV L)) ↦[Finset.univ \ ((((a1V).slice (Rect.unit (s := S8x192x224x224) o S1x48x1x224.size h) (fun _ => rfl)).squeeze S48x224 squeezes_S1x48x1x224_S48x224).view.set)]{qa} X1 d))
def flying1 (qb : PosShare TreeShare) (d : Dev nD) (L : grid1.Coords) (o : Fin 4 → ℕ) (h : (∀ a, o a + S1x48x1x224.size a ≤ S8x192x224x224.size a))
    (g2 : Buf (Elt F) ((V d (cV L) (jV L)).loc cc1_scratch2)) (g3 : Buf (Elt F) ((V d (cV L) (jV L)).loc cc1_scratch3)) : sProp 𝕄 :=
  iprop((Transfers.Flight countersEmb (V d (cV L) (jV L)) (SemLoc.dma (⟨5, by decide⟩ : DmaSem sig)) (default : HIx 1) 344064
      iprop(((b2V).view.loc (V d (cV L) (jV L)) ↦{fullShare} g2) ∗ (a0V).view.loc (V d (cV L) (jV L)) ↦[((((a0V).slice (Rect.unit (s := S8x192x224x224) o S1x48x1x224.size h) (fun _ => rfl)).squeeze S48x224 squeezes_S1x48x1x224_S48x224).view.set)]{qb} X0 d))
    ∗ ((a0V).view.loc (V d (cV L) (jV L)) ↦[Finset.univ \ ((((a0V).slice (Rect.unit (s := S8x192x224x224) o S1x48x1x224.size h) (fun _ => rfl)).squeeze S48x224 squeezes_S1x48x1x224_S48x224).view.set)]{qb} X0 d)
    ∗ (Transfers.Flight countersEmb (V d (cV L) (jV L)) (SemLoc.dma (⟨6, by decide⟩ : DmaSem sig)) (default : HIx 1) 344064
      iprop(((b3V).view.loc (V d (cV L) (jV L)) ↦{fullShare} g3) ∗ (a1V).view.loc (V d (cV L) (jV L)) ↦[((((a1V).slice (Rect.unit (s := S8x192x224x224) o S1x48x1x224.size h) (fun _ => rfl)).squeeze S48x224 squeezes_S1x48x1x224_S48x224).view.set)]{qb} X1 d))
    ∗ ((a1V).view.loc (V d (cV L) (jV L)) ↦[Finset.univ \ ((((a1V).slice (Rect.unit (s := S8x192x224x224) o S1x48x1x224.size h) (fun _ => rfl)).squeeze S48x224 squeezes_S1x48x1x224_S48x224).view.set)]{qb} X1 d))

/-- The slots with their buffers' contents left open. -/
def landed0E (qa : PosShare TreeShare) (d : Dev nD) (L : grid1.Coords) : sProp 𝕄 := iprop(∃ g0 g1, landed0 X0 X1 qa d L g0 g1)
def landed1E (qb : PosShare TreeShare) (d : Dev nD) (L : grid1.Coords) : sProp 𝕄 := iprop(∃ g2 g3, landed1 X0 X1 qb d L g2 g3)
def flying0E (qa : PosShare TreeShare) (d : Dev nD) (L : grid1.Coords) (o : Fin 4 → ℕ) (h : (∀ a, o a + S1x48x1x224.size a ≤ S8x192x224x224.size a)) : sProp 𝕄 :=
  iprop(∃ g0 g1, flying0 X0 X1 qa d L o h g0 g1)
def flying1E (qb : PosShare TreeShare) (d : Dev nD) (L : grid1.Coords) (o : Fin 4 → ℕ) (h : (∀ a, o a + S1x48x1x224.size a ≤ S8x192x224x224.size a)) : sProp 𝕄 :=
  iprop(∃ g2 g3, flying1 X0 X1 qb d L o h g2 g3)

/-- The task's state at a cut: the slots as given, the accumulators at some contents. -/
def cutSt (S0 S1 : sProp 𝕄) (d : Dev nD) (L : grid1.Coords) (O : CellTallies nD τ sig (HIx 1)) (Wx : Waits sig (HIx 1))
    (g4 : Buf (Elt F) ((V d (cV L) (jV L)).loc cc1_scratch4)) : sProp 𝕄 :=
  iprop(Transfers.MayWaits (V d (cV L) (jV L)) (none : HIx 1) O ∗ ((b4V).view.loc (V d (cV L) (jV L)) ↦{fullShare} g4) ∗ (∃ g, ((b5V).view.loc (V d (cV L) (jV L)) ↦{fullShare} g)) ∗ (∃ g, ((b6V).view.loc (V d (cV L) (jV L)) ↦{fullShare} g))
    ∗ S0 ∗ S1 ∗ owes (V d (cV L) (jV L)) O Wx)

/-- A conditional whose else-region is the rest of the block: both regions reach the rest from one state `R`. -/
theorem ite_cut {β : Type} {c : Prop} [Decidable c] (d : Dev nD) (L : grid1.Coords)
    {T J : Prog (TpuEff nD τ sig (Elt F) Λ₀ (.scVector (cV L) (jV L))) β} {Q : β → sProp 𝕄} {P : sProp 𝕄} (R : sProp 𝕄)
    (h1 : c → ∀ j : Prog (TpuEff nD τ sig (Elt F) Λ₀ (.scVector (cV L) (jV L))) β, j = J →
      (R ⊢ wp frame (wpE (defs₀ (F := F)) Sc.𝒱₀ (V d (cV L) (jV L)) none) Set.univ j Q) →
      Entails' P (wp frame (wpE (defs₀ (F := F)) Sc.𝒱₀ (V d (cV L) (jV L)) none) Set.univ T Q))
    (h2 : ¬c → Entails' P R)
    (h3 : R ⊢ wp frame (wpE (defs₀ (F := F)) Sc.𝒱₀ (V d (cV L) (jV L)) none) Set.univ J Q) :
    Entails' P (wp frame (wpE (defs₀ (F := F)) Sc.𝒱₀ (V d (cV L) (jV L)) none) Set.univ (if c then T else J) Q) := by
  by_cases hc : c
  · rw [if_pos hc]; exact h1 hc J rfl h3
  · rw [if_neg hc]; exact (show P ⊢ R from h2 hc).trans h3

theorem trips16 : k1_t1_loop.trips = 16 := by decide
theorem cond8_all : ∀ k : Fin k1_t1_loop.trips, k1_cond8 k = 1#1 := by decide +kernel
theorem cond16_all : ∀ k : Fin k1_t1_loop.trips, k1_cond16 k = 1#1 := by decide +kernel
theorem cond24_iff : ∀ k : Fin k1_t1_loop.trips, k1_cond24 k = 1#1 ↔ k.val + 1 < 16 := by decide +kernel
theorem cond32_iff : ∀ k : Fin k1_t1_loop.trips, k1_cond32 k = 1#1 ↔ k.val + 1 < 16 := by decide +kernel

end Tile

end Cert.KernelIdeal.ScTileV

end
-- ==== Proof.ScTileVLoop2I.lean ====
/-
  The accumulation loops with their carried sums named, for the run to go through them by: a trip's sums as a function of the sums before it and of the slot's two buffers, read off the trip's own run, and the loop's invariant that the carried sums are that function iterated.
-/
import proofs.«210586_g14980845929080_cont_week2b_1062_66_alg».proof.Proof.ScTileVBaseI
import proofs.«210586_g14980845929080_cont_week2b_1062_66_alg».proof.Proof.Gen.KernelIdeal.Skeleton
import Idealize.ShloMosaic.Lib.Tactic

set_option warn.classDefReducibility false

noncomputable section

namespace Cert.KernelIdeal.ScTileV

open Cert.KernelIdeal.ScTile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ Sc.UU ℕ

local notation "a0V" => (Memref.whole Cert.KernelIdeal.main_arg0_scv : Memref Cert.KernelIdeal.sig Kind.scVector Space.hbm Cert.KernelIdeal.S8x192x224x224 EltTy.f32)
local notation "a1V" => (Memref.whole Cert.KernelIdeal.main_arg1_scv : Memref Cert.KernelIdeal.sig Kind.scVector Space.hbm Cert.KernelIdeal.S8x192x224x224 EltTy.f32)
local notation "mkV" => (Memref.whole Cert.KernelIdeal.main_v0_scv : Memref Cert.KernelIdeal.sig Kind.scVector Space.hbm Cert.KernelIdeal.S8x224x256 EltTy.f32)
local notation "ptV" => (Memref.whole Cert.KernelIdeal.main_v1_scv : Memref Cert.KernelIdeal.sig Kind.scVector Space.hbm Cert.KernelIdeal.S32x32 EltTy.f32)
local notation "b0V" => (Memref.whole Cert.KernelIdeal.cc1_scratch0 : Memref Cert.KernelIdeal.sig Kind.scVector Space.vmem Cert.KernelIdeal.S48x224 EltTy.f32)
local notation "b1V" => (Memref.whole Cert.KernelIdeal.cc1_scratch1 : Memref Cert.KernelIdeal.sig Kind.scVector Space.vmem Cert.KernelIdeal.S48x224 EltTy.f32)
local notation "b2V" => (Memref.whole Cert.KernelIdeal.cc1_scratch2 : Memref Cert.KernelIdeal.sig Kind.scVector Space.vmem Cert.KernelIdeal.S48x224 EltTy.f32)
local notation "b3V" => (Memref.whole Cert.KernelIdeal.cc1_scratch3 : Memref Cert.KernelIdeal.sig Kind.scVector Space.vmem Cert.KernelIdeal.S48x224 EltTy.f32)
local notation "b4V" => (Memref.whole Cert.KernelIdeal.cc1_scratch4 : Memref Cert.KernelIdeal.sig Kind.scVector Space.vmem Cert.KernelIdeal.S8x16x256 EltTy.f32)
local notation "b5V" => (Memref.whole Cert.KernelIdeal.cc1_scratch5 : Memref Cert.KernelIdeal.sig Kind.scVector Space.vmem Cert.KernelIdeal.S7x2x16 EltTy.f32)
local notation "b6V" => (Memref.whole Cert.KernelIdeal.cc1_scratch6 : Memref Cert.KernelIdeal.sig Kind.scVector Space.vmem Cert.KernelIdeal.S7x2x16 EltTy.f32)
local notation "b7V" => (Memref.whole Cert.KernelIdeal.cc1_scratch7 : Memref Cert.KernelIdeal.sig Kind.scVector Space.vmem Cert.KernelIdeal.S32 EltTy.f32)

variable [FloatOps F]

section Tile

variable (X0 : (d : Dev nD) → Buf (Elt F) (a0Loc d)) (X1 : (d : Dev nD) → Buf (Elt F) (a1Loc d))
  (M : (d : Dev nD) → Buf (Elt F) (mkLoc d)) (R0 : (d : Dev nD) → Buf (Elt F) (ptLoc d))
variable (d : Dev nD) (L : grid1.Coords)

/-- One trip of accumulation loop 1: the sums it yields, read off its run, with the trip's triple. -/
def tripV_t2 (gi : Buf (Elt F) ((V d (cV L) (jV L)).loc cc1_scratch0)) (gt : Buf (Elt F) ((V d (cV L) (jV L)).loc cc1_scratch1))
    (k : Fin k1_t2_loop.trips) (acc : FVec F S16 .f32 × FVec F S16 .f32 × FVec F S16 .f32 × FVec F S16 .f32) :
    Σ' (r : FVec F S16 .f32 × FVec F S16 .f32 × FVec F S16 .f32 × FVec F S16 .f32), PLift (slotHeld0 d L gi gt 0 acc
      ⊢ wp frame (wpE (defs₀ (F := F)) Sc.𝒱₀ (V d (cV L) (jV L)) none) Set.univ (k1_t2_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 k acc)
          (fun x => iprop(⌜x = r⌝ ∗ slotHeld0 d L gi gt 0 acc))) := by
  rcases acc with ⟨a22, a23, a24, a25⟩
  refine ⟨?_, ⟨?_⟩⟩
  rotate_left
  · unfold slotHeld0 k1_t2_body
    iintro ⟨Hi, Ht⟩
    sl_exec
    sl_step
    isplitr
    · ipureintro; rfl
    isplitl [Hi] <;> iassumption

/-- The sums after a trip of loop 1. -/
def stepV_t2 (gi : Buf (Elt F) ((V d (cV L) (jV L)).loc cc1_scratch0)) (gt : Buf (Elt F) ((V d (cV L) (jV L)).loc cc1_scratch1))
    (k : Fin k1_t2_loop.trips) (acc : FVec F S16 .f32 × FVec F S16 .f32 × FVec F S16 .f32 × FVec F S16 .f32) : FVec F S16 .f32 × FVec F S16 .f32 × FVec F S16 .f32 × FVec F S16 .f32 := (tripV_t2 d L gi gt k acc).1

/-- The sums before trip `n` of loop 1: the trips' function iterated from the initial sums. -/
def sumsV_t2 (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) : ℕ → FVec F S16 .f32 × FVec F S16 .f32 × FVec F S16 .f32 × FVec F S16 .f32
  | 0 => init
  | n + 1 => if h : n < k1_t2_loop.trips then stepV_t2 d L gi gt ⟨n, h⟩ (sumsV_t2 gi gt init n) else sumsV_t2 gi gt init n

/-- Loop 1's invariant with the carried sums named. -/
@[sl_loop] def loopInvV_t2 (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) :
    LoopInv (M := 𝕄) frame (wpE (defs₀ (F := F)) Sc.𝒱₀ (V d (cV L) (jV L)) none) Set.univ k1_t2_loop.lb k1_t2_loop.ub k1_t2_loop.st k1_t2_ok init
      (k1_t2_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv n acc := iprop(⌜acc = sumsV_t2 d L gi gt init n⌝ ∗ slotHeld0 d L gi gt 0 acc)
  step k acc := by
    iintro ⟨%hacc, H⟩
    iapply ((tripV_t2 d L gi gt k acc).2.down.trans (wp_mono frame _ _ fun x => ?post)) $$ H
    case post =>
      iintro ⟨%hx, H⟩
      isplitr
      · ipureintro
        rw [hx, sumsV_t2, dif_pos k.isLt, ← hacc]; rfl
      · iexact H

/-- One trip of accumulation loop 2: the sums it yields, read off its run, with the trip's triple. -/
def tripV_t3 (gi : Buf (Elt F) ((V d (cV L) (jV L)).loc cc1_scratch0)) (gt : Buf (Elt F) ((V d (cV L) (jV L)).loc cc1_scratch1))
    (k : Fin k1_t3_loop.trips) (acc : FVec F S16 .f32 × FVec F S16 .f32 × FVec F S16 .f32 × FVec F S16 .f32) :
    Σ' (r : FVec F S16 .f32 × FVec F S16 .f32 × FVec F S16 .f32 × FVec F S16 .f32), PLift (slotHeld0 d L gi gt 0 acc
      ⊢ wp frame (wpE (defs₀ (F := F)) Sc.𝒱₀ (V d (cV L) (jV L)) none) Set.univ (k1_t3_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 k acc)
          (fun x => iprop(⌜x = r⌝ ∗ slotHeld0 d L gi gt 0 acc))) := by
  rcases acc with ⟨a22, a23, a24, a25⟩
  refine ⟨?_, ⟨?_⟩⟩
  rotate_left
  · unfold slotHeld0 k1_t3_body
    iintro ⟨Hi, Ht⟩
    sl_exec
    sl_step
    isplitr
    · ipureintro; rfl
    isplitl [Hi] <;> iassumption

/-- The sums after a trip of loop 2. -/
def stepV_t3 (gi : Buf (Elt F) ((V d (cV L) (jV L)).loc cc1_scratch0)) (gt : Buf (Elt F) ((V d (cV L) (jV L)).loc cc1_scratch1))
    (k : Fin k1_t3_loop.trips) (acc : FVec F S16 .f32 × FVec F S16 .f32 × FVec F S16 .f32 × FVec F S16 .f32) : FVec F S16 .f32 × FVec F S16 .f32 × FVec F S16 .f32 × FVec F S16 .f32 := (tripV_t3 d L gi gt k acc).1

/-- The sums before trip `n` of loop 2: the trips' function iterated from the initial sums. -/
def sumsV_t3 (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) : ℕ → FVec F S16 .f32 × FVec F S16 .f32 × FVec F S16 .f32 × FVec F S16 .f32
  | 0 => init
  | n + 1 => if h : n < k1_t3_loop.trips then stepV_t3 d L gi gt ⟨n, h⟩ (sumsV_t3 gi gt init n) else sumsV_t3 gi gt init n

/-- Loop 2's invariant with the carried sums named. -/
@[sl_loop] def loopInvV_t3 (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) :
    LoopInv (M := 𝕄) frame (wpE (defs₀ (F := F)) Sc.𝒱₀ (V d (cV L) (jV L)) none) Set.univ k1_t3_loop.lb k1_t3_loop.ub k1_t3_loop.st k1_t3_ok init
      (k1_t3_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv n acc := iprop(⌜acc = sumsV_t3 d L gi gt init n⌝ ∗ slotHeld0 d L gi gt 0 acc)
  step k acc := by
    iintro ⟨%hacc, H⟩
    iapply ((tripV_t3 d L gi gt k acc).2.down.trans (wp_mono frame _ _ fun x => ?post)) $$ H
    case post =>
      iintro ⟨%hx, H⟩
      isplitr
      · ipureintro
        rw [hx, sumsV_t3, dif_pos k.isLt, ← hacc]; rfl
      · iexact H

/-- One trip of accumulation loop 3: the sums it yields, read off its run, with the trip's triple. -/
def tripV_t4 (gi : Buf (Elt F) ((V d (cV L) (jV L)).loc cc1_scratch0)) (gt : Buf (Elt F) ((V d (cV L) (jV L)).loc cc1_scratch1))
    (k : Fin k1_t4_loop.trips) (acc : FVec F S16 .f32 × FVec F S16 .f32 × FVec F S16 .f32 × FVec F S16 .f32) :
    Σ' (r : FVec F S16 .f32 × FVec F S16 .f32 × FVec F S16 .f32 × FVec F S16 .f32), PLift (slotHeld0 d L gi gt 0 acc
      ⊢ wp frame (wpE (defs₀ (F := F)) Sc.𝒱₀ (V d (cV L) (jV L)) none) Set.univ (k1_t4_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 k acc)
          (fun x => iprop(⌜x = r⌝ ∗ slotHeld0 d L gi gt 0 acc))) := by
  rcases acc with ⟨a22, a23, a24, a25⟩
  refine ⟨?_, ⟨?_⟩⟩
  rotate_left
  · unfold slotHeld0 k1_t4_body
    iintro ⟨Hi, Ht⟩
    sl_exec
    sl_step
    isplitr
    · ipureintro; rfl
    isplitl [Hi] <;> iassumption

/-- The sums after a trip of loop 3. -/
def stepV_t4 (gi : Buf (Elt F) ((V d (cV L) (jV L)).loc cc1_scratch0)) (gt : Buf (Elt F) ((V d (cV L) (jV L)).loc cc1_scratch1))
    (k : Fin k1_t4_loop.trips) (acc : FVec F S16 .f32 × FVec F S16 .f32 × FVec F S16 .f32 × FVec F S16 .f32) : FVec F S16 .f32 × FVec F S16 .f32 × FVec F S16 .f32 × FVec F S16 .f32 := (tripV_t4 d L gi gt k acc).1

/-- The sums before trip `n` of loop 3: the trips' function iterated from the initial sums. -/
def sumsV_t4 (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) : ℕ → FVec F S16 .f32 × FVec F S16 .f32 × FVec F S16 .f32 × FVec F S16 .f32
  | 0 => init
  | n + 1 => if h : n < k1_t4_loop.trips then stepV_t4 d L gi gt ⟨n, h⟩ (sumsV_t4 gi gt init n) else sumsV_t4 gi gt init n

/-- Loop 3's invariant with the carried sums named. -/
@[sl_loop] def loopInvV_t4 (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) :
    LoopInv (M := 𝕄) frame (wpE (defs₀ (F := F)) Sc.𝒱₀ (V d (cV L) (jV L)) none) Set.univ k1_t4_loop.lb k1_t4_loop.ub k1_t4_loop.st k1_t4_ok init
      (k1_t4_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv n acc := iprop(⌜acc = sumsV_t4 d L gi gt init n⌝ ∗ slotHeld0 d L gi gt 0 acc)
  step k acc := by
    iintro ⟨%hacc, H⟩
    iapply ((tripV_t4 d L gi gt k acc).2.down.trans (wp_mono frame _ _ fun x => ?post)) $$ H
    case post =>
      iintro ⟨%hx, H⟩
      isplitr
      · ipureintro
        rw [hx, sumsV_t4, dif_pos k.isLt, ← hacc]; rfl
      · iexact H

/-- One trip of accumulation loop 4: the sums it yields, read off its run, with the trip's triple. -/
def tripV_t5 (gi : Buf (Elt F) ((V d (cV L) (jV L)).loc cc1_scratch0)) (gt : Buf (Elt F) ((V d (cV L) (jV L)).loc cc1_scratch1))
    (k : Fin k1_t5_loop.trips) (acc : FVec F S16 .f32 × FVec F S16 .f32 × FVec F S16 .f32 × FVec F S16 .f32) :
    Σ' (r : FVec F S16 .f32 × FVec F S16 .f32 × FVec F S16 .f32 × FVec F S16 .f32), PLift (slotHeld0 d L gi gt 0 acc
      ⊢ wp frame (wpE (defs₀ (F := F)) Sc.𝒱₀ (V d (cV L) (jV L)) none) Set.univ (k1_t5_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 k acc)
          (fun x => iprop(⌜x = r⌝ ∗ slotHeld0 d L gi gt 0 acc))) := by
  rcases acc with ⟨a22, a23, a24, a25⟩
  refine ⟨?_, ⟨?_⟩⟩
  rotate_left
  · unfold slotHeld0 k1_t5_body
    iintro ⟨Hi, Ht⟩
    sl_exec
    sl_step
    isplitr
    · ipureintro; rfl
    isplitl [Hi] <;> iassumption

/-- The sums after a trip of loop 4. -/
def stepV_t5 (gi : Buf (Elt F) ((V d (cV L) (jV L)).loc cc1_scratch0)) (gt : Buf (Elt F) ((V d (cV L) (jV L)).loc cc1_scratch1))
    (k : Fin k1_t5_loop.trips) (acc : FVec F S16 .f32 × FVec F S16 .f32 × FVec F S16 .f32 × FVec F S16 .f32) : FVec F S16 .f32 × FVec F S16 .f32 × FVec F S16 .f32 × FVec F S16 .f32 := (tripV_t5 d L gi gt k acc).1

/-- The sums before trip `n` of loop 4: the trips' function iterated from the initial sums. -/
def sumsV_t5 (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) : ℕ → FVec F S16 .f32 × FVec F S16 .f32 × FVec F S16 .f32 × FVec F S16 .f32
  | 0 => init
  | n + 1 => if h : n < k1_t5_loop.trips then stepV_t5 d L gi gt ⟨n, h⟩ (sumsV_t5 gi gt init n) else sumsV_t5 gi gt init n

/-- Loop 4's invariant with the carried sums named. -/
@[sl_loop] def loopInvV_t5 (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) :
    LoopInv (M := 𝕄) frame (wpE (defs₀ (F := F)) Sc.𝒱₀ (V d (cV L) (jV L)) none) Set.univ k1_t5_loop.lb k1_t5_loop.ub k1_t5_loop.st k1_t5_ok init
      (k1_t5_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv n acc := iprop(⌜acc = sumsV_t5 d L gi gt init n⌝ ∗ slotHeld0 d L gi gt 0 acc)
  step k acc := by
    iintro ⟨%hacc, H⟩
    iapply ((tripV_t5 d L gi gt k acc).2.down.trans (wp_mono frame _ _ fun x => ?post)) $$ H
    case post =>
      iintro ⟨%hx, H⟩
      isplitr
      · ipureintro
        rw [hx, sumsV_t5, dif_pos k.isLt, ← hacc]; rfl
      · iexact H

/-- One trip of accumulation loop 5: the sums it yields, read off its run, with the trip's triple. -/
def tripV_t6 (gi : Buf (Elt F) ((V d (cV L) (jV L)).loc cc1_scratch0)) (gt : Buf (Elt F) ((V d (cV L) (jV L)).loc cc1_scratch1))
    (k : Fin k1_t6_loop.trips) (acc : FVec F S16 .f32 × FVec F S16 .f32 × FVec F S16 .f32 × FVec F S16 .f32) :
    Σ' (r : FVec F S16 .f32 × FVec F S16 .f32 × FVec F S16 .f32 × FVec F S16 .f32), PLift (slotHeld0 d L gi gt 0 acc
      ⊢ wp frame (wpE (defs₀ (F := F)) Sc.𝒱₀ (V d (cV L) (jV L)) none) Set.univ (k1_t6_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 k acc)
          (fun x => iprop(⌜x = r⌝ ∗ slotHeld0 d L gi gt 0 acc))) := by
  rcases acc with ⟨a22, a23, a24, a25⟩
  refine ⟨?_, ⟨?_⟩⟩
  rotate_left
  · unfold slotHeld0 k1_t6_body
    iintro ⟨Hi, Ht⟩
    sl_exec
    sl_step
    isplitr
    · ipureintro; rfl
    isplitl [Hi] <;> iassumption

/-- The sums after a trip of loop 5. -/
def stepV_t6 (gi : Buf (Elt F) ((V d (cV L) (jV L)).loc cc1_scratch0)) (gt : Buf (Elt F) ((V d (cV L) (jV L)).loc cc1_scratch1))
    (k : Fin k1_t6_loop.trips) (acc : FVec F S16 .f32 × FVec F S16 .f32 × FVec F S16 .f32 × FVec F S16 .f32) : FVec F S16 .f32 × FVec F S16 .f32 × FVec F S16 .f32 × FVec F S16 .f32 := (tripV_t6 d L gi gt k acc).1

/-- The sums before trip `n` of loop 5: the trips' function iterated from the initial sums. -/
def sumsV_t6 (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) : ℕ → FVec F S16 .f32 × FVec F S16 .f32 × FVec F S16 .f32 × FVec F S16 .f32
  | 0 => init
  | n + 1 => if h : n < k1_t6_loop.trips then stepV_t6 d L gi gt ⟨n, h⟩ (sumsV_t6 gi gt init n) else sumsV_t6 gi gt init n

/-- Loop 5's invariant with the carried sums named. -/
@[sl_loop] def loopInvV_t6 (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) :
    LoopInv (M := 𝕄) frame (wpE (defs₀ (F := F)) Sc.𝒱₀ (V d (cV L) (jV L)) none) Set.univ k1_t6_loop.lb k1_t6_loop.ub k1_t6_loop.st k1_t6_ok init
      (k1_t6_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv n acc := iprop(⌜acc = sumsV_t6 d L gi gt init n⌝ ∗ slotHeld0 d L gi gt 0 acc)
  step k acc := by
    iintro ⟨%hacc, H⟩
    iapply ((tripV_t6 d L gi gt k acc).2.down.trans (wp_mono frame _ _ fun x => ?post)) $$ H
    case post =>
      iintro ⟨%hx, H⟩
      isplitr
      · ipureintro
        rw [hx, sumsV_t6, dif_pos k.isLt, ← hacc]; rfl
      · iexact H

/-- One trip of accumulation loop 6: the sums it yields, read off its run, with the trip's triple. -/
def tripV_t7 (gi : Buf (Elt F) ((V d (cV L) (jV L)).loc cc1_scratch0)) (gt : Buf (Elt F) ((V d (cV L) (jV L)).loc cc1_scratch1))
    (k : Fin k1_t7_loop.trips) (acc : FVec F S16 .f32 × FVec F S16 .f32 × FVec F S16 .f32 × FVec F S16 .f32) :
    Σ' (r : FVec F S16 .f32 × FVec F S16 .f32 × FVec F S16 .f32 × FVec F S16 .f32), PLift (slotHeld0 d L gi gt 0 acc
      ⊢ wp frame (wpE (defs₀ (F := F)) Sc.𝒱₀ (V d (cV L) (jV L)) none) Set.univ (k1_t7_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 k acc)
          (fun x => iprop(⌜x = r⌝ ∗ slotHeld0 d L gi gt 0 acc))) := by
  rcases acc with ⟨a22, a23, a24, a25⟩
  refine ⟨?_, ⟨?_⟩⟩
  rotate_left
  · unfold slotHeld0 k1_t7_body
    iintro ⟨Hi, Ht⟩
    sl_exec
    sl_step
    isplitr
    · ipureintro; rfl
    isplitl [Hi] <;> iassumption

/-- The sums after a trip of loop 6. -/
def stepV_t7 (gi : Buf (Elt F) ((V d (cV L) (jV L)).loc cc1_scratch0)) (gt : Buf (Elt F) ((V d (cV L) (jV L)).loc cc1_scratch1))
    (k : Fin k1_t7_loop.trips) (acc : FVec F S16 .f32 × FVec F S16 .f32 × FVec F S16 .f32 × FVec F S16 .f32) : FVec F S16 .f32 × FVec F S16 .f32 × FVec F S16 .f32 × FVec F S16 .f32 := (tripV_t7 d L gi gt k acc).1

/-- The sums before trip `n` of loop 6: the trips' function iterated from the initial sums. -/
def sumsV_t7 (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) : ℕ → FVec F S16 .f32 × FVec F S16 .f32 × FVec F S16 .f32 × FVec F S16 .f32
  | 0 => init
  | n + 1 => if h : n < k1_t7_loop.trips then stepV_t7 d L gi gt ⟨n, h⟩ (sumsV_t7 gi gt init n) else sumsV_t7 gi gt init n

/-- Loop 6's invariant with the carried sums named. -/
@[sl_loop] def loopInvV_t7 (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) :
    LoopInv (M := 𝕄) frame (wpE (defs₀ (F := F)) Sc.𝒱₀ (V d (cV L) (jV L)) none) Set.univ k1_t7_loop.lb k1_t7_loop.ub k1_t7_loop.st k1_t7_ok init
      (k1_t7_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv n acc := iprop(⌜acc = sumsV_t7 d L gi gt init n⌝ ∗ slotHeld0 d L gi gt 0 acc)
  step k acc := by
    iintro ⟨%hacc, H⟩
    iapply ((tripV_t7 d L gi gt k acc).2.down.trans (wp_mono frame _ _ fun x => ?post)) $$ H
    case post =>
      iintro ⟨%hx, H⟩
      isplitr
      · ipureintro
        rw [hx, sumsV_t7, dif_pos k.isLt, ← hacc]; rfl
      · iexact H

/-- One trip of accumulation loop 7: the sums it yields, read off its run, with the trip's triple. -/
def tripV_t8 (gi : Buf (Elt F) ((V d (cV L) (jV L)).loc cc1_scratch0)) (gt : Buf (Elt F) ((V d (cV L) (jV L)).loc cc1_scratch1))
    (k : Fin k1_t8_loop.trips) (acc : FVec F S16 .f32 × FVec F S16 .f32 × FVec F S16 .f32 × FVec F S16 .f32) :
    Σ' (r : FVec F S16 .f32 × FVec F S16 .f32 × FVec F S16 .f32 × FVec F S16 .f32), PLift (slotHeld0 d L gi gt 0 acc
      ⊢ wp frame (wpE (defs₀ (F := F)) Sc.𝒱₀ (V d (cV L) (jV L)) none) Set.univ (k1_t8_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 k acc)
          (fun x => iprop(⌜x = r⌝ ∗ slotHeld0 d L gi gt 0 acc))) := by
  rcases acc with ⟨a22, a23, a24, a25⟩
  refine ⟨?_, ⟨?_⟩⟩
  rotate_left
  · unfold slotHeld0 k1_t8_body
    iintro ⟨Hi, Ht⟩
    sl_exec
    sl_step
    isplitr
    · ipureintro; rfl
    isplitl [Hi] <;> iassumption

/-- The sums after a trip of loop 7. -/
def stepV_t8 (gi : Buf (Elt F) ((V d (cV L) (jV L)).loc cc1_scratch0)) (gt : Buf (Elt F) ((V d (cV L) (jV L)).loc cc1_scratch1))
    (k : Fin k1_t8_loop.trips) (acc : FVec F S16 .f32 × FVec F S16 .f32 × FVec F S16 .f32 × FVec F S16 .f32) : FVec F S16 .f32 × FVec F S16 .f32 × FVec F S16 .f32 × FVec F S16 .f32 := (tripV_t8 d L gi gt k acc).1

/-- The sums before trip `n` of loop 7: the trips' function iterated from the initial sums. -/
def sumsV_t8 (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) : ℕ → FVec F S16 .f32 × FVec F S16 .f32 × FVec F S16 .f32 × FVec F S16 .f32
  | 0 => init
  | n + 1 => if h : n < k1_t8_loop.trips then stepV_t8 d L gi gt ⟨n, h⟩ (sumsV_t8 gi gt init n) else sumsV_t8 gi gt init n

/-- Loop 7's invariant with the carried sums named. -/
@[sl_loop] def loopInvV_t8 (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) :
    LoopInv (M := 𝕄) frame (wpE (defs₀ (F := F)) Sc.𝒱₀ (V d (cV L) (jV L)) none) Set.univ k1_t8_loop.lb k1_t8_loop.ub k1_t8_loop.st k1_t8_ok init
      (k1_t8_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv n acc := iprop(⌜acc = sumsV_t8 d L gi gt init n⌝ ∗ slotHeld0 d L gi gt 0 acc)
  step k acc := by
    iintro ⟨%hacc, H⟩
    iapply ((tripV_t8 d L gi gt k acc).2.down.trans (wp_mono frame _ _ fun x => ?post)) $$ H
    case post =>
      iintro ⟨%hx, H⟩
      isplitr
      · ipureintro
        rw [hx, sumsV_t8, dif_pos k.isLt, ← hacc]; rfl
      · iexact H

/-- One trip of accumulation loop 8: the sums it yields, read off its run, with the trip's triple. -/
def tripV_t9 (gi : Buf (Elt F) ((V d (cV L) (jV L)).loc cc1_scratch2)) (gt : Buf (Elt F) ((V d (cV L) (jV L)).loc cc1_scratch3))
    (k : Fin k1_t9_loop.trips) (acc : FVec F S16 .f32 × FVec F S16 .f32 × FVec F S16 .f32 × FVec F S16 .f32) :
    Σ' (r : FVec F S16 .f32 × FVec F S16 .f32 × FVec F S16 .f32 × FVec F S16 .f32), PLift (slotHeld1 d L gi gt 0 acc
      ⊢ wp frame (wpE (defs₀ (F := F)) Sc.𝒱₀ (V d (cV L) (jV L)) none) Set.univ (k1_t9_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 k acc)
          (fun x => iprop(⌜x = r⌝ ∗ slotHeld1 d L gi gt 0 acc))) := by
  rcases acc with ⟨a22, a23, a24, a25⟩
  refine ⟨?_, ⟨?_⟩⟩
  rotate_left
  · unfold slotHeld1 k1_t9_body
    iintro ⟨Hi, Ht⟩
    sl_exec
    sl_step
    isplitr
    · ipureintro; rfl
    isplitl [Hi] <;> iassumption

/-- The sums after a trip of loop 8. -/
def stepV_t9 (gi : Buf (Elt F) ((V d (cV L) (jV L)).loc cc1_scratch2)) (gt : Buf (Elt F) ((V d (cV L) (jV L)).loc cc1_scratch3))
    (k : Fin k1_t9_loop.trips) (acc : FVec F S16 .f32 × FVec F S16 .f32 × FVec F S16 .f32 × FVec F S16 .f32) : FVec F S16 .f32 × FVec F S16 .f32 × FVec F S16 .f32 × FVec F S16 .f32 := (tripV_t9 d L gi gt k acc).1

/-- The sums before trip `n` of loop 8: the trips' function iterated from the initial sums. -/
def sumsV_t9 (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) : ℕ → FVec F S16 .f32 × FVec F S16 .f32 × FVec F S16 .f32 × FVec F S16 .f32
  | 0 => init
  | n + 1 => if h : n < k1_t9_loop.trips then stepV_t9 d L gi gt ⟨n, h⟩ (sumsV_t9 gi gt init n) else sumsV_t9 gi gt init n

/-- Loop 8's invariant with the carried sums named. -/
@[sl_loop] def loopInvV_t9 (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) :
    LoopInv (M := 𝕄) frame (wpE (defs₀ (F := F)) Sc.𝒱₀ (V d (cV L) (jV L)) none) Set.univ k1_t9_loop.lb k1_t9_loop.ub k1_t9_loop.st k1_t9_ok init
      (k1_t9_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv n acc := iprop(⌜acc = sumsV_t9 d L gi gt init n⌝ ∗ slotHeld1 d L gi gt 0 acc)
  step k acc := by
    iintro ⟨%hacc, H⟩
    iapply ((tripV_t9 d L gi gt k acc).2.down.trans (wp_mono frame _ _ fun x => ?post)) $$ H
    case post =>
      iintro ⟨%hx, H⟩
      isplitr
      · ipureintro
        rw [hx, sumsV_t9, dif_pos k.isLt, ← hacc]; rfl
      · iexact H

/-- One trip of accumulation loop 9: the sums it yields, read off its run, with the trip's triple. -/
def tripV_t10 (gi : Buf (Elt F) ((V d (cV L) (jV L)).loc cc1_scratch2)) (gt : Buf (Elt F) ((V d (cV L) (jV L)).loc cc1_scratch3))
    (k : Fin k1_t10_loop.trips) (acc : FVec F S16 .f32 × FVec F S16 .f32 × FVec F S16 .f32 × FVec F S16 .f32) :
    Σ' (r : FVec F S16 .f32 × FVec F S16 .f32 × FVec F S16 .f32 × FVec F S16 .f32), PLift (slotHeld1 d L gi gt 0 acc
      ⊢ wp frame (wpE (defs₀ (F := F)) Sc.𝒱₀ (V d (cV L) (jV L)) none) Set.univ (k1_t10_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 k acc)
          (fun x => iprop(⌜x = r⌝ ∗ slotHeld1 d L gi gt 0 acc))) := by
  rcases acc with ⟨a22, a23, a24, a25⟩
  refine ⟨?_, ⟨?_⟩⟩
  rotate_left
  · unfold slotHeld1 k1_t10_body
    iintro ⟨Hi, Ht⟩
    sl_exec
    sl_step
    isplitr
    · ipureintro; rfl
    isplitl [Hi] <;> iassumption

/-- The sums after a trip of loop 9. -/
def stepV_t10 (gi : Buf (Elt F) ((V d (cV L) (jV L)).loc cc1_scratch2)) (gt : Buf (Elt F) ((V d (cV L) (jV L)).loc cc1_scratch3))
    (k : Fin k1_t10_loop.trips) (acc : FVec F S16 .f32 × FVec F S16 .f32 × FVec F S16 .f32 × FVec F S16 .f32) : FVec F S16 .f32 × FVec F S16 .f32 × FVec F S16 .f32 × FVec F S16 .f32 := (tripV_t10 d L gi gt k acc).1

/-- The sums before trip `n` of loop 9: the trips' function iterated from the initial sums. -/
def sumsV_t10 (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) : ℕ → FVec F S16 .f32 × FVec F S16 .f32 × FVec F S16 .f32 × FVec F S16 .f32
  | 0 => init
  | n + 1 => if h : n < k1_t10_loop.trips then stepV_t10 d L gi gt ⟨n, h⟩ (sumsV_t10 gi gt init n) else sumsV_t10 gi gt init n

/-- Loop 9's invariant with the carried sums named. -/
@[sl_loop] def loopInvV_t10 (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) :
    LoopInv (M := 𝕄) frame (wpE (defs₀ (F := F)) Sc.𝒱₀ (V d (cV L) (jV L)) none) Set.univ k1_t10_loop.lb k1_t10_loop.ub k1_t10_loop.st k1_t10_ok init
      (k1_t10_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv n acc := iprop(⌜acc = sumsV_t10 d L gi gt init n⌝ ∗ slotHeld1 d L gi gt 0 acc)
  step k acc := by
    iintro ⟨%hacc, H⟩
    iapply ((tripV_t10 d L gi gt k acc).2.down.trans (wp_mono frame _ _ fun x => ?post)) $$ H
    case post =>
      iintro ⟨%hx, H⟩
      isplitr
      · ipureintro
        rw [hx, sumsV_t10, dif_pos k.isLt, ← hacc]; rfl
      · iexact H

/-- One trip of accumulation loop 10: the sums it yields, read off its run, with the trip's triple. -/
def tripV_t11 (gi : Buf (Elt F) ((V d (cV L) (jV L)).loc cc1_scratch2)) (gt : Buf (Elt F) ((V d (cV L) (jV L)).loc cc1_scratch3))
    (k : Fin k1_t11_loop.trips) (acc : FVec F S16 .f32 × FVec F S16 .f32 × FVec F S16 .f32 × FVec F S16 .f32) :
    Σ' (r : FVec F S16 .f32 × FVec F S16 .f32 × FVec F S16 .f32 × FVec F S16 .f32), PLift (slotHeld1 d L gi gt 0 acc
      ⊢ wp frame (wpE (defs₀ (F := F)) Sc.𝒱₀ (V d (cV L) (jV L)) none) Set.univ (k1_t11_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 k acc)
          (fun x => iprop(⌜x = r⌝ ∗ slotHeld1 d L gi gt 0 acc))) := by
  rcases acc with ⟨a22, a23, a24, a25⟩
  refine ⟨?_, ⟨?_⟩⟩
  rotate_left
  · unfold slotHeld1 k1_t11_body
    iintro ⟨Hi, Ht⟩
    sl_exec
    sl_step
    isplitr
    · ipureintro; rfl
    isplitl [Hi] <;> iassumption

/-- The sums after a trip of loop 10. -/
def stepV_t11 (gi : Buf (Elt F) ((V d (cV L) (jV L)).loc cc1_scratch2)) (gt : Buf (Elt F) ((V d (cV L) (jV L)).loc cc1_scratch3))
    (k : Fin k1_t11_loop.trips) (acc : FVec F S16 .f32 × FVec F S16 .f32 × FVec F S16 .f32 × FVec F S16 .f32) : FVec F S16 .f32 × FVec F S16 .f32 × FVec F S16 .f32 × FVec F S16 .f32 := (tripV_t11 d L gi gt k acc).1

/-- The sums before trip `n` of loop 10: the trips' function iterated from the initial sums. -/
def sumsV_t11 (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) : ℕ → FVec F S16 .f32 × FVec F S16 .f32 × FVec F S16 .f32 × FVec F S16 .f32
  | 0 => init
  | n + 1 => if h : n < k1_t11_loop.trips then stepV_t11 d L gi gt ⟨n, h⟩ (sumsV_t11 gi gt init n) else sumsV_t11 gi gt init n

/-- Loop 10's invariant with the carried sums named. -/
@[sl_loop] def loopInvV_t11 (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) :
    LoopInv (M := 𝕄) frame (wpE (defs₀ (F := F)) Sc.𝒱₀ (V d (cV L) (jV L)) none) Set.univ k1_t11_loop.lb k1_t11_loop.ub k1_t11_loop.st k1_t11_ok init
      (k1_t11_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv n acc := iprop(⌜acc = sumsV_t11 d L gi gt init n⌝ ∗ slotHeld1 d L gi gt 0 acc)
  step k acc := by
    iintro ⟨%hacc, H⟩
    iapply ((tripV_t11 d L gi gt k acc).2.down.trans (wp_mono frame _ _ fun x => ?post)) $$ H
    case post =>
      iintro ⟨%hx, H⟩
      isplitr
      · ipureintro
        rw [hx, sumsV_t11, dif_pos k.isLt, ← hacc]; rfl
      · iexact H

/-- One trip of accumulation loop 11: the sums it yields, read off its run, with the trip's triple. -/
def tripV_t12 (gi : Buf (Elt F) ((V d (cV L) (jV L)).loc cc1_scratch2)) (gt : Buf (Elt F) ((V d (cV L) (jV L)).loc cc1_scratch3))
    (k : Fin k1_t12_loop.trips) (acc : FVec F S16 .f32 × FVec F S16 .f32 × FVec F S16 .f32 × FVec F S16 .f32) :
    Σ' (r : FVec F S16 .f32 × FVec F S16 .f32 × FVec F S16 .f32 × FVec F S16 .f32), PLift (slotHeld1 d L gi gt 0 acc
      ⊢ wp frame (wpE (defs₀ (F := F)) Sc.𝒱₀ (V d (cV L) (jV L)) none) Set.univ (k1_t12_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 k acc)
          (fun x => iprop(⌜x = r⌝ ∗ slotHeld1 d L gi gt 0 acc))) := by
  rcases acc with ⟨a22, a23, a24, a25⟩
  refine ⟨?_, ⟨?_⟩⟩
  rotate_left
  · unfold slotHeld1 k1_t12_body
    iintro ⟨Hi, Ht⟩
    sl_exec
    sl_step
    isplitr
    · ipureintro; rfl
    isplitl [Hi] <;> iassumption

/-- The sums after a trip of loop 11. -/
def stepV_t12 (gi : Buf (Elt F) ((V d (cV L) (jV L)).loc cc1_scratch2)) (gt : Buf (Elt F) ((V d (cV L) (jV L)).loc cc1_scratch3))
    (k : Fin k1_t12_loop.trips) (acc : FVec F S16 .f32 × FVec F S16 .f32 × FVec F S16 .f32 × FVec F S16 .f32) : FVec F S16 .f32 × FVec F S16 .f32 × FVec F S16 .f32 × FVec F S16 .f32 := (tripV_t12 d L gi gt k acc).1

/-- The sums before trip `n` of loop 11: the trips' function iterated from the initial sums. -/
def sumsV_t12 (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) : ℕ → FVec F S16 .f32 × FVec F S16 .f32 × FVec F S16 .f32 × FVec F S16 .f32
  | 0 => init
  | n + 1 => if h : n < k1_t12_loop.trips then stepV_t12 d L gi gt ⟨n, h⟩ (sumsV_t12 gi gt init n) else sumsV_t12 gi gt init n

/-- Loop 11's invariant with the carried sums named. -/
@[sl_loop] def loopInvV_t12 (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) :
    LoopInv (M := 𝕄) frame (wpE (defs₀ (F := F)) Sc.𝒱₀ (V d (cV L) (jV L)) none) Set.univ k1_t12_loop.lb k1_t12_loop.ub k1_t12_loop.st k1_t12_ok init
      (k1_t12_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv n acc := iprop(⌜acc = sumsV_t12 d L gi gt init n⌝ ∗ slotHeld1 d L gi gt 0 acc)
  step k acc := by
    iintro ⟨%hacc, H⟩
    iapply ((tripV_t12 d L gi gt k acc).2.down.trans (wp_mono frame _ _ fun x => ?post)) $$ H
    case post =>
      iintro ⟨%hx, H⟩
      isplitr
      · ipureintro
        rw [hx, sumsV_t12, dif_pos k.isLt, ← hacc]; rfl
      · iexact H

/-- One trip of accumulation loop 12: the sums it yields, read off its run, with the trip's triple. -/
def tripV_t13 (gi : Buf (Elt F) ((V d (cV L) (jV L)).loc cc1_scratch2)) (gt : Buf (Elt F) ((V d (cV L) (jV L)).loc cc1_scratch3))
    (k : Fin k1_t13_loop.trips) (acc : FVec F S16 .f32 × FVec F S16 .f32 × FVec F S16 .f32 × FVec F S16 .f32) :
    Σ' (r : FVec F S16 .f32 × FVec F S16 .f32 × FVec F S16 .f32 × FVec F S16 .f32), PLift (slotHeld1 d L gi gt 0 acc
      ⊢ wp frame (wpE (defs₀ (F := F)) Sc.𝒱₀ (V d (cV L) (jV L)) none) Set.univ (k1_t13_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 k acc)
          (fun x => iprop(⌜x = r⌝ ∗ slotHeld1 d L gi gt 0 acc))) := by
  rcases acc with ⟨a22, a23, a24, a25⟩
  refine ⟨?_, ⟨?_⟩⟩
  rotate_left
  · unfold slotHeld1 k1_t13_body
    iintro ⟨Hi, Ht⟩
    sl_exec
    sl_step
    isplitr
    · ipureintro; rfl
    isplitl [Hi] <;> iassumption

/-- The sums after a trip of loop 12. -/
def stepV_t13 (gi : Buf (Elt F) ((V d (cV L) (jV L)).loc cc1_scratch2)) (gt : Buf (Elt F) ((V d (cV L) (jV L)).loc cc1_scratch3))
    (k : Fin k1_t13_loop.trips) (acc : FVec F S16 .f32 × FVec F S16 .f32 × FVec F S16 .f32 × FVec F S16 .f32) : FVec F S16 .f32 × FVec F S16 .f32 × FVec F S16 .f32 × FVec F S16 .f32 := (tripV_t13 d L gi gt k acc).1

/-- The sums before trip `n` of loop 12: the trips' function iterated from the initial sums. -/
def sumsV_t13 (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) : ℕ → FVec F S16 .f32 × FVec F S16 .f32 × FVec F S16 .f32 × FVec F S16 .f32
  | 0 => init
  | n + 1 => if h : n < k1_t13_loop.trips then stepV_t13 d L gi gt ⟨n, h⟩ (sumsV_t13 gi gt init n) else sumsV_t13 gi gt init n

/-- Loop 12's invariant with the carried sums named. -/
@[sl_loop] def loopInvV_t13 (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) :
    LoopInv (M := 𝕄) frame (wpE (defs₀ (F := F)) Sc.𝒱₀ (V d (cV L) (jV L)) none) Set.univ k1_t13_loop.lb k1_t13_loop.ub k1_t13_loop.st k1_t13_ok init
      (k1_t13_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv n acc := iprop(⌜acc = sumsV_t13 d L gi gt init n⌝ ∗ slotHeld1 d L gi gt 0 acc)
  step k acc := by
    iintro ⟨%hacc, H⟩
    iapply ((tripV_t13 d L gi gt k acc).2.down.trans (wp_mono frame _ _ fun x => ?post)) $$ H
    case post =>
      iintro ⟨%hx, H⟩
      isplitr
      · ipureintro
        rw [hx, sumsV_t13, dif_pos k.isLt, ← hacc]; rfl
      · iexact H

/-- One trip of accumulation loop 13: the sums it yields, read off its run, with the trip's triple. -/
def tripV_t14 (gi : Buf (Elt F) ((V d (cV L) (jV L)).loc cc1_scratch2)) (gt : Buf (Elt F) ((V d (cV L) (jV L)).loc cc1_scratch3))
    (k : Fin k1_t14_loop.trips) (acc : FVec F S16 .f32 × FVec F S16 .f32 × FVec F S16 .f32 × FVec F S16 .f32) :
    Σ' (r : FVec F S16 .f32 × FVec F S16 .f32 × FVec F S16 .f32 × FVec F S16 .f32), PLift (slotHeld1 d L gi gt 0 acc
      ⊢ wp frame (wpE (defs₀ (F := F)) Sc.𝒱₀ (V d (cV L) (jV L)) none) Set.univ (k1_t14_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 k acc)
          (fun x => iprop(⌜x = r⌝ ∗ slotHeld1 d L gi gt 0 acc))) := by
  rcases acc with ⟨a22, a23, a24, a25⟩
  refine ⟨?_, ⟨?_⟩⟩
  rotate_left
  · unfold slotHeld1 k1_t14_body
    iintro ⟨Hi, Ht⟩
    sl_exec
    sl_step
    isplitr
    · ipureintro; rfl
    isplitl [Hi] <;> iassumption

/-- The sums after a trip of loop 13. -/
def stepV_t14 (gi : Buf (Elt F) ((V d (cV L) (jV L)).loc cc1_scratch2)) (gt : Buf (Elt F) ((V d (cV L) (jV L)).loc cc1_scratch3))
    (k : Fin k1_t14_loop.trips) (acc : FVec F S16 .f32 × FVec F S16 .f32 × FVec F S16 .f32 × FVec F S16 .f32) : FVec F S16 .f32 × FVec F S16 .f32 × FVec F S16 .f32 × FVec F S16 .f32 := (tripV_t14 d L gi gt k acc).1

/-- The sums before trip `n` of loop 13: the trips' function iterated from the initial sums. -/
def sumsV_t14 (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) : ℕ → FVec F S16 .f32 × FVec F S16 .f32 × FVec F S16 .f32 × FVec F S16 .f32
  | 0 => init
  | n + 1 => if h : n < k1_t14_loop.trips then stepV_t14 d L gi gt ⟨n, h⟩ (sumsV_t14 gi gt init n) else sumsV_t14 gi gt init n

/-- Loop 13's invariant with the carried sums named. -/
@[sl_loop] def loopInvV_t14 (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) :
    LoopInv (M := 𝕄) frame (wpE (defs₀ (F := F)) Sc.𝒱₀ (V d (cV L) (jV L)) none) Set.univ k1_t14_loop.lb k1_t14_loop.ub k1_t14_loop.st k1_t14_ok init
      (k1_t14_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv n acc := iprop(⌜acc = sumsV_t14 d L gi gt init n⌝ ∗ slotHeld1 d L gi gt 0 acc)
  step k acc := by
    iintro ⟨%hacc, H⟩
    iapply ((tripV_t14 d L gi gt k acc).2.down.trans (wp_mono frame _ _ fun x => ?post)) $$ H
    case post =>
      iintro ⟨%hx, H⟩
      isplitr
      · ipureintro
        rw [hx, sumsV_t14, dif_pos k.isLt, ← hacc]; rfl
      · iexact H

/-- One trip of accumulation loop 14: the sums it yields, read off its run, with the trip's triple. -/
def tripV_t15 (gi : Buf (Elt F) ((V d (cV L) (jV L)).loc cc1_scratch2)) (gt : Buf (Elt F) ((V d (cV L) (jV L)).loc cc1_scratch3))
    (k : Fin k1_t15_loop.trips) (acc : FVec F S16 .f32 × FVec F S16 .f32 × FVec F S16 .f32 × FVec F S16 .f32) :
    Σ' (r : FVec F S16 .f32 × FVec F S16 .f32 × FVec F S16 .f32 × FVec F S16 .f32), PLift (slotHeld1 d L gi gt 0 acc
      ⊢ wp frame (wpE (defs₀ (F := F)) Sc.𝒱₀ (V d (cV L) (jV L)) none) Set.univ (k1_t15_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 k acc)
          (fun x => iprop(⌜x = r⌝ ∗ slotHeld1 d L gi gt 0 acc))) := by
  rcases acc with ⟨a22, a23, a24, a25⟩
  refine ⟨?_, ⟨?_⟩⟩
  rotate_left
  · unfold slotHeld1 k1_t15_body
    iintro ⟨Hi, Ht⟩
    sl_exec
    sl_step
    isplitr
    · ipureintro; rfl
    isplitl [Hi] <;> iassumption

/-- The sums after a trip of loop 14. -/
def stepV_t15 (gi : Buf (Elt F) ((V d (cV L) (jV L)).loc cc1_scratch2)) (gt : Buf (Elt F) ((V d (cV L) (jV L)).loc cc1_scratch3))
    (k : Fin k1_t15_loop.trips) (acc : FVec F S16 .f32 × FVec F S16 .f32 × FVec F S16 .f32 × FVec F S16 .f32) : FVec F S16 .f32 × FVec F S16 .f32 × FVec F S16 .f32 × FVec F S16 .f32 := (tripV_t15 d L gi gt k acc).1

/-- The sums before trip `n` of loop 14: the trips' function iterated from the initial sums. -/
def sumsV_t15 (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) : ℕ → FVec F S16 .f32 × FVec F S16 .f32 × FVec F S16 .f32 × FVec F S16 .f32
  | 0 => init
  | n + 1 => if h : n < k1_t15_loop.trips then stepV_t15 d L gi gt ⟨n, h⟩ (sumsV_t15 gi gt init n) else sumsV_t15 gi gt init n

/-- Loop 14's invariant with the carried sums named. -/
@[sl_loop] def loopInvV_t15 (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) :
    LoopInv (M := 𝕄) frame (wpE (defs₀ (F := F)) Sc.𝒱₀ (V d (cV L) (jV L)) none) Set.univ k1_t15_loop.lb k1_t15_loop.ub k1_t15_loop.st k1_t15_ok init
      (k1_t15_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv n acc := iprop(⌜acc = sumsV_t15 d L gi gt init n⌝ ∗ slotHeld1 d L gi gt 0 acc)
  step k acc := by
    iintro ⟨%hacc, H⟩
    iapply ((tripV_t15 d L gi gt k acc).2.down.trans (wp_mono frame _ _ fun x => ?post)) $$ H
    case post =>
      iintro ⟨%hx, H⟩
      isplitr
      · ipureintro
        rw [hx, sumsV_t15, dif_pos k.isLt, ← hacc]; rfl
      · iexact H

/-- One trip of accumulation loop 15: the sums it yields, read off its run, with the trip's triple. -/
def tripV_t16 (gi : Buf (Elt F) ((V d (cV L) (jV L)).loc cc1_scratch0)) (gt : Buf (Elt F) ((V d (cV L) (jV L)).loc cc1_scratch1))
    (k : Fin k1_t16_loop.trips) (acc : FVec F S16 .f32 × FVec F S16 .f32 × FVec F S16 .f32 × FVec F S16 .f32) :
    Σ' (r : FVec F S16 .f32 × FVec F S16 .f32 × FVec F S16 .f32 × FVec F S16 .f32), PLift (slotHeld0 d L gi gt 0 acc
      ⊢ wp frame (wpE (defs₀ (F := F)) Sc.𝒱₀ (V d (cV L) (jV L)) none) Set.univ (k1_t16_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 k acc)
          (fun x => iprop(⌜x = r⌝ ∗ slotHeld0 d L gi gt 0 acc))) := by
  rcases acc with ⟨a22, a23, a24, a25⟩
  refine ⟨?_, ⟨?_⟩⟩
  rotate_left
  · unfold slotHeld0 k1_t16_body
    iintro ⟨Hi, Ht⟩
    sl_exec
    sl_step
    isplitr
    · ipureintro; rfl
    isplitl [Hi] <;> iassumption

/-- The sums after a trip of loop 15. -/
def stepV_t16 (gi : Buf (Elt F) ((V d (cV L) (jV L)).loc cc1_scratch0)) (gt : Buf (Elt F) ((V d (cV L) (jV L)).loc cc1_scratch1))
    (k : Fin k1_t16_loop.trips) (acc : FVec F S16 .f32 × FVec F S16 .f32 × FVec F S16 .f32 × FVec F S16 .f32) : FVec F S16 .f32 × FVec F S16 .f32 × FVec F S16 .f32 × FVec F S16 .f32 := (tripV_t16 d L gi gt k acc).1

/-- The sums before trip `n` of loop 15: the trips' function iterated from the initial sums. -/
def sumsV_t16 (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) : ℕ → FVec F S16 .f32 × FVec F S16 .f32 × FVec F S16 .f32 × FVec F S16 .f32
  | 0 => init
  | n + 1 => if h : n < k1_t16_loop.trips then stepV_t16 d L gi gt ⟨n, h⟩ (sumsV_t16 gi gt init n) else sumsV_t16 gi gt init n

/-- Loop 15's invariant with the carried sums named. -/
@[sl_loop] def loopInvV_t16 (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) :
    LoopInv (M := 𝕄) frame (wpE (defs₀ (F := F)) Sc.𝒱₀ (V d (cV L) (jV L)) none) Set.univ k1_t16_loop.lb k1_t16_loop.ub k1_t16_loop.st k1_t16_ok init
      (k1_t16_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv n acc := iprop(⌜acc = sumsV_t16 d L gi gt init n⌝ ∗ slotHeld0 d L gi gt 0 acc)
  step k acc := by
    iintro ⟨%hacc, H⟩
    iapply ((tripV_t16 d L gi gt k acc).2.down.trans (wp_mono frame _ _ fun x => ?post)) $$ H
    case post =>
      iintro ⟨%hx, H⟩
      isplitr
      · ipureintro
        rw [hx, sumsV_t16, dif_pos k.isLt, ← hacc]; rfl
      · iexact H

/-- One trip of accumulation loop 16: the sums it yields, read off its run, with the trip's triple. -/
def tripV_t17 (gi : Buf (Elt F) ((V d (cV L) (jV L)).loc cc1_scratch0)) (gt : Buf (Elt F) ((V d (cV L) (jV L)).loc cc1_scratch1))
    (k : Fin k1_t17_loop.trips) (acc : FVec F S16 .f32 × FVec F S16 .f32 × FVec F S16 .f32 × FVec F S16 .f32) :
    Σ' (r : FVec F S16 .f32 × FVec F S16 .f32 × FVec F S16 .f32 × FVec F S16 .f32), PLift (slotHeld0 d L gi gt 0 acc
      ⊢ wp frame (wpE (defs₀ (F := F)) Sc.𝒱₀ (V d (cV L) (jV L)) none) Set.univ (k1_t17_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 k acc)
          (fun x => iprop(⌜x = r⌝ ∗ slotHeld0 d L gi gt 0 acc))) := by
  rcases acc with ⟨a22, a23, a24, a25⟩
  refine ⟨?_, ⟨?_⟩⟩
  rotate_left
  · unfold slotHeld0 k1_t17_body
    iintro ⟨Hi, Ht⟩
    sl_exec
    sl_step
    isplitr
    · ipureintro; rfl
    isplitl [Hi] <;> iassumption

/-- The sums after a trip of loop 16. -/
def stepV_t17 (gi : Buf (Elt F) ((V d (cV L) (jV L)).loc cc1_scratch0)) (gt : Buf (Elt F) ((V d (cV L) (jV L)).loc cc1_scratch1))
    (k : Fin k1_t17_loop.trips) (acc : FVec F S16 .f32 × FVec F S16 .f32 × FVec F S16 .f32 × FVec F S16 .f32) : FVec F S16 .f32 × FVec F S16 .f32 × FVec F S16 .f32 × FVec F S16 .f32 := (tripV_t17 d L gi gt k acc).1

/-- The sums before trip `n` of loop 16: the trips' function iterated from the initial sums. -/
def sumsV_t17 (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) : ℕ → FVec F S16 .f32 × FVec F S16 .f32 × FVec F S16 .f32 × FVec F S16 .f32
  | 0 => init
  | n + 1 => if h : n < k1_t17_loop.trips then stepV_t17 d L gi gt ⟨n, h⟩ (sumsV_t17 gi gt init n) else sumsV_t17 gi gt init n

/-- Loop 16's invariant with the carried sums named. -/
@[sl_loop] def loopInvV_t17 (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) :
    LoopInv (M := 𝕄) frame (wpE (defs₀ (F := F)) Sc.𝒱₀ (V d (cV L) (jV L)) none) Set.univ k1_t17_loop.lb k1_t17_loop.ub k1_t17_loop.st k1_t17_ok init
      (k1_t17_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv n acc := iprop(⌜acc = sumsV_t17 d L gi gt init n⌝ ∗ slotHeld0 d L gi gt 0 acc)
  step k acc := by
    iintro ⟨%hacc, H⟩
    iapply ((tripV_t17 d L gi gt k acc).2.down.trans (wp_mono frame _ _ fun x => ?post)) $$ H
    case post =>
      iintro ⟨%hx, H⟩
      isplitr
      · ipureintro
        rw [hx, sumsV_t17, dif_pos k.isLt, ← hacc]; rfl
      · iexact H

/-- One trip of accumulation loop 17: the sums it yields, read off its run, with the trip's triple. -/
def tripV_t18 (gi : Buf (Elt F) ((V d (cV L) (jV L)).loc cc1_scratch0)) (gt : Buf (Elt F) ((V d (cV L) (jV L)).loc cc1_scratch1))
    (k : Fin k1_t18_loop.trips) (acc : FVec F S16 .f32 × FVec F S16 .f32 × FVec F S16 .f32 × FVec F S16 .f32) :
    Σ' (r : FVec F S16 .f32 × FVec F S16 .f32 × FVec F S16 .f32 × FVec F S16 .f32), PLift (slotHeld0 d L gi gt 0 acc
      ⊢ wp frame (wpE (defs₀ (F := F)) Sc.𝒱₀ (V d (cV L) (jV L)) none) Set.univ (k1_t18_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 k acc)
          (fun x => iprop(⌜x = r⌝ ∗ slotHeld0 d L gi gt 0 acc))) := by
  rcases acc with ⟨a22, a23, a24, a25⟩
  refine ⟨?_, ⟨?_⟩⟩
  rotate_left
  · unfold slotHeld0 k1_t18_body
    iintro ⟨Hi, Ht⟩
    sl_exec
    sl_step
    isplitr
    · ipureintro; rfl
    isplitl [Hi] <;> iassumption

/-- The sums after a trip of loop 17. -/
def stepV_t18 (gi : Buf (Elt F) ((V d (cV L) (jV L)).loc cc1_scratch0)) (gt : Buf (Elt F) ((V d (cV L) (jV L)).loc cc1_scratch1))
    (k : Fin k1_t18_loop.trips) (acc : FVec F S16 .f32 × FVec F S16 .f32 × FVec F S16 .f32 × FVec F S16 .f32) : FVec F S16 .f32 × FVec F S16 .f32 × FVec F S16 .f32 × FVec F S16 .f32 := (tripV_t18 d L gi gt k acc).1

/-- The sums before trip `n` of loop 17: the trips' function iterated from the initial sums. -/
def sumsV_t18 (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) : ℕ → FVec F S16 .f32 × FVec F S16 .f32 × FVec F S16 .f32 × FVec F S16 .f32
  | 0 => init
  | n + 1 => if h : n < k1_t18_loop.trips then stepV_t18 d L gi gt ⟨n, h⟩ (sumsV_t18 gi gt init n) else sumsV_t18 gi gt init n

/-- Loop 17's invariant with the carried sums named. -/
@[sl_loop] def loopInvV_t18 (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) :
    LoopInv (M := 𝕄) frame (wpE (defs₀ (F := F)) Sc.𝒱₀ (V d (cV L) (jV L)) none) Set.univ k1_t18_loop.lb k1_t18_loop.ub k1_t18_loop.st k1_t18_ok init
      (k1_t18_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv n acc := iprop(⌜acc = sumsV_t18 d L gi gt init n⌝ ∗ slotHeld0 d L gi gt 0 acc)
  step k acc := by
    iintro ⟨%hacc, H⟩
    iapply ((tripV_t18 d L gi gt k acc).2.down.trans (wp_mono frame _ _ fun x => ?post)) $$ H
    case post =>
      iintro ⟨%hx, H⟩
      isplitr
      · ipureintro
        rw [hx, sumsV_t18, dif_pos k.isLt, ← hacc]; rfl
      · iexact H

/-- One trip of accumulation loop 18: the sums it yields, read off its run, with the trip's triple. -/
def tripV_t19 (gi : Buf (Elt F) ((V d (cV L) (jV L)).loc cc1_scratch0)) (gt : Buf (Elt F) ((V d (cV L) (jV L)).loc cc1_scratch1))
    (k : Fin k1_t19_loop.trips) (acc : FVec F S16 .f32 × FVec F S16 .f32 × FVec F S16 .f32 × FVec F S16 .f32) :
    Σ' (r : FVec F S16 .f32 × FVec F S16 .f32 × FVec F S16 .f32 × FVec F S16 .f32), PLift (slotHeld0 d L gi gt 0 acc
      ⊢ wp frame (wpE (defs₀ (F := F)) Sc.𝒱₀ (V d (cV L) (jV L)) none) Set.univ (k1_t19_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 k acc)
          (fun x => iprop(⌜x = r⌝ ∗ slotHeld0 d L gi gt 0 acc))) := by
  rcases acc with ⟨a22, a23, a24, a25⟩
  refine ⟨?_, ⟨?_⟩⟩
  rotate_left
  · unfold slotHeld0 k1_t19_body
    iintro ⟨Hi, Ht⟩
    sl_exec
    sl_step
    isplitr
    · ipureintro; rfl
    isplitl [Hi] <;> iassumption

/-- The sums after a trip of loop 18. -/
def stepV_t19 (gi : Buf (Elt F) ((V d (cV L) (jV L)).loc cc1_scratch0)) (gt : Buf (Elt F) ((V d (cV L) (jV L)).loc cc1_scratch1))
    (k : Fin k1_t19_loop.trips) (acc : FVec F S16 .f32 × FVec F S16 .f32 × FVec F S16 .f32 × FVec F S16 .f32) : FVec F S16 .f32 × FVec F S16 .f32 × FVec F S16 .f32 × FVec F S16 .f32 := (tripV_t19 d L gi gt k acc).1

/-- The sums before trip `n` of loop 18: the trips' function iterated from the initial sums. -/
def sumsV_t19 (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) : ℕ → FVec F S16 .f32 × FVec F S16 .f32 × FVec F S16 .f32 × FVec F S16 .f32
  | 0 => init
  | n + 1 => if h : n < k1_t19_loop.trips then stepV_t19 d L gi gt ⟨n, h⟩ (sumsV_t19 gi gt init n) else sumsV_t19 gi gt init n

/-- Loop 18's invariant with the carried sums named. -/
@[sl_loop] def loopInvV_t19 (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) :
    LoopInv (M := 𝕄) frame (wpE (defs₀ (F := F)) Sc.𝒱₀ (V d (cV L) (jV L)) none) Set.univ k1_t19_loop.lb k1_t19_loop.ub k1_t19_loop.st k1_t19_ok init
      (k1_t19_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv n acc := iprop(⌜acc = sumsV_t19 d L gi gt init n⌝ ∗ slotHeld0 d L gi gt 0 acc)
  step k acc := by
    iintro ⟨%hacc, H⟩
    iapply ((tripV_t19 d L gi gt k acc).2.down.trans (wp_mono frame _ _ fun x => ?post)) $$ H
    case post =>
      iintro ⟨%hx, H⟩
      isplitr
      · ipureintro
        rw [hx, sumsV_t19, dif_pos k.isLt, ← hacc]; rfl
      · iexact H

/-- One trip of accumulation loop 19: the sums it yields, read off its run, with the trip's triple. -/
def tripV_t20 (gi : Buf (Elt F) ((V d (cV L) (jV L)).loc cc1_scratch0)) (gt : Buf (Elt F) ((V d (cV L) (jV L)).loc cc1_scratch1))
    (k : Fin k1_t20_loop.trips) (acc : FVec F S16 .f32 × FVec F S16 .f32 × FVec F S16 .f32 × FVec F S16 .f32) :
    Σ' (r : FVec F S16 .f32 × FVec F S16 .f32 × FVec F S16 .f32 × FVec F S16 .f32), PLift (slotHeld0 d L gi gt 0 acc
      ⊢ wp frame (wpE (defs₀ (F := F)) Sc.𝒱₀ (V d (cV L) (jV L)) none) Set.univ (k1_t20_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 k acc)
          (fun x => iprop(⌜x = r⌝ ∗ slotHeld0 d L gi gt 0 acc))) := by
  rcases acc with ⟨a22, a23, a24, a25⟩
  refine ⟨?_, ⟨?_⟩⟩
  rotate_left
  · unfold slotHeld0 k1_t20_body
    iintro ⟨Hi, Ht⟩
    sl_exec
    sl_step
    isplitr
    · ipureintro; rfl
    isplitl [Hi] <;> iassumption

/-- The sums after a trip of loop 19. -/
def stepV_t20 (gi : Buf (Elt F) ((V d (cV L) (jV L)).loc cc1_scratch0)) (gt : Buf (Elt F) ((V d (cV L) (jV L)).loc cc1_scratch1))
    (k : Fin k1_t20_loop.trips) (acc : FVec F S16 .f32 × FVec F S16 .f32 × FVec F S16 .f32 × FVec F S16 .f32) : FVec F S16 .f32 × FVec F S16 .f32 × FVec F S16 .f32 × FVec F S16 .f32 := (tripV_t20 d L gi gt k acc).1

/-- The sums before trip `n` of loop 19: the trips' function iterated from the initial sums. -/
def sumsV_t20 (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) : ℕ → FVec F S16 .f32 × FVec F S16 .f32 × FVec F S16 .f32 × FVec F S16 .f32
  | 0 => init
  | n + 1 => if h : n < k1_t20_loop.trips then stepV_t20 d L gi gt ⟨n, h⟩ (sumsV_t20 gi gt init n) else sumsV_t20 gi gt init n

/-- Loop 19's invariant with the carried sums named. -/
@[sl_loop] def loopInvV_t20 (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) :
    LoopInv (M := 𝕄) frame (wpE (defs₀ (F := F)) Sc.𝒱₀ (V d (cV L) (jV L)) none) Set.univ k1_t20_loop.lb k1_t20_loop.ub k1_t20_loop.st k1_t20_ok init
      (k1_t20_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv n acc := iprop(⌜acc = sumsV_t20 d L gi gt init n⌝ ∗ slotHeld0 d L gi gt 0 acc)
  step k acc := by
    iintro ⟨%hacc, H⟩
    iapply ((tripV_t20 d L gi gt k acc).2.down.trans (wp_mono frame _ _ fun x => ?post)) $$ H
    case post =>
      iintro ⟨%hx, H⟩
      isplitr
      · ipureintro
        rw [hx, sumsV_t20, dif_pos k.isLt, ← hacc]; rfl
      · iexact H

/-- One trip of accumulation loop 20: the sums it yields, read off its run, with the trip's triple. -/
def tripV_t21 (gi : Buf (Elt F) ((V d (cV L) (jV L)).loc cc1_scratch0)) (gt : Buf (Elt F) ((V d (cV L) (jV L)).loc cc1_scratch1))
    (k : Fin k1_t21_loop.trips) (acc : FVec F S16 .f32 × FVec F S16 .f32 × FVec F S16 .f32 × FVec F S16 .f32) :
    Σ' (r : FVec F S16 .f32 × FVec F S16 .f32 × FVec F S16 .f32 × FVec F S16 .f32), PLift (slotHeld0 d L gi gt 0 acc
      ⊢ wp frame (wpE (defs₀ (F := F)) Sc.𝒱₀ (V d (cV L) (jV L)) none) Set.univ (k1_t21_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 k acc)
          (fun x => iprop(⌜x = r⌝ ∗ slotHeld0 d L gi gt 0 acc))) := by
  rcases acc with ⟨a22, a23, a24, a25⟩
  refine ⟨?_, ⟨?_⟩⟩
  rotate_left
  · unfold slotHeld0 k1_t21_body
    iintro ⟨Hi, Ht⟩
    sl_exec
    sl_step
    isplitr
    · ipureintro; rfl
    isplitl [Hi] <;> iassumption

/-- The sums after a trip of loop 20. -/
def stepV_t21 (gi : Buf (Elt F) ((V d (cV L) (jV L)).loc cc1_scratch0)) (gt : Buf (Elt F) ((V d (cV L) (jV L)).loc cc1_scratch1))
    (k : Fin k1_t21_loop.trips) (acc : FVec F S16 .f32 × FVec F S16 .f32 × FVec F S16 .f32 × FVec F S16 .f32) : FVec F S16 .f32 × FVec F S16 .f32 × FVec F S16 .f32 × FVec F S16 .f32 := (tripV_t21 d L gi gt k acc).1

/-- The sums before trip `n` of loop 20: the trips' function iterated from the initial sums. -/
def sumsV_t21 (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) : ℕ → FVec F S16 .f32 × FVec F S16 .f32 × FVec F S16 .f32 × FVec F S16 .f32
  | 0 => init
  | n + 1 => if h : n < k1_t21_loop.trips then stepV_t21 d L gi gt ⟨n, h⟩ (sumsV_t21 gi gt init n) else sumsV_t21 gi gt init n

/-- Loop 20's invariant with the carried sums named. -/
@[sl_loop] def loopInvV_t21 (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) :
    LoopInv (M := 𝕄) frame (wpE (defs₀ (F := F)) Sc.𝒱₀ (V d (cV L) (jV L)) none) Set.univ k1_t21_loop.lb k1_t21_loop.ub k1_t21_loop.st k1_t21_ok init
      (k1_t21_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv n acc := iprop(⌜acc = sumsV_t21 d L gi gt init n⌝ ∗ slotHeld0 d L gi gt 0 acc)
  step k acc := by
    iintro ⟨%hacc, H⟩
    iapply ((tripV_t21 d L gi gt k acc).2.down.trans (wp_mono frame _ _ fun x => ?post)) $$ H
    case post =>
      iintro ⟨%hx, H⟩
      isplitr
      · ipureintro
        rw [hx, sumsV_t21, dif_pos k.isLt, ← hacc]; rfl
      · iexact H

/-- One trip of accumulation loop 21: the sums it yields, read off its run, with the trip's triple. -/
def tripV_t22 (gi : Buf (Elt F) ((V d (cV L) (jV L)).loc cc1_scratch0)) (gt : Buf (Elt F) ((V d (cV L) (jV L)).loc cc1_scratch1))
    (k : Fin k1_t22_loop.trips) (acc : FVec F S16 .f32 × FVec F S16 .f32 × FVec F S16 .f32 × FVec F S16 .f32) :
    Σ' (r : FVec F S16 .f32 × FVec F S16 .f32 × FVec F S16 .f32 × FVec F S16 .f32), PLift (slotHeld0 d L gi gt 0 acc
      ⊢ wp frame (wpE (defs₀ (F := F)) Sc.𝒱₀ (V d (cV L) (jV L)) none) Set.univ (k1_t22_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 k acc)
          (fun x => iprop(⌜x = r⌝ ∗ slotHeld0 d L gi gt 0 acc))) := by
  rcases acc with ⟨a22, a23, a24, a25⟩
  refine ⟨?_, ⟨?_⟩⟩
  rotate_left
  · unfold slotHeld0 k1_t22_body
    iintro ⟨Hi, Ht⟩
    sl_exec
    sl_step
    isplitr
    · ipureintro; rfl
    isplitl [Hi] <;> iassumption

/-- The sums after a trip of loop 21. -/
def stepV_t22 (gi : Buf (Elt F) ((V d (cV L) (jV L)).loc cc1_scratch0)) (gt : Buf (Elt F) ((V d (cV L) (jV L)).loc cc1_scratch1))
    (k : Fin k1_t22_loop.trips) (acc : FVec F S16 .f32 × FVec F S16 .f32 × FVec F S16 .f32 × FVec F S16 .f32) : FVec F S16 .f32 × FVec F S16 .f32 × FVec F S16 .f32 × FVec F S16 .f32 := (tripV_t22 d L gi gt k acc).1

/-- The sums before trip `n` of loop 21: the trips' function iterated from the initial sums. -/
def sumsV_t22 (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) : ℕ → FVec F S16 .f32 × FVec F S16 .f32 × FVec F S16 .f32 × FVec F S16 .f32
  | 0 => init
  | n + 1 => if h : n < k1_t22_loop.trips then stepV_t22 d L gi gt ⟨n, h⟩ (sumsV_t22 gi gt init n) else sumsV_t22 gi gt init n

/-- Loop 21's invariant with the carried sums named. -/
@[sl_loop] def loopInvV_t22 (gi : Buf (Elt F) ((V d (cV L) (jV L)).loc cc1_scratch0)) (gt : Buf (Elt F) ((V d (cV L) (jV L)).loc cc1_scratch1))
    (init : FVec F S16 .f32 × FVec F S16 .f32 × FVec F S16 .f32 × FVec F S16 .f32) :
    LoopInv (M := 𝕄) frame (wpE (defs₀ (F := F)) Sc.𝒱₀ (V d (cV L) (jV L)) none) Set.univ k1_t22_loop.lb k1_t22_loop.ub k1_t22_loop.st k1_t22_ok init
      (k1_t22_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv n acc := iprop(⌜acc = sumsV_t22 d L gi gt init n⌝ ∗ slotHeld0 d L gi gt 0 acc)
  step k acc := by
    iintro ⟨%hacc, H⟩
    iapply ((tripV_t22 d L gi gt k acc).2.down.trans (wp_mono frame _ _ fun x => ?post)) $$ H
    case post =>
      iintro ⟨%hx, H⟩
      isplitr
      · ipureintro
        rw [hx, sumsV_t22, dif_pos k.isLt, ← hacc]; rfl
      · iexact H

/-- One trip of accumulation loop 22: the sums it yields, read off its run, with the trip's triple. -/
def tripV_t23 (gi : Buf (Elt F) ((V d (cV L) (jV L)).loc cc1_scratch2)) (gt : Buf (Elt F) ((V d (cV L) (jV L)).loc cc1_scratch3))
    (k : Fin k1_t23_loop.trips) (acc : FVec F S16 .f32 × FVec F S16 .f32 × FVec F S16 .f32 × FVec F S16 .f32) :
    Σ' (r : FVec F S16 .f32 × FVec F S16 .f32 × FVec F S16 .f32 × FVec F S16 .f32), PLift (slotHeld1 d L gi gt 0 acc
      ⊢ wp frame (wpE (defs₀ (F := F)) Sc.𝒱₀ (V d (cV L) (jV L)) none) Set.univ (k1_t23_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 k acc)
          (fun x => iprop(⌜x = r⌝ ∗ slotHeld1 d L gi gt 0 acc))) := by
  rcases acc with ⟨a22, a23, a24, a25⟩
  refine ⟨?_, ⟨?_⟩⟩
  rotate_left
  · unfold slotHeld1 k1_t23_body
    iintro ⟨Hi, Ht⟩
    sl_exec
    sl_step
    isplitr
    · ipureintro; rfl
    isplitl [Hi] <;> iassumption

/-- The sums after a trip of loop 22. -/
def stepV_t23 (gi : Buf (Elt F) ((V d (cV L) (jV L)).loc cc1_scratch2)) (gt : Buf (Elt F) ((V d (cV L) (jV L)).loc cc1_scratch3))
    (k : Fin k1_t23_loop.trips) (acc : FVec F S16 .f32 × FVec F S16 .f32 × FVec F S16 .f32 × FVec F S16 .f32) : FVec F S16 .f32 × FVec F S16 .f32 × FVec F S16 .f32 × FVec F S16 .f32 := (tripV_t23 d L gi gt k acc).1

/-- The sums before trip `n` of loop 22: the trips' function iterated from the initial sums. -/
def sumsV_t23 (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) : ℕ → FVec F S16 .f32 × FVec F S16 .f32 × FVec F S16 .f32 × FVec F S16 .f32
  | 0 => init
  | n + 1 => if h : n < k1_t23_loop.trips then stepV_t23 d L gi gt ⟨n, h⟩ (sumsV_t23 gi gt init n) else sumsV_t23 gi gt init n

/-- Loop 22's invariant with the carried sums named. -/
@[sl_loop] def loopInvV_t23 (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) :
    LoopInv (M := 𝕄) frame (wpE (defs₀ (F := F)) Sc.𝒱₀ (V d (cV L) (jV L)) none) Set.univ k1_t23_loop.lb k1_t23_loop.ub k1_t23_loop.st k1_t23_ok init
      (k1_t23_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv n acc := iprop(⌜acc = sumsV_t23 d L gi gt init n⌝ ∗ slotHeld1 d L gi gt 0 acc)
  step k acc := by
    iintro ⟨%hacc, H⟩
    iapply ((tripV_t23 d L gi gt k acc).2.down.trans (wp_mono frame _ _ fun x => ?post)) $$ H
    case post =>
      iintro ⟨%hx, H⟩
      isplitr
      · ipureintro
        rw [hx, sumsV_t23, dif_pos k.isLt, ← hacc]; rfl
      · iexact H

/-- One trip of accumulation loop 23: the sums it yields, read off its run, with the trip's triple. -/
def tripV_t24 (gi : Buf (Elt F) ((V d (cV L) (jV L)).loc cc1_scratch2)) (gt : Buf (Elt F) ((V d (cV L) (jV L)).loc cc1_scratch3))
    (k : Fin k1_t24_loop.trips) (acc : FVec F S16 .f32 × FVec F S16 .f32 × FVec F S16 .f32 × FVec F S16 .f32) :
    Σ' (r : FVec F S16 .f32 × FVec F S16 .f32 × FVec F S16 .f32 × FVec F S16 .f32), PLift (slotHeld1 d L gi gt 0 acc
      ⊢ wp frame (wpE (defs₀ (F := F)) Sc.𝒱₀ (V d (cV L) (jV L)) none) Set.univ (k1_t24_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 k acc)
          (fun x => iprop(⌜x = r⌝ ∗ slotHeld1 d L gi gt 0 acc))) := by
  rcases acc with ⟨a22, a23, a24, a25⟩
  refine ⟨?_, ⟨?_⟩⟩
  rotate_left
  · unfold slotHeld1 k1_t24_body
    iintro ⟨Hi, Ht⟩
    sl_exec
    sl_step
    isplitr
    · ipureintro; rfl
    isplitl [Hi] <;> iassumption

/-- The sums after a trip of loop 23. -/
def stepV_t24 (gi : Buf (Elt F) ((V d (cV L) (jV L)).loc cc1_scratch2)) (gt : Buf (Elt F) ((V d (cV L) (jV L)).loc cc1_scratch3))
    (k : Fin k1_t24_loop.trips) (acc : FVec F S16 .f32 × FVec F S16 .f32 × FVec F S16 .f32 × FVec F S16 .f32) : FVec F S16 .f32 × FVec F S16 .f32 × FVec F S16 .f32 × FVec F S16 .f32 := (tripV_t24 d L gi gt k acc).1

/-- The sums before trip `n` of loop 23: the trips' function iterated from the initial sums. -/
def sumsV_t24 (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) : ℕ → FVec F S16 .f32 × FVec F S16 .f32 × FVec F S16 .f32 × FVec F S16 .f32
  | 0 => init
  | n + 1 => if h : n < k1_t24_loop.trips then stepV_t24 d L gi gt ⟨n, h⟩ (sumsV_t24 gi gt init n) else sumsV_t24 gi gt init n

/-- Loop 23's invariant with the carried sums named. -/
@[sl_loop] def loopInvV_t24 (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) :
    LoopInv (M := 𝕄) frame (wpE (defs₀ (F := F)) Sc.𝒱₀ (V d (cV L) (jV L)) none) Set.univ k1_t24_loop.lb k1_t24_loop.ub k1_t24_loop.st k1_t24_ok init
      (k1_t24_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv n acc := iprop(⌜acc = sumsV_t24 d L gi gt init n⌝ ∗ slotHeld1 d L gi gt 0 acc)
  step k acc := by
    iintro ⟨%hacc, H⟩
    iapply ((tripV_t24 d L gi gt k acc).2.down.trans (wp_mono frame _ _ fun x => ?post)) $$ H
    case post =>
      iintro ⟨%hx, H⟩
      isplitr
      · ipureintro
        rw [hx, sumsV_t24, dif_pos k.isLt, ← hacc]; rfl
      · iexact H

/-- One trip of accumulation loop 24: the sums it yields, read off its run, with the trip's triple. -/
def tripV_t25 (gi : Buf (Elt F) ((V d (cV L) (jV L)).loc cc1_scratch2)) (gt : Buf (Elt F) ((V d (cV L) (jV L)).loc cc1_scratch3))
    (k : Fin k1_t25_loop.trips) (acc : FVec F S16 .f32 × FVec F S16 .f32 × FVec F S16 .f32 × FVec F S16 .f32) :
    Σ' (r : FVec F S16 .f32 × FVec F S16 .f32 × FVec F S16 .f32 × FVec F S16 .f32), PLift (slotHeld1 d L gi gt 0 acc
      ⊢ wp frame (wpE (defs₀ (F := F)) Sc.𝒱₀ (V d (cV L) (jV L)) none) Set.univ (k1_t25_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 k acc)
          (fun x => iprop(⌜x = r⌝ ∗ slotHeld1 d L gi gt 0 acc))) := by
  rcases acc with ⟨a22, a23, a24, a25⟩
  refine ⟨?_, ⟨?_⟩⟩
  rotate_left
  · unfold slotHeld1 k1_t25_body
    iintro ⟨Hi, Ht⟩
    sl_exec
    sl_step
    isplitr
    · ipureintro; rfl
    isplitl [Hi] <;> iassumption

/-- The sums after a trip of loop 24. -/
def stepV_t25 (gi : Buf (Elt F) ((V d (cV L) (jV L)).loc cc1_scratch2)) (gt : Buf (Elt F) ((V d (cV L) (jV L)).loc cc1_scratch3))
    (k : Fin k1_t25_loop.trips) (acc : FVec F S16 .f32 × FVec F S16 .f32 × FVec F S16 .f32 × FVec F S16 .f32) : FVec F S16 .f32 × FVec F S16 .f32 × FVec F S16 .f32 × FVec F S16 .f32 := (tripV_t25 d L gi gt k acc).1

/-- The sums before trip `n` of loop 24: the trips' function iterated from the initial sums. -/
def sumsV_t25 (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) : ℕ → FVec F S16 .f32 × FVec F S16 .f32 × FVec F S16 .f32 × FVec F S16 .f32
  | 0 => init
  | n + 1 => if h : n < k1_t25_loop.trips then stepV_t25 d L gi gt ⟨n, h⟩ (sumsV_t25 gi gt init n) else sumsV_t25 gi gt init n

/-- Loop 24's invariant with the carried sums named. -/
@[sl_loop] def loopInvV_t25 (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) :
    LoopInv (M := 𝕄) frame (wpE (defs₀ (F := F)) Sc.𝒱₀ (V d (cV L) (jV L)) none) Set.univ k1_t25_loop.lb k1_t25_loop.ub k1_t25_loop.st k1_t25_ok init
      (k1_t25_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv n acc := iprop(⌜acc = sumsV_t25 d L gi gt init n⌝ ∗ slotHeld1 d L gi gt 0 acc)
  step k acc := by
    iintro ⟨%hacc, H⟩
    iapply ((tripV_t25 d L gi gt k acc).2.down.trans (wp_mono frame _ _ fun x => ?post)) $$ H
    case post =>
      iintro ⟨%hx, H⟩
      isplitr
      · ipureintro
        rw [hx, sumsV_t25, dif_pos k.isLt, ← hacc]; rfl
      · iexact H

/-- One trip of accumulation loop 25: the sums it yields, read off its run, with the trip's triple. -/
def tripV_t26 (gi : Buf (Elt F) ((V d (cV L) (jV L)).loc cc1_scratch2)) (gt : Buf (Elt F) ((V d (cV L) (jV L)).loc cc1_scratch3))
    (k : Fin k1_t26_loop.trips) (acc : FVec F S16 .f32 × FVec F S16 .f32 × FVec F S16 .f32 × FVec F S16 .f32) :
    Σ' (r : FVec F S16 .f32 × FVec F S16 .f32 × FVec F S16 .f32 × FVec F S16 .f32), PLift (slotHeld1 d L gi gt 0 acc
      ⊢ wp frame (wpE (defs₀ (F := F)) Sc.𝒱₀ (V d (cV L) (jV L)) none) Set.univ (k1_t26_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 k acc)
          (fun x => iprop(⌜x = r⌝ ∗ slotHeld1 d L gi gt 0 acc))) := by
  rcases acc with ⟨a22, a23, a24, a25⟩
  refine ⟨?_, ⟨?_⟩⟩
  rotate_left
  · unfold slotHeld1 k1_t26_body
    iintro ⟨Hi, Ht⟩
    sl_exec
    sl_step
    isplitr
    · ipureintro; rfl
    isplitl [Hi] <;> iassumption

/-- The sums after a trip of loop 25. -/
def stepV_t26 (gi : Buf (Elt F) ((V d (cV L) (jV L)).loc cc1_scratch2)) (gt : Buf (Elt F) ((V d (cV L) (jV L)).loc cc1_scratch3))
    (k : Fin k1_t26_loop.trips) (acc : FVec F S16 .f32 × FVec F S16 .f32 × FVec F S16 .f32 × FVec F S16 .f32) : FVec F S16 .f32 × FVec F S16 .f32 × FVec F S16 .f32 × FVec F S16 .f32 := (tripV_t26 d L gi gt k acc).1

/-- The sums before trip `n` of loop 25: the trips' function iterated from the initial sums. -/
def sumsV_t26 (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) : ℕ → FVec F S16 .f32 × FVec F S16 .f32 × FVec F S16 .f32 × FVec F S16 .f32
  | 0 => init
  | n + 1 => if h : n < k1_t26_loop.trips then stepV_t26 d L gi gt ⟨n, h⟩ (sumsV_t26 gi gt init n) else sumsV_t26 gi gt init n

/-- Loop 25's invariant with the carried sums named. -/
@[sl_loop] def loopInvV_t26 (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) :
    LoopInv (M := 𝕄) frame (wpE (defs₀ (F := F)) Sc.𝒱₀ (V d (cV L) (jV L)) none) Set.univ k1_t26_loop.lb k1_t26_loop.ub k1_t26_loop.st k1_t26_ok init
      (k1_t26_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv n acc := iprop(⌜acc = sumsV_t26 d L gi gt init n⌝ ∗ slotHeld1 d L gi gt 0 acc)
  step k acc := by
    iintro ⟨%hacc, H⟩
    iapply ((tripV_t26 d L gi gt k acc).2.down.trans (wp_mono frame _ _ fun x => ?post)) $$ H
    case post =>
      iintro ⟨%hx, H⟩
      isplitr
      · ipureintro
        rw [hx, sumsV_t26, dif_pos k.isLt, ← hacc]; rfl
      · iexact H

/-- One trip of accumulation loop 26: the sums it yields, read off its run, with the trip's triple. -/
def tripV_t27 (gi : Buf (Elt F) ((V d (cV L) (jV L)).loc cc1_scratch2)) (gt : Buf (Elt F) ((V d (cV L) (jV L)).loc cc1_scratch3))
    (k : Fin k1_t27_loop.trips) (acc : FVec F S16 .f32 × FVec F S16 .f32 × FVec F S16 .f32 × FVec F S16 .f32) :
    Σ' (r : FVec F S16 .f32 × FVec F S16 .f32 × FVec F S16 .f32 × FVec F S16 .f32), PLift (slotHeld1 d L gi gt 0 acc
      ⊢ wp frame (wpE (defs₀ (F := F)) Sc.𝒱₀ (V d (cV L) (jV L)) none) Set.univ (k1_t27_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 k acc)
          (fun x => iprop(⌜x = r⌝ ∗ slotHeld1 d L gi gt 0 acc))) := by
  rcases acc with ⟨a22, a23, a24, a25⟩
  refine ⟨?_, ⟨?_⟩⟩
  rotate_left
  · unfold slotHeld1 k1_t27_body
    iintro ⟨Hi, Ht⟩
    sl_exec
    sl_step
    isplitr
    · ipureintro; rfl
    isplitl [Hi] <;> iassumption

/-- The sums after a trip of loop 26. -/
def stepV_t27 (gi : Buf (Elt F) ((V d (cV L) (jV L)).loc cc1_scratch2)) (gt : Buf (Elt F) ((V d (cV L) (jV L)).loc cc1_scratch3))
    (k : Fin k1_t27_loop.trips) (acc : FVec F S16 .f32 × FVec F S16 .f32 × FVec F S16 .f32 × FVec F S16 .f32) : FVec F S16 .f32 × FVec F S16 .f32 × FVec F S16 .f32 × FVec F S16 .f32 := (tripV_t27 d L gi gt k acc).1

/-- The sums before trip `n` of loop 26: the trips' function iterated from the initial sums. -/
def sumsV_t27 (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) : ℕ → FVec F S16 .f32 × FVec F S16 .f32 × FVec F S16 .f32 × FVec F S16 .f32
  | 0 => init
  | n + 1 => if h : n < k1_t27_loop.trips then stepV_t27 d L gi gt ⟨n, h⟩ (sumsV_t27 gi gt init n) else sumsV_t27 gi gt init n

/-- Loop 26's invariant with the carried sums named. -/
@[sl_loop] def loopInvV_t27 (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) :
    LoopInv (M := 𝕄) frame (wpE (defs₀ (F := F)) Sc.𝒱₀ (V d (cV L) (jV L)) none) Set.univ k1_t27_loop.lb k1_t27_loop.ub k1_t27_loop.st k1_t27_ok init
      (k1_t27_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv n acc := iprop(⌜acc = sumsV_t27 d L gi gt init n⌝ ∗ slotHeld1 d L gi gt 0 acc)
  step k acc := by
    iintro ⟨%hacc, H⟩
    iapply ((tripV_t27 d L gi gt k acc).2.down.trans (wp_mono frame _ _ fun x => ?post)) $$ H
    case post =>
      iintro ⟨%hx, H⟩
      isplitr
      · ipureintro
        rw [hx, sumsV_t27, dif_pos k.isLt, ← hacc]; rfl
      · iexact H

/-- One trip of accumulation loop 27: the sums it yields, read off its run, with the trip's triple. -/
def tripV_t28 (gi : Buf (Elt F) ((V d (cV L) (jV L)).loc cc1_scratch2)) (gt : Buf (Elt F) ((V d (cV L) (jV L)).loc cc1_scratch3))
    (k : Fin k1_t28_loop.trips) (acc : FVec F S16 .f32 × FVec F S16 .f32 × FVec F S16 .f32 × FVec F S16 .f32) :
    Σ' (r : FVec F S16 .f32 × FVec F S16 .f32 × FVec F S16 .f32 × FVec F S16 .f32), PLift (slotHeld1 d L gi gt 0 acc
      ⊢ wp frame (wpE (defs₀ (F := F)) Sc.𝒱₀ (V d (cV L) (jV L)) none) Set.univ (k1_t28_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 k acc)
          (fun x => iprop(⌜x = r⌝ ∗ slotHeld1 d L gi gt 0 acc))) := by
  rcases acc with ⟨a22, a23, a24, a25⟩
  refine ⟨?_, ⟨?_⟩⟩
  rotate_left
  · unfold slotHeld1 k1_t28_body
    iintro ⟨Hi, Ht⟩
    sl_exec
    sl_step
    isplitr
    · ipureintro; rfl
    isplitl [Hi] <;> iassumption

/-- The sums after a trip of loop 27. -/
def stepV_t28 (gi : Buf (Elt F) ((V d (cV L) (jV L)).loc cc1_scratch2)) (gt : Buf (Elt F) ((V d (cV L) (jV L)).loc cc1_scratch3))
    (k : Fin k1_t28_loop.trips) (acc : FVec F S16 .f32 × FVec F S16 .f32 × FVec F S16 .f32 × FVec F S16 .f32) : FVec F S16 .f32 × FVec F S16 .f32 × FVec F S16 .f32 × FVec F S16 .f32 := (tripV_t28 d L gi gt k acc).1

/-- The sums before trip `n` of loop 27: the trips' function iterated from the initial sums. -/
def sumsV_t28 (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) : ℕ → FVec F S16 .f32 × FVec F S16 .f32 × FVec F S16 .f32 × FVec F S16 .f32
  | 0 => init
  | n + 1 => if h : n < k1_t28_loop.trips then stepV_t28 d L gi gt ⟨n, h⟩ (sumsV_t28 gi gt init n) else sumsV_t28 gi gt init n

/-- Loop 27's invariant with the carried sums named. -/
@[sl_loop] def loopInvV_t28 (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) :
    LoopInv (M := 𝕄) frame (wpE (defs₀ (F := F)) Sc.𝒱₀ (V d (cV L) (jV L)) none) Set.univ k1_t28_loop.lb k1_t28_loop.ub k1_t28_loop.st k1_t28_ok init
      (k1_t28_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv n acc := iprop(⌜acc = sumsV_t28 d L gi gt init n⌝ ∗ slotHeld1 d L gi gt 0 acc)
  step k acc := by
    iintro ⟨%hacc, H⟩
    iapply ((tripV_t28 d L gi gt k acc).2.down.trans (wp_mono frame _ _ fun x => ?post)) $$ H
    case post =>
      iintro ⟨%hx, H⟩
      isplitr
      · ipureintro
        rw [hx, sumsV_t28, dif_pos k.isLt, ← hacc]; rfl
      · iexact H

/-- One trip of accumulation loop 28: the sums it yields, read off its run, with the trip's triple. -/
def tripV_t29 (gi : Buf (Elt F) ((V d (cV L) (jV L)).loc cc1_scratch2)) (gt : Buf (Elt F) ((V d (cV L) (jV L)).loc cc1_scratch3))
    (k : Fin k1_t29_loop.trips) (acc : FVec F S16 .f32 × FVec F S16 .f32 × FVec F S16 .f32 × FVec F S16 .f32) :
    Σ' (r : FVec F S16 .f32 × FVec F S16 .f32 × FVec F S16 .f32 × FVec F S16 .f32), PLift (slotHeld1 d L gi gt 0 acc
      ⊢ wp frame (wpE (defs₀ (F := F)) Sc.𝒱₀ (V d (cV L) (jV L)) none) Set.univ (k1_t29_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 k acc)
          (fun x => iprop(⌜x = r⌝ ∗ slotHeld1 d L gi gt 0 acc))) := by
  rcases acc with ⟨a22, a23, a24, a25⟩
  refine ⟨?_, ⟨?_⟩⟩
  rotate_left
  · unfold slotHeld1 k1_t29_body
    iintro ⟨Hi, Ht⟩
    sl_exec
    sl_step
    isplitr
    · ipureintro; rfl
    isplitl [Hi] <;> iassumption

/-- The sums after a trip of loop 28. -/
def stepV_t29 (gi : Buf (Elt F) ((V d (cV L) (jV L)).loc cc1_scratch2)) (gt : Buf (Elt F) ((V d (cV L) (jV L)).loc cc1_scratch3))
    (k : Fin k1_t29_loop.trips) (acc : FVec F S16 .f32 × FVec F S16 .f32 × FVec F S16 .f32 × FVec F S16 .f32) : FVec F S16 .f32 × FVec F S16 .f32 × FVec F S16 .f32 × FVec F S16 .f32 := (tripV_t29 d L gi gt k acc).1

/-- The sums before trip `n` of loop 28: the trips' function iterated from the initial sums. -/
def sumsV_t29 (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) : ℕ → FVec F S16 .f32 × FVec F S16 .f32 × FVec F S16 .f32 × FVec F S16 .f32
  | 0 => init
  | n + 1 => if h : n < k1_t29_loop.trips then stepV_t29 d L gi gt ⟨n, h⟩ (sumsV_t29 gi gt init n) else sumsV_t29 gi gt init n

/-- Loop 28's invariant with the carried sums named. -/
@[sl_loop] def loopInvV_t29 (gi : Buf (Elt F) ((V d (cV L) (jV L)).loc cc1_scratch2)) (gt : Buf (Elt F) ((V d (cV L) (jV L)).loc cc1_scratch3))
    (init : FVec F S16 .f32 × FVec F S16 .f32 × FVec F S16 .f32 × FVec F S16 .f32) :
    LoopInv (M := 𝕄) frame (wpE (defs₀ (F := F)) Sc.𝒱₀ (V d (cV L) (jV L)) none) Set.univ k1_t29_loop.lb k1_t29_loop.ub k1_t29_loop.st k1_t29_ok init
      (k1_t29_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1) where
  inv n acc := iprop(⌜acc = sumsV_t29 d L gi gt init n⌝ ∗ slotHeld1 d L gi gt 0 acc)
  step k acc := by
    iintro ⟨%hacc, H⟩
    iapply ((tripV_t29 d L gi gt k acc).2.down.trans (wp_mono frame _ _ fun x => ?post)) $$ H
    case post =>
      iintro ⟨%hx, H⟩
      isplitr
      · ipureintro
        rw [hx, sumsV_t29, dif_pos k.isLt, ← hacc]; rfl
      · iexact H

end Tile

end Cert.KernelIdeal.ScTileV

end
-- ==== Proof.ScTileVCellsI.lean ====
/-
  The two accumulators of the SparseCore kernel's task as a register file. Each is a [7, 2, 16] buffer only ever touched
  at its fourteen cells (k, h, ·) of sixteen lanes. Contents that read, through a view, as `cells w` hold the vector
  `w k h` in cell (k, h); a load of a cell reads its vector, a store to a cell replaces it, and the fourteen stores at
  a row's start leave contents that no longer mention what the buffer held.
-/
import proofs.«210586_g14980845929080_cont_week2b_1062_66_alg».proof.Proof.Gen.KernelIdeal
import Idealize.ShloMosaic.Lib.Writes
import Idealize.ShloMosaic.Lib.WritesUnit
import Idealize.ShloMosaic.Lib.Pipeline.FrameBody
import Idealize.ShloMosaic.Lib.Pipeline.Value
import Idealize.ShloMosaic.Lib.ValueIdx

noncomputable section

namespace Cert.KernelIdeal.ScTile

open Cert.KernelIdeal
open Cert.KernelIdeal.Facts₀ Cert.KernelIdeal.Facts
open Idealize.ShloMosaic Idealize.ShloMosaic.ValueIdx

variable {F : FTy → Type} [FloatOps F]

/-- The register file: cell (k, h) holds the vector `w k h`. -/
def cells (w : Fin 7 → Fin 2 → Vec F S1x1x16 .f32) : Vec F S7x2x16 .f32 :=
  fun y => w (y 0) (y 1) (ix3 (0 : Fin 1) (0 : Fin 1) (y 2))

/-- The register file with cell (k, h) replaced. -/
def upd (w : Fin 7 → Fin 2 → Vec F S1x1x16 .f32) (k : Fin 7) (h : Fin 2) (p : Vec F S1x1x16 .f32) : Fin 7 → Fin 2 → Vec F S1x1x16 .f32 :=
  fun k' h' => if k' = k ∧ h' = h then p else w k' h'

/-- A cell's lane sits in the buffer at (k, h, lane). -/
theorem cells_emb (w : Fin 7 → Fin 2 → Vec F S1x1x16 .f32) (kk hh : ℕ) (hk : kk < 7) (hh' : hh < 2)
    (inb : ∀ a, (![kk, hh, 0] : Fin 3 → ℕ) a + S1x1x16.size a ≤ S7x2x16.size a) (x : S1x1x16.Idx) :
    cells w ((Rect.unit (s := S7x2x16) ![kk, hh, 0] S1x1x16.size inb).emb x) = w ⟨kk, hk⟩ ⟨hh, hh'⟩ x := by
  have x0 : (x 0).val = 0 := by have := (x 0).isLt; change (x 0).val < 1 at this; omega
  have x1 : (x 1).val = 0 := by have := (x 1).isLt; change (x 1).val < 1 at this; omega
  have e0 : ((Rect.unit (s := S7x2x16) ![kk, hh, 0] S1x1x16.size inb).emb x (0 : Fin 3) : Fin 7) = ⟨kk, hk⟩ :=
    Fin.ext (by show kk + 1 * (x 0).val = kk; omega)
  have e1 : ((Rect.unit (s := S7x2x16) ![kk, hh, 0] S1x1x16.size inb).emb x (1 : Fin 3) : Fin 2) = ⟨hh, hh'⟩ :=
    Fin.ext (by show hh + 1 * (x 1).val = hh; omega)
  have e2 : (ix3 (0 : Fin 1) (0 : Fin 1) ((Rect.unit (s := S7x2x16) ![kk, hh, 0] S1x1x16.size inb).emb x (2 : Fin 3)) : S1x1x16.Idx) = x :=
    funext fun a => Fin.ext (by
      match a with
      | ⟨0, _⟩ => show 0 = (x 0).val; omega
      | ⟨1, _⟩ => show 0 = (x 1).val; omega
      | ⟨2, _⟩ => show 0 + 1 * (x 2).val = (x 2).val; omega)
  exact congr (congr (congrArg w e0) e1) e2

/-- A load of cell (k, h) of the register file reads its vector. -/
theorem ld_cells (w : Fin 7 → Fin 2 → Vec F S1x1x16 .f32) (kk hh : ℕ) (hk : kk < 7) (hh' : hh < 2)
    (inb : ∀ a, (![kk, hh, 0] : Fin 3 → ℕ) a + S1x1x16.size a ≤ S7x2x16.size a) :
    View.ld (cells w) (Rect.unit (s := S7x2x16) ![kk, hh, 0] S1x1x16.size inb) = w ⟨kk, hk⟩ ⟨hh, hh'⟩ :=
  funext fun x => cells_emb w kk hh hk hh' inb x

section View
variable {sig : RefSig} {κ : Kind} {sp : Space} (view : View sig κ sp S7x2x16 .f32)

/-- Through a view whose contents read as the register file, the load of a cell reads its vector. -/
theorem readAt_cells (g : view.ty.Contents (Elt F)) (w : Fin 7 → Fin 2 → Vec F S1x1x16 .f32) (hg : view.read (Elt F) g = cells w)
    (kk hh : ℕ) (hk : kk < 7) (hh' : hh < 2) (inb : ∀ a, (![kk, hh, 0] : Fin 3 → ℕ) a + S1x1x16.size a ≤ S7x2x16.size a) :
    view.readAt (Elt F) (Rect.unit (s := S7x2x16) ![kk, hh, 0] S1x1x16.size inb).toLoadRect g = w ⟨kk, hk⟩ ⟨hh, hh'⟩ := by
  show View.ld (view.read (Elt F) g) (Rect.unit (s := S7x2x16) ![kk, hh, 0] S1x1x16.size inb) = _
  rw [hg]; exact ld_cells w kk hh hk hh' inb

/-- A store to cell (k, h) replaces its vector: if the contents read as the register file `w`, after the store
    they read as `w` with that cell replaced. (The earlier stores of a list are part of `g`:
    `writes g (p :: L) = writes (writes g L) [p]`.) -/
theorem read_write_cell (g : view.ty.Contents (Elt F)) (w : Fin 7 → Fin 2 → Vec F S1x1x16 .f32) (hg : view.read (Elt F) g = cells w)
    (kk hh : ℕ) (hk : kk < 7) (hh' : hh < 2) (inb : ∀ a, (![kk, hh, 0] : Fin 3 → ℕ) a + S1x1x16.size a ≤ S7x2x16.size a)
    (p : Vec F S1x1x16 .f32) :
    view.read (Elt F) (view.writes (Elt F) g [⟨Rect.unit (s := S7x2x16) ![kk, hh, 0] S1x1x16.size inb, p⟩])
      = cells (upd w ⟨kk, hk⟩ ⟨hh, hh'⟩ p) := by
  funext y
  by_cases hy : (y 0).val = kk ∧ (y 1).val = hh
  · rw [View.read_writes_cons_unit_of_mem view g inb p [] y (ix3 (0 : Fin 1) (0 : Fin 1) (y 2)) rfl (fun a => by
      match a with
      | ⟨0, _⟩ => show (y 0).val = kk + 0; omega
      | ⟨1, _⟩ => show (y 1).val = hh + 0; omega
      | ⟨2, _⟩ => show (y 2).val = 0 + (y 2).val; omega)]
    unfold cells upd
    rw [if_pos ⟨Fin.ext hy.1, Fin.ext hy.2⟩]
  · have hne : ¬ ((y 0 : Fin 7) = ⟨kk, hk⟩ ∧ (y 1 : Fin 2) = ⟨hh, hh'⟩) := fun h => hy ⟨congrArg Fin.val h.1, congrArg Fin.val h.2⟩
    have hax : ∃ a : Fin 3, (y a).val < (![kk, hh, 0] : Fin 3 → ℕ) a ∨ (![kk, hh, 0] : Fin 3 → ℕ) a + S1x1x16.size a ≤ (y a).val := by
      by_cases h0 : (y 0).val = kk
      · refine ⟨1, ?_⟩
        have h1 : (y 1).val ≠ hh := fun h => hy ⟨h0, h⟩
        show (y 1).val < hh ∨ hh + 1 ≤ (y 1).val
        omega
      · refine ⟨0, ?_⟩
        show (y 0).val < kk ∨ kk + 1 ≤ (y 0).val
        omega
    obtain ⟨a, ha⟩ := hax
    rw [View.read_writes_cons_unit_of_not_mem view g inb p [] y rfl a ha, View.writes_nil, hg]
    unfold cells upd
    exact (congrFun (if_neg hne) _).symm

/-- The fourteen stores at a row's start, the last first. -/
def startL (w : Fin 7 → Fin 2 → Vec F S1x1x16 .f32) : List (View.Piece (Elt F) S7x2x16 .f32) :=
  [⟨Rect.unit (s := S7x2x16) ![6, 1, 0] S1x1x16.size inb_S7x2x16_S1x1x16_6_1_0, w 6 1⟩,
       ⟨Rect.unit (s := S7x2x16) ![6, 0, 0] S1x1x16.size inb_S7x2x16_S1x1x16_6_0_0, w 6 0⟩,
       ⟨Rect.unit (s := S7x2x16) ![5, 1, 0] S1x1x16.size inb_S7x2x16_S1x1x16_5_1_0, w 5 1⟩,
       ⟨Rect.unit (s := S7x2x16) ![5, 0, 0] S1x1x16.size inb_S7x2x16_S1x1x16_5_0_0, w 5 0⟩,
       ⟨Rect.unit (s := S7x2x16) ![4, 1, 0] S1x1x16.size inb_S7x2x16_S1x1x16_4_1_0, w 4 1⟩,
       ⟨Rect.unit (s := S7x2x16) ![4, 0, 0] S1x1x16.size inb_S7x2x16_S1x1x16_4_0_0, w 4 0⟩,
       ⟨Rect.unit (s := S7x2x16) ![3, 1, 0] S1x1x16.size inb_S7x2x16_S1x1x16_3_1_0, w 3 1⟩,
       ⟨Rect.unit (s := S7x2x16) ![3, 0, 0] S1x1x16.size inb_S7x2x16_S1x1x16_3_0_0, w 3 0⟩,
       ⟨Rect.unit (s := S7x2x16) ![2, 1, 0] S1x1x16.size inb_S7x2x16_S1x1x16_2_1_0, w 2 1⟩,
       ⟨Rect.unit (s := S7x2x16) ![2, 0, 0] S1x1x16.size inb_S7x2x16_S1x1x16_2_0_0, w 2 0⟩,
       ⟨Rect.unit (s := S7x2x16) ![1, 1, 0] S1x1x16.size inb_S7x2x16_S1x1x16_1_1_0, w 1 1⟩,
       ⟨Rect.unit (s := S7x2x16) ![1, 0, 0] S1x1x16.size inb_S7x2x16_S1x1x16_1_0_0, w 1 0⟩,
       ⟨Rect.unit (s := S7x2x16) ![0, 1, 0] S1x1x16.size inb_S7x2x16_S1x1x16_0_1_0, w 0 1⟩,
       ⟨Rect.unit (s := S7x2x16) ![0, 0, 0] S1x1x16.size inb_S7x2x16_S1x1x16_0_0_0, w 0 0⟩]

/-- They cover the buffer. -/
theorem cover_startL (w : Fin 7 → Fin 2 → Vec F S1x1x16 .f32) (y : S7x2x16.Idx) : ∃ p ∈ startL w, y ∈ p.1.set :=
  View.cover_of_tiled (startL w) S1x1x16.size (by rfl) y

/-- THE ROW'S START: after the fourteen stores to the fourteen cells (in the program's order, the last store first in
    the list), whatever the buffer held, the contents read as the register file of the stored vectors. -/
theorem read_writes_rowStart (f : view.ty.Contents (Elt F)) (w : Fin 7 → Fin 2 → Vec F S1x1x16 .f32) :
    view.read (Elt F) (view.writes (Elt F) f
      [⟨Rect.unit (s := S7x2x16) ![6, 1, 0] S1x1x16.size inb_S7x2x16_S1x1x16_6_1_0, w 6 1⟩,
       ⟨Rect.unit (s := S7x2x16) ![6, 0, 0] S1x1x16.size inb_S7x2x16_S1x1x16_6_0_0, w 6 0⟩,
       ⟨Rect.unit (s := S7x2x16) ![5, 1, 0] S1x1x16.size inb_S7x2x16_S1x1x16_5_1_0, w 5 1⟩,
       ⟨Rect.unit (s := S7x2x16) ![5, 0, 0] S1x1x16.size inb_S7x2x16_S1x1x16_5_0_0, w 5 0⟩,
       ⟨Rect.unit (s := S7x2x16) ![4, 1, 0] S1x1x16.size inb_S7x2x16_S1x1x16_4_1_0, w 4 1⟩,
       ⟨Rect.unit (s := S7x2x16) ![4, 0, 0] S1x1x16.size inb_S7x2x16_S1x1x16_4_0_0, w 4 0⟩,
       ⟨Rect.unit (s := S7x2x16) ![3, 1, 0] S1x1x16.size inb_S7x2x16_S1x1x16_3_1_0, w 3 1⟩,
       ⟨Rect.unit (s := S7x2x16) ![3, 0, 0] S1x1x16.size inb_S7x2x16_S1x1x16_3_0_0, w 3 0⟩,
       ⟨Rect.unit (s := S7x2x16) ![2, 1, 0] S1x1x16.size inb_S7x2x16_S1x1x16_2_1_0, w 2 1⟩,
       ⟨Rect.unit (s := S7x2x16) ![2, 0, 0] S1x1x16.size inb_S7x2x16_S1x1x16_2_0_0, w 2 0⟩,
       ⟨Rect.unit (s := S7x2x16) ![1, 1, 0] S1x1x16.size inb_S7x2x16_S1x1x16_1_1_0, w 1 1⟩,
       ⟨Rect.unit (s := S7x2x16) ![1, 0, 0] S1x1x16.size inb_S7x2x16_S1x1x16_1_0_0, w 1 0⟩,
       ⟨Rect.unit (s := S7x2x16) ![0, 1, 0] S1x1x16.size inb_S7x2x16_S1x1x16_0_1_0, w 0 1⟩,
       ⟨Rect.unit (s := S7x2x16) ![0, 0, 0] S1x1x16.size inb_S7x2x16_S1x1x16_0_0_0, w 0 0⟩])
      = cells w := by
  show view.read (Elt F) (view.writes (Elt F) f (startL w)) = cells w
  refine (View.read_writes_eq_canon view f _ (cover_startL w)).trans ?_
  funext y
  refine View.canon_apply_of_pieces (cells w) (startL w) ?_ y (cover_startL w y)
  intro pc hpc x
  unfold startL at hpc
  simp only [List.mem_cons, List.not_mem_nil, or_false] at hpc
  rcases hpc with rfl | rfl | rfl | rfl | rfl | rfl | rfl | rfl | rfl | rfl | rfl | rfl | rfl | rfl
  · exact (cells_emb w 6 1 (by decide) (by decide) inb_S7x2x16_S1x1x16_6_1_0 x).symm
  · exact (cells_emb w 6 0 (by decide) (by decide) inb_S7x2x16_S1x1x16_6_0_0 x).symm
  · exact (cells_emb w 5 1 (by decide) (by decide) inb_S7x2x16_S1x1x16_5_1_0 x).symm
  · exact (cells_emb w 5 0 (by decide) (by decide) inb_S7x2x16_S1x1x16_5_0_0 x).symm
  · exact (cells_emb w 4 1 (by decide) (by decide) inb_S7x2x16_S1x1x16_4_1_0 x).symm
  · exact (cells_emb w 4 0 (by decide) (by decide) inb_S7x2x16_S1x1x16_4_0_0 x).symm
  · exact (cells_emb w 3 1 (by decide) (by decide) inb_S7x2x16_S1x1x16_3_1_0 x).symm
  · exact (cells_emb w 3 0 (by decide) (by decide) inb_S7x2x16_S1x1x16_3_0_0 x).symm
  · exact (cells_emb w 2 1 (by decide) (by decide) inb_S7x2x16_S1x1x16_2_1_0 x).symm
  · exact (cells_emb w 2 0 (by decide) (by decide) inb_S7x2x16_S1x1x16_2_0_0 x).symm
  · exact (cells_emb w 1 1 (by decide) (by decide) inb_S7x2x16_S1x1x16_1_1_0 x).symm
  · exact (cells_emb w 1 0 (by decide) (by decide) inb_S7x2x16_S1x1x16_1_0_0 x).symm
  · exact (cells_emb w 0 1 (by decide) (by decide) inb_S7x2x16_S1x1x16_0_1_0 x).symm
  · exact (cells_emb w 0 0 (by decide) (by decide) inb_S7x2x16_S1x1x16_0_0_0 x).symm

end View

end Cert.KernelIdeal.ScTile

end
-- ==== Proof.ScTileVCells2I.lean ====
/-
  A guarded region's effect on an accumulator, as a register-file step: under the region's flag the two cells of lane
  group kk are replaced, otherwise nothing changes.
-/
import proofs.«210586_g14980845929080_cont_week2b_1062_66_alg».proof.Proof.ScTileVCellsI

noncomputable section

namespace Cert.KernelIdeal.ScTile

open Cert.KernelIdeal
open Cert.KernelIdeal.Facts₀ Cert.KernelIdeal.Facts
open Idealize.ShloMosaic Idealize.ShloMosaic.ValueIdx

variable {F : FTy → Type} [FloatOps F]

/-- The replaced cell reads the new vector, -/
theorem upd_same (w : Fin 7 → Fin 2 → Vec F S1x1x16 .f32) (k : Fin 7) (h : Fin 2) (p : Vec F S1x1x16 .f32) :
    upd w k h p k h = p := by
  unfold upd; rw [if_pos ⟨rfl, rfl⟩]
/-- every other cell the old one. -/
theorem upd_ne (w : Fin 7 → Fin 2 → Vec F S1x1x16 .f32) (k k' : Fin 7) (h h' : Fin 2) (p : Vec F S1x1x16 .f32)
    (hne : k' ≠ k ∨ h' ≠ h) : upd w k h p k' h' = w k' h' := by
  unfold upd
  rw [if_neg (fun e => hne.elim (fun a => a e.1) (fun a => a e.2))]

/-- The register file after a guarded region on lane group k: its two cells replaced under the flag. -/
def regionUpd (flag : Prop) [Decidable flag] (w : Fin 7 → Fin 2 → Vec F S1x1x16 .f32) (k : Fin 7) (p0 p1 : Vec F S1x1x16 .f32) :
    Fin 7 → Fin 2 → Vec F S1x1x16 .f32 :=
  if flag then upd (upd w k 0 p0) k 1 p1 else w

theorem regionUpd_lo (flag : Prop) [Decidable flag] (w : Fin 7 → Fin 2 → Vec F S1x1x16 .f32) (k : Fin 7) (p0 p1 : Vec F S1x1x16 .f32) :
    regionUpd flag w k p0 p1 k 0 = if flag then p0 else w k 0 := by
  unfold regionUpd
  by_cases hf : flag
  · rw [if_pos hf, if_pos hf, upd_ne _ _ _ _ _ _ (Or.inr (by decide)), upd_same]
  · rw [if_neg hf, if_neg hf]
theorem regionUpd_hi (flag : Prop) [Decidable flag] (w : Fin 7 → Fin 2 → Vec F S1x1x16 .f32) (k : Fin 7) (p0 p1 : Vec F S1x1x16 .f32) :
    regionUpd flag w k p0 p1 k 1 = if flag then p1 else w k 1 := by
  unfold regionUpd
  by_cases hf : flag
  · rw [if_pos hf, if_pos hf, upd_same]
  · rw [if_neg hf, if_neg hf]
theorem regionUpd_other (flag : Prop) [Decidable flag] (w : Fin 7 → Fin 2 → Vec F S1x1x16 .f32) (k k' : Fin 7) (h : Fin 2) (p0 p1 : Vec F S1x1x16 .f32)
    (hne : k' ≠ k) : regionUpd flag w k p0 p1 k' h = w k' h := by
  unfold regionUpd
  by_cases hf : flag
  · rw [if_pos hf, upd_ne _ _ _ _ _ _ (Or.inl hne), upd_ne _ _ _ _ _ _ (Or.inl hne)]
  · rw [if_neg hf]

section View
variable {sig : RefSig} {κ : Kind} {sp : Space} (view : View sig κ sp S7x2x16 .f32)

/-- THE REGION'S EFFECT: if the contents entering the region read as the register file `w`, the contents it leaves —
    under the flag the two stores to cells (kk, 0) and (kk, 1), the second last; otherwise the contents unchanged — read
    as `w` with those two cells replaced under the flag. -/
theorem read_region (c : view.ty.Contents (Elt F)) (w : Fin 7 → Fin 2 → Vec F S1x1x16 .f32) (hc : view.read (Elt F) c = cells w)
    (flag : Prop) [Decidable flag] (kk : ℕ) (hk : kk < 7)
    (inb0 : ∀ a, (![kk, 0, 0] : Fin 3 → ℕ) a + S1x1x16.size a ≤ S7x2x16.size a)
    (inb1 : ∀ a, (![kk, 1, 0] : Fin 3 → ℕ) a + S1x1x16.size a ≤ S7x2x16.size a)
    (p0 p1 : Vec F S1x1x16 .f32) :
    view.read (Elt F) (if flag then view.writes (Elt F) c
        [⟨Rect.unit (s := S7x2x16) ![kk, 1, 0] S1x1x16.size inb1, p1⟩, ⟨Rect.unit (s := S7x2x16) ![kk, 0, 0] S1x1x16.size inb0, p0⟩] else c)
      = cells (regionUpd flag w ⟨kk, hk⟩ p0 p1) := by
  unfold regionUpd
  by_cases hf : flag
  · rw [if_pos hf, if_pos hf]
    have h0 := read_write_cell view c w hc kk 0 hk (by decide) inb0 p0
    exact read_write_cell view (view.writes (Elt F) c [⟨Rect.unit (s := S7x2x16) ![kk, 0, 0] S1x1x16.size inb0, p0⟩]) _ h0 kk 1 hk (by decide) inb1 p1
  · rw [if_neg hf, if_neg hf]; exact hc

/-- The region's loads of the two cells it then rewrites read the register file's vectors. -/
theorem readAt_region (c : view.ty.Contents (Elt F)) (w : Fin 7 → Fin 2 → Vec F S1x1x16 .f32) (hc : view.read (Elt F) c = cells w)
    (kk : ℕ) (hk : kk < 7)
    (inb0 : ∀ a, (![kk, 0, 0] : Fin 3 → ℕ) a + S1x1x16.size a ≤ S7x2x16.size a)
    (inb1 : ∀ a, (![kk, 1, 0] : Fin 3 → ℕ) a + S1x1x16.size a ≤ S7x2x16.size a) :
    view.readAt (Elt F) (Rect.unit (s := S7x2x16) ![kk, 0, 0] S1x1x16.size inb0).toLoadRect c = w ⟨kk, hk⟩ 0
    ∧ view.readAt (Elt F) (Rect.unit (s := S7x2x16) ![kk, 1, 0] S1x1x16.size inb1).toLoadRect c = w ⟨kk, hk⟩ 1 :=
  ⟨readAt_cells view c w hc kk 0 hk (by decide) inb0, readAt_cells view c w hc kk 1 hk (by decide) inb1⟩

end View

end Cert.KernelIdeal.ScTile

end
-- ==== Proof.ScTileVAccI.lean ====
/-
  The two accumulators held as register files: the buffers at some contents that read as the files. And the program's
  two shape casts between a cell and sixteen lanes, for any float instance.
-/
import proofs.«210586_g14980845929080_cont_week2b_1062_66_alg».proof.Proof.ScTileVBaseI
import proofs.«210586_g14980845929080_cont_week2b_1062_66_alg».proof.Proof.ScTileVCells2I

noncomputable section

namespace Cert.KernelIdeal.ScTileV

open Cert.KernelIdeal.ScTile
open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ Sc.UU ℕ
local notation "b5V" => (Memref.whole Cert.KernelIdeal.cc1_scratch5 : Memref Cert.KernelIdeal.sig Kind.scVector Space.vmem Cert.KernelIdeal.S7x2x16 EltTy.f32)
local notation "b6V" => (Memref.whole Cert.KernelIdeal.cc1_scratch6 : Memref Cert.KernelIdeal.sig Kind.scVector Space.vmem Cert.KernelIdeal.S7x2x16 EltTy.f32)

/-- A cell read as sixteen lanes, and sixteen lanes stored as a cell: the program's two shape casts. -/
def toLanesF (v : Vec F S1x1x16 .f32) : FVec F S16 .f32 := shapeCast S16 v shapeCasts_S1x1x16_S16
def toCellF (v : FVec F S16 .f32) : Vec F S1x1x16 .f32 := shapeCast S1x1x16 v shapeCasts_S16_S1x1x16

/-- The accumulation loops' initial sums from lane group `kk`'s cells of the two files. -/
def initOf (w5 w6 : Fin 7 → Fin 2 → Vec F S1x1x16 .f32) (kk : Fin 7) : FVec F S16 .f32 × FVec F S16 .f32 × FVec F S16 .f32 × FVec F S16 .f32 :=
  (toLanesF (w5 kk 0), toLanesF (w5 kk 1), toLanesF (w6 kk 0), toLanesF (w6 kk 1))

/-- The two accumulators held as the register files `w5` (squared distances) and `w6` (largest absolute values). -/
def accHeld (d : Dev nD) (L : grid1.Coords) (w5 w6 : Fin 7 → Fin 2 → Vec F S1x1x16 .f32) : sProp 𝕄 :=
  iprop(∃ (c5 : Buf (Elt F) ((V d (cV L) (jV L)).loc cc1_scratch5)) (c6 : Buf (Elt F) ((V d (cV L) (jV L)).loc cc1_scratch6)),
    ((b5V).view.loc (V d (cV L) (jV L)) ↦{fullShare} c5) ∗ ((b6V).view.loc (V d (cV L) (jV L)) ↦{fullShare} c6)
      ∗ ⌜(b5V).view.read (Elt F) c5 = cells w5⌝ ∗ ⌜(b6V).view.read (Elt F) c6 = cells w6⌝)

/-- A region's effect on the two files, with the loop's result `S`. -/
def filesUpd (flag : Prop) [Decidable flag] (w5 w6 : Fin 7 → Fin 2 → Vec F S1x1x16 .f32) (kk : Fin 7)
    (S : FVec F S16 .f32 × FVec F S16 .f32 × FVec F S16 .f32 × FVec F S16 .f32) :
    (Fin 7 → Fin 2 → Vec F S1x1x16 .f32) × (Fin 7 → Fin 2 → Vec F S1x1x16 .f32) :=
  (regionUpd flag w5 kk (toCellF S.1) (toCellF S.2.1), regionUpd flag w6 kk (toCellF S.2.2.1) (toCellF S.2.2.2))

end Cert.KernelIdeal.ScTileV

end
-- ==== Proof.ScTileVP91NI.lean ====
/-
  The first channel group's part of a row on the accumulators' register files: the last zero store, the first slot's two
  waits, and the seven lane groups' guarded regions, each a step of the files.
-/
import proofs.«210586_g14980845929080_cont_week2b_1062_66_alg».proof.Proof.ScTileVLoop2I
import proofs.«210586_g14980845929080_cont_week2b_1062_66_alg».proof.Proof.ScTileVAccI
import proofs.«210586_g14980845929080_cont_week2b_1062_66_alg».proof.Proof.Gen.KernelIdeal.Skeleton
import Idealize.ShloMosaic.Lib.Tactic

set_option warn.classDefReducibility false

noncomputable section

namespace Cert.KernelIdeal.ScTileV

open Cert.KernelIdeal.ScTile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ Sc.UU ℕ

local notation "a0V" => (Memref.whole Cert.KernelIdeal.main_arg0_scv : Memref Cert.KernelIdeal.sig Kind.scVector Space.hbm Cert.KernelIdeal.S8x192x224x224 EltTy.f32)
local notation "a1V" => (Memref.whole Cert.KernelIdeal.main_arg1_scv : Memref Cert.KernelIdeal.sig Kind.scVector Space.hbm Cert.KernelIdeal.S8x192x224x224 EltTy.f32)
local notation "mkV" => (Memref.whole Cert.KernelIdeal.main_v0_scv : Memref Cert.KernelIdeal.sig Kind.scVector Space.hbm Cert.KernelIdeal.S8x224x256 EltTy.f32)
local notation "ptV" => (Memref.whole Cert.KernelIdeal.main_v1_scv : Memref Cert.KernelIdeal.sig Kind.scVector Space.hbm Cert.KernelIdeal.S32x32 EltTy.f32)
local notation "b0V" => (Memref.whole Cert.KernelIdeal.cc1_scratch0 : Memref Cert.KernelIdeal.sig Kind.scVector Space.vmem Cert.KernelIdeal.S48x224 EltTy.f32)
local notation "b1V" => (Memref.whole Cert.KernelIdeal.cc1_scratch1 : Memref Cert.KernelIdeal.sig Kind.scVector Space.vmem Cert.KernelIdeal.S48x224 EltTy.f32)
local notation "b2V" => (Memref.whole Cert.KernelIdeal.cc1_scratch2 : Memref Cert.KernelIdeal.sig Kind.scVector Space.vmem Cert.KernelIdeal.S48x224 EltTy.f32)
local notation "b3V" => (Memref.whole Cert.KernelIdeal.cc1_scratch3 : Memref Cert.KernelIdeal.sig Kind.scVector Space.vmem Cert.KernelIdeal.S48x224 EltTy.f32)
local notation "b4V" => (Memref.whole Cert.KernelIdeal.cc1_scratch4 : Memref Cert.KernelIdeal.sig Kind.scVector Space.vmem Cert.KernelIdeal.S8x16x256 EltTy.f32)
local notation "b5V" => (Memref.whole Cert.KernelIdeal.cc1_scratch5 : Memref Cert.KernelIdeal.sig Kind.scVector Space.vmem Cert.KernelIdeal.S7x2x16 EltTy.f32)
local notation "b6V" => (Memref.whole Cert.KernelIdeal.cc1_scratch6 : Memref Cert.KernelIdeal.sig Kind.scVector Space.vmem Cert.KernelIdeal.S7x2x16 EltTy.f32)
local notation "b7V" => (Memref.whole Cert.KernelIdeal.cc1_scratch7 : Memref Cert.KernelIdeal.sig Kind.scVector Space.vmem Cert.KernelIdeal.S32 EltTy.f32)

variable [FloatOps F]

section Tile

variable (X0 : (d : Dev nD) → Buf (Elt F) (a0Loc d)) (X1 : (d : Dev nD) → Buf (Elt F) (a1Loc d))
  (M : (d : Dev nD) → Buf (Elt F) (mkLoc d)) (R0 : (d : Dev nD) → Buf (Elt F) (ptLoc d))
variable (d : Dev nD) (L : grid1.Coords)

/-- A part's state between guarded regions: the two accumulators held as register files, one slot, what the task owes. -/
def cutFA (S : sProp 𝕄) (d : Dev nD) (L : grid1.Coords) (O : CellTallies nD τ sig (HIx 1)) (Wx : Waits sig (HIx 1))
    (st : (Fin 7 → Fin 2 → Vec F S1x1x16 .f32) × (Fin 7 → Fin 2 → Vec F S1x1x16 .f32)) : sProp 𝕄 :=
  iprop(Transfers.MayWaits (V d (cV L) (jV L)) (none : HIx 1) O ∗ accHeld d L st.1 st.2 ∗ S ∗ owes (V d (cV L) (jV L)) O Wx)

/-- A conditional whose else-region is the rest of the block, its two regions reaching the rest from two states. -/
theorem ite_cutA {β : Type} {c : Prop} [Decidable c] (d : Dev nD) (L : grid1.Coords)
    {T J : Prog (TpuEff nD τ sig (Elt F) Λ₀ (.scVector (cV L) (jV L))) β} {Q : β → sProp 𝕄} {P : sProp 𝕄} (Rt Re : sProp 𝕄)
    (h1 : c → ∀ j : Prog (TpuEff nD τ sig (Elt F) Λ₀ (.scVector (cV L) (jV L))) β, j = J →
      (Rt ⊢ wp frame (wpE (defs₀ (F := F)) Sc.𝒱₀ (V d (cV L) (jV L)) none) Set.univ j Q) →
      Entails' P (wp frame (wpE (defs₀ (F := F)) Sc.𝒱₀ (V d (cV L) (jV L)) none) Set.univ T Q))
    (h2 : ¬c → Entails' P Re)
    (h3 : (if c then Rt else Re) ⊢ wp frame (wpE (defs₀ (F := F)) Sc.𝒱₀ (V d (cV L) (jV L)) none) Set.univ J Q) :
    Entails' P (wp frame (wpE (defs₀ (F := F)) Sc.𝒱₀ (V d (cV L) (jV L)) none) Set.univ (if c then T else J) Q) := by
  by_cases hc : c
  · rw [if_pos hc]; rw [if_pos hc] at h3; exact h1 hc J rfl h3
  · rw [if_neg hc]; rw [if_neg hc] at h3; exact (show P ⊢ Re from h2 hc).trans h3

omit [FloatOps F] in
/-- A buffer's contents, named. -/
theorem pts_nameA {ℓ : Loc nD τ sig} (q : PosShare TreeShare) (g : Buf (Elt F) ℓ) :
    (ℓ ↦{q} g : sProp 𝕄) ⊢ iprop(∃ c, ⌜c = g⌝ ∗ ℓ ↦{q} c) := by
  iintro H; iexists g; isplitr; · ipureintro; rfl
  iexact H

/-- A region not taken leaves the files. -/
theorem filesUpd_negA {flag : Prop} [Decidable flag] (h : ¬flag) (w5 w6 : Fin 7 → Fin 2 → Vec F S1x1x16 .f32) (kk : Fin 7)
    (S : FVec F S16 .f32 × FVec F S16 .f32 × FVec F S16 .f32 × FVec F S16 .f32) : filesUpd flag w5 w6 kk S = (w5, w6) := by
  unfold filesUpd regionUpd; rw [if_neg h, if_neg h]

theorem filesUpd_negA1 {flag : Prop} [Decidable flag] (h : ¬flag) (w5 w6 : Fin 7 → Fin 2 → Vec F S1x1x16 .f32) (kk : Fin 7)
    (S : FVec F S16 .f32 × FVec F S16 .f32 × FVec F S16 .f32 × FVec F S16 .f32) : (filesUpd flag w5 w6 kk S).1 = w5 := by
  rw [filesUpd_negA h]
theorem filesUpd_negA2 {flag : Prop} [Decidable flag] (h : ¬flag) (w5 w6 : Fin 7 → Fin 2 → Vec F S1x1x16 .f32) (kk : Fin 7)
    (S : FVec F S16 .f32 × FVec F S16 .f32 × FVec F S16 .f32 × FVec F S16 .f32) : (filesUpd flag w5 w6 kk S).2 = w6 := by
  rw [filesUpd_negA h]

/-- A region taken: the contents its four stores leave read as the stepped files. The loop's initial lanes are the loads
    `a0 … a3` of the lane group's four cells. -/
theorem step_posA (c5 : Buf (Elt F) ((V d (cV L) (jV L)).loc cc1_scratch5)) (c6 : Buf (Elt F) ((V d (cV L) (jV L)).loc cc1_scratch6))
    (w5 w6 : Fin 7 → Fin 2 → Vec F S1x1x16 .f32)
    (h5 : (b5V).view.read (Elt F) c5 = cells w5) (h6 : (b6V).view.read (Elt F) c6 = cells w6)
    (flag : Prop) [Decidable flag] (hc : flag)
    (Sf : FVec F S16 .f32 × FVec F S16 .f32 × FVec F S16 .f32 × FVec F S16 .f32 → FVec F S16 .f32 × FVec F S16 .f32 × FVec F S16 .f32 × FVec F S16 .f32)
    (kk : ℕ) (hk : kk < 7)
    (inb0 : ∀ a, (![kk, 0, 0] : Fin 3 → ℕ) a + S1x1x16.size a ≤ S7x2x16.size a)
    (inb1 : ∀ a, (![kk, 1, 0] : Fin 3 → ℕ) a + S1x1x16.size a ≤ S7x2x16.size a)
    (a0 a1 a2 a3 : Vec F S1x1x16 .f32) (e0 : a0 = w5 ⟨kk, hk⟩ 0) (e1 : a1 = w5 ⟨kk, hk⟩ 1) (e2 : a2 = w6 ⟨kk, hk⟩ 0) (e3 : a3 = w6 ⟨kk, hk⟩ 1) :
    (b5V).view.read (Elt F) ((b5V).view.writes (Elt F) c5
        [⟨Rect.unit (s := S7x2x16) ![kk, 1, 0] S1x1x16.size inb1, toCellF (Sf (toLanesF a0, toLanesF a1, toLanesF a2, toLanesF a3)).2.1⟩,
         ⟨Rect.unit (s := S7x2x16) ![kk, 0, 0] S1x1x16.size inb0, toCellF (Sf (toLanesF a0, toLanesF a1, toLanesF a2, toLanesF a3)).1⟩])
      = cells (filesUpd flag w5 w6 ⟨kk, hk⟩ (Sf (initOf w5 w6 ⟨kk, hk⟩))).1
    ∧ (b6V).view.read (Elt F) ((b6V).view.writes (Elt F) c6
        [⟨Rect.unit (s := S7x2x16) ![kk, 1, 0] S1x1x16.size inb1, toCellF (Sf (toLanesF a0, toLanesF a1, toLanesF a2, toLanesF a3)).2.2.2⟩,
         ⟨Rect.unit (s := S7x2x16) ![kk, 0, 0] S1x1x16.size inb0, toCellF (Sf (toLanesF a0, toLanesF a1, toLanesF a2, toLanesF a3)).2.2.1⟩])
      = cells (filesUpd flag w5 w6 ⟨kk, hk⟩ (Sf (initOf w5 w6 ⟨kk, hk⟩))).2 := by
  subst e0 e1 e2 e3
  unfold filesUpd initOf
  constructor
  · have h := read_region (b5V).view c5 w5 h5 flag kk hk inb0 inb1
      (toCellF (Sf (toLanesF (w5 ⟨kk, hk⟩ 0), toLanesF (w5 ⟨kk, hk⟩ 1), toLanesF (w6 ⟨kk, hk⟩ 0), toLanesF (w6 ⟨kk, hk⟩ 1))).1)
      (toCellF (Sf (toLanesF (w5 ⟨kk, hk⟩ 0), toLanesF (w5 ⟨kk, hk⟩ 1), toLanesF (w6 ⟨kk, hk⟩ 0), toLanesF (w6 ⟨kk, hk⟩ 1))).2.1)
    rw [if_pos hc] at h; exact h
  · have h := read_region (b6V).view c6 w6 h6 flag kk hk inb0 inb1
      (toCellF (Sf (toLanesF (w5 ⟨kk, hk⟩ 0), toLanesF (w5 ⟨kk, hk⟩ 1), toLanesF (w6 ⟨kk, hk⟩ 0), toLanesF (w6 ⟨kk, hk⟩ 1))).2.2.1)
      (toCellF (Sf (toLanesF (w5 ⟨kk, hk⟩ 0), toLanesF (w5 ⟨kk, hk⟩ 1), toLanesF (w6 ⟨kk, hk⟩ 0), toLanesF (w6 ⟨kk, hk⟩ 1))).2.2.2)
    rw [if_pos hc] at h; exact h

/-! ## The files after each region of the part -/

/-- The files entering the regions: the second accumulator's last cell zeroed. -/
def f91_0 (w5 w6 : Fin 7 → Fin 2 → Vec F S1x1x16 .f32) (v24 : FVec F S16 .f32) : (Fin 7 → Fin 2 → Vec F S1x1x16 .f32) × (Fin 7 → Fin 2 → Vec F S1x1x16 .f32) :=
  (w5, upd w6 6 1 (k1_pay764 v24))
/-- The files after lane group 0's region. -/
def f91_1 (g0 : Buf (Elt F) ((V d (cV L) (jV L)).loc cc1_scratch0)) (g1 : Buf (Elt F) ((V d (cV L) (jV L)).loc cc1_scratch1))
    (w5 w6 : Fin 7 → Fin 2 → Vec F S1x1x16 .f32) (v24 : FVec F S16 .f32) (v87 : BitVec 1) :
    (Fin 7 → Fin 2 → Vec F S1x1x16 .f32) × (Fin 7 → Fin 2 → Vec F S1x1x16 .f32) :=
  filesUpd ((Scalar.cmpi .ne (Scalar.extui v87) 0#32) = 1#1) (f91_0 w5 w6 v24).1 (f91_0 w5 w6 v24).2 0
    (sumsV_t2 d L g0 g1 (initOf (f91_0 w5 w6 v24).1 (f91_0 w5 w6 v24).2 0) (Scf.trips k1_t2_loop.lb k1_t2_loop.ub k1_t2_loop.st))
/-- The files after lane group 1's region. -/
def f91_2 (g0 : Buf (Elt F) ((V d (cV L) (jV L)).loc cc1_scratch0)) (g1 : Buf (Elt F) ((V d (cV L) (jV L)).loc cc1_scratch1))
    (w5 w6 : Fin 7 → Fin 2 → Vec F S1x1x16 .f32) (v24 : FVec F S16 .f32) (v87 v90 : BitVec 1) :
    (Fin 7 → Fin 2 → Vec F S1x1x16 .f32) × (Fin 7 → Fin 2 → Vec F S1x1x16 .f32) :=
  filesUpd ((Scalar.cmpi .ne (Scalar.extui v90) 0#32) = 1#1) (f91_1 d L g0 g1 w5 w6 v24 v87).1 (f91_1 d L g0 g1 w5 w6 v24 v87).2 1
    (sumsV_t3 d L g0 g1 (initOf (f91_1 d L g0 g1 w5 w6 v24 v87).1 (f91_1 d L g0 g1 w5 w6 v24 v87).2 1) (Scf.trips k1_t3_loop.lb k1_t3_loop.ub k1_t3_loop.st))
/-- The files after lane group 2's region. -/
def f91_3 (g0 : Buf (Elt F) ((V d (cV L) (jV L)).loc cc1_scratch0)) (g1 : Buf (Elt F) ((V d (cV L) (jV L)).loc cc1_scratch1))
    (w5 w6 : Fin 7 → Fin 2 → Vec F S1x1x16 .f32) (v24 : FVec F S16 .f32) (v87 v90 v93 : BitVec 1) :
    (Fin 7 → Fin 2 → Vec F S1x1x16 .f32) × (Fin 7 → Fin 2 → Vec F S1x1x16 .f32) :=
  filesUpd ((Scalar.cmpi .ne (Scalar.extui v93) 0#32) = 1#1) (f91_2 d L g0 g1 w5 w6 v24 v87 v90).1 (f91_2 d L g0 g1 w5 w6 v24 v87 v90).2 2
    (sumsV_t4 d L g0 g1 (initOf (f91_2 d L g0 g1 w5 w6 v24 v87 v90).1 (f91_2 d L g0 g1 w5 w6 v24 v87 v90).2 2) (Scf.trips k1_t4_loop.lb k1_t4_loop.ub k1_t4_loop.st))
/-- The files after lane group 3's region. -/
def f91_4 (g0 : Buf (Elt F) ((V d (cV L) (jV L)).loc cc1_scratch0)) (g1 : Buf (Elt F) ((V d (cV L) (jV L)).loc cc1_scratch1))
    (w5 w6 : Fin 7 → Fin 2 → Vec F S1x1x16 .f32) (v24 : FVec F S16 .f32) (v87 v90 v93 v96 : BitVec 1) :
    (Fin 7 → Fin 2 → Vec F S1x1x16 .f32) × (Fin 7 → Fin 2 → Vec F S1x1x16 .f32) :=
  filesUpd ((Scalar.cmpi .ne (Scalar.extui v96) 0#32) = 1#1) (f91_3 d L g0 g1 w5 w6 v24 v87 v90 v93).1 (f91_3 d L g0 g1 w5 w6 v24 v87 v90 v93).2 3
    (sumsV_t5 d L g0 g1 (initOf (f91_3 d L g0 g1 w5 w6 v24 v87 v90 v93).1 (f91_3 d L g0 g1 w5 w6 v24 v87 v90 v93).2 3) (Scf.trips k1_t5_loop.lb k1_t5_loop.ub k1_t5_loop.st))
/-- The files after lane group 4's region. -/
def f91_5 (g0 : Buf (Elt F) ((V d (cV L) (jV L)).loc cc1_scratch0)) (g1 : Buf (Elt F) ((V d (cV L) (jV L)).loc cc1_scratch1))
    (w5 w6 : Fin 7 → Fin 2 → Vec F S1x1x16 .f32) (v24 : FVec F S16 .f32) (v87 v90 v93 v96 v99 : BitVec 1) :
    (Fin 7 → Fin 2 → Vec F S1x1x16 .f32) × (Fin 7 → Fin 2 → Vec F S1x1x16 .f32) :=
  filesUpd ((Scalar.cmpi .ne (Scalar.extui v99) 0#32) = 1#1) (f91_4 d L g0 g1 w5 w6 v24 v87 v90 v93 v96).1 (f91_4 d L g0 g1 w5 w6 v24 v87 v90 v93 v96).2 4
    (sumsV_t6 d L g0 g1 (initOf (f91_4 d L g0 g1 w5 w6 v24 v87 v90 v93 v96).1 (f91_4 d L g0 g1 w5 w6 v24 v87 v90 v93 v96).2 4) (Scf.trips k1_t6_loop.lb k1_t6_loop.ub k1_t6_loop.st))
/-- The files after lane group 5's region. -/
def f91_6 (g0 : Buf (Elt F) ((V d (cV L) (jV L)).loc cc1_scratch0)) (g1 : Buf (Elt F) ((V d (cV L) (jV L)).loc cc1_scratch1))
    (w5 w6 : Fin 7 → Fin 2 → Vec F S1x1x16 .f32) (v24 : FVec F S16 .f32) (v87 v90 v93 v96 v99 v102 : BitVec 1) :
    (Fin 7 → Fin 2 → Vec F S1x1x16 .f32) × (Fin 7 → Fin 2 → Vec F S1x1x16 .f32) :=
  filesUpd ((Scalar.cmpi .ne (Scalar.extui v102) 0#32) = 1#1) (f91_5 d L g0 g1 w5 w6 v24 v87 v90 v93 v96 v99).1 (f91_5 d L g0 g1 w5 w6 v24 v87 v90 v93 v96 v99).2 5
    (sumsV_t7 d L g0 g1 (initOf (f91_5 d L g0 g1 w5 w6 v24 v87 v90 v93 v96 v99).1 (f91_5 d L g0 g1 w5 w6 v24 v87 v90 v93 v96 v99).2 5) (Scf.trips k1_t7_loop.lb k1_t7_loop.ub k1_t7_loop.st))
/-- The files after lane group 6's region. -/
def f91_7 (g0 : Buf (Elt F) ((V d (cV L) (jV L)).loc cc1_scratch0)) (g1 : Buf (Elt F) ((V d (cV L) (jV L)).loc cc1_scratch1))
    (w5 w6 : Fin 7 → Fin 2 → Vec F S1x1x16 .f32) (v24 : FVec F S16 .f32) (v87 v90 v93 v96 v99 v102 v105 : BitVec 1) :
    (Fin 7 → Fin 2 → Vec F S1x1x16 .f32) × (Fin 7 → Fin 2 → Vec F S1x1x16 .f32) :=
  filesUpd ((Scalar.cmpi .ne (Scalar.extui v105) 0#32) = 1#1) (f91_6 d L g0 g1 w5 w6 v24 v87 v90 v93 v96 v99 v102).1 (f91_6 d L g0 g1 w5 w6 v24 v87 v90 v93 v96 v99 v102).2 6
    (sumsV_t8 d L g0 g1 (initOf (f91_6 d L g0 g1 w5 w6 v24 v87 v90 v93 v96 v99 v102).1 (f91_6 d L g0 g1 w5 w6 v24 v87 v90 v93 v96 v99 v102).2 6) (Scf.trips k1_t8_loop.lb k1_t8_loop.ub k1_t8_loop.st))

set_option maxHeartbeats 16000000 in
/-- THE FIRST CHANNEL GROUP'S PART on the register files: from the first slot in flight and the accumulators held as files
    (w5, w6), to the slot landed and the accumulators held as the files after the seven regions. -/
theorem part91N (qa : PosShare TreeShare) (O : CellTallies nD τ sig (HIx 1)) (Wx : Waits sig (HIx 1))
    (o : Fin 4 → ℕ) (h : (∀ a, o a + S1x48x1x224.size a ≤ S8x192x224x224.size a))
    (g0 : Buf (Elt F) ((V d (cV L) (jV L)).loc cc1_scratch0)) (g1 : Buf (Elt F) ((V d (cV L) (jV L)).loc cc1_scratch1))
    (w5 w6 : Fin 7 → Fin 2 → Vec F S1x1x16 .f32)
    (v24 : FVec F S16 .f32) (v87 v90 v93 v96 v99 v102 v105 : BitVec 1) :
    cutFA (flying0 X0 X1 qa d L o h g0 g1) d L O Wx (w5, w6)
      ⊢ wp frame (wpE (defs₀ (F := F)) Sc.𝒱₀ (V d (cV L) (jV L)) none) Set.univ
          (k1_part91 L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 v24 v87 v90 v93 v96 v99 v102 v105)
          (fun _ => cutFA (landed0 X0 X1 qa d L g0 g1) d L O (insert (SemLoc.dma (⟨4, by decide⟩ : DmaSem sig), (default : HIx 1)) (insert (SemLoc.dma (⟨3, by decide⟩ : DmaSem sig), (default : HIx 1)) Wx)) (f91_7 d L g0 g1 w5 w6 v24 v87 v90 v93 v96 v99 v102 v105)) := by
  simp only [k1_part91_eq_skeleton]; unfold k1_part91_skel
  unfold cutFA accHeld flying0
  iintro ⟨#Hmw, ⟨%c5_0, %c6, Hb5, Hb6, %h5_0, %h6⟩, ⟨HF3, H0a, HF4, H1a⟩, HO⟩
  sl_exec
  ihave Hb6 := (pts_nameA (F := F) _ _) $$ Hb6
  icases Hb6 with ⟨%c6_0, %hz, Hb6⟩
  have h6_0 : (b6V).view.read (Elt F) c6_0 = cells (f91_0 w5 w6 v24).2 := by
    rw [hz]; exact read_write_cell (b6V).view c6 w6 h6 6 1 (by decide) (by decide) _ _
  refine' ite_cutA d L (cutFA (landed0 X0 X1 qa d L g0 g1) d L O (insert (SemLoc.dma (⟨4, by decide⟩ : DmaSem sig), (default : HIx 1)) (insert (SemLoc.dma (⟨3, by decide⟩ : DmaSem sig), (default : HIx 1)) Wx)) (f91_1 d L g0 g1 w5 w6 v24 v87)) (cutFA (landed0 X0 X1 qa d L g0 g1) d L O (insert (SemLoc.dma (⟨4, by decide⟩ : DmaSem sig), (default : HIx 1)) (insert (SemLoc.dma (⟨3, by decide⟩ : DmaSem sig), (default : HIx 1)) Wx)) (f91_1 d L g0 g1 w5 w6 v24 v87)) ?h1_1 ?h2_1 ?h3_1
  case h1_1 =>
    intro hc j hj hJ
    rw [← hj]
    sl_exec
    iapply hJ
    unfold cutFA accHeld; unfold landed0
    isplitr; · iexact Hmw
    isplitl [Hb5 Hb6]
    · iexists _, _
      isplitl [Hb5]; · iexact Hb5
      isplitl [Hb6]; · iexact Hb6
      have hs := step_posA d L c5_0 c6_0 (f91_0 w5 w6 v24).1 (f91_0 w5 w6 v24).2 h5_0 h6_0 ((Scalar.cmpi .ne (Scalar.extui v87) 0#32) = 1#1) hc (fun i => sumsV_t2 d L g0 g1 i (Scf.trips k1_t2_loop.lb k1_t2_loop.ub k1_t2_loop.st)) 0 (by decide) inb_S7x2x16_S1x1x16_0_0_0 inb_S7x2x16_S1x1x16_0_1_0 _ _ _ _
        (readAt_cells (b5V).view c5_0 _ h5_0 0 0 (by decide) (by decide) inb_S7x2x16_S1x1x16_0_0_0) (readAt_cells (b5V).view c5_0 _ h5_0 0 1 (by decide) (by decide) inb_S7x2x16_S1x1x16_0_1_0)
        (readAt_cells (b6V).view c6_0 _ h6_0 0 0 (by decide) (by decide) inb_S7x2x16_S1x1x16_0_0_0) (readAt_cells (b6V).view c6_0 _ h6_0 0 1 (by decide) (by decide) inb_S7x2x16_S1x1x16_0_1_0)
      isplitr
      · ipureintro; exact hs.1
      · ipureintro; exact hs.2
    isplitl [HF3_dst HF4_dst H0a H1a HF3 HF4]
    · isplitl [HF3_dst]; · iexact HF3_dst
      isplitl [HF4_dst]; · iexact HF4_dst
      sl_close
    iexact HO
  case h2_1 =>
    intro hc
    unfold cutFA accHeld; unfold landed0
    isplitr; · iexact Hmw
    isplitl [Hb5 Hb6]
    · iexists c5_0, c6_0
      isplitl [Hb5]; · iexact Hb5
      isplitl [Hb6]; · iexact Hb6
      isplitr
      · ipureintro; exact h5_0.trans (congrArg cells (filesUpd_negA1 (show ¬ ((Scalar.cmpi .ne (Scalar.extui v87) 0#32) = 1#1) from hc) _ _ _ _).symm)
      · ipureintro; exact h6_0.trans (congrArg cells (filesUpd_negA2 (show ¬ ((Scalar.cmpi .ne (Scalar.extui v87) 0#32) = 1#1) from hc) _ _ _ _).symm)
    isplitl [HF3_dst HF4_dst H0a H1a HF3 HF4]
    · isplitl [HF3_dst]; · iexact HF3_dst
      isplitl [HF4_dst]; · iexact HF4_dst
      sl_close
    iexact HO
  rw [ite_self]; unfold cutFA accHeld; unfold landed0
  iintro ⟨#Hmw, ⟨%c5_1, %c6_1, Hb5, Hb6, %h5_1, %h6_1⟩, ⟨HF3_dst, HF4_dst, H0a, H1a, HF3, HF4⟩, HO⟩
  sl_exec
  refine' ite_cutA d L (cutFA (landed0 X0 X1 qa d L g0 g1) d L O (insert (SemLoc.dma (⟨4, by decide⟩ : DmaSem sig), (default : HIx 1)) (insert (SemLoc.dma (⟨3, by decide⟩ : DmaSem sig), (default : HIx 1)) Wx)) (f91_2 d L g0 g1 w5 w6 v24 v87 v90)) (cutFA (landed0 X0 X1 qa d L g0 g1) d L O (insert (SemLoc.dma (⟨4, by decide⟩ : DmaSem sig), (default : HIx 1)) (insert (SemLoc.dma (⟨3, by decide⟩ : DmaSem sig), (default : HIx 1)) Wx)) (f91_2 d L g0 g1 w5 w6 v24 v87 v90)) ?h1_2 ?h2_2 ?h3_2
  case h1_2 =>
    intro hc j hj hJ
    rw [← hj]
    sl_exec
    iapply hJ
    unfold cutFA accHeld; unfold landed0
    isplitr; · iexact Hmw
    isplitl [Hb5 Hb6]
    · iexists _, _
      isplitl [Hb5]; · iexact Hb5
      isplitl [Hb6]; · iexact Hb6
      have hs := step_posA d L c5_1 c6_1 (f91_1 d L g0 g1 w5 w6 v24 v87).1 (f91_1 d L g0 g1 w5 w6 v24 v87).2 h5_1 h6_1 ((Scalar.cmpi .ne (Scalar.extui v90) 0#32) = 1#1) hc (fun i => sumsV_t3 d L g0 g1 i (Scf.trips k1_t3_loop.lb k1_t3_loop.ub k1_t3_loop.st)) 1 (by decide) inb_S7x2x16_S1x1x16_1_0_0 inb_S7x2x16_S1x1x16_1_1_0 _ _ _ _
        (readAt_cells (b5V).view c5_1 _ h5_1 1 0 (by decide) (by decide) inb_S7x2x16_S1x1x16_1_0_0) (readAt_cells (b5V).view c5_1 _ h5_1 1 1 (by decide) (by decide) inb_S7x2x16_S1x1x16_1_1_0)
        (readAt_cells (b6V).view c6_1 _ h6_1 1 0 (by decide) (by decide) inb_S7x2x16_S1x1x16_1_0_0) (readAt_cells (b6V).view c6_1 _ h6_1 1 1 (by decide) (by decide) inb_S7x2x16_S1x1x16_1_1_0)
      isplitr
      · ipureintro; exact hs.1
      · ipureintro; exact hs.2
    isplitl [HF3_dst HF4_dst H0a H1a HF3 HF4]
    · isplitl [HF3_dst]; · iexact HF3_dst
      isplitl [HF4_dst]; · iexact HF4_dst
      sl_close
    iexact HO
  case h2_2 =>
    intro hc
    unfold cutFA accHeld; unfold landed0
    isplitr; · iexact Hmw
    isplitl [Hb5 Hb6]
    · iexists c5_1, c6_1
      isplitl [Hb5]; · iexact Hb5
      isplitl [Hb6]; · iexact Hb6
      isplitr
      · ipureintro; exact h5_1.trans (congrArg cells (filesUpd_negA1 (show ¬ ((Scalar.cmpi .ne (Scalar.extui v90) 0#32) = 1#1) from hc) _ _ _ _).symm)
      · ipureintro; exact h6_1.trans (congrArg cells (filesUpd_negA2 (show ¬ ((Scalar.cmpi .ne (Scalar.extui v90) 0#32) = 1#1) from hc) _ _ _ _).symm)
    isplitl [HF3_dst HF4_dst H0a H1a HF3 HF4]
    · isplitl [HF3_dst]; · iexact HF3_dst
      isplitl [HF4_dst]; · iexact HF4_dst
      sl_close
    iexact HO
  rw [ite_self]; unfold cutFA accHeld; unfold landed0
  iintro ⟨#Hmw, ⟨%c5_2, %c6_2, Hb5, Hb6, %h5_2, %h6_2⟩, ⟨HF3_dst, HF4_dst, H0a, H1a, HF3, HF4⟩, HO⟩
  sl_exec
  refine' ite_cutA d L (cutFA (landed0 X0 X1 qa d L g0 g1) d L O (insert (SemLoc.dma (⟨4, by decide⟩ : DmaSem sig), (default : HIx 1)) (insert (SemLoc.dma (⟨3, by decide⟩ : DmaSem sig), (default : HIx 1)) Wx)) (f91_3 d L g0 g1 w5 w6 v24 v87 v90 v93)) (cutFA (landed0 X0 X1 qa d L g0 g1) d L O (insert (SemLoc.dma (⟨4, by decide⟩ : DmaSem sig), (default : HIx 1)) (insert (SemLoc.dma (⟨3, by decide⟩ : DmaSem sig), (default : HIx 1)) Wx)) (f91_3 d L g0 g1 w5 w6 v24 v87 v90 v93)) ?h1_3 ?h2_3 ?h3_3
  case h1_3 =>
    intro hc j hj hJ
    rw [← hj]
    sl_exec
    iapply hJ
    unfold cutFA accHeld; unfold landed0
    isplitr; · iexact Hmw
    isplitl [Hb5 Hb6]
    · iexists _, _
      isplitl [Hb5]; · iexact Hb5
      isplitl [Hb6]; · iexact Hb6
      have hs := step_posA d L c5_2 c6_2 (f91_2 d L g0 g1 w5 w6 v24 v87 v90).1 (f91_2 d L g0 g1 w5 w6 v24 v87 v90).2 h5_2 h6_2 ((Scalar.cmpi .ne (Scalar.extui v93) 0#32) = 1#1) hc (fun i => sumsV_t4 d L g0 g1 i (Scf.trips k1_t4_loop.lb k1_t4_loop.ub k1_t4_loop.st)) 2 (by decide) inb_S7x2x16_S1x1x16_2_0_0 inb_S7x2x16_S1x1x16_2_1_0 _ _ _ _
        (readAt_cells (b5V).view c5_2 _ h5_2 2 0 (by decide) (by decide) inb_S7x2x16_S1x1x16_2_0_0) (readAt_cells (b5V).view c5_2 _ h5_2 2 1 (by decide) (by decide) inb_S7x2x16_S1x1x16_2_1_0)
        (readAt_cells (b6V).view c6_2 _ h6_2 2 0 (by decide) (by decide) inb_S7x2x16_S1x1x16_2_0_0) (readAt_cells (b6V).view c6_2 _ h6_2 2 1 (by decide) (by decide) inb_S7x2x16_S1x1x16_2_1_0)
      isplitr
      · ipureintro; exact hs.1
      · ipureintro; exact hs.2
    isplitl [HF3_dst HF4_dst H0a H1a HF3 HF4]
    · isplitl [HF3_dst]; · iexact HF3_dst
      isplitl [HF4_dst]; · iexact HF4_dst
      sl_close
    iexact HO
  case h2_3 =>
    intro hc
    unfold cutFA accHeld; unfold landed0
    isplitr; · iexact Hmw
    isplitl [Hb5 Hb6]
    · iexists c5_2, c6_2
      isplitl [Hb5]; · iexact Hb5
      isplitl [Hb6]; · iexact Hb6
      isplitr
      · ipureintro; exact h5_2.trans (congrArg cells (filesUpd_negA1 (show ¬ ((Scalar.cmpi .ne (Scalar.extui v93) 0#32) = 1#1) from hc) _ _ _ _).symm)
      · ipureintro; exact h6_2.trans (congrArg cells (filesUpd_negA2 (show ¬ ((Scalar.cmpi .ne (Scalar.extui v93) 0#32) = 1#1) from hc) _ _ _ _).symm)
    isplitl [HF3_dst HF4_dst H0a H1a HF3 HF4]
    · isplitl [HF3_dst]; · iexact HF3_dst
      isplitl [HF4_dst]; · iexact HF4_dst
      sl_close
    iexact HO
  rw [ite_self]; unfold cutFA accHeld; unfold landed0
  iintro ⟨#Hmw, ⟨%c5_3, %c6_3, Hb5, Hb6, %h5_3, %h6_3⟩, ⟨HF3_dst, HF4_dst, H0a, H1a, HF3, HF4⟩, HO⟩
  sl_exec
  refine' ite_cutA d L (cutFA (landed0 X0 X1 qa d L g0 g1) d L O (insert (SemLoc.dma (⟨4, by decide⟩ : DmaSem sig), (default : HIx 1)) (insert (SemLoc.dma (⟨3, by decide⟩ : DmaSem sig), (default : HIx 1)) Wx)) (f91_4 d L g0 g1 w5 w6 v24 v87 v90 v93 v96)) (cutFA (landed0 X0 X1 qa d L g0 g1) d L O (insert (SemLoc.dma (⟨4, by decide⟩ : DmaSem sig), (default : HIx 1)) (insert (SemLoc.dma (⟨3, by decide⟩ : DmaSem sig), (default : HIx 1)) Wx)) (f91_4 d L g0 g1 w5 w6 v24 v87 v90 v93 v96)) ?h1_4 ?h2_4 ?h3_4
  case h1_4 =>
    intro hc j hj hJ
    rw [← hj]
    sl_exec
    iapply hJ
    unfold cutFA accHeld; unfold landed0
    isplitr; · iexact Hmw
    isplitl [Hb5 Hb6]
    · iexists _, _
      isplitl [Hb5]; · iexact Hb5
      isplitl [Hb6]; · iexact Hb6
      have hs := step_posA d L c5_3 c6_3 (f91_3 d L g0 g1 w5 w6 v24 v87 v90 v93).1 (f91_3 d L g0 g1 w5 w6 v24 v87 v90 v93).2 h5_3 h6_3 ((Scalar.cmpi .ne (Scalar.extui v96) 0#32) = 1#1) hc (fun i => sumsV_t5 d L g0 g1 i (Scf.trips k1_t5_loop.lb k1_t5_loop.ub k1_t5_loop.st)) 3 (by decide) inb_S7x2x16_S1x1x16_3_0_0 inb_S7x2x16_S1x1x16_3_1_0 _ _ _ _
        (readAt_cells (b5V).view c5_3 _ h5_3 3 0 (by decide) (by decide) inb_S7x2x16_S1x1x16_3_0_0) (readAt_cells (b5V).view c5_3 _ h5_3 3 1 (by decide) (by decide) inb_S7x2x16_S1x1x16_3_1_0)
        (readAt_cells (b6V).view c6_3 _ h6_3 3 0 (by decide) (by decide) inb_S7x2x16_S1x1x16_3_0_0) (readAt_cells (b6V).view c6_3 _ h6_3 3 1 (by decide) (by decide) inb_S7x2x16_S1x1x16_3_1_0)
      isplitr
      · ipureintro; exact hs.1
      · ipureintro; exact hs.2
    isplitl [HF3_dst HF4_dst H0a H1a HF3 HF4]
    · isplitl [HF3_dst]; · iexact HF3_dst
      isplitl [HF4_dst]; · iexact HF4_dst
      sl_close
    iexact HO
  case h2_4 =>
    intro hc
    unfold cutFA accHeld; unfold landed0
    isplitr; · iexact Hmw
    isplitl [Hb5 Hb6]
    · iexists c5_3, c6_3
      isplitl [Hb5]; · iexact Hb5
      isplitl [Hb6]; · iexact Hb6
      isplitr
      · ipureintro; exact h5_3.trans (congrArg cells (filesUpd_negA1 (show ¬ ((Scalar.cmpi .ne (Scalar.extui v96) 0#32) = 1#1) from hc) _ _ _ _).symm)
      · ipureintro; exact h6_3.trans (congrArg cells (filesUpd_negA2 (show ¬ ((Scalar.cmpi .ne (Scalar.extui v96) 0#32) = 1#1) from hc) _ _ _ _).symm)
    isplitl [HF3_dst HF4_dst H0a H1a HF3 HF4]
    · isplitl [HF3_dst]; · iexact HF3_dst
      isplitl [HF4_dst]; · iexact HF4_dst
      sl_close
    iexact HO
  rw [ite_self]; unfold cutFA accHeld; unfold landed0
  iintro ⟨#Hmw, ⟨%c5_4, %c6_4, Hb5, Hb6, %h5_4, %h6_4⟩, ⟨HF3_dst, HF4_dst, H0a, H1a, HF3, HF4⟩, HO⟩
  sl_exec
  refine' ite_cutA d L (cutFA (landed0 X0 X1 qa d L g0 g1) d L O (insert (SemLoc.dma (⟨4, by decide⟩ : DmaSem sig), (default : HIx 1)) (insert (SemLoc.dma (⟨3, by decide⟩ : DmaSem sig), (default : HIx 1)) Wx)) (f91_5 d L g0 g1 w5 w6 v24 v87 v90 v93 v96 v99)) (cutFA (landed0 X0 X1 qa d L g0 g1) d L O (insert (SemLoc.dma (⟨4, by decide⟩ : DmaSem sig), (default : HIx 1)) (insert (SemLoc.dma (⟨3, by decide⟩ : DmaSem sig), (default : HIx 1)) Wx)) (f91_5 d L g0 g1 w5 w6 v24 v87 v90 v93 v96 v99)) ?h1_5 ?h2_5 ?h3_5
  case h1_5 =>
    intro hc j hj hJ
    rw [← hj]
    sl_exec
    iapply hJ
    unfold cutFA accHeld; unfold landed0
    isplitr; · iexact Hmw
    isplitl [Hb5 Hb6]
    · iexists _, _
      isplitl [Hb5]; · iexact Hb5
      isplitl [Hb6]; · iexact Hb6
      have hs := step_posA d L c5_4 c6_4 (f91_4 d L g0 g1 w5 w6 v24 v87 v90 v93 v96).1 (f91_4 d L g0 g1 w5 w6 v24 v87 v90 v93 v96).2 h5_4 h6_4 ((Scalar.cmpi .ne (Scalar.extui v99) 0#32) = 1#1) hc (fun i => sumsV_t6 d L g0 g1 i (Scf.trips k1_t6_loop.lb k1_t6_loop.ub k1_t6_loop.st)) 4 (by decide) inb_S7x2x16_S1x1x16_4_0_0 inb_S7x2x16_S1x1x16_4_1_0 _ _ _ _
        (readAt_cells (b5V).view c5_4 _ h5_4 4 0 (by decide) (by decide) inb_S7x2x16_S1x1x16_4_0_0) (readAt_cells (b5V).view c5_4 _ h5_4 4 1 (by decide) (by decide) inb_S7x2x16_S1x1x16_4_1_0)
        (readAt_cells (b6V).view c6_4 _ h6_4 4 0 (by decide) (by decide) inb_S7x2x16_S1x1x16_4_0_0) (readAt_cells (b6V).view c6_4 _ h6_4 4 1 (by decide) (by decide) inb_S7x2x16_S1x1x16_4_1_0)
      isplitr
      · ipureintro; exact hs.1
      · ipureintro; exact hs.2
    isplitl [HF3_dst HF4_dst H0a H1a HF3 HF4]
    · isplitl [HF3_dst]; · iexact HF3_dst
      isplitl [HF4_dst]; · iexact HF4_dst
      sl_close
    iexact HO
  case h2_5 =>
    intro hc
    unfold cutFA accHeld; unfold landed0
    isplitr; · iexact Hmw
    isplitl [Hb5 Hb6]
    · iexists c5_4, c6_4
      isplitl [Hb5]; · iexact Hb5
      isplitl [Hb6]; · iexact Hb6
      isplitr
      · ipureintro; exact h5_4.trans (congrArg cells (filesUpd_negA1 (show ¬ ((Scalar.cmpi .ne (Scalar.extui v99) 0#32) = 1#1) from hc) _ _ _ _).symm)
      · ipureintro; exact h6_4.trans (congrArg cells (filesUpd_negA2 (show ¬ ((Scalar.cmpi .ne (Scalar.extui v99) 0#32) = 1#1) from hc) _ _ _ _).symm)
    isplitl [HF3_dst HF4_dst H0a H1a HF3 HF4]
    · isplitl [HF3_dst]; · iexact HF3_dst
      isplitl [HF4_dst]; · iexact HF4_dst
      sl_close
    iexact HO
  rw [ite_self]; unfold cutFA accHeld; unfold landed0
  iintro ⟨#Hmw, ⟨%c5_5, %c6_5, Hb5, Hb6, %h5_5, %h6_5⟩, ⟨HF3_dst, HF4_dst, H0a, H1a, HF3, HF4⟩, HO⟩
  sl_exec
  refine' ite_cutA d L (cutFA (landed0 X0 X1 qa d L g0 g1) d L O (insert (SemLoc.dma (⟨4, by decide⟩ : DmaSem sig), (default : HIx 1)) (insert (SemLoc.dma (⟨3, by decide⟩ : DmaSem sig), (default : HIx 1)) Wx)) (f91_6 d L g0 g1 w5 w6 v24 v87 v90 v93 v96 v99 v102)) (cutFA (landed0 X0 X1 qa d L g0 g1) d L O (insert (SemLoc.dma (⟨4, by decide⟩ : DmaSem sig), (default : HIx 1)) (insert (SemLoc.dma (⟨3, by decide⟩ : DmaSem sig), (default : HIx 1)) Wx)) (f91_6 d L g0 g1 w5 w6 v24 v87 v90 v93 v96 v99 v102)) ?h1_6 ?h2_6 ?h3_6
  case h1_6 =>
    intro hc j hj hJ
    rw [← hj]
    sl_exec
    iapply hJ
    unfold cutFA accHeld; unfold landed0
    isplitr; · iexact Hmw
    isplitl [Hb5 Hb6]
    · iexists _, _
      isplitl [Hb5]; · iexact Hb5
      isplitl [Hb6]; · iexact Hb6
      have hs := step_posA d L c5_5 c6_5 (f91_5 d L g0 g1 w5 w6 v24 v87 v90 v93 v96 v99).1 (f91_5 d L g0 g1 w5 w6 v24 v87 v90 v93 v96 v99).2 h5_5 h6_5 ((Scalar.cmpi .ne (Scalar.extui v102) 0#32) = 1#1) hc (fun i => sumsV_t7 d L g0 g1 i (Scf.trips k1_t7_loop.lb k1_t7_loop.ub k1_t7_loop.st)) 5 (by decide) inb_S7x2x16_S1x1x16_5_0_0 inb_S7x2x16_S1x1x16_5_1_0 _ _ _ _
        (readAt_cells (b5V).view c5_5 _ h5_5 5 0 (by decide) (by decide) inb_S7x2x16_S1x1x16_5_0_0) (readAt_cells (b5V).view c5_5 _ h5_5 5 1 (by decide) (by decide) inb_S7x2x16_S1x1x16_5_1_0)
        (readAt_cells (b6V).view c6_5 _ h6_5 5 0 (by decide) (by decide) inb_S7x2x16_S1x1x16_5_0_0) (readAt_cells (b6V).view c6_5 _ h6_5 5 1 (by decide) (by decide) inb_S7x2x16_S1x1x16_5_1_0)
      isplitr
      · ipureintro; exact hs.1
      · ipureintro; exact hs.2
    isplitl [HF3_dst HF4_dst H0a H1a HF3 HF4]
    · isplitl [HF3_dst]; · iexact HF3_dst
      isplitl [HF4_dst]; · iexact HF4_dst
      sl_close
    iexact HO
  case h2_6 =>
    intro hc
    unfold cutFA accHeld; unfold landed0
    isplitr; · iexact Hmw
    isplitl [Hb5 Hb6]
    · iexists c5_5, c6_5
      isplitl [Hb5]; · iexact Hb5
      isplitl [Hb6]; · iexact Hb6
      isplitr
      · ipureintro; exact h5_5.trans (congrArg cells (filesUpd_negA1 (show ¬ ((Scalar.cmpi .ne (Scalar.extui v102) 0#32) = 1#1) from hc) _ _ _ _).symm)
      · ipureintro; exact h6_5.trans (congrArg cells (filesUpd_negA2 (show ¬ ((Scalar.cmpi .ne (Scalar.extui v102) 0#32) = 1#1) from hc) _ _ _ _).symm)
    isplitl [HF3_dst HF4_dst H0a H1a HF3 HF4]
    · isplitl [HF3_dst]; · iexact HF3_dst
      isplitl [HF4_dst]; · iexact HF4_dst
      sl_close
    iexact HO
  rw [ite_self]; unfold cutFA accHeld; unfold landed0
  iintro ⟨#Hmw, ⟨%c5_6, %c6_6, Hb5, Hb6, %h5_6, %h6_6⟩, ⟨HF3_dst, HF4_dst, H0a, H1a, HF3, HF4⟩, HO⟩
  sl_exec
  refine' ite_cutA d L (cutFA (landed0 X0 X1 qa d L g0 g1) d L O (insert (SemLoc.dma (⟨4, by decide⟩ : DmaSem sig), (default : HIx 1)) (insert (SemLoc.dma (⟨3, by decide⟩ : DmaSem sig), (default : HIx 1)) Wx)) (f91_7 d L g0 g1 w5 w6 v24 v87 v90 v93 v96 v99 v102 v105)) (cutFA (landed0 X0 X1 qa d L g0 g1) d L O (insert (SemLoc.dma (⟨4, by decide⟩ : DmaSem sig), (default : HIx 1)) (insert (SemLoc.dma (⟨3, by decide⟩ : DmaSem sig), (default : HIx 1)) Wx)) (f91_7 d L g0 g1 w5 w6 v24 v87 v90 v93 v96 v99 v102 v105)) ?h1_7 ?h2_7 ?h3_7
  case h1_7 =>
    intro hc j hj hJ
    rw [← hj]
    sl_exec
    iapply hJ
    unfold cutFA accHeld; unfold landed0
    isplitr; · iexact Hmw
    isplitl [Hb5 Hb6]
    · iexists _, _
      isplitl [Hb5]; · iexact Hb5
      isplitl [Hb6]; · iexact Hb6
      have hs := step_posA d L c5_6 c6_6 (f91_6 d L g0 g1 w5 w6 v24 v87 v90 v93 v96 v99 v102).1 (f91_6 d L g0 g1 w5 w6 v24 v87 v90 v93 v96 v99 v102).2 h5_6 h6_6 ((Scalar.cmpi .ne (Scalar.extui v105) 0#32) = 1#1) hc (fun i => sumsV_t8 d L g0 g1 i (Scf.trips k1_t8_loop.lb k1_t8_loop.ub k1_t8_loop.st)) 6 (by decide) inb_S7x2x16_S1x1x16_6_0_0 inb_S7x2x16_S1x1x16_6_1_0 _ _ _ _
        (readAt_cells (b5V).view c5_6 _ h5_6 6 0 (by decide) (by decide) inb_S7x2x16_S1x1x16_6_0_0) (readAt_cells (b5V).view c5_6 _ h5_6 6 1 (by decide) (by decide) inb_S7x2x16_S1x1x16_6_1_0)
        (readAt_cells (b6V).view c6_6 _ h6_6 6 0 (by decide) (by decide) inb_S7x2x16_S1x1x16_6_0_0) (readAt_cells (b6V).view c6_6 _ h6_6 6 1 (by decide) (by decide) inb_S7x2x16_S1x1x16_6_1_0)
      isplitr
      · ipureintro; exact hs.1
      · ipureintro; exact hs.2
    isplitl [HF3_dst HF4_dst H0a H1a HF3 HF4]
    · isplitl [HF3_dst]; · iexact HF3_dst
      isplitl [HF4_dst]; · iexact HF4_dst
      sl_close
    iexact HO
  case h2_7 =>
    intro hc
    unfold cutFA accHeld; unfold landed0
    isplitr; · iexact Hmw
    isplitl [Hb5 Hb6]
    · iexists c5_6, c6_6
      isplitl [Hb5]; · iexact Hb5
      isplitl [Hb6]; · iexact Hb6
      isplitr
      · ipureintro; exact h5_6.trans (congrArg cells (filesUpd_negA1 (show ¬ ((Scalar.cmpi .ne (Scalar.extui v105) 0#32) = 1#1) from hc) _ _ _ _).symm)
      · ipureintro; exact h6_6.trans (congrArg cells (filesUpd_negA2 (show ¬ ((Scalar.cmpi .ne (Scalar.extui v105) 0#32) = 1#1) from hc) _ _ _ _).symm)
    isplitl [HF3_dst HF4_dst H0a H1a HF3 HF4]
    · isplitl [HF3_dst]; · iexact HF3_dst
      isplitl [HF4_dst]; · iexact HF4_dst
      sl_close
    iexact HO
  rw [ite_self]; unfold cutFA accHeld; unfold landed0
  iintro ⟨#Hmw, ⟨%c5_7, %c6_7, Hb5, Hb6, %h5_7, %h6_7⟩, ⟨HF3_dst, HF4_dst, H0a, H1a, HF3, HF4⟩, HO⟩
  sl_exec
  sl_step
  isplitr; · iexact Hmw
  isplitl [Hb5 Hb6]
  · iexists c5_7, c6_7
    isplitl [Hb5]; · iexact Hb5
    isplitl [Hb6]; · iexact Hb6
    isplitr
    · ipureintro; exact h5_7
    · ipureintro; exact h6_7
  isplitl [HF3_dst HF4_dst H0a H1a HF3 HF4]
  · isplitl [HF3_dst]; · iexact HF3_dst
    isplitl [HF4_dst]; · iexact HF4_dst
    sl_close
  iexact HO

end Tile

end Cert.KernelIdeal.ScTileV

end
-- ==== Proof.ScTileVP92I.lean ====
/-
  The second channel group's part of a row, with the accumulators held as register files: slot 0 refilled, slot 1's two
  waits, and the seven lane groups' guarded regions over slot 1's buffers.
-/
import proofs.«210586_g14980845929080_cont_week2b_1062_66_alg».proof.Proof.ScTileVLoop2I
import proofs.«210586_g14980845929080_cont_week2b_1062_66_alg».proof.Proof.ScTileVAccI
import proofs.«210586_g14980845929080_cont_week2b_1062_66_alg».proof.Proof.Gen.KernelIdeal.Skeleton
import Idealize.ShloMosaic.Lib.Tactic

set_option warn.classDefReducibility false

noncomputable section

namespace Cert.KernelIdeal.ScTileV

open Cert.KernelIdeal.ScTile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ Sc.UU ℕ

local notation "a0V" => (Memref.whole Cert.KernelIdeal.main_arg0_scv : Memref Cert.KernelIdeal.sig Kind.scVector Space.hbm Cert.KernelIdeal.S8x192x224x224 EltTy.f32)
local notation "a1V" => (Memref.whole Cert.KernelIdeal.main_arg1_scv : Memref Cert.KernelIdeal.sig Kind.scVector Space.hbm Cert.KernelIdeal.S8x192x224x224 EltTy.f32)
local notation "mkV" => (Memref.whole Cert.KernelIdeal.main_v0_scv : Memref Cert.KernelIdeal.sig Kind.scVector Space.hbm Cert.KernelIdeal.S8x224x256 EltTy.f32)
local notation "ptV" => (Memref.whole Cert.KernelIdeal.main_v1_scv : Memref Cert.KernelIdeal.sig Kind.scVector Space.hbm Cert.KernelIdeal.S32x32 EltTy.f32)
local notation "b0V" => (Memref.whole Cert.KernelIdeal.cc1_scratch0 : Memref Cert.KernelIdeal.sig Kind.scVector Space.vmem Cert.KernelIdeal.S48x224 EltTy.f32)
local notation "b1V" => (Memref.whole Cert.KernelIdeal.cc1_scratch1 : Memref Cert.KernelIdeal.sig Kind.scVector Space.vmem Cert.KernelIdeal.S48x224 EltTy.f32)
local notation "b2V" => (Memref.whole Cert.KernelIdeal.cc1_scratch2 : Memref Cert.KernelIdeal.sig Kind.scVector Space.vmem Cert.KernelIdeal.S48x224 EltTy.f32)
local notation "b3V" => (Memref.whole Cert.KernelIdeal.cc1_scratch3 : Memref Cert.KernelIdeal.sig Kind.scVector Space.vmem Cert.KernelIdeal.S48x224 EltTy.f32)
local notation "b4V" => (Memref.whole Cert.KernelIdeal.cc1_scratch4 : Memref Cert.KernelIdeal.sig Kind.scVector Space.vmem Cert.KernelIdeal.S8x16x256 EltTy.f32)
local notation "b5V" => (Memref.whole Cert.KernelIdeal.cc1_scratch5 : Memref Cert.KernelIdeal.sig Kind.scVector Space.vmem Cert.KernelIdeal.S7x2x16 EltTy.f32)
local notation "b6V" => (Memref.whole Cert.KernelIdeal.cc1_scratch6 : Memref Cert.KernelIdeal.sig Kind.scVector Space.vmem Cert.KernelIdeal.S7x2x16 EltTy.f32)
local notation "b7V" => (Memref.whole Cert.KernelIdeal.cc1_scratch7 : Memref Cert.KernelIdeal.sig Kind.scVector Space.vmem Cert.KernelIdeal.S32 EltTy.f32)

variable [FloatOps F]

section Tile

variable (X0 : (d : Dev nD) → Buf (Elt F) (a0Loc d)) (X1 : (d : Dev nD) → Buf (Elt F) (a1Loc d))
  (M : (d : Dev nD) → Buf (Elt F) (mkLoc d)) (R0 : (d : Dev nD) → Buf (Elt F) (ptLoc d))
variable (d : Dev nD) (L : grid1.Coords)
variable (d : Dev nD) (L : grid1.Coords)

/-- A conditional whose else-region is the rest of the block, its two regions reaching the rest from two states. -/
theorem ite_cutB {β : Type} {c : Prop} [Decidable c] (d : Dev nD) (L : grid1.Coords)
    {T J : Prog (TpuEff nD τ sig (Elt F) Λ₀ (.scVector (cV L) (jV L))) β} {Q : β → sProp 𝕄} {P : sProp 𝕄} (Rt Re : sProp 𝕄)
    (h1 : c → ∀ j : Prog (TpuEff nD τ sig (Elt F) Λ₀ (.scVector (cV L) (jV L))) β, j = J →
      (Rt ⊢ wp frame (wpE (defs₀ (F := F)) Sc.𝒱₀ (V d (cV L) (jV L)) none) Set.univ j Q) →
      Entails' P (wp frame (wpE (defs₀ (F := F)) Sc.𝒱₀ (V d (cV L) (jV L)) none) Set.univ T Q))
    (h2 : ¬c → Entails' P Re)
    (h3 : (if c then Rt else Re) ⊢ wp frame (wpE (defs₀ (F := F)) Sc.𝒱₀ (V d (cV L) (jV L)) none) Set.univ J Q) :
    Entails' P (wp frame (wpE (defs₀ (F := F)) Sc.𝒱₀ (V d (cV L) (jV L)) none) Set.univ (if c then T else J) Q) := by
  by_cases hc : c
  · rw [if_pos hc]; rw [if_pos hc] at h3; exact h1 hc J rfl h3
  · rw [if_neg hc]; rw [if_neg hc] at h3; exact (show P ⊢ Re from h2 hc).trans h3

/-- A slot buffer refilled by a copy of the window at offsets `o` of the array `A` at contents `Xd`. -/
def refillOf {κ' : Kind} {sp' : Space} (A : Memref sig .scVector .hbm S8x192x224x224 .f32) (Xd : A.view.ty.Contents (Elt F)) (o : Fin 4 → ℕ)
    (hin : ∀ a, o a + S1x48x1x224.size a ≤ S8x192x224x224.size a) (bv : View sig κ' sp' S48x224 .f32) (prev : bv.ty.Contents (Elt F)) : bv.ty.Contents (Elt F) :=
  View.write (Elt F) bv prev (ReadAs.same.apply (View.read (Elt F)
    ((A.slice (Rect.unit (s := S8x192x224x224) o S1x48x1x224.size hin) (fun _ => rfl)).squeeze S48x224 squeezes_S1x48x1x224_S48x224).view Xd)) Finset.univ

/-- The part's state between its guarded regions: the accumulators as files, slot 0 refilled and in flight, slot 1 landed. -/
def st92 (qa qb : PosShare TreeShare) (d : Dev nD) (L : grid1.Coords) (O : CellTallies nD τ sig (HIx 1)) (Wx : Waits sig (HIx 1))
    (k : Fin k1_t1_loop.trips)
    (g0 : Buf (Elt F) ((V d (cV L) (jV L)).loc cc1_scratch0)) (g1 : Buf (Elt F) ((V d (cV L) (jV L)).loc cc1_scratch1))
    (g2 : Buf (Elt F) ((V d (cV L) (jV L)).loc cc1_scratch2)) (g3 : Buf (Elt F) ((V d (cV L) (jV L)).loc cc1_scratch3))
    (w5 w6 : Fin 7 → Fin 2 → Vec F S1x1x16 .f32) : sProp 𝕄 :=
  iprop(Transfers.MayWaits (V d (cV L) (jV L)) (none : HIx 1) O ∗ accHeld d L w5 w6
    ∗ (∃ (G0 : Buf (Elt F) ((V d (cV L) (jV L)).loc cc1_scratch0)) (G1 : Buf (Elt F) ((V d (cV L) (jV L)).loc cc1_scratch1)),
        flying0 X0 X1 qa d L (k1_off19 L k) (k1_off19_inb L k (cond8_all k)) G0 G1
          ∗ ⌜G0 = refillOf a0V (X0 d) (k1_off19 L k) (k1_off19_inb L k (cond8_all k)) (b0V).view g0⌝
          ∗ ⌜G1 = refillOf a1V (X1 d) (k1_off19 L k) (k1_off19_inb L k (cond8_all k)) (b1V).view g1⌝)
    ∗ landed1 X0 X1 qb d L g2 g3 ∗ owes (V d (cV L) (jV L)) O Wx)

/-- The two register files. -/
abbrev FilesF (F : FTy → Type) : Type := (Fin 7 → Fin 2 → Vec F S1x1x16 .f32) × (Fin 7 → Fin 2 → Vec F S1x1x16 .f32)

/-- A lane group's flag as the program tests it. -/
abbrev flagB (v : BitVec 1) : Prop := (Scalar.cmpi .ne (Scalar.extui v : BitVec 32) 0#32) = 1#1

/-- Lane group 0's region of this part on the files. -/
def reg9_0 (d : Dev nD) (L : grid1.Coords) (g2 : Buf (Elt F) ((V d (cV L) (jV L)).loc cc1_scratch2)) (g3 : Buf (Elt F) ((V d (cV L) (jV L)).loc cc1_scratch3)) (v : BitVec 1) (st : FilesF F) : FilesF F :=
  filesUpd (flagB v) st.1 st.2 0 (sumsV_t9 d L g2 g3 (initOf st.1 st.2 0) k1_t9_loop.trips)

/-- Lane group 1's region of this part on the files. -/
def reg9_1 (d : Dev nD) (L : grid1.Coords) (g2 : Buf (Elt F) ((V d (cV L) (jV L)).loc cc1_scratch2)) (g3 : Buf (Elt F) ((V d (cV L) (jV L)).loc cc1_scratch3)) (v : BitVec 1) (st : FilesF F) : FilesF F :=
  filesUpd (flagB v) st.1 st.2 1 (sumsV_t10 d L g2 g3 (initOf st.1 st.2 1) k1_t10_loop.trips)

/-- Lane group 2's region of this part on the files. -/
def reg9_2 (d : Dev nD) (L : grid1.Coords) (g2 : Buf (Elt F) ((V d (cV L) (jV L)).loc cc1_scratch2)) (g3 : Buf (Elt F) ((V d (cV L) (jV L)).loc cc1_scratch3)) (v : BitVec 1) (st : FilesF F) : FilesF F :=
  filesUpd (flagB v) st.1 st.2 2 (sumsV_t11 d L g2 g3 (initOf st.1 st.2 2) k1_t11_loop.trips)

/-- Lane group 3's region of this part on the files. -/
def reg9_3 (d : Dev nD) (L : grid1.Coords) (g2 : Buf (Elt F) ((V d (cV L) (jV L)).loc cc1_scratch2)) (g3 : Buf (Elt F) ((V d (cV L) (jV L)).loc cc1_scratch3)) (v : BitVec 1) (st : FilesF F) : FilesF F :=
  filesUpd (flagB v) st.1 st.2 3 (sumsV_t12 d L g2 g3 (initOf st.1 st.2 3) k1_t12_loop.trips)

/-- Lane group 4's region of this part on the files. -/
def reg9_4 (d : Dev nD) (L : grid1.Coords) (g2 : Buf (Elt F) ((V d (cV L) (jV L)).loc cc1_scratch2)) (g3 : Buf (Elt F) ((V d (cV L) (jV L)).loc cc1_scratch3)) (v : BitVec 1) (st : FilesF F) : FilesF F :=
  filesUpd (flagB v) st.1 st.2 4 (sumsV_t13 d L g2 g3 (initOf st.1 st.2 4) k1_t13_loop.trips)

/-- Lane group 5's region of this part on the files. -/
def reg9_5 (d : Dev nD) (L : grid1.Coords) (g2 : Buf (Elt F) ((V d (cV L) (jV L)).loc cc1_scratch2)) (g3 : Buf (Elt F) ((V d (cV L) (jV L)).loc cc1_scratch3)) (v : BitVec 1) (st : FilesF F) : FilesF F :=
  filesUpd (flagB v) st.1 st.2 5 (sumsV_t14 d L g2 g3 (initOf st.1 st.2 5) k1_t14_loop.trips)

/-- Lane group 6's region of this part on the files. -/
def reg9_6 (d : Dev nD) (L : grid1.Coords) (g2 : Buf (Elt F) ((V d (cV L) (jV L)).loc cc1_scratch2)) (g3 : Buf (Elt F) ((V d (cV L) (jV L)).loc cc1_scratch3)) (v : BitVec 1) (st : FilesF F) : FilesF F :=
  filesUpd (flagB v) st.1 st.2 6 (sumsV_t15 d L g2 g3 (initOf st.1 st.2 6) k1_t15_loop.trips)

/-- The files after the part's seven regions. -/
def files92 (d : Dev nD) (L : grid1.Coords) (g2 : Buf (Elt F) ((V d (cV L) (jV L)).loc cc1_scratch2)) (g3 : Buf (Elt F) ((V d (cV L) (jV L)).loc cc1_scratch3))
    (v87 v90 v93 v96 v99 v102 v105 : BitVec 1) (w5 w6 : Fin 7 → Fin 2 → Vec F S1x1x16 .f32) : FilesF F :=
  (reg9_6 d L g2 g3 v105 (reg9_5 d L g2 g3 v102 (reg9_4 d L g2 g3 v99 (reg9_3 d L g2 g3 v96 (reg9_2 d L g2 g3 v93 (reg9_1 d L g2 g3 v90 (reg9_0 d L g2 g3 v87 (w5, w6))))))))

set_option maxHeartbeats 4000000 in
theorem part92N (qa qb : PosShare TreeShare) (O : CellTallies nD τ sig (HIx 1)) (Wx : Waits sig (HIx 1))
    (oB : Fin 4 → ℕ) (hB : (∀ a, oB a + S1x48x1x224.size a ≤ S8x192x224x224.size a))
    (g0 : Buf (Elt F) ((V d (cV L) (jV L)).loc cc1_scratch0)) (g1 : Buf (Elt F) ((V d (cV L) (jV L)).loc cc1_scratch1))
    (g2 : Buf (Elt F) ((V d (cV L) (jV L)).loc cc1_scratch2)) (g3 : Buf (Elt F) ((V d (cV L) (jV L)).loc cc1_scratch3))
    (w5 w6 : Fin 7 → Fin 2 → Vec F S1x1x16 .f32)
    (v3 : BitVec 32) (k : Fin k1_t1_loop.trips) (arg18 : BitVec 32) (v87 v90 v93 v96 v99 v102 v105 : BitVec 1) (c0 : BitVec 32) :
    iprop(Transfers.MayWaits (V d (cV L) (jV L)) (none : HIx 1) O ∗ accHeld d L w5 w6 ∗ landed0 X0 X1 qa d L g0 g1 ∗ flying1 X0 X1 qb d L oB hB g2 g3 ∗ owes (V d (cV L) (jV L)) O Wx)
      ⊢ wp frame (wpE (defs₀ (F := F)) Sc.𝒱₀ (V d (cV L) (jV L)) none) Set.univ (k1_part92 L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 v3 k arg18 v87 v90 v93 v96 v99 v102 v105 c0)
          (fun _ => st92 X0 X1 qa qb d L O (insert (SemLoc.dma (⟨6, by decide⟩ : DmaSem sig), (default : HIx 1)) (insert (SemLoc.dma (⟨5, by decide⟩ : DmaSem sig), (default : HIx 1)) Wx)) k g0 g1 g2 g3 (files92 d L g2 g3 v87 v90 v93 v96 v99 v102 v105 w5 w6).1 (files92 d L g2 g3 v87 v90 v93 v96 v99 v102 v105 w5 w6).2) := by
  simp only [k1_part92_eq_skeleton]; unfold k1_part92_skel
  unfold accHeld landed0 flying1
  iintro ⟨#Hmw, ⟨%c5, %c6, Hb5, Hb6, %hc5, %hc6⟩, ⟨HF3_dst, HF4_dst, H0a, H1a, HF3, HF4⟩, ⟨HF5, H0b, HF6, H1b⟩, HO⟩
  have h8 := cond8_all k
  sl_exec
  refine' ite_cutB d L (st92 X0 X1 qa qb d L O (insert (SemLoc.dma (⟨6, by decide⟩ : DmaSem sig), (default : HIx 1)) (insert (SemLoc.dma (⟨5, by decide⟩ : DmaSem sig), (default : HIx 1)) Wx)) k g0 g1 g2 g3 (reg9_0 d L g2 g3 v87 (w5, w6)).1 (reg9_0 d L g2 g3 v87 (w5, w6)).2) (st92 X0 X1 qa qb d L O (insert (SemLoc.dma (⟨6, by decide⟩ : DmaSem sig), (default : HIx 1)) (insert (SemLoc.dma (⟨5, by decide⟩ : DmaSem sig), (default : HIx 1)) Wx)) k g0 g1 g2 g3 (reg9_0 d L g2 g3 v87 (w5, w6)).1 (reg9_0 d L g2 g3 v87 (w5, w6)).2) ?h1_1 ?h2_1 ?h3_1
  case h1_1 =>
    intro hc j hj hJ
    rw [← hj]
    sl_exec
    iapply hJ
    unfold st92 accHeld flying0 landed1
    isplitr; · iexact Hmw
    isplitl [Hb5 Hb6]
    · iexists _, _
      isplitl [Hb5]; · iexact Hb5
      isplitl [Hb6]; · iexact Hb6
      isplitr <;> ipureintro
      · sl_unfold_run_names
        have hp : flagB v87 := hc
        obtain ⟨e50, e51⟩ := readAt_region (b5V).view c5 (w5, w6).1 hc5 0 (by decide) inb_S7x2x16_S1x1x16_0_0_0 inb_S7x2x16_S1x1x16_0_1_0
        obtain ⟨e60, e61⟩ := readAt_region (b6V).view c6 (w5, w6).2 hc6 0 (by decide) inb_S7x2x16_S1x1x16_0_0_0 inb_S7x2x16_S1x1x16_0_1_0
        rw [e50, e51, e60, e61]
        refine Eq.trans ?_ (read_region (b5V).view c5 (w5, w6).1 hc5 (flagB v87) 0 (by decide) inb_S7x2x16_S1x1x16_0_0_0 inb_S7x2x16_S1x1x16_0_1_0 _ _)
        rw [if_pos hp]
        rfl
      · sl_unfold_run_names
        have hp : flagB v87 := hc
        obtain ⟨e50, e51⟩ := readAt_region (b5V).view c5 (w5, w6).1 hc5 0 (by decide) inb_S7x2x16_S1x1x16_0_0_0 inb_S7x2x16_S1x1x16_0_1_0
        obtain ⟨e60, e61⟩ := readAt_region (b6V).view c6 (w5, w6).2 hc6 0 (by decide) inb_S7x2x16_S1x1x16_0_0_0 inb_S7x2x16_S1x1x16_0_1_0
        rw [e50, e51, e60, e61]
        refine Eq.trans ?_ (read_region (b6V).view c6 (w5, w6).2 hc6 (flagB v87) 0 (by decide) inb_S7x2x16_S1x1x16_0_0_0 inb_S7x2x16_S1x1x16_0_1_0 _ _)
        rw [if_pos hp]
        rfl
    isplitl [HF3 H0a HF4 H1a]
    · iexists _, _
      isplitl [HF3 H0a HF4 H1a]
      · isplitl [HF3]; · iexact HF3
        isplitl [H0a]; · iexact H0a
        isplitl [HF4]; · iexact HF4
        iexact H1a
      isplitr <;> ipureintro
      · first | exact hG0 | rfl
      · first | exact hG1 | rfl
    isplitl [HF5_dst HF6_dst H0b H1b HF5 HF6]
    · isplitl [HF5_dst]; · iexact HF5_dst
      isplitl [HF6_dst]; · iexact HF6_dst
      isplitl [H0b]; · iexact H0b
      isplitl [H1b]; · iexact H1b
      isplitl [HF5]; · iexact HF5
      iexact HF6
    iexact HO
  case h2_1 =>
    intro hc
    unfold st92 accHeld flying0 landed1
    isplitr; · iexact Hmw
    isplitl [Hb5 Hb6]
    · iexists _, _
      isplitl [Hb5]; · iexact Hb5
      isplitl [Hb6]; · iexact Hb6
      isplitr <;> ipureintro
      · have hn : ¬ flagB v87 := hc
        simp only [reg9_0, filesUpd, regionUpd, if_neg hn]
        exact hc5
      · have hn : ¬ flagB v87 := hc
        simp only [reg9_0, filesUpd, regionUpd, if_neg hn]
        exact hc6
    isplitl [HF3 H0a HF4 H1a]
    · iexists _, _
      isplitl [HF3 H0a HF4 H1a]
      · isplitl [HF3]; · iexact HF3
        isplitl [H0a]; · iexact H0a
        isplitl [HF4]; · iexact HF4
        iexact H1a
      isplitr <;> ipureintro
      · first | exact hG0 | rfl
      · first | exact hG1 | rfl
    isplitl [HF5_dst HF6_dst H0b H1b HF5 HF6]
    · isplitl [HF5_dst]; · iexact HF5_dst
      isplitl [HF6_dst]; · iexact HF6_dst
      isplitl [H0b]; · iexact H0b
      isplitl [H1b]; · iexact H1b
      isplitl [HF5]; · iexact HF5
      iexact HF6
    iexact HO
  rw [ite_self]
  unfold st92 accHeld flying0 landed1
  iintro ⟨#Hmw, ⟨%c5, %c6, Hb5, Hb6, %hc5, %hc6⟩, ⟨%G0, %G1, ⟨HF3, H0a, HF4, H1a⟩, %hG0, %hG1⟩, ⟨HF5_dst, HF6_dst, H0b, H1b, HF5, HF6⟩, HO⟩
  clear h8
  sl_exec
  refine' ite_cutB d L (st92 X0 X1 qa qb d L O (insert (SemLoc.dma (⟨6, by decide⟩ : DmaSem sig), (default : HIx 1)) (insert (SemLoc.dma (⟨5, by decide⟩ : DmaSem sig), (default : HIx 1)) Wx)) k g0 g1 g2 g3 (reg9_1 d L g2 g3 v90 (reg9_0 d L g2 g3 v87 (w5, w6))).1 (reg9_1 d L g2 g3 v90 (reg9_0 d L g2 g3 v87 (w5, w6))).2) (st92 X0 X1 qa qb d L O (insert (SemLoc.dma (⟨6, by decide⟩ : DmaSem sig), (default : HIx 1)) (insert (SemLoc.dma (⟨5, by decide⟩ : DmaSem sig), (default : HIx 1)) Wx)) k g0 g1 g2 g3 (reg9_1 d L g2 g3 v90 (reg9_0 d L g2 g3 v87 (w5, w6))).1 (reg9_1 d L g2 g3 v90 (reg9_0 d L g2 g3 v87 (w5, w6))).2) ?h1_2 ?h2_2 ?h3_2
  case h1_2 =>
    intro hc j hj hJ
    rw [← hj]
    sl_exec
    iapply hJ
    unfold st92 accHeld flying0 landed1
    isplitr; · iexact Hmw
    isplitl [Hb5 Hb6]
    · iexists _, _
      isplitl [Hb5]; · iexact Hb5
      isplitl [Hb6]; · iexact Hb6
      isplitr <;> ipureintro
      · sl_unfold_run_names
        have hp : flagB v90 := hc
        obtain ⟨e50, e51⟩ := readAt_region (b5V).view c5 (reg9_0 d L g2 g3 v87 (w5, w6)).1 hc5 1 (by decide) inb_S7x2x16_S1x1x16_1_0_0 inb_S7x2x16_S1x1x16_1_1_0
        obtain ⟨e60, e61⟩ := readAt_region (b6V).view c6 (reg9_0 d L g2 g3 v87 (w5, w6)).2 hc6 1 (by decide) inb_S7x2x16_S1x1x16_1_0_0 inb_S7x2x16_S1x1x16_1_1_0
        rw [e50, e51, e60, e61]
        refine Eq.trans ?_ (read_region (b5V).view c5 (reg9_0 d L g2 g3 v87 (w5, w6)).1 hc5 (flagB v90) 1 (by decide) inb_S7x2x16_S1x1x16_1_0_0 inb_S7x2x16_S1x1x16_1_1_0 _ _)
        rw [if_pos hp]
        rfl
      · sl_unfold_run_names
        have hp : flagB v90 := hc
        obtain ⟨e50, e51⟩ := readAt_region (b5V).view c5 (reg9_0 d L g2 g3 v87 (w5, w6)).1 hc5 1 (by decide) inb_S7x2x16_S1x1x16_1_0_0 inb_S7x2x16_S1x1x16_1_1_0
        obtain ⟨e60, e61⟩ := readAt_region (b6V).view c6 (reg9_0 d L g2 g3 v87 (w5, w6)).2 hc6 1 (by decide) inb_S7x2x16_S1x1x16_1_0_0 inb_S7x2x16_S1x1x16_1_1_0
        rw [e50, e51, e60, e61]
        refine Eq.trans ?_ (read_region (b6V).view c6 (reg9_0 d L g2 g3 v87 (w5, w6)).2 hc6 (flagB v90) 1 (by decide) inb_S7x2x16_S1x1x16_1_0_0 inb_S7x2x16_S1x1x16_1_1_0 _ _)
        rw [if_pos hp]
        rfl
    isplitl [HF3 H0a HF4 H1a]
    · iexists _, _
      isplitl [HF3 H0a HF4 H1a]
      · isplitl [HF3]; · iexact HF3
        isplitl [H0a]; · iexact H0a
        isplitl [HF4]; · iexact HF4
        iexact H1a
      isplitr <;> ipureintro
      · first | exact hG0 | rfl
      · first | exact hG1 | rfl
    isplitl [HF5_dst HF6_dst H0b H1b HF5 HF6]
    · isplitl [HF5_dst]; · iexact HF5_dst
      isplitl [HF6_dst]; · iexact HF6_dst
      isplitl [H0b]; · iexact H0b
      isplitl [H1b]; · iexact H1b
      isplitl [HF5]; · iexact HF5
      iexact HF6
    iexact HO
  case h2_2 =>
    intro hc
    unfold st92 accHeld flying0 landed1
    isplitr; · iexact Hmw
    isplitl [Hb5 Hb6]
    · iexists _, _
      isplitl [Hb5]; · iexact Hb5
      isplitl [Hb6]; · iexact Hb6
      isplitr <;> ipureintro
      · have hn : ¬ flagB v90 := hc
        simp only [reg9_1, filesUpd, regionUpd, if_neg hn]
        exact hc5
      · have hn : ¬ flagB v90 := hc
        simp only [reg9_1, filesUpd, regionUpd, if_neg hn]
        exact hc6
    isplitl [HF3 H0a HF4 H1a]
    · iexists _, _
      isplitl [HF3 H0a HF4 H1a]
      · isplitl [HF3]; · iexact HF3
        isplitl [H0a]; · iexact H0a
        isplitl [HF4]; · iexact HF4
        iexact H1a
      isplitr <;> ipureintro
      · first | exact hG0 | rfl
      · first | exact hG1 | rfl
    isplitl [HF5_dst HF6_dst H0b H1b HF5 HF6]
    · isplitl [HF5_dst]; · iexact HF5_dst
      isplitl [HF6_dst]; · iexact HF6_dst
      isplitl [H0b]; · iexact H0b
      isplitl [H1b]; · iexact H1b
      isplitl [HF5]; · iexact HF5
      iexact HF6
    iexact HO
  rw [ite_self]
  unfold st92 accHeld flying0 landed1
  iintro ⟨#Hmw, ⟨%c5, %c6, Hb5, Hb6, %hc5, %hc6⟩, ⟨%G0, %G1, ⟨HF3, H0a, HF4, H1a⟩, %hG0, %hG1⟩, ⟨HF5_dst, HF6_dst, H0b, H1b, HF5, HF6⟩, HO⟩
  sl_exec
  refine' ite_cutB d L (st92 X0 X1 qa qb d L O (insert (SemLoc.dma (⟨6, by decide⟩ : DmaSem sig), (default : HIx 1)) (insert (SemLoc.dma (⟨5, by decide⟩ : DmaSem sig), (default : HIx 1)) Wx)) k g0 g1 g2 g3 (reg9_2 d L g2 g3 v93 (reg9_1 d L g2 g3 v90 (reg9_0 d L g2 g3 v87 (w5, w6)))).1 (reg9_2 d L g2 g3 v93 (reg9_1 d L g2 g3 v90 (reg9_0 d L g2 g3 v87 (w5, w6)))).2) (st92 X0 X1 qa qb d L O (insert (SemLoc.dma (⟨6, by decide⟩ : DmaSem sig), (default : HIx 1)) (insert (SemLoc.dma (⟨5, by decide⟩ : DmaSem sig), (default : HIx 1)) Wx)) k g0 g1 g2 g3 (reg9_2 d L g2 g3 v93 (reg9_1 d L g2 g3 v90 (reg9_0 d L g2 g3 v87 (w5, w6)))).1 (reg9_2 d L g2 g3 v93 (reg9_1 d L g2 g3 v90 (reg9_0 d L g2 g3 v87 (w5, w6)))).2) ?h1_3 ?h2_3 ?h3_3
  case h1_3 =>
    intro hc j hj hJ
    rw [← hj]
    sl_exec
    iapply hJ
    unfold st92 accHeld flying0 landed1
    isplitr; · iexact Hmw
    isplitl [Hb5 Hb6]
    · iexists _, _
      isplitl [Hb5]; · iexact Hb5
      isplitl [Hb6]; · iexact Hb6
      isplitr <;> ipureintro
      · sl_unfold_run_names
        have hp : flagB v93 := hc
        obtain ⟨e50, e51⟩ := readAt_region (b5V).view c5 (reg9_1 d L g2 g3 v90 (reg9_0 d L g2 g3 v87 (w5, w6))).1 hc5 2 (by decide) inb_S7x2x16_S1x1x16_2_0_0 inb_S7x2x16_S1x1x16_2_1_0
        obtain ⟨e60, e61⟩ := readAt_region (b6V).view c6 (reg9_1 d L g2 g3 v90 (reg9_0 d L g2 g3 v87 (w5, w6))).2 hc6 2 (by decide) inb_S7x2x16_S1x1x16_2_0_0 inb_S7x2x16_S1x1x16_2_1_0
        rw [e50, e51, e60, e61]
        refine Eq.trans ?_ (read_region (b5V).view c5 (reg9_1 d L g2 g3 v90 (reg9_0 d L g2 g3 v87 (w5, w6))).1 hc5 (flagB v93) 2 (by decide) inb_S7x2x16_S1x1x16_2_0_0 inb_S7x2x16_S1x1x16_2_1_0 _ _)
        rw [if_pos hp]
        rfl
      · sl_unfold_run_names
        have hp : flagB v93 := hc
        obtain ⟨e50, e51⟩ := readAt_region (b5V).view c5 (reg9_1 d L g2 g3 v90 (reg9_0 d L g2 g3 v87 (w5, w6))).1 hc5 2 (by decide) inb_S7x2x16_S1x1x16_2_0_0 inb_S7x2x16_S1x1x16_2_1_0
        obtain ⟨e60, e61⟩ := readAt_region (b6V).view c6 (reg9_1 d L g2 g3 v90 (reg9_0 d L g2 g3 v87 (w5, w6))).2 hc6 2 (by decide) inb_S7x2x16_S1x1x16_2_0_0 inb_S7x2x16_S1x1x16_2_1_0
        rw [e50, e51, e60, e61]
        refine Eq.trans ?_ (read_region (b6V).view c6 (reg9_1 d L g2 g3 v90 (reg9_0 d L g2 g3 v87 (w5, w6))).2 hc6 (flagB v93) 2 (by decide) inb_S7x2x16_S1x1x16_2_0_0 inb_S7x2x16_S1x1x16_2_1_0 _ _)
        rw [if_pos hp]
        rfl
    isplitl [HF3 H0a HF4 H1a]
    · iexists _, _
      isplitl [HF3 H0a HF4 H1a]
      · isplitl [HF3]; · iexact HF3
        isplitl [H0a]; · iexact H0a
        isplitl [HF4]; · iexact HF4
        iexact H1a
      isplitr <;> ipureintro
      · first | exact hG0 | rfl
      · first | exact hG1 | rfl
    isplitl [HF5_dst HF6_dst H0b H1b HF5 HF6]
    · isplitl [HF5_dst]; · iexact HF5_dst
      isplitl [HF6_dst]; · iexact HF6_dst
      isplitl [H0b]; · iexact H0b
      isplitl [H1b]; · iexact H1b
      isplitl [HF5]; · iexact HF5
      iexact HF6
    iexact HO
  case h2_3 =>
    intro hc
    unfold st92 accHeld flying0 landed1
    isplitr; · iexact Hmw
    isplitl [Hb5 Hb6]
    · iexists _, _
      isplitl [Hb5]; · iexact Hb5
      isplitl [Hb6]; · iexact Hb6
      isplitr <;> ipureintro
      · have hn : ¬ flagB v93 := hc
        simp only [reg9_2, filesUpd, regionUpd, if_neg hn]
        exact hc5
      · have hn : ¬ flagB v93 := hc
        simp only [reg9_2, filesUpd, regionUpd, if_neg hn]
        exact hc6
    isplitl [HF3 H0a HF4 H1a]
    · iexists _, _
      isplitl [HF3 H0a HF4 H1a]
      · isplitl [HF3]; · iexact HF3
        isplitl [H0a]; · iexact H0a
        isplitl [HF4]; · iexact HF4
        iexact H1a
      isplitr <;> ipureintro
      · first | exact hG0 | rfl
      · first | exact hG1 | rfl
    isplitl [HF5_dst HF6_dst H0b H1b HF5 HF6]
    · isplitl [HF5_dst]; · iexact HF5_dst
      isplitl [HF6_dst]; · iexact HF6_dst
      isplitl [H0b]; · iexact H0b
      isplitl [H1b]; · iexact H1b
      isplitl [HF5]; · iexact HF5
      iexact HF6
    iexact HO
  rw [ite_self]
  unfold st92 accHeld flying0 landed1
  iintro ⟨#Hmw, ⟨%c5, %c6, Hb5, Hb6, %hc5, %hc6⟩, ⟨%G0, %G1, ⟨HF3, H0a, HF4, H1a⟩, %hG0, %hG1⟩, ⟨HF5_dst, HF6_dst, H0b, H1b, HF5, HF6⟩, HO⟩
  sl_exec
  refine' ite_cutB d L (st92 X0 X1 qa qb d L O (insert (SemLoc.dma (⟨6, by decide⟩ : DmaSem sig), (default : HIx 1)) (insert (SemLoc.dma (⟨5, by decide⟩ : DmaSem sig), (default : HIx 1)) Wx)) k g0 g1 g2 g3 (reg9_3 d L g2 g3 v96 (reg9_2 d L g2 g3 v93 (reg9_1 d L g2 g3 v90 (reg9_0 d L g2 g3 v87 (w5, w6))))).1 (reg9_3 d L g2 g3 v96 (reg9_2 d L g2 g3 v93 (reg9_1 d L g2 g3 v90 (reg9_0 d L g2 g3 v87 (w5, w6))))).2) (st92 X0 X1 qa qb d L O (insert (SemLoc.dma (⟨6, by decide⟩ : DmaSem sig), (default : HIx 1)) (insert (SemLoc.dma (⟨5, by decide⟩ : DmaSem sig), (default : HIx 1)) Wx)) k g0 g1 g2 g3 (reg9_3 d L g2 g3 v96 (reg9_2 d L g2 g3 v93 (reg9_1 d L g2 g3 v90 (reg9_0 d L g2 g3 v87 (w5, w6))))).1 (reg9_3 d L g2 g3 v96 (reg9_2 d L g2 g3 v93 (reg9_1 d L g2 g3 v90 (reg9_0 d L g2 g3 v87 (w5, w6))))).2) ?h1_4 ?h2_4 ?h3_4
  case h1_4 =>
    intro hc j hj hJ
    rw [← hj]
    sl_exec
    iapply hJ
    unfold st92 accHeld flying0 landed1
    isplitr; · iexact Hmw
    isplitl [Hb5 Hb6]
    · iexists _, _
      isplitl [Hb5]; · iexact Hb5
      isplitl [Hb6]; · iexact Hb6
      isplitr <;> ipureintro
      · sl_unfold_run_names
        have hp : flagB v96 := hc
        obtain ⟨e50, e51⟩ := readAt_region (b5V).view c5 (reg9_2 d L g2 g3 v93 (reg9_1 d L g2 g3 v90 (reg9_0 d L g2 g3 v87 (w5, w6)))).1 hc5 3 (by decide) inb_S7x2x16_S1x1x16_3_0_0 inb_S7x2x16_S1x1x16_3_1_0
        obtain ⟨e60, e61⟩ := readAt_region (b6V).view c6 (reg9_2 d L g2 g3 v93 (reg9_1 d L g2 g3 v90 (reg9_0 d L g2 g3 v87 (w5, w6)))).2 hc6 3 (by decide) inb_S7x2x16_S1x1x16_3_0_0 inb_S7x2x16_S1x1x16_3_1_0
        rw [e50, e51, e60, e61]
        refine Eq.trans ?_ (read_region (b5V).view c5 (reg9_2 d L g2 g3 v93 (reg9_1 d L g2 g3 v90 (reg9_0 d L g2 g3 v87 (w5, w6)))).1 hc5 (flagB v96) 3 (by decide) inb_S7x2x16_S1x1x16_3_0_0 inb_S7x2x16_S1x1x16_3_1_0 _ _)
        rw [if_pos hp]
        rfl
      · sl_unfold_run_names
        have hp : flagB v96 := hc
        obtain ⟨e50, e51⟩ := readAt_region (b5V).view c5 (reg9_2 d L g2 g3 v93 (reg9_1 d L g2 g3 v90 (reg9_0 d L g2 g3 v87 (w5, w6)))).1 hc5 3 (by decide) inb_S7x2x16_S1x1x16_3_0_0 inb_S7x2x16_S1x1x16_3_1_0
        obtain ⟨e60, e61⟩ := readAt_region (b6V).view c6 (reg9_2 d L g2 g3 v93 (reg9_1 d L g2 g3 v90 (reg9_0 d L g2 g3 v87 (w5, w6)))).2 hc6 3 (by decide) inb_S7x2x16_S1x1x16_3_0_0 inb_S7x2x16_S1x1x16_3_1_0
        rw [e50, e51, e60, e61]
        refine Eq.trans ?_ (read_region (b6V).view c6 (reg9_2 d L g2 g3 v93 (reg9_1 d L g2 g3 v90 (reg9_0 d L g2 g3 v87 (w5, w6)))).2 hc6 (flagB v96) 3 (by decide) inb_S7x2x16_S1x1x16_3_0_0 inb_S7x2x16_S1x1x16_3_1_0 _ _)
        rw [if_pos hp]
        rfl
    isplitl [HF3 H0a HF4 H1a]
    · iexists _, _
      isplitl [HF3 H0a HF4 H1a]
      · isplitl [HF3]; · iexact HF3
        isplitl [H0a]; · iexact H0a
        isplitl [HF4]; · iexact HF4
        iexact H1a
      isplitr <;> ipureintro
      · first | exact hG0 | rfl
      · first | exact hG1 | rfl
    isplitl [HF5_dst HF6_dst H0b H1b HF5 HF6]
    · isplitl [HF5_dst]; · iexact HF5_dst
      isplitl [HF6_dst]; · iexact HF6_dst
      isplitl [H0b]; · iexact H0b
      isplitl [H1b]; · iexact H1b
      isplitl [HF5]; · iexact HF5
      iexact HF6
    iexact HO
  case h2_4 =>
    intro hc
    unfold st92 accHeld flying0 landed1
    isplitr; · iexact Hmw
    isplitl [Hb5 Hb6]
    · iexists _, _
      isplitl [Hb5]; · iexact Hb5
      isplitl [Hb6]; · iexact Hb6
      isplitr <;> ipureintro
      · have hn : ¬ flagB v96 := hc
        simp only [reg9_3, filesUpd, regionUpd, if_neg hn]
        exact hc5
      · have hn : ¬ flagB v96 := hc
        simp only [reg9_3, filesUpd, regionUpd, if_neg hn]
        exact hc6
    isplitl [HF3 H0a HF4 H1a]
    · iexists _, _
      isplitl [HF3 H0a HF4 H1a]
      · isplitl [HF3]; · iexact HF3
        isplitl [H0a]; · iexact H0a
        isplitl [HF4]; · iexact HF4
        iexact H1a
      isplitr <;> ipureintro
      · first | exact hG0 | rfl
      · first | exact hG1 | rfl
    isplitl [HF5_dst HF6_dst H0b H1b HF5 HF6]
    · isplitl [HF5_dst]; · iexact HF5_dst
      isplitl [HF6_dst]; · iexact HF6_dst
      isplitl [H0b]; · iexact H0b
      isplitl [H1b]; · iexact H1b
      isplitl [HF5]; · iexact HF5
      iexact HF6
    iexact HO
  rw [ite_self]
  unfold st92 accHeld flying0 landed1
  iintro ⟨#Hmw, ⟨%c5, %c6, Hb5, Hb6, %hc5, %hc6⟩, ⟨%G0, %G1, ⟨HF3, H0a, HF4, H1a⟩, %hG0, %hG1⟩, ⟨HF5_dst, HF6_dst, H0b, H1b, HF5, HF6⟩, HO⟩
  sl_exec
  refine' ite_cutB d L (st92 X0 X1 qa qb d L O (insert (SemLoc.dma (⟨6, by decide⟩ : DmaSem sig), (default : HIx 1)) (insert (SemLoc.dma (⟨5, by decide⟩ : DmaSem sig), (default : HIx 1)) Wx)) k g0 g1 g2 g3 (reg9_4 d L g2 g3 v99 (reg9_3 d L g2 g3 v96 (reg9_2 d L g2 g3 v93 (reg9_1 d L g2 g3 v90 (reg9_0 d L g2 g3 v87 (w5, w6)))))).1 (reg9_4 d L g2 g3 v99 (reg9_3 d L g2 g3 v96 (reg9_2 d L g2 g3 v93 (reg9_1 d L g2 g3 v90 (reg9_0 d L g2 g3 v87 (w5, w6)))))).2) (st92 X0 X1 qa qb d L O (insert (SemLoc.dma (⟨6, by decide⟩ : DmaSem sig), (default : HIx 1)) (insert (SemLoc.dma (⟨5, by decide⟩ : DmaSem sig), (default : HIx 1)) Wx)) k g0 g1 g2 g3 (reg9_4 d L g2 g3 v99 (reg9_3 d L g2 g3 v96 (reg9_2 d L g2 g3 v93 (reg9_1 d L g2 g3 v90 (reg9_0 d L g2 g3 v87 (w5, w6)))))).1 (reg9_4 d L g2 g3 v99 (reg9_3 d L g2 g3 v96 (reg9_2 d L g2 g3 v93 (reg9_1 d L g2 g3 v90 (reg9_0 d L g2 g3 v87 (w5, w6)))))).2) ?h1_5 ?h2_5 ?h3_5
  case h1_5 =>
    intro hc j hj hJ
    rw [← hj]
    sl_exec
    iapply hJ
    unfold st92 accHeld flying0 landed1
    isplitr; · iexact Hmw
    isplitl [Hb5 Hb6]
    · iexists _, _
      isplitl [Hb5]; · iexact Hb5
      isplitl [Hb6]; · iexact Hb6
      isplitr <;> ipureintro
      · sl_unfold_run_names
        have hp : flagB v99 := hc
        obtain ⟨e50, e51⟩ := readAt_region (b5V).view c5 (reg9_3 d L g2 g3 v96 (reg9_2 d L g2 g3 v93 (reg9_1 d L g2 g3 v90 (reg9_0 d L g2 g3 v87 (w5, w6))))).1 hc5 4 (by decide) inb_S7x2x16_S1x1x16_4_0_0 inb_S7x2x16_S1x1x16_4_1_0
        obtain ⟨e60, e61⟩ := readAt_region (b6V).view c6 (reg9_3 d L g2 g3 v96 (reg9_2 d L g2 g3 v93 (reg9_1 d L g2 g3 v90 (reg9_0 d L g2 g3 v87 (w5, w6))))).2 hc6 4 (by decide) inb_S7x2x16_S1x1x16_4_0_0 inb_S7x2x16_S1x1x16_4_1_0
        rw [e50, e51, e60, e61]
        refine Eq.trans ?_ (read_region (b5V).view c5 (reg9_3 d L g2 g3 v96 (reg9_2 d L g2 g3 v93 (reg9_1 d L g2 g3 v90 (reg9_0 d L g2 g3 v87 (w5, w6))))).1 hc5 (flagB v99) 4 (by decide) inb_S7x2x16_S1x1x16_4_0_0 inb_S7x2x16_S1x1x16_4_1_0 _ _)
        rw [if_pos hp]
        rfl
      · sl_unfold_run_names
        have hp : flagB v99 := hc
        obtain ⟨e50, e51⟩ := readAt_region (b5V).view c5 (reg9_3 d L g2 g3 v96 (reg9_2 d L g2 g3 v93 (reg9_1 d L g2 g3 v90 (reg9_0 d L g2 g3 v87 (w5, w6))))).1 hc5 4 (by decide) inb_S7x2x16_S1x1x16_4_0_0 inb_S7x2x16_S1x1x16_4_1_0
        obtain ⟨e60, e61⟩ := readAt_region (b6V).view c6 (reg9_3 d L g2 g3 v96 (reg9_2 d L g2 g3 v93 (reg9_1 d L g2 g3 v90 (reg9_0 d L g2 g3 v87 (w5, w6))))).2 hc6 4 (by decide) inb_S7x2x16_S1x1x16_4_0_0 inb_S7x2x16_S1x1x16_4_1_0
        rw [e50, e51, e60, e61]
        refine Eq.trans ?_ (read_region (b6V).view c6 (reg9_3 d L g2 g3 v96 (reg9_2 d L g2 g3 v93 (reg9_1 d L g2 g3 v90 (reg9_0 d L g2 g3 v87 (w5, w6))))).2 hc6 (flagB v99) 4 (by decide) inb_S7x2x16_S1x1x16_4_0_0 inb_S7x2x16_S1x1x16_4_1_0 _ _)
        rw [if_pos hp]
        rfl
    isplitl [HF3 H0a HF4 H1a]
    · iexists _, _
      isplitl [HF3 H0a HF4 H1a]
      · isplitl [HF3]; · iexact HF3
        isplitl [H0a]; · iexact H0a
        isplitl [HF4]; · iexact HF4
        iexact H1a
      isplitr <;> ipureintro
      · first | exact hG0 | rfl
      · first | exact hG1 | rfl
    isplitl [HF5_dst HF6_dst H0b H1b HF5 HF6]
    · isplitl [HF5_dst]; · iexact HF5_dst
      isplitl [HF6_dst]; · iexact HF6_dst
      isplitl [H0b]; · iexact H0b
      isplitl [H1b]; · iexact H1b
      isplitl [HF5]; · iexact HF5
      iexact HF6
    iexact HO
  case h2_5 =>
    intro hc
    unfold st92 accHeld flying0 landed1
    isplitr; · iexact Hmw
    isplitl [Hb5 Hb6]
    · iexists _, _
      isplitl [Hb5]; · iexact Hb5
      isplitl [Hb6]; · iexact Hb6
      isplitr <;> ipureintro
      · have hn : ¬ flagB v99 := hc
        simp only [reg9_4, filesUpd, regionUpd, if_neg hn]
        exact hc5
      · have hn : ¬ flagB v99 := hc
        simp only [reg9_4, filesUpd, regionUpd, if_neg hn]
        exact hc6
    isplitl [HF3 H0a HF4 H1a]
    · iexists _, _
      isplitl [HF3 H0a HF4 H1a]
      · isplitl [HF3]; · iexact HF3
        isplitl [H0a]; · iexact H0a
        isplitl [HF4]; · iexact HF4
        iexact H1a
      isplitr <;> ipureintro
      · first | exact hG0 | rfl
      · first | exact hG1 | rfl
    isplitl [HF5_dst HF6_dst H0b H1b HF5 HF6]
    · isplitl [HF5_dst]; · iexact HF5_dst
      isplitl [HF6_dst]; · iexact HF6_dst
      isplitl [H0b]; · iexact H0b
      isplitl [H1b]; · iexact H1b
      isplitl [HF5]; · iexact HF5
      iexact HF6
    iexact HO
  rw [ite_self]
  unfold st92 accHeld flying0 landed1
  iintro ⟨#Hmw, ⟨%c5, %c6, Hb5, Hb6, %hc5, %hc6⟩, ⟨%G0, %G1, ⟨HF3, H0a, HF4, H1a⟩, %hG0, %hG1⟩, ⟨HF5_dst, HF6_dst, H0b, H1b, HF5, HF6⟩, HO⟩
  sl_exec
  refine' ite_cutB d L (st92 X0 X1 qa qb d L O (insert (SemLoc.dma (⟨6, by decide⟩ : DmaSem sig), (default : HIx 1)) (insert (SemLoc.dma (⟨5, by decide⟩ : DmaSem sig), (default : HIx 1)) Wx)) k g0 g1 g2 g3 (reg9_5 d L g2 g3 v102 (reg9_4 d L g2 g3 v99 (reg9_3 d L g2 g3 v96 (reg9_2 d L g2 g3 v93 (reg9_1 d L g2 g3 v90 (reg9_0 d L g2 g3 v87 (w5, w6))))))).1 (reg9_5 d L g2 g3 v102 (reg9_4 d L g2 g3 v99 (reg9_3 d L g2 g3 v96 (reg9_2 d L g2 g3 v93 (reg9_1 d L g2 g3 v90 (reg9_0 d L g2 g3 v87 (w5, w6))))))).2) (st92 X0 X1 qa qb d L O (insert (SemLoc.dma (⟨6, by decide⟩ : DmaSem sig), (default : HIx 1)) (insert (SemLoc.dma (⟨5, by decide⟩ : DmaSem sig), (default : HIx 1)) Wx)) k g0 g1 g2 g3 (reg9_5 d L g2 g3 v102 (reg9_4 d L g2 g3 v99 (reg9_3 d L g2 g3 v96 (reg9_2 d L g2 g3 v93 (reg9_1 d L g2 g3 v90 (reg9_0 d L g2 g3 v87 (w5, w6))))))).1 (reg9_5 d L g2 g3 v102 (reg9_4 d L g2 g3 v99 (reg9_3 d L g2 g3 v96 (reg9_2 d L g2 g3 v93 (reg9_1 d L g2 g3 v90 (reg9_0 d L g2 g3 v87 (w5, w6))))))).2) ?h1_6 ?h2_6 ?h3_6
  case h1_6 =>
    intro hc j hj hJ
    rw [← hj]
    sl_exec
    iapply hJ
    unfold st92 accHeld flying0 landed1
    isplitr; · iexact Hmw
    isplitl [Hb5 Hb6]
    · iexists _, _
      isplitl [Hb5]; · iexact Hb5
      isplitl [Hb6]; · iexact Hb6
      isplitr <;> ipureintro
      · sl_unfold_run_names
        have hp : flagB v102 := hc
        obtain ⟨e50, e51⟩ := readAt_region (b5V).view c5 (reg9_4 d L g2 g3 v99 (reg9_3 d L g2 g3 v96 (reg9_2 d L g2 g3 v93 (reg9_1 d L g2 g3 v90 (reg9_0 d L g2 g3 v87 (w5, w6)))))).1 hc5 5 (by decide) inb_S7x2x16_S1x1x16_5_0_0 inb_S7x2x16_S1x1x16_5_1_0
        obtain ⟨e60, e61⟩ := readAt_region (b6V).view c6 (reg9_4 d L g2 g3 v99 (reg9_3 d L g2 g3 v96 (reg9_2 d L g2 g3 v93 (reg9_1 d L g2 g3 v90 (reg9_0 d L g2 g3 v87 (w5, w6)))))).2 hc6 5 (by decide) inb_S7x2x16_S1x1x16_5_0_0 inb_S7x2x16_S1x1x16_5_1_0
        rw [e50, e51, e60, e61]
        refine Eq.trans ?_ (read_region (b5V).view c5 (reg9_4 d L g2 g3 v99 (reg9_3 d L g2 g3 v96 (reg9_2 d L g2 g3 v93 (reg9_1 d L g2 g3 v90 (reg9_0 d L g2 g3 v87 (w5, w6)))))).1 hc5 (flagB v102) 5 (by decide) inb_S7x2x16_S1x1x16_5_0_0 inb_S7x2x16_S1x1x16_5_1_0 _ _)
        rw [if_pos hp]
        rfl
      · sl_unfold_run_names
        have hp : flagB v102 := hc
        obtain ⟨e50, e51⟩ := readAt_region (b5V).view c5 (reg9_4 d L g2 g3 v99 (reg9_3 d L g2 g3 v96 (reg9_2 d L g2 g3 v93 (reg9_1 d L g2 g3 v90 (reg9_0 d L g2 g3 v87 (w5, w6)))))).1 hc5 5 (by decide) inb_S7x2x16_S1x1x16_5_0_0 inb_S7x2x16_S1x1x16_5_1_0
        obtain ⟨e60, e61⟩ := readAt_region (b6V).view c6 (reg9_4 d L g2 g3 v99 (reg9_3 d L g2 g3 v96 (reg9_2 d L g2 g3 v93 (reg9_1 d L g2 g3 v90 (reg9_0 d L g2 g3 v87 (w5, w6)))))).2 hc6 5 (by decide) inb_S7x2x16_S1x1x16_5_0_0 inb_S7x2x16_S1x1x16_5_1_0
        rw [e50, e51, e60, e61]
        refine Eq.trans ?_ (read_region (b6V).view c6 (reg9_4 d L g2 g3 v99 (reg9_3 d L g2 g3 v96 (reg9_2 d L g2 g3 v93 (reg9_1 d L g2 g3 v90 (reg9_0 d L g2 g3 v87 (w5, w6)))))).2 hc6 (flagB v102) 5 (by decide) inb_S7x2x16_S1x1x16_5_0_0 inb_S7x2x16_S1x1x16_5_1_0 _ _)
        rw [if_pos hp]
        rfl
    isplitl [HF3 H0a HF4 H1a]
    · iexists _, _
      isplitl [HF3 H0a HF4 H1a]
      · isplitl [HF3]; · iexact HF3
        isplitl [H0a]; · iexact H0a
        isplitl [HF4]; · iexact HF4
        iexact H1a
      isplitr <;> ipureintro
      · first | exact hG0 | rfl
      · first | exact hG1 | rfl
    isplitl [HF5_dst HF6_dst H0b H1b HF5 HF6]
    · isplitl [HF5_dst]; · iexact HF5_dst
      isplitl [HF6_dst]; · iexact HF6_dst
      isplitl [H0b]; · iexact H0b
      isplitl [H1b]; · iexact H1b
      isplitl [HF5]; · iexact HF5
      iexact HF6
    iexact HO
  case h2_6 =>
    intro hc
    unfold st92 accHeld flying0 landed1
    isplitr; · iexact Hmw
    isplitl [Hb5 Hb6]
    · iexists _, _
      isplitl [Hb5]; · iexact Hb5
      isplitl [Hb6]; · iexact Hb6
      isplitr <;> ipureintro
      · have hn : ¬ flagB v102 := hc
        simp only [reg9_5, filesUpd, regionUpd, if_neg hn]
        exact hc5
      · have hn : ¬ flagB v102 := hc
        simp only [reg9_5, filesUpd, regionUpd, if_neg hn]
        exact hc6
    isplitl [HF3 H0a HF4 H1a]
    · iexists _, _
      isplitl [HF3 H0a HF4 H1a]
      · isplitl [HF3]; · iexact HF3
        isplitl [H0a]; · iexact H0a
        isplitl [HF4]; · iexact HF4
        iexact H1a
      isplitr <;> ipureintro
      · first | exact hG0 | rfl
      · first | exact hG1 | rfl
    isplitl [HF5_dst HF6_dst H0b H1b HF5 HF6]
    · isplitl [HF5_dst]; · iexact HF5_dst
      isplitl [HF6_dst]; · iexact HF6_dst
      isplitl [H0b]; · iexact H0b
      isplitl [H1b]; · iexact H1b
      isplitl [HF5]; · iexact HF5
      iexact HF6
    iexact HO
  rw [ite_self]
  unfold st92 accHeld flying0 landed1
  iintro ⟨#Hmw, ⟨%c5, %c6, Hb5, Hb6, %hc5, %hc6⟩, ⟨%G0, %G1, ⟨HF3, H0a, HF4, H1a⟩, %hG0, %hG1⟩, ⟨HF5_dst, HF6_dst, H0b, H1b, HF5, HF6⟩, HO⟩
  sl_exec
  refine' ite_cutB d L (st92 X0 X1 qa qb d L O (insert (SemLoc.dma (⟨6, by decide⟩ : DmaSem sig), (default : HIx 1)) (insert (SemLoc.dma (⟨5, by decide⟩ : DmaSem sig), (default : HIx 1)) Wx)) k g0 g1 g2 g3 (reg9_6 d L g2 g3 v105 (reg9_5 d L g2 g3 v102 (reg9_4 d L g2 g3 v99 (reg9_3 d L g2 g3 v96 (reg9_2 d L g2 g3 v93 (reg9_1 d L g2 g3 v90 (reg9_0 d L g2 g3 v87 (w5, w6)))))))).1 (reg9_6 d L g2 g3 v105 (reg9_5 d L g2 g3 v102 (reg9_4 d L g2 g3 v99 (reg9_3 d L g2 g3 v96 (reg9_2 d L g2 g3 v93 (reg9_1 d L g2 g3 v90 (reg9_0 d L g2 g3 v87 (w5, w6)))))))).2) (st92 X0 X1 qa qb d L O (insert (SemLoc.dma (⟨6, by decide⟩ : DmaSem sig), (default : HIx 1)) (insert (SemLoc.dma (⟨5, by decide⟩ : DmaSem sig), (default : HIx 1)) Wx)) k g0 g1 g2 g3 (reg9_6 d L g2 g3 v105 (reg9_5 d L g2 g3 v102 (reg9_4 d L g2 g3 v99 (reg9_3 d L g2 g3 v96 (reg9_2 d L g2 g3 v93 (reg9_1 d L g2 g3 v90 (reg9_0 d L g2 g3 v87 (w5, w6)))))))).1 (reg9_6 d L g2 g3 v105 (reg9_5 d L g2 g3 v102 (reg9_4 d L g2 g3 v99 (reg9_3 d L g2 g3 v96 (reg9_2 d L g2 g3 v93 (reg9_1 d L g2 g3 v90 (reg9_0 d L g2 g3 v87 (w5, w6)))))))).2) ?h1_7 ?h2_7 ?h3_7
  case h1_7 =>
    intro hc j hj hJ
    rw [← hj]
    sl_exec
    iapply hJ
    unfold st92 accHeld flying0 landed1
    isplitr; · iexact Hmw
    isplitl [Hb5 Hb6]
    · iexists _, _
      isplitl [Hb5]; · iexact Hb5
      isplitl [Hb6]; · iexact Hb6
      isplitr <;> ipureintro
      · sl_unfold_run_names
        have hp : flagB v105 := hc
        obtain ⟨e50, e51⟩ := readAt_region (b5V).view c5 (reg9_5 d L g2 g3 v102 (reg9_4 d L g2 g3 v99 (reg9_3 d L g2 g3 v96 (reg9_2 d L g2 g3 v93 (reg9_1 d L g2 g3 v90 (reg9_0 d L g2 g3 v87 (w5, w6))))))).1 hc5 6 (by decide) inb_S7x2x16_S1x1x16_6_0_0 inb_S7x2x16_S1x1x16_6_1_0
        obtain ⟨e60, e61⟩ := readAt_region (b6V).view c6 (reg9_5 d L g2 g3 v102 (reg9_4 d L g2 g3 v99 (reg9_3 d L g2 g3 v96 (reg9_2 d L g2 g3 v93 (reg9_1 d L g2 g3 v90 (reg9_0 d L g2 g3 v87 (w5, w6))))))).2 hc6 6 (by decide) inb_S7x2x16_S1x1x16_6_0_0 inb_S7x2x16_S1x1x16_6_1_0
        rw [e50, e51, e60, e61]
        refine Eq.trans ?_ (read_region (b5V).view c5 (reg9_5 d L g2 g3 v102 (reg9_4 d L g2 g3 v99 (reg9_3 d L g2 g3 v96 (reg9_2 d L g2 g3 v93 (reg9_1 d L g2 g3 v90 (reg9_0 d L g2 g3 v87 (w5, w6))))))).1 hc5 (flagB v105) 6 (by decide) inb_S7x2x16_S1x1x16_6_0_0 inb_S7x2x16_S1x1x16_6_1_0 _ _)
        rw [if_pos hp]
        rfl
      · sl_unfold_run_names
        have hp : flagB v105 := hc
        obtain ⟨e50, e51⟩ := readAt_region (b5V).view c5 (reg9_5 d L g2 g3 v102 (reg9_4 d L g2 g3 v99 (reg9_3 d L g2 g3 v96 (reg9_2 d L g2 g3 v93 (reg9_1 d L g2 g3 v90 (reg9_0 d L g2 g3 v87 (w5, w6))))))).1 hc5 6 (by decide) inb_S7x2x16_S1x1x16_6_0_0 inb_S7x2x16_S1x1x16_6_1_0
        obtain ⟨e60, e61⟩ := readAt_region (b6V).view c6 (reg9_5 d L g2 g3 v102 (reg9_4 d L g2 g3 v99 (reg9_3 d L g2 g3 v96 (reg9_2 d L g2 g3 v93 (reg9_1 d L g2 g3 v90 (reg9_0 d L g2 g3 v87 (w5, w6))))))).2 hc6 6 (by decide) inb_S7x2x16_S1x1x16_6_0_0 inb_S7x2x16_S1x1x16_6_1_0
        rw [e50, e51, e60, e61]
        refine Eq.trans ?_ (read_region (b6V).view c6 (reg9_5 d L g2 g3 v102 (reg9_4 d L g2 g3 v99 (reg9_3 d L g2 g3 v96 (reg9_2 d L g2 g3 v93 (reg9_1 d L g2 g3 v90 (reg9_0 d L g2 g3 v87 (w5, w6))))))).2 hc6 (flagB v105) 6 (by decide) inb_S7x2x16_S1x1x16_6_0_0 inb_S7x2x16_S1x1x16_6_1_0 _ _)
        rw [if_pos hp]
        rfl
    isplitl [HF3 H0a HF4 H1a]
    · iexists _, _
      isplitl [HF3 H0a HF4 H1a]
      · isplitl [HF3]; · iexact HF3
        isplitl [H0a]; · iexact H0a
        isplitl [HF4]; · iexact HF4
        iexact H1a
      isplitr <;> ipureintro
      · first | exact hG0 | rfl
      · first | exact hG1 | rfl
    isplitl [HF5_dst HF6_dst H0b H1b HF5 HF6]
    · isplitl [HF5_dst]; · iexact HF5_dst
      isplitl [HF6_dst]; · iexact HF6_dst
      isplitl [H0b]; · iexact H0b
      isplitl [H1b]; · iexact H1b
      isplitl [HF5]; · iexact HF5
      iexact HF6
    iexact HO
  case h2_7 =>
    intro hc
    unfold st92 accHeld flying0 landed1
    isplitr; · iexact Hmw
    isplitl [Hb5 Hb6]
    · iexists _, _
      isplitl [Hb5]; · iexact Hb5
      isplitl [Hb6]; · iexact Hb6
      isplitr <;> ipureintro
      · have hn : ¬ flagB v105 := hc
        simp only [reg9_6, filesUpd, regionUpd, if_neg hn]
        exact hc5
      · have hn : ¬ flagB v105 := hc
        simp only [reg9_6, filesUpd, regionUpd, if_neg hn]
        exact hc6
    isplitl [HF3 H0a HF4 H1a]
    · iexists _, _
      isplitl [HF3 H0a HF4 H1a]
      · isplitl [HF3]; · iexact HF3
        isplitl [H0a]; · iexact H0a
        isplitl [HF4]; · iexact HF4
        iexact H1a
      isplitr <;> ipureintro
      · first | exact hG0 | rfl
      · first | exact hG1 | rfl
    isplitl [HF5_dst HF6_dst H0b H1b HF5 HF6]
    · isplitl [HF5_dst]; · iexact HF5_dst
      isplitl [HF6_dst]; · iexact HF6_dst
      isplitl [H0b]; · iexact H0b
      isplitl [H1b]; · iexact H1b
      isplitl [HF5]; · iexact HF5
      iexact HF6
    iexact HO
  rw [ite_self]
  unfold st92 accHeld flying0 landed1
  iintro ⟨#Hmw, ⟨%c5, %c6, Hb5, Hb6, %hc5, %hc6⟩, ⟨%G0, %G1, ⟨HF3, H0a, HF4, H1a⟩, %hG0, %hG1⟩, ⟨HF5_dst, HF6_dst, H0b, H1b, HF5, HF6⟩, HO⟩
  sl_exec
  sl_step
  (try unfold st92); (try unfold accHeld); (try unfold flying0); (try unfold landed1)
  isplitr; · iexact Hmw
  isplitl [Hb5 Hb6]
  · iexists _, _
    isplitl [Hb5]; · iexact Hb5
    isplitl [Hb6]; · iexact Hb6
    isplitr <;> ipureintro
    · exact hc5
    · exact hc6
  isplitl [HF3 H0a HF4 H1a]
  · iexists _, _
    isplitl [HF3 H0a HF4 H1a]
    · isplitl [HF3]; · iexact HF3
      isplitl [H0a]; · iexact H0a
      isplitl [HF4]; · iexact HF4
      iexact H1a
    isplitr <;> ipureintro
    · exact hG0
    · exact hG1
  isplitl [HF5_dst HF6_dst H0b H1b HF5 HF6]
  · isplitl [HF5_dst]; · iexact HF5_dst
    isplitl [HF6_dst]; · iexact HF6_dst
    isplitl [H0b]; · iexact H0b
    isplitl [H1b]; · iexact H1b
    isplitl [HF5]; · iexact HF5
    iexact HF6
  iexact HO

end Tile

end Cert.KernelIdeal.ScTileV

end
-- ==== Proof.ScTileVP93NI.lean ====
/-
  The third channel group's part of a row on the accumulators' register files: the second slot's refill, the first slot's
  two waits, and the seven lane groups' guarded regions on the first slot's refilled buffers.
-/
import proofs.«210586_g14980845929080_cont_week2b_1062_66_alg».proof.Proof.ScTileVLoop2I
import proofs.«210586_g14980845929080_cont_week2b_1062_66_alg».proof.Proof.ScTileVAccI
import proofs.«210586_g14980845929080_cont_week2b_1062_66_alg».proof.Proof.ScTileVP91NI
import proofs.«210586_g14980845929080_cont_week2b_1062_66_alg».proof.Proof.Gen.KernelIdeal.Skeleton
import Idealize.ShloMosaic.Lib.Tactic

set_option warn.classDefReducibility false

noncomputable section

namespace Cert.KernelIdeal.ScTileV

open Cert.KernelIdeal.ScTile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ Sc.UU ℕ

local notation "a0V" => (Memref.whole Cert.KernelIdeal.main_arg0_scv : Memref Cert.KernelIdeal.sig Kind.scVector Space.hbm Cert.KernelIdeal.S8x192x224x224 EltTy.f32)
local notation "a1V" => (Memref.whole Cert.KernelIdeal.main_arg1_scv : Memref Cert.KernelIdeal.sig Kind.scVector Space.hbm Cert.KernelIdeal.S8x192x224x224 EltTy.f32)
local notation "mkV" => (Memref.whole Cert.KernelIdeal.main_v0_scv : Memref Cert.KernelIdeal.sig Kind.scVector Space.hbm Cert.KernelIdeal.S8x224x256 EltTy.f32)
local notation "ptV" => (Memref.whole Cert.KernelIdeal.main_v1_scv : Memref Cert.KernelIdeal.sig Kind.scVector Space.hbm Cert.KernelIdeal.S32x32 EltTy.f32)
local notation "b0V" => (Memref.whole Cert.KernelIdeal.cc1_scratch0 : Memref Cert.KernelIdeal.sig Kind.scVector Space.vmem Cert.KernelIdeal.S48x224 EltTy.f32)
local notation "b1V" => (Memref.whole Cert.KernelIdeal.cc1_scratch1 : Memref Cert.KernelIdeal.sig Kind.scVector Space.vmem Cert.KernelIdeal.S48x224 EltTy.f32)
local notation "b2V" => (Memref.whole Cert.KernelIdeal.cc1_scratch2 : Memref Cert.KernelIdeal.sig Kind.scVector Space.vmem Cert.KernelIdeal.S48x224 EltTy.f32)
local notation "b3V" => (Memref.whole Cert.KernelIdeal.cc1_scratch3 : Memref Cert.KernelIdeal.sig Kind.scVector Space.vmem Cert.KernelIdeal.S48x224 EltTy.f32)
local notation "b4V" => (Memref.whole Cert.KernelIdeal.cc1_scratch4 : Memref Cert.KernelIdeal.sig Kind.scVector Space.vmem Cert.KernelIdeal.S8x16x256 EltTy.f32)
local notation "b5V" => (Memref.whole Cert.KernelIdeal.cc1_scratch5 : Memref Cert.KernelIdeal.sig Kind.scVector Space.vmem Cert.KernelIdeal.S7x2x16 EltTy.f32)
local notation "b6V" => (Memref.whole Cert.KernelIdeal.cc1_scratch6 : Memref Cert.KernelIdeal.sig Kind.scVector Space.vmem Cert.KernelIdeal.S7x2x16 EltTy.f32)
local notation "b7V" => (Memref.whole Cert.KernelIdeal.cc1_scratch7 : Memref Cert.KernelIdeal.sig Kind.scVector Space.vmem Cert.KernelIdeal.S32 EltTy.f32)

variable [FloatOps F]

section Tile

variable (X0 : (d : Dev nD) → Buf (Elt F) (a0Loc d)) (X1 : (d : Dev nD) → Buf (Elt F) (a1Loc d))
  (M : (d : Dev nD) → Buf (Elt F) (mkLoc d)) (R0 : (d : Dev nD) → Buf (Elt F) (ptLoc d))
variable (d : Dev nD) (L : grid1.Coords)

/-! ## The files after each region of the part -/

/-- The files after lane group 0's region of the third channel group. -/
def f93_1 (g0 : Buf (Elt F) ((V d (cV L) (jV L)).loc cc1_scratch0)) (g1 : Buf (Elt F) ((V d (cV L) (jV L)).loc cc1_scratch1))
    (w5 w6 : Fin 7 → Fin 2 → Vec F S1x1x16 .f32) (v87 : BitVec 1) :
    (Fin 7 → Fin 2 → Vec F S1x1x16 .f32) × (Fin 7 → Fin 2 → Vec F S1x1x16 .f32) :=
  filesUpd ((Scalar.cmpi .ne (Scalar.extui v87) 0#32) = 1#1) ((w5, w6) : (Fin 7 → Fin 2 → Vec F S1x1x16 .f32) × (Fin 7 → Fin 2 → Vec F S1x1x16 .f32)).1 ((w5, w6) : (Fin 7 → Fin 2 → Vec F S1x1x16 .f32) × (Fin 7 → Fin 2 → Vec F S1x1x16 .f32)).2 0
    (sumsV_t16 d L g0 g1 (initOf ((w5, w6) : (Fin 7 → Fin 2 → Vec F S1x1x16 .f32) × (Fin 7 → Fin 2 → Vec F S1x1x16 .f32)).1 ((w5, w6) : (Fin 7 → Fin 2 → Vec F S1x1x16 .f32) × (Fin 7 → Fin 2 → Vec F S1x1x16 .f32)).2 0) (Scf.trips k1_t16_loop.lb k1_t16_loop.ub k1_t16_loop.st))
/-- The files after lane group 1's region of the third channel group. -/
def f93_2 (g0 : Buf (Elt F) ((V d (cV L) (jV L)).loc cc1_scratch0)) (g1 : Buf (Elt F) ((V d (cV L) (jV L)).loc cc1_scratch1))
    (w5 w6 : Fin 7 → Fin 2 → Vec F S1x1x16 .f32) (v87 v90 : BitVec 1) :
    (Fin 7 → Fin 2 → Vec F S1x1x16 .f32) × (Fin 7 → Fin 2 → Vec F S1x1x16 .f32) :=
  filesUpd ((Scalar.cmpi .ne (Scalar.extui v90) 0#32) = 1#1) (f93_1 d L g0 g1 w5 w6 v87).1 (f93_1 d L g0 g1 w5 w6 v87).2 1
    (sumsV_t17 d L g0 g1 (initOf (f93_1 d L g0 g1 w5 w6 v87).1 (f93_1 d L g0 g1 w5 w6 v87).2 1) (Scf.trips k1_t17_loop.lb k1_t17_loop.ub k1_t17_loop.st))
/-- The files after lane group 2's region of the third channel group. -/
def f93_3 (g0 : Buf (Elt F) ((V d (cV L) (jV L)).loc cc1_scratch0)) (g1 : Buf (Elt F) ((V d (cV L) (jV L)).loc cc1_scratch1))
    (w5 w6 : Fin 7 → Fin 2 → Vec F S1x1x16 .f32) (v87 v90 v93 : BitVec 1) :
    (Fin 7 → Fin 2 → Vec F S1x1x16 .f32) × (Fin 7 → Fin 2 → Vec F S1x1x16 .f32) :=
  filesUpd ((Scalar.cmpi .ne (Scalar.extui v93) 0#32) = 1#1) (f93_2 d L g0 g1 w5 w6 v87 v90).1 (f93_2 d L g0 g1 w5 w6 v87 v90).2 2
    (sumsV_t18 d L g0 g1 (initOf (f93_2 d L g0 g1 w5 w6 v87 v90).1 (f93_2 d L g0 g1 w5 w6 v87 v90).2 2) (Scf.trips k1_t18_loop.lb k1_t18_loop.ub k1_t18_loop.st))
/-- The files after lane group 3's region of the third channel group. -/
def f93_4 (g0 : Buf (Elt F) ((V d (cV L) (jV L)).loc cc1_scratch0)) (g1 : Buf (Elt F) ((V d (cV L) (jV L)).loc cc1_scratch1))
    (w5 w6 : Fin 7 → Fin 2 → Vec F S1x1x16 .f32) (v87 v90 v93 v96 : BitVec 1) :
    (Fin 7 → Fin 2 → Vec F S1x1x16 .f32) × (Fin 7 → Fin 2 → Vec F S1x1x16 .f32) :=
  filesUpd ((Scalar.cmpi .ne (Scalar.extui v96) 0#32) = 1#1) (f93_3 d L g0 g1 w5 w6 v87 v90 v93).1 (f93_3 d L g0 g1 w5 w6 v87 v90 v93).2 3
    (sumsV_t19 d L g0 g1 (initOf (f93_3 d L g0 g1 w5 w6 v87 v90 v93).1 (f93_3 d L g0 g1 w5 w6 v87 v90 v93).2 3) (Scf.trips k1_t19_loop.lb k1_t19_loop.ub k1_t19_loop.st))
/-- The files after lane group 4's region of the third channel group. -/
def f93_5 (g0 : Buf (Elt F) ((V d (cV L) (jV L)).loc cc1_scratch0)) (g1 : Buf (Elt F) ((V d (cV L) (jV L)).loc cc1_scratch1))
    (w5 w6 : Fin 7 → Fin 2 → Vec F S1x1x16 .f32) (v87 v90 v93 v96 v99 : BitVec 1) :
    (Fin 7 → Fin 2 → Vec F S1x1x16 .f32) × (Fin 7 → Fin 2 → Vec F S1x1x16 .f32) :=
  filesUpd ((Scalar.cmpi .ne (Scalar.extui v99) 0#32) = 1#1) (f93_4 d L g0 g1 w5 w6 v87 v90 v93 v96).1 (f93_4 d L g0 g1 w5 w6 v87 v90 v93 v96).2 4
    (sumsV_t20 d L g0 g1 (initOf (f93_4 d L g0 g1 w5 w6 v87 v90 v93 v96).1 (f93_4 d L g0 g1 w5 w6 v87 v90 v93 v96).2 4) (Scf.trips k1_t20_loop.lb k1_t20_loop.ub k1_t20_loop.st))
/-- The files after lane group 5's region of the third channel group. -/
def f93_6 (g0 : Buf (Elt F) ((V d (cV L) (jV L)).loc cc1_scratch0)) (g1 : Buf (Elt F) ((V d (cV L) (jV L)).loc cc1_scratch1))
    (w5 w6 : Fin 7 → Fin 2 → Vec F S1x1x16 .f32) (v87 v90 v93 v96 v99 v102 : BitVec 1) :
    (Fin 7 → Fin 2 → Vec F S1x1x16 .f32) × (Fin 7 → Fin 2 → Vec F S1x1x16 .f32) :=
  filesUpd ((Scalar.cmpi .ne (Scalar.extui v102) 0#32) = 1#1) (f93_5 d L g0 g1 w5 w6 v87 v90 v93 v96 v99).1 (f93_5 d L g0 g1 w5 w6 v87 v90 v93 v96 v99).2 5
    (sumsV_t21 d L g0 g1 (initOf (f93_5 d L g0 g1 w5 w6 v87 v90 v93 v96 v99).1 (f93_5 d L g0 g1 w5 w6 v87 v90 v93 v96 v99).2 5) (Scf.trips k1_t21_loop.lb k1_t21_loop.ub k1_t21_loop.st))
/-- The files after lane group 6's region of the third channel group. -/
def f93_7 (g0 : Buf (Elt F) ((V d (cV L) (jV L)).loc cc1_scratch0)) (g1 : Buf (Elt F) ((V d (cV L) (jV L)).loc cc1_scratch1))
    (w5 w6 : Fin 7 → Fin 2 → Vec F S1x1x16 .f32) (v87 v90 v93 v96 v99 v102 v105 : BitVec 1) :
    (Fin 7 → Fin 2 → Vec F S1x1x16 .f32) × (Fin 7 → Fin 2 → Vec F S1x1x16 .f32) :=
  filesUpd ((Scalar.cmpi .ne (Scalar.extui v105) 0#32) = 1#1) (f93_6 d L g0 g1 w5 w6 v87 v90 v93 v96 v99 v102).1 (f93_6 d L g0 g1 w5 w6 v87 v90 v93 v96 v99 v102).2 6
    (sumsV_t22 d L g0 g1 (initOf (f93_6 d L g0 g1 w5 w6 v87 v90 v93 v96 v99 v102).1 (f93_6 d L g0 g1 w5 w6 v87 v90 v93 v96 v99 v102).2 6) (Scf.trips k1_t22_loop.lb k1_t22_loop.ub k1_t22_loop.st))

set_option maxHeartbeats 16000000 in
/-- THE THIRD CHANNEL GROUP'S PART on the register files: the second slot's refill started, the first slot's refill
    awaited, then the seven regions on the first slot's buffers. -/
theorem part93N (qa qb : PosShare TreeShare) (O : CellTallies nD τ sig (HIx 1)) (Wx : Waits sig (HIx 1)) (k : Fin k1_t1_loop.trips)
    (g0 : Buf (Elt F) ((V d (cV L) (jV L)).loc cc1_scratch0)) (g1 : Buf (Elt F) ((V d (cV L) (jV L)).loc cc1_scratch1))
    (g2 : Buf (Elt F) ((V d (cV L) (jV L)).loc cc1_scratch2)) (g3 : Buf (Elt F) ((V d (cV L) (jV L)).loc cc1_scratch3))
    (w5 w6 : Fin 7 → Fin 2 → Vec F S1x1x16 .f32)
    (v3 arg18 v321 c16 : BitVec 32) (v87 v90 v93 v96 v99 v102 v105 : BitVec 1) :
    cutFA (iprop(flying0 X0 X1 qa d L (k1_off19 L k) (k1_off19_inb L k (cond8_all k)) g0 g1 ∗ landed1 X0 X1 qb d L g2 g3)) d L O Wx (w5, w6)
      ⊢ wp frame (wpE (defs₀ (F := F)) Sc.𝒱₀ (V d (cV L) (jV L)) none) Set.univ
          (k1_part93 L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 v3 k arg18 v87 v90 v93 v96 v99 v102 v105 v321 c16)
          (fun _ => cutFA (iprop(landed0 X0 X1 qa d L g0 g1 ∗ flying1 X0 X1 qb d L (k1_off34 L k) (k1_off34_inb L k (cond16_all k)) (View.write (Elt F) (b2V).view g2 (ReadAs.same.apply (View.read (Elt F) (((a0V).slice (Rect.unit (s := S8x192x224x224) (k1_off34 L k) S1x48x1x224.size (k1_off34_inb L k (cond16_all k))) (fun _ => rfl)).squeeze S48x224 squeezes_S1x48x1x224_S48x224).view (X0 d))) Finset.univ) (View.write (Elt F) (b3V).view g3 (ReadAs.same.apply (View.read (Elt F) (((a1V).slice (Rect.unit (s := S8x192x224x224) (k1_off34 L k) S1x48x1x224.size (k1_off34_inb L k (cond16_all k))) (fun _ => rfl)).squeeze S48x224 squeezes_S1x48x1x224_S48x224).view (X1 d))) Finset.univ))) d L O (insert (SemLoc.dma (⟨4, by decide⟩ : DmaSem sig), (default : HIx 1)) (insert (SemLoc.dma (⟨3, by decide⟩ : DmaSem sig), (default : HIx 1)) Wx)) (f93_7 d L g0 g1 w5 w6 v87 v90 v93 v96 v99 v102 v105)) := by
  simp only [k1_part93_eq_skeleton]; unfold k1_part93_skel
  unfold cutFA accHeld flying0 landed1
  iintro ⟨#Hmw, ⟨%c5_0, %c6_0, Hb5, Hb6, %h5_0, %h6_0⟩, ⟨⟨HF3, H0a, HF4, H1a⟩, ⟨HF5_dst, HF6_dst, H0b, H1b, HF5, HF6⟩⟩, HO⟩
  have h16 := cond16_all k
  sl_exec
  refine' ite_cutA d L (cutFA (iprop(landed0 X0 X1 qa d L g0 g1 ∗ flying1 X0 X1 qb d L (k1_off34 L k) (k1_off34_inb L k (cond16_all k)) (View.write (Elt F) (b2V).view g2 (ReadAs.same.apply (View.read (Elt F) (((a0V).slice (Rect.unit (s := S8x192x224x224) (k1_off34 L k) S1x48x1x224.size (k1_off34_inb L k (cond16_all k))) (fun _ => rfl)).squeeze S48x224 squeezes_S1x48x1x224_S48x224).view (X0 d))) Finset.univ) (View.write (Elt F) (b3V).view g3 (ReadAs.same.apply (View.read (Elt F) (((a1V).slice (Rect.unit (s := S8x192x224x224) (k1_off34 L k) S1x48x1x224.size (k1_off34_inb L k (cond16_all k))) (fun _ => rfl)).squeeze S48x224 squeezes_S1x48x1x224_S48x224).view (X1 d))) Finset.univ))) d L O (insert (SemLoc.dma (⟨4, by decide⟩ : DmaSem sig), (default : HIx 1)) (insert (SemLoc.dma (⟨3, by decide⟩ : DmaSem sig), (default : HIx 1)) Wx)) (f93_1 d L g0 g1 w5 w6 v87)) (cutFA (iprop(landed0 X0 X1 qa d L g0 g1 ∗ flying1 X0 X1 qb d L (k1_off34 L k) (k1_off34_inb L k (cond16_all k)) (View.write (Elt F) (b2V).view g2 (ReadAs.same.apply (View.read (Elt F) (((a0V).slice (Rect.unit (s := S8x192x224x224) (k1_off34 L k) S1x48x1x224.size (k1_off34_inb L k (cond16_all k))) (fun _ => rfl)).squeeze S48x224 squeezes_S1x48x1x224_S48x224).view (X0 d))) Finset.univ) (View.write (Elt F) (b3V).view g3 (ReadAs.same.apply (View.read (Elt F) (((a1V).slice (Rect.unit (s := S8x192x224x224) (k1_off34 L k) S1x48x1x224.size (k1_off34_inb L k (cond16_all k))) (fun _ => rfl)).squeeze S48x224 squeezes_S1x48x1x224_S48x224).view (X1 d))) Finset.univ))) d L O (insert (SemLoc.dma (⟨4, by decide⟩ : DmaSem sig), (default : HIx 1)) (insert (SemLoc.dma (⟨3, by decide⟩ : DmaSem sig), (default : HIx 1)) Wx)) (f93_1 d L g0 g1 w5 w6 v87)) ?h1_1 ?h2_1 ?h3_1
  case h1_1 =>
    intro hc j hj hJ
    rw [← hj]
    sl_exec
    iapply hJ
    unfold cutFA accHeld; unfold landed0 flying1
    isplitr; · iexact Hmw
    isplitl [Hb5 Hb6]
    · iexists _, _
      isplitl [Hb5]; · iexact Hb5
      isplitl [Hb6]; · iexact Hb6
      have hs := step_posA d L c5_0 c6_0 ((w5, w6) : (Fin 7 → Fin 2 → Vec F S1x1x16 .f32) × (Fin 7 → Fin 2 → Vec F S1x1x16 .f32)).1 ((w5, w6) : (Fin 7 → Fin 2 → Vec F S1x1x16 .f32) × (Fin 7 → Fin 2 → Vec F S1x1x16 .f32)).2 h5_0 h6_0 ((Scalar.cmpi .ne (Scalar.extui v87) 0#32) = 1#1) hc (fun i => sumsV_t16 d L g0 g1 i (Scf.trips k1_t16_loop.lb k1_t16_loop.ub k1_t16_loop.st)) 0 (by decide) inb_S7x2x16_S1x1x16_0_0_0 inb_S7x2x16_S1x1x16_0_1_0 _ _ _ _
        (readAt_cells (b5V).view c5_0 _ h5_0 0 0 (by decide) (by decide) inb_S7x2x16_S1x1x16_0_0_0) (readAt_cells (b5V).view c5_0 _ h5_0 0 1 (by decide) (by decide) inb_S7x2x16_S1x1x16_0_1_0)
        (readAt_cells (b6V).view c6_0 _ h6_0 0 0 (by decide) (by decide) inb_S7x2x16_S1x1x16_0_0_0) (readAt_cells (b6V).view c6_0 _ h6_0 0 1 (by decide) (by decide) inb_S7x2x16_S1x1x16_0_1_0)
      isplitr
      · ipureintro; exact hs.1
      · ipureintro; exact hs.2
    isplitl [HF3_dst HF4_dst H0a H1a HF3 HF4 HF5 H0b HF6 H1b]
    · isplitl [HF3_dst HF4_dst H0a H1a HF3 HF4]
      · isplitl [HF3_dst]; · iexact HF3_dst
        isplitl [HF4_dst]; · iexact HF4_dst
        sl_close
      isplitl [HF5]; · iexact HF5
      isplitl [H0b]; · iexact H0b
      isplitl [HF6]; · iexact HF6
      iexact H1b
    iexact HO
  case h2_1 =>
    intro hc
    unfold cutFA accHeld; unfold landed0 flying1
    isplitr; · iexact Hmw
    isplitl [Hb5 Hb6]
    · iexists c5_0, c6_0
      isplitl [Hb5]; · iexact Hb5
      isplitl [Hb6]; · iexact Hb6
      isplitr
      · ipureintro; exact h5_0.trans (congrArg cells (filesUpd_negA1 (show ¬ ((Scalar.cmpi .ne (Scalar.extui v87) 0#32) = 1#1) from hc) _ _ _ _).symm)
      · ipureintro; exact h6_0.trans (congrArg cells (filesUpd_negA2 (show ¬ ((Scalar.cmpi .ne (Scalar.extui v87) 0#32) = 1#1) from hc) _ _ _ _).symm)
    isplitl [HF3_dst HF4_dst H0a H1a HF3 HF4 HF5 H0b HF6 H1b]
    · isplitl [HF3_dst HF4_dst H0a H1a HF3 HF4]
      · isplitl [HF3_dst]; · iexact HF3_dst
        isplitl [HF4_dst]; · iexact HF4_dst
        sl_close
      isplitl [HF5]; · iexact HF5
      isplitl [H0b]; · iexact H0b
      isplitl [HF6]; · iexact HF6
      iexact H1b
    iexact HO
  rw [ite_self]; unfold cutFA accHeld; unfold landed0 flying1
  iintro ⟨#Hmw, ⟨%c5_1, %c6_1, Hb5, Hb6, %h5_1, %h6_1⟩, ⟨⟨HF3_dst, HF4_dst, H0a, H1a, HF3, HF4⟩, ⟨HF5, H0b, HF6, H1b⟩⟩, HO⟩
  sl_exec
  refine' ite_cutA d L (cutFA (iprop(landed0 X0 X1 qa d L g0 g1 ∗ flying1 X0 X1 qb d L (k1_off34 L k) (k1_off34_inb L k (cond16_all k)) (View.write (Elt F) (b2V).view g2 (ReadAs.same.apply (View.read (Elt F) (((a0V).slice (Rect.unit (s := S8x192x224x224) (k1_off34 L k) S1x48x1x224.size (k1_off34_inb L k (cond16_all k))) (fun _ => rfl)).squeeze S48x224 squeezes_S1x48x1x224_S48x224).view (X0 d))) Finset.univ) (View.write (Elt F) (b3V).view g3 (ReadAs.same.apply (View.read (Elt F) (((a1V).slice (Rect.unit (s := S8x192x224x224) (k1_off34 L k) S1x48x1x224.size (k1_off34_inb L k (cond16_all k))) (fun _ => rfl)).squeeze S48x224 squeezes_S1x48x1x224_S48x224).view (X1 d))) Finset.univ))) d L O (insert (SemLoc.dma (⟨4, by decide⟩ : DmaSem sig), (default : HIx 1)) (insert (SemLoc.dma (⟨3, by decide⟩ : DmaSem sig), (default : HIx 1)) Wx)) (f93_2 d L g0 g1 w5 w6 v87 v90)) (cutFA (iprop(landed0 X0 X1 qa d L g0 g1 ∗ flying1 X0 X1 qb d L (k1_off34 L k) (k1_off34_inb L k (cond16_all k)) (View.write (Elt F) (b2V).view g2 (ReadAs.same.apply (View.read (Elt F) (((a0V).slice (Rect.unit (s := S8x192x224x224) (k1_off34 L k) S1x48x1x224.size (k1_off34_inb L k (cond16_all k))) (fun _ => rfl)).squeeze S48x224 squeezes_S1x48x1x224_S48x224).view (X0 d))) Finset.univ) (View.write (Elt F) (b3V).view g3 (ReadAs.same.apply (View.read (Elt F) (((a1V).slice (Rect.unit (s := S8x192x224x224) (k1_off34 L k) S1x48x1x224.size (k1_off34_inb L k (cond16_all k))) (fun _ => rfl)).squeeze S48x224 squeezes_S1x48x1x224_S48x224).view (X1 d))) Finset.univ))) d L O (insert (SemLoc.dma (⟨4, by decide⟩ : DmaSem sig), (default : HIx 1)) (insert (SemLoc.dma (⟨3, by decide⟩ : DmaSem sig), (default : HIx 1)) Wx)) (f93_2 d L g0 g1 w5 w6 v87 v90)) ?h1_2 ?h2_2 ?h3_2
  case h1_2 =>
    intro hc j hj hJ
    rw [← hj]
    sl_exec
    iapply hJ
    unfold cutFA accHeld; unfold landed0 flying1
    isplitr; · iexact Hmw
    isplitl [Hb5 Hb6]
    · iexists _, _
      isplitl [Hb5]; · iexact Hb5
      isplitl [Hb6]; · iexact Hb6
      have hs := step_posA d L c5_1 c6_1 (f93_1 d L g0 g1 w5 w6 v87).1 (f93_1 d L g0 g1 w5 w6 v87).2 h5_1 h6_1 ((Scalar.cmpi .ne (Scalar.extui v90) 0#32) = 1#1) hc (fun i => sumsV_t17 d L g0 g1 i (Scf.trips k1_t17_loop.lb k1_t17_loop.ub k1_t17_loop.st)) 1 (by decide) inb_S7x2x16_S1x1x16_1_0_0 inb_S7x2x16_S1x1x16_1_1_0 _ _ _ _
        (readAt_cells (b5V).view c5_1 _ h5_1 1 0 (by decide) (by decide) inb_S7x2x16_S1x1x16_1_0_0) (readAt_cells (b5V).view c5_1 _ h5_1 1 1 (by decide) (by decide) inb_S7x2x16_S1x1x16_1_1_0)
        (readAt_cells (b6V).view c6_1 _ h6_1 1 0 (by decide) (by decide) inb_S7x2x16_S1x1x16_1_0_0) (readAt_cells (b6V).view c6_1 _ h6_1 1 1 (by decide) (by decide) inb_S7x2x16_S1x1x16_1_1_0)
      isplitr
      · ipureintro; exact hs.1
      · ipureintro; exact hs.2
    isplitl [HF3_dst HF4_dst H0a H1a HF3 HF4 HF5 H0b HF6 H1b]
    · isplitl [HF3_dst HF4_dst H0a H1a HF3 HF4]
      · isplitl [HF3_dst]; · iexact HF3_dst
        isplitl [HF4_dst]; · iexact HF4_dst
        sl_close
      isplitl [HF5]; · iexact HF5
      isplitl [H0b]; · iexact H0b
      isplitl [HF6]; · iexact HF6
      iexact H1b
    iexact HO
  case h2_2 =>
    intro hc
    unfold cutFA accHeld; unfold landed0 flying1
    isplitr; · iexact Hmw
    isplitl [Hb5 Hb6]
    · iexists c5_1, c6_1
      isplitl [Hb5]; · iexact Hb5
      isplitl [Hb6]; · iexact Hb6
      isplitr
      · ipureintro; exact h5_1.trans (congrArg cells (filesUpd_negA1 (show ¬ ((Scalar.cmpi .ne (Scalar.extui v90) 0#32) = 1#1) from hc) _ _ _ _).symm)
      · ipureintro; exact h6_1.trans (congrArg cells (filesUpd_negA2 (show ¬ ((Scalar.cmpi .ne (Scalar.extui v90) 0#32) = 1#1) from hc) _ _ _ _).symm)
    isplitl [HF3_dst HF4_dst H0a H1a HF3 HF4 HF5 H0b HF6 H1b]
    · isplitl [HF3_dst HF4_dst H0a H1a HF3 HF4]
      · isplitl [HF3_dst]; · iexact HF3_dst
        isplitl [HF4_dst]; · iexact HF4_dst
        sl_close
      isplitl [HF5]; · iexact HF5
      isplitl [H0b]; · iexact H0b
      isplitl [HF6]; · iexact HF6
      iexact H1b
    iexact HO
  rw [ite_self]; unfold cutFA accHeld; unfold landed0 flying1
  iintro ⟨#Hmw, ⟨%c5_2, %c6_2, Hb5, Hb6, %h5_2, %h6_2⟩, ⟨⟨HF3_dst, HF4_dst, H0a, H1a, HF3, HF4⟩, ⟨HF5, H0b, HF6, H1b⟩⟩, HO⟩
  sl_exec
  refine' ite_cutA d L (cutFA (iprop(landed0 X0 X1 qa d L g0 g1 ∗ flying1 X0 X1 qb d L (k1_off34 L k) (k1_off34_inb L k (cond16_all k)) (View.write (Elt F) (b2V).view g2 (ReadAs.same.apply (View.read (Elt F) (((a0V).slice (Rect.unit (s := S8x192x224x224) (k1_off34 L k) S1x48x1x224.size (k1_off34_inb L k (cond16_all k))) (fun _ => rfl)).squeeze S48x224 squeezes_S1x48x1x224_S48x224).view (X0 d))) Finset.univ) (View.write (Elt F) (b3V).view g3 (ReadAs.same.apply (View.read (Elt F) (((a1V).slice (Rect.unit (s := S8x192x224x224) (k1_off34 L k) S1x48x1x224.size (k1_off34_inb L k (cond16_all k))) (fun _ => rfl)).squeeze S48x224 squeezes_S1x48x1x224_S48x224).view (X1 d))) Finset.univ))) d L O (insert (SemLoc.dma (⟨4, by decide⟩ : DmaSem sig), (default : HIx 1)) (insert (SemLoc.dma (⟨3, by decide⟩ : DmaSem sig), (default : HIx 1)) Wx)) (f93_3 d L g0 g1 w5 w6 v87 v90 v93)) (cutFA (iprop(landed0 X0 X1 qa d L g0 g1 ∗ flying1 X0 X1 qb d L (k1_off34 L k) (k1_off34_inb L k (cond16_all k)) (View.write (Elt F) (b2V).view g2 (ReadAs.same.apply (View.read (Elt F) (((a0V).slice (Rect.unit (s := S8x192x224x224) (k1_off34 L k) S1x48x1x224.size (k1_off34_inb L k (cond16_all k))) (fun _ => rfl)).squeeze S48x224 squeezes_S1x48x1x224_S48x224).view (X0 d))) Finset.univ) (View.write (Elt F) (b3V).view g3 (ReadAs.same.apply (View.read (Elt F) (((a1V).slice (Rect.unit (s := S8x192x224x224) (k1_off34 L k) S1x48x1x224.size (k1_off34_inb L k (cond16_all k))) (fun _ => rfl)).squeeze S48x224 squeezes_S1x48x1x224_S48x224).view (X1 d))) Finset.univ))) d L O (insert (SemLoc.dma (⟨4, by decide⟩ : DmaSem sig), (default : HIx 1)) (insert (SemLoc.dma (⟨3, by decide⟩ : DmaSem sig), (default : HIx 1)) Wx)) (f93_3 d L g0 g1 w5 w6 v87 v90 v93)) ?h1_3 ?h2_3 ?h3_3
  case h1_3 =>
    intro hc j hj hJ
    rw [← hj]
    sl_exec
    iapply hJ
    unfold cutFA accHeld; unfold landed0 flying1
    isplitr; · iexact Hmw
    isplitl [Hb5 Hb6]
    · iexists _, _
      isplitl [Hb5]; · iexact Hb5
      isplitl [Hb6]; · iexact Hb6
      have hs := step_posA d L c5_2 c6_2 (f93_2 d L g0 g1 w5 w6 v87 v90).1 (f93_2 d L g0 g1 w5 w6 v87 v90).2 h5_2 h6_2 ((Scalar.cmpi .ne (Scalar.extui v93) 0#32) = 1#1) hc (fun i => sumsV_t18 d L g0 g1 i (Scf.trips k1_t18_loop.lb k1_t18_loop.ub k1_t18_loop.st)) 2 (by decide) inb_S7x2x16_S1x1x16_2_0_0 inb_S7x2x16_S1x1x16_2_1_0 _ _ _ _
        (readAt_cells (b5V).view c5_2 _ h5_2 2 0 (by decide) (by decide) inb_S7x2x16_S1x1x16_2_0_0) (readAt_cells (b5V).view c5_2 _ h5_2 2 1 (by decide) (by decide) inb_S7x2x16_S1x1x16_2_1_0)
        (readAt_cells (b6V).view c6_2 _ h6_2 2 0 (by decide) (by decide) inb_S7x2x16_S1x1x16_2_0_0) (readAt_cells (b6V).view c6_2 _ h6_2 2 1 (by decide) (by decide) inb_S7x2x16_S1x1x16_2_1_0)
      isplitr
      · ipureintro; exact hs.1
      · ipureintro; exact hs.2
    isplitl [HF3_dst HF4_dst H0a H1a HF3 HF4 HF5 H0b HF6 H1b]
    · isplitl [HF3_dst HF4_dst H0a H1a HF3 HF4]
      · isplitl [HF3_dst]; · iexact HF3_dst
        isplitl [HF4_dst]; · iexact HF4_dst
        sl_close
      isplitl [HF5]; · iexact HF5
      isplitl [H0b]; · iexact H0b
      isplitl [HF6]; · iexact HF6
      iexact H1b
    iexact HO
  case h2_3 =>
    intro hc
    unfold cutFA accHeld; unfold landed0 flying1
    isplitr; · iexact Hmw
    isplitl [Hb5 Hb6]
    · iexists c5_2, c6_2
      isplitl [Hb5]; · iexact Hb5
      isplitl [Hb6]; · iexact Hb6
      isplitr
      · ipureintro; exact h5_2.trans (congrArg cells (filesUpd_negA1 (show ¬ ((Scalar.cmpi .ne (Scalar.extui v93) 0#32) = 1#1) from hc) _ _ _ _).symm)
      · ipureintro; exact h6_2.trans (congrArg cells (filesUpd_negA2 (show ¬ ((Scalar.cmpi .ne (Scalar.extui v93) 0#32) = 1#1) from hc) _ _ _ _).symm)
    isplitl [HF3_dst HF4_dst H0a H1a HF3 HF4 HF5 H0b HF6 H1b]
    · isplitl [HF3_dst HF4_dst H0a H1a HF3 HF4]
      · isplitl [HF3_dst]; · iexact HF3_dst
        isplitl [HF4_dst]; · iexact HF4_dst
        sl_close
      isplitl [HF5]; · iexact HF5
      isplitl [H0b]; · iexact H0b
      isplitl [HF6]; · iexact HF6
      iexact H1b
    iexact HO
  rw [ite_self]; unfold cutFA accHeld; unfold landed0 flying1
  iintro ⟨#Hmw, ⟨%c5_3, %c6_3, Hb5, Hb6, %h5_3, %h6_3⟩, ⟨⟨HF3_dst, HF4_dst, H0a, H1a, HF3, HF4⟩, ⟨HF5, H0b, HF6, H1b⟩⟩, HO⟩
  sl_exec
  refine' ite_cutA d L (cutFA (iprop(landed0 X0 X1 qa d L g0 g1 ∗ flying1 X0 X1 qb d L (k1_off34 L k) (k1_off34_inb L k (cond16_all k)) (View.write (Elt F) (b2V).view g2 (ReadAs.same.apply (View.read (Elt F) (((a0V).slice (Rect.unit (s := S8x192x224x224) (k1_off34 L k) S1x48x1x224.size (k1_off34_inb L k (cond16_all k))) (fun _ => rfl)).squeeze S48x224 squeezes_S1x48x1x224_S48x224).view (X0 d))) Finset.univ) (View.write (Elt F) (b3V).view g3 (ReadAs.same.apply (View.read (Elt F) (((a1V).slice (Rect.unit (s := S8x192x224x224) (k1_off34 L k) S1x48x1x224.size (k1_off34_inb L k (cond16_all k))) (fun _ => rfl)).squeeze S48x224 squeezes_S1x48x1x224_S48x224).view (X1 d))) Finset.univ))) d L O (insert (SemLoc.dma (⟨4, by decide⟩ : DmaSem sig), (default : HIx 1)) (insert (SemLoc.dma (⟨3, by decide⟩ : DmaSem sig), (default : HIx 1)) Wx)) (f93_4 d L g0 g1 w5 w6 v87 v90 v93 v96)) (cutFA (iprop(landed0 X0 X1 qa d L g0 g1 ∗ flying1 X0 X1 qb d L (k1_off34 L k) (k1_off34_inb L k (cond16_all k)) (View.write (Elt F) (b2V).view g2 (ReadAs.same.apply (View.read (Elt F) (((a0V).slice (Rect.unit (s := S8x192x224x224) (k1_off34 L k) S1x48x1x224.size (k1_off34_inb L k (cond16_all k))) (fun _ => rfl)).squeeze S48x224 squeezes_S1x48x1x224_S48x224).view (X0 d))) Finset.univ) (View.write (Elt F) (b3V).view g3 (ReadAs.same.apply (View.read (Elt F) (((a1V).slice (Rect.unit (s := S8x192x224x224) (k1_off34 L k) S1x48x1x224.size (k1_off34_inb L k (cond16_all k))) (fun _ => rfl)).squeeze S48x224 squeezes_S1x48x1x224_S48x224).view (X1 d))) Finset.univ))) d L O (insert (SemLoc.dma (⟨4, by decide⟩ : DmaSem sig), (default : HIx 1)) (insert (SemLoc.dma (⟨3, by decide⟩ : DmaSem sig), (default : HIx 1)) Wx)) (f93_4 d L g0 g1 w5 w6 v87 v90 v93 v96)) ?h1_4 ?h2_4 ?h3_4
  case h1_4 =>
    intro hc j hj hJ
    rw [← hj]
    sl_exec
    iapply hJ
    unfold cutFA accHeld; unfold landed0 flying1
    isplitr; · iexact Hmw
    isplitl [Hb5 Hb6]
    · iexists _, _
      isplitl [Hb5]; · iexact Hb5
      isplitl [Hb6]; · iexact Hb6
      have hs := step_posA d L c5_3 c6_3 (f93_3 d L g0 g1 w5 w6 v87 v90 v93).1 (f93_3 d L g0 g1 w5 w6 v87 v90 v93).2 h5_3 h6_3 ((Scalar.cmpi .ne (Scalar.extui v96) 0#32) = 1#1) hc (fun i => sumsV_t19 d L g0 g1 i (Scf.trips k1_t19_loop.lb k1_t19_loop.ub k1_t19_loop.st)) 3 (by decide) inb_S7x2x16_S1x1x16_3_0_0 inb_S7x2x16_S1x1x16_3_1_0 _ _ _ _
        (readAt_cells (b5V).view c5_3 _ h5_3 3 0 (by decide) (by decide) inb_S7x2x16_S1x1x16_3_0_0) (readAt_cells (b5V).view c5_3 _ h5_3 3 1 (by decide) (by decide) inb_S7x2x16_S1x1x16_3_1_0)
        (readAt_cells (b6V).view c6_3 _ h6_3 3 0 (by decide) (by decide) inb_S7x2x16_S1x1x16_3_0_0) (readAt_cells (b6V).view c6_3 _ h6_3 3 1 (by decide) (by decide) inb_S7x2x16_S1x1x16_3_1_0)
      isplitr
      · ipureintro; exact hs.1
      · ipureintro; exact hs.2
    isplitl [HF3_dst HF4_dst H0a H1a HF3 HF4 HF5 H0b HF6 H1b]
    · isplitl [HF3_dst HF4_dst H0a H1a HF3 HF4]
      · isplitl [HF3_dst]; · iexact HF3_dst
        isplitl [HF4_dst]; · iexact HF4_dst
        sl_close
      isplitl [HF5]; · iexact HF5
      isplitl [H0b]; · iexact H0b
      isplitl [HF6]; · iexact HF6
      iexact H1b
    iexact HO
  case h2_4 =>
    intro hc
    unfold cutFA accHeld; unfold landed0 flying1
    isplitr; · iexact Hmw
    isplitl [Hb5 Hb6]
    · iexists c5_3, c6_3
      isplitl [Hb5]; · iexact Hb5
      isplitl [Hb6]; · iexact Hb6
      isplitr
      · ipureintro; exact h5_3.trans (congrArg cells (filesUpd_negA1 (show ¬ ((Scalar.cmpi .ne (Scalar.extui v96) 0#32) = 1#1) from hc) _ _ _ _).symm)
      · ipureintro; exact h6_3.trans (congrArg cells (filesUpd_negA2 (show ¬ ((Scalar.cmpi .ne (Scalar.extui v96) 0#32) = 1#1) from hc) _ _ _ _).symm)
    isplitl [HF3_dst HF4_dst H0a H1a HF3 HF4 HF5 H0b HF6 H1b]
    · isplitl [HF3_dst HF4_dst H0a H1a HF3 HF4]
      · isplitl [HF3_dst]; · iexact HF3_dst
        isplitl [HF4_dst]; · iexact HF4_dst
        sl_close
      isplitl [HF5]; · iexact HF5
      isplitl [H0b]; · iexact H0b
      isplitl [HF6]; · iexact HF6
      iexact H1b
    iexact HO
  rw [ite_self]; unfold cutFA accHeld; unfold landed0 flying1
  iintro ⟨#Hmw, ⟨%c5_4, %c6_4, Hb5, Hb6, %h5_4, %h6_4⟩, ⟨⟨HF3_dst, HF4_dst, H0a, H1a, HF3, HF4⟩, ⟨HF5, H0b, HF6, H1b⟩⟩, HO⟩
  sl_exec
  refine' ite_cutA d L (cutFA (iprop(landed0 X0 X1 qa d L g0 g1 ∗ flying1 X0 X1 qb d L (k1_off34 L k) (k1_off34_inb L k (cond16_all k)) (View.write (Elt F) (b2V).view g2 (ReadAs.same.apply (View.read (Elt F) (((a0V).slice (Rect.unit (s := S8x192x224x224) (k1_off34 L k) S1x48x1x224.size (k1_off34_inb L k (cond16_all k))) (fun _ => rfl)).squeeze S48x224 squeezes_S1x48x1x224_S48x224).view (X0 d))) Finset.univ) (View.write (Elt F) (b3V).view g3 (ReadAs.same.apply (View.read (Elt F) (((a1V).slice (Rect.unit (s := S8x192x224x224) (k1_off34 L k) S1x48x1x224.size (k1_off34_inb L k (cond16_all k))) (fun _ => rfl)).squeeze S48x224 squeezes_S1x48x1x224_S48x224).view (X1 d))) Finset.univ))) d L O (insert (SemLoc.dma (⟨4, by decide⟩ : DmaSem sig), (default : HIx 1)) (insert (SemLoc.dma (⟨3, by decide⟩ : DmaSem sig), (default : HIx 1)) Wx)) (f93_5 d L g0 g1 w5 w6 v87 v90 v93 v96 v99)) (cutFA (iprop(landed0 X0 X1 qa d L g0 g1 ∗ flying1 X0 X1 qb d L (k1_off34 L k) (k1_off34_inb L k (cond16_all k)) (View.write (Elt F) (b2V).view g2 (ReadAs.same.apply (View.read (Elt F) (((a0V).slice (Rect.unit (s := S8x192x224x224) (k1_off34 L k) S1x48x1x224.size (k1_off34_inb L k (cond16_all k))) (fun _ => rfl)).squeeze S48x224 squeezes_S1x48x1x224_S48x224).view (X0 d))) Finset.univ) (View.write (Elt F) (b3V).view g3 (ReadAs.same.apply (View.read (Elt F) (((a1V).slice (Rect.unit (s := S8x192x224x224) (k1_off34 L k) S1x48x1x224.size (k1_off34_inb L k (cond16_all k))) (fun _ => rfl)).squeeze S48x224 squeezes_S1x48x1x224_S48x224).view (X1 d))) Finset.univ))) d L O (insert (SemLoc.dma (⟨4, by decide⟩ : DmaSem sig), (default : HIx 1)) (insert (SemLoc.dma (⟨3, by decide⟩ : DmaSem sig), (default : HIx 1)) Wx)) (f93_5 d L g0 g1 w5 w6 v87 v90 v93 v96 v99)) ?h1_5 ?h2_5 ?h3_5
  case h1_5 =>
    intro hc j hj hJ
    rw [← hj]
    sl_exec
    iapply hJ
    unfold cutFA accHeld; unfold landed0 flying1
    isplitr; · iexact Hmw
    isplitl [Hb5 Hb6]
    · iexists _, _
      isplitl [Hb5]; · iexact Hb5
      isplitl [Hb6]; · iexact Hb6
      have hs := step_posA d L c5_4 c6_4 (f93_4 d L g0 g1 w5 w6 v87 v90 v93 v96).1 (f93_4 d L g0 g1 w5 w6 v87 v90 v93 v96).2 h5_4 h6_4 ((Scalar.cmpi .ne (Scalar.extui v99) 0#32) = 1#1) hc (fun i => sumsV_t20 d L g0 g1 i (Scf.trips k1_t20_loop.lb k1_t20_loop.ub k1_t20_loop.st)) 4 (by decide) inb_S7x2x16_S1x1x16_4_0_0 inb_S7x2x16_S1x1x16_4_1_0 _ _ _ _
        (readAt_cells (b5V).view c5_4 _ h5_4 4 0 (by decide) (by decide) inb_S7x2x16_S1x1x16_4_0_0) (readAt_cells (b5V).view c5_4 _ h5_4 4 1 (by decide) (by decide) inb_S7x2x16_S1x1x16_4_1_0)
        (readAt_cells (b6V).view c6_4 _ h6_4 4 0 (by decide) (by decide) inb_S7x2x16_S1x1x16_4_0_0) (readAt_cells (b6V).view c6_4 _ h6_4 4 1 (by decide) (by decide) inb_S7x2x16_S1x1x16_4_1_0)
      isplitr
      · ipureintro; exact hs.1
      · ipureintro; exact hs.2
    isplitl [HF3_dst HF4_dst H0a H1a HF3 HF4 HF5 H0b HF6 H1b]
    · isplitl [HF3_dst HF4_dst H0a H1a HF3 HF4]
      · isplitl [HF3_dst]; · iexact HF3_dst
        isplitl [HF4_dst]; · iexact HF4_dst
        sl_close
      isplitl [HF5]; · iexact HF5
      isplitl [H0b]; · iexact H0b
      isplitl [HF6]; · iexact HF6
      iexact H1b
    iexact HO
  case h2_5 =>
    intro hc
    unfold cutFA accHeld; unfold landed0 flying1
    isplitr; · iexact Hmw
    isplitl [Hb5 Hb6]
    · iexists c5_4, c6_4
      isplitl [Hb5]; · iexact Hb5
      isplitl [Hb6]; · iexact Hb6
      isplitr
      · ipureintro; exact h5_4.trans (congrArg cells (filesUpd_negA1 (show ¬ ((Scalar.cmpi .ne (Scalar.extui v99) 0#32) = 1#1) from hc) _ _ _ _).symm)
      · ipureintro; exact h6_4.trans (congrArg cells (filesUpd_negA2 (show ¬ ((Scalar.cmpi .ne (Scalar.extui v99) 0#32) = 1#1) from hc) _ _ _ _).symm)
    isplitl [HF3_dst HF4_dst H0a H1a HF3 HF4 HF5 H0b HF6 H1b]
    · isplitl [HF3_dst HF4_dst H0a H1a HF3 HF4]
      · isplitl [HF3_dst]; · iexact HF3_dst
        isplitl [HF4_dst]; · iexact HF4_dst
        sl_close
      isplitl [HF5]; · iexact HF5
      isplitl [H0b]; · iexact H0b
      isplitl [HF6]; · iexact HF6
      iexact H1b
    iexact HO
  rw [ite_self]; unfold cutFA accHeld; unfold landed0 flying1
  iintro ⟨#Hmw, ⟨%c5_5, %c6_5, Hb5, Hb6, %h5_5, %h6_5⟩, ⟨⟨HF3_dst, HF4_dst, H0a, H1a, HF3, HF4⟩, ⟨HF5, H0b, HF6, H1b⟩⟩, HO⟩
  sl_exec
  refine' ite_cutA d L (cutFA (iprop(landed0 X0 X1 qa d L g0 g1 ∗ flying1 X0 X1 qb d L (k1_off34 L k) (k1_off34_inb L k (cond16_all k)) (View.write (Elt F) (b2V).view g2 (ReadAs.same.apply (View.read (Elt F) (((a0V).slice (Rect.unit (s := S8x192x224x224) (k1_off34 L k) S1x48x1x224.size (k1_off34_inb L k (cond16_all k))) (fun _ => rfl)).squeeze S48x224 squeezes_S1x48x1x224_S48x224).view (X0 d))) Finset.univ) (View.write (Elt F) (b3V).view g3 (ReadAs.same.apply (View.read (Elt F) (((a1V).slice (Rect.unit (s := S8x192x224x224) (k1_off34 L k) S1x48x1x224.size (k1_off34_inb L k (cond16_all k))) (fun _ => rfl)).squeeze S48x224 squeezes_S1x48x1x224_S48x224).view (X1 d))) Finset.univ))) d L O (insert (SemLoc.dma (⟨4, by decide⟩ : DmaSem sig), (default : HIx 1)) (insert (SemLoc.dma (⟨3, by decide⟩ : DmaSem sig), (default : HIx 1)) Wx)) (f93_6 d L g0 g1 w5 w6 v87 v90 v93 v96 v99 v102)) (cutFA (iprop(landed0 X0 X1 qa d L g0 g1 ∗ flying1 X0 X1 qb d L (k1_off34 L k) (k1_off34_inb L k (cond16_all k)) (View.write (Elt F) (b2V).view g2 (ReadAs.same.apply (View.read (Elt F) (((a0V).slice (Rect.unit (s := S8x192x224x224) (k1_off34 L k) S1x48x1x224.size (k1_off34_inb L k (cond16_all k))) (fun _ => rfl)).squeeze S48x224 squeezes_S1x48x1x224_S48x224).view (X0 d))) Finset.univ) (View.write (Elt F) (b3V).view g3 (ReadAs.same.apply (View.read (Elt F) (((a1V).slice (Rect.unit (s := S8x192x224x224) (k1_off34 L k) S1x48x1x224.size (k1_off34_inb L k (cond16_all k))) (fun _ => rfl)).squeeze S48x224 squeezes_S1x48x1x224_S48x224).view (X1 d))) Finset.univ))) d L O (insert (SemLoc.dma (⟨4, by decide⟩ : DmaSem sig), (default : HIx 1)) (insert (SemLoc.dma (⟨3, by decide⟩ : DmaSem sig), (default : HIx 1)) Wx)) (f93_6 d L g0 g1 w5 w6 v87 v90 v93 v96 v99 v102)) ?h1_6 ?h2_6 ?h3_6
  case h1_6 =>
    intro hc j hj hJ
    rw [← hj]
    sl_exec
    iapply hJ
    unfold cutFA accHeld; unfold landed0 flying1
    isplitr; · iexact Hmw
    isplitl [Hb5 Hb6]
    · iexists _, _
      isplitl [Hb5]; · iexact Hb5
      isplitl [Hb6]; · iexact Hb6
      have hs := step_posA d L c5_5 c6_5 (f93_5 d L g0 g1 w5 w6 v87 v90 v93 v96 v99).1 (f93_5 d L g0 g1 w5 w6 v87 v90 v93 v96 v99).2 h5_5 h6_5 ((Scalar.cmpi .ne (Scalar.extui v102) 0#32) = 1#1) hc (fun i => sumsV_t21 d L g0 g1 i (Scf.trips k1_t21_loop.lb k1_t21_loop.ub k1_t21_loop.st)) 5 (by decide) inb_S7x2x16_S1x1x16_5_0_0 inb_S7x2x16_S1x1x16_5_1_0 _ _ _ _
        (readAt_cells (b5V).view c5_5 _ h5_5 5 0 (by decide) (by decide) inb_S7x2x16_S1x1x16_5_0_0) (readAt_cells (b5V).view c5_5 _ h5_5 5 1 (by decide) (by decide) inb_S7x2x16_S1x1x16_5_1_0)
        (readAt_cells (b6V).view c6_5 _ h6_5 5 0 (by decide) (by decide) inb_S7x2x16_S1x1x16_5_0_0) (readAt_cells (b6V).view c6_5 _ h6_5 5 1 (by decide) (by decide) inb_S7x2x16_S1x1x16_5_1_0)
      isplitr
      · ipureintro; exact hs.1
      · ipureintro; exact hs.2
    isplitl [HF3_dst HF4_dst H0a H1a HF3 HF4 HF5 H0b HF6 H1b]
    · isplitl [HF3_dst HF4_dst H0a H1a HF3 HF4]
      · isplitl [HF3_dst]; · iexact HF3_dst
        isplitl [HF4_dst]; · iexact HF4_dst
        sl_close
      isplitl [HF5]; · iexact HF5
      isplitl [H0b]; · iexact H0b
      isplitl [HF6]; · iexact HF6
      iexact H1b
    iexact HO
  case h2_6 =>
    intro hc
    unfold cutFA accHeld; unfold landed0 flying1
    isplitr; · iexact Hmw
    isplitl [Hb5 Hb6]
    · iexists c5_5, c6_5
      isplitl [Hb5]; · iexact Hb5
      isplitl [Hb6]; · iexact Hb6
      isplitr
      · ipureintro; exact h5_5.trans (congrArg cells (filesUpd_negA1 (show ¬ ((Scalar.cmpi .ne (Scalar.extui v102) 0#32) = 1#1) from hc) _ _ _ _).symm)
      · ipureintro; exact h6_5.trans (congrArg cells (filesUpd_negA2 (show ¬ ((Scalar.cmpi .ne (Scalar.extui v102) 0#32) = 1#1) from hc) _ _ _ _).symm)
    isplitl [HF3_dst HF4_dst H0a H1a HF3 HF4 HF5 H0b HF6 H1b]
    · isplitl [HF3_dst HF4_dst H0a H1a HF3 HF4]
      · isplitl [HF3_dst]; · iexact HF3_dst
        isplitl [HF4_dst]; · iexact HF4_dst
        sl_close
      isplitl [HF5]; · iexact HF5
      isplitl [H0b]; · iexact H0b
      isplitl [HF6]; · iexact HF6
      iexact H1b
    iexact HO
  rw [ite_self]; unfold cutFA accHeld; unfold landed0 flying1
  iintro ⟨#Hmw, ⟨%c5_6, %c6_6, Hb5, Hb6, %h5_6, %h6_6⟩, ⟨⟨HF3_dst, HF4_dst, H0a, H1a, HF3, HF4⟩, ⟨HF5, H0b, HF6, H1b⟩⟩, HO⟩
  sl_exec
  refine' ite_cutA d L (cutFA (iprop(landed0 X0 X1 qa d L g0 g1 ∗ flying1 X0 X1 qb d L (k1_off34 L k) (k1_off34_inb L k (cond16_all k)) (View.write (Elt F) (b2V).view g2 (ReadAs.same.apply (View.read (Elt F) (((a0V).slice (Rect.unit (s := S8x192x224x224) (k1_off34 L k) S1x48x1x224.size (k1_off34_inb L k (cond16_all k))) (fun _ => rfl)).squeeze S48x224 squeezes_S1x48x1x224_S48x224).view (X0 d))) Finset.univ) (View.write (Elt F) (b3V).view g3 (ReadAs.same.apply (View.read (Elt F) (((a1V).slice (Rect.unit (s := S8x192x224x224) (k1_off34 L k) S1x48x1x224.size (k1_off34_inb L k (cond16_all k))) (fun _ => rfl)).squeeze S48x224 squeezes_S1x48x1x224_S48x224).view (X1 d))) Finset.univ))) d L O (insert (SemLoc.dma (⟨4, by decide⟩ : DmaSem sig), (default : HIx 1)) (insert (SemLoc.dma (⟨3, by decide⟩ : DmaSem sig), (default : HIx 1)) Wx)) (f93_7 d L g0 g1 w5 w6 v87 v90 v93 v96 v99 v102 v105)) (cutFA (iprop(landed0 X0 X1 qa d L g0 g1 ∗ flying1 X0 X1 qb d L (k1_off34 L k) (k1_off34_inb L k (cond16_all k)) (View.write (Elt F) (b2V).view g2 (ReadAs.same.apply (View.read (Elt F) (((a0V).slice (Rect.unit (s := S8x192x224x224) (k1_off34 L k) S1x48x1x224.size (k1_off34_inb L k (cond16_all k))) (fun _ => rfl)).squeeze S48x224 squeezes_S1x48x1x224_S48x224).view (X0 d))) Finset.univ) (View.write (Elt F) (b3V).view g3 (ReadAs.same.apply (View.read (Elt F) (((a1V).slice (Rect.unit (s := S8x192x224x224) (k1_off34 L k) S1x48x1x224.size (k1_off34_inb L k (cond16_all k))) (fun _ => rfl)).squeeze S48x224 squeezes_S1x48x1x224_S48x224).view (X1 d))) Finset.univ))) d L O (insert (SemLoc.dma (⟨4, by decide⟩ : DmaSem sig), (default : HIx 1)) (insert (SemLoc.dma (⟨3, by decide⟩ : DmaSem sig), (default : HIx 1)) Wx)) (f93_7 d L g0 g1 w5 w6 v87 v90 v93 v96 v99 v102 v105)) ?h1_7 ?h2_7 ?h3_7
  case h1_7 =>
    intro hc j hj hJ
    rw [← hj]
    sl_exec
    iapply hJ
    unfold cutFA accHeld; unfold landed0 flying1
    isplitr; · iexact Hmw
    isplitl [Hb5 Hb6]
    · iexists _, _
      isplitl [Hb5]; · iexact Hb5
      isplitl [Hb6]; · iexact Hb6
      have hs := step_posA d L c5_6 c6_6 (f93_6 d L g0 g1 w5 w6 v87 v90 v93 v96 v99 v102).1 (f93_6 d L g0 g1 w5 w6 v87 v90 v93 v96 v99 v102).2 h5_6 h6_6 ((Scalar.cmpi .ne (Scalar.extui v105) 0#32) = 1#1) hc (fun i => sumsV_t22 d L g0 g1 i (Scf.trips k1_t22_loop.lb k1_t22_loop.ub k1_t22_loop.st)) 6 (by decide) inb_S7x2x16_S1x1x16_6_0_0 inb_S7x2x16_S1x1x16_6_1_0 _ _ _ _
        (readAt_cells (b5V).view c5_6 _ h5_6 6 0 (by decide) (by decide) inb_S7x2x16_S1x1x16_6_0_0) (readAt_cells (b5V).view c5_6 _ h5_6 6 1 (by decide) (by decide) inb_S7x2x16_S1x1x16_6_1_0)
        (readAt_cells (b6V).view c6_6 _ h6_6 6 0 (by decide) (by decide) inb_S7x2x16_S1x1x16_6_0_0) (readAt_cells (b6V).view c6_6 _ h6_6 6 1 (by decide) (by decide) inb_S7x2x16_S1x1x16_6_1_0)
      isplitr
      · ipureintro; exact hs.1
      · ipureintro; exact hs.2
    isplitl [HF3_dst HF4_dst H0a H1a HF3 HF4 HF5 H0b HF6 H1b]
    · isplitl [HF3_dst HF4_dst H0a H1a HF3 HF4]
      · isplitl [HF3_dst]; · iexact HF3_dst
        isplitl [HF4_dst]; · iexact HF4_dst
        sl_close
      isplitl [HF5]; · iexact HF5
      isplitl [H0b]; · iexact H0b
      isplitl [HF6]; · iexact HF6
      iexact H1b
    iexact HO
  case h2_7 =>
    intro hc
    unfold cutFA accHeld; unfold landed0 flying1
    isplitr; · iexact Hmw
    isplitl [Hb5 Hb6]
    · iexists c5_6, c6_6
      isplitl [Hb5]; · iexact Hb5
      isplitl [Hb6]; · iexact Hb6
      isplitr
      · ipureintro; exact h5_6.trans (congrArg cells (filesUpd_negA1 (show ¬ ((Scalar.cmpi .ne (Scalar.extui v105) 0#32) = 1#1) from hc) _ _ _ _).symm)
      · ipureintro; exact h6_6.trans (congrArg cells (filesUpd_negA2 (show ¬ ((Scalar.cmpi .ne (Scalar.extui v105) 0#32) = 1#1) from hc) _ _ _ _).symm)
    isplitl [HF3_dst HF4_dst H0a H1a HF3 HF4 HF5 H0b HF6 H1b]
    · isplitl [HF3_dst HF4_dst H0a H1a HF3 HF4]
      · isplitl [HF3_dst]; · iexact HF3_dst
        isplitl [HF4_dst]; · iexact HF4_dst
        sl_close
      isplitl [HF5]; · iexact HF5
      isplitl [H0b]; · iexact H0b
      isplitl [HF6]; · iexact HF6
      iexact H1b
    iexact HO
  rw [ite_self]; unfold cutFA accHeld; unfold landed0 flying1
  iintro ⟨#Hmw, ⟨%c5_7, %c6_7, Hb5, Hb6, %h5_7, %h6_7⟩, ⟨⟨HF3_dst, HF4_dst, H0a, H1a, HF3, HF4⟩, ⟨HF5, H0b, HF6, H1b⟩⟩, HO⟩
  sl_exec
  sl_step
  isplitr; · iexact Hmw
  isplitl [Hb5 Hb6]
  · iexists c5_7, c6_7
    isplitl [Hb5]; · iexact Hb5
    isplitl [Hb6]; · iexact Hb6
    isplitr
    · ipureintro; exact h5_7
    · ipureintro; exact h6_7
  isplitl [HF3_dst HF4_dst H0a H1a HF3 HF4 HF5 H0b HF6 H1b]
  · isplitl [HF3_dst HF4_dst H0a H1a HF3 HF4]
    · isplitl [HF3_dst]; · iexact HF3_dst
      isplitl [HF4_dst]; · iexact HF4_dst
      sl_close
    isplitl [HF5]; · iexact HF5
    isplitl [H0b]; · iexact H0b
    isplitl [HF6]; · iexact HF6
    iexact H1b
  iexact HO

end Tile

end Cert.KernelIdeal.ScTileV

end
-- ==== Proof.ScTileVP94I.lean ====
/-
  The fourth channel group's part of a row, with the accumulators held as register files: slot 0 refilled for the next
  row when there is one, slot 1's two waits, and the seven lane groups' guarded regions over slot 1's buffers.
-/
import proofs.«210586_g14980845929080_cont_week2b_1062_66_alg».proof.Proof.ScTileVLoop2I
import proofs.«210586_g14980845929080_cont_week2b_1062_66_alg».proof.Proof.ScTileVAccI
import proofs.«210586_g14980845929080_cont_week2b_1062_66_alg».proof.Proof.ScTileVP92I
import proofs.«210586_g14980845929080_cont_week2b_1062_66_alg».proof.Proof.Gen.KernelIdeal.Skeleton
import Idealize.ShloMosaic.Lib.Tactic

set_option warn.classDefReducibility false

noncomputable section

namespace Cert.KernelIdeal.ScTileV

open Cert.KernelIdeal.ScTile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ Sc.UU ℕ

local notation "a0V" => (Memref.whole Cert.KernelIdeal.main_arg0_scv : Memref Cert.KernelIdeal.sig Kind.scVector Space.hbm Cert.KernelIdeal.S8x192x224x224 EltTy.f32)
local notation "a1V" => (Memref.whole Cert.KernelIdeal.main_arg1_scv : Memref Cert.KernelIdeal.sig Kind.scVector Space.hbm Cert.KernelIdeal.S8x192x224x224 EltTy.f32)
local notation "mkV" => (Memref.whole Cert.KernelIdeal.main_v0_scv : Memref Cert.KernelIdeal.sig Kind.scVector Space.hbm Cert.KernelIdeal.S8x224x256 EltTy.f32)
local notation "ptV" => (Memref.whole Cert.KernelIdeal.main_v1_scv : Memref Cert.KernelIdeal.sig Kind.scVector Space.hbm Cert.KernelIdeal.S32x32 EltTy.f32)
local notation "b0V" => (Memref.whole Cert.KernelIdeal.cc1_scratch0 : Memref Cert.KernelIdeal.sig Kind.scVector Space.vmem Cert.KernelIdeal.S48x224 EltTy.f32)
local notation "b1V" => (Memref.whole Cert.KernelIdeal.cc1_scratch1 : Memref Cert.KernelIdeal.sig Kind.scVector Space.vmem Cert.KernelIdeal.S48x224 EltTy.f32)
local notation "b2V" => (Memref.whole Cert.KernelIdeal.cc1_scratch2 : Memref Cert.KernelIdeal.sig Kind.scVector Space.vmem Cert.KernelIdeal.S48x224 EltTy.f32)
local notation "b3V" => (Memref.whole Cert.KernelIdeal.cc1_scratch3 : Memref Cert.KernelIdeal.sig Kind.scVector Space.vmem Cert.KernelIdeal.S48x224 EltTy.f32)
local notation "b4V" => (Memref.whole Cert.KernelIdeal.cc1_scratch4 : Memref Cert.KernelIdeal.sig Kind.scVector Space.vmem Cert.KernelIdeal.S8x16x256 EltTy.f32)
local notation "b5V" => (Memref.whole Cert.KernelIdeal.cc1_scratch5 : Memref Cert.KernelIdeal.sig Kind.scVector Space.vmem Cert.KernelIdeal.S7x2x16 EltTy.f32)
local notation "b6V" => (Memref.whole Cert.KernelIdeal.cc1_scratch6 : Memref Cert.KernelIdeal.sig Kind.scVector Space.vmem Cert.KernelIdeal.S7x2x16 EltTy.f32)
local notation "b7V" => (Memref.whole Cert.KernelIdeal.cc1_scratch7 : Memref Cert.KernelIdeal.sig Kind.scVector Space.vmem Cert.KernelIdeal.S32 EltTy.f32)

variable [FloatOps F]

section Tile

variable (X0 : (d : Dev nD) → Buf (Elt F) (a0Loc d)) (X1 : (d : Dev nD) → Buf (Elt F) (a1Loc d))
  (M : (d : Dev nD) → Buf (Elt F) (mkLoc d)) (R0 : (d : Dev nD) → Buf (Elt F) (ptLoc d))
variable (d : Dev nD) (L : grid1.Coords)
variable (d : Dev nD) (L : grid1.Coords)

/-- Lane group 0's region of this part on the files. -/
def reg23_0 (d : Dev nD) (L : grid1.Coords) (g2 : Buf (Elt F) ((V d (cV L) (jV L)).loc cc1_scratch2)) (g3 : Buf (Elt F) ((V d (cV L) (jV L)).loc cc1_scratch3)) (v : BitVec 1) (st : FilesF F) : FilesF F :=
  filesUpd (flagB v) st.1 st.2 0 (sumsV_t23 d L g2 g3 (initOf st.1 st.2 0) k1_t23_loop.trips)

/-- Lane group 1's region of this part on the files. -/
def reg23_1 (d : Dev nD) (L : grid1.Coords) (g2 : Buf (Elt F) ((V d (cV L) (jV L)).loc cc1_scratch2)) (g3 : Buf (Elt F) ((V d (cV L) (jV L)).loc cc1_scratch3)) (v : BitVec 1) (st : FilesF F) : FilesF F :=
  filesUpd (flagB v) st.1 st.2 1 (sumsV_t24 d L g2 g3 (initOf st.1 st.2 1) k1_t24_loop.trips)

/-- Lane group 2's region of this part on the files. -/
def reg23_2 (d : Dev nD) (L : grid1.Coords) (g2 : Buf (Elt F) ((V d (cV L) (jV L)).loc cc1_scratch2)) (g3 : Buf (Elt F) ((V d (cV L) (jV L)).loc cc1_scratch3)) (v : BitVec 1) (st : FilesF F) : FilesF F :=
  filesUpd (flagB v) st.1 st.2 2 (sumsV_t25 d L g2 g3 (initOf st.1 st.2 2) k1_t25_loop.trips)

/-- Lane group 3's region of this part on the files. -/
def reg23_3 (d : Dev nD) (L : grid1.Coords) (g2 : Buf (Elt F) ((V d (cV L) (jV L)).loc cc1_scratch2)) (g3 : Buf (Elt F) ((V d (cV L) (jV L)).loc cc1_scratch3)) (v : BitVec 1) (st : FilesF F) : FilesF F :=
  filesUpd (flagB v) st.1 st.2 3 (sumsV_t26 d L g2 g3 (initOf st.1 st.2 3) k1_t26_loop.trips)

/-- Lane group 4's region of this part on the files. -/
def reg23_4 (d : Dev nD) (L : grid1.Coords) (g2 : Buf (Elt F) ((V d (cV L) (jV L)).loc cc1_scratch2)) (g3 : Buf (Elt F) ((V d (cV L) (jV L)).loc cc1_scratch3)) (v : BitVec 1) (st : FilesF F) : FilesF F :=
  filesUpd (flagB v) st.1 st.2 4 (sumsV_t27 d L g2 g3 (initOf st.1 st.2 4) k1_t27_loop.trips)

/-- Lane group 5's region of this part on the files. -/
def reg23_5 (d : Dev nD) (L : grid1.Coords) (g2 : Buf (Elt F) ((V d (cV L) (jV L)).loc cc1_scratch2)) (g3 : Buf (Elt F) ((V d (cV L) (jV L)).loc cc1_scratch3)) (v : BitVec 1) (st : FilesF F) : FilesF F :=
  filesUpd (flagB v) st.1 st.2 5 (sumsV_t28 d L g2 g3 (initOf st.1 st.2 5) k1_t28_loop.trips)

/-- Lane group 6's region of this part on the files. -/
def reg23_6 (d : Dev nD) (L : grid1.Coords) (g2 : Buf (Elt F) ((V d (cV L) (jV L)).loc cc1_scratch2)) (g3 : Buf (Elt F) ((V d (cV L) (jV L)).loc cc1_scratch3)) (v : BitVec 1) (st : FilesF F) : FilesF F :=
  filesUpd (flagB v) st.1 st.2 6 (sumsV_t29 d L g2 g3 (initOf st.1 st.2 6) k1_t29_loop.trips)

/-- The part's state between its guarded regions when a row follows: the accumulators as files, slot 0 refilled from the
    next row's first channel group and in flight, slot 1 landed. -/
def st94 (qa qb : PosShare TreeShare) (d : Dev nD) (L : grid1.Coords) (O : CellTallies nD τ sig (HIx 1)) (Wx : Waits sig (HIx 1))
    (k : Fin k1_t1_loop.trips) (hl : k.val + 1 < 16)
    (g0 : Buf (Elt F) ((V d (cV L) (jV L)).loc cc1_scratch0)) (g1 : Buf (Elt F) ((V d (cV L) (jV L)).loc cc1_scratch1))
    (g2 : Buf (Elt F) ((V d (cV L) (jV L)).loc cc1_scratch2)) (g3 : Buf (Elt F) ((V d (cV L) (jV L)).loc cc1_scratch3))
    (w5 w6 : Fin 7 → Fin 2 → Vec F S1x1x16 .f32) : sProp 𝕄 :=
  iprop(Transfers.MayWaits (V d (cV L) (jV L)) (none : HIx 1) O ∗ accHeld d L w5 w6
    ∗ (∃ (G0 : Buf (Elt F) ((V d (cV L) (jV L)).loc cc1_scratch0)) (G1 : Buf (Elt F) ((V d (cV L) (jV L)).loc cc1_scratch1)),
        flying0 X0 X1 qa d L (k1_off49 L k) (k1_off49_inb L k ((cond24_iff k).2 hl)) G0 G1
          ∗ ⌜G0 = refillOf a0V (X0 d) (k1_off49 L k) (k1_off49_inb L k ((cond24_iff k).2 hl)) (b0V).view g0⌝
          ∗ ⌜G1 = refillOf a1V (X1 d) (k1_off49 L k) (k1_off49_inb L k ((cond24_iff k).2 hl)) (b1V).view g1⌝)
    ∗ landed1 X0 X1 qb d L g2 g3 ∗ owes (V d (cV L) (jV L)) O Wx)

/-- The same on the last row: slot 0 is left at rest. -/
def st94L (qa qb : PosShare TreeShare) (d : Dev nD) (L : grid1.Coords) (O : CellTallies nD τ sig (HIx 1)) (Wx : Waits sig (HIx 1))
    (g0 : Buf (Elt F) ((V d (cV L) (jV L)).loc cc1_scratch0)) (g1 : Buf (Elt F) ((V d (cV L) (jV L)).loc cc1_scratch1))
    (g2 : Buf (Elt F) ((V d (cV L) (jV L)).loc cc1_scratch2)) (g3 : Buf (Elt F) ((V d (cV L) (jV L)).loc cc1_scratch3))
    (w5 w6 : Fin 7 → Fin 2 → Vec F S1x1x16 .f32) : sProp 𝕄 :=
  iprop(Transfers.MayWaits (V d (cV L) (jV L)) (none : HIx 1) O ∗ accHeld d L w5 w6 ∗ landed0 X0 X1 qa d L g0 g1 ∗ landed1 X0 X1 qb d L g2 g3 ∗ owes (V d (cV L) (jV L)) O Wx)

/-- The files after the part's seven regions. -/
def files94 (d : Dev nD) (L : grid1.Coords) (g2 : Buf (Elt F) ((V d (cV L) (jV L)).loc cc1_scratch2)) (g3 : Buf (Elt F) ((V d (cV L) (jV L)).loc cc1_scratch3))
    (v87 v90 v93 v96 v99 v102 v105 : BitVec 1) (w5 w6 : Fin 7 → Fin 2 → Vec F S1x1x16 .f32) : FilesF F :=
  (reg23_6 d L g2 g3 v105 (reg23_5 d L g2 g3 v102 (reg23_4 d L g2 g3 v99 (reg23_3 d L g2 g3 v96 (reg23_2 d L g2 g3 v93 (reg23_1 d L g2 g3 v90 (reg23_0 d L g2 g3 v87 (w5, w6))))))))

set_option maxHeartbeats 4000000 in
/-- The fourth channel group's part, when a row follows. -/
theorem part94N (qa qb : PosShare TreeShare) (O : CellTallies nD τ sig (HIx 1)) (Wx : Waits sig (HIx 1))
    (oB : Fin 4 → ℕ) (hB : (∀ a, oB a + S1x48x1x224.size a ≤ S8x192x224x224.size a))
    (g0 : Buf (Elt F) ((V d (cV L) (jV L)).loc cc1_scratch0)) (g1 : Buf (Elt F) ((V d (cV L) (jV L)).loc cc1_scratch1))
    (g2 : Buf (Elt F) ((V d (cV L) (jV L)).loc cc1_scratch2)) (g3 : Buf (Elt F) ((V d (cV L) (jV L)).loc cc1_scratch3))
    (w5 w6 : Fin 7 → Fin 2 → Vec F S1x1x16 .f32)
    (v3 : BitVec 32) (k : Fin k1_t1_loop.trips) (hl : k.val + 1 < 16) (arg18 : BitVec 32) (v87 v90 v93 v96 v99 v102 v105 : BitVec 1) (v347 v349 : BitVec 32) :
    iprop(Transfers.MayWaits (V d (cV L) (jV L)) (none : HIx 1) O ∗ accHeld d L w5 w6 ∗ landed0 X0 X1 qa d L g0 g1 ∗ flying1 X0 X1 qb d L oB hB g2 g3 ∗ owes (V d (cV L) (jV L)) O Wx)
      ⊢ wp frame (wpE (defs₀ (F := F)) Sc.𝒱₀ (V d (cV L) (jV L)) none) Set.univ (k1_part94 L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 v3 k arg18 v87 v90 v93 v96 v99 v102 v105 v347 v349)
          (fun _ => st94 X0 X1 qa qb d L O (insert (SemLoc.dma (⟨6, by decide⟩ : DmaSem sig), (default : HIx 1)) (insert (SemLoc.dma (⟨5, by decide⟩ : DmaSem sig), (default : HIx 1)) Wx)) k hl g0 g1 g2 g3 (files94 d L g2 g3 v87 v90 v93 v96 v99 v102 v105 w5 w6).1 (files94 d L g2 g3 v87 v90 v93 v96 v99 v102 v105 w5 w6).2) := by
  simp only [k1_part94_eq_skeleton]; unfold k1_part94_skel
  unfold accHeld landed0 flying1
  iintro ⟨#Hmw, ⟨%c5, %c6, Hb5, Hb6, %hc5, %hc6⟩, ⟨HF3_dst, HF4_dst, H0a, H1a, HF3, HF4⟩, ⟨HF5, H0b, HF6, H1b⟩, HO⟩
  have h24 : k1_cond24 k = 1#1 := (cond24_iff k).2 hl
  sl_exec
  refine' ite_cutB d L (st94 X0 X1 qa qb d L O (insert (SemLoc.dma (⟨6, by decide⟩ : DmaSem sig), (default : HIx 1)) (insert (SemLoc.dma (⟨5, by decide⟩ : DmaSem sig), (default : HIx 1)) Wx)) k hl g0 g1 g2 g3 (reg23_0 d L g2 g3 v87 (w5, w6)).1 (reg23_0 d L g2 g3 v87 (w5, w6)).2) (st94 X0 X1 qa qb d L O (insert (SemLoc.dma (⟨6, by decide⟩ : DmaSem sig), (default : HIx 1)) (insert (SemLoc.dma (⟨5, by decide⟩ : DmaSem sig), (default : HIx 1)) Wx)) k hl g0 g1 g2 g3 (reg23_0 d L g2 g3 v87 (w5, w6)).1 (reg23_0 d L g2 g3 v87 (w5, w6)).2) ?h1_1 ?h2_1 ?h3_1
  case h1_1 =>
    intro hc j hj hJ
    rw [← hj]
    sl_exec
    iapply hJ
    unfold st94 accHeld flying0 landed1
    isplitr; · iexact Hmw
    isplitl [Hb5 Hb6]
    · iexists _, _
      isplitl [Hb5]; · iexact Hb5
      isplitl [Hb6]; · iexact Hb6
      isplitr <;> ipureintro
      ·
        sl_unfold_run_names
        have hp : flagB v87 := hc
        obtain ⟨e50, e51⟩ := readAt_region (b5V).view c5 (w5, w6).1 hc5 0 (by decide) inb_S7x2x16_S1x1x16_0_0_0 inb_S7x2x16_S1x1x16_0_1_0
        obtain ⟨e60, e61⟩ := readAt_region (b6V).view c6 (w5, w6).2 hc6 0 (by decide) inb_S7x2x16_S1x1x16_0_0_0 inb_S7x2x16_S1x1x16_0_1_0
        rw [e50, e51, e60, e61]
        refine Eq.trans ?_ (read_region (b5V).view c5 (w5, w6).1 hc5 (flagB v87) 0 (by decide) inb_S7x2x16_S1x1x16_0_0_0 inb_S7x2x16_S1x1x16_0_1_0 _ _)
        rw [if_pos hp]
        rfl
      ·
        sl_unfold_run_names
        have hp : flagB v87 := hc
        obtain ⟨e50, e51⟩ := readAt_region (b5V).view c5 (w5, w6).1 hc5 0 (by decide) inb_S7x2x16_S1x1x16_0_0_0 inb_S7x2x16_S1x1x16_0_1_0
        obtain ⟨e60, e61⟩ := readAt_region (b6V).view c6 (w5, w6).2 hc6 0 (by decide) inb_S7x2x16_S1x1x16_0_0_0 inb_S7x2x16_S1x1x16_0_1_0
        rw [e50, e51, e60, e61]
        refine Eq.trans ?_ (read_region (b6V).view c6 (w5, w6).2 hc6 (flagB v87) 0 (by decide) inb_S7x2x16_S1x1x16_0_0_0 inb_S7x2x16_S1x1x16_0_1_0 _ _)
        rw [if_pos hp]
        rfl
    isplitl [HF3 H0a HF4 H1a]
    · iexists _, _
      isplitl [HF3 H0a HF4 H1a]
      · isplitl [HF3]; · iexact HF3
        isplitl [H0a]; · iexact H0a
        isplitl [HF4]; · iexact HF4
        iexact H1a
      isplitr <;> ipureintro
      · first | exact hG0 | rfl
      · first | exact hG1 | rfl
    isplitl [HF5_dst HF6_dst H0b H1b HF5 HF6]
    · isplitl [HF5_dst]; · iexact HF5_dst
      isplitl [HF6_dst]; · iexact HF6_dst
      isplitl [H0b]; · iexact H0b
      isplitl [H1b]; · iexact H1b
      isplitl [HF5]; · iexact HF5
      iexact HF6
    iexact HO
  case h2_1 =>
    intro hc
    unfold st94 accHeld flying0 landed1
    isplitr; · iexact Hmw
    isplitl [Hb5 Hb6]
    · iexists _, _
      isplitl [Hb5]; · iexact Hb5
      isplitl [Hb6]; · iexact Hb6
      isplitr <;> ipureintro
      · have hn : ¬ flagB v87 := hc
        simp only [reg23_0, filesUpd, regionUpd, if_neg hn]
        exact hc5
      · have hn : ¬ flagB v87 := hc
        simp only [reg23_0, filesUpd, regionUpd, if_neg hn]
        exact hc6
    isplitl [HF3 H0a HF4 H1a]
    · iexists _, _
      isplitl [HF3 H0a HF4 H1a]
      · isplitl [HF3]; · iexact HF3
        isplitl [H0a]; · iexact H0a
        isplitl [HF4]; · iexact HF4
        iexact H1a
      isplitr <;> ipureintro
      · first | exact hG0 | rfl
      · first | exact hG1 | rfl
    isplitl [HF5_dst HF6_dst H0b H1b HF5 HF6]
    · isplitl [HF5_dst]; · iexact HF5_dst
      isplitl [HF6_dst]; · iexact HF6_dst
      isplitl [H0b]; · iexact H0b
      isplitl [H1b]; · iexact H1b
      isplitl [HF5]; · iexact HF5
      iexact HF6
    iexact HO
  rw [ite_self]
  unfold st94 accHeld flying0 landed1
  iintro ⟨#Hmw, ⟨%c5, %c6, Hb5, Hb6, %hc5, %hc6⟩, ⟨%G0, %G1, ⟨HF3, H0a, HF4, H1a⟩, %hG0, %hG1⟩, ⟨HF5_dst, HF6_dst, H0b, H1b, HF5, HF6⟩, HO⟩
  clear h24
  sl_exec
  refine' ite_cutB d L (st94 X0 X1 qa qb d L O (insert (SemLoc.dma (⟨6, by decide⟩ : DmaSem sig), (default : HIx 1)) (insert (SemLoc.dma (⟨5, by decide⟩ : DmaSem sig), (default : HIx 1)) Wx)) k hl g0 g1 g2 g3 (reg23_1 d L g2 g3 v90 (reg23_0 d L g2 g3 v87 (w5, w6))).1 (reg23_1 d L g2 g3 v90 (reg23_0 d L g2 g3 v87 (w5, w6))).2) (st94 X0 X1 qa qb d L O (insert (SemLoc.dma (⟨6, by decide⟩ : DmaSem sig), (default : HIx 1)) (insert (SemLoc.dma (⟨5, by decide⟩ : DmaSem sig), (default : HIx 1)) Wx)) k hl g0 g1 g2 g3 (reg23_1 d L g2 g3 v90 (reg23_0 d L g2 g3 v87 (w5, w6))).1 (reg23_1 d L g2 g3 v90 (reg23_0 d L g2 g3 v87 (w5, w6))).2) ?h1_2 ?h2_2 ?h3_2
  case h1_2 =>
    intro hc j hj hJ
    rw [← hj]
    sl_exec
    iapply hJ
    unfold st94 accHeld flying0 landed1
    isplitr; · iexact Hmw
    isplitl [Hb5 Hb6]
    · iexists _, _
      isplitl [Hb5]; · iexact Hb5
      isplitl [Hb6]; · iexact Hb6
      isplitr <;> ipureintro
      ·
        sl_unfold_run_names
        have hp : flagB v90 := hc
        obtain ⟨e50, e51⟩ := readAt_region (b5V).view c5 (reg23_0 d L g2 g3 v87 (w5, w6)).1 hc5 1 (by decide) inb_S7x2x16_S1x1x16_1_0_0 inb_S7x2x16_S1x1x16_1_1_0
        obtain ⟨e60, e61⟩ := readAt_region (b6V).view c6 (reg23_0 d L g2 g3 v87 (w5, w6)).2 hc6 1 (by decide) inb_S7x2x16_S1x1x16_1_0_0 inb_S7x2x16_S1x1x16_1_1_0
        rw [e50, e51, e60, e61]
        refine Eq.trans ?_ (read_region (b5V).view c5 (reg23_0 d L g2 g3 v87 (w5, w6)).1 hc5 (flagB v90) 1 (by decide) inb_S7x2x16_S1x1x16_1_0_0 inb_S7x2x16_S1x1x16_1_1_0 _ _)
        rw [if_pos hp]
        rfl
      ·
        sl_unfold_run_names
        have hp : flagB v90 := hc
        obtain ⟨e50, e51⟩ := readAt_region (b5V).view c5 (reg23_0 d L g2 g3 v87 (w5, w6)).1 hc5 1 (by decide) inb_S7x2x16_S1x1x16_1_0_0 inb_S7x2x16_S1x1x16_1_1_0
        obtain ⟨e60, e61⟩ := readAt_region (b6V).view c6 (reg23_0 d L g2 g3 v87 (w5, w6)).2 hc6 1 (by decide) inb_S7x2x16_S1x1x16_1_0_0 inb_S7x2x16_S1x1x16_1_1_0
        rw [e50, e51, e60, e61]
        refine Eq.trans ?_ (read_region (b6V).view c6 (reg23_0 d L g2 g3 v87 (w5, w6)).2 hc6 (flagB v90) 1 (by decide) inb_S7x2x16_S1x1x16_1_0_0 inb_S7x2x16_S1x1x16_1_1_0 _ _)
        rw [if_pos hp]
        rfl
    isplitl [HF3 H0a HF4 H1a]
    · iexists _, _
      isplitl [HF3 H0a HF4 H1a]
      · isplitl [HF3]; · iexact HF3
        isplitl [H0a]; · iexact H0a
        isplitl [HF4]; · iexact HF4
        iexact H1a
      isplitr <;> ipureintro
      · first | exact hG0 | rfl
      · first | exact hG1 | rfl
    isplitl [HF5_dst HF6_dst H0b H1b HF5 HF6]
    · isplitl [HF5_dst]; · iexact HF5_dst
      isplitl [HF6_dst]; · iexact HF6_dst
      isplitl [H0b]; · iexact H0b
      isplitl [H1b]; · iexact H1b
      isplitl [HF5]; · iexact HF5
      iexact HF6
    iexact HO
  case h2_2 =>
    intro hc
    unfold st94 accHeld flying0 landed1
    isplitr; · iexact Hmw
    isplitl [Hb5 Hb6]
    · iexists _, _
      isplitl [Hb5]; · iexact Hb5
      isplitl [Hb6]; · iexact Hb6
      isplitr <;> ipureintro
      · have hn : ¬ flagB v90 := hc
        simp only [reg23_1, filesUpd, regionUpd, if_neg hn]
        exact hc5
      · have hn : ¬ flagB v90 := hc
        simp only [reg23_1, filesUpd, regionUpd, if_neg hn]
        exact hc6
    isplitl [HF3 H0a HF4 H1a]
    · iexists _, _
      isplitl [HF3 H0a HF4 H1a]
      · isplitl [HF3]; · iexact HF3
        isplitl [H0a]; · iexact H0a
        isplitl [HF4]; · iexact HF4
        iexact H1a
      isplitr <;> ipureintro
      · first | exact hG0 | rfl
      · first | exact hG1 | rfl
    isplitl [HF5_dst HF6_dst H0b H1b HF5 HF6]
    · isplitl [HF5_dst]; · iexact HF5_dst
      isplitl [HF6_dst]; · iexact HF6_dst
      isplitl [H0b]; · iexact H0b
      isplitl [H1b]; · iexact H1b
      isplitl [HF5]; · iexact HF5
      iexact HF6
    iexact HO
  rw [ite_self]
  unfold st94 accHeld flying0 landed1
  iintro ⟨#Hmw, ⟨%c5, %c6, Hb5, Hb6, %hc5, %hc6⟩, ⟨%G0, %G1, ⟨HF3, H0a, HF4, H1a⟩, %hG0, %hG1⟩, ⟨HF5_dst, HF6_dst, H0b, H1b, HF5, HF6⟩, HO⟩
  sl_exec
  refine' ite_cutB d L (st94 X0 X1 qa qb d L O (insert (SemLoc.dma (⟨6, by decide⟩ : DmaSem sig), (default : HIx 1)) (insert (SemLoc.dma (⟨5, by decide⟩ : DmaSem sig), (default : HIx 1)) Wx)) k hl g0 g1 g2 g3 (reg23_2 d L g2 g3 v93 (reg23_1 d L g2 g3 v90 (reg23_0 d L g2 g3 v87 (w5, w6)))).1 (reg23_2 d L g2 g3 v93 (reg23_1 d L g2 g3 v90 (reg23_0 d L g2 g3 v87 (w5, w6)))).2) (st94 X0 X1 qa qb d L O (insert (SemLoc.dma (⟨6, by decide⟩ : DmaSem sig), (default : HIx 1)) (insert (SemLoc.dma (⟨5, by decide⟩ : DmaSem sig), (default : HIx 1)) Wx)) k hl g0 g1 g2 g3 (reg23_2 d L g2 g3 v93 (reg23_1 d L g2 g3 v90 (reg23_0 d L g2 g3 v87 (w5, w6)))).1 (reg23_2 d L g2 g3 v93 (reg23_1 d L g2 g3 v90 (reg23_0 d L g2 g3 v87 (w5, w6)))).2) ?h1_3 ?h2_3 ?h3_3
  case h1_3 =>
    intro hc j hj hJ
    rw [← hj]
    sl_exec
    iapply hJ
    unfold st94 accHeld flying0 landed1
    isplitr; · iexact Hmw
    isplitl [Hb5 Hb6]
    · iexists _, _
      isplitl [Hb5]; · iexact Hb5
      isplitl [Hb6]; · iexact Hb6
      isplitr <;> ipureintro
      ·
        sl_unfold_run_names
        have hp : flagB v93 := hc
        obtain ⟨e50, e51⟩ := readAt_region (b5V).view c5 (reg23_1 d L g2 g3 v90 (reg23_0 d L g2 g3 v87 (w5, w6))).1 hc5 2 (by decide) inb_S7x2x16_S1x1x16_2_0_0 inb_S7x2x16_S1x1x16_2_1_0
        obtain ⟨e60, e61⟩ := readAt_region (b6V).view c6 (reg23_1 d L g2 g3 v90 (reg23_0 d L g2 g3 v87 (w5, w6))).2 hc6 2 (by decide) inb_S7x2x16_S1x1x16_2_0_0 inb_S7x2x16_S1x1x16_2_1_0
        rw [e50, e51, e60, e61]
        refine Eq.trans ?_ (read_region (b5V).view c5 (reg23_1 d L g2 g3 v90 (reg23_0 d L g2 g3 v87 (w5, w6))).1 hc5 (flagB v93) 2 (by decide) inb_S7x2x16_S1x1x16_2_0_0 inb_S7x2x16_S1x1x16_2_1_0 _ _)
        rw [if_pos hp]
        rfl
      ·
        sl_unfold_run_names
        have hp : flagB v93 := hc
        obtain ⟨e50, e51⟩ := readAt_region (b5V).view c5 (reg23_1 d L g2 g3 v90 (reg23_0 d L g2 g3 v87 (w5, w6))).1 hc5 2 (by decide) inb_S7x2x16_S1x1x16_2_0_0 inb_S7x2x16_S1x1x16_2_1_0
        obtain ⟨e60, e61⟩ := readAt_region (b6V).view c6 (reg23_1 d L g2 g3 v90 (reg23_0 d L g2 g3 v87 (w5, w6))).2 hc6 2 (by decide) inb_S7x2x16_S1x1x16_2_0_0 inb_S7x2x16_S1x1x16_2_1_0
        rw [e50, e51, e60, e61]
        refine Eq.trans ?_ (read_region (b6V).view c6 (reg23_1 d L g2 g3 v90 (reg23_0 d L g2 g3 v87 (w5, w6))).2 hc6 (flagB v93) 2 (by decide) inb_S7x2x16_S1x1x16_2_0_0 inb_S7x2x16_S1x1x16_2_1_0 _ _)
        rw [if_pos hp]
        rfl
    isplitl [HF3 H0a HF4 H1a]
    · iexists _, _
      isplitl [HF3 H0a HF4 H1a]
      · isplitl [HF3]; · iexact HF3
        isplitl [H0a]; · iexact H0a
        isplitl [HF4]; · iexact HF4
        iexact H1a
      isplitr <;> ipureintro
      · first | exact hG0 | rfl
      · first | exact hG1 | rfl
    isplitl [HF5_dst HF6_dst H0b H1b HF5 HF6]
    · isplitl [HF5_dst]; · iexact HF5_dst
      isplitl [HF6_dst]; · iexact HF6_dst
      isplitl [H0b]; · iexact H0b
      isplitl [H1b]; · iexact H1b
      isplitl [HF5]; · iexact HF5
      iexact HF6
    iexact HO
  case h2_3 =>
    intro hc
    unfold st94 accHeld flying0 landed1
    isplitr; · iexact Hmw
    isplitl [Hb5 Hb6]
    · iexists _, _
      isplitl [Hb5]; · iexact Hb5
      isplitl [Hb6]; · iexact Hb6
      isplitr <;> ipureintro
      · have hn : ¬ flagB v93 := hc
        simp only [reg23_2, filesUpd, regionUpd, if_neg hn]
        exact hc5
      · have hn : ¬ flagB v93 := hc
        simp only [reg23_2, filesUpd, regionUpd, if_neg hn]
        exact hc6
    isplitl [HF3 H0a HF4 H1a]
    · iexists _, _
      isplitl [HF3 H0a HF4 H1a]
      · isplitl [HF3]; · iexact HF3
        isplitl [H0a]; · iexact H0a
        isplitl [HF4]; · iexact HF4
        iexact H1a
      isplitr <;> ipureintro
      · first | exact hG0 | rfl
      · first | exact hG1 | rfl
    isplitl [HF5_dst HF6_dst H0b H1b HF5 HF6]
    · isplitl [HF5_dst]; · iexact HF5_dst
      isplitl [HF6_dst]; · iexact HF6_dst
      isplitl [H0b]; · iexact H0b
      isplitl [H1b]; · iexact H1b
      isplitl [HF5]; · iexact HF5
      iexact HF6
    iexact HO
  rw [ite_self]
  unfold st94 accHeld flying0 landed1
  iintro ⟨#Hmw, ⟨%c5, %c6, Hb5, Hb6, %hc5, %hc6⟩, ⟨%G0, %G1, ⟨HF3, H0a, HF4, H1a⟩, %hG0, %hG1⟩, ⟨HF5_dst, HF6_dst, H0b, H1b, HF5, HF6⟩, HO⟩
  sl_exec
  refine' ite_cutB d L (st94 X0 X1 qa qb d L O (insert (SemLoc.dma (⟨6, by decide⟩ : DmaSem sig), (default : HIx 1)) (insert (SemLoc.dma (⟨5, by decide⟩ : DmaSem sig), (default : HIx 1)) Wx)) k hl g0 g1 g2 g3 (reg23_3 d L g2 g3 v96 (reg23_2 d L g2 g3 v93 (reg23_1 d L g2 g3 v90 (reg23_0 d L g2 g3 v87 (w5, w6))))).1 (reg23_3 d L g2 g3 v96 (reg23_2 d L g2 g3 v93 (reg23_1 d L g2 g3 v90 (reg23_0 d L g2 g3 v87 (w5, w6))))).2) (st94 X0 X1 qa qb d L O (insert (SemLoc.dma (⟨6, by decide⟩ : DmaSem sig), (default : HIx 1)) (insert (SemLoc.dma (⟨5, by decide⟩ : DmaSem sig), (default : HIx 1)) Wx)) k hl g0 g1 g2 g3 (reg23_3 d L g2 g3 v96 (reg23_2 d L g2 g3 v93 (reg23_1 d L g2 g3 v90 (reg23_0 d L g2 g3 v87 (w5, w6))))).1 (reg23_3 d L g2 g3 v96 (reg23_2 d L g2 g3 v93 (reg23_1 d L g2 g3 v90 (reg23_0 d L g2 g3 v87 (w5, w6))))).2) ?h1_4 ?h2_4 ?h3_4
  case h1_4 =>
    intro hc j hj hJ
    rw [← hj]
    sl_exec
    iapply hJ
    unfold st94 accHeld flying0 landed1
    isplitr; · iexact Hmw
    isplitl [Hb5 Hb6]
    · iexists _, _
      isplitl [Hb5]; · iexact Hb5
      isplitl [Hb6]; · iexact Hb6
      isplitr <;> ipureintro
      ·
        sl_unfold_run_names
        have hp : flagB v96 := hc
        obtain ⟨e50, e51⟩ := readAt_region (b5V).view c5 (reg23_2 d L g2 g3 v93 (reg23_1 d L g2 g3 v90 (reg23_0 d L g2 g3 v87 (w5, w6)))).1 hc5 3 (by decide) inb_S7x2x16_S1x1x16_3_0_0 inb_S7x2x16_S1x1x16_3_1_0
        obtain ⟨e60, e61⟩ := readAt_region (b6V).view c6 (reg23_2 d L g2 g3 v93 (reg23_1 d L g2 g3 v90 (reg23_0 d L g2 g3 v87 (w5, w6)))).2 hc6 3 (by decide) inb_S7x2x16_S1x1x16_3_0_0 inb_S7x2x16_S1x1x16_3_1_0
        rw [e50, e51, e60, e61]
        refine Eq.trans ?_ (read_region (b5V).view c5 (reg23_2 d L g2 g3 v93 (reg23_1 d L g2 g3 v90 (reg23_0 d L g2 g3 v87 (w5, w6)))).1 hc5 (flagB v96) 3 (by decide) inb_S7x2x16_S1x1x16_3_0_0 inb_S7x2x16_S1x1x16_3_1_0 _ _)
        rw [if_pos hp]
        rfl
      ·
        sl_unfold_run_names
        have hp : flagB v96 := hc
        obtain ⟨e50, e51⟩ := readAt_region (b5V).view c5 (reg23_2 d L g2 g3 v93 (reg23_1 d L g2 g3 v90 (reg23_0 d L g2 g3 v87 (w5, w6)))).1 hc5 3 (by decide) inb_S7x2x16_S1x1x16_3_0_0 inb_S7x2x16_S1x1x16_3_1_0
        obtain ⟨e60, e61⟩ := readAt_region (b6V).view c6 (reg23_2 d L g2 g3 v93 (reg23_1 d L g2 g3 v90 (reg23_0 d L g2 g3 v87 (w5, w6)))).2 hc6 3 (by decide) inb_S7x2x16_S1x1x16_3_0_0 inb_S7x2x16_S1x1x16_3_1_0
        rw [e50, e51, e60, e61]
        refine Eq.trans ?_ (read_region (b6V).view c6 (reg23_2 d L g2 g3 v93 (reg23_1 d L g2 g3 v90 (reg23_0 d L g2 g3 v87 (w5, w6)))).2 hc6 (flagB v96) 3 (by decide) inb_S7x2x16_S1x1x16_3_0_0 inb_S7x2x16_S1x1x16_3_1_0 _ _)
        rw [if_pos hp]
        rfl
    isplitl [HF3 H0a HF4 H1a]
    · iexists _, _
      isplitl [HF3 H0a HF4 H1a]
      · isplitl [HF3]; · iexact HF3
        isplitl [H0a]; · iexact H0a
        isplitl [HF4]; · iexact HF4
        iexact H1a
      isplitr <;> ipureintro
      · first | exact hG0 | rfl
      · first | exact hG1 | rfl
    isplitl [HF5_dst HF6_dst H0b H1b HF5 HF6]
    · isplitl [HF5_dst]; · iexact HF5_dst
      isplitl [HF6_dst]; · iexact HF6_dst
      isplitl [H0b]; · iexact H0b
      isplitl [H1b]; · iexact H1b
      isplitl [HF5]; · iexact HF5
      iexact HF6
    iexact HO
  case h2_4 =>
    intro hc
    unfold st94 accHeld flying0 landed1
    isplitr; · iexact Hmw
    isplitl [Hb5 Hb6]
    · iexists _, _
      isplitl [Hb5]; · iexact Hb5
      isplitl [Hb6]; · iexact Hb6
      isplitr <;> ipureintro
      · have hn : ¬ flagB v96 := hc
        simp only [reg23_3, filesUpd, regionUpd, if_neg hn]
        exact hc5
      · have hn : ¬ flagB v96 := hc
        simp only [reg23_3, filesUpd, regionUpd, if_neg hn]
        exact hc6
    isplitl [HF3 H0a HF4 H1a]
    · iexists _, _
      isplitl [HF3 H0a HF4 H1a]
      · isplitl [HF3]; · iexact HF3
        isplitl [H0a]; · iexact H0a
        isplitl [HF4]; · iexact HF4
        iexact H1a
      isplitr <;> ipureintro
      · first | exact hG0 | rfl
      · first | exact hG1 | rfl
    isplitl [HF5_dst HF6_dst H0b H1b HF5 HF6]
    · isplitl [HF5_dst]; · iexact HF5_dst
      isplitl [HF6_dst]; · iexact HF6_dst
      isplitl [H0b]; · iexact H0b
      isplitl [H1b]; · iexact H1b
      isplitl [HF5]; · iexact HF5
      iexact HF6
    iexact HO
  rw [ite_self]
  unfold st94 accHeld flying0 landed1
  iintro ⟨#Hmw, ⟨%c5, %c6, Hb5, Hb6, %hc5, %hc6⟩, ⟨%G0, %G1, ⟨HF3, H0a, HF4, H1a⟩, %hG0, %hG1⟩, ⟨HF5_dst, HF6_dst, H0b, H1b, HF5, HF6⟩, HO⟩
  sl_exec
  refine' ite_cutB d L (st94 X0 X1 qa qb d L O (insert (SemLoc.dma (⟨6, by decide⟩ : DmaSem sig), (default : HIx 1)) (insert (SemLoc.dma (⟨5, by decide⟩ : DmaSem sig), (default : HIx 1)) Wx)) k hl g0 g1 g2 g3 (reg23_4 d L g2 g3 v99 (reg23_3 d L g2 g3 v96 (reg23_2 d L g2 g3 v93 (reg23_1 d L g2 g3 v90 (reg23_0 d L g2 g3 v87 (w5, w6)))))).1 (reg23_4 d L g2 g3 v99 (reg23_3 d L g2 g3 v96 (reg23_2 d L g2 g3 v93 (reg23_1 d L g2 g3 v90 (reg23_0 d L g2 g3 v87 (w5, w6)))))).2) (st94 X0 X1 qa qb d L O (insert (SemLoc.dma (⟨6, by decide⟩ : DmaSem sig), (default : HIx 1)) (insert (SemLoc.dma (⟨5, by decide⟩ : DmaSem sig), (default : HIx 1)) Wx)) k hl g0 g1 g2 g3 (reg23_4 d L g2 g3 v99 (reg23_3 d L g2 g3 v96 (reg23_2 d L g2 g3 v93 (reg23_1 d L g2 g3 v90 (reg23_0 d L g2 g3 v87 (w5, w6)))))).1 (reg23_4 d L g2 g3 v99 (reg23_3 d L g2 g3 v96 (reg23_2 d L g2 g3 v93 (reg23_1 d L g2 g3 v90 (reg23_0 d L g2 g3 v87 (w5, w6)))))).2) ?h1_5 ?h2_5 ?h3_5
  case h1_5 =>
    intro hc j hj hJ
    rw [← hj]
    sl_exec
    iapply hJ
    unfold st94 accHeld flying0 landed1
    isplitr; · iexact Hmw
    isplitl [Hb5 Hb6]
    · iexists _, _
      isplitl [Hb5]; · iexact Hb5
      isplitl [Hb6]; · iexact Hb6
      isplitr <;> ipureintro
      ·
        sl_unfold_run_names
        have hp : flagB v99 := hc
        obtain ⟨e50, e51⟩ := readAt_region (b5V).view c5 (reg23_3 d L g2 g3 v96 (reg23_2 d L g2 g3 v93 (reg23_1 d L g2 g3 v90 (reg23_0 d L g2 g3 v87 (w5, w6))))).1 hc5 4 (by decide) inb_S7x2x16_S1x1x16_4_0_0 inb_S7x2x16_S1x1x16_4_1_0
        obtain ⟨e60, e61⟩ := readAt_region (b6V).view c6 (reg23_3 d L g2 g3 v96 (reg23_2 d L g2 g3 v93 (reg23_1 d L g2 g3 v90 (reg23_0 d L g2 g3 v87 (w5, w6))))).2 hc6 4 (by decide) inb_S7x2x16_S1x1x16_4_0_0 inb_S7x2x16_S1x1x16_4_1_0
        rw [e50, e51, e60, e61]
        refine Eq.trans ?_ (read_region (b5V).view c5 (reg23_3 d L g2 g3 v96 (reg23_2 d L g2 g3 v93 (reg23_1 d L g2 g3 v90 (reg23_0 d L g2 g3 v87 (w5, w6))))).1 hc5 (flagB v99) 4 (by decide) inb_S7x2x16_S1x1x16_4_0_0 inb_S7x2x16_S1x1x16_4_1_0 _ _)
        rw [if_pos hp]
        rfl
      ·
        sl_unfold_run_names
        have hp : flagB v99 := hc
        obtain ⟨e50, e51⟩ := readAt_region (b5V).view c5 (reg23_3 d L g2 g3 v96 (reg23_2 d L g2 g3 v93 (reg23_1 d L g2 g3 v90 (reg23_0 d L g2 g3 v87 (w5, w6))))).1 hc5 4 (by decide) inb_S7x2x16_S1x1x16_4_0_0 inb_S7x2x16_S1x1x16_4_1_0
        obtain ⟨e60, e61⟩ := readAt_region (b6V).view c6 (reg23_3 d L g2 g3 v96 (reg23_2 d L g2 g3 v93 (reg23_1 d L g2 g3 v90 (reg23_0 d L g2 g3 v87 (w5, w6))))).2 hc6 4 (by decide) inb_S7x2x16_S1x1x16_4_0_0 inb_S7x2x16_S1x1x16_4_1_0
        rw [e50, e51, e60, e61]
        refine Eq.trans ?_ (read_region (b6V).view c6 (reg23_3 d L g2 g3 v96 (reg23_2 d L g2 g3 v93 (reg23_1 d L g2 g3 v90 (reg23_0 d L g2 g3 v87 (w5, w6))))).2 hc6 (flagB v99) 4 (by decide) inb_S7x2x16_S1x1x16_4_0_0 inb_S7x2x16_S1x1x16_4_1_0 _ _)
        rw [if_pos hp]
        rfl
    isplitl [HF3 H0a HF4 H1a]
    · iexists _, _
      isplitl [HF3 H0a HF4 H1a]
      · isplitl [HF3]; · iexact HF3
        isplitl [H0a]; · iexact H0a
        isplitl [HF4]; · iexact HF4
        iexact H1a
      isplitr <;> ipureintro
      · first | exact hG0 | rfl
      · first | exact hG1 | rfl
    isplitl [HF5_dst HF6_dst H0b H1b HF5 HF6]
    · isplitl [HF5_dst]; · iexact HF5_dst
      isplitl [HF6_dst]; · iexact HF6_dst
      isplitl [H0b]; · iexact H0b
      isplitl [H1b]; · iexact H1b
      isplitl [HF5]; · iexact HF5
      iexact HF6
    iexact HO
  case h2_5 =>
    intro hc
    unfold st94 accHeld flying0 landed1
    isplitr; · iexact Hmw
    isplitl [Hb5 Hb6]
    · iexists _, _
      isplitl [Hb5]; · iexact Hb5
      isplitl [Hb6]; · iexact Hb6
      isplitr <;> ipureintro
      · have hn : ¬ flagB v99 := hc
        simp only [reg23_4, filesUpd, regionUpd, if_neg hn]
        exact hc5
      · have hn : ¬ flagB v99 := hc
        simp only [reg23_4, filesUpd, regionUpd, if_neg hn]
        exact hc6
    isplitl [HF3 H0a HF4 H1a]
    · iexists _, _
      isplitl [HF3 H0a HF4 H1a]
      · isplitl [HF3]; · iexact HF3
        isplitl [H0a]; · iexact H0a
        isplitl [HF4]; · iexact HF4
        iexact H1a
      isplitr <;> ipureintro
      · first | exact hG0 | rfl
      · first | exact hG1 | rfl
    isplitl [HF5_dst HF6_dst H0b H1b HF5 HF6]
    · isplitl [HF5_dst]; · iexact HF5_dst
      isplitl [HF6_dst]; · iexact HF6_dst
      isplitl [H0b]; · iexact H0b
      isplitl [H1b]; · iexact H1b
      isplitl [HF5]; · iexact HF5
      iexact HF6
    iexact HO
  rw [ite_self]
  unfold st94 accHeld flying0 landed1
  iintro ⟨#Hmw, ⟨%c5, %c6, Hb5, Hb6, %hc5, %hc6⟩, ⟨%G0, %G1, ⟨HF3, H0a, HF4, H1a⟩, %hG0, %hG1⟩, ⟨HF5_dst, HF6_dst, H0b, H1b, HF5, HF6⟩, HO⟩
  sl_exec
  refine' ite_cutB d L (st94 X0 X1 qa qb d L O (insert (SemLoc.dma (⟨6, by decide⟩ : DmaSem sig), (default : HIx 1)) (insert (SemLoc.dma (⟨5, by decide⟩ : DmaSem sig), (default : HIx 1)) Wx)) k hl g0 g1 g2 g3 (reg23_5 d L g2 g3 v102 (reg23_4 d L g2 g3 v99 (reg23_3 d L g2 g3 v96 (reg23_2 d L g2 g3 v93 (reg23_1 d L g2 g3 v90 (reg23_0 d L g2 g3 v87 (w5, w6))))))).1 (reg23_5 d L g2 g3 v102 (reg23_4 d L g2 g3 v99 (reg23_3 d L g2 g3 v96 (reg23_2 d L g2 g3 v93 (reg23_1 d L g2 g3 v90 (reg23_0 d L g2 g3 v87 (w5, w6))))))).2) (st94 X0 X1 qa qb d L O (insert (SemLoc.dma (⟨6, by decide⟩ : DmaSem sig), (default : HIx 1)) (insert (SemLoc.dma (⟨5, by decide⟩ : DmaSem sig), (default : HIx 1)) Wx)) k hl g0 g1 g2 g3 (reg23_5 d L g2 g3 v102 (reg23_4 d L g2 g3 v99 (reg23_3 d L g2 g3 v96 (reg23_2 d L g2 g3 v93 (reg23_1 d L g2 g3 v90 (reg23_0 d L g2 g3 v87 (w5, w6))))))).1 (reg23_5 d L g2 g3 v102 (reg23_4 d L g2 g3 v99 (reg23_3 d L g2 g3 v96 (reg23_2 d L g2 g3 v93 (reg23_1 d L g2 g3 v90 (reg23_0 d L g2 g3 v87 (w5, w6))))))).2) ?h1_6 ?h2_6 ?h3_6
  case h1_6 =>
    intro hc j hj hJ
    rw [← hj]
    sl_exec
    iapply hJ
    unfold st94 accHeld flying0 landed1
    isplitr; · iexact Hmw
    isplitl [Hb5 Hb6]
    · iexists _, _
      isplitl [Hb5]; · iexact Hb5
      isplitl [Hb6]; · iexact Hb6
      isplitr <;> ipureintro
      ·
        sl_unfold_run_names
        have hp : flagB v102 := hc
        obtain ⟨e50, e51⟩ := readAt_region (b5V).view c5 (reg23_4 d L g2 g3 v99 (reg23_3 d L g2 g3 v96 (reg23_2 d L g2 g3 v93 (reg23_1 d L g2 g3 v90 (reg23_0 d L g2 g3 v87 (w5, w6)))))).1 hc5 5 (by decide) inb_S7x2x16_S1x1x16_5_0_0 inb_S7x2x16_S1x1x16_5_1_0
        obtain ⟨e60, e61⟩ := readAt_region (b6V).view c6 (reg23_4 d L g2 g3 v99 (reg23_3 d L g2 g3 v96 (reg23_2 d L g2 g3 v93 (reg23_1 d L g2 g3 v90 (reg23_0 d L g2 g3 v87 (w5, w6)))))).2 hc6 5 (by decide) inb_S7x2x16_S1x1x16_5_0_0 inb_S7x2x16_S1x1x16_5_1_0
        rw [e50, e51, e60, e61]
        refine Eq.trans ?_ (read_region (b5V).view c5 (reg23_4 d L g2 g3 v99 (reg23_3 d L g2 g3 v96 (reg23_2 d L g2 g3 v93 (reg23_1 d L g2 g3 v90 (reg23_0 d L g2 g3 v87 (w5, w6)))))).1 hc5 (flagB v102) 5 (by decide) inb_S7x2x16_S1x1x16_5_0_0 inb_S7x2x16_S1x1x16_5_1_0 _ _)
        rw [if_pos hp]
        rfl
      ·
        sl_unfold_run_names
        have hp : flagB v102 := hc
        obtain ⟨e50, e51⟩ := readAt_region (b5V).view c5 (reg23_4 d L g2 g3 v99 (reg23_3 d L g2 g3 v96 (reg23_2 d L g2 g3 v93 (reg23_1 d L g2 g3 v90 (reg23_0 d L g2 g3 v87 (w5, w6)))))).1 hc5 5 (by decide) inb_S7x2x16_S1x1x16_5_0_0 inb_S7x2x16_S1x1x16_5_1_0
        obtain ⟨e60, e61⟩ := readAt_region (b6V).view c6 (reg23_4 d L g2 g3 v99 (reg23_3 d L g2 g3 v96 (reg23_2 d L g2 g3 v93 (reg23_1 d L g2 g3 v90 (reg23_0 d L g2 g3 v87 (w5, w6)))))).2 hc6 5 (by decide) inb_S7x2x16_S1x1x16_5_0_0 inb_S7x2x16_S1x1x16_5_1_0
        rw [e50, e51, e60, e61]
        refine Eq.trans ?_ (read_region (b6V).view c6 (reg23_4 d L g2 g3 v99 (reg23_3 d L g2 g3 v96 (reg23_2 d L g2 g3 v93 (reg23_1 d L g2 g3 v90 (reg23_0 d L g2 g3 v87 (w5, w6)))))).2 hc6 (flagB v102) 5 (by decide) inb_S7x2x16_S1x1x16_5_0_0 inb_S7x2x16_S1x1x16_5_1_0 _ _)
        rw [if_pos hp]
        rfl
    isplitl [HF3 H0a HF4 H1a]
    · iexists _, _
      isplitl [HF3 H0a HF4 H1a]
      · isplitl [HF3]; · iexact HF3
        isplitl [H0a]; · iexact H0a
        isplitl [HF4]; · iexact HF4
        iexact H1a
      isplitr <;> ipureintro
      · first | exact hG0 | rfl
      · first | exact hG1 | rfl
    isplitl [HF5_dst HF6_dst H0b H1b HF5 HF6]
    · isplitl [HF5_dst]; · iexact HF5_dst
      isplitl [HF6_dst]; · iexact HF6_dst
      isplitl [H0b]; · iexact H0b
      isplitl [H1b]; · iexact H1b
      isplitl [HF5]; · iexact HF5
      iexact HF6
    iexact HO
  case h2_6 =>
    intro hc
    unfold st94 accHeld flying0 landed1
    isplitr; · iexact Hmw
    isplitl [Hb5 Hb6]
    · iexists _, _
      isplitl [Hb5]; · iexact Hb5
      isplitl [Hb6]; · iexact Hb6
      isplitr <;> ipureintro
      · have hn : ¬ flagB v102 := hc
        simp only [reg23_5, filesUpd, regionUpd, if_neg hn]
        exact hc5
      · have hn : ¬ flagB v102 := hc
        simp only [reg23_5, filesUpd, regionUpd, if_neg hn]
        exact hc6
    isplitl [HF3 H0a HF4 H1a]
    · iexists _, _
      isplitl [HF3 H0a HF4 H1a]
      · isplitl [HF3]; · iexact HF3
        isplitl [H0a]; · iexact H0a
        isplitl [HF4]; · iexact HF4
        iexact H1a
      isplitr <;> ipureintro
      · first | exact hG0 | rfl
      · first | exact hG1 | rfl
    isplitl [HF5_dst HF6_dst H0b H1b HF5 HF6]
    · isplitl [HF5_dst]; · iexact HF5_dst
      isplitl [HF6_dst]; · iexact HF6_dst
      isplitl [H0b]; · iexact H0b
      isplitl [H1b]; · iexact H1b
      isplitl [HF5]; · iexact HF5
      iexact HF6
    iexact HO
  rw [ite_self]
  unfold st94 accHeld flying0 landed1
  iintro ⟨#Hmw, ⟨%c5, %c6, Hb5, Hb6, %hc5, %hc6⟩, ⟨%G0, %G1, ⟨HF3, H0a, HF4, H1a⟩, %hG0, %hG1⟩, ⟨HF5_dst, HF6_dst, H0b, H1b, HF5, HF6⟩, HO⟩
  sl_exec
  refine' ite_cutB d L (st94 X0 X1 qa qb d L O (insert (SemLoc.dma (⟨6, by decide⟩ : DmaSem sig), (default : HIx 1)) (insert (SemLoc.dma (⟨5, by decide⟩ : DmaSem sig), (default : HIx 1)) Wx)) k hl g0 g1 g2 g3 (reg23_6 d L g2 g3 v105 (reg23_5 d L g2 g3 v102 (reg23_4 d L g2 g3 v99 (reg23_3 d L g2 g3 v96 (reg23_2 d L g2 g3 v93 (reg23_1 d L g2 g3 v90 (reg23_0 d L g2 g3 v87 (w5, w6)))))))).1 (reg23_6 d L g2 g3 v105 (reg23_5 d L g2 g3 v102 (reg23_4 d L g2 g3 v99 (reg23_3 d L g2 g3 v96 (reg23_2 d L g2 g3 v93 (reg23_1 d L g2 g3 v90 (reg23_0 d L g2 g3 v87 (w5, w6)))))))).2) (st94 X0 X1 qa qb d L O (insert (SemLoc.dma (⟨6, by decide⟩ : DmaSem sig), (default : HIx 1)) (insert (SemLoc.dma (⟨5, by decide⟩ : DmaSem sig), (default : HIx 1)) Wx)) k hl g0 g1 g2 g3 (reg23_6 d L g2 g3 v105 (reg23_5 d L g2 g3 v102 (reg23_4 d L g2 g3 v99 (reg23_3 d L g2 g3 v96 (reg23_2 d L g2 g3 v93 (reg23_1 d L g2 g3 v90 (reg23_0 d L g2 g3 v87 (w5, w6)))))))).1 (reg23_6 d L g2 g3 v105 (reg23_5 d L g2 g3 v102 (reg23_4 d L g2 g3 v99 (reg23_3 d L g2 g3 v96 (reg23_2 d L g2 g3 v93 (reg23_1 d L g2 g3 v90 (reg23_0 d L g2 g3 v87 (w5, w6)))))))).2) ?h1_7 ?h2_7 ?h3_7
  case h1_7 =>
    intro hc j hj hJ
    rw [← hj]
    sl_exec
    iapply hJ
    unfold st94 accHeld flying0 landed1
    isplitr; · iexact Hmw
    isplitl [Hb5 Hb6]
    · iexists _, _
      isplitl [Hb5]; · iexact Hb5
      isplitl [Hb6]; · iexact Hb6
      isplitr <;> ipureintro
      ·
        sl_unfold_run_names
        have hp : flagB v105 := hc
        obtain ⟨e50, e51⟩ := readAt_region (b5V).view c5 (reg23_5 d L g2 g3 v102 (reg23_4 d L g2 g3 v99 (reg23_3 d L g2 g3 v96 (reg23_2 d L g2 g3 v93 (reg23_1 d L g2 g3 v90 (reg23_0 d L g2 g3 v87 (w5, w6))))))).1 hc5 6 (by decide) inb_S7x2x16_S1x1x16_6_0_0 inb_S7x2x16_S1x1x16_6_1_0
        obtain ⟨e60, e61⟩ := readAt_region (b6V).view c6 (reg23_5 d L g2 g3 v102 (reg23_4 d L g2 g3 v99 (reg23_3 d L g2 g3 v96 (reg23_2 d L g2 g3 v93 (reg23_1 d L g2 g3 v90 (reg23_0 d L g2 g3 v87 (w5, w6))))))).2 hc6 6 (by decide) inb_S7x2x16_S1x1x16_6_0_0 inb_S7x2x16_S1x1x16_6_1_0
        rw [e50, e51, e60, e61]
        refine Eq.trans ?_ (read_region (b5V).view c5 (reg23_5 d L g2 g3 v102 (reg23_4 d L g2 g3 v99 (reg23_3 d L g2 g3 v96 (reg23_2 d L g2 g3 v93 (reg23_1 d L g2 g3 v90 (reg23_0 d L g2 g3 v87 (w5, w6))))))).1 hc5 (flagB v105) 6 (by decide) inb_S7x2x16_S1x1x16_6_0_0 inb_S7x2x16_S1x1x16_6_1_0 _ _)
        rw [if_pos hp]
        rfl
      ·
        sl_unfold_run_names
        have hp : flagB v105 := hc
        obtain ⟨e50, e51⟩ := readAt_region (b5V).view c5 (reg23_5 d L g2 g3 v102 (reg23_4 d L g2 g3 v99 (reg23_3 d L g2 g3 v96 (reg23_2 d L g2 g3 v93 (reg23_1 d L g2 g3 v90 (reg23_0 d L g2 g3 v87 (w5, w6))))))).1 hc5 6 (by decide) inb_S7x2x16_S1x1x16_6_0_0 inb_S7x2x16_S1x1x16_6_1_0
        obtain ⟨e60, e61⟩ := readAt_region (b6V).view c6 (reg23_5 d L g2 g3 v102 (reg23_4 d L g2 g3 v99 (reg23_3 d L g2 g3 v96 (reg23_2 d L g2 g3 v93 (reg23_1 d L g2 g3 v90 (reg23_0 d L g2 g3 v87 (w5, w6))))))).2 hc6 6 (by decide) inb_S7x2x16_S1x1x16_6_0_0 inb_S7x2x16_S1x1x16_6_1_0
        rw [e50, e51, e60, e61]
        refine Eq.trans ?_ (read_region (b6V).view c6 (reg23_5 d L g2 g3 v102 (reg23_4 d L g2 g3 v99 (reg23_3 d L g2 g3 v96 (reg23_2 d L g2 g3 v93 (reg23_1 d L g2 g3 v90 (reg23_0 d L g2 g3 v87 (w5, w6))))))).2 hc6 (flagB v105) 6 (by decide) inb_S7x2x16_S1x1x16_6_0_0 inb_S7x2x16_S1x1x16_6_1_0 _ _)
        rw [if_pos hp]
        rfl
    isplitl [HF3 H0a HF4 H1a]
    · iexists _, _
      isplitl [HF3 H0a HF4 H1a]
      · isplitl [HF3]; · iexact HF3
        isplitl [H0a]; · iexact H0a
        isplitl [HF4]; · iexact HF4
        iexact H1a
      isplitr <;> ipureintro
      · first | exact hG0 | rfl
      · first | exact hG1 | rfl
    isplitl [HF5_dst HF6_dst H0b H1b HF5 HF6]
    · isplitl [HF5_dst]; · iexact HF5_dst
      isplitl [HF6_dst]; · iexact HF6_dst
      isplitl [H0b]; · iexact H0b
      isplitl [H1b]; · iexact H1b
      isplitl [HF5]; · iexact HF5
      iexact HF6
    iexact HO
  case h2_7 =>
    intro hc
    unfold st94 accHeld flying0 landed1
    isplitr; · iexact Hmw
    isplitl [Hb5 Hb6]
    · iexists _, _
      isplitl [Hb5]; · iexact Hb5
      isplitl [Hb6]; · iexact Hb6
      isplitr <;> ipureintro
      · have hn : ¬ flagB v105 := hc
        simp only [reg23_6, filesUpd, regionUpd, if_neg hn]
        exact hc5
      · have hn : ¬ flagB v105 := hc
        simp only [reg23_6, filesUpd, regionUpd, if_neg hn]
        exact hc6
    isplitl [HF3 H0a HF4 H1a]
    · iexists _, _
      isplitl [HF3 H0a HF4 H1a]
      · isplitl [HF3]; · iexact HF3
        isplitl [H0a]; · iexact H0a
        isplitl [HF4]; · iexact HF4
        iexact H1a
      isplitr <;> ipureintro
      · first | exact hG0 | rfl
      · first | exact hG1 | rfl
    isplitl [HF5_dst HF6_dst H0b H1b HF5 HF6]
    · isplitl [HF5_dst]; · iexact HF5_dst
      isplitl [HF6_dst]; · iexact HF6_dst
      isplitl [H0b]; · iexact H0b
      isplitl [H1b]; · iexact H1b
      isplitl [HF5]; · iexact HF5
      iexact HF6
    iexact HO
  rw [ite_self]
  unfold st94 accHeld flying0 landed1
  iintro ⟨#Hmw, ⟨%c5, %c6, Hb5, Hb6, %hc5, %hc6⟩, ⟨%G0, %G1, ⟨HF3, H0a, HF4, H1a⟩, %hG0, %hG1⟩, ⟨HF5_dst, HF6_dst, H0b, H1b, HF5, HF6⟩, HO⟩
  sl_exec
  sl_step
  (try unfold st94); (try unfold accHeld); (try unfold flying0); (try unfold landed1)
  isplitr; · iexact Hmw
  isplitl [Hb5 Hb6]
  · iexists _, _
    isplitl [Hb5]; · iexact Hb5
    isplitl [Hb6]; · iexact Hb6
    isplitr <;> ipureintro
    · exact hc5
    · exact hc6
  isplitl [HF3 H0a HF4 H1a]
  · iexists _, _
    isplitl [HF3 H0a HF4 H1a]
    · isplitl [HF3]; · iexact HF3
      isplitl [H0a]; · iexact H0a
      isplitl [HF4]; · iexact HF4
      iexact H1a
    isplitr <;> ipureintro
    · exact hG0
    · exact hG1
  isplitl [HF5_dst HF6_dst H0b H1b HF5 HF6]
  · isplitl [HF5_dst]; · iexact HF5_dst
    isplitl [HF6_dst]; · iexact HF6_dst
    isplitl [H0b]; · iexact H0b
    isplitl [H1b]; · iexact H1b
    isplitl [HF5]; · iexact HF5
    iexact HF6
  iexact HO

set_option maxHeartbeats 4000000 in
/-- The fourth channel group's part, on the last row. -/
theorem part94LN (qa qb : PosShare TreeShare) (O : CellTallies nD τ sig (HIx 1)) (Wx : Waits sig (HIx 1))
    (oB : Fin 4 → ℕ) (hB : (∀ a, oB a + S1x48x1x224.size a ≤ S8x192x224x224.size a))
    (g0 : Buf (Elt F) ((V d (cV L) (jV L)).loc cc1_scratch0)) (g1 : Buf (Elt F) ((V d (cV L) (jV L)).loc cc1_scratch1))
    (g2 : Buf (Elt F) ((V d (cV L) (jV L)).loc cc1_scratch2)) (g3 : Buf (Elt F) ((V d (cV L) (jV L)).loc cc1_scratch3))
    (w5 w6 : Fin 7 → Fin 2 → Vec F S1x1x16 .f32)
    (v3 : BitVec 32) (k : Fin k1_t1_loop.trips) (hl : ¬ k.val + 1 < 16) (arg18 : BitVec 32) (v87 v90 v93 v96 v99 v102 v105 : BitVec 1) (v347 v349 : BitVec 32) :
    iprop(Transfers.MayWaits (V d (cV L) (jV L)) (none : HIx 1) O ∗ accHeld d L w5 w6 ∗ landed0 X0 X1 qa d L g0 g1 ∗ flying1 X0 X1 qb d L oB hB g2 g3 ∗ owes (V d (cV L) (jV L)) O Wx)
      ⊢ wp frame (wpE (defs₀ (F := F)) Sc.𝒱₀ (V d (cV L) (jV L)) none) Set.univ (k1_part94 L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 v3 k arg18 v87 v90 v93 v96 v99 v102 v105 v347 v349)
          (fun _ => st94L X0 X1 qa qb d L O (insert (SemLoc.dma (⟨6, by decide⟩ : DmaSem sig), (default : HIx 1)) (insert (SemLoc.dma (⟨5, by decide⟩ : DmaSem sig), (default : HIx 1)) Wx)) g0 g1 g2 g3 (files94 d L g2 g3 v87 v90 v93 v96 v99 v102 v105 w5 w6).1 (files94 d L g2 g3 v87 v90 v93 v96 v99 v102 v105 w5 w6).2) := by
  simp only [k1_part94_eq_skeleton]; unfold k1_part94_skel
  unfold accHeld landed0 flying1
  iintro ⟨#Hmw, ⟨%c5, %c6, Hb5, Hb6, %hc5, %hc6⟩, ⟨HF3_dst, HF4_dst, H0a, H1a, HF3, HF4⟩, ⟨HF5, H0b, HF6, H1b⟩, HO⟩
  have h24 : ¬ k1_cond24 k = 1#1 := fun h => hl ((cond24_iff k).1 h)
  sl_exec
  refine' ite_cutB d L (st94L X0 X1 qa qb d L O (insert (SemLoc.dma (⟨6, by decide⟩ : DmaSem sig), (default : HIx 1)) (insert (SemLoc.dma (⟨5, by decide⟩ : DmaSem sig), (default : HIx 1)) Wx)) g0 g1 g2 g3 (reg23_0 d L g2 g3 v87 (w5, w6)).1 (reg23_0 d L g2 g3 v87 (w5, w6)).2) (st94L X0 X1 qa qb d L O (insert (SemLoc.dma (⟨6, by decide⟩ : DmaSem sig), (default : HIx 1)) (insert (SemLoc.dma (⟨5, by decide⟩ : DmaSem sig), (default : HIx 1)) Wx)) g0 g1 g2 g3 (reg23_0 d L g2 g3 v87 (w5, w6)).1 (reg23_0 d L g2 g3 v87 (w5, w6)).2) ?h1_1 ?h2_1 ?h3_1
  case h1_1 =>
    intro hc j hj hJ
    rw [← hj]
    sl_exec
    iapply hJ
    unfold st94L accHeld landed0 landed1
    isplitr; · iexact Hmw
    isplitl [Hb5 Hb6]
    · iexists _, _
      isplitl [Hb5]; · iexact Hb5
      isplitl [Hb6]; · iexact Hb6
      isplitr <;> ipureintro
      ·
        sl_unfold_run_names
        have hp : flagB v87 := hc
        obtain ⟨e50, e51⟩ := readAt_region (b5V).view c5 (w5, w6).1 hc5 0 (by decide) inb_S7x2x16_S1x1x16_0_0_0 inb_S7x2x16_S1x1x16_0_1_0
        obtain ⟨e60, e61⟩ := readAt_region (b6V).view c6 (w5, w6).2 hc6 0 (by decide) inb_S7x2x16_S1x1x16_0_0_0 inb_S7x2x16_S1x1x16_0_1_0
        rw [e50, e51, e60, e61]
        refine Eq.trans ?_ (read_region (b5V).view c5 (w5, w6).1 hc5 (flagB v87) 0 (by decide) inb_S7x2x16_S1x1x16_0_0_0 inb_S7x2x16_S1x1x16_0_1_0 _ _)
        rw [if_pos hp]
        rfl
      ·
        sl_unfold_run_names
        have hp : flagB v87 := hc
        obtain ⟨e50, e51⟩ := readAt_region (b5V).view c5 (w5, w6).1 hc5 0 (by decide) inb_S7x2x16_S1x1x16_0_0_0 inb_S7x2x16_S1x1x16_0_1_0
        obtain ⟨e60, e61⟩ := readAt_region (b6V).view c6 (w5, w6).2 hc6 0 (by decide) inb_S7x2x16_S1x1x16_0_0_0 inb_S7x2x16_S1x1x16_0_1_0
        rw [e50, e51, e60, e61]
        refine Eq.trans ?_ (read_region (b6V).view c6 (w5, w6).2 hc6 (flagB v87) 0 (by decide) inb_S7x2x16_S1x1x16_0_0_0 inb_S7x2x16_S1x1x16_0_1_0 _ _)
        rw [if_pos hp]
        rfl
    isplitl [HF3_dst HF4_dst H0a H1a HF3 HF4]
    · isplitl [HF3_dst]; · iexact HF3_dst
      isplitl [HF4_dst]; · iexact HF4_dst
      isplitl [H0a]; · iexact H0a
      isplitl [H1a]; · iexact H1a
      isplitl [HF3]; · iexact HF3
      iexact HF4
    isplitl [HF5_dst HF6_dst H0b H1b HF5 HF6]
    · isplitl [HF5_dst]; · iexact HF5_dst
      isplitl [HF6_dst]; · iexact HF6_dst
      isplitl [H0b]; · iexact H0b
      isplitl [H1b]; · iexact H1b
      isplitl [HF5]; · iexact HF5
      iexact HF6
    iexact HO
  case h2_1 =>
    intro hc
    unfold st94L accHeld landed0 landed1
    isplitr; · iexact Hmw
    isplitl [Hb5 Hb6]
    · iexists _, _
      isplitl [Hb5]; · iexact Hb5
      isplitl [Hb6]; · iexact Hb6
      isplitr <;> ipureintro
      · have hn : ¬ flagB v87 := hc
        simp only [reg23_0, filesUpd, regionUpd, if_neg hn]
        exact hc5
      · have hn : ¬ flagB v87 := hc
        simp only [reg23_0, filesUpd, regionUpd, if_neg hn]
        exact hc6
    isplitl [HF3_dst HF4_dst H0a H1a HF3 HF4]
    · isplitl [HF3_dst]; · iexact HF3_dst
      isplitl [HF4_dst]; · iexact HF4_dst
      isplitl [H0a]; · iexact H0a
      isplitl [H1a]; · iexact H1a
      isplitl [HF3]; · iexact HF3
      iexact HF4
    isplitl [HF5_dst HF6_dst H0b H1b HF5 HF6]
    · isplitl [HF5_dst]; · iexact HF5_dst
      isplitl [HF6_dst]; · iexact HF6_dst
      isplitl [H0b]; · iexact H0b
      isplitl [H1b]; · iexact H1b
      isplitl [HF5]; · iexact HF5
      iexact HF6
    iexact HO
  rw [ite_self]
  unfold st94L accHeld landed0 landed1
  iintro ⟨#Hmw, ⟨%c5, %c6, Hb5, Hb6, %hc5, %hc6⟩, ⟨HF3_dst, HF4_dst, H0a, H1a, HF3, HF4⟩, ⟨HF5_dst, HF6_dst, H0b, H1b, HF5, HF6⟩, HO⟩
  clear h24
  sl_exec
  refine' ite_cutB d L (st94L X0 X1 qa qb d L O (insert (SemLoc.dma (⟨6, by decide⟩ : DmaSem sig), (default : HIx 1)) (insert (SemLoc.dma (⟨5, by decide⟩ : DmaSem sig), (default : HIx 1)) Wx)) g0 g1 g2 g3 (reg23_1 d L g2 g3 v90 (reg23_0 d L g2 g3 v87 (w5, w6))).1 (reg23_1 d L g2 g3 v90 (reg23_0 d L g2 g3 v87 (w5, w6))).2) (st94L X0 X1 qa qb d L O (insert (SemLoc.dma (⟨6, by decide⟩ : DmaSem sig), (default : HIx 1)) (insert (SemLoc.dma (⟨5, by decide⟩ : DmaSem sig), (default : HIx 1)) Wx)) g0 g1 g2 g3 (reg23_1 d L g2 g3 v90 (reg23_0 d L g2 g3 v87 (w5, w6))).1 (reg23_1 d L g2 g3 v90 (reg23_0 d L g2 g3 v87 (w5, w6))).2) ?h1_2 ?h2_2 ?h3_2
  case h1_2 =>
    intro hc j hj hJ
    rw [← hj]
    sl_exec
    iapply hJ
    unfold st94L accHeld landed0 landed1
    isplitr; · iexact Hmw
    isplitl [Hb5 Hb6]
    · iexists _, _
      isplitl [Hb5]; · iexact Hb5
      isplitl [Hb6]; · iexact Hb6
      isplitr <;> ipureintro
      ·
        sl_unfold_run_names
        have hp : flagB v90 := hc
        obtain ⟨e50, e51⟩ := readAt_region (b5V).view c5 (reg23_0 d L g2 g3 v87 (w5, w6)).1 hc5 1 (by decide) inb_S7x2x16_S1x1x16_1_0_0 inb_S7x2x16_S1x1x16_1_1_0
        obtain ⟨e60, e61⟩ := readAt_region (b6V).view c6 (reg23_0 d L g2 g3 v87 (w5, w6)).2 hc6 1 (by decide) inb_S7x2x16_S1x1x16_1_0_0 inb_S7x2x16_S1x1x16_1_1_0
        rw [e50, e51, e60, e61]
        refine Eq.trans ?_ (read_region (b5V).view c5 (reg23_0 d L g2 g3 v87 (w5, w6)).1 hc5 (flagB v90) 1 (by decide) inb_S7x2x16_S1x1x16_1_0_0 inb_S7x2x16_S1x1x16_1_1_0 _ _)
        rw [if_pos hp]
        rfl
      ·
        sl_unfold_run_names
        have hp : flagB v90 := hc
        obtain ⟨e50, e51⟩ := readAt_region (b5V).view c5 (reg23_0 d L g2 g3 v87 (w5, w6)).1 hc5 1 (by decide) inb_S7x2x16_S1x1x16_1_0_0 inb_S7x2x16_S1x1x16_1_1_0
        obtain ⟨e60, e61⟩ := readAt_region (b6V).view c6 (reg23_0 d L g2 g3 v87 (w5, w6)).2 hc6 1 (by decide) inb_S7x2x16_S1x1x16_1_0_0 inb_S7x2x16_S1x1x16_1_1_0
        rw [e50, e51, e60, e61]
        refine Eq.trans ?_ (read_region (b6V).view c6 (reg23_0 d L g2 g3 v87 (w5, w6)).2 hc6 (flagB v90) 1 (by decide) inb_S7x2x16_S1x1x16_1_0_0 inb_S7x2x16_S1x1x16_1_1_0 _ _)
        rw [if_pos hp]
        rfl
    isplitl [HF3_dst HF4_dst H0a H1a HF3 HF4]
    · isplitl [HF3_dst]; · iexact HF3_dst
      isplitl [HF4_dst]; · iexact HF4_dst
      isplitl [H0a]; · iexact H0a
      isplitl [H1a]; · iexact H1a
      isplitl [HF3]; · iexact HF3
      iexact HF4
    isplitl [HF5_dst HF6_dst H0b H1b HF5 HF6]
    · isplitl [HF5_dst]; · iexact HF5_dst
      isplitl [HF6_dst]; · iexact HF6_dst
      isplitl [H0b]; · iexact H0b
      isplitl [H1b]; · iexact H1b
      isplitl [HF5]; · iexact HF5
      iexact HF6
    iexact HO
  case h2_2 =>
    intro hc
    unfold st94L accHeld landed0 landed1
    isplitr; · iexact Hmw
    isplitl [Hb5 Hb6]
    · iexists _, _
      isplitl [Hb5]; · iexact Hb5
      isplitl [Hb6]; · iexact Hb6
      isplitr <;> ipureintro
      · have hn : ¬ flagB v90 := hc
        simp only [reg23_1, filesUpd, regionUpd, if_neg hn]
        exact hc5
      · have hn : ¬ flagB v90 := hc
        simp only [reg23_1, filesUpd, regionUpd, if_neg hn]
        exact hc6
    isplitl [HF3_dst HF4_dst H0a H1a HF3 HF4]
    · isplitl [HF3_dst]; · iexact HF3_dst
      isplitl [HF4_dst]; · iexact HF4_dst
      isplitl [H0a]; · iexact H0a
      isplitl [H1a]; · iexact H1a
      isplitl [HF3]; · iexact HF3
      iexact HF4
    isplitl [HF5_dst HF6_dst H0b H1b HF5 HF6]
    · isplitl [HF5_dst]; · iexact HF5_dst
      isplitl [HF6_dst]; · iexact HF6_dst
      isplitl [H0b]; · iexact H0b
      isplitl [H1b]; · iexact H1b
      isplitl [HF5]; · iexact HF5
      iexact HF6
    iexact HO
  rw [ite_self]
  unfold st94L accHeld landed0 landed1
  iintro ⟨#Hmw, ⟨%c5, %c6, Hb5, Hb6, %hc5, %hc6⟩, ⟨HF3_dst, HF4_dst, H0a, H1a, HF3, HF4⟩, ⟨HF5_dst, HF6_dst, H0b, H1b, HF5, HF6⟩, HO⟩
  sl_exec
  refine' ite_cutB d L (st94L X0 X1 qa qb d L O (insert (SemLoc.dma (⟨6, by decide⟩ : DmaSem sig), (default : HIx 1)) (insert (SemLoc.dma (⟨5, by decide⟩ : DmaSem sig), (default : HIx 1)) Wx)) g0 g1 g2 g3 (reg23_2 d L g2 g3 v93 (reg23_1 d L g2 g3 v90 (reg23_0 d L g2 g3 v87 (w5, w6)))).1 (reg23_2 d L g2 g3 v93 (reg23_1 d L g2 g3 v90 (reg23_0 d L g2 g3 v87 (w5, w6)))).2) (st94L X0 X1 qa qb d L O (insert (SemLoc.dma (⟨6, by decide⟩ : DmaSem sig), (default : HIx 1)) (insert (SemLoc.dma (⟨5, by decide⟩ : DmaSem sig), (default : HIx 1)) Wx)) g0 g1 g2 g3 (reg23_2 d L g2 g3 v93 (reg23_1 d L g2 g3 v90 (reg23_0 d L g2 g3 v87 (w5, w6)))).1 (reg23_2 d L g2 g3 v93 (reg23_1 d L g2 g3 v90 (reg23_0 d L g2 g3 v87 (w5, w6)))).2) ?h1_3 ?h2_3 ?h3_3
  case h1_3 =>
    intro hc j hj hJ
    rw [← hj]
    sl_exec
    iapply hJ
    unfold st94L accHeld landed0 landed1
    isplitr; · iexact Hmw
    isplitl [Hb5 Hb6]
    · iexists _, _
      isplitl [Hb5]; · iexact Hb5
      isplitl [Hb6]; · iexact Hb6
      isplitr <;> ipureintro
      ·
        sl_unfold_run_names
        have hp : flagB v93 := hc
        obtain ⟨e50, e51⟩ := readAt_region (b5V).view c5 (reg23_1 d L g2 g3 v90 (reg23_0 d L g2 g3 v87 (w5, w6))).1 hc5 2 (by decide) inb_S7x2x16_S1x1x16_2_0_0 inb_S7x2x16_S1x1x16_2_1_0
        obtain ⟨e60, e61⟩ := readAt_region (b6V).view c6 (reg23_1 d L g2 g3 v90 (reg23_0 d L g2 g3 v87 (w5, w6))).2 hc6 2 (by decide) inb_S7x2x16_S1x1x16_2_0_0 inb_S7x2x16_S1x1x16_2_1_0
        rw [e50, e51, e60, e61]
        refine Eq.trans ?_ (read_region (b5V).view c5 (reg23_1 d L g2 g3 v90 (reg23_0 d L g2 g3 v87 (w5, w6))).1 hc5 (flagB v93) 2 (by decide) inb_S7x2x16_S1x1x16_2_0_0 inb_S7x2x16_S1x1x16_2_1_0 _ _)
        rw [if_pos hp]
        rfl
      ·
        sl_unfold_run_names
        have hp : flagB v93 := hc
        obtain ⟨e50, e51⟩ := readAt_region (b5V).view c5 (reg23_1 d L g2 g3 v90 (reg23_0 d L g2 g3 v87 (w5, w6))).1 hc5 2 (by decide) inb_S7x2x16_S1x1x16_2_0_0 inb_S7x2x16_S1x1x16_2_1_0
        obtain ⟨e60, e61⟩ := readAt_region (b6V).view c6 (reg23_1 d L g2 g3 v90 (reg23_0 d L g2 g3 v87 (w5, w6))).2 hc6 2 (by decide) inb_S7x2x16_S1x1x16_2_0_0 inb_S7x2x16_S1x1x16_2_1_0
        rw [e50, e51, e60, e61]
        refine Eq.trans ?_ (read_region (b6V).view c6 (reg23_1 d L g2 g3 v90 (reg23_0 d L g2 g3 v87 (w5, w6))).2 hc6 (flagB v93) 2 (by decide) inb_S7x2x16_S1x1x16_2_0_0 inb_S7x2x16_S1x1x16_2_1_0 _ _)
        rw [if_pos hp]
        rfl
    isplitl [HF3_dst HF4_dst H0a H1a HF3 HF4]
    · isplitl [HF3_dst]; · iexact HF3_dst
      isplitl [HF4_dst]; · iexact HF4_dst
      isplitl [H0a]; · iexact H0a
      isplitl [H1a]; · iexact H1a
      isplitl [HF3]; · iexact HF3
      iexact HF4
    isplitl [HF5_dst HF6_dst H0b H1b HF5 HF6]
    · isplitl [HF5_dst]; · iexact HF5_dst
      isplitl [HF6_dst]; · iexact HF6_dst
      isplitl [H0b]; · iexact H0b
      isplitl [H1b]; · iexact H1b
      isplitl [HF5]; · iexact HF5
      iexact HF6
    iexact HO
  case h2_3 =>
    intro hc
    unfold st94L accHeld landed0 landed1
    isplitr; · iexact Hmw
    isplitl [Hb5 Hb6]
    · iexists _, _
      isplitl [Hb5]; · iexact Hb5
      isplitl [Hb6]; · iexact Hb6
      isplitr <;> ipureintro
      · have hn : ¬ flagB v93 := hc
        simp only [reg23_2, filesUpd, regionUpd, if_neg hn]
        exact hc5
      · have hn : ¬ flagB v93 := hc
        simp only [reg23_2, filesUpd, regionUpd, if_neg hn]
        exact hc6
    isplitl [HF3_dst HF4_dst H0a H1a HF3 HF4]
    · isplitl [HF3_dst]; · iexact HF3_dst
      isplitl [HF4_dst]; · iexact HF4_dst
      isplitl [H0a]; · iexact H0a
      isplitl [H1a]; · iexact H1a
      isplitl [HF3]; · iexact HF3
      iexact HF4
    isplitl [HF5_dst HF6_dst H0b H1b HF5 HF6]
    · isplitl [HF5_dst]; · iexact HF5_dst
      isplitl [HF6_dst]; · iexact HF6_dst
      isplitl [H0b]; · iexact H0b
      isplitl [H1b]; · iexact H1b
      isplitl [HF5]; · iexact HF5
      iexact HF6
    iexact HO
  rw [ite_self]
  unfold st94L accHeld landed0 landed1
  iintro ⟨#Hmw, ⟨%c5, %c6, Hb5, Hb6, %hc5, %hc6⟩, ⟨HF3_dst, HF4_dst, H0a, H1a, HF3, HF4⟩, ⟨HF5_dst, HF6_dst, H0b, H1b, HF5, HF6⟩, HO⟩
  sl_exec
  refine' ite_cutB d L (st94L X0 X1 qa qb d L O (insert (SemLoc.dma (⟨6, by decide⟩ : DmaSem sig), (default : HIx 1)) (insert (SemLoc.dma (⟨5, by decide⟩ : DmaSem sig), (default : HIx 1)) Wx)) g0 g1 g2 g3 (reg23_3 d L g2 g3 v96 (reg23_2 d L g2 g3 v93 (reg23_1 d L g2 g3 v90 (reg23_0 d L g2 g3 v87 (w5, w6))))).1 (reg23_3 d L g2 g3 v96 (reg23_2 d L g2 g3 v93 (reg23_1 d L g2 g3 v90 (reg23_0 d L g2 g3 v87 (w5, w6))))).2) (st94L X0 X1 qa qb d L O (insert (SemLoc.dma (⟨6, by decide⟩ : DmaSem sig), (default : HIx 1)) (insert (SemLoc.dma (⟨5, by decide⟩ : DmaSem sig), (default : HIx 1)) Wx)) g0 g1 g2 g3 (reg23_3 d L g2 g3 v96 (reg23_2 d L g2 g3 v93 (reg23_1 d L g2 g3 v90 (reg23_0 d L g2 g3 v87 (w5, w6))))).1 (reg23_3 d L g2 g3 v96 (reg23_2 d L g2 g3 v93 (reg23_1 d L g2 g3 v90 (reg23_0 d L g2 g3 v87 (w5, w6))))).2) ?h1_4 ?h2_4 ?h3_4
  case h1_4 =>
    intro hc j hj hJ
    rw [← hj]
    sl_exec
    iapply hJ
    unfold st94L accHeld landed0 landed1
    isplitr; · iexact Hmw
    isplitl [Hb5 Hb6]
    · iexists _, _
      isplitl [Hb5]; · iexact Hb5
      isplitl [Hb6]; · iexact Hb6
      isplitr <;> ipureintro
      ·
        sl_unfold_run_names
        have hp : flagB v96 := hc
        obtain ⟨e50, e51⟩ := readAt_region (b5V).view c5 (reg23_2 d L g2 g3 v93 (reg23_1 d L g2 g3 v90 (reg23_0 d L g2 g3 v87 (w5, w6)))).1 hc5 3 (by decide) inb_S7x2x16_S1x1x16_3_0_0 inb_S7x2x16_S1x1x16_3_1_0
        obtain ⟨e60, e61⟩ := readAt_region (b6V).view c6 (reg23_2 d L g2 g3 v93 (reg23_1 d L g2 g3 v90 (reg23_0 d L g2 g3 v87 (w5, w6)))).2 hc6 3 (by decide) inb_S7x2x16_S1x1x16_3_0_0 inb_S7x2x16_S1x1x16_3_1_0
        rw [e50, e51, e60, e61]
        refine Eq.trans ?_ (read_region (b5V).view c5 (reg23_2 d L g2 g3 v93 (reg23_1 d L g2 g3 v90 (reg23_0 d L g2 g3 v87 (w5, w6)))).1 hc5 (flagB v96) 3 (by decide) inb_S7x2x16_S1x1x16_3_0_0 inb_S7x2x16_S1x1x16_3_1_0 _ _)
        rw [if_pos hp]
        rfl
      ·
        sl_unfold_run_names
        have hp : flagB v96 := hc
        obtain ⟨e50, e51⟩ := readAt_region (b5V).view c5 (reg23_2 d L g2 g3 v93 (reg23_1 d L g2 g3 v90 (reg23_0 d L g2 g3 v87 (w5, w6)))).1 hc5 3 (by decide) inb_S7x2x16_S1x1x16_3_0_0 inb_S7x2x16_S1x1x16_3_1_0
        obtain ⟨e60, e61⟩ := readAt_region (b6V).view c6 (reg23_2 d L g2 g3 v93 (reg23_1 d L g2 g3 v90 (reg23_0 d L g2 g3 v87 (w5, w6)))).2 hc6 3 (by decide) inb_S7x2x16_S1x1x16_3_0_0 inb_S7x2x16_S1x1x16_3_1_0
        rw [e50, e51, e60, e61]
        refine Eq.trans ?_ (read_region (b6V).view c6 (reg23_2 d L g2 g3 v93 (reg23_1 d L g2 g3 v90 (reg23_0 d L g2 g3 v87 (w5, w6)))).2 hc6 (flagB v96) 3 (by decide) inb_S7x2x16_S1x1x16_3_0_0 inb_S7x2x16_S1x1x16_3_1_0 _ _)
        rw [if_pos hp]
        rfl
    isplitl [HF3_dst HF4_dst H0a H1a HF3 HF4]
    · isplitl [HF3_dst]; · iexact HF3_dst
      isplitl [HF4_dst]; · iexact HF4_dst
      isplitl [H0a]; · iexact H0a
      isplitl [H1a]; · iexact H1a
      isplitl [HF3]; · iexact HF3
      iexact HF4
    isplitl [HF5_dst HF6_dst H0b H1b HF5 HF6]
    · isplitl [HF5_dst]; · iexact HF5_dst
      isplitl [HF6_dst]; · iexact HF6_dst
      isplitl [H0b]; · iexact H0b
      isplitl [H1b]; · iexact H1b
      isplitl [HF5]; · iexact HF5
      iexact HF6
    iexact HO
  case h2_4 =>
    intro hc
    unfold st94L accHeld landed0 landed1
    isplitr; · iexact Hmw
    isplitl [Hb5 Hb6]
    · iexists _, _
      isplitl [Hb5]; · iexact Hb5
      isplitl [Hb6]; · iexact Hb6
      isplitr <;> ipureintro
      · have hn : ¬ flagB v96 := hc
        simp only [reg23_3, filesUpd, regionUpd, if_neg hn]
        exact hc5
      · have hn : ¬ flagB v96 := hc
        simp only [reg23_3, filesUpd, regionUpd, if_neg hn]
        exact hc6
    isplitl [HF3_dst HF4_dst H0a H1a HF3 HF4]
    · isplitl [HF3_dst]; · iexact HF3_dst
      isplitl [HF4_dst]; · iexact HF4_dst
      isplitl [H0a]; · iexact H0a
      isplitl [H1a]; · iexact H1a
      isplitl [HF3]; · iexact HF3
      iexact HF4
    isplitl [HF5_dst HF6_dst H0b H1b HF5 HF6]
    · isplitl [HF5_dst]; · iexact HF5_dst
      isplitl [HF6_dst]; · iexact HF6_dst
      isplitl [H0b]; · iexact H0b
      isplitl [H1b]; · iexact H1b
      isplitl [HF5]; · iexact HF5
      iexact HF6
    iexact HO
  rw [ite_self]
  unfold st94L accHeld landed0 landed1
  iintro ⟨#Hmw, ⟨%c5, %c6, Hb5, Hb6, %hc5, %hc6⟩, ⟨HF3_dst, HF4_dst, H0a, H1a, HF3, HF4⟩, ⟨HF5_dst, HF6_dst, H0b, H1b, HF5, HF6⟩, HO⟩
  sl_exec
  refine' ite_cutB d L (st94L X0 X1 qa qb d L O (insert (SemLoc.dma (⟨6, by decide⟩ : DmaSem sig), (default : HIx 1)) (insert (SemLoc.dma (⟨5, by decide⟩ : DmaSem sig), (default : HIx 1)) Wx)) g0 g1 g2 g3 (reg23_4 d L g2 g3 v99 (reg23_3 d L g2 g3 v96 (reg23_2 d L g2 g3 v93 (reg23_1 d L g2 g3 v90 (reg23_0 d L g2 g3 v87 (w5, w6)))))).1 (reg23_4 d L g2 g3 v99 (reg23_3 d L g2 g3 v96 (reg23_2 d L g2 g3 v93 (reg23_1 d L g2 g3 v90 (reg23_0 d L g2 g3 v87 (w5, w6)))))).2) (st94L X0 X1 qa qb d L O (insert (SemLoc.dma (⟨6, by decide⟩ : DmaSem sig), (default : HIx 1)) (insert (SemLoc.dma (⟨5, by decide⟩ : DmaSem sig), (default : HIx 1)) Wx)) g0 g1 g2 g3 (reg23_4 d L g2 g3 v99 (reg23_3 d L g2 g3 v96 (reg23_2 d L g2 g3 v93 (reg23_1 d L g2 g3 v90 (reg23_0 d L g2 g3 v87 (w5, w6)))))).1 (reg23_4 d L g2 g3 v99 (reg23_3 d L g2 g3 v96 (reg23_2 d L g2 g3 v93 (reg23_1 d L g2 g3 v90 (reg23_0 d L g2 g3 v87 (w5, w6)))))).2) ?h1_5 ?h2_5 ?h3_5
  case h1_5 =>
    intro hc j hj hJ
    rw [← hj]
    sl_exec
    iapply hJ
    unfold st94L accHeld landed0 landed1
    isplitr; · iexact Hmw
    isplitl [Hb5 Hb6]
    · iexists _, _
      isplitl [Hb5]; · iexact Hb5
      isplitl [Hb6]; · iexact Hb6
      isplitr <;> ipureintro
      ·
        sl_unfold_run_names
        have hp : flagB v99 := hc
        obtain ⟨e50, e51⟩ := readAt_region (b5V).view c5 (reg23_3 d L g2 g3 v96 (reg23_2 d L g2 g3 v93 (reg23_1 d L g2 g3 v90 (reg23_0 d L g2 g3 v87 (w5, w6))))).1 hc5 4 (by decide) inb_S7x2x16_S1x1x16_4_0_0 inb_S7x2x16_S1x1x16_4_1_0
        obtain ⟨e60, e61⟩ := readAt_region (b6V).view c6 (reg23_3 d L g2 g3 v96 (reg23_2 d L g2 g3 v93 (reg23_1 d L g2 g3 v90 (reg23_0 d L g2 g3 v87 (w5, w6))))).2 hc6 4 (by decide) inb_S7x2x16_S1x1x16_4_0_0 inb_S7x2x16_S1x1x16_4_1_0
        rw [e50, e51, e60, e61]
        refine Eq.trans ?_ (read_region (b5V).view c5 (reg23_3 d L g2 g3 v96 (reg23_2 d L g2 g3 v93 (reg23_1 d L g2 g3 v90 (reg23_0 d L g2 g3 v87 (w5, w6))))).1 hc5 (flagB v99) 4 (by decide) inb_S7x2x16_S1x1x16_4_0_0 inb_S7x2x16_S1x1x16_4_1_0 _ _)
        rw [if_pos hp]
        rfl
      ·
        sl_unfold_run_names
        have hp : flagB v99 := hc
        obtain ⟨e50, e51⟩ := readAt_region (b5V).view c5 (reg23_3 d L g2 g3 v96 (reg23_2 d L g2 g3 v93 (reg23_1 d L g2 g3 v90 (reg23_0 d L g2 g3 v87 (w5, w6))))).1 hc5 4 (by decide) inb_S7x2x16_S1x1x16_4_0_0 inb_S7x2x16_S1x1x16_4_1_0
        obtain ⟨e60, e61⟩ := readAt_region (b6V).view c6 (reg23_3 d L g2 g3 v96 (reg23_2 d L g2 g3 v93 (reg23_1 d L g2 g3 v90 (reg23_0 d L g2 g3 v87 (w5, w6))))).2 hc6 4 (by decide) inb_S7x2x16_S1x1x16_4_0_0 inb_S7x2x16_S1x1x16_4_1_0
        rw [e50, e51, e60, e61]
        refine Eq.trans ?_ (read_region (b6V).view c6 (reg23_3 d L g2 g3 v96 (reg23_2 d L g2 g3 v93 (reg23_1 d L g2 g3 v90 (reg23_0 d L g2 g3 v87 (w5, w6))))).2 hc6 (flagB v99) 4 (by decide) inb_S7x2x16_S1x1x16_4_0_0 inb_S7x2x16_S1x1x16_4_1_0 _ _)
        rw [if_pos hp]
        rfl
    isplitl [HF3_dst HF4_dst H0a H1a HF3 HF4]
    · isplitl [HF3_dst]; · iexact HF3_dst
      isplitl [HF4_dst]; · iexact HF4_dst
      isplitl [H0a]; · iexact H0a
      isplitl [H1a]; · iexact H1a
      isplitl [HF3]; · iexact HF3
      iexact HF4
    isplitl [HF5_dst HF6_dst H0b H1b HF5 HF6]
    · isplitl [HF5_dst]; · iexact HF5_dst
      isplitl [HF6_dst]; · iexact HF6_dst
      isplitl [H0b]; · iexact H0b
      isplitl [H1b]; · iexact H1b
      isplitl [HF5]; · iexact HF5
      iexact HF6
    iexact HO
  case h2_5 =>
    intro hc
    unfold st94L accHeld landed0 landed1
    isplitr; · iexact Hmw
    isplitl [Hb5 Hb6]
    · iexists _, _
      isplitl [Hb5]; · iexact Hb5
      isplitl [Hb6]; · iexact Hb6
      isplitr <;> ipureintro
      · have hn : ¬ flagB v99 := hc
        simp only [reg23_4, filesUpd, regionUpd, if_neg hn]
        exact hc5
      · have hn : ¬ flagB v99 := hc
        simp only [reg23_4, filesUpd, regionUpd, if_neg hn]
        exact hc6
    isplitl [HF3_dst HF4_dst H0a H1a HF3 HF4]
    · isplitl [HF3_dst]; · iexact HF3_dst
      isplitl [HF4_dst]; · iexact HF4_dst
      isplitl [H0a]; · iexact H0a
      isplitl [H1a]; · iexact H1a
      isplitl [HF3]; · iexact HF3
      iexact HF4
    isplitl [HF5_dst HF6_dst H0b H1b HF5 HF6]
    · isplitl [HF5_dst]; · iexact HF5_dst
      isplitl [HF6_dst]; · iexact HF6_dst
      isplitl [H0b]; · iexact H0b
      isplitl [H1b]; · iexact H1b
      isplitl [HF5]; · iexact HF5
      iexact HF6
    iexact HO
  rw [ite_self]
  unfold st94L accHeld landed0 landed1
  iintro ⟨#Hmw, ⟨%c5, %c6, Hb5, Hb6, %hc5, %hc6⟩, ⟨HF3_dst, HF4_dst, H0a, H1a, HF3, HF4⟩, ⟨HF5_dst, HF6_dst, H0b, H1b, HF5, HF6⟩, HO⟩
  sl_exec
  refine' ite_cutB d L (st94L X0 X1 qa qb d L O (insert (SemLoc.dma (⟨6, by decide⟩ : DmaSem sig), (default : HIx 1)) (insert (SemLoc.dma (⟨5, by decide⟩ : DmaSem sig), (default : HIx 1)) Wx)) g0 g1 g2 g3 (reg23_5 d L g2 g3 v102 (reg23_4 d L g2 g3 v99 (reg23_3 d L g2 g3 v96 (reg23_2 d L g2 g3 v93 (reg23_1 d L g2 g3 v90 (reg23_0 d L g2 g3 v87 (w5, w6))))))).1 (reg23_5 d L g2 g3 v102 (reg23_4 d L g2 g3 v99 (reg23_3 d L g2 g3 v96 (reg23_2 d L g2 g3 v93 (reg23_1 d L g2 g3 v90 (reg23_0 d L g2 g3 v87 (w5, w6))))))).2) (st94L X0 X1 qa qb d L O (insert (SemLoc.dma (⟨6, by decide⟩ : DmaSem sig), (default : HIx 1)) (insert (SemLoc.dma (⟨5, by decide⟩ : DmaSem sig), (default : HIx 1)) Wx)) g0 g1 g2 g3 (reg23_5 d L g2 g3 v102 (reg23_4 d L g2 g3 v99 (reg23_3 d L g2 g3 v96 (reg23_2 d L g2 g3 v93 (reg23_1 d L g2 g3 v90 (reg23_0 d L g2 g3 v87 (w5, w6))))))).1 (reg23_5 d L g2 g3 v102 (reg23_4 d L g2 g3 v99 (reg23_3 d L g2 g3 v96 (reg23_2 d L g2 g3 v93 (reg23_1 d L g2 g3 v90 (reg23_0 d L g2 g3 v87 (w5, w6))))))).2) ?h1_6 ?h2_6 ?h3_6
  case h1_6 =>
    intro hc j hj hJ
    rw [← hj]
    sl_exec
    iapply hJ
    unfold st94L accHeld landed0 landed1
    isplitr; · iexact Hmw
    isplitl [Hb5 Hb6]
    · iexists _, _
      isplitl [Hb5]; · iexact Hb5
      isplitl [Hb6]; · iexact Hb6
      isplitr <;> ipureintro
      ·
        sl_unfold_run_names
        have hp : flagB v102 := hc
        obtain ⟨e50, e51⟩ := readAt_region (b5V).view c5 (reg23_4 d L g2 g3 v99 (reg23_3 d L g2 g3 v96 (reg23_2 d L g2 g3 v93 (reg23_1 d L g2 g3 v90 (reg23_0 d L g2 g3 v87 (w5, w6)))))).1 hc5 5 (by decide) inb_S7x2x16_S1x1x16_5_0_0 inb_S7x2x16_S1x1x16_5_1_0
        obtain ⟨e60, e61⟩ := readAt_region (b6V).view c6 (reg23_4 d L g2 g3 v99 (reg23_3 d L g2 g3 v96 (reg23_2 d L g2 g3 v93 (reg23_1 d L g2 g3 v90 (reg23_0 d L g2 g3 v87 (w5, w6)))))).2 hc6 5 (by decide) inb_S7x2x16_S1x1x16_5_0_0 inb_S7x2x16_S1x1x16_5_1_0
        rw [e50, e51, e60, e61]
        refine Eq.trans ?_ (read_region (b5V).view c5 (reg23_4 d L g2 g3 v99 (reg23_3 d L g2 g3 v96 (reg23_2 d L g2 g3 v93 (reg23_1 d L g2 g3 v90 (reg23_0 d L g2 g3 v87 (w5, w6)))))).1 hc5 (flagB v102) 5 (by decide) inb_S7x2x16_S1x1x16_5_0_0 inb_S7x2x16_S1x1x16_5_1_0 _ _)
        rw [if_pos hp]
        rfl
      ·
        sl_unfold_run_names
        have hp : flagB v102 := hc
        obtain ⟨e50, e51⟩ := readAt_region (b5V).view c5 (reg23_4 d L g2 g3 v99 (reg23_3 d L g2 g3 v96 (reg23_2 d L g2 g3 v93 (reg23_1 d L g2 g3 v90 (reg23_0 d L g2 g3 v87 (w5, w6)))))).1 hc5 5 (by decide) inb_S7x2x16_S1x1x16_5_0_0 inb_S7x2x16_S1x1x16_5_1_0
        obtain ⟨e60, e61⟩ := readAt_region (b6V).view c6 (reg23_4 d L g2 g3 v99 (reg23_3 d L g2 g3 v96 (reg23_2 d L g2 g3 v93 (reg23_1 d L g2 g3 v90 (reg23_0 d L g2 g3 v87 (w5, w6)))))).2 hc6 5 (by decide) inb_S7x2x16_S1x1x16_5_0_0 inb_S7x2x16_S1x1x16_5_1_0
        rw [e50, e51, e60, e61]
        refine Eq.trans ?_ (read_region (b6V).view c6 (reg23_4 d L g2 g3 v99 (reg23_3 d L g2 g3 v96 (reg23_2 d L g2 g3 v93 (reg23_1 d L g2 g3 v90 (reg23_0 d L g2 g3 v87 (w5, w6)))))).2 hc6 (flagB v102) 5 (by decide) inb_S7x2x16_S1x1x16_5_0_0 inb_S7x2x16_S1x1x16_5_1_0 _ _)
        rw [if_pos hp]
        rfl
    isplitl [HF3_dst HF4_dst H0a H1a HF3 HF4]
    · isplitl [HF3_dst]; · iexact HF3_dst
      isplitl [HF4_dst]; · iexact HF4_dst
      isplitl [H0a]; · iexact H0a
      isplitl [H1a]; · iexact H1a
      isplitl [HF3]; · iexact HF3
      iexact HF4
    isplitl [HF5_dst HF6_dst H0b H1b HF5 HF6]
    · isplitl [HF5_dst]; · iexact HF5_dst
      isplitl [HF6_dst]; · iexact HF6_dst
      isplitl [H0b]; · iexact H0b
      isplitl [H1b]; · iexact H1b
      isplitl [HF5]; · iexact HF5
      iexact HF6
    iexact HO
  case h2_6 =>
    intro hc
    unfold st94L accHeld landed0 landed1
    isplitr; · iexact Hmw
    isplitl [Hb5 Hb6]
    · iexists _, _
      isplitl [Hb5]; · iexact Hb5
      isplitl [Hb6]; · iexact Hb6
      isplitr <;> ipureintro
      · have hn : ¬ flagB v102 := hc
        simp only [reg23_5, filesUpd, regionUpd, if_neg hn]
        exact hc5
      · have hn : ¬ flagB v102 := hc
        simp only [reg23_5, filesUpd, regionUpd, if_neg hn]
        exact hc6
    isplitl [HF3_dst HF4_dst H0a H1a HF3 HF4]
    · isplitl [HF3_dst]; · iexact HF3_dst
      isplitl [HF4_dst]; · iexact HF4_dst
      isplitl [H0a]; · iexact H0a
      isplitl [H1a]; · iexact H1a
      isplitl [HF3]; · iexact HF3
      iexact HF4
    isplitl [HF5_dst HF6_dst H0b H1b HF5 HF6]
    · isplitl [HF5_dst]; · iexact HF5_dst
      isplitl [HF6_dst]; · iexact HF6_dst
      isplitl [H0b]; · iexact H0b
      isplitl [H1b]; · iexact H1b
      isplitl [HF5]; · iexact HF5
      iexact HF6
    iexact HO
  rw [ite_self]
  unfold st94L accHeld landed0 landed1
  iintro ⟨#Hmw, ⟨%c5, %c6, Hb5, Hb6, %hc5, %hc6⟩, ⟨HF3_dst, HF4_dst, H0a, H1a, HF3, HF4⟩, ⟨HF5_dst, HF6_dst, H0b, H1b, HF5, HF6⟩, HO⟩
  sl_exec
  refine' ite_cutB d L (st94L X0 X1 qa qb d L O (insert (SemLoc.dma (⟨6, by decide⟩ : DmaSem sig), (default : HIx 1)) (insert (SemLoc.dma (⟨5, by decide⟩ : DmaSem sig), (default : HIx 1)) Wx)) g0 g1 g2 g3 (reg23_6 d L g2 g3 v105 (reg23_5 d L g2 g3 v102 (reg23_4 d L g2 g3 v99 (reg23_3 d L g2 g3 v96 (reg23_2 d L g2 g3 v93 (reg23_1 d L g2 g3 v90 (reg23_0 d L g2 g3 v87 (w5, w6)))))))).1 (reg23_6 d L g2 g3 v105 (reg23_5 d L g2 g3 v102 (reg23_4 d L g2 g3 v99 (reg23_3 d L g2 g3 v96 (reg23_2 d L g2 g3 v93 (reg23_1 d L g2 g3 v90 (reg23_0 d L g2 g3 v87 (w5, w6)))))))).2) (st94L X0 X1 qa qb d L O (insert (SemLoc.dma (⟨6, by decide⟩ : DmaSem sig), (default : HIx 1)) (insert (SemLoc.dma (⟨5, by decide⟩ : DmaSem sig), (default : HIx 1)) Wx)) g0 g1 g2 g3 (reg23_6 d L g2 g3 v105 (reg23_5 d L g2 g3 v102 (reg23_4 d L g2 g3 v99 (reg23_3 d L g2 g3 v96 (reg23_2 d L g2 g3 v93 (reg23_1 d L g2 g3 v90 (reg23_0 d L g2 g3 v87 (w5, w6)))))))).1 (reg23_6 d L g2 g3 v105 (reg23_5 d L g2 g3 v102 (reg23_4 d L g2 g3 v99 (reg23_3 d L g2 g3 v96 (reg23_2 d L g2 g3 v93 (reg23_1 d L g2 g3 v90 (reg23_0 d L g2 g3 v87 (w5, w6)))))))).2) ?h1_7 ?h2_7 ?h3_7
  case h1_7 =>
    intro hc j hj hJ
    rw [← hj]
    sl_exec
    iapply hJ
    unfold st94L accHeld landed0 landed1
    isplitr; · iexact Hmw
    isplitl [Hb5 Hb6]
    · iexists _, _
      isplitl [Hb5]; · iexact Hb5
      isplitl [Hb6]; · iexact Hb6
      isplitr <;> ipureintro
      ·
        sl_unfold_run_names
        have hp : flagB v105 := hc
        obtain ⟨e50, e51⟩ := readAt_region (b5V).view c5 (reg23_5 d L g2 g3 v102 (reg23_4 d L g2 g3 v99 (reg23_3 d L g2 g3 v96 (reg23_2 d L g2 g3 v93 (reg23_1 d L g2 g3 v90 (reg23_0 d L g2 g3 v87 (w5, w6))))))).1 hc5 6 (by decide) inb_S7x2x16_S1x1x16_6_0_0 inb_S7x2x16_S1x1x16_6_1_0
        obtain ⟨e60, e61⟩ := readAt_region (b6V).view c6 (reg23_5 d L g2 g3 v102 (reg23_4 d L g2 g3 v99 (reg23_3 d L g2 g3 v96 (reg23_2 d L g2 g3 v93 (reg23_1 d L g2 g3 v90 (reg23_0 d L g2 g3 v87 (w5, w6))))))).2 hc6 6 (by decide) inb_S7x2x16_S1x1x16_6_0_0 inb_S7x2x16_S1x1x16_6_1_0
        rw [e50, e51, e60, e61]
        refine Eq.trans ?_ (read_region (b5V).view c5 (reg23_5 d L g2 g3 v102 (reg23_4 d L g2 g3 v99 (reg23_3 d L g2 g3 v96 (reg23_2 d L g2 g3 v93 (reg23_1 d L g2 g3 v90 (reg23_0 d L g2 g3 v87 (w5, w6))))))).1 hc5 (flagB v105) 6 (by decide) inb_S7x2x16_S1x1x16_6_0_0 inb_S7x2x16_S1x1x16_6_1_0 _ _)
        rw [if_pos hp]
        rfl
      ·
        sl_unfold_run_names
        have hp : flagB v105 := hc
        obtain ⟨e50, e51⟩ := readAt_region (b5V).view c5 (reg23_5 d L g2 g3 v102 (reg23_4 d L g2 g3 v99 (reg23_3 d L g2 g3 v96 (reg23_2 d L g2 g3 v93 (reg23_1 d L g2 g3 v90 (reg23_0 d L g2 g3 v87 (w5, w6))))))).1 hc5 6 (by decide) inb_S7x2x16_S1x1x16_6_0_0 inb_S7x2x16_S1x1x16_6_1_0
        obtain ⟨e60, e61⟩ := readAt_region (b6V).view c6 (reg23_5 d L g2 g3 v102 (reg23_4 d L g2 g3 v99 (reg23_3 d L g2 g3 v96 (reg23_2 d L g2 g3 v93 (reg23_1 d L g2 g3 v90 (reg23_0 d L g2 g3 v87 (w5, w6))))))).2 hc6 6 (by decide) inb_S7x2x16_S1x1x16_6_0_0 inb_S7x2x16_S1x1x16_6_1_0
        rw [e50, e51, e60, e61]
        refine Eq.trans ?_ (read_region (b6V).view c6 (reg23_5 d L g2 g3 v102 (reg23_4 d L g2 g3 v99 (reg23_3 d L g2 g3 v96 (reg23_2 d L g2 g3 v93 (reg23_1 d L g2 g3 v90 (reg23_0 d L g2 g3 v87 (w5, w6))))))).2 hc6 (flagB v105) 6 (by decide) inb_S7x2x16_S1x1x16_6_0_0 inb_S7x2x16_S1x1x16_6_1_0 _ _)
        rw [if_pos hp]
        rfl
    isplitl [HF3_dst HF4_dst H0a H1a HF3 HF4]
    · isplitl [HF3_dst]; · iexact HF3_dst
      isplitl [HF4_dst]; · iexact HF4_dst
      isplitl [H0a]; · iexact H0a
      isplitl [H1a]; · iexact H1a
      isplitl [HF3]; · iexact HF3
      iexact HF4
    isplitl [HF5_dst HF6_dst H0b H1b HF5 HF6]
    · isplitl [HF5_dst]; · iexact HF5_dst
      isplitl [HF6_dst]; · iexact HF6_dst
      isplitl [H0b]; · iexact H0b
      isplitl [H1b]; · iexact H1b
      isplitl [HF5]; · iexact HF5
      iexact HF6
    iexact HO
  case h2_7 =>
    intro hc
    unfold st94L accHeld landed0 landed1
    isplitr; · iexact Hmw
    isplitl [Hb5 Hb6]
    · iexists _, _
      isplitl [Hb5]; · iexact Hb5
      isplitl [Hb6]; · iexact Hb6
      isplitr <;> ipureintro
      · have hn : ¬ flagB v105 := hc
        simp only [reg23_6, filesUpd, regionUpd, if_neg hn]
        exact hc5
      · have hn : ¬ flagB v105 := hc
        simp only [reg23_6, filesUpd, regionUpd, if_neg hn]
        exact hc6
    isplitl [HF3_dst HF4_dst H0a H1a HF3 HF4]
    · isplitl [HF3_dst]; · iexact HF3_dst
      isplitl [HF4_dst]; · iexact HF4_dst
      isplitl [H0a]; · iexact H0a
      isplitl [H1a]; · iexact H1a
      isplitl [HF3]; · iexact HF3
      iexact HF4
    isplitl [HF5_dst HF6_dst H0b H1b HF5 HF6]
    · isplitl [HF5_dst]; · iexact HF5_dst
      isplitl [HF6_dst]; · iexact HF6_dst
      isplitl [H0b]; · iexact H0b
      isplitl [H1b]; · iexact H1b
      isplitl [HF5]; · iexact HF5
      iexact HF6
    iexact HO
  rw [ite_self]
  unfold st94L accHeld landed0 landed1
  iintro ⟨#Hmw, ⟨%c5, %c6, Hb5, Hb6, %hc5, %hc6⟩, ⟨HF3_dst, HF4_dst, H0a, H1a, HF3, HF4⟩, ⟨HF5_dst, HF6_dst, H0b, H1b, HF5, HF6⟩, HO⟩
  sl_exec
  sl_step
  (try unfold st94L); (try unfold accHeld); (try unfold landed0); (try unfold landed1)
  isplitr; · iexact Hmw
  isplitl [Hb5 Hb6]
  · iexists _, _
    isplitl [Hb5]; · iexact Hb5
    isplitl [Hb6]; · iexact Hb6
    isplitr <;> ipureintro
    · exact hc5
    · exact hc6
  isplitl [HF3_dst HF4_dst H0a H1a HF3 HF4]
  · isplitl [HF3_dst]; · iexact HF3_dst
    isplitl [HF4_dst]; · iexact HF4_dst
    isplitl [H0a]; · iexact H0a
    isplitl [H1a]; · iexact H1a
    isplitl [HF3]; · iexact HF3
    iexact HF4
  isplitl [HF5_dst HF6_dst H0b H1b HF5 HF6]
  · isplitl [HF5_dst]; · iexact HF5_dst
    isplitl [HF6_dst]; · iexact HF6_dst
    isplitl [H0b]; · iexact H0b
    isplitl [H1b]; · iexact H1b
    isplitl [HF5]; · iexact HF5
    iexact HF6
  iexact HO

end Tile

end Cert.KernelIdeal.ScTileV

end
-- ==== Proof.ScTileVInvI.lean ====
/-
  The row loop's invariant with everything the row's sums depend on named: the slots in flight hold the copies' payloads (the windows of the two inputs at the row's offsets), the carried sums are a given function of the row index.
-/
import proofs.«210586_g14980845929080_cont_week2b_1062_66_alg».proof.Proof.ScTileVBaseI
import proofs.«210586_g14980845929080_cont_week2b_1062_66_alg».proof.Proof.Gen.KernelIdeal.Skeleton
import Idealize.ShloMosaic.Lib.Tactic

set_option warn.classDefReducibility false

noncomputable section

namespace Cert.KernelIdeal.ScTileV

open Cert.KernelIdeal.ScTile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ Sc.UU ℕ

local notation "a0V" => (Memref.whole Cert.KernelIdeal.main_arg0_scv : Memref Cert.KernelIdeal.sig Kind.scVector Space.hbm Cert.KernelIdeal.S8x192x224x224 EltTy.f32)
local notation "a1V" => (Memref.whole Cert.KernelIdeal.main_arg1_scv : Memref Cert.KernelIdeal.sig Kind.scVector Space.hbm Cert.KernelIdeal.S8x192x224x224 EltTy.f32)
local notation "mkV" => (Memref.whole Cert.KernelIdeal.main_v0_scv : Memref Cert.KernelIdeal.sig Kind.scVector Space.hbm Cert.KernelIdeal.S8x224x256 EltTy.f32)
local notation "ptV" => (Memref.whole Cert.KernelIdeal.main_v1_scv : Memref Cert.KernelIdeal.sig Kind.scVector Space.hbm Cert.KernelIdeal.S32x32 EltTy.f32)
local notation "b0V" => (Memref.whole Cert.KernelIdeal.cc1_scratch0 : Memref Cert.KernelIdeal.sig Kind.scVector Space.vmem Cert.KernelIdeal.S48x224 EltTy.f32)
local notation "b1V" => (Memref.whole Cert.KernelIdeal.cc1_scratch1 : Memref Cert.KernelIdeal.sig Kind.scVector Space.vmem Cert.KernelIdeal.S48x224 EltTy.f32)
local notation "b2V" => (Memref.whole Cert.KernelIdeal.cc1_scratch2 : Memref Cert.KernelIdeal.sig Kind.scVector Space.vmem Cert.KernelIdeal.S48x224 EltTy.f32)
local notation "b3V" => (Memref.whole Cert.KernelIdeal.cc1_scratch3 : Memref Cert.KernelIdeal.sig Kind.scVector Space.vmem Cert.KernelIdeal.S48x224 EltTy.f32)
local notation "b4V" => (Memref.whole Cert.KernelIdeal.cc1_scratch4 : Memref Cert.KernelIdeal.sig Kind.scVector Space.vmem Cert.KernelIdeal.S8x16x256 EltTy.f32)
local notation "b5V" => (Memref.whole Cert.KernelIdeal.cc1_scratch5 : Memref Cert.KernelIdeal.sig Kind.scVector Space.vmem Cert.KernelIdeal.S7x2x16 EltTy.f32)
local notation "b6V" => (Memref.whole Cert.KernelIdeal.cc1_scratch6 : Memref Cert.KernelIdeal.sig Kind.scVector Space.vmem Cert.KernelIdeal.S7x2x16 EltTy.f32)
local notation "b7V" => (Memref.whole Cert.KernelIdeal.cc1_scratch7 : Memref Cert.KernelIdeal.sig Kind.scVector Space.vmem Cert.KernelIdeal.S32 EltTy.f32)

variable [FloatOps F]

section Tile

variable (X0 : (d : Dev nD) → Buf (Elt F) (a0Loc d)) (X1 : (d : Dev nD) → Buf (Elt F) (a1Loc d))
  (M : (d : Dev nD) → Buf (Elt F) (mkLoc d)) (R0 : (d : Dev nD) → Buf (Elt F) (ptLoc d))
variable (d : Dev nD) (L : grid1.Coords)

/-- What a transfer from the window at offsets `o` of the first input lands in a slot's buffer. -/
def payA0 (d : Dev nD) (o : Fin 4 → ℕ) (h : (∀ a, o a + S1x48x1x224.size a ≤ S8x192x224x224.size a)) : S48x224.Idx → Elt F .f32 :=
  ReadAs.same.apply (View.read (Elt F) (((a0V).slice (Rect.unit (s := S8x192x224x224) o S1x48x1x224.size h) (fun _ => rfl)).squeeze S48x224 squeezes_S1x48x1x224_S48x224).view (X0 d))
/-- The same for the second input. -/
def payA1 (d : Dev nD) (o : Fin 4 → ℕ) (h : (∀ a, o a + S1x48x1x224.size a ≤ S8x192x224x224.size a)) : S48x224.Idx → Elt F .f32 :=
  ReadAs.same.apply (View.read (Elt F) (((a1V).slice (Rect.unit (s := S8x192x224x224) o S1x48x1x224.size h) (fun _ => rfl)).squeeze S48x224 squeezes_S1x48x1x224_S48x224).view (X1 d))

/-- What the mask slab's fetch lands: the sixteen rows of the mask array from the task's slab row on, of all eight images. -/
def payM (d : Dev nD) (L : grid1.Coords) : S8x16x256.Idx → Elt F .f32 :=
  ReadAs.same.apply (View.read (Elt F) ((mkV).slice (Rect.unit (s := S8x224x256) (k1_off1 L) S8x16x256.size (k1_off1_inb L)) (fun _ => rfl)).view (M d))

/-- The offsets of the window for row pair `r` and channel group `cg` of the task at `L`: image r / 2, channels from
    48 cg, row 160 + 2 (2 subcore + core) + r % 2. -/
def oAt (L : grid1.Coords) (r cg : ℕ) : Fin 4 → ℕ := ![r / 2, 48 * cg, 4 * (L 1).val + 2 * (L 0).val + 160 + r % 2, 0]

/-- Both slots in flight for row `k`: slot 0 from channel group 0's window, slot 1 from channel group 1's, each
    delivering the window's payload. -/
def rowFlyN (qa qb : PosShare TreeShare) (d : Dev nD) (L : grid1.Coords) (k : ℕ) : sProp 𝕄 :=
  iprop(∃ (oA oB : Fin 4 → ℕ) (hA : (∀ a, oA a + S1x48x1x224.size a ≤ S8x192x224x224.size a)) (hB : (∀ a, oB a + S1x48x1x224.size a ≤ S8x192x224x224.size a)),
    ⌜oA = oAt L k 0⌝ ∗ ⌜oB = oAt L k 1⌝
    ∗ flying0 X0 X1 qa d L oA hA (payA0 X0 d oA hA) (payA1 X1 d oA hA)
    ∗ flying1 X0 X1 qb d L oB hB (payA0 X0 d oB hB) (payA1 X1 d oB hB))

/-- Before row `k`, with values: the carried sums are `sums k`; the mask slab as fetched; the accumulators at some
    contents (a row begins by zeroing them); the slots in flight with the row's payloads while a row remains, at rest
    after the last; what the task owes. -/
def rowInvN (sums : ℕ → FVec F S16 .f32 × FVec F S16 .f32) (qa qb : PosShare TreeShare) (d : Dev nD) (L : grid1.Coords) (O : CellTallies nD τ sig (HIx 1)) (W : Waits sig (HIx 1))
    (g4 : Buf (Elt F) ((V d (cV L) (jV L)).loc cc1_scratch4)) (k : ℕ) (acc : FVec F S16 .f32 × FVec F S16 .f32) : sProp 𝕄 :=
  iprop(⌜acc = sums k⌝ ∗ Transfers.MayWaits (V d (cV L) (jV L)) (none : HIx 1) O
    ∗ ((b4V).view.loc (V d (cV L) (jV L)) ↦{fullShare} g4) ∗ (∃ g, ((b5V).view.loc (V d (cV L) (jV L)) ↦{fullShare} g)) ∗ (∃ g, ((b6V).view.loc (V d (cV L) (jV L)) ↦{fullShare} g))
    ∗ (if k < 16 then rowFlyN X0 X1 qa qb d L k else rowIdle X0 X1 qa qb d L)
    ∗ ∃ W', ⌜∀ p ∈ W', p ∈ W ∨ p.2 = none⌝ ∗ owes (V d (cV L) (jV L)) O W')

end Tile

end Cert.KernelIdeal.ScTileV

end
-- ==== Proof.ScTileVZeroI.lean ====
/-
  An accumulator's contents as a register file, whatever they are: any contents are the file of their own cells, a
  file is determined by its contents, and a buffer whose first thirteen cells were stored one vector and whose last
  cell is then stored the same vector is the constant file — whatever the buffer held before.
-/
import proofs.«210586_g14980845929080_cont_week2b_1062_66_alg».proof.Proof.ScTileVCellsI
import Idealize.ShloMosaic.Lib.ValueIdx

noncomputable section

namespace Cert.KernelIdeal.ScTileV

open Cert.KernelIdeal Cert.KernelIdeal.Gen Cert.KernelIdeal.ScTile
open Idealize.ShloMosaic Idealize.ShloMosaic.ValueIdx

variable {F : FTy → Type} [FloatOps F]

/-- Any contents of an accumulator are the register file of their own cells. -/
def cellsOfC (c : Vec F S7x2x16 .f32) : Fin 7 → Fin 2 → Vec F S1x1x16 .f32 := fun k h z => c (ix3 k h (z 2))

theorem cells_cellsOfC (c : Vec F S7x2x16 .f32) : cells (cellsOfC c) = c := by
  funext y
  show c (ix3 (y 0) (y 1) ((ix3 (0 : Fin 1) (0 : Fin 1) (y 2)) 2)) = c y
  exact congrArg c (eq_ix3 y).symm

/-- A register file is determined by its contents. -/
theorem cells_inj {w w' : Fin 7 → Fin 2 → Vec F S1x1x16 .f32} (h : cells w = cells w') : w = w' := by
  funext k hh z
  have hz : z = ix3 (0 : Fin 1) (0 : Fin 1) (z 2) := by
    have e := eq_ix3 z
    rw [e]; congr 1 <;> (apply Fin.ext; have h0 := (z 0).isLt; have h1 := (z 1).isLt; change _ < 1 at h0; change _ < 1 at h1; simp <;> omega)
  have := congrFun h (ix3 k hh (z 2))
  show w k hh z = w' k hh z
  rw [hz]; exact this

variable {sig' : RefSig} {κ : Kind} {sp : Space} (view : View sig' κ sp S7x2x16 .f32)

/-- Thirteen cells stored `p`, then the fourteenth: the constant file, whatever the buffer held. -/
theorem file_after_last_zero (g : view.ty.Contents (Elt F)) (p : Vec F S1x1x16 .f32) :
    upd (cellsOfC (view.read (Elt F) (view.writes (Elt F) g
      [⟨Rect.unit (s := S7x2x16) ![6, 0, 0] S1x1x16.size inb_S7x2x16_S1x1x16_6_0_0, p⟩,
      ⟨Rect.unit (s := S7x2x16) ![5, 1, 0] S1x1x16.size inb_S7x2x16_S1x1x16_5_1_0, p⟩,
      ⟨Rect.unit (s := S7x2x16) ![5, 0, 0] S1x1x16.size inb_S7x2x16_S1x1x16_5_0_0, p⟩,
      ⟨Rect.unit (s := S7x2x16) ![4, 1, 0] S1x1x16.size inb_S7x2x16_S1x1x16_4_1_0, p⟩,
      ⟨Rect.unit (s := S7x2x16) ![4, 0, 0] S1x1x16.size inb_S7x2x16_S1x1x16_4_0_0, p⟩,
      ⟨Rect.unit (s := S7x2x16) ![3, 1, 0] S1x1x16.size inb_S7x2x16_S1x1x16_3_1_0, p⟩,
      ⟨Rect.unit (s := S7x2x16) ![3, 0, 0] S1x1x16.size inb_S7x2x16_S1x1x16_3_0_0, p⟩,
      ⟨Rect.unit (s := S7x2x16) ![2, 1, 0] S1x1x16.size inb_S7x2x16_S1x1x16_2_1_0, p⟩,
      ⟨Rect.unit (s := S7x2x16) ![2, 0, 0] S1x1x16.size inb_S7x2x16_S1x1x16_2_0_0, p⟩,
      ⟨Rect.unit (s := S7x2x16) ![1, 1, 0] S1x1x16.size inb_S7x2x16_S1x1x16_1_1_0, p⟩,
      ⟨Rect.unit (s := S7x2x16) ![1, 0, 0] S1x1x16.size inb_S7x2x16_S1x1x16_1_0_0, p⟩,
      ⟨Rect.unit (s := S7x2x16) ![0, 1, 0] S1x1x16.size inb_S7x2x16_S1x1x16_0_1_0, p⟩,
      ⟨Rect.unit (s := S7x2x16) ![0, 0, 0] S1x1x16.size inb_S7x2x16_S1x1x16_0_0_0, p⟩]))) 6 1 p = fun _ _ => p := by
  have h1 := read_write_cell view (view.writes (Elt F) g
      [⟨Rect.unit (s := S7x2x16) ![6, 0, 0] S1x1x16.size inb_S7x2x16_S1x1x16_6_0_0, p⟩,
      ⟨Rect.unit (s := S7x2x16) ![5, 1, 0] S1x1x16.size inb_S7x2x16_S1x1x16_5_1_0, p⟩,
      ⟨Rect.unit (s := S7x2x16) ![5, 0, 0] S1x1x16.size inb_S7x2x16_S1x1x16_5_0_0, p⟩,
      ⟨Rect.unit (s := S7x2x16) ![4, 1, 0] S1x1x16.size inb_S7x2x16_S1x1x16_4_1_0, p⟩,
      ⟨Rect.unit (s := S7x2x16) ![4, 0, 0] S1x1x16.size inb_S7x2x16_S1x1x16_4_0_0, p⟩,
      ⟨Rect.unit (s := S7x2x16) ![3, 1, 0] S1x1x16.size inb_S7x2x16_S1x1x16_3_1_0, p⟩,
      ⟨Rect.unit (s := S7x2x16) ![3, 0, 0] S1x1x16.size inb_S7x2x16_S1x1x16_3_0_0, p⟩,
      ⟨Rect.unit (s := S7x2x16) ![2, 1, 0] S1x1x16.size inb_S7x2x16_S1x1x16_2_1_0, p⟩,
      ⟨Rect.unit (s := S7x2x16) ![2, 0, 0] S1x1x16.size inb_S7x2x16_S1x1x16_2_0_0, p⟩,
      ⟨Rect.unit (s := S7x2x16) ![1, 1, 0] S1x1x16.size inb_S7x2x16_S1x1x16_1_1_0, p⟩,
      ⟨Rect.unit (s := S7x2x16) ![1, 0, 0] S1x1x16.size inb_S7x2x16_S1x1x16_1_0_0, p⟩,
      ⟨Rect.unit (s := S7x2x16) ![0, 1, 0] S1x1x16.size inb_S7x2x16_S1x1x16_0_1_0, p⟩,
      ⟨Rect.unit (s := S7x2x16) ![0, 0, 0] S1x1x16.size inb_S7x2x16_S1x1x16_0_0_0, p⟩]) (cellsOfC (view.read (Elt F) (view.writes (Elt F) g
      [⟨Rect.unit (s := S7x2x16) ![6, 0, 0] S1x1x16.size inb_S7x2x16_S1x1x16_6_0_0, p⟩,
      ⟨Rect.unit (s := S7x2x16) ![5, 1, 0] S1x1x16.size inb_S7x2x16_S1x1x16_5_1_0, p⟩,
      ⟨Rect.unit (s := S7x2x16) ![5, 0, 0] S1x1x16.size inb_S7x2x16_S1x1x16_5_0_0, p⟩,
      ⟨Rect.unit (s := S7x2x16) ![4, 1, 0] S1x1x16.size inb_S7x2x16_S1x1x16_4_1_0, p⟩,
      ⟨Rect.unit (s := S7x2x16) ![4, 0, 0] S1x1x16.size inb_S7x2x16_S1x1x16_4_0_0, p⟩,
      ⟨Rect.unit (s := S7x2x16) ![3, 1, 0] S1x1x16.size inb_S7x2x16_S1x1x16_3_1_0, p⟩,
      ⟨Rect.unit (s := S7x2x16) ![3, 0, 0] S1x1x16.size inb_S7x2x16_S1x1x16_3_0_0, p⟩,
      ⟨Rect.unit (s := S7x2x16) ![2, 1, 0] S1x1x16.size inb_S7x2x16_S1x1x16_2_1_0, p⟩,
      ⟨Rect.unit (s := S7x2x16) ![2, 0, 0] S1x1x16.size inb_S7x2x16_S1x1x16_2_0_0, p⟩,
      ⟨Rect.unit (s := S7x2x16) ![1, 1, 0] S1x1x16.size inb_S7x2x16_S1x1x16_1_1_0, p⟩,
      ⟨Rect.unit (s := S7x2x16) ![1, 0, 0] S1x1x16.size inb_S7x2x16_S1x1x16_1_0_0, p⟩,
      ⟨Rect.unit (s := S7x2x16) ![0, 1, 0] S1x1x16.size inb_S7x2x16_S1x1x16_0_1_0, p⟩,
      ⟨Rect.unit (s := S7x2x16) ![0, 0, 0] S1x1x16.size inb_S7x2x16_S1x1x16_0_0_0, p⟩]))) (cells_cellsOfC _).symm 6 1 (by decide) (by decide) inb_S7x2x16_S1x1x16_6_1_0 p
  have h2 := read_writes_rowStart view g (fun _ _ => p)
  exact cells_inj (h1.symm.trans h2)

end Cert.KernelIdeal.ScTileV

end
-- ==== Proof.ScTileVTrip3I.lean ====
/-
  One row of the task's row loop with values, a row following: from the loop's invariant with the carried sums and the
  slots' payloads named to the invariant at the next row, the four channel groups' parts composed; what the row adds to
  the carried sums is stated once, as the row's fold over the accumulators' final register files.
-/
import proofs.«210586_g14980845929080_cont_week2b_1062_66_alg».proof.Proof.ScTileVP91NI
import proofs.«210586_g14980845929080_cont_week2b_1062_66_alg».proof.Proof.ScTileVP92I
import proofs.«210586_g14980845929080_cont_week2b_1062_66_alg».proof.Proof.ScTileVP93NI
import proofs.«210586_g14980845929080_cont_week2b_1062_66_alg».proof.Proof.ScTileVP94I
import proofs.«210586_g14980845929080_cont_week2b_1062_66_alg».proof.Proof.ScTileVInvI
import proofs.«210586_g14980845929080_cont_week2b_1062_66_alg».proof.Proof.ScTileVSlotOffI
import proofs.«210586_g14980845929080_cont_week2b_1062_66_alg».proof.Proof.ScTileRowI
import proofs.«210586_g14980845929080_cont_week2b_1062_66_alg».proof.Proof.ScTileVZeroI
import proofs.«210586_g14980845929080_cont_week2b_1062_66_alg».proof.Proof.Gen.KernelIdeal.Skeleton
import Idealize.ShloMosaic.Lib.Tactic

set_option warn.classDefReducibility false

noncomputable section

namespace Cert.KernelIdeal.ScTileV

open Cert.KernelIdeal.ScTile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ Sc.UU ℕ

local notation "a0V" => (Memref.whole Cert.KernelIdeal.main_arg0_scv : Memref Cert.KernelIdeal.sig Kind.scVector Space.hbm Cert.KernelIdeal.S8x192x224x224 EltTy.f32)
local notation "a1V" => (Memref.whole Cert.KernelIdeal.main_arg1_scv : Memref Cert.KernelIdeal.sig Kind.scVector Space.hbm Cert.KernelIdeal.S8x192x224x224 EltTy.f32)
local notation "mkV" => (Memref.whole Cert.KernelIdeal.main_v0_scv : Memref Cert.KernelIdeal.sig Kind.scVector Space.hbm Cert.KernelIdeal.S8x224x256 EltTy.f32)
local notation "ptV" => (Memref.whole Cert.KernelIdeal.main_v1_scv : Memref Cert.KernelIdeal.sig Kind.scVector Space.hbm Cert.KernelIdeal.S32x32 EltTy.f32)
local notation "b0V" => (Memref.whole Cert.KernelIdeal.cc1_scratch0 : Memref Cert.KernelIdeal.sig Kind.scVector Space.vmem Cert.KernelIdeal.S48x224 EltTy.f32)
local notation "b1V" => (Memref.whole Cert.KernelIdeal.cc1_scratch1 : Memref Cert.KernelIdeal.sig Kind.scVector Space.vmem Cert.KernelIdeal.S48x224 EltTy.f32)
local notation "b2V" => (Memref.whole Cert.KernelIdeal.cc1_scratch2 : Memref Cert.KernelIdeal.sig Kind.scVector Space.vmem Cert.KernelIdeal.S48x224 EltTy.f32)
local notation "b3V" => (Memref.whole Cert.KernelIdeal.cc1_scratch3 : Memref Cert.KernelIdeal.sig Kind.scVector Space.vmem Cert.KernelIdeal.S48x224 EltTy.f32)
local notation "b4V" => (Memref.whole Cert.KernelIdeal.cc1_scratch4 : Memref Cert.KernelIdeal.sig Kind.scVector Space.vmem Cert.KernelIdeal.S8x16x256 EltTy.f32)
local notation "b5V" => (Memref.whole Cert.KernelIdeal.cc1_scratch5 : Memref Cert.KernelIdeal.sig Kind.scVector Space.vmem Cert.KernelIdeal.S7x2x16 EltTy.f32)
local notation "b6V" => (Memref.whole Cert.KernelIdeal.cc1_scratch6 : Memref Cert.KernelIdeal.sig Kind.scVector Space.vmem Cert.KernelIdeal.S7x2x16 EltTy.f32)
local notation "b7V" => (Memref.whole Cert.KernelIdeal.cc1_scratch7 : Memref Cert.KernelIdeal.sig Kind.scVector Space.vmem Cert.KernelIdeal.S32 EltTy.f32)

variable [FloatOps F]

section Tile

variable (X0 : (d : Dev nD) → Buf (Elt F) (a0Loc d)) (X1 : (d : Dev nD) → Buf (Elt F) (a1Loc d))
  (M : (d : Dev nD) → Buf (Elt F) (mkLoc d)) (R0 : (d : Dev nD) → Buf (Elt F) (ptLoc d))
variable (d : Dev nD) (L : grid1.Coords)
variable (d : Dev nD) (L : grid1.Coords)

theorem write_univ_B0 (f w : Buf (Elt F) ((V d (cV L) (jV L)).loc cc1_scratch0)) : (b0V).view.write (Elt F) f w Finset.univ = w := by
  simp only [Memref.view_whole, View.write_whole_univ]
theorem write_univ_B1 (f w : Buf (Elt F) ((V d (cV L) (jV L)).loc cc1_scratch1)) : (b1V).view.write (Elt F) f w Finset.univ = w := by
  simp only [Memref.view_whole, View.write_whole_univ]
theorem write_univ_B2 (f w : Buf (Elt F) ((V d (cV L) (jV L)).loc cc1_scratch2)) : (b2V).view.write (Elt F) f w Finset.univ = w := by
  simp only [Memref.view_whole, View.write_whole_univ]
theorem write_univ_B3 (f w : Buf (Elt F) ((V d (cV L) (jV L)).loc cc1_scratch3)) : (b3V).view.write (Elt F) f w Finset.univ = w := by
  simp only [Memref.view_whole, View.write_whole_univ]

/-- A refilled slot buffer holds the window's payload. -/
theorem refillOf_B0 (o : Fin 4 → ℕ) (hin : ∀ a, o a + S1x48x1x224.size a ≤ S8x192x224x224.size a) (prev : Buf (Elt F) ((V d (cV L) (jV L)).loc cc1_scratch0)) :
    refillOf a0V (X0 d) o hin (b0V).view prev = payA0 X0 d o hin := by unfold refillOf payA0; exact write_univ_B0 d L _ _
theorem refillOf_B1 (o : Fin 4 → ℕ) (hin : ∀ a, o a + S1x48x1x224.size a ≤ S8x192x224x224.size a) (prev : Buf (Elt F) ((V d (cV L) (jV L)).loc cc1_scratch1)) :
    refillOf a1V (X1 d) o hin (b1V).view prev = payA1 X1 d o hin := by unfold refillOf payA1; exact write_univ_B1 d L _ _
theorem refillOf_B2 (o : Fin 4 → ℕ) (hin : ∀ a, o a + S1x48x1x224.size a ≤ S8x192x224x224.size a) (prev : Buf (Elt F) ((V d (cV L) (jV L)).loc cc1_scratch2)) :
    refillOf a0V (X0 d) o hin (b2V).view prev = payA0 X0 d o hin := by unfold refillOf payA0; exact write_univ_B2 d L _ _
theorem refillOf_B3 (o : Fin 4 → ℕ) (hin : ∀ a, o a + S1x48x1x224.size a ≤ S8x192x224x224.size a) (prev : Buf (Elt F) ((V d (cV L) (jV L)).loc cc1_scratch3)) :
    refillOf a1V (X1 d) o hin (b3V).view prev = payA1 X1 d o hin := by unfold refillOf payA1; exact write_univ_B3 d L _ _

/-- The row's load of the sixteen flag words, and lane group `kk`'s flag bit. -/
def flagLd (L : grid1.Coords) (k : Fin k1_t1_loop.trips) (g4 : Buf (Elt F) ((V d (cV L) (jV L)).loc cc1_scratch4)) : Vec F S1x1x16 .f32 :=
  View.readAt (Elt F) (b4V).view (Rect.unit (s := S8x16x256) (k1_off4 L k) S1x1x16.size (k1_off4_inb L k)).toLoadRect g4
def flagBit (L : grid1.Coords) (k : Fin k1_t1_loop.trips) (g4 : Buf (Elt F) ((V d (cV L) (jV L)).loc cc1_scratch4)) : Fin 7 → BitVec 1
  | ⟨0, _⟩ => Scalar.cmpf .ogt (k1_pay730 (flagLd d L k g4)) (FloatOps.ofBits .f32 0x00000000#32)
  | ⟨1, _⟩ => Scalar.cmpf .ogt (k1_pay731 (flagLd d L k g4)) (FloatOps.ofBits .f32 0x00000000#32)
  | ⟨2, _⟩ => Scalar.cmpf .ogt (k1_pay732 (flagLd d L k g4)) (FloatOps.ofBits .f32 0x00000000#32)
  | ⟨3, _⟩ => Scalar.cmpf .ogt (k1_pay733 (k1_pay729 (flagLd d L k g4))) (FloatOps.ofBits .f32 0x00000000#32)
  | ⟨4, _⟩ => Scalar.cmpf .ogt (k1_pay734 (k1_pay729 (flagLd d L k g4))) (FloatOps.ofBits .f32 0x00000000#32)
  | ⟨5, _⟩ => Scalar.cmpf .ogt (k1_pay735 (k1_pay729 (flagLd d L k g4))) (FloatOps.ofBits .f32 0x00000000#32)
  | ⟨6, _⟩ => Scalar.cmpf .ogt (k1_pay736 (k1_pay729 (flagLd d L k g4))) (FloatOps.ofBits .f32 0x00000000#32)

/-- The row's loads of the mask line, per lane group and half. -/
def slabOf (L : grid1.Coords) (k : Fin k1_t1_loop.trips) (g4 : Buf (Elt F) ((V d (cV L) (jV L)).loc cc1_scratch4)) : Fin 7 → Fin 2 → Vec F S1x1x16 .f32
  | ⟨0, _⟩, ⟨0, _⟩ => View.readAt (Elt F) (b4V).view (Rect.unit (s := S8x16x256) (k1_off65 L k) S1x1x16.size (k1_off65_inb L k)).toLoadRect g4
  | ⟨0, _⟩, ⟨1, _⟩ => View.readAt (Elt F) (b4V).view (Rect.unit (s := S8x16x256) (k1_off66 L k) S1x1x16.size (k1_off66_inb L k)).toLoadRect g4
  | ⟨1, _⟩, ⟨0, _⟩ => View.readAt (Elt F) (b4V).view (Rect.unit (s := S8x16x256) (k1_off67 L k) S1x1x16.size (k1_off67_inb L k)).toLoadRect g4
  | ⟨1, _⟩, ⟨1, _⟩ => View.readAt (Elt F) (b4V).view (Rect.unit (s := S8x16x256) (k1_off68 L k) S1x1x16.size (k1_off68_inb L k)).toLoadRect g4
  | ⟨2, _⟩, ⟨0, _⟩ => View.readAt (Elt F) (b4V).view (Rect.unit (s := S8x16x256) (k1_off69 L k) S1x1x16.size (k1_off69_inb L k)).toLoadRect g4
  | ⟨2, _⟩, ⟨1, _⟩ => View.readAt (Elt F) (b4V).view (Rect.unit (s := S8x16x256) (k1_off70 L k) S1x1x16.size (k1_off70_inb L k)).toLoadRect g4
  | ⟨3, _⟩, ⟨0, _⟩ => View.readAt (Elt F) (b4V).view (Rect.unit (s := S8x16x256) (k1_off71 L k) S1x1x16.size (k1_off71_inb L k)).toLoadRect g4
  | ⟨3, _⟩, ⟨1, _⟩ => View.readAt (Elt F) (b4V).view (Rect.unit (s := S8x16x256) (k1_off72 L k) S1x1x16.size (k1_off72_inb L k)).toLoadRect g4
  | ⟨4, _⟩, ⟨0, _⟩ => View.readAt (Elt F) (b4V).view (Rect.unit (s := S8x16x256) (k1_off73 L k) S1x1x16.size (k1_off73_inb L k)).toLoadRect g4
  | ⟨4, _⟩, ⟨1, _⟩ => View.readAt (Elt F) (b4V).view (Rect.unit (s := S8x16x256) (k1_off74 L k) S1x1x16.size (k1_off74_inb L k)).toLoadRect g4
  | ⟨5, _⟩, ⟨0, _⟩ => View.readAt (Elt F) (b4V).view (Rect.unit (s := S8x16x256) (k1_off75 L k) S1x1x16.size (k1_off75_inb L k)).toLoadRect g4
  | ⟨5, _⟩, ⟨1, _⟩ => View.readAt (Elt F) (b4V).view (Rect.unit (s := S8x16x256) (k1_off76 L k) S1x1x16.size (k1_off76_inb L k)).toLoadRect g4
  | ⟨6, _⟩, ⟨0, _⟩ => View.readAt (Elt F) (b4V).view (Rect.unit (s := S8x16x256) (k1_off77 L k) S1x1x16.size (k1_off77_inb L k)).toLoadRect g4
  | ⟨6, _⟩, ⟨1, _⟩ => View.readAt (Elt F) (b4V).view (Rect.unit (s := S8x16x256) (k1_off78 L k) S1x1x16.size (k1_off78_inb L k)).toLoadRect g4

/-- The accumulators' register files after the row's four channel groups, from the zeroed squared-distance file and a
    largest-absolute-value file `w6` zeroed everywhere but at cell (6, 1) (which the first part zeroes). -/
def filesRow (L : grid1.Coords) (k : Fin k1_t1_loop.trips) (g4 : Buf (Elt F) ((V d (cV L) (jV L)).loc cc1_scratch4))
    (hA : ∀ a, oAt L k.val 0 a + S1x48x1x224.size a ≤ S8x192x224x224.size a) (hB : ∀ a, oAt L k.val 1 a + S1x48x1x224.size a ≤ S8x192x224x224.size a)
    (w6 : Fin 7 → Fin 2 → Vec F S1x1x16 .f32) : FilesF F :=
  files94 d L (payA0 X0 d (k1_off34 L k) (k1_off34_inb L k (cond16_all k))) (payA1 X1 d (k1_off34 L k) (k1_off34_inb L k (cond16_all k))) (flagBit d L k g4 0) (flagBit d L k g4 1) (flagBit d L k g4 2) (flagBit d L k g4 3) (flagBit d L k g4 4) (flagBit d L k g4 5) (flagBit d L k g4 6)
    (f93_7 d L (payA0 X0 d (k1_off19 L k) (k1_off19_inb L k (cond8_all k))) (payA1 X1 d (k1_off19 L k) (k1_off19_inb L k (cond8_all k)))
      (files92 d L (payA0 X0 d (oAt L k.val 1) hB) (payA1 X1 d (oAt L k.val 1) hB) (flagBit d L k g4 0) (flagBit d L k g4 1) (flagBit d L k g4 2) (flagBit d L k g4 3) (flagBit d L k g4 4) (flagBit d L k g4 5) (flagBit d L k g4 6)
        (f91_7 d L (payA0 X0 d (oAt L k.val 0) hA) (payA1 X1 d (oAt L k.val 0) hA) (fun _ _ => toCellF (k1_pay828 (F := F))) w6 (k1_pay828 (F := F)) (flagBit d L k g4 0) (flagBit d L k g4 1) (flagBit d L k g4 2) (flagBit d L k g4 3) (flagBit d L k g4 4) (flagBit d L k g4 5) (flagBit d L k g4 6)).1
        (f91_7 d L (payA0 X0 d (oAt L k.val 0) hA) (payA1 X1 d (oAt L k.val 0) hA) (fun _ _ => toCellF (k1_pay828 (F := F))) w6 (k1_pay828 (F := F)) (flagBit d L k g4 0) (flagBit d L k g4 1) (flagBit d L k g4 2) (flagBit d L k g4 3) (flagBit d L k g4 4) (flagBit d L k g4 5) (flagBit d L k g4 6)).2).1
      (files92 d L (payA0 X0 d (oAt L k.val 1) hB) (payA1 X1 d (oAt L k.val 1) hB) (flagBit d L k g4 0) (flagBit d L k g4 1) (flagBit d L k g4 2) (flagBit d L k g4 3) (flagBit d L k g4 4) (flagBit d L k g4 5) (flagBit d L k g4 6)
        (f91_7 d L (payA0 X0 d (oAt L k.val 0) hA) (payA1 X1 d (oAt L k.val 0) hA) (fun _ _ => toCellF (k1_pay828 (F := F))) w6 (k1_pay828 (F := F)) (flagBit d L k g4 0) (flagBit d L k g4 1) (flagBit d L k g4 2) (flagBit d L k g4 3) (flagBit d L k g4 4) (flagBit d L k g4 5) (flagBit d L k g4 6)).1
        (f91_7 d L (payA0 X0 d (oAt L k.val 0) hA) (payA1 X1 d (oAt L k.val 0) hA) (fun _ _ => toCellF (k1_pay828 (F := F))) w6 (k1_pay828 (F := F)) (flagBit d L k g4 0) (flagBit d L k g4 1) (flagBit d L k g4 2) (flagBit d L k g4 3) (flagBit d L k g4 4) (flagBit d L k g4 5) (flagBit d L k g4 6)).2).2
      (flagBit d L k g4 0) (flagBit d L k g4 1) (flagBit d L k g4 2) (flagBit d L k g4 3) (flagBit d L k g4 4) (flagBit d L k g4 5) (flagBit d L k g4 6)).1
    (f93_7 d L (payA0 X0 d (k1_off19 L k) (k1_off19_inb L k (cond8_all k))) (payA1 X1 d (k1_off19 L k) (k1_off19_inb L k (cond8_all k)))
      (files92 d L (payA0 X0 d (oAt L k.val 1) hB) (payA1 X1 d (oAt L k.val 1) hB) (flagBit d L k g4 0) (flagBit d L k g4 1) (flagBit d L k g4 2) (flagBit d L k g4 3) (flagBit d L k g4 4) (flagBit d L k g4 5) (flagBit d L k g4 6)
        (f91_7 d L (payA0 X0 d (oAt L k.val 0) hA) (payA1 X1 d (oAt L k.val 0) hA) (fun _ _ => toCellF (k1_pay828 (F := F))) w6 (k1_pay828 (F := F)) (flagBit d L k g4 0) (flagBit d L k g4 1) (flagBit d L k g4 2) (flagBit d L k g4 3) (flagBit d L k g4 4) (flagBit d L k g4 5) (flagBit d L k g4 6)).1
        (f91_7 d L (payA0 X0 d (oAt L k.val 0) hA) (payA1 X1 d (oAt L k.val 0) hA) (fun _ _ => toCellF (k1_pay828 (F := F))) w6 (k1_pay828 (F := F)) (flagBit d L k g4 0) (flagBit d L k g4 1) (flagBit d L k g4 2) (flagBit d L k g4 3) (flagBit d L k g4 4) (flagBit d L k g4 5) (flagBit d L k g4 6)).2).1
      (files92 d L (payA0 X0 d (oAt L k.val 1) hB) (payA1 X1 d (oAt L k.val 1) hB) (flagBit d L k g4 0) (flagBit d L k g4 1) (flagBit d L k g4 2) (flagBit d L k g4 3) (flagBit d L k g4 4) (flagBit d L k g4 5) (flagBit d L k g4 6)
        (f91_7 d L (payA0 X0 d (oAt L k.val 0) hA) (payA1 X1 d (oAt L k.val 0) hA) (fun _ _ => toCellF (k1_pay828 (F := F))) w6 (k1_pay828 (F := F)) (flagBit d L k g4 0) (flagBit d L k g4 1) (flagBit d L k g4 2) (flagBit d L k g4 3) (flagBit d L k g4 4) (flagBit d L k g4 5) (flagBit d L k g4 6)).1
        (f91_7 d L (payA0 X0 d (oAt L k.val 0) hA) (payA1 X1 d (oAt L k.val 0) hA) (fun _ _ => toCellF (k1_pay828 (F := F))) w6 (k1_pay828 (F := F)) (flagBit d L k g4 0) (flagBit d L k g4 1) (flagBit d L k g4 2) (flagBit d L k g4 3) (flagBit d L k g4 4) (flagBit d L k g4 5) (flagBit d L k g4 6)).2).2
      (flagBit d L k g4 0) (flagBit d L k g4 1) (flagBit d L k g4 2) (flagBit d L k g4 3) (flagBit d L k g4 4) (flagBit d L k g4 5) (flagBit d L k g4 6)).2

set_option maxHeartbeats 16000000 in
/-- One row, a row following. -/
theorem row_tripN (sums : ℕ → FVec F S16 .f32 × FVec F S16 .f32) (qa qb : PosShare TreeShare) (O : CellTallies nD τ sig (HIx 1)) (W : Waits sig (HIx 1))
    (g4 : Buf (Elt F) ((V d (cV L) (jV L)).loc cc1_scratch4)) (v3 v23 : BitVec 32)
    (k : Fin k1_t1_loop.trips) (hl : k.val + 1 < 16) (acc : FVec F S16 .f32 × FVec F S16 .f32)
    (hsums : ∀ (hA : ∀ a, oAt L k.val 0 a + S1x48x1x224.size a ≤ S8x192x224x224.size a) (hB : ∀ a, oAt L k.val 1 a + S1x48x1x224.size a ≤ S8x192x224x224.size a)
      (w6 : Fin 7 → Fin 2 → Vec F S1x1x16 .f32), upd w6 6 1 (toCellF (k1_pay828 (F := F))) = (fun _ _ => toCellF (k1_pay828 (F := F))) →
      rowFold (k1_pay829 (F := F)) (k1_pay828 (F := F)) (slabOf d L k g4) (filesRow X0 X1 d L k g4 hA hB w6).2 (filesRow X0 X1 d L k g4 hA hB w6).1 (sums k.val) = sums (k.val + 1)) :
    rowInvN X0 X1 sums qa qb d L O W g4 k.val acc
      ⊢ wp frame (wpE (defs₀ (F := F)) Sc.𝒱₀ (V d (cV L) (jV L)) none) Set.univ (k1_t1_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 v3 v23 (k1_pay828 (F := F)) (k1_pay829 (F := F)) k acc)
          (rowInvN X0 X1 sums qa qb d L O W g4 (k.val + 1)) := by
  rcases acc with ⟨a19, a20⟩
  have hk : k.val < 16 := trips16 ▸ k.isLt
  unfold rowInvN k1_t1_body
  rw [if_pos hk, if_pos hl]; unfold rowFlyN flying0 flying1
  iintro ⟨%hacc, #Hmw, Hb4, ⟨%g5, Hb5⟩, ⟨%g6, Hb6⟩, ⟨%oA, %oB, %hA, %hB, %eA, %eB, ⟨HF3, H0a, HF4, H1a⟩, ⟨HF5, H0b, HF6, H1b⟩⟩, %W', %hW', HO⟩
  subst eA eB
  set_option sl_exec.maxSteps 68 in sl_exec
  ihave Hb5' := (pts_nameA (F := F) _ _) $$ Hb5
  icases Hb5' with ⟨%c5, %hc5, Hb5⟩
  ihave Hb6' := (pts_nameA (F := F) _ _) $$ Hb6
  icases Hb6' with ⟨%c6, %hc6, Hb6⟩
  have h5 : (b5V).view.read (Elt F) c5 = cells (fun _ _ => toCellF (k1_pay828 (F := F))) := by
    rw [hc5]; exact read_writes_rowStart (b5V).view g5 (fun _ _ => toCellF (k1_pay828 (F := F)))
  have h6 : (b6V).view.read (Elt F) c6 = cells (cellsOfC ((b6V).view.read (Elt F) c6)) := (cells_cellsOfC _).symm
  have hP91 : ∀ (o : Fin 4 → ℕ) (h : (∀ a, o a + S1x48x1x224.size a ≤ S8x192x224x224.size a)) (g0 : Buf (Elt F) ((V d (cV L) (jV L)).loc cc1_scratch0)) (g1 : Buf (Elt F) ((V d (cV L) (jV L)).loc cc1_scratch1))
      (c5 : Buf (Elt F) ((V d (cV L) (jV L)).loc cc1_scratch5)) (c6 : Buf (Elt F) ((V d (cV L) (jV L)).loc cc1_scratch6))
      (w5 w6 : Fin 7 → Fin 2 → Vec F S1x1x16 .f32) (v24 : FVec F S16 .f32) (v87 v90 v93 v96 v99 v102 v105 : BitVec 1) (Wx : Waits sig (HIx 1))
      (e5 : (b5V).view.read (Elt F) c5 = cells w5) (e6 : (b6V).view.read (Elt F) c6 = cells w6),
      iprop(Transfers.MayWaits (V d (cV L) (jV L)) (none : HIx 1) O ∗ ((b5V).view.loc (V d (cV L) (jV L)) ↦{fullShare} c5) ∗ ((b6V).view.loc (V d (cV L) (jV L)) ↦{fullShare} c6) ∗ flying0 X0 X1 qa d L o h g0 g1 ∗ owes (V d (cV L) (jV L)) O Wx)
        ⊢ wp frame (wpE (defs₀ (F := F)) Sc.𝒱₀ (V d (cV L) (jV L)) none) Set.univ (k1_part91 L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 v24 v87 v90 v93 v96 v99 v102 v105)
            (fun _ => iprop(Transfers.MayWaits (V d (cV L) (jV L)) (none : HIx 1) O
              ∗ accHeld d L (f91_7 d L g0 g1 w5 w6 v24 v87 v90 v93 v96 v99 v102 v105).1 (f91_7 d L g0 g1 w5 w6 v24 v87 v90 v93 v96 v99 v102 v105).2
              ∗ landed0 X0 X1 qa d L g0 g1 ∗ owes (V d (cV L) (jV L)) O (insert (SemLoc.dma (⟨4, by decide⟩ : DmaSem sig), (default : HIx 1)) (insert (SemLoc.dma (⟨3, by decide⟩ : DmaSem sig), (default : HIx 1)) Wx)))) := by
    intro o h g0 g1 c5 c6 w5 w6 v24 v87 v90 v93 v96 v99 v102 v105 Wx e5 e6
    have hpre : iprop(Transfers.MayWaits (V d (cV L) (jV L)) (none : HIx 1) O ∗ ((b5V).view.loc (V d (cV L) (jV L)) ↦{fullShare} c5) ∗ ((b6V).view.loc (V d (cV L) (jV L)) ↦{fullShare} c6) ∗ flying0 X0 X1 qa d L o h g0 g1 ∗ owes (V d (cV L) (jV L)) O Wx)
        ⊢ cutFA (flying0 X0 X1 qa d L o h g0 g1) d L O Wx (w5, w6) := by
      unfold cutFA accHeld
      iintro ⟨Hmw, H5, H6, Hf, HO⟩
      isplitl [Hmw]; · iexact Hmw
      isplitl [H5 H6]
      · iexists c5, c6
        isplitl [H5]; · iexact H5
        isplitl [H6]; · iexact H6
        isplitr <;> (ipureintro; assumption)
      isplitl [Hf]; · iexact Hf
      iexact HO
    exact hpre.trans (part91N (F := F) X0 X1 d L qa O Wx o h g0 g1 w5 w6 v24 v87 v90 v93 v96 v99 v102 v105)
  have hP92 : ∀ (oB : Fin 4 → ℕ) (hB : (∀ a, oB a + S1x48x1x224.size a ≤ S8x192x224x224.size a)) (g0 : Buf (Elt F) ((V d (cV L) (jV L)).loc cc1_scratch0)) (g1 : Buf (Elt F) ((V d (cV L) (jV L)).loc cc1_scratch1)) (g2 : Buf (Elt F) ((V d (cV L) (jV L)).loc cc1_scratch2)) (g3 : Buf (Elt F) ((V d (cV L) (jV L)).loc cc1_scratch3))
      (c5 : Buf (Elt F) ((V d (cV L) (jV L)).loc cc1_scratch5)) (c6 : Buf (Elt F) ((V d (cV L) (jV L)).loc cc1_scratch6)) (w5 w6 : Fin 7 → Fin 2 → Vec F S1x1x16 .f32) (v87 v90 v93 v96 v99 v102 v105 : BitVec 1) (Wx : Waits sig (HIx 1))
      (e5 : (b5V).view.read (Elt F) c5 = cells w5) (e6 : (b6V).view.read (Elt F) c6 = cells w6) (v3 arg18 c0 : BitVec 32),
      iprop(Transfers.MayWaits (V d (cV L) (jV L)) (none : HIx 1) O ∗ ((b5V).view.loc (V d (cV L) (jV L)) ↦{fullShare} c5) ∗ ((b6V).view.loc (V d (cV L) (jV L)) ↦{fullShare} c6) ∗ landed0 X0 X1 qa d L g0 g1 ∗ flying1 X0 X1 qb d L oB hB g2 g3 ∗ owes (V d (cV L) (jV L)) O Wx)
        ⊢ wp frame (wpE (defs₀ (F := F)) Sc.𝒱₀ (V d (cV L) (jV L)) none) Set.univ (k1_part92 L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 v3 k arg18 v87 v90 v93 v96 v99 v102 v105 c0) (fun _ => st92 X0 X1 qa qb d L O (insert (SemLoc.dma (⟨6, by decide⟩ : DmaSem sig), (default : HIx 1)) (insert (SemLoc.dma (⟨5, by decide⟩ : DmaSem sig), (default : HIx 1)) Wx)) k g0 g1 g2 g3 (files92 d L g2 g3 v87 v90 v93 v96 v99 v102 v105 w5 w6).1 (files92 d L g2 g3 v87 v90 v93 v96 v99 v102 v105 w5 w6).2) := by
    intro oB hB g0 g1 g2 g3 c5 c6 w5 w6 v87 v90 v93 v96 v99 v102 v105 Wx e5 e6 v3 arg18 c0
    have hpre : iprop(Transfers.MayWaits (V d (cV L) (jV L)) (none : HIx 1) O ∗ ((b5V).view.loc (V d (cV L) (jV L)) ↦{fullShare} c5) ∗ ((b6V).view.loc (V d (cV L) (jV L)) ↦{fullShare} c6) ∗ landed0 X0 X1 qa d L g0 g1 ∗ flying1 X0 X1 qb d L oB hB g2 g3 ∗ owes (V d (cV L) (jV L)) O Wx)
        ⊢ iprop(Transfers.MayWaits (V d (cV L) (jV L)) (none : HIx 1) O ∗ accHeld d L w5 w6 ∗ landed0 X0 X1 qa d L g0 g1 ∗ flying1 X0 X1 qb d L oB hB g2 g3 ∗ owes (V d (cV L) (jV L)) O Wx) := by
      unfold accHeld
      iintro ⟨Hmw, H5, H6, Hs0, Hs1, HO⟩
      isplitl [Hmw]; · iexact Hmw
      isplitl [H5 H6]
      · iexists c5, c6
        isplitl [H5]; · iexact H5
        isplitl [H6]; · iexact H6
        isplitr <;> (ipureintro; assumption)
      isplitl [Hs0]; · iexact Hs0
      isplitl [Hs1]; · iexact Hs1
      iexact HO
    exact hpre.trans (part92N (F := F) X0 X1 d L qa qb O Wx oB hB g0 g1 g2 g3 w5 w6 v3 k arg18 v87 v90 v93 v96 v99 v102 v105 c0)
  have hP93 : ∀ (g0 : Buf (Elt F) ((V d (cV L) (jV L)).loc cc1_scratch0)) (g1 : Buf (Elt F) ((V d (cV L) (jV L)).loc cc1_scratch1)) (g2 : Buf (Elt F) ((V d (cV L) (jV L)).loc cc1_scratch2)) (g3 : Buf (Elt F) ((V d (cV L) (jV L)).loc cc1_scratch3))
      (c5 : Buf (Elt F) ((V d (cV L) (jV L)).loc cc1_scratch5)) (c6 : Buf (Elt F) ((V d (cV L) (jV L)).loc cc1_scratch6)) (w5 w6 : Fin 7 → Fin 2 → Vec F S1x1x16 .f32) (v87 v90 v93 v96 v99 v102 v105 : BitVec 1) (Wx : Waits sig (HIx 1))
      (e5 : (b5V).view.read (Elt F) c5 = cells w5) (e6 : (b6V).view.read (Elt F) c6 = cells w6) (v3 arg18 v321 c16 : BitVec 32),
      iprop(Transfers.MayWaits (V d (cV L) (jV L)) (none : HIx 1) O ∗ ((b5V).view.loc (V d (cV L) (jV L)) ↦{fullShare} c5) ∗ ((b6V).view.loc (V d (cV L) (jV L)) ↦{fullShare} c6) ∗ flying0 X0 X1 qa d L (k1_off19 L k) (k1_off19_inb L k (cond8_all k)) g0 g1 ∗ landed1 X0 X1 qb d L g2 g3 ∗ owes (V d (cV L) (jV L)) O Wx)
        ⊢ wp frame (wpE (defs₀ (F := F)) Sc.𝒱₀ (V d (cV L) (jV L)) none) Set.univ (k1_part93 L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 v3 k arg18 v87 v90 v93 v96 v99 v102 v105 v321 c16) (fun _ => cutFA (iprop(landed0 X0 X1 qa d L g0 g1 ∗ flying1 X0 X1 qb d L (k1_off34 L k) (k1_off34_inb L k (cond16_all k)) (refillOf a0V (X0 d) (k1_off34 L k) (k1_off34_inb L k (cond16_all k)) (b2V).view g2) (refillOf a1V (X1 d) (k1_off34 L k) (k1_off34_inb L k (cond16_all k)) (b3V).view g3))) d L O (insert (SemLoc.dma (⟨4, by decide⟩ : DmaSem sig), (default : HIx 1)) (insert (SemLoc.dma (⟨3, by decide⟩ : DmaSem sig), (default : HIx 1)) Wx)) (f93_7 d L g0 g1 w5 w6 v87 v90 v93 v96 v99 v102 v105)) := by
    intro g0 g1 g2 g3 c5 c6 w5 w6 v87 v90 v93 v96 v99 v102 v105 Wx e5 e6 v3 arg18 v321 c16
    have hpre : iprop(Transfers.MayWaits (V d (cV L) (jV L)) (none : HIx 1) O ∗ ((b5V).view.loc (V d (cV L) (jV L)) ↦{fullShare} c5) ∗ ((b6V).view.loc (V d (cV L) (jV L)) ↦{fullShare} c6) ∗ flying0 X0 X1 qa d L (k1_off19 L k) (k1_off19_inb L k (cond8_all k)) g0 g1 ∗ landed1 X0 X1 qb d L g2 g3 ∗ owes (V d (cV L) (jV L)) O Wx)
        ⊢ cutFA (iprop(flying0 X0 X1 qa d L (k1_off19 L k) (k1_off19_inb L k (cond8_all k)) g0 g1 ∗ landed1 X0 X1 qb d L g2 g3)) d L O Wx (w5, w6) := by
      unfold cutFA
      unfold accHeld
      iintro ⟨Hmw, H5, H6, Hs0, Hs1, HO⟩
      isplitl [Hmw]; · iexact Hmw
      isplitl [H5 H6]
      · iexists c5, c6
        isplitl [H5]; · iexact H5
        isplitl [H6]; · iexact H6
        isplitr <;> (ipureintro; assumption)
      isplitl [Hs0 Hs1]
      · isplitl [Hs0]; · iexact Hs0
        iexact Hs1
      iexact HO
    exact hpre.trans (part93N (F := F) X0 X1 d L qa qb O Wx k g0 g1 g2 g3 w5 w6 v3 arg18 v321 c16 v87 v90 v93 v96 v99 v102 v105)
  have hP94 : ∀ (oB : Fin 4 → ℕ) (hB : (∀ a, oB a + S1x48x1x224.size a ≤ S8x192x224x224.size a)) (g0 : Buf (Elt F) ((V d (cV L) (jV L)).loc cc1_scratch0)) (g1 : Buf (Elt F) ((V d (cV L) (jV L)).loc cc1_scratch1)) (g2 : Buf (Elt F) ((V d (cV L) (jV L)).loc cc1_scratch2)) (g3 : Buf (Elt F) ((V d (cV L) (jV L)).loc cc1_scratch3))
      (c5 : Buf (Elt F) ((V d (cV L) (jV L)).loc cc1_scratch5)) (c6 : Buf (Elt F) ((V d (cV L) (jV L)).loc cc1_scratch6)) (w5 w6 : Fin 7 → Fin 2 → Vec F S1x1x16 .f32) (v87 v90 v93 v96 v99 v102 v105 : BitVec 1) (Wx : Waits sig (HIx 1))
      (e5 : (b5V).view.read (Elt F) c5 = cells w5) (e6 : (b6V).view.read (Elt F) c6 = cells w6) (v3 arg18 v347 v349 : BitVec 32),
      iprop(Transfers.MayWaits (V d (cV L) (jV L)) (none : HIx 1) O ∗ ((b5V).view.loc (V d (cV L) (jV L)) ↦{fullShare} c5) ∗ ((b6V).view.loc (V d (cV L) (jV L)) ↦{fullShare} c6) ∗ landed0 X0 X1 qa d L g0 g1 ∗ flying1 X0 X1 qb d L oB hB g2 g3 ∗ owes (V d (cV L) (jV L)) O Wx)
        ⊢ wp frame (wpE (defs₀ (F := F)) Sc.𝒱₀ (V d (cV L) (jV L)) none) Set.univ (k1_part94 L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 v3 k arg18 v87 v90 v93 v96 v99 v102 v105 v347 v349) (fun _ => st94 X0 X1 qa qb d L O (insert (SemLoc.dma (⟨6, by decide⟩ : DmaSem sig), (default : HIx 1)) (insert (SemLoc.dma (⟨5, by decide⟩ : DmaSem sig), (default : HIx 1)) Wx)) k hl g0 g1 g2 g3 (files94 d L g2 g3 v87 v90 v93 v96 v99 v102 v105 w5 w6).1 (files94 d L g2 g3 v87 v90 v93 v96 v99 v102 v105 w5 w6).2) := by
    intro oB hB g0 g1 g2 g3 c5 c6 w5 w6 v87 v90 v93 v96 v99 v102 v105 Wx e5 e6 v3 arg18 v347 v349
    have hpre : iprop(Transfers.MayWaits (V d (cV L) (jV L)) (none : HIx 1) O ∗ ((b5V).view.loc (V d (cV L) (jV L)) ↦{fullShare} c5) ∗ ((b6V).view.loc (V d (cV L) (jV L)) ↦{fullShare} c6) ∗ landed0 X0 X1 qa d L g0 g1 ∗ flying1 X0 X1 qb d L oB hB g2 g3 ∗ owes (V d (cV L) (jV L)) O Wx)
        ⊢ iprop(Transfers.MayWaits (V d (cV L) (jV L)) (none : HIx 1) O ∗ accHeld d L w5 w6 ∗ landed0 X0 X1 qa d L g0 g1 ∗ flying1 X0 X1 qb d L oB hB g2 g3 ∗ owes (V d (cV L) (jV L)) O Wx) := by
      unfold accHeld
      iintro ⟨Hmw, H5, H6, Hs0, Hs1, HO⟩
      isplitl [Hmw]; · iexact Hmw
      isplitl [H5 H6]
      · iexists c5, c6
        isplitl [H5]; · iexact H5
        isplitl [H6]; · iexact H6
        isplitr <;> (ipureintro; assumption)
      isplitl [Hs0]; · iexact Hs0
      isplitl [Hs1]; · iexact Hs1
      iexact HO
    exact hpre.trans (part94N (F := F) X0 X1 d L qa qb O Wx oB hB g0 g1 g2 g3 w5 w6 v3 k hl arg18 v87 v90 v93 v96 v99 v102 v105 v347 v349)
  have h32 : k1_cond32 k = 1#1 := (cond32_iff k).2 hl
  sl_exec
  have hz6 : upd (cellsOfC ((b6V).view.read (Elt F) c6)) 6 1 (toCellF (k1_pay828 (F := F))) = fun _ _ => toCellF (k1_pay828 (F := F)) := by
    rw [hc6]; exact file_after_last_zero (b6V).view g6 (toCellF (k1_pay828 (F := F)))
  have hG0 : G0k1_part92_2 = payA0 X0 d (k1_off19 L k) (k1_off19_inb L k (cond8_all k)) := hk1_part92_9.trans (refillOf_B0 X0 d L _ _ _)
  have hG1 : G1k1_part92_3 = payA1 X1 d (k1_off19 L k) (k1_off19_inb L k (cond8_all k)) := hk1_part92_10.trans (refillOf_B1 X1 d L _ _ _)
  subst hG0 hG1
  have hG0' : G0k1_part94_2 = payA0 X0 d (k1_off49 L k) (k1_off49_inb L k ((cond24_iff k).2 hl)) := hk1_part94_9.trans (refillOf_B0 X0 d L _ _ _)
  have hG1' : G1k1_part94_3 = payA1 X1 d (k1_off49 L k) (k1_off49_inb L k ((cond24_iff k).2 hl)) := hk1_part94_10.trans (refillOf_B1 X1 d L _ _ _)
  subst hG0' hG1'
  rw [refillOf_B2 X0 d L, refillOf_B3 X1 d L] at hk1_part94_3 hk1_part94_4
  have e5 : (b5V).view.read (Elt F) c5k1_part94_0 = cells (filesRow X0 X1 d L k g4 hA hB (cellsOfC ((b6V).view.read (Elt F) c6))).1 := hk1_part94_3
  have e6 : (b6V).view.read (Elt F) c6k1_part94_1 = cells (filesRow X0 X1 d L k g4 hA hB (cellsOfC ((b6V).view.read (Elt F) c6))).2 := hk1_part94_4
  have eOA : k1_off49 L k = oAt L (k.val + 1) 0 := (off49_eq L k).trans (by unfold oAt; rw [Nat.mul_zero])
  have eOB : k1_off64 L k = oAt L (k.val + 1) 1 := (off64_eq L k).trans (by unfold oAt; rw [Nat.mul_one])
  have hWx : ∀ p ∈ (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))))), p ∈ W ∨ p.2 = none := by
    intro p hp
    simp only [Finset.mem_insert] at hp
    rcases hp with rfl | rfl | rfl | rfl | rfl | rfl | rfl | rfl | h
    all_goals first | exact Or.inr rfl | exact hW' p h
  sl_step
  rw [write_univ_B2 d L, write_univ_B3 d L]
  isplitr
  · ipureintro
    have hs := hsums hA hB _ hz6
    rw [← hacc] at hs
    refine Eq.trans ?_ hs
    sl_unfold_run_names
    simp (disch := decide) only [readAt_cells (b5V).view c5k1_part94_0 _ e5, readAt_cells (b6V).view c6k1_part94_1 _ e6]
    rfl
  isplitr; · iexact Hmw
  isplitl [Hb4]; · iexact Hb4
  isplitl [Hk1_part94_1]; · iexists _; iexact Hk1_part94_1
  isplitl [Hk1_part94_2]; · iexists _; iexact Hk1_part94_2
  isplitr [Hk1_part94_17]
  · iexists (k1_off49 L k), (k1_off64 L k), (k1_off49_inb L k ((cond24_iff k).2 hl)), (k1_off64_inb L k h32)
    isplitr; · ipureintro; exact eOA
    isplitr; · ipureintro; exact eOB
    isplitl [Hk1_part94_5 Hk1_part94_6 Hk1_part94_7 Hk1_part94_8]
    · isplitl [Hk1_part94_5]; · iexact Hk1_part94_5
      isplitl [Hk1_part94_6]; · iexact Hk1_part94_6
      isplitl [Hk1_part94_7]; · iexact Hk1_part94_7
      iexact Hk1_part94_8
    · isplitl [Hk1_part94_15]; · iexact Hk1_part94_15
      isplitl [Hk1_part94_13]; · iexact Hk1_part94_13
      isplitl [Hk1_part94_16]; · iexact Hk1_part94_16
      iexact Hk1_part94_14
  · iexists _
    isplitr; · ipureintro; exact hWx
    iexact Hk1_part94_17

end Tile

end Cert.KernelIdeal.ScTileV

end
-- ==== Proof.ScTileVMathI.lean ====
import proofs.«210586_g14980845929080_cont_week2b_1062_66_alg».proof.Proof.ScTileVLoop2I
import proofs.«210586_g14980845929080_cont_week2b_1062_66_alg».proof.Proof.ScTileValI
import Idealize.ShloMosaic.Lib.WholeRead
import Idealize.ShloMosaic.Lib.ValueIdx
import Idealize.ShloMosaic.Lib.ValueLayout
import Idealize.ShloMosaic.PureOps.Ideal.Laws

noncomputable section

open scoped BigOperators

namespace Cert.KernelIdeal.ScTile

open Cert.KernelIdeal Cert.KernelIdeal.Gen Cert.KernelIdeal.ScTileV
open Idealize.ShloMosaic Idealize.ShloMosaic.ValueIdx
open Idealize.ShloMosaic.SparseCore (S V T)
open Idealize.ShloMosaic.Tactic

variable (d : Dev nD) (L : grid1.Coords)

/-! # The accumulation loops' sums in closed form (at the ideal values)

A slot holds 48 channel rows of the input and of the target, 224 columns each. One trip of an accumulation loop reads
four consecutive rows of both at sixteen columns from a base (twice: the lane group's two halves) and adds the four
squared differences to the running sums and folds the four absolute values of the target into the running maxima.
After `n` trips the sums are the initial ones plus the squared differences of rows `0 … 4 n − 1`, and the maxima the
initial ones with those rows' absolute values folded in. -/

/-! ## Running sums and maxima over rows -/

/-- A running sum of squared differences: from `a`, over rows `0 … m − 1`. -/
def sqSum (I T : ℕ → EReal) (a : EReal) (m : ℕ) : EReal := a + ∑ c ∈ Finset.range m, (I c - T c) * (I c - T c)
/-- A running maximum of absolute values: from `a`, over rows `0 … m − 1`. -/
def mxAbs (T : ℕ → EReal) (a : EReal) (m : ℕ) : EReal := (Finset.range m).fold max a fun c => max (T c) (-(T c))

theorem sqSum_zero (I T : ℕ → EReal) (a : EReal) : sqSum I T a 0 = a := by simp [sqSum]
theorem mxAbs_zero (T : ℕ → EReal) (a : EReal) : mxAbs T a 0 = a := by simp [mxAbs]
theorem sqSum_succ (I T : ℕ → EReal) (a : EReal) (m : ℕ) :
    sqSum I T a (m + 1) = sqSum I T a m + (I m - T m) * (I m - T m) := by
  unfold sqSum; rw [Finset.sum_range_succ, add_assoc]
theorem mxAbs_succ (T : ℕ → EReal) (a : EReal) (m : ℕ) :
    mxAbs T a (m + 1) = max (mxAbs T a m) (max (T m) (-(T m))) := by
  unfold mxAbs; rw [Finset.range_add_one, Finset.fold_insert Finset.notMem_range_self, max_comm]

/-- Four rows at once, as a trip adds them. -/
theorem sqSum_four (I T : ℕ → EReal) (a : EReal) (n : ℕ) :
    sqSum I T a (4 * (n + 1))
      = sqSum I T a (4 * n) + (I (4 * n) - T (4 * n)) * (I (4 * n) - T (4 * n))
          + (I (4 * n + 1) - T (4 * n + 1)) * (I (4 * n + 1) - T (4 * n + 1))
          + (I (4 * n + 2) - T (4 * n + 2)) * (I (4 * n + 2) - T (4 * n + 2))
          + (I (4 * n + 3) - T (4 * n + 3)) * (I (4 * n + 3) - T (4 * n + 3)) := by
  rw [show 4 * (n + 1) = 4 * n + 1 + 1 + 1 + 1 by omega, sqSum_succ, sqSum_succ, sqSum_succ, sqSum_succ]
theorem mxAbs_four (T : ℕ → EReal) (a : EReal) (n : ℕ) :
    mxAbs T a (4 * (n + 1))
      = max (max (max (max (mxAbs T a (4 * n)) (max (T (4 * n)) (-(T (4 * n))))) (max (T (4 * n + 1)) (-(T (4 * n + 1)))))
          (max (T (4 * n + 2)) (-(T (4 * n + 2))))) (max (T (4 * n + 3)) (-(T (4 * n + 3)))) := by
  rw [show 4 * (n + 1) = 4 * n + 1 + 1 + 1 + 1 by omega, mxAbs_succ, mxAbs_succ, mxAbs_succ, mxAbs_succ]

/-! ## Reading a slot's buffer -/

/-- The entry (row `c`, column `x`) of a slot buffer's contents `R`, 0 outside the buffer. -/
def rdN (R : S48x224.Idx → EReal) (c x : ℕ) : EReal := if h : c < 48 ∧ x < 224 then R (ix2 ⟨c, h.1⟩ ⟨x, h.2⟩) else 0

/-- A load of one row's sixteen columns from `(c, x)`, flattened, at lane `l`: the buffer's entry `(c, x + l)`. -/
theorem load_apply (m : Memref sig .scVector .vmem S48x224 .f32) (g : m.view.ty.Contents (Elt Ideal))
    (off : Fin 2 → ℕ) (h : ∀ a, off a + S1x16.size a ≤ S48x224.size a) (c x : ℕ) (e : off = ![c, x]) (l : Fin 16) :
    shapeCast S16 (View.readAt (Elt Ideal) m.view (Rect.unit (s := S48x224) off S1x16.size h).toLoadRect g) shapeCasts_S1x16_S16 (ix1 l)
      = rdN (m.view.read (Elt Ideal) g) c (x + l.val) := by
  subst e
  have h0 := h 0
  have h1 := h 1
  have hc : c < 48 := by have : c + 1 ≤ 48 := h0; omega
  have hx : x + l.val < 224 := by have : x + 16 ≤ 224 := h1; have := l.isLt; omega
  rw [shapeCast_1a_a_apply, View.readAt_apply]
  unfold rdN
  rw [dif_pos ⟨hc, hx⟩]
  congr 1
  funext a
  match a with
  | ⟨0, _⟩ => exact Fin.ext (by show c + 1 * 0 = c; omega)
  | ⟨1, _⟩ => exact Fin.ext (by show x + 1 * l.val = x + l.val; omega)

/-- The same at any index of the sixteen lanes. -/
theorem load_apply' (m : Memref sig .scVector .vmem S48x224 .f32) (g : m.view.ty.Contents (Elt Ideal))
    (off : Fin 2 → ℕ) (h : ∀ a, off a + S1x16.size a ≤ S48x224.size a) (c x : ℕ) (e : off = ![c, x]) (i : S16.Idx) :
    shapeCast S16 (View.readAt (Elt Ideal) m.view (Rect.unit (s := S48x224) off S1x16.size h).toLoadRect g) shapeCasts_S1x16_S16 i
      = rdN (m.view.read (Elt Ideal) g) c (x + (i 0).val) := by
  rw [eq_ix1 i]; exact load_apply m g off h c x e (i 0)

/-! ## The four sums after `m` rows -/

/-- The carried values of an accumulation loop: the two halves' squared-distance sums and their maxima. -/
abbrev σ4 : Type := FVec Ideal S16 .f32 × FVec Ideal S16 .f32 × FVec Ideal S16 .f32 × FVec Ideal S16 .f32

/-- From `init`, rows `0 … m − 1` of the input's contents `Ri` and the target's `Rt` added at columns `xa + lane` (first
    half) and `xb + lane` (second half). -/
def closed4 (Ri Rt : S48x224.Idx → EReal) (xa xb : ℕ) (init : σ4) (m : ℕ) : σ4 :=
  (fun i => sqSum (fun c => rdN Ri c (xa + (i 0).val)) (fun c => rdN Rt c (xa + (i 0).val)) (init.1 i) m,
   fun i => sqSum (fun c => rdN Ri c (xb + (i 0).val)) (fun c => rdN Rt c (xb + (i 0).val)) (init.2.1 i) m,
   fun i => mxAbs (fun c => rdN Rt c (xa + (i 0).val)) (init.2.2.1 i) m,
   fun i => mxAbs (fun c => rdN Rt c (xb + (i 0).val)) (init.2.2.2 i) m)

theorem closed4_zero (Ri Rt : S48x224.Idx → EReal) (xa xb : ℕ) (init : σ4) : closed4 Ri Rt xa xb init 0 = init := by
  unfold closed4; simp only [sqSum_zero, mxAbs_zero]

section Loop2
variable (gi : Buf (Elt Ideal) ((V d (cV L) (jV L)).loc cc1_scratch0)) (gt : Buf (Elt Ideal) ((V d (cV L) (jV L)).loc cc1_scratch1))

/-- One trip of accumulation loop t2 adds rows `4 k … 4 k + 3` at columns `0 + lane` and `16 + lane`. -/
theorem stepV_t2_closed (k : Fin k1_t2_loop.trips) (init : σ4) :
    stepV_t2 (F := Ideal) d L gi gt k (closed4 ((Memref.whole cc1_scratch0 : Memref sig .scVector .vmem S48x224 .f32).view.read (Elt Ideal) gi) ((Memref.whole cc1_scratch1 : Memref sig .scVector .vmem S48x224 .f32).view.read (Elt Ideal) gt) 0 16 init (4 * k.val))
      = closed4 ((Memref.whole cc1_scratch0 : Memref sig .scVector .vmem S48x224 .f32).view.read (Elt Ideal) gi) ((Memref.whole cc1_scratch1 : Memref sig .scVector .vmem S48x224 .f32).view.read (Elt Ideal) gt) 0 16 init (4 * (k.val + 1)) := by
  refine Prod.ext ?_ (Prod.ext ?_ (Prod.ext ?_ ?_))
  all_goals funext i
  · refine Eq.trans (b := sqSum (fun c => rdN ((Memref.whole cc1_scratch0 : Memref sig .scVector .vmem S48x224 .f32).view.read (Elt Ideal) gi) c (0 + (i 0).val)) (fun c => rdN ((Memref.whole cc1_scratch1 : Memref sig .scVector .vmem S48x224 .f32).view.read (Elt Ideal) gt) c (0 + (i 0).val)) (init.1 i) (4 * k.val)
          + ((shapeCast S16 (View.readAt (Elt Ideal) (Memref.whole cc1_scratch0 : Memref sig .scVector .vmem S48x224 .f32).view (Rect.unit (s := S48x224) (k1_off5 k 0#32) S1x16.size (k1_off5_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off5 k 0#32) S1x16.size (k1_off5_inb k 0)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off5 k 0#32) S1x16.size (k1_off5_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off5 k 0#32) S1x16.size (k1_off5_inb k 0)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off5 k 1#32) S1x16.size (k1_off5_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off5 k 1#32) S1x16.size (k1_off5_inb k 1)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off5 k 1#32) S1x16.size (k1_off5_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off5 k 1#32) S1x16.size (k1_off5_inb k 1)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off5 k 2#32) S1x16.size (k1_off5_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off5 k 2#32) S1x16.size (k1_off5_inb k 2)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off5 k 2#32) S1x16.size (k1_off5_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off5 k 2#32) S1x16.size (k1_off5_inb k 2)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off5 k 3#32) S1x16.size (k1_off5_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off5 k 3#32) S1x16.size (k1_off5_inb k 3)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off5 k 3#32) S1x16.size (k1_off5_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off5 k 3#32) S1x16.size (k1_off5_inb k 3)).toLoadRect gt : Vec Ideal S1x16 .f32) shapeCasts_S1x16_S16 i : EReal))) rfl ?_
    rw [load_apply' (Memref.whole cc1_scratch0 : Memref sig .scVector .vmem S48x224 .f32) gi (k1_off5 k 0#32) (k1_off5_inb k 0) (4 * k.val + 0) 0 (k1_off5_eq k 0) i, load_apply' (Memref.whole cc1_scratch1 : Memref sig .scVector .vmem S48x224 .f32) gt (k1_off5 k 0#32) (k1_off5_inb k 0) (4 * k.val + 0) 0 (k1_off5_eq k 0) i,
      load_apply' (Memref.whole cc1_scratch0 : Memref sig .scVector .vmem S48x224 .f32) gi (k1_off5 k 1#32) (k1_off5_inb k 1) (4 * k.val + 1) 0 (k1_off5_eq k 1) i, load_apply' (Memref.whole cc1_scratch1 : Memref sig .scVector .vmem S48x224 .f32) gt (k1_off5 k 1#32) (k1_off5_inb k 1) (4 * k.val + 1) 0 (k1_off5_eq k 1) i,
      load_apply' (Memref.whole cc1_scratch0 : Memref sig .scVector .vmem S48x224 .f32) gi (k1_off5 k 2#32) (k1_off5_inb k 2) (4 * k.val + 2) 0 (k1_off5_eq k 2) i, load_apply' (Memref.whole cc1_scratch1 : Memref sig .scVector .vmem S48x224 .f32) gt (k1_off5 k 2#32) (k1_off5_inb k 2) (4 * k.val + 2) 0 (k1_off5_eq k 2) i,
      load_apply' (Memref.whole cc1_scratch0 : Memref sig .scVector .vmem S48x224 .f32) gi (k1_off5 k 3#32) (k1_off5_inb k 3) (4 * k.val + 3) 0 (k1_off5_eq k 3) i, load_apply' (Memref.whole cc1_scratch1 : Memref sig .scVector .vmem S48x224 .f32) gt (k1_off5 k 3#32) (k1_off5_inb k 3) (4 * k.val + 3) 0 (k1_off5_eq k 3) i]
    exact (sqSum_four _ _ _ k.val).symm
  · refine Eq.trans (b := sqSum (fun c => rdN ((Memref.whole cc1_scratch0 : Memref sig .scVector .vmem S48x224 .f32).view.read (Elt Ideal) gi) c (16 + (i 0).val)) (fun c => rdN ((Memref.whole cc1_scratch1 : Memref sig .scVector .vmem S48x224 .f32).view.read (Elt Ideal) gt) c (16 + (i 0).val)) (init.2.1 i) (4 * k.val)
          + ((shapeCast S16 (View.readAt (Elt Ideal) (Memref.whole cc1_scratch0 : Memref sig .scVector .vmem S48x224 .f32).view (Rect.unit (s := S48x224) (k1_off6 k 0#32) S1x16.size (k1_off6_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off6 k 0#32) S1x16.size (k1_off6_inb k 0)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off6 k 0#32) S1x16.size (k1_off6_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off6 k 0#32) S1x16.size (k1_off6_inb k 0)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off6 k 1#32) S1x16.size (k1_off6_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off6 k 1#32) S1x16.size (k1_off6_inb k 1)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off6 k 1#32) S1x16.size (k1_off6_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off6 k 1#32) S1x16.size (k1_off6_inb k 1)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off6 k 2#32) S1x16.size (k1_off6_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off6 k 2#32) S1x16.size (k1_off6_inb k 2)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off6 k 2#32) S1x16.size (k1_off6_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off6 k 2#32) S1x16.size (k1_off6_inb k 2)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off6 k 3#32) S1x16.size (k1_off6_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off6 k 3#32) S1x16.size (k1_off6_inb k 3)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off6 k 3#32) S1x16.size (k1_off6_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off6 k 3#32) S1x16.size (k1_off6_inb k 3)).toLoadRect gt : Vec Ideal S1x16 .f32) shapeCasts_S1x16_S16 i : EReal))) rfl ?_
    rw [load_apply' (Memref.whole cc1_scratch0 : Memref sig .scVector .vmem S48x224 .f32) gi (k1_off6 k 0#32) (k1_off6_inb k 0) (4 * k.val + 0) 16 (k1_off6_eq k 0) i, load_apply' (Memref.whole cc1_scratch1 : Memref sig .scVector .vmem S48x224 .f32) gt (k1_off6 k 0#32) (k1_off6_inb k 0) (4 * k.val + 0) 16 (k1_off6_eq k 0) i,
      load_apply' (Memref.whole cc1_scratch0 : Memref sig .scVector .vmem S48x224 .f32) gi (k1_off6 k 1#32) (k1_off6_inb k 1) (4 * k.val + 1) 16 (k1_off6_eq k 1) i, load_apply' (Memref.whole cc1_scratch1 : Memref sig .scVector .vmem S48x224 .f32) gt (k1_off6 k 1#32) (k1_off6_inb k 1) (4 * k.val + 1) 16 (k1_off6_eq k 1) i,
      load_apply' (Memref.whole cc1_scratch0 : Memref sig .scVector .vmem S48x224 .f32) gi (k1_off6 k 2#32) (k1_off6_inb k 2) (4 * k.val + 2) 16 (k1_off6_eq k 2) i, load_apply' (Memref.whole cc1_scratch1 : Memref sig .scVector .vmem S48x224 .f32) gt (k1_off6 k 2#32) (k1_off6_inb k 2) (4 * k.val + 2) 16 (k1_off6_eq k 2) i,
      load_apply' (Memref.whole cc1_scratch0 : Memref sig .scVector .vmem S48x224 .f32) gi (k1_off6 k 3#32) (k1_off6_inb k 3) (4 * k.val + 3) 16 (k1_off6_eq k 3) i, load_apply' (Memref.whole cc1_scratch1 : Memref sig .scVector .vmem S48x224 .f32) gt (k1_off6 k 3#32) (k1_off6_inb k 3) (4 * k.val + 3) 16 (k1_off6_eq k 3) i]
    exact (sqSum_four _ _ _ k.val).symm
  · refine Eq.trans (b := max (max (max (max (mxAbs (fun c => rdN ((Memref.whole cc1_scratch1 : Memref sig .scVector .vmem S48x224 .f32).view.read (Elt Ideal) gt) c (0 + (i 0).val)) (init.2.2.1 i) (4 * k.val))
          (max (shapeCast S16 (View.readAt (Elt Ideal) (Memref.whole cc1_scratch1 : Memref sig .scVector .vmem S48x224 .f32).view (Rect.unit (s := S48x224) (k1_off5 k 0#32) S1x16.size (k1_off5_inb k 0)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off5 k 0#32) S1x16.size (k1_off5_inb k 0)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off5 k 1#32) S1x16.size (k1_off5_inb k 1)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off5 k 1#32) S1x16.size (k1_off5_inb k 1)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off5 k 2#32) S1x16.size (k1_off5_inb k 2)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off5 k 2#32) S1x16.size (k1_off5_inb k 2)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off5 k 3#32) S1x16.size (k1_off5_inb k 3)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off5 k 3#32) S1x16.size (k1_off5_inb k 3)).toLoadRect gt : Vec Ideal S1x16 .f32) shapeCasts_S1x16_S16 i : EReal)))) rfl ?_
    rw [load_apply' (Memref.whole cc1_scratch1 : Memref sig .scVector .vmem S48x224 .f32) gt (k1_off5 k 0#32) (k1_off5_inb k 0) (4 * k.val + 0) 0 (k1_off5_eq k 0) i,
      load_apply' (Memref.whole cc1_scratch1 : Memref sig .scVector .vmem S48x224 .f32) gt (k1_off5 k 1#32) (k1_off5_inb k 1) (4 * k.val + 1) 0 (k1_off5_eq k 1) i,
      load_apply' (Memref.whole cc1_scratch1 : Memref sig .scVector .vmem S48x224 .f32) gt (k1_off5 k 2#32) (k1_off5_inb k 2) (4 * k.val + 2) 0 (k1_off5_eq k 2) i,
      load_apply' (Memref.whole cc1_scratch1 : Memref sig .scVector .vmem S48x224 .f32) gt (k1_off5 k 3#32) (k1_off5_inb k 3) (4 * k.val + 3) 0 (k1_off5_eq k 3) i]
    exact (mxAbs_four _ _ k.val).symm
  · refine Eq.trans (b := max (max (max (max (mxAbs (fun c => rdN ((Memref.whole cc1_scratch1 : Memref sig .scVector .vmem S48x224 .f32).view.read (Elt Ideal) gt) c (16 + (i 0).val)) (init.2.2.2 i) (4 * k.val))
          (max (shapeCast S16 (View.readAt (Elt Ideal) (Memref.whole cc1_scratch1 : Memref sig .scVector .vmem S48x224 .f32).view (Rect.unit (s := S48x224) (k1_off6 k 0#32) S1x16.size (k1_off6_inb k 0)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off6 k 0#32) S1x16.size (k1_off6_inb k 0)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off6 k 1#32) S1x16.size (k1_off6_inb k 1)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off6 k 1#32) S1x16.size (k1_off6_inb k 1)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off6 k 2#32) S1x16.size (k1_off6_inb k 2)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off6 k 2#32) S1x16.size (k1_off6_inb k 2)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off6 k 3#32) S1x16.size (k1_off6_inb k 3)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off6 k 3#32) S1x16.size (k1_off6_inb k 3)).toLoadRect gt : Vec Ideal S1x16 .f32) shapeCasts_S1x16_S16 i : EReal)))) rfl ?_
    rw [load_apply' (Memref.whole cc1_scratch1 : Memref sig .scVector .vmem S48x224 .f32) gt (k1_off6 k 0#32) (k1_off6_inb k 0) (4 * k.val + 0) 16 (k1_off6_eq k 0) i,
      load_apply' (Memref.whole cc1_scratch1 : Memref sig .scVector .vmem S48x224 .f32) gt (k1_off6 k 1#32) (k1_off6_inb k 1) (4 * k.val + 1) 16 (k1_off6_eq k 1) i,
      load_apply' (Memref.whole cc1_scratch1 : Memref sig .scVector .vmem S48x224 .f32) gt (k1_off6 k 2#32) (k1_off6_inb k 2) (4 * k.val + 2) 16 (k1_off6_eq k 2) i,
      load_apply' (Memref.whole cc1_scratch1 : Memref sig .scVector .vmem S48x224 .f32) gt (k1_off6 k 3#32) (k1_off6_inb k 3) (4 * k.val + 3) 16 (k1_off6_eq k 3) i]
    exact (mxAbs_four _ _ k.val).symm

/-- THE CLOSED FORM of loop t2: after `n` trips the sums are the initial ones with rows `0 … 4 n − 1` added. -/
theorem sumsV_t2_closed (init : σ4) (n : ℕ) (hn : n ≤ k1_t2_loop.trips) :
    sumsV_t2 (F := Ideal) d L gi gt init n = closed4 ((Memref.whole cc1_scratch0 : Memref sig .scVector .vmem S48x224 .f32).view.read (Elt Ideal) gi) ((Memref.whole cc1_scratch1 : Memref sig .scVector .vmem S48x224 .f32).view.read (Elt Ideal) gt) 0 16 init (4 * n) := by
  induction n with
  | zero => rw [Nat.mul_zero, closed4_zero]; rfl
  | succ n ih =>
    have hlt : n < k1_t2_loop.trips := hn
    rw [sumsV_t2, dif_pos hlt, ih (Nat.le_of_lt hlt)]
    exact stepV_t2_closed d L gi gt ⟨n, hlt⟩ init

end Loop2

section Loop3
variable (gi : Buf (Elt Ideal) ((V d (cV L) (jV L)).loc cc1_scratch0)) (gt : Buf (Elt Ideal) ((V d (cV L) (jV L)).loc cc1_scratch1))

/-- One trip of accumulation loop t3 adds rows `4 k … 4 k + 3` at columns `32 + lane` and `48 + lane`. -/
theorem stepV_t3_closed (k : Fin k1_t3_loop.trips) (init : σ4) :
    stepV_t3 (F := Ideal) d L gi gt k (closed4 ((Memref.whole cc1_scratch0 : Memref sig .scVector .vmem S48x224 .f32).view.read (Elt Ideal) gi) ((Memref.whole cc1_scratch1 : Memref sig .scVector .vmem S48x224 .f32).view.read (Elt Ideal) gt) 32 48 init (4 * k.val))
      = closed4 ((Memref.whole cc1_scratch0 : Memref sig .scVector .vmem S48x224 .f32).view.read (Elt Ideal) gi) ((Memref.whole cc1_scratch1 : Memref sig .scVector .vmem S48x224 .f32).view.read (Elt Ideal) gt) 32 48 init (4 * (k.val + 1)) := by
  refine Prod.ext ?_ (Prod.ext ?_ (Prod.ext ?_ ?_))
  all_goals funext i
  · refine Eq.trans (b := sqSum (fun c => rdN ((Memref.whole cc1_scratch0 : Memref sig .scVector .vmem S48x224 .f32).view.read (Elt Ideal) gi) c (32 + (i 0).val)) (fun c => rdN ((Memref.whole cc1_scratch1 : Memref sig .scVector .vmem S48x224 .f32).view.read (Elt Ideal) gt) c (32 + (i 0).val)) (init.1 i) (4 * k.val)
          + ((shapeCast S16 (View.readAt (Elt Ideal) (Memref.whole cc1_scratch0 : Memref sig .scVector .vmem S48x224 .f32).view (Rect.unit (s := S48x224) (k1_off7 k 0#32) S1x16.size (k1_off7_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off7 k 0#32) S1x16.size (k1_off7_inb k 0)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off7 k 0#32) S1x16.size (k1_off7_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off7 k 0#32) S1x16.size (k1_off7_inb k 0)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off7 k 1#32) S1x16.size (k1_off7_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off7 k 1#32) S1x16.size (k1_off7_inb k 1)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off7 k 1#32) S1x16.size (k1_off7_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off7 k 1#32) S1x16.size (k1_off7_inb k 1)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off7 k 2#32) S1x16.size (k1_off7_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off7 k 2#32) S1x16.size (k1_off7_inb k 2)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off7 k 2#32) S1x16.size (k1_off7_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off7 k 2#32) S1x16.size (k1_off7_inb k 2)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off7 k 3#32) S1x16.size (k1_off7_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off7 k 3#32) S1x16.size (k1_off7_inb k 3)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off7 k 3#32) S1x16.size (k1_off7_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off7 k 3#32) S1x16.size (k1_off7_inb k 3)).toLoadRect gt : Vec Ideal S1x16 .f32) shapeCasts_S1x16_S16 i : EReal))) rfl ?_
    rw [load_apply' (Memref.whole cc1_scratch0 : Memref sig .scVector .vmem S48x224 .f32) gi (k1_off7 k 0#32) (k1_off7_inb k 0) (4 * k.val + 0) 32 (k1_off7_eq k 0) i, load_apply' (Memref.whole cc1_scratch1 : Memref sig .scVector .vmem S48x224 .f32) gt (k1_off7 k 0#32) (k1_off7_inb k 0) (4 * k.val + 0) 32 (k1_off7_eq k 0) i,
      load_apply' (Memref.whole cc1_scratch0 : Memref sig .scVector .vmem S48x224 .f32) gi (k1_off7 k 1#32) (k1_off7_inb k 1) (4 * k.val + 1) 32 (k1_off7_eq k 1) i, load_apply' (Memref.whole cc1_scratch1 : Memref sig .scVector .vmem S48x224 .f32) gt (k1_off7 k 1#32) (k1_off7_inb k 1) (4 * k.val + 1) 32 (k1_off7_eq k 1) i,
      load_apply' (Memref.whole cc1_scratch0 : Memref sig .scVector .vmem S48x224 .f32) gi (k1_off7 k 2#32) (k1_off7_inb k 2) (4 * k.val + 2) 32 (k1_off7_eq k 2) i, load_apply' (Memref.whole cc1_scratch1 : Memref sig .scVector .vmem S48x224 .f32) gt (k1_off7 k 2#32) (k1_off7_inb k 2) (4 * k.val + 2) 32 (k1_off7_eq k 2) i,
      load_apply' (Memref.whole cc1_scratch0 : Memref sig .scVector .vmem S48x224 .f32) gi (k1_off7 k 3#32) (k1_off7_inb k 3) (4 * k.val + 3) 32 (k1_off7_eq k 3) i, load_apply' (Memref.whole cc1_scratch1 : Memref sig .scVector .vmem S48x224 .f32) gt (k1_off7 k 3#32) (k1_off7_inb k 3) (4 * k.val + 3) 32 (k1_off7_eq k 3) i]
    exact (sqSum_four _ _ _ k.val).symm
  · refine Eq.trans (b := sqSum (fun c => rdN ((Memref.whole cc1_scratch0 : Memref sig .scVector .vmem S48x224 .f32).view.read (Elt Ideal) gi) c (48 + (i 0).val)) (fun c => rdN ((Memref.whole cc1_scratch1 : Memref sig .scVector .vmem S48x224 .f32).view.read (Elt Ideal) gt) c (48 + (i 0).val)) (init.2.1 i) (4 * k.val)
          + ((shapeCast S16 (View.readAt (Elt Ideal) (Memref.whole cc1_scratch0 : Memref sig .scVector .vmem S48x224 .f32).view (Rect.unit (s := S48x224) (k1_off8 k 0#32) S1x16.size (k1_off8_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off8 k 0#32) S1x16.size (k1_off8_inb k 0)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off8 k 0#32) S1x16.size (k1_off8_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off8 k 0#32) S1x16.size (k1_off8_inb k 0)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off8 k 1#32) S1x16.size (k1_off8_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off8 k 1#32) S1x16.size (k1_off8_inb k 1)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off8 k 1#32) S1x16.size (k1_off8_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off8 k 1#32) S1x16.size (k1_off8_inb k 1)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off8 k 2#32) S1x16.size (k1_off8_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off8 k 2#32) S1x16.size (k1_off8_inb k 2)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off8 k 2#32) S1x16.size (k1_off8_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off8 k 2#32) S1x16.size (k1_off8_inb k 2)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off8 k 3#32) S1x16.size (k1_off8_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off8 k 3#32) S1x16.size (k1_off8_inb k 3)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off8 k 3#32) S1x16.size (k1_off8_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off8 k 3#32) S1x16.size (k1_off8_inb k 3)).toLoadRect gt : Vec Ideal S1x16 .f32) shapeCasts_S1x16_S16 i : EReal))) rfl ?_
    rw [load_apply' (Memref.whole cc1_scratch0 : Memref sig .scVector .vmem S48x224 .f32) gi (k1_off8 k 0#32) (k1_off8_inb k 0) (4 * k.val + 0) 48 (k1_off8_eq k 0) i, load_apply' (Memref.whole cc1_scratch1 : Memref sig .scVector .vmem S48x224 .f32) gt (k1_off8 k 0#32) (k1_off8_inb k 0) (4 * k.val + 0) 48 (k1_off8_eq k 0) i,
      load_apply' (Memref.whole cc1_scratch0 : Memref sig .scVector .vmem S48x224 .f32) gi (k1_off8 k 1#32) (k1_off8_inb k 1) (4 * k.val + 1) 48 (k1_off8_eq k 1) i, load_apply' (Memref.whole cc1_scratch1 : Memref sig .scVector .vmem S48x224 .f32) gt (k1_off8 k 1#32) (k1_off8_inb k 1) (4 * k.val + 1) 48 (k1_off8_eq k 1) i,
      load_apply' (Memref.whole cc1_scratch0 : Memref sig .scVector .vmem S48x224 .f32) gi (k1_off8 k 2#32) (k1_off8_inb k 2) (4 * k.val + 2) 48 (k1_off8_eq k 2) i, load_apply' (Memref.whole cc1_scratch1 : Memref sig .scVector .vmem S48x224 .f32) gt (k1_off8 k 2#32) (k1_off8_inb k 2) (4 * k.val + 2) 48 (k1_off8_eq k 2) i,
      load_apply' (Memref.whole cc1_scratch0 : Memref sig .scVector .vmem S48x224 .f32) gi (k1_off8 k 3#32) (k1_off8_inb k 3) (4 * k.val + 3) 48 (k1_off8_eq k 3) i, load_apply' (Memref.whole cc1_scratch1 : Memref sig .scVector .vmem S48x224 .f32) gt (k1_off8 k 3#32) (k1_off8_inb k 3) (4 * k.val + 3) 48 (k1_off8_eq k 3) i]
    exact (sqSum_four _ _ _ k.val).symm
  · refine Eq.trans (b := max (max (max (max (mxAbs (fun c => rdN ((Memref.whole cc1_scratch1 : Memref sig .scVector .vmem S48x224 .f32).view.read (Elt Ideal) gt) c (32 + (i 0).val)) (init.2.2.1 i) (4 * k.val))
          (max (shapeCast S16 (View.readAt (Elt Ideal) (Memref.whole cc1_scratch1 : Memref sig .scVector .vmem S48x224 .f32).view (Rect.unit (s := S48x224) (k1_off7 k 0#32) S1x16.size (k1_off7_inb k 0)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off7 k 0#32) S1x16.size (k1_off7_inb k 0)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off7 k 1#32) S1x16.size (k1_off7_inb k 1)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off7 k 1#32) S1x16.size (k1_off7_inb k 1)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off7 k 2#32) S1x16.size (k1_off7_inb k 2)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off7 k 2#32) S1x16.size (k1_off7_inb k 2)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off7 k 3#32) S1x16.size (k1_off7_inb k 3)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off7 k 3#32) S1x16.size (k1_off7_inb k 3)).toLoadRect gt : Vec Ideal S1x16 .f32) shapeCasts_S1x16_S16 i : EReal)))) rfl ?_
    rw [load_apply' (Memref.whole cc1_scratch1 : Memref sig .scVector .vmem S48x224 .f32) gt (k1_off7 k 0#32) (k1_off7_inb k 0) (4 * k.val + 0) 32 (k1_off7_eq k 0) i,
      load_apply' (Memref.whole cc1_scratch1 : Memref sig .scVector .vmem S48x224 .f32) gt (k1_off7 k 1#32) (k1_off7_inb k 1) (4 * k.val + 1) 32 (k1_off7_eq k 1) i,
      load_apply' (Memref.whole cc1_scratch1 : Memref sig .scVector .vmem S48x224 .f32) gt (k1_off7 k 2#32) (k1_off7_inb k 2) (4 * k.val + 2) 32 (k1_off7_eq k 2) i,
      load_apply' (Memref.whole cc1_scratch1 : Memref sig .scVector .vmem S48x224 .f32) gt (k1_off7 k 3#32) (k1_off7_inb k 3) (4 * k.val + 3) 32 (k1_off7_eq k 3) i]
    exact (mxAbs_four _ _ k.val).symm
  · refine Eq.trans (b := max (max (max (max (mxAbs (fun c => rdN ((Memref.whole cc1_scratch1 : Memref sig .scVector .vmem S48x224 .f32).view.read (Elt Ideal) gt) c (48 + (i 0).val)) (init.2.2.2 i) (4 * k.val))
          (max (shapeCast S16 (View.readAt (Elt Ideal) (Memref.whole cc1_scratch1 : Memref sig .scVector .vmem S48x224 .f32).view (Rect.unit (s := S48x224) (k1_off8 k 0#32) S1x16.size (k1_off8_inb k 0)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off8 k 0#32) S1x16.size (k1_off8_inb k 0)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off8 k 1#32) S1x16.size (k1_off8_inb k 1)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off8 k 1#32) S1x16.size (k1_off8_inb k 1)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off8 k 2#32) S1x16.size (k1_off8_inb k 2)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off8 k 2#32) S1x16.size (k1_off8_inb k 2)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off8 k 3#32) S1x16.size (k1_off8_inb k 3)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off8 k 3#32) S1x16.size (k1_off8_inb k 3)).toLoadRect gt : Vec Ideal S1x16 .f32) shapeCasts_S1x16_S16 i : EReal)))) rfl ?_
    rw [load_apply' (Memref.whole cc1_scratch1 : Memref sig .scVector .vmem S48x224 .f32) gt (k1_off8 k 0#32) (k1_off8_inb k 0) (4 * k.val + 0) 48 (k1_off8_eq k 0) i,
      load_apply' (Memref.whole cc1_scratch1 : Memref sig .scVector .vmem S48x224 .f32) gt (k1_off8 k 1#32) (k1_off8_inb k 1) (4 * k.val + 1) 48 (k1_off8_eq k 1) i,
      load_apply' (Memref.whole cc1_scratch1 : Memref sig .scVector .vmem S48x224 .f32) gt (k1_off8 k 2#32) (k1_off8_inb k 2) (4 * k.val + 2) 48 (k1_off8_eq k 2) i,
      load_apply' (Memref.whole cc1_scratch1 : Memref sig .scVector .vmem S48x224 .f32) gt (k1_off8 k 3#32) (k1_off8_inb k 3) (4 * k.val + 3) 48 (k1_off8_eq k 3) i]
    exact (mxAbs_four _ _ k.val).symm

/-- THE CLOSED FORM of loop t3: after `n` trips the sums are the initial ones with rows `0 … 4 n − 1` added. -/
theorem sumsV_t3_closed (init : σ4) (n : ℕ) (hn : n ≤ k1_t3_loop.trips) :
    sumsV_t3 (F := Ideal) d L gi gt init n = closed4 ((Memref.whole cc1_scratch0 : Memref sig .scVector .vmem S48x224 .f32).view.read (Elt Ideal) gi) ((Memref.whole cc1_scratch1 : Memref sig .scVector .vmem S48x224 .f32).view.read (Elt Ideal) gt) 32 48 init (4 * n) := by
  induction n with
  | zero => rw [Nat.mul_zero, closed4_zero]; rfl
  | succ n ih =>
    have hlt : n < k1_t3_loop.trips := hn
    rw [sumsV_t3, dif_pos hlt, ih (Nat.le_of_lt hlt)]
    exact stepV_t3_closed d L gi gt ⟨n, hlt⟩ init

end Loop3

section Loop4
variable (gi : Buf (Elt Ideal) ((V d (cV L) (jV L)).loc cc1_scratch0)) (gt : Buf (Elt Ideal) ((V d (cV L) (jV L)).loc cc1_scratch1))

/-- One trip of accumulation loop t4 adds rows `4 k … 4 k + 3` at columns `64 + lane` and `80 + lane`. -/
theorem stepV_t4_closed (k : Fin k1_t4_loop.trips) (init : σ4) :
    stepV_t4 (F := Ideal) d L gi gt k (closed4 ((Memref.whole cc1_scratch0 : Memref sig .scVector .vmem S48x224 .f32).view.read (Elt Ideal) gi) ((Memref.whole cc1_scratch1 : Memref sig .scVector .vmem S48x224 .f32).view.read (Elt Ideal) gt) 64 80 init (4 * k.val))
      = closed4 ((Memref.whole cc1_scratch0 : Memref sig .scVector .vmem S48x224 .f32).view.read (Elt Ideal) gi) ((Memref.whole cc1_scratch1 : Memref sig .scVector .vmem S48x224 .f32).view.read (Elt Ideal) gt) 64 80 init (4 * (k.val + 1)) := by
  refine Prod.ext ?_ (Prod.ext ?_ (Prod.ext ?_ ?_))
  all_goals funext i
  · refine Eq.trans (b := sqSum (fun c => rdN ((Memref.whole cc1_scratch0 : Memref sig .scVector .vmem S48x224 .f32).view.read (Elt Ideal) gi) c (64 + (i 0).val)) (fun c => rdN ((Memref.whole cc1_scratch1 : Memref sig .scVector .vmem S48x224 .f32).view.read (Elt Ideal) gt) c (64 + (i 0).val)) (init.1 i) (4 * k.val)
          + ((shapeCast S16 (View.readAt (Elt Ideal) (Memref.whole cc1_scratch0 : Memref sig .scVector .vmem S48x224 .f32).view (Rect.unit (s := S48x224) (k1_off9 k 0#32) S1x16.size (k1_off9_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off9 k 0#32) S1x16.size (k1_off9_inb k 0)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off9 k 0#32) S1x16.size (k1_off9_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off9 k 0#32) S1x16.size (k1_off9_inb k 0)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off9 k 1#32) S1x16.size (k1_off9_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off9 k 1#32) S1x16.size (k1_off9_inb k 1)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off9 k 1#32) S1x16.size (k1_off9_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off9 k 1#32) S1x16.size (k1_off9_inb k 1)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off9 k 2#32) S1x16.size (k1_off9_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off9 k 2#32) S1x16.size (k1_off9_inb k 2)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off9 k 2#32) S1x16.size (k1_off9_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off9 k 2#32) S1x16.size (k1_off9_inb k 2)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off9 k 3#32) S1x16.size (k1_off9_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off9 k 3#32) S1x16.size (k1_off9_inb k 3)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off9 k 3#32) S1x16.size (k1_off9_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off9 k 3#32) S1x16.size (k1_off9_inb k 3)).toLoadRect gt : Vec Ideal S1x16 .f32) shapeCasts_S1x16_S16 i : EReal))) rfl ?_
    rw [load_apply' (Memref.whole cc1_scratch0 : Memref sig .scVector .vmem S48x224 .f32) gi (k1_off9 k 0#32) (k1_off9_inb k 0) (4 * k.val + 0) 64 (k1_off9_eq k 0) i, load_apply' (Memref.whole cc1_scratch1 : Memref sig .scVector .vmem S48x224 .f32) gt (k1_off9 k 0#32) (k1_off9_inb k 0) (4 * k.val + 0) 64 (k1_off9_eq k 0) i,
      load_apply' (Memref.whole cc1_scratch0 : Memref sig .scVector .vmem S48x224 .f32) gi (k1_off9 k 1#32) (k1_off9_inb k 1) (4 * k.val + 1) 64 (k1_off9_eq k 1) i, load_apply' (Memref.whole cc1_scratch1 : Memref sig .scVector .vmem S48x224 .f32) gt (k1_off9 k 1#32) (k1_off9_inb k 1) (4 * k.val + 1) 64 (k1_off9_eq k 1) i,
      load_apply' (Memref.whole cc1_scratch0 : Memref sig .scVector .vmem S48x224 .f32) gi (k1_off9 k 2#32) (k1_off9_inb k 2) (4 * k.val + 2) 64 (k1_off9_eq k 2) i, load_apply' (Memref.whole cc1_scratch1 : Memref sig .scVector .vmem S48x224 .f32) gt (k1_off9 k 2#32) (k1_off9_inb k 2) (4 * k.val + 2) 64 (k1_off9_eq k 2) i,
      load_apply' (Memref.whole cc1_scratch0 : Memref sig .scVector .vmem S48x224 .f32) gi (k1_off9 k 3#32) (k1_off9_inb k 3) (4 * k.val + 3) 64 (k1_off9_eq k 3) i, load_apply' (Memref.whole cc1_scratch1 : Memref sig .scVector .vmem S48x224 .f32) gt (k1_off9 k 3#32) (k1_off9_inb k 3) (4 * k.val + 3) 64 (k1_off9_eq k 3) i]
    exact (sqSum_four _ _ _ k.val).symm
  · refine Eq.trans (b := sqSum (fun c => rdN ((Memref.whole cc1_scratch0 : Memref sig .scVector .vmem S48x224 .f32).view.read (Elt Ideal) gi) c (80 + (i 0).val)) (fun c => rdN ((Memref.whole cc1_scratch1 : Memref sig .scVector .vmem S48x224 .f32).view.read (Elt Ideal) gt) c (80 + (i 0).val)) (init.2.1 i) (4 * k.val)
          + ((shapeCast S16 (View.readAt (Elt Ideal) (Memref.whole cc1_scratch0 : Memref sig .scVector .vmem S48x224 .f32).view (Rect.unit (s := S48x224) (k1_off10 k 0#32) S1x16.size (k1_off10_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off10 k 0#32) S1x16.size (k1_off10_inb k 0)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off10 k 0#32) S1x16.size (k1_off10_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off10 k 0#32) S1x16.size (k1_off10_inb k 0)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off10 k 1#32) S1x16.size (k1_off10_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off10 k 1#32) S1x16.size (k1_off10_inb k 1)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off10 k 1#32) S1x16.size (k1_off10_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off10 k 1#32) S1x16.size (k1_off10_inb k 1)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off10 k 2#32) S1x16.size (k1_off10_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off10 k 2#32) S1x16.size (k1_off10_inb k 2)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off10 k 2#32) S1x16.size (k1_off10_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off10 k 2#32) S1x16.size (k1_off10_inb k 2)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off10 k 3#32) S1x16.size (k1_off10_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off10 k 3#32) S1x16.size (k1_off10_inb k 3)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off10 k 3#32) S1x16.size (k1_off10_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off10 k 3#32) S1x16.size (k1_off10_inb k 3)).toLoadRect gt : Vec Ideal S1x16 .f32) shapeCasts_S1x16_S16 i : EReal))) rfl ?_
    rw [load_apply' (Memref.whole cc1_scratch0 : Memref sig .scVector .vmem S48x224 .f32) gi (k1_off10 k 0#32) (k1_off10_inb k 0) (4 * k.val + 0) 80 (k1_off10_eq k 0) i, load_apply' (Memref.whole cc1_scratch1 : Memref sig .scVector .vmem S48x224 .f32) gt (k1_off10 k 0#32) (k1_off10_inb k 0) (4 * k.val + 0) 80 (k1_off10_eq k 0) i,
      load_apply' (Memref.whole cc1_scratch0 : Memref sig .scVector .vmem S48x224 .f32) gi (k1_off10 k 1#32) (k1_off10_inb k 1) (4 * k.val + 1) 80 (k1_off10_eq k 1) i, load_apply' (Memref.whole cc1_scratch1 : Memref sig .scVector .vmem S48x224 .f32) gt (k1_off10 k 1#32) (k1_off10_inb k 1) (4 * k.val + 1) 80 (k1_off10_eq k 1) i,
      load_apply' (Memref.whole cc1_scratch0 : Memref sig .scVector .vmem S48x224 .f32) gi (k1_off10 k 2#32) (k1_off10_inb k 2) (4 * k.val + 2) 80 (k1_off10_eq k 2) i, load_apply' (Memref.whole cc1_scratch1 : Memref sig .scVector .vmem S48x224 .f32) gt (k1_off10 k 2#32) (k1_off10_inb k 2) (4 * k.val + 2) 80 (k1_off10_eq k 2) i,
      load_apply' (Memref.whole cc1_scratch0 : Memref sig .scVector .vmem S48x224 .f32) gi (k1_off10 k 3#32) (k1_off10_inb k 3) (4 * k.val + 3) 80 (k1_off10_eq k 3) i, load_apply' (Memref.whole cc1_scratch1 : Memref sig .scVector .vmem S48x224 .f32) gt (k1_off10 k 3#32) (k1_off10_inb k 3) (4 * k.val + 3) 80 (k1_off10_eq k 3) i]
    exact (sqSum_four _ _ _ k.val).symm
  · refine Eq.trans (b := max (max (max (max (mxAbs (fun c => rdN ((Memref.whole cc1_scratch1 : Memref sig .scVector .vmem S48x224 .f32).view.read (Elt Ideal) gt) c (64 + (i 0).val)) (init.2.2.1 i) (4 * k.val))
          (max (shapeCast S16 (View.readAt (Elt Ideal) (Memref.whole cc1_scratch1 : Memref sig .scVector .vmem S48x224 .f32).view (Rect.unit (s := S48x224) (k1_off9 k 0#32) S1x16.size (k1_off9_inb k 0)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off9 k 0#32) S1x16.size (k1_off9_inb k 0)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off9 k 1#32) S1x16.size (k1_off9_inb k 1)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off9 k 1#32) S1x16.size (k1_off9_inb k 1)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off9 k 2#32) S1x16.size (k1_off9_inb k 2)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off9 k 2#32) S1x16.size (k1_off9_inb k 2)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off9 k 3#32) S1x16.size (k1_off9_inb k 3)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off9 k 3#32) S1x16.size (k1_off9_inb k 3)).toLoadRect gt : Vec Ideal S1x16 .f32) shapeCasts_S1x16_S16 i : EReal)))) rfl ?_
    rw [load_apply' (Memref.whole cc1_scratch1 : Memref sig .scVector .vmem S48x224 .f32) gt (k1_off9 k 0#32) (k1_off9_inb k 0) (4 * k.val + 0) 64 (k1_off9_eq k 0) i,
      load_apply' (Memref.whole cc1_scratch1 : Memref sig .scVector .vmem S48x224 .f32) gt (k1_off9 k 1#32) (k1_off9_inb k 1) (4 * k.val + 1) 64 (k1_off9_eq k 1) i,
      load_apply' (Memref.whole cc1_scratch1 : Memref sig .scVector .vmem S48x224 .f32) gt (k1_off9 k 2#32) (k1_off9_inb k 2) (4 * k.val + 2) 64 (k1_off9_eq k 2) i,
      load_apply' (Memref.whole cc1_scratch1 : Memref sig .scVector .vmem S48x224 .f32) gt (k1_off9 k 3#32) (k1_off9_inb k 3) (4 * k.val + 3) 64 (k1_off9_eq k 3) i]
    exact (mxAbs_four _ _ k.val).symm
  · refine Eq.trans (b := max (max (max (max (mxAbs (fun c => rdN ((Memref.whole cc1_scratch1 : Memref sig .scVector .vmem S48x224 .f32).view.read (Elt Ideal) gt) c (80 + (i 0).val)) (init.2.2.2 i) (4 * k.val))
          (max (shapeCast S16 (View.readAt (Elt Ideal) (Memref.whole cc1_scratch1 : Memref sig .scVector .vmem S48x224 .f32).view (Rect.unit (s := S48x224) (k1_off10 k 0#32) S1x16.size (k1_off10_inb k 0)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off10 k 0#32) S1x16.size (k1_off10_inb k 0)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off10 k 1#32) S1x16.size (k1_off10_inb k 1)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off10 k 1#32) S1x16.size (k1_off10_inb k 1)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off10 k 2#32) S1x16.size (k1_off10_inb k 2)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off10 k 2#32) S1x16.size (k1_off10_inb k 2)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off10 k 3#32) S1x16.size (k1_off10_inb k 3)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off10 k 3#32) S1x16.size (k1_off10_inb k 3)).toLoadRect gt : Vec Ideal S1x16 .f32) shapeCasts_S1x16_S16 i : EReal)))) rfl ?_
    rw [load_apply' (Memref.whole cc1_scratch1 : Memref sig .scVector .vmem S48x224 .f32) gt (k1_off10 k 0#32) (k1_off10_inb k 0) (4 * k.val + 0) 80 (k1_off10_eq k 0) i,
      load_apply' (Memref.whole cc1_scratch1 : Memref sig .scVector .vmem S48x224 .f32) gt (k1_off10 k 1#32) (k1_off10_inb k 1) (4 * k.val + 1) 80 (k1_off10_eq k 1) i,
      load_apply' (Memref.whole cc1_scratch1 : Memref sig .scVector .vmem S48x224 .f32) gt (k1_off10 k 2#32) (k1_off10_inb k 2) (4 * k.val + 2) 80 (k1_off10_eq k 2) i,
      load_apply' (Memref.whole cc1_scratch1 : Memref sig .scVector .vmem S48x224 .f32) gt (k1_off10 k 3#32) (k1_off10_inb k 3) (4 * k.val + 3) 80 (k1_off10_eq k 3) i]
    exact (mxAbs_four _ _ k.val).symm

/-- THE CLOSED FORM of loop t4: after `n` trips the sums are the initial ones with rows `0 … 4 n − 1` added. -/
theorem sumsV_t4_closed (init : σ4) (n : ℕ) (hn : n ≤ k1_t4_loop.trips) :
    sumsV_t4 (F := Ideal) d L gi gt init n = closed4 ((Memref.whole cc1_scratch0 : Memref sig .scVector .vmem S48x224 .f32).view.read (Elt Ideal) gi) ((Memref.whole cc1_scratch1 : Memref sig .scVector .vmem S48x224 .f32).view.read (Elt Ideal) gt) 64 80 init (4 * n) := by
  induction n with
  | zero => rw [Nat.mul_zero, closed4_zero]; rfl
  | succ n ih =>
    have hlt : n < k1_t4_loop.trips := hn
    rw [sumsV_t4, dif_pos hlt, ih (Nat.le_of_lt hlt)]
    exact stepV_t4_closed d L gi gt ⟨n, hlt⟩ init

end Loop4

section Loop5
variable (gi : Buf (Elt Ideal) ((V d (cV L) (jV L)).loc cc1_scratch0)) (gt : Buf (Elt Ideal) ((V d (cV L) (jV L)).loc cc1_scratch1))

/-- One trip of accumulation loop t5 adds rows `4 k … 4 k + 3` at columns `96 + lane` and `112 + lane`. -/
theorem stepV_t5_closed (k : Fin k1_t5_loop.trips) (init : σ4) :
    stepV_t5 (F := Ideal) d L gi gt k (closed4 ((Memref.whole cc1_scratch0 : Memref sig .scVector .vmem S48x224 .f32).view.read (Elt Ideal) gi) ((Memref.whole cc1_scratch1 : Memref sig .scVector .vmem S48x224 .f32).view.read (Elt Ideal) gt) 96 112 init (4 * k.val))
      = closed4 ((Memref.whole cc1_scratch0 : Memref sig .scVector .vmem S48x224 .f32).view.read (Elt Ideal) gi) ((Memref.whole cc1_scratch1 : Memref sig .scVector .vmem S48x224 .f32).view.read (Elt Ideal) gt) 96 112 init (4 * (k.val + 1)) := by
  refine Prod.ext ?_ (Prod.ext ?_ (Prod.ext ?_ ?_))
  all_goals funext i
  · refine Eq.trans (b := sqSum (fun c => rdN ((Memref.whole cc1_scratch0 : Memref sig .scVector .vmem S48x224 .f32).view.read (Elt Ideal) gi) c (96 + (i 0).val)) (fun c => rdN ((Memref.whole cc1_scratch1 : Memref sig .scVector .vmem S48x224 .f32).view.read (Elt Ideal) gt) c (96 + (i 0).val)) (init.1 i) (4 * k.val)
          + ((shapeCast S16 (View.readAt (Elt Ideal) (Memref.whole cc1_scratch0 : Memref sig .scVector .vmem S48x224 .f32).view (Rect.unit (s := S48x224) (k1_off11 k 0#32) S1x16.size (k1_off11_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off11 k 0#32) S1x16.size (k1_off11_inb k 0)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off11 k 0#32) S1x16.size (k1_off11_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off11 k 0#32) S1x16.size (k1_off11_inb k 0)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off11 k 1#32) S1x16.size (k1_off11_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off11 k 1#32) S1x16.size (k1_off11_inb k 1)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off11 k 1#32) S1x16.size (k1_off11_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off11 k 1#32) S1x16.size (k1_off11_inb k 1)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off11 k 2#32) S1x16.size (k1_off11_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off11 k 2#32) S1x16.size (k1_off11_inb k 2)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off11 k 2#32) S1x16.size (k1_off11_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off11 k 2#32) S1x16.size (k1_off11_inb k 2)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off11 k 3#32) S1x16.size (k1_off11_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off11 k 3#32) S1x16.size (k1_off11_inb k 3)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off11 k 3#32) S1x16.size (k1_off11_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off11 k 3#32) S1x16.size (k1_off11_inb k 3)).toLoadRect gt : Vec Ideal S1x16 .f32) shapeCasts_S1x16_S16 i : EReal))) rfl ?_
    rw [load_apply' (Memref.whole cc1_scratch0 : Memref sig .scVector .vmem S48x224 .f32) gi (k1_off11 k 0#32) (k1_off11_inb k 0) (4 * k.val + 0) 96 (k1_off11_eq k 0) i, load_apply' (Memref.whole cc1_scratch1 : Memref sig .scVector .vmem S48x224 .f32) gt (k1_off11 k 0#32) (k1_off11_inb k 0) (4 * k.val + 0) 96 (k1_off11_eq k 0) i,
      load_apply' (Memref.whole cc1_scratch0 : Memref sig .scVector .vmem S48x224 .f32) gi (k1_off11 k 1#32) (k1_off11_inb k 1) (4 * k.val + 1) 96 (k1_off11_eq k 1) i, load_apply' (Memref.whole cc1_scratch1 : Memref sig .scVector .vmem S48x224 .f32) gt (k1_off11 k 1#32) (k1_off11_inb k 1) (4 * k.val + 1) 96 (k1_off11_eq k 1) i,
      load_apply' (Memref.whole cc1_scratch0 : Memref sig .scVector .vmem S48x224 .f32) gi (k1_off11 k 2#32) (k1_off11_inb k 2) (4 * k.val + 2) 96 (k1_off11_eq k 2) i, load_apply' (Memref.whole cc1_scratch1 : Memref sig .scVector .vmem S48x224 .f32) gt (k1_off11 k 2#32) (k1_off11_inb k 2) (4 * k.val + 2) 96 (k1_off11_eq k 2) i,
      load_apply' (Memref.whole cc1_scratch0 : Memref sig .scVector .vmem S48x224 .f32) gi (k1_off11 k 3#32) (k1_off11_inb k 3) (4 * k.val + 3) 96 (k1_off11_eq k 3) i, load_apply' (Memref.whole cc1_scratch1 : Memref sig .scVector .vmem S48x224 .f32) gt (k1_off11 k 3#32) (k1_off11_inb k 3) (4 * k.val + 3) 96 (k1_off11_eq k 3) i]
    exact (sqSum_four _ _ _ k.val).symm
  · refine Eq.trans (b := sqSum (fun c => rdN ((Memref.whole cc1_scratch0 : Memref sig .scVector .vmem S48x224 .f32).view.read (Elt Ideal) gi) c (112 + (i 0).val)) (fun c => rdN ((Memref.whole cc1_scratch1 : Memref sig .scVector .vmem S48x224 .f32).view.read (Elt Ideal) gt) c (112 + (i 0).val)) (init.2.1 i) (4 * k.val)
          + ((shapeCast S16 (View.readAt (Elt Ideal) (Memref.whole cc1_scratch0 : Memref sig .scVector .vmem S48x224 .f32).view (Rect.unit (s := S48x224) (k1_off12 k 0#32) S1x16.size (k1_off12_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off12 k 0#32) S1x16.size (k1_off12_inb k 0)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off12 k 0#32) S1x16.size (k1_off12_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off12 k 0#32) S1x16.size (k1_off12_inb k 0)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off12 k 1#32) S1x16.size (k1_off12_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off12 k 1#32) S1x16.size (k1_off12_inb k 1)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off12 k 1#32) S1x16.size (k1_off12_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off12 k 1#32) S1x16.size (k1_off12_inb k 1)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off12 k 2#32) S1x16.size (k1_off12_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off12 k 2#32) S1x16.size (k1_off12_inb k 2)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off12 k 2#32) S1x16.size (k1_off12_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off12 k 2#32) S1x16.size (k1_off12_inb k 2)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off12 k 3#32) S1x16.size (k1_off12_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off12 k 3#32) S1x16.size (k1_off12_inb k 3)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off12 k 3#32) S1x16.size (k1_off12_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off12 k 3#32) S1x16.size (k1_off12_inb k 3)).toLoadRect gt : Vec Ideal S1x16 .f32) shapeCasts_S1x16_S16 i : EReal))) rfl ?_
    rw [load_apply' (Memref.whole cc1_scratch0 : Memref sig .scVector .vmem S48x224 .f32) gi (k1_off12 k 0#32) (k1_off12_inb k 0) (4 * k.val + 0) 112 (k1_off12_eq k 0) i, load_apply' (Memref.whole cc1_scratch1 : Memref sig .scVector .vmem S48x224 .f32) gt (k1_off12 k 0#32) (k1_off12_inb k 0) (4 * k.val + 0) 112 (k1_off12_eq k 0) i,
      load_apply' (Memref.whole cc1_scratch0 : Memref sig .scVector .vmem S48x224 .f32) gi (k1_off12 k 1#32) (k1_off12_inb k 1) (4 * k.val + 1) 112 (k1_off12_eq k 1) i, load_apply' (Memref.whole cc1_scratch1 : Memref sig .scVector .vmem S48x224 .f32) gt (k1_off12 k 1#32) (k1_off12_inb k 1) (4 * k.val + 1) 112 (k1_off12_eq k 1) i,
      load_apply' (Memref.whole cc1_scratch0 : Memref sig .scVector .vmem S48x224 .f32) gi (k1_off12 k 2#32) (k1_off12_inb k 2) (4 * k.val + 2) 112 (k1_off12_eq k 2) i, load_apply' (Memref.whole cc1_scratch1 : Memref sig .scVector .vmem S48x224 .f32) gt (k1_off12 k 2#32) (k1_off12_inb k 2) (4 * k.val + 2) 112 (k1_off12_eq k 2) i,
      load_apply' (Memref.whole cc1_scratch0 : Memref sig .scVector .vmem S48x224 .f32) gi (k1_off12 k 3#32) (k1_off12_inb k 3) (4 * k.val + 3) 112 (k1_off12_eq k 3) i, load_apply' (Memref.whole cc1_scratch1 : Memref sig .scVector .vmem S48x224 .f32) gt (k1_off12 k 3#32) (k1_off12_inb k 3) (4 * k.val + 3) 112 (k1_off12_eq k 3) i]
    exact (sqSum_four _ _ _ k.val).symm
  · refine Eq.trans (b := max (max (max (max (mxAbs (fun c => rdN ((Memref.whole cc1_scratch1 : Memref sig .scVector .vmem S48x224 .f32).view.read (Elt Ideal) gt) c (96 + (i 0).val)) (init.2.2.1 i) (4 * k.val))
          (max (shapeCast S16 (View.readAt (Elt Ideal) (Memref.whole cc1_scratch1 : Memref sig .scVector .vmem S48x224 .f32).view (Rect.unit (s := S48x224) (k1_off11 k 0#32) S1x16.size (k1_off11_inb k 0)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off11 k 0#32) S1x16.size (k1_off11_inb k 0)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off11 k 1#32) S1x16.size (k1_off11_inb k 1)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off11 k 1#32) S1x16.size (k1_off11_inb k 1)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off11 k 2#32) S1x16.size (k1_off11_inb k 2)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off11 k 2#32) S1x16.size (k1_off11_inb k 2)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off11 k 3#32) S1x16.size (k1_off11_inb k 3)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off11 k 3#32) S1x16.size (k1_off11_inb k 3)).toLoadRect gt : Vec Ideal S1x16 .f32) shapeCasts_S1x16_S16 i : EReal)))) rfl ?_
    rw [load_apply' (Memref.whole cc1_scratch1 : Memref sig .scVector .vmem S48x224 .f32) gt (k1_off11 k 0#32) (k1_off11_inb k 0) (4 * k.val + 0) 96 (k1_off11_eq k 0) i,
      load_apply' (Memref.whole cc1_scratch1 : Memref sig .scVector .vmem S48x224 .f32) gt (k1_off11 k 1#32) (k1_off11_inb k 1) (4 * k.val + 1) 96 (k1_off11_eq k 1) i,
      load_apply' (Memref.whole cc1_scratch1 : Memref sig .scVector .vmem S48x224 .f32) gt (k1_off11 k 2#32) (k1_off11_inb k 2) (4 * k.val + 2) 96 (k1_off11_eq k 2) i,
      load_apply' (Memref.whole cc1_scratch1 : Memref sig .scVector .vmem S48x224 .f32) gt (k1_off11 k 3#32) (k1_off11_inb k 3) (4 * k.val + 3) 96 (k1_off11_eq k 3) i]
    exact (mxAbs_four _ _ k.val).symm
  · refine Eq.trans (b := max (max (max (max (mxAbs (fun c => rdN ((Memref.whole cc1_scratch1 : Memref sig .scVector .vmem S48x224 .f32).view.read (Elt Ideal) gt) c (112 + (i 0).val)) (init.2.2.2 i) (4 * k.val))
          (max (shapeCast S16 (View.readAt (Elt Ideal) (Memref.whole cc1_scratch1 : Memref sig .scVector .vmem S48x224 .f32).view (Rect.unit (s := S48x224) (k1_off12 k 0#32) S1x16.size (k1_off12_inb k 0)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off12 k 0#32) S1x16.size (k1_off12_inb k 0)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off12 k 1#32) S1x16.size (k1_off12_inb k 1)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off12 k 1#32) S1x16.size (k1_off12_inb k 1)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off12 k 2#32) S1x16.size (k1_off12_inb k 2)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off12 k 2#32) S1x16.size (k1_off12_inb k 2)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off12 k 3#32) S1x16.size (k1_off12_inb k 3)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off12 k 3#32) S1x16.size (k1_off12_inb k 3)).toLoadRect gt : Vec Ideal S1x16 .f32) shapeCasts_S1x16_S16 i : EReal)))) rfl ?_
    rw [load_apply' (Memref.whole cc1_scratch1 : Memref sig .scVector .vmem S48x224 .f32) gt (k1_off12 k 0#32) (k1_off12_inb k 0) (4 * k.val + 0) 112 (k1_off12_eq k 0) i,
      load_apply' (Memref.whole cc1_scratch1 : Memref sig .scVector .vmem S48x224 .f32) gt (k1_off12 k 1#32) (k1_off12_inb k 1) (4 * k.val + 1) 112 (k1_off12_eq k 1) i,
      load_apply' (Memref.whole cc1_scratch1 : Memref sig .scVector .vmem S48x224 .f32) gt (k1_off12 k 2#32) (k1_off12_inb k 2) (4 * k.val + 2) 112 (k1_off12_eq k 2) i,
      load_apply' (Memref.whole cc1_scratch1 : Memref sig .scVector .vmem S48x224 .f32) gt (k1_off12 k 3#32) (k1_off12_inb k 3) (4 * k.val + 3) 112 (k1_off12_eq k 3) i]
    exact (mxAbs_four _ _ k.val).symm

/-- THE CLOSED FORM of loop t5: after `n` trips the sums are the initial ones with rows `0 … 4 n − 1` added. -/
theorem sumsV_t5_closed (init : σ4) (n : ℕ) (hn : n ≤ k1_t5_loop.trips) :
    sumsV_t5 (F := Ideal) d L gi gt init n = closed4 ((Memref.whole cc1_scratch0 : Memref sig .scVector .vmem S48x224 .f32).view.read (Elt Ideal) gi) ((Memref.whole cc1_scratch1 : Memref sig .scVector .vmem S48x224 .f32).view.read (Elt Ideal) gt) 96 112 init (4 * n) := by
  induction n with
  | zero => rw [Nat.mul_zero, closed4_zero]; rfl
  | succ n ih =>
    have hlt : n < k1_t5_loop.trips := hn
    rw [sumsV_t5, dif_pos hlt, ih (Nat.le_of_lt hlt)]
    exact stepV_t5_closed d L gi gt ⟨n, hlt⟩ init

end Loop5

section Loop6
variable (gi : Buf (Elt Ideal) ((V d (cV L) (jV L)).loc cc1_scratch0)) (gt : Buf (Elt Ideal) ((V d (cV L) (jV L)).loc cc1_scratch1))

/-- One trip of accumulation loop t6 adds rows `4 k … 4 k + 3` at columns `128 + lane` and `144 + lane`. -/
theorem stepV_t6_closed (k : Fin k1_t6_loop.trips) (init : σ4) :
    stepV_t6 (F := Ideal) d L gi gt k (closed4 ((Memref.whole cc1_scratch0 : Memref sig .scVector .vmem S48x224 .f32).view.read (Elt Ideal) gi) ((Memref.whole cc1_scratch1 : Memref sig .scVector .vmem S48x224 .f32).view.read (Elt Ideal) gt) 128 144 init (4 * k.val))
      = closed4 ((Memref.whole cc1_scratch0 : Memref sig .scVector .vmem S48x224 .f32).view.read (Elt Ideal) gi) ((Memref.whole cc1_scratch1 : Memref sig .scVector .vmem S48x224 .f32).view.read (Elt Ideal) gt) 128 144 init (4 * (k.val + 1)) := by
  refine Prod.ext ?_ (Prod.ext ?_ (Prod.ext ?_ ?_))
  all_goals funext i
  · refine Eq.trans (b := sqSum (fun c => rdN ((Memref.whole cc1_scratch0 : Memref sig .scVector .vmem S48x224 .f32).view.read (Elt Ideal) gi) c (128 + (i 0).val)) (fun c => rdN ((Memref.whole cc1_scratch1 : Memref sig .scVector .vmem S48x224 .f32).view.read (Elt Ideal) gt) c (128 + (i 0).val)) (init.1 i) (4 * k.val)
          + ((shapeCast S16 (View.readAt (Elt Ideal) (Memref.whole cc1_scratch0 : Memref sig .scVector .vmem S48x224 .f32).view (Rect.unit (s := S48x224) (k1_off13 k 0#32) S1x16.size (k1_off13_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off13 k 0#32) S1x16.size (k1_off13_inb k 0)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off13 k 0#32) S1x16.size (k1_off13_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off13 k 0#32) S1x16.size (k1_off13_inb k 0)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off13 k 1#32) S1x16.size (k1_off13_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off13 k 1#32) S1x16.size (k1_off13_inb k 1)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off13 k 1#32) S1x16.size (k1_off13_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off13 k 1#32) S1x16.size (k1_off13_inb k 1)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off13 k 2#32) S1x16.size (k1_off13_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off13 k 2#32) S1x16.size (k1_off13_inb k 2)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off13 k 2#32) S1x16.size (k1_off13_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off13 k 2#32) S1x16.size (k1_off13_inb k 2)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off13 k 3#32) S1x16.size (k1_off13_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off13 k 3#32) S1x16.size (k1_off13_inb k 3)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off13 k 3#32) S1x16.size (k1_off13_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off13 k 3#32) S1x16.size (k1_off13_inb k 3)).toLoadRect gt : Vec Ideal S1x16 .f32) shapeCasts_S1x16_S16 i : EReal))) rfl ?_
    rw [load_apply' (Memref.whole cc1_scratch0 : Memref sig .scVector .vmem S48x224 .f32) gi (k1_off13 k 0#32) (k1_off13_inb k 0) (4 * k.val + 0) 128 (k1_off13_eq k 0) i, load_apply' (Memref.whole cc1_scratch1 : Memref sig .scVector .vmem S48x224 .f32) gt (k1_off13 k 0#32) (k1_off13_inb k 0) (4 * k.val + 0) 128 (k1_off13_eq k 0) i,
      load_apply' (Memref.whole cc1_scratch0 : Memref sig .scVector .vmem S48x224 .f32) gi (k1_off13 k 1#32) (k1_off13_inb k 1) (4 * k.val + 1) 128 (k1_off13_eq k 1) i, load_apply' (Memref.whole cc1_scratch1 : Memref sig .scVector .vmem S48x224 .f32) gt (k1_off13 k 1#32) (k1_off13_inb k 1) (4 * k.val + 1) 128 (k1_off13_eq k 1) i,
      load_apply' (Memref.whole cc1_scratch0 : Memref sig .scVector .vmem S48x224 .f32) gi (k1_off13 k 2#32) (k1_off13_inb k 2) (4 * k.val + 2) 128 (k1_off13_eq k 2) i, load_apply' (Memref.whole cc1_scratch1 : Memref sig .scVector .vmem S48x224 .f32) gt (k1_off13 k 2#32) (k1_off13_inb k 2) (4 * k.val + 2) 128 (k1_off13_eq k 2) i,
      load_apply' (Memref.whole cc1_scratch0 : Memref sig .scVector .vmem S48x224 .f32) gi (k1_off13 k 3#32) (k1_off13_inb k 3) (4 * k.val + 3) 128 (k1_off13_eq k 3) i, load_apply' (Memref.whole cc1_scratch1 : Memref sig .scVector .vmem S48x224 .f32) gt (k1_off13 k 3#32) (k1_off13_inb k 3) (4 * k.val + 3) 128 (k1_off13_eq k 3) i]
    exact (sqSum_four _ _ _ k.val).symm
  · refine Eq.trans (b := sqSum (fun c => rdN ((Memref.whole cc1_scratch0 : Memref sig .scVector .vmem S48x224 .f32).view.read (Elt Ideal) gi) c (144 + (i 0).val)) (fun c => rdN ((Memref.whole cc1_scratch1 : Memref sig .scVector .vmem S48x224 .f32).view.read (Elt Ideal) gt) c (144 + (i 0).val)) (init.2.1 i) (4 * k.val)
          + ((shapeCast S16 (View.readAt (Elt Ideal) (Memref.whole cc1_scratch0 : Memref sig .scVector .vmem S48x224 .f32).view (Rect.unit (s := S48x224) (k1_off14 k 0#32) S1x16.size (k1_off14_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off14 k 0#32) S1x16.size (k1_off14_inb k 0)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off14 k 0#32) S1x16.size (k1_off14_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off14 k 0#32) S1x16.size (k1_off14_inb k 0)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off14 k 1#32) S1x16.size (k1_off14_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off14 k 1#32) S1x16.size (k1_off14_inb k 1)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off14 k 1#32) S1x16.size (k1_off14_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off14 k 1#32) S1x16.size (k1_off14_inb k 1)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off14 k 2#32) S1x16.size (k1_off14_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off14 k 2#32) S1x16.size (k1_off14_inb k 2)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off14 k 2#32) S1x16.size (k1_off14_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off14 k 2#32) S1x16.size (k1_off14_inb k 2)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off14 k 3#32) S1x16.size (k1_off14_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off14 k 3#32) S1x16.size (k1_off14_inb k 3)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off14 k 3#32) S1x16.size (k1_off14_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off14 k 3#32) S1x16.size (k1_off14_inb k 3)).toLoadRect gt : Vec Ideal S1x16 .f32) shapeCasts_S1x16_S16 i : EReal))) rfl ?_
    rw [load_apply' (Memref.whole cc1_scratch0 : Memref sig .scVector .vmem S48x224 .f32) gi (k1_off14 k 0#32) (k1_off14_inb k 0) (4 * k.val + 0) 144 (k1_off14_eq k 0) i, load_apply' (Memref.whole cc1_scratch1 : Memref sig .scVector .vmem S48x224 .f32) gt (k1_off14 k 0#32) (k1_off14_inb k 0) (4 * k.val + 0) 144 (k1_off14_eq k 0) i,
      load_apply' (Memref.whole cc1_scratch0 : Memref sig .scVector .vmem S48x224 .f32) gi (k1_off14 k 1#32) (k1_off14_inb k 1) (4 * k.val + 1) 144 (k1_off14_eq k 1) i, load_apply' (Memref.whole cc1_scratch1 : Memref sig .scVector .vmem S48x224 .f32) gt (k1_off14 k 1#32) (k1_off14_inb k 1) (4 * k.val + 1) 144 (k1_off14_eq k 1) i,
      load_apply' (Memref.whole cc1_scratch0 : Memref sig .scVector .vmem S48x224 .f32) gi (k1_off14 k 2#32) (k1_off14_inb k 2) (4 * k.val + 2) 144 (k1_off14_eq k 2) i, load_apply' (Memref.whole cc1_scratch1 : Memref sig .scVector .vmem S48x224 .f32) gt (k1_off14 k 2#32) (k1_off14_inb k 2) (4 * k.val + 2) 144 (k1_off14_eq k 2) i,
      load_apply' (Memref.whole cc1_scratch0 : Memref sig .scVector .vmem S48x224 .f32) gi (k1_off14 k 3#32) (k1_off14_inb k 3) (4 * k.val + 3) 144 (k1_off14_eq k 3) i, load_apply' (Memref.whole cc1_scratch1 : Memref sig .scVector .vmem S48x224 .f32) gt (k1_off14 k 3#32) (k1_off14_inb k 3) (4 * k.val + 3) 144 (k1_off14_eq k 3) i]
    exact (sqSum_four _ _ _ k.val).symm
  · refine Eq.trans (b := max (max (max (max (mxAbs (fun c => rdN ((Memref.whole cc1_scratch1 : Memref sig .scVector .vmem S48x224 .f32).view.read (Elt Ideal) gt) c (128 + (i 0).val)) (init.2.2.1 i) (4 * k.val))
          (max (shapeCast S16 (View.readAt (Elt Ideal) (Memref.whole cc1_scratch1 : Memref sig .scVector .vmem S48x224 .f32).view (Rect.unit (s := S48x224) (k1_off13 k 0#32) S1x16.size (k1_off13_inb k 0)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off13 k 0#32) S1x16.size (k1_off13_inb k 0)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off13 k 1#32) S1x16.size (k1_off13_inb k 1)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off13 k 1#32) S1x16.size (k1_off13_inb k 1)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off13 k 2#32) S1x16.size (k1_off13_inb k 2)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off13 k 2#32) S1x16.size (k1_off13_inb k 2)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off13 k 3#32) S1x16.size (k1_off13_inb k 3)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off13 k 3#32) S1x16.size (k1_off13_inb k 3)).toLoadRect gt : Vec Ideal S1x16 .f32) shapeCasts_S1x16_S16 i : EReal)))) rfl ?_
    rw [load_apply' (Memref.whole cc1_scratch1 : Memref sig .scVector .vmem S48x224 .f32) gt (k1_off13 k 0#32) (k1_off13_inb k 0) (4 * k.val + 0) 128 (k1_off13_eq k 0) i,
      load_apply' (Memref.whole cc1_scratch1 : Memref sig .scVector .vmem S48x224 .f32) gt (k1_off13 k 1#32) (k1_off13_inb k 1) (4 * k.val + 1) 128 (k1_off13_eq k 1) i,
      load_apply' (Memref.whole cc1_scratch1 : Memref sig .scVector .vmem S48x224 .f32) gt (k1_off13 k 2#32) (k1_off13_inb k 2) (4 * k.val + 2) 128 (k1_off13_eq k 2) i,
      load_apply' (Memref.whole cc1_scratch1 : Memref sig .scVector .vmem S48x224 .f32) gt (k1_off13 k 3#32) (k1_off13_inb k 3) (4 * k.val + 3) 128 (k1_off13_eq k 3) i]
    exact (mxAbs_four _ _ k.val).symm
  · refine Eq.trans (b := max (max (max (max (mxAbs (fun c => rdN ((Memref.whole cc1_scratch1 : Memref sig .scVector .vmem S48x224 .f32).view.read (Elt Ideal) gt) c (144 + (i 0).val)) (init.2.2.2 i) (4 * k.val))
          (max (shapeCast S16 (View.readAt (Elt Ideal) (Memref.whole cc1_scratch1 : Memref sig .scVector .vmem S48x224 .f32).view (Rect.unit (s := S48x224) (k1_off14 k 0#32) S1x16.size (k1_off14_inb k 0)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off14 k 0#32) S1x16.size (k1_off14_inb k 0)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off14 k 1#32) S1x16.size (k1_off14_inb k 1)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off14 k 1#32) S1x16.size (k1_off14_inb k 1)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off14 k 2#32) S1x16.size (k1_off14_inb k 2)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off14 k 2#32) S1x16.size (k1_off14_inb k 2)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off14 k 3#32) S1x16.size (k1_off14_inb k 3)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off14 k 3#32) S1x16.size (k1_off14_inb k 3)).toLoadRect gt : Vec Ideal S1x16 .f32) shapeCasts_S1x16_S16 i : EReal)))) rfl ?_
    rw [load_apply' (Memref.whole cc1_scratch1 : Memref sig .scVector .vmem S48x224 .f32) gt (k1_off14 k 0#32) (k1_off14_inb k 0) (4 * k.val + 0) 144 (k1_off14_eq k 0) i,
      load_apply' (Memref.whole cc1_scratch1 : Memref sig .scVector .vmem S48x224 .f32) gt (k1_off14 k 1#32) (k1_off14_inb k 1) (4 * k.val + 1) 144 (k1_off14_eq k 1) i,
      load_apply' (Memref.whole cc1_scratch1 : Memref sig .scVector .vmem S48x224 .f32) gt (k1_off14 k 2#32) (k1_off14_inb k 2) (4 * k.val + 2) 144 (k1_off14_eq k 2) i,
      load_apply' (Memref.whole cc1_scratch1 : Memref sig .scVector .vmem S48x224 .f32) gt (k1_off14 k 3#32) (k1_off14_inb k 3) (4 * k.val + 3) 144 (k1_off14_eq k 3) i]
    exact (mxAbs_four _ _ k.val).symm

/-- THE CLOSED FORM of loop t6: after `n` trips the sums are the initial ones with rows `0 … 4 n − 1` added. -/
theorem sumsV_t6_closed (init : σ4) (n : ℕ) (hn : n ≤ k1_t6_loop.trips) :
    sumsV_t6 (F := Ideal) d L gi gt init n = closed4 ((Memref.whole cc1_scratch0 : Memref sig .scVector .vmem S48x224 .f32).view.read (Elt Ideal) gi) ((Memref.whole cc1_scratch1 : Memref sig .scVector .vmem S48x224 .f32).view.read (Elt Ideal) gt) 128 144 init (4 * n) := by
  induction n with
  | zero => rw [Nat.mul_zero, closed4_zero]; rfl
  | succ n ih =>
    have hlt : n < k1_t6_loop.trips := hn
    rw [sumsV_t6, dif_pos hlt, ih (Nat.le_of_lt hlt)]
    exact stepV_t6_closed d L gi gt ⟨n, hlt⟩ init

end Loop6

section Loop7
variable (gi : Buf (Elt Ideal) ((V d (cV L) (jV L)).loc cc1_scratch0)) (gt : Buf (Elt Ideal) ((V d (cV L) (jV L)).loc cc1_scratch1))

/-- One trip of accumulation loop t7 adds rows `4 k … 4 k + 3` at columns `160 + lane` and `176 + lane`. -/
theorem stepV_t7_closed (k : Fin k1_t7_loop.trips) (init : σ4) :
    stepV_t7 (F := Ideal) d L gi gt k (closed4 ((Memref.whole cc1_scratch0 : Memref sig .scVector .vmem S48x224 .f32).view.read (Elt Ideal) gi) ((Memref.whole cc1_scratch1 : Memref sig .scVector .vmem S48x224 .f32).view.read (Elt Ideal) gt) 160 176 init (4 * k.val))
      = closed4 ((Memref.whole cc1_scratch0 : Memref sig .scVector .vmem S48x224 .f32).view.read (Elt Ideal) gi) ((Memref.whole cc1_scratch1 : Memref sig .scVector .vmem S48x224 .f32).view.read (Elt Ideal) gt) 160 176 init (4 * (k.val + 1)) := by
  refine Prod.ext ?_ (Prod.ext ?_ (Prod.ext ?_ ?_))
  all_goals funext i
  · refine Eq.trans (b := sqSum (fun c => rdN ((Memref.whole cc1_scratch0 : Memref sig .scVector .vmem S48x224 .f32).view.read (Elt Ideal) gi) c (160 + (i 0).val)) (fun c => rdN ((Memref.whole cc1_scratch1 : Memref sig .scVector .vmem S48x224 .f32).view.read (Elt Ideal) gt) c (160 + (i 0).val)) (init.1 i) (4 * k.val)
          + ((shapeCast S16 (View.readAt (Elt Ideal) (Memref.whole cc1_scratch0 : Memref sig .scVector .vmem S48x224 .f32).view (Rect.unit (s := S48x224) (k1_off15 k 0#32) S1x16.size (k1_off15_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off15 k 0#32) S1x16.size (k1_off15_inb k 0)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off15 k 0#32) S1x16.size (k1_off15_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off15 k 0#32) S1x16.size (k1_off15_inb k 0)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off15 k 1#32) S1x16.size (k1_off15_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off15 k 1#32) S1x16.size (k1_off15_inb k 1)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off15 k 1#32) S1x16.size (k1_off15_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off15 k 1#32) S1x16.size (k1_off15_inb k 1)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off15 k 2#32) S1x16.size (k1_off15_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off15 k 2#32) S1x16.size (k1_off15_inb k 2)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off15 k 2#32) S1x16.size (k1_off15_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off15 k 2#32) S1x16.size (k1_off15_inb k 2)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off15 k 3#32) S1x16.size (k1_off15_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off15 k 3#32) S1x16.size (k1_off15_inb k 3)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off15 k 3#32) S1x16.size (k1_off15_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off15 k 3#32) S1x16.size (k1_off15_inb k 3)).toLoadRect gt : Vec Ideal S1x16 .f32) shapeCasts_S1x16_S16 i : EReal))) rfl ?_
    rw [load_apply' (Memref.whole cc1_scratch0 : Memref sig .scVector .vmem S48x224 .f32) gi (k1_off15 k 0#32) (k1_off15_inb k 0) (4 * k.val + 0) 160 (k1_off15_eq k 0) i, load_apply' (Memref.whole cc1_scratch1 : Memref sig .scVector .vmem S48x224 .f32) gt (k1_off15 k 0#32) (k1_off15_inb k 0) (4 * k.val + 0) 160 (k1_off15_eq k 0) i,
      load_apply' (Memref.whole cc1_scratch0 : Memref sig .scVector .vmem S48x224 .f32) gi (k1_off15 k 1#32) (k1_off15_inb k 1) (4 * k.val + 1) 160 (k1_off15_eq k 1) i, load_apply' (Memref.whole cc1_scratch1 : Memref sig .scVector .vmem S48x224 .f32) gt (k1_off15 k 1#32) (k1_off15_inb k 1) (4 * k.val + 1) 160 (k1_off15_eq k 1) i,
      load_apply' (Memref.whole cc1_scratch0 : Memref sig .scVector .vmem S48x224 .f32) gi (k1_off15 k 2#32) (k1_off15_inb k 2) (4 * k.val + 2) 160 (k1_off15_eq k 2) i, load_apply' (Memref.whole cc1_scratch1 : Memref sig .scVector .vmem S48x224 .f32) gt (k1_off15 k 2#32) (k1_off15_inb k 2) (4 * k.val + 2) 160 (k1_off15_eq k 2) i,
      load_apply' (Memref.whole cc1_scratch0 : Memref sig .scVector .vmem S48x224 .f32) gi (k1_off15 k 3#32) (k1_off15_inb k 3) (4 * k.val + 3) 160 (k1_off15_eq k 3) i, load_apply' (Memref.whole cc1_scratch1 : Memref sig .scVector .vmem S48x224 .f32) gt (k1_off15 k 3#32) (k1_off15_inb k 3) (4 * k.val + 3) 160 (k1_off15_eq k 3) i]
    exact (sqSum_four _ _ _ k.val).symm
  · refine Eq.trans (b := sqSum (fun c => rdN ((Memref.whole cc1_scratch0 : Memref sig .scVector .vmem S48x224 .f32).view.read (Elt Ideal) gi) c (176 + (i 0).val)) (fun c => rdN ((Memref.whole cc1_scratch1 : Memref sig .scVector .vmem S48x224 .f32).view.read (Elt Ideal) gt) c (176 + (i 0).val)) (init.2.1 i) (4 * k.val)
          + ((shapeCast S16 (View.readAt (Elt Ideal) (Memref.whole cc1_scratch0 : Memref sig .scVector .vmem S48x224 .f32).view (Rect.unit (s := S48x224) (k1_off16 k 0#32) S1x16.size (k1_off16_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off16 k 0#32) S1x16.size (k1_off16_inb k 0)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off16 k 0#32) S1x16.size (k1_off16_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off16 k 0#32) S1x16.size (k1_off16_inb k 0)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off16 k 1#32) S1x16.size (k1_off16_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off16 k 1#32) S1x16.size (k1_off16_inb k 1)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off16 k 1#32) S1x16.size (k1_off16_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off16 k 1#32) S1x16.size (k1_off16_inb k 1)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off16 k 2#32) S1x16.size (k1_off16_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off16 k 2#32) S1x16.size (k1_off16_inb k 2)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off16 k 2#32) S1x16.size (k1_off16_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off16 k 2#32) S1x16.size (k1_off16_inb k 2)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off16 k 3#32) S1x16.size (k1_off16_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off16 k 3#32) S1x16.size (k1_off16_inb k 3)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off16 k 3#32) S1x16.size (k1_off16_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off16 k 3#32) S1x16.size (k1_off16_inb k 3)).toLoadRect gt : Vec Ideal S1x16 .f32) shapeCasts_S1x16_S16 i : EReal))) rfl ?_
    rw [load_apply' (Memref.whole cc1_scratch0 : Memref sig .scVector .vmem S48x224 .f32) gi (k1_off16 k 0#32) (k1_off16_inb k 0) (4 * k.val + 0) 176 (k1_off16_eq k 0) i, load_apply' (Memref.whole cc1_scratch1 : Memref sig .scVector .vmem S48x224 .f32) gt (k1_off16 k 0#32) (k1_off16_inb k 0) (4 * k.val + 0) 176 (k1_off16_eq k 0) i,
      load_apply' (Memref.whole cc1_scratch0 : Memref sig .scVector .vmem S48x224 .f32) gi (k1_off16 k 1#32) (k1_off16_inb k 1) (4 * k.val + 1) 176 (k1_off16_eq k 1) i, load_apply' (Memref.whole cc1_scratch1 : Memref sig .scVector .vmem S48x224 .f32) gt (k1_off16 k 1#32) (k1_off16_inb k 1) (4 * k.val + 1) 176 (k1_off16_eq k 1) i,
      load_apply' (Memref.whole cc1_scratch0 : Memref sig .scVector .vmem S48x224 .f32) gi (k1_off16 k 2#32) (k1_off16_inb k 2) (4 * k.val + 2) 176 (k1_off16_eq k 2) i, load_apply' (Memref.whole cc1_scratch1 : Memref sig .scVector .vmem S48x224 .f32) gt (k1_off16 k 2#32) (k1_off16_inb k 2) (4 * k.val + 2) 176 (k1_off16_eq k 2) i,
      load_apply' (Memref.whole cc1_scratch0 : Memref sig .scVector .vmem S48x224 .f32) gi (k1_off16 k 3#32) (k1_off16_inb k 3) (4 * k.val + 3) 176 (k1_off16_eq k 3) i, load_apply' (Memref.whole cc1_scratch1 : Memref sig .scVector .vmem S48x224 .f32) gt (k1_off16 k 3#32) (k1_off16_inb k 3) (4 * k.val + 3) 176 (k1_off16_eq k 3) i]
    exact (sqSum_four _ _ _ k.val).symm
  · refine Eq.trans (b := max (max (max (max (mxAbs (fun c => rdN ((Memref.whole cc1_scratch1 : Memref sig .scVector .vmem S48x224 .f32).view.read (Elt Ideal) gt) c (160 + (i 0).val)) (init.2.2.1 i) (4 * k.val))
          (max (shapeCast S16 (View.readAt (Elt Ideal) (Memref.whole cc1_scratch1 : Memref sig .scVector .vmem S48x224 .f32).view (Rect.unit (s := S48x224) (k1_off15 k 0#32) S1x16.size (k1_off15_inb k 0)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off15 k 0#32) S1x16.size (k1_off15_inb k 0)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off15 k 1#32) S1x16.size (k1_off15_inb k 1)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off15 k 1#32) S1x16.size (k1_off15_inb k 1)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off15 k 2#32) S1x16.size (k1_off15_inb k 2)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off15 k 2#32) S1x16.size (k1_off15_inb k 2)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off15 k 3#32) S1x16.size (k1_off15_inb k 3)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off15 k 3#32) S1x16.size (k1_off15_inb k 3)).toLoadRect gt : Vec Ideal S1x16 .f32) shapeCasts_S1x16_S16 i : EReal)))) rfl ?_
    rw [load_apply' (Memref.whole cc1_scratch1 : Memref sig .scVector .vmem S48x224 .f32) gt (k1_off15 k 0#32) (k1_off15_inb k 0) (4 * k.val + 0) 160 (k1_off15_eq k 0) i,
      load_apply' (Memref.whole cc1_scratch1 : Memref sig .scVector .vmem S48x224 .f32) gt (k1_off15 k 1#32) (k1_off15_inb k 1) (4 * k.val + 1) 160 (k1_off15_eq k 1) i,
      load_apply' (Memref.whole cc1_scratch1 : Memref sig .scVector .vmem S48x224 .f32) gt (k1_off15 k 2#32) (k1_off15_inb k 2) (4 * k.val + 2) 160 (k1_off15_eq k 2) i,
      load_apply' (Memref.whole cc1_scratch1 : Memref sig .scVector .vmem S48x224 .f32) gt (k1_off15 k 3#32) (k1_off15_inb k 3) (4 * k.val + 3) 160 (k1_off15_eq k 3) i]
    exact (mxAbs_four _ _ k.val).symm
  · refine Eq.trans (b := max (max (max (max (mxAbs (fun c => rdN ((Memref.whole cc1_scratch1 : Memref sig .scVector .vmem S48x224 .f32).view.read (Elt Ideal) gt) c (176 + (i 0).val)) (init.2.2.2 i) (4 * k.val))
          (max (shapeCast S16 (View.readAt (Elt Ideal) (Memref.whole cc1_scratch1 : Memref sig .scVector .vmem S48x224 .f32).view (Rect.unit (s := S48x224) (k1_off16 k 0#32) S1x16.size (k1_off16_inb k 0)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off16 k 0#32) S1x16.size (k1_off16_inb k 0)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off16 k 1#32) S1x16.size (k1_off16_inb k 1)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off16 k 1#32) S1x16.size (k1_off16_inb k 1)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off16 k 2#32) S1x16.size (k1_off16_inb k 2)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off16 k 2#32) S1x16.size (k1_off16_inb k 2)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off16 k 3#32) S1x16.size (k1_off16_inb k 3)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off16 k 3#32) S1x16.size (k1_off16_inb k 3)).toLoadRect gt : Vec Ideal S1x16 .f32) shapeCasts_S1x16_S16 i : EReal)))) rfl ?_
    rw [load_apply' (Memref.whole cc1_scratch1 : Memref sig .scVector .vmem S48x224 .f32) gt (k1_off16 k 0#32) (k1_off16_inb k 0) (4 * k.val + 0) 176 (k1_off16_eq k 0) i,
      load_apply' (Memref.whole cc1_scratch1 : Memref sig .scVector .vmem S48x224 .f32) gt (k1_off16 k 1#32) (k1_off16_inb k 1) (4 * k.val + 1) 176 (k1_off16_eq k 1) i,
      load_apply' (Memref.whole cc1_scratch1 : Memref sig .scVector .vmem S48x224 .f32) gt (k1_off16 k 2#32) (k1_off16_inb k 2) (4 * k.val + 2) 176 (k1_off16_eq k 2) i,
      load_apply' (Memref.whole cc1_scratch1 : Memref sig .scVector .vmem S48x224 .f32) gt (k1_off16 k 3#32) (k1_off16_inb k 3) (4 * k.val + 3) 176 (k1_off16_eq k 3) i]
    exact (mxAbs_four _ _ k.val).symm

/-- THE CLOSED FORM of loop t7: after `n` trips the sums are the initial ones with rows `0 … 4 n − 1` added. -/
theorem sumsV_t7_closed (init : σ4) (n : ℕ) (hn : n ≤ k1_t7_loop.trips) :
    sumsV_t7 (F := Ideal) d L gi gt init n = closed4 ((Memref.whole cc1_scratch0 : Memref sig .scVector .vmem S48x224 .f32).view.read (Elt Ideal) gi) ((Memref.whole cc1_scratch1 : Memref sig .scVector .vmem S48x224 .f32).view.read (Elt Ideal) gt) 160 176 init (4 * n) := by
  induction n with
  | zero => rw [Nat.mul_zero, closed4_zero]; rfl
  | succ n ih =>
    have hlt : n < k1_t7_loop.trips := hn
    rw [sumsV_t7, dif_pos hlt, ih (Nat.le_of_lt hlt)]
    exact stepV_t7_closed d L gi gt ⟨n, hlt⟩ init

end Loop7

section Loop8
variable (gi : Buf (Elt Ideal) ((V d (cV L) (jV L)).loc cc1_scratch0)) (gt : Buf (Elt Ideal) ((V d (cV L) (jV L)).loc cc1_scratch1))

/-- One trip of accumulation loop t8 adds rows `4 k … 4 k + 3` at columns `192 + lane` and `208 + lane`. -/
theorem stepV_t8_closed (k : Fin k1_t8_loop.trips) (init : σ4) :
    stepV_t8 (F := Ideal) d L gi gt k (closed4 ((Memref.whole cc1_scratch0 : Memref sig .scVector .vmem S48x224 .f32).view.read (Elt Ideal) gi) ((Memref.whole cc1_scratch1 : Memref sig .scVector .vmem S48x224 .f32).view.read (Elt Ideal) gt) 192 208 init (4 * k.val))
      = closed4 ((Memref.whole cc1_scratch0 : Memref sig .scVector .vmem S48x224 .f32).view.read (Elt Ideal) gi) ((Memref.whole cc1_scratch1 : Memref sig .scVector .vmem S48x224 .f32).view.read (Elt Ideal) gt) 192 208 init (4 * (k.val + 1)) := by
  refine Prod.ext ?_ (Prod.ext ?_ (Prod.ext ?_ ?_))
  all_goals funext i
  · refine Eq.trans (b := sqSum (fun c => rdN ((Memref.whole cc1_scratch0 : Memref sig .scVector .vmem S48x224 .f32).view.read (Elt Ideal) gi) c (192 + (i 0).val)) (fun c => rdN ((Memref.whole cc1_scratch1 : Memref sig .scVector .vmem S48x224 .f32).view.read (Elt Ideal) gt) c (192 + (i 0).val)) (init.1 i) (4 * k.val)
          + ((shapeCast S16 (View.readAt (Elt Ideal) (Memref.whole cc1_scratch0 : Memref sig .scVector .vmem S48x224 .f32).view (Rect.unit (s := S48x224) (k1_off17 k 0#32) S1x16.size (k1_off17_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off17 k 0#32) S1x16.size (k1_off17_inb k 0)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off17 k 0#32) S1x16.size (k1_off17_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off17 k 0#32) S1x16.size (k1_off17_inb k 0)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off17 k 1#32) S1x16.size (k1_off17_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off17 k 1#32) S1x16.size (k1_off17_inb k 1)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off17 k 1#32) S1x16.size (k1_off17_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off17 k 1#32) S1x16.size (k1_off17_inb k 1)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off17 k 2#32) S1x16.size (k1_off17_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off17 k 2#32) S1x16.size (k1_off17_inb k 2)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off17 k 2#32) S1x16.size (k1_off17_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off17 k 2#32) S1x16.size (k1_off17_inb k 2)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off17 k 3#32) S1x16.size (k1_off17_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off17 k 3#32) S1x16.size (k1_off17_inb k 3)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off17 k 3#32) S1x16.size (k1_off17_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off17 k 3#32) S1x16.size (k1_off17_inb k 3)).toLoadRect gt : Vec Ideal S1x16 .f32) shapeCasts_S1x16_S16 i : EReal))) rfl ?_
    rw [load_apply' (Memref.whole cc1_scratch0 : Memref sig .scVector .vmem S48x224 .f32) gi (k1_off17 k 0#32) (k1_off17_inb k 0) (4 * k.val + 0) 192 (k1_off17_eq k 0) i, load_apply' (Memref.whole cc1_scratch1 : Memref sig .scVector .vmem S48x224 .f32) gt (k1_off17 k 0#32) (k1_off17_inb k 0) (4 * k.val + 0) 192 (k1_off17_eq k 0) i,
      load_apply' (Memref.whole cc1_scratch0 : Memref sig .scVector .vmem S48x224 .f32) gi (k1_off17 k 1#32) (k1_off17_inb k 1) (4 * k.val + 1) 192 (k1_off17_eq k 1) i, load_apply' (Memref.whole cc1_scratch1 : Memref sig .scVector .vmem S48x224 .f32) gt (k1_off17 k 1#32) (k1_off17_inb k 1) (4 * k.val + 1) 192 (k1_off17_eq k 1) i,
      load_apply' (Memref.whole cc1_scratch0 : Memref sig .scVector .vmem S48x224 .f32) gi (k1_off17 k 2#32) (k1_off17_inb k 2) (4 * k.val + 2) 192 (k1_off17_eq k 2) i, load_apply' (Memref.whole cc1_scratch1 : Memref sig .scVector .vmem S48x224 .f32) gt (k1_off17 k 2#32) (k1_off17_inb k 2) (4 * k.val + 2) 192 (k1_off17_eq k 2) i,
      load_apply' (Memref.whole cc1_scratch0 : Memref sig .scVector .vmem S48x224 .f32) gi (k1_off17 k 3#32) (k1_off17_inb k 3) (4 * k.val + 3) 192 (k1_off17_eq k 3) i, load_apply' (Memref.whole cc1_scratch1 : Memref sig .scVector .vmem S48x224 .f32) gt (k1_off17 k 3#32) (k1_off17_inb k 3) (4 * k.val + 3) 192 (k1_off17_eq k 3) i]
    exact (sqSum_four _ _ _ k.val).symm
  · refine Eq.trans (b := sqSum (fun c => rdN ((Memref.whole cc1_scratch0 : Memref sig .scVector .vmem S48x224 .f32).view.read (Elt Ideal) gi) c (208 + (i 0).val)) (fun c => rdN ((Memref.whole cc1_scratch1 : Memref sig .scVector .vmem S48x224 .f32).view.read (Elt Ideal) gt) c (208 + (i 0).val)) (init.2.1 i) (4 * k.val)
          + ((shapeCast S16 (View.readAt (Elt Ideal) (Memref.whole cc1_scratch0 : Memref sig .scVector .vmem S48x224 .f32).view (Rect.unit (s := S48x224) (k1_off18 k 0#32) S1x16.size (k1_off18_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off18 k 0#32) S1x16.size (k1_off18_inb k 0)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off18 k 0#32) S1x16.size (k1_off18_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off18 k 0#32) S1x16.size (k1_off18_inb k 0)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off18 k 1#32) S1x16.size (k1_off18_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off18 k 1#32) S1x16.size (k1_off18_inb k 1)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off18 k 1#32) S1x16.size (k1_off18_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off18 k 1#32) S1x16.size (k1_off18_inb k 1)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off18 k 2#32) S1x16.size (k1_off18_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off18 k 2#32) S1x16.size (k1_off18_inb k 2)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off18 k 2#32) S1x16.size (k1_off18_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off18 k 2#32) S1x16.size (k1_off18_inb k 2)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off18 k 3#32) S1x16.size (k1_off18_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off18 k 3#32) S1x16.size (k1_off18_inb k 3)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off18 k 3#32) S1x16.size (k1_off18_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off18 k 3#32) S1x16.size (k1_off18_inb k 3)).toLoadRect gt : Vec Ideal S1x16 .f32) shapeCasts_S1x16_S16 i : EReal))) rfl ?_
    rw [load_apply' (Memref.whole cc1_scratch0 : Memref sig .scVector .vmem S48x224 .f32) gi (k1_off18 k 0#32) (k1_off18_inb k 0) (4 * k.val + 0) 208 (k1_off18_eq k 0) i, load_apply' (Memref.whole cc1_scratch1 : Memref sig .scVector .vmem S48x224 .f32) gt (k1_off18 k 0#32) (k1_off18_inb k 0) (4 * k.val + 0) 208 (k1_off18_eq k 0) i,
      load_apply' (Memref.whole cc1_scratch0 : Memref sig .scVector .vmem S48x224 .f32) gi (k1_off18 k 1#32) (k1_off18_inb k 1) (4 * k.val + 1) 208 (k1_off18_eq k 1) i, load_apply' (Memref.whole cc1_scratch1 : Memref sig .scVector .vmem S48x224 .f32) gt (k1_off18 k 1#32) (k1_off18_inb k 1) (4 * k.val + 1) 208 (k1_off18_eq k 1) i,
      load_apply' (Memref.whole cc1_scratch0 : Memref sig .scVector .vmem S48x224 .f32) gi (k1_off18 k 2#32) (k1_off18_inb k 2) (4 * k.val + 2) 208 (k1_off18_eq k 2) i, load_apply' (Memref.whole cc1_scratch1 : Memref sig .scVector .vmem S48x224 .f32) gt (k1_off18 k 2#32) (k1_off18_inb k 2) (4 * k.val + 2) 208 (k1_off18_eq k 2) i,
      load_apply' (Memref.whole cc1_scratch0 : Memref sig .scVector .vmem S48x224 .f32) gi (k1_off18 k 3#32) (k1_off18_inb k 3) (4 * k.val + 3) 208 (k1_off18_eq k 3) i, load_apply' (Memref.whole cc1_scratch1 : Memref sig .scVector .vmem S48x224 .f32) gt (k1_off18 k 3#32) (k1_off18_inb k 3) (4 * k.val + 3) 208 (k1_off18_eq k 3) i]
    exact (sqSum_four _ _ _ k.val).symm
  · refine Eq.trans (b := max (max (max (max (mxAbs (fun c => rdN ((Memref.whole cc1_scratch1 : Memref sig .scVector .vmem S48x224 .f32).view.read (Elt Ideal) gt) c (192 + (i 0).val)) (init.2.2.1 i) (4 * k.val))
          (max (shapeCast S16 (View.readAt (Elt Ideal) (Memref.whole cc1_scratch1 : Memref sig .scVector .vmem S48x224 .f32).view (Rect.unit (s := S48x224) (k1_off17 k 0#32) S1x16.size (k1_off17_inb k 0)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off17 k 0#32) S1x16.size (k1_off17_inb k 0)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off17 k 1#32) S1x16.size (k1_off17_inb k 1)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off17 k 1#32) S1x16.size (k1_off17_inb k 1)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off17 k 2#32) S1x16.size (k1_off17_inb k 2)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off17 k 2#32) S1x16.size (k1_off17_inb k 2)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off17 k 3#32) S1x16.size (k1_off17_inb k 3)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off17 k 3#32) S1x16.size (k1_off17_inb k 3)).toLoadRect gt : Vec Ideal S1x16 .f32) shapeCasts_S1x16_S16 i : EReal)))) rfl ?_
    rw [load_apply' (Memref.whole cc1_scratch1 : Memref sig .scVector .vmem S48x224 .f32) gt (k1_off17 k 0#32) (k1_off17_inb k 0) (4 * k.val + 0) 192 (k1_off17_eq k 0) i,
      load_apply' (Memref.whole cc1_scratch1 : Memref sig .scVector .vmem S48x224 .f32) gt (k1_off17 k 1#32) (k1_off17_inb k 1) (4 * k.val + 1) 192 (k1_off17_eq k 1) i,
      load_apply' (Memref.whole cc1_scratch1 : Memref sig .scVector .vmem S48x224 .f32) gt (k1_off17 k 2#32) (k1_off17_inb k 2) (4 * k.val + 2) 192 (k1_off17_eq k 2) i,
      load_apply' (Memref.whole cc1_scratch1 : Memref sig .scVector .vmem S48x224 .f32) gt (k1_off17 k 3#32) (k1_off17_inb k 3) (4 * k.val + 3) 192 (k1_off17_eq k 3) i]
    exact (mxAbs_four _ _ k.val).symm
  · refine Eq.trans (b := max (max (max (max (mxAbs (fun c => rdN ((Memref.whole cc1_scratch1 : Memref sig .scVector .vmem S48x224 .f32).view.read (Elt Ideal) gt) c (208 + (i 0).val)) (init.2.2.2 i) (4 * k.val))
          (max (shapeCast S16 (View.readAt (Elt Ideal) (Memref.whole cc1_scratch1 : Memref sig .scVector .vmem S48x224 .f32).view (Rect.unit (s := S48x224) (k1_off18 k 0#32) S1x16.size (k1_off18_inb k 0)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off18 k 0#32) S1x16.size (k1_off18_inb k 0)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off18 k 1#32) S1x16.size (k1_off18_inb k 1)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off18 k 1#32) S1x16.size (k1_off18_inb k 1)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off18 k 2#32) S1x16.size (k1_off18_inb k 2)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off18 k 2#32) S1x16.size (k1_off18_inb k 2)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off18 k 3#32) S1x16.size (k1_off18_inb k 3)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off18 k 3#32) S1x16.size (k1_off18_inb k 3)).toLoadRect gt : Vec Ideal S1x16 .f32) shapeCasts_S1x16_S16 i : EReal)))) rfl ?_
    rw [load_apply' (Memref.whole cc1_scratch1 : Memref sig .scVector .vmem S48x224 .f32) gt (k1_off18 k 0#32) (k1_off18_inb k 0) (4 * k.val + 0) 208 (k1_off18_eq k 0) i,
      load_apply' (Memref.whole cc1_scratch1 : Memref sig .scVector .vmem S48x224 .f32) gt (k1_off18 k 1#32) (k1_off18_inb k 1) (4 * k.val + 1) 208 (k1_off18_eq k 1) i,
      load_apply' (Memref.whole cc1_scratch1 : Memref sig .scVector .vmem S48x224 .f32) gt (k1_off18 k 2#32) (k1_off18_inb k 2) (4 * k.val + 2) 208 (k1_off18_eq k 2) i,
      load_apply' (Memref.whole cc1_scratch1 : Memref sig .scVector .vmem S48x224 .f32) gt (k1_off18 k 3#32) (k1_off18_inb k 3) (4 * k.val + 3) 208 (k1_off18_eq k 3) i]
    exact (mxAbs_four _ _ k.val).symm

/-- THE CLOSED FORM of loop t8: after `n` trips the sums are the initial ones with rows `0 … 4 n − 1` added. -/
theorem sumsV_t8_closed (init : σ4) (n : ℕ) (hn : n ≤ k1_t8_loop.trips) :
    sumsV_t8 (F := Ideal) d L gi gt init n = closed4 ((Memref.whole cc1_scratch0 : Memref sig .scVector .vmem S48x224 .f32).view.read (Elt Ideal) gi) ((Memref.whole cc1_scratch1 : Memref sig .scVector .vmem S48x224 .f32).view.read (Elt Ideal) gt) 192 208 init (4 * n) := by
  induction n with
  | zero => rw [Nat.mul_zero, closed4_zero]; rfl
  | succ n ih =>
    have hlt : n < k1_t8_loop.trips := hn
    rw [sumsV_t8, dif_pos hlt, ih (Nat.le_of_lt hlt)]
    exact stepV_t8_closed d L gi gt ⟨n, hlt⟩ init

end Loop8

end Cert.KernelIdeal.ScTile

end
-- ==== Proof.ScTileChanI.lean ====
/-
  A lane group's four channel groups make the 192 channels: the four accumulation loops of a lane group, run one after
  the other from zero over slots that hold the four channel groups of an (image, row) pair, leave the squared distance
  over all the channels and the largest absolute value of the target over all the channels, at each of the group's columns.
-/
import proofs.«210586_g14980845929080_cont_week2b_1062_66_alg».proof.Proof.ScTileVMathI
import proofs.«210586_g14980845929080_cont_week2b_1062_66_alg».proof.Proof.ScTileValI
import Mathlib.Algebra.BigOperators.Fin

noncomputable section

open scoped BigOperators

namespace Cert.KernelIdeal.ScTile

open Cert.KernelIdeal Cert.LossSpec Cert.ScTileVal
open Idealize.ShloMosaic Idealize.ShloMosaic.ValueIdx

/-- Channel `48 cg + c`: row `c` of channel group `cg`. -/
def chOf (cg : Fin 4) (c : Fin 48) : Fin 192 := ⟨48 * cg.val + c.val, by have := cg.isLt; have := c.isLt; omega⟩

/-- The slot's contents `R` hold channel group `cg` of the array `X` at image `t`, row `h`: row `c` is channel `48 cg + c`. -/
def SlotHolds (X : FVec Ideal SImg .f32) (t : Fin 8) (h : Fin 224) (cg : Fin 4) (R : S48x224.Idx → EReal) : Prop :=
  ∀ (c : Fin 48) (x : Fin 224), R (ix2 c x) = X (ix4 t (chOf cg c) h x)

/-- The channels are the four channel groups' rows. -/
def chEquiv : Fin 4 × Fin 48 ≃ Fin 192 where
  toFun p := chOf p.1 p.2
  invFun q := (⟨q.val / 48, by have := q.isLt; omega⟩, ⟨q.val % 48, Nat.mod_lt _ (by decide)⟩)
  left_inv p := by
    obtain ⟨cg, c⟩ := p
    have := cg.isLt; have := c.isLt
    simp only [chOf, Prod.mk.injEq]
    exact ⟨Fin.ext (by simp only []; omega), Fin.ext (by simp only []; omega)⟩
  right_inv q := by
    have := q.isLt
    simp only [chOf]
    exact Fin.ext (by simp only []; omega)

theorem sum_channels {M : Type*} [AddCommMonoid M] (f : Fin 192 → M) :
    ∑ q : Fin 192, f q = ∑ c : Fin 48, f (chOf 0 c) + ∑ c : Fin 48, f (chOf 1 c) + ∑ c : Fin 48, f (chOf 2 c) + ∑ c : Fin 48, f (chOf 3 c) := by
  rw [← Equiv.sum_comp chEquiv f, Fintype.sum_prod_type, Fin.sum_univ_four]
  rfl

section Slot
variable {X : FVec Ideal SImg .f32} {t : Fin 8} {h : Fin 224} {cg : Fin 4} {R : S48x224.Idx → EReal}

theorem rdN_slot (hs : SlotHolds X t h cg R) (c : ℕ) (hc : c < 48) (x : Fin 224) :
    rdN R c x.val = X (ix4 t (chOf cg ⟨c, hc⟩) h x) := by
  unfold rdN
  rw [dif_pos ⟨hc, x.isLt⟩]
  exact hs ⟨c, hc⟩ x

end Slot

section Group
variable {x0 x1 : FVec Ideal SImg .f32} {t : Fin 8} {h : Fin 224}

/-- One loop over a slot holding channel group `cg`: the group's 48 squared differences added. -/
theorem sqSum_slot {cg : Fin 4} {Ri Rt : S48x224.Idx → EReal} (hI : SlotHolds x0 t h cg Ri) (hT : SlotHolds x1 t h cg Rt)
    (x : Fin 224) (a : EReal) :
    sqSum (fun c => rdN Ri c x.val) (fun c => rdN Rt c x.val) a 48
      = a + ∑ c : Fin 48, (x0 (ix4 t (chOf cg c) h x) - x1 (ix4 t (chOf cg c) h x)) * (x0 (ix4 t (chOf cg c) h x) - x1 (ix4 t (chOf cg c) h x)) := by
  unfold sqSum
  rw [Finset.sum_range]
  congr 1
  refine Finset.sum_congr rfl fun c _ => ?_
  beta_reduce
  rw [rdN_slot hI c.val c.isLt x, rdN_slot hT c.val c.isLt x]

/-- A running maximum is below a bound exactly when its start and every member are. -/
theorem mxAbs_le_iff (T : ℕ → EReal) (a : EReal) (m : ℕ) (b : EReal) :
    mxAbs T a m ≤ b ↔ a ≤ b ∧ ∀ c, c < m → max (T c) (-(T c)) ≤ b := by
  unfold mxAbs
  rw [Finset.fold_max_le]
  simp only [Finset.mem_range]

/-- One loop over a slot holding channel group `cg`, bounded. -/
theorem mxAbs_slot_le_iff {cg : Fin 4} {Rt : S48x224.Idx → EReal} (hT : SlotHolds x1 t h cg Rt) (x : Fin 224) (a b : EReal) :
    mxAbs (fun c => rdN Rt c x.val) a 48 ≤ b
      ↔ a ≤ b ∧ ∀ c : Fin 48, max (x1 (ix4 t (chOf cg c) h x)) (-(x1 (ix4 t (chOf cg c) h x))) ≤ b := by
  rw [mxAbs_le_iff]
  refine and_congr Iff.rfl ⟨fun H c => ?_, fun H c hc => ?_⟩
  · have := H c.val c.isLt
    beta_reduce at this
    rwa [rdN_slot hT c.val c.isLt x] at this
  · beta_reduce
    rw [rdN_slot hT c hc x]; exact H ⟨c, hc⟩

variable {R0i R0t R1i R1t R2i R2t R3i R3t : S48x224.Idx → EReal}

/-- THE SQUARED DISTANCE: four loops from 0 over the four channel groups leave the sum over the 192 channels. -/
theorem sqSum_four_groups (h0i : SlotHolds x0 t h 0 R0i) (h0t : SlotHolds x1 t h 0 R0t) (h1i : SlotHolds x0 t h 1 R1i) (h1t : SlotHolds x1 t h 1 R1t)
    (h2i : SlotHolds x0 t h 2 R2i) (h2t : SlotHolds x1 t h 2 R2t) (h3i : SlotHolds x0 t h 3 R3i) (h3t : SlotHolds x1 t h 3 R3t) (x : Fin 224) :
    sqSum (fun c => rdN R3i c x.val) (fun c => rdN R3t c x.val)
        (sqSum (fun c => rdN R2i c x.val) (fun c => rdN R2t c x.val)
          (sqSum (fun c => rdN R1i c x.val) (fun c => rdN R1t c x.val)
            (sqSum (fun c => rdN R0i c x.val) (fun c => rdN R0t c x.val) 0 48) 48) 48) 48
      = sqdAt x0 x1 t h x := by
  rw [sqSum_slot h0i h0t, sqSum_slot h1i h1t, sqSum_slot h2i h2t, sqSum_slot h3i h3t, zero_add]
  unfold sqdAt
  rw [sum_channels]

/-- THE LARGEST ABSOLUTE VALUE: four loops from 0 over the four channel groups leave the maximum over the 192 channels. -/
theorem mxAbs_four_groups (h0t : SlotHolds x1 t h 0 R0t) (h1t : SlotHolds x1 t h 1 R1t) (h2t : SlotHolds x1 t h 2 R2t) (h3t : SlotHolds x1 t h 3 R3t)
    (x : Fin 224) :
    mxAbs (fun c => rdN R3t c x.val) (mxAbs (fun c => rdN R2t c x.val) (mxAbs (fun c => rdN R1t c x.val)
        (mxAbs (fun c => rdN R0t c x.val) 0 48) 48) 48) 48
      = absMaxAt x1 t h x := by
  refine eq_of_forall_ge_iff fun b => ?_
  rw [mxAbs_slot_le_iff h3t, mxAbs_slot_le_iff h2t, mxAbs_slot_le_iff h1t, mxAbs_slot_le_iff h0t]
  unfold absMaxAt
  rw [Finset.fold_max_le]
  constructor
  · rintro ⟨⟨⟨⟨hb, H0⟩, H1⟩, H2⟩, H3⟩
    refine ⟨hb, fun q _ => ?_⟩
    obtain ⟨⟨cg, c⟩, rfl⟩ := chEquiv.surjective q
    show max (x1 (ix4 t (chOf cg c) h x)) (-(x1 (ix4 t (chOf cg c) h x))) ≤ b
    match cg with
    | ⟨0, _⟩ => exact H0 c
    | ⟨1, _⟩ => exact H1 c
    | ⟨2, _⟩ => exact H2 c
    | ⟨3, _⟩ => exact H3 c
  · rintro ⟨hb, H⟩
    exact ⟨⟨⟨⟨hb, fun c => H _ (Finset.mem_univ _)⟩, fun c => H _ (Finset.mem_univ _)⟩, fun c => H _ (Finset.mem_univ _)⟩, fun c => H _ (Finset.mem_univ _)⟩

/-- M2: the four loops of a lane group, from zero, over slots holding the four channel groups: the squared distance and
    the largest absolute value over all the channels at the group's columns `xa + lane` and `xb + lane`. -/
theorem closed4_four_groups (h0i : SlotHolds x0 t h 0 R0i) (h0t : SlotHolds x1 t h 0 R0t) (h1i : SlotHolds x0 t h 1 R1i) (h1t : SlotHolds x1 t h 1 R1t)
    (h2i : SlotHolds x0 t h 2 R2i) (h2t : SlotHolds x1 t h 2 R2t) (h3i : SlotHolds x0 t h 3 R3i) (h3t : SlotHolds x1 t h 3 R3t)
    (xa xb : ℕ) (hxa : xa + 16 ≤ 224) (hxb : xb + 16 ≤ 224) :
    closed4 R3i R3t xa xb (closed4 R2i R2t xa xb (closed4 R1i R1t xa xb
        (closed4 R0i R0t xa xb (fun _ => 0, fun _ => 0, fun _ => 0, fun _ => 0) 48) 48) 48) 48
      = (fun i => sqdAt x0 x1 t h ⟨xa + (i 0).val, by have := (i 0).isLt; change (i 0).val < 16 at this; omega⟩,
         fun i => sqdAt x0 x1 t h ⟨xb + (i 0).val, by have := (i 0).isLt; change (i 0).val < 16 at this; omega⟩,
         fun i => absMaxAt x1 t h ⟨xa + (i 0).val, by have := (i 0).isLt; change (i 0).val < 16 at this; omega⟩,
         fun i => absMaxAt x1 t h ⟨xb + (i 0).val, by have := (i 0).isLt; change (i 0).val < 16 at this; omega⟩) := by
  unfold closed4
  refine Prod.ext ?_ (Prod.ext ?_ (Prod.ext ?_ ?_))
  all_goals funext i
  · exact sqSum_four_groups h0i h0t h1i h1t h2i h2t h3i h3t ⟨xa + (i 0).val, by have := (i 0).isLt; change (i 0).val < 16 at this; omega⟩
  · exact sqSum_four_groups h0i h0t h1i h1t h2i h2t h3i h3t ⟨xb + (i 0).val, by have := (i 0).isLt; change (i 0).val < 16 at this; omega⟩
  · exact mxAbs_four_groups h0t h1t h2t h3t ⟨xa + (i 0).val, by have := (i 0).isLt; change (i 0).val < 16 at this; omega⟩
  · exact mxAbs_four_groups h0t h1t h2t h3t ⟨xb + (i 0).val, by have := (i 0).isLt; change (i 0).val < 16 at this; omega⟩

end Group

end Cert.KernelIdeal.ScTile

end
-- ==== Proof.ScTileVSlotI.lean ====
/-
  What a landed slot holds. A slot's transfer copies, into one of the four [48, 224] buffers, the window of an input
  array at offsets (t, 48·cg, h, 0): one image, forty-eight channels, one row, all 224 columns. Read at (c, x) the
  landed buffer holds the input at (t, 48·cg + c, h, x). The six places the task starts such a transfer, with their
  offsets in closed form.
-/
import proofs.«210586_g14980845929080_cont_week2b_1062_66_alg».proof.Proof.Gen.KernelIdeal
import Idealize.ShloMosaic.Lib.ValueIdx
import Idealize.ShloMosaic.Lib.ValueLayout

noncomputable section

namespace Cert.KernelIdeal.ScTile

open Cert.KernelIdeal
open Cert.KernelIdeal.Facts₀ Cert.KernelIdeal.Facts
open Idealize.ShloMosaic Idealize.ShloMosaic.ValueIdx

variable {F : FTy → Type}

/-! ## The window and where its elements sit -/

section Window
variable {κ : Kind} {sp : Space} (A : Memref sig κ sp S8x192x224x224 .f32)
  (o : Fin 4 → ℕ) (hin : ∀ a, o a + S1x48x1x224.size a ≤ S8x192x224x224.size a)

/-- The window of `A` at offsets `o`: one image, 48 channels, one row, 224 columns, as a [48, 224] memref. -/
abbrev winM : Memref sig κ sp S48x224 .f32 :=
  (A.slice (Rect.unit (s := S8x192x224x224) o S1x48x1x224.size hin) (fun _ => rfl)).squeeze S48x224 squeezes_S1x48x1x224_S48x224

/-- Element (c, x) of the window, as an index of the array: (o 0, o 1 + c, o 2, o 3 + x). -/
def idx4 (c : Fin 48) (x : Fin 224) : S8x192x224x224.Idx :=
  (Rect.unit (s := S8x192x224x224) o S1x48x1x224.size hin).emb (ix4 (0 : Fin 1) c (0 : Fin 1) x)

theorem idx4_val (c : Fin 48) (x : Fin 224) :
    (idx4 o hin c x 0).val = o 0 ∧ (idx4 o hin c x 1).val = o 1 + c.val ∧ (idx4 o hin c x 2).val = o 2 ∧ (idx4 o hin c x 3).val = o 3 + x.val := by
  refine ⟨?_, ?_, ?_, ?_⟩
  · show o 0 + 1 * 0 = o 0; omega
  · show o 1 + 1 * c.val = o 1 + c.val; omega
  · show o 2 + 1 * 0 = o 2; omega
  · show o 3 + 1 * x.val = o 3 + x.val; omega

/-- With the offsets named: the index (t, 48·cg + c, h, x). -/
theorem idx4_eq (t : Fin 8) (cg : ℕ) (h : Fin 224) (c : Fin 48) (x : Fin 224) (hcg : 48 * cg + c.val < 192)
    (h0 : o 0 = t.val) (h1 : o 1 = 48 * cg) (h2 : o 2 = h.val) (h3 : o 3 = 0) :
    idx4 o hin c x = ix4 t (⟨48 * cg + c.val, hcg⟩ : Fin 192) h x := by
  obtain ⟨e0, e1, e2, e3⟩ := idx4_val o hin c x
  funext a; apply Fin.ext
  match a with
  | ⟨0, _⟩ => exact e0.trans h0
  | ⟨1, _⟩ => exact e1.trans (by rw [h1])
  | ⟨2, _⟩ => exact e2.trans h2
  | ⟨3, _⟩ => exact e3.trans (by rw [h3]; show 0 + x.val = x.val; omega)

/-- Element (c, x) of the window sits in the buffer where element (o 0, o 1 + c, o 2, o 3 + x) of the array does. -/
theorem win_emb (c : Fin 48) (x : Fin 224) : (winM A o hin).view.emb (ix2 c x) = A.view.emb (idx4 o hin c x) := by
  have hre : Shape.reshapeEquiv squeezes_S1x48x1x224_S48x224.numel_eq (ix2 c x) = (ix4 (0 : Fin 1) c (0 : Fin 1) x : S1x48x1x224.Idx) :=
    Shape.reshapeEquiv_eq_of_rowMajor _ (by
      rw [Shape.rowMajor_val_four, Shape.rowMajor_val_two]
      show ((0 * 48 + c.val) * 1 + 0) * 224 + x.val = c.val * 224 + x.val
      omega)
  show A.view.emb ((Rect.unit (s := S8x192x224x224) o S1x48x1x224.size hin).emb
      (Shape.reshapeEquiv squeezes_S1x48x1x224_S48x224.numel_eq (ix2 c x))) = _
  rw [hre]; rfl

/-- So the window reads, at (c, x), what the array reads at (o 0, o 1 + c, o 2, o 3 + x). -/
theorem win_read (X : A.view.ty.Contents (Elt F)) (c : Fin 48) (x : Fin 224) :
    (winM A o hin).view.read (Elt F) X (ix2 c x) = A.view.read (Elt F) X (idx4 o hin c x) := by
  rw [View.read_apply, View.read_apply, win_emb]

/-- WHAT A LANDED SLOT HOLDS: a buffer written whole with what the window reads holds, at (c, x), the array's
    element (o 0, o 1 + c, o 2, o 3 + x) — whatever it held before. -/
theorem landed_read {κ' : Kind} {sp' : Space} (bv : View sig κ' sp' S48x224 .f32) (prev : bv.ty.Contents (Elt F))
    (X : A.view.ty.Contents (Elt F)) (c : Fin 48) (x : Fin 224) :
    bv.read (Elt F) (bv.write (Elt F) prev (ReadAs.same.apply ((winM A o hin).view.read (Elt F) X)) Finset.univ) (ix2 c x)
      = A.view.read (Elt F) X (idx4 o hin c x) := by
  rw [View.read_write_univ]
  exact win_read A o hin X c x

end Window

end Cert.KernelIdeal.ScTile

end
-- ==== Proof.ScTileVSlotAtI.lean ====
/-
  What each of the task's slot transfers lands: at the six places a transfer starts, the landed buffer holds, at (c, x),
  the input at (image of the row pair, 48 · channel group + c, row, x).
-/
import proofs.«210586_g14980845929080_cont_week2b_1062_66_alg».proof.Proof.ScTileVSlotI
import proofs.«210586_g14980845929080_cont_week2b_1062_66_alg».proof.Proof.ScTileVSlotOffI

noncomputable section

namespace Cert.KernelIdeal.ScTile

open Cert.KernelIdeal
open Cert.KernelIdeal.Facts₀ Cert.KernelIdeal.Facts
open Idealize.ShloMosaic Idealize.ShloMosaic.ValueIdx

variable {F : FTy → Type}

/-! ## The landed contents at each place -/

/-- Row pair r of the task is image r / 2 (the task's rows run over the eight images, two rows each) and row
    hb0 + r mod 2 of the image. -/
def tOf (r : ℕ) (hr : r < 16) : Fin 8 := ⟨r / 2, by omega⟩
def hOf (L : grid1.Coords) (r : ℕ) : Fin 224 := ⟨hb0 L + r % 2, by
  have h0 : (L 0).val < 2 := (L 0).isLt
  have h1 : (L 1).val < 16 := (L 1).isLt
  unfold hb0; omega⟩

section Sites
variable {κ : Kind} {sp : Space} (A : Memref sig κ sp S8x192x224x224 .f32) (X : A.view.ty.Contents (Elt F))
  {κ' : Kind} {sp' : Space} (bv : View sig κ' sp' S48x224 .f32) (prev : bv.ty.Contents (Elt F))
  (L : grid1.Coords) (c : Fin 48) (x : Fin 224)

/-- A slot landed from offsets (t, 48·cg, h, 0) holds, at (c, x), the array's element (t, 48·cg + c, h, x). -/
theorem landed_at (o : Fin 4 → ℕ) (hin : ∀ a, o a + S1x48x1x224.size a ≤ S8x192x224x224.size a)
    (t : Fin 8) (cg : ℕ) (h : Fin 224) (hcg : 48 * cg + c.val < 192)
    (h0 : o 0 = t.val) (h1 : o 1 = 48 * cg) (h2 : o 2 = h.val) (h3 : o 3 = 0) :
    bv.read (Elt F) (bv.write (Elt F) prev (ReadAs.same.apply ((winM A o hin).view.read (Elt F) X)) Finset.univ) (ix2 c x)
      = A.view.read (Elt F) X (ix4 t (⟨48 * cg + c.val, hcg⟩ : Fin 192) h x) := by
  rw [landed_read, idx4_eq o hin t cg h c x hcg h0 h1 h2 h3]

/-- The prologue's two transfers (row pair 0, channel groups 0 and 1). -/
theorem landed_off2 (hin : ∀ a, k1_off2 L a + S1x48x1x224.size a ≤ S8x192x224x224.size a) :
    bv.read (Elt F) (bv.write (Elt F) prev (ReadAs.same.apply ((winM A (k1_off2 L) hin).view.read (Elt F) X)) Finset.univ) (ix2 c x)
      = A.view.read (Elt F) X (ix4 (tOf 0 (by decide)) (⟨48 * 0 + c.val, by have := c.isLt; omega⟩ : Fin 192) (hOf L 0) x) :=
  landed_at A X bv prev c x (k1_off2 L) hin _ 0 _ _ (by rw [off2_eq]; rfl) (by rw [off2_eq]; rfl) (by rw [off2_eq]; rfl) (by rw [off2_eq]; rfl)
theorem landed_off3 (hin : ∀ a, k1_off3 L a + S1x48x1x224.size a ≤ S8x192x224x224.size a) :
    bv.read (Elt F) (bv.write (Elt F) prev (ReadAs.same.apply ((winM A (k1_off3 L) hin).view.read (Elt F) X)) Finset.univ) (ix2 c x)
      = A.view.read (Elt F) X (ix4 (tOf 0 (by decide)) (⟨48 * 1 + c.val, by have := c.isLt; omega⟩ : Fin 192) (hOf L 0) x) :=
  landed_at A X bv prev c x (k1_off3 L) hin _ 1 _ _ (by rw [off3_eq]; rfl) (by rw [off3_eq]; rfl) (by rw [off3_eq]; rfl) (by rw [off3_eq]; rfl)

/-- Row k's refills of the first slot pair (row pair k, channel groups 2 and 3). -/
theorem landed_off19 (k : Fin k1_t1_loop.trips) (hin : ∀ a, k1_off19 L k a + S1x48x1x224.size a ≤ S8x192x224x224.size a) :
    bv.read (Elt F) (bv.write (Elt F) prev (ReadAs.same.apply ((winM A (k1_off19 L k) hin).view.read (Elt F) X)) Finset.univ) (ix2 c x)
      = A.view.read (Elt F) X (ix4 (tOf k.val k.isLt) (⟨48 * 2 + c.val, by have := c.isLt; omega⟩ : Fin 192) (hOf L k.val) x) :=
  landed_at A X bv prev c x (k1_off19 L k) hin _ 2 _ _ (by rw [off19_eq]; rfl) (by rw [off19_eq]; rfl) (by rw [off19_eq]; rfl) (by rw [off19_eq]; rfl)
theorem landed_off34 (k : Fin k1_t1_loop.trips) (hin : ∀ a, k1_off34 L k a + S1x48x1x224.size a ≤ S8x192x224x224.size a) :
    bv.read (Elt F) (bv.write (Elt F) prev (ReadAs.same.apply ((winM A (k1_off34 L k) hin).view.read (Elt F) X)) Finset.univ) (ix2 c x)
      = A.view.read (Elt F) X (ix4 (tOf k.val k.isLt) (⟨48 * 3 + c.val, by have := c.isLt; omega⟩ : Fin 192) (hOf L k.val) x) :=
  landed_at A X bv prev c x (k1_off34 L k) hin _ 3 _ _ (by rw [off34_eq]; rfl) (by rw [off34_eq]; rfl) (by rw [off34_eq]; rfl) (by rw [off34_eq]; rfl)

/-- Row k's refills of the second slot pair for the next row (row pair k + 1, channel groups 0 and 1), while a row
    remains. -/
theorem landed_off49 (k : Fin k1_t1_loop.trips) (hk : k.val + 1 < 16) (hin : ∀ a, k1_off49 L k a + S1x48x1x224.size a ≤ S8x192x224x224.size a) :
    bv.read (Elt F) (bv.write (Elt F) prev (ReadAs.same.apply ((winM A (k1_off49 L k) hin).view.read (Elt F) X)) Finset.univ) (ix2 c x)
      = A.view.read (Elt F) X (ix4 (tOf (k.val + 1) hk) (⟨48 * 0 + c.val, by have := c.isLt; omega⟩ : Fin 192) (hOf L (k.val + 1)) x) :=
  landed_at A X bv prev c x (k1_off49 L k) hin _ 0 _ _ (by rw [off49_eq]; rfl) (by rw [off49_eq]; rfl) (by rw [off49_eq]; rfl) (by rw [off49_eq]; rfl)
theorem landed_off64 (k : Fin k1_t1_loop.trips) (hk : k.val + 1 < 16) (hin : ∀ a, k1_off64 L k a + S1x48x1x224.size a ≤ S8x192x224x224.size a) :
    bv.read (Elt F) (bv.write (Elt F) prev (ReadAs.same.apply ((winM A (k1_off64 L k) hin).view.read (Elt F) X)) Finset.univ) (ix2 c x)
      = A.view.read (Elt F) X (ix4 (tOf (k.val + 1) hk) (⟨48 * 1 + c.val, by have := c.isLt; omega⟩ : Fin 192) (hOf L (k.val + 1)) x) :=
  landed_at A X bv prev c x (k1_off64 L k) hin _ 1 _ _ (by rw [off64_eq]; rfl) (by rw [off64_eq]; rfl) (by rw [off64_eq]; rfl) (by rw [off64_eq]; rfl)

end Sites
end Cert.KernelIdeal.ScTile

end
-- ==== Proof.ScTileWidI.lean ====
/-
  The task's row index: task (core c, subcore s) writes row w = 2 s + c of the partial sums, and its sixteen (image, row)
  pairs, spelt from the task's coordinates or from w, are the same.
-/
import proofs.«210586_g14980845929080_cont_week2b_1062_66_alg».proof.Proof.ScTileValI
import proofs.«210586_g14980845929080_cont_week2b_1062_66_alg».proof.Proof.ScTileVSlotAtI
import proofs.«210586_g14980845929080_cont_week2b_1062_66_alg».proof.Proof.ScTilePI

noncomputable section

namespace Cert.KernelIdeal.ScTile

open Cert.KernelIdeal Cert.KernelIdeal.Gen
open Idealize.ShloMosaic

/-- The row of the partial sums the task at `L` writes. -/
def widL (L : grid1.Coords) : Fin 32 := wid (L 0).val (L 1).val

theorem widL_val (L : grid1.Coords) : (widL L).val = 2 * (L 1).val + (L 0).val := by
  have h0 : (L 0).val < 2 := (L 0).isLt
  have h1 : (L 1).val < 16 := (L 1).isLt
  simp only [widL, wid]; omega

/-- The image of pair `r`, either way. -/
theorem tOf_eq (r : Fin 16) : Cert.ScTileVal.tOf r = tOf r.val r.isLt := rfl

/-- The row of pair `r` of the task at `L`, either way. -/
theorem hOf_eq (L : grid1.Coords) (r : Fin 16) : Cert.ScTileVal.hOf (widL L) r = hOf L r.val :=
  Fin.ext (by
    show 160 + 2 * (widL L).val + r.val % 2 = hb0 L + r.val % 2
    rw [widL_val]; unfold hb0; omega)

end Cert.KernelIdeal.ScTile

end
-- ==== Proof.ScTileVSlabOffI.lean ====
/-
  The slab loads of the SparseCore task's row trip: the offsets in closed form, decided over the task's coordinates and
  the row number (first half: the flag word's load and lane groups 0 … 3 lower half).
-/
import proofs.«210586_g14980845929080_cont_week2b_1062_66_alg».proof.Proof.Gen.KernelIdeal

namespace Cert.KernelIdeal.ScTile

open Cert.KernelIdeal

/-- The first row of the slab the task fetches: the task's first row rounded down to a multiple of 8, at most 208. -/
def haOf (L : grid1.Coords) : ℕ := min (8 * ((4 * (L 1).val + 2 * (L 0).val + 160) / 8)) 208

theorem off1_eq (L : grid1.Coords) : k1_off1 L = ![0, haOf L, 0] := Gen.k1_off1_eq L

theorem off4_eq : ∀ (L : grid1.Coords) (k : Fin k1_t1_loop.trips), k1_off4 L k = ![k.val / 2, (4 * (L 1).val + 2 * (L 0).val + 160 - min (8 * ((4 * (L 1).val + 2 * (L 0).val + 160) / 8)) 208) + k.val % 2, 224] := by decide +kernel
theorem off65_eq : ∀ (L : grid1.Coords) (k : Fin k1_t1_loop.trips), k1_off65 L k = ![k.val / 2, (4 * (L 1).val + 2 * (L 0).val + 160 - min (8 * ((4 * (L 1).val + 2 * (L 0).val + 160) / 8)) 208) + k.val % 2, 0] := by decide +kernel
theorem off66_eq : ∀ (L : grid1.Coords) (k : Fin k1_t1_loop.trips), k1_off66 L k = ![k.val / 2, (4 * (L 1).val + 2 * (L 0).val + 160 - min (8 * ((4 * (L 1).val + 2 * (L 0).val + 160) / 8)) 208) + k.val % 2, 16] := by decide +kernel
theorem off67_eq : ∀ (L : grid1.Coords) (k : Fin k1_t1_loop.trips), k1_off67 L k = ![k.val / 2, (4 * (L 1).val + 2 * (L 0).val + 160 - min (8 * ((4 * (L 1).val + 2 * (L 0).val + 160) / 8)) 208) + k.val % 2, 32] := by decide +kernel
theorem off68_eq : ∀ (L : grid1.Coords) (k : Fin k1_t1_loop.trips), k1_off68 L k = ![k.val / 2, (4 * (L 1).val + 2 * (L 0).val + 160 - min (8 * ((4 * (L 1).val + 2 * (L 0).val + 160) / 8)) 208) + k.val % 2, 48] := by decide +kernel
theorem off69_eq : ∀ (L : grid1.Coords) (k : Fin k1_t1_loop.trips), k1_off69 L k = ![k.val / 2, (4 * (L 1).val + 2 * (L 0).val + 160 - min (8 * ((4 * (L 1).val + 2 * (L 0).val + 160) / 8)) 208) + k.val % 2, 64] := by decide +kernel
theorem off70_eq : ∀ (L : grid1.Coords) (k : Fin k1_t1_loop.trips), k1_off70 L k = ![k.val / 2, (4 * (L 1).val + 2 * (L 0).val + 160 - min (8 * ((4 * (L 1).val + 2 * (L 0).val + 160) / 8)) 208) + k.val % 2, 80] := by decide +kernel
theorem off71_eq : ∀ (L : grid1.Coords) (k : Fin k1_t1_loop.trips), k1_off71 L k = ![k.val / 2, (4 * (L 1).val + 2 * (L 0).val + 160 - min (8 * ((4 * (L 1).val + 2 * (L 0).val + 160) / 8)) 208) + k.val % 2, 96] := by decide +kernel

end Cert.KernelIdeal.ScTile
-- ==== Proof.ScTileVSlabOff2I.lean ====
/-
  The slab loads of the SparseCore task's row trip: the offsets in closed form (second half).
-/
import proofs.«210586_g14980845929080_cont_week2b_1062_66_alg».proof.Proof.Gen.KernelIdeal

namespace Cert.KernelIdeal.ScTile

open Cert.KernelIdeal

theorem off72_eq : ∀ (L : grid1.Coords) (k : Fin k1_t1_loop.trips), k1_off72 L k = ![k.val / 2, (4 * (L 1).val + 2 * (L 0).val + 160 - min (8 * ((4 * (L 1).val + 2 * (L 0).val + 160) / 8)) 208) + k.val % 2, 112] := by decide +kernel
theorem off73_eq : ∀ (L : grid1.Coords) (k : Fin k1_t1_loop.trips), k1_off73 L k = ![k.val / 2, (4 * (L 1).val + 2 * (L 0).val + 160 - min (8 * ((4 * (L 1).val + 2 * (L 0).val + 160) / 8)) 208) + k.val % 2, 128] := by decide +kernel
theorem off74_eq : ∀ (L : grid1.Coords) (k : Fin k1_t1_loop.trips), k1_off74 L k = ![k.val / 2, (4 * (L 1).val + 2 * (L 0).val + 160 - min (8 * ((4 * (L 1).val + 2 * (L 0).val + 160) / 8)) 208) + k.val % 2, 144] := by decide +kernel
theorem off75_eq : ∀ (L : grid1.Coords) (k : Fin k1_t1_loop.trips), k1_off75 L k = ![k.val / 2, (4 * (L 1).val + 2 * (L 0).val + 160 - min (8 * ((4 * (L 1).val + 2 * (L 0).val + 160) / 8)) 208) + k.val % 2, 160] := by decide +kernel
theorem off76_eq : ∀ (L : grid1.Coords) (k : Fin k1_t1_loop.trips), k1_off76 L k = ![k.val / 2, (4 * (L 1).val + 2 * (L 0).val + 160 - min (8 * ((4 * (L 1).val + 2 * (L 0).val + 160) / 8)) 208) + k.val % 2, 176] := by decide +kernel
theorem off77_eq : ∀ (L : grid1.Coords) (k : Fin k1_t1_loop.trips), k1_off77 L k = ![k.val / 2, (4 * (L 1).val + 2 * (L 0).val + 160 - min (8 * ((4 * (L 1).val + 2 * (L 0).val + 160) / 8)) 208) + k.val % 2, 192] := by decide +kernel
theorem off78_eq : ∀ (L : grid1.Coords) (k : Fin k1_t1_loop.trips), k1_off78 L k = ![k.val / 2, (4 * (L 1).val + 2 * (L 0).val + 160 - min (8 * ((4 * (L 1).val + 2 * (L 0).val + 160) / 8)) 208) + k.val % 2, 208] := by decide +kernel

end Cert.KernelIdeal.ScTile
-- ==== Proof.ScTileVSlabI.lean ====
/-
  What the mask slab holds and what the row trip's loads of it read. The task fetches, once, sixteen rows of the mask
  array (all eight images, all 256 columns) starting at row ha; a load at offsets (t, j, col) of sixteen lanes reads the
  mask array's row ha + j of image t at columns col … col + 15.
-/
import proofs.«210586_g14980845929080_cont_week2b_1062_66_alg».proof.Proof.ScTileVSlabOffI
import proofs.«210586_g14980845929080_cont_week2b_1062_66_alg».proof.Proof.ScTileVSlabOff2I
import proofs.«210586_g14980845929080_cont_week2b_1062_66_alg».proof.Proof.ScTileVSlotOffI
import Idealize.ShloMosaic.Lib.ValueIdx

noncomputable section

namespace Cert.KernelIdeal.ScTile

open Cert.KernelIdeal
open Cert.KernelIdeal.Facts₀ Cert.KernelIdeal.Facts
open Idealize.ShloMosaic Idealize.ShloMosaic.ValueIdx

variable {F : FTy → Type}

section Slab
variable {κ : Kind} {sp : Space} (A : Memref sig κ sp S8x224x256 .f32)
  (o : Fin 3 → ℕ) (hin : ∀ a, o a + S8x16x256.size a ≤ S8x224x256.size a)

/-- The slab of `A` at offsets `o`: eight images, sixteen rows, 256 columns. -/
abbrev slabM : Memref sig κ sp S8x16x256 .f32 :=
  A.slice (Rect.unit (s := S8x224x256) o S8x16x256.size hin) (fun _ => rfl)

/-- The slab reads, at an index, what the array reads where the slab's rectangle places it. -/
theorem slab_read (X : A.view.ty.Contents (Elt F)) (y : S8x16x256.Idx) :
    (slabM A o hin).view.read (Elt F) X y = A.view.read (Elt F) X ((Rect.unit (s := S8x224x256) o S8x16x256.size hin).emb y) := by
  rw [View.read_apply, View.read_apply]; rfl

/-- WHAT THE LANDED SLAB HOLDS: a buffer written whole with what the slab reads holds, at an index, the array's
    element there — whatever it held before. -/
theorem landed_slab {κ' : Kind} {sp' : Space} (bv : View sig κ' sp' S8x16x256 .f32) (prev : bv.ty.Contents (Elt F))
    (X : A.view.ty.Contents (Elt F)) (y : S8x16x256.Idx) :
    bv.read (Elt F) (bv.write (Elt F) prev (ReadAs.same.apply ((slabM A o hin).view.read (Elt F) X)) Finset.univ) y
      = A.view.read (Elt F) X ((Rect.unit (s := S8x224x256) o S8x16x256.size hin).emb y) := by
  rw [View.read_write_univ]
  exact slab_read A o hin X y

/-- A sixteen-lane load of the slab buffer at offsets `off`: lane l reads the array at
    (o 0 + off 0, o 1 + off 1, o 2 + off 2 + l). -/
theorem slab_lane {κ' : Kind} {sp' : Space} (bv : View sig κ' sp' S8x16x256 .f32) (g4 : bv.ty.Contents (Elt F))
    (X : A.view.ty.Contents (Elt F))
    (hg : ∀ y, bv.read (Elt F) g4 y = A.view.read (Elt F) X ((Rect.unit (s := S8x224x256) o S8x16x256.size hin).emb y))
    (off : Fin 3 → ℕ) (inb : ∀ a, off a + S1x1x16.size a ≤ S8x16x256.size a) (l : Fin 16)
    (t : Fin 8) (h : Fin 224) (col : Fin 256) (e0 : o 0 + off 0 = t.val) (e1 : o 1 + off 1 = h.val) (e2 : o 2 + off 2 + l.val = col.val) :
    bv.readAt (Elt F) (Rect.unit (s := S8x16x256) off S1x1x16.size inb).toLoadRect g4 (ix3 (0 : Fin 1) (0 : Fin 1) l)
      = A.view.read (Elt F) X (ix3 t h col) := by
  show bv.read (Elt F) g4 ((Rect.unit (s := S8x16x256) off S1x1x16.size inb).emb (ix3 (0 : Fin 1) (0 : Fin 1) l)) = _
  rw [hg]
  refine congrArg (A.view.read (Elt F) X) (funext fun a => Fin.ext ?_)
  match a with
  | ⟨0, _⟩ => show o 0 + 1 * (off 0 + 1 * 0) = t.val; omega
  | ⟨1, _⟩ => show o 1 + 1 * (off 1 + 1 * 0) = h.val; omega
  | ⟨2, _⟩ => show o 2 + 1 * (off 2 + 1 * l.val) = col.val; omega

end Slab

/-! ## The row trip's loads -/

section Trip
variable {κ : Kind} {sp : Space} (A : Memref sig κ sp S8x224x256 .f32) (X : A.view.ty.Contents (Elt F))
  {κ' : Kind} {sp' : Space} (bv : View sig κ' sp' S8x16x256 .f32) (g4 : bv.ty.Contents (Elt F))
  (L : grid1.Coords) (k : Fin k1_t1_loop.trips)
  (hin : ∀ a, k1_off1 L a + S8x16x256.size a ≤ S8x224x256.size a)
  (hg : ∀ y, bv.read (Elt F) g4 y = A.view.read (Elt F) X ((Rect.unit (s := S8x224x256) (k1_off1 L) S8x16x256.size hin).emb y))

include hg in
/-- A slab load of the row trip whose offsets are (k / 2, (hb0 − ha) + k mod 2, col0), as the fifteen loads' closed forms
    say: lane l reads the mask array at (image k / 2, row hb0 + k mod 2, column col0 + l). -/
theorem trip_lane (off : Fin 3 → ℕ) (inb : ∀ a, off a + S1x1x16.size a ≤ S8x16x256.size a) (col0 : ℕ)
    (hoff : off = ![k.val / 2, (4 * (L 1).val + 2 * (L 0).val + 160 - min (8 * ((4 * (L 1).val + 2 * (L 0).val + 160) / 8)) 208) + k.val % 2, col0])
    (l : Fin 16) (hcol : col0 + l.val < 256) :
    bv.readAt (Elt F) (Rect.unit (s := S8x16x256) off S1x1x16.size inb).toLoadRect g4 (ix3 (0 : Fin 1) (0 : Fin 1) l)
      = A.view.read (Elt F) X (ix3 (⟨k.val / 2, by have hk : k.val < 16 := lt_of_lt_of_eq k.isLt (by decide); omega⟩ : Fin 8)
          (⟨4 * (L 1).val + 2 * (L 0).val + 160 + k.val % 2, by have h0 : (L 0).val < 2 := (L 0).isLt; have h1 : (L 1).val < 16 := (L 1).isLt; omega⟩ : Fin 224)
          (⟨col0 + l.val, hcol⟩ : Fin 256)) := by
  have h0 : (L 0).val < 2 := (L 0).isLt
  have h1 : (L 1).val < 16 := (L 1).isLt
  refine slab_lane A (k1_off1 L) hin bv g4 X hg off inb l _ _ _ ?_ ?_ ?_
  · rw [off1_eq, hoff]; show 0 + k.val / 2 = k.val / 2; omega
  · rw [off1_eq, hoff]
    show haOf L + ((4 * (L 1).val + 2 * (L 0).val + 160 - min (8 * ((4 * (L 1).val + 2 * (L 0).val + 160) / 8)) 208) + k.val % 2)
      = 4 * (L 1).val + 2 * (L 0).val + 160 + k.val % 2
    unfold haOf; omega
  · rw [off1_eq, hoff]; show 0 + col0 + l.val = col0 + l.val; omega

end Trip

end Cert.KernelIdeal.ScTile

end
-- ==== Proof.ScTileVHoldsI.lean ====
/-
  What the row's data are, in the arrays' own terms: the payload a slot's transfer delivers from the window at the offsets
  of row pair r and channel group cg holds that channel group of the input at the pair's image and row; the fetched slab,
  loaded at a lane group's offsets, holds the mask array's row at the group's columns.
-/
import proofs.«210586_g14980845929080_cont_week2b_1062_66_alg».proof.Proof.ScTileVInvI
import proofs.«210586_g14980845929080_cont_week2b_1062_66_alg».proof.Proof.ScTileChanI
import proofs.«210586_g14980845929080_cont_week2b_1062_66_alg».proof.Proof.ScTileWidI
import proofs.«210586_g14980845929080_cont_week2b_1062_66_alg».proof.Proof.ScTileVSlabI

noncomputable section

namespace Cert.KernelIdeal.ScTileV

open Cert.KernelIdeal.ScTile
open Cert.KernelIdeal Cert.KernelIdeal.Gen
open Idealize.ShloMosaic Idealize.ShloMosaic.ValueIdx
open Idealize.ShloMosaic.SparseCore (S V T)

/-- The window's offsets for a row pair below 16 and a channel group below 4 are within the array. -/
theorem oAt_inb (L : grid1.Coords) (r : Fin 16) (cg : Fin 4) :
    ∀ a, oAt L r.val cg.val a + S1x48x1x224.size a ≤ S8x192x224x224.size a := by
  have h0 : (L 0).val < 2 := (L 0).isLt
  have h1 : (L 1).val < 16 := (L 1).isLt
  have hr := r.isLt
  have hc := cg.isLt
  intro a
  match a with
  | ⟨0, _⟩ => show r.val / 2 + 1 ≤ 8; omega
  | ⟨1, _⟩ => show 48 * cg.val + 48 ≤ 192; omega
  | ⟨2, _⟩ => show 4 * (L 1).val + 2 * (L 0).val + 160 + r.val % 2 + 1 ≤ 224; omega
  | ⟨3, _⟩ => show 0 + 224 ≤ 224; omega

section Slots
variable (X0 : (d : Dev nD) → Buf (Elt Ideal) (a0Loc d)) (X1 : (d : Dev nD) → Buf (Elt Ideal) (a1Loc d))
variable (d : Dev nD) (L : grid1.Coords)

/-- The payload from the first input's window for (row pair r, channel group cg) holds that channel group at the pair's
    image and row. -/
theorem slotHolds_payA0 (r : Fin 16) (cg : Fin 4) (hin : ∀ a, oAt L r.val cg.val a + S1x48x1x224.size a ≤ S8x192x224x224.size a) :
    SlotHolds (X0 d) (Cert.ScTileVal.tOf r) (Cert.ScTileVal.hOf (widL L) r) cg (payA0 X0 d (oAt L r.val cg.val) hin) := by
  intro c x
  have hc := cg.isLt
  have hcc := c.isLt
  unfold payA0
  show (winM (Memref.whole main_arg0_scv : Memref sig .scVector .hbm S8x192x224x224 .f32) (oAt L r.val cg.val) hin).view.read (Elt Ideal) (X0 d) (ix2 c x) = _
  rw [win_read, idx4_eq (oAt L r.val cg.val) hin (Cert.ScTileVal.tOf r) cg.val (Cert.ScTileVal.hOf (widL L) r) c x (by omega) rfl rfl
    (by show 4 * (L 1).val + 2 * (L 0).val + 160 + r.val % 2 = 160 + 2 * (widL L).val + r.val % 2; rw [widL_val]; omega) rfl]
  rfl

/-- The same for the second input. -/
theorem slotHolds_payA1 (r : Fin 16) (cg : Fin 4) (hin : ∀ a, oAt L r.val cg.val a + S1x48x1x224.size a ≤ S8x192x224x224.size a) :
    SlotHolds (X1 d) (Cert.ScTileVal.tOf r) (Cert.ScTileVal.hOf (widL L) r) cg (payA1 X1 d (oAt L r.val cg.val) hin) := by
  intro c x
  have hc := cg.isLt
  have hcc := c.isLt
  unfold payA1
  show (winM (Memref.whole main_arg1_scv : Memref sig .scVector .hbm S8x192x224x224 .f32) (oAt L r.val cg.val) hin).view.read (Elt Ideal) (X1 d) (ix2 c x) = _
  rw [win_read, idx4_eq (oAt L r.val cg.val) hin (Cert.ScTileVal.tOf r) cg.val (Cert.ScTileVal.hOf (widL L) r) c x (by omega) rfl rfl
    (by show 4 * (L 1).val + 2 * (L 0).val + 160 + r.val % 2 = 160 + 2 * (widL L).val + r.val % 2; rw [widL_val]; omega) rfl]
  rfl

end Slots

section Slab
variable {F : FTy → Type} [FloatOps F] (M : (d : Dev nD) → Buf (Elt F) (mkLoc d)) (d : Dev nD) (L : grid1.Coords)

/-- A sixteen-lane load of the fetched slab at the offsets (k / 2, (hb0 − ha) + k mod 2, col0) of a row trip: lane l is
    the mask array at (image k / 2, row hb0 + k mod 2, column col0 + l). -/
theorem payM_lane (k : Fin k1_t1_loop.trips) (off : Fin 3 → ℕ) (inb : ∀ a, off a + S1x1x16.size a ≤ S8x16x256.size a) (col0 : ℕ)
    (hoff : off = ![k.val / 2, (4 * (L 1).val + 2 * (L 0).val + 160 - min (8 * ((4 * (L 1).val + 2 * (L 0).val + 160) / 8)) 208) + k.val % 2, col0])
    (l : Fin 16) (hcol : col0 + l.val < 256) :
    (Memref.whole cc1_scratch4 : Memref sig .scVector .vmem S8x16x256 .f32).view.readAt (Elt F)
        (Rect.unit (s := S8x16x256) off S1x1x16.size inb).toLoadRect (payM M d L) (ix3 (0 : Fin 1) (0 : Fin 1) l)
      = (M d : S8x224x256.Idx → Elt F .f32) (ix3 (⟨k.val / 2, by have hk : k.val < 16 := lt_of_lt_of_eq k.isLt (by decide); omega⟩ : Fin 8)
          (⟨4 * (L 1).val + 2 * (L 0).val + 160 + k.val % 2, by have h0 : (L 0).val < 2 := (L 0).isLt; have h1 : (L 1).val < 16 := (L 1).isLt; omega⟩ : Fin 224)
          (⟨col0 + l.val, hcol⟩ : Fin 256)) :=
  trip_lane (Memref.whole main_v0_scv : Memref sig .scVector .hbm S8x224x256 .f32) (M d)
    (Memref.whole cc1_scratch4 : Memref sig .scVector .vmem S8x16x256 .f32).view (payM M d L) L k (k1_off1_inb L)
    (fun y => slab_read (Memref.whole main_v0_scv : Memref sig .scVector .hbm S8x224x256 .f32) (k1_off1 L) (k1_off1_inb L) (M d) y)
    off inb col0 hoff l hcol

end Slab

end Cert.KernelIdeal.ScTileV

end
-- ==== Proof.ScTileVSumsI.lean ====
/-
  The task's running sums, defined from the arrays: before row 0 zero; after row r the row's fold over its mask line, its
  largest-absolute-value file and its squared-distance file, the two files being what the row's four channel groups leave
  from zeroed files. The row trip carries exactly these sums.
-/
import proofs.«210586_g14980845929080_cont_week2b_1062_66_alg».proof.Proof.ScTileVTrip3I
import proofs.«210586_g14980845929080_cont_week2b_1062_66_alg».proof.Proof.ScTileVHoldsI

set_option warn.classDefReducibility false

noncomputable section

namespace Cert.KernelIdeal.ScTileV

open Cert.KernelIdeal.ScTile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ Sc.UU ℕ

local notation "a0V" => (Memref.whole Cert.KernelIdeal.main_arg0_scv : Memref Cert.KernelIdeal.sig Kind.scVector Space.hbm Cert.KernelIdeal.S8x192x224x224 EltTy.f32)
local notation "a1V" => (Memref.whole Cert.KernelIdeal.main_arg1_scv : Memref Cert.KernelIdeal.sig Kind.scVector Space.hbm Cert.KernelIdeal.S8x192x224x224 EltTy.f32)
local notation "mkV" => (Memref.whole Cert.KernelIdeal.main_v0_scv : Memref Cert.KernelIdeal.sig Kind.scVector Space.hbm Cert.KernelIdeal.S8x224x256 EltTy.f32)
local notation "ptV" => (Memref.whole Cert.KernelIdeal.main_v1_scv : Memref Cert.KernelIdeal.sig Kind.scVector Space.hbm Cert.KernelIdeal.S32x32 EltTy.f32)
local notation "b0V" => (Memref.whole Cert.KernelIdeal.cc1_scratch0 : Memref Cert.KernelIdeal.sig Kind.scVector Space.vmem Cert.KernelIdeal.S48x224 EltTy.f32)
local notation "b1V" => (Memref.whole Cert.KernelIdeal.cc1_scratch1 : Memref Cert.KernelIdeal.sig Kind.scVector Space.vmem Cert.KernelIdeal.S48x224 EltTy.f32)
local notation "b2V" => (Memref.whole Cert.KernelIdeal.cc1_scratch2 : Memref Cert.KernelIdeal.sig Kind.scVector Space.vmem Cert.KernelIdeal.S48x224 EltTy.f32)
local notation "b3V" => (Memref.whole Cert.KernelIdeal.cc1_scratch3 : Memref Cert.KernelIdeal.sig Kind.scVector Space.vmem Cert.KernelIdeal.S48x224 EltTy.f32)
local notation "b4V" => (Memref.whole Cert.KernelIdeal.cc1_scratch4 : Memref Cert.KernelIdeal.sig Kind.scVector Space.vmem Cert.KernelIdeal.S8x16x256 EltTy.f32)
local notation "b5V" => (Memref.whole Cert.KernelIdeal.cc1_scratch5 : Memref Cert.KernelIdeal.sig Kind.scVector Space.vmem Cert.KernelIdeal.S7x2x16 EltTy.f32)
local notation "b6V" => (Memref.whole Cert.KernelIdeal.cc1_scratch6 : Memref Cert.KernelIdeal.sig Kind.scVector Space.vmem Cert.KernelIdeal.S7x2x16 EltTy.f32)
local notation "b7V" => (Memref.whole Cert.KernelIdeal.cc1_scratch7 : Memref Cert.KernelIdeal.sig Kind.scVector Space.vmem Cert.KernelIdeal.S32 EltTy.f32)

variable [FloatOps F]

section Tile

variable (X0 : (d : Dev nD) → Buf (Elt F) (a0Loc d)) (X1 : (d : Dev nD) → Buf (Elt F) (a1Loc d))
  (M : (d : Dev nD) → Buf (Elt F) (mkLoc d)) (R0 : (d : Dev nD) → Buf (Elt F) (ptLoc d))
variable (d : Dev nD) (L : grid1.Coords)

/-- The zeroed register file. -/
abbrev zerosF : Fin 7 → Fin 2 → Vec F S1x1x16 .f32 := fun _ _ => toCellF (k1_pay828 (F := F))

theorem upd_zerosF : upd (zerosF (F := F)) 6 1 (toCellF (k1_pay828 (F := F))) = zerosF := by
  funext k' h'
  unfold upd
  split <;> rfl

/-- The first part's files depend on the second file only through that file with its last cell zeroed. -/
theorem f91_7_congr (g0 : Buf (Elt F) ((V d (cV L) (jV L)).loc cc1_scratch0)) (g1 : Buf (Elt F) ((V d (cV L) (jV L)).loc cc1_scratch1))
    (w5 w6 w6' : Fin 7 → Fin 2 → Vec F S1x1x16 .f32) (v24 : FVec F S16 .f32) (v87 v90 v93 v96 v99 v102 v105 : BitVec 1)
    (h : upd w6 6 1 (k1_pay764 v24) = upd w6' 6 1 (k1_pay764 v24)) :
    f91_7 d L g0 g1 w5 w6 v24 v87 v90 v93 v96 v99 v102 v105 = f91_7 d L g0 g1 w5 w6' v24 v87 v90 v93 v96 v99 v102 v105 := by
  have h0 : f91_0 w5 w6 v24 = f91_0 w5 w6' v24 := by unfold f91_0; rw [h]
  unfold f91_7 f91_6 f91_5 f91_4 f91_3 f91_2 f91_1
  rw [h0]

/-- So the row's files from a second file zeroed everywhere but possibly at its last cell are the row's files from the
    zeroed file (and do not depend on the proofs of the windows' bounds). -/
theorem filesRow_congr (k : Fin k1_t1_loop.trips) (g4 : Buf (Elt F) ((V d (cV L) (jV L)).loc cc1_scratch4))
    (hA hA' : ∀ a, oAt L k.val 0 a + S1x48x1x224.size a ≤ S8x192x224x224.size a) (hB hB' : ∀ a, oAt L k.val 1 a + S1x48x1x224.size a ≤ S8x192x224x224.size a)
    (w6 : Fin 7 → Fin 2 → Vec F S1x1x16 .f32) (hw : upd w6 6 1 (toCellF (k1_pay828 (F := F))) = zerosF) :
    filesRow X0 X1 d L k g4 hA hB w6 = filesRow X0 X1 d L k g4 hA' hB' zerosF := by
  have e := f91_7_congr d L (payA0 X0 d (oAt L k.val 0) hA) (payA1 X1 d (oAt L k.val 0) hA) zerosF w6 zerosF (k1_pay828 (F := F))
    (flagBit d L k g4 0) (flagBit d L k g4 1) (flagBit d L k g4 2) (flagBit d L k g4 3) (flagBit d L k g4 4) (flagBit d L k g4 5) (flagBit d L k g4 6)
    (hw.trans upd_zerosF.symm)
  unfold filesRow
  rw [e]

/-- THE TASK'S RUNNING SUMS. -/
def sumsOf (g4 : Buf (Elt F) ((V d (cV L) (jV L)).loc cc1_scratch4)) : ℕ → FVec F S16 .f32 × FVec F S16 .f32
  | 0 => (k1_pay828 (F := F), k1_pay828 (F := F))
  | r + 1 =>
    if hr : r < 16 then
      rowFold (k1_pay829 (F := F)) (k1_pay828 (F := F)) (slabOf d L ⟨r, by rw [trips16]; exact hr⟩ g4)
        (filesRow X0 X1 d L ⟨r, by rw [trips16]; exact hr⟩ g4 (oAt_inb L ⟨r, hr⟩ 0) (oAt_inb L ⟨r, hr⟩ 1) zerosF).2
        (filesRow X0 X1 d L ⟨r, by rw [trips16]; exact hr⟩ g4 (oAt_inb L ⟨r, hr⟩ 0) (oAt_inb L ⟨r, hr⟩ 1) zerosF).1
        (sumsOf g4 r)
    else sumsOf g4 r

theorem sumsOf_zero (g4 : Buf (Elt F) ((V d (cV L) (jV L)).loc cc1_scratch4)) :
    sumsOf X0 X1 d L g4 0 = (k1_pay828 (F := F), k1_pay828 (F := F)) := rfl

/-- The sums after row r, for r below 16. -/
theorem sumsOf_succ (g4 : Buf (Elt F) ((V d (cV L) (jV L)).loc cc1_scratch4)) (r : Fin 16) :
    sumsOf X0 X1 d L g4 (r.val + 1)
      = rowFold (k1_pay829 (F := F)) (k1_pay828 (F := F)) (slabOf d L ⟨r.val, by rw [trips16]; exact r.isLt⟩ g4)
          (filesRow X0 X1 d L ⟨r.val, by rw [trips16]; exact r.isLt⟩ g4 (oAt_inb L r 0) (oAt_inb L r 1) zerosF).2
          (filesRow X0 X1 d L ⟨r.val, by rw [trips16]; exact r.isLt⟩ g4 (oAt_inb L r 0) (oAt_inb L r 1) zerosF).1
          (sumsOf X0 X1 d L g4 r.val) := by
  show (if hr : r.val < 16 then _ else _) = _
  rw [dif_pos r.isLt]

/-- The row trip's premise about the sums, for these sums. -/
theorem hsums_sumsOf (g4 : Buf (Elt F) ((V d (cV L) (jV L)).loc cc1_scratch4)) (k : Fin k1_t1_loop.trips)
    (hA : ∀ a, oAt L k.val 0 a + S1x48x1x224.size a ≤ S8x192x224x224.size a) (hB : ∀ a, oAt L k.val 1 a + S1x48x1x224.size a ≤ S8x192x224x224.size a)
    (w6 : Fin 7 → Fin 2 → Vec F S1x1x16 .f32) (hw : upd w6 6 1 (toCellF (k1_pay828 (F := F))) = (fun _ _ => toCellF (k1_pay828 (F := F)))) :
    rowFold (k1_pay829 (F := F)) (k1_pay828 (F := F)) (slabOf d L k g4) (filesRow X0 X1 d L k g4 hA hB w6).2 (filesRow X0 X1 d L k g4 hA hB w6).1
      (sumsOf X0 X1 d L g4 k.val) = sumsOf X0 X1 d L g4 (k.val + 1) := by
  have hk : k.val < 16 := trips16 ▸ k.isLt
  rw [filesRow_congr X0 X1 d L k g4 hA (oAt_inb L ⟨k.val, hk⟩ 0) hB (oAt_inb L ⟨k.val, hk⟩ 1) w6 hw]
  show _ = (if hr : k.val < 16 then _ else _)
  rw [dif_pos hk]

/-! ## The row's mask line and flag words, in the mask array's terms -/

section Lines
variable (k : Fin k1_t1_loop.trips)

/-- Word `q` of a sixteen-lane cell, as the program extracts it: the cell read as lanes, sliced at `q`, its one element
    taken. -/
theorem word_of_cell (v : Vec F S1x1x16 .f32) :
    k1_pay730 v = v (ValueIdx.ix3 (0 : Fin 1) (0 : Fin 1) (0 : Fin 16)) ∧ k1_pay731 v = v (ValueIdx.ix3 (0 : Fin 1) (0 : Fin 1) (1 : Fin 16))
    ∧ k1_pay732 v = v (ValueIdx.ix3 (0 : Fin 1) (0 : Fin 1) (2 : Fin 16))
    ∧ k1_pay733 (k1_pay729 v) = v (ValueIdx.ix3 (0 : Fin 1) (0 : Fin 1) (3 : Fin 16)) ∧ k1_pay734 (k1_pay729 v) = v (ValueIdx.ix3 (0 : Fin 1) (0 : Fin 1) (4 : Fin 16))
    ∧ k1_pay735 (k1_pay729 v) = v (ValueIdx.ix3 (0 : Fin 1) (0 : Fin 1) (5 : Fin 16)) ∧ k1_pay736 (k1_pay729 v) = v (ValueIdx.ix3 (0 : Fin 1) (0 : Fin 1) (6 : Fin 16)) := by
  have key : ∀ (q : Fin 16) (hs : S16.Slices ![q.val] S1),
      extractAt ![0] (extractStridedSlice S1 ![q.val] (shapeCast S16 v shapeCasts_S1x1x16_S16) hs) inpos_S1_p0
        = v (ValueIdx.ix3 (0 : Fin 1) (0 : Fin 1) q) := by
    intro q hs
    unfold extractAt
    refine (extractStridedSlice_apply ![q.val] _ hs (fun a => ⟨![0] a, inpos_S1_p0 a⟩) (ValueIdx.ix1 q) (fun a => by
      match a with
      | ⟨0, _⟩ => show q.val = q.val + 0; omega)).trans ?_
    exact shapeCast_apply _ _ _ (ValueIdx.ix3 (0 : Fin 1) (0 : Fin 1) q) (by
      rw [Shape.rowMajor_val_three, Shape.rowMajor_val_one]
      show (0 * 1 + 0) * 16 + q.val = q.val
      omega)
  exact ⟨key 0 _, key 1 _, key 2 _, key 3 _, key 4 _, key 5 _, key 6 _⟩

/-- Lane l of the row's load of the flag words is the mask array's column 224 + l at the row's image and row. -/
theorem flagLd_lane (l : Fin 16) :
    flagLd d L k (payM M d L) (ValueIdx.ix3 (0 : Fin 1) (0 : Fin 1) l)
      = (M d : S8x224x256.Idx → Elt F .f32) (ValueIdx.ix3 (⟨k.val / 2, by have hk : k.val < 16 := trips16 ▸ k.isLt; omega⟩ : Fin 8)
          (⟨4 * (L 1).val + 2 * (L 0).val + 160 + k.val % 2, by have h0 : (L 0).val < 2 := (L 0).isLt; have h1 : (L 1).val < 16 := (L 1).isLt; omega⟩ : Fin 224)
          (⟨224 + l.val, by have := l.isLt; omega⟩ : Fin 256)) :=
  payM_lane M d L k (k1_off4 L k) (k1_off4_inb L k) 224 (off4_eq L k) l (by have := l.isLt; omega)

/-- Lane l of the row's load of the mask line for lane group kk, half hf, is the mask array's column 32 kk + 16 hf + l at
    the row's image and row. -/
theorem slabOf_lane (kk : Fin 7) (hf : Fin 2) (l : Fin 16) :
    slabOf d L k (payM M d L) kk hf (ValueIdx.ix3 (0 : Fin 1) (0 : Fin 1) l)
      = (M d : S8x224x256.Idx → Elt F .f32) (ValueIdx.ix3 (⟨k.val / 2, by have hk : k.val < 16 := trips16 ▸ k.isLt; omega⟩ : Fin 8)
          (⟨4 * (L 1).val + 2 * (L 0).val + 160 + k.val % 2, by have h0 : (L 0).val < 2 := (L 0).isLt; have h1 : (L 1).val < 16 := (L 1).isLt; omega⟩ : Fin 224)
          (⟨32 * kk.val + 16 * hf.val + l.val, by have := kk.isLt; have := hf.isLt; have := l.isLt; omega⟩ : Fin 256)) :=
  match kk, hf with
  | ⟨0, _⟩, ⟨0, _⟩ => payM_lane M d L k (k1_off65 L k) (k1_off65_inb L k) 0 (off65_eq L k) l (by have := l.isLt; omega)
  | ⟨0, _⟩, ⟨1, _⟩ => payM_lane M d L k (k1_off66 L k) (k1_off66_inb L k) 16 (off66_eq L k) l (by have := l.isLt; omega)
  | ⟨1, _⟩, ⟨0, _⟩ => payM_lane M d L k (k1_off67 L k) (k1_off67_inb L k) 32 (off67_eq L k) l (by have := l.isLt; omega)
  | ⟨1, _⟩, ⟨1, _⟩ => payM_lane M d L k (k1_off68 L k) (k1_off68_inb L k) 48 (off68_eq L k) l (by have := l.isLt; omega)
  | ⟨2, _⟩, ⟨0, _⟩ => payM_lane M d L k (k1_off69 L k) (k1_off69_inb L k) 64 (off69_eq L k) l (by have := l.isLt; omega)
  | ⟨2, _⟩, ⟨1, _⟩ => payM_lane M d L k (k1_off70 L k) (k1_off70_inb L k) 80 (off70_eq L k) l (by have := l.isLt; omega)
  | ⟨3, _⟩, ⟨0, _⟩ => payM_lane M d L k (k1_off71 L k) (k1_off71_inb L k) 96 (off71_eq L k) l (by have := l.isLt; omega)
  | ⟨3, _⟩, ⟨1, _⟩ => payM_lane M d L k (k1_off72 L k) (k1_off72_inb L k) 112 (off72_eq L k) l (by have := l.isLt; omega)
  | ⟨4, _⟩, ⟨0, _⟩ => payM_lane M d L k (k1_off73 L k) (k1_off73_inb L k) 128 (off73_eq L k) l (by have := l.isLt; omega)
  | ⟨4, _⟩, ⟨1, _⟩ => payM_lane M d L k (k1_off74 L k) (k1_off74_inb L k) 144 (off74_eq L k) l (by have := l.isLt; omega)
  | ⟨5, _⟩, ⟨0, _⟩ => payM_lane M d L k (k1_off75 L k) (k1_off75_inb L k) 160 (off75_eq L k) l (by have := l.isLt; omega)
  | ⟨5, _⟩, ⟨1, _⟩ => payM_lane M d L k (k1_off76 L k) (k1_off76_inb L k) 176 (off76_eq L k) l (by have := l.isLt; omega)
  | ⟨6, _⟩, ⟨0, _⟩ => payM_lane M d L k (k1_off77 L k) (k1_off77_inb L k) 192 (off77_eq L k) l (by have := l.isLt; omega)
  | ⟨6, _⟩, ⟨1, _⟩ => payM_lane M d L k (k1_off78 L k) (k1_off78_inb L k) 208 (off78_eq L k) l (by have := l.isLt; omega)

end Lines

end Tile

end Cert.KernelIdeal.ScTileV

end
-- ==== Proof.ScTileVBridgeI.lean ====
/-
  The row loop's invariant with the slots' contents named is stated twice, once over each of the two chains of the
  task's resources (the one the row's parts are proved over, the one the task's body around the loop is proved over);
  the two statements are the same assertion.
-/
import proofs.«210586_g14980845929080_cont_week2b_1062_66_alg».proof.Proof.ScTileVInvI
import proofs.«210586_g14980845929080_cont_week2b_1062_66_alg».proof.Proof.ScTileVInv2I

noncomputable section

namespace Cert.KernelIdeal.ScTileBridge

open Cert.KernelIdeal Cert.KernelIdeal.Gen
open Idealize.ShloMosaic
open Idealize.ShloMosaic.SparseCore (S V T)
open Idealize.ShloMosaic.SparseCore.Cfg (HIx)
open Idealize.SL Idealize.SL.RA

variable {F : FTy → Type} [FloatOps F]

theorem rowInvN_eq (X0 : (d : Dev nD) → Buf (Elt F) (Cert.KernelIdeal.ScTile.a0Loc d)) (X1 : (d : Dev nD) → Buf (Elt F) (Cert.KernelIdeal.ScTile.a1Loc d))
    (sums : ℕ → FVec F S16 .f32 × FVec F S16 .f32) (qa qb : PosShare TreeShare) (d : Dev nD) (L : grid1.Coords)
    (O : CellTallies nD τ sig (HIx 1)) (W : Waits sig (HIx 1))
    (g4 : Buf (Elt F) ((V d (Cert.KernelIdeal.ScTile.cV L) (Cert.KernelIdeal.ScTile.jV L)).loc cc1_scratch4)) (k : ℕ) (acc : FVec F S16 .f32 × FVec F S16 .f32) :
    Cert.KernelIdeal.ScTileV.rowInvN X0 X1 sums qa qb d L O W g4 k acc
      = Cert.KernelIdeal.ScTile.rowInvN X0 X1 sums qa qb d L O W g4 k acc := rfl

theorem payM_eq (M : (d : Dev nD) → Buf (Elt F) (Cert.KernelIdeal.ScTile.mkLoc d)) (d : Dev nD) (L : grid1.Coords) :
    Cert.KernelIdeal.ScTileV.payM M d L = Cert.KernelIdeal.ScTile.payM M d L := rfl

end Cert.KernelIdeal.ScTileBridge

end
-- ==== Proof.ScTileVTrip4I.lean ====
/-
  The last row of the task's row loop with values: from the loop's invariant with the carried sums and the slots'
  payloads named to the invariant after the loop, both slots at rest; the four channel groups' parts composed.
-/
import proofs.«210586_g14980845929080_cont_week2b_1062_66_alg».proof.Proof.ScTileVP91NI
import proofs.«210586_g14980845929080_cont_week2b_1062_66_alg».proof.Proof.ScTileVP92I
import proofs.«210586_g14980845929080_cont_week2b_1062_66_alg».proof.Proof.ScTileVP93NI
import proofs.«210586_g14980845929080_cont_week2b_1062_66_alg».proof.Proof.ScTileVP94I
import proofs.«210586_g14980845929080_cont_week2b_1062_66_alg».proof.Proof.ScTileVInvI
import proofs.«210586_g14980845929080_cont_week2b_1062_66_alg».proof.Proof.ScTileVSlotOffI
import proofs.«210586_g14980845929080_cont_week2b_1062_66_alg».proof.Proof.ScTileRowI
import proofs.«210586_g14980845929080_cont_week2b_1062_66_alg».proof.Proof.ScTileVZeroI
import proofs.«210586_g14980845929080_cont_week2b_1062_66_alg».proof.Proof.ScTileVTrip3I
import proofs.«210586_g14980845929080_cont_week2b_1062_66_alg».proof.Proof.Gen.KernelIdeal.Skeleton
import Idealize.ShloMosaic.Lib.Tactic

set_option warn.classDefReducibility false

noncomputable section

namespace Cert.KernelIdeal.ScTileV

open Cert.KernelIdeal.ScTile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ Sc.UU ℕ

local notation "a0V" => (Memref.whole Cert.KernelIdeal.main_arg0_scv : Memref Cert.KernelIdeal.sig Kind.scVector Space.hbm Cert.KernelIdeal.S8x192x224x224 EltTy.f32)
local notation "a1V" => (Memref.whole Cert.KernelIdeal.main_arg1_scv : Memref Cert.KernelIdeal.sig Kind.scVector Space.hbm Cert.KernelIdeal.S8x192x224x224 EltTy.f32)
local notation "mkV" => (Memref.whole Cert.KernelIdeal.main_v0_scv : Memref Cert.KernelIdeal.sig Kind.scVector Space.hbm Cert.KernelIdeal.S8x224x256 EltTy.f32)
local notation "ptV" => (Memref.whole Cert.KernelIdeal.main_v1_scv : Memref Cert.KernelIdeal.sig Kind.scVector Space.hbm Cert.KernelIdeal.S32x32 EltTy.f32)
local notation "b0V" => (Memref.whole Cert.KernelIdeal.cc1_scratch0 : Memref Cert.KernelIdeal.sig Kind.scVector Space.vmem Cert.KernelIdeal.S48x224 EltTy.f32)
local notation "b1V" => (Memref.whole Cert.KernelIdeal.cc1_scratch1 : Memref Cert.KernelIdeal.sig Kind.scVector Space.vmem Cert.KernelIdeal.S48x224 EltTy.f32)
local notation "b2V" => (Memref.whole Cert.KernelIdeal.cc1_scratch2 : Memref Cert.KernelIdeal.sig Kind.scVector Space.vmem Cert.KernelIdeal.S48x224 EltTy.f32)
local notation "b3V" => (Memref.whole Cert.KernelIdeal.cc1_scratch3 : Memref Cert.KernelIdeal.sig Kind.scVector Space.vmem Cert.KernelIdeal.S48x224 EltTy.f32)
local notation "b4V" => (Memref.whole Cert.KernelIdeal.cc1_scratch4 : Memref Cert.KernelIdeal.sig Kind.scVector Space.vmem Cert.KernelIdeal.S8x16x256 EltTy.f32)
local notation "b5V" => (Memref.whole Cert.KernelIdeal.cc1_scratch5 : Memref Cert.KernelIdeal.sig Kind.scVector Space.vmem Cert.KernelIdeal.S7x2x16 EltTy.f32)
local notation "b6V" => (Memref.whole Cert.KernelIdeal.cc1_scratch6 : Memref Cert.KernelIdeal.sig Kind.scVector Space.vmem Cert.KernelIdeal.S7x2x16 EltTy.f32)
local notation "b7V" => (Memref.whole Cert.KernelIdeal.cc1_scratch7 : Memref Cert.KernelIdeal.sig Kind.scVector Space.vmem Cert.KernelIdeal.S32 EltTy.f32)

variable [FloatOps F]

section Tile

variable (X0 : (d : Dev nD) → Buf (Elt F) (a0Loc d)) (X1 : (d : Dev nD) → Buf (Elt F) (a1Loc d))
  (M : (d : Dev nD) → Buf (Elt F) (mkLoc d)) (R0 : (d : Dev nD) → Buf (Elt F) (ptLoc d))
variable (d : Dev nD) (L : grid1.Coords)

set_option maxHeartbeats 16000000 in
/-- One row, the last: no slot is refilled. -/
theorem row_tripLN (sums : ℕ → FVec F S16 .f32 × FVec F S16 .f32) (qa qb : PosShare TreeShare) (O : CellTallies nD τ sig (HIx 1)) (W : Waits sig (HIx 1))
    (g4 : Buf (Elt F) ((V d (cV L) (jV L)).loc cc1_scratch4)) (v3 v23 : BitVec 32)
    (k : Fin k1_t1_loop.trips) (hl : ¬ k.val + 1 < 16) (acc : FVec F S16 .f32 × FVec F S16 .f32)
    (hsums : ∀ (hA : ∀ a, oAt L k.val 0 a + S1x48x1x224.size a ≤ S8x192x224x224.size a) (hB : ∀ a, oAt L k.val 1 a + S1x48x1x224.size a ≤ S8x192x224x224.size a)
      (w6 : Fin 7 → Fin 2 → Vec F S1x1x16 .f32), upd w6 6 1 (toCellF (k1_pay828 (F := F))) = (fun _ _ => toCellF (k1_pay828 (F := F))) →
      rowFold (k1_pay829 (F := F)) (k1_pay828 (F := F)) (slabOf d L k g4) (filesRow X0 X1 d L k g4 hA hB w6).2 (filesRow X0 X1 d L k g4 hA hB w6).1 (sums k.val) = sums (k.val + 1)) :
    rowInvN X0 X1 sums qa qb d L O W g4 k.val acc
      ⊢ wp frame (wpE (defs₀ (F := F)) Sc.𝒱₀ (V d (cV L) (jV L)) none) Set.univ (k1_t1_body L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 v3 v23 (k1_pay828 (F := F)) (k1_pay829 (F := F)) k acc)
          (rowInvN X0 X1 sums qa qb d L O W g4 (k.val + 1)) := by
  rcases acc with ⟨a19, a20⟩
  have hk : k.val < 16 := trips16 ▸ k.isLt
  unfold rowInvN k1_t1_body
  rw [if_pos hk, if_neg hl]; unfold rowFlyN flying0 flying1
  iintro ⟨%hacc, #Hmw, Hb4, ⟨%g5, Hb5⟩, ⟨%g6, Hb6⟩, ⟨%oA, %oB, %hA, %hB, %eA, %eB, ⟨HF3, H0a, HF4, H1a⟩, ⟨HF5, H0b, HF6, H1b⟩⟩, %W', %hW', HO⟩
  subst eA eB
  set_option sl_exec.maxSteps 68 in sl_exec
  ihave Hb5' := (pts_nameA (F := F) _ _) $$ Hb5
  icases Hb5' with ⟨%c5, %hc5, Hb5⟩
  ihave Hb6' := (pts_nameA (F := F) _ _) $$ Hb6
  icases Hb6' with ⟨%c6, %hc6, Hb6⟩
  have h5 : (b5V).view.read (Elt F) c5 = cells (fun _ _ => toCellF (k1_pay828 (F := F))) := by
    rw [hc5]; exact read_writes_rowStart (b5V).view g5 (fun _ _ => toCellF (k1_pay828 (F := F)))
  have h6 : (b6V).view.read (Elt F) c6 = cells (cellsOfC ((b6V).view.read (Elt F) c6)) := (cells_cellsOfC _).symm
  have hP91 : ∀ (o : Fin 4 → ℕ) (h : (∀ a, o a + S1x48x1x224.size a ≤ S8x192x224x224.size a)) (g0 : Buf (Elt F) ((V d (cV L) (jV L)).loc cc1_scratch0)) (g1 : Buf (Elt F) ((V d (cV L) (jV L)).loc cc1_scratch1))
      (c5 : Buf (Elt F) ((V d (cV L) (jV L)).loc cc1_scratch5)) (c6 : Buf (Elt F) ((V d (cV L) (jV L)).loc cc1_scratch6))
      (w5 w6 : Fin 7 → Fin 2 → Vec F S1x1x16 .f32) (v24 : FVec F S16 .f32) (v87 v90 v93 v96 v99 v102 v105 : BitVec 1) (Wx : Waits sig (HIx 1))
      (e5 : (b5V).view.read (Elt F) c5 = cells w5) (e6 : (b6V).view.read (Elt F) c6 = cells w6),
      iprop(Transfers.MayWaits (V d (cV L) (jV L)) (none : HIx 1) O ∗ ((b5V).view.loc (V d (cV L) (jV L)) ↦{fullShare} c5) ∗ ((b6V).view.loc (V d (cV L) (jV L)) ↦{fullShare} c6) ∗ flying0 X0 X1 qa d L o h g0 g1 ∗ owes (V d (cV L) (jV L)) O Wx)
        ⊢ wp frame (wpE (defs₀ (F := F)) Sc.𝒱₀ (V d (cV L) (jV L)) none) Set.univ (k1_part91 L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 v24 v87 v90 v93 v96 v99 v102 v105)
            (fun _ => iprop(Transfers.MayWaits (V d (cV L) (jV L)) (none : HIx 1) O
              ∗ accHeld d L (f91_7 d L g0 g1 w5 w6 v24 v87 v90 v93 v96 v99 v102 v105).1 (f91_7 d L g0 g1 w5 w6 v24 v87 v90 v93 v96 v99 v102 v105).2
              ∗ landed0 X0 X1 qa d L g0 g1 ∗ owes (V d (cV L) (jV L)) O (insert (SemLoc.dma (⟨4, by decide⟩ : DmaSem sig), (default : HIx 1)) (insert (SemLoc.dma (⟨3, by decide⟩ : DmaSem sig), (default : HIx 1)) Wx)))) := by
    intro o h g0 g1 c5 c6 w5 w6 v24 v87 v90 v93 v96 v99 v102 v105 Wx e5 e6
    have hpre : iprop(Transfers.MayWaits (V d (cV L) (jV L)) (none : HIx 1) O ∗ ((b5V).view.loc (V d (cV L) (jV L)) ↦{fullShare} c5) ∗ ((b6V).view.loc (V d (cV L) (jV L)) ↦{fullShare} c6) ∗ flying0 X0 X1 qa d L o h g0 g1 ∗ owes (V d (cV L) (jV L)) O Wx)
        ⊢ cutFA (flying0 X0 X1 qa d L o h g0 g1) d L O Wx (w5, w6) := by
      unfold cutFA accHeld
      iintro ⟨Hmw, H5, H6, Hf, HO⟩
      isplitl [Hmw]; · iexact Hmw
      isplitl [H5 H6]
      · iexists c5, c6
        isplitl [H5]; · iexact H5
        isplitl [H6]; · iexact H6
        isplitr <;> (ipureintro; assumption)
      isplitl [Hf]; · iexact Hf
      iexact HO
    exact hpre.trans (part91N (F := F) X0 X1 d L qa O Wx o h g0 g1 w5 w6 v24 v87 v90 v93 v96 v99 v102 v105)
  have hP92 : ∀ (oB : Fin 4 → ℕ) (hB : (∀ a, oB a + S1x48x1x224.size a ≤ S8x192x224x224.size a)) (g0 : Buf (Elt F) ((V d (cV L) (jV L)).loc cc1_scratch0)) (g1 : Buf (Elt F) ((V d (cV L) (jV L)).loc cc1_scratch1)) (g2 : Buf (Elt F) ((V d (cV L) (jV L)).loc cc1_scratch2)) (g3 : Buf (Elt F) ((V d (cV L) (jV L)).loc cc1_scratch3))
      (c5 : Buf (Elt F) ((V d (cV L) (jV L)).loc cc1_scratch5)) (c6 : Buf (Elt F) ((V d (cV L) (jV L)).loc cc1_scratch6)) (w5 w6 : Fin 7 → Fin 2 → Vec F S1x1x16 .f32) (v87 v90 v93 v96 v99 v102 v105 : BitVec 1) (Wx : Waits sig (HIx 1))
      (e5 : (b5V).view.read (Elt F) c5 = cells w5) (e6 : (b6V).view.read (Elt F) c6 = cells w6) (v3 arg18 c0 : BitVec 32),
      iprop(Transfers.MayWaits (V d (cV L) (jV L)) (none : HIx 1) O ∗ ((b5V).view.loc (V d (cV L) (jV L)) ↦{fullShare} c5) ∗ ((b6V).view.loc (V d (cV L) (jV L)) ↦{fullShare} c6) ∗ landed0 X0 X1 qa d L g0 g1 ∗ flying1 X0 X1 qb d L oB hB g2 g3 ∗ owes (V d (cV L) (jV L)) O Wx)
        ⊢ wp frame (wpE (defs₀ (F := F)) Sc.𝒱₀ (V d (cV L) (jV L)) none) Set.univ (k1_part92 L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 v3 k arg18 v87 v90 v93 v96 v99 v102 v105 c0) (fun _ => st92 X0 X1 qa qb d L O (insert (SemLoc.dma (⟨6, by decide⟩ : DmaSem sig), (default : HIx 1)) (insert (SemLoc.dma (⟨5, by decide⟩ : DmaSem sig), (default : HIx 1)) Wx)) k g0 g1 g2 g3 (files92 d L g2 g3 v87 v90 v93 v96 v99 v102 v105 w5 w6).1 (files92 d L g2 g3 v87 v90 v93 v96 v99 v102 v105 w5 w6).2) := by
    intro oB hB g0 g1 g2 g3 c5 c6 w5 w6 v87 v90 v93 v96 v99 v102 v105 Wx e5 e6 v3 arg18 c0
    have hpre : iprop(Transfers.MayWaits (V d (cV L) (jV L)) (none : HIx 1) O ∗ ((b5V).view.loc (V d (cV L) (jV L)) ↦{fullShare} c5) ∗ ((b6V).view.loc (V d (cV L) (jV L)) ↦{fullShare} c6) ∗ landed0 X0 X1 qa d L g0 g1 ∗ flying1 X0 X1 qb d L oB hB g2 g3 ∗ owes (V d (cV L) (jV L)) O Wx)
        ⊢ iprop(Transfers.MayWaits (V d (cV L) (jV L)) (none : HIx 1) O ∗ accHeld d L w5 w6 ∗ landed0 X0 X1 qa d L g0 g1 ∗ flying1 X0 X1 qb d L oB hB g2 g3 ∗ owes (V d (cV L) (jV L)) O Wx) := by
      unfold accHeld
      iintro ⟨Hmw, H5, H6, Hs0, Hs1, HO⟩
      isplitl [Hmw]; · iexact Hmw
      isplitl [H5 H6]
      · iexists c5, c6
        isplitl [H5]; · iexact H5
        isplitl [H6]; · iexact H6
        isplitr <;> (ipureintro; assumption)
      isplitl [Hs0]; · iexact Hs0
      isplitl [Hs1]; · iexact Hs1
      iexact HO
    exact hpre.trans (part92N (F := F) X0 X1 d L qa qb O Wx oB hB g0 g1 g2 g3 w5 w6 v3 k arg18 v87 v90 v93 v96 v99 v102 v105 c0)
  have hP93 : ∀ (g0 : Buf (Elt F) ((V d (cV L) (jV L)).loc cc1_scratch0)) (g1 : Buf (Elt F) ((V d (cV L) (jV L)).loc cc1_scratch1)) (g2 : Buf (Elt F) ((V d (cV L) (jV L)).loc cc1_scratch2)) (g3 : Buf (Elt F) ((V d (cV L) (jV L)).loc cc1_scratch3))
      (c5 : Buf (Elt F) ((V d (cV L) (jV L)).loc cc1_scratch5)) (c6 : Buf (Elt F) ((V d (cV L) (jV L)).loc cc1_scratch6)) (w5 w6 : Fin 7 → Fin 2 → Vec F S1x1x16 .f32) (v87 v90 v93 v96 v99 v102 v105 : BitVec 1) (Wx : Waits sig (HIx 1))
      (e5 : (b5V).view.read (Elt F) c5 = cells w5) (e6 : (b6V).view.read (Elt F) c6 = cells w6) (v3 arg18 v321 c16 : BitVec 32),
      iprop(Transfers.MayWaits (V d (cV L) (jV L)) (none : HIx 1) O ∗ ((b5V).view.loc (V d (cV L) (jV L)) ↦{fullShare} c5) ∗ ((b6V).view.loc (V d (cV L) (jV L)) ↦{fullShare} c6) ∗ flying0 X0 X1 qa d L (k1_off19 L k) (k1_off19_inb L k (cond8_all k)) g0 g1 ∗ landed1 X0 X1 qb d L g2 g3 ∗ owes (V d (cV L) (jV L)) O Wx)
        ⊢ wp frame (wpE (defs₀ (F := F)) Sc.𝒱₀ (V d (cV L) (jV L)) none) Set.univ (k1_part93 L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 v3 k arg18 v87 v90 v93 v96 v99 v102 v105 v321 c16) (fun _ => cutFA (iprop(landed0 X0 X1 qa d L g0 g1 ∗ flying1 X0 X1 qb d L (k1_off34 L k) (k1_off34_inb L k (cond16_all k)) (refillOf a0V (X0 d) (k1_off34 L k) (k1_off34_inb L k (cond16_all k)) (b2V).view g2) (refillOf a1V (X1 d) (k1_off34 L k) (k1_off34_inb L k (cond16_all k)) (b3V).view g3))) d L O (insert (SemLoc.dma (⟨4, by decide⟩ : DmaSem sig), (default : HIx 1)) (insert (SemLoc.dma (⟨3, by decide⟩ : DmaSem sig), (default : HIx 1)) Wx)) (f93_7 d L g0 g1 w5 w6 v87 v90 v93 v96 v99 v102 v105)) := by
    intro g0 g1 g2 g3 c5 c6 w5 w6 v87 v90 v93 v96 v99 v102 v105 Wx e5 e6 v3 arg18 v321 c16
    have hpre : iprop(Transfers.MayWaits (V d (cV L) (jV L)) (none : HIx 1) O ∗ ((b5V).view.loc (V d (cV L) (jV L)) ↦{fullShare} c5) ∗ ((b6V).view.loc (V d (cV L) (jV L)) ↦{fullShare} c6) ∗ flying0 X0 X1 qa d L (k1_off19 L k) (k1_off19_inb L k (cond8_all k)) g0 g1 ∗ landed1 X0 X1 qb d L g2 g3 ∗ owes (V d (cV L) (jV L)) O Wx)
        ⊢ cutFA (iprop(flying0 X0 X1 qa d L (k1_off19 L k) (k1_off19_inb L k (cond8_all k)) g0 g1 ∗ landed1 X0 X1 qb d L g2 g3)) d L O Wx (w5, w6) := by
      unfold cutFA
      unfold accHeld
      iintro ⟨Hmw, H5, H6, Hs0, Hs1, HO⟩
      isplitl [Hmw]; · iexact Hmw
      isplitl [H5 H6]
      · iexists c5, c6
        isplitl [H5]; · iexact H5
        isplitl [H6]; · iexact H6
        isplitr <;> (ipureintro; assumption)
      isplitl [Hs0 Hs1]
      · isplitl [Hs0]; · iexact Hs0
        iexact Hs1
      iexact HO
    exact hpre.trans (part93N (F := F) X0 X1 d L qa qb O Wx k g0 g1 g2 g3 w5 w6 v3 arg18 v321 c16 v87 v90 v93 v96 v99 v102 v105)
  have hP94 : ∀ (oB : Fin 4 → ℕ) (hB : (∀ a, oB a + S1x48x1x224.size a ≤ S8x192x224x224.size a)) (g0 : Buf (Elt F) ((V d (cV L) (jV L)).loc cc1_scratch0)) (g1 : Buf (Elt F) ((V d (cV L) (jV L)).loc cc1_scratch1)) (g2 : Buf (Elt F) ((V d (cV L) (jV L)).loc cc1_scratch2)) (g3 : Buf (Elt F) ((V d (cV L) (jV L)).loc cc1_scratch3))
      (c5 : Buf (Elt F) ((V d (cV L) (jV L)).loc cc1_scratch5)) (c6 : Buf (Elt F) ((V d (cV L) (jV L)).loc cc1_scratch6)) (w5 w6 : Fin 7 → Fin 2 → Vec F S1x1x16 .f32) (v87 v90 v93 v96 v99 v102 v105 : BitVec 1) (Wx : Waits sig (HIx 1))
      (e5 : (b5V).view.read (Elt F) c5 = cells w5) (e6 : (b6V).view.read (Elt F) c6 = cells w6) (v3 arg18 v347 v349 : BitVec 32),
      iprop(Transfers.MayWaits (V d (cV L) (jV L)) (none : HIx 1) O ∗ ((b5V).view.loc (V d (cV L) (jV L)) ↦{fullShare} c5) ∗ ((b6V).view.loc (V d (cV L) (jV L)) ↦{fullShare} c6) ∗ landed0 X0 X1 qa d L g0 g1 ∗ flying1 X0 X1 qb d L oB hB g2 g3 ∗ owes (V d (cV L) (jV L)) O Wx)
        ⊢ wp frame (wpE (defs₀ (F := F)) Sc.𝒱₀ (V d (cV L) (jV L)) none) Set.univ (k1_part94 L a0V (Memref.isWhole_whole _) a1V (Memref.isWhole_whole _) mkV (Memref.isWhole_whole _) ptV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) cc1_scratch8 cc1_scratch9 cc1_scratch10 cc1_scratch11 cc1_scoped0 cc1_scoped1 v3 k arg18 v87 v90 v93 v96 v99 v102 v105 v347 v349) (fun _ => st94L X0 X1 qa qb d L O (insert (SemLoc.dma (⟨6, by decide⟩ : DmaSem sig), (default : HIx 1)) (insert (SemLoc.dma (⟨5, by decide⟩ : DmaSem sig), (default : HIx 1)) Wx)) g0 g1 g2 g3 (files94 d L g2 g3 v87 v90 v93 v96 v99 v102 v105 w5 w6).1 (files94 d L g2 g3 v87 v90 v93 v96 v99 v102 v105 w5 w6).2) := by
    intro oB hB g0 g1 g2 g3 c5 c6 w5 w6 v87 v90 v93 v96 v99 v102 v105 Wx e5 e6 v3 arg18 v347 v349
    have hpre : iprop(Transfers.MayWaits (V d (cV L) (jV L)) (none : HIx 1) O ∗ ((b5V).view.loc (V d (cV L) (jV L)) ↦{fullShare} c5) ∗ ((b6V).view.loc (V d (cV L) (jV L)) ↦{fullShare} c6) ∗ landed0 X0 X1 qa d L g0 g1 ∗ flying1 X0 X1 qb d L oB hB g2 g3 ∗ owes (V d (cV L) (jV L)) O Wx)
        ⊢ iprop(Transfers.MayWaits (V d (cV L) (jV L)) (none : HIx 1) O ∗ accHeld d L w5 w6 ∗ landed0 X0 X1 qa d L g0 g1 ∗ flying1 X0 X1 qb d L oB hB g2 g3 ∗ owes (V d (cV L) (jV L)) O Wx) := by
      unfold accHeld
      iintro ⟨Hmw, H5, H6, Hs0, Hs1, HO⟩
      isplitl [Hmw]; · iexact Hmw
      isplitl [H5 H6]
      · iexists c5, c6
        isplitl [H5]; · iexact H5
        isplitl [H6]; · iexact H6
        isplitr <;> (ipureintro; assumption)
      isplitl [Hs0]; · iexact Hs0
      isplitl [Hs1]; · iexact Hs1
      iexact HO
    exact hpre.trans (part94LN (F := F) X0 X1 d L qa qb O Wx oB hB g0 g1 g2 g3 w5 w6 v3 k hl arg18 v87 v90 v93 v96 v99 v102 v105 v347 v349)
  have hn32 : ¬ k1_cond32 k = 1#1 := fun h => hl ((cond32_iff k).1 h)
  sl_exec
  have hz6 : upd (cellsOfC ((b6V).view.read (Elt F) c6)) 6 1 (toCellF (k1_pay828 (F := F))) = fun _ _ => toCellF (k1_pay828 (F := F)) := by
    rw [hc6]; exact file_after_last_zero (b6V).view g6 (toCellF (k1_pay828 (F := F)))
  have hG0 : G0k1_part92_2 = payA0 X0 d (k1_off19 L k) (k1_off19_inb L k (cond8_all k)) := hk1_part92_9.trans (refillOf_B0 X0 d L _ _ _)
  have hG1 : G1k1_part92_3 = payA1 X1 d (k1_off19 L k) (k1_off19_inb L k (cond8_all k)) := hk1_part92_10.trans (refillOf_B1 X1 d L _ _ _)
  subst hG0 hG1
  rw [refillOf_B2 X0 d L, refillOf_B3 X1 d L] at hk1_part94_3 hk1_part94_4
  have e5 : (b5V).view.read (Elt F) c5k1_part94_0 = cells (filesRow X0 X1 d L k g4 hA hB (cellsOfC ((b6V).view.read (Elt F) c6))).1 := hk1_part94_3
  have e6 : (b6V).view.read (Elt F) c6k1_part94_1 = cells (filesRow X0 X1 d L k g4 hA hB (cellsOfC ((b6V).view.read (Elt F) c6))).2 := hk1_part94_4
  have hWx : ∀ p ∈ (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨4, by decide⟩ : DmaSem sig), (default : HIx 1)) (insert (SemLoc.dma (⟨3, by decide⟩ : DmaSem sig), (default : HIx 1)) W')))))))), p ∈ W ∨ p.2 = none := by
    intro p hp
    simp only [Finset.mem_insert] at hp
    rcases hp with rfl | rfl | rfl | rfl | rfl | rfl | rfl | rfl | h
    all_goals first | exact Or.inr rfl | exact hW' p h
  sl_step
  isplitr
  · ipureintro
    have hs := hsums hA hB _ hz6
    rw [← hacc] at hs
    refine Eq.trans ?_ hs
    sl_unfold_run_names
    simp (disch := decide) only [readAt_cells (b5V).view c5k1_part94_0 _ e5, readAt_cells (b6V).view c6k1_part94_1 _ e6]
    rfl
  (try unfold rowIdle)
  sl_close

end Tile

end Cert.KernelIdeal.ScTileV

end
-- ==== Proof.AlgebraicFilesI.lean ====
/-
  The algebraic claim from what the rows' two register files hold: the task's running sums are carried by the row trip
  (both of its forms) and end at the specification's lane sums.
-/
import proofs.«210586_g14980845929080_cont_week2b_1062_66_alg».proof.Proof.AlgebraicRowsI
import proofs.«210586_g14980845929080_cont_week2b_1062_66_alg».proof.Proof.ScTileVSumsI
import proofs.«210586_g14980845929080_cont_week2b_1062_66_alg».proof.Proof.ScTileVBridgeI
import proofs.«210586_g14980845929080_cont_week2b_1062_66_alg».proof.Proof.ScTileVTrip4I
import proofs.«210586_g14980845929080_cont_week2b_1062_66_alg».proof.Proof.ScTileRowPayI

noncomputable section

open scoped BigOperators

namespace Cert.KernelIdeal.KernelValue

open Cert.KernelIdeal Cert.KernelIdeal.Gen Cert.KernelIdeal.Sc Cert.KernelIdeal.Launch Cert.KernelIdeal.LaunchV
open Cert.KernelIdeal.TailValue Cert.KernelIdeal.ScTile
open Idealize.ShloMosaic Idealize.ShloMosaic.TcCoe Idealize.ShloMosaic.ValueIdx Idealize.SL.Sem
open Idealize.ShloMosaic.SparseCore (S V T)
open Idealize.ShloMosaic.SparseCore.Cfg (HIx Pay)
open Idealize.SL Idealize.SL.RA Idealize.SL.BI
open scoped Idealize.SL.BI
open Idealize.SL.BI.BIBase
open Idealize.ShloMosaic.Rounds
open Cert.LossSpec

open Cert.ScTileVal

/-- The row trip carries the task's running sums. -/
theorem hrow_sumsOf (m : (ℓ : Loc nD τ sig) → Buf (Elt Ideal) ℓ)
    (sumsOf : Dev nD → grid1.Coords → ℕ → FVec Ideal S16 .f32 × FVec Ideal S16 .f32)
    (hdef : ∀ d L, sumsOf d L = ScTileV.sumsOf (X0 m) (X1 m) d L (ScTileV.payM (Mk m) d L)) :
    ∀ (d : Dev nD) (L : grid1.Coords) (O : CellTallies nD τ sig (HIx 1)) (W : Waits sig (HIx 1)) (hO : ∀ g, O g none = 0)
      (qa qb : PosShare TreeShare) (v3 v23 : BitVec 32)
      (k : Fin k1_t1_loop.trips) (acc : FVec Ideal S16 .f32 × FVec Ideal S16 .f32),
      rowInvN (X0 m) (X1 m) (sumsOf d L) qa qb d L O W (payM (Mk m) d L) k.val acc
        ⊢ wp frame (wpE (defs₀ (F := Ideal)) Sc.𝒱₀ (V d (cV L) (jV L)) none) Set.univ
            (k1_t1_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) cc1_scratch8 cc1_scratch9 cc1_scratch10 cc1_scratch11 cc1_scoped0 cc1_scoped1 v3 v23 (k1_pay828 (F := Ideal)) (k1_pay829 (F := Ideal)) k acc)
            (rowInvN (X0 m) (X1 m) (sumsOf d L) qa qb d L O W (payM (Mk m) d L) (k.val + 1)) := by
  intro d L O W hO qa qb v3 v23 k acc
  rw [hdef d L, ← ScTileBridge.payM_eq, ← ScTileBridge.rowInvN_eq]
  rw [show rowInvN (X0 m) (X1 m) (ScTileV.sumsOf (X0 m) (X1 m) d L (ScTileV.payM (Mk m) d L)) qa qb d L O W (ScTileV.payM (Mk m) d L) (k.val + 1)
      = ScTileV.rowInvN (X0 m) (X1 m) (ScTileV.sumsOf (X0 m) (X1 m) d L (ScTileV.payM (Mk m) d L)) qa qb d L O W (ScTileV.payM (Mk m) d L) (k.val + 1)
    from funext fun a => (ScTileBridge.rowInvN_eq _ _ _ _ _ _ _ _ _ _ _ a).symm]
  by_cases hl : k.val + 1 < 16
  · exact ScTileV.row_tripN (X0 m) (X1 m) d L _ qa qb O W _ v3 v23 k hl acc
      (fun hA hB w6 hw => ScTileV.hsums_sumsOf (X0 m) (X1 m) d L _ k hA hB w6 hw)
  · exact ScTileV.row_tripLN (X0 m) (X1 m) d L _ qa qb O W _ v3 v23 k hl acc
      (fun hA hB w6 hw => ScTileV.hsums_sumsOf (X0 m) (X1 m) d L _ k hA hB w6 hw)

/-- The task's running sums end, lane by lane, at the specification's lane sums — given what the row's two files hold. -/
theorem lanes_sumsOf (m : (ℓ : Loc nD τ sig) → Buf (Elt Ideal) ℓ) (d : Dev nD) (L : grid1.Coords)
    (hfiles : ∀ (r : Fin 16) (kk : Fin 7) (hf : Fin 2) (l : Fin 16),
      laneOf ((ScTileV.filesRow (X0 m) (X1 m) d L ⟨r.val, by rw [ScTileV.trips16]; exact r.isLt⟩ (ScTileV.payM (Mk m) d L)
          (ScTileV.oAt_inb L r 0) (ScTileV.oAt_inb L r 1) ScTileV.zerosF).1 kk hf) l
        = accAt (X0 m d) (X1 m d) (Mk m d) (tOf r) (hOf (widL L) r) kk (colOf kk hf l)
      ∧ laneOf ((ScTileV.filesRow (X0 m) (X1 m) d L ⟨r.val, by rw [ScTileV.trips16]; exact r.isLt⟩ (ScTileV.payM (Mk m) d L)
          (ScTileV.oAt_inb L r 0) (ScTileV.oAt_inb L r 1) ScTileV.zerosF).2 kk hf) l
        = anyAt (X1 m d) (Mk m d) (tOf r) (hOf (widL L) r) kk (colOf kk hf l))
    (l : Fin 16) :
    (ScTileV.sumsOf (X0 m) (X1 m) d L (ScTileV.payM (Mk m) d L) 16).1 (ix1 l) = sLane (X0 m d) (X1 m d) (Mk m d) (wid (L 0).val (L 1).val) l
    ∧ (ScTileV.sumsOf (X0 m) (X1 m) d L (ScTileV.payM (Mk m) d L) 16).2 (ix1 l) = nLane (X1 m d) (Mk m d) (wid (L 0).val (L 1).val) l := by
  refine lanes_of_rows (x0 := X0 m d) (x1 := X1 m d) (mk := Mk m d) (w := widL L)
    (sums := ScTileV.sumsOf (X0 m) (X1 m) d L (ScTileV.payM (Mk m) d L))
    (slab := fun r => ScTileV.slabOf d L ⟨r.val, by rw [ScTileV.trips16]; exact r.isLt⟩ (ScTileV.payM (Mk m) d L))
    (any := fun r => (ScTileV.filesRow (X0 m) (X1 m) d L ⟨r.val, by rw [ScTileV.trips16]; exact r.isLt⟩ (ScTileV.payM (Mk m) d L)
      (ScTileV.oAt_inb L r 0) (ScTileV.oAt_inb L r 1) ScTileV.zerosF).2)
    (acc := fun r => (ScTileV.filesRow (X0 m) (X1 m) d L ⟨r.val, by rw [ScTileV.trips16]; exact r.isLt⟩ (ScTileV.payM (Mk m) d L)
      (ScTileV.oAt_inb L r 0) (ScTileV.oAt_inb L r 1) ScTileV.zerosF).1)
    ?h0 ?hstep ?hslab ?hany ?hacc l
  case h0 => rw [ScTileV.sumsOf_zero, pay828_eq]
  case hstep =>
    intro r
    rw [ScTileV.sumsOf_succ, pay829_eq, pay828_eq]
  case hslab =>
    intro r kk hf l'
    have hk := ScTileV.slabOf_lane (Mk m) d L ⟨r.val, by rw [ScTileV.trips16]; exact r.isLt⟩ kk hf l'
    refine hk.trans (congrArg (Mk m d : S8x224x256.Idx → EReal) (funext fun a => Fin.ext ?_))
    match a with
    | ⟨0, _⟩ => rfl
    | ⟨1, _⟩ => show 4 * (L 1).val + 2 * (L 0).val + 160 + r.val % 2 = 160 + 2 * (widL L).val + r.val % 2; rw [widL_val]; omega
    | ⟨2, _⟩ => rfl
  case hany => intro r kk hf l'; exact (hfiles r kk hf l').2
  case hacc => intro r kk hf l'; exact (hfiles r kk hf l').1

/-- THE ALGEBRAIC CLAIM from what the rows' two files hold: the squared-distance file and the largest-absolute-value file
    the row's four channel groups leave from zeroed files hold, lane by lane, the specification's per-column terms. -/
theorem algebraic_of_files
    (Hf : ∀ (m : (ℓ : Loc nD τ sig) → Buf (Elt Ideal) ℓ) (d : Dev nD) (L : grid1.Coords),
      ∀ (r : Fin 16) (kk : Fin 7) (hf : Fin 2) (l : Fin 16),
      laneOf ((ScTileV.filesRow (X0 m) (X1 m) d L ⟨r.val, by rw [ScTileV.trips16]; exact r.isLt⟩ (ScTileV.payM (Mk m) d L)
          (ScTileV.oAt_inb L r 0) (ScTileV.oAt_inb L r 1) ScTileV.zerosF).1 kk hf) l
        = accAt (X0 m d) (X1 m d) (Mk m d) (tOf r) (hOf (widL L) r) kk (colOf kk hf l)
      ∧ laneOf ((ScTileV.filesRow (X0 m) (X1 m) d L ⟨r.val, by rw [ScTileV.trips16]; exact r.isLt⟩ (ScTileV.payM (Mk m) d L)
          (ScTileV.oAt_inb L r 0) (ScTileV.oAt_inb L r 1) ScTileV.zerosF).2 kk hf) l
        = anyAt (X1 m d) (Mk m d) (tOf r) (hOf (widL L) r) kk (colOf kk hf l)) :
    Cert.algebraic_KernelIdeal_ReferenceIdeal (hKernelIdeal := Cert.KernelIdeal.Gen.facts)
      (hReferenceIdeal := Cert.ReferenceIdeal.Gen.facts) (hPre_input_domain := Cert.Pre_input_domain.Gen.facts) :=
  algebraic_of_rows fun m ρ hpre =>
    ⟨fun d L => ScTileV.sumsOf (X0 m) (X1 m) d L (ScTileV.payM (Mk m) d L), fun d L => rfl,
      hrow_sumsOf m _ (fun _ _ => rfl), fun d L l => lanes_sumsOf m d L (Hf m d L) l⟩

end Cert.KernelIdeal.KernelValue

end
-- ==== Proof.ScTileCellsMathI.lean ====
/-
  A lane group's two accumulator cells through a row: zeroed at the row's start, then for each of the four channel
  groups, when the group's flag is set, taken as the accumulation loop's initial sums and replaced by its result, and left
  alone otherwise. After the four, the cells hold, lane by lane, the specification-side terms: the squared distance and
  the largest absolute value over all the channels where the lane group is active, zero where it is not.
-/
import proofs.«210586_g14980845929080_cont_week2b_1062_66_alg».proof.Proof.ScTileChanI
import proofs.«210586_g14980845929080_cont_week2b_1062_66_alg».proof.Proof.ScTileRowI

noncomputable section

open scoped BigOperators

namespace Cert.KernelIdeal.ScTile

open Cert.KernelIdeal Cert.KernelIdeal.Gen Cert.LossSpec Cert.ScTileVal
open Idealize.ShloMosaic Idealize.ShloMosaic.ValueIdx

/-- A cell read as sixteen lanes, and sixteen lanes stored as a cell: the program's two shape casts. -/
def toLanes (v : Vec Ideal S1x1x16 .f32) : FVec Ideal S16 .f32 := shapeCast S16 v shapeCasts_S1x1x16_S16
def toCell (v : FVec Ideal S16 .f32) : Vec Ideal S1x1x16 .f32 := shapeCast S1x1x16 v shapeCasts_S16_S1x1x16

theorem toLanes_apply (v : Vec Ideal S1x1x16 .f32) (l : Fin 16) : toLanes v (ix1 l) = laneOf v l := shapeCast_cell v l

theorem laneOf_toCell (v : FVec Ideal S16 .f32) (l : Fin 16) : laneOf (toCell v) l = v (ix1 l) :=
  shapeCast_apply _ _ _ _ (by
    rw [Shape.rowMajor_val_three, Shape.rowMajor_val_one]
    show l.val = (0 * 1 + 0) * 16 + l.val
    omega)

theorem toLanes_toCell (v : FVec Ideal S16 .f32) : toLanes (toCell v) = v := by
  funext i
  obtain ⟨l, rfl⟩ : ∃ l : Fin 16, i = ix1 l := ⟨i 0, eq_ix1 i⟩
  rw [toLanes_apply, laneOf_toCell]

/-- The four cells of a lane group: the two halves' squared-distance cells and their largest-absolute-value cells. -/
abbrev Cells4 : Type := Vec Ideal S1x1x16 .f32 × Vec Ideal S1x1x16 .f32 × Vec Ideal S1x1x16 .f32 × Vec Ideal S1x1x16 .f32

/-- The cells as a loop's initial sums, and a loop's sums as cells. -/
def lanes4 (c : Cells4) : σ4 := (toLanes c.1, toLanes c.2.1, toLanes c.2.2.1, toLanes c.2.2.2)
def cells4 (s : σ4) : Cells4 := (toCell s.1, toCell s.2.1, toCell s.2.2.1, toCell s.2.2.2)

theorem lanes4_cells4 (s : σ4) : lanes4 (cells4 s) = s := by
  obtain ⟨a, b, c, d⟩ := s
  simp only [lanes4, cells4, toLanes_toCell]

/-- The zeroed cells. -/
def zeroCells : Cells4 := (toCell fun _ => 0, toCell fun _ => 0, toCell fun _ => 0, toCell fun _ => 0)

theorem lanes4_zeroCells : lanes4 zeroCells = (fun _ => 0, fun _ => 0, fun _ => 0, fun _ => 0) :=
  lanes4_cells4 (fun _ => 0, fun _ => 0, fun _ => 0, fun _ => 0)

section Group
variable {x0 x1 : FVec Ideal SImg .f32} {mk : FVec Ideal SMask .f32} {t : Fin 8} {h : Fin 224} (kk : Fin 7)
variable {R0i R0t R1i R1t R2i R2t R3i R3t : S48x224.Idx → EReal}

/-- One channel group's region of a lane group: under the flag the cells go through the loop, else they stay. -/
def regionStep (flag : Prop) [Decidable flag] (Ri Rt : S48x224.Idx → EReal) (xa xb : ℕ) (c : Cells4) : Cells4 :=
  if flag then cells4 (closed4 Ri Rt xa xb (lanes4 c) 48) else c

/-- A LANE GROUP'S CELLS AFTER THE ROW'S FOUR CHANNEL GROUPS: from the zeroed cells, through the four regions under the
    group's flag — set exactly when the group is active —, over slots holding the four channel groups: the cells hold
    `accAt` and `anyAt` at the group's columns. -/
theorem cells_after_row (flag : Prop) [Decidable flag] (hflag : flag ↔ active mk t h kk)
    (h0i : SlotHolds x0 t h 0 R0i) (h0t : SlotHolds x1 t h 0 R0t) (h1i : SlotHolds x0 t h 1 R1i) (h1t : SlotHolds x1 t h 1 R1t)
    (h2i : SlotHolds x0 t h 2 R2i) (h2t : SlotHolds x1 t h 2 R2t) (h3i : SlotHolds x0 t h 3 R3i) (h3t : SlotHolds x1 t h 3 R3t) (l : Fin 16) :
    let c := regionStep flag R3i R3t (32 * kk.val) (32 * kk.val + 16) (regionStep flag R2i R2t (32 * kk.val) (32 * kk.val + 16)
      (regionStep flag R1i R1t (32 * kk.val) (32 * kk.val + 16) (regionStep flag R0i R0t (32 * kk.val) (32 * kk.val + 16) zeroCells)))
    laneOf c.1 l = accAt x0 x1 mk t h kk (colOf kk 0 l) ∧ laneOf c.2.1 l = accAt x0 x1 mk t h kk (colOf kk 1 l)
      ∧ laneOf c.2.2.1 l = anyAt x1 mk t h kk (colOf kk 0 l) ∧ laneOf c.2.2.2 l = anyAt x1 mk t h kk (colOf kk 1 l) := by
  intro c
  have hk := kk.isLt
  by_cases hf : flag
  · have ha : active mk t h kk := hflag.1 hf
    have hc : c = cells4 (closed4 R3i R3t (32 * kk.val) (32 * kk.val + 16) (closed4 R2i R2t (32 * kk.val) (32 * kk.val + 16)
        (closed4 R1i R1t (32 * kk.val) (32 * kk.val + 16) (closed4 R0i R0t (32 * kk.val) (32 * kk.val + 16)
          (fun _ => 0, fun _ => 0, fun _ => 0, fun _ => 0) 48) 48) 48) 48) := by
      show regionStep flag _ _ _ _ _ = _
      unfold regionStep
      simp only [if_pos hf, lanes4_cells4, lanes4_zeroCells]
    rw [hc, closed4_four_groups h0i h0t h1i h1t h2i h2t h3i h3t (32 * kk.val) (32 * kk.val + 16) (by omega) (by omega)]
    unfold accAt anyAt
    simp only [if_pos ha, cells4, laneOf_toCell]
    have e0 : (⟨32 * kk.val + (ix1 l (0 : Fin 1)).val, by show 32 * kk.val + l.val < 224; have := l.isLt; omega⟩ : Fin 224) = colOf kk 0 l :=
      Fin.ext (by show 32 * kk.val + l.val = 32 * kk.val + 16 * 0 + l.val; omega)
    have e1 : (⟨32 * kk.val + 16 + (ix1 l (0 : Fin 1)).val, by show 32 * kk.val + 16 + l.val < 224; have := l.isLt; omega⟩ : Fin 224) = colOf kk 1 l :=
      Fin.ext (by show 32 * kk.val + 16 + l.val = 32 * kk.val + 16 * 1 + l.val; omega)
    exact ⟨congrArg _ e0, congrArg _ e1, congrArg _ e0, congrArg _ e1⟩
  · have ha : ¬ active mk t h kk := fun a => hf (hflag.2 a)
    have hc : c = zeroCells := by
      show regionStep flag _ _ _ _ _ = _
      unfold regionStep
      simp only [if_neg hf]
    rw [hc]
    unfold accAt anyAt zeroCells
    simp only [if_neg ha, laneOf_toCell, and_self]

end Group

end Cert.KernelIdeal.ScTile

end
-- ==== Proof.ScTileCellsGlueI.lean ====
/-
  The two accumulators as register files and a lane group's four cells: a channel group's region of a lane group, as it
  acts on the register files, is the region step on the lane group's four cells and leaves the other lane groups alone.
-/
import proofs.«210586_g14980845929080_cont_week2b_1062_66_alg».proof.Proof.ScTileCellsMathI
import proofs.«210586_g14980845929080_cont_week2b_1062_66_alg».proof.Proof.ScTileVCells2I

noncomputable section

namespace Cert.KernelIdeal.ScTile

open Cert.KernelIdeal Cert.KernelIdeal.Gen
open Idealize.ShloMosaic Idealize.ShloMosaic.ValueIdx

/-- Lane group `kk`'s four cells of the two register files (the squared-distance file `w5`, the largest-absolute-value
    file `w6`). -/
def cellsOf (w5 w6 : Fin 7 → Fin 2 → Vec Ideal S1x1x16 .f32) (kk : Fin 7) : Cells4 := (w5 kk 0, w5 kk 1, w6 kk 0, w6 kk 1)

/-- The region of lane group `kk`, with the loop's result `S`, on its own four cells; -/
theorem cellsOf_regionUpd (flag : Prop) [Decidable flag] (w5 w6 : Fin 7 → Fin 2 → Vec Ideal S1x1x16 .f32) (kk : Fin 7) (S : σ4) :
    cellsOf (regionUpd flag w5 kk (toCell S.1) (toCell S.2.1)) (regionUpd flag w6 kk (toCell S.2.2.1) (toCell S.2.2.2)) kk
      = if flag then cells4 S else cellsOf w5 w6 kk := by
  unfold cellsOf
  rw [regionUpd_lo, regionUpd_hi, regionUpd_lo, regionUpd_hi]
  by_cases hf : flag
  · simp only [if_pos hf]; rfl
  · simp only [if_neg hf]

/-- on another lane group's. -/
theorem cellsOf_regionUpd_other (flag : Prop) [Decidable flag] (w5 w6 : Fin 7 → Fin 2 → Vec Ideal S1x1x16 .f32) (kk kk' : Fin 7)
    (hne : kk' ≠ kk) (p0 p1 q0 q1 : Vec Ideal S1x1x16 .f32) :
    cellsOf (regionUpd flag w5 kk p0 p1) (regionUpd flag w6 kk q0 q1) kk' = cellsOf w5 w6 kk' := by
  unfold cellsOf
  rw [regionUpd_other _ _ _ _ _ _ _ hne, regionUpd_other _ _ _ _ _ _ _ hne, regionUpd_other _ _ _ _ _ _ _ hne,
    regionUpd_other _ _ _ _ _ _ _ hne]

/-- The region with the loop's result in closed form is the region step. -/
theorem cellsOf_region_closed (flag : Prop) [Decidable flag] (w5 w6 : Fin 7 → Fin 2 → Vec Ideal S1x1x16 .f32) (kk : Fin 7)
    (Ri Rt : S48x224.Idx → EReal) (xa xb : ℕ) (S : σ4) (hS : cells4 S = cells4 (closed4 Ri Rt xa xb (lanes4 (cellsOf w5 w6 kk)) 48)) :
    cellsOf (regionUpd flag w5 kk (toCell S.1) (toCell S.2.1)) (regionUpd flag w6 kk (toCell S.2.2.1) (toCell S.2.2.2)) kk
      = regionStep flag Ri Rt xa xb (cellsOf w5 w6 kk) := by
  rw [cellsOf_regionUpd]
  unfold regionStep
  by_cases hf : flag
  · rw [if_pos hf, if_pos hf, hS]
  · rw [if_neg hf, if_neg hf]

/-- The zeroed register files' cells. -/
theorem cellsOf_zero (kk : Fin 7) : cellsOf (fun _ _ => toCell fun _ => 0) (fun _ _ => toCell fun _ => 0) kk = zeroCells := rfl

/-! ## A row's twenty-eight regions -/

section Row
variable (flag : Fin 7 → Prop) [∀ kk, Decidable (flag kk)]
variable (Fs : Fin 4 → Fin 7 → σ4 → σ4) (Ri Rt : Fin 4 → S48x224.Idx → EReal)

/-- The two register files. -/
abbrev Files : Type := (Fin 7 → Fin 2 → Vec Ideal S1x1x16 .f32) × (Fin 7 → Fin 2 → Vec Ideal S1x1x16 .f32)

/-- One region (channel group `cg`, lane group `kk`) on the files: the loop `Fs cg kk` run from the lane group's cells,
    its result stored back under the lane group's flag. -/
def regOn (st : Files) (p : Fin 4 × Fin 7) : Files :=
  (regionUpd (flag p.2) st.1 p.2 (toCell (Fs p.1 p.2 (lanes4 (cellsOf st.1 st.2 p.2))).1) (toCell (Fs p.1 p.2 (lanes4 (cellsOf st.1 st.2 p.2))).2.1),
   regionUpd (flag p.2) st.2 p.2 (toCell (Fs p.1 p.2 (lanes4 (cellsOf st.1 st.2 p.2))).2.2.1) (toCell (Fs p.1 p.2 (lanes4 (cellsOf st.1 st.2 p.2))).2.2.2))

/-- The same on one lane group's four cells. -/
def stepOn (kk : Fin 7) (c : Cells4) (p : Fin 4 × Fin 7) : Cells4 :=
  if p.2 = kk then regionStep (flag kk) (Ri p.1) (Rt p.1) (32 * kk.val) (32 * kk.val + 16) c else c

variable (hF : ∀ cg kk init, cells4 (Fs cg kk init) = cells4 (closed4 (Ri cg) (Rt cg) (32 * kk.val) (32 * kk.val + 16) init 48))
include hF

/-- A list of regions on the files acts, on each lane group's four cells, as the list of region steps. -/
theorem cellsOf_regions (kk : Fin 7) (l : List (Fin 4 × Fin 7)) (st : Files) :
    cellsOf (l.foldl (regOn flag Fs) st).1 (l.foldl (regOn flag Fs) st).2 kk = l.foldl (stepOn flag Ri Rt kk) (cellsOf st.1 st.2 kk) := by
  induction l generalizing st with
  | nil => rfl
  | cons p l ih =>
    rw [List.foldl_cons, List.foldl_cons, ih]
    congr 1
    unfold regOn stepOn
    by_cases hk : p.2 = kk
    · rw [if_pos hk]
      subst hk
      exact cellsOf_region_closed (flag p.2) st.1 st.2 p.2 (Ri p.1) (Rt p.1) _ _ _ (hF p.1 p.2 _)
    · rw [if_neg hk]
      exact cellsOf_regionUpd_other (flag p.2) st.1 st.2 p.2 kk (fun e => hk e.symm) _ _ _ _

/-- The row's regions in the program's order: channel groups 0 to 3, within each the lane groups 0 to 6. -/
def rowRegions : List (Fin 4 × Fin 7) :=
  [(0,0),(0,1),(0,2),(0,3),(0,4),(0,5),(0,6), (1,0),(1,1),(1,2),(1,3),(1,4),(1,5),(1,6),
   (2,0),(2,1),(2,2),(2,3),(2,4),(2,5),(2,6), (3,0),(3,1),(3,2),(3,3),(3,4),(3,5),(3,6)]

omit hF in
/-- On one lane group the row's regions are its four region steps, channel groups 0 to 3. -/
theorem steps_rowRegions (kk : Fin 7) (c : Cells4) :
    rowRegions.foldl (stepOn flag Ri Rt kk) c
      = regionStep (flag kk) (Ri 3) (Rt 3) (32 * kk.val) (32 * kk.val + 16) (regionStep (flag kk) (Ri 2) (Rt 2) (32 * kk.val) (32 * kk.val + 16)
          (regionStep (flag kk) (Ri 1) (Rt 1) (32 * kk.val) (32 * kk.val + 16) (regionStep (flag kk) (Ri 0) (Rt 0) (32 * kk.val) (32 * kk.val + 16) c))) := by
  unfold rowRegions
  fin_cases kk <;> simp [List.foldl, stepOn]

/-- THE ROW: from the zeroed files, after the twenty-eight regions, lane group `kk`'s cells are the four region steps
    of the zeroed cells. -/
theorem cellsOf_row (kk : Fin 7) :
    cellsOf (rowRegions.foldl (regOn flag Fs) (fun _ _ => toCell fun _ => 0, fun _ _ => toCell fun _ => 0)).1
        (rowRegions.foldl (regOn flag Fs) (fun _ _ => toCell fun _ => 0, fun _ _ => toCell fun _ => 0)).2 kk
      = regionStep (flag kk) (Ri 3) (Rt 3) (32 * kk.val) (32 * kk.val + 16) (regionStep (flag kk) (Ri 2) (Rt 2) (32 * kk.val) (32 * kk.val + 16)
          (regionStep (flag kk) (Ri 1) (Rt 1) (32 * kk.val) (32 * kk.val + 16) (regionStep (flag kk) (Ri 0) (Rt 0) (32 * kk.val) (32 * kk.val + 16) zeroCells))) := by
  rw [cellsOf_regions flag Fs Ri Rt hF kk rowRegions, steps_rowRegions]
  rfl

end Row

end Cert.KernelIdeal.ScTile

end
-- ==== Proof.ScTileCellsRun0I.lean ====
/-
  The accumulation loops' results as cells: each loop, run its twelve trips from a lane group's cells, leaves the cells
  the closed form names (channel group 0: loops t2 … t8).
-/
import proofs.«210586_g14980845929080_cont_week2b_1062_66_alg».proof.Proof.ScTileVMathI
import proofs.«210586_g14980845929080_cont_week2b_1062_66_alg».proof.Proof.ScTileCellsMathI

noncomputable section

namespace Cert.KernelIdeal.ScTile

open Cert.KernelIdeal Cert.KernelIdeal.Gen Cert.KernelIdeal.ScTileV
open Idealize.ShloMosaic Idealize.ShloMosaic.ValueIdx
open Idealize.ShloMosaic.SparseCore (S V T)

variable (d : Dev nD) (L : grid1.Coords)

/-- Loop t2 from the cells `c`: all twelve trips. -/
theorem region_t2 (gi : Buf (Elt Ideal) ((V d (cV L) (jV L)).loc cc1_scratch0)) (gt : Buf (Elt Ideal) ((V d (cV L) (jV L)).loc cc1_scratch1)) (c : Cells4) :
    cells4 (sumsV_t2 (F := Ideal) d L gi gt (lanes4 c) k1_t2_loop.trips)
      = cells4 (closed4 ((Memref.whole cc1_scratch0 : Memref sig .scVector .vmem S48x224 .f32).view.read (Elt Ideal) gi) ((Memref.whole cc1_scratch1 : Memref sig .scVector .vmem S48x224 .f32).view.read (Elt Ideal) gt) 0 16 (lanes4 c) 48) := by
  rw [sumsV_t2_closed d L gi gt (lanes4 c) k1_t2_loop.trips le_rfl]
  rfl

/-- Loop t3 from the cells `c`: all twelve trips. -/
theorem region_t3 (gi : Buf (Elt Ideal) ((V d (cV L) (jV L)).loc cc1_scratch0)) (gt : Buf (Elt Ideal) ((V d (cV L) (jV L)).loc cc1_scratch1)) (c : Cells4) :
    cells4 (sumsV_t3 (F := Ideal) d L gi gt (lanes4 c) k1_t3_loop.trips)
      = cells4 (closed4 ((Memref.whole cc1_scratch0 : Memref sig .scVector .vmem S48x224 .f32).view.read (Elt Ideal) gi) ((Memref.whole cc1_scratch1 : Memref sig .scVector .vmem S48x224 .f32).view.read (Elt Ideal) gt) 32 48 (lanes4 c) 48) := by
  rw [sumsV_t3_closed d L gi gt (lanes4 c) k1_t3_loop.trips le_rfl]
  rfl

/-- Loop t4 from the cells `c`: all twelve trips. -/
theorem region_t4 (gi : Buf (Elt Ideal) ((V d (cV L) (jV L)).loc cc1_scratch0)) (gt : Buf (Elt Ideal) ((V d (cV L) (jV L)).loc cc1_scratch1)) (c : Cells4) :
    cells4 (sumsV_t4 (F := Ideal) d L gi gt (lanes4 c) k1_t4_loop.trips)
      = cells4 (closed4 ((Memref.whole cc1_scratch0 : Memref sig .scVector .vmem S48x224 .f32).view.read (Elt Ideal) gi) ((Memref.whole cc1_scratch1 : Memref sig .scVector .vmem S48x224 .f32).view.read (Elt Ideal) gt) 64 80 (lanes4 c) 48) := by
  rw [sumsV_t4_closed d L gi gt (lanes4 c) k1_t4_loop.trips le_rfl]
  rfl

/-- Loop t5 from the cells `c`: all twelve trips. -/
theorem region_t5 (gi : Buf (Elt Ideal) ((V d (cV L) (jV L)).loc cc1_scratch0)) (gt : Buf (Elt Ideal) ((V d (cV L) (jV L)).loc cc1_scratch1)) (c : Cells4) :
    cells4 (sumsV_t5 (F := Ideal) d L gi gt (lanes4 c) k1_t5_loop.trips)
      = cells4 (closed4 ((Memref.whole cc1_scratch0 : Memref sig .scVector .vmem S48x224 .f32).view.read (Elt Ideal) gi) ((Memref.whole cc1_scratch1 : Memref sig .scVector .vmem S48x224 .f32).view.read (Elt Ideal) gt) 96 112 (lanes4 c) 48) := by
  rw [sumsV_t5_closed d L gi gt (lanes4 c) k1_t5_loop.trips le_rfl]
  rfl

/-- Loop t6 from the cells `c`: all twelve trips. -/
theorem region_t6 (gi : Buf (Elt Ideal) ((V d (cV L) (jV L)).loc cc1_scratch0)) (gt : Buf (Elt Ideal) ((V d (cV L) (jV L)).loc cc1_scratch1)) (c : Cells4) :
    cells4 (sumsV_t6 (F := Ideal) d L gi gt (lanes4 c) k1_t6_loop.trips)
      = cells4 (closed4 ((Memref.whole cc1_scratch0 : Memref sig .scVector .vmem S48x224 .f32).view.read (Elt Ideal) gi) ((Memref.whole cc1_scratch1 : Memref sig .scVector .vmem S48x224 .f32).view.read (Elt Ideal) gt) 128 144 (lanes4 c) 48) := by
  rw [sumsV_t6_closed d L gi gt (lanes4 c) k1_t6_loop.trips le_rfl]
  rfl

/-- Loop t7 from the cells `c`: all twelve trips. -/
theorem region_t7 (gi : Buf (Elt Ideal) ((V d (cV L) (jV L)).loc cc1_scratch0)) (gt : Buf (Elt Ideal) ((V d (cV L) (jV L)).loc cc1_scratch1)) (c : Cells4) :
    cells4 (sumsV_t7 (F := Ideal) d L gi gt (lanes4 c) k1_t7_loop.trips)
      = cells4 (closed4 ((Memref.whole cc1_scratch0 : Memref sig .scVector .vmem S48x224 .f32).view.read (Elt Ideal) gi) ((Memref.whole cc1_scratch1 : Memref sig .scVector .vmem S48x224 .f32).view.read (Elt Ideal) gt) 160 176 (lanes4 c) 48) := by
  rw [sumsV_t7_closed d L gi gt (lanes4 c) k1_t7_loop.trips le_rfl]
  rfl

/-- Loop t8 from the cells `c`: all twelve trips. -/
theorem region_t8 (gi : Buf (Elt Ideal) ((V d (cV L) (jV L)).loc cc1_scratch0)) (gt : Buf (Elt Ideal) ((V d (cV L) (jV L)).loc cc1_scratch1)) (c : Cells4) :
    cells4 (sumsV_t8 (F := Ideal) d L gi gt (lanes4 c) k1_t8_loop.trips)
      = cells4 (closed4 ((Memref.whole cc1_scratch0 : Memref sig .scVector .vmem S48x224 .f32).view.read (Elt Ideal) gi) ((Memref.whole cc1_scratch1 : Memref sig .scVector .vmem S48x224 .f32).view.read (Elt Ideal) gt) 192 208 (lanes4 c) 48) := by
  rw [sumsV_t8_closed d L gi gt (lanes4 c) k1_t8_loop.trips le_rfl]
  rfl

end Cert.KernelIdeal.ScTile

end
-- ==== Proof.ScTileVMath1I.lean ====
import proofs.«210586_g14980845929080_cont_week2b_1062_66_alg».proof.Proof.ScTileVMathI
import proofs.«210586_g14980845929080_cont_week2b_1062_66_alg».proof.Proof.ScTileValI
import Idealize.ShloMosaic.Lib.WholeRead
import Idealize.ShloMosaic.Lib.ValueIdx
import Idealize.ShloMosaic.Lib.ValueLayout
import Idealize.ShloMosaic.PureOps.Ideal.Laws

noncomputable section

open scoped BigOperators

namespace Cert.KernelIdeal.ScTile

open Cert.KernelIdeal Cert.KernelIdeal.Gen Cert.KernelIdeal.ScTileV
open Idealize.ShloMosaic Idealize.ShloMosaic.ValueIdx
open Idealize.ShloMosaic.SparseCore (S V T)
open Idealize.ShloMosaic.Tactic

variable (d : Dev nD) (L : grid1.Coords)

/-! # The accumulation loops' sums in closed form: channel group 1 (loops t9 … t15) -/

section Loop9
variable (gi : Buf (Elt Ideal) ((V d (cV L) (jV L)).loc cc1_scratch2)) (gt : Buf (Elt Ideal) ((V d (cV L) (jV L)).loc cc1_scratch3))

/-- One trip of accumulation loop t9 adds rows `4 k … 4 k + 3` at columns `0 + lane` and `16 + lane`. -/
theorem stepV_t9_closed (k : Fin k1_t9_loop.trips) (init : σ4) :
    stepV_t9 (F := Ideal) d L gi gt k (closed4 ((Memref.whole cc1_scratch2 : Memref sig .scVector .vmem S48x224 .f32).view.read (Elt Ideal) gi) ((Memref.whole cc1_scratch3 : Memref sig .scVector .vmem S48x224 .f32).view.read (Elt Ideal) gt) 0 16 init (4 * k.val))
      = closed4 ((Memref.whole cc1_scratch2 : Memref sig .scVector .vmem S48x224 .f32).view.read (Elt Ideal) gi) ((Memref.whole cc1_scratch3 : Memref sig .scVector .vmem S48x224 .f32).view.read (Elt Ideal) gt) 0 16 init (4 * (k.val + 1)) := by
  refine Prod.ext ?_ (Prod.ext ?_ (Prod.ext ?_ ?_))
  all_goals funext i
  · refine Eq.trans (b := sqSum (fun c => rdN ((Memref.whole cc1_scratch2 : Memref sig .scVector .vmem S48x224 .f32).view.read (Elt Ideal) gi) c (0 + (i 0).val)) (fun c => rdN ((Memref.whole cc1_scratch3 : Memref sig .scVector .vmem S48x224 .f32).view.read (Elt Ideal) gt) c (0 + (i 0).val)) (init.1 i) (4 * k.val)
          + ((shapeCast S16 (View.readAt (Elt Ideal) (Memref.whole cc1_scratch2 : Memref sig .scVector .vmem S48x224 .f32).view (Rect.unit (s := S48x224) (k1_off20 k 0#32) S1x16.size (k1_off20_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off20 k 0#32) S1x16.size (k1_off20_inb k 0)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off20 k 0#32) S1x16.size (k1_off20_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off20 k 0#32) S1x16.size (k1_off20_inb k 0)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off20 k 1#32) S1x16.size (k1_off20_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off20 k 1#32) S1x16.size (k1_off20_inb k 1)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off20 k 1#32) S1x16.size (k1_off20_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off20 k 1#32) S1x16.size (k1_off20_inb k 1)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off20 k 2#32) S1x16.size (k1_off20_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off20 k 2#32) S1x16.size (k1_off20_inb k 2)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off20 k 2#32) S1x16.size (k1_off20_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off20 k 2#32) S1x16.size (k1_off20_inb k 2)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off20 k 3#32) S1x16.size (k1_off20_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off20 k 3#32) S1x16.size (k1_off20_inb k 3)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off20 k 3#32) S1x16.size (k1_off20_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off20 k 3#32) S1x16.size (k1_off20_inb k 3)).toLoadRect gt : Vec Ideal S1x16 .f32) shapeCasts_S1x16_S16 i : EReal))) rfl ?_
    rw [load_apply' (Memref.whole cc1_scratch2 : Memref sig .scVector .vmem S48x224 .f32) gi (k1_off20 k 0#32) (k1_off20_inb k 0) (4 * k.val + 0) 0 (k1_off20_eq k 0) i, load_apply' (Memref.whole cc1_scratch3 : Memref sig .scVector .vmem S48x224 .f32) gt (k1_off20 k 0#32) (k1_off20_inb k 0) (4 * k.val + 0) 0 (k1_off20_eq k 0) i,
      load_apply' (Memref.whole cc1_scratch2 : Memref sig .scVector .vmem S48x224 .f32) gi (k1_off20 k 1#32) (k1_off20_inb k 1) (4 * k.val + 1) 0 (k1_off20_eq k 1) i, load_apply' (Memref.whole cc1_scratch3 : Memref sig .scVector .vmem S48x224 .f32) gt (k1_off20 k 1#32) (k1_off20_inb k 1) (4 * k.val + 1) 0 (k1_off20_eq k 1) i,
      load_apply' (Memref.whole cc1_scratch2 : Memref sig .scVector .vmem S48x224 .f32) gi (k1_off20 k 2#32) (k1_off20_inb k 2) (4 * k.val + 2) 0 (k1_off20_eq k 2) i, load_apply' (Memref.whole cc1_scratch3 : Memref sig .scVector .vmem S48x224 .f32) gt (k1_off20 k 2#32) (k1_off20_inb k 2) (4 * k.val + 2) 0 (k1_off20_eq k 2) i,
      load_apply' (Memref.whole cc1_scratch2 : Memref sig .scVector .vmem S48x224 .f32) gi (k1_off20 k 3#32) (k1_off20_inb k 3) (4 * k.val + 3) 0 (k1_off20_eq k 3) i, load_apply' (Memref.whole cc1_scratch3 : Memref sig .scVector .vmem S48x224 .f32) gt (k1_off20 k 3#32) (k1_off20_inb k 3) (4 * k.val + 3) 0 (k1_off20_eq k 3) i]
    exact (sqSum_four _ _ _ k.val).symm
  · refine Eq.trans (b := sqSum (fun c => rdN ((Memref.whole cc1_scratch2 : Memref sig .scVector .vmem S48x224 .f32).view.read (Elt Ideal) gi) c (16 + (i 0).val)) (fun c => rdN ((Memref.whole cc1_scratch3 : Memref sig .scVector .vmem S48x224 .f32).view.read (Elt Ideal) gt) c (16 + (i 0).val)) (init.2.1 i) (4 * k.val)
          + ((shapeCast S16 (View.readAt (Elt Ideal) (Memref.whole cc1_scratch2 : Memref sig .scVector .vmem S48x224 .f32).view (Rect.unit (s := S48x224) (k1_off21 k 0#32) S1x16.size (k1_off21_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off21 k 0#32) S1x16.size (k1_off21_inb k 0)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off21 k 0#32) S1x16.size (k1_off21_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off21 k 0#32) S1x16.size (k1_off21_inb k 0)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off21 k 1#32) S1x16.size (k1_off21_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off21 k 1#32) S1x16.size (k1_off21_inb k 1)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off21 k 1#32) S1x16.size (k1_off21_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off21 k 1#32) S1x16.size (k1_off21_inb k 1)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off21 k 2#32) S1x16.size (k1_off21_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off21 k 2#32) S1x16.size (k1_off21_inb k 2)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off21 k 2#32) S1x16.size (k1_off21_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off21 k 2#32) S1x16.size (k1_off21_inb k 2)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off21 k 3#32) S1x16.size (k1_off21_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off21 k 3#32) S1x16.size (k1_off21_inb k 3)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off21 k 3#32) S1x16.size (k1_off21_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off21 k 3#32) S1x16.size (k1_off21_inb k 3)).toLoadRect gt : Vec Ideal S1x16 .f32) shapeCasts_S1x16_S16 i : EReal))) rfl ?_
    rw [load_apply' (Memref.whole cc1_scratch2 : Memref sig .scVector .vmem S48x224 .f32) gi (k1_off21 k 0#32) (k1_off21_inb k 0) (4 * k.val + 0) 16 (k1_off21_eq k 0) i, load_apply' (Memref.whole cc1_scratch3 : Memref sig .scVector .vmem S48x224 .f32) gt (k1_off21 k 0#32) (k1_off21_inb k 0) (4 * k.val + 0) 16 (k1_off21_eq k 0) i,
      load_apply' (Memref.whole cc1_scratch2 : Memref sig .scVector .vmem S48x224 .f32) gi (k1_off21 k 1#32) (k1_off21_inb k 1) (4 * k.val + 1) 16 (k1_off21_eq k 1) i, load_apply' (Memref.whole cc1_scratch3 : Memref sig .scVector .vmem S48x224 .f32) gt (k1_off21 k 1#32) (k1_off21_inb k 1) (4 * k.val + 1) 16 (k1_off21_eq k 1) i,
      load_apply' (Memref.whole cc1_scratch2 : Memref sig .scVector .vmem S48x224 .f32) gi (k1_off21 k 2#32) (k1_off21_inb k 2) (4 * k.val + 2) 16 (k1_off21_eq k 2) i, load_apply' (Memref.whole cc1_scratch3 : Memref sig .scVector .vmem S48x224 .f32) gt (k1_off21 k 2#32) (k1_off21_inb k 2) (4 * k.val + 2) 16 (k1_off21_eq k 2) i,
      load_apply' (Memref.whole cc1_scratch2 : Memref sig .scVector .vmem S48x224 .f32) gi (k1_off21 k 3#32) (k1_off21_inb k 3) (4 * k.val + 3) 16 (k1_off21_eq k 3) i, load_apply' (Memref.whole cc1_scratch3 : Memref sig .scVector .vmem S48x224 .f32) gt (k1_off21 k 3#32) (k1_off21_inb k 3) (4 * k.val + 3) 16 (k1_off21_eq k 3) i]
    exact (sqSum_four _ _ _ k.val).symm
  · refine Eq.trans (b := max (max (max (max (mxAbs (fun c => rdN ((Memref.whole cc1_scratch3 : Memref sig .scVector .vmem S48x224 .f32).view.read (Elt Ideal) gt) c (0 + (i 0).val)) (init.2.2.1 i) (4 * k.val))
          (max (shapeCast S16 (View.readAt (Elt Ideal) (Memref.whole cc1_scratch3 : Memref sig .scVector .vmem S48x224 .f32).view (Rect.unit (s := S48x224) (k1_off20 k 0#32) S1x16.size (k1_off20_inb k 0)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off20 k 0#32) S1x16.size (k1_off20_inb k 0)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off20 k 1#32) S1x16.size (k1_off20_inb k 1)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off20 k 1#32) S1x16.size (k1_off20_inb k 1)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off20 k 2#32) S1x16.size (k1_off20_inb k 2)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off20 k 2#32) S1x16.size (k1_off20_inb k 2)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off20 k 3#32) S1x16.size (k1_off20_inb k 3)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off20 k 3#32) S1x16.size (k1_off20_inb k 3)).toLoadRect gt : Vec Ideal S1x16 .f32) shapeCasts_S1x16_S16 i : EReal)))) rfl ?_
    rw [load_apply' (Memref.whole cc1_scratch3 : Memref sig .scVector .vmem S48x224 .f32) gt (k1_off20 k 0#32) (k1_off20_inb k 0) (4 * k.val + 0) 0 (k1_off20_eq k 0) i,
      load_apply' (Memref.whole cc1_scratch3 : Memref sig .scVector .vmem S48x224 .f32) gt (k1_off20 k 1#32) (k1_off20_inb k 1) (4 * k.val + 1) 0 (k1_off20_eq k 1) i,
      load_apply' (Memref.whole cc1_scratch3 : Memref sig .scVector .vmem S48x224 .f32) gt (k1_off20 k 2#32) (k1_off20_inb k 2) (4 * k.val + 2) 0 (k1_off20_eq k 2) i,
      load_apply' (Memref.whole cc1_scratch3 : Memref sig .scVector .vmem S48x224 .f32) gt (k1_off20 k 3#32) (k1_off20_inb k 3) (4 * k.val + 3) 0 (k1_off20_eq k 3) i]
    exact (mxAbs_four _ _ k.val).symm
  · refine Eq.trans (b := max (max (max (max (mxAbs (fun c => rdN ((Memref.whole cc1_scratch3 : Memref sig .scVector .vmem S48x224 .f32).view.read (Elt Ideal) gt) c (16 + (i 0).val)) (init.2.2.2 i) (4 * k.val))
          (max (shapeCast S16 (View.readAt (Elt Ideal) (Memref.whole cc1_scratch3 : Memref sig .scVector .vmem S48x224 .f32).view (Rect.unit (s := S48x224) (k1_off21 k 0#32) S1x16.size (k1_off21_inb k 0)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off21 k 0#32) S1x16.size (k1_off21_inb k 0)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off21 k 1#32) S1x16.size (k1_off21_inb k 1)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off21 k 1#32) S1x16.size (k1_off21_inb k 1)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off21 k 2#32) S1x16.size (k1_off21_inb k 2)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off21 k 2#32) S1x16.size (k1_off21_inb k 2)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off21 k 3#32) S1x16.size (k1_off21_inb k 3)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off21 k 3#32) S1x16.size (k1_off21_inb k 3)).toLoadRect gt : Vec Ideal S1x16 .f32) shapeCasts_S1x16_S16 i : EReal)))) rfl ?_
    rw [load_apply' (Memref.whole cc1_scratch3 : Memref sig .scVector .vmem S48x224 .f32) gt (k1_off21 k 0#32) (k1_off21_inb k 0) (4 * k.val + 0) 16 (k1_off21_eq k 0) i,
      load_apply' (Memref.whole cc1_scratch3 : Memref sig .scVector .vmem S48x224 .f32) gt (k1_off21 k 1#32) (k1_off21_inb k 1) (4 * k.val + 1) 16 (k1_off21_eq k 1) i,
      load_apply' (Memref.whole cc1_scratch3 : Memref sig .scVector .vmem S48x224 .f32) gt (k1_off21 k 2#32) (k1_off21_inb k 2) (4 * k.val + 2) 16 (k1_off21_eq k 2) i,
      load_apply' (Memref.whole cc1_scratch3 : Memref sig .scVector .vmem S48x224 .f32) gt (k1_off21 k 3#32) (k1_off21_inb k 3) (4 * k.val + 3) 16 (k1_off21_eq k 3) i]
    exact (mxAbs_four _ _ k.val).symm

/-- THE CLOSED FORM of loop t9: after `n` trips the sums are the initial ones with rows `0 … 4 n − 1` added. -/
theorem sumsV_t9_closed (init : σ4) (n : ℕ) (hn : n ≤ k1_t9_loop.trips) :
    sumsV_t9 (F := Ideal) d L gi gt init n = closed4 ((Memref.whole cc1_scratch2 : Memref sig .scVector .vmem S48x224 .f32).view.read (Elt Ideal) gi) ((Memref.whole cc1_scratch3 : Memref sig .scVector .vmem S48x224 .f32).view.read (Elt Ideal) gt) 0 16 init (4 * n) := by
  induction n with
  | zero => rw [Nat.mul_zero, closed4_zero]; rfl
  | succ n ih =>
    have hlt : n < k1_t9_loop.trips := hn
    rw [sumsV_t9, dif_pos hlt, ih (Nat.le_of_lt hlt)]
    exact stepV_t9_closed d L gi gt ⟨n, hlt⟩ init

end Loop9

section Loop10
variable (gi : Buf (Elt Ideal) ((V d (cV L) (jV L)).loc cc1_scratch2)) (gt : Buf (Elt Ideal) ((V d (cV L) (jV L)).loc cc1_scratch3))

/-- One trip of accumulation loop t10 adds rows `4 k … 4 k + 3` at columns `32 + lane` and `48 + lane`. -/
theorem stepV_t10_closed (k : Fin k1_t10_loop.trips) (init : σ4) :
    stepV_t10 (F := Ideal) d L gi gt k (closed4 ((Memref.whole cc1_scratch2 : Memref sig .scVector .vmem S48x224 .f32).view.read (Elt Ideal) gi) ((Memref.whole cc1_scratch3 : Memref sig .scVector .vmem S48x224 .f32).view.read (Elt Ideal) gt) 32 48 init (4 * k.val))
      = closed4 ((Memref.whole cc1_scratch2 : Memref sig .scVector .vmem S48x224 .f32).view.read (Elt Ideal) gi) ((Memref.whole cc1_scratch3 : Memref sig .scVector .vmem S48x224 .f32).view.read (Elt Ideal) gt) 32 48 init (4 * (k.val + 1)) := by
  refine Prod.ext ?_ (Prod.ext ?_ (Prod.ext ?_ ?_))
  all_goals funext i
  · refine Eq.trans (b := sqSum (fun c => rdN ((Memref.whole cc1_scratch2 : Memref sig .scVector .vmem S48x224 .f32).view.read (Elt Ideal) gi) c (32 + (i 0).val)) (fun c => rdN ((Memref.whole cc1_scratch3 : Memref sig .scVector .vmem S48x224 .f32).view.read (Elt Ideal) gt) c (32 + (i 0).val)) (init.1 i) (4 * k.val)
          + ((shapeCast S16 (View.readAt (Elt Ideal) (Memref.whole cc1_scratch2 : Memref sig .scVector .vmem S48x224 .f32).view (Rect.unit (s := S48x224) (k1_off22 k 0#32) S1x16.size (k1_off22_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off22 k 0#32) S1x16.size (k1_off22_inb k 0)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off22 k 0#32) S1x16.size (k1_off22_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off22 k 0#32) S1x16.size (k1_off22_inb k 0)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off22 k 1#32) S1x16.size (k1_off22_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off22 k 1#32) S1x16.size (k1_off22_inb k 1)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off22 k 1#32) S1x16.size (k1_off22_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off22 k 1#32) S1x16.size (k1_off22_inb k 1)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off22 k 2#32) S1x16.size (k1_off22_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off22 k 2#32) S1x16.size (k1_off22_inb k 2)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off22 k 2#32) S1x16.size (k1_off22_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off22 k 2#32) S1x16.size (k1_off22_inb k 2)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off22 k 3#32) S1x16.size (k1_off22_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off22 k 3#32) S1x16.size (k1_off22_inb k 3)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off22 k 3#32) S1x16.size (k1_off22_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off22 k 3#32) S1x16.size (k1_off22_inb k 3)).toLoadRect gt : Vec Ideal S1x16 .f32) shapeCasts_S1x16_S16 i : EReal))) rfl ?_
    rw [load_apply' (Memref.whole cc1_scratch2 : Memref sig .scVector .vmem S48x224 .f32) gi (k1_off22 k 0#32) (k1_off22_inb k 0) (4 * k.val + 0) 32 (k1_off22_eq k 0) i, load_apply' (Memref.whole cc1_scratch3 : Memref sig .scVector .vmem S48x224 .f32) gt (k1_off22 k 0#32) (k1_off22_inb k 0) (4 * k.val + 0) 32 (k1_off22_eq k 0) i,
      load_apply' (Memref.whole cc1_scratch2 : Memref sig .scVector .vmem S48x224 .f32) gi (k1_off22 k 1#32) (k1_off22_inb k 1) (4 * k.val + 1) 32 (k1_off22_eq k 1) i, load_apply' (Memref.whole cc1_scratch3 : Memref sig .scVector .vmem S48x224 .f32) gt (k1_off22 k 1#32) (k1_off22_inb k 1) (4 * k.val + 1) 32 (k1_off22_eq k 1) i,
      load_apply' (Memref.whole cc1_scratch2 : Memref sig .scVector .vmem S48x224 .f32) gi (k1_off22 k 2#32) (k1_off22_inb k 2) (4 * k.val + 2) 32 (k1_off22_eq k 2) i, load_apply' (Memref.whole cc1_scratch3 : Memref sig .scVector .vmem S48x224 .f32) gt (k1_off22 k 2#32) (k1_off22_inb k 2) (4 * k.val + 2) 32 (k1_off22_eq k 2) i,
      load_apply' (Memref.whole cc1_scratch2 : Memref sig .scVector .vmem S48x224 .f32) gi (k1_off22 k 3#32) (k1_off22_inb k 3) (4 * k.val + 3) 32 (k1_off22_eq k 3) i, load_apply' (Memref.whole cc1_scratch3 : Memref sig .scVector .vmem S48x224 .f32) gt (k1_off22 k 3#32) (k1_off22_inb k 3) (4 * k.val + 3) 32 (k1_off22_eq k 3) i]
    exact (sqSum_four _ _ _ k.val).symm
  · refine Eq.trans (b := sqSum (fun c => rdN ((Memref.whole cc1_scratch2 : Memref sig .scVector .vmem S48x224 .f32).view.read (Elt Ideal) gi) c (48 + (i 0).val)) (fun c => rdN ((Memref.whole cc1_scratch3 : Memref sig .scVector .vmem S48x224 .f32).view.read (Elt Ideal) gt) c (48 + (i 0).val)) (init.2.1 i) (4 * k.val)
          + ((shapeCast S16 (View.readAt (Elt Ideal) (Memref.whole cc1_scratch2 : Memref sig .scVector .vmem S48x224 .f32).view (Rect.unit (s := S48x224) (k1_off23 k 0#32) S1x16.size (k1_off23_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off23 k 0#32) S1x16.size (k1_off23_inb k 0)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off23 k 0#32) S1x16.size (k1_off23_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off23 k 0#32) S1x16.size (k1_off23_inb k 0)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off23 k 1#32) S1x16.size (k1_off23_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off23 k 1#32) S1x16.size (k1_off23_inb k 1)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off23 k 1#32) S1x16.size (k1_off23_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off23 k 1#32) S1x16.size (k1_off23_inb k 1)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off23 k 2#32) S1x16.size (k1_off23_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off23 k 2#32) S1x16.size (k1_off23_inb k 2)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off23 k 2#32) S1x16.size (k1_off23_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off23 k 2#32) S1x16.size (k1_off23_inb k 2)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off23 k 3#32) S1x16.size (k1_off23_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off23 k 3#32) S1x16.size (k1_off23_inb k 3)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off23 k 3#32) S1x16.size (k1_off23_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off23 k 3#32) S1x16.size (k1_off23_inb k 3)).toLoadRect gt : Vec Ideal S1x16 .f32) shapeCasts_S1x16_S16 i : EReal))) rfl ?_
    rw [load_apply' (Memref.whole cc1_scratch2 : Memref sig .scVector .vmem S48x224 .f32) gi (k1_off23 k 0#32) (k1_off23_inb k 0) (4 * k.val + 0) 48 (k1_off23_eq k 0) i, load_apply' (Memref.whole cc1_scratch3 : Memref sig .scVector .vmem S48x224 .f32) gt (k1_off23 k 0#32) (k1_off23_inb k 0) (4 * k.val + 0) 48 (k1_off23_eq k 0) i,
      load_apply' (Memref.whole cc1_scratch2 : Memref sig .scVector .vmem S48x224 .f32) gi (k1_off23 k 1#32) (k1_off23_inb k 1) (4 * k.val + 1) 48 (k1_off23_eq k 1) i, load_apply' (Memref.whole cc1_scratch3 : Memref sig .scVector .vmem S48x224 .f32) gt (k1_off23 k 1#32) (k1_off23_inb k 1) (4 * k.val + 1) 48 (k1_off23_eq k 1) i,
      load_apply' (Memref.whole cc1_scratch2 : Memref sig .scVector .vmem S48x224 .f32) gi (k1_off23 k 2#32) (k1_off23_inb k 2) (4 * k.val + 2) 48 (k1_off23_eq k 2) i, load_apply' (Memref.whole cc1_scratch3 : Memref sig .scVector .vmem S48x224 .f32) gt (k1_off23 k 2#32) (k1_off23_inb k 2) (4 * k.val + 2) 48 (k1_off23_eq k 2) i,
      load_apply' (Memref.whole cc1_scratch2 : Memref sig .scVector .vmem S48x224 .f32) gi (k1_off23 k 3#32) (k1_off23_inb k 3) (4 * k.val + 3) 48 (k1_off23_eq k 3) i, load_apply' (Memref.whole cc1_scratch3 : Memref sig .scVector .vmem S48x224 .f32) gt (k1_off23 k 3#32) (k1_off23_inb k 3) (4 * k.val + 3) 48 (k1_off23_eq k 3) i]
    exact (sqSum_four _ _ _ k.val).symm
  · refine Eq.trans (b := max (max (max (max (mxAbs (fun c => rdN ((Memref.whole cc1_scratch3 : Memref sig .scVector .vmem S48x224 .f32).view.read (Elt Ideal) gt) c (32 + (i 0).val)) (init.2.2.1 i) (4 * k.val))
          (max (shapeCast S16 (View.readAt (Elt Ideal) (Memref.whole cc1_scratch3 : Memref sig .scVector .vmem S48x224 .f32).view (Rect.unit (s := S48x224) (k1_off22 k 0#32) S1x16.size (k1_off22_inb k 0)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off22 k 0#32) S1x16.size (k1_off22_inb k 0)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off22 k 1#32) S1x16.size (k1_off22_inb k 1)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off22 k 1#32) S1x16.size (k1_off22_inb k 1)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off22 k 2#32) S1x16.size (k1_off22_inb k 2)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off22 k 2#32) S1x16.size (k1_off22_inb k 2)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off22 k 3#32) S1x16.size (k1_off22_inb k 3)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off22 k 3#32) S1x16.size (k1_off22_inb k 3)).toLoadRect gt : Vec Ideal S1x16 .f32) shapeCasts_S1x16_S16 i : EReal)))) rfl ?_
    rw [load_apply' (Memref.whole cc1_scratch3 : Memref sig .scVector .vmem S48x224 .f32) gt (k1_off22 k 0#32) (k1_off22_inb k 0) (4 * k.val + 0) 32 (k1_off22_eq k 0) i,
      load_apply' (Memref.whole cc1_scratch3 : Memref sig .scVector .vmem S48x224 .f32) gt (k1_off22 k 1#32) (k1_off22_inb k 1) (4 * k.val + 1) 32 (k1_off22_eq k 1) i,
      load_apply' (Memref.whole cc1_scratch3 : Memref sig .scVector .vmem S48x224 .f32) gt (k1_off22 k 2#32) (k1_off22_inb k 2) (4 * k.val + 2) 32 (k1_off22_eq k 2) i,
      load_apply' (Memref.whole cc1_scratch3 : Memref sig .scVector .vmem S48x224 .f32) gt (k1_off22 k 3#32) (k1_off22_inb k 3) (4 * k.val + 3) 32 (k1_off22_eq k 3) i]
    exact (mxAbs_four _ _ k.val).symm
  · refine Eq.trans (b := max (max (max (max (mxAbs (fun c => rdN ((Memref.whole cc1_scratch3 : Memref sig .scVector .vmem S48x224 .f32).view.read (Elt Ideal) gt) c (48 + (i 0).val)) (init.2.2.2 i) (4 * k.val))
          (max (shapeCast S16 (View.readAt (Elt Ideal) (Memref.whole cc1_scratch3 : Memref sig .scVector .vmem S48x224 .f32).view (Rect.unit (s := S48x224) (k1_off23 k 0#32) S1x16.size (k1_off23_inb k 0)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off23 k 0#32) S1x16.size (k1_off23_inb k 0)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off23 k 1#32) S1x16.size (k1_off23_inb k 1)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off23 k 1#32) S1x16.size (k1_off23_inb k 1)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off23 k 2#32) S1x16.size (k1_off23_inb k 2)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off23 k 2#32) S1x16.size (k1_off23_inb k 2)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off23 k 3#32) S1x16.size (k1_off23_inb k 3)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off23 k 3#32) S1x16.size (k1_off23_inb k 3)).toLoadRect gt : Vec Ideal S1x16 .f32) shapeCasts_S1x16_S16 i : EReal)))) rfl ?_
    rw [load_apply' (Memref.whole cc1_scratch3 : Memref sig .scVector .vmem S48x224 .f32) gt (k1_off23 k 0#32) (k1_off23_inb k 0) (4 * k.val + 0) 48 (k1_off23_eq k 0) i,
      load_apply' (Memref.whole cc1_scratch3 : Memref sig .scVector .vmem S48x224 .f32) gt (k1_off23 k 1#32) (k1_off23_inb k 1) (4 * k.val + 1) 48 (k1_off23_eq k 1) i,
      load_apply' (Memref.whole cc1_scratch3 : Memref sig .scVector .vmem S48x224 .f32) gt (k1_off23 k 2#32) (k1_off23_inb k 2) (4 * k.val + 2) 48 (k1_off23_eq k 2) i,
      load_apply' (Memref.whole cc1_scratch3 : Memref sig .scVector .vmem S48x224 .f32) gt (k1_off23 k 3#32) (k1_off23_inb k 3) (4 * k.val + 3) 48 (k1_off23_eq k 3) i]
    exact (mxAbs_four _ _ k.val).symm

/-- THE CLOSED FORM of loop t10: after `n` trips the sums are the initial ones with rows `0 … 4 n − 1` added. -/
theorem sumsV_t10_closed (init : σ4) (n : ℕ) (hn : n ≤ k1_t10_loop.trips) :
    sumsV_t10 (F := Ideal) d L gi gt init n = closed4 ((Memref.whole cc1_scratch2 : Memref sig .scVector .vmem S48x224 .f32).view.read (Elt Ideal) gi) ((Memref.whole cc1_scratch3 : Memref sig .scVector .vmem S48x224 .f32).view.read (Elt Ideal) gt) 32 48 init (4 * n) := by
  induction n with
  | zero => rw [Nat.mul_zero, closed4_zero]; rfl
  | succ n ih =>
    have hlt : n < k1_t10_loop.trips := hn
    rw [sumsV_t10, dif_pos hlt, ih (Nat.le_of_lt hlt)]
    exact stepV_t10_closed d L gi gt ⟨n, hlt⟩ init

end Loop10

section Loop11
variable (gi : Buf (Elt Ideal) ((V d (cV L) (jV L)).loc cc1_scratch2)) (gt : Buf (Elt Ideal) ((V d (cV L) (jV L)).loc cc1_scratch3))

/-- One trip of accumulation loop t11 adds rows `4 k … 4 k + 3` at columns `64 + lane` and `80 + lane`. -/
theorem stepV_t11_closed (k : Fin k1_t11_loop.trips) (init : σ4) :
    stepV_t11 (F := Ideal) d L gi gt k (closed4 ((Memref.whole cc1_scratch2 : Memref sig .scVector .vmem S48x224 .f32).view.read (Elt Ideal) gi) ((Memref.whole cc1_scratch3 : Memref sig .scVector .vmem S48x224 .f32).view.read (Elt Ideal) gt) 64 80 init (4 * k.val))
      = closed4 ((Memref.whole cc1_scratch2 : Memref sig .scVector .vmem S48x224 .f32).view.read (Elt Ideal) gi) ((Memref.whole cc1_scratch3 : Memref sig .scVector .vmem S48x224 .f32).view.read (Elt Ideal) gt) 64 80 init (4 * (k.val + 1)) := by
  refine Prod.ext ?_ (Prod.ext ?_ (Prod.ext ?_ ?_))
  all_goals funext i
  · refine Eq.trans (b := sqSum (fun c => rdN ((Memref.whole cc1_scratch2 : Memref sig .scVector .vmem S48x224 .f32).view.read (Elt Ideal) gi) c (64 + (i 0).val)) (fun c => rdN ((Memref.whole cc1_scratch3 : Memref sig .scVector .vmem S48x224 .f32).view.read (Elt Ideal) gt) c (64 + (i 0).val)) (init.1 i) (4 * k.val)
          + ((shapeCast S16 (View.readAt (Elt Ideal) (Memref.whole cc1_scratch2 : Memref sig .scVector .vmem S48x224 .f32).view (Rect.unit (s := S48x224) (k1_off24 k 0#32) S1x16.size (k1_off24_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off24 k 0#32) S1x16.size (k1_off24_inb k 0)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off24 k 0#32) S1x16.size (k1_off24_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off24 k 0#32) S1x16.size (k1_off24_inb k 0)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off24 k 1#32) S1x16.size (k1_off24_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off24 k 1#32) S1x16.size (k1_off24_inb k 1)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off24 k 1#32) S1x16.size (k1_off24_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off24 k 1#32) S1x16.size (k1_off24_inb k 1)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off24 k 2#32) S1x16.size (k1_off24_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off24 k 2#32) S1x16.size (k1_off24_inb k 2)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off24 k 2#32) S1x16.size (k1_off24_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off24 k 2#32) S1x16.size (k1_off24_inb k 2)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off24 k 3#32) S1x16.size (k1_off24_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off24 k 3#32) S1x16.size (k1_off24_inb k 3)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off24 k 3#32) S1x16.size (k1_off24_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off24 k 3#32) S1x16.size (k1_off24_inb k 3)).toLoadRect gt : Vec Ideal S1x16 .f32) shapeCasts_S1x16_S16 i : EReal))) rfl ?_
    rw [load_apply' (Memref.whole cc1_scratch2 : Memref sig .scVector .vmem S48x224 .f32) gi (k1_off24 k 0#32) (k1_off24_inb k 0) (4 * k.val + 0) 64 (k1_off24_eq k 0) i, load_apply' (Memref.whole cc1_scratch3 : Memref sig .scVector .vmem S48x224 .f32) gt (k1_off24 k 0#32) (k1_off24_inb k 0) (4 * k.val + 0) 64 (k1_off24_eq k 0) i,
      load_apply' (Memref.whole cc1_scratch2 : Memref sig .scVector .vmem S48x224 .f32) gi (k1_off24 k 1#32) (k1_off24_inb k 1) (4 * k.val + 1) 64 (k1_off24_eq k 1) i, load_apply' (Memref.whole cc1_scratch3 : Memref sig .scVector .vmem S48x224 .f32) gt (k1_off24 k 1#32) (k1_off24_inb k 1) (4 * k.val + 1) 64 (k1_off24_eq k 1) i,
      load_apply' (Memref.whole cc1_scratch2 : Memref sig .scVector .vmem S48x224 .f32) gi (k1_off24 k 2#32) (k1_off24_inb k 2) (4 * k.val + 2) 64 (k1_off24_eq k 2) i, load_apply' (Memref.whole cc1_scratch3 : Memref sig .scVector .vmem S48x224 .f32) gt (k1_off24 k 2#32) (k1_off24_inb k 2) (4 * k.val + 2) 64 (k1_off24_eq k 2) i,
      load_apply' (Memref.whole cc1_scratch2 : Memref sig .scVector .vmem S48x224 .f32) gi (k1_off24 k 3#32) (k1_off24_inb k 3) (4 * k.val + 3) 64 (k1_off24_eq k 3) i, load_apply' (Memref.whole cc1_scratch3 : Memref sig .scVector .vmem S48x224 .f32) gt (k1_off24 k 3#32) (k1_off24_inb k 3) (4 * k.val + 3) 64 (k1_off24_eq k 3) i]
    exact (sqSum_four _ _ _ k.val).symm
  · refine Eq.trans (b := sqSum (fun c => rdN ((Memref.whole cc1_scratch2 : Memref sig .scVector .vmem S48x224 .f32).view.read (Elt Ideal) gi) c (80 + (i 0).val)) (fun c => rdN ((Memref.whole cc1_scratch3 : Memref sig .scVector .vmem S48x224 .f32).view.read (Elt Ideal) gt) c (80 + (i 0).val)) (init.2.1 i) (4 * k.val)
          + ((shapeCast S16 (View.readAt (Elt Ideal) (Memref.whole cc1_scratch2 : Memref sig .scVector .vmem S48x224 .f32).view (Rect.unit (s := S48x224) (k1_off25 k 0#32) S1x16.size (k1_off25_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off25 k 0#32) S1x16.size (k1_off25_inb k 0)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off25 k 0#32) S1x16.size (k1_off25_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off25 k 0#32) S1x16.size (k1_off25_inb k 0)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off25 k 1#32) S1x16.size (k1_off25_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off25 k 1#32) S1x16.size (k1_off25_inb k 1)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off25 k 1#32) S1x16.size (k1_off25_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off25 k 1#32) S1x16.size (k1_off25_inb k 1)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off25 k 2#32) S1x16.size (k1_off25_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off25 k 2#32) S1x16.size (k1_off25_inb k 2)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off25 k 2#32) S1x16.size (k1_off25_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off25 k 2#32) S1x16.size (k1_off25_inb k 2)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off25 k 3#32) S1x16.size (k1_off25_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off25 k 3#32) S1x16.size (k1_off25_inb k 3)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off25 k 3#32) S1x16.size (k1_off25_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off25 k 3#32) S1x16.size (k1_off25_inb k 3)).toLoadRect gt : Vec Ideal S1x16 .f32) shapeCasts_S1x16_S16 i : EReal))) rfl ?_
    rw [load_apply' (Memref.whole cc1_scratch2 : Memref sig .scVector .vmem S48x224 .f32) gi (k1_off25 k 0#32) (k1_off25_inb k 0) (4 * k.val + 0) 80 (k1_off25_eq k 0) i, load_apply' (Memref.whole cc1_scratch3 : Memref sig .scVector .vmem S48x224 .f32) gt (k1_off25 k 0#32) (k1_off25_inb k 0) (4 * k.val + 0) 80 (k1_off25_eq k 0) i,
      load_apply' (Memref.whole cc1_scratch2 : Memref sig .scVector .vmem S48x224 .f32) gi (k1_off25 k 1#32) (k1_off25_inb k 1) (4 * k.val + 1) 80 (k1_off25_eq k 1) i, load_apply' (Memref.whole cc1_scratch3 : Memref sig .scVector .vmem S48x224 .f32) gt (k1_off25 k 1#32) (k1_off25_inb k 1) (4 * k.val + 1) 80 (k1_off25_eq k 1) i,
      load_apply' (Memref.whole cc1_scratch2 : Memref sig .scVector .vmem S48x224 .f32) gi (k1_off25 k 2#32) (k1_off25_inb k 2) (4 * k.val + 2) 80 (k1_off25_eq k 2) i, load_apply' (Memref.whole cc1_scratch3 : Memref sig .scVector .vmem S48x224 .f32) gt (k1_off25 k 2#32) (k1_off25_inb k 2) (4 * k.val + 2) 80 (k1_off25_eq k 2) i,
      load_apply' (Memref.whole cc1_scratch2 : Memref sig .scVector .vmem S48x224 .f32) gi (k1_off25 k 3#32) (k1_off25_inb k 3) (4 * k.val + 3) 80 (k1_off25_eq k 3) i, load_apply' (Memref.whole cc1_scratch3 : Memref sig .scVector .vmem S48x224 .f32) gt (k1_off25 k 3#32) (k1_off25_inb k 3) (4 * k.val + 3) 80 (k1_off25_eq k 3) i]
    exact (sqSum_four _ _ _ k.val).symm
  · refine Eq.trans (b := max (max (max (max (mxAbs (fun c => rdN ((Memref.whole cc1_scratch3 : Memref sig .scVector .vmem S48x224 .f32).view.read (Elt Ideal) gt) c (64 + (i 0).val)) (init.2.2.1 i) (4 * k.val))
          (max (shapeCast S16 (View.readAt (Elt Ideal) (Memref.whole cc1_scratch3 : Memref sig .scVector .vmem S48x224 .f32).view (Rect.unit (s := S48x224) (k1_off24 k 0#32) S1x16.size (k1_off24_inb k 0)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off24 k 0#32) S1x16.size (k1_off24_inb k 0)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off24 k 1#32) S1x16.size (k1_off24_inb k 1)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off24 k 1#32) S1x16.size (k1_off24_inb k 1)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off24 k 2#32) S1x16.size (k1_off24_inb k 2)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off24 k 2#32) S1x16.size (k1_off24_inb k 2)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off24 k 3#32) S1x16.size (k1_off24_inb k 3)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off24 k 3#32) S1x16.size (k1_off24_inb k 3)).toLoadRect gt : Vec Ideal S1x16 .f32) shapeCasts_S1x16_S16 i : EReal)))) rfl ?_
    rw [load_apply' (Memref.whole cc1_scratch3 : Memref sig .scVector .vmem S48x224 .f32) gt (k1_off24 k 0#32) (k1_off24_inb k 0) (4 * k.val + 0) 64 (k1_off24_eq k 0) i,
      load_apply' (Memref.whole cc1_scratch3 : Memref sig .scVector .vmem S48x224 .f32) gt (k1_off24 k 1#32) (k1_off24_inb k 1) (4 * k.val + 1) 64 (k1_off24_eq k 1) i,
      load_apply' (Memref.whole cc1_scratch3 : Memref sig .scVector .vmem S48x224 .f32) gt (k1_off24 k 2#32) (k1_off24_inb k 2) (4 * k.val + 2) 64 (k1_off24_eq k 2) i,
      load_apply' (Memref.whole cc1_scratch3 : Memref sig .scVector .vmem S48x224 .f32) gt (k1_off24 k 3#32) (k1_off24_inb k 3) (4 * k.val + 3) 64 (k1_off24_eq k 3) i]
    exact (mxAbs_four _ _ k.val).symm
  · refine Eq.trans (b := max (max (max (max (mxAbs (fun c => rdN ((Memref.whole cc1_scratch3 : Memref sig .scVector .vmem S48x224 .f32).view.read (Elt Ideal) gt) c (80 + (i 0).val)) (init.2.2.2 i) (4 * k.val))
          (max (shapeCast S16 (View.readAt (Elt Ideal) (Memref.whole cc1_scratch3 : Memref sig .scVector .vmem S48x224 .f32).view (Rect.unit (s := S48x224) (k1_off25 k 0#32) S1x16.size (k1_off25_inb k 0)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off25 k 0#32) S1x16.size (k1_off25_inb k 0)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off25 k 1#32) S1x16.size (k1_off25_inb k 1)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off25 k 1#32) S1x16.size (k1_off25_inb k 1)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off25 k 2#32) S1x16.size (k1_off25_inb k 2)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off25 k 2#32) S1x16.size (k1_off25_inb k 2)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off25 k 3#32) S1x16.size (k1_off25_inb k 3)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off25 k 3#32) S1x16.size (k1_off25_inb k 3)).toLoadRect gt : Vec Ideal S1x16 .f32) shapeCasts_S1x16_S16 i : EReal)))) rfl ?_
    rw [load_apply' (Memref.whole cc1_scratch3 : Memref sig .scVector .vmem S48x224 .f32) gt (k1_off25 k 0#32) (k1_off25_inb k 0) (4 * k.val + 0) 80 (k1_off25_eq k 0) i,
      load_apply' (Memref.whole cc1_scratch3 : Memref sig .scVector .vmem S48x224 .f32) gt (k1_off25 k 1#32) (k1_off25_inb k 1) (4 * k.val + 1) 80 (k1_off25_eq k 1) i,
      load_apply' (Memref.whole cc1_scratch3 : Memref sig .scVector .vmem S48x224 .f32) gt (k1_off25 k 2#32) (k1_off25_inb k 2) (4 * k.val + 2) 80 (k1_off25_eq k 2) i,
      load_apply' (Memref.whole cc1_scratch3 : Memref sig .scVector .vmem S48x224 .f32) gt (k1_off25 k 3#32) (k1_off25_inb k 3) (4 * k.val + 3) 80 (k1_off25_eq k 3) i]
    exact (mxAbs_four _ _ k.val).symm

/-- THE CLOSED FORM of loop t11: after `n` trips the sums are the initial ones with rows `0 … 4 n − 1` added. -/
theorem sumsV_t11_closed (init : σ4) (n : ℕ) (hn : n ≤ k1_t11_loop.trips) :
    sumsV_t11 (F := Ideal) d L gi gt init n = closed4 ((Memref.whole cc1_scratch2 : Memref sig .scVector .vmem S48x224 .f32).view.read (Elt Ideal) gi) ((Memref.whole cc1_scratch3 : Memref sig .scVector .vmem S48x224 .f32).view.read (Elt Ideal) gt) 64 80 init (4 * n) := by
  induction n with
  | zero => rw [Nat.mul_zero, closed4_zero]; rfl
  | succ n ih =>
    have hlt : n < k1_t11_loop.trips := hn
    rw [sumsV_t11, dif_pos hlt, ih (Nat.le_of_lt hlt)]
    exact stepV_t11_closed d L gi gt ⟨n, hlt⟩ init

end Loop11

section Loop12
variable (gi : Buf (Elt Ideal) ((V d (cV L) (jV L)).loc cc1_scratch2)) (gt : Buf (Elt Ideal) ((V d (cV L) (jV L)).loc cc1_scratch3))

/-- One trip of accumulation loop t12 adds rows `4 k … 4 k + 3` at columns `96 + lane` and `112 + lane`. -/
theorem stepV_t12_closed (k : Fin k1_t12_loop.trips) (init : σ4) :
    stepV_t12 (F := Ideal) d L gi gt k (closed4 ((Memref.whole cc1_scratch2 : Memref sig .scVector .vmem S48x224 .f32).view.read (Elt Ideal) gi) ((Memref.whole cc1_scratch3 : Memref sig .scVector .vmem S48x224 .f32).view.read (Elt Ideal) gt) 96 112 init (4 * k.val))
      = closed4 ((Memref.whole cc1_scratch2 : Memref sig .scVector .vmem S48x224 .f32).view.read (Elt Ideal) gi) ((Memref.whole cc1_scratch3 : Memref sig .scVector .vmem S48x224 .f32).view.read (Elt Ideal) gt) 96 112 init (4 * (k.val + 1)) := by
  refine Prod.ext ?_ (Prod.ext ?_ (Prod.ext ?_ ?_))
  all_goals funext i
  · refine Eq.trans (b := sqSum (fun c => rdN ((Memref.whole cc1_scratch2 : Memref sig .scVector .vmem S48x224 .f32).view.read (Elt Ideal) gi) c (96 + (i 0).val)) (fun c => rdN ((Memref.whole cc1_scratch3 : Memref sig .scVector .vmem S48x224 .f32).view.read (Elt Ideal) gt) c (96 + (i 0).val)) (init.1 i) (4 * k.val)
          + ((shapeCast S16 (View.readAt (Elt Ideal) (Memref.whole cc1_scratch2 : Memref sig .scVector .vmem S48x224 .f32).view (Rect.unit (s := S48x224) (k1_off26 k 0#32) S1x16.size (k1_off26_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off26 k 0#32) S1x16.size (k1_off26_inb k 0)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off26 k 0#32) S1x16.size (k1_off26_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off26 k 0#32) S1x16.size (k1_off26_inb k 0)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off26 k 1#32) S1x16.size (k1_off26_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off26 k 1#32) S1x16.size (k1_off26_inb k 1)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off26 k 1#32) S1x16.size (k1_off26_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off26 k 1#32) S1x16.size (k1_off26_inb k 1)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off26 k 2#32) S1x16.size (k1_off26_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off26 k 2#32) S1x16.size (k1_off26_inb k 2)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off26 k 2#32) S1x16.size (k1_off26_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off26 k 2#32) S1x16.size (k1_off26_inb k 2)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off26 k 3#32) S1x16.size (k1_off26_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off26 k 3#32) S1x16.size (k1_off26_inb k 3)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off26 k 3#32) S1x16.size (k1_off26_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off26 k 3#32) S1x16.size (k1_off26_inb k 3)).toLoadRect gt : Vec Ideal S1x16 .f32) shapeCasts_S1x16_S16 i : EReal))) rfl ?_
    rw [load_apply' (Memref.whole cc1_scratch2 : Memref sig .scVector .vmem S48x224 .f32) gi (k1_off26 k 0#32) (k1_off26_inb k 0) (4 * k.val + 0) 96 (k1_off26_eq k 0) i, load_apply' (Memref.whole cc1_scratch3 : Memref sig .scVector .vmem S48x224 .f32) gt (k1_off26 k 0#32) (k1_off26_inb k 0) (4 * k.val + 0) 96 (k1_off26_eq k 0) i,
      load_apply' (Memref.whole cc1_scratch2 : Memref sig .scVector .vmem S48x224 .f32) gi (k1_off26 k 1#32) (k1_off26_inb k 1) (4 * k.val + 1) 96 (k1_off26_eq k 1) i, load_apply' (Memref.whole cc1_scratch3 : Memref sig .scVector .vmem S48x224 .f32) gt (k1_off26 k 1#32) (k1_off26_inb k 1) (4 * k.val + 1) 96 (k1_off26_eq k 1) i,
      load_apply' (Memref.whole cc1_scratch2 : Memref sig .scVector .vmem S48x224 .f32) gi (k1_off26 k 2#32) (k1_off26_inb k 2) (4 * k.val + 2) 96 (k1_off26_eq k 2) i, load_apply' (Memref.whole cc1_scratch3 : Memref sig .scVector .vmem S48x224 .f32) gt (k1_off26 k 2#32) (k1_off26_inb k 2) (4 * k.val + 2) 96 (k1_off26_eq k 2) i,
      load_apply' (Memref.whole cc1_scratch2 : Memref sig .scVector .vmem S48x224 .f32) gi (k1_off26 k 3#32) (k1_off26_inb k 3) (4 * k.val + 3) 96 (k1_off26_eq k 3) i, load_apply' (Memref.whole cc1_scratch3 : Memref sig .scVector .vmem S48x224 .f32) gt (k1_off26 k 3#32) (k1_off26_inb k 3) (4 * k.val + 3) 96 (k1_off26_eq k 3) i]
    exact (sqSum_four _ _ _ k.val).symm
  · refine Eq.trans (b := sqSum (fun c => rdN ((Memref.whole cc1_scratch2 : Memref sig .scVector .vmem S48x224 .f32).view.read (Elt Ideal) gi) c (112 + (i 0).val)) (fun c => rdN ((Memref.whole cc1_scratch3 : Memref sig .scVector .vmem S48x224 .f32).view.read (Elt Ideal) gt) c (112 + (i 0).val)) (init.2.1 i) (4 * k.val)
          + ((shapeCast S16 (View.readAt (Elt Ideal) (Memref.whole cc1_scratch2 : Memref sig .scVector .vmem S48x224 .f32).view (Rect.unit (s := S48x224) (k1_off27 k 0#32) S1x16.size (k1_off27_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off27 k 0#32) S1x16.size (k1_off27_inb k 0)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off27 k 0#32) S1x16.size (k1_off27_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off27 k 0#32) S1x16.size (k1_off27_inb k 0)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off27 k 1#32) S1x16.size (k1_off27_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off27 k 1#32) S1x16.size (k1_off27_inb k 1)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off27 k 1#32) S1x16.size (k1_off27_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off27 k 1#32) S1x16.size (k1_off27_inb k 1)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off27 k 2#32) S1x16.size (k1_off27_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off27 k 2#32) S1x16.size (k1_off27_inb k 2)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off27 k 2#32) S1x16.size (k1_off27_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off27 k 2#32) S1x16.size (k1_off27_inb k 2)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off27 k 3#32) S1x16.size (k1_off27_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off27 k 3#32) S1x16.size (k1_off27_inb k 3)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off27 k 3#32) S1x16.size (k1_off27_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off27 k 3#32) S1x16.size (k1_off27_inb k 3)).toLoadRect gt : Vec Ideal S1x16 .f32) shapeCasts_S1x16_S16 i : EReal))) rfl ?_
    rw [load_apply' (Memref.whole cc1_scratch2 : Memref sig .scVector .vmem S48x224 .f32) gi (k1_off27 k 0#32) (k1_off27_inb k 0) (4 * k.val + 0) 112 (k1_off27_eq k 0) i, load_apply' (Memref.whole cc1_scratch3 : Memref sig .scVector .vmem S48x224 .f32) gt (k1_off27 k 0#32) (k1_off27_inb k 0) (4 * k.val + 0) 112 (k1_off27_eq k 0) i,
      load_apply' (Memref.whole cc1_scratch2 : Memref sig .scVector .vmem S48x224 .f32) gi (k1_off27 k 1#32) (k1_off27_inb k 1) (4 * k.val + 1) 112 (k1_off27_eq k 1) i, load_apply' (Memref.whole cc1_scratch3 : Memref sig .scVector .vmem S48x224 .f32) gt (k1_off27 k 1#32) (k1_off27_inb k 1) (4 * k.val + 1) 112 (k1_off27_eq k 1) i,
      load_apply' (Memref.whole cc1_scratch2 : Memref sig .scVector .vmem S48x224 .f32) gi (k1_off27 k 2#32) (k1_off27_inb k 2) (4 * k.val + 2) 112 (k1_off27_eq k 2) i, load_apply' (Memref.whole cc1_scratch3 : Memref sig .scVector .vmem S48x224 .f32) gt (k1_off27 k 2#32) (k1_off27_inb k 2) (4 * k.val + 2) 112 (k1_off27_eq k 2) i,
      load_apply' (Memref.whole cc1_scratch2 : Memref sig .scVector .vmem S48x224 .f32) gi (k1_off27 k 3#32) (k1_off27_inb k 3) (4 * k.val + 3) 112 (k1_off27_eq k 3) i, load_apply' (Memref.whole cc1_scratch3 : Memref sig .scVector .vmem S48x224 .f32) gt (k1_off27 k 3#32) (k1_off27_inb k 3) (4 * k.val + 3) 112 (k1_off27_eq k 3) i]
    exact (sqSum_four _ _ _ k.val).symm
  · refine Eq.trans (b := max (max (max (max (mxAbs (fun c => rdN ((Memref.whole cc1_scratch3 : Memref sig .scVector .vmem S48x224 .f32).view.read (Elt Ideal) gt) c (96 + (i 0).val)) (init.2.2.1 i) (4 * k.val))
          (max (shapeCast S16 (View.readAt (Elt Ideal) (Memref.whole cc1_scratch3 : Memref sig .scVector .vmem S48x224 .f32).view (Rect.unit (s := S48x224) (k1_off26 k 0#32) S1x16.size (k1_off26_inb k 0)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off26 k 0#32) S1x16.size (k1_off26_inb k 0)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off26 k 1#32) S1x16.size (k1_off26_inb k 1)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off26 k 1#32) S1x16.size (k1_off26_inb k 1)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off26 k 2#32) S1x16.size (k1_off26_inb k 2)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off26 k 2#32) S1x16.size (k1_off26_inb k 2)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off26 k 3#32) S1x16.size (k1_off26_inb k 3)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off26 k 3#32) S1x16.size (k1_off26_inb k 3)).toLoadRect gt : Vec Ideal S1x16 .f32) shapeCasts_S1x16_S16 i : EReal)))) rfl ?_
    rw [load_apply' (Memref.whole cc1_scratch3 : Memref sig .scVector .vmem S48x224 .f32) gt (k1_off26 k 0#32) (k1_off26_inb k 0) (4 * k.val + 0) 96 (k1_off26_eq k 0) i,
      load_apply' (Memref.whole cc1_scratch3 : Memref sig .scVector .vmem S48x224 .f32) gt (k1_off26 k 1#32) (k1_off26_inb k 1) (4 * k.val + 1) 96 (k1_off26_eq k 1) i,
      load_apply' (Memref.whole cc1_scratch3 : Memref sig .scVector .vmem S48x224 .f32) gt (k1_off26 k 2#32) (k1_off26_inb k 2) (4 * k.val + 2) 96 (k1_off26_eq k 2) i,
      load_apply' (Memref.whole cc1_scratch3 : Memref sig .scVector .vmem S48x224 .f32) gt (k1_off26 k 3#32) (k1_off26_inb k 3) (4 * k.val + 3) 96 (k1_off26_eq k 3) i]
    exact (mxAbs_four _ _ k.val).symm
  · refine Eq.trans (b := max (max (max (max (mxAbs (fun c => rdN ((Memref.whole cc1_scratch3 : Memref sig .scVector .vmem S48x224 .f32).view.read (Elt Ideal) gt) c (112 + (i 0).val)) (init.2.2.2 i) (4 * k.val))
          (max (shapeCast S16 (View.readAt (Elt Ideal) (Memref.whole cc1_scratch3 : Memref sig .scVector .vmem S48x224 .f32).view (Rect.unit (s := S48x224) (k1_off27 k 0#32) S1x16.size (k1_off27_inb k 0)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off27 k 0#32) S1x16.size (k1_off27_inb k 0)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off27 k 1#32) S1x16.size (k1_off27_inb k 1)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off27 k 1#32) S1x16.size (k1_off27_inb k 1)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off27 k 2#32) S1x16.size (k1_off27_inb k 2)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off27 k 2#32) S1x16.size (k1_off27_inb k 2)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off27 k 3#32) S1x16.size (k1_off27_inb k 3)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off27 k 3#32) S1x16.size (k1_off27_inb k 3)).toLoadRect gt : Vec Ideal S1x16 .f32) shapeCasts_S1x16_S16 i : EReal)))) rfl ?_
    rw [load_apply' (Memref.whole cc1_scratch3 : Memref sig .scVector .vmem S48x224 .f32) gt (k1_off27 k 0#32) (k1_off27_inb k 0) (4 * k.val + 0) 112 (k1_off27_eq k 0) i,
      load_apply' (Memref.whole cc1_scratch3 : Memref sig .scVector .vmem S48x224 .f32) gt (k1_off27 k 1#32) (k1_off27_inb k 1) (4 * k.val + 1) 112 (k1_off27_eq k 1) i,
      load_apply' (Memref.whole cc1_scratch3 : Memref sig .scVector .vmem S48x224 .f32) gt (k1_off27 k 2#32) (k1_off27_inb k 2) (4 * k.val + 2) 112 (k1_off27_eq k 2) i,
      load_apply' (Memref.whole cc1_scratch3 : Memref sig .scVector .vmem S48x224 .f32) gt (k1_off27 k 3#32) (k1_off27_inb k 3) (4 * k.val + 3) 112 (k1_off27_eq k 3) i]
    exact (mxAbs_four _ _ k.val).symm

/-- THE CLOSED FORM of loop t12: after `n` trips the sums are the initial ones with rows `0 … 4 n − 1` added. -/
theorem sumsV_t12_closed (init : σ4) (n : ℕ) (hn : n ≤ k1_t12_loop.trips) :
    sumsV_t12 (F := Ideal) d L gi gt init n = closed4 ((Memref.whole cc1_scratch2 : Memref sig .scVector .vmem S48x224 .f32).view.read (Elt Ideal) gi) ((Memref.whole cc1_scratch3 : Memref sig .scVector .vmem S48x224 .f32).view.read (Elt Ideal) gt) 96 112 init (4 * n) := by
  induction n with
  | zero => rw [Nat.mul_zero, closed4_zero]; rfl
  | succ n ih =>
    have hlt : n < k1_t12_loop.trips := hn
    rw [sumsV_t12, dif_pos hlt, ih (Nat.le_of_lt hlt)]
    exact stepV_t12_closed d L gi gt ⟨n, hlt⟩ init

end Loop12

section Loop13
variable (gi : Buf (Elt Ideal) ((V d (cV L) (jV L)).loc cc1_scratch2)) (gt : Buf (Elt Ideal) ((V d (cV L) (jV L)).loc cc1_scratch3))

/-- One trip of accumulation loop t13 adds rows `4 k … 4 k + 3` at columns `128 + lane` and `144 + lane`. -/
theorem stepV_t13_closed (k : Fin k1_t13_loop.trips) (init : σ4) :
    stepV_t13 (F := Ideal) d L gi gt k (closed4 ((Memref.whole cc1_scratch2 : Memref sig .scVector .vmem S48x224 .f32).view.read (Elt Ideal) gi) ((Memref.whole cc1_scratch3 : Memref sig .scVector .vmem S48x224 .f32).view.read (Elt Ideal) gt) 128 144 init (4 * k.val))
      = closed4 ((Memref.whole cc1_scratch2 : Memref sig .scVector .vmem S48x224 .f32).view.read (Elt Ideal) gi) ((Memref.whole cc1_scratch3 : Memref sig .scVector .vmem S48x224 .f32).view.read (Elt Ideal) gt) 128 144 init (4 * (k.val + 1)) := by
  refine Prod.ext ?_ (Prod.ext ?_ (Prod.ext ?_ ?_))
  all_goals funext i
  · refine Eq.trans (b := sqSum (fun c => rdN ((Memref.whole cc1_scratch2 : Memref sig .scVector .vmem S48x224 .f32).view.read (Elt Ideal) gi) c (128 + (i 0).val)) (fun c => rdN ((Memref.whole cc1_scratch3 : Memref sig .scVector .vmem S48x224 .f32).view.read (Elt Ideal) gt) c (128 + (i 0).val)) (init.1 i) (4 * k.val)
          + ((shapeCast S16 (View.readAt (Elt Ideal) (Memref.whole cc1_scratch2 : Memref sig .scVector .vmem S48x224 .f32).view (Rect.unit (s := S48x224) (k1_off28 k 0#32) S1x16.size (k1_off28_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off28 k 0#32) S1x16.size (k1_off28_inb k 0)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off28 k 0#32) S1x16.size (k1_off28_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off28 k 0#32) S1x16.size (k1_off28_inb k 0)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off28 k 1#32) S1x16.size (k1_off28_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off28 k 1#32) S1x16.size (k1_off28_inb k 1)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off28 k 1#32) S1x16.size (k1_off28_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off28 k 1#32) S1x16.size (k1_off28_inb k 1)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off28 k 2#32) S1x16.size (k1_off28_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off28 k 2#32) S1x16.size (k1_off28_inb k 2)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off28 k 2#32) S1x16.size (k1_off28_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off28 k 2#32) S1x16.size (k1_off28_inb k 2)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off28 k 3#32) S1x16.size (k1_off28_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off28 k 3#32) S1x16.size (k1_off28_inb k 3)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off28 k 3#32) S1x16.size (k1_off28_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off28 k 3#32) S1x16.size (k1_off28_inb k 3)).toLoadRect gt : Vec Ideal S1x16 .f32) shapeCasts_S1x16_S16 i : EReal))) rfl ?_
    rw [load_apply' (Memref.whole cc1_scratch2 : Memref sig .scVector .vmem S48x224 .f32) gi (k1_off28 k 0#32) (k1_off28_inb k 0) (4 * k.val + 0) 128 (k1_off28_eq k 0) i, load_apply' (Memref.whole cc1_scratch3 : Memref sig .scVector .vmem S48x224 .f32) gt (k1_off28 k 0#32) (k1_off28_inb k 0) (4 * k.val + 0) 128 (k1_off28_eq k 0) i,
      load_apply' (Memref.whole cc1_scratch2 : Memref sig .scVector .vmem S48x224 .f32) gi (k1_off28 k 1#32) (k1_off28_inb k 1) (4 * k.val + 1) 128 (k1_off28_eq k 1) i, load_apply' (Memref.whole cc1_scratch3 : Memref sig .scVector .vmem S48x224 .f32) gt (k1_off28 k 1#32) (k1_off28_inb k 1) (4 * k.val + 1) 128 (k1_off28_eq k 1) i,
      load_apply' (Memref.whole cc1_scratch2 : Memref sig .scVector .vmem S48x224 .f32) gi (k1_off28 k 2#32) (k1_off28_inb k 2) (4 * k.val + 2) 128 (k1_off28_eq k 2) i, load_apply' (Memref.whole cc1_scratch3 : Memref sig .scVector .vmem S48x224 .f32) gt (k1_off28 k 2#32) (k1_off28_inb k 2) (4 * k.val + 2) 128 (k1_off28_eq k 2) i,
      load_apply' (Memref.whole cc1_scratch2 : Memref sig .scVector .vmem S48x224 .f32) gi (k1_off28 k 3#32) (k1_off28_inb k 3) (4 * k.val + 3) 128 (k1_off28_eq k 3) i, load_apply' (Memref.whole cc1_scratch3 : Memref sig .scVector .vmem S48x224 .f32) gt (k1_off28 k 3#32) (k1_off28_inb k 3) (4 * k.val + 3) 128 (k1_off28_eq k 3) i]
    exact (sqSum_four _ _ _ k.val).symm
  · refine Eq.trans (b := sqSum (fun c => rdN ((Memref.whole cc1_scratch2 : Memref sig .scVector .vmem S48x224 .f32).view.read (Elt Ideal) gi) c (144 + (i 0).val)) (fun c => rdN ((Memref.whole cc1_scratch3 : Memref sig .scVector .vmem S48x224 .f32).view.read (Elt Ideal) gt) c (144 + (i 0).val)) (init.2.1 i) (4 * k.val)
          + ((shapeCast S16 (View.readAt (Elt Ideal) (Memref.whole cc1_scratch2 : Memref sig .scVector .vmem S48x224 .f32).view (Rect.unit (s := S48x224) (k1_off29 k 0#32) S1x16.size (k1_off29_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off29 k 0#32) S1x16.size (k1_off29_inb k 0)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off29 k 0#32) S1x16.size (k1_off29_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off29 k 0#32) S1x16.size (k1_off29_inb k 0)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off29 k 1#32) S1x16.size (k1_off29_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off29 k 1#32) S1x16.size (k1_off29_inb k 1)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off29 k 1#32) S1x16.size (k1_off29_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off29 k 1#32) S1x16.size (k1_off29_inb k 1)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off29 k 2#32) S1x16.size (k1_off29_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off29 k 2#32) S1x16.size (k1_off29_inb k 2)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off29 k 2#32) S1x16.size (k1_off29_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off29 k 2#32) S1x16.size (k1_off29_inb k 2)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off29 k 3#32) S1x16.size (k1_off29_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off29 k 3#32) S1x16.size (k1_off29_inb k 3)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off29 k 3#32) S1x16.size (k1_off29_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off29 k 3#32) S1x16.size (k1_off29_inb k 3)).toLoadRect gt : Vec Ideal S1x16 .f32) shapeCasts_S1x16_S16 i : EReal))) rfl ?_
    rw [load_apply' (Memref.whole cc1_scratch2 : Memref sig .scVector .vmem S48x224 .f32) gi (k1_off29 k 0#32) (k1_off29_inb k 0) (4 * k.val + 0) 144 (k1_off29_eq k 0) i, load_apply' (Memref.whole cc1_scratch3 : Memref sig .scVector .vmem S48x224 .f32) gt (k1_off29 k 0#32) (k1_off29_inb k 0) (4 * k.val + 0) 144 (k1_off29_eq k 0) i,
      load_apply' (Memref.whole cc1_scratch2 : Memref sig .scVector .vmem S48x224 .f32) gi (k1_off29 k 1#32) (k1_off29_inb k 1) (4 * k.val + 1) 144 (k1_off29_eq k 1) i, load_apply' (Memref.whole cc1_scratch3 : Memref sig .scVector .vmem S48x224 .f32) gt (k1_off29 k 1#32) (k1_off29_inb k 1) (4 * k.val + 1) 144 (k1_off29_eq k 1) i,
      load_apply' (Memref.whole cc1_scratch2 : Memref sig .scVector .vmem S48x224 .f32) gi (k1_off29 k 2#32) (k1_off29_inb k 2) (4 * k.val + 2) 144 (k1_off29_eq k 2) i, load_apply' (Memref.whole cc1_scratch3 : Memref sig .scVector .vmem S48x224 .f32) gt (k1_off29 k 2#32) (k1_off29_inb k 2) (4 * k.val + 2) 144 (k1_off29_eq k 2) i,
      load_apply' (Memref.whole cc1_scratch2 : Memref sig .scVector .vmem S48x224 .f32) gi (k1_off29 k 3#32) (k1_off29_inb k 3) (4 * k.val + 3) 144 (k1_off29_eq k 3) i, load_apply' (Memref.whole cc1_scratch3 : Memref sig .scVector .vmem S48x224 .f32) gt (k1_off29 k 3#32) (k1_off29_inb k 3) (4 * k.val + 3) 144 (k1_off29_eq k 3) i]
    exact (sqSum_four _ _ _ k.val).symm
  · refine Eq.trans (b := max (max (max (max (mxAbs (fun c => rdN ((Memref.whole cc1_scratch3 : Memref sig .scVector .vmem S48x224 .f32).view.read (Elt Ideal) gt) c (128 + (i 0).val)) (init.2.2.1 i) (4 * k.val))
          (max (shapeCast S16 (View.readAt (Elt Ideal) (Memref.whole cc1_scratch3 : Memref sig .scVector .vmem S48x224 .f32).view (Rect.unit (s := S48x224) (k1_off28 k 0#32) S1x16.size (k1_off28_inb k 0)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off28 k 0#32) S1x16.size (k1_off28_inb k 0)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off28 k 1#32) S1x16.size (k1_off28_inb k 1)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off28 k 1#32) S1x16.size (k1_off28_inb k 1)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off28 k 2#32) S1x16.size (k1_off28_inb k 2)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off28 k 2#32) S1x16.size (k1_off28_inb k 2)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off28 k 3#32) S1x16.size (k1_off28_inb k 3)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off28 k 3#32) S1x16.size (k1_off28_inb k 3)).toLoadRect gt : Vec Ideal S1x16 .f32) shapeCasts_S1x16_S16 i : EReal)))) rfl ?_
    rw [load_apply' (Memref.whole cc1_scratch3 : Memref sig .scVector .vmem S48x224 .f32) gt (k1_off28 k 0#32) (k1_off28_inb k 0) (4 * k.val + 0) 128 (k1_off28_eq k 0) i,
      load_apply' (Memref.whole cc1_scratch3 : Memref sig .scVector .vmem S48x224 .f32) gt (k1_off28 k 1#32) (k1_off28_inb k 1) (4 * k.val + 1) 128 (k1_off28_eq k 1) i,
      load_apply' (Memref.whole cc1_scratch3 : Memref sig .scVector .vmem S48x224 .f32) gt (k1_off28 k 2#32) (k1_off28_inb k 2) (4 * k.val + 2) 128 (k1_off28_eq k 2) i,
      load_apply' (Memref.whole cc1_scratch3 : Memref sig .scVector .vmem S48x224 .f32) gt (k1_off28 k 3#32) (k1_off28_inb k 3) (4 * k.val + 3) 128 (k1_off28_eq k 3) i]
    exact (mxAbs_four _ _ k.val).symm
  · refine Eq.trans (b := max (max (max (max (mxAbs (fun c => rdN ((Memref.whole cc1_scratch3 : Memref sig .scVector .vmem S48x224 .f32).view.read (Elt Ideal) gt) c (144 + (i 0).val)) (init.2.2.2 i) (4 * k.val))
          (max (shapeCast S16 (View.readAt (Elt Ideal) (Memref.whole cc1_scratch3 : Memref sig .scVector .vmem S48x224 .f32).view (Rect.unit (s := S48x224) (k1_off29 k 0#32) S1x16.size (k1_off29_inb k 0)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off29 k 0#32) S1x16.size (k1_off29_inb k 0)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off29 k 1#32) S1x16.size (k1_off29_inb k 1)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off29 k 1#32) S1x16.size (k1_off29_inb k 1)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off29 k 2#32) S1x16.size (k1_off29_inb k 2)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off29 k 2#32) S1x16.size (k1_off29_inb k 2)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off29 k 3#32) S1x16.size (k1_off29_inb k 3)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off29 k 3#32) S1x16.size (k1_off29_inb k 3)).toLoadRect gt : Vec Ideal S1x16 .f32) shapeCasts_S1x16_S16 i : EReal)))) rfl ?_
    rw [load_apply' (Memref.whole cc1_scratch3 : Memref sig .scVector .vmem S48x224 .f32) gt (k1_off29 k 0#32) (k1_off29_inb k 0) (4 * k.val + 0) 144 (k1_off29_eq k 0) i,
      load_apply' (Memref.whole cc1_scratch3 : Memref sig .scVector .vmem S48x224 .f32) gt (k1_off29 k 1#32) (k1_off29_inb k 1) (4 * k.val + 1) 144 (k1_off29_eq k 1) i,
      load_apply' (Memref.whole cc1_scratch3 : Memref sig .scVector .vmem S48x224 .f32) gt (k1_off29 k 2#32) (k1_off29_inb k 2) (4 * k.val + 2) 144 (k1_off29_eq k 2) i,
      load_apply' (Memref.whole cc1_scratch3 : Memref sig .scVector .vmem S48x224 .f32) gt (k1_off29 k 3#32) (k1_off29_inb k 3) (4 * k.val + 3) 144 (k1_off29_eq k 3) i]
    exact (mxAbs_four _ _ k.val).symm

/-- THE CLOSED FORM of loop t13: after `n` trips the sums are the initial ones with rows `0 … 4 n − 1` added. -/
theorem sumsV_t13_closed (init : σ4) (n : ℕ) (hn : n ≤ k1_t13_loop.trips) :
    sumsV_t13 (F := Ideal) d L gi gt init n = closed4 ((Memref.whole cc1_scratch2 : Memref sig .scVector .vmem S48x224 .f32).view.read (Elt Ideal) gi) ((Memref.whole cc1_scratch3 : Memref sig .scVector .vmem S48x224 .f32).view.read (Elt Ideal) gt) 128 144 init (4 * n) := by
  induction n with
  | zero => rw [Nat.mul_zero, closed4_zero]; rfl
  | succ n ih =>
    have hlt : n < k1_t13_loop.trips := hn
    rw [sumsV_t13, dif_pos hlt, ih (Nat.le_of_lt hlt)]
    exact stepV_t13_closed d L gi gt ⟨n, hlt⟩ init

end Loop13

section Loop14
variable (gi : Buf (Elt Ideal) ((V d (cV L) (jV L)).loc cc1_scratch2)) (gt : Buf (Elt Ideal) ((V d (cV L) (jV L)).loc cc1_scratch3))

/-- One trip of accumulation loop t14 adds rows `4 k … 4 k + 3` at columns `160 + lane` and `176 + lane`. -/
theorem stepV_t14_closed (k : Fin k1_t14_loop.trips) (init : σ4) :
    stepV_t14 (F := Ideal) d L gi gt k (closed4 ((Memref.whole cc1_scratch2 : Memref sig .scVector .vmem S48x224 .f32).view.read (Elt Ideal) gi) ((Memref.whole cc1_scratch3 : Memref sig .scVector .vmem S48x224 .f32).view.read (Elt Ideal) gt) 160 176 init (4 * k.val))
      = closed4 ((Memref.whole cc1_scratch2 : Memref sig .scVector .vmem S48x224 .f32).view.read (Elt Ideal) gi) ((Memref.whole cc1_scratch3 : Memref sig .scVector .vmem S48x224 .f32).view.read (Elt Ideal) gt) 160 176 init (4 * (k.val + 1)) := by
  refine Prod.ext ?_ (Prod.ext ?_ (Prod.ext ?_ ?_))
  all_goals funext i
  · refine Eq.trans (b := sqSum (fun c => rdN ((Memref.whole cc1_scratch2 : Memref sig .scVector .vmem S48x224 .f32).view.read (Elt Ideal) gi) c (160 + (i 0).val)) (fun c => rdN ((Memref.whole cc1_scratch3 : Memref sig .scVector .vmem S48x224 .f32).view.read (Elt Ideal) gt) c (160 + (i 0).val)) (init.1 i) (4 * k.val)
          + ((shapeCast S16 (View.readAt (Elt Ideal) (Memref.whole cc1_scratch2 : Memref sig .scVector .vmem S48x224 .f32).view (Rect.unit (s := S48x224) (k1_off30 k 0#32) S1x16.size (k1_off30_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off30 k 0#32) S1x16.size (k1_off30_inb k 0)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off30 k 0#32) S1x16.size (k1_off30_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off30 k 0#32) S1x16.size (k1_off30_inb k 0)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off30 k 1#32) S1x16.size (k1_off30_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off30 k 1#32) S1x16.size (k1_off30_inb k 1)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off30 k 1#32) S1x16.size (k1_off30_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off30 k 1#32) S1x16.size (k1_off30_inb k 1)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off30 k 2#32) S1x16.size (k1_off30_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off30 k 2#32) S1x16.size (k1_off30_inb k 2)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off30 k 2#32) S1x16.size (k1_off30_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off30 k 2#32) S1x16.size (k1_off30_inb k 2)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off30 k 3#32) S1x16.size (k1_off30_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off30 k 3#32) S1x16.size (k1_off30_inb k 3)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off30 k 3#32) S1x16.size (k1_off30_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off30 k 3#32) S1x16.size (k1_off30_inb k 3)).toLoadRect gt : Vec Ideal S1x16 .f32) shapeCasts_S1x16_S16 i : EReal))) rfl ?_
    rw [load_apply' (Memref.whole cc1_scratch2 : Memref sig .scVector .vmem S48x224 .f32) gi (k1_off30 k 0#32) (k1_off30_inb k 0) (4 * k.val + 0) 160 (k1_off30_eq k 0) i, load_apply' (Memref.whole cc1_scratch3 : Memref sig .scVector .vmem S48x224 .f32) gt (k1_off30 k 0#32) (k1_off30_inb k 0) (4 * k.val + 0) 160 (k1_off30_eq k 0) i,
      load_apply' (Memref.whole cc1_scratch2 : Memref sig .scVector .vmem S48x224 .f32) gi (k1_off30 k 1#32) (k1_off30_inb k 1) (4 * k.val + 1) 160 (k1_off30_eq k 1) i, load_apply' (Memref.whole cc1_scratch3 : Memref sig .scVector .vmem S48x224 .f32) gt (k1_off30 k 1#32) (k1_off30_inb k 1) (4 * k.val + 1) 160 (k1_off30_eq k 1) i,
      load_apply' (Memref.whole cc1_scratch2 : Memref sig .scVector .vmem S48x224 .f32) gi (k1_off30 k 2#32) (k1_off30_inb k 2) (4 * k.val + 2) 160 (k1_off30_eq k 2) i, load_apply' (Memref.whole cc1_scratch3 : Memref sig .scVector .vmem S48x224 .f32) gt (k1_off30 k 2#32) (k1_off30_inb k 2) (4 * k.val + 2) 160 (k1_off30_eq k 2) i,
      load_apply' (Memref.whole cc1_scratch2 : Memref sig .scVector .vmem S48x224 .f32) gi (k1_off30 k 3#32) (k1_off30_inb k 3) (4 * k.val + 3) 160 (k1_off30_eq k 3) i, load_apply' (Memref.whole cc1_scratch3 : Memref sig .scVector .vmem S48x224 .f32) gt (k1_off30 k 3#32) (k1_off30_inb k 3) (4 * k.val + 3) 160 (k1_off30_eq k 3) i]
    exact (sqSum_four _ _ _ k.val).symm
  · refine Eq.trans (b := sqSum (fun c => rdN ((Memref.whole cc1_scratch2 : Memref sig .scVector .vmem S48x224 .f32).view.read (Elt Ideal) gi) c (176 + (i 0).val)) (fun c => rdN ((Memref.whole cc1_scratch3 : Memref sig .scVector .vmem S48x224 .f32).view.read (Elt Ideal) gt) c (176 + (i 0).val)) (init.2.1 i) (4 * k.val)
          + ((shapeCast S16 (View.readAt (Elt Ideal) (Memref.whole cc1_scratch2 : Memref sig .scVector .vmem S48x224 .f32).view (Rect.unit (s := S48x224) (k1_off31 k 0#32) S1x16.size (k1_off31_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off31 k 0#32) S1x16.size (k1_off31_inb k 0)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off31 k 0#32) S1x16.size (k1_off31_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off31 k 0#32) S1x16.size (k1_off31_inb k 0)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off31 k 1#32) S1x16.size (k1_off31_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off31 k 1#32) S1x16.size (k1_off31_inb k 1)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off31 k 1#32) S1x16.size (k1_off31_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off31 k 1#32) S1x16.size (k1_off31_inb k 1)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off31 k 2#32) S1x16.size (k1_off31_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off31 k 2#32) S1x16.size (k1_off31_inb k 2)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off31 k 2#32) S1x16.size (k1_off31_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off31 k 2#32) S1x16.size (k1_off31_inb k 2)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off31 k 3#32) S1x16.size (k1_off31_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off31 k 3#32) S1x16.size (k1_off31_inb k 3)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off31 k 3#32) S1x16.size (k1_off31_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off31 k 3#32) S1x16.size (k1_off31_inb k 3)).toLoadRect gt : Vec Ideal S1x16 .f32) shapeCasts_S1x16_S16 i : EReal))) rfl ?_
    rw [load_apply' (Memref.whole cc1_scratch2 : Memref sig .scVector .vmem S48x224 .f32) gi (k1_off31 k 0#32) (k1_off31_inb k 0) (4 * k.val + 0) 176 (k1_off31_eq k 0) i, load_apply' (Memref.whole cc1_scratch3 : Memref sig .scVector .vmem S48x224 .f32) gt (k1_off31 k 0#32) (k1_off31_inb k 0) (4 * k.val + 0) 176 (k1_off31_eq k 0) i,
      load_apply' (Memref.whole cc1_scratch2 : Memref sig .scVector .vmem S48x224 .f32) gi (k1_off31 k 1#32) (k1_off31_inb k 1) (4 * k.val + 1) 176 (k1_off31_eq k 1) i, load_apply' (Memref.whole cc1_scratch3 : Memref sig .scVector .vmem S48x224 .f32) gt (k1_off31 k 1#32) (k1_off31_inb k 1) (4 * k.val + 1) 176 (k1_off31_eq k 1) i,
      load_apply' (Memref.whole cc1_scratch2 : Memref sig .scVector .vmem S48x224 .f32) gi (k1_off31 k 2#32) (k1_off31_inb k 2) (4 * k.val + 2) 176 (k1_off31_eq k 2) i, load_apply' (Memref.whole cc1_scratch3 : Memref sig .scVector .vmem S48x224 .f32) gt (k1_off31 k 2#32) (k1_off31_inb k 2) (4 * k.val + 2) 176 (k1_off31_eq k 2) i,
      load_apply' (Memref.whole cc1_scratch2 : Memref sig .scVector .vmem S48x224 .f32) gi (k1_off31 k 3#32) (k1_off31_inb k 3) (4 * k.val + 3) 176 (k1_off31_eq k 3) i, load_apply' (Memref.whole cc1_scratch3 : Memref sig .scVector .vmem S48x224 .f32) gt (k1_off31 k 3#32) (k1_off31_inb k 3) (4 * k.val + 3) 176 (k1_off31_eq k 3) i]
    exact (sqSum_four _ _ _ k.val).symm
  · refine Eq.trans (b := max (max (max (max (mxAbs (fun c => rdN ((Memref.whole cc1_scratch3 : Memref sig .scVector .vmem S48x224 .f32).view.read (Elt Ideal) gt) c (160 + (i 0).val)) (init.2.2.1 i) (4 * k.val))
          (max (shapeCast S16 (View.readAt (Elt Ideal) (Memref.whole cc1_scratch3 : Memref sig .scVector .vmem S48x224 .f32).view (Rect.unit (s := S48x224) (k1_off30 k 0#32) S1x16.size (k1_off30_inb k 0)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off30 k 0#32) S1x16.size (k1_off30_inb k 0)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off30 k 1#32) S1x16.size (k1_off30_inb k 1)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off30 k 1#32) S1x16.size (k1_off30_inb k 1)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off30 k 2#32) S1x16.size (k1_off30_inb k 2)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off30 k 2#32) S1x16.size (k1_off30_inb k 2)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off30 k 3#32) S1x16.size (k1_off30_inb k 3)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off30 k 3#32) S1x16.size (k1_off30_inb k 3)).toLoadRect gt : Vec Ideal S1x16 .f32) shapeCasts_S1x16_S16 i : EReal)))) rfl ?_
    rw [load_apply' (Memref.whole cc1_scratch3 : Memref sig .scVector .vmem S48x224 .f32) gt (k1_off30 k 0#32) (k1_off30_inb k 0) (4 * k.val + 0) 160 (k1_off30_eq k 0) i,
      load_apply' (Memref.whole cc1_scratch3 : Memref sig .scVector .vmem S48x224 .f32) gt (k1_off30 k 1#32) (k1_off30_inb k 1) (4 * k.val + 1) 160 (k1_off30_eq k 1) i,
      load_apply' (Memref.whole cc1_scratch3 : Memref sig .scVector .vmem S48x224 .f32) gt (k1_off30 k 2#32) (k1_off30_inb k 2) (4 * k.val + 2) 160 (k1_off30_eq k 2) i,
      load_apply' (Memref.whole cc1_scratch3 : Memref sig .scVector .vmem S48x224 .f32) gt (k1_off30 k 3#32) (k1_off30_inb k 3) (4 * k.val + 3) 160 (k1_off30_eq k 3) i]
    exact (mxAbs_four _ _ k.val).symm
  · refine Eq.trans (b := max (max (max (max (mxAbs (fun c => rdN ((Memref.whole cc1_scratch3 : Memref sig .scVector .vmem S48x224 .f32).view.read (Elt Ideal) gt) c (176 + (i 0).val)) (init.2.2.2 i) (4 * k.val))
          (max (shapeCast S16 (View.readAt (Elt Ideal) (Memref.whole cc1_scratch3 : Memref sig .scVector .vmem S48x224 .f32).view (Rect.unit (s := S48x224) (k1_off31 k 0#32) S1x16.size (k1_off31_inb k 0)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off31 k 0#32) S1x16.size (k1_off31_inb k 0)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off31 k 1#32) S1x16.size (k1_off31_inb k 1)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off31 k 1#32) S1x16.size (k1_off31_inb k 1)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off31 k 2#32) S1x16.size (k1_off31_inb k 2)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off31 k 2#32) S1x16.size (k1_off31_inb k 2)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off31 k 3#32) S1x16.size (k1_off31_inb k 3)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off31 k 3#32) S1x16.size (k1_off31_inb k 3)).toLoadRect gt : Vec Ideal S1x16 .f32) shapeCasts_S1x16_S16 i : EReal)))) rfl ?_
    rw [load_apply' (Memref.whole cc1_scratch3 : Memref sig .scVector .vmem S48x224 .f32) gt (k1_off31 k 0#32) (k1_off31_inb k 0) (4 * k.val + 0) 176 (k1_off31_eq k 0) i,
      load_apply' (Memref.whole cc1_scratch3 : Memref sig .scVector .vmem S48x224 .f32) gt (k1_off31 k 1#32) (k1_off31_inb k 1) (4 * k.val + 1) 176 (k1_off31_eq k 1) i,
      load_apply' (Memref.whole cc1_scratch3 : Memref sig .scVector .vmem S48x224 .f32) gt (k1_off31 k 2#32) (k1_off31_inb k 2) (4 * k.val + 2) 176 (k1_off31_eq k 2) i,
      load_apply' (Memref.whole cc1_scratch3 : Memref sig .scVector .vmem S48x224 .f32) gt (k1_off31 k 3#32) (k1_off31_inb k 3) (4 * k.val + 3) 176 (k1_off31_eq k 3) i]
    exact (mxAbs_four _ _ k.val).symm

/-- THE CLOSED FORM of loop t14: after `n` trips the sums are the initial ones with rows `0 … 4 n − 1` added. -/
theorem sumsV_t14_closed (init : σ4) (n : ℕ) (hn : n ≤ k1_t14_loop.trips) :
    sumsV_t14 (F := Ideal) d L gi gt init n = closed4 ((Memref.whole cc1_scratch2 : Memref sig .scVector .vmem S48x224 .f32).view.read (Elt Ideal) gi) ((Memref.whole cc1_scratch3 : Memref sig .scVector .vmem S48x224 .f32).view.read (Elt Ideal) gt) 160 176 init (4 * n) := by
  induction n with
  | zero => rw [Nat.mul_zero, closed4_zero]; rfl
  | succ n ih =>
    have hlt : n < k1_t14_loop.trips := hn
    rw [sumsV_t14, dif_pos hlt, ih (Nat.le_of_lt hlt)]
    exact stepV_t14_closed d L gi gt ⟨n, hlt⟩ init

end Loop14

section Loop15
variable (gi : Buf (Elt Ideal) ((V d (cV L) (jV L)).loc cc1_scratch2)) (gt : Buf (Elt Ideal) ((V d (cV L) (jV L)).loc cc1_scratch3))

/-- One trip of accumulation loop t15 adds rows `4 k … 4 k + 3` at columns `192 + lane` and `208 + lane`. -/
theorem stepV_t15_closed (k : Fin k1_t15_loop.trips) (init : σ4) :
    stepV_t15 (F := Ideal) d L gi gt k (closed4 ((Memref.whole cc1_scratch2 : Memref sig .scVector .vmem S48x224 .f32).view.read (Elt Ideal) gi) ((Memref.whole cc1_scratch3 : Memref sig .scVector .vmem S48x224 .f32).view.read (Elt Ideal) gt) 192 208 init (4 * k.val))
      = closed4 ((Memref.whole cc1_scratch2 : Memref sig .scVector .vmem S48x224 .f32).view.read (Elt Ideal) gi) ((Memref.whole cc1_scratch3 : Memref sig .scVector .vmem S48x224 .f32).view.read (Elt Ideal) gt) 192 208 init (4 * (k.val + 1)) := by
  refine Prod.ext ?_ (Prod.ext ?_ (Prod.ext ?_ ?_))
  all_goals funext i
  · refine Eq.trans (b := sqSum (fun c => rdN ((Memref.whole cc1_scratch2 : Memref sig .scVector .vmem S48x224 .f32).view.read (Elt Ideal) gi) c (192 + (i 0).val)) (fun c => rdN ((Memref.whole cc1_scratch3 : Memref sig .scVector .vmem S48x224 .f32).view.read (Elt Ideal) gt) c (192 + (i 0).val)) (init.1 i) (4 * k.val)
          + ((shapeCast S16 (View.readAt (Elt Ideal) (Memref.whole cc1_scratch2 : Memref sig .scVector .vmem S48x224 .f32).view (Rect.unit (s := S48x224) (k1_off32 k 0#32) S1x16.size (k1_off32_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off32 k 0#32) S1x16.size (k1_off32_inb k 0)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off32 k 0#32) S1x16.size (k1_off32_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off32 k 0#32) S1x16.size (k1_off32_inb k 0)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off32 k 1#32) S1x16.size (k1_off32_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off32 k 1#32) S1x16.size (k1_off32_inb k 1)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off32 k 1#32) S1x16.size (k1_off32_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off32 k 1#32) S1x16.size (k1_off32_inb k 1)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off32 k 2#32) S1x16.size (k1_off32_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off32 k 2#32) S1x16.size (k1_off32_inb k 2)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off32 k 2#32) S1x16.size (k1_off32_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off32 k 2#32) S1x16.size (k1_off32_inb k 2)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off32 k 3#32) S1x16.size (k1_off32_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off32 k 3#32) S1x16.size (k1_off32_inb k 3)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off32 k 3#32) S1x16.size (k1_off32_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off32 k 3#32) S1x16.size (k1_off32_inb k 3)).toLoadRect gt : Vec Ideal S1x16 .f32) shapeCasts_S1x16_S16 i : EReal))) rfl ?_
    rw [load_apply' (Memref.whole cc1_scratch2 : Memref sig .scVector .vmem S48x224 .f32) gi (k1_off32 k 0#32) (k1_off32_inb k 0) (4 * k.val + 0) 192 (k1_off32_eq k 0) i, load_apply' (Memref.whole cc1_scratch3 : Memref sig .scVector .vmem S48x224 .f32) gt (k1_off32 k 0#32) (k1_off32_inb k 0) (4 * k.val + 0) 192 (k1_off32_eq k 0) i,
      load_apply' (Memref.whole cc1_scratch2 : Memref sig .scVector .vmem S48x224 .f32) gi (k1_off32 k 1#32) (k1_off32_inb k 1) (4 * k.val + 1) 192 (k1_off32_eq k 1) i, load_apply' (Memref.whole cc1_scratch3 : Memref sig .scVector .vmem S48x224 .f32) gt (k1_off32 k 1#32) (k1_off32_inb k 1) (4 * k.val + 1) 192 (k1_off32_eq k 1) i,
      load_apply' (Memref.whole cc1_scratch2 : Memref sig .scVector .vmem S48x224 .f32) gi (k1_off32 k 2#32) (k1_off32_inb k 2) (4 * k.val + 2) 192 (k1_off32_eq k 2) i, load_apply' (Memref.whole cc1_scratch3 : Memref sig .scVector .vmem S48x224 .f32) gt (k1_off32 k 2#32) (k1_off32_inb k 2) (4 * k.val + 2) 192 (k1_off32_eq k 2) i,
      load_apply' (Memref.whole cc1_scratch2 : Memref sig .scVector .vmem S48x224 .f32) gi (k1_off32 k 3#32) (k1_off32_inb k 3) (4 * k.val + 3) 192 (k1_off32_eq k 3) i, load_apply' (Memref.whole cc1_scratch3 : Memref sig .scVector .vmem S48x224 .f32) gt (k1_off32 k 3#32) (k1_off32_inb k 3) (4 * k.val + 3) 192 (k1_off32_eq k 3) i]
    exact (sqSum_four _ _ _ k.val).symm
  · refine Eq.trans (b := sqSum (fun c => rdN ((Memref.whole cc1_scratch2 : Memref sig .scVector .vmem S48x224 .f32).view.read (Elt Ideal) gi) c (208 + (i 0).val)) (fun c => rdN ((Memref.whole cc1_scratch3 : Memref sig .scVector .vmem S48x224 .f32).view.read (Elt Ideal) gt) c (208 + (i 0).val)) (init.2.1 i) (4 * k.val)
          + ((shapeCast S16 (View.readAt (Elt Ideal) (Memref.whole cc1_scratch2 : Memref sig .scVector .vmem S48x224 .f32).view (Rect.unit (s := S48x224) (k1_off33 k 0#32) S1x16.size (k1_off33_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off33 k 0#32) S1x16.size (k1_off33_inb k 0)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off33 k 0#32) S1x16.size (k1_off33_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off33 k 0#32) S1x16.size (k1_off33_inb k 0)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off33 k 1#32) S1x16.size (k1_off33_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off33 k 1#32) S1x16.size (k1_off33_inb k 1)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off33 k 1#32) S1x16.size (k1_off33_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off33 k 1#32) S1x16.size (k1_off33_inb k 1)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off33 k 2#32) S1x16.size (k1_off33_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off33 k 2#32) S1x16.size (k1_off33_inb k 2)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off33 k 2#32) S1x16.size (k1_off33_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off33 k 2#32) S1x16.size (k1_off33_inb k 2)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off33 k 3#32) S1x16.size (k1_off33_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off33 k 3#32) S1x16.size (k1_off33_inb k 3)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off33 k 3#32) S1x16.size (k1_off33_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off33 k 3#32) S1x16.size (k1_off33_inb k 3)).toLoadRect gt : Vec Ideal S1x16 .f32) shapeCasts_S1x16_S16 i : EReal))) rfl ?_
    rw [load_apply' (Memref.whole cc1_scratch2 : Memref sig .scVector .vmem S48x224 .f32) gi (k1_off33 k 0#32) (k1_off33_inb k 0) (4 * k.val + 0) 208 (k1_off33_eq k 0) i, load_apply' (Memref.whole cc1_scratch3 : Memref sig .scVector .vmem S48x224 .f32) gt (k1_off33 k 0#32) (k1_off33_inb k 0) (4 * k.val + 0) 208 (k1_off33_eq k 0) i,
      load_apply' (Memref.whole cc1_scratch2 : Memref sig .scVector .vmem S48x224 .f32) gi (k1_off33 k 1#32) (k1_off33_inb k 1) (4 * k.val + 1) 208 (k1_off33_eq k 1) i, load_apply' (Memref.whole cc1_scratch3 : Memref sig .scVector .vmem S48x224 .f32) gt (k1_off33 k 1#32) (k1_off33_inb k 1) (4 * k.val + 1) 208 (k1_off33_eq k 1) i,
      load_apply' (Memref.whole cc1_scratch2 : Memref sig .scVector .vmem S48x224 .f32) gi (k1_off33 k 2#32) (k1_off33_inb k 2) (4 * k.val + 2) 208 (k1_off33_eq k 2) i, load_apply' (Memref.whole cc1_scratch3 : Memref sig .scVector .vmem S48x224 .f32) gt (k1_off33 k 2#32) (k1_off33_inb k 2) (4 * k.val + 2) 208 (k1_off33_eq k 2) i,
      load_apply' (Memref.whole cc1_scratch2 : Memref sig .scVector .vmem S48x224 .f32) gi (k1_off33 k 3#32) (k1_off33_inb k 3) (4 * k.val + 3) 208 (k1_off33_eq k 3) i, load_apply' (Memref.whole cc1_scratch3 : Memref sig .scVector .vmem S48x224 .f32) gt (k1_off33 k 3#32) (k1_off33_inb k 3) (4 * k.val + 3) 208 (k1_off33_eq k 3) i]
    exact (sqSum_four _ _ _ k.val).symm
  · refine Eq.trans (b := max (max (max (max (mxAbs (fun c => rdN ((Memref.whole cc1_scratch3 : Memref sig .scVector .vmem S48x224 .f32).view.read (Elt Ideal) gt) c (192 + (i 0).val)) (init.2.2.1 i) (4 * k.val))
          (max (shapeCast S16 (View.readAt (Elt Ideal) (Memref.whole cc1_scratch3 : Memref sig .scVector .vmem S48x224 .f32).view (Rect.unit (s := S48x224) (k1_off32 k 0#32) S1x16.size (k1_off32_inb k 0)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off32 k 0#32) S1x16.size (k1_off32_inb k 0)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off32 k 1#32) S1x16.size (k1_off32_inb k 1)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off32 k 1#32) S1x16.size (k1_off32_inb k 1)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off32 k 2#32) S1x16.size (k1_off32_inb k 2)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off32 k 2#32) S1x16.size (k1_off32_inb k 2)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off32 k 3#32) S1x16.size (k1_off32_inb k 3)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off32 k 3#32) S1x16.size (k1_off32_inb k 3)).toLoadRect gt : Vec Ideal S1x16 .f32) shapeCasts_S1x16_S16 i : EReal)))) rfl ?_
    rw [load_apply' (Memref.whole cc1_scratch3 : Memref sig .scVector .vmem S48x224 .f32) gt (k1_off32 k 0#32) (k1_off32_inb k 0) (4 * k.val + 0) 192 (k1_off32_eq k 0) i,
      load_apply' (Memref.whole cc1_scratch3 : Memref sig .scVector .vmem S48x224 .f32) gt (k1_off32 k 1#32) (k1_off32_inb k 1) (4 * k.val + 1) 192 (k1_off32_eq k 1) i,
      load_apply' (Memref.whole cc1_scratch3 : Memref sig .scVector .vmem S48x224 .f32) gt (k1_off32 k 2#32) (k1_off32_inb k 2) (4 * k.val + 2) 192 (k1_off32_eq k 2) i,
      load_apply' (Memref.whole cc1_scratch3 : Memref sig .scVector .vmem S48x224 .f32) gt (k1_off32 k 3#32) (k1_off32_inb k 3) (4 * k.val + 3) 192 (k1_off32_eq k 3) i]
    exact (mxAbs_four _ _ k.val).symm
  · refine Eq.trans (b := max (max (max (max (mxAbs (fun c => rdN ((Memref.whole cc1_scratch3 : Memref sig .scVector .vmem S48x224 .f32).view.read (Elt Ideal) gt) c (208 + (i 0).val)) (init.2.2.2 i) (4 * k.val))
          (max (shapeCast S16 (View.readAt (Elt Ideal) (Memref.whole cc1_scratch3 : Memref sig .scVector .vmem S48x224 .f32).view (Rect.unit (s := S48x224) (k1_off33 k 0#32) S1x16.size (k1_off33_inb k 0)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off33 k 0#32) S1x16.size (k1_off33_inb k 0)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off33 k 1#32) S1x16.size (k1_off33_inb k 1)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off33 k 1#32) S1x16.size (k1_off33_inb k 1)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off33 k 2#32) S1x16.size (k1_off33_inb k 2)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off33 k 2#32) S1x16.size (k1_off33_inb k 2)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off33 k 3#32) S1x16.size (k1_off33_inb k 3)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off33 k 3#32) S1x16.size (k1_off33_inb k 3)).toLoadRect gt : Vec Ideal S1x16 .f32) shapeCasts_S1x16_S16 i : EReal)))) rfl ?_
    rw [load_apply' (Memref.whole cc1_scratch3 : Memref sig .scVector .vmem S48x224 .f32) gt (k1_off33 k 0#32) (k1_off33_inb k 0) (4 * k.val + 0) 208 (k1_off33_eq k 0) i,
      load_apply' (Memref.whole cc1_scratch3 : Memref sig .scVector .vmem S48x224 .f32) gt (k1_off33 k 1#32) (k1_off33_inb k 1) (4 * k.val + 1) 208 (k1_off33_eq k 1) i,
      load_apply' (Memref.whole cc1_scratch3 : Memref sig .scVector .vmem S48x224 .f32) gt (k1_off33 k 2#32) (k1_off33_inb k 2) (4 * k.val + 2) 208 (k1_off33_eq k 2) i,
      load_apply' (Memref.whole cc1_scratch3 : Memref sig .scVector .vmem S48x224 .f32) gt (k1_off33 k 3#32) (k1_off33_inb k 3) (4 * k.val + 3) 208 (k1_off33_eq k 3) i]
    exact (mxAbs_four _ _ k.val).symm

/-- THE CLOSED FORM of loop t15: after `n` trips the sums are the initial ones with rows `0 … 4 n − 1` added. -/
theorem sumsV_t15_closed (init : σ4) (n : ℕ) (hn : n ≤ k1_t15_loop.trips) :
    sumsV_t15 (F := Ideal) d L gi gt init n = closed4 ((Memref.whole cc1_scratch2 : Memref sig .scVector .vmem S48x224 .f32).view.read (Elt Ideal) gi) ((Memref.whole cc1_scratch3 : Memref sig .scVector .vmem S48x224 .f32).view.read (Elt Ideal) gt) 192 208 init (4 * n) := by
  induction n with
  | zero => rw [Nat.mul_zero, closed4_zero]; rfl
  | succ n ih =>
    have hlt : n < k1_t15_loop.trips := hn
    rw [sumsV_t15, dif_pos hlt, ih (Nat.le_of_lt hlt)]
    exact stepV_t15_closed d L gi gt ⟨n, hlt⟩ init

end Loop15

end Cert.KernelIdeal.ScTile

end
-- ==== Proof.ScTileCellsRun1I.lean ====
/-
  The accumulation loops' results as cells: each loop, run its twelve trips from a lane group's cells, leaves the cells
  the closed form names (channel group 1: loops t9 … t15).
-/
import proofs.«210586_g14980845929080_cont_week2b_1062_66_alg».proof.Proof.ScTileVMath1I
import proofs.«210586_g14980845929080_cont_week2b_1062_66_alg».proof.Proof.ScTileCellsMathI

noncomputable section

namespace Cert.KernelIdeal.ScTile

open Cert.KernelIdeal Cert.KernelIdeal.Gen Cert.KernelIdeal.ScTileV
open Idealize.ShloMosaic Idealize.ShloMosaic.ValueIdx
open Idealize.ShloMosaic.SparseCore (S V T)

variable (d : Dev nD) (L : grid1.Coords)

/-- Loop t9 from the cells `c`: all twelve trips. -/
theorem region_t9 (gi : Buf (Elt Ideal) ((V d (cV L) (jV L)).loc cc1_scratch2)) (gt : Buf (Elt Ideal) ((V d (cV L) (jV L)).loc cc1_scratch3)) (c : Cells4) :
    cells4 (sumsV_t9 (F := Ideal) d L gi gt (lanes4 c) k1_t9_loop.trips)
      = cells4 (closed4 ((Memref.whole cc1_scratch2 : Memref sig .scVector .vmem S48x224 .f32).view.read (Elt Ideal) gi) ((Memref.whole cc1_scratch3 : Memref sig .scVector .vmem S48x224 .f32).view.read (Elt Ideal) gt) 0 16 (lanes4 c) 48) := by
  rw [sumsV_t9_closed d L gi gt (lanes4 c) k1_t9_loop.trips le_rfl]
  rfl

/-- Loop t10 from the cells `c`: all twelve trips. -/
theorem region_t10 (gi : Buf (Elt Ideal) ((V d (cV L) (jV L)).loc cc1_scratch2)) (gt : Buf (Elt Ideal) ((V d (cV L) (jV L)).loc cc1_scratch3)) (c : Cells4) :
    cells4 (sumsV_t10 (F := Ideal) d L gi gt (lanes4 c) k1_t10_loop.trips)
      = cells4 (closed4 ((Memref.whole cc1_scratch2 : Memref sig .scVector .vmem S48x224 .f32).view.read (Elt Ideal) gi) ((Memref.whole cc1_scratch3 : Memref sig .scVector .vmem S48x224 .f32).view.read (Elt Ideal) gt) 32 48 (lanes4 c) 48) := by
  rw [sumsV_t10_closed d L gi gt (lanes4 c) k1_t10_loop.trips le_rfl]
  rfl

/-- Loop t11 from the cells `c`: all twelve trips. -/
theorem region_t11 (gi : Buf (Elt Ideal) ((V d (cV L) (jV L)).loc cc1_scratch2)) (gt : Buf (Elt Ideal) ((V d (cV L) (jV L)).loc cc1_scratch3)) (c : Cells4) :
    cells4 (sumsV_t11 (F := Ideal) d L gi gt (lanes4 c) k1_t11_loop.trips)
      = cells4 (closed4 ((Memref.whole cc1_scratch2 : Memref sig .scVector .vmem S48x224 .f32).view.read (Elt Ideal) gi) ((Memref.whole cc1_scratch3 : Memref sig .scVector .vmem S48x224 .f32).view.read (Elt Ideal) gt) 64 80 (lanes4 c) 48) := by
  rw [sumsV_t11_closed d L gi gt (lanes4 c) k1_t11_loop.trips le_rfl]
  rfl

/-- Loop t12 from the cells `c`: all twelve trips. -/
theorem region_t12 (gi : Buf (Elt Ideal) ((V d (cV L) (jV L)).loc cc1_scratch2)) (gt : Buf (Elt Ideal) ((V d (cV L) (jV L)).loc cc1_scratch3)) (c : Cells4) :
    cells4 (sumsV_t12 (F := Ideal) d L gi gt (lanes4 c) k1_t12_loop.trips)
      = cells4 (closed4 ((Memref.whole cc1_scratch2 : Memref sig .scVector .vmem S48x224 .f32).view.read (Elt Ideal) gi) ((Memref.whole cc1_scratch3 : Memref sig .scVector .vmem S48x224 .f32).view.read (Elt Ideal) gt) 96 112 (lanes4 c) 48) := by
  rw [sumsV_t12_closed d L gi gt (lanes4 c) k1_t12_loop.trips le_rfl]
  rfl

/-- Loop t13 from the cells `c`: all twelve trips. -/
theorem region_t13 (gi : Buf (Elt Ideal) ((V d (cV L) (jV L)).loc cc1_scratch2)) (gt : Buf (Elt Ideal) ((V d (cV L) (jV L)).loc cc1_scratch3)) (c : Cells4) :
    cells4 (sumsV_t13 (F := Ideal) d L gi gt (lanes4 c) k1_t13_loop.trips)
      = cells4 (closed4 ((Memref.whole cc1_scratch2 : Memref sig .scVector .vmem S48x224 .f32).view.read (Elt Ideal) gi) ((Memref.whole cc1_scratch3 : Memref sig .scVector .vmem S48x224 .f32).view.read (Elt Ideal) gt) 128 144 (lanes4 c) 48) := by
  rw [sumsV_t13_closed d L gi gt (lanes4 c) k1_t13_loop.trips le_rfl]
  rfl

/-- Loop t14 from the cells `c`: all twelve trips. -/
theorem region_t14 (gi : Buf (Elt Ideal) ((V d (cV L) (jV L)).loc cc1_scratch2)) (gt : Buf (Elt Ideal) ((V d (cV L) (jV L)).loc cc1_scratch3)) (c : Cells4) :
    cells4 (sumsV_t14 (F := Ideal) d L gi gt (lanes4 c) k1_t14_loop.trips)
      = cells4 (closed4 ((Memref.whole cc1_scratch2 : Memref sig .scVector .vmem S48x224 .f32).view.read (Elt Ideal) gi) ((Memref.whole cc1_scratch3 : Memref sig .scVector .vmem S48x224 .f32).view.read (Elt Ideal) gt) 160 176 (lanes4 c) 48) := by
  rw [sumsV_t14_closed d L gi gt (lanes4 c) k1_t14_loop.trips le_rfl]
  rfl

/-- Loop t15 from the cells `c`: all twelve trips. -/
theorem region_t15 (gi : Buf (Elt Ideal) ((V d (cV L) (jV L)).loc cc1_scratch2)) (gt : Buf (Elt Ideal) ((V d (cV L) (jV L)).loc cc1_scratch3)) (c : Cells4) :
    cells4 (sumsV_t15 (F := Ideal) d L gi gt (lanes4 c) k1_t15_loop.trips)
      = cells4 (closed4 ((Memref.whole cc1_scratch2 : Memref sig .scVector .vmem S48x224 .f32).view.read (Elt Ideal) gi) ((Memref.whole cc1_scratch3 : Memref sig .scVector .vmem S48x224 .f32).view.read (Elt Ideal) gt) 192 208 (lanes4 c) 48) := by
  rw [sumsV_t15_closed d L gi gt (lanes4 c) k1_t15_loop.trips le_rfl]
  rfl

end Cert.KernelIdeal.ScTile

end
-- ==== Proof.ScTileVMath2I.lean ====
import proofs.«210586_g14980845929080_cont_week2b_1062_66_alg».proof.Proof.ScTileVMathI
import proofs.«210586_g14980845929080_cont_week2b_1062_66_alg».proof.Proof.ScTileValI
import Idealize.ShloMosaic.Lib.WholeRead
import Idealize.ShloMosaic.Lib.ValueIdx
import Idealize.ShloMosaic.Lib.ValueLayout
import Idealize.ShloMosaic.PureOps.Ideal.Laws

noncomputable section

open scoped BigOperators

namespace Cert.KernelIdeal.ScTile

open Cert.KernelIdeal Cert.KernelIdeal.Gen Cert.KernelIdeal.ScTileV
open Idealize.ShloMosaic Idealize.ShloMosaic.ValueIdx
open Idealize.ShloMosaic.SparseCore (S V T)
open Idealize.ShloMosaic.Tactic

variable (d : Dev nD) (L : grid1.Coords)

/-! # The accumulation loops' sums in closed form: channel group 2 (loops t16 … t22) -/

section Loop16
variable (gi : Buf (Elt Ideal) ((V d (cV L) (jV L)).loc cc1_scratch0)) (gt : Buf (Elt Ideal) ((V d (cV L) (jV L)).loc cc1_scratch1))

/-- One trip of accumulation loop t16 adds rows `4 k … 4 k + 3` at columns `0 + lane` and `16 + lane`. -/
theorem stepV_t16_closed (k : Fin k1_t16_loop.trips) (init : σ4) :
    stepV_t16 (F := Ideal) d L gi gt k (closed4 ((Memref.whole cc1_scratch0 : Memref sig .scVector .vmem S48x224 .f32).view.read (Elt Ideal) gi) ((Memref.whole cc1_scratch1 : Memref sig .scVector .vmem S48x224 .f32).view.read (Elt Ideal) gt) 0 16 init (4 * k.val))
      = closed4 ((Memref.whole cc1_scratch0 : Memref sig .scVector .vmem S48x224 .f32).view.read (Elt Ideal) gi) ((Memref.whole cc1_scratch1 : Memref sig .scVector .vmem S48x224 .f32).view.read (Elt Ideal) gt) 0 16 init (4 * (k.val + 1)) := by
  refine Prod.ext ?_ (Prod.ext ?_ (Prod.ext ?_ ?_))
  all_goals funext i
  · refine Eq.trans (b := sqSum (fun c => rdN ((Memref.whole cc1_scratch0 : Memref sig .scVector .vmem S48x224 .f32).view.read (Elt Ideal) gi) c (0 + (i 0).val)) (fun c => rdN ((Memref.whole cc1_scratch1 : Memref sig .scVector .vmem S48x224 .f32).view.read (Elt Ideal) gt) c (0 + (i 0).val)) (init.1 i) (4 * k.val)
          + ((shapeCast S16 (View.readAt (Elt Ideal) (Memref.whole cc1_scratch0 : Memref sig .scVector .vmem S48x224 .f32).view (Rect.unit (s := S48x224) (k1_off35 k 0#32) S1x16.size (k1_off35_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off35 k 0#32) S1x16.size (k1_off35_inb k 0)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off35 k 0#32) S1x16.size (k1_off35_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off35 k 0#32) S1x16.size (k1_off35_inb k 0)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off35 k 1#32) S1x16.size (k1_off35_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off35 k 1#32) S1x16.size (k1_off35_inb k 1)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off35 k 1#32) S1x16.size (k1_off35_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off35 k 1#32) S1x16.size (k1_off35_inb k 1)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off35 k 2#32) S1x16.size (k1_off35_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off35 k 2#32) S1x16.size (k1_off35_inb k 2)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off35 k 2#32) S1x16.size (k1_off35_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off35 k 2#32) S1x16.size (k1_off35_inb k 2)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off35 k 3#32) S1x16.size (k1_off35_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off35 k 3#32) S1x16.size (k1_off35_inb k 3)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off35 k 3#32) S1x16.size (k1_off35_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off35 k 3#32) S1x16.size (k1_off35_inb k 3)).toLoadRect gt : Vec Ideal S1x16 .f32) shapeCasts_S1x16_S16 i : EReal))) rfl ?_
    rw [load_apply' (Memref.whole cc1_scratch0 : Memref sig .scVector .vmem S48x224 .f32) gi (k1_off35 k 0#32) (k1_off35_inb k 0) (4 * k.val + 0) 0 (k1_off35_eq k 0) i, load_apply' (Memref.whole cc1_scratch1 : Memref sig .scVector .vmem S48x224 .f32) gt (k1_off35 k 0#32) (k1_off35_inb k 0) (4 * k.val + 0) 0 (k1_off35_eq k 0) i,
      load_apply' (Memref.whole cc1_scratch0 : Memref sig .scVector .vmem S48x224 .f32) gi (k1_off35 k 1#32) (k1_off35_inb k 1) (4 * k.val + 1) 0 (k1_off35_eq k 1) i, load_apply' (Memref.whole cc1_scratch1 : Memref sig .scVector .vmem S48x224 .f32) gt (k1_off35 k 1#32) (k1_off35_inb k 1) (4 * k.val + 1) 0 (k1_off35_eq k 1) i,
      load_apply' (Memref.whole cc1_scratch0 : Memref sig .scVector .vmem S48x224 .f32) gi (k1_off35 k 2#32) (k1_off35_inb k 2) (4 * k.val + 2) 0 (k1_off35_eq k 2) i, load_apply' (Memref.whole cc1_scratch1 : Memref sig .scVector .vmem S48x224 .f32) gt (k1_off35 k 2#32) (k1_off35_inb k 2) (4 * k.val + 2) 0 (k1_off35_eq k 2) i,
      load_apply' (Memref.whole cc1_scratch0 : Memref sig .scVector .vmem S48x224 .f32) gi (k1_off35 k 3#32) (k1_off35_inb k 3) (4 * k.val + 3) 0 (k1_off35_eq k 3) i, load_apply' (Memref.whole cc1_scratch1 : Memref sig .scVector .vmem S48x224 .f32) gt (k1_off35 k 3#32) (k1_off35_inb k 3) (4 * k.val + 3) 0 (k1_off35_eq k 3) i]
    exact (sqSum_four _ _ _ k.val).symm
  · refine Eq.trans (b := sqSum (fun c => rdN ((Memref.whole cc1_scratch0 : Memref sig .scVector .vmem S48x224 .f32).view.read (Elt Ideal) gi) c (16 + (i 0).val)) (fun c => rdN ((Memref.whole cc1_scratch1 : Memref sig .scVector .vmem S48x224 .f32).view.read (Elt Ideal) gt) c (16 + (i 0).val)) (init.2.1 i) (4 * k.val)
          + ((shapeCast S16 (View.readAt (Elt Ideal) (Memref.whole cc1_scratch0 : Memref sig .scVector .vmem S48x224 .f32).view (Rect.unit (s := S48x224) (k1_off36 k 0#32) S1x16.size (k1_off36_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off36 k 0#32) S1x16.size (k1_off36_inb k 0)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off36 k 0#32) S1x16.size (k1_off36_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off36 k 0#32) S1x16.size (k1_off36_inb k 0)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off36 k 1#32) S1x16.size (k1_off36_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off36 k 1#32) S1x16.size (k1_off36_inb k 1)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off36 k 1#32) S1x16.size (k1_off36_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off36 k 1#32) S1x16.size (k1_off36_inb k 1)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off36 k 2#32) S1x16.size (k1_off36_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off36 k 2#32) S1x16.size (k1_off36_inb k 2)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off36 k 2#32) S1x16.size (k1_off36_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off36 k 2#32) S1x16.size (k1_off36_inb k 2)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off36 k 3#32) S1x16.size (k1_off36_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off36 k 3#32) S1x16.size (k1_off36_inb k 3)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off36 k 3#32) S1x16.size (k1_off36_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off36 k 3#32) S1x16.size (k1_off36_inb k 3)).toLoadRect gt : Vec Ideal S1x16 .f32) shapeCasts_S1x16_S16 i : EReal))) rfl ?_
    rw [load_apply' (Memref.whole cc1_scratch0 : Memref sig .scVector .vmem S48x224 .f32) gi (k1_off36 k 0#32) (k1_off36_inb k 0) (4 * k.val + 0) 16 (k1_off36_eq k 0) i, load_apply' (Memref.whole cc1_scratch1 : Memref sig .scVector .vmem S48x224 .f32) gt (k1_off36 k 0#32) (k1_off36_inb k 0) (4 * k.val + 0) 16 (k1_off36_eq k 0) i,
      load_apply' (Memref.whole cc1_scratch0 : Memref sig .scVector .vmem S48x224 .f32) gi (k1_off36 k 1#32) (k1_off36_inb k 1) (4 * k.val + 1) 16 (k1_off36_eq k 1) i, load_apply' (Memref.whole cc1_scratch1 : Memref sig .scVector .vmem S48x224 .f32) gt (k1_off36 k 1#32) (k1_off36_inb k 1) (4 * k.val + 1) 16 (k1_off36_eq k 1) i,
      load_apply' (Memref.whole cc1_scratch0 : Memref sig .scVector .vmem S48x224 .f32) gi (k1_off36 k 2#32) (k1_off36_inb k 2) (4 * k.val + 2) 16 (k1_off36_eq k 2) i, load_apply' (Memref.whole cc1_scratch1 : Memref sig .scVector .vmem S48x224 .f32) gt (k1_off36 k 2#32) (k1_off36_inb k 2) (4 * k.val + 2) 16 (k1_off36_eq k 2) i,
      load_apply' (Memref.whole cc1_scratch0 : Memref sig .scVector .vmem S48x224 .f32) gi (k1_off36 k 3#32) (k1_off36_inb k 3) (4 * k.val + 3) 16 (k1_off36_eq k 3) i, load_apply' (Memref.whole cc1_scratch1 : Memref sig .scVector .vmem S48x224 .f32) gt (k1_off36 k 3#32) (k1_off36_inb k 3) (4 * k.val + 3) 16 (k1_off36_eq k 3) i]
    exact (sqSum_four _ _ _ k.val).symm
  · refine Eq.trans (b := max (max (max (max (mxAbs (fun c => rdN ((Memref.whole cc1_scratch1 : Memref sig .scVector .vmem S48x224 .f32).view.read (Elt Ideal) gt) c (0 + (i 0).val)) (init.2.2.1 i) (4 * k.val))
          (max (shapeCast S16 (View.readAt (Elt Ideal) (Memref.whole cc1_scratch1 : Memref sig .scVector .vmem S48x224 .f32).view (Rect.unit (s := S48x224) (k1_off35 k 0#32) S1x16.size (k1_off35_inb k 0)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off35 k 0#32) S1x16.size (k1_off35_inb k 0)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off35 k 1#32) S1x16.size (k1_off35_inb k 1)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off35 k 1#32) S1x16.size (k1_off35_inb k 1)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off35 k 2#32) S1x16.size (k1_off35_inb k 2)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off35 k 2#32) S1x16.size (k1_off35_inb k 2)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off35 k 3#32) S1x16.size (k1_off35_inb k 3)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off35 k 3#32) S1x16.size (k1_off35_inb k 3)).toLoadRect gt : Vec Ideal S1x16 .f32) shapeCasts_S1x16_S16 i : EReal)))) rfl ?_
    rw [load_apply' (Memref.whole cc1_scratch1 : Memref sig .scVector .vmem S48x224 .f32) gt (k1_off35 k 0#32) (k1_off35_inb k 0) (4 * k.val + 0) 0 (k1_off35_eq k 0) i,
      load_apply' (Memref.whole cc1_scratch1 : Memref sig .scVector .vmem S48x224 .f32) gt (k1_off35 k 1#32) (k1_off35_inb k 1) (4 * k.val + 1) 0 (k1_off35_eq k 1) i,
      load_apply' (Memref.whole cc1_scratch1 : Memref sig .scVector .vmem S48x224 .f32) gt (k1_off35 k 2#32) (k1_off35_inb k 2) (4 * k.val + 2) 0 (k1_off35_eq k 2) i,
      load_apply' (Memref.whole cc1_scratch1 : Memref sig .scVector .vmem S48x224 .f32) gt (k1_off35 k 3#32) (k1_off35_inb k 3) (4 * k.val + 3) 0 (k1_off35_eq k 3) i]
    exact (mxAbs_four _ _ k.val).symm
  · refine Eq.trans (b := max (max (max (max (mxAbs (fun c => rdN ((Memref.whole cc1_scratch1 : Memref sig .scVector .vmem S48x224 .f32).view.read (Elt Ideal) gt) c (16 + (i 0).val)) (init.2.2.2 i) (4 * k.val))
          (max (shapeCast S16 (View.readAt (Elt Ideal) (Memref.whole cc1_scratch1 : Memref sig .scVector .vmem S48x224 .f32).view (Rect.unit (s := S48x224) (k1_off36 k 0#32) S1x16.size (k1_off36_inb k 0)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off36 k 0#32) S1x16.size (k1_off36_inb k 0)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off36 k 1#32) S1x16.size (k1_off36_inb k 1)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off36 k 1#32) S1x16.size (k1_off36_inb k 1)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off36 k 2#32) S1x16.size (k1_off36_inb k 2)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off36 k 2#32) S1x16.size (k1_off36_inb k 2)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off36 k 3#32) S1x16.size (k1_off36_inb k 3)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off36 k 3#32) S1x16.size (k1_off36_inb k 3)).toLoadRect gt : Vec Ideal S1x16 .f32) shapeCasts_S1x16_S16 i : EReal)))) rfl ?_
    rw [load_apply' (Memref.whole cc1_scratch1 : Memref sig .scVector .vmem S48x224 .f32) gt (k1_off36 k 0#32) (k1_off36_inb k 0) (4 * k.val + 0) 16 (k1_off36_eq k 0) i,
      load_apply' (Memref.whole cc1_scratch1 : Memref sig .scVector .vmem S48x224 .f32) gt (k1_off36 k 1#32) (k1_off36_inb k 1) (4 * k.val + 1) 16 (k1_off36_eq k 1) i,
      load_apply' (Memref.whole cc1_scratch1 : Memref sig .scVector .vmem S48x224 .f32) gt (k1_off36 k 2#32) (k1_off36_inb k 2) (4 * k.val + 2) 16 (k1_off36_eq k 2) i,
      load_apply' (Memref.whole cc1_scratch1 : Memref sig .scVector .vmem S48x224 .f32) gt (k1_off36 k 3#32) (k1_off36_inb k 3) (4 * k.val + 3) 16 (k1_off36_eq k 3) i]
    exact (mxAbs_four _ _ k.val).symm

/-- THE CLOSED FORM of loop t16: after `n` trips the sums are the initial ones with rows `0 … 4 n − 1` added. -/
theorem sumsV_t16_closed (init : σ4) (n : ℕ) (hn : n ≤ k1_t16_loop.trips) :
    sumsV_t16 (F := Ideal) d L gi gt init n = closed4 ((Memref.whole cc1_scratch0 : Memref sig .scVector .vmem S48x224 .f32).view.read (Elt Ideal) gi) ((Memref.whole cc1_scratch1 : Memref sig .scVector .vmem S48x224 .f32).view.read (Elt Ideal) gt) 0 16 init (4 * n) := by
  induction n with
  | zero => rw [Nat.mul_zero, closed4_zero]; rfl
  | succ n ih =>
    have hlt : n < k1_t16_loop.trips := hn
    rw [sumsV_t16, dif_pos hlt, ih (Nat.le_of_lt hlt)]
    exact stepV_t16_closed d L gi gt ⟨n, hlt⟩ init

end Loop16

section Loop17
variable (gi : Buf (Elt Ideal) ((V d (cV L) (jV L)).loc cc1_scratch0)) (gt : Buf (Elt Ideal) ((V d (cV L) (jV L)).loc cc1_scratch1))

/-- One trip of accumulation loop t17 adds rows `4 k … 4 k + 3` at columns `32 + lane` and `48 + lane`. -/
theorem stepV_t17_closed (k : Fin k1_t17_loop.trips) (init : σ4) :
    stepV_t17 (F := Ideal) d L gi gt k (closed4 ((Memref.whole cc1_scratch0 : Memref sig .scVector .vmem S48x224 .f32).view.read (Elt Ideal) gi) ((Memref.whole cc1_scratch1 : Memref sig .scVector .vmem S48x224 .f32).view.read (Elt Ideal) gt) 32 48 init (4 * k.val))
      = closed4 ((Memref.whole cc1_scratch0 : Memref sig .scVector .vmem S48x224 .f32).view.read (Elt Ideal) gi) ((Memref.whole cc1_scratch1 : Memref sig .scVector .vmem S48x224 .f32).view.read (Elt Ideal) gt) 32 48 init (4 * (k.val + 1)) := by
  refine Prod.ext ?_ (Prod.ext ?_ (Prod.ext ?_ ?_))
  all_goals funext i
  · refine Eq.trans (b := sqSum (fun c => rdN ((Memref.whole cc1_scratch0 : Memref sig .scVector .vmem S48x224 .f32).view.read (Elt Ideal) gi) c (32 + (i 0).val)) (fun c => rdN ((Memref.whole cc1_scratch1 : Memref sig .scVector .vmem S48x224 .f32).view.read (Elt Ideal) gt) c (32 + (i 0).val)) (init.1 i) (4 * k.val)
          + ((shapeCast S16 (View.readAt (Elt Ideal) (Memref.whole cc1_scratch0 : Memref sig .scVector .vmem S48x224 .f32).view (Rect.unit (s := S48x224) (k1_off37 k 0#32) S1x16.size (k1_off37_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off37 k 0#32) S1x16.size (k1_off37_inb k 0)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off37 k 0#32) S1x16.size (k1_off37_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off37 k 0#32) S1x16.size (k1_off37_inb k 0)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off37 k 1#32) S1x16.size (k1_off37_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off37 k 1#32) S1x16.size (k1_off37_inb k 1)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off37 k 1#32) S1x16.size (k1_off37_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off37 k 1#32) S1x16.size (k1_off37_inb k 1)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off37 k 2#32) S1x16.size (k1_off37_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off37 k 2#32) S1x16.size (k1_off37_inb k 2)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off37 k 2#32) S1x16.size (k1_off37_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off37 k 2#32) S1x16.size (k1_off37_inb k 2)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off37 k 3#32) S1x16.size (k1_off37_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off37 k 3#32) S1x16.size (k1_off37_inb k 3)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off37 k 3#32) S1x16.size (k1_off37_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off37 k 3#32) S1x16.size (k1_off37_inb k 3)).toLoadRect gt : Vec Ideal S1x16 .f32) shapeCasts_S1x16_S16 i : EReal))) rfl ?_
    rw [load_apply' (Memref.whole cc1_scratch0 : Memref sig .scVector .vmem S48x224 .f32) gi (k1_off37 k 0#32) (k1_off37_inb k 0) (4 * k.val + 0) 32 (k1_off37_eq k 0) i, load_apply' (Memref.whole cc1_scratch1 : Memref sig .scVector .vmem S48x224 .f32) gt (k1_off37 k 0#32) (k1_off37_inb k 0) (4 * k.val + 0) 32 (k1_off37_eq k 0) i,
      load_apply' (Memref.whole cc1_scratch0 : Memref sig .scVector .vmem S48x224 .f32) gi (k1_off37 k 1#32) (k1_off37_inb k 1) (4 * k.val + 1) 32 (k1_off37_eq k 1) i, load_apply' (Memref.whole cc1_scratch1 : Memref sig .scVector .vmem S48x224 .f32) gt (k1_off37 k 1#32) (k1_off37_inb k 1) (4 * k.val + 1) 32 (k1_off37_eq k 1) i,
      load_apply' (Memref.whole cc1_scratch0 : Memref sig .scVector .vmem S48x224 .f32) gi (k1_off37 k 2#32) (k1_off37_inb k 2) (4 * k.val + 2) 32 (k1_off37_eq k 2) i, load_apply' (Memref.whole cc1_scratch1 : Memref sig .scVector .vmem S48x224 .f32) gt (k1_off37 k 2#32) (k1_off37_inb k 2) (4 * k.val + 2) 32 (k1_off37_eq k 2) i,
      load_apply' (Memref.whole cc1_scratch0 : Memref sig .scVector .vmem S48x224 .f32) gi (k1_off37 k 3#32) (k1_off37_inb k 3) (4 * k.val + 3) 32 (k1_off37_eq k 3) i, load_apply' (Memref.whole cc1_scratch1 : Memref sig .scVector .vmem S48x224 .f32) gt (k1_off37 k 3#32) (k1_off37_inb k 3) (4 * k.val + 3) 32 (k1_off37_eq k 3) i]
    exact (sqSum_four _ _ _ k.val).symm
  · refine Eq.trans (b := sqSum (fun c => rdN ((Memref.whole cc1_scratch0 : Memref sig .scVector .vmem S48x224 .f32).view.read (Elt Ideal) gi) c (48 + (i 0).val)) (fun c => rdN ((Memref.whole cc1_scratch1 : Memref sig .scVector .vmem S48x224 .f32).view.read (Elt Ideal) gt) c (48 + (i 0).val)) (init.2.1 i) (4 * k.val)
          + ((shapeCast S16 (View.readAt (Elt Ideal) (Memref.whole cc1_scratch0 : Memref sig .scVector .vmem S48x224 .f32).view (Rect.unit (s := S48x224) (k1_off38 k 0#32) S1x16.size (k1_off38_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off38 k 0#32) S1x16.size (k1_off38_inb k 0)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off38 k 0#32) S1x16.size (k1_off38_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off38 k 0#32) S1x16.size (k1_off38_inb k 0)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off38 k 1#32) S1x16.size (k1_off38_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off38 k 1#32) S1x16.size (k1_off38_inb k 1)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off38 k 1#32) S1x16.size (k1_off38_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off38 k 1#32) S1x16.size (k1_off38_inb k 1)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off38 k 2#32) S1x16.size (k1_off38_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off38 k 2#32) S1x16.size (k1_off38_inb k 2)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off38 k 2#32) S1x16.size (k1_off38_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off38 k 2#32) S1x16.size (k1_off38_inb k 2)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off38 k 3#32) S1x16.size (k1_off38_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off38 k 3#32) S1x16.size (k1_off38_inb k 3)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off38 k 3#32) S1x16.size (k1_off38_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off38 k 3#32) S1x16.size (k1_off38_inb k 3)).toLoadRect gt : Vec Ideal S1x16 .f32) shapeCasts_S1x16_S16 i : EReal))) rfl ?_
    rw [load_apply' (Memref.whole cc1_scratch0 : Memref sig .scVector .vmem S48x224 .f32) gi (k1_off38 k 0#32) (k1_off38_inb k 0) (4 * k.val + 0) 48 (k1_off38_eq k 0) i, load_apply' (Memref.whole cc1_scratch1 : Memref sig .scVector .vmem S48x224 .f32) gt (k1_off38 k 0#32) (k1_off38_inb k 0) (4 * k.val + 0) 48 (k1_off38_eq k 0) i,
      load_apply' (Memref.whole cc1_scratch0 : Memref sig .scVector .vmem S48x224 .f32) gi (k1_off38 k 1#32) (k1_off38_inb k 1) (4 * k.val + 1) 48 (k1_off38_eq k 1) i, load_apply' (Memref.whole cc1_scratch1 : Memref sig .scVector .vmem S48x224 .f32) gt (k1_off38 k 1#32) (k1_off38_inb k 1) (4 * k.val + 1) 48 (k1_off38_eq k 1) i,
      load_apply' (Memref.whole cc1_scratch0 : Memref sig .scVector .vmem S48x224 .f32) gi (k1_off38 k 2#32) (k1_off38_inb k 2) (4 * k.val + 2) 48 (k1_off38_eq k 2) i, load_apply' (Memref.whole cc1_scratch1 : Memref sig .scVector .vmem S48x224 .f32) gt (k1_off38 k 2#32) (k1_off38_inb k 2) (4 * k.val + 2) 48 (k1_off38_eq k 2) i,
      load_apply' (Memref.whole cc1_scratch0 : Memref sig .scVector .vmem S48x224 .f32) gi (k1_off38 k 3#32) (k1_off38_inb k 3) (4 * k.val + 3) 48 (k1_off38_eq k 3) i, load_apply' (Memref.whole cc1_scratch1 : Memref sig .scVector .vmem S48x224 .f32) gt (k1_off38 k 3#32) (k1_off38_inb k 3) (4 * k.val + 3) 48 (k1_off38_eq k 3) i]
    exact (sqSum_four _ _ _ k.val).symm
  · refine Eq.trans (b := max (max (max (max (mxAbs (fun c => rdN ((Memref.whole cc1_scratch1 : Memref sig .scVector .vmem S48x224 .f32).view.read (Elt Ideal) gt) c (32 + (i 0).val)) (init.2.2.1 i) (4 * k.val))
          (max (shapeCast S16 (View.readAt (Elt Ideal) (Memref.whole cc1_scratch1 : Memref sig .scVector .vmem S48x224 .f32).view (Rect.unit (s := S48x224) (k1_off37 k 0#32) S1x16.size (k1_off37_inb k 0)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off37 k 0#32) S1x16.size (k1_off37_inb k 0)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off37 k 1#32) S1x16.size (k1_off37_inb k 1)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off37 k 1#32) S1x16.size (k1_off37_inb k 1)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off37 k 2#32) S1x16.size (k1_off37_inb k 2)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off37 k 2#32) S1x16.size (k1_off37_inb k 2)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off37 k 3#32) S1x16.size (k1_off37_inb k 3)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off37 k 3#32) S1x16.size (k1_off37_inb k 3)).toLoadRect gt : Vec Ideal S1x16 .f32) shapeCasts_S1x16_S16 i : EReal)))) rfl ?_
    rw [load_apply' (Memref.whole cc1_scratch1 : Memref sig .scVector .vmem S48x224 .f32) gt (k1_off37 k 0#32) (k1_off37_inb k 0) (4 * k.val + 0) 32 (k1_off37_eq k 0) i,
      load_apply' (Memref.whole cc1_scratch1 : Memref sig .scVector .vmem S48x224 .f32) gt (k1_off37 k 1#32) (k1_off37_inb k 1) (4 * k.val + 1) 32 (k1_off37_eq k 1) i,
      load_apply' (Memref.whole cc1_scratch1 : Memref sig .scVector .vmem S48x224 .f32) gt (k1_off37 k 2#32) (k1_off37_inb k 2) (4 * k.val + 2) 32 (k1_off37_eq k 2) i,
      load_apply' (Memref.whole cc1_scratch1 : Memref sig .scVector .vmem S48x224 .f32) gt (k1_off37 k 3#32) (k1_off37_inb k 3) (4 * k.val + 3) 32 (k1_off37_eq k 3) i]
    exact (mxAbs_four _ _ k.val).symm
  · refine Eq.trans (b := max (max (max (max (mxAbs (fun c => rdN ((Memref.whole cc1_scratch1 : Memref sig .scVector .vmem S48x224 .f32).view.read (Elt Ideal) gt) c (48 + (i 0).val)) (init.2.2.2 i) (4 * k.val))
          (max (shapeCast S16 (View.readAt (Elt Ideal) (Memref.whole cc1_scratch1 : Memref sig .scVector .vmem S48x224 .f32).view (Rect.unit (s := S48x224) (k1_off38 k 0#32) S1x16.size (k1_off38_inb k 0)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off38 k 0#32) S1x16.size (k1_off38_inb k 0)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off38 k 1#32) S1x16.size (k1_off38_inb k 1)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off38 k 1#32) S1x16.size (k1_off38_inb k 1)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off38 k 2#32) S1x16.size (k1_off38_inb k 2)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off38 k 2#32) S1x16.size (k1_off38_inb k 2)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off38 k 3#32) S1x16.size (k1_off38_inb k 3)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off38 k 3#32) S1x16.size (k1_off38_inb k 3)).toLoadRect gt : Vec Ideal S1x16 .f32) shapeCasts_S1x16_S16 i : EReal)))) rfl ?_
    rw [load_apply' (Memref.whole cc1_scratch1 : Memref sig .scVector .vmem S48x224 .f32) gt (k1_off38 k 0#32) (k1_off38_inb k 0) (4 * k.val + 0) 48 (k1_off38_eq k 0) i,
      load_apply' (Memref.whole cc1_scratch1 : Memref sig .scVector .vmem S48x224 .f32) gt (k1_off38 k 1#32) (k1_off38_inb k 1) (4 * k.val + 1) 48 (k1_off38_eq k 1) i,
      load_apply' (Memref.whole cc1_scratch1 : Memref sig .scVector .vmem S48x224 .f32) gt (k1_off38 k 2#32) (k1_off38_inb k 2) (4 * k.val + 2) 48 (k1_off38_eq k 2) i,
      load_apply' (Memref.whole cc1_scratch1 : Memref sig .scVector .vmem S48x224 .f32) gt (k1_off38 k 3#32) (k1_off38_inb k 3) (4 * k.val + 3) 48 (k1_off38_eq k 3) i]
    exact (mxAbs_four _ _ k.val).symm

/-- THE CLOSED FORM of loop t17: after `n` trips the sums are the initial ones with rows `0 … 4 n − 1` added. -/
theorem sumsV_t17_closed (init : σ4) (n : ℕ) (hn : n ≤ k1_t17_loop.trips) :
    sumsV_t17 (F := Ideal) d L gi gt init n = closed4 ((Memref.whole cc1_scratch0 : Memref sig .scVector .vmem S48x224 .f32).view.read (Elt Ideal) gi) ((Memref.whole cc1_scratch1 : Memref sig .scVector .vmem S48x224 .f32).view.read (Elt Ideal) gt) 32 48 init (4 * n) := by
  induction n with
  | zero => rw [Nat.mul_zero, closed4_zero]; rfl
  | succ n ih =>
    have hlt : n < k1_t17_loop.trips := hn
    rw [sumsV_t17, dif_pos hlt, ih (Nat.le_of_lt hlt)]
    exact stepV_t17_closed d L gi gt ⟨n, hlt⟩ init

end Loop17

section Loop18
variable (gi : Buf (Elt Ideal) ((V d (cV L) (jV L)).loc cc1_scratch0)) (gt : Buf (Elt Ideal) ((V d (cV L) (jV L)).loc cc1_scratch1))

/-- One trip of accumulation loop t18 adds rows `4 k … 4 k + 3` at columns `64 + lane` and `80 + lane`. -/
theorem stepV_t18_closed (k : Fin k1_t18_loop.trips) (init : σ4) :
    stepV_t18 (F := Ideal) d L gi gt k (closed4 ((Memref.whole cc1_scratch0 : Memref sig .scVector .vmem S48x224 .f32).view.read (Elt Ideal) gi) ((Memref.whole cc1_scratch1 : Memref sig .scVector .vmem S48x224 .f32).view.read (Elt Ideal) gt) 64 80 init (4 * k.val))
      = closed4 ((Memref.whole cc1_scratch0 : Memref sig .scVector .vmem S48x224 .f32).view.read (Elt Ideal) gi) ((Memref.whole cc1_scratch1 : Memref sig .scVector .vmem S48x224 .f32).view.read (Elt Ideal) gt) 64 80 init (4 * (k.val + 1)) := by
  refine Prod.ext ?_ (Prod.ext ?_ (Prod.ext ?_ ?_))
  all_goals funext i
  · refine Eq.trans (b := sqSum (fun c => rdN ((Memref.whole cc1_scratch0 : Memref sig .scVector .vmem S48x224 .f32).view.read (Elt Ideal) gi) c (64 + (i 0).val)) (fun c => rdN ((Memref.whole cc1_scratch1 : Memref sig .scVector .vmem S48x224 .f32).view.read (Elt Ideal) gt) c (64 + (i 0).val)) (init.1 i) (4 * k.val)
          + ((shapeCast S16 (View.readAt (Elt Ideal) (Memref.whole cc1_scratch0 : Memref sig .scVector .vmem S48x224 .f32).view (Rect.unit (s := S48x224) (k1_off39 k 0#32) S1x16.size (k1_off39_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off39 k 0#32) S1x16.size (k1_off39_inb k 0)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off39 k 0#32) S1x16.size (k1_off39_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off39 k 0#32) S1x16.size (k1_off39_inb k 0)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off39 k 1#32) S1x16.size (k1_off39_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off39 k 1#32) S1x16.size (k1_off39_inb k 1)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off39 k 1#32) S1x16.size (k1_off39_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off39 k 1#32) S1x16.size (k1_off39_inb k 1)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off39 k 2#32) S1x16.size (k1_off39_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off39 k 2#32) S1x16.size (k1_off39_inb k 2)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off39 k 2#32) S1x16.size (k1_off39_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off39 k 2#32) S1x16.size (k1_off39_inb k 2)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off39 k 3#32) S1x16.size (k1_off39_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off39 k 3#32) S1x16.size (k1_off39_inb k 3)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off39 k 3#32) S1x16.size (k1_off39_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off39 k 3#32) S1x16.size (k1_off39_inb k 3)).toLoadRect gt : Vec Ideal S1x16 .f32) shapeCasts_S1x16_S16 i : EReal))) rfl ?_
    rw [load_apply' (Memref.whole cc1_scratch0 : Memref sig .scVector .vmem S48x224 .f32) gi (k1_off39 k 0#32) (k1_off39_inb k 0) (4 * k.val + 0) 64 (k1_off39_eq k 0) i, load_apply' (Memref.whole cc1_scratch1 : Memref sig .scVector .vmem S48x224 .f32) gt (k1_off39 k 0#32) (k1_off39_inb k 0) (4 * k.val + 0) 64 (k1_off39_eq k 0) i,
      load_apply' (Memref.whole cc1_scratch0 : Memref sig .scVector .vmem S48x224 .f32) gi (k1_off39 k 1#32) (k1_off39_inb k 1) (4 * k.val + 1) 64 (k1_off39_eq k 1) i, load_apply' (Memref.whole cc1_scratch1 : Memref sig .scVector .vmem S48x224 .f32) gt (k1_off39 k 1#32) (k1_off39_inb k 1) (4 * k.val + 1) 64 (k1_off39_eq k 1) i,
      load_apply' (Memref.whole cc1_scratch0 : Memref sig .scVector .vmem S48x224 .f32) gi (k1_off39 k 2#32) (k1_off39_inb k 2) (4 * k.val + 2) 64 (k1_off39_eq k 2) i, load_apply' (Memref.whole cc1_scratch1 : Memref sig .scVector .vmem S48x224 .f32) gt (k1_off39 k 2#32) (k1_off39_inb k 2) (4 * k.val + 2) 64 (k1_off39_eq k 2) i,
      load_apply' (Memref.whole cc1_scratch0 : Memref sig .scVector .vmem S48x224 .f32) gi (k1_off39 k 3#32) (k1_off39_inb k 3) (4 * k.val + 3) 64 (k1_off39_eq k 3) i, load_apply' (Memref.whole cc1_scratch1 : Memref sig .scVector .vmem S48x224 .f32) gt (k1_off39 k 3#32) (k1_off39_inb k 3) (4 * k.val + 3) 64 (k1_off39_eq k 3) i]
    exact (sqSum_four _ _ _ k.val).symm
  · refine Eq.trans (b := sqSum (fun c => rdN ((Memref.whole cc1_scratch0 : Memref sig .scVector .vmem S48x224 .f32).view.read (Elt Ideal) gi) c (80 + (i 0).val)) (fun c => rdN ((Memref.whole cc1_scratch1 : Memref sig .scVector .vmem S48x224 .f32).view.read (Elt Ideal) gt) c (80 + (i 0).val)) (init.2.1 i) (4 * k.val)
          + ((shapeCast S16 (View.readAt (Elt Ideal) (Memref.whole cc1_scratch0 : Memref sig .scVector .vmem S48x224 .f32).view (Rect.unit (s := S48x224) (k1_off40 k 0#32) S1x16.size (k1_off40_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off40 k 0#32) S1x16.size (k1_off40_inb k 0)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off40 k 0#32) S1x16.size (k1_off40_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off40 k 0#32) S1x16.size (k1_off40_inb k 0)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off40 k 1#32) S1x16.size (k1_off40_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off40 k 1#32) S1x16.size (k1_off40_inb k 1)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off40 k 1#32) S1x16.size (k1_off40_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off40 k 1#32) S1x16.size (k1_off40_inb k 1)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off40 k 2#32) S1x16.size (k1_off40_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off40 k 2#32) S1x16.size (k1_off40_inb k 2)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off40 k 2#32) S1x16.size (k1_off40_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off40 k 2#32) S1x16.size (k1_off40_inb k 2)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off40 k 3#32) S1x16.size (k1_off40_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off40 k 3#32) S1x16.size (k1_off40_inb k 3)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off40 k 3#32) S1x16.size (k1_off40_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off40 k 3#32) S1x16.size (k1_off40_inb k 3)).toLoadRect gt : Vec Ideal S1x16 .f32) shapeCasts_S1x16_S16 i : EReal))) rfl ?_
    rw [load_apply' (Memref.whole cc1_scratch0 : Memref sig .scVector .vmem S48x224 .f32) gi (k1_off40 k 0#32) (k1_off40_inb k 0) (4 * k.val + 0) 80 (k1_off40_eq k 0) i, load_apply' (Memref.whole cc1_scratch1 : Memref sig .scVector .vmem S48x224 .f32) gt (k1_off40 k 0#32) (k1_off40_inb k 0) (4 * k.val + 0) 80 (k1_off40_eq k 0) i,
      load_apply' (Memref.whole cc1_scratch0 : Memref sig .scVector .vmem S48x224 .f32) gi (k1_off40 k 1#32) (k1_off40_inb k 1) (4 * k.val + 1) 80 (k1_off40_eq k 1) i, load_apply' (Memref.whole cc1_scratch1 : Memref sig .scVector .vmem S48x224 .f32) gt (k1_off40 k 1#32) (k1_off40_inb k 1) (4 * k.val + 1) 80 (k1_off40_eq k 1) i,
      load_apply' (Memref.whole cc1_scratch0 : Memref sig .scVector .vmem S48x224 .f32) gi (k1_off40 k 2#32) (k1_off40_inb k 2) (4 * k.val + 2) 80 (k1_off40_eq k 2) i, load_apply' (Memref.whole cc1_scratch1 : Memref sig .scVector .vmem S48x224 .f32) gt (k1_off40 k 2#32) (k1_off40_inb k 2) (4 * k.val + 2) 80 (k1_off40_eq k 2) i,
      load_apply' (Memref.whole cc1_scratch0 : Memref sig .scVector .vmem S48x224 .f32) gi (k1_off40 k 3#32) (k1_off40_inb k 3) (4 * k.val + 3) 80 (k1_off40_eq k 3) i, load_apply' (Memref.whole cc1_scratch1 : Memref sig .scVector .vmem S48x224 .f32) gt (k1_off40 k 3#32) (k1_off40_inb k 3) (4 * k.val + 3) 80 (k1_off40_eq k 3) i]
    exact (sqSum_four _ _ _ k.val).symm
  · refine Eq.trans (b := max (max (max (max (mxAbs (fun c => rdN ((Memref.whole cc1_scratch1 : Memref sig .scVector .vmem S48x224 .f32).view.read (Elt Ideal) gt) c (64 + (i 0).val)) (init.2.2.1 i) (4 * k.val))
          (max (shapeCast S16 (View.readAt (Elt Ideal) (Memref.whole cc1_scratch1 : Memref sig .scVector .vmem S48x224 .f32).view (Rect.unit (s := S48x224) (k1_off39 k 0#32) S1x16.size (k1_off39_inb k 0)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off39 k 0#32) S1x16.size (k1_off39_inb k 0)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off39 k 1#32) S1x16.size (k1_off39_inb k 1)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off39 k 1#32) S1x16.size (k1_off39_inb k 1)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off39 k 2#32) S1x16.size (k1_off39_inb k 2)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off39 k 2#32) S1x16.size (k1_off39_inb k 2)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off39 k 3#32) S1x16.size (k1_off39_inb k 3)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off39 k 3#32) S1x16.size (k1_off39_inb k 3)).toLoadRect gt : Vec Ideal S1x16 .f32) shapeCasts_S1x16_S16 i : EReal)))) rfl ?_
    rw [load_apply' (Memref.whole cc1_scratch1 : Memref sig .scVector .vmem S48x224 .f32) gt (k1_off39 k 0#32) (k1_off39_inb k 0) (4 * k.val + 0) 64 (k1_off39_eq k 0) i,
      load_apply' (Memref.whole cc1_scratch1 : Memref sig .scVector .vmem S48x224 .f32) gt (k1_off39 k 1#32) (k1_off39_inb k 1) (4 * k.val + 1) 64 (k1_off39_eq k 1) i,
      load_apply' (Memref.whole cc1_scratch1 : Memref sig .scVector .vmem S48x224 .f32) gt (k1_off39 k 2#32) (k1_off39_inb k 2) (4 * k.val + 2) 64 (k1_off39_eq k 2) i,
      load_apply' (Memref.whole cc1_scratch1 : Memref sig .scVector .vmem S48x224 .f32) gt (k1_off39 k 3#32) (k1_off39_inb k 3) (4 * k.val + 3) 64 (k1_off39_eq k 3) i]
    exact (mxAbs_four _ _ k.val).symm
  · refine Eq.trans (b := max (max (max (max (mxAbs (fun c => rdN ((Memref.whole cc1_scratch1 : Memref sig .scVector .vmem S48x224 .f32).view.read (Elt Ideal) gt) c (80 + (i 0).val)) (init.2.2.2 i) (4 * k.val))
          (max (shapeCast S16 (View.readAt (Elt Ideal) (Memref.whole cc1_scratch1 : Memref sig .scVector .vmem S48x224 .f32).view (Rect.unit (s := S48x224) (k1_off40 k 0#32) S1x16.size (k1_off40_inb k 0)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off40 k 0#32) S1x16.size (k1_off40_inb k 0)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off40 k 1#32) S1x16.size (k1_off40_inb k 1)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off40 k 1#32) S1x16.size (k1_off40_inb k 1)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off40 k 2#32) S1x16.size (k1_off40_inb k 2)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off40 k 2#32) S1x16.size (k1_off40_inb k 2)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off40 k 3#32) S1x16.size (k1_off40_inb k 3)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off40 k 3#32) S1x16.size (k1_off40_inb k 3)).toLoadRect gt : Vec Ideal S1x16 .f32) shapeCasts_S1x16_S16 i : EReal)))) rfl ?_
    rw [load_apply' (Memref.whole cc1_scratch1 : Memref sig .scVector .vmem S48x224 .f32) gt (k1_off40 k 0#32) (k1_off40_inb k 0) (4 * k.val + 0) 80 (k1_off40_eq k 0) i,
      load_apply' (Memref.whole cc1_scratch1 : Memref sig .scVector .vmem S48x224 .f32) gt (k1_off40 k 1#32) (k1_off40_inb k 1) (4 * k.val + 1) 80 (k1_off40_eq k 1) i,
      load_apply' (Memref.whole cc1_scratch1 : Memref sig .scVector .vmem S48x224 .f32) gt (k1_off40 k 2#32) (k1_off40_inb k 2) (4 * k.val + 2) 80 (k1_off40_eq k 2) i,
      load_apply' (Memref.whole cc1_scratch1 : Memref sig .scVector .vmem S48x224 .f32) gt (k1_off40 k 3#32) (k1_off40_inb k 3) (4 * k.val + 3) 80 (k1_off40_eq k 3) i]
    exact (mxAbs_four _ _ k.val).symm

/-- THE CLOSED FORM of loop t18: after `n` trips the sums are the initial ones with rows `0 … 4 n − 1` added. -/
theorem sumsV_t18_closed (init : σ4) (n : ℕ) (hn : n ≤ k1_t18_loop.trips) :
    sumsV_t18 (F := Ideal) d L gi gt init n = closed4 ((Memref.whole cc1_scratch0 : Memref sig .scVector .vmem S48x224 .f32).view.read (Elt Ideal) gi) ((Memref.whole cc1_scratch1 : Memref sig .scVector .vmem S48x224 .f32).view.read (Elt Ideal) gt) 64 80 init (4 * n) := by
  induction n with
  | zero => rw [Nat.mul_zero, closed4_zero]; rfl
  | succ n ih =>
    have hlt : n < k1_t18_loop.trips := hn
    rw [sumsV_t18, dif_pos hlt, ih (Nat.le_of_lt hlt)]
    exact stepV_t18_closed d L gi gt ⟨n, hlt⟩ init

end Loop18

section Loop19
variable (gi : Buf (Elt Ideal) ((V d (cV L) (jV L)).loc cc1_scratch0)) (gt : Buf (Elt Ideal) ((V d (cV L) (jV L)).loc cc1_scratch1))

/-- One trip of accumulation loop t19 adds rows `4 k … 4 k + 3` at columns `96 + lane` and `112 + lane`. -/
theorem stepV_t19_closed (k : Fin k1_t19_loop.trips) (init : σ4) :
    stepV_t19 (F := Ideal) d L gi gt k (closed4 ((Memref.whole cc1_scratch0 : Memref sig .scVector .vmem S48x224 .f32).view.read (Elt Ideal) gi) ((Memref.whole cc1_scratch1 : Memref sig .scVector .vmem S48x224 .f32).view.read (Elt Ideal) gt) 96 112 init (4 * k.val))
      = closed4 ((Memref.whole cc1_scratch0 : Memref sig .scVector .vmem S48x224 .f32).view.read (Elt Ideal) gi) ((Memref.whole cc1_scratch1 : Memref sig .scVector .vmem S48x224 .f32).view.read (Elt Ideal) gt) 96 112 init (4 * (k.val + 1)) := by
  refine Prod.ext ?_ (Prod.ext ?_ (Prod.ext ?_ ?_))
  all_goals funext i
  · refine Eq.trans (b := sqSum (fun c => rdN ((Memref.whole cc1_scratch0 : Memref sig .scVector .vmem S48x224 .f32).view.read (Elt Ideal) gi) c (96 + (i 0).val)) (fun c => rdN ((Memref.whole cc1_scratch1 : Memref sig .scVector .vmem S48x224 .f32).view.read (Elt Ideal) gt) c (96 + (i 0).val)) (init.1 i) (4 * k.val)
          + ((shapeCast S16 (View.readAt (Elt Ideal) (Memref.whole cc1_scratch0 : Memref sig .scVector .vmem S48x224 .f32).view (Rect.unit (s := S48x224) (k1_off41 k 0#32) S1x16.size (k1_off41_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off41 k 0#32) S1x16.size (k1_off41_inb k 0)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off41 k 0#32) S1x16.size (k1_off41_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off41 k 0#32) S1x16.size (k1_off41_inb k 0)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off41 k 1#32) S1x16.size (k1_off41_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off41 k 1#32) S1x16.size (k1_off41_inb k 1)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off41 k 1#32) S1x16.size (k1_off41_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off41 k 1#32) S1x16.size (k1_off41_inb k 1)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off41 k 2#32) S1x16.size (k1_off41_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off41 k 2#32) S1x16.size (k1_off41_inb k 2)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off41 k 2#32) S1x16.size (k1_off41_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off41 k 2#32) S1x16.size (k1_off41_inb k 2)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off41 k 3#32) S1x16.size (k1_off41_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off41 k 3#32) S1x16.size (k1_off41_inb k 3)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off41 k 3#32) S1x16.size (k1_off41_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off41 k 3#32) S1x16.size (k1_off41_inb k 3)).toLoadRect gt : Vec Ideal S1x16 .f32) shapeCasts_S1x16_S16 i : EReal))) rfl ?_
    rw [load_apply' (Memref.whole cc1_scratch0 : Memref sig .scVector .vmem S48x224 .f32) gi (k1_off41 k 0#32) (k1_off41_inb k 0) (4 * k.val + 0) 96 (k1_off41_eq k 0) i, load_apply' (Memref.whole cc1_scratch1 : Memref sig .scVector .vmem S48x224 .f32) gt (k1_off41 k 0#32) (k1_off41_inb k 0) (4 * k.val + 0) 96 (k1_off41_eq k 0) i,
      load_apply' (Memref.whole cc1_scratch0 : Memref sig .scVector .vmem S48x224 .f32) gi (k1_off41 k 1#32) (k1_off41_inb k 1) (4 * k.val + 1) 96 (k1_off41_eq k 1) i, load_apply' (Memref.whole cc1_scratch1 : Memref sig .scVector .vmem S48x224 .f32) gt (k1_off41 k 1#32) (k1_off41_inb k 1) (4 * k.val + 1) 96 (k1_off41_eq k 1) i,
      load_apply' (Memref.whole cc1_scratch0 : Memref sig .scVector .vmem S48x224 .f32) gi (k1_off41 k 2#32) (k1_off41_inb k 2) (4 * k.val + 2) 96 (k1_off41_eq k 2) i, load_apply' (Memref.whole cc1_scratch1 : Memref sig .scVector .vmem S48x224 .f32) gt (k1_off41 k 2#32) (k1_off41_inb k 2) (4 * k.val + 2) 96 (k1_off41_eq k 2) i,
      load_apply' (Memref.whole cc1_scratch0 : Memref sig .scVector .vmem S48x224 .f32) gi (k1_off41 k 3#32) (k1_off41_inb k 3) (4 * k.val + 3) 96 (k1_off41_eq k 3) i, load_apply' (Memref.whole cc1_scratch1 : Memref sig .scVector .vmem S48x224 .f32) gt (k1_off41 k 3#32) (k1_off41_inb k 3) (4 * k.val + 3) 96 (k1_off41_eq k 3) i]
    exact (sqSum_four _ _ _ k.val).symm
  · refine Eq.trans (b := sqSum (fun c => rdN ((Memref.whole cc1_scratch0 : Memref sig .scVector .vmem S48x224 .f32).view.read (Elt Ideal) gi) c (112 + (i 0).val)) (fun c => rdN ((Memref.whole cc1_scratch1 : Memref sig .scVector .vmem S48x224 .f32).view.read (Elt Ideal) gt) c (112 + (i 0).val)) (init.2.1 i) (4 * k.val)
          + ((shapeCast S16 (View.readAt (Elt Ideal) (Memref.whole cc1_scratch0 : Memref sig .scVector .vmem S48x224 .f32).view (Rect.unit (s := S48x224) (k1_off42 k 0#32) S1x16.size (k1_off42_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off42 k 0#32) S1x16.size (k1_off42_inb k 0)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off42 k 0#32) S1x16.size (k1_off42_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off42 k 0#32) S1x16.size (k1_off42_inb k 0)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off42 k 1#32) S1x16.size (k1_off42_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off42 k 1#32) S1x16.size (k1_off42_inb k 1)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off42 k 1#32) S1x16.size (k1_off42_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off42 k 1#32) S1x16.size (k1_off42_inb k 1)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off42 k 2#32) S1x16.size (k1_off42_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off42 k 2#32) S1x16.size (k1_off42_inb k 2)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off42 k 2#32) S1x16.size (k1_off42_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off42 k 2#32) S1x16.size (k1_off42_inb k 2)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off42 k 3#32) S1x16.size (k1_off42_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off42 k 3#32) S1x16.size (k1_off42_inb k 3)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off42 k 3#32) S1x16.size (k1_off42_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off42 k 3#32) S1x16.size (k1_off42_inb k 3)).toLoadRect gt : Vec Ideal S1x16 .f32) shapeCasts_S1x16_S16 i : EReal))) rfl ?_
    rw [load_apply' (Memref.whole cc1_scratch0 : Memref sig .scVector .vmem S48x224 .f32) gi (k1_off42 k 0#32) (k1_off42_inb k 0) (4 * k.val + 0) 112 (k1_off42_eq k 0) i, load_apply' (Memref.whole cc1_scratch1 : Memref sig .scVector .vmem S48x224 .f32) gt (k1_off42 k 0#32) (k1_off42_inb k 0) (4 * k.val + 0) 112 (k1_off42_eq k 0) i,
      load_apply' (Memref.whole cc1_scratch0 : Memref sig .scVector .vmem S48x224 .f32) gi (k1_off42 k 1#32) (k1_off42_inb k 1) (4 * k.val + 1) 112 (k1_off42_eq k 1) i, load_apply' (Memref.whole cc1_scratch1 : Memref sig .scVector .vmem S48x224 .f32) gt (k1_off42 k 1#32) (k1_off42_inb k 1) (4 * k.val + 1) 112 (k1_off42_eq k 1) i,
      load_apply' (Memref.whole cc1_scratch0 : Memref sig .scVector .vmem S48x224 .f32) gi (k1_off42 k 2#32) (k1_off42_inb k 2) (4 * k.val + 2) 112 (k1_off42_eq k 2) i, load_apply' (Memref.whole cc1_scratch1 : Memref sig .scVector .vmem S48x224 .f32) gt (k1_off42 k 2#32) (k1_off42_inb k 2) (4 * k.val + 2) 112 (k1_off42_eq k 2) i,
      load_apply' (Memref.whole cc1_scratch0 : Memref sig .scVector .vmem S48x224 .f32) gi (k1_off42 k 3#32) (k1_off42_inb k 3) (4 * k.val + 3) 112 (k1_off42_eq k 3) i, load_apply' (Memref.whole cc1_scratch1 : Memref sig .scVector .vmem S48x224 .f32) gt (k1_off42 k 3#32) (k1_off42_inb k 3) (4 * k.val + 3) 112 (k1_off42_eq k 3) i]
    exact (sqSum_four _ _ _ k.val).symm
  · refine Eq.trans (b := max (max (max (max (mxAbs (fun c => rdN ((Memref.whole cc1_scratch1 : Memref sig .scVector .vmem S48x224 .f32).view.read (Elt Ideal) gt) c (96 + (i 0).val)) (init.2.2.1 i) (4 * k.val))
          (max (shapeCast S16 (View.readAt (Elt Ideal) (Memref.whole cc1_scratch1 : Memref sig .scVector .vmem S48x224 .f32).view (Rect.unit (s := S48x224) (k1_off41 k 0#32) S1x16.size (k1_off41_inb k 0)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off41 k 0#32) S1x16.size (k1_off41_inb k 0)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off41 k 1#32) S1x16.size (k1_off41_inb k 1)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off41 k 1#32) S1x16.size (k1_off41_inb k 1)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off41 k 2#32) S1x16.size (k1_off41_inb k 2)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off41 k 2#32) S1x16.size (k1_off41_inb k 2)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off41 k 3#32) S1x16.size (k1_off41_inb k 3)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off41 k 3#32) S1x16.size (k1_off41_inb k 3)).toLoadRect gt : Vec Ideal S1x16 .f32) shapeCasts_S1x16_S16 i : EReal)))) rfl ?_
    rw [load_apply' (Memref.whole cc1_scratch1 : Memref sig .scVector .vmem S48x224 .f32) gt (k1_off41 k 0#32) (k1_off41_inb k 0) (4 * k.val + 0) 96 (k1_off41_eq k 0) i,
      load_apply' (Memref.whole cc1_scratch1 : Memref sig .scVector .vmem S48x224 .f32) gt (k1_off41 k 1#32) (k1_off41_inb k 1) (4 * k.val + 1) 96 (k1_off41_eq k 1) i,
      load_apply' (Memref.whole cc1_scratch1 : Memref sig .scVector .vmem S48x224 .f32) gt (k1_off41 k 2#32) (k1_off41_inb k 2) (4 * k.val + 2) 96 (k1_off41_eq k 2) i,
      load_apply' (Memref.whole cc1_scratch1 : Memref sig .scVector .vmem S48x224 .f32) gt (k1_off41 k 3#32) (k1_off41_inb k 3) (4 * k.val + 3) 96 (k1_off41_eq k 3) i]
    exact (mxAbs_four _ _ k.val).symm
  · refine Eq.trans (b := max (max (max (max (mxAbs (fun c => rdN ((Memref.whole cc1_scratch1 : Memref sig .scVector .vmem S48x224 .f32).view.read (Elt Ideal) gt) c (112 + (i 0).val)) (init.2.2.2 i) (4 * k.val))
          (max (shapeCast S16 (View.readAt (Elt Ideal) (Memref.whole cc1_scratch1 : Memref sig .scVector .vmem S48x224 .f32).view (Rect.unit (s := S48x224) (k1_off42 k 0#32) S1x16.size (k1_off42_inb k 0)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off42 k 0#32) S1x16.size (k1_off42_inb k 0)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off42 k 1#32) S1x16.size (k1_off42_inb k 1)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off42 k 1#32) S1x16.size (k1_off42_inb k 1)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off42 k 2#32) S1x16.size (k1_off42_inb k 2)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off42 k 2#32) S1x16.size (k1_off42_inb k 2)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off42 k 3#32) S1x16.size (k1_off42_inb k 3)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off42 k 3#32) S1x16.size (k1_off42_inb k 3)).toLoadRect gt : Vec Ideal S1x16 .f32) shapeCasts_S1x16_S16 i : EReal)))) rfl ?_
    rw [load_apply' (Memref.whole cc1_scratch1 : Memref sig .scVector .vmem S48x224 .f32) gt (k1_off42 k 0#32) (k1_off42_inb k 0) (4 * k.val + 0) 112 (k1_off42_eq k 0) i,
      load_apply' (Memref.whole cc1_scratch1 : Memref sig .scVector .vmem S48x224 .f32) gt (k1_off42 k 1#32) (k1_off42_inb k 1) (4 * k.val + 1) 112 (k1_off42_eq k 1) i,
      load_apply' (Memref.whole cc1_scratch1 : Memref sig .scVector .vmem S48x224 .f32) gt (k1_off42 k 2#32) (k1_off42_inb k 2) (4 * k.val + 2) 112 (k1_off42_eq k 2) i,
      load_apply' (Memref.whole cc1_scratch1 : Memref sig .scVector .vmem S48x224 .f32) gt (k1_off42 k 3#32) (k1_off42_inb k 3) (4 * k.val + 3) 112 (k1_off42_eq k 3) i]
    exact (mxAbs_four _ _ k.val).symm

/-- THE CLOSED FORM of loop t19: after `n` trips the sums are the initial ones with rows `0 … 4 n − 1` added. -/
theorem sumsV_t19_closed (init : σ4) (n : ℕ) (hn : n ≤ k1_t19_loop.trips) :
    sumsV_t19 (F := Ideal) d L gi gt init n = closed4 ((Memref.whole cc1_scratch0 : Memref sig .scVector .vmem S48x224 .f32).view.read (Elt Ideal) gi) ((Memref.whole cc1_scratch1 : Memref sig .scVector .vmem S48x224 .f32).view.read (Elt Ideal) gt) 96 112 init (4 * n) := by
  induction n with
  | zero => rw [Nat.mul_zero, closed4_zero]; rfl
  | succ n ih =>
    have hlt : n < k1_t19_loop.trips := hn
    rw [sumsV_t19, dif_pos hlt, ih (Nat.le_of_lt hlt)]
    exact stepV_t19_closed d L gi gt ⟨n, hlt⟩ init

end Loop19

section Loop20
variable (gi : Buf (Elt Ideal) ((V d (cV L) (jV L)).loc cc1_scratch0)) (gt : Buf (Elt Ideal) ((V d (cV L) (jV L)).loc cc1_scratch1))

/-- One trip of accumulation loop t20 adds rows `4 k … 4 k + 3` at columns `128 + lane` and `144 + lane`. -/
theorem stepV_t20_closed (k : Fin k1_t20_loop.trips) (init : σ4) :
    stepV_t20 (F := Ideal) d L gi gt k (closed4 ((Memref.whole cc1_scratch0 : Memref sig .scVector .vmem S48x224 .f32).view.read (Elt Ideal) gi) ((Memref.whole cc1_scratch1 : Memref sig .scVector .vmem S48x224 .f32).view.read (Elt Ideal) gt) 128 144 init (4 * k.val))
      = closed4 ((Memref.whole cc1_scratch0 : Memref sig .scVector .vmem S48x224 .f32).view.read (Elt Ideal) gi) ((Memref.whole cc1_scratch1 : Memref sig .scVector .vmem S48x224 .f32).view.read (Elt Ideal) gt) 128 144 init (4 * (k.val + 1)) := by
  refine Prod.ext ?_ (Prod.ext ?_ (Prod.ext ?_ ?_))
  all_goals funext i
  · refine Eq.trans (b := sqSum (fun c => rdN ((Memref.whole cc1_scratch0 : Memref sig .scVector .vmem S48x224 .f32).view.read (Elt Ideal) gi) c (128 + (i 0).val)) (fun c => rdN ((Memref.whole cc1_scratch1 : Memref sig .scVector .vmem S48x224 .f32).view.read (Elt Ideal) gt) c (128 + (i 0).val)) (init.1 i) (4 * k.val)
          + ((shapeCast S16 (View.readAt (Elt Ideal) (Memref.whole cc1_scratch0 : Memref sig .scVector .vmem S48x224 .f32).view (Rect.unit (s := S48x224) (k1_off43 k 0#32) S1x16.size (k1_off43_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off43 k 0#32) S1x16.size (k1_off43_inb k 0)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off43 k 0#32) S1x16.size (k1_off43_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off43 k 0#32) S1x16.size (k1_off43_inb k 0)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off43 k 1#32) S1x16.size (k1_off43_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off43 k 1#32) S1x16.size (k1_off43_inb k 1)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off43 k 1#32) S1x16.size (k1_off43_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off43 k 1#32) S1x16.size (k1_off43_inb k 1)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off43 k 2#32) S1x16.size (k1_off43_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off43 k 2#32) S1x16.size (k1_off43_inb k 2)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off43 k 2#32) S1x16.size (k1_off43_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off43 k 2#32) S1x16.size (k1_off43_inb k 2)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off43 k 3#32) S1x16.size (k1_off43_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off43 k 3#32) S1x16.size (k1_off43_inb k 3)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off43 k 3#32) S1x16.size (k1_off43_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off43 k 3#32) S1x16.size (k1_off43_inb k 3)).toLoadRect gt : Vec Ideal S1x16 .f32) shapeCasts_S1x16_S16 i : EReal))) rfl ?_
    rw [load_apply' (Memref.whole cc1_scratch0 : Memref sig .scVector .vmem S48x224 .f32) gi (k1_off43 k 0#32) (k1_off43_inb k 0) (4 * k.val + 0) 128 (k1_off43_eq k 0) i, load_apply' (Memref.whole cc1_scratch1 : Memref sig .scVector .vmem S48x224 .f32) gt (k1_off43 k 0#32) (k1_off43_inb k 0) (4 * k.val + 0) 128 (k1_off43_eq k 0) i,
      load_apply' (Memref.whole cc1_scratch0 : Memref sig .scVector .vmem S48x224 .f32) gi (k1_off43 k 1#32) (k1_off43_inb k 1) (4 * k.val + 1) 128 (k1_off43_eq k 1) i, load_apply' (Memref.whole cc1_scratch1 : Memref sig .scVector .vmem S48x224 .f32) gt (k1_off43 k 1#32) (k1_off43_inb k 1) (4 * k.val + 1) 128 (k1_off43_eq k 1) i,
      load_apply' (Memref.whole cc1_scratch0 : Memref sig .scVector .vmem S48x224 .f32) gi (k1_off43 k 2#32) (k1_off43_inb k 2) (4 * k.val + 2) 128 (k1_off43_eq k 2) i, load_apply' (Memref.whole cc1_scratch1 : Memref sig .scVector .vmem S48x224 .f32) gt (k1_off43 k 2#32) (k1_off43_inb k 2) (4 * k.val + 2) 128 (k1_off43_eq k 2) i,
      load_apply' (Memref.whole cc1_scratch0 : Memref sig .scVector .vmem S48x224 .f32) gi (k1_off43 k 3#32) (k1_off43_inb k 3) (4 * k.val + 3) 128 (k1_off43_eq k 3) i, load_apply' (Memref.whole cc1_scratch1 : Memref sig .scVector .vmem S48x224 .f32) gt (k1_off43 k 3#32) (k1_off43_inb k 3) (4 * k.val + 3) 128 (k1_off43_eq k 3) i]
    exact (sqSum_four _ _ _ k.val).symm
  · refine Eq.trans (b := sqSum (fun c => rdN ((Memref.whole cc1_scratch0 : Memref sig .scVector .vmem S48x224 .f32).view.read (Elt Ideal) gi) c (144 + (i 0).val)) (fun c => rdN ((Memref.whole cc1_scratch1 : Memref sig .scVector .vmem S48x224 .f32).view.read (Elt Ideal) gt) c (144 + (i 0).val)) (init.2.1 i) (4 * k.val)
          + ((shapeCast S16 (View.readAt (Elt Ideal) (Memref.whole cc1_scratch0 : Memref sig .scVector .vmem S48x224 .f32).view (Rect.unit (s := S48x224) (k1_off44 k 0#32) S1x16.size (k1_off44_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off44 k 0#32) S1x16.size (k1_off44_inb k 0)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off44 k 0#32) S1x16.size (k1_off44_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off44 k 0#32) S1x16.size (k1_off44_inb k 0)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off44 k 1#32) S1x16.size (k1_off44_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off44 k 1#32) S1x16.size (k1_off44_inb k 1)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off44 k 1#32) S1x16.size (k1_off44_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off44 k 1#32) S1x16.size (k1_off44_inb k 1)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off44 k 2#32) S1x16.size (k1_off44_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off44 k 2#32) S1x16.size (k1_off44_inb k 2)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off44 k 2#32) S1x16.size (k1_off44_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off44 k 2#32) S1x16.size (k1_off44_inb k 2)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off44 k 3#32) S1x16.size (k1_off44_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off44 k 3#32) S1x16.size (k1_off44_inb k 3)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off44 k 3#32) S1x16.size (k1_off44_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off44 k 3#32) S1x16.size (k1_off44_inb k 3)).toLoadRect gt : Vec Ideal S1x16 .f32) shapeCasts_S1x16_S16 i : EReal))) rfl ?_
    rw [load_apply' (Memref.whole cc1_scratch0 : Memref sig .scVector .vmem S48x224 .f32) gi (k1_off44 k 0#32) (k1_off44_inb k 0) (4 * k.val + 0) 144 (k1_off44_eq k 0) i, load_apply' (Memref.whole cc1_scratch1 : Memref sig .scVector .vmem S48x224 .f32) gt (k1_off44 k 0#32) (k1_off44_inb k 0) (4 * k.val + 0) 144 (k1_off44_eq k 0) i,
      load_apply' (Memref.whole cc1_scratch0 : Memref sig .scVector .vmem S48x224 .f32) gi (k1_off44 k 1#32) (k1_off44_inb k 1) (4 * k.val + 1) 144 (k1_off44_eq k 1) i, load_apply' (Memref.whole cc1_scratch1 : Memref sig .scVector .vmem S48x224 .f32) gt (k1_off44 k 1#32) (k1_off44_inb k 1) (4 * k.val + 1) 144 (k1_off44_eq k 1) i,
      load_apply' (Memref.whole cc1_scratch0 : Memref sig .scVector .vmem S48x224 .f32) gi (k1_off44 k 2#32) (k1_off44_inb k 2) (4 * k.val + 2) 144 (k1_off44_eq k 2) i, load_apply' (Memref.whole cc1_scratch1 : Memref sig .scVector .vmem S48x224 .f32) gt (k1_off44 k 2#32) (k1_off44_inb k 2) (4 * k.val + 2) 144 (k1_off44_eq k 2) i,
      load_apply' (Memref.whole cc1_scratch0 : Memref sig .scVector .vmem S48x224 .f32) gi (k1_off44 k 3#32) (k1_off44_inb k 3) (4 * k.val + 3) 144 (k1_off44_eq k 3) i, load_apply' (Memref.whole cc1_scratch1 : Memref sig .scVector .vmem S48x224 .f32) gt (k1_off44 k 3#32) (k1_off44_inb k 3) (4 * k.val + 3) 144 (k1_off44_eq k 3) i]
    exact (sqSum_four _ _ _ k.val).symm
  · refine Eq.trans (b := max (max (max (max (mxAbs (fun c => rdN ((Memref.whole cc1_scratch1 : Memref sig .scVector .vmem S48x224 .f32).view.read (Elt Ideal) gt) c (128 + (i 0).val)) (init.2.2.1 i) (4 * k.val))
          (max (shapeCast S16 (View.readAt (Elt Ideal) (Memref.whole cc1_scratch1 : Memref sig .scVector .vmem S48x224 .f32).view (Rect.unit (s := S48x224) (k1_off43 k 0#32) S1x16.size (k1_off43_inb k 0)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off43 k 0#32) S1x16.size (k1_off43_inb k 0)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off43 k 1#32) S1x16.size (k1_off43_inb k 1)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off43 k 1#32) S1x16.size (k1_off43_inb k 1)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off43 k 2#32) S1x16.size (k1_off43_inb k 2)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off43 k 2#32) S1x16.size (k1_off43_inb k 2)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off43 k 3#32) S1x16.size (k1_off43_inb k 3)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off43 k 3#32) S1x16.size (k1_off43_inb k 3)).toLoadRect gt : Vec Ideal S1x16 .f32) shapeCasts_S1x16_S16 i : EReal)))) rfl ?_
    rw [load_apply' (Memref.whole cc1_scratch1 : Memref sig .scVector .vmem S48x224 .f32) gt (k1_off43 k 0#32) (k1_off43_inb k 0) (4 * k.val + 0) 128 (k1_off43_eq k 0) i,
      load_apply' (Memref.whole cc1_scratch1 : Memref sig .scVector .vmem S48x224 .f32) gt (k1_off43 k 1#32) (k1_off43_inb k 1) (4 * k.val + 1) 128 (k1_off43_eq k 1) i,
      load_apply' (Memref.whole cc1_scratch1 : Memref sig .scVector .vmem S48x224 .f32) gt (k1_off43 k 2#32) (k1_off43_inb k 2) (4 * k.val + 2) 128 (k1_off43_eq k 2) i,
      load_apply' (Memref.whole cc1_scratch1 : Memref sig .scVector .vmem S48x224 .f32) gt (k1_off43 k 3#32) (k1_off43_inb k 3) (4 * k.val + 3) 128 (k1_off43_eq k 3) i]
    exact (mxAbs_four _ _ k.val).symm
  · refine Eq.trans (b := max (max (max (max (mxAbs (fun c => rdN ((Memref.whole cc1_scratch1 : Memref sig .scVector .vmem S48x224 .f32).view.read (Elt Ideal) gt) c (144 + (i 0).val)) (init.2.2.2 i) (4 * k.val))
          (max (shapeCast S16 (View.readAt (Elt Ideal) (Memref.whole cc1_scratch1 : Memref sig .scVector .vmem S48x224 .f32).view (Rect.unit (s := S48x224) (k1_off44 k 0#32) S1x16.size (k1_off44_inb k 0)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off44 k 0#32) S1x16.size (k1_off44_inb k 0)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off44 k 1#32) S1x16.size (k1_off44_inb k 1)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off44 k 1#32) S1x16.size (k1_off44_inb k 1)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off44 k 2#32) S1x16.size (k1_off44_inb k 2)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off44 k 2#32) S1x16.size (k1_off44_inb k 2)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off44 k 3#32) S1x16.size (k1_off44_inb k 3)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off44 k 3#32) S1x16.size (k1_off44_inb k 3)).toLoadRect gt : Vec Ideal S1x16 .f32) shapeCasts_S1x16_S16 i : EReal)))) rfl ?_
    rw [load_apply' (Memref.whole cc1_scratch1 : Memref sig .scVector .vmem S48x224 .f32) gt (k1_off44 k 0#32) (k1_off44_inb k 0) (4 * k.val + 0) 144 (k1_off44_eq k 0) i,
      load_apply' (Memref.whole cc1_scratch1 : Memref sig .scVector .vmem S48x224 .f32) gt (k1_off44 k 1#32) (k1_off44_inb k 1) (4 * k.val + 1) 144 (k1_off44_eq k 1) i,
      load_apply' (Memref.whole cc1_scratch1 : Memref sig .scVector .vmem S48x224 .f32) gt (k1_off44 k 2#32) (k1_off44_inb k 2) (4 * k.val + 2) 144 (k1_off44_eq k 2) i,
      load_apply' (Memref.whole cc1_scratch1 : Memref sig .scVector .vmem S48x224 .f32) gt (k1_off44 k 3#32) (k1_off44_inb k 3) (4 * k.val + 3) 144 (k1_off44_eq k 3) i]
    exact (mxAbs_four _ _ k.val).symm

/-- THE CLOSED FORM of loop t20: after `n` trips the sums are the initial ones with rows `0 … 4 n − 1` added. -/
theorem sumsV_t20_closed (init : σ4) (n : ℕ) (hn : n ≤ k1_t20_loop.trips) :
    sumsV_t20 (F := Ideal) d L gi gt init n = closed4 ((Memref.whole cc1_scratch0 : Memref sig .scVector .vmem S48x224 .f32).view.read (Elt Ideal) gi) ((Memref.whole cc1_scratch1 : Memref sig .scVector .vmem S48x224 .f32).view.read (Elt Ideal) gt) 128 144 init (4 * n) := by
  induction n with
  | zero => rw [Nat.mul_zero, closed4_zero]; rfl
  | succ n ih =>
    have hlt : n < k1_t20_loop.trips := hn
    rw [sumsV_t20, dif_pos hlt, ih (Nat.le_of_lt hlt)]
    exact stepV_t20_closed d L gi gt ⟨n, hlt⟩ init

end Loop20

section Loop21
variable (gi : Buf (Elt Ideal) ((V d (cV L) (jV L)).loc cc1_scratch0)) (gt : Buf (Elt Ideal) ((V d (cV L) (jV L)).loc cc1_scratch1))

/-- One trip of accumulation loop t21 adds rows `4 k … 4 k + 3` at columns `160 + lane` and `176 + lane`. -/
theorem stepV_t21_closed (k : Fin k1_t21_loop.trips) (init : σ4) :
    stepV_t21 (F := Ideal) d L gi gt k (closed4 ((Memref.whole cc1_scratch0 : Memref sig .scVector .vmem S48x224 .f32).view.read (Elt Ideal) gi) ((Memref.whole cc1_scratch1 : Memref sig .scVector .vmem S48x224 .f32).view.read (Elt Ideal) gt) 160 176 init (4 * k.val))
      = closed4 ((Memref.whole cc1_scratch0 : Memref sig .scVector .vmem S48x224 .f32).view.read (Elt Ideal) gi) ((Memref.whole cc1_scratch1 : Memref sig .scVector .vmem S48x224 .f32).view.read (Elt Ideal) gt) 160 176 init (4 * (k.val + 1)) := by
  refine Prod.ext ?_ (Prod.ext ?_ (Prod.ext ?_ ?_))
  all_goals funext i
  · refine Eq.trans (b := sqSum (fun c => rdN ((Memref.whole cc1_scratch0 : Memref sig .scVector .vmem S48x224 .f32).view.read (Elt Ideal) gi) c (160 + (i 0).val)) (fun c => rdN ((Memref.whole cc1_scratch1 : Memref sig .scVector .vmem S48x224 .f32).view.read (Elt Ideal) gt) c (160 + (i 0).val)) (init.1 i) (4 * k.val)
          + ((shapeCast S16 (View.readAt (Elt Ideal) (Memref.whole cc1_scratch0 : Memref sig .scVector .vmem S48x224 .f32).view (Rect.unit (s := S48x224) (k1_off45 k 0#32) S1x16.size (k1_off45_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off45 k 0#32) S1x16.size (k1_off45_inb k 0)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off45 k 0#32) S1x16.size (k1_off45_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off45 k 0#32) S1x16.size (k1_off45_inb k 0)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off45 k 1#32) S1x16.size (k1_off45_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off45 k 1#32) S1x16.size (k1_off45_inb k 1)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off45 k 1#32) S1x16.size (k1_off45_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off45 k 1#32) S1x16.size (k1_off45_inb k 1)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off45 k 2#32) S1x16.size (k1_off45_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off45 k 2#32) S1x16.size (k1_off45_inb k 2)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off45 k 2#32) S1x16.size (k1_off45_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off45 k 2#32) S1x16.size (k1_off45_inb k 2)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off45 k 3#32) S1x16.size (k1_off45_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off45 k 3#32) S1x16.size (k1_off45_inb k 3)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off45 k 3#32) S1x16.size (k1_off45_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off45 k 3#32) S1x16.size (k1_off45_inb k 3)).toLoadRect gt : Vec Ideal S1x16 .f32) shapeCasts_S1x16_S16 i : EReal))) rfl ?_
    rw [load_apply' (Memref.whole cc1_scratch0 : Memref sig .scVector .vmem S48x224 .f32) gi (k1_off45 k 0#32) (k1_off45_inb k 0) (4 * k.val + 0) 160 (k1_off45_eq k 0) i, load_apply' (Memref.whole cc1_scratch1 : Memref sig .scVector .vmem S48x224 .f32) gt (k1_off45 k 0#32) (k1_off45_inb k 0) (4 * k.val + 0) 160 (k1_off45_eq k 0) i,
      load_apply' (Memref.whole cc1_scratch0 : Memref sig .scVector .vmem S48x224 .f32) gi (k1_off45 k 1#32) (k1_off45_inb k 1) (4 * k.val + 1) 160 (k1_off45_eq k 1) i, load_apply' (Memref.whole cc1_scratch1 : Memref sig .scVector .vmem S48x224 .f32) gt (k1_off45 k 1#32) (k1_off45_inb k 1) (4 * k.val + 1) 160 (k1_off45_eq k 1) i,
      load_apply' (Memref.whole cc1_scratch0 : Memref sig .scVector .vmem S48x224 .f32) gi (k1_off45 k 2#32) (k1_off45_inb k 2) (4 * k.val + 2) 160 (k1_off45_eq k 2) i, load_apply' (Memref.whole cc1_scratch1 : Memref sig .scVector .vmem S48x224 .f32) gt (k1_off45 k 2#32) (k1_off45_inb k 2) (4 * k.val + 2) 160 (k1_off45_eq k 2) i,
      load_apply' (Memref.whole cc1_scratch0 : Memref sig .scVector .vmem S48x224 .f32) gi (k1_off45 k 3#32) (k1_off45_inb k 3) (4 * k.val + 3) 160 (k1_off45_eq k 3) i, load_apply' (Memref.whole cc1_scratch1 : Memref sig .scVector .vmem S48x224 .f32) gt (k1_off45 k 3#32) (k1_off45_inb k 3) (4 * k.val + 3) 160 (k1_off45_eq k 3) i]
    exact (sqSum_four _ _ _ k.val).symm
  · refine Eq.trans (b := sqSum (fun c => rdN ((Memref.whole cc1_scratch0 : Memref sig .scVector .vmem S48x224 .f32).view.read (Elt Ideal) gi) c (176 + (i 0).val)) (fun c => rdN ((Memref.whole cc1_scratch1 : Memref sig .scVector .vmem S48x224 .f32).view.read (Elt Ideal) gt) c (176 + (i 0).val)) (init.2.1 i) (4 * k.val)
          + ((shapeCast S16 (View.readAt (Elt Ideal) (Memref.whole cc1_scratch0 : Memref sig .scVector .vmem S48x224 .f32).view (Rect.unit (s := S48x224) (k1_off46 k 0#32) S1x16.size (k1_off46_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off46 k 0#32) S1x16.size (k1_off46_inb k 0)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off46 k 0#32) S1x16.size (k1_off46_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off46 k 0#32) S1x16.size (k1_off46_inb k 0)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off46 k 1#32) S1x16.size (k1_off46_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off46 k 1#32) S1x16.size (k1_off46_inb k 1)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off46 k 1#32) S1x16.size (k1_off46_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off46 k 1#32) S1x16.size (k1_off46_inb k 1)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off46 k 2#32) S1x16.size (k1_off46_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off46 k 2#32) S1x16.size (k1_off46_inb k 2)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off46 k 2#32) S1x16.size (k1_off46_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off46 k 2#32) S1x16.size (k1_off46_inb k 2)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off46 k 3#32) S1x16.size (k1_off46_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off46 k 3#32) S1x16.size (k1_off46_inb k 3)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off46 k 3#32) S1x16.size (k1_off46_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off46 k 3#32) S1x16.size (k1_off46_inb k 3)).toLoadRect gt : Vec Ideal S1x16 .f32) shapeCasts_S1x16_S16 i : EReal))) rfl ?_
    rw [load_apply' (Memref.whole cc1_scratch0 : Memref sig .scVector .vmem S48x224 .f32) gi (k1_off46 k 0#32) (k1_off46_inb k 0) (4 * k.val + 0) 176 (k1_off46_eq k 0) i, load_apply' (Memref.whole cc1_scratch1 : Memref sig .scVector .vmem S48x224 .f32) gt (k1_off46 k 0#32) (k1_off46_inb k 0) (4 * k.val + 0) 176 (k1_off46_eq k 0) i,
      load_apply' (Memref.whole cc1_scratch0 : Memref sig .scVector .vmem S48x224 .f32) gi (k1_off46 k 1#32) (k1_off46_inb k 1) (4 * k.val + 1) 176 (k1_off46_eq k 1) i, load_apply' (Memref.whole cc1_scratch1 : Memref sig .scVector .vmem S48x224 .f32) gt (k1_off46 k 1#32) (k1_off46_inb k 1) (4 * k.val + 1) 176 (k1_off46_eq k 1) i,
      load_apply' (Memref.whole cc1_scratch0 : Memref sig .scVector .vmem S48x224 .f32) gi (k1_off46 k 2#32) (k1_off46_inb k 2) (4 * k.val + 2) 176 (k1_off46_eq k 2) i, load_apply' (Memref.whole cc1_scratch1 : Memref sig .scVector .vmem S48x224 .f32) gt (k1_off46 k 2#32) (k1_off46_inb k 2) (4 * k.val + 2) 176 (k1_off46_eq k 2) i,
      load_apply' (Memref.whole cc1_scratch0 : Memref sig .scVector .vmem S48x224 .f32) gi (k1_off46 k 3#32) (k1_off46_inb k 3) (4 * k.val + 3) 176 (k1_off46_eq k 3) i, load_apply' (Memref.whole cc1_scratch1 : Memref sig .scVector .vmem S48x224 .f32) gt (k1_off46 k 3#32) (k1_off46_inb k 3) (4 * k.val + 3) 176 (k1_off46_eq k 3) i]
    exact (sqSum_four _ _ _ k.val).symm
  · refine Eq.trans (b := max (max (max (max (mxAbs (fun c => rdN ((Memref.whole cc1_scratch1 : Memref sig .scVector .vmem S48x224 .f32).view.read (Elt Ideal) gt) c (160 + (i 0).val)) (init.2.2.1 i) (4 * k.val))
          (max (shapeCast S16 (View.readAt (Elt Ideal) (Memref.whole cc1_scratch1 : Memref sig .scVector .vmem S48x224 .f32).view (Rect.unit (s := S48x224) (k1_off45 k 0#32) S1x16.size (k1_off45_inb k 0)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off45 k 0#32) S1x16.size (k1_off45_inb k 0)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off45 k 1#32) S1x16.size (k1_off45_inb k 1)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off45 k 1#32) S1x16.size (k1_off45_inb k 1)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off45 k 2#32) S1x16.size (k1_off45_inb k 2)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off45 k 2#32) S1x16.size (k1_off45_inb k 2)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off45 k 3#32) S1x16.size (k1_off45_inb k 3)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off45 k 3#32) S1x16.size (k1_off45_inb k 3)).toLoadRect gt : Vec Ideal S1x16 .f32) shapeCasts_S1x16_S16 i : EReal)))) rfl ?_
    rw [load_apply' (Memref.whole cc1_scratch1 : Memref sig .scVector .vmem S48x224 .f32) gt (k1_off45 k 0#32) (k1_off45_inb k 0) (4 * k.val + 0) 160 (k1_off45_eq k 0) i,
      load_apply' (Memref.whole cc1_scratch1 : Memref sig .scVector .vmem S48x224 .f32) gt (k1_off45 k 1#32) (k1_off45_inb k 1) (4 * k.val + 1) 160 (k1_off45_eq k 1) i,
      load_apply' (Memref.whole cc1_scratch1 : Memref sig .scVector .vmem S48x224 .f32) gt (k1_off45 k 2#32) (k1_off45_inb k 2) (4 * k.val + 2) 160 (k1_off45_eq k 2) i,
      load_apply' (Memref.whole cc1_scratch1 : Memref sig .scVector .vmem S48x224 .f32) gt (k1_off45 k 3#32) (k1_off45_inb k 3) (4 * k.val + 3) 160 (k1_off45_eq k 3) i]
    exact (mxAbs_four _ _ k.val).symm
  · refine Eq.trans (b := max (max (max (max (mxAbs (fun c => rdN ((Memref.whole cc1_scratch1 : Memref sig .scVector .vmem S48x224 .f32).view.read (Elt Ideal) gt) c (176 + (i 0).val)) (init.2.2.2 i) (4 * k.val))
          (max (shapeCast S16 (View.readAt (Elt Ideal) (Memref.whole cc1_scratch1 : Memref sig .scVector .vmem S48x224 .f32).view (Rect.unit (s := S48x224) (k1_off46 k 0#32) S1x16.size (k1_off46_inb k 0)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off46 k 0#32) S1x16.size (k1_off46_inb k 0)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off46 k 1#32) S1x16.size (k1_off46_inb k 1)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off46 k 1#32) S1x16.size (k1_off46_inb k 1)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off46 k 2#32) S1x16.size (k1_off46_inb k 2)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off46 k 2#32) S1x16.size (k1_off46_inb k 2)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off46 k 3#32) S1x16.size (k1_off46_inb k 3)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off46 k 3#32) S1x16.size (k1_off46_inb k 3)).toLoadRect gt : Vec Ideal S1x16 .f32) shapeCasts_S1x16_S16 i : EReal)))) rfl ?_
    rw [load_apply' (Memref.whole cc1_scratch1 : Memref sig .scVector .vmem S48x224 .f32) gt (k1_off46 k 0#32) (k1_off46_inb k 0) (4 * k.val + 0) 176 (k1_off46_eq k 0) i,
      load_apply' (Memref.whole cc1_scratch1 : Memref sig .scVector .vmem S48x224 .f32) gt (k1_off46 k 1#32) (k1_off46_inb k 1) (4 * k.val + 1) 176 (k1_off46_eq k 1) i,
      load_apply' (Memref.whole cc1_scratch1 : Memref sig .scVector .vmem S48x224 .f32) gt (k1_off46 k 2#32) (k1_off46_inb k 2) (4 * k.val + 2) 176 (k1_off46_eq k 2) i,
      load_apply' (Memref.whole cc1_scratch1 : Memref sig .scVector .vmem S48x224 .f32) gt (k1_off46 k 3#32) (k1_off46_inb k 3) (4 * k.val + 3) 176 (k1_off46_eq k 3) i]
    exact (mxAbs_four _ _ k.val).symm

/-- THE CLOSED FORM of loop t21: after `n` trips the sums are the initial ones with rows `0 … 4 n − 1` added. -/
theorem sumsV_t21_closed (init : σ4) (n : ℕ) (hn : n ≤ k1_t21_loop.trips) :
    sumsV_t21 (F := Ideal) d L gi gt init n = closed4 ((Memref.whole cc1_scratch0 : Memref sig .scVector .vmem S48x224 .f32).view.read (Elt Ideal) gi) ((Memref.whole cc1_scratch1 : Memref sig .scVector .vmem S48x224 .f32).view.read (Elt Ideal) gt) 160 176 init (4 * n) := by
  induction n with
  | zero => rw [Nat.mul_zero, closed4_zero]; rfl
  | succ n ih =>
    have hlt : n < k1_t21_loop.trips := hn
    rw [sumsV_t21, dif_pos hlt, ih (Nat.le_of_lt hlt)]
    exact stepV_t21_closed d L gi gt ⟨n, hlt⟩ init

end Loop21

section Loop22
variable (gi : Buf (Elt Ideal) ((V d (cV L) (jV L)).loc cc1_scratch0)) (gt : Buf (Elt Ideal) ((V d (cV L) (jV L)).loc cc1_scratch1))

/-- One trip of accumulation loop t22 adds rows `4 k … 4 k + 3` at columns `192 + lane` and `208 + lane`. -/
theorem stepV_t22_closed (k : Fin k1_t22_loop.trips) (init : σ4) :
    stepV_t22 (F := Ideal) d L gi gt k (closed4 ((Memref.whole cc1_scratch0 : Memref sig .scVector .vmem S48x224 .f32).view.read (Elt Ideal) gi) ((Memref.whole cc1_scratch1 : Memref sig .scVector .vmem S48x224 .f32).view.read (Elt Ideal) gt) 192 208 init (4 * k.val))
      = closed4 ((Memref.whole cc1_scratch0 : Memref sig .scVector .vmem S48x224 .f32).view.read (Elt Ideal) gi) ((Memref.whole cc1_scratch1 : Memref sig .scVector .vmem S48x224 .f32).view.read (Elt Ideal) gt) 192 208 init (4 * (k.val + 1)) := by
  refine Prod.ext ?_ (Prod.ext ?_ (Prod.ext ?_ ?_))
  all_goals funext i
  · refine Eq.trans (b := sqSum (fun c => rdN ((Memref.whole cc1_scratch0 : Memref sig .scVector .vmem S48x224 .f32).view.read (Elt Ideal) gi) c (192 + (i 0).val)) (fun c => rdN ((Memref.whole cc1_scratch1 : Memref sig .scVector .vmem S48x224 .f32).view.read (Elt Ideal) gt) c (192 + (i 0).val)) (init.1 i) (4 * k.val)
          + ((shapeCast S16 (View.readAt (Elt Ideal) (Memref.whole cc1_scratch0 : Memref sig .scVector .vmem S48x224 .f32).view (Rect.unit (s := S48x224) (k1_off47 k 0#32) S1x16.size (k1_off47_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off47 k 0#32) S1x16.size (k1_off47_inb k 0)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off47 k 0#32) S1x16.size (k1_off47_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off47 k 0#32) S1x16.size (k1_off47_inb k 0)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off47 k 1#32) S1x16.size (k1_off47_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off47 k 1#32) S1x16.size (k1_off47_inb k 1)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off47 k 1#32) S1x16.size (k1_off47_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off47 k 1#32) S1x16.size (k1_off47_inb k 1)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off47 k 2#32) S1x16.size (k1_off47_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off47 k 2#32) S1x16.size (k1_off47_inb k 2)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off47 k 2#32) S1x16.size (k1_off47_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off47 k 2#32) S1x16.size (k1_off47_inb k 2)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off47 k 3#32) S1x16.size (k1_off47_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off47 k 3#32) S1x16.size (k1_off47_inb k 3)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off47 k 3#32) S1x16.size (k1_off47_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off47 k 3#32) S1x16.size (k1_off47_inb k 3)).toLoadRect gt : Vec Ideal S1x16 .f32) shapeCasts_S1x16_S16 i : EReal))) rfl ?_
    rw [load_apply' (Memref.whole cc1_scratch0 : Memref sig .scVector .vmem S48x224 .f32) gi (k1_off47 k 0#32) (k1_off47_inb k 0) (4 * k.val + 0) 192 (k1_off47_eq k 0) i, load_apply' (Memref.whole cc1_scratch1 : Memref sig .scVector .vmem S48x224 .f32) gt (k1_off47 k 0#32) (k1_off47_inb k 0) (4 * k.val + 0) 192 (k1_off47_eq k 0) i,
      load_apply' (Memref.whole cc1_scratch0 : Memref sig .scVector .vmem S48x224 .f32) gi (k1_off47 k 1#32) (k1_off47_inb k 1) (4 * k.val + 1) 192 (k1_off47_eq k 1) i, load_apply' (Memref.whole cc1_scratch1 : Memref sig .scVector .vmem S48x224 .f32) gt (k1_off47 k 1#32) (k1_off47_inb k 1) (4 * k.val + 1) 192 (k1_off47_eq k 1) i,
      load_apply' (Memref.whole cc1_scratch0 : Memref sig .scVector .vmem S48x224 .f32) gi (k1_off47 k 2#32) (k1_off47_inb k 2) (4 * k.val + 2) 192 (k1_off47_eq k 2) i, load_apply' (Memref.whole cc1_scratch1 : Memref sig .scVector .vmem S48x224 .f32) gt (k1_off47 k 2#32) (k1_off47_inb k 2) (4 * k.val + 2) 192 (k1_off47_eq k 2) i,
      load_apply' (Memref.whole cc1_scratch0 : Memref sig .scVector .vmem S48x224 .f32) gi (k1_off47 k 3#32) (k1_off47_inb k 3) (4 * k.val + 3) 192 (k1_off47_eq k 3) i, load_apply' (Memref.whole cc1_scratch1 : Memref sig .scVector .vmem S48x224 .f32) gt (k1_off47 k 3#32) (k1_off47_inb k 3) (4 * k.val + 3) 192 (k1_off47_eq k 3) i]
    exact (sqSum_four _ _ _ k.val).symm
  · refine Eq.trans (b := sqSum (fun c => rdN ((Memref.whole cc1_scratch0 : Memref sig .scVector .vmem S48x224 .f32).view.read (Elt Ideal) gi) c (208 + (i 0).val)) (fun c => rdN ((Memref.whole cc1_scratch1 : Memref sig .scVector .vmem S48x224 .f32).view.read (Elt Ideal) gt) c (208 + (i 0).val)) (init.2.1 i) (4 * k.val)
          + ((shapeCast S16 (View.readAt (Elt Ideal) (Memref.whole cc1_scratch0 : Memref sig .scVector .vmem S48x224 .f32).view (Rect.unit (s := S48x224) (k1_off48 k 0#32) S1x16.size (k1_off48_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off48 k 0#32) S1x16.size (k1_off48_inb k 0)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off48 k 0#32) S1x16.size (k1_off48_inb k 0)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off48 k 0#32) S1x16.size (k1_off48_inb k 0)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off48 k 1#32) S1x16.size (k1_off48_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off48 k 1#32) S1x16.size (k1_off48_inb k 1)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off48 k 1#32) S1x16.size (k1_off48_inb k 1)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off48 k 1#32) S1x16.size (k1_off48_inb k 1)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off48 k 2#32) S1x16.size (k1_off48_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off48 k 2#32) S1x16.size (k1_off48_inb k 2)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off48 k 2#32) S1x16.size (k1_off48_inb k 2)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off48 k 2#32) S1x16.size (k1_off48_inb k 2)).toLoadRect gt : Vec Ideal S1x16 .f32) shapeCasts_S1x16_S16 i : EReal))
          + ((shapeCast S16 (View.readAt (Elt Ideal) (Memref.whole cc1_scratch0 : Memref sig .scVector .vmem S48x224 .f32).view (Rect.unit (s := S48x224) (k1_off48 k 3#32) S1x16.size (k1_off48_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off48 k 3#32) S1x16.size (k1_off48_inb k 3)).toLoadRect gt : Vec Ideal S1x16 .f32) shapeCasts_S1x16_S16 i : EReal)) * ((shapeCast S16 (View.readAt (Elt Ideal) (Memref.whole cc1_scratch0 : Memref sig .scVector .vmem S48x224 .f32).view (Rect.unit (s := S48x224) (k1_off48 k 3#32) S1x16.size (k1_off48_inb k 3)).toLoadRect gi : Vec Ideal S1x16 .f32) shapeCasts_S1x16_S16 i : EReal) - (shapeCast S16 (View.readAt (Elt Ideal) (Memref.whole cc1_scratch1 : Memref sig .scVector .vmem S48x224 .f32).view (Rect.unit (s := S48x224) (k1_off48 k 3#32) S1x16.size (k1_off48_inb k 3)).toLoadRect gt : Vec Ideal S1x16 .f32) shapeCasts_S1x16_S16 i : EReal))) rfl ?_
    rw [load_apply' (Memref.whole cc1_scratch0 : Memref sig .scVector .vmem S48x224 .f32) gi (k1_off48 k 0#32) (k1_off48_inb k 0) (4 * k.val + 0) 208 (k1_off48_eq k 0) i, load_apply' (Memref.whole cc1_scratch1 : Memref sig .scVector .vmem S48x224 .f32) gt (k1_off48 k 0#32) (k1_off48_inb k 0) (4 * k.val + 0) 208 (k1_off48_eq k 0) i,
      load_apply' (Memref.whole cc1_scratch0 : Memref sig .scVector .vmem S48x224 .f32) gi (k1_off48 k 1#32) (k1_off48_inb k 1) (4 * k.val + 1) 208 (k1_off48_eq k 1) i, load_apply' (Memref.whole cc1_scratch1 : Memref sig .scVector .vmem S48x224 .f32) gt (k1_off48 k 1#32) (k1_off48_inb k 1) (4 * k.val + 1) 208 (k1_off48_eq k 1) i,
      load_apply' (Memref.whole cc1_scratch0 : Memref sig .scVector .vmem S48x224 .f32) gi (k1_off48 k 2#32) (k1_off48_inb k 2) (4 * k.val + 2) 208 (k1_off48_eq k 2) i, load_apply' (Memref.whole cc1_scratch1 : Memref sig .scVector .vmem S48x224 .f32) gt (k1_off48 k 2#32) (k1_off48_inb k 2) (4 * k.val + 2) 208 (k1_off48_eq k 2) i,
      load_apply' (Memref.whole cc1_scratch0 : Memref sig .scVector .vmem S48x224 .f32) gi (k1_off48 k 3#32) (k1_off48_inb k 3) (4 * k.val + 3) 208 (k1_off48_eq k 3) i, load_apply' (Memref.whole cc1_scratch1 : Memref sig .scVector .vmem S48x224 .f32) gt (k1_off48 k 3#32) (k1_off48_inb k 3) (4 * k.val + 3) 208 (k1_off48_eq k 3) i]
    exact (sqSum_four _ _ _ k.val).symm
  · refine Eq.trans (b := max (max (max (max (mxAbs (fun c => rdN ((Memref.whole cc1_scratch1 : Memref sig .scVector .vmem S48x224 .f32).view.read (Elt Ideal) gt) c (192 + (i 0).val)) (init.2.2.1 i) (4 * k.val))
          (max (shapeCast S16 (View.readAt (Elt Ideal) (Memref.whole cc1_scratch1 : Memref sig .scVector .vmem S48x224 .f32).view (Rect.unit (s := S48x224) (k1_off47 k 0#32) S1x16.size (k1_off47_inb k 0)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off47 k 0#32) S1x16.size (k1_off47_inb k 0)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off47 k 1#32) S1x16.size (k1_off47_inb k 1)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off47 k 1#32) S1x16.size (k1_off47_inb k 1)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off47 k 2#32) S1x16.size (k1_off47_inb k 2)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off47 k 2#32) S1x16.size (k1_off47_inb k 2)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off47 k 3#32) S1x16.size (k1_off47_inb k 3)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off47 k 3#32) S1x16.size (k1_off47_inb k 3)).toLoadRect gt : Vec Ideal S1x16 .f32) shapeCasts_S1x16_S16 i : EReal)))) rfl ?_
    rw [load_apply' (Memref.whole cc1_scratch1 : Memref sig .scVector .vmem S48x224 .f32) gt (k1_off47 k 0#32) (k1_off47_inb k 0) (4 * k.val + 0) 192 (k1_off47_eq k 0) i,
      load_apply' (Memref.whole cc1_scratch1 : Memref sig .scVector .vmem S48x224 .f32) gt (k1_off47 k 1#32) (k1_off47_inb k 1) (4 * k.val + 1) 192 (k1_off47_eq k 1) i,
      load_apply' (Memref.whole cc1_scratch1 : Memref sig .scVector .vmem S48x224 .f32) gt (k1_off47 k 2#32) (k1_off47_inb k 2) (4 * k.val + 2) 192 (k1_off47_eq k 2) i,
      load_apply' (Memref.whole cc1_scratch1 : Memref sig .scVector .vmem S48x224 .f32) gt (k1_off47 k 3#32) (k1_off47_inb k 3) (4 * k.val + 3) 192 (k1_off47_eq k 3) i]
    exact (mxAbs_four _ _ k.val).symm
  · refine Eq.trans (b := max (max (max (max (mxAbs (fun c => rdN ((Memref.whole cc1_scratch1 : Memref sig .scVector .vmem S48x224 .f32).view.read (Elt Ideal) gt) c (208 + (i 0).val)) (init.2.2.2 i) (4 * k.val))
          (max (shapeCast S16 (View.readAt (Elt Ideal) (Memref.whole cc1_scratch1 : Memref sig .scVector .vmem S48x224 .f32).view (Rect.unit (s := S48x224) (k1_off48 k 0#32) S1x16.size (k1_off48_inb k 0)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off48 k 0#32) S1x16.size (k1_off48_inb k 0)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off48 k 1#32) S1x16.size (k1_off48_inb k 1)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off48 k 1#32) S1x16.size (k1_off48_inb k 1)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off48 k 2#32) S1x16.size (k1_off48_inb k 2)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off48 k 2#32) S1x16.size (k1_off48_inb k 2)).toLoadRect gt : Vec Ideal S1x16 .f32) shapeCasts_S1x16_S16 i : EReal))))
          (max (shapeCast S16 (View.readAt (Elt Ideal) (Memref.whole cc1_scratch1 : Memref sig .scVector .vmem S48x224 .f32).view (Rect.unit (s := S48x224) (k1_off48 k 3#32) S1x16.size (k1_off48_inb k 3)).toLoadRect gt : Vec Ideal S1x16 .f32) shapeCasts_S1x16_S16 i : EReal) (-(shapeCast S16 (View.readAt (Elt Ideal) (Memref.whole cc1_scratch1 : Memref sig .scVector .vmem S48x224 .f32).view (Rect.unit (s := S48x224) (k1_off48 k 3#32) S1x16.size (k1_off48_inb k 3)).toLoadRect gt : Vec Ideal S1x16 .f32) shapeCasts_S1x16_S16 i : EReal)))) rfl ?_
    rw [load_apply' (Memref.whole cc1_scratch1 : Memref sig .scVector .vmem S48x224 .f32) gt (k1_off48 k 0#32) (k1_off48_inb k 0) (4 * k.val + 0) 208 (k1_off48_eq k 0) i,
      load_apply' (Memref.whole cc1_scratch1 : Memref sig .scVector .vmem S48x224 .f32) gt (k1_off48 k 1#32) (k1_off48_inb k 1) (4 * k.val + 1) 208 (k1_off48_eq k 1) i,
      load_apply' (Memref.whole cc1_scratch1 : Memref sig .scVector .vmem S48x224 .f32) gt (k1_off48 k 2#32) (k1_off48_inb k 2) (4 * k.val + 2) 208 (k1_off48_eq k 2) i,
      load_apply' (Memref.whole cc1_scratch1 : Memref sig .scVector .vmem S48x224 .f32) gt (k1_off48 k 3#32) (k1_off48_inb k 3) (4 * k.val + 3) 208 (k1_off48_eq k 3) i]
    exact (mxAbs_four _ _ k.val).symm

/-- THE CLOSED FORM of loop t22: after `n` trips the sums are the initial ones with rows `0 … 4 n − 1` added. -/
theorem sumsV_t22_closed (init : σ4) (n : ℕ) (hn : n ≤ k1_t22_loop.trips) :
    sumsV_t22 (F := Ideal) d L gi gt init n = closed4 ((Memref.whole cc1_scratch0 : Memref sig .scVector .vmem S48x224 .f32).view.read (Elt Ideal) gi) ((Memref.whole cc1_scratch1 : Memref sig .scVector .vmem S48x224 .f32).view.read (Elt Ideal) gt) 192 208 init (4 * n) := by
  induction n with
  | zero => rw [Nat.mul_zero, closed4_zero]; rfl
  | succ n ih =>
    have hlt : n < k1_t22_loop.trips := hn
    rw [sumsV_t22, dif_pos hlt, ih (Nat.le_of_lt hlt)]
    exact stepV_t22_closed d L gi gt ⟨n, hlt⟩ init

end Loop22

end Cert.KernelIdeal.ScTile

end
-- ==== Proof.ScTileCellsRun2I.lean ====
/-
  The accumulation loops' results as cells: each loop, run its twelve trips from a lane group's cells, leaves the cells
  the closed form names (channel group 2: loops t16 … t22).
-/
import proofs.«210586_g14980845929080_cont_week2b_1062_66_alg».proof.Proof.ScTileVMath2I
import proofs.«210586_g14980845929080_cont_week2b_1062_66_alg».proof.Proof.ScTileCellsMathI

noncomputable section

namespace Cert.KernelIdeal.ScTile

open Cert.KernelIdeal Cert.KernelIdeal.Gen Cert.KernelIdeal.ScTileV
open Idealize.ShloMosaic Idealize.ShloMosaic.ValueIdx
open Idealize.ShloMosaic.SparseCore (S V T)

variable (d : Dev nD) (L : grid1.Coords)

/-- Loop t16 from the cells `c`: all twelve trips. -/
theorem region_t16 (gi : Buf (Elt Ideal) ((V d (cV L) (jV L)).loc cc1_scratch0)) (gt : Buf (Elt Ideal) ((V d (cV L) (jV L)).loc cc1_scratch1)) (c : Cells4) :
    cells4 (sumsV_t16 (F := Ideal) d L gi gt (lanes4 c) k1_t16_loop.trips)
      = cells4 (closed4 ((Memref.whole cc1_scratch0 : Memref sig .scVector .vmem S48x224 .f32).view.read (Elt Ideal) gi) ((Memref.whole cc1_scratch1 : Memref sig .scVector .vmem S48x224 .f32).view.read (Elt Ideal) gt) 0 16 (lanes4 c) 48) := by
  rw [sumsV_t16_closed d L gi gt (lanes4 c) k1_t16_loop.trips le_rfl]
  rfl

/-- Loop t17 from the cells `c`: all twelve trips. -/
theorem region_t17 (gi : Buf (Elt Ideal) ((V d (cV L) (jV L)).loc cc1_scratch0)) (gt : Buf (Elt Ideal) ((V d (cV L) (jV L)).loc cc1_scratch1)) (c : Cells4) :
    cells4 (sumsV_t17 (F := Ideal) d L gi gt (lanes4 c) k1_t17_loop.trips)
      = cells4 (closed4 ((Memref.whole cc1_scratch0 : Memref sig .scVector .vmem S48x224 .f32).view.read (Elt Ideal) gi) ((Memref.whole cc1_scratch1 : Memref sig .scVector .vmem S48x224 .f32).view.read (Elt Ideal) gt) 32 48 (lanes4 c) 48) := by
  rw [sumsV_t17_closed d L gi gt (lanes4 c) k1_t17_loop.trips le_rfl]
  rfl

/-- Loop t18 from the cells `c`: all twelve trips. -/
theorem region_t18 (gi : Buf (Elt Ideal) ((V d (cV L) (jV L)).loc cc1_scratch0)) (gt : Buf (Elt Ideal) ((V d (cV L) (jV L)).loc cc1_scratch1)) (c : Cells4) :
    cells4 (sumsV_t18 (F := Ideal) d L gi gt (lanes4 c) k1_t18_loop.trips)
      = cells4 (closed4 ((Memref.whole cc1_scratch0 : Memref sig .scVector .vmem S48x224 .f32).view.read (Elt Ideal) gi) ((Memref.whole cc1_scratch1 : Memref sig .scVector .vmem S48x224 .f32).view.read (Elt Ideal) gt) 64 80 (lanes4 c) 48) := by
  rw [sumsV_t18_closed d L gi gt (lanes4 c) k1_t18_loop.trips le_rfl]
  rfl

/-- Loop t19 from the cells `c`: all twelve trips. -/
theorem region_t19 (gi : Buf (Elt Ideal) ((V d (cV L) (jV L)).loc cc1_scratch0)) (gt : Buf (Elt Ideal) ((V d (cV L) (jV L)).loc cc1_scratch1)) (c : Cells4) :
    cells4 (sumsV_t19 (F := Ideal) d L gi gt (lanes4 c) k1_t19_loop.trips)
      = cells4 (closed4 ((Memref.whole cc1_scratch0 : Memref sig .scVector .vmem S48x224 .f32).view.read (Elt Ideal) gi) ((Memref.whole cc1_scratch1 : Memref sig .scVector .vmem S48x224 .f32).view.read (Elt Ideal) gt) 96 112 (lanes4 c) 48) := by
  rw [sumsV_t19_closed d L gi gt (lanes4 c) k1_t19_loop.trips le_rfl]
  rfl

/-- Loop t20 from the cells `c`: all twelve trips. -/
theorem region_t20 (gi : Buf (Elt Ideal) ((V d (cV L) (jV L)).loc cc1_scratch0)) (gt : Buf (Elt Ideal) ((V d (cV L) (jV L)).loc cc1_scratch1)) (c : Cells4) :
    cells4 (sumsV_t20 (F := Ideal) d L gi gt (lanes4 c) k1_t20_loop.trips)
      = cells4 (closed4 ((Memref.whole cc1_scratch0 : Memref sig .scVector .vmem S48x224 .f32).view.read (Elt Ideal) gi) ((Memref.whole cc1_scratch1 : Memref sig .scVector .vmem S48x224 .f32).view.read (Elt Ideal) gt) 128 144 (lanes4 c) 48) := by
  rw [sumsV_t20_closed d L gi gt (lanes4 c) k1_t20_loop.trips le_rfl]
  rfl

/-- Loop t21 from the cells `c`: all twelve trips. -/
theorem region_t21 (gi : Buf (Elt Ideal) ((V d (cV L) (jV L)).loc cc1_scratch0)) (gt : Buf (Elt Ideal) ((V d (cV L) (jV L)).loc cc1_scratch1)) (c : Cells4) :
    cells4 (sumsV_t21 (F := Ideal) d L gi gt (lanes4 c) k1_t21_loop.trips)
      = cells4 (closed4 ((Memref.whole cc1_scratch0 : Memref sig .scVector .vmem S48x224 .f32).view.read (Elt Ideal) gi) ((Memref.whole cc1_scratch1 : Memref sig .scVector .vmem S48x224 .f32).view.read (Elt Ideal) gt) 160 176 (lanes4 c) 48) := by
  rw [sumsV_t21_closed d L gi gt (lanes4 c) k1_t21_loop.trips le_rfl]
  rfl

/-- Loop t22 from the cells `c`: all twelve trips. -/
theorem region_t22 (gi : Buf (Elt Ideal) ((V d (cV L) (jV L)).loc cc1_scratch0)) (gt : Buf (Elt Ideal) ((V d (cV L) (jV L)).loc cc1_scratch1)) (c : Cells4) :
    cells4 (sumsV_t22 (F := Ideal) d L gi gt (lanes4 c) k1_t22_loop.trips)
      = cells4 (closed4 ((Memref.whole cc1_scratch0 : Memref sig .scVector .vmem S48x224 .f32).view.read (Elt Ideal) gi) ((Memref.whole cc1_scratch1 : Memref sig .scVector .vmem S48x224 .f32).view.read (Elt Ideal) gt) 192 208 (lanes4 c) 48) := by
  rw [sumsV_t22_closed d L gi gt (lanes4 c) k1_t22_loop.trips le_rfl]
  rfl

end Cert.KernelIdeal.ScTile

end
-- ==== Proof.ScTileVMath3I.lean ====
import proofs.«210586_g14980845929080_cont_week2b_1062_66_alg».proof.Proof.ScTileVMathI
import proofs.«210586_g14980845929080_cont_week2b_1062_66_alg».proof.Proof.ScTileValI
import Idealize.ShloMosaic.Lib.WholeRead
import Idealize.ShloMosaic.Lib.ValueIdx
import Idealize.ShloMosaic.Lib.ValueLayout
import Idealize.ShloMosaic.PureOps.Ideal.Laws

noncomputable section

open scoped BigOperators

namespace Cert.KernelIdeal.ScTile

open Cert.KernelIdeal Cert.KernelIdeal.Gen Cert.KernelIdeal.ScTileV
open Idealize.ShloMosaic Idealize.ShloMosaic.ValueIdx
open Idealize.ShloMosaic.SparseCore (S V T)
open Idealize.ShloMosaic.Tactic

variable (d : Dev nD) (L : grid1.Coords)

/-! # The accumulation loops' sums in closed form: channel group 3 (loops t23 … t29) -/

section Loop23
variable (gi : Buf (Elt Ideal) ((V d (cV L) (jV L)).loc cc1_scratch2)) (gt : Buf (Elt Ideal) ((V d (cV L) (jV L)).loc cc1_scratch3))

/-- One trip of accumulation loop t23 adds rows `4 k … 4 k + 3` at columns `0 + lane` and `16 + lane`. -/
theorem stepV_t23_closed (k : Fin k1_t23_loop.trips) (init : σ4) :
    stepV_t23 (F := Ideal) d L gi gt k (closed4 ((Memref.whole cc1_scratch2 : Memref sig .scVector .vmem S48x224 .f32).view.read (Elt Ideal) gi) ((Memref.whole cc1_scratch3 : Memref sig .scVector .vmem S48x224 .f32).view.read (Elt Ideal) gt) 0 16 init (4 * k.val))
      = closed4 ((Memref.whole cc1_scratch2 : Memref sig .scVector .vmem S48x224 .f32).view.read (Elt Ideal) gi) ((Memref.whole cc1_scratch3 : Memref sig .scVector .vmem S48x224 .f32).view.read (Elt Ideal) gt) 0 16 init (4 * (k.val + 1)) := by
  refine Prod.ext ?_ (Prod.ext ?_ (Prod.ext ?_ ?_))
  all_goals funext i
  · refine Eq.trans (b := sqSum (fun c => rdN ((Memref.whole cc1_scratch2 : Memref sig .scVector .vmem S48x224 .f32).view.read (Elt Ideal) gi) c (0 + (i 0).val)) (fun c => rdN ((Memref.whole cc1_scratch3 : Memref sig .scVector .vmem S48x224 .f32).view.read (Elt Ideal) gt) c (0 + (i 0).val)) (init.1 i) (4 * k.val)
          + ((shapeCast S16 (View.readAt (Elt Ideal) (Memref.whole cc1_scratch2 : Memref sig .scVector .vmem S48x224 .f32).view (Rect.unit (s := S48x224) (k1_off50 k 0#32) S1x16.size (k1_off50_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off50 k 0#32) S1x16.size (k1_off50_inb k 0)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off50 k 0#32) S1x16.size (k1_off50_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off50 k 0#32) S1x16.size (k1_off50_inb k 0)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off50 k 1#32) S1x16.size (k1_off50_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off50 k 1#32) S1x16.size (k1_off50_inb k 1)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off50 k 1#32) S1x16.size (k1_off50_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off50 k 1#32) S1x16.size (k1_off50_inb k 1)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off50 k 2#32) S1x16.size (k1_off50_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off50 k 2#32) S1x16.size (k1_off50_inb k 2)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off50 k 2#32) S1x16.size (k1_off50_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off50 k 2#32) S1x16.size (k1_off50_inb k 2)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off50 k 3#32) S1x16.size (k1_off50_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off50 k 3#32) S1x16.size (k1_off50_inb k 3)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off50 k 3#32) S1x16.size (k1_off50_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off50 k 3#32) S1x16.size (k1_off50_inb k 3)).toLoadRect gt : Vec Ideal S1x16 .f32) shapeCasts_S1x16_S16 i : EReal))) rfl ?_
    rw [load_apply' (Memref.whole cc1_scratch2 : Memref sig .scVector .vmem S48x224 .f32) gi (k1_off50 k 0#32) (k1_off50_inb k 0) (4 * k.val + 0) 0 (k1_off50_eq k 0) i, load_apply' (Memref.whole cc1_scratch3 : Memref sig .scVector .vmem S48x224 .f32) gt (k1_off50 k 0#32) (k1_off50_inb k 0) (4 * k.val + 0) 0 (k1_off50_eq k 0) i,
      load_apply' (Memref.whole cc1_scratch2 : Memref sig .scVector .vmem S48x224 .f32) gi (k1_off50 k 1#32) (k1_off50_inb k 1) (4 * k.val + 1) 0 (k1_off50_eq k 1) i, load_apply' (Memref.whole cc1_scratch3 : Memref sig .scVector .vmem S48x224 .f32) gt (k1_off50 k 1#32) (k1_off50_inb k 1) (4 * k.val + 1) 0 (k1_off50_eq k 1) i,
      load_apply' (Memref.whole cc1_scratch2 : Memref sig .scVector .vmem S48x224 .f32) gi (k1_off50 k 2#32) (k1_off50_inb k 2) (4 * k.val + 2) 0 (k1_off50_eq k 2) i, load_apply' (Memref.whole cc1_scratch3 : Memref sig .scVector .vmem S48x224 .f32) gt (k1_off50 k 2#32) (k1_off50_inb k 2) (4 * k.val + 2) 0 (k1_off50_eq k 2) i,
      load_apply' (Memref.whole cc1_scratch2 : Memref sig .scVector .vmem S48x224 .f32) gi (k1_off50 k 3#32) (k1_off50_inb k 3) (4 * k.val + 3) 0 (k1_off50_eq k 3) i, load_apply' (Memref.whole cc1_scratch3 : Memref sig .scVector .vmem S48x224 .f32) gt (k1_off50 k 3#32) (k1_off50_inb k 3) (4 * k.val + 3) 0 (k1_off50_eq k 3) i]
    exact (sqSum_four _ _ _ k.val).symm
  · refine Eq.trans (b := sqSum (fun c => rdN ((Memref.whole cc1_scratch2 : Memref sig .scVector .vmem S48x224 .f32).view.read (Elt Ideal) gi) c (16 + (i 0).val)) (fun c => rdN ((Memref.whole cc1_scratch3 : Memref sig .scVector .vmem S48x224 .f32).view.read (Elt Ideal) gt) c (16 + (i 0).val)) (init.2.1 i) (4 * k.val)
          + ((shapeCast S16 (View.readAt (Elt Ideal) (Memref.whole cc1_scratch2 : Memref sig .scVector .vmem S48x224 .f32).view (Rect.unit (s := S48x224) (k1_off51 k 0#32) S1x16.size (k1_off51_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off51 k 0#32) S1x16.size (k1_off51_inb k 0)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off51 k 0#32) S1x16.size (k1_off51_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off51 k 0#32) S1x16.size (k1_off51_inb k 0)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off51 k 1#32) S1x16.size (k1_off51_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off51 k 1#32) S1x16.size (k1_off51_inb k 1)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off51 k 1#32) S1x16.size (k1_off51_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off51 k 1#32) S1x16.size (k1_off51_inb k 1)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off51 k 2#32) S1x16.size (k1_off51_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off51 k 2#32) S1x16.size (k1_off51_inb k 2)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off51 k 2#32) S1x16.size (k1_off51_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off51 k 2#32) S1x16.size (k1_off51_inb k 2)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off51 k 3#32) S1x16.size (k1_off51_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off51 k 3#32) S1x16.size (k1_off51_inb k 3)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off51 k 3#32) S1x16.size (k1_off51_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off51 k 3#32) S1x16.size (k1_off51_inb k 3)).toLoadRect gt : Vec Ideal S1x16 .f32) shapeCasts_S1x16_S16 i : EReal))) rfl ?_
    rw [load_apply' (Memref.whole cc1_scratch2 : Memref sig .scVector .vmem S48x224 .f32) gi (k1_off51 k 0#32) (k1_off51_inb k 0) (4 * k.val + 0) 16 (k1_off51_eq k 0) i, load_apply' (Memref.whole cc1_scratch3 : Memref sig .scVector .vmem S48x224 .f32) gt (k1_off51 k 0#32) (k1_off51_inb k 0) (4 * k.val + 0) 16 (k1_off51_eq k 0) i,
      load_apply' (Memref.whole cc1_scratch2 : Memref sig .scVector .vmem S48x224 .f32) gi (k1_off51 k 1#32) (k1_off51_inb k 1) (4 * k.val + 1) 16 (k1_off51_eq k 1) i, load_apply' (Memref.whole cc1_scratch3 : Memref sig .scVector .vmem S48x224 .f32) gt (k1_off51 k 1#32) (k1_off51_inb k 1) (4 * k.val + 1) 16 (k1_off51_eq k 1) i,
      load_apply' (Memref.whole cc1_scratch2 : Memref sig .scVector .vmem S48x224 .f32) gi (k1_off51 k 2#32) (k1_off51_inb k 2) (4 * k.val + 2) 16 (k1_off51_eq k 2) i, load_apply' (Memref.whole cc1_scratch3 : Memref sig .scVector .vmem S48x224 .f32) gt (k1_off51 k 2#32) (k1_off51_inb k 2) (4 * k.val + 2) 16 (k1_off51_eq k 2) i,
      load_apply' (Memref.whole cc1_scratch2 : Memref sig .scVector .vmem S48x224 .f32) gi (k1_off51 k 3#32) (k1_off51_inb k 3) (4 * k.val + 3) 16 (k1_off51_eq k 3) i, load_apply' (Memref.whole cc1_scratch3 : Memref sig .scVector .vmem S48x224 .f32) gt (k1_off51 k 3#32) (k1_off51_inb k 3) (4 * k.val + 3) 16 (k1_off51_eq k 3) i]
    exact (sqSum_four _ _ _ k.val).symm
  · refine Eq.trans (b := max (max (max (max (mxAbs (fun c => rdN ((Memref.whole cc1_scratch3 : Memref sig .scVector .vmem S48x224 .f32).view.read (Elt Ideal) gt) c (0 + (i 0).val)) (init.2.2.1 i) (4 * k.val))
          (max (shapeCast S16 (View.readAt (Elt Ideal) (Memref.whole cc1_scratch3 : Memref sig .scVector .vmem S48x224 .f32).view (Rect.unit (s := S48x224) (k1_off50 k 0#32) S1x16.size (k1_off50_inb k 0)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off50 k 0#32) S1x16.size (k1_off50_inb k 0)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off50 k 1#32) S1x16.size (k1_off50_inb k 1)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off50 k 1#32) S1x16.size (k1_off50_inb k 1)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off50 k 2#32) S1x16.size (k1_off50_inb k 2)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off50 k 2#32) S1x16.size (k1_off50_inb k 2)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off50 k 3#32) S1x16.size (k1_off50_inb k 3)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off50 k 3#32) S1x16.size (k1_off50_inb k 3)).toLoadRect gt : Vec Ideal S1x16 .f32) shapeCasts_S1x16_S16 i : EReal)))) rfl ?_
    rw [load_apply' (Memref.whole cc1_scratch3 : Memref sig .scVector .vmem S48x224 .f32) gt (k1_off50 k 0#32) (k1_off50_inb k 0) (4 * k.val + 0) 0 (k1_off50_eq k 0) i,
      load_apply' (Memref.whole cc1_scratch3 : Memref sig .scVector .vmem S48x224 .f32) gt (k1_off50 k 1#32) (k1_off50_inb k 1) (4 * k.val + 1) 0 (k1_off50_eq k 1) i,
      load_apply' (Memref.whole cc1_scratch3 : Memref sig .scVector .vmem S48x224 .f32) gt (k1_off50 k 2#32) (k1_off50_inb k 2) (4 * k.val + 2) 0 (k1_off50_eq k 2) i,
      load_apply' (Memref.whole cc1_scratch3 : Memref sig .scVector .vmem S48x224 .f32) gt (k1_off50 k 3#32) (k1_off50_inb k 3) (4 * k.val + 3) 0 (k1_off50_eq k 3) i]
    exact (mxAbs_four _ _ k.val).symm
  · refine Eq.trans (b := max (max (max (max (mxAbs (fun c => rdN ((Memref.whole cc1_scratch3 : Memref sig .scVector .vmem S48x224 .f32).view.read (Elt Ideal) gt) c (16 + (i 0).val)) (init.2.2.2 i) (4 * k.val))
          (max (shapeCast S16 (View.readAt (Elt Ideal) (Memref.whole cc1_scratch3 : Memref sig .scVector .vmem S48x224 .f32).view (Rect.unit (s := S48x224) (k1_off51 k 0#32) S1x16.size (k1_off51_inb k 0)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off51 k 0#32) S1x16.size (k1_off51_inb k 0)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off51 k 1#32) S1x16.size (k1_off51_inb k 1)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off51 k 1#32) S1x16.size (k1_off51_inb k 1)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off51 k 2#32) S1x16.size (k1_off51_inb k 2)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off51 k 2#32) S1x16.size (k1_off51_inb k 2)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off51 k 3#32) S1x16.size (k1_off51_inb k 3)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off51 k 3#32) S1x16.size (k1_off51_inb k 3)).toLoadRect gt : Vec Ideal S1x16 .f32) shapeCasts_S1x16_S16 i : EReal)))) rfl ?_
    rw [load_apply' (Memref.whole cc1_scratch3 : Memref sig .scVector .vmem S48x224 .f32) gt (k1_off51 k 0#32) (k1_off51_inb k 0) (4 * k.val + 0) 16 (k1_off51_eq k 0) i,
      load_apply' (Memref.whole cc1_scratch3 : Memref sig .scVector .vmem S48x224 .f32) gt (k1_off51 k 1#32) (k1_off51_inb k 1) (4 * k.val + 1) 16 (k1_off51_eq k 1) i,
      load_apply' (Memref.whole cc1_scratch3 : Memref sig .scVector .vmem S48x224 .f32) gt (k1_off51 k 2#32) (k1_off51_inb k 2) (4 * k.val + 2) 16 (k1_off51_eq k 2) i,
      load_apply' (Memref.whole cc1_scratch3 : Memref sig .scVector .vmem S48x224 .f32) gt (k1_off51 k 3#32) (k1_off51_inb k 3) (4 * k.val + 3) 16 (k1_off51_eq k 3) i]
    exact (mxAbs_four _ _ k.val).symm

/-- THE CLOSED FORM of loop t23: after `n` trips the sums are the initial ones with rows `0 … 4 n − 1` added. -/
theorem sumsV_t23_closed (init : σ4) (n : ℕ) (hn : n ≤ k1_t23_loop.trips) :
    sumsV_t23 (F := Ideal) d L gi gt init n = closed4 ((Memref.whole cc1_scratch2 : Memref sig .scVector .vmem S48x224 .f32).view.read (Elt Ideal) gi) ((Memref.whole cc1_scratch3 : Memref sig .scVector .vmem S48x224 .f32).view.read (Elt Ideal) gt) 0 16 init (4 * n) := by
  induction n with
  | zero => rw [Nat.mul_zero, closed4_zero]; rfl
  | succ n ih =>
    have hlt : n < k1_t23_loop.trips := hn
    rw [sumsV_t23, dif_pos hlt, ih (Nat.le_of_lt hlt)]
    exact stepV_t23_closed d L gi gt ⟨n, hlt⟩ init

end Loop23

section Loop24
variable (gi : Buf (Elt Ideal) ((V d (cV L) (jV L)).loc cc1_scratch2)) (gt : Buf (Elt Ideal) ((V d (cV L) (jV L)).loc cc1_scratch3))

/-- One trip of accumulation loop t24 adds rows `4 k … 4 k + 3` at columns `32 + lane` and `48 + lane`. -/
theorem stepV_t24_closed (k : Fin k1_t24_loop.trips) (init : σ4) :
    stepV_t24 (F := Ideal) d L gi gt k (closed4 ((Memref.whole cc1_scratch2 : Memref sig .scVector .vmem S48x224 .f32).view.read (Elt Ideal) gi) ((Memref.whole cc1_scratch3 : Memref sig .scVector .vmem S48x224 .f32).view.read (Elt Ideal) gt) 32 48 init (4 * k.val))
      = closed4 ((Memref.whole cc1_scratch2 : Memref sig .scVector .vmem S48x224 .f32).view.read (Elt Ideal) gi) ((Memref.whole cc1_scratch3 : Memref sig .scVector .vmem S48x224 .f32).view.read (Elt Ideal) gt) 32 48 init (4 * (k.val + 1)) := by
  refine Prod.ext ?_ (Prod.ext ?_ (Prod.ext ?_ ?_))
  all_goals funext i
  · refine Eq.trans (b := sqSum (fun c => rdN ((Memref.whole cc1_scratch2 : Memref sig .scVector .vmem S48x224 .f32).view.read (Elt Ideal) gi) c (32 + (i 0).val)) (fun c => rdN ((Memref.whole cc1_scratch3 : Memref sig .scVector .vmem S48x224 .f32).view.read (Elt Ideal) gt) c (32 + (i 0).val)) (init.1 i) (4 * k.val)
          + ((shapeCast S16 (View.readAt (Elt Ideal) (Memref.whole cc1_scratch2 : Memref sig .scVector .vmem S48x224 .f32).view (Rect.unit (s := S48x224) (k1_off52 k 0#32) S1x16.size (k1_off52_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off52 k 0#32) S1x16.size (k1_off52_inb k 0)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off52 k 0#32) S1x16.size (k1_off52_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off52 k 0#32) S1x16.size (k1_off52_inb k 0)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off52 k 1#32) S1x16.size (k1_off52_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off52 k 1#32) S1x16.size (k1_off52_inb k 1)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off52 k 1#32) S1x16.size (k1_off52_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off52 k 1#32) S1x16.size (k1_off52_inb k 1)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off52 k 2#32) S1x16.size (k1_off52_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off52 k 2#32) S1x16.size (k1_off52_inb k 2)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off52 k 2#32) S1x16.size (k1_off52_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off52 k 2#32) S1x16.size (k1_off52_inb k 2)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off52 k 3#32) S1x16.size (k1_off52_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off52 k 3#32) S1x16.size (k1_off52_inb k 3)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off52 k 3#32) S1x16.size (k1_off52_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off52 k 3#32) S1x16.size (k1_off52_inb k 3)).toLoadRect gt : Vec Ideal S1x16 .f32) shapeCasts_S1x16_S16 i : EReal))) rfl ?_
    rw [load_apply' (Memref.whole cc1_scratch2 : Memref sig .scVector .vmem S48x224 .f32) gi (k1_off52 k 0#32) (k1_off52_inb k 0) (4 * k.val + 0) 32 (k1_off52_eq k 0) i, load_apply' (Memref.whole cc1_scratch3 : Memref sig .scVector .vmem S48x224 .f32) gt (k1_off52 k 0#32) (k1_off52_inb k 0) (4 * k.val + 0) 32 (k1_off52_eq k 0) i,
      load_apply' (Memref.whole cc1_scratch2 : Memref sig .scVector .vmem S48x224 .f32) gi (k1_off52 k 1#32) (k1_off52_inb k 1) (4 * k.val + 1) 32 (k1_off52_eq k 1) i, load_apply' (Memref.whole cc1_scratch3 : Memref sig .scVector .vmem S48x224 .f32) gt (k1_off52 k 1#32) (k1_off52_inb k 1) (4 * k.val + 1) 32 (k1_off52_eq k 1) i,
      load_apply' (Memref.whole cc1_scratch2 : Memref sig .scVector .vmem S48x224 .f32) gi (k1_off52 k 2#32) (k1_off52_inb k 2) (4 * k.val + 2) 32 (k1_off52_eq k 2) i, load_apply' (Memref.whole cc1_scratch3 : Memref sig .scVector .vmem S48x224 .f32) gt (k1_off52 k 2#32) (k1_off52_inb k 2) (4 * k.val + 2) 32 (k1_off52_eq k 2) i,
      load_apply' (Memref.whole cc1_scratch2 : Memref sig .scVector .vmem S48x224 .f32) gi (k1_off52 k 3#32) (k1_off52_inb k 3) (4 * k.val + 3) 32 (k1_off52_eq k 3) i, load_apply' (Memref.whole cc1_scratch3 : Memref sig .scVector .vmem S48x224 .f32) gt (k1_off52 k 3#32) (k1_off52_inb k 3) (4 * k.val + 3) 32 (k1_off52_eq k 3) i]
    exact (sqSum_four _ _ _ k.val).symm
  · refine Eq.trans (b := sqSum (fun c => rdN ((Memref.whole cc1_scratch2 : Memref sig .scVector .vmem S48x224 .f32).view.read (Elt Ideal) gi) c (48 + (i 0).val)) (fun c => rdN ((Memref.whole cc1_scratch3 : Memref sig .scVector .vmem S48x224 .f32).view.read (Elt Ideal) gt) c (48 + (i 0).val)) (init.2.1 i) (4 * k.val)
          + ((shapeCast S16 (View.readAt (Elt Ideal) (Memref.whole cc1_scratch2 : Memref sig .scVector .vmem S48x224 .f32).view (Rect.unit (s := S48x224) (k1_off53 k 0#32) S1x16.size (k1_off53_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off53 k 0#32) S1x16.size (k1_off53_inb k 0)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off53 k 0#32) S1x16.size (k1_off53_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off53 k 0#32) S1x16.size (k1_off53_inb k 0)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off53 k 1#32) S1x16.size (k1_off53_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off53 k 1#32) S1x16.size (k1_off53_inb k 1)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off53 k 1#32) S1x16.size (k1_off53_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off53 k 1#32) S1x16.size (k1_off53_inb k 1)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off53 k 2#32) S1x16.size (k1_off53_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off53 k 2#32) S1x16.size (k1_off53_inb k 2)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off53 k 2#32) S1x16.size (k1_off53_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off53 k 2#32) S1x16.size (k1_off53_inb k 2)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off53 k 3#32) S1x16.size (k1_off53_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off53 k 3#32) S1x16.size (k1_off53_inb k 3)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off53 k 3#32) S1x16.size (k1_off53_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off53 k 3#32) S1x16.size (k1_off53_inb k 3)).toLoadRect gt : Vec Ideal S1x16 .f32) shapeCasts_S1x16_S16 i : EReal))) rfl ?_
    rw [load_apply' (Memref.whole cc1_scratch2 : Memref sig .scVector .vmem S48x224 .f32) gi (k1_off53 k 0#32) (k1_off53_inb k 0) (4 * k.val + 0) 48 (k1_off53_eq k 0) i, load_apply' (Memref.whole cc1_scratch3 : Memref sig .scVector .vmem S48x224 .f32) gt (k1_off53 k 0#32) (k1_off53_inb k 0) (4 * k.val + 0) 48 (k1_off53_eq k 0) i,
      load_apply' (Memref.whole cc1_scratch2 : Memref sig .scVector .vmem S48x224 .f32) gi (k1_off53 k 1#32) (k1_off53_inb k 1) (4 * k.val + 1) 48 (k1_off53_eq k 1) i, load_apply' (Memref.whole cc1_scratch3 : Memref sig .scVector .vmem S48x224 .f32) gt (k1_off53 k 1#32) (k1_off53_inb k 1) (4 * k.val + 1) 48 (k1_off53_eq k 1) i,
      load_apply' (Memref.whole cc1_scratch2 : Memref sig .scVector .vmem S48x224 .f32) gi (k1_off53 k 2#32) (k1_off53_inb k 2) (4 * k.val + 2) 48 (k1_off53_eq k 2) i, load_apply' (Memref.whole cc1_scratch3 : Memref sig .scVector .vmem S48x224 .f32) gt (k1_off53 k 2#32) (k1_off53_inb k 2) (4 * k.val + 2) 48 (k1_off53_eq k 2) i,
      load_apply' (Memref.whole cc1_scratch2 : Memref sig .scVector .vmem S48x224 .f32) gi (k1_off53 k 3#32) (k1_off53_inb k 3) (4 * k.val + 3) 48 (k1_off53_eq k 3) i, load_apply' (Memref.whole cc1_scratch3 : Memref sig .scVector .vmem S48x224 .f32) gt (k1_off53 k 3#32) (k1_off53_inb k 3) (4 * k.val + 3) 48 (k1_off53_eq k 3) i]
    exact (sqSum_four _ _ _ k.val).symm
  · refine Eq.trans (b := max (max (max (max (mxAbs (fun c => rdN ((Memref.whole cc1_scratch3 : Memref sig .scVector .vmem S48x224 .f32).view.read (Elt Ideal) gt) c (32 + (i 0).val)) (init.2.2.1 i) (4 * k.val))
          (max (shapeCast S16 (View.readAt (Elt Ideal) (Memref.whole cc1_scratch3 : Memref sig .scVector .vmem S48x224 .f32).view (Rect.unit (s := S48x224) (k1_off52 k 0#32) S1x16.size (k1_off52_inb k 0)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off52 k 0#32) S1x16.size (k1_off52_inb k 0)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off52 k 1#32) S1x16.size (k1_off52_inb k 1)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off52 k 1#32) S1x16.size (k1_off52_inb k 1)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off52 k 2#32) S1x16.size (k1_off52_inb k 2)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off52 k 2#32) S1x16.size (k1_off52_inb k 2)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off52 k 3#32) S1x16.size (k1_off52_inb k 3)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off52 k 3#32) S1x16.size (k1_off52_inb k 3)).toLoadRect gt : Vec Ideal S1x16 .f32) shapeCasts_S1x16_S16 i : EReal)))) rfl ?_
    rw [load_apply' (Memref.whole cc1_scratch3 : Memref sig .scVector .vmem S48x224 .f32) gt (k1_off52 k 0#32) (k1_off52_inb k 0) (4 * k.val + 0) 32 (k1_off52_eq k 0) i,
      load_apply' (Memref.whole cc1_scratch3 : Memref sig .scVector .vmem S48x224 .f32) gt (k1_off52 k 1#32) (k1_off52_inb k 1) (4 * k.val + 1) 32 (k1_off52_eq k 1) i,
      load_apply' (Memref.whole cc1_scratch3 : Memref sig .scVector .vmem S48x224 .f32) gt (k1_off52 k 2#32) (k1_off52_inb k 2) (4 * k.val + 2) 32 (k1_off52_eq k 2) i,
      load_apply' (Memref.whole cc1_scratch3 : Memref sig .scVector .vmem S48x224 .f32) gt (k1_off52 k 3#32) (k1_off52_inb k 3) (4 * k.val + 3) 32 (k1_off52_eq k 3) i]
    exact (mxAbs_four _ _ k.val).symm
  · refine Eq.trans (b := max (max (max (max (mxAbs (fun c => rdN ((Memref.whole cc1_scratch3 : Memref sig .scVector .vmem S48x224 .f32).view.read (Elt Ideal) gt) c (48 + (i 0).val)) (init.2.2.2 i) (4 * k.val))
          (max (shapeCast S16 (View.readAt (Elt Ideal) (Memref.whole cc1_scratch3 : Memref sig .scVector .vmem S48x224 .f32).view (Rect.unit (s := S48x224) (k1_off53 k 0#32) S1x16.size (k1_off53_inb k 0)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off53 k 0#32) S1x16.size (k1_off53_inb k 0)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off53 k 1#32) S1x16.size (k1_off53_inb k 1)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off53 k 1#32) S1x16.size (k1_off53_inb k 1)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off53 k 2#32) S1x16.size (k1_off53_inb k 2)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off53 k 2#32) S1x16.size (k1_off53_inb k 2)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off53 k 3#32) S1x16.size (k1_off53_inb k 3)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off53 k 3#32) S1x16.size (k1_off53_inb k 3)).toLoadRect gt : Vec Ideal S1x16 .f32) shapeCasts_S1x16_S16 i : EReal)))) rfl ?_
    rw [load_apply' (Memref.whole cc1_scratch3 : Memref sig .scVector .vmem S48x224 .f32) gt (k1_off53 k 0#32) (k1_off53_inb k 0) (4 * k.val + 0) 48 (k1_off53_eq k 0) i,
      load_apply' (Memref.whole cc1_scratch3 : Memref sig .scVector .vmem S48x224 .f32) gt (k1_off53 k 1#32) (k1_off53_inb k 1) (4 * k.val + 1) 48 (k1_off53_eq k 1) i,
      load_apply' (Memref.whole cc1_scratch3 : Memref sig .scVector .vmem S48x224 .f32) gt (k1_off53 k 2#32) (k1_off53_inb k 2) (4 * k.val + 2) 48 (k1_off53_eq k 2) i,
      load_apply' (Memref.whole cc1_scratch3 : Memref sig .scVector .vmem S48x224 .f32) gt (k1_off53 k 3#32) (k1_off53_inb k 3) (4 * k.val + 3) 48 (k1_off53_eq k 3) i]
    exact (mxAbs_four _ _ k.val).symm

/-- THE CLOSED FORM of loop t24: after `n` trips the sums are the initial ones with rows `0 … 4 n − 1` added. -/
theorem sumsV_t24_closed (init : σ4) (n : ℕ) (hn : n ≤ k1_t24_loop.trips) :
    sumsV_t24 (F := Ideal) d L gi gt init n = closed4 ((Memref.whole cc1_scratch2 : Memref sig .scVector .vmem S48x224 .f32).view.read (Elt Ideal) gi) ((Memref.whole cc1_scratch3 : Memref sig .scVector .vmem S48x224 .f32).view.read (Elt Ideal) gt) 32 48 init (4 * n) := by
  induction n with
  | zero => rw [Nat.mul_zero, closed4_zero]; rfl
  | succ n ih =>
    have hlt : n < k1_t24_loop.trips := hn
    rw [sumsV_t24, dif_pos hlt, ih (Nat.le_of_lt hlt)]
    exact stepV_t24_closed d L gi gt ⟨n, hlt⟩ init

end Loop24

section Loop25
variable (gi : Buf (Elt Ideal) ((V d (cV L) (jV L)).loc cc1_scratch2)) (gt : Buf (Elt Ideal) ((V d (cV L) (jV L)).loc cc1_scratch3))

/-- One trip of accumulation loop t25 adds rows `4 k … 4 k + 3` at columns `64 + lane` and `80 + lane`. -/
theorem stepV_t25_closed (k : Fin k1_t25_loop.trips) (init : σ4) :
    stepV_t25 (F := Ideal) d L gi gt k (closed4 ((Memref.whole cc1_scratch2 : Memref sig .scVector .vmem S48x224 .f32).view.read (Elt Ideal) gi) ((Memref.whole cc1_scratch3 : Memref sig .scVector .vmem S48x224 .f32).view.read (Elt Ideal) gt) 64 80 init (4 * k.val))
      = closed4 ((Memref.whole cc1_scratch2 : Memref sig .scVector .vmem S48x224 .f32).view.read (Elt Ideal) gi) ((Memref.whole cc1_scratch3 : Memref sig .scVector .vmem S48x224 .f32).view.read (Elt Ideal) gt) 64 80 init (4 * (k.val + 1)) := by
  refine Prod.ext ?_ (Prod.ext ?_ (Prod.ext ?_ ?_))
  all_goals funext i
  · refine Eq.trans (b := sqSum (fun c => rdN ((Memref.whole cc1_scratch2 : Memref sig .scVector .vmem S48x224 .f32).view.read (Elt Ideal) gi) c (64 + (i 0).val)) (fun c => rdN ((Memref.whole cc1_scratch3 : Memref sig .scVector .vmem S48x224 .f32).view.read (Elt Ideal) gt) c (64 + (i 0).val)) (init.1 i) (4 * k.val)
          + ((shapeCast S16 (View.readAt (Elt Ideal) (Memref.whole cc1_scratch2 : Memref sig .scVector .vmem S48x224 .f32).view (Rect.unit (s := S48x224) (k1_off54 k 0#32) S1x16.size (k1_off54_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off54 k 0#32) S1x16.size (k1_off54_inb k 0)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off54 k 0#32) S1x16.size (k1_off54_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off54 k 0#32) S1x16.size (k1_off54_inb k 0)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off54 k 1#32) S1x16.size (k1_off54_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off54 k 1#32) S1x16.size (k1_off54_inb k 1)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off54 k 1#32) S1x16.size (k1_off54_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off54 k 1#32) S1x16.size (k1_off54_inb k 1)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off54 k 2#32) S1x16.size (k1_off54_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off54 k 2#32) S1x16.size (k1_off54_inb k 2)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off54 k 2#32) S1x16.size (k1_off54_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off54 k 2#32) S1x16.size (k1_off54_inb k 2)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off54 k 3#32) S1x16.size (k1_off54_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off54 k 3#32) S1x16.size (k1_off54_inb k 3)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off54 k 3#32) S1x16.size (k1_off54_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off54 k 3#32) S1x16.size (k1_off54_inb k 3)).toLoadRect gt : Vec Ideal S1x16 .f32) shapeCasts_S1x16_S16 i : EReal))) rfl ?_
    rw [load_apply' (Memref.whole cc1_scratch2 : Memref sig .scVector .vmem S48x224 .f32) gi (k1_off54 k 0#32) (k1_off54_inb k 0) (4 * k.val + 0) 64 (k1_off54_eq k 0) i, load_apply' (Memref.whole cc1_scratch3 : Memref sig .scVector .vmem S48x224 .f32) gt (k1_off54 k 0#32) (k1_off54_inb k 0) (4 * k.val + 0) 64 (k1_off54_eq k 0) i,
      load_apply' (Memref.whole cc1_scratch2 : Memref sig .scVector .vmem S48x224 .f32) gi (k1_off54 k 1#32) (k1_off54_inb k 1) (4 * k.val + 1) 64 (k1_off54_eq k 1) i, load_apply' (Memref.whole cc1_scratch3 : Memref sig .scVector .vmem S48x224 .f32) gt (k1_off54 k 1#32) (k1_off54_inb k 1) (4 * k.val + 1) 64 (k1_off54_eq k 1) i,
      load_apply' (Memref.whole cc1_scratch2 : Memref sig .scVector .vmem S48x224 .f32) gi (k1_off54 k 2#32) (k1_off54_inb k 2) (4 * k.val + 2) 64 (k1_off54_eq k 2) i, load_apply' (Memref.whole cc1_scratch3 : Memref sig .scVector .vmem S48x224 .f32) gt (k1_off54 k 2#32) (k1_off54_inb k 2) (4 * k.val + 2) 64 (k1_off54_eq k 2) i,
      load_apply' (Memref.whole cc1_scratch2 : Memref sig .scVector .vmem S48x224 .f32) gi (k1_off54 k 3#32) (k1_off54_inb k 3) (4 * k.val + 3) 64 (k1_off54_eq k 3) i, load_apply' (Memref.whole cc1_scratch3 : Memref sig .scVector .vmem S48x224 .f32) gt (k1_off54 k 3#32) (k1_off54_inb k 3) (4 * k.val + 3) 64 (k1_off54_eq k 3) i]
    exact (sqSum_four _ _ _ k.val).symm
  · refine Eq.trans (b := sqSum (fun c => rdN ((Memref.whole cc1_scratch2 : Memref sig .scVector .vmem S48x224 .f32).view.read (Elt Ideal) gi) c (80 + (i 0).val)) (fun c => rdN ((Memref.whole cc1_scratch3 : Memref sig .scVector .vmem S48x224 .f32).view.read (Elt Ideal) gt) c (80 + (i 0).val)) (init.2.1 i) (4 * k.val)
          + ((shapeCast S16 (View.readAt (Elt Ideal) (Memref.whole cc1_scratch2 : Memref sig .scVector .vmem S48x224 .f32).view (Rect.unit (s := S48x224) (k1_off55 k 0#32) S1x16.size (k1_off55_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off55 k 0#32) S1x16.size (k1_off55_inb k 0)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off55 k 0#32) S1x16.size (k1_off55_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off55 k 0#32) S1x16.size (k1_off55_inb k 0)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off55 k 1#32) S1x16.size (k1_off55_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off55 k 1#32) S1x16.size (k1_off55_inb k 1)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off55 k 1#32) S1x16.size (k1_off55_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off55 k 1#32) S1x16.size (k1_off55_inb k 1)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off55 k 2#32) S1x16.size (k1_off55_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off55 k 2#32) S1x16.size (k1_off55_inb k 2)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off55 k 2#32) S1x16.size (k1_off55_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off55 k 2#32) S1x16.size (k1_off55_inb k 2)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off55 k 3#32) S1x16.size (k1_off55_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off55 k 3#32) S1x16.size (k1_off55_inb k 3)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off55 k 3#32) S1x16.size (k1_off55_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off55 k 3#32) S1x16.size (k1_off55_inb k 3)).toLoadRect gt : Vec Ideal S1x16 .f32) shapeCasts_S1x16_S16 i : EReal))) rfl ?_
    rw [load_apply' (Memref.whole cc1_scratch2 : Memref sig .scVector .vmem S48x224 .f32) gi (k1_off55 k 0#32) (k1_off55_inb k 0) (4 * k.val + 0) 80 (k1_off55_eq k 0) i, load_apply' (Memref.whole cc1_scratch3 : Memref sig .scVector .vmem S48x224 .f32) gt (k1_off55 k 0#32) (k1_off55_inb k 0) (4 * k.val + 0) 80 (k1_off55_eq k 0) i,
      load_apply' (Memref.whole cc1_scratch2 : Memref sig .scVector .vmem S48x224 .f32) gi (k1_off55 k 1#32) (k1_off55_inb k 1) (4 * k.val + 1) 80 (k1_off55_eq k 1) i, load_apply' (Memref.whole cc1_scratch3 : Memref sig .scVector .vmem S48x224 .f32) gt (k1_off55 k 1#32) (k1_off55_inb k 1) (4 * k.val + 1) 80 (k1_off55_eq k 1) i,
      load_apply' (Memref.whole cc1_scratch2 : Memref sig .scVector .vmem S48x224 .f32) gi (k1_off55 k 2#32) (k1_off55_inb k 2) (4 * k.val + 2) 80 (k1_off55_eq k 2) i, load_apply' (Memref.whole cc1_scratch3 : Memref sig .scVector .vmem S48x224 .f32) gt (k1_off55 k 2#32) (k1_off55_inb k 2) (4 * k.val + 2) 80 (k1_off55_eq k 2) i,
      load_apply' (Memref.whole cc1_scratch2 : Memref sig .scVector .vmem S48x224 .f32) gi (k1_off55 k 3#32) (k1_off55_inb k 3) (4 * k.val + 3) 80 (k1_off55_eq k 3) i, load_apply' (Memref.whole cc1_scratch3 : Memref sig .scVector .vmem S48x224 .f32) gt (k1_off55 k 3#32) (k1_off55_inb k 3) (4 * k.val + 3) 80 (k1_off55_eq k 3) i]
    exact (sqSum_four _ _ _ k.val).symm
  · refine Eq.trans (b := max (max (max (max (mxAbs (fun c => rdN ((Memref.whole cc1_scratch3 : Memref sig .scVector .vmem S48x224 .f32).view.read (Elt Ideal) gt) c (64 + (i 0).val)) (init.2.2.1 i) (4 * k.val))
          (max (shapeCast S16 (View.readAt (Elt Ideal) (Memref.whole cc1_scratch3 : Memref sig .scVector .vmem S48x224 .f32).view (Rect.unit (s := S48x224) (k1_off54 k 0#32) S1x16.size (k1_off54_inb k 0)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off54 k 0#32) S1x16.size (k1_off54_inb k 0)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off54 k 1#32) S1x16.size (k1_off54_inb k 1)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off54 k 1#32) S1x16.size (k1_off54_inb k 1)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off54 k 2#32) S1x16.size (k1_off54_inb k 2)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off54 k 2#32) S1x16.size (k1_off54_inb k 2)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off54 k 3#32) S1x16.size (k1_off54_inb k 3)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off54 k 3#32) S1x16.size (k1_off54_inb k 3)).toLoadRect gt : Vec Ideal S1x16 .f32) shapeCasts_S1x16_S16 i : EReal)))) rfl ?_
    rw [load_apply' (Memref.whole cc1_scratch3 : Memref sig .scVector .vmem S48x224 .f32) gt (k1_off54 k 0#32) (k1_off54_inb k 0) (4 * k.val + 0) 64 (k1_off54_eq k 0) i,
      load_apply' (Memref.whole cc1_scratch3 : Memref sig .scVector .vmem S48x224 .f32) gt (k1_off54 k 1#32) (k1_off54_inb k 1) (4 * k.val + 1) 64 (k1_off54_eq k 1) i,
      load_apply' (Memref.whole cc1_scratch3 : Memref sig .scVector .vmem S48x224 .f32) gt (k1_off54 k 2#32) (k1_off54_inb k 2) (4 * k.val + 2) 64 (k1_off54_eq k 2) i,
      load_apply' (Memref.whole cc1_scratch3 : Memref sig .scVector .vmem S48x224 .f32) gt (k1_off54 k 3#32) (k1_off54_inb k 3) (4 * k.val + 3) 64 (k1_off54_eq k 3) i]
    exact (mxAbs_four _ _ k.val).symm
  · refine Eq.trans (b := max (max (max (max (mxAbs (fun c => rdN ((Memref.whole cc1_scratch3 : Memref sig .scVector .vmem S48x224 .f32).view.read (Elt Ideal) gt) c (80 + (i 0).val)) (init.2.2.2 i) (4 * k.val))
          (max (shapeCast S16 (View.readAt (Elt Ideal) (Memref.whole cc1_scratch3 : Memref sig .scVector .vmem S48x224 .f32).view (Rect.unit (s := S48x224) (k1_off55 k 0#32) S1x16.size (k1_off55_inb k 0)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off55 k 0#32) S1x16.size (k1_off55_inb k 0)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off55 k 1#32) S1x16.size (k1_off55_inb k 1)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off55 k 1#32) S1x16.size (k1_off55_inb k 1)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off55 k 2#32) S1x16.size (k1_off55_inb k 2)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off55 k 2#32) S1x16.size (k1_off55_inb k 2)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off55 k 3#32) S1x16.size (k1_off55_inb k 3)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off55 k 3#32) S1x16.size (k1_off55_inb k 3)).toLoadRect gt : Vec Ideal S1x16 .f32) shapeCasts_S1x16_S16 i : EReal)))) rfl ?_
    rw [load_apply' (Memref.whole cc1_scratch3 : Memref sig .scVector .vmem S48x224 .f32) gt (k1_off55 k 0#32) (k1_off55_inb k 0) (4 * k.val + 0) 80 (k1_off55_eq k 0) i,
      load_apply' (Memref.whole cc1_scratch3 : Memref sig .scVector .vmem S48x224 .f32) gt (k1_off55 k 1#32) (k1_off55_inb k 1) (4 * k.val + 1) 80 (k1_off55_eq k 1) i,
      load_apply' (Memref.whole cc1_scratch3 : Memref sig .scVector .vmem S48x224 .f32) gt (k1_off55 k 2#32) (k1_off55_inb k 2) (4 * k.val + 2) 80 (k1_off55_eq k 2) i,
      load_apply' (Memref.whole cc1_scratch3 : Memref sig .scVector .vmem S48x224 .f32) gt (k1_off55 k 3#32) (k1_off55_inb k 3) (4 * k.val + 3) 80 (k1_off55_eq k 3) i]
    exact (mxAbs_four _ _ k.val).symm

/-- THE CLOSED FORM of loop t25: after `n` trips the sums are the initial ones with rows `0 … 4 n − 1` added. -/
theorem sumsV_t25_closed (init : σ4) (n : ℕ) (hn : n ≤ k1_t25_loop.trips) :
    sumsV_t25 (F := Ideal) d L gi gt init n = closed4 ((Memref.whole cc1_scratch2 : Memref sig .scVector .vmem S48x224 .f32).view.read (Elt Ideal) gi) ((Memref.whole cc1_scratch3 : Memref sig .scVector .vmem S48x224 .f32).view.read (Elt Ideal) gt) 64 80 init (4 * n) := by
  induction n with
  | zero => rw [Nat.mul_zero, closed4_zero]; rfl
  | succ n ih =>
    have hlt : n < k1_t25_loop.trips := hn
    rw [sumsV_t25, dif_pos hlt, ih (Nat.le_of_lt hlt)]
    exact stepV_t25_closed d L gi gt ⟨n, hlt⟩ init

end Loop25

section Loop26
variable (gi : Buf (Elt Ideal) ((V d (cV L) (jV L)).loc cc1_scratch2)) (gt : Buf (Elt Ideal) ((V d (cV L) (jV L)).loc cc1_scratch3))

/-- One trip of accumulation loop t26 adds rows `4 k … 4 k + 3` at columns `96 + lane` and `112 + lane`. -/
theorem stepV_t26_closed (k : Fin k1_t26_loop.trips) (init : σ4) :
    stepV_t26 (F := Ideal) d L gi gt k (closed4 ((Memref.whole cc1_scratch2 : Memref sig .scVector .vmem S48x224 .f32).view.read (Elt Ideal) gi) ((Memref.whole cc1_scratch3 : Memref sig .scVector .vmem S48x224 .f32).view.read (Elt Ideal) gt) 96 112 init (4 * k.val))
      = closed4 ((Memref.whole cc1_scratch2 : Memref sig .scVector .vmem S48x224 .f32).view.read (Elt Ideal) gi) ((Memref.whole cc1_scratch3 : Memref sig .scVector .vmem S48x224 .f32).view.read (Elt Ideal) gt) 96 112 init (4 * (k.val + 1)) := by
  refine Prod.ext ?_ (Prod.ext ?_ (Prod.ext ?_ ?_))
  all_goals funext i
  · refine Eq.trans (b := sqSum (fun c => rdN ((Memref.whole cc1_scratch2 : Memref sig .scVector .vmem S48x224 .f32).view.read (Elt Ideal) gi) c (96 + (i 0).val)) (fun c => rdN ((Memref.whole cc1_scratch3 : Memref sig .scVector .vmem S48x224 .f32).view.read (Elt Ideal) gt) c (96 + (i 0).val)) (init.1 i) (4 * k.val)
          + ((shapeCast S16 (View.readAt (Elt Ideal) (Memref.whole cc1_scratch2 : Memref sig .scVector .vmem S48x224 .f32).view (Rect.unit (s := S48x224) (k1_off56 k 0#32) S1x16.size (k1_off56_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off56 k 0#32) S1x16.size (k1_off56_inb k 0)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off56 k 0#32) S1x16.size (k1_off56_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off56 k 0#32) S1x16.size (k1_off56_inb k 0)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off56 k 1#32) S1x16.size (k1_off56_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off56 k 1#32) S1x16.size (k1_off56_inb k 1)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off56 k 1#32) S1x16.size (k1_off56_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off56 k 1#32) S1x16.size (k1_off56_inb k 1)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off56 k 2#32) S1x16.size (k1_off56_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off56 k 2#32) S1x16.size (k1_off56_inb k 2)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off56 k 2#32) S1x16.size (k1_off56_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off56 k 2#32) S1x16.size (k1_off56_inb k 2)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off56 k 3#32) S1x16.size (k1_off56_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off56 k 3#32) S1x16.size (k1_off56_inb k 3)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off56 k 3#32) S1x16.size (k1_off56_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off56 k 3#32) S1x16.size (k1_off56_inb k 3)).toLoadRect gt : Vec Ideal S1x16 .f32) shapeCasts_S1x16_S16 i : EReal))) rfl ?_
    rw [load_apply' (Memref.whole cc1_scratch2 : Memref sig .scVector .vmem S48x224 .f32) gi (k1_off56 k 0#32) (k1_off56_inb k 0) (4 * k.val + 0) 96 (k1_off56_eq k 0) i, load_apply' (Memref.whole cc1_scratch3 : Memref sig .scVector .vmem S48x224 .f32) gt (k1_off56 k 0#32) (k1_off56_inb k 0) (4 * k.val + 0) 96 (k1_off56_eq k 0) i,
      load_apply' (Memref.whole cc1_scratch2 : Memref sig .scVector .vmem S48x224 .f32) gi (k1_off56 k 1#32) (k1_off56_inb k 1) (4 * k.val + 1) 96 (k1_off56_eq k 1) i, load_apply' (Memref.whole cc1_scratch3 : Memref sig .scVector .vmem S48x224 .f32) gt (k1_off56 k 1#32) (k1_off56_inb k 1) (4 * k.val + 1) 96 (k1_off56_eq k 1) i,
      load_apply' (Memref.whole cc1_scratch2 : Memref sig .scVector .vmem S48x224 .f32) gi (k1_off56 k 2#32) (k1_off56_inb k 2) (4 * k.val + 2) 96 (k1_off56_eq k 2) i, load_apply' (Memref.whole cc1_scratch3 : Memref sig .scVector .vmem S48x224 .f32) gt (k1_off56 k 2#32) (k1_off56_inb k 2) (4 * k.val + 2) 96 (k1_off56_eq k 2) i,
      load_apply' (Memref.whole cc1_scratch2 : Memref sig .scVector .vmem S48x224 .f32) gi (k1_off56 k 3#32) (k1_off56_inb k 3) (4 * k.val + 3) 96 (k1_off56_eq k 3) i, load_apply' (Memref.whole cc1_scratch3 : Memref sig .scVector .vmem S48x224 .f32) gt (k1_off56 k 3#32) (k1_off56_inb k 3) (4 * k.val + 3) 96 (k1_off56_eq k 3) i]
    exact (sqSum_four _ _ _ k.val).symm
  · refine Eq.trans (b := sqSum (fun c => rdN ((Memref.whole cc1_scratch2 : Memref sig .scVector .vmem S48x224 .f32).view.read (Elt Ideal) gi) c (112 + (i 0).val)) (fun c => rdN ((Memref.whole cc1_scratch3 : Memref sig .scVector .vmem S48x224 .f32).view.read (Elt Ideal) gt) c (112 + (i 0).val)) (init.2.1 i) (4 * k.val)
          + ((shapeCast S16 (View.readAt (Elt Ideal) (Memref.whole cc1_scratch2 : Memref sig .scVector .vmem S48x224 .f32).view (Rect.unit (s := S48x224) (k1_off57 k 0#32) S1x16.size (k1_off57_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off57 k 0#32) S1x16.size (k1_off57_inb k 0)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off57 k 0#32) S1x16.size (k1_off57_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off57 k 0#32) S1x16.size (k1_off57_inb k 0)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off57 k 1#32) S1x16.size (k1_off57_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off57 k 1#32) S1x16.size (k1_off57_inb k 1)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off57 k 1#32) S1x16.size (k1_off57_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off57 k 1#32) S1x16.size (k1_off57_inb k 1)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off57 k 2#32) S1x16.size (k1_off57_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off57 k 2#32) S1x16.size (k1_off57_inb k 2)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off57 k 2#32) S1x16.size (k1_off57_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off57 k 2#32) S1x16.size (k1_off57_inb k 2)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off57 k 3#32) S1x16.size (k1_off57_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off57 k 3#32) S1x16.size (k1_off57_inb k 3)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off57 k 3#32) S1x16.size (k1_off57_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off57 k 3#32) S1x16.size (k1_off57_inb k 3)).toLoadRect gt : Vec Ideal S1x16 .f32) shapeCasts_S1x16_S16 i : EReal))) rfl ?_
    rw [load_apply' (Memref.whole cc1_scratch2 : Memref sig .scVector .vmem S48x224 .f32) gi (k1_off57 k 0#32) (k1_off57_inb k 0) (4 * k.val + 0) 112 (k1_off57_eq k 0) i, load_apply' (Memref.whole cc1_scratch3 : Memref sig .scVector .vmem S48x224 .f32) gt (k1_off57 k 0#32) (k1_off57_inb k 0) (4 * k.val + 0) 112 (k1_off57_eq k 0) i,
      load_apply' (Memref.whole cc1_scratch2 : Memref sig .scVector .vmem S48x224 .f32) gi (k1_off57 k 1#32) (k1_off57_inb k 1) (4 * k.val + 1) 112 (k1_off57_eq k 1) i, load_apply' (Memref.whole cc1_scratch3 : Memref sig .scVector .vmem S48x224 .f32) gt (k1_off57 k 1#32) (k1_off57_inb k 1) (4 * k.val + 1) 112 (k1_off57_eq k 1) i,
      load_apply' (Memref.whole cc1_scratch2 : Memref sig .scVector .vmem S48x224 .f32) gi (k1_off57 k 2#32) (k1_off57_inb k 2) (4 * k.val + 2) 112 (k1_off57_eq k 2) i, load_apply' (Memref.whole cc1_scratch3 : Memref sig .scVector .vmem S48x224 .f32) gt (k1_off57 k 2#32) (k1_off57_inb k 2) (4 * k.val + 2) 112 (k1_off57_eq k 2) i,
      load_apply' (Memref.whole cc1_scratch2 : Memref sig .scVector .vmem S48x224 .f32) gi (k1_off57 k 3#32) (k1_off57_inb k 3) (4 * k.val + 3) 112 (k1_off57_eq k 3) i, load_apply' (Memref.whole cc1_scratch3 : Memref sig .scVector .vmem S48x224 .f32) gt (k1_off57 k 3#32) (k1_off57_inb k 3) (4 * k.val + 3) 112 (k1_off57_eq k 3) i]
    exact (sqSum_four _ _ _ k.val).symm
  · refine Eq.trans (b := max (max (max (max (mxAbs (fun c => rdN ((Memref.whole cc1_scratch3 : Memref sig .scVector .vmem S48x224 .f32).view.read (Elt Ideal) gt) c (96 + (i 0).val)) (init.2.2.1 i) (4 * k.val))
          (max (shapeCast S16 (View.readAt (Elt Ideal) (Memref.whole cc1_scratch3 : Memref sig .scVector .vmem S48x224 .f32).view (Rect.unit (s := S48x224) (k1_off56 k 0#32) S1x16.size (k1_off56_inb k 0)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off56 k 0#32) S1x16.size (k1_off56_inb k 0)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off56 k 1#32) S1x16.size (k1_off56_inb k 1)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off56 k 1#32) S1x16.size (k1_off56_inb k 1)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off56 k 2#32) S1x16.size (k1_off56_inb k 2)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off56 k 2#32) S1x16.size (k1_off56_inb k 2)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off56 k 3#32) S1x16.size (k1_off56_inb k 3)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off56 k 3#32) S1x16.size (k1_off56_inb k 3)).toLoadRect gt : Vec Ideal S1x16 .f32) shapeCasts_S1x16_S16 i : EReal)))) rfl ?_
    rw [load_apply' (Memref.whole cc1_scratch3 : Memref sig .scVector .vmem S48x224 .f32) gt (k1_off56 k 0#32) (k1_off56_inb k 0) (4 * k.val + 0) 96 (k1_off56_eq k 0) i,
      load_apply' (Memref.whole cc1_scratch3 : Memref sig .scVector .vmem S48x224 .f32) gt (k1_off56 k 1#32) (k1_off56_inb k 1) (4 * k.val + 1) 96 (k1_off56_eq k 1) i,
      load_apply' (Memref.whole cc1_scratch3 : Memref sig .scVector .vmem S48x224 .f32) gt (k1_off56 k 2#32) (k1_off56_inb k 2) (4 * k.val + 2) 96 (k1_off56_eq k 2) i,
      load_apply' (Memref.whole cc1_scratch3 : Memref sig .scVector .vmem S48x224 .f32) gt (k1_off56 k 3#32) (k1_off56_inb k 3) (4 * k.val + 3) 96 (k1_off56_eq k 3) i]
    exact (mxAbs_four _ _ k.val).symm
  · refine Eq.trans (b := max (max (max (max (mxAbs (fun c => rdN ((Memref.whole cc1_scratch3 : Memref sig .scVector .vmem S48x224 .f32).view.read (Elt Ideal) gt) c (112 + (i 0).val)) (init.2.2.2 i) (4 * k.val))
          (max (shapeCast S16 (View.readAt (Elt Ideal) (Memref.whole cc1_scratch3 : Memref sig .scVector .vmem S48x224 .f32).view (Rect.unit (s := S48x224) (k1_off57 k 0#32) S1x16.size (k1_off57_inb k 0)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off57 k 0#32) S1x16.size (k1_off57_inb k 0)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off57 k 1#32) S1x16.size (k1_off57_inb k 1)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off57 k 1#32) S1x16.size (k1_off57_inb k 1)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off57 k 2#32) S1x16.size (k1_off57_inb k 2)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off57 k 2#32) S1x16.size (k1_off57_inb k 2)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off57 k 3#32) S1x16.size (k1_off57_inb k 3)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off57 k 3#32) S1x16.size (k1_off57_inb k 3)).toLoadRect gt : Vec Ideal S1x16 .f32) shapeCasts_S1x16_S16 i : EReal)))) rfl ?_
    rw [load_apply' (Memref.whole cc1_scratch3 : Memref sig .scVector .vmem S48x224 .f32) gt (k1_off57 k 0#32) (k1_off57_inb k 0) (4 * k.val + 0) 112 (k1_off57_eq k 0) i,
      load_apply' (Memref.whole cc1_scratch3 : Memref sig .scVector .vmem S48x224 .f32) gt (k1_off57 k 1#32) (k1_off57_inb k 1) (4 * k.val + 1) 112 (k1_off57_eq k 1) i,
      load_apply' (Memref.whole cc1_scratch3 : Memref sig .scVector .vmem S48x224 .f32) gt (k1_off57 k 2#32) (k1_off57_inb k 2) (4 * k.val + 2) 112 (k1_off57_eq k 2) i,
      load_apply' (Memref.whole cc1_scratch3 : Memref sig .scVector .vmem S48x224 .f32) gt (k1_off57 k 3#32) (k1_off57_inb k 3) (4 * k.val + 3) 112 (k1_off57_eq k 3) i]
    exact (mxAbs_four _ _ k.val).symm

/-- THE CLOSED FORM of loop t26: after `n` trips the sums are the initial ones with rows `0 … 4 n − 1` added. -/
theorem sumsV_t26_closed (init : σ4) (n : ℕ) (hn : n ≤ k1_t26_loop.trips) :
    sumsV_t26 (F := Ideal) d L gi gt init n = closed4 ((Memref.whole cc1_scratch2 : Memref sig .scVector .vmem S48x224 .f32).view.read (Elt Ideal) gi) ((Memref.whole cc1_scratch3 : Memref sig .scVector .vmem S48x224 .f32).view.read (Elt Ideal) gt) 96 112 init (4 * n) := by
  induction n with
  | zero => rw [Nat.mul_zero, closed4_zero]; rfl
  | succ n ih =>
    have hlt : n < k1_t26_loop.trips := hn
    rw [sumsV_t26, dif_pos hlt, ih (Nat.le_of_lt hlt)]
    exact stepV_t26_closed d L gi gt ⟨n, hlt⟩ init

end Loop26

section Loop27
variable (gi : Buf (Elt Ideal) ((V d (cV L) (jV L)).loc cc1_scratch2)) (gt : Buf (Elt Ideal) ((V d (cV L) (jV L)).loc cc1_scratch3))

/-- One trip of accumulation loop t27 adds rows `4 k … 4 k + 3` at columns `128 + lane` and `144 + lane`. -/
theorem stepV_t27_closed (k : Fin k1_t27_loop.trips) (init : σ4) :
    stepV_t27 (F := Ideal) d L gi gt k (closed4 ((Memref.whole cc1_scratch2 : Memref sig .scVector .vmem S48x224 .f32).view.read (Elt Ideal) gi) ((Memref.whole cc1_scratch3 : Memref sig .scVector .vmem S48x224 .f32).view.read (Elt Ideal) gt) 128 144 init (4 * k.val))
      = closed4 ((Memref.whole cc1_scratch2 : Memref sig .scVector .vmem S48x224 .f32).view.read (Elt Ideal) gi) ((Memref.whole cc1_scratch3 : Memref sig .scVector .vmem S48x224 .f32).view.read (Elt Ideal) gt) 128 144 init (4 * (k.val + 1)) := by
  refine Prod.ext ?_ (Prod.ext ?_ (Prod.ext ?_ ?_))
  all_goals funext i
  · refine Eq.trans (b := sqSum (fun c => rdN ((Memref.whole cc1_scratch2 : Memref sig .scVector .vmem S48x224 .f32).view.read (Elt Ideal) gi) c (128 + (i 0).val)) (fun c => rdN ((Memref.whole cc1_scratch3 : Memref sig .scVector .vmem S48x224 .f32).view.read (Elt Ideal) gt) c (128 + (i 0).val)) (init.1 i) (4 * k.val)
          + ((shapeCast S16 (View.readAt (Elt Ideal) (Memref.whole cc1_scratch2 : Memref sig .scVector .vmem S48x224 .f32).view (Rect.unit (s := S48x224) (k1_off58 k 0#32) S1x16.size (k1_off58_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off58 k 0#32) S1x16.size (k1_off58_inb k 0)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off58 k 0#32) S1x16.size (k1_off58_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off58 k 0#32) S1x16.size (k1_off58_inb k 0)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off58 k 1#32) S1x16.size (k1_off58_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off58 k 1#32) S1x16.size (k1_off58_inb k 1)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off58 k 1#32) S1x16.size (k1_off58_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off58 k 1#32) S1x16.size (k1_off58_inb k 1)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off58 k 2#32) S1x16.size (k1_off58_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off58 k 2#32) S1x16.size (k1_off58_inb k 2)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off58 k 2#32) S1x16.size (k1_off58_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off58 k 2#32) S1x16.size (k1_off58_inb k 2)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off58 k 3#32) S1x16.size (k1_off58_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off58 k 3#32) S1x16.size (k1_off58_inb k 3)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off58 k 3#32) S1x16.size (k1_off58_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off58 k 3#32) S1x16.size (k1_off58_inb k 3)).toLoadRect gt : Vec Ideal S1x16 .f32) shapeCasts_S1x16_S16 i : EReal))) rfl ?_
    rw [load_apply' (Memref.whole cc1_scratch2 : Memref sig .scVector .vmem S48x224 .f32) gi (k1_off58 k 0#32) (k1_off58_inb k 0) (4 * k.val + 0) 128 (k1_off58_eq k 0) i, load_apply' (Memref.whole cc1_scratch3 : Memref sig .scVector .vmem S48x224 .f32) gt (k1_off58 k 0#32) (k1_off58_inb k 0) (4 * k.val + 0) 128 (k1_off58_eq k 0) i,
      load_apply' (Memref.whole cc1_scratch2 : Memref sig .scVector .vmem S48x224 .f32) gi (k1_off58 k 1#32) (k1_off58_inb k 1) (4 * k.val + 1) 128 (k1_off58_eq k 1) i, load_apply' (Memref.whole cc1_scratch3 : Memref sig .scVector .vmem S48x224 .f32) gt (k1_off58 k 1#32) (k1_off58_inb k 1) (4 * k.val + 1) 128 (k1_off58_eq k 1) i,
      load_apply' (Memref.whole cc1_scratch2 : Memref sig .scVector .vmem S48x224 .f32) gi (k1_off58 k 2#32) (k1_off58_inb k 2) (4 * k.val + 2) 128 (k1_off58_eq k 2) i, load_apply' (Memref.whole cc1_scratch3 : Memref sig .scVector .vmem S48x224 .f32) gt (k1_off58 k 2#32) (k1_off58_inb k 2) (4 * k.val + 2) 128 (k1_off58_eq k 2) i,
      load_apply' (Memref.whole cc1_scratch2 : Memref sig .scVector .vmem S48x224 .f32) gi (k1_off58 k 3#32) (k1_off58_inb k 3) (4 * k.val + 3) 128 (k1_off58_eq k 3) i, load_apply' (Memref.whole cc1_scratch3 : Memref sig .scVector .vmem S48x224 .f32) gt (k1_off58 k 3#32) (k1_off58_inb k 3) (4 * k.val + 3) 128 (k1_off58_eq k 3) i]
    exact (sqSum_four _ _ _ k.val).symm
  · refine Eq.trans (b := sqSum (fun c => rdN ((Memref.whole cc1_scratch2 : Memref sig .scVector .vmem S48x224 .f32).view.read (Elt Ideal) gi) c (144 + (i 0).val)) (fun c => rdN ((Memref.whole cc1_scratch3 : Memref sig .scVector .vmem S48x224 .f32).view.read (Elt Ideal) gt) c (144 + (i 0).val)) (init.2.1 i) (4 * k.val)
          + ((shapeCast S16 (View.readAt (Elt Ideal) (Memref.whole cc1_scratch2 : Memref sig .scVector .vmem S48x224 .f32).view (Rect.unit (s := S48x224) (k1_off59 k 0#32) S1x16.size (k1_off59_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off59 k 0#32) S1x16.size (k1_off59_inb k 0)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off59 k 0#32) S1x16.size (k1_off59_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off59 k 0#32) S1x16.size (k1_off59_inb k 0)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off59 k 1#32) S1x16.size (k1_off59_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off59 k 1#32) S1x16.size (k1_off59_inb k 1)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off59 k 1#32) S1x16.size (k1_off59_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off59 k 1#32) S1x16.size (k1_off59_inb k 1)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off59 k 2#32) S1x16.size (k1_off59_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off59 k 2#32) S1x16.size (k1_off59_inb k 2)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off59 k 2#32) S1x16.size (k1_off59_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off59 k 2#32) S1x16.size (k1_off59_inb k 2)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off59 k 3#32) S1x16.size (k1_off59_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off59 k 3#32) S1x16.size (k1_off59_inb k 3)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off59 k 3#32) S1x16.size (k1_off59_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off59 k 3#32) S1x16.size (k1_off59_inb k 3)).toLoadRect gt : Vec Ideal S1x16 .f32) shapeCasts_S1x16_S16 i : EReal))) rfl ?_
    rw [load_apply' (Memref.whole cc1_scratch2 : Memref sig .scVector .vmem S48x224 .f32) gi (k1_off59 k 0#32) (k1_off59_inb k 0) (4 * k.val + 0) 144 (k1_off59_eq k 0) i, load_apply' (Memref.whole cc1_scratch3 : Memref sig .scVector .vmem S48x224 .f32) gt (k1_off59 k 0#32) (k1_off59_inb k 0) (4 * k.val + 0) 144 (k1_off59_eq k 0) i,
      load_apply' (Memref.whole cc1_scratch2 : Memref sig .scVector .vmem S48x224 .f32) gi (k1_off59 k 1#32) (k1_off59_inb k 1) (4 * k.val + 1) 144 (k1_off59_eq k 1) i, load_apply' (Memref.whole cc1_scratch3 : Memref sig .scVector .vmem S48x224 .f32) gt (k1_off59 k 1#32) (k1_off59_inb k 1) (4 * k.val + 1) 144 (k1_off59_eq k 1) i,
      load_apply' (Memref.whole cc1_scratch2 : Memref sig .scVector .vmem S48x224 .f32) gi (k1_off59 k 2#32) (k1_off59_inb k 2) (4 * k.val + 2) 144 (k1_off59_eq k 2) i, load_apply' (Memref.whole cc1_scratch3 : Memref sig .scVector .vmem S48x224 .f32) gt (k1_off59 k 2#32) (k1_off59_inb k 2) (4 * k.val + 2) 144 (k1_off59_eq k 2) i,
      load_apply' (Memref.whole cc1_scratch2 : Memref sig .scVector .vmem S48x224 .f32) gi (k1_off59 k 3#32) (k1_off59_inb k 3) (4 * k.val + 3) 144 (k1_off59_eq k 3) i, load_apply' (Memref.whole cc1_scratch3 : Memref sig .scVector .vmem S48x224 .f32) gt (k1_off59 k 3#32) (k1_off59_inb k 3) (4 * k.val + 3) 144 (k1_off59_eq k 3) i]
    exact (sqSum_four _ _ _ k.val).symm
  · refine Eq.trans (b := max (max (max (max (mxAbs (fun c => rdN ((Memref.whole cc1_scratch3 : Memref sig .scVector .vmem S48x224 .f32).view.read (Elt Ideal) gt) c (128 + (i 0).val)) (init.2.2.1 i) (4 * k.val))
          (max (shapeCast S16 (View.readAt (Elt Ideal) (Memref.whole cc1_scratch3 : Memref sig .scVector .vmem S48x224 .f32).view (Rect.unit (s := S48x224) (k1_off58 k 0#32) S1x16.size (k1_off58_inb k 0)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off58 k 0#32) S1x16.size (k1_off58_inb k 0)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off58 k 1#32) S1x16.size (k1_off58_inb k 1)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off58 k 1#32) S1x16.size (k1_off58_inb k 1)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off58 k 2#32) S1x16.size (k1_off58_inb k 2)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off58 k 2#32) S1x16.size (k1_off58_inb k 2)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off58 k 3#32) S1x16.size (k1_off58_inb k 3)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off58 k 3#32) S1x16.size (k1_off58_inb k 3)).toLoadRect gt : Vec Ideal S1x16 .f32) shapeCasts_S1x16_S16 i : EReal)))) rfl ?_
    rw [load_apply' (Memref.whole cc1_scratch3 : Memref sig .scVector .vmem S48x224 .f32) gt (k1_off58 k 0#32) (k1_off58_inb k 0) (4 * k.val + 0) 128 (k1_off58_eq k 0) i,
      load_apply' (Memref.whole cc1_scratch3 : Memref sig .scVector .vmem S48x224 .f32) gt (k1_off58 k 1#32) (k1_off58_inb k 1) (4 * k.val + 1) 128 (k1_off58_eq k 1) i,
      load_apply' (Memref.whole cc1_scratch3 : Memref sig .scVector .vmem S48x224 .f32) gt (k1_off58 k 2#32) (k1_off58_inb k 2) (4 * k.val + 2) 128 (k1_off58_eq k 2) i,
      load_apply' (Memref.whole cc1_scratch3 : Memref sig .scVector .vmem S48x224 .f32) gt (k1_off58 k 3#32) (k1_off58_inb k 3) (4 * k.val + 3) 128 (k1_off58_eq k 3) i]
    exact (mxAbs_four _ _ k.val).symm
  · refine Eq.trans (b := max (max (max (max (mxAbs (fun c => rdN ((Memref.whole cc1_scratch3 : Memref sig .scVector .vmem S48x224 .f32).view.read (Elt Ideal) gt) c (144 + (i 0).val)) (init.2.2.2 i) (4 * k.val))
          (max (shapeCast S16 (View.readAt (Elt Ideal) (Memref.whole cc1_scratch3 : Memref sig .scVector .vmem S48x224 .f32).view (Rect.unit (s := S48x224) (k1_off59 k 0#32) S1x16.size (k1_off59_inb k 0)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off59 k 0#32) S1x16.size (k1_off59_inb k 0)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off59 k 1#32) S1x16.size (k1_off59_inb k 1)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off59 k 1#32) S1x16.size (k1_off59_inb k 1)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off59 k 2#32) S1x16.size (k1_off59_inb k 2)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off59 k 2#32) S1x16.size (k1_off59_inb k 2)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off59 k 3#32) S1x16.size (k1_off59_inb k 3)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off59 k 3#32) S1x16.size (k1_off59_inb k 3)).toLoadRect gt : Vec Ideal S1x16 .f32) shapeCasts_S1x16_S16 i : EReal)))) rfl ?_
    rw [load_apply' (Memref.whole cc1_scratch3 : Memref sig .scVector .vmem S48x224 .f32) gt (k1_off59 k 0#32) (k1_off59_inb k 0) (4 * k.val + 0) 144 (k1_off59_eq k 0) i,
      load_apply' (Memref.whole cc1_scratch3 : Memref sig .scVector .vmem S48x224 .f32) gt (k1_off59 k 1#32) (k1_off59_inb k 1) (4 * k.val + 1) 144 (k1_off59_eq k 1) i,
      load_apply' (Memref.whole cc1_scratch3 : Memref sig .scVector .vmem S48x224 .f32) gt (k1_off59 k 2#32) (k1_off59_inb k 2) (4 * k.val + 2) 144 (k1_off59_eq k 2) i,
      load_apply' (Memref.whole cc1_scratch3 : Memref sig .scVector .vmem S48x224 .f32) gt (k1_off59 k 3#32) (k1_off59_inb k 3) (4 * k.val + 3) 144 (k1_off59_eq k 3) i]
    exact (mxAbs_four _ _ k.val).symm

/-- THE CLOSED FORM of loop t27: after `n` trips the sums are the initial ones with rows `0 … 4 n − 1` added. -/
theorem sumsV_t27_closed (init : σ4) (n : ℕ) (hn : n ≤ k1_t27_loop.trips) :
    sumsV_t27 (F := Ideal) d L gi gt init n = closed4 ((Memref.whole cc1_scratch2 : Memref sig .scVector .vmem S48x224 .f32).view.read (Elt Ideal) gi) ((Memref.whole cc1_scratch3 : Memref sig .scVector .vmem S48x224 .f32).view.read (Elt Ideal) gt) 128 144 init (4 * n) := by
  induction n with
  | zero => rw [Nat.mul_zero, closed4_zero]; rfl
  | succ n ih =>
    have hlt : n < k1_t27_loop.trips := hn
    rw [sumsV_t27, dif_pos hlt, ih (Nat.le_of_lt hlt)]
    exact stepV_t27_closed d L gi gt ⟨n, hlt⟩ init

end Loop27

section Loop28
variable (gi : Buf (Elt Ideal) ((V d (cV L) (jV L)).loc cc1_scratch2)) (gt : Buf (Elt Ideal) ((V d (cV L) (jV L)).loc cc1_scratch3))

/-- One trip of accumulation loop t28 adds rows `4 k … 4 k + 3` at columns `160 + lane` and `176 + lane`. -/
theorem stepV_t28_closed (k : Fin k1_t28_loop.trips) (init : σ4) :
    stepV_t28 (F := Ideal) d L gi gt k (closed4 ((Memref.whole cc1_scratch2 : Memref sig .scVector .vmem S48x224 .f32).view.read (Elt Ideal) gi) ((Memref.whole cc1_scratch3 : Memref sig .scVector .vmem S48x224 .f32).view.read (Elt Ideal) gt) 160 176 init (4 * k.val))
      = closed4 ((Memref.whole cc1_scratch2 : Memref sig .scVector .vmem S48x224 .f32).view.read (Elt Ideal) gi) ((Memref.whole cc1_scratch3 : Memref sig .scVector .vmem S48x224 .f32).view.read (Elt Ideal) gt) 160 176 init (4 * (k.val + 1)) := by
  refine Prod.ext ?_ (Prod.ext ?_ (Prod.ext ?_ ?_))
  all_goals funext i
  · refine Eq.trans (b := sqSum (fun c => rdN ((Memref.whole cc1_scratch2 : Memref sig .scVector .vmem S48x224 .f32).view.read (Elt Ideal) gi) c (160 + (i 0).val)) (fun c => rdN ((Memref.whole cc1_scratch3 : Memref sig .scVector .vmem S48x224 .f32).view.read (Elt Ideal) gt) c (160 + (i 0).val)) (init.1 i) (4 * k.val)
          + ((shapeCast S16 (View.readAt (Elt Ideal) (Memref.whole cc1_scratch2 : Memref sig .scVector .vmem S48x224 .f32).view (Rect.unit (s := S48x224) (k1_off60 k 0#32) S1x16.size (k1_off60_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off60 k 0#32) S1x16.size (k1_off60_inb k 0)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off60 k 0#32) S1x16.size (k1_off60_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off60 k 0#32) S1x16.size (k1_off60_inb k 0)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off60 k 1#32) S1x16.size (k1_off60_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off60 k 1#32) S1x16.size (k1_off60_inb k 1)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off60 k 1#32) S1x16.size (k1_off60_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off60 k 1#32) S1x16.size (k1_off60_inb k 1)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off60 k 2#32) S1x16.size (k1_off60_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off60 k 2#32) S1x16.size (k1_off60_inb k 2)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off60 k 2#32) S1x16.size (k1_off60_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off60 k 2#32) S1x16.size (k1_off60_inb k 2)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off60 k 3#32) S1x16.size (k1_off60_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off60 k 3#32) S1x16.size (k1_off60_inb k 3)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off60 k 3#32) S1x16.size (k1_off60_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off60 k 3#32) S1x16.size (k1_off60_inb k 3)).toLoadRect gt : Vec Ideal S1x16 .f32) shapeCasts_S1x16_S16 i : EReal))) rfl ?_
    rw [load_apply' (Memref.whole cc1_scratch2 : Memref sig .scVector .vmem S48x224 .f32) gi (k1_off60 k 0#32) (k1_off60_inb k 0) (4 * k.val + 0) 160 (k1_off60_eq k 0) i, load_apply' (Memref.whole cc1_scratch3 : Memref sig .scVector .vmem S48x224 .f32) gt (k1_off60 k 0#32) (k1_off60_inb k 0) (4 * k.val + 0) 160 (k1_off60_eq k 0) i,
      load_apply' (Memref.whole cc1_scratch2 : Memref sig .scVector .vmem S48x224 .f32) gi (k1_off60 k 1#32) (k1_off60_inb k 1) (4 * k.val + 1) 160 (k1_off60_eq k 1) i, load_apply' (Memref.whole cc1_scratch3 : Memref sig .scVector .vmem S48x224 .f32) gt (k1_off60 k 1#32) (k1_off60_inb k 1) (4 * k.val + 1) 160 (k1_off60_eq k 1) i,
      load_apply' (Memref.whole cc1_scratch2 : Memref sig .scVector .vmem S48x224 .f32) gi (k1_off60 k 2#32) (k1_off60_inb k 2) (4 * k.val + 2) 160 (k1_off60_eq k 2) i, load_apply' (Memref.whole cc1_scratch3 : Memref sig .scVector .vmem S48x224 .f32) gt (k1_off60 k 2#32) (k1_off60_inb k 2) (4 * k.val + 2) 160 (k1_off60_eq k 2) i,
      load_apply' (Memref.whole cc1_scratch2 : Memref sig .scVector .vmem S48x224 .f32) gi (k1_off60 k 3#32) (k1_off60_inb k 3) (4 * k.val + 3) 160 (k1_off60_eq k 3) i, load_apply' (Memref.whole cc1_scratch3 : Memref sig .scVector .vmem S48x224 .f32) gt (k1_off60 k 3#32) (k1_off60_inb k 3) (4 * k.val + 3) 160 (k1_off60_eq k 3) i]
    exact (sqSum_four _ _ _ k.val).symm
  · refine Eq.trans (b := sqSum (fun c => rdN ((Memref.whole cc1_scratch2 : Memref sig .scVector .vmem S48x224 .f32).view.read (Elt Ideal) gi) c (176 + (i 0).val)) (fun c => rdN ((Memref.whole cc1_scratch3 : Memref sig .scVector .vmem S48x224 .f32).view.read (Elt Ideal) gt) c (176 + (i 0).val)) (init.2.1 i) (4 * k.val)
          + ((shapeCast S16 (View.readAt (Elt Ideal) (Memref.whole cc1_scratch2 : Memref sig .scVector .vmem S48x224 .f32).view (Rect.unit (s := S48x224) (k1_off61 k 0#32) S1x16.size (k1_off61_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off61 k 0#32) S1x16.size (k1_off61_inb k 0)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off61 k 0#32) S1x16.size (k1_off61_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off61 k 0#32) S1x16.size (k1_off61_inb k 0)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off61 k 1#32) S1x16.size (k1_off61_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off61 k 1#32) S1x16.size (k1_off61_inb k 1)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off61 k 1#32) S1x16.size (k1_off61_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off61 k 1#32) S1x16.size (k1_off61_inb k 1)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off61 k 2#32) S1x16.size (k1_off61_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off61 k 2#32) S1x16.size (k1_off61_inb k 2)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off61 k 2#32) S1x16.size (k1_off61_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off61 k 2#32) S1x16.size (k1_off61_inb k 2)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off61 k 3#32) S1x16.size (k1_off61_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off61 k 3#32) S1x16.size (k1_off61_inb k 3)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off61 k 3#32) S1x16.size (k1_off61_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off61 k 3#32) S1x16.size (k1_off61_inb k 3)).toLoadRect gt : Vec Ideal S1x16 .f32) shapeCasts_S1x16_S16 i : EReal))) rfl ?_
    rw [load_apply' (Memref.whole cc1_scratch2 : Memref sig .scVector .vmem S48x224 .f32) gi (k1_off61 k 0#32) (k1_off61_inb k 0) (4 * k.val + 0) 176 (k1_off61_eq k 0) i, load_apply' (Memref.whole cc1_scratch3 : Memref sig .scVector .vmem S48x224 .f32) gt (k1_off61 k 0#32) (k1_off61_inb k 0) (4 * k.val + 0) 176 (k1_off61_eq k 0) i,
      load_apply' (Memref.whole cc1_scratch2 : Memref sig .scVector .vmem S48x224 .f32) gi (k1_off61 k 1#32) (k1_off61_inb k 1) (4 * k.val + 1) 176 (k1_off61_eq k 1) i, load_apply' (Memref.whole cc1_scratch3 : Memref sig .scVector .vmem S48x224 .f32) gt (k1_off61 k 1#32) (k1_off61_inb k 1) (4 * k.val + 1) 176 (k1_off61_eq k 1) i,
      load_apply' (Memref.whole cc1_scratch2 : Memref sig .scVector .vmem S48x224 .f32) gi (k1_off61 k 2#32) (k1_off61_inb k 2) (4 * k.val + 2) 176 (k1_off61_eq k 2) i, load_apply' (Memref.whole cc1_scratch3 : Memref sig .scVector .vmem S48x224 .f32) gt (k1_off61 k 2#32) (k1_off61_inb k 2) (4 * k.val + 2) 176 (k1_off61_eq k 2) i,
      load_apply' (Memref.whole cc1_scratch2 : Memref sig .scVector .vmem S48x224 .f32) gi (k1_off61 k 3#32) (k1_off61_inb k 3) (4 * k.val + 3) 176 (k1_off61_eq k 3) i, load_apply' (Memref.whole cc1_scratch3 : Memref sig .scVector .vmem S48x224 .f32) gt (k1_off61 k 3#32) (k1_off61_inb k 3) (4 * k.val + 3) 176 (k1_off61_eq k 3) i]
    exact (sqSum_four _ _ _ k.val).symm
  · refine Eq.trans (b := max (max (max (max (mxAbs (fun c => rdN ((Memref.whole cc1_scratch3 : Memref sig .scVector .vmem S48x224 .f32).view.read (Elt Ideal) gt) c (160 + (i 0).val)) (init.2.2.1 i) (4 * k.val))
          (max (shapeCast S16 (View.readAt (Elt Ideal) (Memref.whole cc1_scratch3 : Memref sig .scVector .vmem S48x224 .f32).view (Rect.unit (s := S48x224) (k1_off60 k 0#32) S1x16.size (k1_off60_inb k 0)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off60 k 0#32) S1x16.size (k1_off60_inb k 0)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off60 k 1#32) S1x16.size (k1_off60_inb k 1)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off60 k 1#32) S1x16.size (k1_off60_inb k 1)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off60 k 2#32) S1x16.size (k1_off60_inb k 2)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off60 k 2#32) S1x16.size (k1_off60_inb k 2)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off60 k 3#32) S1x16.size (k1_off60_inb k 3)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off60 k 3#32) S1x16.size (k1_off60_inb k 3)).toLoadRect gt : Vec Ideal S1x16 .f32) shapeCasts_S1x16_S16 i : EReal)))) rfl ?_
    rw [load_apply' (Memref.whole cc1_scratch3 : Memref sig .scVector .vmem S48x224 .f32) gt (k1_off60 k 0#32) (k1_off60_inb k 0) (4 * k.val + 0) 160 (k1_off60_eq k 0) i,
      load_apply' (Memref.whole cc1_scratch3 : Memref sig .scVector .vmem S48x224 .f32) gt (k1_off60 k 1#32) (k1_off60_inb k 1) (4 * k.val + 1) 160 (k1_off60_eq k 1) i,
      load_apply' (Memref.whole cc1_scratch3 : Memref sig .scVector .vmem S48x224 .f32) gt (k1_off60 k 2#32) (k1_off60_inb k 2) (4 * k.val + 2) 160 (k1_off60_eq k 2) i,
      load_apply' (Memref.whole cc1_scratch3 : Memref sig .scVector .vmem S48x224 .f32) gt (k1_off60 k 3#32) (k1_off60_inb k 3) (4 * k.val + 3) 160 (k1_off60_eq k 3) i]
    exact (mxAbs_four _ _ k.val).symm
  · refine Eq.trans (b := max (max (max (max (mxAbs (fun c => rdN ((Memref.whole cc1_scratch3 : Memref sig .scVector .vmem S48x224 .f32).view.read (Elt Ideal) gt) c (176 + (i 0).val)) (init.2.2.2 i) (4 * k.val))
          (max (shapeCast S16 (View.readAt (Elt Ideal) (Memref.whole cc1_scratch3 : Memref sig .scVector .vmem S48x224 .f32).view (Rect.unit (s := S48x224) (k1_off61 k 0#32) S1x16.size (k1_off61_inb k 0)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off61 k 0#32) S1x16.size (k1_off61_inb k 0)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off61 k 1#32) S1x16.size (k1_off61_inb k 1)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off61 k 1#32) S1x16.size (k1_off61_inb k 1)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off61 k 2#32) S1x16.size (k1_off61_inb k 2)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off61 k 2#32) S1x16.size (k1_off61_inb k 2)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off61 k 3#32) S1x16.size (k1_off61_inb k 3)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off61 k 3#32) S1x16.size (k1_off61_inb k 3)).toLoadRect gt : Vec Ideal S1x16 .f32) shapeCasts_S1x16_S16 i : EReal)))) rfl ?_
    rw [load_apply' (Memref.whole cc1_scratch3 : Memref sig .scVector .vmem S48x224 .f32) gt (k1_off61 k 0#32) (k1_off61_inb k 0) (4 * k.val + 0) 176 (k1_off61_eq k 0) i,
      load_apply' (Memref.whole cc1_scratch3 : Memref sig .scVector .vmem S48x224 .f32) gt (k1_off61 k 1#32) (k1_off61_inb k 1) (4 * k.val + 1) 176 (k1_off61_eq k 1) i,
      load_apply' (Memref.whole cc1_scratch3 : Memref sig .scVector .vmem S48x224 .f32) gt (k1_off61 k 2#32) (k1_off61_inb k 2) (4 * k.val + 2) 176 (k1_off61_eq k 2) i,
      load_apply' (Memref.whole cc1_scratch3 : Memref sig .scVector .vmem S48x224 .f32) gt (k1_off61 k 3#32) (k1_off61_inb k 3) (4 * k.val + 3) 176 (k1_off61_eq k 3) i]
    exact (mxAbs_four _ _ k.val).symm

/-- THE CLOSED FORM of loop t28: after `n` trips the sums are the initial ones with rows `0 … 4 n − 1` added. -/
theorem sumsV_t28_closed (init : σ4) (n : ℕ) (hn : n ≤ k1_t28_loop.trips) :
    sumsV_t28 (F := Ideal) d L gi gt init n = closed4 ((Memref.whole cc1_scratch2 : Memref sig .scVector .vmem S48x224 .f32).view.read (Elt Ideal) gi) ((Memref.whole cc1_scratch3 : Memref sig .scVector .vmem S48x224 .f32).view.read (Elt Ideal) gt) 160 176 init (4 * n) := by
  induction n with
  | zero => rw [Nat.mul_zero, closed4_zero]; rfl
  | succ n ih =>
    have hlt : n < k1_t28_loop.trips := hn
    rw [sumsV_t28, dif_pos hlt, ih (Nat.le_of_lt hlt)]
    exact stepV_t28_closed d L gi gt ⟨n, hlt⟩ init

end Loop28

section Loop29
variable (gi : Buf (Elt Ideal) ((V d (cV L) (jV L)).loc cc1_scratch2)) (gt : Buf (Elt Ideal) ((V d (cV L) (jV L)).loc cc1_scratch3))

/-- One trip of accumulation loop t29 adds rows `4 k … 4 k + 3` at columns `192 + lane` and `208 + lane`. -/
theorem stepV_t29_closed (k : Fin k1_t29_loop.trips) (init : σ4) :
    stepV_t29 (F := Ideal) d L gi gt k (closed4 ((Memref.whole cc1_scratch2 : Memref sig .scVector .vmem S48x224 .f32).view.read (Elt Ideal) gi) ((Memref.whole cc1_scratch3 : Memref sig .scVector .vmem S48x224 .f32).view.read (Elt Ideal) gt) 192 208 init (4 * k.val))
      = closed4 ((Memref.whole cc1_scratch2 : Memref sig .scVector .vmem S48x224 .f32).view.read (Elt Ideal) gi) ((Memref.whole cc1_scratch3 : Memref sig .scVector .vmem S48x224 .f32).view.read (Elt Ideal) gt) 192 208 init (4 * (k.val + 1)) := by
  refine Prod.ext ?_ (Prod.ext ?_ (Prod.ext ?_ ?_))
  all_goals funext i
  · refine Eq.trans (b := sqSum (fun c => rdN ((Memref.whole cc1_scratch2 : Memref sig .scVector .vmem S48x224 .f32).view.read (Elt Ideal) gi) c (192 + (i 0).val)) (fun c => rdN ((Memref.whole cc1_scratch3 : Memref sig .scVector .vmem S48x224 .f32).view.read (Elt Ideal) gt) c (192 + (i 0).val)) (init.1 i) (4 * k.val)
          + ((shapeCast S16 (View.readAt (Elt Ideal) (Memref.whole cc1_scratch2 : Memref sig .scVector .vmem S48x224 .f32).view (Rect.unit (s := S48x224) (k1_off62 k 0#32) S1x16.size (k1_off62_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off62 k 0#32) S1x16.size (k1_off62_inb k 0)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off62 k 0#32) S1x16.size (k1_off62_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off62 k 0#32) S1x16.size (k1_off62_inb k 0)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off62 k 1#32) S1x16.size (k1_off62_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off62 k 1#32) S1x16.size (k1_off62_inb k 1)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off62 k 1#32) S1x16.size (k1_off62_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off62 k 1#32) S1x16.size (k1_off62_inb k 1)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off62 k 2#32) S1x16.size (k1_off62_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off62 k 2#32) S1x16.size (k1_off62_inb k 2)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off62 k 2#32) S1x16.size (k1_off62_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off62 k 2#32) S1x16.size (k1_off62_inb k 2)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off62 k 3#32) S1x16.size (k1_off62_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off62 k 3#32) S1x16.size (k1_off62_inb k 3)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off62 k 3#32) S1x16.size (k1_off62_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off62 k 3#32) S1x16.size (k1_off62_inb k 3)).toLoadRect gt : Vec Ideal S1x16 .f32) shapeCasts_S1x16_S16 i : EReal))) rfl ?_
    rw [load_apply' (Memref.whole cc1_scratch2 : Memref sig .scVector .vmem S48x224 .f32) gi (k1_off62 k 0#32) (k1_off62_inb k 0) (4 * k.val + 0) 192 (k1_off62_eq k 0) i, load_apply' (Memref.whole cc1_scratch3 : Memref sig .scVector .vmem S48x224 .f32) gt (k1_off62 k 0#32) (k1_off62_inb k 0) (4 * k.val + 0) 192 (k1_off62_eq k 0) i,
      load_apply' (Memref.whole cc1_scratch2 : Memref sig .scVector .vmem S48x224 .f32) gi (k1_off62 k 1#32) (k1_off62_inb k 1) (4 * k.val + 1) 192 (k1_off62_eq k 1) i, load_apply' (Memref.whole cc1_scratch3 : Memref sig .scVector .vmem S48x224 .f32) gt (k1_off62 k 1#32) (k1_off62_inb k 1) (4 * k.val + 1) 192 (k1_off62_eq k 1) i,
      load_apply' (Memref.whole cc1_scratch2 : Memref sig .scVector .vmem S48x224 .f32) gi (k1_off62 k 2#32) (k1_off62_inb k 2) (4 * k.val + 2) 192 (k1_off62_eq k 2) i, load_apply' (Memref.whole cc1_scratch3 : Memref sig .scVector .vmem S48x224 .f32) gt (k1_off62 k 2#32) (k1_off62_inb k 2) (4 * k.val + 2) 192 (k1_off62_eq k 2) i,
      load_apply' (Memref.whole cc1_scratch2 : Memref sig .scVector .vmem S48x224 .f32) gi (k1_off62 k 3#32) (k1_off62_inb k 3) (4 * k.val + 3) 192 (k1_off62_eq k 3) i, load_apply' (Memref.whole cc1_scratch3 : Memref sig .scVector .vmem S48x224 .f32) gt (k1_off62 k 3#32) (k1_off62_inb k 3) (4 * k.val + 3) 192 (k1_off62_eq k 3) i]
    exact (sqSum_four _ _ _ k.val).symm
  · refine Eq.trans (b := sqSum (fun c => rdN ((Memref.whole cc1_scratch2 : Memref sig .scVector .vmem S48x224 .f32).view.read (Elt Ideal) gi) c (208 + (i 0).val)) (fun c => rdN ((Memref.whole cc1_scratch3 : Memref sig .scVector .vmem S48x224 .f32).view.read (Elt Ideal) gt) c (208 + (i 0).val)) (init.2.1 i) (4 * k.val)
          + ((shapeCast S16 (View.readAt (Elt Ideal) (Memref.whole cc1_scratch2 : Memref sig .scVector .vmem S48x224 .f32).view (Rect.unit (s := S48x224) (k1_off63 k 0#32) S1x16.size (k1_off63_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off63 k 0#32) S1x16.size (k1_off63_inb k 0)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off63 k 0#32) S1x16.size (k1_off63_inb k 0)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off63 k 0#32) S1x16.size (k1_off63_inb k 0)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off63 k 1#32) S1x16.size (k1_off63_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off63 k 1#32) S1x16.size (k1_off63_inb k 1)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off63 k 1#32) S1x16.size (k1_off63_inb k 1)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off63 k 1#32) S1x16.size (k1_off63_inb k 1)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off63 k 2#32) S1x16.size (k1_off63_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off63 k 2#32) S1x16.size (k1_off63_inb k 2)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off63 k 2#32) S1x16.size (k1_off63_inb k 2)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off63 k 2#32) S1x16.size (k1_off63_inb k 2)).toLoadRect gt : Vec Ideal S1x16 .f32) shapeCasts_S1x16_S16 i : EReal))
          + ((shapeCast S16 (View.readAt (Elt Ideal) (Memref.whole cc1_scratch2 : Memref sig .scVector .vmem S48x224 .f32).view (Rect.unit (s := S48x224) (k1_off63 k 3#32) S1x16.size (k1_off63_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off63 k 3#32) S1x16.size (k1_off63_inb k 3)).toLoadRect gt : Vec Ideal S1x16 .f32) shapeCasts_S1x16_S16 i : EReal)) * ((shapeCast S16 (View.readAt (Elt Ideal) (Memref.whole cc1_scratch2 : Memref sig .scVector .vmem S48x224 .f32).view (Rect.unit (s := S48x224) (k1_off63 k 3#32) S1x16.size (k1_off63_inb k 3)).toLoadRect gi : Vec Ideal S1x16 .f32) shapeCasts_S1x16_S16 i : EReal) - (shapeCast S16 (View.readAt (Elt Ideal) (Memref.whole cc1_scratch3 : Memref sig .scVector .vmem S48x224 .f32).view (Rect.unit (s := S48x224) (k1_off63 k 3#32) S1x16.size (k1_off63_inb k 3)).toLoadRect gt : Vec Ideal S1x16 .f32) shapeCasts_S1x16_S16 i : EReal))) rfl ?_
    rw [load_apply' (Memref.whole cc1_scratch2 : Memref sig .scVector .vmem S48x224 .f32) gi (k1_off63 k 0#32) (k1_off63_inb k 0) (4 * k.val + 0) 208 (k1_off63_eq k 0) i, load_apply' (Memref.whole cc1_scratch3 : Memref sig .scVector .vmem S48x224 .f32) gt (k1_off63 k 0#32) (k1_off63_inb k 0) (4 * k.val + 0) 208 (k1_off63_eq k 0) i,
      load_apply' (Memref.whole cc1_scratch2 : Memref sig .scVector .vmem S48x224 .f32) gi (k1_off63 k 1#32) (k1_off63_inb k 1) (4 * k.val + 1) 208 (k1_off63_eq k 1) i, load_apply' (Memref.whole cc1_scratch3 : Memref sig .scVector .vmem S48x224 .f32) gt (k1_off63 k 1#32) (k1_off63_inb k 1) (4 * k.val + 1) 208 (k1_off63_eq k 1) i,
      load_apply' (Memref.whole cc1_scratch2 : Memref sig .scVector .vmem S48x224 .f32) gi (k1_off63 k 2#32) (k1_off63_inb k 2) (4 * k.val + 2) 208 (k1_off63_eq k 2) i, load_apply' (Memref.whole cc1_scratch3 : Memref sig .scVector .vmem S48x224 .f32) gt (k1_off63 k 2#32) (k1_off63_inb k 2) (4 * k.val + 2) 208 (k1_off63_eq k 2) i,
      load_apply' (Memref.whole cc1_scratch2 : Memref sig .scVector .vmem S48x224 .f32) gi (k1_off63 k 3#32) (k1_off63_inb k 3) (4 * k.val + 3) 208 (k1_off63_eq k 3) i, load_apply' (Memref.whole cc1_scratch3 : Memref sig .scVector .vmem S48x224 .f32) gt (k1_off63 k 3#32) (k1_off63_inb k 3) (4 * k.val + 3) 208 (k1_off63_eq k 3) i]
    exact (sqSum_four _ _ _ k.val).symm
  · refine Eq.trans (b := max (max (max (max (mxAbs (fun c => rdN ((Memref.whole cc1_scratch3 : Memref sig .scVector .vmem S48x224 .f32).view.read (Elt Ideal) gt) c (192 + (i 0).val)) (init.2.2.1 i) (4 * k.val))
          (max (shapeCast S16 (View.readAt (Elt Ideal) (Memref.whole cc1_scratch3 : Memref sig .scVector .vmem S48x224 .f32).view (Rect.unit (s := S48x224) (k1_off62 k 0#32) S1x16.size (k1_off62_inb k 0)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off62 k 0#32) S1x16.size (k1_off62_inb k 0)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off62 k 1#32) S1x16.size (k1_off62_inb k 1)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off62 k 1#32) S1x16.size (k1_off62_inb k 1)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off62 k 2#32) S1x16.size (k1_off62_inb k 2)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off62 k 2#32) S1x16.size (k1_off62_inb k 2)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off62 k 3#32) S1x16.size (k1_off62_inb k 3)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off62 k 3#32) S1x16.size (k1_off62_inb k 3)).toLoadRect gt : Vec Ideal S1x16 .f32) shapeCasts_S1x16_S16 i : EReal)))) rfl ?_
    rw [load_apply' (Memref.whole cc1_scratch3 : Memref sig .scVector .vmem S48x224 .f32) gt (k1_off62 k 0#32) (k1_off62_inb k 0) (4 * k.val + 0) 192 (k1_off62_eq k 0) i,
      load_apply' (Memref.whole cc1_scratch3 : Memref sig .scVector .vmem S48x224 .f32) gt (k1_off62 k 1#32) (k1_off62_inb k 1) (4 * k.val + 1) 192 (k1_off62_eq k 1) i,
      load_apply' (Memref.whole cc1_scratch3 : Memref sig .scVector .vmem S48x224 .f32) gt (k1_off62 k 2#32) (k1_off62_inb k 2) (4 * k.val + 2) 192 (k1_off62_eq k 2) i,
      load_apply' (Memref.whole cc1_scratch3 : Memref sig .scVector .vmem S48x224 .f32) gt (k1_off62 k 3#32) (k1_off62_inb k 3) (4 * k.val + 3) 192 (k1_off62_eq k 3) i]
    exact (mxAbs_four _ _ k.val).symm
  · refine Eq.trans (b := max (max (max (max (mxAbs (fun c => rdN ((Memref.whole cc1_scratch3 : Memref sig .scVector .vmem S48x224 .f32).view.read (Elt Ideal) gt) c (208 + (i 0).val)) (init.2.2.2 i) (4 * k.val))
          (max (shapeCast S16 (View.readAt (Elt Ideal) (Memref.whole cc1_scratch3 : Memref sig .scVector .vmem S48x224 .f32).view (Rect.unit (s := S48x224) (k1_off63 k 0#32) S1x16.size (k1_off63_inb k 0)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off63 k 0#32) S1x16.size (k1_off63_inb k 0)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off63 k 1#32) S1x16.size (k1_off63_inb k 1)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off63 k 1#32) S1x16.size (k1_off63_inb k 1)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off63 k 2#32) S1x16.size (k1_off63_inb k 2)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off63 k 2#32) S1x16.size (k1_off63_inb k 2)).toLoadRect gt : Vec Ideal S1x16 .f32) shapeCasts_S1x16_S16 i : EReal))))
          (max (shapeCast S16 (View.readAt (Elt Ideal) (Memref.whole cc1_scratch3 : Memref sig .scVector .vmem S48x224 .f32).view (Rect.unit (s := S48x224) (k1_off63 k 3#32) S1x16.size (k1_off63_inb k 3)).toLoadRect gt : Vec Ideal S1x16 .f32) shapeCasts_S1x16_S16 i : EReal) (-(shapeCast S16 (View.readAt (Elt Ideal) (Memref.whole cc1_scratch3 : Memref sig .scVector .vmem S48x224 .f32).view (Rect.unit (s := S48x224) (k1_off63 k 3#32) S1x16.size (k1_off63_inb k 3)).toLoadRect gt : Vec Ideal S1x16 .f32) shapeCasts_S1x16_S16 i : EReal)))) rfl ?_
    rw [load_apply' (Memref.whole cc1_scratch3 : Memref sig .scVector .vmem S48x224 .f32) gt (k1_off63 k 0#32) (k1_off63_inb k 0) (4 * k.val + 0) 208 (k1_off63_eq k 0) i,
      load_apply' (Memref.whole cc1_scratch3 : Memref sig .scVector .vmem S48x224 .f32) gt (k1_off63 k 1#32) (k1_off63_inb k 1) (4 * k.val + 1) 208 (k1_off63_eq k 1) i,
      load_apply' (Memref.whole cc1_scratch3 : Memref sig .scVector .vmem S48x224 .f32) gt (k1_off63 k 2#32) (k1_off63_inb k 2) (4 * k.val + 2) 208 (k1_off63_eq k 2) i,
      load_apply' (Memref.whole cc1_scratch3 : Memref sig .scVector .vmem S48x224 .f32) gt (k1_off63 k 3#32) (k1_off63_inb k 3) (4 * k.val + 3) 208 (k1_off63_eq k 3) i]
    exact (mxAbs_four _ _ k.val).symm

/-- THE CLOSED FORM of loop t29: after `n` trips the sums are the initial ones with rows `0 … 4 n − 1` added. -/
theorem sumsV_t29_closed (init : σ4) (n : ℕ) (hn : n ≤ k1_t29_loop.trips) :
    sumsV_t29 (F := Ideal) d L gi gt init n = closed4 ((Memref.whole cc1_scratch2 : Memref sig .scVector .vmem S48x224 .f32).view.read (Elt Ideal) gi) ((Memref.whole cc1_scratch3 : Memref sig .scVector .vmem S48x224 .f32).view.read (Elt Ideal) gt) 192 208 init (4 * n) := by
  induction n with
  | zero => rw [Nat.mul_zero, closed4_zero]; rfl
  | succ n ih =>
    have hlt : n < k1_t29_loop.trips := hn
    rw [sumsV_t29, dif_pos hlt, ih (Nat.le_of_lt hlt)]
    exact stepV_t29_closed d L gi gt ⟨n, hlt⟩ init

end Loop29

end Cert.KernelIdeal.ScTile

end
-- ==== Proof.ScTileCellsRun3I.lean ====
/-
  The accumulation loops' results as cells: each loop, run its twelve trips from a lane group's cells, leaves the cells
  the closed form names (channel group 3: loops t23 … t29).
-/
import proofs.«210586_g14980845929080_cont_week2b_1062_66_alg».proof.Proof.ScTileVMath3I
import proofs.«210586_g14980845929080_cont_week2b_1062_66_alg».proof.Proof.ScTileCellsMathI

noncomputable section

namespace Cert.KernelIdeal.ScTile

open Cert.KernelIdeal Cert.KernelIdeal.Gen Cert.KernelIdeal.ScTileV
open Idealize.ShloMosaic Idealize.ShloMosaic.ValueIdx
open Idealize.ShloMosaic.SparseCore (S V T)

variable (d : Dev nD) (L : grid1.Coords)

/-- Loop t23 from the cells `c`: all twelve trips. -/
theorem region_t23 (gi : Buf (Elt Ideal) ((V d (cV L) (jV L)).loc cc1_scratch2)) (gt : Buf (Elt Ideal) ((V d (cV L) (jV L)).loc cc1_scratch3)) (c : Cells4) :
    cells4 (sumsV_t23 (F := Ideal) d L gi gt (lanes4 c) k1_t23_loop.trips)
      = cells4 (closed4 ((Memref.whole cc1_scratch2 : Memref sig .scVector .vmem S48x224 .f32).view.read (Elt Ideal) gi) ((Memref.whole cc1_scratch3 : Memref sig .scVector .vmem S48x224 .f32).view.read (Elt Ideal) gt) 0 16 (lanes4 c) 48) := by
  rw [sumsV_t23_closed d L gi gt (lanes4 c) k1_t23_loop.trips le_rfl]
  rfl

/-- Loop t24 from the cells `c`: all twelve trips. -/
theorem region_t24 (gi : Buf (Elt Ideal) ((V d (cV L) (jV L)).loc cc1_scratch2)) (gt : Buf (Elt Ideal) ((V d (cV L) (jV L)).loc cc1_scratch3)) (c : Cells4) :
    cells4 (sumsV_t24 (F := Ideal) d L gi gt (lanes4 c) k1_t24_loop.trips)
      = cells4 (closed4 ((Memref.whole cc1_scratch2 : Memref sig .scVector .vmem S48x224 .f32).view.read (Elt Ideal) gi) ((Memref.whole cc1_scratch3 : Memref sig .scVector .vmem S48x224 .f32).view.read (Elt Ideal) gt) 32 48 (lanes4 c) 48) := by
  rw [sumsV_t24_closed d L gi gt (lanes4 c) k1_t24_loop.trips le_rfl]
  rfl

/-- Loop t25 from the cells `c`: all twelve trips. -/
theorem region_t25 (gi : Buf (Elt Ideal) ((V d (cV L) (jV L)).loc cc1_scratch2)) (gt : Buf (Elt Ideal) ((V d (cV L) (jV L)).loc cc1_scratch3)) (c : Cells4) :
    cells4 (sumsV_t25 (F := Ideal) d L gi gt (lanes4 c) k1_t25_loop.trips)
      = cells4 (closed4 ((Memref.whole cc1_scratch2 : Memref sig .scVector .vmem S48x224 .f32).view.read (Elt Ideal) gi) ((Memref.whole cc1_scratch3 : Memref sig .scVector .vmem S48x224 .f32).view.read (Elt Ideal) gt) 64 80 (lanes4 c) 48) := by
  rw [sumsV_t25_closed d L gi gt (lanes4 c) k1_t25_loop.trips le_rfl]
  rfl

/-- Loop t26 from the cells `c`: all twelve trips. -/
theorem region_t26 (gi : Buf (Elt Ideal) ((V d (cV L) (jV L)).loc cc1_scratch2)) (gt : Buf (Elt Ideal) ((V d (cV L) (jV L)).loc cc1_scratch3)) (c : Cells4) :
    cells4 (sumsV_t26 (F := Ideal) d L gi gt (lanes4 c) k1_t26_loop.trips)
      = cells4 (closed4 ((Memref.whole cc1_scratch2 : Memref sig .scVector .vmem S48x224 .f32).view.read (Elt Ideal) gi) ((Memref.whole cc1_scratch3 : Memref sig .scVector .vmem S48x224 .f32).view.read (Elt Ideal) gt) 96 112 (lanes4 c) 48) := by
  rw [sumsV_t26_closed d L gi gt (lanes4 c) k1_t26_loop.trips le_rfl]
  rfl

/-- Loop t27 from the cells `c`: all twelve trips. -/
theorem region_t27 (gi : Buf (Elt Ideal) ((V d (cV L) (jV L)).loc cc1_scratch2)) (gt : Buf (Elt Ideal) ((V d (cV L) (jV L)).loc cc1_scratch3)) (c : Cells4) :
    cells4 (sumsV_t27 (F := Ideal) d L gi gt (lanes4 c) k1_t27_loop.trips)
      = cells4 (closed4 ((Memref.whole cc1_scratch2 : Memref sig .scVector .vmem S48x224 .f32).view.read (Elt Ideal) gi) ((Memref.whole cc1_scratch3 : Memref sig .scVector .vmem S48x224 .f32).view.read (Elt Ideal) gt) 128 144 (lanes4 c) 48) := by
  rw [sumsV_t27_closed d L gi gt (lanes4 c) k1_t27_loop.trips le_rfl]
  rfl

/-- Loop t28 from the cells `c`: all twelve trips. -/
theorem region_t28 (gi : Buf (Elt Ideal) ((V d (cV L) (jV L)).loc cc1_scratch2)) (gt : Buf (Elt Ideal) ((V d (cV L) (jV L)).loc cc1_scratch3)) (c : Cells4) :
    cells4 (sumsV_t28 (F := Ideal) d L gi gt (lanes4 c) k1_t28_loop.trips)
      = cells4 (closed4 ((Memref.whole cc1_scratch2 : Memref sig .scVector .vmem S48x224 .f32).view.read (Elt Ideal) gi) ((Memref.whole cc1_scratch3 : Memref sig .scVector .vmem S48x224 .f32).view.read (Elt Ideal) gt) 160 176 (lanes4 c) 48) := by
  rw [sumsV_t28_closed d L gi gt (lanes4 c) k1_t28_loop.trips le_rfl]
  rfl

/-- Loop t29 from the cells `c`: all twelve trips. -/
theorem region_t29 (gi : Buf (Elt Ideal) ((V d (cV L) (jV L)).loc cc1_scratch2)) (gt : Buf (Elt Ideal) ((V d (cV L) (jV L)).loc cc1_scratch3)) (c : Cells4) :
    cells4 (sumsV_t29 (F := Ideal) d L gi gt (lanes4 c) k1_t29_loop.trips)
      = cells4 (closed4 ((Memref.whole cc1_scratch2 : Memref sig .scVector .vmem S48x224 .f32).view.read (Elt Ideal) gi) ((Memref.whole cc1_scratch3 : Memref sig .scVector .vmem S48x224 .f32).view.read (Elt Ideal) gt) 192 208 (lanes4 c) 48) := by
  rw [sumsV_t29_closed d L gi gt (lanes4 c) k1_t29_loop.trips le_rfl]
  rfl

end Cert.KernelIdeal.ScTile

end
-- ==== Proof.ScTileVLanesI.lean ====
/-
  The accumulators' register files after a row's four channel groups, lane by lane: each lane group's four cells go
  through its four regions and no other, so they hold the squared distance and the largest absolute value over all the
  channels where the group is active, and zero where it is not.
-/
import proofs.«210586_g14980845929080_cont_week2b_1062_66_alg».proof.Proof.ScTileVTrip3I
import proofs.«210586_g14980845929080_cont_week2b_1062_66_alg».proof.Proof.ScTileVSumsI
import proofs.«210586_g14980845929080_cont_week2b_1062_66_alg».proof.Proof.ScTileCellsGlueI
import proofs.«210586_g14980845929080_cont_week2b_1062_66_alg».proof.Proof.ScTileCellsRun0I
import proofs.«210586_g14980845929080_cont_week2b_1062_66_alg».proof.Proof.ScTileCellsRun1I
import proofs.«210586_g14980845929080_cont_week2b_1062_66_alg».proof.Proof.ScTileCellsRun2I
import proofs.«210586_g14980845929080_cont_week2b_1062_66_alg».proof.Proof.ScTileCellsRun3I
import proofs.«210586_g14980845929080_cont_week2b_1062_66_alg».proof.Proof.ScTileRowPayI

noncomputable section

namespace Cert.KernelIdeal.ScTileV

open Cert.KernelIdeal.ScTile
open Cert.KernelIdeal Cert.KernelIdeal.Gen Cert.LossSpec Cert.ScTileVal
open Idealize.ShloMosaic Idealize.ShloMosaic.ValueIdx
open Idealize.ShloMosaic.SparseCore (S V T)

variable (d : Dev nD) (L : grid1.Coords)

/-- A region on the files, on the lane group's own four cells and on another's. -/
theorem cellsOf_filesUpd_same (flag : Prop) [Decidable flag] (w5 w6 : Fin 7 → Fin 2 → Vec Ideal S1x1x16 .f32) (kk : Fin 7) (S : σ4)
    (Ri Rt : S48x224.Idx → EReal) (xa xb : ℕ) (hS : cells4 S = cells4 (closed4 Ri Rt xa xb (lanes4 (cellsOf w5 w6 kk)) 48)) :
    cellsOf (filesUpd (F := Ideal) flag w5 w6 kk S).1 (filesUpd (F := Ideal) flag w5 w6 kk S).2 kk = regionStep flag Ri Rt xa xb (cellsOf w5 w6 kk) :=
  cellsOf_region_closed flag w5 w6 kk Ri Rt xa xb S hS
theorem cellsOf_filesUpd_other (flag : Prop) [Decidable flag] (w5 w6 : Fin 7 → Fin 2 → Vec Ideal S1x1x16 .f32) (q kk : Fin 7) (hne : kk ≠ q) (S : σ4) :
    cellsOf (filesUpd (F := Ideal) flag w5 w6 q S).1 (filesUpd (F := Ideal) flag w5 w6 q S).2 kk = cellsOf w5 w6 kk :=
  cellsOf_regionUpd_other flag w5 w6 q kk hne _ _ _ _
theorem initOf_eq (w5 w6 : Fin 7 → Fin 2 → Vec Ideal S1x1x16 .f32) (kk : Fin 7) : initOf (F := Ideal) w5 w6 kk = lanes4 (cellsOf w5 w6 kk) := rfl

set_option maxHeartbeats 1000000 in
theorem step91_0 (g0 : Buf (Elt Ideal) ((V d (cV L) (jV L)).loc cc1_scratch0)) (g1 : Buf (Elt Ideal) ((V d (cV L) (jV L)).loc cc1_scratch1)) (w5 w6 : Fin 7 → Fin 2 → Vec Ideal S1x1x16 .f32) (v24 : FVec Ideal S16 .f32) (v87 : BitVec 1) (kk : Fin 7) :
    cellsOf (f91_1 (F := Ideal) d L g0 g1 w5 w6 v24 v87).1 (f91_1 (F := Ideal) d L g0 g1 w5 w6 v24 v87).2 kk
      = if (0 : Fin 7) = kk then regionStep ((Scalar.cmpi .ne (Scalar.extui v87 : BitVec 32) 0#32) = 1#1) ((Memref.whole cc1_scratch0 : Memref sig .scVector .vmem S48x224 .f32).view.read (Elt Ideal) g0) ((Memref.whole cc1_scratch1 : Memref sig .scVector .vmem S48x224 .f32).view.read (Elt Ideal) g1) 0 16 (cellsOf (f91_0 (F := Ideal) w5 w6 v24).1 (f91_0 (F := Ideal) w5 w6 v24).2 kk)
        else cellsOf (f91_0 (F := Ideal) w5 w6 v24).1 (f91_0 (F := Ideal) w5 w6 v24).2 kk := by
  unfold f91_1
  by_cases h : (0 : Fin 7) = kk
  · subst h
    rw [if_pos rfl]
    refine cellsOf_filesUpd_same ((Scalar.cmpi .ne (Scalar.extui v87 : BitVec 32) 0#32) = 1#1) (f91_0 (F := Ideal) w5 w6 v24).1 (f91_0 (F := Ideal) w5 w6 v24).2 0 _ ((Memref.whole cc1_scratch0 : Memref sig .scVector .vmem S48x224 .f32).view.read (Elt Ideal) g0) ((Memref.whole cc1_scratch1 : Memref sig .scVector .vmem S48x224 .f32).view.read (Elt Ideal) g1) 0 16 ?_
    rw [initOf_eq]
    exact region_t2 d L g0 g1 _
  · rw [if_neg h]
    exact cellsOf_filesUpd_other ((Scalar.cmpi .ne (Scalar.extui v87 : BitVec 32) 0#32) = 1#1) (f91_0 (F := Ideal) w5 w6 v24).1 (f91_0 (F := Ideal) w5 w6 v24).2 0 kk (fun e => h e.symm) _

set_option maxHeartbeats 1000000 in
theorem step91_1 (g0 : Buf (Elt Ideal) ((V d (cV L) (jV L)).loc cc1_scratch0)) (g1 : Buf (Elt Ideal) ((V d (cV L) (jV L)).loc cc1_scratch1)) (w5 w6 : Fin 7 → Fin 2 → Vec Ideal S1x1x16 .f32) (v24 : FVec Ideal S16 .f32) (v87 v90 : BitVec 1) (kk : Fin 7) :
    cellsOf (f91_2 (F := Ideal) d L g0 g1 w5 w6 v24 v87 v90).1 (f91_2 (F := Ideal) d L g0 g1 w5 w6 v24 v87 v90).2 kk
      = if (1 : Fin 7) = kk then regionStep ((Scalar.cmpi .ne (Scalar.extui v90 : BitVec 32) 0#32) = 1#1) ((Memref.whole cc1_scratch0 : Memref sig .scVector .vmem S48x224 .f32).view.read (Elt Ideal) g0) ((Memref.whole cc1_scratch1 : Memref sig .scVector .vmem S48x224 .f32).view.read (Elt Ideal) g1) 32 48 (cellsOf (f91_1 (F := Ideal) d L g0 g1 w5 w6 v24 v87).1 (f91_1 (F := Ideal) d L g0 g1 w5 w6 v24 v87).2 kk)
        else cellsOf (f91_1 (F := Ideal) d L g0 g1 w5 w6 v24 v87).1 (f91_1 (F := Ideal) d L g0 g1 w5 w6 v24 v87).2 kk := by
  unfold f91_2
  by_cases h : (1 : Fin 7) = kk
  · subst h
    rw [if_pos rfl]
    refine cellsOf_filesUpd_same ((Scalar.cmpi .ne (Scalar.extui v90 : BitVec 32) 0#32) = 1#1) (f91_1 (F := Ideal) d L g0 g1 w5 w6 v24 v87).1 (f91_1 (F := Ideal) d L g0 g1 w5 w6 v24 v87).2 1 _ ((Memref.whole cc1_scratch0 : Memref sig .scVector .vmem S48x224 .f32).view.read (Elt Ideal) g0) ((Memref.whole cc1_scratch1 : Memref sig .scVector .vmem S48x224 .f32).view.read (Elt Ideal) g1) 32 48 ?_
    rw [initOf_eq]
    exact region_t3 d L g0 g1 _
  · rw [if_neg h]
    exact cellsOf_filesUpd_other ((Scalar.cmpi .ne (Scalar.extui v90 : BitVec 32) 0#32) = 1#1) (f91_1 (F := Ideal) d L g0 g1 w5 w6 v24 v87).1 (f91_1 (F := Ideal) d L g0 g1 w5 w6 v24 v87).2 1 kk (fun e => h e.symm) _

set_option maxHeartbeats 1000000 in
theorem step91_2 (g0 : Buf (Elt Ideal) ((V d (cV L) (jV L)).loc cc1_scratch0)) (g1 : Buf (Elt Ideal) ((V d (cV L) (jV L)).loc cc1_scratch1)) (w5 w6 : Fin 7 → Fin 2 → Vec Ideal S1x1x16 .f32) (v24 : FVec Ideal S16 .f32) (v87 v90 v93 : BitVec 1) (kk : Fin 7) :
    cellsOf (f91_3 (F := Ideal) d L g0 g1 w5 w6 v24 v87 v90 v93).1 (f91_3 (F := Ideal) d L g0 g1 w5 w6 v24 v87 v90 v93).2 kk
      = if (2 : Fin 7) = kk then regionStep ((Scalar.cmpi .ne (Scalar.extui v93 : BitVec 32) 0#32) = 1#1) ((Memref.whole cc1_scratch0 : Memref sig .scVector .vmem S48x224 .f32).view.read (Elt Ideal) g0) ((Memref.whole cc1_scratch1 : Memref sig .scVector .vmem S48x224 .f32).view.read (Elt Ideal) g1) 64 80 (cellsOf (f91_2 (F := Ideal) d L g0 g1 w5 w6 v24 v87 v90).1 (f91_2 (F := Ideal) d L g0 g1 w5 w6 v24 v87 v90).2 kk)
        else cellsOf (f91_2 (F := Ideal) d L g0 g1 w5 w6 v24 v87 v90).1 (f91_2 (F := Ideal) d L g0 g1 w5 w6 v24 v87 v90).2 kk := by
  unfold f91_3
  by_cases h : (2 : Fin 7) = kk
  · subst h
    rw [if_pos rfl]
    refine cellsOf_filesUpd_same ((Scalar.cmpi .ne (Scalar.extui v93 : BitVec 32) 0#32) = 1#1) (f91_2 (F := Ideal) d L g0 g1 w5 w6 v24 v87 v90).1 (f91_2 (F := Ideal) d L g0 g1 w5 w6 v24 v87 v90).2 2 _ ((Memref.whole cc1_scratch0 : Memref sig .scVector .vmem S48x224 .f32).view.read (Elt Ideal) g0) ((Memref.whole cc1_scratch1 : Memref sig .scVector .vmem S48x224 .f32).view.read (Elt Ideal) g1) 64 80 ?_
    rw [initOf_eq]
    exact region_t4 d L g0 g1 _
  · rw [if_neg h]
    exact cellsOf_filesUpd_other ((Scalar.cmpi .ne (Scalar.extui v93 : BitVec 32) 0#32) = 1#1) (f91_2 (F := Ideal) d L g0 g1 w5 w6 v24 v87 v90).1 (f91_2 (F := Ideal) d L g0 g1 w5 w6 v24 v87 v90).2 2 kk (fun e => h e.symm) _

set_option maxHeartbeats 1000000 in
theorem step91_3 (g0 : Buf (Elt Ideal) ((V d (cV L) (jV L)).loc cc1_scratch0)) (g1 : Buf (Elt Ideal) ((V d (cV L) (jV L)).loc cc1_scratch1)) (w5 w6 : Fin 7 → Fin 2 → Vec Ideal S1x1x16 .f32) (v24 : FVec Ideal S16 .f32) (v87 v90 v93 v96 : BitVec 1) (kk : Fin 7) :
    cellsOf (f91_4 (F := Ideal) d L g0 g1 w5 w6 v24 v87 v90 v93 v96).1 (f91_4 (F := Ideal) d L g0 g1 w5 w6 v24 v87 v90 v93 v96).2 kk
      = if (3 : Fin 7) = kk then regionStep ((Scalar.cmpi .ne (Scalar.extui v96 : BitVec 32) 0#32) = 1#1) ((Memref.whole cc1_scratch0 : Memref sig .scVector .vmem S48x224 .f32).view.read (Elt Ideal) g0) ((Memref.whole cc1_scratch1 : Memref sig .scVector .vmem S48x224 .f32).view.read (Elt Ideal) g1) 96 112 (cellsOf (f91_3 (F := Ideal) d L g0 g1 w5 w6 v24 v87 v90 v93).1 (f91_3 (F := Ideal) d L g0 g1 w5 w6 v24 v87 v90 v93).2 kk)
        else cellsOf (f91_3 (F := Ideal) d L g0 g1 w5 w6 v24 v87 v90 v93).1 (f91_3 (F := Ideal) d L g0 g1 w5 w6 v24 v87 v90 v93).2 kk := by
  unfold f91_4
  by_cases h : (3 : Fin 7) = kk
  · subst h
    rw [if_pos rfl]
    refine cellsOf_filesUpd_same ((Scalar.cmpi .ne (Scalar.extui v96 : BitVec 32) 0#32) = 1#1) (f91_3 (F := Ideal) d L g0 g1 w5 w6 v24 v87 v90 v93).1 (f91_3 (F := Ideal) d L g0 g1 w5 w6 v24 v87 v90 v93).2 3 _ ((Memref.whole cc1_scratch0 : Memref sig .scVector .vmem S48x224 .f32).view.read (Elt Ideal) g0) ((Memref.whole cc1_scratch1 : Memref sig .scVector .vmem S48x224 .f32).view.read (Elt Ideal) g1) 96 112 ?_
    rw [initOf_eq]
    exact region_t5 d L g0 g1 _
  · rw [if_neg h]
    exact cellsOf_filesUpd_other ((Scalar.cmpi .ne (Scalar.extui v96 : BitVec 32) 0#32) = 1#1) (f91_3 (F := Ideal) d L g0 g1 w5 w6 v24 v87 v90 v93).1 (f91_3 (F := Ideal) d L g0 g1 w5 w6 v24 v87 v90 v93).2 3 kk (fun e => h e.symm) _

set_option maxHeartbeats 1000000 in
theorem step91_4 (g0 : Buf (Elt Ideal) ((V d (cV L) (jV L)).loc cc1_scratch0)) (g1 : Buf (Elt Ideal) ((V d (cV L) (jV L)).loc cc1_scratch1)) (w5 w6 : Fin 7 → Fin 2 → Vec Ideal S1x1x16 .f32) (v24 : FVec Ideal S16 .f32) (v87 v90 v93 v96 v99 : BitVec 1) (kk : Fin 7) :
    cellsOf (f91_5 (F := Ideal) d L g0 g1 w5 w6 v24 v87 v90 v93 v96 v99).1 (f91_5 (F := Ideal) d L g0 g1 w5 w6 v24 v87 v90 v93 v96 v99).2 kk
      = if (4 : Fin 7) = kk then regionStep ((Scalar.cmpi .ne (Scalar.extui v99 : BitVec 32) 0#32) = 1#1) ((Memref.whole cc1_scratch0 : Memref sig .scVector .vmem S48x224 .f32).view.read (Elt Ideal) g0) ((Memref.whole cc1_scratch1 : Memref sig .scVector .vmem S48x224 .f32).view.read (Elt Ideal) g1) 128 144 (cellsOf (f91_4 (F := Ideal) d L g0 g1 w5 w6 v24 v87 v90 v93 v96).1 (f91_4 (F := Ideal) d L g0 g1 w5 w6 v24 v87 v90 v93 v96).2 kk)
        else cellsOf (f91_4 (F := Ideal) d L g0 g1 w5 w6 v24 v87 v90 v93 v96).1 (f91_4 (F := Ideal) d L g0 g1 w5 w6 v24 v87 v90 v93 v96).2 kk := by
  unfold f91_5
  by_cases h : (4 : Fin 7) = kk
  · subst h
    rw [if_pos rfl]
    refine cellsOf_filesUpd_same ((Scalar.cmpi .ne (Scalar.extui v99 : BitVec 32) 0#32) = 1#1) (f91_4 (F := Ideal) d L g0 g1 w5 w6 v24 v87 v90 v93 v96).1 (f91_4 (F := Ideal) d L g0 g1 w5 w6 v24 v87 v90 v93 v96).2 4 _ ((Memref.whole cc1_scratch0 : Memref sig .scVector .vmem S48x224 .f32).view.read (Elt Ideal) g0) ((Memref.whole cc1_scratch1 : Memref sig .scVector .vmem S48x224 .f32).view.read (Elt Ideal) g1) 128 144 ?_
    rw [initOf_eq]
    exact region_t6 d L g0 g1 _
  · rw [if_neg h]
    exact cellsOf_filesUpd_other ((Scalar.cmpi .ne (Scalar.extui v99 : BitVec 32) 0#32) = 1#1) (f91_4 (F := Ideal) d L g0 g1 w5 w6 v24 v87 v90 v93 v96).1 (f91_4 (F := Ideal) d L g0 g1 w5 w6 v24 v87 v90 v93 v96).2 4 kk (fun e => h e.symm) _

set_option maxHeartbeats 1000000 in
theorem step91_5 (g0 : Buf (Elt Ideal) ((V d (cV L) (jV L)).loc cc1_scratch0)) (g1 : Buf (Elt Ideal) ((V d (cV L) (jV L)).loc cc1_scratch1)) (w5 w6 : Fin 7 → Fin 2 → Vec Ideal S1x1x16 .f32) (v24 : FVec Ideal S16 .f32) (v87 v90 v93 v96 v99 v102 : BitVec 1) (kk : Fin 7) :
    cellsOf (f91_6 (F := Ideal) d L g0 g1 w5 w6 v24 v87 v90 v93 v96 v99 v102).1 (f91_6 (F := Ideal) d L g0 g1 w5 w6 v24 v87 v90 v93 v96 v99 v102).2 kk
      = if (5 : Fin 7) = kk then regionStep ((Scalar.cmpi .ne (Scalar.extui v102 : BitVec 32) 0#32) = 1#1) ((Memref.whole cc1_scratch0 : Memref sig .scVector .vmem S48x224 .f32).view.read (Elt Ideal) g0) ((Memref.whole cc1_scratch1 : Memref sig .scVector .vmem S48x224 .f32).view.read (Elt Ideal) g1) 160 176 (cellsOf (f91_5 (F := Ideal) d L g0 g1 w5 w6 v24 v87 v90 v93 v96 v99).1 (f91_5 (F := Ideal) d L g0 g1 w5 w6 v24 v87 v90 v93 v96 v99).2 kk)
        else cellsOf (f91_5 (F := Ideal) d L g0 g1 w5 w6 v24 v87 v90 v93 v96 v99).1 (f91_5 (F := Ideal) d L g0 g1 w5 w6 v24 v87 v90 v93 v96 v99).2 kk := by
  unfold f91_6
  by_cases h : (5 : Fin 7) = kk
  · subst h
    rw [if_pos rfl]
    refine cellsOf_filesUpd_same ((Scalar.cmpi .ne (Scalar.extui v102 : BitVec 32) 0#32) = 1#1) (f91_5 (F := Ideal) d L g0 g1 w5 w6 v24 v87 v90 v93 v96 v99).1 (f91_5 (F := Ideal) d L g0 g1 w5 w6 v24 v87 v90 v93 v96 v99).2 5 _ ((Memref.whole cc1_scratch0 : Memref sig .scVector .vmem S48x224 .f32).view.read (Elt Ideal) g0) ((Memref.whole cc1_scratch1 : Memref sig .scVector .vmem S48x224 .f32).view.read (Elt Ideal) g1) 160 176 ?_
    rw [initOf_eq]
    exact region_t7 d L g0 g1 _
  · rw [if_neg h]
    exact cellsOf_filesUpd_other ((Scalar.cmpi .ne (Scalar.extui v102 : BitVec 32) 0#32) = 1#1) (f91_5 (F := Ideal) d L g0 g1 w5 w6 v24 v87 v90 v93 v96 v99).1 (f91_5 (F := Ideal) d L g0 g1 w5 w6 v24 v87 v90 v93 v96 v99).2 5 kk (fun e => h e.symm) _

set_option maxHeartbeats 1000000 in
theorem step91_6 (g0 : Buf (Elt Ideal) ((V d (cV L) (jV L)).loc cc1_scratch0)) (g1 : Buf (Elt Ideal) ((V d (cV L) (jV L)).loc cc1_scratch1)) (w5 w6 : Fin 7 → Fin 2 → Vec Ideal S1x1x16 .f32) (v24 : FVec Ideal S16 .f32) (v87 v90 v93 v96 v99 v102 v105 : BitVec 1) (kk : Fin 7) :
    cellsOf (f91_7 (F := Ideal) d L g0 g1 w5 w6 v24 v87 v90 v93 v96 v99 v102 v105).1 (f91_7 (F := Ideal) d L g0 g1 w5 w6 v24 v87 v90 v93 v96 v99 v102 v105).2 kk
      = if (6 : Fin 7) = kk then regionStep ((Scalar.cmpi .ne (Scalar.extui v105 : BitVec 32) 0#32) = 1#1) ((Memref.whole cc1_scratch0 : Memref sig .scVector .vmem S48x224 .f32).view.read (Elt Ideal) g0) ((Memref.whole cc1_scratch1 : Memref sig .scVector .vmem S48x224 .f32).view.read (Elt Ideal) g1) 192 208 (cellsOf (f91_6 (F := Ideal) d L g0 g1 w5 w6 v24 v87 v90 v93 v96 v99 v102).1 (f91_6 (F := Ideal) d L g0 g1 w5 w6 v24 v87 v90 v93 v96 v99 v102).2 kk)
        else cellsOf (f91_6 (F := Ideal) d L g0 g1 w5 w6 v24 v87 v90 v93 v96 v99 v102).1 (f91_6 (F := Ideal) d L g0 g1 w5 w6 v24 v87 v90 v93 v96 v99 v102).2 kk := by
  unfold f91_7
  by_cases h : (6 : Fin 7) = kk
  · subst h
    rw [if_pos rfl]
    refine cellsOf_filesUpd_same ((Scalar.cmpi .ne (Scalar.extui v105 : BitVec 32) 0#32) = 1#1) (f91_6 (F := Ideal) d L g0 g1 w5 w6 v24 v87 v90 v93 v96 v99 v102).1 (f91_6 (F := Ideal) d L g0 g1 w5 w6 v24 v87 v90 v93 v96 v99 v102).2 6 _ ((Memref.whole cc1_scratch0 : Memref sig .scVector .vmem S48x224 .f32).view.read (Elt Ideal) g0) ((Memref.whole cc1_scratch1 : Memref sig .scVector .vmem S48x224 .f32).view.read (Elt Ideal) g1) 192 208 ?_
    rw [initOf_eq]
    exact region_t8 d L g0 g1 _
  · rw [if_neg h]
    exact cellsOf_filesUpd_other ((Scalar.cmpi .ne (Scalar.extui v105 : BitVec 32) 0#32) = 1#1) (f91_6 (F := Ideal) d L g0 g1 w5 w6 v24 v87 v90 v93 v96 v99 v102).1 (f91_6 (F := Ideal) d L g0 g1 w5 w6 v24 v87 v90 v93 v96 v99 v102).2 6 kk (fun e => h e.symm) _

set_option maxHeartbeats 1000000 in
theorem step93_0 (g0 : Buf (Elt Ideal) ((V d (cV L) (jV L)).loc cc1_scratch0)) (g1 : Buf (Elt Ideal) ((V d (cV L) (jV L)).loc cc1_scratch1)) (w5 w6 : Fin 7 → Fin 2 → Vec Ideal S1x1x16 .f32) (v87 : BitVec 1) (kk : Fin 7) :
    cellsOf (f93_1 (F := Ideal) d L g0 g1 w5 w6 v87).1 (f93_1 (F := Ideal) d L g0 g1 w5 w6 v87).2 kk
      = if (0 : Fin 7) = kk then regionStep ((Scalar.cmpi .ne (Scalar.extui v87 : BitVec 32) 0#32) = 1#1) ((Memref.whole cc1_scratch0 : Memref sig .scVector .vmem S48x224 .f32).view.read (Elt Ideal) g0) ((Memref.whole cc1_scratch1 : Memref sig .scVector .vmem S48x224 .f32).view.read (Elt Ideal) g1) 0 16 (cellsOf ((w5, w6) : (Fin 7 → Fin 2 → Vec Ideal S1x1x16 .f32) × (Fin 7 → Fin 2 → Vec Ideal S1x1x16 .f32)).1 ((w5, w6) : (Fin 7 → Fin 2 → Vec Ideal S1x1x16 .f32) × (Fin 7 → Fin 2 → Vec Ideal S1x1x16 .f32)).2 kk)
        else cellsOf ((w5, w6) : (Fin 7 → Fin 2 → Vec Ideal S1x1x16 .f32) × (Fin 7 → Fin 2 → Vec Ideal S1x1x16 .f32)).1 ((w5, w6) : (Fin 7 → Fin 2 → Vec Ideal S1x1x16 .f32) × (Fin 7 → Fin 2 → Vec Ideal S1x1x16 .f32)).2 kk := by
  unfold f93_1
  by_cases h : (0 : Fin 7) = kk
  · subst h
    rw [if_pos rfl]
    refine cellsOf_filesUpd_same ((Scalar.cmpi .ne (Scalar.extui v87 : BitVec 32) 0#32) = 1#1) ((w5, w6) : (Fin 7 → Fin 2 → Vec Ideal S1x1x16 .f32) × (Fin 7 → Fin 2 → Vec Ideal S1x1x16 .f32)).1 ((w5, w6) : (Fin 7 → Fin 2 → Vec Ideal S1x1x16 .f32) × (Fin 7 → Fin 2 → Vec Ideal S1x1x16 .f32)).2 0 _ ((Memref.whole cc1_scratch0 : Memref sig .scVector .vmem S48x224 .f32).view.read (Elt Ideal) g0) ((Memref.whole cc1_scratch1 : Memref sig .scVector .vmem S48x224 .f32).view.read (Elt Ideal) g1) 0 16 ?_
    rw [initOf_eq]
    exact region_t16 d L g0 g1 _
  · rw [if_neg h]
    exact cellsOf_filesUpd_other ((Scalar.cmpi .ne (Scalar.extui v87 : BitVec 32) 0#32) = 1#1) ((w5, w6) : (Fin 7 → Fin 2 → Vec Ideal S1x1x16 .f32) × (Fin 7 → Fin 2 → Vec Ideal S1x1x16 .f32)).1 ((w5, w6) : (Fin 7 → Fin 2 → Vec Ideal S1x1x16 .f32) × (Fin 7 → Fin 2 → Vec Ideal S1x1x16 .f32)).2 0 kk (fun e => h e.symm) _

set_option maxHeartbeats 1000000 in
theorem step93_1 (g0 : Buf (Elt Ideal) ((V d (cV L) (jV L)).loc cc1_scratch0)) (g1 : Buf (Elt Ideal) ((V d (cV L) (jV L)).loc cc1_scratch1)) (w5 w6 : Fin 7 → Fin 2 → Vec Ideal S1x1x16 .f32) (v87 v90 : BitVec 1) (kk : Fin 7) :
    cellsOf (f93_2 (F := Ideal) d L g0 g1 w5 w6 v87 v90).1 (f93_2 (F := Ideal) d L g0 g1 w5 w6 v87 v90).2 kk
      = if (1 : Fin 7) = kk then regionStep ((Scalar.cmpi .ne (Scalar.extui v90 : BitVec 32) 0#32) = 1#1) ((Memref.whole cc1_scratch0 : Memref sig .scVector .vmem S48x224 .f32).view.read (Elt Ideal) g0) ((Memref.whole cc1_scratch1 : Memref sig .scVector .vmem S48x224 .f32).view.read (Elt Ideal) g1) 32 48 (cellsOf (f93_1 (F := Ideal) d L g0 g1 w5 w6 v87).1 (f93_1 (F := Ideal) d L g0 g1 w5 w6 v87).2 kk)
        else cellsOf (f93_1 (F := Ideal) d L g0 g1 w5 w6 v87).1 (f93_1 (F := Ideal) d L g0 g1 w5 w6 v87).2 kk := by
  unfold f93_2
  by_cases h : (1 : Fin 7) = kk
  · subst h
    rw [if_pos rfl]
    refine cellsOf_filesUpd_same ((Scalar.cmpi .ne (Scalar.extui v90 : BitVec 32) 0#32) = 1#1) (f93_1 (F := Ideal) d L g0 g1 w5 w6 v87).1 (f93_1 (F := Ideal) d L g0 g1 w5 w6 v87).2 1 _ ((Memref.whole cc1_scratch0 : Memref sig .scVector .vmem S48x224 .f32).view.read (Elt Ideal) g0) ((Memref.whole cc1_scratch1 : Memref sig .scVector .vmem S48x224 .f32).view.read (Elt Ideal) g1) 32 48 ?_
    rw [initOf_eq]
    exact region_t17 d L g0 g1 _
  · rw [if_neg h]
    exact cellsOf_filesUpd_other ((Scalar.cmpi .ne (Scalar.extui v90 : BitVec 32) 0#32) = 1#1) (f93_1 (F := Ideal) d L g0 g1 w5 w6 v87).1 (f93_1 (F := Ideal) d L g0 g1 w5 w6 v87).2 1 kk (fun e => h e.symm) _

set_option maxHeartbeats 1000000 in
theorem step93_2 (g0 : Buf (Elt Ideal) ((V d (cV L) (jV L)).loc cc1_scratch0)) (g1 : Buf (Elt Ideal) ((V d (cV L) (jV L)).loc cc1_scratch1)) (w5 w6 : Fin 7 → Fin 2 → Vec Ideal S1x1x16 .f32) (v87 v90 v93 : BitVec 1) (kk : Fin 7) :
    cellsOf (f93_3 (F := Ideal) d L g0 g1 w5 w6 v87 v90 v93).1 (f93_3 (F := Ideal) d L g0 g1 w5 w6 v87 v90 v93).2 kk
      = if (2 : Fin 7) = kk then regionStep ((Scalar.cmpi .ne (Scalar.extui v93 : BitVec 32) 0#32) = 1#1) ((Memref.whole cc1_scratch0 : Memref sig .scVector .vmem S48x224 .f32).view.read (Elt Ideal) g0) ((Memref.whole cc1_scratch1 : Memref sig .scVector .vmem S48x224 .f32).view.read (Elt Ideal) g1) 64 80 (cellsOf (f93_2 (F := Ideal) d L g0 g1 w5 w6 v87 v90).1 (f93_2 (F := Ideal) d L g0 g1 w5 w6 v87 v90).2 kk)
        else cellsOf (f93_2 (F := Ideal) d L g0 g1 w5 w6 v87 v90).1 (f93_2 (F := Ideal) d L g0 g1 w5 w6 v87 v90).2 kk := by
  unfold f93_3
  by_cases h : (2 : Fin 7) = kk
  · subst h
    rw [if_pos rfl]
    refine cellsOf_filesUpd_same ((Scalar.cmpi .ne (Scalar.extui v93 : BitVec 32) 0#32) = 1#1) (f93_2 (F := Ideal) d L g0 g1 w5 w6 v87 v90).1 (f93_2 (F := Ideal) d L g0 g1 w5 w6 v87 v90).2 2 _ ((Memref.whole cc1_scratch0 : Memref sig .scVector .vmem S48x224 .f32).view.read (Elt Ideal) g0) ((Memref.whole cc1_scratch1 : Memref sig .scVector .vmem S48x224 .f32).view.read (Elt Ideal) g1) 64 80 ?_
    rw [initOf_eq]
    exact region_t18 d L g0 g1 _
  · rw [if_neg h]
    exact cellsOf_filesUpd_other ((Scalar.cmpi .ne (Scalar.extui v93 : BitVec 32) 0#32) = 1#1) (f93_2 (F := Ideal) d L g0 g1 w5 w6 v87 v90).1 (f93_2 (F := Ideal) d L g0 g1 w5 w6 v87 v90).2 2 kk (fun e => h e.symm) _

set_option maxHeartbeats 1000000 in
theorem step93_3 (g0 : Buf (Elt Ideal) ((V d (cV L) (jV L)).loc cc1_scratch0)) (g1 : Buf (Elt Ideal) ((V d (cV L) (jV L)).loc cc1_scratch1)) (w5 w6 : Fin 7 → Fin 2 → Vec Ideal S1x1x16 .f32) (v87 v90 v93 v96 : BitVec 1) (kk : Fin 7) :
    cellsOf (f93_4 (F := Ideal) d L g0 g1 w5 w6 v87 v90 v93 v96).1 (f93_4 (F := Ideal) d L g0 g1 w5 w6 v87 v90 v93 v96).2 kk
      = if (3 : Fin 7) = kk then regionStep ((Scalar.cmpi .ne (Scalar.extui v96 : BitVec 32) 0#32) = 1#1) ((Memref.whole cc1_scratch0 : Memref sig .scVector .vmem S48x224 .f32).view.read (Elt Ideal) g0) ((Memref.whole cc1_scratch1 : Memref sig .scVector .vmem S48x224 .f32).view.read (Elt Ideal) g1) 96 112 (cellsOf (f93_3 (F := Ideal) d L g0 g1 w5 w6 v87 v90 v93).1 (f93_3 (F := Ideal) d L g0 g1 w5 w6 v87 v90 v93).2 kk)
        else cellsOf (f93_3 (F := Ideal) d L g0 g1 w5 w6 v87 v90 v93).1 (f93_3 (F := Ideal) d L g0 g1 w5 w6 v87 v90 v93).2 kk := by
  unfold f93_4
  by_cases h : (3 : Fin 7) = kk
  · subst h
    rw [if_pos rfl]
    refine cellsOf_filesUpd_same ((Scalar.cmpi .ne (Scalar.extui v96 : BitVec 32) 0#32) = 1#1) (f93_3 (F := Ideal) d L g0 g1 w5 w6 v87 v90 v93).1 (f93_3 (F := Ideal) d L g0 g1 w5 w6 v87 v90 v93).2 3 _ ((Memref.whole cc1_scratch0 : Memref sig .scVector .vmem S48x224 .f32).view.read (Elt Ideal) g0) ((Memref.whole cc1_scratch1 : Memref sig .scVector .vmem S48x224 .f32).view.read (Elt Ideal) g1) 96 112 ?_
    rw [initOf_eq]
    exact region_t19 d L g0 g1 _
  · rw [if_neg h]
    exact cellsOf_filesUpd_other ((Scalar.cmpi .ne (Scalar.extui v96 : BitVec 32) 0#32) = 1#1) (f93_3 (F := Ideal) d L g0 g1 w5 w6 v87 v90 v93).1 (f93_3 (F := Ideal) d L g0 g1 w5 w6 v87 v90 v93).2 3 kk (fun e => h e.symm) _

set_option maxHeartbeats 1000000 in
theorem step93_4 (g0 : Buf (Elt Ideal) ((V d (cV L) (jV L)).loc cc1_scratch0)) (g1 : Buf (Elt Ideal) ((V d (cV L) (jV L)).loc cc1_scratch1)) (w5 w6 : Fin 7 → Fin 2 → Vec Ideal S1x1x16 .f32) (v87 v90 v93 v96 v99 : BitVec 1) (kk : Fin 7) :
    cellsOf (f93_5 (F := Ideal) d L g0 g1 w5 w6 v87 v90 v93 v96 v99).1 (f93_5 (F := Ideal) d L g0 g1 w5 w6 v87 v90 v93 v96 v99).2 kk
      = if (4 : Fin 7) = kk then regionStep ((Scalar.cmpi .ne (Scalar.extui v99 : BitVec 32) 0#32) = 1#1) ((Memref.whole cc1_scratch0 : Memref sig .scVector .vmem S48x224 .f32).view.read (Elt Ideal) g0) ((Memref.whole cc1_scratch1 : Memref sig .scVector .vmem S48x224 .f32).view.read (Elt Ideal) g1) 128 144 (cellsOf (f93_4 (F := Ideal) d L g0 g1 w5 w6 v87 v90 v93 v96).1 (f93_4 (F := Ideal) d L g0 g1 w5 w6 v87 v90 v93 v96).2 kk)
        else cellsOf (f93_4 (F := Ideal) d L g0 g1 w5 w6 v87 v90 v93 v96).1 (f93_4 (F := Ideal) d L g0 g1 w5 w6 v87 v90 v93 v96).2 kk := by
  unfold f93_5
  by_cases h : (4 : Fin 7) = kk
  · subst h
    rw [if_pos rfl]
    refine cellsOf_filesUpd_same ((Scalar.cmpi .ne (Scalar.extui v99 : BitVec 32) 0#32) = 1#1) (f93_4 (F := Ideal) d L g0 g1 w5 w6 v87 v90 v93 v96).1 (f93_4 (F := Ideal) d L g0 g1 w5 w6 v87 v90 v93 v96).2 4 _ ((Memref.whole cc1_scratch0 : Memref sig .scVector .vmem S48x224 .f32).view.read (Elt Ideal) g0) ((Memref.whole cc1_scratch1 : Memref sig .scVector .vmem S48x224 .f32).view.read (Elt Ideal) g1) 128 144 ?_
    rw [initOf_eq]
    exact region_t20 d L g0 g1 _
  · rw [if_neg h]
    exact cellsOf_filesUpd_other ((Scalar.cmpi .ne (Scalar.extui v99 : BitVec 32) 0#32) = 1#1) (f93_4 (F := Ideal) d L g0 g1 w5 w6 v87 v90 v93 v96).1 (f93_4 (F := Ideal) d L g0 g1 w5 w6 v87 v90 v93 v96).2 4 kk (fun e => h e.symm) _

set_option maxHeartbeats 1000000 in
theorem step93_5 (g0 : Buf (Elt Ideal) ((V d (cV L) (jV L)).loc cc1_scratch0)) (g1 : Buf (Elt Ideal) ((V d (cV L) (jV L)).loc cc1_scratch1)) (w5 w6 : Fin 7 → Fin 2 → Vec Ideal S1x1x16 .f32) (v87 v90 v93 v96 v99 v102 : BitVec 1) (kk : Fin 7) :
    cellsOf (f93_6 (F := Ideal) d L g0 g1 w5 w6 v87 v90 v93 v96 v99 v102).1 (f93_6 (F := Ideal) d L g0 g1 w5 w6 v87 v90 v93 v96 v99 v102).2 kk
      = if (5 : Fin 7) = kk then regionStep ((Scalar.cmpi .ne (Scalar.extui v102 : BitVec 32) 0#32) = 1#1) ((Memref.whole cc1_scratch0 : Memref sig .scVector .vmem S48x224 .f32).view.read (Elt Ideal) g0) ((Memref.whole cc1_scratch1 : Memref sig .scVector .vmem S48x224 .f32).view.read (Elt Ideal) g1) 160 176 (cellsOf (f93_5 (F := Ideal) d L g0 g1 w5 w6 v87 v90 v93 v96 v99).1 (f93_5 (F := Ideal) d L g0 g1 w5 w6 v87 v90 v93 v96 v99).2 kk)
        else cellsOf (f93_5 (F := Ideal) d L g0 g1 w5 w6 v87 v90 v93 v96 v99).1 (f93_5 (F := Ideal) d L g0 g1 w5 w6 v87 v90 v93 v96 v99).2 kk := by
  unfold f93_6
  by_cases h : (5 : Fin 7) = kk
  · subst h
    rw [if_pos rfl]
    refine cellsOf_filesUpd_same ((Scalar.cmpi .ne (Scalar.extui v102 : BitVec 32) 0#32) = 1#1) (f93_5 (F := Ideal) d L g0 g1 w5 w6 v87 v90 v93 v96 v99).1 (f93_5 (F := Ideal) d L g0 g1 w5 w6 v87 v90 v93 v96 v99).2 5 _ ((Memref.whole cc1_scratch0 : Memref sig .scVector .vmem S48x224 .f32).view.read (Elt Ideal) g0) ((Memref.whole cc1_scratch1 : Memref sig .scVector .vmem S48x224 .f32).view.read (Elt Ideal) g1) 160 176 ?_
    rw [initOf_eq]
    exact region_t21 d L g0 g1 _
  · rw [if_neg h]
    exact cellsOf_filesUpd_other ((Scalar.cmpi .ne (Scalar.extui v102 : BitVec 32) 0#32) = 1#1) (f93_5 (F := Ideal) d L g0 g1 w5 w6 v87 v90 v93 v96 v99).1 (f93_5 (F := Ideal) d L g0 g1 w5 w6 v87 v90 v93 v96 v99).2 5 kk (fun e => h e.symm) _

set_option maxHeartbeats 1000000 in
theorem step93_6 (g0 : Buf (Elt Ideal) ((V d (cV L) (jV L)).loc cc1_scratch0)) (g1 : Buf (Elt Ideal) ((V d (cV L) (jV L)).loc cc1_scratch1)) (w5 w6 : Fin 7 → Fin 2 → Vec Ideal S1x1x16 .f32) (v87 v90 v93 v96 v99 v102 v105 : BitVec 1) (kk : Fin 7) :
    cellsOf (f93_7 (F := Ideal) d L g0 g1 w5 w6 v87 v90 v93 v96 v99 v102 v105).1 (f93_7 (F := Ideal) d L g0 g1 w5 w6 v87 v90 v93 v96 v99 v102 v105).2 kk
      = if (6 : Fin 7) = kk then regionStep ((Scalar.cmpi .ne (Scalar.extui v105 : BitVec 32) 0#32) = 1#1) ((Memref.whole cc1_scratch0 : Memref sig .scVector .vmem S48x224 .f32).view.read (Elt Ideal) g0) ((Memref.whole cc1_scratch1 : Memref sig .scVector .vmem S48x224 .f32).view.read (Elt Ideal) g1) 192 208 (cellsOf (f93_6 (F := Ideal) d L g0 g1 w5 w6 v87 v90 v93 v96 v99 v102).1 (f93_6 (F := Ideal) d L g0 g1 w5 w6 v87 v90 v93 v96 v99 v102).2 kk)
        else cellsOf (f93_6 (F := Ideal) d L g0 g1 w5 w6 v87 v90 v93 v96 v99 v102).1 (f93_6 (F := Ideal) d L g0 g1 w5 w6 v87 v90 v93 v96 v99 v102).2 kk := by
  unfold f93_7
  by_cases h : (6 : Fin 7) = kk
  · subst h
    rw [if_pos rfl]
    refine cellsOf_filesUpd_same ((Scalar.cmpi .ne (Scalar.extui v105 : BitVec 32) 0#32) = 1#1) (f93_6 (F := Ideal) d L g0 g1 w5 w6 v87 v90 v93 v96 v99 v102).1 (f93_6 (F := Ideal) d L g0 g1 w5 w6 v87 v90 v93 v96 v99 v102).2 6 _ ((Memref.whole cc1_scratch0 : Memref sig .scVector .vmem S48x224 .f32).view.read (Elt Ideal) g0) ((Memref.whole cc1_scratch1 : Memref sig .scVector .vmem S48x224 .f32).view.read (Elt Ideal) g1) 192 208 ?_
    rw [initOf_eq]
    exact region_t22 d L g0 g1 _
  · rw [if_neg h]
    exact cellsOf_filesUpd_other ((Scalar.cmpi .ne (Scalar.extui v105 : BitVec 32) 0#32) = 1#1) (f93_6 (F := Ideal) d L g0 g1 w5 w6 v87 v90 v93 v96 v99 v102).1 (f93_6 (F := Ideal) d L g0 g1 w5 w6 v87 v90 v93 v96 v99 v102).2 6 kk (fun e => h e.symm) _

set_option maxHeartbeats 1000000 in
theorem step9_0 (g2 : Buf (Elt Ideal) ((V d (cV L) (jV L)).loc cc1_scratch2)) (g3 : Buf (Elt Ideal) ((V d (cV L) (jV L)).loc cc1_scratch3)) (v : BitVec 1) (st : FilesF Ideal) (kk : Fin 7) :
    cellsOf (reg9_0 (F := Ideal) d L g2 g3 v st).1 (reg9_0 (F := Ideal) d L g2 g3 v st).2 kk
      = if (0 : Fin 7) = kk then regionStep (flagB v) ((Memref.whole cc1_scratch2 : Memref sig .scVector .vmem S48x224 .f32).view.read (Elt Ideal) g2) ((Memref.whole cc1_scratch3 : Memref sig .scVector .vmem S48x224 .f32).view.read (Elt Ideal) g3) 0 16 (cellsOf st.1 st.2 kk)
        else cellsOf st.1 st.2 kk := by
  unfold reg9_0
  by_cases h : (0 : Fin 7) = kk
  · subst h
    rw [if_pos rfl]
    refine cellsOf_filesUpd_same (flagB v) st.1 st.2 0 _ ((Memref.whole cc1_scratch2 : Memref sig .scVector .vmem S48x224 .f32).view.read (Elt Ideal) g2) ((Memref.whole cc1_scratch3 : Memref sig .scVector .vmem S48x224 .f32).view.read (Elt Ideal) g3) 0 16 ?_
    rw [initOf_eq]
    exact region_t9 d L g2 g3 _
  · rw [if_neg h]
    exact cellsOf_filesUpd_other (flagB v) st.1 st.2 0 kk (fun e => h e.symm) _

set_option maxHeartbeats 1000000 in
theorem step9_1 (g2 : Buf (Elt Ideal) ((V d (cV L) (jV L)).loc cc1_scratch2)) (g3 : Buf (Elt Ideal) ((V d (cV L) (jV L)).loc cc1_scratch3)) (v : BitVec 1) (st : FilesF Ideal) (kk : Fin 7) :
    cellsOf (reg9_1 (F := Ideal) d L g2 g3 v st).1 (reg9_1 (F := Ideal) d L g2 g3 v st).2 kk
      = if (1 : Fin 7) = kk then regionStep (flagB v) ((Memref.whole cc1_scratch2 : Memref sig .scVector .vmem S48x224 .f32).view.read (Elt Ideal) g2) ((Memref.whole cc1_scratch3 : Memref sig .scVector .vmem S48x224 .f32).view.read (Elt Ideal) g3) 32 48 (cellsOf st.1 st.2 kk)
        else cellsOf st.1 st.2 kk := by
  unfold reg9_1
  by_cases h : (1 : Fin 7) = kk
  · subst h
    rw [if_pos rfl]
    refine cellsOf_filesUpd_same (flagB v) st.1 st.2 1 _ ((Memref.whole cc1_scratch2 : Memref sig .scVector .vmem S48x224 .f32).view.read (Elt Ideal) g2) ((Memref.whole cc1_scratch3 : Memref sig .scVector .vmem S48x224 .f32).view.read (Elt Ideal) g3) 32 48 ?_
    rw [initOf_eq]
    exact region_t10 d L g2 g3 _
  · rw [if_neg h]
    exact cellsOf_filesUpd_other (flagB v) st.1 st.2 1 kk (fun e => h e.symm) _

set_option maxHeartbeats 1000000 in
theorem step9_2 (g2 : Buf (Elt Ideal) ((V d (cV L) (jV L)).loc cc1_scratch2)) (g3 : Buf (Elt Ideal) ((V d (cV L) (jV L)).loc cc1_scratch3)) (v : BitVec 1) (st : FilesF Ideal) (kk : Fin 7) :
    cellsOf (reg9_2 (F := Ideal) d L g2 g3 v st).1 (reg9_2 (F := Ideal) d L g2 g3 v st).2 kk
      = if (2 : Fin 7) = kk then regionStep (flagB v) ((Memref.whole cc1_scratch2 : Memref sig .scVector .vmem S48x224 .f32).view.read (Elt Ideal) g2) ((Memref.whole cc1_scratch3 : Memref sig .scVector .vmem S48x224 .f32).view.read (Elt Ideal) g3) 64 80 (cellsOf st.1 st.2 kk)
        else cellsOf st.1 st.2 kk := by
  unfold reg9_2
  by_cases h : (2 : Fin 7) = kk
  · subst h
    rw [if_pos rfl]
    refine cellsOf_filesUpd_same (flagB v) st.1 st.2 2 _ ((Memref.whole cc1_scratch2 : Memref sig .scVector .vmem S48x224 .f32).view.read (Elt Ideal) g2) ((Memref.whole cc1_scratch3 : Memref sig .scVector .vmem S48x224 .f32).view.read (Elt Ideal) g3) 64 80 ?_
    rw [initOf_eq]
    exact region_t11 d L g2 g3 _
  · rw [if_neg h]
    exact cellsOf_filesUpd_other (flagB v) st.1 st.2 2 kk (fun e => h e.symm) _

set_option maxHeartbeats 1000000 in
theorem step9_3 (g2 : Buf (Elt Ideal) ((V d (cV L) (jV L)).loc cc1_scratch2)) (g3 : Buf (Elt Ideal) ((V d (cV L) (jV L)).loc cc1_scratch3)) (v : BitVec 1) (st : FilesF Ideal) (kk : Fin 7) :
    cellsOf (reg9_3 (F := Ideal) d L g2 g3 v st).1 (reg9_3 (F := Ideal) d L g2 g3 v st).2 kk
      = if (3 : Fin 7) = kk then regionStep (flagB v) ((Memref.whole cc1_scratch2 : Memref sig .scVector .vmem S48x224 .f32).view.read (Elt Ideal) g2) ((Memref.whole cc1_scratch3 : Memref sig .scVector .vmem S48x224 .f32).view.read (Elt Ideal) g3) 96 112 (cellsOf st.1 st.2 kk)
        else cellsOf st.1 st.2 kk := by
  unfold reg9_3
  by_cases h : (3 : Fin 7) = kk
  · subst h
    rw [if_pos rfl]
    refine cellsOf_filesUpd_same (flagB v) st.1 st.2 3 _ ((Memref.whole cc1_scratch2 : Memref sig .scVector .vmem S48x224 .f32).view.read (Elt Ideal) g2) ((Memref.whole cc1_scratch3 : Memref sig .scVector .vmem S48x224 .f32).view.read (Elt Ideal) g3) 96 112 ?_
    rw [initOf_eq]
    exact region_t12 d L g2 g3 _
  · rw [if_neg h]
    exact cellsOf_filesUpd_other (flagB v) st.1 st.2 3 kk (fun e => h e.symm) _

set_option maxHeartbeats 1000000 in
theorem step9_4 (g2 : Buf (Elt Ideal) ((V d (cV L) (jV L)).loc cc1_scratch2)) (g3 : Buf (Elt Ideal) ((V d (cV L) (jV L)).loc cc1_scratch3)) (v : BitVec 1) (st : FilesF Ideal) (kk : Fin 7) :
    cellsOf (reg9_4 (F := Ideal) d L g2 g3 v st).1 (reg9_4 (F := Ideal) d L g2 g3 v st).2 kk
      = if (4 : Fin 7) = kk then regionStep (flagB v) ((Memref.whole cc1_scratch2 : Memref sig .scVector .vmem S48x224 .f32).view.read (Elt Ideal) g2) ((Memref.whole cc1_scratch3 : Memref sig .scVector .vmem S48x224 .f32).view.read (Elt Ideal) g3) 128 144 (cellsOf st.1 st.2 kk)
        else cellsOf st.1 st.2 kk := by
  unfold reg9_4
  by_cases h : (4 : Fin 7) = kk
  · subst h
    rw [if_pos rfl]
    refine cellsOf_filesUpd_same (flagB v) st.1 st.2 4 _ ((Memref.whole cc1_scratch2 : Memref sig .scVector .vmem S48x224 .f32).view.read (Elt Ideal) g2) ((Memref.whole cc1_scratch3 : Memref sig .scVector .vmem S48x224 .f32).view.read (Elt Ideal) g3) 128 144 ?_
    rw [initOf_eq]
    exact region_t13 d L g2 g3 _
  · rw [if_neg h]
    exact cellsOf_filesUpd_other (flagB v) st.1 st.2 4 kk (fun e => h e.symm) _

set_option maxHeartbeats 1000000 in
theorem step9_5 (g2 : Buf (Elt Ideal) ((V d (cV L) (jV L)).loc cc1_scratch2)) (g3 : Buf (Elt Ideal) ((V d (cV L) (jV L)).loc cc1_scratch3)) (v : BitVec 1) (st : FilesF Ideal) (kk : Fin 7) :
    cellsOf (reg9_5 (F := Ideal) d L g2 g3 v st).1 (reg9_5 (F := Ideal) d L g2 g3 v st).2 kk
      = if (5 : Fin 7) = kk then regionStep (flagB v) ((Memref.whole cc1_scratch2 : Memref sig .scVector .vmem S48x224 .f32).view.read (Elt Ideal) g2) ((Memref.whole cc1_scratch3 : Memref sig .scVector .vmem S48x224 .f32).view.read (Elt Ideal) g3) 160 176 (cellsOf st.1 st.2 kk)
        else cellsOf st.1 st.2 kk := by
  unfold reg9_5
  by_cases h : (5 : Fin 7) = kk
  · subst h
    rw [if_pos rfl]
    refine cellsOf_filesUpd_same (flagB v) st.1 st.2 5 _ ((Memref.whole cc1_scratch2 : Memref sig .scVector .vmem S48x224 .f32).view.read (Elt Ideal) g2) ((Memref.whole cc1_scratch3 : Memref sig .scVector .vmem S48x224 .f32).view.read (Elt Ideal) g3) 160 176 ?_
    rw [initOf_eq]
    exact region_t14 d L g2 g3 _
  · rw [if_neg h]
    exact cellsOf_filesUpd_other (flagB v) st.1 st.2 5 kk (fun e => h e.symm) _

set_option maxHeartbeats 1000000 in
theorem step9_6 (g2 : Buf (Elt Ideal) ((V d (cV L) (jV L)).loc cc1_scratch2)) (g3 : Buf (Elt Ideal) ((V d (cV L) (jV L)).loc cc1_scratch3)) (v : BitVec 1) (st : FilesF Ideal) (kk : Fin 7) :
    cellsOf (reg9_6 (F := Ideal) d L g2 g3 v st).1 (reg9_6 (F := Ideal) d L g2 g3 v st).2 kk
      = if (6 : Fin 7) = kk then regionStep (flagB v) ((Memref.whole cc1_scratch2 : Memref sig .scVector .vmem S48x224 .f32).view.read (Elt Ideal) g2) ((Memref.whole cc1_scratch3 : Memref sig .scVector .vmem S48x224 .f32).view.read (Elt Ideal) g3) 192 208 (cellsOf st.1 st.2 kk)
        else cellsOf st.1 st.2 kk := by
  unfold reg9_6
  by_cases h : (6 : Fin 7) = kk
  · subst h
    rw [if_pos rfl]
    refine cellsOf_filesUpd_same (flagB v) st.1 st.2 6 _ ((Memref.whole cc1_scratch2 : Memref sig .scVector .vmem S48x224 .f32).view.read (Elt Ideal) g2) ((Memref.whole cc1_scratch3 : Memref sig .scVector .vmem S48x224 .f32).view.read (Elt Ideal) g3) 192 208 ?_
    rw [initOf_eq]
    exact region_t15 d L g2 g3 _
  · rw [if_neg h]
    exact cellsOf_filesUpd_other (flagB v) st.1 st.2 6 kk (fun e => h e.symm) _

set_option maxHeartbeats 1000000 in
theorem step23_0 (g2 : Buf (Elt Ideal) ((V d (cV L) (jV L)).loc cc1_scratch2)) (g3 : Buf (Elt Ideal) ((V d (cV L) (jV L)).loc cc1_scratch3)) (v : BitVec 1) (st : FilesF Ideal) (kk : Fin 7) :
    cellsOf (reg23_0 (F := Ideal) d L g2 g3 v st).1 (reg23_0 (F := Ideal) d L g2 g3 v st).2 kk
      = if (0 : Fin 7) = kk then regionStep (flagB v) ((Memref.whole cc1_scratch2 : Memref sig .scVector .vmem S48x224 .f32).view.read (Elt Ideal) g2) ((Memref.whole cc1_scratch3 : Memref sig .scVector .vmem S48x224 .f32).view.read (Elt Ideal) g3) 0 16 (cellsOf st.1 st.2 kk)
        else cellsOf st.1 st.2 kk := by
  unfold reg23_0
  by_cases h : (0 : Fin 7) = kk
  · subst h
    rw [if_pos rfl]
    refine cellsOf_filesUpd_same (flagB v) st.1 st.2 0 _ ((Memref.whole cc1_scratch2 : Memref sig .scVector .vmem S48x224 .f32).view.read (Elt Ideal) g2) ((Memref.whole cc1_scratch3 : Memref sig .scVector .vmem S48x224 .f32).view.read (Elt Ideal) g3) 0 16 ?_
    rw [initOf_eq]
    exact region_t23 d L g2 g3 _
  · rw [if_neg h]
    exact cellsOf_filesUpd_other (flagB v) st.1 st.2 0 kk (fun e => h e.symm) _

set_option maxHeartbeats 1000000 in
theorem step23_1 (g2 : Buf (Elt Ideal) ((V d (cV L) (jV L)).loc cc1_scratch2)) (g3 : Buf (Elt Ideal) ((V d (cV L) (jV L)).loc cc1_scratch3)) (v : BitVec 1) (st : FilesF Ideal) (kk : Fin 7) :
    cellsOf (reg23_1 (F := Ideal) d L g2 g3 v st).1 (reg23_1 (F := Ideal) d L g2 g3 v st).2 kk
      = if (1 : Fin 7) = kk then regionStep (flagB v) ((Memref.whole cc1_scratch2 : Memref sig .scVector .vmem S48x224 .f32).view.read (Elt Ideal) g2) ((Memref.whole cc1_scratch3 : Memref sig .scVector .vmem S48x224 .f32).view.read (Elt Ideal) g3) 32 48 (cellsOf st.1 st.2 kk)
        else cellsOf st.1 st.2 kk := by
  unfold reg23_1
  by_cases h : (1 : Fin 7) = kk
  · subst h
    rw [if_pos rfl]
    refine cellsOf_filesUpd_same (flagB v) st.1 st.2 1 _ ((Memref.whole cc1_scratch2 : Memref sig .scVector .vmem S48x224 .f32).view.read (Elt Ideal) g2) ((Memref.whole cc1_scratch3 : Memref sig .scVector .vmem S48x224 .f32).view.read (Elt Ideal) g3) 32 48 ?_
    rw [initOf_eq]
    exact region_t24 d L g2 g3 _
  · rw [if_neg h]
    exact cellsOf_filesUpd_other (flagB v) st.1 st.2 1 kk (fun e => h e.symm) _

set_option maxHeartbeats 1000000 in
theorem step23_2 (g2 : Buf (Elt Ideal) ((V d (cV L) (jV L)).loc cc1_scratch2)) (g3 : Buf (Elt Ideal) ((V d (cV L) (jV L)).loc cc1_scratch3)) (v : BitVec 1) (st : FilesF Ideal) (kk : Fin 7) :
    cellsOf (reg23_2 (F := Ideal) d L g2 g3 v st).1 (reg23_2 (F := Ideal) d L g2 g3 v st).2 kk
      = if (2 : Fin 7) = kk then regionStep (flagB v) ((Memref.whole cc1_scratch2 : Memref sig .scVector .vmem S48x224 .f32).view.read (Elt Ideal) g2) ((Memref.whole cc1_scratch3 : Memref sig .scVector .vmem S48x224 .f32).view.read (Elt Ideal) g3) 64 80 (cellsOf st.1 st.2 kk)
        else cellsOf st.1 st.2 kk := by
  unfold reg23_2
  by_cases h : (2 : Fin 7) = kk
  · subst h
    rw [if_pos rfl]
    refine cellsOf_filesUpd_same (flagB v) st.1 st.2 2 _ ((Memref.whole cc1_scratch2 : Memref sig .scVector .vmem S48x224 .f32).view.read (Elt Ideal) g2) ((Memref.whole cc1_scratch3 : Memref sig .scVector .vmem S48x224 .f32).view.read (Elt Ideal) g3) 64 80 ?_
    rw [initOf_eq]
    exact region_t25 d L g2 g3 _
  · rw [if_neg h]
    exact cellsOf_filesUpd_other (flagB v) st.1 st.2 2 kk (fun e => h e.symm) _

set_option maxHeartbeats 1000000 in
theorem step23_3 (g2 : Buf (Elt Ideal) ((V d (cV L) (jV L)).loc cc1_scratch2)) (g3 : Buf (Elt Ideal) ((V d (cV L) (jV L)).loc cc1_scratch3)) (v : BitVec 1) (st : FilesF Ideal) (kk : Fin 7) :
    cellsOf (reg23_3 (F := Ideal) d L g2 g3 v st).1 (reg23_3 (F := Ideal) d L g2 g3 v st).2 kk
      = if (3 : Fin 7) = kk then regionStep (flagB v) ((Memref.whole cc1_scratch2 : Memref sig .scVector .vmem S48x224 .f32).view.read (Elt Ideal) g2) ((Memref.whole cc1_scratch3 : Memref sig .scVector .vmem S48x224 .f32).view.read (Elt Ideal) g3) 96 112 (cellsOf st.1 st.2 kk)
        else cellsOf st.1 st.2 kk := by
  unfold reg23_3
  by_cases h : (3 : Fin 7) = kk
  · subst h
    rw [if_pos rfl]
    refine cellsOf_filesUpd_same (flagB v) st.1 st.2 3 _ ((Memref.whole cc1_scratch2 : Memref sig .scVector .vmem S48x224 .f32).view.read (Elt Ideal) g2) ((Memref.whole cc1_scratch3 : Memref sig .scVector .vmem S48x224 .f32).view.read (Elt Ideal) g3) 96 112 ?_
    rw [initOf_eq]
    exact region_t26 d L g2 g3 _
  · rw [if_neg h]
    exact cellsOf_filesUpd_other (flagB v) st.1 st.2 3 kk (fun e => h e.symm) _

set_option maxHeartbeats 1000000 in
theorem step23_4 (g2 : Buf (Elt Ideal) ((V d (cV L) (jV L)).loc cc1_scratch2)) (g3 : Buf (Elt Ideal) ((V d (cV L) (jV L)).loc cc1_scratch3)) (v : BitVec 1) (st : FilesF Ideal) (kk : Fin 7) :
    cellsOf (reg23_4 (F := Ideal) d L g2 g3 v st).1 (reg23_4 (F := Ideal) d L g2 g3 v st).2 kk
      = if (4 : Fin 7) = kk then regionStep (flagB v) ((Memref.whole cc1_scratch2 : Memref sig .scVector .vmem S48x224 .f32).view.read (Elt Ideal) g2) ((Memref.whole cc1_scratch3 : Memref sig .scVector .vmem S48x224 .f32).view.read (Elt Ideal) g3) 128 144 (cellsOf st.1 st.2 kk)
        else cellsOf st.1 st.2 kk := by
  unfold reg23_4
  by_cases h : (4 : Fin 7) = kk
  · subst h
    rw [if_pos rfl]
    refine cellsOf_filesUpd_same (flagB v) st.1 st.2 4 _ ((Memref.whole cc1_scratch2 : Memref sig .scVector .vmem S48x224 .f32).view.read (Elt Ideal) g2) ((Memref.whole cc1_scratch3 : Memref sig .scVector .vmem S48x224 .f32).view.read (Elt Ideal) g3) 128 144 ?_
    rw [initOf_eq]
    exact region_t27 d L g2 g3 _
  · rw [if_neg h]
    exact cellsOf_filesUpd_other (flagB v) st.1 st.2 4 kk (fun e => h e.symm) _

set_option maxHeartbeats 1000000 in
theorem step23_5 (g2 : Buf (Elt Ideal) ((V d (cV L) (jV L)).loc cc1_scratch2)) (g3 : Buf (Elt Ideal) ((V d (cV L) (jV L)).loc cc1_scratch3)) (v : BitVec 1) (st : FilesF Ideal) (kk : Fin 7) :
    cellsOf (reg23_5 (F := Ideal) d L g2 g3 v st).1 (reg23_5 (F := Ideal) d L g2 g3 v st).2 kk
      = if (5 : Fin 7) = kk then regionStep (flagB v) ((Memref.whole cc1_scratch2 : Memref sig .scVector .vmem S48x224 .f32).view.read (Elt Ideal) g2) ((Memref.whole cc1_scratch3 : Memref sig .scVector .vmem S48x224 .f32).view.read (Elt Ideal) g3) 160 176 (cellsOf st.1 st.2 kk)
        else cellsOf st.1 st.2 kk := by
  unfold reg23_5
  by_cases h : (5 : Fin 7) = kk
  · subst h
    rw [if_pos rfl]
    refine cellsOf_filesUpd_same (flagB v) st.1 st.2 5 _ ((Memref.whole cc1_scratch2 : Memref sig .scVector .vmem S48x224 .f32).view.read (Elt Ideal) g2) ((Memref.whole cc1_scratch3 : Memref sig .scVector .vmem S48x224 .f32).view.read (Elt Ideal) g3) 160 176 ?_
    rw [initOf_eq]
    exact region_t28 d L g2 g3 _
  · rw [if_neg h]
    exact cellsOf_filesUpd_other (flagB v) st.1 st.2 5 kk (fun e => h e.symm) _

set_option maxHeartbeats 1000000 in
theorem step23_6 (g2 : Buf (Elt Ideal) ((V d (cV L) (jV L)).loc cc1_scratch2)) (g3 : Buf (Elt Ideal) ((V d (cV L) (jV L)).loc cc1_scratch3)) (v : BitVec 1) (st : FilesF Ideal) (kk : Fin 7) :
    cellsOf (reg23_6 (F := Ideal) d L g2 g3 v st).1 (reg23_6 (F := Ideal) d L g2 g3 v st).2 kk
      = if (6 : Fin 7) = kk then regionStep (flagB v) ((Memref.whole cc1_scratch2 : Memref sig .scVector .vmem S48x224 .f32).view.read (Elt Ideal) g2) ((Memref.whole cc1_scratch3 : Memref sig .scVector .vmem S48x224 .f32).view.read (Elt Ideal) g3) 192 208 (cellsOf st.1 st.2 kk)
        else cellsOf st.1 st.2 kk := by
  unfold reg23_6
  by_cases h : (6 : Fin 7) = kk
  · subst h
    rw [if_pos rfl]
    refine cellsOf_filesUpd_same (flagB v) st.1 st.2 6 _ ((Memref.whole cc1_scratch2 : Memref sig .scVector .vmem S48x224 .f32).view.read (Elt Ideal) g2) ((Memref.whole cc1_scratch3 : Memref sig .scVector .vmem S48x224 .f32).view.read (Elt Ideal) g3) 192 208 ?_
    rw [initOf_eq]
    exact region_t29 d L g2 g3 _
  · rw [if_neg h]
    exact cellsOf_filesUpd_other (flagB v) st.1 st.2 6 kk (fun e => h e.symm) _

set_option maxHeartbeats 4000000 in
/-- Lane group 0's four cells after the row. -/
theorem cells_row_0 (X0 : (d : Dev nD) → Buf (Elt Ideal) (a0Loc d)) (X1 : (d : Dev nD) → Buf (Elt Ideal) (a1Loc d)) (k : Fin k1_t1_loop.trips) (g4 : Buf (Elt Ideal) ((V d (cV L) (jV L)).loc cc1_scratch4))
    (hA : ∀ a, oAt L k.val 0 a + S1x48x1x224.size a ≤ S8x192x224x224.size a) (hB : ∀ a, oAt L k.val 1 a + S1x48x1x224.size a ≤ S8x192x224x224.size a) :
    cellsOf (filesRow X0 X1 d L k g4 hA hB zerosF).1 (filesRow X0 X1 d L k g4 hA hB zerosF).2 (0 : Fin 7) = (regionStep (flagB (flagBit d L k g4 0)) ((Memref.whole cc1_scratch2 : Memref sig .scVector .vmem S48x224 .f32).view.read (Elt Ideal) (payA0 X0 d (k1_off34 L k) (k1_off34_inb L k (cond16_all k)))) ((Memref.whole cc1_scratch3 : Memref sig .scVector .vmem S48x224 .f32).view.read (Elt Ideal) (payA1 X1 d (k1_off34 L k) (k1_off34_inb L k (cond16_all k)))) 0 16 (regionStep (flagB (flagBit d L k g4 0)) ((Memref.whole cc1_scratch0 : Memref sig .scVector .vmem S48x224 .f32).view.read (Elt Ideal) (payA0 X0 d (k1_off19 L k) (k1_off19_inb L k (cond8_all k)))) ((Memref.whole cc1_scratch1 : Memref sig .scVector .vmem S48x224 .f32).view.read (Elt Ideal) (payA1 X1 d (k1_off19 L k) (k1_off19_inb L k (cond8_all k)))) 0 16 (regionStep (flagB (flagBit d L k g4 0)) ((Memref.whole cc1_scratch2 : Memref sig .scVector .vmem S48x224 .f32).view.read (Elt Ideal) (payA0 X0 d (oAt L k.val 1) hB)) ((Memref.whole cc1_scratch3 : Memref sig .scVector .vmem S48x224 .f32).view.read (Elt Ideal) (payA1 X1 d (oAt L k.val 1) hB)) 0 16 (regionStep (flagB (flagBit d L k g4 0)) ((Memref.whole cc1_scratch0 : Memref sig .scVector .vmem S48x224 .f32).view.read (Elt Ideal) (payA0 X0 d (oAt L k.val 0) hA)) ((Memref.whole cc1_scratch1 : Memref sig .scVector .vmem S48x224 .f32).view.read (Elt Ideal) (payA1 X1 d (oAt L k.val 0) hA)) 0 16 zeroCells)))) := by
  unfold filesRow files94
  rw [step23_6 d L, if_neg (by decide), step23_5 d L, if_neg (by decide), step23_4 d L, if_neg (by decide), step23_3 d L, if_neg (by decide), step23_2 d L, if_neg (by decide), step23_1 d L, if_neg (by decide), step23_0 d L, if_pos rfl]
  dsimp only
  rw [step93_6 d L, if_neg (by decide), step93_5 d L, if_neg (by decide), step93_4 d L, if_neg (by decide), step93_3 d L, if_neg (by decide), step93_2 d L, if_neg (by decide), step93_1 d L, if_neg (by decide), step93_0 d L, if_pos rfl]
  dsimp only
  unfold files92
  rw [step9_6 d L, if_neg (by decide), step9_5 d L, if_neg (by decide), step9_4 d L, if_neg (by decide), step9_3 d L, if_neg (by decide), step9_2 d L, if_neg (by decide), step9_1 d L, if_neg (by decide), step9_0 d L, if_pos rfl]
  dsimp only
  rw [step91_6 d L, if_neg (by decide), step91_5 d L, if_neg (by decide), step91_4 d L, if_neg (by decide), step91_3 d L, if_neg (by decide), step91_2 d L, if_neg (by decide), step91_1 d L, if_neg (by decide), step91_0 d L, if_pos rfl]
  unfold f91_0
  dsimp only
  rw [show upd (zerosF (F := Ideal)) 6 1 (k1_pay764 (k1_pay828 (F := Ideal))) = zerosF from upd_zerosF]
  have hz : cellsOf (fun _ _ => toCellF (k1_pay828 (F := Ideal))) (zerosF (F := Ideal)) (0 : Fin 7) = zeroCells := by
    show (toCellF (k1_pay828 (F := Ideal)), toCellF (k1_pay828 (F := Ideal)), toCellF (k1_pay828 (F := Ideal)), toCellF (k1_pay828 (F := Ideal))) = zeroCells
    unfold zeroCells
    rw [show toCellF (k1_pay828 (F := Ideal)) = toCell (fun _ => (0 : EReal)) from congrArg toCell pay828_eq]
  rw [hz]

set_option maxHeartbeats 4000000 in
/-- Lane group 1's four cells after the row. -/
theorem cells_row_1 (X0 : (d : Dev nD) → Buf (Elt Ideal) (a0Loc d)) (X1 : (d : Dev nD) → Buf (Elt Ideal) (a1Loc d)) (k : Fin k1_t1_loop.trips) (g4 : Buf (Elt Ideal) ((V d (cV L) (jV L)).loc cc1_scratch4))
    (hA : ∀ a, oAt L k.val 0 a + S1x48x1x224.size a ≤ S8x192x224x224.size a) (hB : ∀ a, oAt L k.val 1 a + S1x48x1x224.size a ≤ S8x192x224x224.size a) :
    cellsOf (filesRow X0 X1 d L k g4 hA hB zerosF).1 (filesRow X0 X1 d L k g4 hA hB zerosF).2 (1 : Fin 7) = (regionStep (flagB (flagBit d L k g4 1)) ((Memref.whole cc1_scratch2 : Memref sig .scVector .vmem S48x224 .f32).view.read (Elt Ideal) (payA0 X0 d (k1_off34 L k) (k1_off34_inb L k (cond16_all k)))) ((Memref.whole cc1_scratch3 : Memref sig .scVector .vmem S48x224 .f32).view.read (Elt Ideal) (payA1 X1 d (k1_off34 L k) (k1_off34_inb L k (cond16_all k)))) 32 48 (regionStep (flagB (flagBit d L k g4 1)) ((Memref.whole cc1_scratch0 : Memref sig .scVector .vmem S48x224 .f32).view.read (Elt Ideal) (payA0 X0 d (k1_off19 L k) (k1_off19_inb L k (cond8_all k)))) ((Memref.whole cc1_scratch1 : Memref sig .scVector .vmem S48x224 .f32).view.read (Elt Ideal) (payA1 X1 d (k1_off19 L k) (k1_off19_inb L k (cond8_all k)))) 32 48 (regionStep (flagB (flagBit d L k g4 1)) ((Memref.whole cc1_scratch2 : Memref sig .scVector .vmem S48x224 .f32).view.read (Elt Ideal) (payA0 X0 d (oAt L k.val 1) hB)) ((Memref.whole cc1_scratch3 : Memref sig .scVector .vmem S48x224 .f32).view.read (Elt Ideal) (payA1 X1 d (oAt L k.val 1) hB)) 32 48 (regionStep (flagB (flagBit d L k g4 1)) ((Memref.whole cc1_scratch0 : Memref sig .scVector .vmem S48x224 .f32).view.read (Elt Ideal) (payA0 X0 d (oAt L k.val 0) hA)) ((Memref.whole cc1_scratch1 : Memref sig .scVector .vmem S48x224 .f32).view.read (Elt Ideal) (payA1 X1 d (oAt L k.val 0) hA)) 32 48 zeroCells)))) := by
  unfold filesRow files94
  rw [step23_6 d L, if_neg (by decide), step23_5 d L, if_neg (by decide), step23_4 d L, if_neg (by decide), step23_3 d L, if_neg (by decide), step23_2 d L, if_neg (by decide), step23_1 d L, if_pos rfl, step23_0 d L, if_neg (by decide)]
  dsimp only
  rw [step93_6 d L, if_neg (by decide), step93_5 d L, if_neg (by decide), step93_4 d L, if_neg (by decide), step93_3 d L, if_neg (by decide), step93_2 d L, if_neg (by decide), step93_1 d L, if_pos rfl, step93_0 d L, if_neg (by decide)]
  dsimp only
  unfold files92
  rw [step9_6 d L, if_neg (by decide), step9_5 d L, if_neg (by decide), step9_4 d L, if_neg (by decide), step9_3 d L, if_neg (by decide), step9_2 d L, if_neg (by decide), step9_1 d L, if_pos rfl, step9_0 d L, if_neg (by decide)]
  dsimp only
  rw [step91_6 d L, if_neg (by decide), step91_5 d L, if_neg (by decide), step91_4 d L, if_neg (by decide), step91_3 d L, if_neg (by decide), step91_2 d L, if_neg (by decide), step91_1 d L, if_pos rfl, step91_0 d L, if_neg (by decide)]
  unfold f91_0
  dsimp only
  rw [show upd (zerosF (F := Ideal)) 6 1 (k1_pay764 (k1_pay828 (F := Ideal))) = zerosF from upd_zerosF]
  have hz : cellsOf (fun _ _ => toCellF (k1_pay828 (F := Ideal))) (zerosF (F := Ideal)) (1 : Fin 7) = zeroCells := by
    show (toCellF (k1_pay828 (F := Ideal)), toCellF (k1_pay828 (F := Ideal)), toCellF (k1_pay828 (F := Ideal)), toCellF (k1_pay828 (F := Ideal))) = zeroCells
    unfold zeroCells
    rw [show toCellF (k1_pay828 (F := Ideal)) = toCell (fun _ => (0 : EReal)) from congrArg toCell pay828_eq]
  rw [hz]

set_option maxHeartbeats 4000000 in
/-- Lane group 2's four cells after the row. -/
theorem cells_row_2 (X0 : (d : Dev nD) → Buf (Elt Ideal) (a0Loc d)) (X1 : (d : Dev nD) → Buf (Elt Ideal) (a1Loc d)) (k : Fin k1_t1_loop.trips) (g4 : Buf (Elt Ideal) ((V d (cV L) (jV L)).loc cc1_scratch4))
    (hA : ∀ a, oAt L k.val 0 a + S1x48x1x224.size a ≤ S8x192x224x224.size a) (hB : ∀ a, oAt L k.val 1 a + S1x48x1x224.size a ≤ S8x192x224x224.size a) :
    cellsOf (filesRow X0 X1 d L k g4 hA hB zerosF).1 (filesRow X0 X1 d L k g4 hA hB zerosF).2 (2 : Fin 7) = (regionStep (flagB (flagBit d L k g4 2)) ((Memref.whole cc1_scratch2 : Memref sig .scVector .vmem S48x224 .f32).view.read (Elt Ideal) (payA0 X0 d (k1_off34 L k) (k1_off34_inb L k (cond16_all k)))) ((Memref.whole cc1_scratch3 : Memref sig .scVector .vmem S48x224 .f32).view.read (Elt Ideal) (payA1 X1 d (k1_off34 L k) (k1_off34_inb L k (cond16_all k)))) 64 80 (regionStep (flagB (flagBit d L k g4 2)) ((Memref.whole cc1_scratch0 : Memref sig .scVector .vmem S48x224 .f32).view.read (Elt Ideal) (payA0 X0 d (k1_off19 L k) (k1_off19_inb L k (cond8_all k)))) ((Memref.whole cc1_scratch1 : Memref sig .scVector .vmem S48x224 .f32).view.read (Elt Ideal) (payA1 X1 d (k1_off19 L k) (k1_off19_inb L k (cond8_all k)))) 64 80 (regionStep (flagB (flagBit d L k g4 2)) ((Memref.whole cc1_scratch2 : Memref sig .scVector .vmem S48x224 .f32).view.read (Elt Ideal) (payA0 X0 d (oAt L k.val 1) hB)) ((Memref.whole cc1_scratch3 : Memref sig .scVector .vmem S48x224 .f32).view.read (Elt Ideal) (payA1 X1 d (oAt L k.val 1) hB)) 64 80 (regionStep (flagB (flagBit d L k g4 2)) ((Memref.whole cc1_scratch0 : Memref sig .scVector .vmem S48x224 .f32).view.read (Elt Ideal) (payA0 X0 d (oAt L k.val 0) hA)) ((Memref.whole cc1_scratch1 : Memref sig .scVector .vmem S48x224 .f32).view.read (Elt Ideal) (payA1 X1 d (oAt L k.val 0) hA)) 64 80 zeroCells)))) := by
  unfold filesRow files94
  rw [step23_6 d L, if_neg (by decide), step23_5 d L, if_neg (by decide), step23_4 d L, if_neg (by decide), step23_3 d L, if_neg (by decide), step23_2 d L, if_pos rfl, step23_1 d L, if_neg (by decide), step23_0 d L, if_neg (by decide)]
  dsimp only
  rw [step93_6 d L, if_neg (by decide), step93_5 d L, if_neg (by decide), step93_4 d L, if_neg (by decide), step93_3 d L, if_neg (by decide), step93_2 d L, if_pos rfl, step93_1 d L, if_neg (by decide), step93_0 d L, if_neg (by decide)]
  dsimp only
  unfold files92
  rw [step9_6 d L, if_neg (by decide), step9_5 d L, if_neg (by decide), step9_4 d L, if_neg (by decide), step9_3 d L, if_neg (by decide), step9_2 d L, if_pos rfl, step9_1 d L, if_neg (by decide), step9_0 d L, if_neg (by decide)]
  dsimp only
  rw [step91_6 d L, if_neg (by decide), step91_5 d L, if_neg (by decide), step91_4 d L, if_neg (by decide), step91_3 d L, if_neg (by decide), step91_2 d L, if_pos rfl, step91_1 d L, if_neg (by decide), step91_0 d L, if_neg (by decide)]
  unfold f91_0
  dsimp only
  rw [show upd (zerosF (F := Ideal)) 6 1 (k1_pay764 (k1_pay828 (F := Ideal))) = zerosF from upd_zerosF]
  have hz : cellsOf (fun _ _ => toCellF (k1_pay828 (F := Ideal))) (zerosF (F := Ideal)) (2 : Fin 7) = zeroCells := by
    show (toCellF (k1_pay828 (F := Ideal)), toCellF (k1_pay828 (F := Ideal)), toCellF (k1_pay828 (F := Ideal)), toCellF (k1_pay828 (F := Ideal))) = zeroCells
    unfold zeroCells
    rw [show toCellF (k1_pay828 (F := Ideal)) = toCell (fun _ => (0 : EReal)) from congrArg toCell pay828_eq]
  rw [hz]

set_option maxHeartbeats 4000000 in
/-- Lane group 3's four cells after the row. -/
theorem cells_row_3 (X0 : (d : Dev nD) → Buf (Elt Ideal) (a0Loc d)) (X1 : (d : Dev nD) → Buf (Elt Ideal) (a1Loc d)) (k : Fin k1_t1_loop.trips) (g4 : Buf (Elt Ideal) ((V d (cV L) (jV L)).loc cc1_scratch4))
    (hA : ∀ a, oAt L k.val 0 a + S1x48x1x224.size a ≤ S8x192x224x224.size a) (hB : ∀ a, oAt L k.val 1 a + S1x48x1x224.size a ≤ S8x192x224x224.size a) :
    cellsOf (filesRow X0 X1 d L k g4 hA hB zerosF).1 (filesRow X0 X1 d L k g4 hA hB zerosF).2 (3 : Fin 7) = (regionStep (flagB (flagBit d L k g4 3)) ((Memref.whole cc1_scratch2 : Memref sig .scVector .vmem S48x224 .f32).view.read (Elt Ideal) (payA0 X0 d (k1_off34 L k) (k1_off34_inb L k (cond16_all k)))) ((Memref.whole cc1_scratch3 : Memref sig .scVector .vmem S48x224 .f32).view.read (Elt Ideal) (payA1 X1 d (k1_off34 L k) (k1_off34_inb L k (cond16_all k)))) 96 112 (regionStep (flagB (flagBit d L k g4 3)) ((Memref.whole cc1_scratch0 : Memref sig .scVector .vmem S48x224 .f32).view.read (Elt Ideal) (payA0 X0 d (k1_off19 L k) (k1_off19_inb L k (cond8_all k)))) ((Memref.whole cc1_scratch1 : Memref sig .scVector .vmem S48x224 .f32).view.read (Elt Ideal) (payA1 X1 d (k1_off19 L k) (k1_off19_inb L k (cond8_all k)))) 96 112 (regionStep (flagB (flagBit d L k g4 3)) ((Memref.whole cc1_scratch2 : Memref sig .scVector .vmem S48x224 .f32).view.read (Elt Ideal) (payA0 X0 d (oAt L k.val 1) hB)) ((Memref.whole cc1_scratch3 : Memref sig .scVector .vmem S48x224 .f32).view.read (Elt Ideal) (payA1 X1 d (oAt L k.val 1) hB)) 96 112 (regionStep (flagB (flagBit d L k g4 3)) ((Memref.whole cc1_scratch0 : Memref sig .scVector .vmem S48x224 .f32).view.read (Elt Ideal) (payA0 X0 d (oAt L k.val 0) hA)) ((Memref.whole cc1_scratch1 : Memref sig .scVector .vmem S48x224 .f32).view.read (Elt Ideal) (payA1 X1 d (oAt L k.val 0) hA)) 96 112 zeroCells)))) := by
  unfold filesRow files94
  rw [step23_6 d L, if_neg (by decide), step23_5 d L, if_neg (by decide), step23_4 d L, if_neg (by decide), step23_3 d L, if_pos rfl, step23_2 d L, if_neg (by decide), step23_1 d L, if_neg (by decide), step23_0 d L, if_neg (by decide)]
  dsimp only
  rw [step93_6 d L, if_neg (by decide), step93_5 d L, if_neg (by decide), step93_4 d L, if_neg (by decide), step93_3 d L, if_pos rfl, step93_2 d L, if_neg (by decide), step93_1 d L, if_neg (by decide), step93_0 d L, if_neg (by decide)]
  dsimp only
  unfold files92
  rw [step9_6 d L, if_neg (by decide), step9_5 d L, if_neg (by decide), step9_4 d L, if_neg (by decide), step9_3 d L, if_pos rfl, step9_2 d L, if_neg (by decide), step9_1 d L, if_neg (by decide), step9_0 d L, if_neg (by decide)]
  dsimp only
  rw [step91_6 d L, if_neg (by decide), step91_5 d L, if_neg (by decide), step91_4 d L, if_neg (by decide), step91_3 d L, if_pos rfl, step91_2 d L, if_neg (by decide), step91_1 d L, if_neg (by decide), step91_0 d L, if_neg (by decide)]
  unfold f91_0
  dsimp only
  rw [show upd (zerosF (F := Ideal)) 6 1 (k1_pay764 (k1_pay828 (F := Ideal))) = zerosF from upd_zerosF]
  have hz : cellsOf (fun _ _ => toCellF (k1_pay828 (F := Ideal))) (zerosF (F := Ideal)) (3 : Fin 7) = zeroCells := by
    show (toCellF (k1_pay828 (F := Ideal)), toCellF (k1_pay828 (F := Ideal)), toCellF (k1_pay828 (F := Ideal)), toCellF (k1_pay828 (F := Ideal))) = zeroCells
    unfold zeroCells
    rw [show toCellF (k1_pay828 (F := Ideal)) = toCell (fun _ => (0 : EReal)) from congrArg toCell pay828_eq]
  rw [hz]

set_option maxHeartbeats 4000000 in
/-- Lane group 4's four cells after the row. -/
theorem cells_row_4 (X0 : (d : Dev nD) → Buf (Elt Ideal) (a0Loc d)) (X1 : (d : Dev nD) → Buf (Elt Ideal) (a1Loc d)) (k : Fin k1_t1_loop.trips) (g4 : Buf (Elt Ideal) ((V d (cV L) (jV L)).loc cc1_scratch4))
    (hA : ∀ a, oAt L k.val 0 a + S1x48x1x224.size a ≤ S8x192x224x224.size a) (hB : ∀ a, oAt L k.val 1 a + S1x48x1x224.size a ≤ S8x192x224x224.size a) :
    cellsOf (filesRow X0 X1 d L k g4 hA hB zerosF).1 (filesRow X0 X1 d L k g4 hA hB zerosF).2 (4 : Fin 7) = (regionStep (flagB (flagBit d L k g4 4)) ((Memref.whole cc1_scratch2 : Memref sig .scVector .vmem S48x224 .f32).view.read (Elt Ideal) (payA0 X0 d (k1_off34 L k) (k1_off34_inb L k (cond16_all k)))) ((Memref.whole cc1_scratch3 : Memref sig .scVector .vmem S48x224 .f32).view.read (Elt Ideal) (payA1 X1 d (k1_off34 L k) (k1_off34_inb L k (cond16_all k)))) 128 144 (regionStep (flagB (flagBit d L k g4 4)) ((Memref.whole cc1_scratch0 : Memref sig .scVector .vmem S48x224 .f32).view.read (Elt Ideal) (payA0 X0 d (k1_off19 L k) (k1_off19_inb L k (cond8_all k)))) ((Memref.whole cc1_scratch1 : Memref sig .scVector .vmem S48x224 .f32).view.read (Elt Ideal) (payA1 X1 d (k1_off19 L k) (k1_off19_inb L k (cond8_all k)))) 128 144 (regionStep (flagB (flagBit d L k g4 4)) ((Memref.whole cc1_scratch2 : Memref sig .scVector .vmem S48x224 .f32).view.read (Elt Ideal) (payA0 X0 d (oAt L k.val 1) hB)) ((Memref.whole cc1_scratch3 : Memref sig .scVector .vmem S48x224 .f32).view.read (Elt Ideal) (payA1 X1 d (oAt L k.val 1) hB)) 128 144 (regionStep (flagB (flagBit d L k g4 4)) ((Memref.whole cc1_scratch0 : Memref sig .scVector .vmem S48x224 .f32).view.read (Elt Ideal) (payA0 X0 d (oAt L k.val 0) hA)) ((Memref.whole cc1_scratch1 : Memref sig .scVector .vmem S48x224 .f32).view.read (Elt Ideal) (payA1 X1 d (oAt L k.val 0) hA)) 128 144 zeroCells)))) := by
  unfold filesRow files94
  rw [step23_6 d L, if_neg (by decide), step23_5 d L, if_neg (by decide), step23_4 d L, if_pos rfl, step23_3 d L, if_neg (by decide), step23_2 d L, if_neg (by decide), step23_1 d L, if_neg (by decide), step23_0 d L, if_neg (by decide)]
  dsimp only
  rw [step93_6 d L, if_neg (by decide), step93_5 d L, if_neg (by decide), step93_4 d L, if_pos rfl, step93_3 d L, if_neg (by decide), step93_2 d L, if_neg (by decide), step93_1 d L, if_neg (by decide), step93_0 d L, if_neg (by decide)]
  dsimp only
  unfold files92
  rw [step9_6 d L, if_neg (by decide), step9_5 d L, if_neg (by decide), step9_4 d L, if_pos rfl, step9_3 d L, if_neg (by decide), step9_2 d L, if_neg (by decide), step9_1 d L, if_neg (by decide), step9_0 d L, if_neg (by decide)]
  dsimp only
  rw [step91_6 d L, if_neg (by decide), step91_5 d L, if_neg (by decide), step91_4 d L, if_pos rfl, step91_3 d L, if_neg (by decide), step91_2 d L, if_neg (by decide), step91_1 d L, if_neg (by decide), step91_0 d L, if_neg (by decide)]
  unfold f91_0
  dsimp only
  rw [show upd (zerosF (F := Ideal)) 6 1 (k1_pay764 (k1_pay828 (F := Ideal))) = zerosF from upd_zerosF]
  have hz : cellsOf (fun _ _ => toCellF (k1_pay828 (F := Ideal))) (zerosF (F := Ideal)) (4 : Fin 7) = zeroCells := by
    show (toCellF (k1_pay828 (F := Ideal)), toCellF (k1_pay828 (F := Ideal)), toCellF (k1_pay828 (F := Ideal)), toCellF (k1_pay828 (F := Ideal))) = zeroCells
    unfold zeroCells
    rw [show toCellF (k1_pay828 (F := Ideal)) = toCell (fun _ => (0 : EReal)) from congrArg toCell pay828_eq]
  rw [hz]

set_option maxHeartbeats 4000000 in
/-- Lane group 5's four cells after the row. -/
theorem cells_row_5 (X0 : (d : Dev nD) → Buf (Elt Ideal) (a0Loc d)) (X1 : (d : Dev nD) → Buf (Elt Ideal) (a1Loc d)) (k : Fin k1_t1_loop.trips) (g4 : Buf (Elt Ideal) ((V d (cV L) (jV L)).loc cc1_scratch4))
    (hA : ∀ a, oAt L k.val 0 a + S1x48x1x224.size a ≤ S8x192x224x224.size a) (hB : ∀ a, oAt L k.val 1 a + S1x48x1x224.size a ≤ S8x192x224x224.size a) :
    cellsOf (filesRow X0 X1 d L k g4 hA hB zerosF).1 (filesRow X0 X1 d L k g4 hA hB zerosF).2 (5 : Fin 7) = (regionStep (flagB (flagBit d L k g4 5)) ((Memref.whole cc1_scratch2 : Memref sig .scVector .vmem S48x224 .f32).view.read (Elt Ideal) (payA0 X0 d (k1_off34 L k) (k1_off34_inb L k (cond16_all k)))) ((Memref.whole cc1_scratch3 : Memref sig .scVector .vmem S48x224 .f32).view.read (Elt Ideal) (payA1 X1 d (k1_off34 L k) (k1_off34_inb L k (cond16_all k)))) 160 176 (regionStep (flagB (flagBit d L k g4 5)) ((Memref.whole cc1_scratch0 : Memref sig .scVector .vmem S48x224 .f32).view.read (Elt Ideal) (payA0 X0 d (k1_off19 L k) (k1_off19_inb L k (cond8_all k)))) ((Memref.whole cc1_scratch1 : Memref sig .scVector .vmem S48x224 .f32).view.read (Elt Ideal) (payA1 X1 d (k1_off19 L k) (k1_off19_inb L k (cond8_all k)))) 160 176 (regionStep (flagB (flagBit d L k g4 5)) ((Memref.whole cc1_scratch2 : Memref sig .scVector .vmem S48x224 .f32).view.read (Elt Ideal) (payA0 X0 d (oAt L k.val 1) hB)) ((Memref.whole cc1_scratch3 : Memref sig .scVector .vmem S48x224 .f32).view.read (Elt Ideal) (payA1 X1 d (oAt L k.val 1) hB)) 160 176 (regionStep (flagB (flagBit d L k g4 5)) ((Memref.whole cc1_scratch0 : Memref sig .scVector .vmem S48x224 .f32).view.read (Elt Ideal) (payA0 X0 d (oAt L k.val 0) hA)) ((Memref.whole cc1_scratch1 : Memref sig .scVector .vmem S48x224 .f32).view.read (Elt Ideal) (payA1 X1 d (oAt L k.val 0) hA)) 160 176 zeroCells)))) := by
  unfold filesRow files94
  rw [step23_6 d L, if_neg (by decide), step23_5 d L, if_pos rfl, step23_4 d L, if_neg (by decide), step23_3 d L, if_neg (by decide), step23_2 d L, if_neg (by decide), step23_1 d L, if_neg (by decide), step23_0 d L, if_neg (by decide)]
  dsimp only
  rw [step93_6 d L, if_neg (by decide), step93_5 d L, if_pos rfl, step93_4 d L, if_neg (by decide), step93_3 d L, if_neg (by decide), step93_2 d L, if_neg (by decide), step93_1 d L, if_neg (by decide), step93_0 d L, if_neg (by decide)]
  dsimp only
  unfold files92
  rw [step9_6 d L, if_neg (by decide), step9_5 d L, if_pos rfl, step9_4 d L, if_neg (by decide), step9_3 d L, if_neg (by decide), step9_2 d L, if_neg (by decide), step9_1 d L, if_neg (by decide), step9_0 d L, if_neg (by decide)]
  dsimp only
  rw [step91_6 d L, if_neg (by decide), step91_5 d L, if_pos rfl, step91_4 d L, if_neg (by decide), step91_3 d L, if_neg (by decide), step91_2 d L, if_neg (by decide), step91_1 d L, if_neg (by decide), step91_0 d L, if_neg (by decide)]
  unfold f91_0
  dsimp only
  rw [show upd (zerosF (F := Ideal)) 6 1 (k1_pay764 (k1_pay828 (F := Ideal))) = zerosF from upd_zerosF]
  have hz : cellsOf (fun _ _ => toCellF (k1_pay828 (F := Ideal))) (zerosF (F := Ideal)) (5 : Fin 7) = zeroCells := by
    show (toCellF (k1_pay828 (F := Ideal)), toCellF (k1_pay828 (F := Ideal)), toCellF (k1_pay828 (F := Ideal)), toCellF (k1_pay828 (F := Ideal))) = zeroCells
    unfold zeroCells
    rw [show toCellF (k1_pay828 (F := Ideal)) = toCell (fun _ => (0 : EReal)) from congrArg toCell pay828_eq]
  rw [hz]

set_option maxHeartbeats 4000000 in
/-- Lane group 6's four cells after the row. -/
theorem cells_row_6 (X0 : (d : Dev nD) → Buf (Elt Ideal) (a0Loc d)) (X1 : (d : Dev nD) → Buf (Elt Ideal) (a1Loc d)) (k : Fin k1_t1_loop.trips) (g4 : Buf (Elt Ideal) ((V d (cV L) (jV L)).loc cc1_scratch4))
    (hA : ∀ a, oAt L k.val 0 a + S1x48x1x224.size a ≤ S8x192x224x224.size a) (hB : ∀ a, oAt L k.val 1 a + S1x48x1x224.size a ≤ S8x192x224x224.size a) :
    cellsOf (filesRow X0 X1 d L k g4 hA hB zerosF).1 (filesRow X0 X1 d L k g4 hA hB zerosF).2 (6 : Fin 7) = (regionStep (flagB (flagBit d L k g4 6)) ((Memref.whole cc1_scratch2 : Memref sig .scVector .vmem S48x224 .f32).view.read (Elt Ideal) (payA0 X0 d (k1_off34 L k) (k1_off34_inb L k (cond16_all k)))) ((Memref.whole cc1_scratch3 : Memref sig .scVector .vmem S48x224 .f32).view.read (Elt Ideal) (payA1 X1 d (k1_off34 L k) (k1_off34_inb L k (cond16_all k)))) 192 208 (regionStep (flagB (flagBit d L k g4 6)) ((Memref.whole cc1_scratch0 : Memref sig .scVector .vmem S48x224 .f32).view.read (Elt Ideal) (payA0 X0 d (k1_off19 L k) (k1_off19_inb L k (cond8_all k)))) ((Memref.whole cc1_scratch1 : Memref sig .scVector .vmem S48x224 .f32).view.read (Elt Ideal) (payA1 X1 d (k1_off19 L k) (k1_off19_inb L k (cond8_all k)))) 192 208 (regionStep (flagB (flagBit d L k g4 6)) ((Memref.whole cc1_scratch2 : Memref sig .scVector .vmem S48x224 .f32).view.read (Elt Ideal) (payA0 X0 d (oAt L k.val 1) hB)) ((Memref.whole cc1_scratch3 : Memref sig .scVector .vmem S48x224 .f32).view.read (Elt Ideal) (payA1 X1 d (oAt L k.val 1) hB)) 192 208 (regionStep (flagB (flagBit d L k g4 6)) ((Memref.whole cc1_scratch0 : Memref sig .scVector .vmem S48x224 .f32).view.read (Elt Ideal) (payA0 X0 d (oAt L k.val 0) hA)) ((Memref.whole cc1_scratch1 : Memref sig .scVector .vmem S48x224 .f32).view.read (Elt Ideal) (payA1 X1 d (oAt L k.val 0) hA)) 192 208 zeroCells)))) := by
  unfold filesRow files94
  rw [step23_6 d L, if_pos rfl, step23_5 d L, if_neg (by decide), step23_4 d L, if_neg (by decide), step23_3 d L, if_neg (by decide), step23_2 d L, if_neg (by decide), step23_1 d L, if_neg (by decide), step23_0 d L, if_neg (by decide)]
  dsimp only
  rw [step93_6 d L, if_pos rfl, step93_5 d L, if_neg (by decide), step93_4 d L, if_neg (by decide), step93_3 d L, if_neg (by decide), step93_2 d L, if_neg (by decide), step93_1 d L, if_neg (by decide), step93_0 d L, if_neg (by decide)]
  dsimp only
  unfold files92
  rw [step9_6 d L, if_pos rfl, step9_5 d L, if_neg (by decide), step9_4 d L, if_neg (by decide), step9_3 d L, if_neg (by decide), step9_2 d L, if_neg (by decide), step9_1 d L, if_neg (by decide), step9_0 d L, if_neg (by decide)]
  dsimp only
  rw [step91_6 d L, if_pos rfl, step91_5 d L, if_neg (by decide), step91_4 d L, if_neg (by decide), step91_3 d L, if_neg (by decide), step91_2 d L, if_neg (by decide), step91_1 d L, if_neg (by decide), step91_0 d L, if_neg (by decide)]
  unfold f91_0
  dsimp only
  rw [show upd (zerosF (F := Ideal)) 6 1 (k1_pay764 (k1_pay828 (F := Ideal))) = zerosF from upd_zerosF]
  have hz : cellsOf (fun _ _ => toCellF (k1_pay828 (F := Ideal))) (zerosF (F := Ideal)) (6 : Fin 7) = zeroCells := by
    show (toCellF (k1_pay828 (F := Ideal)), toCellF (k1_pay828 (F := Ideal)), toCellF (k1_pay828 (F := Ideal)), toCellF (k1_pay828 (F := Ideal))) = zeroCells
    unfold zeroCells
    rw [show toCellF (k1_pay828 (F := Ideal)) = toCell (fun _ => (0 : EReal)) from congrArg toCell pay828_eq]
  rw [hz]

set_option maxHeartbeats 4000000 in
/-- THE ROW'S FILES, lane by lane: under the flags — each set exactly when its lane group is active — and with the four
    slots' payloads holding the four channel groups of the (image, row) pair, the two files hold `accAt` and `anyAt`. -/
theorem filesRow_lanes (X0 : (d : Dev nD) → Buf (Elt Ideal) (a0Loc d)) (X1 : (d : Dev nD) → Buf (Elt Ideal) (a1Loc d)) (k : Fin k1_t1_loop.trips) (g4 : Buf (Elt Ideal) ((V d (cV L) (jV L)).loc cc1_scratch4))
    (hA : ∀ a, oAt L k.val 0 a + S1x48x1x224.size a ≤ S8x192x224x224.size a) (hB : ∀ a, oAt L k.val 1 a + S1x48x1x224.size a ≤ S8x192x224x224.size a)
    (x0 x1 : FVec Ideal SImg .f32) (mk : FVec Ideal SMask .f32) (t : Fin 8) (h : Fin 224)
    (h0i : SlotHolds x0 t h 0 ((Memref.whole cc1_scratch0 : Memref sig .scVector .vmem S48x224 .f32).view.read (Elt Ideal) (payA0 X0 d (oAt L k.val 0) hA))) (h0t : SlotHolds x1 t h 0 ((Memref.whole cc1_scratch1 : Memref sig .scVector .vmem S48x224 .f32).view.read (Elt Ideal) (payA1 X1 d (oAt L k.val 0) hA)))
    (h1i : SlotHolds x0 t h 1 ((Memref.whole cc1_scratch2 : Memref sig .scVector .vmem S48x224 .f32).view.read (Elt Ideal) (payA0 X0 d (oAt L k.val 1) hB))) (h1t : SlotHolds x1 t h 1 ((Memref.whole cc1_scratch3 : Memref sig .scVector .vmem S48x224 .f32).view.read (Elt Ideal) (payA1 X1 d (oAt L k.val 1) hB)))
    (h2i : SlotHolds x0 t h 2 ((Memref.whole cc1_scratch0 : Memref sig .scVector .vmem S48x224 .f32).view.read (Elt Ideal) (payA0 X0 d (k1_off19 L k) (k1_off19_inb L k (cond8_all k))))) (h2t : SlotHolds x1 t h 2 ((Memref.whole cc1_scratch1 : Memref sig .scVector .vmem S48x224 .f32).view.read (Elt Ideal) (payA1 X1 d (k1_off19 L k) (k1_off19_inb L k (cond8_all k)))))
    (h3i : SlotHolds x0 t h 3 ((Memref.whole cc1_scratch2 : Memref sig .scVector .vmem S48x224 .f32).view.read (Elt Ideal) (payA0 X0 d (k1_off34 L k) (k1_off34_inb L k (cond16_all k))))) (h3t : SlotHolds x1 t h 3 ((Memref.whole cc1_scratch3 : Memref sig .scVector .vmem S48x224 .f32).view.read (Elt Ideal) (payA1 X1 d (k1_off34 L k) (k1_off34_inb L k (cond16_all k)))))
    (hflag : ∀ kk : Fin 7, flagB (flagBit d L k g4 kk) ↔ active mk t h kk) (kk : Fin 7) (hf : Fin 2) (l : Fin 16) :
    laneOf ((filesRow X0 X1 d L k g4 hA hB zerosF).1 kk hf) l = accAt x0 x1 mk t h kk (colOf kk hf l)
      ∧ laneOf ((filesRow X0 X1 d L k g4 hA hB zerosF).2 kk hf) l = anyAt x1 mk t h kk (colOf kk hf l) := by
  have k0 : laneOf (cellsOf (filesRow X0 X1 d L k g4 hA hB zerosF).1 (filesRow X0 X1 d L k g4 hA hB zerosF).2 (0 : Fin 7)).1 l = accAt x0 x1 mk t h (0 : Fin 7) (colOf 0 0 l) ∧ laneOf (cellsOf (filesRow X0 X1 d L k g4 hA hB zerosF).1 (filesRow X0 X1 d L k g4 hA hB zerosF).2 (0 : Fin 7)).2.1 l = accAt x0 x1 mk t h (0 : Fin 7) (colOf 0 1 l)
      ∧ laneOf (cellsOf (filesRow X0 X1 d L k g4 hA hB zerosF).1 (filesRow X0 X1 d L k g4 hA hB zerosF).2 (0 : Fin 7)).2.2.1 l = anyAt x1 mk t h (0 : Fin 7) (colOf 0 0 l) ∧ laneOf (cellsOf (filesRow X0 X1 d L k g4 hA hB zerosF).1 (filesRow X0 X1 d L k g4 hA hB zerosF).2 (0 : Fin 7)).2.2.2 l = anyAt x1 mk t h (0 : Fin 7) (colOf 0 1 l) := by
    rw [cells_row_0 d L X0 X1 k g4 hA hB]
    exact cells_after_row (x0 := x0) (x1 := x1) (mk := mk) (t := t) (h := h) (0 : Fin 7) (flagB (flagBit d L k g4 0)) (hflag 0) h0i h0t h1i h1t h2i h2t h3i h3t l
  have k1 : laneOf (cellsOf (filesRow X0 X1 d L k g4 hA hB zerosF).1 (filesRow X0 X1 d L k g4 hA hB zerosF).2 (1 : Fin 7)).1 l = accAt x0 x1 mk t h (1 : Fin 7) (colOf 1 0 l) ∧ laneOf (cellsOf (filesRow X0 X1 d L k g4 hA hB zerosF).1 (filesRow X0 X1 d L k g4 hA hB zerosF).2 (1 : Fin 7)).2.1 l = accAt x0 x1 mk t h (1 : Fin 7) (colOf 1 1 l)
      ∧ laneOf (cellsOf (filesRow X0 X1 d L k g4 hA hB zerosF).1 (filesRow X0 X1 d L k g4 hA hB zerosF).2 (1 : Fin 7)).2.2.1 l = anyAt x1 mk t h (1 : Fin 7) (colOf 1 0 l) ∧ laneOf (cellsOf (filesRow X0 X1 d L k g4 hA hB zerosF).1 (filesRow X0 X1 d L k g4 hA hB zerosF).2 (1 : Fin 7)).2.2.2 l = anyAt x1 mk t h (1 : Fin 7) (colOf 1 1 l) := by
    rw [cells_row_1 d L X0 X1 k g4 hA hB]
    exact cells_after_row (x0 := x0) (x1 := x1) (mk := mk) (t := t) (h := h) (1 : Fin 7) (flagB (flagBit d L k g4 1)) (hflag 1) h0i h0t h1i h1t h2i h2t h3i h3t l
  have k2 : laneOf (cellsOf (filesRow X0 X1 d L k g4 hA hB zerosF).1 (filesRow X0 X1 d L k g4 hA hB zerosF).2 (2 : Fin 7)).1 l = accAt x0 x1 mk t h (2 : Fin 7) (colOf 2 0 l) ∧ laneOf (cellsOf (filesRow X0 X1 d L k g4 hA hB zerosF).1 (filesRow X0 X1 d L k g4 hA hB zerosF).2 (2 : Fin 7)).2.1 l = accAt x0 x1 mk t h (2 : Fin 7) (colOf 2 1 l)
      ∧ laneOf (cellsOf (filesRow X0 X1 d L k g4 hA hB zerosF).1 (filesRow X0 X1 d L k g4 hA hB zerosF).2 (2 : Fin 7)).2.2.1 l = anyAt x1 mk t h (2 : Fin 7) (colOf 2 0 l) ∧ laneOf (cellsOf (filesRow X0 X1 d L k g4 hA hB zerosF).1 (filesRow X0 X1 d L k g4 hA hB zerosF).2 (2 : Fin 7)).2.2.2 l = anyAt x1 mk t h (2 : Fin 7) (colOf 2 1 l) := by
    rw [cells_row_2 d L X0 X1 k g4 hA hB]
    exact cells_after_row (x0 := x0) (x1 := x1) (mk := mk) (t := t) (h := h) (2 : Fin 7) (flagB (flagBit d L k g4 2)) (hflag 2) h0i h0t h1i h1t h2i h2t h3i h3t l
  have k3 : laneOf (cellsOf (filesRow X0 X1 d L k g4 hA hB zerosF).1 (filesRow X0 X1 d L k g4 hA hB zerosF).2 (3 : Fin 7)).1 l = accAt x0 x1 mk t h (3 : Fin 7) (colOf 3 0 l) ∧ laneOf (cellsOf (filesRow X0 X1 d L k g4 hA hB zerosF).1 (filesRow X0 X1 d L k g4 hA hB zerosF).2 (3 : Fin 7)).2.1 l = accAt x0 x1 mk t h (3 : Fin 7) (colOf 3 1 l)
      ∧ laneOf (cellsOf (filesRow X0 X1 d L k g4 hA hB zerosF).1 (filesRow X0 X1 d L k g4 hA hB zerosF).2 (3 : Fin 7)).2.2.1 l = anyAt x1 mk t h (3 : Fin 7) (colOf 3 0 l) ∧ laneOf (cellsOf (filesRow X0 X1 d L k g4 hA hB zerosF).1 (filesRow X0 X1 d L k g4 hA hB zerosF).2 (3 : Fin 7)).2.2.2 l = anyAt x1 mk t h (3 : Fin 7) (colOf 3 1 l) := by
    rw [cells_row_3 d L X0 X1 k g4 hA hB]
    exact cells_after_row (x0 := x0) (x1 := x1) (mk := mk) (t := t) (h := h) (3 : Fin 7) (flagB (flagBit d L k g4 3)) (hflag 3) h0i h0t h1i h1t h2i h2t h3i h3t l
  have k4 : laneOf (cellsOf (filesRow X0 X1 d L k g4 hA hB zerosF).1 (filesRow X0 X1 d L k g4 hA hB zerosF).2 (4 : Fin 7)).1 l = accAt x0 x1 mk t h (4 : Fin 7) (colOf 4 0 l) ∧ laneOf (cellsOf (filesRow X0 X1 d L k g4 hA hB zerosF).1 (filesRow X0 X1 d L k g4 hA hB zerosF).2 (4 : Fin 7)).2.1 l = accAt x0 x1 mk t h (4 : Fin 7) (colOf 4 1 l)
      ∧ laneOf (cellsOf (filesRow X0 X1 d L k g4 hA hB zerosF).1 (filesRow X0 X1 d L k g4 hA hB zerosF).2 (4 : Fin 7)).2.2.1 l = anyAt x1 mk t h (4 : Fin 7) (colOf 4 0 l) ∧ laneOf (cellsOf (filesRow X0 X1 d L k g4 hA hB zerosF).1 (filesRow X0 X1 d L k g4 hA hB zerosF).2 (4 : Fin 7)).2.2.2 l = anyAt x1 mk t h (4 : Fin 7) (colOf 4 1 l) := by
    rw [cells_row_4 d L X0 X1 k g4 hA hB]
    exact cells_after_row (x0 := x0) (x1 := x1) (mk := mk) (t := t) (h := h) (4 : Fin 7) (flagB (flagBit d L k g4 4)) (hflag 4) h0i h0t h1i h1t h2i h2t h3i h3t l
  have k5 : laneOf (cellsOf (filesRow X0 X1 d L k g4 hA hB zerosF).1 (filesRow X0 X1 d L k g4 hA hB zerosF).2 (5 : Fin 7)).1 l = accAt x0 x1 mk t h (5 : Fin 7) (colOf 5 0 l) ∧ laneOf (cellsOf (filesRow X0 X1 d L k g4 hA hB zerosF).1 (filesRow X0 X1 d L k g4 hA hB zerosF).2 (5 : Fin 7)).2.1 l = accAt x0 x1 mk t h (5 : Fin 7) (colOf 5 1 l)
      ∧ laneOf (cellsOf (filesRow X0 X1 d L k g4 hA hB zerosF).1 (filesRow X0 X1 d L k g4 hA hB zerosF).2 (5 : Fin 7)).2.2.1 l = anyAt x1 mk t h (5 : Fin 7) (colOf 5 0 l) ∧ laneOf (cellsOf (filesRow X0 X1 d L k g4 hA hB zerosF).1 (filesRow X0 X1 d L k g4 hA hB zerosF).2 (5 : Fin 7)).2.2.2 l = anyAt x1 mk t h (5 : Fin 7) (colOf 5 1 l) := by
    rw [cells_row_5 d L X0 X1 k g4 hA hB]
    exact cells_after_row (x0 := x0) (x1 := x1) (mk := mk) (t := t) (h := h) (5 : Fin 7) (flagB (flagBit d L k g4 5)) (hflag 5) h0i h0t h1i h1t h2i h2t h3i h3t l
  have k6 : laneOf (cellsOf (filesRow X0 X1 d L k g4 hA hB zerosF).1 (filesRow X0 X1 d L k g4 hA hB zerosF).2 (6 : Fin 7)).1 l = accAt x0 x1 mk t h (6 : Fin 7) (colOf 6 0 l) ∧ laneOf (cellsOf (filesRow X0 X1 d L k g4 hA hB zerosF).1 (filesRow X0 X1 d L k g4 hA hB zerosF).2 (6 : Fin 7)).2.1 l = accAt x0 x1 mk t h (6 : Fin 7) (colOf 6 1 l)
      ∧ laneOf (cellsOf (filesRow X0 X1 d L k g4 hA hB zerosF).1 (filesRow X0 X1 d L k g4 hA hB zerosF).2 (6 : Fin 7)).2.2.1 l = anyAt x1 mk t h (6 : Fin 7) (colOf 6 0 l) ∧ laneOf (cellsOf (filesRow X0 X1 d L k g4 hA hB zerosF).1 (filesRow X0 X1 d L k g4 hA hB zerosF).2 (6 : Fin 7)).2.2.2 l = anyAt x1 mk t h (6 : Fin 7) (colOf 6 1 l) := by
    rw [cells_row_6 d L X0 X1 k g4 hA hB]
    exact cells_after_row (x0 := x0) (x1 := x1) (mk := mk) (t := t) (h := h) (6 : Fin 7) (flagB (flagBit d L k g4 6)) (hflag 6) h0i h0t h1i h1t h2i h2t h3i h3t l
  match kk, hf with
  | ⟨0, _⟩, ⟨0, _⟩ => exact ⟨k0.1, k0.2.2.1⟩
  | ⟨0, _⟩, ⟨1, _⟩ => exact ⟨k0.2.1, k0.2.2.2⟩
  | ⟨1, _⟩, ⟨0, _⟩ => exact ⟨k1.1, k1.2.2.1⟩
  | ⟨1, _⟩, ⟨1, _⟩ => exact ⟨k1.2.1, k1.2.2.2⟩
  | ⟨2, _⟩, ⟨0, _⟩ => exact ⟨k2.1, k2.2.2.1⟩
  | ⟨2, _⟩, ⟨1, _⟩ => exact ⟨k2.2.1, k2.2.2.2⟩
  | ⟨3, _⟩, ⟨0, _⟩ => exact ⟨k3.1, k3.2.2.1⟩
  | ⟨3, _⟩, ⟨1, _⟩ => exact ⟨k3.2.1, k3.2.2.2⟩
  | ⟨4, _⟩, ⟨0, _⟩ => exact ⟨k4.1, k4.2.2.1⟩
  | ⟨4, _⟩, ⟨1, _⟩ => exact ⟨k4.2.1, k4.2.2.2⟩
  | ⟨5, _⟩, ⟨0, _⟩ => exact ⟨k5.1, k5.2.2.1⟩
  | ⟨5, _⟩, ⟨1, _⟩ => exact ⟨k5.2.1, k5.2.2.2⟩
  | ⟨6, _⟩, ⟨0, _⟩ => exact ⟨k6.1, k6.2.2.1⟩
  | ⟨6, _⟩, ⟨1, _⟩ => exact ⟨k6.2.1, k6.2.2.2⟩

end Cert.KernelIdeal.ScTileV

end
-- ==== Proof.ScTileVFlagI.lean ====
/-
  A lane group's flag bit of a row, in the mask array's terms: the bit is set exactly when the mask array's activity word
  of the group, at the row's image and row, is positive.
-/
import proofs.«210586_g14980845929080_cont_week2b_1062_66_alg».proof.Proof.ScTileVSumsI
import proofs.«210586_g14980845929080_cont_week2b_1062_66_alg».proof.Proof.ScTileRowPayI

noncomputable section

namespace Cert.KernelIdeal.ScTileV

open Cert.KernelIdeal.ScTile
open Cert.KernelIdeal Cert.KernelIdeal.Gen Cert.ScTileVal
open Idealize.ShloMosaic Idealize.ShloMosaic.ValueIdx
open Idealize.ShloMosaic.SparseCore (S V T)

/-- The region's condition on a one-bit flag holds exactly when the bit is set. -/
theorem flagB_iff : ∀ v : BitVec 1, flagB v ↔ v = 1#1 := by decide

section Flag
variable (M : (d : Dev nD) → Buf (Elt Ideal) (mkLoc d)) (d : Dev nD) (L : grid1.Coords) (r : Fin 16)

/-- Word q (q below 7) of the row's flag words is the mask array's activity word of lane group q. -/
theorem flagWord_eq (q : Fin 7) :
    flagLd d L ⟨r.val, by rw [trips16]; exact r.isLt⟩ (payM M d L) (ix3 (0 : Fin 1) (0 : Fin 1) (⟨q.val, by have := q.isLt; omega⟩ : Fin 16))
      = (M d : SMask.Idx → EReal) (ix3 (tOf r) (hOf (widL L) r) (flagCol q)) := by
  refine (flagLd_lane M d L ⟨r.val, by rw [trips16]; exact r.isLt⟩ _).trans (congrArg (M d : S8x224x256.Idx → EReal) (funext fun a => Fin.ext ?_))
  match a with
  | ⟨0, _⟩ => rfl
  | ⟨1, _⟩ => show 4 * (L 1).val + 2 * (L 0).val + 160 + r.val % 2 = 160 + 2 * (widL L).val + r.val % 2; rw [widL_val]; omega
  | ⟨2, _⟩ => rfl

/-- THE FLAG BIT: lane group kk's region of row r is taken exactly when the group is active at the row. -/
theorem flagB_flagBit (kk : Fin 7) :
    flagB (flagBit d L ⟨r.val, by rw [trips16]; exact r.isLt⟩ (payM M d L) kk) ↔ active (M d) (tOf r) (hOf (widL L) r) kk := by
  obtain ⟨w0, w1, w2, w3, w4, w5, w6⟩ := word_of_cell (F := Ideal) (flagLd d L ⟨r.val, by rw [trips16]; exact r.isLt⟩ (payM M d L))
  have key : ∀ (x : EReal) (q : Fin 7), x = (M d : SMask.Idx → EReal) (ix3 (tOf r) (hOf (widL L) r) (flagCol q)) →
      (flagB (Scalar.cmpf .ogt x (FloatOps.ofBits (F := Ideal) .f32 0x00000000#32)) ↔ active (M d) (tOf r) (hOf (widL L) r) q) := by
    intro x q hx
    rw [flagB_iff]
    show Ideal.cmp .ogt x (Ideal.ofBits .f32 0x00000000#32) = 1#1 ↔ _
    rw [Cert.LossSpec.ofBits_zero]
    refine Iff.trans (cmp_ogt_eq_one x 0) ?_
    rw [hx]
    rfl
  match kk with
  | ⟨0, _⟩ => exact key _ 0 (w0.trans (flagWord_eq M d L r 0))
  | ⟨1, _⟩ => exact key _ 1 (w1.trans (flagWord_eq M d L r 1))
  | ⟨2, _⟩ => exact key _ 2 (w2.trans (flagWord_eq M d L r 2))
  | ⟨3, _⟩ => exact key _ 3 (w3.trans (flagWord_eq M d L r 3))
  | ⟨4, _⟩ => exact key _ 4 (w4.trans (flagWord_eq M d L r 4))
  | ⟨5, _⟩ => exact key _ 5 (w5.trans (flagWord_eq M d L r 5))
  | ⟨6, _⟩ => exact key _ 6 (w6.trans (flagWord_eq M d L r 6))

end Flag

end Cert.KernelIdeal.ScTileV

end
-- ==== Proof.ScTileVHolds2I.lean ====
/-
  The refilled slots' payloads, at the program's own offsets: the first slot's refill of a row holds channel group 2 of the
  inputs at the row's image and row, the second slot's refill channel group 3.
-/
import proofs.«210586_g14980845929080_cont_week2b_1062_66_alg».proof.Proof.ScTileVHoldsI
import proofs.«210586_g14980845929080_cont_week2b_1062_66_alg».proof.Proof.ScTileVSlotOffI

noncomputable section

namespace Cert.KernelIdeal.ScTileV

open Cert.KernelIdeal.ScTile
open Cert.KernelIdeal Cert.KernelIdeal.Gen
open Idealize.ShloMosaic Idealize.ShloMosaic.ValueIdx
open Idealize.ShloMosaic.SparseCore (S V T)

theorem off19_oAt (L : grid1.Coords) (k : Fin k1_t1_loop.trips) : k1_off19 L k = oAt L k.val 2 := by
  rw [off19_eq]; unfold oAt; rfl
theorem off34_oAt (L : grid1.Coords) (k : Fin k1_t1_loop.trips) : k1_off34 L k = oAt L k.val 3 := by
  rw [off34_eq]; unfold oAt; rfl

section Slots
variable (X0 : (d : Dev nD) → Buf (Elt Ideal) (a0Loc d)) (X1 : (d : Dev nD) → Buf (Elt Ideal) (a1Loc d))
variable (d : Dev nD) (L : grid1.Coords) (r : Fin 16)

/-- A payload from offsets that are the window's for (row pair r, channel group cg) holds that channel group. -/
theorem slotHolds_payA0_of (cg : Fin 4) (o : Fin 4 → ℕ) (ho : o = oAt L r.val cg.val)
    (hin : ∀ a, o a + S1x48x1x224.size a ≤ S8x192x224x224.size a) :
    SlotHolds (X0 d) (Cert.ScTileVal.tOf r) (Cert.ScTileVal.hOf (widL L) r) cg (payA0 X0 d o hin) := by
  subst ho; exact slotHolds_payA0 X0 d L r cg hin
theorem slotHolds_payA1_of (cg : Fin 4) (o : Fin 4 → ℕ) (ho : o = oAt L r.val cg.val)
    (hin : ∀ a, o a + S1x48x1x224.size a ≤ S8x192x224x224.size a) :
    SlotHolds (X1 d) (Cert.ScTileVal.tOf r) (Cert.ScTileVal.hOf (widL L) r) cg (payA1 X1 d o hin) := by
  subst ho; exact slotHolds_payA1 X1 d L r cg hin

/-- The first slot's refill of row r holds channel group 2, the second slot's channel group 3. -/
theorem slotHolds_refill19_A0 (hin : ∀ a, k1_off19 L ⟨r.val, by rw [trips16]; exact r.isLt⟩ a + S1x48x1x224.size a ≤ S8x192x224x224.size a) :
    SlotHolds (X0 d) (Cert.ScTileVal.tOf r) (Cert.ScTileVal.hOf (widL L) r) 2 (payA0 X0 d (k1_off19 L ⟨r.val, by rw [trips16]; exact r.isLt⟩) hin) :=
  slotHolds_payA0_of X0 d L r 2 _ (off19_oAt L _) hin
theorem slotHolds_refill19_A1 (hin : ∀ a, k1_off19 L ⟨r.val, by rw [trips16]; exact r.isLt⟩ a + S1x48x1x224.size a ≤ S8x192x224x224.size a) :
    SlotHolds (X1 d) (Cert.ScTileVal.tOf r) (Cert.ScTileVal.hOf (widL L) r) 2 (payA1 X1 d (k1_off19 L ⟨r.val, by rw [trips16]; exact r.isLt⟩) hin) :=
  slotHolds_payA1_of X1 d L r 2 _ (off19_oAt L _) hin
theorem slotHolds_refill34_A0 (hin : ∀ a, k1_off34 L ⟨r.val, by rw [trips16]; exact r.isLt⟩ a + S1x48x1x224.size a ≤ S8x192x224x224.size a) :
    SlotHolds (X0 d) (Cert.ScTileVal.tOf r) (Cert.ScTileVal.hOf (widL L) r) 3 (payA0 X0 d (k1_off34 L ⟨r.val, by rw [trips16]; exact r.isLt⟩) hin) :=
  slotHolds_payA0_of X0 d L r 3 _ (off34_oAt L _) hin
theorem slotHolds_refill34_A1 (hin : ∀ a, k1_off34 L ⟨r.val, by rw [trips16]; exact r.isLt⟩ a + S1x48x1x224.size a ≤ S8x192x224x224.size a) :
    SlotHolds (X1 d) (Cert.ScTileVal.tOf r) (Cert.ScTileVal.hOf (widL L) r) 3 (payA1 X1 d (k1_off34 L ⟨r.val, by rw [trips16]; exact r.isLt⟩) hin) :=
  slotHolds_payA1_of X1 d L r 3 _ (off34_oAt L _) hin

end Slots

end Cert.KernelIdeal.ScTileV

end
-- ==== Proof.AlgebraicI.lean ====
/-
  The two programs' results agree: the kernel's result is the specification's loss of its arguments, and so is the
  reference's under the precondition.
-/
import proofs.«210586_g14980845929080_cont_week2b_1062_66_alg».proof.Proof.AlgebraicFilesI
import proofs.«210586_g14980845929080_cont_week2b_1062_66_alg».proof.Proof.ScTileVLanesI
import proofs.«210586_g14980845929080_cont_week2b_1062_66_alg».proof.Proof.ScTileVFlagI
import proofs.«210586_g14980845929080_cont_week2b_1062_66_alg».proof.Proof.ScTileVHolds2I

noncomputable section

namespace Cert.KernelIdeal

open Cert.KernelIdeal.Gen Cert.KernelIdeal.Launch Cert.KernelIdeal.ScTile Cert.ScTileVal
open Idealize.ShloMosaic

/-- A payload read through buffer 0's own view is the payload. -/
theorem slotHolds_read0 (X : FVec Ideal Cert.LossSpec.SImg .f32) (t : Fin 8) (h : Fin 224) (cg : Fin 4) (p : S48x224.Idx → EReal)
    (hp : SlotHolds X t h cg p) :
    SlotHolds X t h cg ((Memref.whole cc1_scratch0 : Memref sig .scVector .vmem S48x224 .f32).view.read (Elt Ideal) p) := by
  simp only [Memref.view_whole, View.read_whole]; exact hp
/-- A payload read through buffer 1's own view is the payload. -/
theorem slotHolds_read1 (X : FVec Ideal Cert.LossSpec.SImg .f32) (t : Fin 8) (h : Fin 224) (cg : Fin 4) (p : S48x224.Idx → EReal)
    (hp : SlotHolds X t h cg p) :
    SlotHolds X t h cg ((Memref.whole cc1_scratch1 : Memref sig .scVector .vmem S48x224 .f32).view.read (Elt Ideal) p) := by
  simp only [Memref.view_whole, View.read_whole]; exact hp
/-- A payload read through buffer 2's own view is the payload. -/
theorem slotHolds_read2 (X : FVec Ideal Cert.LossSpec.SImg .f32) (t : Fin 8) (h : Fin 224) (cg : Fin 4) (p : S48x224.Idx → EReal)
    (hp : SlotHolds X t h cg p) :
    SlotHolds X t h cg ((Memref.whole cc1_scratch2 : Memref sig .scVector .vmem S48x224 .f32).view.read (Elt Ideal) p) := by
  simp only [Memref.view_whole, View.read_whole]; exact hp
/-- A payload read through buffer 3's own view is the payload. -/
theorem slotHolds_read3 (X : FVec Ideal Cert.LossSpec.SImg .f32) (t : Fin 8) (h : Fin 224) (cg : Fin 4) (p : S48x224.Idx → EReal)
    (hp : SlotHolds X t h cg p) :
    SlotHolds X t h cg ((Memref.whole cc1_scratch3 : Memref sig .scVector .vmem S48x224 .f32).view.read (Elt Ideal) p) := by
  simp only [Memref.view_whole, View.read_whole]; exact hp

/-- THE ALGEBRAIC CLAIM, closed: on every launch memory meeting the precondition, with the two programs' arguments
    equal, the kernel and the reference leave the same result — the specification's loss. -/
theorem algebraic_closed :
    Cert.algebraic_KernelIdeal_ReferenceIdeal (hKernelIdeal := Cert.KernelIdeal.Gen.facts)
      (hReferenceIdeal := Cert.ReferenceIdeal.Gen.facts) (hPre_input_domain := Cert.Pre_input_domain.Gen.facts) :=
  KernelValue.algebraic_of_files fun m d L r kk hf l =>
    ScTileV.filesRow_lanes d L (X0 m) (X1 m) ⟨r.val, by rw [ScTileV.trips16]; exact r.isLt⟩ (ScTileV.payM (Mk m) d L)
      (ScTileV.oAt_inb L r 0) (ScTileV.oAt_inb L r 1) (X0 m d) (X1 m d) (Mk m d) (tOf r) (hOf (widL L) r)
      (slotHolds_read0 _ _ _ _ _ (ScTileV.slotHolds_payA0 (X0 m) d L r 0 _)) (slotHolds_read1 _ _ _ _ _ (ScTileV.slotHolds_payA1 (X1 m) d L r 0 _))
      (slotHolds_read2 _ _ _ _ _ (ScTileV.slotHolds_payA0 (X0 m) d L r 1 _)) (slotHolds_read3 _ _ _ _ _ (ScTileV.slotHolds_payA1 (X1 m) d L r 1 _))
      (slotHolds_read0 _ _ _ _ _ (ScTileV.slotHolds_refill19_A0 (X0 m) d L r _)) (slotHolds_read1 _ _ _ _ _ (ScTileV.slotHolds_refill19_A1 (X1 m) d L r _))
      (slotHolds_read2 _ _ _ _ _ (ScTileV.slotHolds_refill34_A0 (X0 m) d L r _)) (slotHolds_read3 _ _ _ _ _ (ScTileV.slotHolds_refill34_A1 (X1 m) d L r _))
      (fun q => ScTileV.flagB_flagBit (Mk m) d L r q) kk hf l

end Cert.KernelIdeal

end
-- ==== Proof.lean ====
/-
  The certificate of an imitation loss. Both programs compute, for input and target images x, y : f32[8,192,224,224] and
  twenty boxes per image,
      S = ∑ over pixels (b, h, w) of pos(b,h,w) · ∑_c (x − y)²,     N = ∑ over pixels of pos(b,h,w),
  where pos is 1 when some channel of the target is nonzero at the pixel and the pixel lies in the rows [y1, y2) and columns
  [x2, x1) of some box, else 0. The reference forms ∑ ((∑_c ½(x−y)²·(pos/N)) / 192) / 8, the kernel (½·S / N) / 1536: equal
  over the extended reals when the inputs are finite and N > 0 — the precondition says both; at N = 0 the two quotient
  conventions differ, and there the reference itself divides zero by zero.
  The kernel is three kernels: a TensorCore region that writes the box mask (with, per row and group of 32 columns, whether the
  group meets a box), a SparseCore kernel on 32 vector subcores that sums the rows h ≥ 160 (two rows per subcore, streamed
  in blocks of 48 channels through two pairs of buffers), and a TensorCore region that sums the rows h < 160 into two words;
  fifteen host operations add the partial sums and divide.
  Frames: the reference is a straight line (its generated run). For the kernel, at either reading of the floats, the launch
  theorem for SparseCore programs turns three proofs into the run of all 35 threads: @main on the TensorCore (each region
  entered from the boundary with its staging cells' ghost state, the call between them handing the four arrays to the
  SparseCores and back), one subcore's task at a symbolic subcore, and the split of the call's arrays among the subcores.
-/
import proofs.«210586_g14980845929080_cont_week2b_1062_66_alg».proof.Defs
import proofs.«210586_g14980845929080_cont_week2b_1062_66_alg».proof.Proof.Gen.Kernel
import proofs.«210586_g14980845929080_cont_week2b_1062_66_alg».proof.Proof.Gen.KernelIdeal
import proofs.«210586_g14980845929080_cont_week2b_1062_66_alg».proof.Proof.Gen.ReferenceIdeal
import proofs.«210586_g14980845929080_cont_week2b_1062_66_alg».proof.Proof.Gen.Pre_input_domain
import proofs.«210586_g14980845929080_cont_week2b_1062_66_alg».proof.Proof.RefFrame
import proofs.«210586_g14980845929080_cont_week2b_1062_66_alg».proof.Proof.RefRun
import proofs.«210586_g14980845929080_cont_week2b_1062_66_alg».proof.Proof.LaunchRunI
import proofs.«210586_g14980845929080_cont_week2b_1062_66_alg».proof.Proof.LaunchRunB
import proofs.«210586_g14980845929080_cont_week2b_1062_66_alg».proof.Proof.ScTileBodyI
import proofs.«210586_g14980845929080_cont_week2b_1062_66_alg».proof.Proof.ScTileBodyB
import proofs.«210586_g14980845929080_cont_week2b_1062_66_alg».proof.Proof.AlgebraicI

noncomputable section

namespace Cert.Proof

open Idealize.ShloMosaic Idealize.SL.Sem

/-- The kernel as printed, floats read as bit patterns: every weakly fair execution of its 35 threads ends, nothing
    faulting, the three argument arrays as launched. -/
theorem frame_kernel : Cert.frame_Kernel (hKernel := Cert.Kernel.Gen.facts) (hPre_input_domain := Cert.Pre_input_domain.Gen.facts) :=
  fun m ρ _ => (θ_run _ _ _).mono (fun _ h c => h c)
    (Cert.Kernel.Launch.run_main (F := Bits) m ρ (Cert.Kernel.ScTile.tileObl (F := Bits) _ _ _ _))

/-- The same program with floats read as extended reals. -/
theorem frame_kernelIdeal : Cert.frame_KernelIdeal (hKernelIdeal := Cert.KernelIdeal.Gen.facts) (hPre_input_domain := Cert.Pre_input_domain.Gen.facts) :=
  fun m ρ _ => (θ_run _ _ _).mono (fun _ h c => h c)
    (Cert.KernelIdeal.Launch.run_main (F := Ideal) m ρ (Cert.KernelIdeal.ScTile.tileObl (F := Ideal) _ _ _ _))

/-- Over the extended reals the kernel's result is the reference's: the mask region's array is the box mask with its
    per-group flags; each subcore's row of partial sums is, lane by lane, the sums of pos·∑_c(x−y)² and of pos over its two
    rows of every image (a lane group whose flag is off contributes nothing, on both sides); the loss region's two words are
    the same sums over the rows h < 160; the straight line adds the halves and divides; and the reference, read one
    operation at a time, is ½·S/N/1536 as well when the inputs are finite and N > 0. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) :=
  Cert.KernelIdeal.algebraic_closed

theorem claim : Cert.Claim := ⟨Cert.Kernel.Gen.facts, Cert.KernelIdeal.Gen.facts, Cert.ReferenceIdeal.Gen.facts, Cert.Pre_input_domain.Gen.facts,
  frame_kernel, frame_kernelIdeal, Cert.Proof.Parts.frame_reference, Cert.Proof.Parts.preserves, algebraic⟩

end Cert.Proof

end
